-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  IdealRules.truncf_extf.Statement Cert.KernelIdeal.S2048x128 .f32 .bf16
  ∧ IdealRules.truncf_extf.Statement Cert.KernelIdeal.S4096x128 .f32 .bf16
  ∧ IdealRules.truncf_extf.Statement Cert.KernelIdeal.S2048x128 .f32 .bf16
  ∧ IdealRules.truncf_extf.Statement Cert.KernelIdeal.S4096x128 .f32 .bf16
  ∧ IdealRules.truncf_extf.Statement Cert.KernelIdeal.S2048x128 .f32 .bf16
  ∧ IdealRules.truncf_extf.Statement Cert.KernelIdeal.S4096x128 .f32 .bf16
  ∧ IdealRules.truncf_extf.Statement Cert.KernelIdeal.S2048x128 .f32 .bf16
  ∧ IdealRules.truncf_extf.Statement Cert.KernelIdeal.S4096x128 .f32 .bf16
  ∧ IdealRules.truncf_extf.Statement Cert.KernelIdeal.S2048x128 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v54)) (v1 : (c : Dev Cert.KernelIdeal.nD) → Buf (Elt Ideal) ((c.tc : Thread Cert.KernelIdeal.nD Cert.KernelIdeal.τ).loc Cert.KernelIdeal.main_v55)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54) = v0 c
          ∧ r.2.mem ((c.tc : Thread Cert.KernelIdeal.nD Cert.KernelIdeal.τ).loc Cert.KernelIdeal.main_v55) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_v92) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x64 : Shape := ⟨2, ![4096, 64]⟩
abbrev S8192x32 : Shape := ⟨2, ![8192, 32]⟩
abbrev S4096x8192 : Shape := ⟨2, ![4096, 8192]⟩
abbrev S128x64 : Shape := ⟨2, ![128, 64]⟩
abbrev S128 : Shape := ⟨1, ![128]⟩
abbrev S128x128 : Shape := ⟨2, ![128, 128]⟩
abbrev S128x32 : Shape := ⟨2, ![128, 32]⟩
abbrev S4x128x128 : Shape := ⟨3, ![4, 128, 128]⟩
abbrev S4x128 : Shape := ⟨2, ![4, 128]⟩
abbrev S_ : Shape := ⟨0, ![]⟩

class Facts : Prop where
  bcast_S_S4096x64 : S_.BroadcastsInDim S4096x64 (![] : Fin 0 → Fin S4096x64.rank)
  reducesTo_S4096x64_S_d0_1 : S4096x64.ReducesTo [0, 1] S_
  h_S_ : 0 < S_.numel
  bcast_S_S8192x32 : S_.BroadcastsInDim S8192x32 (![] : Fin 0 → Fin S8192x32.rank)
  reducesTo_S8192x32_S_d0_1 : S8192x32.ReducesTo [0, 1] S_
  bcast_S_S4096x8192 : S_.BroadcastsInDim S4096x8192 (![] : Fin 0 → Fin S4096x8192.rank)
  reducesTo_S4096x8192_S_d0_1 : S4096x8192.ReducesTo [0, 1] S_
  bcast_S_S128x64 : S_.BroadcastsInDim S128x64 (![] : Fin 0 → Fin S128x64.rank)
  reducesTo_S128x64_S_d0_1 : S128x64.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x32 : S_.BroadcastsInDim S128x32 (![] : Fin 0 → Fin S128x32.rank)
  reducesTo_S128x32_S_d0_1 : S128x32.ReducesTo [0, 1] S_
  bcast_S_S4x128x128 : S_.BroadcastsInDim S4x128x128 (![] : Fin 0 → Fin S4x128x128.rank)
  reducesTo_S4x128x128_S_d0_1_2 : S4x128x128.ReducesTo [0, 1, 2] S_
  bcast_S_S4x128 : S_.BroadcastsInDim S4x128 (![] : Fin 0 → Fin S4x128.rank)
  reducesTo_S4x128_S_d0_1 : S4x128.ReducesTo [0, 1] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg11 : FVec F S128 .f32) (main_arg12 : FVec F S4x128x128 .f32) (main_arg13 : FVec F S4x128 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg11
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S4x128x128 .f32 := Host.absf main_arg12
  let main_cst_22 : FVec F S_ .f32 := constant S_ .f32 0x7F800000#32
  let main_v60 : FVec F S4x128x128 .f32 := broadcastInDim S4x128x128 ![] bcast_S_S4x128x128 main_cst_22
  let main_v61 : IVec S4x128x128 1 := cmpf .olt main_v59 main_v60
  let main_c_23 : IVec S_ 1 := constantI S_ 1 1#1
  let main_v62 : IVec S_ 1 := (fun x v => Host.reduce IntOp.andi x v reducesTo_S4x128x128_S_d0_1_2 h_S_) main_v61 main_c_23
  let main_v63 : IVec S_ 1 := andi main_v58 main_v62
  let main_v64 : FVec F S4x128 .f32 := Host.absf main_arg13
  let main_cst_24 : FVec F S_ .f32 := constant S_ .f32 0x7F800000#32
  let main_v65 : FVec F S4x128 .f32 := broadcastInDim S4x128 ![] bcast_S_S4x128 main_cst_24
  let main_v66 : IVec S4x128 1 := cmpf .olt main_v64 main_v65
  let main_c_25 : IVec S_ 1 := constantI S_ 1 1#1
  let main_v67 : IVec S_ 1 := (fun x v => Host.reduce IntOp.andi x v reducesTo_S4x128_S_d0_1 h_S_) main_v66 main_c_25
  fn_part4 (F := F) main_v63 main_v67

def fn_part2 {F : FTy → Type} [FloatOps F] (main_arg7 : FVec F S128 .f32) (main_arg8 : FVec F S128x32 .f32) (main_arg9 : FVec F S128 .f32) (main_arg10 : FVec F S128x128 .f32) (main_arg11 : FVec F S128 .f32) (main_arg12 : FVec F S4x128x128 .f32) (main_arg13 : FVec F S4x128 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x32 .f32 := Host.absf main_arg8
  let main_cst_14 : FVec F S_ .f32 := constant S_ .f32 0x7F800000#32
  let main_v40 : FVec F S128x32 .f32 := broadcastInDim S128x32 ![] bcast_S_S128x32 main_cst_14
  let main_v41 : IVec S128x32 1 := cmpf .olt main_v39 main_v40
  let main_c_15 : IVec S_ 1 := constantI S_ 1 1#1
  let main_v42 : IVec S_ 1 := (fun x v => Host.reduce IntOp.andi x v reducesTo_S128x32_S_d0_1 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg10
  let main_cst_18 : FVec F S_ .f32 := constant S_ .f32 0x7F800000#32
  let main_v50 : FVec F S128x128 .f32 := broadcastInDim S128x128 ![] bcast_S_S128x128 main_cst_18
  fn_part3 (F := F) main_arg11 main_arg12 main_arg13 main_v48 main_v49 main_v50

def fn_part1 {F : FTy → Type} [FloatOps F] (main_arg4 : FVec F S128x64 .f32) (main_arg5 : FVec F S128 .f32) (main_arg6 : FVec F S128x128 .f32) (main_arg7 : FVec F S128 .f32) (main_arg8 : FVec F S128x32 .f32) (main_arg9 : FVec F S128 .f32) (main_arg10 : FVec F S128x128 .f32) (main_arg11 : FVec F S128 .f32) (main_arg12 : FVec F S4x128x128 .f32) (main_arg13 : FVec F S4x128 .f32) (main_v13 : IVec S_ 1) (main_v16 : IVec S4096x8192 1) : IVec S_ 1 :=
  let main_c_5 : IVec S_ 1 := constantI S_ 1 1#1
  let main_v17 : IVec S_ 1 := (fun x v => Host.reduce IntOp.andi x v reducesTo_S4096x8192_S_d0_1 h_S_) main_v16 main_c_5
  let main_v18 : IVec S_ 1 := andi main_v13 main_v17
  let main_v19 : FVec F S128x64 .f32 := Host.absf main_arg4
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S4096x64 .f32) (main_arg1 : FVec F S8192x32 .f32) (main_arg2 : FVec F S4096x8192 .f32) (main_arg3 : FVec F S4096x8192 .f32) (main_arg4 : FVec F S128x64 .f32) (main_arg5 : FVec F S128 .f32) (main_arg6 : FVec F S128x128 .f32) (main_arg7 : FVec F S128 .f32) (main_arg8 : FVec F S128x32 .f32) (main_arg9 : FVec F S128 .f32) (main_arg10 : FVec F S128x128 .f32) (main_arg11 : FVec F S128 .f32) (main_arg12 : FVec F S4x128x128 .f32) (main_arg13 : FVec F S4x128 .f32) : IVec S_ 1 :=
  let main_v0 : FVec F S4096x64 .f32 := Host.absf main_arg0
  let main_cst : FVec F S_ .f32 := constant S_ .f32 0x7F800000#32
  let main_v1 : FVec F S4096x64 .f32 := broadcastInDim S4096x64 ![] bcast_S_S4096x64 main_cst
  let main_v2 : IVec S4096x64 1 := cmpf .olt main_v0 main_v1
  let main_c : IVec S_ 1 := constantI S_ 1 1#1
  let main_v3 : IVec S_ 1 := (fun x v => Host.reduce IntOp.andi x v reducesTo_S4096x64_S_d0_1 h_S_) main_v2 main_c
  let main_v4 : FVec F S8192x32 .f32 := Host.absf main_arg1
  let main_cst_0 : FVec F S_ .f32 := constant S_ .f32 0x7F800000#32
  let main_v5 : FVec F S8192x32 .f32 := broadcastInDim S8192x32 ![] bcast_S_S8192x32 main_cst_0
  let main_v6 : IVec S8192x32 1 := cmpf .olt main_v4 main_v5
  let main_c_1 : IVec S_ 1 := constantI S_ 1 1#1
  let main_v7 : IVec S_ 1 := (fun x v => Host.reduce IntOp.andi x v reducesTo_S8192x32_S_d0_1 h_S_) main_v6 main_c_1
  let main_v8 : IVec S_ 1 := andi main_v3 main_v7
  let main_v9 : FVec F S4096x8192 .f32 := Host.absf main_arg2
  let main_cst_2 : FVec F S_ .f32 := constant S_ .f32 0x7F800000#32
  let main_v10 : FVec F S4096x8192 .f32 := broadcastInDim S4096x8192 ![] bcast_S_S4096x8192 main_cst_2
  let main_v11 : IVec S4096x8192 1 := cmpf .olt main_v9 main_v10
  let main_c_3 : IVec S_ 1 := constantI S_ 1 1#1
  let main_v12 : IVec S_ 1 := (fun x v => Host.reduce IntOp.andi x v reducesTo_S4096x8192_S_d0_1 h_S_) main_v11 main_c_3
  let main_v13 : IVec S_ 1 := andi main_v8 main_v12
  let main_v14 : FVec F S4096x8192 .f32 := Host.absf main_arg3
  let main_cst_4 : FVec F S_ .f32 := constant S_ .f32 0x7F800000#32
  let main_v15 : FVec F S4096x8192 .f32 := broadcastInDim S4096x8192 ![] bcast_S_S4096x8192 main_cst_4
  let main_v16 : IVec S4096x8192 1 := cmpf .olt main_v14 main_v15
  fn_part1 (F := F) main_arg4 main_arg5 main_arg6 main_arg7 main_arg8 main_arg9 main_arg10 main_arg11 main_arg12 main_arg13 main_v13 main_v16
-- ==== Kernel.lean ====
abbrev S4096x64 : Shape := ⟨2, ![4096, 64]⟩
abbrev S8192x32 : Shape := ⟨2, ![8192, 32]⟩
abbrev S4096x8192 : Shape := ⟨2, ![4096, 8192]⟩
abbrev S128x64 : Shape := ⟨2, ![128, 64]⟩
abbrev S128 : Shape := ⟨1, ![128]⟩
abbrev S128x128 : Shape := ⟨2, ![128, 128]⟩
abbrev S128x32 : Shape := ⟨2, ![128, 32]⟩
abbrev S4x128x128 : Shape := ⟨3, ![4, 128, 128]⟩
abbrev S4x128 : Shape := ⟨2, ![4, 128]⟩
abbrev S64x128 : Shape := ⟨2, ![64, 128]⟩
abbrev S4096x128 : Shape := ⟨2, ![4096, 128]⟩
abbrev S1x128 : Shape := ⟨2, ![1, 128]⟩
abbrev S_ : Shape := ⟨0, ![]⟩
abbrev S32x128 : Shape := ⟨2, ![32, 128]⟩
abbrev S8192x128 : Shape := ⟨2, ![8192, 128]⟩
abbrev S2048x1024 : Shape := ⟨2, ![2048, 1024]⟩
abbrev S2048x128 : Shape := ⟨2, ![2048, 128]⟩
abbrev S1024x128 : Shape := ⟨2, ![1024, 128]⟩
abbrev S1x128x128 : Shape := ⟨3, ![1, 128, 128]⟩
abbrev S1024x4096 : Shape := ⟨2, ![1024, 4096]⟩
abbrev S8192x384 : Shape := ⟨2, ![8192, 384]⟩
abbrev S1024x384 : Shape := ⟨2, ![1024, 384]⟩

abbrev nBuf : Space → Nat
  | .hbm => 84
  | .vmem => 92
  | .smem => 0
  | _ => 0

abbrev bufTy : (tb : Table) → Fin (tcTables nBuf tb) → BufTy
  | .hbm, ⟨0, _⟩ => ⟨S4096x64, .f32⟩
  | .hbm, ⟨1, _⟩ => ⟨S8192x32, .f32⟩
  | .hbm, ⟨2, _⟩ => ⟨S4096x8192, .f32⟩
  | .hbm, ⟨3, _⟩ => ⟨S4096x8192, .f32⟩
  | .hbm, ⟨4, _⟩ => ⟨S128x64, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x32, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S4x128x128, .f32⟩
  | .hbm, ⟨13, _⟩ => ⟨S4x128, .f32⟩
  | .hbm, ⟨14, _⟩ => ⟨S64x128, .f32⟩
  | .hbm, ⟨15, _⟩ => ⟨S4096x128, .f32⟩
  | .hbm, ⟨16, _⟩ => ⟨S1x128, .f32⟩
  | .hbm, ⟨17, _⟩ => ⟨S4096x128, .f32⟩
  | .hbm, ⟨18, _⟩ => ⟨S4096x128, .f32⟩
  | .hbm, ⟨19, _⟩ => ⟨S_, .f32⟩
  | .hbm, ⟨20, _⟩ => ⟨S_, .f32⟩
  | .hbm, ⟨21, _⟩ => ⟨S4096x128, .f32⟩
  | .hbm, ⟨22, _⟩ => ⟨S4096x128, .i1⟩
  | .hbm, ⟨23, _⟩ => ⟨S_, .f32⟩
  | .hbm, ⟨24, _⟩ => ⟨S4096x128, .f32⟩
  | .hbm, ⟨25, _⟩ => ⟨S4096x128, .f32⟩
  | .hbm, ⟨26, _⟩ => ⟨S4096x128, .f32⟩
  | .hbm, ⟨27, _⟩ => ⟨S128x128, .f32⟩
  | .hbm, ⟨28, _⟩ => ⟨S4096x128, .f32⟩
  | .hbm, ⟨29, _⟩ => ⟨S1x128, .f32⟩
  | .hbm, ⟨30, _⟩ => ⟨S4096x128, .f32⟩
  | .hbm, ⟨31, _⟩ => ⟨S4096x128, .f32⟩
  | .hbm, ⟨32, _⟩ => ⟨S4096x128, .f32⟩
  | .hbm, ⟨33, _⟩ => ⟨S32x128, .f32⟩
  | .hbm, ⟨34, _⟩ => ⟨S8192x128, .f32⟩
  | .hbm, ⟨35, _⟩ => ⟨S1x128, .f32⟩
  | .hbm, ⟨36, _⟩ => ⟨S8192x128, .f32⟩
  | .hbm, ⟨37, _⟩ => ⟨S8192x128, .f32⟩
  | .hbm, ⟨38, _⟩ => ⟨S_, .f32⟩
  | .hbm, ⟨39, _⟩ => ⟨S_, .f32⟩
  | .hbm, ⟨40, _⟩ => ⟨S8192x128, .f32⟩
  | .hbm, ⟨41, _⟩ => ⟨S8192x128, .i1⟩
  | .hbm, ⟨42, _⟩ => ⟨S_, .f32⟩
  | .hbm, ⟨43, _⟩ => ⟨S8192x128, .f32⟩
  | .hbm, ⟨44, _⟩ => ⟨S8192x128, .f32⟩
  | .hbm, ⟨45, _⟩ => ⟨S8192x128, .f32⟩
  | .hbm, ⟨46, _⟩ => ⟨S128x128, .f32⟩
  | .hbm, ⟨47, _⟩ => ⟨S8192x128, .f32⟩
  | .hbm, ⟨48, _⟩ => ⟨S1x128, .f32⟩
  | .hbm, ⟨49, _⟩ => ⟨S8192x128, .f32⟩
  | .hbm, ⟨50, _⟩ => ⟨S8192x128, .f32⟩
  | .hbm, ⟨51, _⟩ => ⟨S8192x128, .f32⟩
  | .hbm, ⟨52, _⟩ => ⟨S4096x8192, .bf16⟩
  | .hbm, ⟨53, _⟩ => ⟨S4096x8192, .bf16⟩
  | .hbm, ⟨54, _⟩ => ⟨S4x128x128, .f32⟩
  | .hbm, ⟨55, _⟩ => ⟨S8192x128, .f32⟩
  | .hbm, ⟨56, _⟩ => ⟨S1x128x128, .f32⟩
  | .hbm, ⟨57, _⟩ => ⟨S128x128, .f32⟩
  | .hbm, ⟨58, _⟩ => ⟨S1x128, .f32⟩
  | .hbm, ⟨59, _⟩ => ⟨S128, .f32⟩
  | .hbm, ⟨60, _⟩ => ⟨S1x128, .f32⟩
  | .hbm, ⟨61, _⟩ => ⟨S4096x128, .f32⟩
  | .hbm, ⟨62, _⟩ => ⟨S8192x128, .f32⟩
  | .hbm, ⟨63, _⟩ => ⟨S1x128x128, .f32⟩
  | .hbm, ⟨64, _⟩ => ⟨S128x128, .f32⟩
  | .hbm, ⟨65, _⟩ => ⟨S1x128, .f32⟩
  | .hbm, ⟨66, _⟩ => ⟨S128, .f32⟩
  | .hbm, ⟨67, _⟩ => ⟨S1x128, .f32⟩
  | .hbm, ⟨68, _⟩ => ⟨S4096x128, .f32⟩
  | .hbm, ⟨69, _⟩ => ⟨S8192x128, .f32⟩
  | .hbm, ⟨70, _⟩ => ⟨S1x128x128, .f32⟩
  | .hbm, ⟨71, _⟩ => ⟨S128x128, .f32⟩
  | .hbm, ⟨72, _⟩ => ⟨S1x128, .f32⟩
  | .hbm, ⟨73, _⟩ => ⟨S128, .f32⟩
  | .hbm, ⟨74, _⟩ => ⟨S1x128, .f32⟩
  | .hbm, ⟨75, _⟩ => ⟨S4096x128, .f32⟩
  | .hbm, ⟨76, _⟩ => ⟨S8192x128, .f32⟩
  | .hbm, ⟨77, _⟩ => ⟨S1x128x128, .f32⟩
  | .hbm, ⟨78, _⟩ => ⟨S128x128, .f32⟩
  | .hbm, ⟨79, _⟩ => ⟨S1x128, .f32⟩
  | .hbm, ⟨80, _⟩ => ⟨S128, .f32⟩
  | .hbm, ⟨81, _⟩ => ⟨S1x128, .f32⟩
  | .hbm, ⟨82, _⟩ => ⟨S4096x128, .f32⟩
  | .hbm, ⟨83, _⟩ => ⟨S8192x384, .f32⟩
  | .local _ .vmem, ⟨0, _⟩ => ⟨S2048x1024, .bf16⟩
  | .local _ .vmem, ⟨1, _⟩ => ⟨S2048x1024, .bf16⟩
  | .local _ .vmem, ⟨2, _⟩ => ⟨S2048x128, .f32⟩
  | .local _ .vmem, ⟨3, _⟩ => ⟨S2048x128, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x4096, .bf16⟩
  | .local _ .vmem, ⟨10, _⟩ => ⟨S1024x4096, .bf16⟩
  | .local _ .vmem, ⟨11, _⟩ => ⟨S4096x128, .f32⟩
  | .local _ .vmem, ⟨12, _⟩ => ⟨S4096x128, .f32⟩
  | .local _ .vmem, ⟨13, _⟩ => ⟨S1024x128, .f32⟩
  | .local _ .vmem, ⟨14, _⟩ => ⟨S1024x128, .f32⟩
  | .local _ .vmem, ⟨15, _⟩ => ⟨S128x128, .f32⟩
  | .local _ .vmem, ⟨16, _⟩ => ⟨S1x128, .f32⟩
  | .local _ .vmem, ⟨17, _⟩ => ⟨S1024x128, .f32⟩
  | .local _ .vmem, ⟨18, _⟩ => ⟨S1024x128, .f32⟩
  | .local _ .vmem, ⟨19, _⟩ => ⟨S1024x128, .f32⟩
  | .local _ .vmem, ⟨20, _⟩ => ⟨S2048x1024, .bf16⟩
  | .local _ .vmem, ⟨21, _⟩ => ⟨S2048x1024, .bf16⟩
  | .local _ .vmem, ⟨22, _⟩ => ⟨S2048x128, .f32⟩
  | .local _ .vmem, ⟨23, _⟩ => ⟨S2048x128, .f32⟩
  | .local _ .vmem, ⟨24, _⟩ => ⟨S1024x128, .f32⟩
  | .local _ .vmem, ⟨25, _⟩ => ⟨S1024x128, .f32⟩
  | .local _ .vmem, ⟨26, _⟩ => ⟨S1024x128, .f32⟩
  | .local _ .vmem, ⟨27, _⟩ => ⟨S1024x128, .f32⟩
  | .local _ .vmem, ⟨28, _⟩ => ⟨S1024x128, .f32⟩
  | .local _ .vmem, ⟨29, _⟩ => ⟨S1024x4096, .bf16⟩
  | .local _ .vmem, ⟨30, _⟩ => ⟨S1024x4096, .bf16⟩
  | .local _ .vmem, ⟨31, _⟩ => ⟨S4096x128, .f32⟩
  | .local _ .vmem, ⟨32, _⟩ => ⟨S4096x128, .f32⟩
  | .local _ .vmem, ⟨33, _⟩ => ⟨S1024x128, .f32⟩
  | .local _ .vmem, ⟨34, _⟩ => ⟨S1024x128, .f32⟩
  | .local _ .vmem, ⟨35, _⟩ => ⟨S128x128, .f32⟩
  | .local _ .vmem, ⟨36, _⟩ => ⟨S1x128, .f32⟩
  | .local _ .vmem, ⟨37, _⟩ => ⟨S1024x128, .f32⟩
  | .local _ .vmem, ⟨38, _⟩ => ⟨S1024x128, .f32⟩
  | .local _ .vmem, ⟨39, _⟩ => ⟨S1024x128, .f32⟩
  | .local _ .vmem, ⟨40, _⟩ => ⟨S2048x1024, .bf16⟩
  | .local _ .vmem, ⟨41, _⟩ => ⟨S2048x1024, .bf16⟩
  | .local _ .vmem, ⟨42, _⟩ => ⟨S2048x128, .f32⟩
  | .local _ .vmem, ⟨43, _⟩ => ⟨S2048x128, .f32⟩
  | .local _ .vmem, ⟨44, _⟩ => ⟨S1024x128, .f32⟩
  | .local _ .vmem, ⟨45, _⟩ => ⟨S1024x128, .f32⟩
  | .local _ .vmem, ⟨46, _⟩ => ⟨S1024x128, .f32⟩
  | .local _ .vmem, ⟨47, _⟩ => ⟨S1024x128, .f32⟩
  | .local _ .vmem, ⟨48, _⟩ => ⟨S1024x128, .f32⟩
  | .local _ .vmem, ⟨49, _⟩ => ⟨S1024x4096, .bf16⟩
  | .local _ .vmem, ⟨50, _⟩ => ⟨S1024x4096, .bf16⟩
  | .local _ .vmem, ⟨51, _⟩ => ⟨S4096x128, .f32⟩
  | .local _ .vmem, ⟨52, _⟩ => ⟨S4096x128, .f32⟩
  | .local _ .vmem, ⟨53, _⟩ => ⟨S1024x128, .f32⟩
  | .local _ .vmem, ⟨54, _⟩ => ⟨S1024x128, .f32⟩
  | .local _ .vmem, ⟨55, _⟩ => ⟨S128x128, .f32⟩
  | .local _ .vmem, ⟨56, _⟩ => ⟨S1x128, .f32⟩
  | .local _ .vmem, ⟨57, _⟩ => ⟨S1024x128, .f32⟩
  | .local _ .vmem, ⟨58, _⟩ => ⟨S1024x128, .f32⟩
  | .local _ .vmem, ⟨59, _⟩ => ⟨S1024x128, .f32⟩
  | .local _ .vmem, ⟨60, _⟩ => ⟨S2048x1024, .bf16⟩
  | .local _ .vmem, ⟨61, _⟩ => ⟨S2048x1024, .bf16⟩
  | .local _ .vmem, ⟨62, _⟩ => ⟨S2048x128, .f32⟩
  | .local _ .vmem, ⟨63, _⟩ => ⟨S2048x128, .f32⟩
  | .local _ .vmem, ⟨64, _⟩ => ⟨S1024x128, .f32⟩
  | .local _ .vmem, ⟨65, _⟩ => ⟨S1024x128, .f32⟩
  | .local _ .vmem, ⟨66, _⟩ => ⟨S1024x128, .f32⟩
  | .local _ .vmem, ⟨67, _⟩ => ⟨S1024x128, .f32⟩
  | .local _ .vmem, ⟨68, _⟩ => ⟨S1024x128, .f32⟩
  | .local _ .vmem, ⟨69, _⟩ => ⟨S1024x4096, .bf16⟩
  | .local _ .vmem, ⟨70, _⟩ => ⟨S1024x4096, .bf16⟩
  | .local _ .vmem, ⟨71, _⟩ => ⟨S4096x128, .f32⟩
  | .local _ .vmem, ⟨72, _⟩ => ⟨S4096x128, .f32⟩
  | .local _ .vmem, ⟨73, _⟩ => ⟨S1024x128, .f32⟩
  | .local _ .vmem, ⟨74, _⟩ => ⟨S1024x128, .f32⟩
  | .local _ .vmem, ⟨75, _⟩ => ⟨S128x128, .f32⟩
  | .local _ .vmem, ⟨76, _⟩ => ⟨S1x128, .f32⟩
  | .local _ .vmem, ⟨77, _⟩ => ⟨S1024x128, .f32⟩
  | .local _ .vmem, ⟨78, _⟩ => ⟨S1024x128, .f32⟩
  | .local _ .vmem, ⟨79, _⟩ => ⟨S1024x128, .f32⟩
  | .local _ .vmem, ⟨80, _⟩ => ⟨S2048x1024, .bf16⟩
  | .local _ .vmem, ⟨81, _⟩ => ⟨S2048x1024, .bf16⟩
  | .local _ .vmem, ⟨82, _⟩ => ⟨S2048x1024, .bf16⟩
  | .local _ .vmem, ⟨83, _⟩ => ⟨S2048x1024, .bf16⟩
  | .local _ .vmem, ⟨84, _⟩ => ⟨S2048x128, .f32⟩
  | .local _ .vmem, ⟨85, _⟩ => ⟨S2048x128, .f32⟩
  | .local _ .vmem, ⟨86, _⟩ => ⟨S1024x128, .f32⟩
  | .local _ .vmem, ⟨87, _⟩ => ⟨S1024x128, .f32⟩
  | .local _ .vmem, ⟨88, _⟩ => ⟨S1024x384, .f32⟩
  | .local _ .vmem, ⟨89, _⟩ => ⟨S1024x384, .f32⟩
  | .local _ .vmem, ⟨90, _⟩ => ⟨S1024x128, .f32⟩
  | .local _ .vmem, ⟨91, _⟩ => ⟨S1024x128, .f32⟩
  | _, _ => ⟨S4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | _, _ => false

abbrev semScoped : Fin 0 → Bool
  | ⟨_, h⟩ => absurd h (Nat.not_lt_zero _)

abbrev dmaSemScoped : Fin 82 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | _ => false

abbrev sig : RefSig :=
  ofTc nBuf bufTy 0 82 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst : Ref sig .tc := ⟨.hbm, 19, rfl⟩
abbrev main_call0_cst : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_cst_0 : Ref sig .tc := ⟨.hbm, 38, rfl⟩
abbrev main_call1_cst : Ref sig .tc := ⟨.hbm, 39, rfl⟩
abbrev main_call1_v0 : Ref sig .tc := ⟨.hbm, 40, rfl⟩
abbrev main_call1_v1 : Ref sig .tc := ⟨.hbm, 41, rfl⟩
abbrev main_call1_v2 : Ref sig .tc := ⟨.hbm, 42, rfl⟩
abbrev main_call1_v3 : Ref sig .tc := ⟨.hbm, 43, rfl⟩
abbrev main_call1_v4 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg5_1 : Ref sig .tc := ⟨.vmem, 18, rfl⟩
abbrev cc1_scratch0 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg2_1 : Ref sig .tc := ⟨.vmem, 25, rfl⟩
abbrev cc2_stg3_0 : Ref sig .tc := ⟨.vmem, 26, rfl⟩
abbrev cc2_stg3_1 : Ref sig .tc := ⟨.vmem, 27, rfl⟩
abbrev cc2_scratch0 : Ref sig .tc := ⟨.vmem, 28, rfl⟩
abbrev cc3_stg0_0 : Ref sig .tc := ⟨.vmem, 29, rfl⟩
abbrev cc3_stg0_1 : Ref sig .tc := ⟨.vmem, 30, rfl⟩
abbrev cc3_stg1_0 : Ref sig .tc := ⟨.vmem, 31, rfl⟩
abbrev cc3_stg1_1 : Ref sig .tc := ⟨.vmem, 32, rfl⟩
abbrev cc3_stg2_0 : Ref sig .tc := ⟨.vmem, 33, rfl⟩
abbrev cc3_stg2_1 : Ref sig .tc := ⟨.vmem, 34, rfl⟩
abbrev cc3_stg3_0 : Ref sig .tc := ⟨.vmem, 35, rfl⟩
abbrev cc3_stg4_0 : Ref sig .tc := ⟨.vmem, 36, rfl⟩
abbrev cc3_stg5_0 : Ref sig .tc := ⟨.vmem, 37, rfl⟩
abbrev cc3_stg5_1 : Ref sig .tc := ⟨.vmem, 38, rfl⟩
abbrev cc3_scratch0 : Ref sig .tc := ⟨.vmem, 39, rfl⟩
abbrev cc4_stg0_0 : Ref sig .tc := ⟨.vmem, 40, rfl⟩
abbrev cc4_stg0_1 : Ref sig .tc := ⟨.vmem, 41, rfl⟩
abbrev cc4_stg1_0 : Ref sig .tc := ⟨.vmem, 42, rfl⟩
abbrev cc4_stg1_1 : Ref sig .tc := ⟨.vmem, 43, rfl⟩
abbrev cc4_stg2_0 : Ref sig .tc := ⟨.vmem, 44, rfl⟩
abbrev cc4_stg2_1 : Ref sig .tc := ⟨.vmem, 45, rfl⟩
abbrev cc4_stg3_0 : Ref sig .tc := ⟨.vmem, 46, rfl⟩
abbrev cc4_stg3_1 : Ref sig .tc := ⟨.vmem, 47, rfl⟩
abbrev cc4_scratch0 : Ref sig .tc := ⟨.vmem, 48, rfl⟩
abbrev cc5_stg0_0 : Ref sig .tc := ⟨.vmem, 49, rfl⟩
abbrev cc5_stg0_1 : Ref sig .tc := ⟨.vmem, 50, rfl⟩
abbrev cc5_stg1_0 : Ref sig .tc := ⟨.vmem, 51, rfl⟩
abbrev cc5_stg1_1 : Ref sig .tc := ⟨.vmem, 52, rfl⟩
abbrev cc5_stg2_0 : Ref sig .tc := ⟨.vmem, 53, rfl⟩
abbrev cc5_stg2_1 : Ref sig .tc := ⟨.vmem, 54, rfl⟩
abbrev cc5_stg3_0 : Ref sig .tc := ⟨.vmem, 55, rfl⟩
abbrev cc5_stg4_0 : Ref sig .tc := ⟨.vmem, 56, rfl⟩
abbrev cc5_stg5_0 : Ref sig .tc := ⟨.vmem, 57, rfl⟩
abbrev cc5_stg5_1 : Ref sig .tc := ⟨.vmem, 58, rfl⟩
abbrev cc5_scratch0 : Ref sig .tc := ⟨.vmem, 59, rfl⟩
abbrev cc6_stg0_0 : Ref sig .tc := ⟨.vmem, 60, rfl⟩
abbrev cc6_stg0_1 : Ref sig .tc := ⟨.vmem, 61, rfl⟩
abbrev cc6_stg1_0 : Ref sig .tc := ⟨.vmem, 62, rfl⟩
abbrev cc6_stg1_1 : Ref sig .tc := ⟨.vmem, 63, rfl⟩
abbrev cc6_stg2_0 : Ref sig .tc := ⟨.vmem, 64, rfl⟩
abbrev cc6_stg2_1 : Ref sig .tc := ⟨.vmem, 65, rfl⟩
abbrev cc6_stg3_0 : Ref sig .tc := ⟨.vmem, 66, rfl⟩
abbrev cc6_stg3_1 : Ref sig .tc := ⟨.vmem, 67, rfl⟩
abbrev cc6_scratch0 : Ref sig .tc := ⟨.vmem, 68, rfl⟩
abbrev cc7_stg0_0 : Ref sig .tc := ⟨.vmem, 69, rfl⟩
abbrev cc7_stg0_1 : Ref sig .tc := ⟨.vmem, 70, rfl⟩
abbrev cc7_stg1_0 : Ref sig .tc := ⟨.vmem, 71, rfl⟩
abbrev cc7_stg1_1 : Ref sig .tc := ⟨.vmem, 72, rfl⟩
abbrev cc7_stg2_0 : Ref sig .tc := ⟨.vmem, 73, rfl⟩
abbrev cc7_stg2_1 : Ref sig .tc := ⟨.vmem, 74, rfl⟩
abbrev cc7_stg3_0 : Ref sig .tc := ⟨.vmem, 75, rfl⟩
abbrev cc7_stg4_0 : Ref sig .tc := ⟨.vmem, 76, rfl⟩
abbrev cc7_stg5_0 : Ref sig .tc := ⟨.vmem, 77, rfl⟩
abbrev cc7_stg5_1 : Ref sig .tc := ⟨.vmem, 78, rfl⟩
abbrev cc7_scratch0 : Ref sig .tc := ⟨.vmem, 79, rfl⟩
abbrev cc8_stg0_0 : Ref sig .tc := ⟨.vmem, 80, rfl⟩
abbrev cc8_stg0_1 : Ref sig .tc := ⟨.vmem, 81, rfl⟩
abbrev cc8_stg1_0 : Ref sig .tc := ⟨.vmem, 82, rfl⟩
abbrev cc8_stg1_1 : Ref sig .tc := ⟨.vmem, 83, rfl⟩
abbrev cc8_stg2_0 : Ref sig .tc := ⟨.vmem, 84, rfl⟩
abbrev cc8_stg2_1 : Ref sig .tc := ⟨.vmem, 85, rfl⟩
abbrev cc8_stg3_0 : Ref sig .tc := ⟨.vmem, 86, rfl⟩
abbrev cc8_stg3_1 : Ref sig .tc := ⟨.vmem, 87, rfl⟩
abbrev cc8_stg4_0 : Ref sig .tc := ⟨.vmem, 88, rfl⟩
abbrev cc8_stg4_1 : Ref sig .tc := ⟨.vmem, 89, rfl⟩
abbrev cc8_scratch0 : Ref sig .tc := ⟨.vmem, 90, rfl⟩
abbrev cc8_scratch1 : Ref sig .tc := ⟨.vmem, 91, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem2_1 : DmaSem sig := 23
abbrev cc2_sem3_0 : DmaSem sig := 24
abbrev cc2_sem3_1 : DmaSem sig := 25
abbrev cc3_sem0_0 : DmaSem sig := 26
abbrev cc3_sem0_1 : DmaSem sig := 27
abbrev cc3_sem1_0 : DmaSem sig := 28
abbrev cc3_sem1_1 : DmaSem sig := 29
abbrev cc3_sem2_0 : DmaSem sig := 30
abbrev cc3_sem2_1 : DmaSem sig := 31
abbrev cc3_sem3_0 : DmaSem sig := 32
abbrev cc3_sem4_0 : DmaSem sig := 33
abbrev cc3_sem5_0 : DmaSem sig := 34
abbrev cc3_sem5_1 : DmaSem sig := 35
abbrev cc4_sem0_0 : DmaSem sig := 36
abbrev cc4_sem0_1 : DmaSem sig := 37
abbrev cc4_sem1_0 : DmaSem sig := 38
abbrev cc4_sem1_1 : DmaSem sig := 39
abbrev cc4_sem2_0 : DmaSem sig := 40
abbrev cc4_sem2_1 : DmaSem sig := 41
abbrev cc4_sem3_0 : DmaSem sig := 42
abbrev cc4_sem3_1 : DmaSem sig := 43
abbrev cc5_sem0_0 : DmaSem sig := 44
abbrev cc5_sem0_1 : DmaSem sig := 45
abbrev cc5_sem1_0 : DmaSem sig := 46
abbrev cc5_sem1_1 : DmaSem sig := 47
abbrev cc5_sem2_0 : DmaSem sig := 48
abbrev cc5_sem2_1 : DmaSem sig := 49
abbrev cc5_sem3_0 : DmaSem sig := 50
abbrev cc5_sem4_0 : DmaSem sig := 51
abbrev cc5_sem5_0 : DmaSem sig := 52
abbrev cc5_sem5_1 : DmaSem sig := 53
abbrev cc6_sem0_0 : DmaSem sig := 54
abbrev cc6_sem0_1 : DmaSem sig := 55
abbrev cc6_sem1_0 : DmaSem sig := 56
abbrev cc6_sem1_1 : DmaSem sig := 57
abbrev cc6_sem2_0 : DmaSem sig := 58
abbrev cc6_sem2_1 : DmaSem sig := 59
abbrev cc6_sem3_0 : DmaSem sig := 60
abbrev cc6_sem3_1 : DmaSem sig := 61
abbrev cc7_sem0_0 : DmaSem sig := 62
abbrev cc7_sem0_1 : DmaSem sig := 63
abbrev cc7_sem1_0 : DmaSem sig := 64
abbrev cc7_sem1_1 : DmaSem sig := 65
abbrev cc7_sem2_0 : DmaSem sig := 66
abbrev cc7_sem2_1 : DmaSem sig := 67
abbrev cc7_sem3_0 : DmaSem sig := 68
abbrev cc7_sem4_0 : DmaSem sig := 69
abbrev cc7_sem5_0 : DmaSem sig := 70
abbrev cc7_sem5_1 : DmaSem sig := 71
abbrev cc8_sem0_0 : DmaSem sig := 72
abbrev cc8_sem0_1 : DmaSem sig := 73
abbrev cc8_sem1_0 : DmaSem sig := 74
abbrev cc8_sem1_1 : DmaSem sig := 75
abbrev cc8_sem2_0 : DmaSem sig := 76
abbrev cc8_sem2_1 : DmaSem sig := 77
abbrev cc8_sem3_0 : DmaSem sig := 78
abbrev cc8_sem3_1 : DmaSem sig := 79
abbrev cc8_sem4_0 : DmaSem sig := 80
abbrev cc8_sem4_1 : DmaSem sig := 81

abbrev nD : Nat := 1
abbrev τ : Topo := Topo.v7x

variable {F : FTy → Type} [FloatOps F]

abbrev grid0 : Pipeline.Grid := ⟨2, ![8, 2], ![false, false]⟩

def k0_cond2 (i : grid0.Coords) : BitVec 1 :=
  let arg1 : BitVec 32 := BitVec.ofNat 32 (i 1).val
  let c1_i32 : BitVec 32 := 1#32
  let v19 : BitVec 1 := Scalar.cmpi .eq arg1 c1_i32
  let v20 : BitVec 32 := Scalar.extui v19
  let c0_i32_9 : BitVec 32 := 0#32
  let v21 : BitVec 1 := Scalar.cmpi .ne v20 c0_i32_9
  v21

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![4, 2], ![false, false]⟩

def k1_cond2 (i : grid1.Coords) : BitVec 1 :=
  let arg1 : BitVec 32 := BitVec.ofNat 32 (i 1).val
  let c1_i32 : BitVec 32 := 1#32
  let v19 : BitVec 1 := Scalar.cmpi .eq arg1 c1_i32
  let v20 : BitVec 32 := Scalar.extui v19
  let c0_i32_9 : BitVec 32 := 0#32
  let v21 : BitVec 1 := Scalar.cmpi .ne v20 c0_i32_9
  v21

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S4096x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S1024x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev grid2 : Pipeline.Grid := ⟨2, ![8, 2], ![false, false]⟩

def k2_cond2 (i : grid2.Coords) : BitVec 1 :=
  let arg1 : BitVec 32 := BitVec.ofNat 32 (i 1).val
  let c1_i32 : BitVec 32 := 1#32
  let v19 : BitVec 1 := Scalar.cmpi .eq arg1 c1_i32
  let v20 : BitVec 32 := Scalar.extui v19
  let c0_i32_9 : BitVec 32 := 0#32
  let v21 : BitVec 1 := Scalar.cmpi .ne v20 c0_i32_9
  v21

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S2048x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S2048x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1024x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S1024x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev grid3 : Pipeline.Grid := ⟨2, ![4, 2], ![false, false]⟩

def k3_cond2 (i : grid3.Coords) : BitVec 1 :=
  let arg1 : BitVec 32 := BitVec.ofNat 32 (i 1).val
  let c1_i32 : BitVec 32 := 1#32
  let v19 : BitVec 1 := Scalar.cmpi .eq arg1 c1_i32
  let v20 : BitVec 32 := Scalar.extui v19
  let c0_i32_9 : BitVec 32 := 0#32
  let v21 : BitVec 1 := Scalar.cmpi .ne v20 c0_i32_9
  v21

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage3_0 : Fin 2 → Memref sig .tc .vmem S1024x4096 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S4096x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S1024x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false, false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false, false]

abbrev stage3_5 : Fin 2 → Memref sig .tc .vmem S1024x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true, false]

abbrev grid4 : Pipeline.Grid := ⟨2, ![8, 2], ![false, false]⟩

def k4_cond2 (i : grid4.Coords) : BitVec 1 :=
  let arg1 : BitVec 32 := BitVec.ofNat 32 (i 1).val
  let c1_i32 : BitVec 32 := 1#32
  let v19 : BitVec 1 := Scalar.cmpi .eq arg1 c1_i32
  let v20 : BitVec 32 := Scalar.extui v19
  let c0_i32_9 : BitVec 32 := 0#32
  let v21 : BitVec 1 := Scalar.cmpi .ne v20 c0_i32_9
  v21

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage4_0 : Fin 2 → Memref sig .tc .vmem S2048x1024 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, true]

abbrev stage4_1 : Fin 2 → Memref sig .tc .vmem S2048x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true]

abbrev stage4_2 : Fin 2 → Memref sig .tc .vmem S1024x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, false]

abbrev stage4_3 : Fin 2 → Memref sig .tc .vmem S1024x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, false]

abbrev grid5 : Pipeline.Grid := ⟨2, ![4, 2], ![false, false]⟩

def k5_cond2 (i : grid5.Coords) : BitVec 1 :=
  let arg1 : BitVec 32 := BitVec.ofNat 32 (i 1).val
  let c1_i32 : BitVec 32 := 1#32
  let v19 : BitVec 1 := Scalar.cmpi .eq arg1 c1_i32
  let v20 : BitVec 32 := Scalar.extui v19
  let c0_i32_9 : BitVec 32 := 0#32
  let v21 : BitVec 1 := Scalar.cmpi .ne v20 c0_i32_9
  v21

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage5_0 : Fin 2 → Memref sig .tc .vmem S1024x4096 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, true]

abbrev stage5_1 : Fin 2 → Memref sig .tc .vmem S4096x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true]

abbrev stage5_2 : Fin 2 → Memref sig .tc .vmem S1024x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, false]

abbrev stage5_3 : Fin 1 → Memref sig .tc .vmem S128x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false, false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false, false]

abbrev stage5_5 : Fin 2 → Memref sig .tc .vmem S1024x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true, false]

abbrev grid6 : Pipeline.Grid := ⟨2, ![8, 2], ![false, false]⟩

def k6_cond2 (i : grid6.Coords) : BitVec 1 :=
  let arg1 : BitVec 32 := BitVec.ofNat 32 (i 1).val
  let c1_i32 : BitVec 32 := 1#32
  let v19 : BitVec 1 := Scalar.cmpi .eq arg1 c1_i32
  let v20 : BitVec 32 := Scalar.extui v19
  let c0_i32_9 : BitVec 32 := 0#32
  let v21 : BitVec 1 := Scalar.cmpi .ne v20 c0_i32_9
  v21

def cc6_transform_0 (i : grid6.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc6_transform_1 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc6_transform_2 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage6_0 : Fin 2 → Memref sig .tc .vmem S2048x1024 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, true]

abbrev stage6_1 : Fin 2 → Memref sig .tc .vmem S2048x128 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![false, true]

abbrev stage6_2 : Fin 2 → Memref sig .tc .vmem S1024x128 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, false]

abbrev stage6_3 : Fin 2 → Memref sig .tc .vmem S1024x128 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true, false]

abbrev grid7 : Pipeline.Grid := ⟨2, ![4, 2], ![false, false]⟩

def k7_cond2 (i : grid7.Coords) : BitVec 1 :=
  let arg1 : BitVec 32 := BitVec.ofNat 32 (i 1).val
  let c1_i32 : BitVec 32 := 1#32
  let v19 : BitVec 1 := Scalar.cmpi .eq arg1 c1_i32
  let v20 : BitVec 32 := Scalar.extui v19
  let c0_i32_9 : BitVec 32 := 0#32
  let v21 : BitVec 1 := Scalar.cmpi .ne v20 c0_i32_9
  v21

def cc7_transform_0 (i : grid7.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc7_transform_1 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc7_transform_2 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage7_0 : Fin 2 → Memref sig .tc .vmem S1024x4096 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, true]

abbrev stage7_1 : Fin 2 → Memref sig .tc .vmem S4096x128 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![false, true]

abbrev stage7_2 : Fin 2 → Memref sig .tc .vmem S1024x128 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true, false]

abbrev stage7_3 : Fin 1 → Memref sig .tc .vmem S128x128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false, false]

abbrev stage7_4 : Fin 1 → Memref sig .tc .vmem S1x128 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false, false]

abbrev stage7_5 : Fin 2 → Memref sig .tc .vmem S1024x128 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true, false]

abbrev grid8 : Pipeline.Grid := ⟨2, ![8, 2], ![false, false]⟩

def k8_cond2 (i : grid8.Coords) : BitVec 1 :=
  let arg1 : BitVec 32 := BitVec.ofNat 32 (i 1).val
  let c1_i32 : BitVec 32 := 1#32
  let v29 : BitVec 1 := Scalar.cmpi .eq arg1 c1_i32
  let v30 : BitVec 32 := Scalar.extui v29
  let c0_i32_17 : BitVec 32 := 0#32
  let v31 : BitVec 1 := Scalar.cmpi .ne v30 c0_i32_17
  v31

def cc8_transform_0 (i : grid8.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc8_transform_1 (i : grid8.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc8_transform_2 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc8_transform_3 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc8_transform_4 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage8_0 : Fin 2 → Memref sig .tc .vmem S2048x1024 .bf16 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true, true]

abbrev stage8_1 : Fin 2 → Memref sig .tc .vmem S2048x1024 .bf16 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true, true]

abbrev stage8_2 : Fin 2 → Memref sig .tc .vmem S2048x128 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![false, true]

abbrev stage8_3 : Fin 2 → Memref sig .tc .vmem S1024x128 .f32 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true, false]

abbrev stage8_4 : Fin 2 → Memref sig .tc .vmem S1024x384 .f32 := fun | 0 => Memref.whole cc8_stg4_0 | 1 => Memref.whole cc8_stg4_1 | ⟨_ + 2, h⟩ => absurd h (Nat.not_lt.2 (Nat.le_add_left _ _))
abbrev sem8_4 : Fin 2 → DmaSem sig := fun | 0 => cc8_sem4_0 | 1 => cc8_sem4_1 | ⟨_ + 2, h⟩ => absurd h (Nat.not_lt.2 (Nat.le_add_left _ _))
abbrev reads8_4 : Fin grid8.rank → Bool := ![true, false]

class Facts₀ : Prop where
  transposes_S128x64_S64x128_1_0 : S128x64.Transposes [1, 0] S64x128
  bcast_S128_S1x128_1 : S128.BroadcastsInDim S1x128 (![1] : Fin 1 → Fin S1x128.rank)
  bcast_S1x128_S4096x128_0_1 : S1x128.BroadcastsInDim S4096x128 (![0, 1] : Fin 2 → Fin S4096x128.rank)
  bcast_S_S4096x128 : S_.BroadcastsInDim S4096x128 (![] : Fin 0 → Fin S4096x128.rank)
  transposes_S128x128_S128x128_1_0 : S128x128.Transposes [1, 0] S128x128
  transposes_S128x32_S32x128_1_0 : S128x32.Transposes [1, 0] S32x128
  bcast_S1x128_S8192x128_0_1 : S1x128.BroadcastsInDim S8192x128 (![0, 1] : Fin 2 → Fin S8192x128.rank)
  bcast_S_S8192x128 : S_.BroadcastsInDim S8192x128 (![] : Fin 0 → Fin S8192x128.rank)
  bitsLt_bf16_f32 : FTy.bits .bf16 < FTy.bits .f32
  transposes_S4x128x128_S4x128x128_0_2_1 : S4x128x128.Transposes [0, 2, 1] S4x128x128
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  slices_S4x128x128_S1x128x128_0_0_0 : S4x128x128.Slices ![0, 0, 0] S1x128x128
  shapeCasts_S1x128x128_S128x128 : S1x128x128.ShapeCasts S128x128
  slices_S4x128_S1x128_0_0 : S4x128.Slices ![0, 0] S1x128
  shapeCasts_S1x128_S128 : S1x128.ShapeCasts S128
  shapeCasts_S128_S1x128 : S128.ShapeCasts S1x128
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1024x128 : S1x128.Broadcasts S1024x128
  slices_S4x128x128_S1x128x128_1_0_0 : S4x128x128.Slices ![1, 0, 0] S1x128x128
  slices_S4x128_S1x128_1_0 : S4x128.Slices ![1, 0] S1x128
  slices_S4x128x128_S1x128x128_2_0_0 : S4x128x128.Slices ![2, 0, 0] S1x128x128
  slices_S4x128_S1x128_2_0 : S4x128.Slices ![2, 0] S1x128
  slices_S4x128x128_S1x128x128_3_0_0 : S4x128x128.Slices ![3, 0, 0] S1x128x128
  slices_S4x128_S1x128_3_0 : S4x128.Slices ![3, 0] S1x128
  inb_S1024x384_S1024x128_0_0 : ∀ a, (![0, 0] : Fin 2 → Nat) a + S1024x128.size a ≤ S1024x384.size a
  inb_S1024x384_S1024x128_0_128 : ∀ a, (![0, 128] : Fin 2 → Nat) a + S1024x128.size a ≤ S1024x384.size a
  inb_S1024x384_S1024x128_0_256 : ∀ a, (![0, 256] : Fin 2 → Nat) a + S1024x128.size a ≤ S1024x384.size a
  dot_S4096x64_S64x128_S4096x128_1_0_0_1_n_n_wf : DotDims.WF S4096x64 S64x128 S4096x128 [1] [0] [0] [1] [] []
  dot_S4096x128_S128x128_S4096x128_1_0_0_1_n_n_wf : DotDims.WF S4096x128 S128x128 S4096x128 [1] [0] [0] [1] [] []
  dot_S8192x32_S32x128_S8192x128_1_0_0_1_n_n_wf : DotDims.WF S8192x32 S32x128 S8192x128 [1] [0] [0] [1] [] []
  dot_S8192x128_S128x128_S8192x128_1_0_0_1_n_n_wf : DotDims.WF S8192x128 S128x128 S8192x128 [1] [0] [0] [1] [] []
  dot_S2048x1024_S2048x128_S1024x128_0_0_1_1_n_n_wf : DotDims.WF S2048x1024 S2048x128 S1024x128 [0] [0] [1] [1] [] []
  dot_S1024x4096_S4096x128_S1024x128_1_0_0_1_n_n_wf : DotDims.WF S1024x4096 S4096x128 S1024x128 [1] [0] [0] [1] [] []
  dot_S1024x128_S128x128_S1024x128_1_0_0_1_n_n_wf : DotDims.WF S1024x128 S128x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S4096x8192.size a
  hwx0_0 : ∀ i : grid0.Coords, EltTy.bits .bf16 = 32 ∨ (Rect.block (s := S4096x8192) S2048x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x128.size a ≤ S4096x128.size a
  hwx0_1 : ∀ i : grid0.Coords, EltTy.bits .f32 = 32 ∨ (Rect.block (s := S4096x128) S2048x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x128.size a ≤ S8192x128.size a
  hwx0_2 : ∀ i : grid0.Coords, EltTy.bits .f32 = 32 ∨ (Rect.block (s := S8192x128) S1024x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x128.size a ≤ S8192x128.size a
  hwx0_3 : ∀ i : grid0.Coords, EltTy.bits .f32 = 32 ∨ (Rect.block (s := S8192x128) S1024x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x4096.size a ≤ S4096x8192.size a
  hwx1_0 : ∀ i : grid1.Coords, EltTy.bits .bf16 = 32 ∨ (Rect.block (s := S4096x8192) S1024x4096.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096x128.size a ≤ S8192x128.size a
  hwx1_1 : ∀ i : grid1.Coords, EltTy.bits .f32 = 32 ∨ (Rect.block (s := S8192x128) S4096x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x128.size a ≤ S4096x128.size a
  hwx1_2 : ∀ i : grid1.Coords, EltTy.bits .f32 = 32 ∨ (Rect.block (s := S4096x128) S1024x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1024x128.size a ≤ S4096x128.size a
  hwx1_5 : ∀ i : grid1.Coords, EltTy.bits .f32 = 32 ∨ (Rect.block (s := S4096x128) S1024x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x1024.size a ≤ S4096x8192.size a
  hwx2_0 : ∀ i : grid2.Coords, EltTy.bits .bf16 = 32 ∨ (Rect.block (s := S4096x8192) S2048x1024.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2048x128.size a ≤ S4096x128.size a
  hwx2_1 : ∀ i : grid2.Coords, EltTy.bits .f32 = 32 ∨ (Rect.block (s := S4096x128) S2048x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x128.size a ≤ S8192x128.size a
  hwx2_2 : ∀ i : grid2.Coords, EltTy.bits .f32 = 32 ∨ (Rect.block (s := S8192x128) S1024x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x128.size a ≤ S8192x128.size a
  hwx2_3 : ∀ i : grid2.Coords, EltTy.bits .f32 = 32 ∨ (Rect.block (s := S8192x128) S1024x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x4096.size a ≤ S4096x8192.size a
  hwx3_0 : ∀ i : grid3.Coords, EltTy.bits .bf16 = 32 ∨ (Rect.block (s := S4096x8192) S1024x4096.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4096x128.size a ≤ S8192x128.size a
  hwx3_1 : ∀ i : grid3.Coords, EltTy.bits .f32 = 32 ∨ (Rect.block (s := S8192x128) S4096x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1024x128.size a ≤ S4096x128.size a
  hwx3_2 : ∀ i : grid3.Coords, EltTy.bits .f32 = 32 ∨ (Rect.block (s := S4096x128) S1024x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .f32 = 32 ∨ (Rect.block (s := S128x128) S128x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S1024x128.size a ≤ S4096x128.size a
  hwx3_5 : ∀ i : grid3.Coords, EltTy.bits .f32 = 32 ∨ (Rect.block (s := S4096x128) S1024x128.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2048x1024.size a ≤ S4096x8192.size a
  hwx4_0 : ∀ i : grid4.Coords, EltTy.bits .bf16 = 32 ∨ (Rect.block (s := S4096x8192) S2048x1024.size (cc4_transform_0 i) (hinb4_0 i)).WholeWords (EltTy.packing .bf16)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2048x128.size a ≤ S4096x128.size a
  hwx4_1 : ∀ i : grid4.Coords, EltTy.bits .f32 = 32 ∨ (Rect.block (s := S4096x128) S2048x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S1024x128.size a ≤ S8192x128.size a
  hwx4_2 : ∀ i : grid4.Coords, EltTy.bits .f32 = 32 ∨ (Rect.block (s := S8192x128) S1024x128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S1024x128.size a ≤ S8192x128.size a
  hwx4_3 : ∀ i : grid4.Coords, EltTy.bits .f32 = 32 ∨ (Rect.block (s := S8192x128) S1024x128.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S1024x4096.size a ≤ S4096x8192.size a
  hwx5_0 : ∀ i : grid5.Coords, EltTy.bits .bf16 = 32 ∨ (Rect.block (s := S4096x8192) S1024x4096.size (cc5_transform_0 i) (hinb5_0 i)).WholeWords (EltTy.packing .bf16)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S4096x128.size a ≤ S8192x128.size a
  hwx5_1 : ∀ i : grid5.Coords, EltTy.bits .f32 = 32 ∨ (Rect.block (s := S8192x128) S4096x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S1024x128.size a ≤ S4096x128.size a
  hwx5_2 : ∀ i : grid5.Coords, EltTy.bits .f32 = 32 ∨ (Rect.block (s := S4096x128) S1024x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S128x128.size a ≤ S128x128.size a
  hwx5_3 : ∀ i : grid5.Coords, EltTy.bits .f32 = 32 ∨ (Rect.block (s := S128x128) S128x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S1024x128.size a ≤ S4096x128.size a
  hwx5_5 : ∀ i : grid5.Coords, EltTy.bits .f32 = 32 ∨ (Rect.block (s := S4096x128) S1024x128.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2048x1024.size a ≤ S4096x8192.size a
  hwx6_0 : ∀ i : grid6.Coords, EltTy.bits .bf16 = 32 ∨ (Rect.block (s := S4096x8192) S2048x1024.size (cc6_transform_0 i) (hinb6_0 i)).WholeWords (EltTy.packing .bf16)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S2048x128.size a ≤ S4096x128.size a
  hwx6_1 : ∀ i : grid6.Coords, EltTy.bits .f32 = 32 ∨ (Rect.block (s := S4096x128) S2048x128.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S1024x128.size a ≤ S8192x128.size a
  hwx6_2 : ∀ i : grid6.Coords, EltTy.bits .f32 = 32 ∨ (Rect.block (s := S8192x128) S1024x128.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S1024x128.size a ≤ S8192x128.size a
  hwx6_3 : ∀ i : grid6.Coords, EltTy.bits .f32 = 32 ∨ (Rect.block (s := S8192x128) S1024x128.size (cc6_transform_3 i) (hinb6_3 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S1024x4096.size a ≤ S4096x8192.size a
  hwx7_0 : ∀ i : grid7.Coords, EltTy.bits .bf16 = 32 ∨ (Rect.block (s := S4096x8192) S1024x4096.size (cc7_transform_0 i) (hinb7_0 i)).WholeWords (EltTy.packing .bf16)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S4096x128.size a ≤ S8192x128.size a
  hwx7_1 : ∀ i : grid7.Coords, EltTy.bits .f32 = 32 ∨ (Rect.block (s := S8192x128) S4096x128.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S1024x128.size a ≤ S4096x128.size a
  hwx7_2 : ∀ i : grid7.Coords, EltTy.bits .f32 = 32 ∨ (Rect.block (s := S4096x128) S1024x128.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S128x128.size a ≤ S128x128.size a
  hwx7_3 : ∀ i : grid7.Coords, EltTy.bits .f32 = 32 ∨ (Rect.block (s := S128x128) S128x128.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x128.size a ≤ S1x128.size a
  hwx7_4 : ∀ i : grid7.Coords, EltTy.bits .f32 = 32 ∨ (Rect.block (s := S1x128) S1x128.size (cc7_transform_4 i) (hinb7_4 i)).WholeWords (EltTy.packing .f32)
  hstage7_5 : ∀ j, (stage7_5 j).IsWhole
  nbuf7_5 : grid7.bufCount reads7_5 false = 2
  hreads7_5 : ∀ i i' : grid7.Coords, (∀ a, reads7_5 a = true → i a = i' a) → cc7_transform_5 i = cc7_transform_5 i'
  hinb7_5 : ∀ (i : grid7.Coords) a, (cc7_transform_5 i a + 1) * S1024x128.size a ≤ S4096x128.size a
  hwx7_5 : ∀ i : grid7.Coords, EltTy.bits .f32 = 32 ∨ (Rect.block (s := S4096x128) S1024x128.size (cc7_transform_5 i) (hinb7_5 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S2048x1024.size a ≤ S4096x8192.size a
  hwx8_0 : ∀ i : grid8.Coords, EltTy.bits .bf16 = 32 ∨ (Rect.block (s := S4096x8192) S2048x1024.size (cc8_transform_0 i) (hinb8_0 i)).WholeWords (EltTy.packing .bf16)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S2048x1024.size a ≤ S4096x8192.size a
  hwx8_1 : ∀ i : grid8.Coords, EltTy.bits .bf16 = 32 ∨ (Rect.block (s := S4096x8192) S2048x1024.size (cc8_transform_1 i) (hinb8_1 i)).WholeWords (EltTy.packing .bf16)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S2048x128.size a ≤ S4096x128.size a
  hwx8_2 : ∀ i : grid8.Coords, EltTy.bits .f32 = 32 ∨ (Rect.block (s := S4096x128) S2048x128.size (cc8_transform_2 i) (hinb8_2 i)).WholeWords (EltTy.packing .f32)
  hstage8_3 : ∀ j, (stage8_3 j).IsWhole
  nbuf8_3 : grid8.bufCount reads8_3 false = 2
  hreads8_3 : ∀ i i' : grid8.Coords, (∀ a, reads8_3 a = true → i a = i' a) → cc8_transform_3 i = cc8_transform_3 i'
  hinb8_3 : ∀ (i : grid8.Coords) a, (cc8_transform_3 i a + 1) * S1024x128.size a ≤ S8192x128.size a
  hwx8_3 : ∀ i : grid8.Coords, EltTy.bits .f32 = 32 ∨ (Rect.block (s := S8192x128) S1024x128.size (cc8_transform_3 i) (hinb8_3 i)).WholeWords (EltTy.packing .f32)
  hstage8_4 : ∀ j, (stage8_4 j).IsWhole
  nbuf8_4 : grid8.bufCount reads8_4 false = 2
  hreads8_4 : ∀ i i' : grid8.Coords, (∀ a, reads8_4 a = true → i a = i' a) → cc8_transform_4 i = cc8_transform_4 i'
  hinb8_4 : ∀ (i : grid8.Coords) a, (cc8_transform_4 i a + 1) * S1024x384.size a ≤ S8192x384.size a
  hwx8_4 : ∀ i : grid8.Coords, EltTy.bits .f32 = 32 ∨ (Rect.block (s := S8192x384) S1024x384.size (cc8_transform_4 i) (hinb8_4 i)).WholeWords (EltTy.packing .f32)

variable [Facts₀]

def dot_S4096x64_S64x128_S4096x128_1_0_0_1_n_n : DotDims S4096x64 S64x128 S4096x128 where
  lhsContracting := [1]
  rhsContracting := [0]
  lhsNonContracting := [0]
  rhsNonContracting := [1]
  lhsBatch := []
  rhsBatch := []
  wf := dot_S4096x64_S64x128_S4096x128_1_0_0_1_n_n_wf
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def dot_S8192x32_S32x128_S8192x128_1_0_0_1_n_n : DotDims S8192x32 S32x128 S8192x128 where
  lhsContracting := [1]
  rhsContracting := [0]
  lhsNonContracting := [0]
  rhsNonContracting := [1]
  lhsBatch := []
  rhsBatch := []
  wf := dot_S8192x32_S32x128_S8192x128_1_0_0_1_n_n_wf
def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def dot_S2048x1024_S2048x128_S1024x128_0_0_1_1_n_n : DotDims S2048x1024 S2048x128 S1024x128 where
  lhsContracting := [0]
  rhsContracting := [0]
  lhsNonContracting := [1]
  rhsNonContracting := [1]
  lhsBatch := []
  rhsBatch := []
  wf := dot_S2048x1024_S2048x128_S1024x128_0_0_1_1_n_n_wf
def dot_S1024x4096_S4096x128_S1024x128_1_0_0_1_n_n : DotDims S1024x4096 S4096x128 S1024x128 where
  lhsContracting := [1]
  rhsContracting := [0]
  lhsNonContracting := [0]
  rhsNonContracting := [1]
  lhsBatch := []
  rhsBatch := []
  wf := dot_S1024x4096_S4096x128_S1024x128_1_0_0_1_n_n_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf

abbrev win0_0 : Pipeline.Window sig grid0 :=
  Pipeline.Window.ofSpec (Memref.whole main_v25) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v23) S1024x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v27) S1024x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v24) S1024x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v27) S4096x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11) S1024x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v29) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v32) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v33) S1024x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun _ => false | 5 => fun i => !(k1_cond2 i == 1#1) | ⟨_ + 6, h⟩ => absurd h (Nat.not_lt.2 (Nat.le_add_left _ _))

abbrev win2_0 : Pipeline.Window sig grid2 :=
  Pipeline.Window.ofSpec (Memref.whole main_v25) S2048x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v33) S2048x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v23) S1024x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v34) S1024x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun _ => false | 3 => fun i => !(k2_cond2 i == 1#1) | ⟨_ + 4, h⟩ => absurd h (Nat.not_lt.2 (Nat.le_add_left _ _))

abbrev win3_0 : Pipeline.Window sig grid3 :=
  Pipeline.Window.ofSpec (Memref.whole main_v24) S1024x4096.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v34) S4096x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v33) S1024x128.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v36) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v39) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v40) S1024x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev idle3 : Fin 6 → grid3.Coords → Bool := fun | 0 => fun _ => false | 1 => fun _ => false | 2 => fun _ => false | 3 => fun _ => false | 4 => fun _ => false | 5 => fun i => !(k3_cond2 i == 1#1) | ⟨_ + 6, h⟩ => absurd h (Nat.not_lt.2 (Nat.le_add_left _ _))

abbrev win4_0 : Pipeline.Window sig grid4 :=
  Pipeline.Window.ofSpec (Memref.whole main_v25) S2048x1024.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v40) S2048x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v23) S1024x128.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v41) S1024x128.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev idle4 : Fin 4 → grid4.Coords → Bool := fun | 0 => fun _ => false | 1 => fun _ => false | 2 => fun _ => false | 3 => fun i => !(k4_cond2 i == 1#1) | ⟨_ + 4, h⟩ => absurd h (Nat.not_lt.2 (Nat.le_add_left _ _))

abbrev win5_0 : Pipeline.Window sig grid5 :=
  Pipeline.Window.ofSpec (Memref.whole main_v24) S1024x4096.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v41) S4096x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v40) S1024x128.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v43) S128x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v46) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v47) S1024x128.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev idle5 : Fin 6 → grid5.Coords → Bool := fun | 0 => fun _ => false | 1 => fun _ => false | 2 => fun _ => false | 3 => fun _ => false | 4 => fun _ => false | 5 => fun i => !(k5_cond2 i == 1#1) | ⟨_ + 6, h⟩ => absurd h (Nat.not_lt.2 (Nat.le_add_left _ _))

abbrev win6_0 : Pipeline.Window sig grid6 :=
  Pipeline.Window.ofSpec (Memref.whole main_v25) S2048x1024.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v47) S2048x128.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v23) S1024x128.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_v48) S1024x128.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev idle6 : Fin 4 → grid6.Coords → Bool := fun | 0 => fun _ => false | 1 => fun _ => false | 2 => fun _ => false | 3 => fun i => !(k6_cond2 i == 1#1) | ⟨_ + 4, h⟩ => absurd h (Nat.not_lt.2 (Nat.le_add_left _ _))

abbrev win7_0 : Pipeline.Window sig grid7 :=
  Pipeline.Window.ofSpec (Memref.whole main_v24) S1024x4096.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v48) S4096x128.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v47) S1024x128.size cc7_transform_2 reads7_2 false false 2 stage7_2 sem7_2
    hrank7 hreads7_2 hinb7_2 nbuf7_2 (Memref.isWhole_whole _) hwx7_2 hstage7_2

abbrev win7_3 : Pipeline.Window sig grid7 :=
  Pipeline.Window.ofSpec (Memref.whole main_v50) S128x128.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v53) S1x128.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v54) S1024x128.size cc7_transform_5 reads7_5 true false 2 stage7_5 sem7_5
    hrank7 hreads7_5 hinb7_5 nbuf7_5 (Memref.isWhole_whole _) hwx7_5 hstage7_5

abbrev win7 : Fin 6 → Pipeline.Window sig grid7 := fun | 0 => win7_0 | 1 => win7_1 | 2 => win7_2 | 3 => win7_3 | 4 => win7_4 | 5 => win7_5 | ⟨_ + 6, h⟩ => absurd h (Nat.not_lt.2 (Nat.le_add_left _ _))
abbrev spec7 : Fin 6 → Pipeline.WinSpec sig grid7.rank := fun w => (win7 w).toWinSpec

abbrev idle7 : Fin 6 → grid7.Coords → Bool := fun | 0 => fun _ => false | 1 => fun _ => false | 2 => fun _ => false | 3 => fun _ => false | 4 => fun _ => false | 5 => fun i => !(k7_cond2 i == 1#1) | ⟨_ + 6, h⟩ => absurd h (Nat.not_lt.2 (Nat.le_add_left _ _))

abbrev win8_0 : Pipeline.Window sig grid8 :=
  Pipeline.Window.ofSpec (Memref.whole main_v24) S2048x1024.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v25) S2048x1024.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v54) S2048x128.size cc8_transform_2 reads8_2 false false 2 stage8_2 sem8_2
    hrank8 hreads8_2 hinb8_2 nbuf8_2 (Memref.isWhole_whole _) hwx8_2 hstage8_2

abbrev win8_3 : Pipeline.Window sig grid8 :=
  Pipeline.Window.ofSpec (Memref.whole main_v23) S1024x128.size cc8_transform_3 reads8_3 false false 2 stage8_3 sem8_3
    hrank8 hreads8_3 hinb8_3 nbuf8_3 (Memref.isWhole_whole _) hwx8_3 hstage8_3

abbrev win8_4 : Pipeline.Window sig grid8 :=
  Pipeline.Window.ofSpec (Memref.whole main_v55) S1024x384.size cc8_transform_4 reads8_4 true false 2 stage8_4 sem8_4
    hrank8 hreads8_4 hinb8_4 nbuf8_4 (Memref.isWhole_whole _) hwx8_4 hstage8_4

abbrev win8 : Fin 5 → Pipeline.Window sig grid8 := fun | 0 => win8_0 | 1 => win8_1 | 2 => win8_2 | 3 => win8_3 | 4 => win8_4 | ⟨_ + 5, h⟩ => absurd h (Nat.not_lt.2 (Nat.le_add_left _ _))
abbrev spec8 : Fin 5 → Pipeline.WinSpec sig grid8.rank := fun w => (win8 w).toWinSpec

abbrev idle8 : Fin 5 → grid8.Coords → Bool := fun | 0 => fun _ => false | 1 => fun _ => false | 2 => fun _ => false | 3 => fun _ => false | 4 => fun i => !(k8_cond2 i == 1#1) | ⟨_ + 5, h⟩ => absurd h (Nat.not_lt.2 (Nat.le_add_left _ _))

class Facts : Prop extends Facts₀ where

variable [Facts]
-- ==== ReferenceIdeal.lean ====
abbrev S4096x64 : Shape := ⟨2, ![4096, 64]⟩
abbrev S8192x32 : Shape := ⟨2, ![8192, 32]⟩
abbrev S4096x8192 : Shape := ⟨2, ![4096, 8192]⟩
abbrev S128x64 : Shape := ⟨2, ![128, 64]⟩
abbrev S128 : Shape := ⟨1, ![128]⟩
abbrev S128x128 : Shape := ⟨2, ![128, 128]⟩
abbrev S128x32 : Shape := ⟨2, ![128, 32]⟩
abbrev S4x128x128 : Shape := ⟨3, ![4, 128, 128]⟩
abbrev S4x128 : Shape := ⟨2, ![4, 128]⟩
abbrev S64x128 : Shape := ⟨2, ![64, 128]⟩
abbrev S4096x128 : Shape := ⟨2, ![4096, 128]⟩
abbrev S1x128 : Shape := ⟨2, ![1, 128]⟩
abbrev S_ : Shape := ⟨0, ![]⟩
abbrev S32x128 : Shape := ⟨2, ![32, 128]⟩
abbrev S8192x128 : Shape := ⟨2, ![8192, 128]⟩
abbrev S8192x4096 : Shape := ⟨2, ![8192, 4096]⟩
abbrev S1x128x128 : Shape := ⟨3, ![1, 128, 128]⟩
abbrev S8192x384 : Shape := ⟨2, ![8192, 384]⟩

abbrev nBuf : Space → Nat
  | .hbm => 157
  | .vmem => 0
  | .smem => 0
  | _ => 0

abbrev hbmTy0_0 (i : Nat) : BufTy := match i % 128 with
  | 0 => ⟨S4096x64, .f32⟩
  | 1 => ⟨S8192x32, .f32⟩
  | 2 => ⟨S4096x8192, .f32⟩
  | 3 => ⟨S4096x8192, .f32⟩
  | 4 => ⟨S128x64, .f32⟩
  | 5 => ⟨S128, .f32⟩
  | 6 => ⟨S128x128, .f32⟩
  | 7 => ⟨S128, .f32⟩
  | 8 => ⟨S128x32, .f32⟩
  | 9 => ⟨S128, .f32⟩
  | 10 => ⟨S128x128, .f32⟩
  | 11 => ⟨S128, .f32⟩
  | 12 => ⟨S4x128x128, .f32⟩
  | 13 => ⟨S4x128, .f32⟩
  | 14 => ⟨S64x128, .f32⟩
  | 15 => ⟨S4096x128, .f32⟩
  | 16 => ⟨S1x128, .f32⟩
  | 17 => ⟨S4096x128, .f32⟩
  | 18 => ⟨S4096x128, .f32⟩
  | 19 => ⟨S_, .f32⟩
  | 20 => ⟨S_, .f32⟩
  | 21 => ⟨S4096x128, .f32⟩
  | 22 => ⟨S4096x128, .i1⟩
  | 23 => ⟨S_, .f32⟩
  | 24 => ⟨S4096x128, .f32⟩
  | 25 => ⟨S4096x128, .f32⟩
  | 26 => ⟨S4096x128, .f32⟩
  | 27 => ⟨S128x128, .f32⟩
  | 28 => ⟨S4096x128, .f32⟩
  | 29 => ⟨S1x128, .f32⟩
  | 30 => ⟨S4096x128, .f32⟩
  | 31 => ⟨S4096x128, .f32⟩
  | 32 => ⟨S4096x128, .f32⟩
  | 33 => ⟨S32x128, .f32⟩
  | 34 => ⟨S8192x128, .f32⟩
  | 35 => ⟨S1x128, .f32⟩
  | 36 => ⟨S8192x128, .f32⟩
  | 37 => ⟨S8192x128, .f32⟩
  | 38 => ⟨S_, .f32⟩
  | 39 => ⟨S_, .f32⟩
  | 40 => ⟨S8192x128, .f32⟩
  | 41 => ⟨S8192x128, .i1⟩
  | 42 => ⟨S_, .f32⟩
  | 43 => ⟨S8192x128, .f32⟩
  | 44 => ⟨S8192x128, .f32⟩
  | 45 => ⟨S8192x128, .f32⟩
  | 46 => ⟨S128x128, .f32⟩
  | 47 => ⟨S8192x128, .f32⟩
  | 48 => ⟨S1x128, .f32⟩
  | 49 => ⟨S8192x128, .f32⟩
  | 50 => ⟨S8192x128, .f32⟩
  | 51 => ⟨S8192x128, .f32⟩
  | 52 => ⟨S8192x4096, .f32⟩
  | 53 => ⟨S8192x128, .f32⟩
  | 54 => ⟨S8192x128, .f32⟩
  | 55 => ⟨S_, .f32⟩
  | 56 => ⟨S8192x128, .f32⟩
  | 57 => ⟨S8192x128, .f32⟩
  | 58 => ⟨S4096x128, .f32⟩
  | 59 => ⟨S4096x128, .f32⟩
  | 60 => ⟨S1x128x128, .f32⟩
  | 61 => ⟨S128x128, .f32⟩
  | 62 => ⟨S128x128, .f32⟩
  | 63 => ⟨S4096x128, .f32⟩
  | 64 => ⟨S1x128, .f32⟩
  | 65 => ⟨S128, .f32⟩
  | 66 => ⟨S1x128, .f32⟩
  | 67 => ⟨S4096x128, .f32⟩
  | 68 => ⟨S4096x128, .f32⟩
  | 69 => ⟨S_, .f32⟩
  | 70 => ⟨S_, .f32⟩
  | 71 => ⟨S4096x128, .f32⟩
  | 72 => ⟨S4096x128, .i1⟩
  | 73 => ⟨S_, .f32⟩
  | 74 => ⟨S4096x128, .f32⟩
  | 75 => ⟨S4096x128, .f32⟩
  | 76 => ⟨S4096x128, .f32⟩
  | 77 => ⟨S8192x4096, .f32⟩
  | 78 => ⟨S8192x128, .f32⟩
  | 79 => ⟨S8192x128, .f32⟩
  | 80 => ⟨S_, .f32⟩
  | 81 => ⟨S8192x128, .f32⟩
  | 82 => ⟨S8192x128, .f32⟩
  | 83 => ⟨S4096x128, .f32⟩
  | 84 => ⟨S4096x128, .f32⟩
  | 85 => ⟨S1x128x128, .f32⟩
  | 86 => ⟨S128x128, .f32⟩
  | 87 => ⟨S128x128, .f32⟩
  | 88 => ⟨S4096x128, .f32⟩
  | 89 => ⟨S1x128, .f32⟩
  | 90 => ⟨S128, .f32⟩
  | 91 => ⟨S1x128, .f32⟩
  | 92 => ⟨S4096x128, .f32⟩
  | 93 => ⟨S4096x128, .f32⟩
  | 94 => ⟨S_, .f32⟩
  | 95 => ⟨S_, .f32⟩
  | 96 => ⟨S4096x128, .f32⟩
  | 97 => ⟨S4096x128, .i1⟩
  | 98 => ⟨S_, .f32⟩
  | 99 => ⟨S4096x128, .f32⟩
  | 100 => ⟨S4096x128, .f32⟩
  | 101 => ⟨S4096x128, .f32⟩
  | 102 => ⟨S8192x4096, .f32⟩
  | 103 => ⟨S8192x128, .f32⟩
  | 104 => ⟨S8192x128, .f32⟩
  | 105 => ⟨S_, .f32⟩
  | 106 => ⟨S8192x128, .f32⟩
  | 107 => ⟨S8192x128, .f32⟩
  | 108 => ⟨S4096x128, .f32⟩
  | 109 => ⟨S4096x128, .f32⟩
  | 110 => ⟨S1x128x128, .f32⟩
  | 111 => ⟨S128x128, .f32⟩
  | 112 => ⟨S128x128, .f32⟩
  | 113 => ⟨S4096x128, .f32⟩
  | 114 => ⟨S1x128, .f32⟩
  | 115 => ⟨S128, .f32⟩
  | 116 => ⟨S1x128, .f32⟩
  | 117 => ⟨S4096x128, .f32⟩
  | 118 => ⟨S4096x128, .f32⟩
  | 119 => ⟨S_, .f32⟩
  | 120 => ⟨S_, .f32⟩
  | 121 => ⟨S4096x128, .f32⟩
  | 122 => ⟨S4096x128, .i1⟩
  | 123 => ⟨S_, .f32⟩
  | 124 => ⟨S4096x128, .f32⟩
  | 125 => ⟨S4096x128, .f32⟩
  | 126 => ⟨S4096x128, .f32⟩
  | 127 => ⟨S8192x4096, .f32⟩
  | _ => ⟨S4096x64, .f32⟩

abbrev hbmTy0_1 (i : Nat) : BufTy := match i % 128 with
  | 0 => ⟨S8192x128, .f32⟩
  | 1 => ⟨S8192x128, .f32⟩
  | 2 => ⟨S_, .f32⟩
  | 3 => ⟨S8192x128, .f32⟩
  | 4 => ⟨S8192x128, .f32⟩
  | 5 => ⟨S4096x128, .f32⟩
  | 6 => ⟨S4096x128, .f32⟩
  | 7 => ⟨S1x128x128, .f32⟩
  | 8 => ⟨S128x128, .f32⟩
  | 9 => ⟨S128x128, .f32⟩
  | 10 => ⟨S4096x128, .f32⟩
  | 11 => ⟨S1x128, .f32⟩
  | 12 => ⟨S128, .f32⟩
  | 13 => ⟨S1x128, .f32⟩
  | 14 => ⟨S4096x128, .f32⟩
  | 15 => ⟨S4096x128, .f32⟩
  | 16 => ⟨S_, .f32⟩
  | 17 => ⟨S_, .f32⟩
  | 18 => ⟨S4096x128, .f32⟩
  | 19 => ⟨S4096x128, .i1⟩
  | 20 => ⟨S_, .f32⟩
  | 21 => ⟨S4096x128, .f32⟩
  | 22 => ⟨S4096x128, .f32⟩
  | 23 => ⟨S4096x128, .f32⟩
  | 24 => ⟨S8192x4096, .f32⟩
  | 25 => ⟨S8192x128, .f32⟩
  | 26 => ⟨S8192x4096, .f32⟩
  | 27 => ⟨S8192x128, .f32⟩
  | 28 => ⟨S8192x384, .f32⟩
  | _ => ⟨S4096x64, .f32⟩

abbrev hbmTy (i : Nat) : BufTy := match i / 128 with
  | 0 => hbmTy0_0 i
  | 1 => hbmTy0_1 i
  | _ => ⟨S4096x64, .f32⟩

abbrev bufTy : (tb : Table) → Fin (tcTables nBuf tb) → BufTy
  | .hbm, ⟨i, _⟩ => hbmTy i
  | _, _ => ⟨S4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst : Ref sig .tc := ⟨.hbm, 19, rfl⟩
abbrev main_call0_cst : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_cst_0 : Ref sig .tc := ⟨.hbm, 38, rfl⟩
abbrev main_call1_cst : Ref sig .tc := ⟨.hbm, 39, rfl⟩
abbrev main_call1_v0 : Ref sig .tc := ⟨.hbm, 40, rfl⟩
abbrev main_call1_v1 : Ref sig .tc := ⟨.hbm, 41, rfl⟩
abbrev main_call1_v2 : Ref sig .tc := ⟨.hbm, 42, rfl⟩
abbrev main_call1_v3 : Ref sig .tc := ⟨.hbm, 43, rfl⟩
abbrev main_call1_v4 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_call2_cst : Ref sig .tc := ⟨.hbm, 55, rfl⟩
abbrev main_call2_v0 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_cst_1 : Ref sig .tc := ⟨.hbm, 69, rfl⟩
abbrev main_call3_cst : Ref sig .tc := ⟨.hbm, 70, rfl⟩
abbrev main_call3_v0 : Ref sig .tc := ⟨.hbm, 71, rfl⟩
abbrev main_call3_v1 : Ref sig .tc := ⟨.hbm, 72, rfl⟩
abbrev main_call3_v2 : Ref sig .tc := ⟨.hbm, 73, rfl⟩
abbrev main_call3_v3 : Ref sig .tc := ⟨.hbm, 74, rfl⟩
abbrev main_call3_v4 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_call4_cst : Ref sig .tc := ⟨.hbm, 80, rfl⟩
abbrev main_call4_v0 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_cst_2 : Ref sig .tc := ⟨.hbm, 94, rfl⟩
abbrev main_call5_cst : Ref sig .tc := ⟨.hbm, 95, rfl⟩
abbrev main_call5_v0 : Ref sig .tc := ⟨.hbm, 96, rfl⟩
abbrev main_call5_v1 : Ref sig .tc := ⟨.hbm, 97, rfl⟩
abbrev main_call5_v2 : Ref sig .tc := ⟨.hbm, 98, rfl⟩
abbrev main_call5_v3 : Ref sig .tc := ⟨.hbm, 99, rfl⟩
abbrev main_call5_v4 : Ref sig .tc := ⟨.hbm, 100, rfl⟩
abbrev main_v55 : Ref sig .tc := ⟨.hbm, 101, rfl⟩
abbrev main_v56 : Ref sig .tc := ⟨.hbm, 102, rfl⟩
abbrev main_v57 : Ref sig .tc := ⟨.hbm, 103, rfl⟩
abbrev main_v58 : Ref sig .tc := ⟨.hbm, 104, rfl⟩
abbrev main_call6_cst : Ref sig .tc := ⟨.hbm, 105, rfl⟩
abbrev main_call6_v0 : Ref sig .tc := ⟨.hbm, 106, rfl⟩
abbrev main_v59 : Ref sig .tc := ⟨.hbm, 107, rfl⟩
abbrev main_v60 : Ref sig .tc := ⟨.hbm, 108, rfl⟩
abbrev main_v61 : Ref sig .tc := ⟨.hbm, 109, rfl⟩
abbrev main_v62 : Ref sig .tc := ⟨.hbm, 110, rfl⟩
abbrev main_v63 : Ref sig .tc := ⟨.hbm, 111, rfl⟩
abbrev main_v64 : Ref sig .tc := ⟨.hbm, 112, rfl⟩
abbrev main_v65 : Ref sig .tc := ⟨.hbm, 113, rfl⟩
abbrev main_v66 : Ref sig .tc := ⟨.hbm, 114, rfl⟩
abbrev main_v67 : Ref sig .tc := ⟨.hbm, 115, rfl⟩
abbrev main_v68 : Ref sig .tc := ⟨.hbm, 116, rfl⟩
abbrev main_v69 : Ref sig .tc := ⟨.hbm, 117, rfl⟩
abbrev main_v70 : Ref sig .tc := ⟨.hbm, 118, rfl⟩
abbrev main_cst_3 : Ref sig .tc := ⟨.hbm, 119, rfl⟩
abbrev main_call7_cst : Ref sig .tc := ⟨.hbm, 120, rfl⟩
abbrev main_call7_v0 : Ref sig .tc := ⟨.hbm, 121, rfl⟩
abbrev main_call7_v1 : Ref sig .tc := ⟨.hbm, 122, rfl⟩
abbrev main_call7_v2 : Ref sig .tc := ⟨.hbm, 123, rfl⟩
abbrev main_call7_v3 : Ref sig .tc := ⟨.hbm, 124, rfl⟩
abbrev main_call7_v4 : Ref sig .tc := ⟨.hbm, 125, rfl⟩
abbrev main_v71 : Ref sig .tc := ⟨.hbm, 126, rfl⟩
abbrev main_v72 : Ref sig .tc := ⟨.hbm, 127, rfl⟩
abbrev main_v73 : Ref sig .tc := ⟨.hbm, 128, rfl⟩
abbrev main_v74 : Ref sig .tc := ⟨.hbm, 129, rfl⟩
abbrev main_call8_cst : Ref sig .tc := ⟨.hbm, 130, rfl⟩
abbrev main_call8_v0 : Ref sig .tc := ⟨.hbm, 131, rfl⟩
abbrev main_v75 : Ref sig .tc := ⟨.hbm, 132, rfl⟩
abbrev main_v76 : Ref sig .tc := ⟨.hbm, 133, rfl⟩
abbrev main_v77 : Ref sig .tc := ⟨.hbm, 134, rfl⟩
abbrev main_v78 : Ref sig .tc := ⟨.hbm, 135, rfl⟩
abbrev main_v79 : Ref sig .tc := ⟨.hbm, 136, rfl⟩
abbrev main_v80 : Ref sig .tc := ⟨.hbm, 137, rfl⟩
abbrev main_v81 : Ref sig .tc := ⟨.hbm, 138, rfl⟩
abbrev main_v82 : Ref sig .tc := ⟨.hbm, 139, rfl⟩
abbrev main_v83 : Ref sig .tc := ⟨.hbm, 140, rfl⟩
abbrev main_v84 : Ref sig .tc := ⟨.hbm, 141, rfl⟩
abbrev main_v85 : Ref sig .tc := ⟨.hbm, 142, rfl⟩
abbrev main_v86 : Ref sig .tc := ⟨.hbm, 143, rfl⟩
abbrev main_cst_4 : Ref sig .tc := ⟨.hbm, 144, rfl⟩
abbrev main_call9_cst : Ref sig .tc := ⟨.hbm, 145, rfl⟩
abbrev main_call9_v0 : Ref sig .tc := ⟨.hbm, 146, rfl⟩
abbrev main_call9_v1 : Ref sig .tc := ⟨.hbm, 147, rfl⟩
abbrev main_call9_v2 : Ref sig .tc := ⟨.hbm, 148, rfl⟩
abbrev main_call9_v3 : Ref sig .tc := ⟨.hbm, 149, rfl⟩
abbrev main_call9_v4 : Ref sig .tc := ⟨.hbm, 150, rfl⟩
abbrev main_v87 : Ref sig .tc := ⟨.hbm, 151, rfl⟩
abbrev main_v88 : Ref sig .tc := ⟨.hbm, 152, rfl⟩
abbrev main_v89 : Ref sig .tc := ⟨.hbm, 153, rfl⟩
abbrev main_v90 : Ref sig .tc := ⟨.hbm, 154, rfl⟩
abbrev main_v91 : Ref sig .tc := ⟨.hbm, 155, rfl⟩
abbrev main_v92 : Ref sig .tc := ⟨.hbm, 156, rfl⟩

abbrev nD : Nat := 1
abbrev τ : Topo := Topo.v7x

variable {F : FTy → Type} [FloatOps F]

class Facts₀ : Prop where
  transposes_S128x64_S64x128_1_0 : S128x64.Transposes [1, 0] S64x128
  bcast_S128_S1x128_1 : S128.BroadcastsInDim S1x128 (![1] : Fin 1 → Fin S1x128.rank)
  bcast_S1x128_S4096x128_0_1 : S1x128.BroadcastsInDim S4096x128 (![0, 1] : Fin 2 → Fin S4096x128.rank)
  bcast_S_S4096x128 : S_.BroadcastsInDim S4096x128 (![] : Fin 0 → Fin S4096x128.rank)
  transposes_S128x128_S128x128_1_0 : S128x128.Transposes [1, 0] S128x128
  transposes_S128x32_S32x128_1_0 : S128x32.Transposes [1, 0] S32x128
  bcast_S1x128_S8192x128_0_1 : S1x128.BroadcastsInDim S8192x128 (![0, 1] : Fin 2 → Fin S8192x128.rank)
  bcast_S_S8192x128 : S_.BroadcastsInDim S8192x128 (![] : Fin 0 → Fin S8192x128.rank)
  transposes_S4096x8192_S8192x4096_1_0 : S4096x8192.Transposes [1, 0] S8192x4096
  slices_S4x128x128_S1x128x128_0_0_0 : S4x128x128.Slices ![0, 0, 0] S1x128x128
  shapeCasts_S1x128x128_S128x128 : S1x128x128.ShapeCasts S128x128
  slices_S4x128_S1x128_0_0 : S4x128.Slices ![0, 0] S1x128
  shapeCasts_S1x128_S128 : S1x128.ShapeCasts S128
  slices_S4x128x128_S1x128x128_1_0_0 : S4x128x128.Slices ![1, 0, 0] S1x128x128
  slices_S4x128_S1x128_1_0 : S4x128.Slices ![1, 0] S1x128
  slices_S4x128x128_S1x128x128_2_0_0 : S4x128x128.Slices ![2, 0, 0] S1x128x128
  slices_S4x128_S1x128_2_0 : S4x128.Slices ![2, 0] S1x128
  slices_S4x128x128_S1x128x128_3_0_0 : S4x128x128.Slices ![3, 0, 0] S1x128x128
  slices_S4x128_S1x128_3_0 : S4x128.Slices ![3, 0] S1x128
  concatenates_S8192x128_S8192x128_S8192x128_S8192x384_d1 : Shape.Concatenates [S8192x128, S8192x128, S8192x128] S8192x384 1
  dot_S4096x64_S64x128_S4096x128_1_0_0_1_n_n_wf : DotDims.WF S4096x64 S64x128 S4096x128 [1] [0] [0] [1] [] []
  dot_S4096x128_S128x128_S4096x128_1_0_0_1_n_n_wf : DotDims.WF S4096x128 S128x128 S4096x128 [1] [0] [0] [1] [] []
  dot_S8192x32_S32x128_S8192x128_1_0_0_1_n_n_wf : DotDims.WF S8192x32 S32x128 S8192x128 [1] [0] [0] [1] [] []
  dot_S8192x128_S128x128_S8192x128_1_0_0_1_n_n_wf : DotDims.WF S8192x128 S128x128 S8192x128 [1] [0] [0] [1] [] []
  dot_S8192x4096_S4096x128_S8192x128_1_0_0_1_n_n_wf : DotDims.WF S8192x4096 S4096x128 S8192x128 [1] [0] [0] [1] [] []
  dot_S4096x8192_S8192x128_S4096x128_1_0_0_1_n_n_wf : DotDims.WF S4096x8192 S8192x128 S4096x128 [1] [0] [0] [1] [] []

variable [Facts₀]

def dot_S4096x64_S64x128_S4096x128_1_0_0_1_n_n : DotDims S4096x64 S64x128 S4096x128 where
  lhsContracting := [1]
  rhsContracting := [0]
  lhsNonContracting := [0]
  rhsNonContracting := [1]
  lhsBatch := []
  rhsBatch := []
  wf := dot_S4096x64_S64x128_S4096x128_1_0_0_1_n_n_wf
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def dot_S8192x32_S32x128_S8192x128_1_0_0_1_n_n : DotDims S8192x32 S32x128 S8192x128 where
  lhsContracting := [1]
  rhsContracting := [0]
  lhsNonContracting := [0]
  rhsNonContracting := [1]
  lhsBatch := []
  rhsBatch := []
  wf := dot_S8192x32_S32x128_S8192x128_1_0_0_1_n_n_wf
def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def dot_S8192x4096_S4096x128_S8192x128_1_0_0_1_n_n : DotDims S8192x4096 S4096x128 S8192x128 where
  lhsContracting := [1]
  rhsContracting := [0]
  lhsNonContracting := [0]
  rhsNonContracting := [1]
  lhsBatch := []
  rhsBatch := []
  wf := dot_S8192x4096_S4096x128_S8192x128_1_0_0_1_n_n_wf
def dot_S4096x8192_S8192x128_S4096x128_1_0_0_1_n_n : DotDims S4096x8192 S8192x128 S4096x128 where
  lhsContracting := [1]
  rhsContracting := [0]
  lhsNonContracting := [0]
  rhsNonContracting := [1]
  lhsBatch := []
  rhsBatch := []
  wf := dot_S4096x8192_S8192x128_S4096x128_1_0_0_1_n_n_wf

class Facts : Prop extends Facts₀ where

variable [Facts]
-- ==== Proof.K.Reg0Runs.lean ====
/-
  Region 0 (an edge update relu(he + vew2ᵀ·hv)), the definitions its two runs share.
  The grid is (i, k) with k of extent 2: point t has k = t mod 2. At k = 0 the accumulator is zeroed and the first
  half of the contraction added; at k = 1 the second half is added and the output block stored. Everything is stated
  at a parameter V, the TensorCore's buffer contents when the region is entered.
-/
import proofs.«181597_j77979426226450_2_alg».proof.Proof.Gen.Kernel.Launch
import proofs.«181597_j77979426226450_2_alg».proof.Proof.Gen.Kernel.Skeleton
import proofs.«181597_j77979426226450_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not: when it is not
    fetched its block index has not moved, so the block of the point before is this point's. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's two branch conditions, decided over the grid -/

/-- "k = 0": the accumulator is zeroed. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 2 = 0 :=
  (by decide +kernel : ∀ t : Fin grid0.N, cond0_0 (grid0.coords t) ↔ t.val % 2 = 0)
/-- "k = 1", the last step: the output block is stored. -/
abbrev cond0_1 (i : grid0.Coords) : Prop := k0_cond2 i = 1#1
theorem hcond0_1 : ∀ t : Fin cfg0.N, cond0_1 (grid0.coords t) ↔ t.val % 2 = 1 :=
  (by decide +kernel : ∀ t : Fin grid0.N, cond0_1 (grid0.coords t) ↔ t.val % 2 = 1)

/-! ## Where the output window is idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- At k = 0 nothing is stored into the output's buffer, and its block is not written back. -/
theorem idleAt0_3_A : ∀ t : Fin cfg0.N, cond0_0 (grid0.coords t) → ¬cond0_1 (grid0.coords t) → cfg0.idle 3 (grid0.coords t) = true := by decide +kernel
theorem noFlush0_3_A : ∀ t : Fin cfg0.N, cond0_0 (grid0.coords t) → ¬cond0_1 (grid0.coords t) → (cfg0.win 3).flush t = false := by decide +kernel
/-- At k = 1 it is stored. -/
theorem liveAt0_3_C : ∀ t : Fin cfg0.N, ¬cond0_0 (grid0.coords t) → cond0_1 (grid0.coords t) → cfg0.idle 3 (grid0.coords t) = false := by decide +kernel

/-! ## The memrefs the body is called with -/

/-- One staging buffer of the output window, through which its contents are stated. -/
abbrev VO0_3 : View sig .tc .vmem S1024x128 .f32 := (Memref.whole cc0_stg3_0 : Memref sig .tc .vmem S1024x128 .f32).view
abbrev ms0_0 (t : Fin cfg0.N) : Memref sig .tc .vmem S2048x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x128 .f32 := win0_3.stage (cfg0.slots t 3)
abbrev hs0_3 (t : Fin cfg0.N) : (ms0_3 t).IsWhole := hstage0_3 ((cfg0.slots t 3).cast nbuf0_3)
/-- The accumulator: a whole scoped buffer of the kernel's own. -/
abbrev scM0_0 : Memref sig .tc .vmem S1024x128 .f32 := Memref.whole cc0_scratch0
abbrev VS0_0 : View sig .tc .vmem S1024x128 .f32 := scM0_0.view

/-- What the region may use and need not describe, with the accumulator split out: the accumulator at some contents,
    every other scoped buffer unopened, the generator register at some state. -/
theorem PhiA0_eq (c : Dev nD) :
    (Pipeline.ΦA spec0 c : sProp 𝕄)
      = iprop(iprop((∃ d, owns (c : Thread nD τ) scM0_0 fullShare d)
          ∗ Pipeline.scopedRestBut (Ix := Unit) (Name := ℕ) (U := UR sig nD τ) (Lvl := ℕ) (Val := Elt F) spec0 c [cc0_scratch0]) ∗ (∃ r, prngReg c r)) := by
  unfold Pipeline.ΦA; rw [scopedRest0_split]; simp only [scM0_0, owns_whole]; try rfl

end Cert.Kernel.Hand

end
-- ==== Proof.K.Reg0RunA.lean ====
/-
  Region 0, the body at k = 0: the accumulator is zeroed, the first half of the contraction (the one-hot block against
  the feature block and against its rounding remainder) is added to it, and nothing is stored into the output's buffer.
-/
import proofs.«181597_j77979426226450_2_alg».proof.Proof.K.Reg0Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's stores leave in the accumulator at k = 0 (last first), with the proof that on whole staging
    memrefs — the three inputs at their contents, the output's buffer at contents handed back untouched, the
    accumulator at anything — the body runs to a continuation holding the inputs and the output's buffer as they were and
    the accumulator with those pieces written. -/
noncomputable def kernelRun0_A (c : Dev nD) (i : grid0.Coords) (arg2 : Memref sig .tc .vmem S2048x1024 .bf16) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : cond0_0 i) (hc1 : ¬cond0_1 i)
    (x0 : Vec F S2048x1024 .bf16) (x1 : Vec F S2048x128 .f32) (x2 : Vec F S1024x128 .f32) :
    Σ' (L3 : List (View.Piece (Elt F) S1024x128 .f32)), { LS0 : List (View.Piece (Elt F) S1024x128 .f32) //
      ∀ (xi3 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__agg_relu_kernel i arg2 harg2 arg3 harg3 arg4 harg4 arg5 harg5 arg6 harg6) K } := by
  refine ⟨[], ?_, fun xi3 E K => ?run⟩
  case run =>
    simp only [cc0__agg_relu_kernel_eq_skeleton]; unfold cc0__agg_relu_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Hand

end
-- ==== Proof.K.Reg0RunC.lean ====
/-
  Region 0, the body at k = 1: the second half of the contraction is added to the accumulator, and the output block is
  stored: the maximum of zero and the accumulator plus the edge features.
-/
import proofs.«181597_j77979426226450_2_alg».proof.Proof.K.Reg0RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's stores leave in the output's buffer and in the accumulator at k = 1 (last first), with the
    proof that on whole staging memrefs — the three inputs at their contents, the output's buffer at anything, the
    accumulator at what the point before left — the body runs to a continuation holding the inputs as they were and the
    output's buffer and the accumulator with those pieces written. -/
noncomputable def kernelRun0_C (c : Dev nD) (i : grid0.Coords) (arg2 : Memref sig .tc .vmem S2048x1024 .bf16) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : ¬cond0_0 i) (hc1 : cond0_1 i)
    (x0 : Vec F S2048x1024 .bf16) (x1 : Vec F S2048x128 .f32) (x2 : Vec F S1024x128 .f32) (xs0 : Vec F S1024x128 .f32) :
    Σ' (L3 : List (View.Piece (Elt F) S1024x128 .f32)), { LS0 : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc0__agg_relu_kernel i arg2 harg2 arg3 harg3 arg4 harg4 arg5 harg5 arg6 harg6) K } := by
  refine ⟨?_, ?_, fun E K => ?run⟩
  case run =>
    simp only [cc0__agg_relu_kernel_eq_skeleton]; unfold cc0__agg_relu_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.Kernel.Hand

end
-- ==== Proof.K.Reg0.lean ====
/-
  Region 0: what the body leaves at each point, the accumulation over the grid, the pipeline's proof data and the body
  obligation. The accumulator holds, after the point (i, 0), the first half of the contraction for row block i, and after
  (i, 1) the whole contraction; the output block of row block i is stored at (i, 1) from the accumulator.
-/
import proofs.«181597_j77979426226450_2_alg».proof.Proof.K.Reg0RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- At k = 0 nothing is stored into the output's buffer: a placeholder nothing consults (the window is neither written
    back there nor read at the next point before being covered). -/
def out0_A_3 (c : Dev nD) (i : grid0.Coords) (arg2 : Memref sig .tc .vmem S2048x1024 .bf16) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : cond0_0 i) (hc1 : ¬cond0_1 i)
    (x0 : Vec F S2048x1024 .bf16) (x1 : Vec F S2048x128 .f32) (x2 : Vec F S1024x128 .f32) : Vec F S1024x128 .f32 :=
  VO0_3.read (Elt F) (VO0_3.writes (Elt F) VO0_3.junk (kernelRun0_A c i arg2 harg2 arg3 harg3 arg4 harg4 arg5 harg5 arg6 harg6 hc0 hc1 x0 x1 x2).1)

/-- The stores of k = 0 into the accumulator cover it. -/
theorem scover0_A_0 (c : Dev nD) (i : grid0.Coords) (arg2 : Memref sig .tc .vmem S2048x1024 .bf16) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : cond0_0 i) (hc1 : ¬cond0_1 i)
    (x0 : Vec F S2048x1024 .bf16) (x1 : Vec F S2048x128 .f32) (x2 : Vec F S1024x128 .f32) (y : S1024x128.Idx) :
    ∃ pc ∈ (kernelRun0_A c i arg2 harg2 arg3 harg3 arg4 harg4 arg5 harg5 arg6 harg6 hc0 hc1 x0 x1 x2).2.1, y ∈ pc.1.set :=
  View.cover_of_tiledL (kernelRun0_A c i arg2 harg2 arg3 harg3 arg4 harg4 arg5 harg5 arg6 harg6 hc0 hc1 x0 x1 x2).2.1 S1024x128.size (by sl_kernel_rfl) y

/-- What k = 0 leaves in the accumulator. -/
def sout0_A_0 (c : Dev nD) (i : grid0.Coords) (arg2 : Memref sig .tc .vmem S2048x1024 .bf16) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : cond0_0 i) (hc1 : ¬cond0_1 i)
    (x0 : Vec F S2048x1024 .bf16) (x1 : Vec F S2048x128 .f32) (x2 : Vec F S1024x128 .f32) : Vec F S1024x128 .f32 :=
  VS0_0.read (Elt F) (VS0_0.writes (Elt F) VS0_0.junk (kernelRun0_A c i arg2 harg2 arg3 harg3 arg4 harg4 arg5 harg5 arg6 harg6 hc0 hc1 x0 x1 x2).2.1)

/-- The store of k = 1 into the output's buffer covers it. -/
theorem cover0_C_3 (c : Dev nD) (i : grid0.Coords) (arg2 : Memref sig .tc .vmem S2048x1024 .bf16) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : ¬cond0_0 i) (hc1 : cond0_1 i)
    (x0 : Vec F S2048x1024 .bf16) (x1 : Vec F S2048x128 .f32) (x2 : Vec F S1024x128 .f32) (xs0 : Vec F S1024x128 .f32) (y : S1024x128.Idx) :
    ∃ pc ∈ (kernelRun0_C c i arg2 harg2 arg3 harg3 arg4 harg4 arg5 harg5 arg6 harg6 hc0 hc1 x0 x1 x2 xs0).1, y ∈ pc.1.set :=
  View.cover_of_tiledL (kernelRun0_C c i arg2 harg2 arg3 harg3 arg4 harg4 arg5 harg5 arg6 harg6 hc0 hc1 x0 x1 x2 xs0).1 S1024x128.size (by sl_kernel_rfl) y

/-- What k = 1 leaves in the output's buffer. -/
def out0_C_3 (c : Dev nD) (i : grid0.Coords) (arg2 : Memref sig .tc .vmem S2048x1024 .bf16) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : ¬cond0_0 i) (hc1 : cond0_1 i)
    (x0 : Vec F S2048x1024 .bf16) (x1 : Vec F S2048x128 .f32) (x2 : Vec F S1024x128 .f32) (xs0 : Vec F S1024x128 .f32) : Vec F S1024x128 .f32 :=
  VO0_3.read (Elt F) (VO0_3.writes (Elt F) VO0_3.junk (kernelRun0_C c i arg2 harg2 arg3 harg3 arg4 harg4 arg5 harg5 arg6 harg6 hc0 hc1 x0 x1 x2 xs0).1)

/-- The store of k = 1 into the accumulator covers it. -/
theorem scover0_C_0 (c : Dev nD) (i : grid0.Coords) (arg2 : Memref sig .tc .vmem S2048x1024 .bf16) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : ¬cond0_0 i) (hc1 : cond0_1 i)
    (x0 : Vec F S2048x1024 .bf16) (x1 : Vec F S2048x128 .f32) (x2 : Vec F S1024x128 .f32) (xs0 : Vec F S1024x128 .f32) (y : S1024x128.Idx) :
    ∃ pc ∈ (kernelRun0_C c i arg2 harg2 arg3 harg3 arg4 harg4 arg5 harg5 arg6 harg6 hc0 hc1 x0 x1 x2 xs0).2.1, y ∈ pc.1.set :=
  View.cover_of_tiledL (kernelRun0_C c i arg2 harg2 arg3 harg3 arg4 harg4 arg5 harg5 arg6 harg6 hc0 hc1 x0 x1 x2 xs0).2.1 S1024x128.size (by sl_kernel_rfl) y

/-- What k = 1 leaves in the accumulator. -/
def sout0_C_0 (c : Dev nD) (i : grid0.Coords) (arg2 : Memref sig .tc .vmem S2048x1024 .bf16) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : ¬cond0_0 i) (hc1 : cond0_1 i)
    (x0 : Vec F S2048x1024 .bf16) (x1 : Vec F S2048x128 .f32) (x2 : Vec F S1024x128 .f32) (xs0 : Vec F S1024x128 .f32) : Vec F S1024x128 .f32 :=
  VS0_0.read (Elt F) (VS0_0.writes (Elt F) VS0_0.junk (kernelRun0_C c i arg2 harg2 arg3 harg3 arg4 harg4 arg5 harg5 arg6 harg6 hc0 hc1 x0 x1 x2 xs0).2.1)

/-! ## What the output's buffer and the accumulator hold after each point -/

/-- The accumulation: after position n, the pair (output's buffer, accumulator) — at an even position the case k = 0 run
    at the point's blocks, at an odd one the case k = 1 run at the point's blocks over the accumulator the point before
    left. -/
def outsAt0 (c : Dev nD) : (n : ℕ) → n < cfg0.N → Vec F S1024x128 .f32 × Vec F S1024x128 .f32
  | 0, hn => (out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩),
      sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩))
  | n + 1, hn =>
    if h0 : (n + 1) % 2 = 0 then
      if h1 : (n + 1) % 2 = 1 then
        False.elim (by omega)
      else
        (out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩),
          sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩))
    else
      if h1 : (n + 1) % 2 = 1 then
        (out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2,
          sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2)
      else
        False.elim (by omega)

/-- At a point with k = 0: that case's contents. -/
theorem outsAt0_A (c : Dev nD) (t : Fin cfg0.N) (h0 : t.val % 2 = 0) (h1 : ¬t.val % 2 = 1) :
    outsAt0 V c t.val t.isLt = (out0_A_3 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk0 V c 0 t) (iblk0 V c 1 t) (iblk0 V c 2 t),
      sout0_A_0 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk0 V c 0 t) (iblk0 V c 1 t) (iblk0 V c 2 t)) := by
  obtain ⟨n, hn⟩ := t
  cases n with
  | zero => exact rfl
  | succ n => exact (dif_pos h0).trans ((dif_neg h1).trans rfl)

/-- At a point with k = 1: that case's contents, over the accumulator the point before left. -/
theorem outsAt0_C (c : Dev nD) (t : Fin cfg0.N) (h0 : ¬t.val % 2 = 0) (h1 : t.val % 2 = 1) :
    outsAt0 V c t.val t.isLt = (out0_C_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2,
      sout0_C_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position n: before the first point what the region may use, undescribed; afterwards
    the accumulator at what the point before left in it, the other scoped buffers unopened, the generator register at
    some state. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2)
      ∗ Pipeline.scopedRestBut (Ix := Unit) (Name := ℕ) (U := UR sig nD τ) (Lvl := ℕ) (Val := Elt F) spec0 c [cc0_scratch0]) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0_0 fullShare ((outsAt0 V c n hn).2)
      ∗ Pipeline.scopedRestBut (Ix := Unit) (Name := ℕ) (U := UR sig nD τ) (Lvl := ℕ) (Val := Elt F) spec0 c [cc0_scratch0]) ∗ (∃ r, prngReg c r)) := rfl

theorem PhiS0_pos (c : Dev nD) (n : ℕ) (h : n ≤ cfg0.N) (hz : n ≠ 0) :
    PhiS0 V c n h = iprop(iprop(owns (c : Thread nD τ) scM0_0 fullShare ((outsAt0 V c (n - 1) (by omega)).2)
      ∗ Pipeline.scopedRestBut (Ix := Unit) (Name := ℕ) (U := UR sig nD τ) (Lvl := ℕ) (Val := Elt F) spec0 c [cc0_scratch0]) ∗ (∃ r, prngReg c r)) := by
  cases n with
  | zero => exact absurd rfl hz
  | succ n => rfl

/-! ## The pipeline's proof data -/

/-- The arrays as the region finds them; after the body each input's buffer at its block and the output's at the
    accumulation's first component; the invariant above; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- The body at any point: the inputs' memrefs hold their blocks; k decides the case; the invariant hands the body the
    accumulator (at anything at the first point, else at what the point before left) and takes it back at this point's
    contents; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  have hN : t.val < 16 := lt_of_lt_of_eq t.isLt (show cfg0.N = 16 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  by_cases h0 : t.val % 2 = 0
  · have h1 : ¬t.val % 2 = 1 := by omega
    rw [Dat.leavesExact_idle (dat0 V c) 3 t (idleAt0_3_A t ((hcond0_0 t).mpr h0) (fun h => h1 ((hcond0_1 t).mp h))) (noFlush0_3_A t ((hcond0_0 t).mpr h0) (fun h => h1 ((hcond0_1 t).mp h)))]
    rw [outsAt0_A V c t h0 h1]
    unfold sout0_A_0; (try dsimp only)
    by_cases hz : t.val = 0
    · rw [PhiS0_castSucc V c t, PhiS0_zero V c _ _ hz, PhiA0_eq]
      iintro ⟨⟨⟨HS0, Hrest⟩, Hg⟩, Ho, ⟨%d0, H0⟩, ⟨%d1, H1⟩, ⟨%d2, H2⟩, ⟨%d3, H3⟩⟩
      iapply ((kernelRun0_A c (grid0.coords t) _ _ _ _ _ _ _ _ _ _ ((hcond0_0 t).mpr h0) (fun h => h1 ((hcond0_1 t).mp h)) (iblk0 V c 0 t) (iblk0 V c 1 t) (iblk0 V c 2 t)).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover0_A_0 c _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3
    · rw [PhiS0_castSucc V c t, PhiS0_pos V c _ _ hz]
      iintro ⟨⟨⟨HS0, Hrest⟩, Hg⟩, Ho, ⟨%d0, H0⟩, ⟨%d1, H1⟩, ⟨%d2, H2⟩, ⟨%d3, H3⟩⟩
      iapply ((kernelRun0_A c (grid0.coords t) _ _ _ _ _ _ _ _ _ _ ((hcond0_0 t).mpr h0) (fun h => h1 ((hcond0_1 t).mp h)) (iblk0 V c 0 t) (iblk0 V c 1 t) (iblk0 V c 2 t)).2.2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover0_A_0 c _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3
  · have h1 : t.val % 2 = 1 := by omega
    rw [show (dat0 V c).leavesExact 3 t = owns (c : Thread nD τ) (ms0_3 t) fullShare ((dat0 V c).after 3 t) from by
      unfold Dat.leavesExact; rw [liveAt0_3_C t (fun h => h0 ((hcond0_0 t).mp h)) ((hcond0_1 t).mpr h1)], after0_3]
    rw [outsAt0_C V c t h0 h1]
    unfold out0_C_3 sout0_C_0; (try dsimp only)
    have hz : t.val ≠ 0 := by omega
    rw [PhiS0_castSucc V c t, PhiS0_pos V c _ _ hz]
    iintro ⟨⟨⟨HS0, Hrest⟩, Hg⟩, Ho, ⟨%d0, H0⟩, ⟨%d1, H1⟩, ⟨%d2, H2⟩, ⟨%d3, H3⟩⟩
    iapply ((kernelRun0_C c (grid0.coords t) _ _ _ _ _ _ _ _ _ _ (fun h => h0 ((hcond0_0 t).mp h)) ((hcond0_1 t).mpr h1) (iblk0 V c 0 t) (iblk0 V c 1 t) (iblk0 V c 2 t) _).2.2 Set.univ _)
    isplitl [H0]; · iexact H0
    isplitl [H1]; · iexact H1
    isplitl [H2]; · iexact H2
    isplitl [H3]; · iexists _; iexact H3
    isplitl [HS0]; · iexact HS0
    iintro ⟨H0, H1, H2, ⟨%e3, H3⟩, ⟨%es0, HS0⟩⟩
    isplitl [HS0 Hrest Hg]
    · isplitl [HS0 Hrest]
      · isplitl [HS0]
        · unfold owns; iexists _; isplitr
          swap; · iexact HS0
          ipureintro; exact View.read_writes_of_cover _ _ _ _ _ (scover0_C_0 c _ _ _ _ _ _ _ _ _ _ _ _ _ _ _ _ _)
        iexact Hrest
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover0_C_3 c _ _ _ _ _ _ _ _ _ _ _ _ _ _ _ _ _)

/-- The pipeline library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives it back: the accumulator's named contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, Hrest⟩, Hg⟩
  isplitl [HS0 Hrest]
  · isplitl [HS0]
    · iexists _; iexact HS0
    iexact Hrest
  iexact Hg

theorem hout0 (c : Dev nD) : (dat0 V c).Φ (Fin.last cfg0.N) ⊢ Pipeline.ΦA spec0 c :=
  Phi_out0 V c _ (by rw [Fin.val_last]; have : cfg0.N = 16 := N_0; omega)

end Cert.Kernel.Hand

end
-- ==== Proof.K.Reg1Runs.lean ====
/- Region 1 (the aggregate-residual-MLP kernel, pipeline 1): what its two runs share — the windows' blocks at the
   region-entry contents, the input windows' staging contents, the body's two branch conditions decided over the
   grid, where the output window is idle, the staging and scratch memrefs, and the region invariant with the
   scratch accumulator owned as a memref. -/
import proofs.«181597_j77979426226450_2_alg».proof.Proof.Gen.Kernel.Launch
import proofs.«181597_j77979426226450_2_alg».proof.Proof.Gen.Kernel.Skeleton
import proofs.«181597_j77979426226450_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
-- the TensorCore's buffer contents when the region is entered: the parameter the region's half is stated at
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s (`hA`) and whose body leaves the block in place (`hafter`): unfetched, the block
    index has not moved; the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is `V`'s (`hA`) and whose body leaves the block in place (`hafter`): unfetched, the block
    index has not moved; the window is uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof
    data whose array is `V`'s (`hA`) and whose body leaves the block in place (`hafter`): unfetched, the block
    index has not moved; the window is uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof
    data whose array is `V`'s (`hA`) and whose body leaves the block in place (`hafter`): unfetched, the block
    index has not moved; the window is uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not, for any proof
    data whose array is `V`'s (`hA`) and whose body leaves the block in place (`hafter`): unfetched, the block
    index has not moved; the window is uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

end Region

/-! ## The body's branch conditions -/

/-- The condition of the body's first conditional (the reduction index is 0), from the grid coordinates. -/
abbrev cond1_0 (i : grid1.Coords) : Prop := (Scalar.cmpi .ne (Scalar.extui (Scalar.cmpi .eq (BitVec.ofNat 32 (i 1).val) 0#32)) 0#32) = 1#1
/-- It holds at the points ≡ 0 (mod 2) — decided over the grid. -/
theorem hcond1_0 : ∀ t : Fin cfg1.N, cond1_0 (grid1.coords t) ↔ t.val % 2 = 0 :=
  (by decide +kernel : ∀ t : Fin grid1.N, cond1_0 (grid1.coords t) ↔ t.val % 2 = 0)

/-- The condition of the body's second conditional (the reduction index is the last). -/
abbrev cond1_1 (i : grid1.Coords) : Prop := k1_cond2 i = 1#1
/-- It holds at the points ≡ 1 (mod 2) — decided over the grid. -/
theorem hcond1_1 : ∀ t : Fin cfg1.N, cond1_1 (grid1.coords t) ↔ t.val % 2 = 1 :=
  (by decide +kernel : ∀ t : Fin grid1.N, cond1_1 (grid1.coords t) ↔ t.val % 2 = 1)

/-! ## Where the windows are idle -/

/-- Window 0 is never idle (an input). -/
theorem liveAt1_0 : ∀ t : Fin cfg1.N, cfg1.idle 0 (grid1.coords t) = false := by decide +kernel
/-- Window 1 is never idle (an input). -/
theorem liveAt1_1 : ∀ t : Fin cfg1.N, cfg1.idle 1 (grid1.coords t) = false := by decide +kernel
/-- Window 2 is never idle (an input). -/
theorem liveAt1_2 : ∀ t : Fin cfg1.N, cfg1.idle 2 (grid1.coords t) = false := by decide +kernel
/-- Window 3 is never idle (an input). -/
theorem liveAt1_3 : ∀ t : Fin cfg1.N, cfg1.idle 3 (grid1.coords t) = false := by decide +kernel
/-- Window 4 is never idle (an input). -/
theorem liveAt1_4 : ∀ t : Fin cfg1.N, cfg1.idle 4 (grid1.coords t) = false := by decide +kernel
/-- At the points of case A (first conditional taken, second not) output 5 is idle: the case stores nothing into it. -/
theorem idleAt1_5_A : ∀ t : Fin cfg1.N, cond1_0 (grid1.coords t) → ¬cond1_1 (grid1.coords t) → cfg1.idle 5 (grid1.coords t) = true := by decide +kernel
/-- At the points of case A the pipeline does not write output 5's block back. -/
theorem noFlush1_5_A : ∀ t : Fin cfg1.N, cond1_0 (grid1.coords t) → ¬cond1_1 (grid1.coords t) → (cfg1.win 5).flush t = false := by decide +kernel
/-- At the points of case C (first conditional not taken, second taken) output 5 is live: the case stores into it. -/
theorem liveAt1_5_C : ∀ t : Fin cfg1.N, ¬cond1_0 (grid1.coords t) → cond1_1 (grid1.coords t) → cfg1.idle 5 (grid1.coords t) = false := by decide +kernel

/-! ## The staging and scratch memrefs -/

/-- One staging buffer of output window 5, through which its contents are stated (the choice does not matter). -/
abbrev VO1_5 : View sig .tc .vmem S1024x128 .f32 := (Memref.whole cc1_stg5_0 : Memref sig .tc .vmem S1024x128 .f32).view
/-- Each window's current staging memref at point `t`, spelled as the pipeline passes it, and its wholeness. -/
abbrev ms1_0 (t : Fin cfg1.N) : Memref sig .tc .vmem S1024x4096 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S4096x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S128x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1024x128 .f32 := win1_5.stage (cfg1.slots t 5)
abbrev hs1_5 (t : Fin cfg1.N) : (ms1_5 t).IsWhole := hstage1_5 ((cfg1.slots t 5).cast nbuf1_5)
/-- The scratch accumulator: a whole scoped buffer of the kernel's own, passed beside the windows. -/
abbrev scM1_0 : Memref sig .tc .vmem S1024x128 .f32 := Memref.whole cc1_scratch0
/-- The same as a view: what the accumulator holds between points is stated through it. -/
abbrev VS1_0 : View sig .tc .vmem S1024x128 .f32 := scM1_0.view

/-- The region invariant with the scratch accumulator as a memref owned at some contents, the other scoped buffers
    unopened, and the generator register at some state: what the body obligation hands the run and takes back. -/
theorem PhiA1_eq (c : Dev nD) :
    (Pipeline.ΦA spec1 c : sProp 𝕄)
      = iprop(iprop(iprop((∃ d, owns (c : Thread nD τ) scM1_0 fullShare d))
          ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [scM1_0, owns_whole]; try rfl

end Cert.Kernel.Hand

end
-- ==== Proof.K.Reg1RunA.lean ====
/- Region 1: the whole-body run of the kernel in case A (first conditional taken, second not: the reduction's first
   step). The pieces the scratch accumulator ends with are the witness the run finds. -/
import proofs.«181597_j77979426226450_2_alg».proof.Proof.K.Reg1Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in the output's staging memref and in the scratch accumulator, as pieces (last first), in
    case A, with the proof that on whole staging memrefs — the inputs' at their contents, the output's (no store, the
    window idle and not written back at the case's points) at contents `xio` handed back untouched, the accumulator at
    anything — the body runs to the continuation holding the inputs' and the output's as they were and the accumulator
    with its pieces written: it is zeroed, then the product of the two input blocks is added. -/
noncomputable def kernelRun1_A (c : Dev nD) (i : grid1.Coords) (arg2 : Memref sig .tc .vmem S1024x4096 .bf16) (harg2 : arg2.IsWhole) (arg3 : Memref sig .tc .vmem S4096x128 .f32) (harg3 : arg3.IsWhole) (arg4 : Memref sig .tc .vmem S1024x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1024x128 .f32) (harg7 : arg7.IsWhole) (arg8 : Memref sig .tc .vmem S1024x128 .f32) (harg8 : arg8.IsWhole) (hcz : cond1_0 i) (hcl : ¬cond1_1 i)
    (xa : Vec F S1024x4096 .bf16) (xb : Vec F S4096x128 .f32) (xc : Vec F S1024x128 .f32) (xd : Vec F S128x128 .f32) (xe : Vec F S1x128 .f32) :
    Σ' (LO : List (View.Piece (Elt F) S1024x128 .f32)), { LS : List (View.Piece (Elt F) S1024x128 .f32) //
      ∀ (xio : Vec F S1024x128 .f32) (E : Set ℕ) (K : PUnit → sProp 𝕄),
        iprop(owns (c : Thread nD τ) arg2 fullShare xa ∗ owns (c : Thread nD τ) arg3 fullShare xb ∗ owns (c : Thread nD τ) arg4 fullShare xc ∗ owns (c : Thread nD τ) arg5 fullShare xd ∗ owns (c : Thread nD τ) arg6 fullShare xe ∗ owns (c : Thread nD τ) arg7 fullShare xio ∗ (∃ d, owns (c : Thread nD τ) arg8 fullShare d)
            ∗ (iprop(owns (c : Thread nD τ) arg2 fullShare xa ∗ owns (c : Thread nD τ) arg3 fullShare xb ∗ owns (c : Thread nD τ) arg4 fullShare xc ∗ owns (c : Thread nD τ) arg5 fullShare xd ∗ owns (c : Thread nD τ) arg6 fullShare xe ∗ owns (c : Thread nD τ) arg7 fullShare xio ∗ (∃ f, arg8.view.loc (c : Thread nD τ) ↦[arg8.view.set]{fullShare} arg8.view.writes (Elt F) f LS)) -∗ K ⟨⟩))
          ⊢ wp frame (wpE (defs₀ (F := F)) Variants.none c none) E (cc1__agg_residual_mlp_kernel i arg2 harg2 arg3 harg3 arg4 harg4 arg5 harg5 arg6 harg6 arg7 harg7 arg8 harg8) K } := by
  refine ⟨[], ?_, fun xio E K => ?run⟩
  case run =>
    simp only [cc1__agg_residual_mlp_kernel_eq_skeleton]; unfold cc1__agg_residual_mlp_kernel_skel
    unfold owns
    iintro ⟨⟨%fa, %hfa, Ha⟩, ⟨%fb, %hfb, Hb⟩, ⟨%fc, %hfc, Hc⟩, ⟨%fd, %hfd, Hd⟩, ⟨%fe, %hfe, He⟩, ⟨%fo, %hfo, Ho⟩, ⟨%ds, %fs, -, Hs⟩, Hk⟩
    obtain rfl := harg2.eq_unread hfa; obtain rfl := harg3.eq_unread hfb; obtain rfl := harg4.eq_unread hfc
    obtain rfl := harg5.eq_unread hfd; obtain rfl := harg6.eq_unread hfe; obtain rfl := harg7.eq_unread hfo
    sl_exec (disch := first | exact hcz | exact hcl)
    sl_step
    iapply Hk
    isplitl [Ha]
    · iexists _; isplitr; · ipureintro; exact harg2.read_unread _
      iexact Ha
    isplitl [Hb]
    · iexists _; isplitr; · ipureintro; exact harg3.read_unread _
      iexact Hb
    isplitl [Hc]
    · iexists _; isplitr; · ipureintro; exact harg4.read_unread _
      iexact Hc
    isplitl [Hd]
    · iexists _; isplitr; · ipureintro; exact harg5.read_unread _
      iexact Hd
    isplitl [He]
    · iexists _; isplitr; · ipureintro; exact harg6.read_unread _
      iexact He
    isplitl [Ho]
    · iexists _; isplitr; · ipureintro; exact harg7.read_unread _
      iexact Ho
    iexists _; iexact Hs

end Cert.Kernel.Hand

end
-- ==== Proof.K.Reg1RunC.lean ====
/- Region 1: the whole-body run of the kernel in case C (first conditional not taken, second taken: the reduction's
   last step). The pieces the output's staging memref and the scratch accumulator end with are the witness the run
   finds. -/
import proofs.«181597_j77979426226450_2_alg».proof.Proof.K.Reg1RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in the output's staging memref and in the scratch accumulator, as pieces (last first), in
    case C, with the proof that on whole staging memrefs — the inputs' at their contents, the output's at anything, the
    accumulator at the contents `xs` the point before left — the body runs to the continuation holding the inputs' as
    they were and the output's and the accumulator's with their pieces written: the product of the two input blocks is
    added to the accumulator, and the output is the residual layer applied to the sum. -/
noncomputable def kernelRun1_C (c : Dev nD) (i : grid1.Coords) (arg2 : Memref sig .tc .vmem S1024x4096 .bf16) (harg2 : arg2.IsWhole) (arg3 : Memref sig .tc .vmem S4096x128 .f32) (harg3 : arg3.IsWhole) (arg4 : Memref sig .tc .vmem S1024x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1024x128 .f32) (harg7 : arg7.IsWhole) (arg8 : Memref sig .tc .vmem S1024x128 .f32) (harg8 : arg8.IsWhole) (hcz : ¬cond1_0 i) (hcl : cond1_1 i)
    (xa : Vec F S1024x4096 .bf16) (xb : Vec F S4096x128 .f32) (xc : Vec F S1024x128 .f32) (xd : Vec F S128x128 .f32) (xe : Vec F S1x128 .f32) (xs : Vec F S1024x128 .f32) :
    Σ' (LO : List (View.Piece (Elt F) S1024x128 .f32)), { LS : List (View.Piece (Elt F) S1024x128 .f32) //
      ∀ (E : Set ℕ) (K : PUnit → sProp 𝕄),
        iprop(owns (c : Thread nD τ) arg2 fullShare xa ∗ owns (c : Thread nD τ) arg3 fullShare xb ∗ owns (c : Thread nD τ) arg4 fullShare xc ∗ owns (c : Thread nD τ) arg5 fullShare xd ∗ owns (c : Thread nD τ) arg6 fullShare xe ∗ (∃ d, owns (c : Thread nD τ) arg7 fullShare d) ∗ owns (c : Thread nD τ) arg8 fullShare xs
            ∗ (iprop(owns (c : Thread nD τ) arg2 fullShare xa ∗ owns (c : Thread nD τ) arg3 fullShare xb ∗ owns (c : Thread nD τ) arg4 fullShare xc ∗ owns (c : Thread nD τ) arg5 fullShare xd ∗ owns (c : Thread nD τ) arg6 fullShare xe ∗ (∃ f, arg7.view.loc (c : Thread nD τ) ↦[arg7.view.set]{fullShare} arg7.view.writes (Elt F) f LO) ∗ (∃ f, arg8.view.loc (c : Thread nD τ) ↦[arg8.view.set]{fullShare} arg8.view.writes (Elt F) f LS)) -∗ K ⟨⟩))
          ⊢ wp frame (wpE (defs₀ (F := F)) Variants.none c none) E (cc1__agg_residual_mlp_kernel i arg2 harg2 arg3 harg3 arg4 harg4 arg5 harg5 arg6 harg6 arg7 harg7 arg8 harg8) K } := by
  refine ⟨?_, ?_, fun E K => ?run⟩
  case run =>
    simp only [cc1__agg_residual_mlp_kernel_eq_skeleton]; unfold cc1__agg_residual_mlp_kernel_skel
    unfold owns
    iintro ⟨⟨%fa, %hfa, Ha⟩, ⟨%fb, %hfb, Hb⟩, ⟨%fc, %hfc, Hc⟩, ⟨%fd, %hfd, Hd⟩, ⟨%fe, %hfe, He⟩, ⟨%dout, %fo, -, Ho⟩, ⟨%fs, %hfs, Hs⟩, Hk⟩
    obtain rfl := harg2.eq_unread hfa; obtain rfl := harg3.eq_unread hfb; obtain rfl := harg4.eq_unread hfc
    obtain rfl := harg5.eq_unread hfd; obtain rfl := harg6.eq_unread hfe; obtain rfl := harg8.eq_unread hfs
    sl_exec (disch := first | exact hcz | exact hcl)
    sl_step
    iapply Hk
    isplitl [Ha]
    · iexists _; isplitr; · ipureintro; exact harg2.read_unread _
      iexact Ha
    isplitl [Hb]
    · iexists _; isplitr; · ipureintro; exact harg3.read_unread _
      iexact Hb
    isplitl [Hc]
    · iexists _; isplitr; · ipureintro; exact harg4.read_unread _
      iexact Hc
    isplitl [Hd]
    · iexists _; isplitr; · ipureintro; exact harg5.read_unread _
      iexact Hd
    isplitl [He]
    · iexists _; isplitr; · ipureintro; exact harg6.read_unread _
      iexact He
    isplitl [Ho]; · iexists _; iexact Ho
    iexists _; iexact Hs

end Cert.Kernel.Hand

end
-- ==== Proof.K.Reg1.lean ====
/- Region 1 (the aggregate-residual-MLP kernel, pipeline 1), the rest of its frame half: what the output's staging
   buffer and the scratch accumulator hold per case and point by point, the region invariant carrying the accumulator,
   the pipeline's proof data at the region-entry contents `V`, the body obligation at every point, and the invariant's
   entry and exit. -/
import proofs.«181597_j77979426226450_2_alg».proof.Proof.K.Reg1RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Case A stores nothing into output 5 (the window is idle at its points and not written back there): no pieces — a
    placeholder that nothing consults, since at these points the window is neither written back nor read at the next. -/
def out1_A_5 (c : Dev nD) (i : grid1.Coords) (arg2 : Memref sig .tc .vmem S1024x4096 .bf16) (harg2 : arg2.IsWhole) (arg3 : Memref sig .tc .vmem S4096x128 .f32) (harg3 : arg3.IsWhole) (arg4 : Memref sig .tc .vmem S1024x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1024x128 .f32) (harg7 : arg7.IsWhole) (arg8 : Memref sig .tc .vmem S1024x128 .f32) (harg8 : arg8.IsWhole) (hcz : cond1_0 i) (hcl : ¬cond1_1 i)
    (xa : Vec F S1024x4096 .bf16) (xb : Vec F S4096x128 .f32) (xc : Vec F S1024x128 .f32) (xd : Vec F S128x128 .f32) (xe : Vec F S1x128 .f32) : Vec F S1024x128 .f32 :=
  VO1_5.read (Elt F) (VO1_5.writes (Elt F) VO1_5.junk (kernelRun1_A c i arg2 harg2 arg3 harg3 arg4 harg4 arg5 harg5 arg6 harg6 arg7 harg7 arg8 harg8 hcz hcl xa xb xc xd xe).1)

/-- Case A's pieces for the scratch accumulator cover it: the zeroing store and the accumulating store each tile it. -/
theorem scover1_A_0 (c : Dev nD) (i : grid1.Coords) (arg2 : Memref sig .tc .vmem S1024x4096 .bf16) (harg2 : arg2.IsWhole) (arg3 : Memref sig .tc .vmem S4096x128 .f32) (harg3 : arg3.IsWhole) (arg4 : Memref sig .tc .vmem S1024x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1024x128 .f32) (harg7 : arg7.IsWhole) (arg8 : Memref sig .tc .vmem S1024x128 .f32) (harg8 : arg8.IsWhole) (hcz : cond1_0 i) (hcl : ¬cond1_1 i)
    (xa : Vec F S1024x4096 .bf16) (xb : Vec F S4096x128 .f32) (xc : Vec F S1024x128 .f32) (xd : Vec F S128x128 .f32) (xe : Vec F S1x128 .f32) (y : S1024x128.Idx) :
    ∃ pc ∈ (kernelRun1_A c i arg2 harg2 arg3 harg3 arg4 harg4 arg5 harg5 arg6 harg6 arg7 harg7 arg8 harg8 hcz hcl xa xb xc xd xe).2.1, y ∈ pc.1.set :=
  View.cover_of_tiledL (kernelRun1_A c i arg2 harg2 arg3 harg3 arg4 harg4 arg5 harg5 arg6 harg6 arg7 harg7 arg8 harg8 hcz hcl xa xb xc xd xe).2.1 S1024x128.size (by sl_kernel_rfl) y

/-- What case A leaves in the scratch accumulator: its pieces read back over junk. -/
def sout1_A_0 (c : Dev nD) (i : grid1.Coords) (arg2 : Memref sig .tc .vmem S1024x4096 .bf16) (harg2 : arg2.IsWhole) (arg3 : Memref sig .tc .vmem S4096x128 .f32) (harg3 : arg3.IsWhole) (arg4 : Memref sig .tc .vmem S1024x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1024x128 .f32) (harg7 : arg7.IsWhole) (arg8 : Memref sig .tc .vmem S1024x128 .f32) (harg8 : arg8.IsWhole) (hcz : cond1_0 i) (hcl : ¬cond1_1 i)
    (xa : Vec F S1024x4096 .bf16) (xb : Vec F S4096x128 .f32) (xc : Vec F S1024x128 .f32) (xd : Vec F S128x128 .f32) (xe : Vec F S1x128 .f32) : Vec F S1024x128 .f32 :=
  VS1_0.read (Elt F) (VS1_0.writes (Elt F) VS1_0.junk (kernelRun1_A c i arg2 harg2 arg3 harg3 arg4 harg4 arg5 harg5 arg6 harg6 arg7 harg7 arg8 harg8 hcz hcl xa xb xc xd xe).2.1)

/-- Case C's pieces for output 5 tile its block (one store of the whole block), so they cover it. -/
theorem cover1_C_5 (c : Dev nD) (i : grid1.Coords) (arg2 : Memref sig .tc .vmem S1024x4096 .bf16) (harg2 : arg2.IsWhole) (arg3 : Memref sig .tc .vmem S4096x128 .f32) (harg3 : arg3.IsWhole) (arg4 : Memref sig .tc .vmem S1024x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1024x128 .f32) (harg7 : arg7.IsWhole) (arg8 : Memref sig .tc .vmem S1024x128 .f32) (harg8 : arg8.IsWhole) (hcz : ¬cond1_0 i) (hcl : cond1_1 i)
    (xa : Vec F S1024x4096 .bf16) (xb : Vec F S4096x128 .f32) (xc : Vec F S1024x128 .f32) (xd : Vec F S128x128 .f32) (xe : Vec F S1x128 .f32) (xs : Vec F S1024x128 .f32) (y : S1024x128.Idx) :
    ∃ pc ∈ (kernelRun1_C c i arg2 harg2 arg3 harg3 arg4 harg4 arg5 harg5 arg6 harg6 arg7 harg7 arg8 harg8 hcz hcl xa xb xc xd xe xs).1, y ∈ pc.1.set :=
  View.cover_of_tiledL (kernelRun1_C c i arg2 harg2 arg3 harg3 arg4 harg4 arg5 harg5 arg6 harg6 arg7 harg7 arg8 harg8 hcz hcl xa xb xc xd xe xs).1 S1024x128.size (by sl_kernel_rfl) y

/-- What case C leaves in output 5's staging buffer: its pieces read back over junk. -/
def out1_C_5 (c : Dev nD) (i : grid1.Coords) (arg2 : Memref sig .tc .vmem S1024x4096 .bf16) (harg2 : arg2.IsWhole) (arg3 : Memref sig .tc .vmem S4096x128 .f32) (harg3 : arg3.IsWhole) (arg4 : Memref sig .tc .vmem S1024x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1024x128 .f32) (harg7 : arg7.IsWhole) (arg8 : Memref sig .tc .vmem S1024x128 .f32) (harg8 : arg8.IsWhole) (hcz : ¬cond1_0 i) (hcl : cond1_1 i)
    (xa : Vec F S1024x4096 .bf16) (xb : Vec F S4096x128 .f32) (xc : Vec F S1024x128 .f32) (xd : Vec F S128x128 .f32) (xe : Vec F S1x128 .f32) (xs : Vec F S1024x128 .f32) : Vec F S1024x128 .f32 :=
  VO1_5.read (Elt F) (VO1_5.writes (Elt F) VO1_5.junk (kernelRun1_C c i arg2 harg2 arg3 harg3 arg4 harg4 arg5 harg5 arg6 harg6 arg7 harg7 arg8 harg8 hcz hcl xa xb xc xd xe xs).1)

/-- Case C's pieces for the scratch accumulator cover it: one store of the whole buffer. -/
theorem scover1_C_0 (c : Dev nD) (i : grid1.Coords) (arg2 : Memref sig .tc .vmem S1024x4096 .bf16) (harg2 : arg2.IsWhole) (arg3 : Memref sig .tc .vmem S4096x128 .f32) (harg3 : arg3.IsWhole) (arg4 : Memref sig .tc .vmem S1024x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1024x128 .f32) (harg7 : arg7.IsWhole) (arg8 : Memref sig .tc .vmem S1024x128 .f32) (harg8 : arg8.IsWhole) (hcz : ¬cond1_0 i) (hcl : cond1_1 i)
    (xa : Vec F S1024x4096 .bf16) (xb : Vec F S4096x128 .f32) (xc : Vec F S1024x128 .f32) (xd : Vec F S128x128 .f32) (xe : Vec F S1x128 .f32) (xs : Vec F S1024x128 .f32) (y : S1024x128.Idx) :
    ∃ pc ∈ (kernelRun1_C c i arg2 harg2 arg3 harg3 arg4 harg4 arg5 harg5 arg6 harg6 arg7 harg7 arg8 harg8 hcz hcl xa xb xc xd xe xs).2.1, y ∈ pc.1.set :=
  View.cover_of_tiledL (kernelRun1_C c i arg2 harg2 arg3 harg3 arg4 harg4 arg5 harg5 arg6 harg6 arg7 harg7 arg8 harg8 hcz hcl xa xb xc xd xe xs).2.1 S1024x128.size (by sl_kernel_rfl) y

/-- What case C leaves in the scratch accumulator: its pieces read back over junk. -/
def sout1_C_0 (c : Dev nD) (i : grid1.Coords) (arg2 : Memref sig .tc .vmem S1024x4096 .bf16) (harg2 : arg2.IsWhole) (arg3 : Memref sig .tc .vmem S4096x128 .f32) (harg3 : arg3.IsWhole) (arg4 : Memref sig .tc .vmem S1024x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1024x128 .f32) (harg7 : arg7.IsWhole) (arg8 : Memref sig .tc .vmem S1024x128 .f32) (harg8 : arg8.IsWhole) (hcz : ¬cond1_0 i) (hcl : cond1_1 i)
    (xa : Vec F S1024x4096 .bf16) (xb : Vec F S4096x128 .f32) (xc : Vec F S1024x128 .f32) (xd : Vec F S128x128 .f32) (xe : Vec F S1x128 .f32) (xs : Vec F S1024x128 .f32) : Vec F S1024x128 .f32 :=
  VS1_0.read (Elt F) (VS1_0.writes (Elt F) VS1_0.junk (kernelRun1_C c i arg2 harg2 arg3 harg3 arg4 harg4 arg5 harg5 arg6 harg6 arg7 harg7 arg8 harg8 hcz hcl xa xb xc xd xe xs).2.1)

section Region
-- the TensorCore's buffer contents when the region is entered
variable (V : (c : Dev nD) → (b : Ref sig .tc) → Buf (Elt F) ((c : Thread nD τ).loc b))

/-! ## What the output and the accumulator hold after each point -/

/-- The accumulation. What output 5's staging buffer and the scratch accumulator hold after the body at position `n` (a
    pair: the output, then the accumulator): the case the closed forms select at `n`, run at the point's memrefs and input
    blocks, the accumulator in case C at what this leaves at `n - 1`. The two conditions partition the points, so the
    other two assignments are no case. -/
def outsAt1 (c : Dev nD) : (n : ℕ) → n < cfg1.N → Vec F S1024x128 .f32 × Vec F S1024x128 .f32
  | 0, hn => (out1_A_5 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩))
  | n + 1, hn =>
    if hz : (n + 1) % 2 = 0 then
      if hl : (n + 1) % 2 = 1 then
        False.elim (by omega)
      else
        (out1_A_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) ((hcond1_0 ⟨n + 1, hn⟩).mpr hz) (fun h => hl ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) ((hcond1_0 ⟨n + 1, hn⟩).mpr hz) (fun h => hl ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩))
    else
      if hl : (n + 1) % 2 = 1 then
        (out1_C_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => hz ((hcond1_0 ⟨n + 1, hn⟩).mp h)) ((hcond1_1 ⟨n + 1, hn⟩).mpr hl) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => hz ((hcond1_0 ⟨n + 1, hn⟩).mp h)) ((hcond1_1 ⟨n + 1, hn⟩).mpr hl) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2)
      else
        False.elim (by omega)

/-- `outsAt1` at a point of case A: that case's contents. -/
theorem outsAt1_A (c : Dev nD) (t : Fin cfg1.N) (hz : t.val % 2 = 0) (hl : ¬t.val % 2 = 1) :
    outsAt1 V c t.val t.isLt = (out1_A_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr hz) (fun h => hl ((hcond1_1 t).mp h)) (iblk1 V c 0 t) (iblk1 V c 1 t) (iblk1 V c 2 t) (iblk1 V c 3 t) (iblk1 V c 4 t), sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr hz) (fun h => hl ((hcond1_1 t).mp h)) (iblk1 V c 0 t) (iblk1 V c 1 t) (iblk1 V c 2 t) (iblk1 V c 3 t) (iblk1 V c 4 t)) := by
  obtain ⟨n, hn⟩ := t
  cases n with
  | zero => exact rfl
  | succ n => exact (dif_pos hz).trans ((dif_neg hl).trans rfl)

/-- `outsAt1` at a point of case C: that case's contents, over what the point before left in the accumulator. -/
theorem outsAt1_C (c : Dev nD) (t : Fin cfg1.N) (hz : ¬t.val % 2 = 0) (hl : t.val % 2 = 1) :
    outsAt1 V c t.val t.isLt = (out1_C_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => hz ((hcond1_0 t).mp h)) ((hcond1_1 t).mpr hl) (iblk1 V c 0 t) (iblk1 V c 1 t) (iblk1 V c 2 t) (iblk1 V c 3 t) (iblk1 V c 4 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => hz ((hcond1_0 t).mp h)) ((hcond1_1 t).mpr hl) (iblk1 V c 0 t) (iblk1 V c 1 t) (iblk1 V c 2 t) (iblk1 V c 3 t) (iblk1 V c 4 t) (outsAt1 V c (t.val - 1) (Nat.lt_of_le_of_lt (Nat.sub_le _ _) t.isLt)).2) := by
  obtain ⟨n, hn⟩ := t
  cases n with
  | zero => exact (by exfalso; (try dsimp only at hz); exact absurd (Nat.zero_mod _) hz)
  | succ n => exact (dif_neg hz).trans ((dif_pos hl).trans rfl)

/-- The region invariant before position `n`, the kernel carrying its accumulator between points: before the first point
    the scoped rest with every scratch at anything; afterwards the accumulator at what the point before left in it
    (`outsAt1`'s second component), the other scoped buffers unopened, and the generator register at some state. -/
def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2) ∗ Pipeline.scopedRestBut (Ix := Unit) (Name := ℕ) (U := UR sig nD τ) (Lvl := ℕ) (Val := Elt F) spec1 c [cc1_scratch0]) ∗ (∃ r, prngReg c r))

theorem PhiS1_zero (c : Dev nD) (n : ℕ) (h : n ≤ cfg1.N) (hzero : n = 0) : PhiS1 V c n h = Pipeline.ΦA spec1 c := by
  subst hzero; rfl

/-- After point `n` (before point `n + 1`): the accumulator at that point's contents. -/
theorem PhiS1_succ (c : Dev nD) (n : ℕ) (hn : n < cfg1.N) :
    PhiS1 V c (n + 1) hn = iprop(iprop(owns (c : Thread nD τ) scM1_0 fullShare ((outsAt1 V c n hn).2) ∗ Pipeline.scopedRestBut (Ix := Unit) (Name := ℕ) (U := UR sig nD τ) (Lvl := ℕ) (Val := Elt F) spec1 c [cc1_scratch0]) ∗ (∃ r, prngReg c r)) := rfl

/-- Before a point that is not the first: the accumulator at what the point before left. -/
theorem PhiS1_pos (c : Dev nD) (n : ℕ) (h : n ≤ cfg1.N) (hzero : n ≠ 0) :
    PhiS1 V c n h = iprop(iprop(owns (c : Thread nD τ) scM1_0 fullShare ((outsAt1 V c (n - 1) (by omega)).2) ∗ Pipeline.scopedRestBut (Ix := Unit) (Name := ℕ) (U := UR sig nD τ) (Lvl := ℕ) (Val := Elt F) spec1 c [cc1_scratch0]) ∗ (∃ r, prngReg c r)) := by
  cases n with
  | zero => exact absurd rfl hzero
  | succ n => rfl

/-! ## The pipeline's proof data -/

/-- The proof data of pipeline 1 on core `c`: the arrays as the region finds them (`V`); after the body at point `t` each
    input's buffer at its block and the output's at `outsAt1`'s first component; the invariant `PhiS1`; nothing owed; full
    shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t.val t.isLt).1
  Φ t := PhiS1 V c t.val (Nat.le_of_lt_succ t.isLt)
  q _ := fullShare
  owed _ := 0

/-- The proof data's arrays are the region-entry contents (the definition projected, `V` never unfolded). -/
theorem A_eq1 (c : Dev nD) (w : Fin cfg1.W) : (dat1 V c).A w = V c (Pipeline.arrRef spec1 w) := by
  dsimp only [dat1]

/-- The invariant at a point's start (the proof data at `t.castSucc`), restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = (outsAt1 V c t.val t.isLt).1 := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t` (the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 4800000 in
/-- The body at any point: the inputs' memrefs hold their blocks; the closed forms say which case the point is in; the
    invariant hands the body the accumulator at what the point before left (at anything at the first point), the other
    scoped buffers and the generator register pass through, and it takes the accumulator back at this point's contents;
    in case A the output's buffer is handed back as found, in case C at its covering store; the core owes nothing
    throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  have hN : t.val < 8 := lt_of_lt_of_eq t.isLt (show cfg1.N = 8 from N_1)
  by_cases hz : t.val % 2 = 0
  · have hl : ¬t.val % 2 = 1 := by omega
    rw [show (dat1 V c).leavesExact 0 t = owns (c : Thread nD τ) (ms1_0 t) fullShare ((dat1 V c).after 0 t) from by
      unfold Dat.leavesExact; rw [liveAt1_0 t], after1_0]
    rw [show (dat1 V c).leavesExact 1 t = owns (c : Thread nD τ) (ms1_1 t) fullShare ((dat1 V c).after 1 t) from by
      unfold Dat.leavesExact; rw [liveAt1_1 t], after1_1]
    rw [show (dat1 V c).leavesExact 2 t = owns (c : Thread nD τ) (ms1_2 t) fullShare ((dat1 V c).after 2 t) from by
      unfold Dat.leavesExact; rw [liveAt1_2 t], after1_2]
    rw [show (dat1 V c).leavesExact 3 t = owns (c : Thread nD τ) (ms1_3 t) fullShare ((dat1 V c).after 3 t) from by
      unfold Dat.leavesExact; rw [liveAt1_3 t], after1_3]
    rw [show (dat1 V c).leavesExact 4 t = owns (c : Thread nD τ) (ms1_4 t) fullShare ((dat1 V c).after 4 t) from by
      unfold Dat.leavesExact; rw [liveAt1_4 t], after1_4]
    rw [Dat.leavesExact_idle (dat1 V c) 5 t (idleAt1_5_A t ((hcond1_0 t).mpr hz) (fun h => hl ((hcond1_1 t).mp h))) (noFlush1_5_A t ((hcond1_0 t).mpr hz) (fun h => hl ((hcond1_1 t).mp h)))]
    rw [outsAt1_A V c t hz hl]
    unfold sout1_A_0; (try dsimp only)
    by_cases hzero : t.val = 0
    ·
      rw [PhiS1_castSucc V c t, PhiS1_zero V c _ _ hzero, PhiA1_eq]
      iintro ⟨⟨⟨Hs, Hr⟩, Hg⟩, Hw, ⟨%da, Ha⟩, ⟨%db, Hb⟩, ⟨%dc, Hc⟩, ⟨%dd, Hd⟩, ⟨%de, He⟩, ⟨%dq, Ho⟩⟩
      iapply ((kernelRun1_A c (grid1.coords t) _ _ _ _ _ _ _ _ _ _ _ _ _ _ ((hcond1_0 t).mpr hz) (fun h => hl ((hcond1_1 t).mp h)) (iblk1 V c 0 t) (iblk1 V c 1 t) (iblk1 V c 2 t) (iblk1 V c 3 t) (iblk1 V c 4 t)).2.2 _ Set.univ _)
      isplitl [Ha]; · iexact Ha
      isplitl [Hb]; · iexact Hb
      isplitl [Hc]; · iexact Hc
      isplitl [Hd]; · iexact Hd
      isplitl [He]; · iexact He
      isplitl [Ho]; · iexact Ho
      isplitl [Hs]; · iexact Hs
      iintro ⟨Ha, Hb, Hc, Hd, He, Ho, ⟨%es, Hs⟩⟩
      isplitl [Hs Hr Hg]
      · isplitl [Hs Hr]
        · isplitl [Hs]
          · unfold owns; iexists _; isplitr
            swap; · iexact Hs
            ipureintro; exact View.read_writes_of_cover _ _ _ _ _ (scover1_A_0 c _ _ _ _ _ _ _ _ _ _ _ _ _ _ _ _ _ _ _ _ _ _)
          iexact Hr
        iexact Hg
      isplitl [Hw]; · iexact Hw
      isplitl [Ha]; · iexact Ha
      isplitl [Hb]; · iexact Hb
      isplitl [Hc]; · iexact Hc
      isplitl [Hd]; · iexact Hd
      isplitl [He]; · iexact He
      iexists _; iexact Ho
    ·
      rw [PhiS1_castSucc V c t, PhiS1_pos V c _ _ hzero]
      iintro ⟨⟨⟨Hs, Hr⟩, Hg⟩, Hw, ⟨%da, Ha⟩, ⟨%db, Hb⟩, ⟨%dc, Hc⟩, ⟨%dd, Hd⟩, ⟨%de, He⟩, ⟨%dq, Ho⟩⟩
      iapply ((kernelRun1_A c (grid1.coords t) _ _ _ _ _ _ _ _ _ _ _ _ _ _ ((hcond1_0 t).mpr hz) (fun h => hl ((hcond1_1 t).mp h)) (iblk1 V c 0 t) (iblk1 V c 1 t) (iblk1 V c 2 t) (iblk1 V c 3 t) (iblk1 V c 4 t)).2.2 _ Set.univ _)
      isplitl [Ha]; · iexact Ha
      isplitl [Hb]; · iexact Hb
      isplitl [Hc]; · iexact Hc
      isplitl [Hd]; · iexact Hd
      isplitl [He]; · iexact He
      isplitl [Ho]; · iexact Ho
      isplitl [Hs]; · iexists _; iexact Hs
      iintro ⟨Ha, Hb, Hc, Hd, He, Ho, ⟨%es, Hs⟩⟩
      isplitl [Hs Hr Hg]
      · isplitl [Hs Hr]
        · isplitl [Hs]
          · unfold owns; iexists _; isplitr
            swap; · iexact Hs
            ipureintro; exact View.read_writes_of_cover _ _ _ _ _ (scover1_A_0 c _ _ _ _ _ _ _ _ _ _ _ _ _ _ _ _ _ _ _ _ _ _)
          iexact Hr
        iexact Hg
      isplitl [Hw]; · iexact Hw
      isplitl [Ha]; · iexact Ha
      isplitl [Hb]; · iexact Hb
      isplitl [Hc]; · iexact Hc
      isplitl [Hd]; · iexact Hd
      isplitl [He]; · iexact He
      iexists _; iexact Ho
  · have hl : t.val % 2 = 1 := by omega
    rw [show (dat1 V c).leavesExact 0 t = owns (c : Thread nD τ) (ms1_0 t) fullShare ((dat1 V c).after 0 t) from by
      unfold Dat.leavesExact; rw [liveAt1_0 t], after1_0]
    rw [show (dat1 V c).leavesExact 1 t = owns (c : Thread nD τ) (ms1_1 t) fullShare ((dat1 V c).after 1 t) from by
      unfold Dat.leavesExact; rw [liveAt1_1 t], after1_1]
    rw [show (dat1 V c).leavesExact 2 t = owns (c : Thread nD τ) (ms1_2 t) fullShare ((dat1 V c).after 2 t) from by
      unfold Dat.leavesExact; rw [liveAt1_2 t], after1_2]
    rw [show (dat1 V c).leavesExact 3 t = owns (c : Thread nD τ) (ms1_3 t) fullShare ((dat1 V c).after 3 t) from by
      unfold Dat.leavesExact; rw [liveAt1_3 t], after1_3]
    rw [show (dat1 V c).leavesExact 4 t = owns (c : Thread nD τ) (ms1_4 t) fullShare ((dat1 V c).after 4 t) from by
      unfold Dat.leavesExact; rw [liveAt1_4 t], after1_4]
    rw [show (dat1 V c).leavesExact 5 t = owns (c : Thread nD τ) (ms1_5 t) fullShare ((dat1 V c).after 5 t) from by
      unfold Dat.leavesExact; rw [liveAt1_5_C t (fun h => hz ((hcond1_0 t).mp h)) ((hcond1_1 t).mpr hl)], after1_5]
    rw [outsAt1_C V c t hz hl]
    unfold out1_C_5 sout1_C_0; (try dsimp only)
    have hzero : t.val ≠ 0 := by omega
    · rw [PhiS1_castSucc V c t, PhiS1_pos V c _ _ hzero]
      iintro ⟨⟨⟨Hs, Hr⟩, Hg⟩, Hw, ⟨%da, Ha⟩, ⟨%db, Hb⟩, ⟨%dc, Hc⟩, ⟨%dd, Hd⟩, ⟨%de, He⟩, ⟨%dq, Ho⟩⟩
      iapply ((kernelRun1_C c (grid1.coords t) _ _ _ _ _ _ _ _ _ _ _ _ _ _ (fun h => hz ((hcond1_0 t).mp h)) ((hcond1_1 t).mpr hl) (iblk1 V c 0 t) (iblk1 V c 1 t) (iblk1 V c 2 t) (iblk1 V c 3 t) (iblk1 V c 4 t) _).2.2 Set.univ _)
      isplitl [Ha]; · iexact Ha
      isplitl [Hb]; · iexact Hb
      isplitl [Hc]; · iexact Hc
      isplitl [Hd]; · iexact Hd
      isplitl [He]; · iexact He
      isplitl [Ho]; · iexists _; iexact Ho
      isplitl [Hs]; · iexact Hs
      iintro ⟨Ha, Hb, Hc, Hd, He, ⟨%eo, Ho⟩, ⟨%es, Hs⟩⟩
      isplitl [Hs Hr Hg]
      · isplitl [Hs Hr]
        · isplitl [Hs]
          · unfold owns; iexists _; isplitr
            swap; · iexact Hs
            ipureintro; exact View.read_writes_of_cover _ _ _ _ _ (scover1_C_0 c _ _ _ _ _ _ _ _ _ _ _ _ _ _ _ _ _ _ _ _ _ _ _)
          iexact Hr
        iexact Hg
      isplitl [Hw]; · iexact Hw
      isplitl [Ha]; · iexact Ha
      isplitl [Hb]; · iexact Hb
      isplitl [Hc]; · iexact Hc
      isplitl [Hd]; · iexact Hd
      isplitl [He]; · iexact He
      unfold owns; iexists _; isplitr
      swap; · iexact Ho
      ipureintro; exact View.read_writes_of_cover _ _ _ _ _ (cover1_C_5 c _ _ _ _ _ _ _ _ _ _ _ _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the launch's back: the accumulator's named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨Hs, Hr⟩, Hg⟩
  isplitl [Hs Hr]
  · isplitl [Hs]
    · iexists _; iexact Hs
    iexact Hr
  iexact Hg

/-- The same after the last point. -/
theorem hout1 (c : Dev nD) : (dat1 V c).Φ (Fin.last cfg1.N) ⊢ Pipeline.ΦA spec1 c :=
  Phi_out1 V c _ (by rw [Fin.val_last]; have : cfg1.N = 8 := N_1; omega)

end Region

end Cert.Kernel.Hand

end
-- ==== Proof.K.Reg2Runs.lean ====
/-
  Region 2 (an edge update relu(he + vew2ᵀ·hv)), the definitions its two runs share.
  The grid is (i, k) with k of extent 2: point t has k = t mod 2. At k = 0 the accumulator is zeroed and the first
  half of the contraction added; at k = 1 the second half is added and the output block stored. Everything is stated
  at a parameter V, the TensorCore's buffer contents when the region is entered.
-/
import proofs.«181597_j77979426226450_2_alg».proof.Proof.Gen.Kernel.Launch
import proofs.«181597_j77979426226450_2_alg».proof.Proof.Gen.Kernel.Skeleton
import proofs.«181597_j77979426226450_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not: when it is not
    fetched its block index has not moved, so the block of the point before is this point's. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's two branch conditions, decided over the grid -/

/-- "k = 0": the accumulator is zeroed. -/
abbrev cond2_0 (i : grid2.Coords) : Prop := (Scalar.cmpi .ne (Scalar.extui (Scalar.cmpi .eq (BitVec.ofNat 32 (i 1).val) 0#32)) 0#32) = 1#1
theorem hcond2_0 : ∀ t : Fin cfg2.N, cond2_0 (grid2.coords t) ↔ t.val % 2 = 0 :=
  (by decide +kernel : ∀ t : Fin grid2.N, cond2_0 (grid2.coords t) ↔ t.val % 2 = 0)
/-- "k = 1", the last step: the output block is stored. -/
abbrev cond2_1 (i : grid2.Coords) : Prop := k2_cond2 i = 1#1
theorem hcond2_1 : ∀ t : Fin cfg2.N, cond2_1 (grid2.coords t) ↔ t.val % 2 = 1 :=
  (by decide +kernel : ∀ t : Fin grid2.N, cond2_1 (grid2.coords t) ↔ t.val % 2 = 1)

/-! ## Where the output window is idle -/

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
/-- At k = 0 nothing is stored into the output's buffer, and its block is not written back. -/
theorem idleAt2_3_A : ∀ t : Fin cfg2.N, cond2_0 (grid2.coords t) → ¬cond2_1 (grid2.coords t) → cfg2.idle 3 (grid2.coords t) = true := by decide +kernel
theorem noFlush2_3_A : ∀ t : Fin cfg2.N, cond2_0 (grid2.coords t) → ¬cond2_1 (grid2.coords t) → (cfg2.win 3).flush t = false := by decide +kernel
/-- At k = 1 it is stored. -/
theorem liveAt2_3_C : ∀ t : Fin cfg2.N, ¬cond2_0 (grid2.coords t) → cond2_1 (grid2.coords t) → cfg2.idle 3 (grid2.coords t) = false := by decide +kernel

/-! ## The memrefs the body is called with -/

/-- One staging buffer of the output window, through which its contents are stated. -/
abbrev VO2_3 : View sig .tc .vmem S1024x128 .f32 := (Memref.whole cc2_stg3_0 : Memref sig .tc .vmem S1024x128 .f32).view
abbrev ms2_0 (t : Fin cfg2.N) : Memref sig .tc .vmem S2048x1024 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S2048x128 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1024x128 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1024x128 .f32 := win2_3.stage (cfg2.slots t 3)
abbrev hs2_3 (t : Fin cfg2.N) : (ms2_3 t).IsWhole := hstage2_3 ((cfg2.slots t 3).cast nbuf2_3)
/-- The accumulator: a whole scoped buffer of the kernel's own. -/
abbrev scM2_0 : Memref sig .tc .vmem S1024x128 .f32 := Memref.whole cc2_scratch0
abbrev VS2_0 : View sig .tc .vmem S1024x128 .f32 := scM2_0.view

/-- What the region may use and need not describe, with the accumulator split out: the accumulator at some contents,
    every other scoped buffer unopened, the generator register at some state. -/
theorem PhiA2_eq (c : Dev nD) :
    (Pipeline.ΦA spec2 c : sProp 𝕄)
      = iprop(iprop((∃ d, owns (c : Thread nD τ) scM2_0 fullShare d)
          ∗ Pipeline.scopedRestBut (Ix := Unit) (Name := ℕ) (U := UR sig nD τ) (Lvl := ℕ) (Val := Elt F) spec2 c [cc2_scratch0]) ∗ (∃ r, prngReg c r)) := by
  unfold Pipeline.ΦA; rw [scopedRest2_split]; simp only [scM2_0, owns_whole]; try rfl

end Cert.Kernel.Hand

end
-- ==== Proof.K.Reg2RunA.lean ====
/-
  Region 2, the body at k = 0: the accumulator is zeroed, the first half of the contraction (the one-hot block against
  the feature block and against its rounding remainder) is added to it, and nothing is stored into the output's buffer.
-/
import proofs.«181597_j77979426226450_2_alg».proof.Proof.K.Reg2Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's stores leave in the accumulator at k = 0 (last first), with the proof that on whole staging
    memrefs — the three inputs at their contents, the output's buffer at contents handed back untouched, the
    accumulator at anything — the body runs to a continuation holding the inputs and the output's buffer as they were and
    the accumulator with those pieces written. -/
noncomputable def kernelRun2_A (c : Dev nD) (i : grid2.Coords) (arg2 : Memref sig .tc .vmem S2048x1024 .bf16) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : cond2_0 i) (hc1 : ¬cond2_1 i)
    (x0 : Vec F S2048x1024 .bf16) (x1 : Vec F S2048x128 .f32) (x2 : Vec F S1024x128 .f32) :
    Σ' (L3 : List (View.Piece (Elt F) S1024x128 .f32)), { LS0 : List (View.Piece (Elt F) S1024x128 .f32) //
      ∀ (xi3 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc2__agg_relu_kernel i arg2 harg2 arg3 harg3 arg4 harg4 arg5 harg5 arg6 harg6) K } := by
  refine ⟨[], ?_, fun xi3 E K => ?run⟩
  case run =>
    simp only [cc2__agg_relu_kernel_eq_skeleton]; unfold cc2__agg_relu_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Hand

end
-- ==== Proof.K.Reg2RunC.lean ====
/-
  Region 2, the body at k = 1: the second half of the contraction is added to the accumulator, and the output block is
  stored: the maximum of zero and the accumulator plus the edge features.
-/
import proofs.«181597_j77979426226450_2_alg».proof.Proof.K.Reg2RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's stores leave in the output's buffer and in the accumulator at k = 1 (last first), with the
    proof that on whole staging memrefs — the three inputs at their contents, the output's buffer at anything, the
    accumulator at what the point before left — the body runs to a continuation holding the inputs as they were and the
    output's buffer and the accumulator with those pieces written. -/
noncomputable def kernelRun2_C (c : Dev nD) (i : grid2.Coords) (arg2 : Memref sig .tc .vmem S2048x1024 .bf16) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : ¬cond2_0 i) (hc1 : cond2_1 i)
    (x0 : Vec F S2048x1024 .bf16) (x1 : Vec F S2048x128 .f32) (x2 : Vec F S1024x128 .f32) (xs0 : Vec F S1024x128 .f32) :
    Σ' (L3 : List (View.Piece (Elt F) S1024x128 .f32)), { LS0 : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc2__agg_relu_kernel i arg2 harg2 arg3 harg3 arg4 harg4 arg5 harg5 arg6 harg6) K } := by
  refine ⟨?_, ?_, fun E K => ?run⟩
  case run =>
    simp only [cc2__agg_relu_kernel_eq_skeleton]; unfold cc2__agg_relu_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.Kernel.Hand

end
-- ==== Proof.K.Reg2.lean ====
/-
  Region 2: what the body leaves at each point, the accumulation over the grid, the pipeline's proof data and the body
  obligation. The accumulator holds, after the point (i, 0), the first half of the contraction for row block i, and after
  (i, 1) the whole contraction; the output block of row block i is stored at (i, 1) from the accumulator.
-/
import proofs.«181597_j77979426226450_2_alg».proof.Proof.K.Reg2RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- At k = 0 nothing is stored into the output's buffer: a placeholder nothing consults (the window is neither written
    back there nor read at the next point before being covered). -/
def out2_A_3 (c : Dev nD) (i : grid2.Coords) (arg2 : Memref sig .tc .vmem S2048x1024 .bf16) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : cond2_0 i) (hc1 : ¬cond2_1 i)
    (x0 : Vec F S2048x1024 .bf16) (x1 : Vec F S2048x128 .f32) (x2 : Vec F S1024x128 .f32) : Vec F S1024x128 .f32 :=
  VO2_3.read (Elt F) (VO2_3.writes (Elt F) VO2_3.junk (kernelRun2_A c i arg2 harg2 arg3 harg3 arg4 harg4 arg5 harg5 arg6 harg6 hc0 hc1 x0 x1 x2).1)

/-- The stores of k = 0 into the accumulator cover it. -/
theorem scover2_A_0 (c : Dev nD) (i : grid2.Coords) (arg2 : Memref sig .tc .vmem S2048x1024 .bf16) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : cond2_0 i) (hc1 : ¬cond2_1 i)
    (x0 : Vec F S2048x1024 .bf16) (x1 : Vec F S2048x128 .f32) (x2 : Vec F S1024x128 .f32) (y : S1024x128.Idx) :
    ∃ pc ∈ (kernelRun2_A c i arg2 harg2 arg3 harg3 arg4 harg4 arg5 harg5 arg6 harg6 hc0 hc1 x0 x1 x2).2.1, y ∈ pc.1.set :=
  View.cover_of_tiledL (kernelRun2_A c i arg2 harg2 arg3 harg3 arg4 harg4 arg5 harg5 arg6 harg6 hc0 hc1 x0 x1 x2).2.1 S1024x128.size (by sl_kernel_rfl) y

/-- What k = 0 leaves in the accumulator. -/
def sout2_A_0 (c : Dev nD) (i : grid2.Coords) (arg2 : Memref sig .tc .vmem S2048x1024 .bf16) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : cond2_0 i) (hc1 : ¬cond2_1 i)
    (x0 : Vec F S2048x1024 .bf16) (x1 : Vec F S2048x128 .f32) (x2 : Vec F S1024x128 .f32) : Vec F S1024x128 .f32 :=
  VS2_0.read (Elt F) (VS2_0.writes (Elt F) VS2_0.junk (kernelRun2_A c i arg2 harg2 arg3 harg3 arg4 harg4 arg5 harg5 arg6 harg6 hc0 hc1 x0 x1 x2).2.1)

/-- The store of k = 1 into the output's buffer covers it. -/
theorem cover2_C_3 (c : Dev nD) (i : grid2.Coords) (arg2 : Memref sig .tc .vmem S2048x1024 .bf16) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : ¬cond2_0 i) (hc1 : cond2_1 i)
    (x0 : Vec F S2048x1024 .bf16) (x1 : Vec F S2048x128 .f32) (x2 : Vec F S1024x128 .f32) (xs0 : Vec F S1024x128 .f32) (y : S1024x128.Idx) :
    ∃ pc ∈ (kernelRun2_C c i arg2 harg2 arg3 harg3 arg4 harg4 arg5 harg5 arg6 harg6 hc0 hc1 x0 x1 x2 xs0).1, y ∈ pc.1.set :=
  View.cover_of_tiledL (kernelRun2_C c i arg2 harg2 arg3 harg3 arg4 harg4 arg5 harg5 arg6 harg6 hc0 hc1 x0 x1 x2 xs0).1 S1024x128.size (by sl_kernel_rfl) y

/-- What k = 1 leaves in the output's buffer. -/
def out2_C_3 (c : Dev nD) (i : grid2.Coords) (arg2 : Memref sig .tc .vmem S2048x1024 .bf16) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : ¬cond2_0 i) (hc1 : cond2_1 i)
    (x0 : Vec F S2048x1024 .bf16) (x1 : Vec F S2048x128 .f32) (x2 : Vec F S1024x128 .f32) (xs0 : Vec F S1024x128 .f32) : Vec F S1024x128 .f32 :=
  VO2_3.read (Elt F) (VO2_3.writes (Elt F) VO2_3.junk (kernelRun2_C c i arg2 harg2 arg3 harg3 arg4 harg4 arg5 harg5 arg6 harg6 hc0 hc1 x0 x1 x2 xs0).1)

/-- The store of k = 1 into the accumulator covers it. -/
theorem scover2_C_0 (c : Dev nD) (i : grid2.Coords) (arg2 : Memref sig .tc .vmem S2048x1024 .bf16) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : ¬cond2_0 i) (hc1 : cond2_1 i)
    (x0 : Vec F S2048x1024 .bf16) (x1 : Vec F S2048x128 .f32) (x2 : Vec F S1024x128 .f32) (xs0 : Vec F S1024x128 .f32) (y : S1024x128.Idx) :
    ∃ pc ∈ (kernelRun2_C c i arg2 harg2 arg3 harg3 arg4 harg4 arg5 harg5 arg6 harg6 hc0 hc1 x0 x1 x2 xs0).2.1, y ∈ pc.1.set :=
  View.cover_of_tiledL (kernelRun2_C c i arg2 harg2 arg3 harg3 arg4 harg4 arg5 harg5 arg6 harg6 hc0 hc1 x0 x1 x2 xs0).2.1 S1024x128.size (by sl_kernel_rfl) y

/-- What k = 1 leaves in the accumulator. -/
def sout2_C_0 (c : Dev nD) (i : grid2.Coords) (arg2 : Memref sig .tc .vmem S2048x1024 .bf16) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : ¬cond2_0 i) (hc1 : cond2_1 i)
    (x0 : Vec F S2048x1024 .bf16) (x1 : Vec F S2048x128 .f32) (x2 : Vec F S1024x128 .f32) (xs0 : Vec F S1024x128 .f32) : Vec F S1024x128 .f32 :=
  VS2_0.read (Elt F) (VS2_0.writes (Elt F) VS2_0.junk (kernelRun2_C c i arg2 harg2 arg3 harg3 arg4 harg4 arg5 harg5 arg6 harg6 hc0 hc1 x0 x1 x2 xs0).2.1)

/-! ## What the output's buffer and the accumulator hold after each point -/

/-- The accumulation: after position n, the pair (output's buffer, accumulator) — at an even position the case k = 0 run
    at the point's blocks, at an odd one the case k = 1 run at the point's blocks over the accumulator the point before
    left. -/
def outsAt2 (c : Dev nD) : (n : ℕ) → n < cfg2.N → Vec F S1024x128 .f32 × Vec F S1024x128 .f32
  | 0, hn => (out2_A_3 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩),
      sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩))
  | n + 1, hn =>
    if h0 : (n + 1) % 2 = 0 then
      if h1 : (n + 1) % 2 = 1 then
        False.elim (by omega)
      else
        (out2_A_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩),
          sout2_A_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩))
    else
      if h1 : (n + 1) % 2 = 1 then
        (out2_C_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).2,
          sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).2)
      else
        False.elim (by omega)

/-- At a point with k = 0: that case's contents. -/
theorem outsAt2_A (c : Dev nD) (t : Fin cfg2.N) (h0 : t.val % 2 = 0) (h1 : ¬t.val % 2 = 1) :
    outsAt2 V c t.val t.isLt = (out2_A_3 c (grid2.coords t) (ms2_0 t) (hs2_0 t) (ms2_1 t) (hs2_1 t) (ms2_2 t) (hs2_2 t) (ms2_3 t) (hs2_3 t) scM2_0 (Memref.isWhole_whole _) ((hcond2_0 t).mpr h0) (fun h => h1 ((hcond2_1 t).mp h)) (iblk2 V c 0 t) (iblk2 V c 1 t) (iblk2 V c 2 t),
      sout2_A_0 c (grid2.coords t) (ms2_0 t) (hs2_0 t) (ms2_1 t) (hs2_1 t) (ms2_2 t) (hs2_2 t) (ms2_3 t) (hs2_3 t) scM2_0 (Memref.isWhole_whole _) ((hcond2_0 t).mpr h0) (fun h => h1 ((hcond2_1 t).mp h)) (iblk2 V c 0 t) (iblk2 V c 1 t) (iblk2 V c 2 t)) := by
  obtain ⟨n, hn⟩ := t
  cases n with
  | zero => exact rfl
  | succ n => exact (dif_pos h0).trans ((dif_neg h1).trans rfl)

/-- At a point with k = 1: that case's contents, over the accumulator the point before left. -/
theorem outsAt2_C (c : Dev nD) (t : Fin cfg2.N) (h0 : ¬t.val % 2 = 0) (h1 : t.val % 2 = 1) :
    outsAt2 V c t.val t.isLt = (out2_C_3 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2,
      sout2_C_0 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position n: before the first point what the region may use, undescribed; afterwards
    the accumulator at what the point before left in it, the other scoped buffers unopened, the generator register at
    some state. -/
def PhiS2 (c : Dev nD) : (n : ℕ) → n ≤ cfg2.N → sProp 𝕄
  | 0, _ => Pipeline.ΦA spec2 c
  | n + 1, hn => iprop(iprop(owns (c : Thread nD τ) scM2_0 fullShare ((outsAt2 V c n hn).2)
      ∗ Pipeline.scopedRestBut (Ix := Unit) (Name := ℕ) (U := UR sig nD τ) (Lvl := ℕ) (Val := Elt F) spec2 c [cc2_scratch0]) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(owns (c : Thread nD τ) scM2_0 fullShare ((outsAt2 V c n hn).2)
      ∗ Pipeline.scopedRestBut (Ix := Unit) (Name := ℕ) (U := UR sig nD τ) (Lvl := ℕ) (Val := Elt F) spec2 c [cc2_scratch0]) ∗ (∃ r, prngReg c r)) := rfl

theorem PhiS2_pos (c : Dev nD) (n : ℕ) (h : n ≤ cfg2.N) (hz : n ≠ 0) :
    PhiS2 V c n h = iprop(iprop(owns (c : Thread nD τ) scM2_0 fullShare ((outsAt2 V c (n - 1) (by omega)).2)
      ∗ Pipeline.scopedRestBut (Ix := Unit) (Name := ℕ) (U := UR sig nD τ) (Lvl := ℕ) (Val := Elt F) spec2 c [cc2_scratch0]) ∗ (∃ r, prngReg c r)) := by
  cases n with
  | zero => exact absurd rfl hz
  | succ n => rfl

/-! ## The pipeline's proof data -/

/-- The arrays as the region finds them; after the body each input's buffer at its block and the output's at the
    accumulation's first component; the invariant above; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = (outsAt2 V c t.val t.isLt).1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point t, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

set_option maxHeartbeats 4800000 in
/-- The body at any point: the inputs' memrefs hold their blocks; k decides the case; the invariant hands the body the
    accumulator (at anything at the first point, else at what the point before left) and takes it back at this point's
    contents; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = PhiS2 V c (t.val + 1) t.isLt from rfl, PhiS2_succ]
  have hN : t.val < 16 := lt_of_lt_of_eq t.isLt (show cfg2.N = 16 from N_2)
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  by_cases h0 : t.val % 2 = 0
  · have h1 : ¬t.val % 2 = 1 := by omega
    rw [Dat.leavesExact_idle (dat2 V c) 3 t (idleAt2_3_A t ((hcond2_0 t).mpr h0) (fun h => h1 ((hcond2_1 t).mp h))) (noFlush2_3_A t ((hcond2_0 t).mpr h0) (fun h => h1 ((hcond2_1 t).mp h)))]
    rw [outsAt2_A V c t h0 h1]
    unfold sout2_A_0; (try dsimp only)
    by_cases hz : t.val = 0
    · rw [PhiS2_castSucc V c t, PhiS2_zero V c _ _ hz, PhiA2_eq]
      iintro ⟨⟨⟨HS0, Hrest⟩, Hg⟩, Ho, ⟨%d0, H0⟩, ⟨%d1, H1⟩, ⟨%d2, H2⟩, ⟨%d3, H3⟩⟩
      iapply ((kernelRun2_A c (grid2.coords t) _ _ _ _ _ _ _ _ _ _ ((hcond2_0 t).mpr h0) (fun h => h1 ((hcond2_1 t).mp h)) (iblk2 V c 0 t) (iblk2 V c 1 t) (iblk2 V c 2 t)).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover2_A_0 c _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3
    · rw [PhiS2_castSucc V c t, PhiS2_pos V c _ _ hz]
      iintro ⟨⟨⟨HS0, Hrest⟩, Hg⟩, Ho, ⟨%d0, H0⟩, ⟨%d1, H1⟩, ⟨%d2, H2⟩, ⟨%d3, H3⟩⟩
      iapply ((kernelRun2_A c (grid2.coords t) _ _ _ _ _ _ _ _ _ _ ((hcond2_0 t).mpr h0) (fun h => h1 ((hcond2_1 t).mp h)) (iblk2 V c 0 t) (iblk2 V c 1 t) (iblk2 V c 2 t)).2.2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover2_A_0 c _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3
  · have h1 : t.val % 2 = 1 := by omega
    rw [show (dat2 V c).leavesExact 3 t = owns (c : Thread nD τ) (ms2_3 t) fullShare ((dat2 V c).after 3 t) from by
      unfold Dat.leavesExact; rw [liveAt2_3_C t (fun h => h0 ((hcond2_0 t).mp h)) ((hcond2_1 t).mpr h1)], after2_3]
    rw [outsAt2_C V c t h0 h1]
    unfold out2_C_3 sout2_C_0; (try dsimp only)
    have hz : t.val ≠ 0 := by omega
    rw [PhiS2_castSucc V c t, PhiS2_pos V c _ _ hz]
    iintro ⟨⟨⟨HS0, Hrest⟩, Hg⟩, Ho, ⟨%d0, H0⟩, ⟨%d1, H1⟩, ⟨%d2, H2⟩, ⟨%d3, H3⟩⟩
    iapply ((kernelRun2_C c (grid2.coords t) _ _ _ _ _ _ _ _ _ _ (fun h => h0 ((hcond2_0 t).mp h)) ((hcond2_1 t).mpr h1) (iblk2 V c 0 t) (iblk2 V c 1 t) (iblk2 V c 2 t) _).2.2 Set.univ _)
    isplitl [H0]; · iexact H0
    isplitl [H1]; · iexact H1
    isplitl [H2]; · iexact H2
    isplitl [H3]; · iexists _; iexact H3
    isplitl [HS0]; · iexact HS0
    iintro ⟨H0, H1, H2, ⟨%e3, H3⟩, ⟨%es0, HS0⟩⟩
    isplitl [HS0 Hrest Hg]
    · isplitl [HS0 Hrest]
      · isplitl [HS0]
        · unfold owns; iexists _; isplitr
          swap; · iexact HS0
          ipureintro; exact View.read_writes_of_cover _ _ _ _ _ (scover2_C_0 c _ _ _ _ _ _ _ _ _ _ _ _ _ _ _ _ _)
        iexact Hrest
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover2_C_3 c _ _ _ _ _ _ _ _ _ _ _ _ _ _ _ _ _)

/-- The pipeline library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point but the first the invariant gives it back: the accumulator's named contents are forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨HS0, Hrest⟩, Hg⟩
  isplitl [HS0 Hrest]
  · isplitl [HS0]
    · iexists _; iexact HS0
    iexact Hrest
  iexact Hg

theorem hout2 (c : Dev nD) : (dat2 V c).Φ (Fin.last cfg2.N) ⊢ Pipeline.ΦA spec2 c :=
  Phi_out2 V c _ (by rw [Fin.val_last]; have : cfg2.N = 16 := N_2; omega)

end Cert.Kernel.Hand

end
-- ==== Proof.K.Reg3Runs.lean ====
/- Region 3 (the aggregate-residual-MLP kernel, pipeline 1): what its two runs share — the windows' blocks at the
   region-entry contents, the input windows' staging contents, the body's two branch conditions decided over the
   grid, where the output window is idle, the staging and scratch memrefs, and the region invariant with the
   scratch accumulator owned as a memref. -/
import proofs.«181597_j77979426226450_2_alg».proof.Proof.Gen.Kernel.Launch
import proofs.«181597_j77979426226450_2_alg».proof.Proof.Gen.Kernel.Skeleton
import proofs.«181597_j77979426226450_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
-- the TensorCore's buffer contents when the region is entered: the parameter the region's half is stated at
variable (V : (c : Dev nD) → (b : Ref sig .tc) → Buf (Elt F) ((c : Thread nD τ).loc b))

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not, for any proof
    data whose array is `V`'s (`hA`) and whose body leaves the block in place (`hafter`): unfetched, the block
    index has not moved; the window is uncut and never idle. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, fetched there or not, for any proof
    data whose array is `V`'s (`hA`) and whose body leaves the block in place (`hafter`): unfetched, the block
    index has not moved; the window is uncut and never idle. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, fetched there or not, for any proof
    data whose array is `V`'s (`hA`) and whose body leaves the block in place (`hafter`): unfetched, the block
    index has not moved; the window is uncut and never idle. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's current staging buffer holds its block at every point, fetched there or not, for any proof
    data whose array is `V`'s (`hA`) and whose body leaves the block in place (`hafter`): unfetched, the block
    index has not moved; the window is uncut and never idle. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4's current staging buffer holds its block at every point, fetched there or not, for any proof
    data whose array is `V`'s (`hA`) and whose body leaves the block in place (`hafter`): unfetched, the block
    index has not moved; the window is uncut and never idle. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

end Region

/-! ## The body's branch conditions -/

/-- The condition of the body's first conditional (the reduction index is 0), from the grid coordinates. -/
abbrev cond3_0 (i : grid3.Coords) : Prop := (Scalar.cmpi .ne (Scalar.extui (Scalar.cmpi .eq (BitVec.ofNat 32 (i 1).val) 0#32)) 0#32) = 1#1
/-- It holds at the points ≡ 0 (mod 2) — decided over the grid. -/
theorem hcond3_0 : ∀ t : Fin cfg3.N, cond3_0 (grid3.coords t) ↔ t.val % 2 = 0 :=
  (by decide +kernel : ∀ t : Fin grid3.N, cond3_0 (grid3.coords t) ↔ t.val % 2 = 0)

/-- The condition of the body's second conditional (the reduction index is the last). -/
abbrev cond3_1 (i : grid3.Coords) : Prop := k3_cond2 i = 1#1
/-- It holds at the points ≡ 1 (mod 2) — decided over the grid. -/
theorem hcond3_1 : ∀ t : Fin cfg3.N, cond3_1 (grid3.coords t) ↔ t.val % 2 = 1 :=
  (by decide +kernel : ∀ t : Fin grid3.N, cond3_1 (grid3.coords t) ↔ t.val % 2 = 1)

/-! ## Where the windows are idle -/

/-- Window 0 is never idle (an input). -/
theorem liveAt3_0 : ∀ t : Fin cfg3.N, cfg3.idle 0 (grid3.coords t) = false := by decide +kernel
/-- Window 1 is never idle (an input). -/
theorem liveAt3_1 : ∀ t : Fin cfg3.N, cfg3.idle 1 (grid3.coords t) = false := by decide +kernel
/-- Window 2 is never idle (an input). -/
theorem liveAt3_2 : ∀ t : Fin cfg3.N, cfg3.idle 2 (grid3.coords t) = false := by decide +kernel
/-- Window 3 is never idle (an input). -/
theorem liveAt3_3 : ∀ t : Fin cfg3.N, cfg3.idle 3 (grid3.coords t) = false := by decide +kernel
/-- Window 4 is never idle (an input). -/
theorem liveAt3_4 : ∀ t : Fin cfg3.N, cfg3.idle 4 (grid3.coords t) = false := by decide +kernel
/-- At the points of case A (first conditional taken, second not) output 5 is idle: the case stores nothing into it. -/
theorem idleAt3_5_A : ∀ t : Fin cfg3.N, cond3_0 (grid3.coords t) → ¬cond3_1 (grid3.coords t) → cfg3.idle 5 (grid3.coords t) = true := by decide +kernel
/-- At the points of case A the pipeline does not write output 5's block back. -/
theorem noFlush3_5_A : ∀ t : Fin cfg3.N, cond3_0 (grid3.coords t) → ¬cond3_1 (grid3.coords t) → (cfg3.win 5).flush t = false := by decide +kernel
/-- At the points of case C (first conditional not taken, second taken) output 5 is live: the case stores into it. -/
theorem liveAt3_5_C : ∀ t : Fin cfg3.N, ¬cond3_0 (grid3.coords t) → cond3_1 (grid3.coords t) → cfg3.idle 5 (grid3.coords t) = false := by decide +kernel

/-! ## The staging and scratch memrefs -/

/-- One staging buffer of output window 5, through which its contents are stated (the choice does not matter). -/
abbrev VO3_5 : View sig .tc .vmem S1024x128 .f32 := (Memref.whole cc3_stg5_0 : Memref sig .tc .vmem S1024x128 .f32).view
/-- Each window's current staging memref at point `t`, spelled as the pipeline passes it, and its wholeness. -/
abbrev ms3_0 (t : Fin cfg3.N) : Memref sig .tc .vmem S1024x4096 .bf16 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S4096x128 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1024x128 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S128x128 .f32 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S1x128 .f32 := win3_4.stage (cfg3.slots t 4)
abbrev hs3_4 (t : Fin cfg3.N) : (ms3_4 t).IsWhole := hstage3_4 ((cfg3.slots t 4).cast nbuf3_4)
abbrev ms3_5 (t : Fin cfg3.N) : Memref sig .tc .vmem S1024x128 .f32 := win3_5.stage (cfg3.slots t 5)
abbrev hs3_5 (t : Fin cfg3.N) : (ms3_5 t).IsWhole := hstage3_5 ((cfg3.slots t 5).cast nbuf3_5)
/-- The scratch accumulator: a whole scoped buffer of the kernel's own, passed beside the windows. -/
abbrev scM3_0 : Memref sig .tc .vmem S1024x128 .f32 := Memref.whole cc3_scratch0
/-- The same as a view: what the accumulator holds between points is stated through it. -/
abbrev VS3_0 : View sig .tc .vmem S1024x128 .f32 := scM3_0.view

/-- The region invariant with the scratch accumulator as a memref owned at some contents, the other scoped buffers
    unopened, and the generator register at some state: what the body obligation hands the run and takes back. -/
theorem PhiA3_eq (c : Dev nD) :
    (Pipeline.ΦA spec3 c : sProp 𝕄)
      = iprop(iprop(iprop((∃ d, owns (c : Thread nD τ) scM3_0 fullShare d))
          ∗ Pipeline.scopedRestBut (Ix := Unit) (Name := ℕ) (U := UR sig nD τ) (Lvl := ℕ) (Val := Elt F) spec3 c [cc3_scratch0]) ∗ (∃ r, prngReg c r)) := by
  unfold Pipeline.ΦA; rw [scopedRest3_split]; simp only [scM3_0, owns_whole]; try rfl

end Cert.Kernel.Hand

end
-- ==== Proof.K.Reg3RunA.lean ====
/- Region 3: the whole-body run of the kernel in case A (first conditional taken, second not: the reduction's first
   step). The pieces the scratch accumulator ends with are the witness the run finds. -/
import proofs.«181597_j77979426226450_2_alg».proof.Proof.K.Reg3Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in the output's staging memref and in the scratch accumulator, as pieces (last first), in
    case A, with the proof that on whole staging memrefs — the inputs' at their contents, the output's (no store, the
    window idle and not written back at the case's points) at contents `xio` handed back untouched, the accumulator at
    anything — the body runs to the continuation holding the inputs' and the output's as they were and the accumulator
    with its pieces written: it is zeroed, then the product of the two input blocks is added. -/
noncomputable def kernelRun3_A (c : Dev nD) (i : grid3.Coords) (arg2 : Memref sig .tc .vmem S1024x4096 .bf16) (harg2 : arg2.IsWhole) (arg3 : Memref sig .tc .vmem S4096x128 .f32) (harg3 : arg3.IsWhole) (arg4 : Memref sig .tc .vmem S1024x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1024x128 .f32) (harg7 : arg7.IsWhole) (arg8 : Memref sig .tc .vmem S1024x128 .f32) (harg8 : arg8.IsWhole) (hcz : cond3_0 i) (hcl : ¬cond3_1 i)
    (xa : Vec F S1024x4096 .bf16) (xb : Vec F S4096x128 .f32) (xc : Vec F S1024x128 .f32) (xd : Vec F S128x128 .f32) (xe : Vec F S1x128 .f32) :
    Σ' (LO : List (View.Piece (Elt F) S1024x128 .f32)), { LS : List (View.Piece (Elt F) S1024x128 .f32) //
      ∀ (xio : Vec F S1024x128 .f32) (E : Set ℕ) (K : PUnit → sProp 𝕄),
        iprop(owns (c : Thread nD τ) arg2 fullShare xa ∗ owns (c : Thread nD τ) arg3 fullShare xb ∗ owns (c : Thread nD τ) arg4 fullShare xc ∗ owns (c : Thread nD τ) arg5 fullShare xd ∗ owns (c : Thread nD τ) arg6 fullShare xe ∗ owns (c : Thread nD τ) arg7 fullShare xio ∗ (∃ d, owns (c : Thread nD τ) arg8 fullShare d)
            ∗ (iprop(owns (c : Thread nD τ) arg2 fullShare xa ∗ owns (c : Thread nD τ) arg3 fullShare xb ∗ owns (c : Thread nD τ) arg4 fullShare xc ∗ owns (c : Thread nD τ) arg5 fullShare xd ∗ owns (c : Thread nD τ) arg6 fullShare xe ∗ owns (c : Thread nD τ) arg7 fullShare xio ∗ (∃ f, arg8.view.loc (c : Thread nD τ) ↦[arg8.view.set]{fullShare} arg8.view.writes (Elt F) f LS)) -∗ K ⟨⟩))
          ⊢ wp frame (wpE (defs₀ (F := F)) Variants.none c none) E (cc3__agg_residual_mlp_kernel i arg2 harg2 arg3 harg3 arg4 harg4 arg5 harg5 arg6 harg6 arg7 harg7 arg8 harg8) K } := by
  refine ⟨[], ?_, fun xio E K => ?run⟩
  case run =>
    simp only [cc3__agg_residual_mlp_kernel_eq_skeleton]; unfold cc3__agg_residual_mlp_kernel_skel
    unfold owns
    iintro ⟨⟨%fa, %hfa, Ha⟩, ⟨%fb, %hfb, Hb⟩, ⟨%fc, %hfc, Hc⟩, ⟨%fd, %hfd, Hd⟩, ⟨%fe, %hfe, He⟩, ⟨%fo, %hfo, Ho⟩, ⟨%ds, %fs, -, Hs⟩, Hk⟩
    obtain rfl := harg2.eq_unread hfa; obtain rfl := harg3.eq_unread hfb; obtain rfl := harg4.eq_unread hfc
    obtain rfl := harg5.eq_unread hfd; obtain rfl := harg6.eq_unread hfe; obtain rfl := harg7.eq_unread hfo
    sl_exec (disch := first | exact hcz | exact hcl)
    sl_step
    iapply Hk
    isplitl [Ha]
    · iexists _; isplitr; · ipureintro; exact harg2.read_unread _
      iexact Ha
    isplitl [Hb]
    · iexists _; isplitr; · ipureintro; exact harg3.read_unread _
      iexact Hb
    isplitl [Hc]
    · iexists _; isplitr; · ipureintro; exact harg4.read_unread _
      iexact Hc
    isplitl [Hd]
    · iexists _; isplitr; · ipureintro; exact harg5.read_unread _
      iexact Hd
    isplitl [He]
    · iexists _; isplitr; · ipureintro; exact harg6.read_unread _
      iexact He
    isplitl [Ho]
    · iexists _; isplitr; · ipureintro; exact harg7.read_unread _
      iexact Ho
    iexists _; iexact Hs

end Cert.Kernel.Hand

end
-- ==== Proof.K.Reg3RunC.lean ====
/- Region 3: the whole-body run of the kernel in case C (first conditional not taken, second taken: the reduction's
   last step). The pieces the output's staging memref and the scratch accumulator end with are the witness the run
   finds. -/
import proofs.«181597_j77979426226450_2_alg».proof.Proof.K.Reg3RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in the output's staging memref and in the scratch accumulator, as pieces (last first), in
    case C, with the proof that on whole staging memrefs — the inputs' at their contents, the output's at anything, the
    accumulator at the contents `xs` the point before left — the body runs to the continuation holding the inputs' as
    they were and the output's and the accumulator's with their pieces written: the product of the two input blocks is
    added to the accumulator, and the output is the residual layer applied to the sum. -/
noncomputable def kernelRun3_C (c : Dev nD) (i : grid3.Coords) (arg2 : Memref sig .tc .vmem S1024x4096 .bf16) (harg2 : arg2.IsWhole) (arg3 : Memref sig .tc .vmem S4096x128 .f32) (harg3 : arg3.IsWhole) (arg4 : Memref sig .tc .vmem S1024x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1024x128 .f32) (harg7 : arg7.IsWhole) (arg8 : Memref sig .tc .vmem S1024x128 .f32) (harg8 : arg8.IsWhole) (hcz : ¬cond3_0 i) (hcl : cond3_1 i)
    (xa : Vec F S1024x4096 .bf16) (xb : Vec F S4096x128 .f32) (xc : Vec F S1024x128 .f32) (xd : Vec F S128x128 .f32) (xe : Vec F S1x128 .f32) (xs : Vec F S1024x128 .f32) :
    Σ' (LO : List (View.Piece (Elt F) S1024x128 .f32)), { LS : List (View.Piece (Elt F) S1024x128 .f32) //
      ∀ (E : Set ℕ) (K : PUnit → sProp 𝕄),
        iprop(owns (c : Thread nD τ) arg2 fullShare xa ∗ owns (c : Thread nD τ) arg3 fullShare xb ∗ owns (c : Thread nD τ) arg4 fullShare xc ∗ owns (c : Thread nD τ) arg5 fullShare xd ∗ owns (c : Thread nD τ) arg6 fullShare xe ∗ (∃ d, owns (c : Thread nD τ) arg7 fullShare d) ∗ owns (c : Thread nD τ) arg8 fullShare xs
            ∗ (iprop(owns (c : Thread nD τ) arg2 fullShare xa ∗ owns (c : Thread nD τ) arg3 fullShare xb ∗ owns (c : Thread nD τ) arg4 fullShare xc ∗ owns (c : Thread nD τ) arg5 fullShare xd ∗ owns (c : Thread nD τ) arg6 fullShare xe ∗ (∃ f, arg7.view.loc (c : Thread nD τ) ↦[arg7.view.set]{fullShare} arg7.view.writes (Elt F) f LO) ∗ (∃ f, arg8.view.loc (c : Thread nD τ) ↦[arg8.view.set]{fullShare} arg8.view.writes (Elt F) f LS)) -∗ K ⟨⟩))
          ⊢ wp frame (wpE (defs₀ (F := F)) Variants.none c none) E (cc3__agg_residual_mlp_kernel i arg2 harg2 arg3 harg3 arg4 harg4 arg5 harg5 arg6 harg6 arg7 harg7 arg8 harg8) K } := by
  refine ⟨?_, ?_, fun E K => ?run⟩
  case run =>
    simp only [cc3__agg_residual_mlp_kernel_eq_skeleton]; unfold cc3__agg_residual_mlp_kernel_skel
    unfold owns
    iintro ⟨⟨%fa, %hfa, Ha⟩, ⟨%fb, %hfb, Hb⟩, ⟨%fc, %hfc, Hc⟩, ⟨%fd, %hfd, Hd⟩, ⟨%fe, %hfe, He⟩, ⟨%dout, %fo, -, Ho⟩, ⟨%fs, %hfs, Hs⟩, Hk⟩
    obtain rfl := harg2.eq_unread hfa; obtain rfl := harg3.eq_unread hfb; obtain rfl := harg4.eq_unread hfc
    obtain rfl := harg5.eq_unread hfd; obtain rfl := harg6.eq_unread hfe; obtain rfl := harg8.eq_unread hfs
    sl_exec (disch := first | exact hcz | exact hcl)
    sl_step
    iapply Hk
    isplitl [Ha]
    · iexists _; isplitr; · ipureintro; exact harg2.read_unread _
      iexact Ha
    isplitl [Hb]
    · iexists _; isplitr; · ipureintro; exact harg3.read_unread _
      iexact Hb
    isplitl [Hc]
    · iexists _; isplitr; · ipureintro; exact harg4.read_unread _
      iexact Hc
    isplitl [Hd]
    · iexists _; isplitr; · ipureintro; exact harg5.read_unread _
      iexact Hd
    isplitl [He]
    · iexists _; isplitr; · ipureintro; exact harg6.read_unread _
      iexact He
    isplitl [Ho]; · iexists _; iexact Ho
    iexists _; iexact Hs

end Cert.Kernel.Hand

end
-- ==== Proof.K.Reg3.lean ====
/- Region 3 (the aggregate-residual-MLP kernel, pipeline 1), the rest of its frame half: what the output's staging
   buffer and the scratch accumulator hold per case and point by point, the region invariant carrying the accumulator,
   the pipeline's proof data at the region-entry contents `V`, the body obligation at every point, and the invariant's
   entry and exit. -/
import proofs.«181597_j77979426226450_2_alg».proof.Proof.K.Reg3RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Case A stores nothing into output 5 (the window is idle at its points and not written back there): no pieces — a
    placeholder that nothing consults, since at these points the window is neither written back nor read at the next. -/
def out3_A_5 (c : Dev nD) (i : grid3.Coords) (arg2 : Memref sig .tc .vmem S1024x4096 .bf16) (harg2 : arg2.IsWhole) (arg3 : Memref sig .tc .vmem S4096x128 .f32) (harg3 : arg3.IsWhole) (arg4 : Memref sig .tc .vmem S1024x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1024x128 .f32) (harg7 : arg7.IsWhole) (arg8 : Memref sig .tc .vmem S1024x128 .f32) (harg8 : arg8.IsWhole) (hcz : cond3_0 i) (hcl : ¬cond3_1 i)
    (xa : Vec F S1024x4096 .bf16) (xb : Vec F S4096x128 .f32) (xc : Vec F S1024x128 .f32) (xd : Vec F S128x128 .f32) (xe : Vec F S1x128 .f32) : Vec F S1024x128 .f32 :=
  VO3_5.read (Elt F) (VO3_5.writes (Elt F) VO3_5.junk (kernelRun3_A c i arg2 harg2 arg3 harg3 arg4 harg4 arg5 harg5 arg6 harg6 arg7 harg7 arg8 harg8 hcz hcl xa xb xc xd xe).1)

/-- Case A's pieces for the scratch accumulator cover it: the zeroing store and the accumulating store each tile it. -/
theorem scover3_A_0 (c : Dev nD) (i : grid3.Coords) (arg2 : Memref sig .tc .vmem S1024x4096 .bf16) (harg2 : arg2.IsWhole) (arg3 : Memref sig .tc .vmem S4096x128 .f32) (harg3 : arg3.IsWhole) (arg4 : Memref sig .tc .vmem S1024x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1024x128 .f32) (harg7 : arg7.IsWhole) (arg8 : Memref sig .tc .vmem S1024x128 .f32) (harg8 : arg8.IsWhole) (hcz : cond3_0 i) (hcl : ¬cond3_1 i)
    (xa : Vec F S1024x4096 .bf16) (xb : Vec F S4096x128 .f32) (xc : Vec F S1024x128 .f32) (xd : Vec F S128x128 .f32) (xe : Vec F S1x128 .f32) (y : S1024x128.Idx) :
    ∃ pc ∈ (kernelRun3_A c i arg2 harg2 arg3 harg3 arg4 harg4 arg5 harg5 arg6 harg6 arg7 harg7 arg8 harg8 hcz hcl xa xb xc xd xe).2.1, y ∈ pc.1.set :=
  View.cover_of_tiledL (kernelRun3_A c i arg2 harg2 arg3 harg3 arg4 harg4 arg5 harg5 arg6 harg6 arg7 harg7 arg8 harg8 hcz hcl xa xb xc xd xe).2.1 S1024x128.size (by sl_kernel_rfl) y

/-- What case A leaves in the scratch accumulator: its pieces read back over junk. -/
def sout3_A_0 (c : Dev nD) (i : grid3.Coords) (arg2 : Memref sig .tc .vmem S1024x4096 .bf16) (harg2 : arg2.IsWhole) (arg3 : Memref sig .tc .vmem S4096x128 .f32) (harg3 : arg3.IsWhole) (arg4 : Memref sig .tc .vmem S1024x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1024x128 .f32) (harg7 : arg7.IsWhole) (arg8 : Memref sig .tc .vmem S1024x128 .f32) (harg8 : arg8.IsWhole) (hcz : cond3_0 i) (hcl : ¬cond3_1 i)
    (xa : Vec F S1024x4096 .bf16) (xb : Vec F S4096x128 .f32) (xc : Vec F S1024x128 .f32) (xd : Vec F S128x128 .f32) (xe : Vec F S1x128 .f32) : Vec F S1024x128 .f32 :=
  VS3_0.read (Elt F) (VS3_0.writes (Elt F) VS3_0.junk (kernelRun3_A c i arg2 harg2 arg3 harg3 arg4 harg4 arg5 harg5 arg6 harg6 arg7 harg7 arg8 harg8 hcz hcl xa xb xc xd xe).2.1)

/-- Case C's pieces for output 5 tile its block (one store of the whole block), so they cover it. -/
theorem cover3_C_5 (c : Dev nD) (i : grid3.Coords) (arg2 : Memref sig .tc .vmem S1024x4096 .bf16) (harg2 : arg2.IsWhole) (arg3 : Memref sig .tc .vmem S4096x128 .f32) (harg3 : arg3.IsWhole) (arg4 : Memref sig .tc .vmem S1024x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1024x128 .f32) (harg7 : arg7.IsWhole) (arg8 : Memref sig .tc .vmem S1024x128 .f32) (harg8 : arg8.IsWhole) (hcz : ¬cond3_0 i) (hcl : cond3_1 i)
    (xa : Vec F S1024x4096 .bf16) (xb : Vec F S4096x128 .f32) (xc : Vec F S1024x128 .f32) (xd : Vec F S128x128 .f32) (xe : Vec F S1x128 .f32) (xs : Vec F S1024x128 .f32) (y : S1024x128.Idx) :
    ∃ pc ∈ (kernelRun3_C c i arg2 harg2 arg3 harg3 arg4 harg4 arg5 harg5 arg6 harg6 arg7 harg7 arg8 harg8 hcz hcl xa xb xc xd xe xs).1, y ∈ pc.1.set :=
  View.cover_of_tiledL (kernelRun3_C c i arg2 harg2 arg3 harg3 arg4 harg4 arg5 harg5 arg6 harg6 arg7 harg7 arg8 harg8 hcz hcl xa xb xc xd xe xs).1 S1024x128.size (by sl_kernel_rfl) y

/-- What case C leaves in output 5's staging buffer: its pieces read back over junk. -/
def out3_C_5 (c : Dev nD) (i : grid3.Coords) (arg2 : Memref sig .tc .vmem S1024x4096 .bf16) (harg2 : arg2.IsWhole) (arg3 : Memref sig .tc .vmem S4096x128 .f32) (harg3 : arg3.IsWhole) (arg4 : Memref sig .tc .vmem S1024x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1024x128 .f32) (harg7 : arg7.IsWhole) (arg8 : Memref sig .tc .vmem S1024x128 .f32) (harg8 : arg8.IsWhole) (hcz : ¬cond3_0 i) (hcl : cond3_1 i)
    (xa : Vec F S1024x4096 .bf16) (xb : Vec F S4096x128 .f32) (xc : Vec F S1024x128 .f32) (xd : Vec F S128x128 .f32) (xe : Vec F S1x128 .f32) (xs : Vec F S1024x128 .f32) : Vec F S1024x128 .f32 :=
  VO3_5.read (Elt F) (VO3_5.writes (Elt F) VO3_5.junk (kernelRun3_C c i arg2 harg2 arg3 harg3 arg4 harg4 arg5 harg5 arg6 harg6 arg7 harg7 arg8 harg8 hcz hcl xa xb xc xd xe xs).1)

/-- Case C's pieces for the scratch accumulator cover it: one store of the whole buffer. -/
theorem scover3_C_0 (c : Dev nD) (i : grid3.Coords) (arg2 : Memref sig .tc .vmem S1024x4096 .bf16) (harg2 : arg2.IsWhole) (arg3 : Memref sig .tc .vmem S4096x128 .f32) (harg3 : arg3.IsWhole) (arg4 : Memref sig .tc .vmem S1024x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1024x128 .f32) (harg7 : arg7.IsWhole) (arg8 : Memref sig .tc .vmem S1024x128 .f32) (harg8 : arg8.IsWhole) (hcz : ¬cond3_0 i) (hcl : cond3_1 i)
    (xa : Vec F S1024x4096 .bf16) (xb : Vec F S4096x128 .f32) (xc : Vec F S1024x128 .f32) (xd : Vec F S128x128 .f32) (xe : Vec F S1x128 .f32) (xs : Vec F S1024x128 .f32) (y : S1024x128.Idx) :
    ∃ pc ∈ (kernelRun3_C c i arg2 harg2 arg3 harg3 arg4 harg4 arg5 harg5 arg6 harg6 arg7 harg7 arg8 harg8 hcz hcl xa xb xc xd xe xs).2.1, y ∈ pc.1.set :=
  View.cover_of_tiledL (kernelRun3_C c i arg2 harg2 arg3 harg3 arg4 harg4 arg5 harg5 arg6 harg6 arg7 harg7 arg8 harg8 hcz hcl xa xb xc xd xe xs).2.1 S1024x128.size (by sl_kernel_rfl) y

/-- What case C leaves in the scratch accumulator: its pieces read back over junk. -/
def sout3_C_0 (c : Dev nD) (i : grid3.Coords) (arg2 : Memref sig .tc .vmem S1024x4096 .bf16) (harg2 : arg2.IsWhole) (arg3 : Memref sig .tc .vmem S4096x128 .f32) (harg3 : arg3.IsWhole) (arg4 : Memref sig .tc .vmem S1024x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1024x128 .f32) (harg7 : arg7.IsWhole) (arg8 : Memref sig .tc .vmem S1024x128 .f32) (harg8 : arg8.IsWhole) (hcz : ¬cond3_0 i) (hcl : cond3_1 i)
    (xa : Vec F S1024x4096 .bf16) (xb : Vec F S4096x128 .f32) (xc : Vec F S1024x128 .f32) (xd : Vec F S128x128 .f32) (xe : Vec F S1x128 .f32) (xs : Vec F S1024x128 .f32) : Vec F S1024x128 .f32 :=
  VS3_0.read (Elt F) (VS3_0.writes (Elt F) VS3_0.junk (kernelRun3_C c i arg2 harg2 arg3 harg3 arg4 harg4 arg5 harg5 arg6 harg6 arg7 harg7 arg8 harg8 hcz hcl xa xb xc xd xe xs).2.1)

section Region
-- the TensorCore's buffer contents when the region is entered
variable (V : (c : Dev nD) → (b : Ref sig .tc) → Buf (Elt F) ((c : Thread nD τ).loc b))

/-! ## What the output and the accumulator hold after each point -/

/-- The accumulation. What output 5's staging buffer and the scratch accumulator hold after the body at position `n` (a
    pair: the output, then the accumulator): the case the closed forms select at `n`, run at the point's memrefs and input
    blocks, the accumulator in case C at what this leaves at `n - 1`. The two conditions partition the points, so the
    other two assignments are no case. -/
def outsAt3 (c : Dev nD) : (n : ℕ) → n < cfg3.N → Vec F S1024x128 .f32 × Vec F S1024x128 .f32
  | 0, hn => (out3_A_5 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) (ms3_5 ⟨0, hn⟩) (hs3_5 ⟨0, hn⟩) scM3_0 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩) (iblk3 V c 2 ⟨0, hn⟩) (iblk3 V c 3 ⟨0, hn⟩) (iblk3 V c 4 ⟨0, hn⟩), sout3_A_0 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) (ms3_5 ⟨0, hn⟩) (hs3_5 ⟨0, hn⟩) scM3_0 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩) (iblk3 V c 2 ⟨0, hn⟩) (iblk3 V c 3 ⟨0, hn⟩) (iblk3 V c 4 ⟨0, hn⟩))
  | n + 1, hn =>
    if hz : (n + 1) % 2 = 0 then
      if hl : (n + 1) % 2 = 1 then
        False.elim (by omega)
      else
        (out3_A_5 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) scM3_0 (Memref.isWhole_whole _) ((hcond3_0 ⟨n + 1, hn⟩).mpr hz) (fun h => hl ((hcond3_1 ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩), sout3_A_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) scM3_0 (Memref.isWhole_whole _) ((hcond3_0 ⟨n + 1, hn⟩).mpr hz) (fun h => hl ((hcond3_1 ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩))
    else
      if hl : (n + 1) % 2 = 1 then
        (out3_C_5 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) scM3_0 (Memref.isWhole_whole _) (fun h => hz ((hcond3_0 ⟨n + 1, hn⟩).mp h)) ((hcond3_1 ⟨n + 1, hn⟩).mpr hl) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (outsAt3 c n (Nat.lt_of_succ_lt hn)).2, sout3_C_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) scM3_0 (Memref.isWhole_whole _) (fun h => hz ((hcond3_0 ⟨n + 1, hn⟩).mp h)) ((hcond3_1 ⟨n + 1, hn⟩).mpr hl) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (outsAt3 c n (Nat.lt_of_succ_lt hn)).2)
      else
        False.elim (by omega)

/-- `outsAt3` at a point of case A: that case's contents. -/
theorem outsAt3_A (c : Dev nD) (t : Fin cfg3.N) (hz : t.val % 2 = 0) (hl : ¬t.val % 2 = 1) :
    outsAt3 V c t.val t.isLt = (out3_A_5 c (grid3.coords t) (ms3_0 t) (hs3_0 t) (ms3_1 t) (hs3_1 t) (ms3_2 t) (hs3_2 t) (ms3_3 t) (hs3_3 t) (ms3_4 t) (hs3_4 t) (ms3_5 t) (hs3_5 t) scM3_0 (Memref.isWhole_whole _) ((hcond3_0 t).mpr hz) (fun h => hl ((hcond3_1 t).mp h)) (iblk3 V c 0 t) (iblk3 V c 1 t) (iblk3 V c 2 t) (iblk3 V c 3 t) (iblk3 V c 4 t), sout3_A_0 c (grid3.coords t) (ms3_0 t) (hs3_0 t) (ms3_1 t) (hs3_1 t) (ms3_2 t) (hs3_2 t) (ms3_3 t) (hs3_3 t) (ms3_4 t) (hs3_4 t) (ms3_5 t) (hs3_5 t) scM3_0 (Memref.isWhole_whole _) ((hcond3_0 t).mpr hz) (fun h => hl ((hcond3_1 t).mp h)) (iblk3 V c 0 t) (iblk3 V c 1 t) (iblk3 V c 2 t) (iblk3 V c 3 t) (iblk3 V c 4 t)) := by
  obtain ⟨n, hn⟩ := t
  cases n with
  | zero => exact rfl
  | succ n => exact (dif_pos hz).trans ((dif_neg hl).trans rfl)

/-- `outsAt3` at a point of case C: that case's contents, over what the point before left in the accumulator. -/
theorem outsAt3_C (c : Dev nD) (t : Fin cfg3.N) (hz : ¬t.val % 2 = 0) (hl : t.val % 2 = 1) :
    outsAt3 V c t.val t.isLt = (out3_C_5 c (grid3.coords t) (ms3_0 t) (hs3_0 t) (ms3_1 t) (hs3_1 t) (ms3_2 t) (hs3_2 t) (ms3_3 t) (hs3_3 t) (ms3_4 t) (hs3_4 t) (ms3_5 t) (hs3_5 t) scM3_0 (Memref.isWhole_whole _) (fun h => hz ((hcond3_0 t).mp h)) ((hcond3_1 t).mpr hl) (iblk3 V c 0 t) (iblk3 V c 1 t) (iblk3 V c 2 t) (iblk3 V c 3 t) (iblk3 V c 4 t) (outsAt3 V c (t.val - 1) (Nat.lt_of_le_of_lt (Nat.sub_le _ _) t.isLt)).2, sout3_C_0 c (grid3.coords t) (ms3_0 t) (hs3_0 t) (ms3_1 t) (hs3_1 t) (ms3_2 t) (hs3_2 t) (ms3_3 t) (hs3_3 t) (ms3_4 t) (hs3_4 t) (ms3_5 t) (hs3_5 t) scM3_0 (Memref.isWhole_whole _) (fun h => hz ((hcond3_0 t).mp h)) ((hcond3_1 t).mpr hl) (iblk3 V c 0 t) (iblk3 V c 1 t) (iblk3 V c 2 t) (iblk3 V c 3 t) (iblk3 V c 4 t) (outsAt3 V c (t.val - 1) (Nat.lt_of_le_of_lt (Nat.sub_le _ _) t.isLt)).2) := by
  obtain ⟨n, hn⟩ := t
  cases n with
  | zero => exact (by exfalso; (try dsimp only at hz); exact absurd (Nat.zero_mod _) hz)
  | succ n => exact (dif_neg hz).trans ((dif_pos hl).trans rfl)

/-- The region invariant before position `n`, the kernel carrying its accumulator between points: before the first point
    the scoped rest with every scratch at anything; afterwards the accumulator at what the point before left in it
    (`outsAt3`'s second component), the other scoped buffers unopened, and the generator register at some state. -/
def PhiS3 (c : Dev nD) : (n : ℕ) → n ≤ cfg3.N → sProp 𝕄
  | 0, _ => Pipeline.ΦA spec3 c
  | n + 1, hn => iprop(iprop(owns (c : Thread nD τ) scM3_0 fullShare ((outsAt3 V c n hn).2) ∗ Pipeline.scopedRestBut (Ix := Unit) (Name := ℕ) (U := UR sig nD τ) (Lvl := ℕ) (Val := Elt F) spec3 c [cc3_scratch0]) ∗ (∃ r, prngReg c r))

theorem PhiS3_zero (c : Dev nD) (n : ℕ) (h : n ≤ cfg3.N) (hzero : n = 0) : PhiS3 V c n h = Pipeline.ΦA spec3 c := by
  subst hzero; rfl

/-- After point `n` (before point `n + 1`): the accumulator at that point's contents. -/
theorem PhiS3_succ (c : Dev nD) (n : ℕ) (hn : n < cfg3.N) :
    PhiS3 V c (n + 1) hn = iprop(iprop(owns (c : Thread nD τ) scM3_0 fullShare ((outsAt3 V c n hn).2) ∗ Pipeline.scopedRestBut (Ix := Unit) (Name := ℕ) (U := UR sig nD τ) (Lvl := ℕ) (Val := Elt F) spec3 c [cc3_scratch0]) ∗ (∃ r, prngReg c r)) := rfl

/-- Before a point that is not the first: the accumulator at what the point before left. -/
theorem PhiS3_pos (c : Dev nD) (n : ℕ) (h : n ≤ cfg3.N) (hzero : n ≠ 0) :
    PhiS3 V c n h = iprop(iprop(owns (c : Thread nD τ) scM3_0 fullShare ((outsAt3 V c (n - 1) (by omega)).2) ∗ Pipeline.scopedRestBut (Ix := Unit) (Name := ℕ) (U := UR sig nD τ) (Lvl := ℕ) (Val := Elt F) spec3 c [cc3_scratch0]) ∗ (∃ r, prngReg c r)) := by
  cases n with
  | zero => exact absurd rfl hzero
  | succ n => rfl

/-! ## The pipeline's proof data -/

/-- The proof data of pipeline 1 on core `c`: the arrays as the region finds them (`V`); after the body at point `t` each
    input's buffer at its block and the output's at `outsAt3`'s first component; the invariant `PhiS3`; nothing owed; full
    shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => (outsAt3 V c t.val t.isLt).1
  Φ t := PhiS3 V c t.val (Nat.le_of_lt_succ t.isLt)
  q _ := fullShare
  owed _ := 0

/-- The proof data's arrays are the region-entry contents (the definition projected, `V` never unfolded). -/
theorem A_eq3 (c : Dev nD) (w : Fin cfg3.W) : (dat3 V c).A w = V c (Pipeline.arrRef spec3 w) := by
  dsimp only [dat3]

/-- The invariant at a point's start (the proof data at `t.castSucc`), restated at `t.val`. -/
theorem PhiS3_castSucc (c : Dev nD) (t : Fin cfg3.N) :
    (dat3 V c).Φ t.castSucc = PhiS3 V c t.val (Nat.le_of_lt t.isLt) := by
  dsimp only [dat3]; simp only [Fin.coe_castSucc]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = (outsAt3 V c t.val t.isLt).1 := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-! ## The body obligation, at a generic point -/

/-- What the body is called with at point `t` (the windows one by one), -/
def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d))
    ∗ (∃ d, owns (c : Thread nD τ) (ms3_4 t) fullShare ((dat3 V c).before 4 t d))
    ∗ (∃ d, owns (c : Thread nD τ) (ms3_5 t) fullShare ((dat3 V c).before 5 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t
    ∗ (dat3 V c).leavesExact 5 t)

set_option maxHeartbeats 4800000 in
/-- The body at any point: the inputs' memrefs hold their blocks; the closed forms say which case the point is in; the
    invariant hands the body the accumulator at what the point before left (at anything at the first point), the other
    scoped buffers and the generator register pass through, and it takes the accumulator back at this point's contents;
    in case A the output's buffer is handed back as found, in case C at its covering store; the core owes nothing
    throughout. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).owesAt () t.succ = (dat3 V c).owesAt () t.castSucc from rfl]
  rw [show (dat3 V c).Φ t.succ = PhiS3 V c (t.val + 1) t.isLt from rfl, PhiS3_succ]
  have hN : t.val < 8 := lt_of_lt_of_eq t.isLt (show cfg3.N = 8 from N_3)
  by_cases hz : t.val % 2 = 0
  · have hl : ¬t.val % 2 = 1 := by omega
    rw [show (dat3 V c).leavesExact 0 t = owns (c : Thread nD τ) (ms3_0 t) fullShare ((dat3 V c).after 0 t) from by
      unfold Dat.leavesExact; rw [liveAt3_0 t], after3_0]
    rw [show (dat3 V c).leavesExact 1 t = owns (c : Thread nD τ) (ms3_1 t) fullShare ((dat3 V c).after 1 t) from by
      unfold Dat.leavesExact; rw [liveAt3_1 t], after3_1]
    rw [show (dat3 V c).leavesExact 2 t = owns (c : Thread nD τ) (ms3_2 t) fullShare ((dat3 V c).after 2 t) from by
      unfold Dat.leavesExact; rw [liveAt3_2 t], after3_2]
    rw [show (dat3 V c).leavesExact 3 t = owns (c : Thread nD τ) (ms3_3 t) fullShare ((dat3 V c).after 3 t) from by
      unfold Dat.leavesExact; rw [liveAt3_3 t], after3_3]
    rw [show (dat3 V c).leavesExact 4 t = owns (c : Thread nD τ) (ms3_4 t) fullShare ((dat3 V c).after 4 t) from by
      unfold Dat.leavesExact; rw [liveAt3_4 t], after3_4]
    rw [Dat.leavesExact_idle (dat3 V c) 5 t (idleAt3_5_A t ((hcond3_0 t).mpr hz) (fun h => hl ((hcond3_1 t).mp h))) (noFlush3_5_A t ((hcond3_0 t).mpr hz) (fun h => hl ((hcond3_1 t).mp h)))]
    rw [outsAt3_A V c t hz hl]
    unfold sout3_A_0; (try dsimp only)
    by_cases hzero : t.val = 0
    ·
      rw [PhiS3_castSucc V c t, PhiS3_zero V c _ _ hzero, PhiA3_eq]
      iintro ⟨⟨⟨Hs, Hr⟩, Hg⟩, Hw, ⟨%da, Ha⟩, ⟨%db, Hb⟩, ⟨%dc, Hc⟩, ⟨%dd, Hd⟩, ⟨%de, He⟩, ⟨%dq, Ho⟩⟩
      iapply ((kernelRun3_A c (grid3.coords t) _ _ _ _ _ _ _ _ _ _ _ _ _ _ ((hcond3_0 t).mpr hz) (fun h => hl ((hcond3_1 t).mp h)) (iblk3 V c 0 t) (iblk3 V c 1 t) (iblk3 V c 2 t) (iblk3 V c 3 t) (iblk3 V c 4 t)).2.2 _ Set.univ _)
      isplitl [Ha]; · iexact Ha
      isplitl [Hb]; · iexact Hb
      isplitl [Hc]; · iexact Hc
      isplitl [Hd]; · iexact Hd
      isplitl [He]; · iexact He
      isplitl [Ho]; · iexact Ho
      isplitl [Hs]; · iexact Hs
      iintro ⟨Ha, Hb, Hc, Hd, He, Ho, ⟨%es, Hs⟩⟩
      isplitl [Hs Hr Hg]
      · isplitl [Hs Hr]
        · isplitl [Hs]
          · unfold owns; iexists _; isplitr
            swap; · iexact Hs
            ipureintro; exact View.read_writes_of_cover _ _ _ _ _ (scover3_A_0 c _ _ _ _ _ _ _ _ _ _ _ _ _ _ _ _ _ _ _ _ _ _)
          iexact Hr
        iexact Hg
      isplitl [Hw]; · iexact Hw
      isplitl [Ha]; · iexact Ha
      isplitl [Hb]; · iexact Hb
      isplitl [Hc]; · iexact Hc
      isplitl [Hd]; · iexact Hd
      isplitl [He]; · iexact He
      iexists _; iexact Ho
    ·
      rw [PhiS3_castSucc V c t, PhiS3_pos V c _ _ hzero]
      iintro ⟨⟨⟨Hs, Hr⟩, Hg⟩, Hw, ⟨%da, Ha⟩, ⟨%db, Hb⟩, ⟨%dc, Hc⟩, ⟨%dd, Hd⟩, ⟨%de, He⟩, ⟨%dq, Ho⟩⟩
      iapply ((kernelRun3_A c (grid3.coords t) _ _ _ _ _ _ _ _ _ _ _ _ _ _ ((hcond3_0 t).mpr hz) (fun h => hl ((hcond3_1 t).mp h)) (iblk3 V c 0 t) (iblk3 V c 1 t) (iblk3 V c 2 t) (iblk3 V c 3 t) (iblk3 V c 4 t)).2.2 _ Set.univ _)
      isplitl [Ha]; · iexact Ha
      isplitl [Hb]; · iexact Hb
      isplitl [Hc]; · iexact Hc
      isplitl [Hd]; · iexact Hd
      isplitl [He]; · iexact He
      isplitl [Ho]; · iexact Ho
      isplitl [Hs]; · iexists _; iexact Hs
      iintro ⟨Ha, Hb, Hc, Hd, He, Ho, ⟨%es, Hs⟩⟩
      isplitl [Hs Hr Hg]
      · isplitl [Hs Hr]
        · isplitl [Hs]
          · unfold owns; iexists _; isplitr
            swap; · iexact Hs
            ipureintro; exact View.read_writes_of_cover _ _ _ _ _ (scover3_A_0 c _ _ _ _ _ _ _ _ _ _ _ _ _ _ _ _ _ _ _ _ _ _)
          iexact Hr
        iexact Hg
      isplitl [Hw]; · iexact Hw
      isplitl [Ha]; · iexact Ha
      isplitl [Hb]; · iexact Hb
      isplitl [Hc]; · iexact Hc
      isplitl [Hd]; · iexact Hd
      isplitl [He]; · iexact He
      iexists _; iexact Ho
  · have hl : t.val % 2 = 1 := by omega
    rw [show (dat3 V c).leavesExact 0 t = owns (c : Thread nD τ) (ms3_0 t) fullShare ((dat3 V c).after 0 t) from by
      unfold Dat.leavesExact; rw [liveAt3_0 t], after3_0]
    rw [show (dat3 V c).leavesExact 1 t = owns (c : Thread nD τ) (ms3_1 t) fullShare ((dat3 V c).after 1 t) from by
      unfold Dat.leavesExact; rw [liveAt3_1 t], after3_1]
    rw [show (dat3 V c).leavesExact 2 t = owns (c : Thread nD τ) (ms3_2 t) fullShare ((dat3 V c).after 2 t) from by
      unfold Dat.leavesExact; rw [liveAt3_2 t], after3_2]
    rw [show (dat3 V c).leavesExact 3 t = owns (c : Thread nD τ) (ms3_3 t) fullShare ((dat3 V c).after 3 t) from by
      unfold Dat.leavesExact; rw [liveAt3_3 t], after3_3]
    rw [show (dat3 V c).leavesExact 4 t = owns (c : Thread nD τ) (ms3_4 t) fullShare ((dat3 V c).after 4 t) from by
      unfold Dat.leavesExact; rw [liveAt3_4 t], after3_4]
    rw [show (dat3 V c).leavesExact 5 t = owns (c : Thread nD τ) (ms3_5 t) fullShare ((dat3 V c).after 5 t) from by
      unfold Dat.leavesExact; rw [liveAt3_5_C t (fun h => hz ((hcond3_0 t).mp h)) ((hcond3_1 t).mpr hl)], after3_5]
    rw [outsAt3_C V c t hz hl]
    unfold out3_C_5 sout3_C_0; (try dsimp only)
    have hzero : t.val ≠ 0 := by omega
    · rw [PhiS3_castSucc V c t, PhiS3_pos V c _ _ hzero]
      iintro ⟨⟨⟨Hs, Hr⟩, Hg⟩, Hw, ⟨%da, Ha⟩, ⟨%db, Hb⟩, ⟨%dc, Hc⟩, ⟨%dd, Hd⟩, ⟨%de, He⟩, ⟨%dq, Ho⟩⟩
      iapply ((kernelRun3_C c (grid3.coords t) _ _ _ _ _ _ _ _ _ _ _ _ _ _ (fun h => hz ((hcond3_0 t).mp h)) ((hcond3_1 t).mpr hl) (iblk3 V c 0 t) (iblk3 V c 1 t) (iblk3 V c 2 t) (iblk3 V c 3 t) (iblk3 V c 4 t) _).2.2 Set.univ _)
      isplitl [Ha]; · iexact Ha
      isplitl [Hb]; · iexact Hb
      isplitl [Hc]; · iexact Hc
      isplitl [Hd]; · iexact Hd
      isplitl [He]; · iexact He
      isplitl [Ho]; · iexists _; iexact Ho
      isplitl [Hs]; · iexact Hs
      iintro ⟨Ha, Hb, Hc, Hd, He, ⟨%eo, Ho⟩, ⟨%es, Hs⟩⟩
      isplitl [Hs Hr Hg]
      · isplitl [Hs Hr]
        · isplitl [Hs]
          · unfold owns; iexists _; isplitr
            swap; · iexact Hs
            ipureintro; exact View.read_writes_of_cover _ _ _ _ _ (scover3_C_0 c _ _ _ _ _ _ _ _ _ _ _ _ _ _ _ _ _ _ _ _ _ _ _)
          iexact Hr
        iexact Hg
      isplitl [Hw]; · iexact Hw
      isplitl [Ha]; · iexact Ha
      isplitl [Hb]; · iexact Hb
      isplitl [Hc]; · iexact Hc
      isplitl [Hd]; · iexact Hd
      isplitl [He]; · iexact He
      unfold owns; iexists _; isplitr
      swap; · iexact Ho
      ipureintro; exact View.read_writes_of_cover _ _ _ _ _ (cover3_C_5 c _ _ _ _ _ _ _ _ _ _ _ _ _ _ _ _ _ _ _ _ _ _ _)

/-- The library's body obligation, at every point. -/
theorem body_obligation3 (c : Dev nD) : BodyObligation (dat3 (F := F) V c) (defs₀ (F := F)) Variants.none () Set.univ := fun t => by
  rw [bigSep_W3, bigSep_W3]
  exact sound_body3 V c t

/-- What the launch hands the region is the invariant before the first point. -/
theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

/-- After any point but the first the invariant gives the launch's back: the accumulator's named contents are forgotten. -/
theorem Phi_out3 (c : Dev nD) (t : Fin (cfg3.N + 1)) (ht : t.val ≠ 0) : (dat3 V c).Φ t ⊢ Pipeline.ΦA spec3 c := by
  rw [show (dat3 V c).Φ t = PhiS3 V c t.val (Nat.le_of_lt_succ t.isLt) from rfl, PhiS3_pos V c _ _ ht, PhiA3_eq]
  iintro ⟨⟨Hs, Hr⟩, Hg⟩
  isplitl [Hs Hr]
  · isplitl [Hs]
    · iexists _; iexact Hs
    iexact Hr
  iexact Hg

/-- The same after the last point. -/
theorem hout3 (c : Dev nD) : (dat3 V c).Φ (Fin.last cfg3.N) ⊢ Pipeline.ΦA spec3 c :=
  Phi_out3 V c _ (by rw [Fin.val_last]; have : cfg3.N = 8 := N_3; omega)

end Region

end Cert.Kernel.Hand

end
-- ==== Proof.K.Reg4Runs.lean ====
/-
  Region 4 (an edge update relu(he + vew2ᵀ·hv)), the definitions its two runs share.
  The grid is (i, k) with k of extent 2: point t has k = t mod 2. At k = 0 the accumulator is zeroed and the first
  half of the contraction added; at k = 1 the second half is added and the output block stored. Everything is stated
  at a parameter V, the TensorCore's buffer contents when the region is entered.
-/
import proofs.«181597_j77979426226450_2_alg».proof.Proof.Gen.Kernel.Launch
import proofs.«181597_j77979426226450_2_alg».proof.Proof.Gen.Kernel.Skeleton
import proofs.«181597_j77979426226450_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input window's current staging buffer holds its block at every point, fetched there or not: when it is not
    fetched its block index has not moved, so the block of the point before is this point's. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-! ## The body's two branch conditions, decided over the grid -/

/-- "k = 0": the accumulator is zeroed. -/
abbrev cond4_0 (i : grid4.Coords) : Prop := (Scalar.cmpi .ne (Scalar.extui (Scalar.cmpi .eq (BitVec.ofNat 32 (i 1).val) 0#32)) 0#32) = 1#1
theorem hcond4_0 : ∀ t : Fin cfg4.N, cond4_0 (grid4.coords t) ↔ t.val % 2 = 0 :=
  (by decide +kernel : ∀ t : Fin grid4.N, cond4_0 (grid4.coords t) ↔ t.val % 2 = 0)
/-- "k = 1", the last step: the output block is stored. -/
abbrev cond4_1 (i : grid4.Coords) : Prop := k4_cond2 i = 1#1
theorem hcond4_1 : ∀ t : Fin cfg4.N, cond4_1 (grid4.coords t) ↔ t.val % 2 = 1 :=
  (by decide +kernel : ∀ t : Fin grid4.N, cond4_1 (grid4.coords t) ↔ t.val % 2 = 1)

/-! ## Where the output window is idle -/

theorem liveAt4_0 : ∀ t : Fin cfg4.N, cfg4.idle 0 (grid4.coords t) = false := by decide +kernel
theorem liveAt4_1 : ∀ t : Fin cfg4.N, cfg4.idle 1 (grid4.coords t) = false := by decide +kernel
theorem liveAt4_2 : ∀ t : Fin cfg4.N, cfg4.idle 2 (grid4.coords t) = false := by decide +kernel
/-- At k = 0 nothing is stored into the output's buffer, and its block is not written back. -/
theorem idleAt4_3_A : ∀ t : Fin cfg4.N, cond4_0 (grid4.coords t) → ¬cond4_1 (grid4.coords t) → cfg4.idle 3 (grid4.coords t) = true := by decide +kernel
theorem noFlush4_3_A : ∀ t : Fin cfg4.N, cond4_0 (grid4.coords t) → ¬cond4_1 (grid4.coords t) → (cfg4.win 3).flush t = false := by decide +kernel
/-- At k = 1 it is stored. -/
theorem liveAt4_3_C : ∀ t : Fin cfg4.N, ¬cond4_0 (grid4.coords t) → cond4_1 (grid4.coords t) → cfg4.idle 3 (grid4.coords t) = false := by decide +kernel

/-! ## The memrefs the body is called with -/

/-- One staging buffer of the output window, through which its contents are stated. -/
abbrev VO4_3 : View sig .tc .vmem S1024x128 .f32 := (Memref.whole cc4_stg3_0 : Memref sig .tc .vmem S1024x128 .f32).view
abbrev ms4_0 (t : Fin cfg4.N) : Memref sig .tc .vmem S2048x1024 .bf16 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S2048x128 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S1024x128 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S1024x128 .f32 := win4_3.stage (cfg4.slots t 3)
abbrev hs4_3 (t : Fin cfg4.N) : (ms4_3 t).IsWhole := hstage4_3 ((cfg4.slots t 3).cast nbuf4_3)
/-- The accumulator: a whole scoped buffer of the kernel's own. -/
abbrev scM4_0 : Memref sig .tc .vmem S1024x128 .f32 := Memref.whole cc4_scratch0
abbrev VS4_0 : View sig .tc .vmem S1024x128 .f32 := scM4_0.view

/-- What the region may use and need not describe, with the accumulator split out: the accumulator at some contents,
    every other scoped buffer unopened, the generator register at some state. -/
theorem PhiA4_eq (c : Dev nD) :
    (Pipeline.ΦA spec4 c : sProp 𝕄)
      = iprop(iprop((∃ d, owns (c : Thread nD τ) scM4_0 fullShare d)
          ∗ Pipeline.scopedRestBut (Ix := Unit) (Name := ℕ) (U := UR sig nD τ) (Lvl := ℕ) (Val := Elt F) spec4 c [cc4_scratch0]) ∗ (∃ r, prngReg c r)) := by
  unfold Pipeline.ΦA; rw [scopedRest4_split]; simp only [scM4_0, owns_whole]; try rfl

end Cert.Kernel.Hand

end
-- ==== Proof.K.Reg4RunA.lean ====
/-
  Region 4, the body at k = 0: the accumulator is zeroed, the first half of the contraction (the one-hot block against
  the feature block and against its rounding remainder) is added to it, and nothing is stored into the output's buffer.
-/
import proofs.«181597_j77979426226450_2_alg».proof.Proof.K.Reg4Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's stores leave in the accumulator at k = 0 (last first), with the proof that on whole staging
    memrefs — the three inputs at their contents, the output's buffer at contents handed back untouched, the
    accumulator at anything — the body runs to a continuation holding the inputs and the output's buffer as they were and
    the accumulator with those pieces written. -/
noncomputable def kernelRun4_A (c : Dev nD) (i : grid4.Coords) (arg2 : Memref sig .tc .vmem S2048x1024 .bf16) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : cond4_0 i) (hc1 : ¬cond4_1 i)
    (x0 : Vec F S2048x1024 .bf16) (x1 : Vec F S2048x128 .f32) (x2 : Vec F S1024x128 .f32) :
    Σ' (L3 : List (View.Piece (Elt F) S1024x128 .f32)), { LS0 : List (View.Piece (Elt F) S1024x128 .f32) //
      ∀ (xi3 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc4__agg_relu_kernel i arg2 harg2 arg3 harg3 arg4 harg4 arg5 harg5 arg6 harg6) K } := by
  refine ⟨[], ?_, fun xi3 E K => ?run⟩
  case run =>
    simp only [cc4__agg_relu_kernel_eq_skeleton]; unfold cc4__agg_relu_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Hand

end
-- ==== Proof.K.Reg4RunC.lean ====
/-
  Region 4, the body at k = 1: the second half of the contraction is added to the accumulator, and the output block is
  stored: the maximum of zero and the accumulator plus the edge features.
-/
import proofs.«181597_j77979426226450_2_alg».proof.Proof.K.Reg4RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's stores leave in the output's buffer and in the accumulator at k = 1 (last first), with the
    proof that on whole staging memrefs — the three inputs at their contents, the output's buffer at anything, the
    accumulator at what the point before left — the body runs to a continuation holding the inputs as they were and the
    output's buffer and the accumulator with those pieces written. -/
noncomputable def kernelRun4_C (c : Dev nD) (i : grid4.Coords) (arg2 : Memref sig .tc .vmem S2048x1024 .bf16) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : ¬cond4_0 i) (hc1 : cond4_1 i)
    (x0 : Vec F S2048x1024 .bf16) (x1 : Vec F S2048x128 .f32) (x2 : Vec F S1024x128 .f32) (xs0 : Vec F S1024x128 .f32) :
    Σ' (L3 : List (View.Piece (Elt F) S1024x128 .f32)), { LS0 : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc4__agg_relu_kernel i arg2 harg2 arg3 harg3 arg4 harg4 arg5 harg5 arg6 harg6) K } := by
  refine ⟨?_, ?_, fun E K => ?run⟩
  case run =>
    simp only [cc4__agg_relu_kernel_eq_skeleton]; unfold cc4__agg_relu_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.Kernel.Hand

end
-- ==== Proof.K.Reg4.lean ====
/-
  Region 4: what the body leaves at each point, the accumulation over the grid, the pipeline's proof data and the body
  obligation. The accumulator holds, after the point (i, 0), the first half of the contraction for row block i, and after
  (i, 1) the whole contraction; the output block of row block i is stored at (i, 1) from the accumulator.
-/
import proofs.«181597_j77979426226450_2_alg».proof.Proof.K.Reg4RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- At k = 0 nothing is stored into the output's buffer: a placeholder nothing consults (the window is neither written
    back there nor read at the next point before being covered). -/
def out4_A_3 (c : Dev nD) (i : grid4.Coords) (arg2 : Memref sig .tc .vmem S2048x1024 .bf16) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : cond4_0 i) (hc1 : ¬cond4_1 i)
    (x0 : Vec F S2048x1024 .bf16) (x1 : Vec F S2048x128 .f32) (x2 : Vec F S1024x128 .f32) : Vec F S1024x128 .f32 :=
  VO4_3.read (Elt F) (VO4_3.writes (Elt F) VO4_3.junk (kernelRun4_A c i arg2 harg2 arg3 harg3 arg4 harg4 arg5 harg5 arg6 harg6 hc0 hc1 x0 x1 x2).1)

/-- The stores of k = 0 into the accumulator cover it. -/
theorem scover4_A_0 (c : Dev nD) (i : grid4.Coords) (arg2 : Memref sig .tc .vmem S2048x1024 .bf16) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : cond4_0 i) (hc1 : ¬cond4_1 i)
    (x0 : Vec F S2048x1024 .bf16) (x1 : Vec F S2048x128 .f32) (x2 : Vec F S1024x128 .f32) (y : S1024x128.Idx) :
    ∃ pc ∈ (kernelRun4_A c i arg2 harg2 arg3 harg3 arg4 harg4 arg5 harg5 arg6 harg6 hc0 hc1 x0 x1 x2).2.1, y ∈ pc.1.set :=
  View.cover_of_tiledL (kernelRun4_A c i arg2 harg2 arg3 harg3 arg4 harg4 arg5 harg5 arg6 harg6 hc0 hc1 x0 x1 x2).2.1 S1024x128.size (by sl_kernel_rfl) y

/-- What k = 0 leaves in the accumulator. -/
def sout4_A_0 (c : Dev nD) (i : grid4.Coords) (arg2 : Memref sig .tc .vmem S2048x1024 .bf16) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : cond4_0 i) (hc1 : ¬cond4_1 i)
    (x0 : Vec F S2048x1024 .bf16) (x1 : Vec F S2048x128 .f32) (x2 : Vec F S1024x128 .f32) : Vec F S1024x128 .f32 :=
  VS4_0.read (Elt F) (VS4_0.writes (Elt F) VS4_0.junk (kernelRun4_A c i arg2 harg2 arg3 harg3 arg4 harg4 arg5 harg5 arg6 harg6 hc0 hc1 x0 x1 x2).2.1)

/-- The store of k = 1 into the output's buffer covers it. -/
theorem cover4_C_3 (c : Dev nD) (i : grid4.Coords) (arg2 : Memref sig .tc .vmem S2048x1024 .bf16) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : ¬cond4_0 i) (hc1 : cond4_1 i)
    (x0 : Vec F S2048x1024 .bf16) (x1 : Vec F S2048x128 .f32) (x2 : Vec F S1024x128 .f32) (xs0 : Vec F S1024x128 .f32) (y : S1024x128.Idx) :
    ∃ pc ∈ (kernelRun4_C c i arg2 harg2 arg3 harg3 arg4 harg4 arg5 harg5 arg6 harg6 hc0 hc1 x0 x1 x2 xs0).1, y ∈ pc.1.set :=
  View.cover_of_tiledL (kernelRun4_C c i arg2 harg2 arg3 harg3 arg4 harg4 arg5 harg5 arg6 harg6 hc0 hc1 x0 x1 x2 xs0).1 S1024x128.size (by sl_kernel_rfl) y

/-- What k = 1 leaves in the output's buffer. -/
def out4_C_3 (c : Dev nD) (i : grid4.Coords) (arg2 : Memref sig .tc .vmem S2048x1024 .bf16) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : ¬cond4_0 i) (hc1 : cond4_1 i)
    (x0 : Vec F S2048x1024 .bf16) (x1 : Vec F S2048x128 .f32) (x2 : Vec F S1024x128 .f32) (xs0 : Vec F S1024x128 .f32) : Vec F S1024x128 .f32 :=
  VO4_3.read (Elt F) (VO4_3.writes (Elt F) VO4_3.junk (kernelRun4_C c i arg2 harg2 arg3 harg3 arg4 harg4 arg5 harg5 arg6 harg6 hc0 hc1 x0 x1 x2 xs0).1)

/-- The store of k = 1 into the accumulator covers it. -/
theorem scover4_C_0 (c : Dev nD) (i : grid4.Coords) (arg2 : Memref sig .tc .vmem S2048x1024 .bf16) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : ¬cond4_0 i) (hc1 : cond4_1 i)
    (x0 : Vec F S2048x1024 .bf16) (x1 : Vec F S2048x128 .f32) (x2 : Vec F S1024x128 .f32) (xs0 : Vec F S1024x128 .f32) (y : S1024x128.Idx) :
    ∃ pc ∈ (kernelRun4_C c i arg2 harg2 arg3 harg3 arg4 harg4 arg5 harg5 arg6 harg6 hc0 hc1 x0 x1 x2 xs0).2.1, y ∈ pc.1.set :=
  View.cover_of_tiledL (kernelRun4_C c i arg2 harg2 arg3 harg3 arg4 harg4 arg5 harg5 arg6 harg6 hc0 hc1 x0 x1 x2 xs0).2.1 S1024x128.size (by sl_kernel_rfl) y

/-- What k = 1 leaves in the accumulator. -/
def sout4_C_0 (c : Dev nD) (i : grid4.Coords) (arg2 : Memref sig .tc .vmem S2048x1024 .bf16) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : ¬cond4_0 i) (hc1 : cond4_1 i)
    (x0 : Vec F S2048x1024 .bf16) (x1 : Vec F S2048x128 .f32) (x2 : Vec F S1024x128 .f32) (xs0 : Vec F S1024x128 .f32) : Vec F S1024x128 .f32 :=
  VS4_0.read (Elt F) (VS4_0.writes (Elt F) VS4_0.junk (kernelRun4_C c i arg2 harg2 arg3 harg3 arg4 harg4 arg5 harg5 arg6 harg6 hc0 hc1 x0 x1 x2 xs0).2.1)

/-! ## What the output's buffer and the accumulator hold after each point -/

/-- The accumulation: after position n, the pair (output's buffer, accumulator) — at an even position the case k = 0 run
    at the point's blocks, at an odd one the case k = 1 run at the point's blocks over the accumulator the point before
    left. -/
def outsAt4 (c : Dev nD) : (n : ℕ) → n < cfg4.N → Vec F S1024x128 .f32 × Vec F S1024x128 .f32
  | 0, hn => (out4_A_3 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) scM4_0 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩) (iblk4 V c 2 ⟨0, hn⟩),
      sout4_A_0 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) scM4_0 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩) (iblk4 V c 2 ⟨0, hn⟩))
  | n + 1, hn =>
    if h0 : (n + 1) % 2 = 0 then
      if h1 : (n + 1) % 2 = 1 then
        False.elim (by omega)
      else
        (out4_A_3 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) ((hcond4_0 ⟨n + 1, hn⟩).mpr h0) (fun h => h1 ((hcond4_1 ⟨n + 1, hn⟩).mp h)) (iblk4 V c 0 ⟨n + 1, hn⟩) (iblk4 V c 1 ⟨n + 1, hn⟩) (iblk4 V c 2 ⟨n + 1, hn⟩),
          sout4_A_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) ((hcond4_0 ⟨n + 1, hn⟩).mpr h0) (fun h => h1 ((hcond4_1 ⟨n + 1, hn⟩).mp h)) (iblk4 V c 0 ⟨n + 1, hn⟩) (iblk4 V c 1 ⟨n + 1, hn⟩) (iblk4 V c 2 ⟨n + 1, hn⟩))
    else
      if h1 : (n + 1) % 2 = 1 then
        (out4_C_3 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (outsAt4 c n (Nat.lt_of_succ_lt hn)).2,
          sout4_C_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (outsAt4 c n (Nat.lt_of_succ_lt hn)).2)
      else
        False.elim (by omega)

/-- At a point with k = 0: that case's contents. -/
theorem outsAt4_A (c : Dev nD) (t : Fin cfg4.N) (h0 : t.val % 2 = 0) (h1 : ¬t.val % 2 = 1) :
    outsAt4 V c t.val t.isLt = (out4_A_3 c (grid4.coords t) (ms4_0 t) (hs4_0 t) (ms4_1 t) (hs4_1 t) (ms4_2 t) (hs4_2 t) (ms4_3 t) (hs4_3 t) scM4_0 (Memref.isWhole_whole _) ((hcond4_0 t).mpr h0) (fun h => h1 ((hcond4_1 t).mp h)) (iblk4 V c 0 t) (iblk4 V c 1 t) (iblk4 V c 2 t),
      sout4_A_0 c (grid4.coords t) (ms4_0 t) (hs4_0 t) (ms4_1 t) (hs4_1 t) (ms4_2 t) (hs4_2 t) (ms4_3 t) (hs4_3 t) scM4_0 (Memref.isWhole_whole _) ((hcond4_0 t).mpr h0) (fun h => h1 ((hcond4_1 t).mp h)) (iblk4 V c 0 t) (iblk4 V c 1 t) (iblk4 V c 2 t)) := by
  obtain ⟨n, hn⟩ := t
  cases n with
  | zero => exact rfl
  | succ n => exact (dif_pos h0).trans ((dif_neg h1).trans rfl)

/-- At a point with k = 1: that case's contents, over the accumulator the point before left. -/
theorem outsAt4_C (c : Dev nD) (t : Fin cfg4.N) (h0 : ¬t.val % 2 = 0) (h1 : t.val % 2 = 1) :
    outsAt4 V c t.val t.isLt = (out4_C_3 c (grid4.coords t) (ms4_0 t) (hs4_0 t) (ms4_1 t) (hs4_1 t) (ms4_2 t) (hs4_2 t) (ms4_3 t) (hs4_3 t) scM4_0 (Memref.isWhole_whole _) (fun h => h0 ((hcond4_0 t).mp h)) ((hcond4_1 t).mpr h1) (iblk4 V c 0 t) (iblk4 V c 1 t) (iblk4 V c 2 t) (outsAt4 V c (t.val - 1) (Nat.lt_of_le_of_lt (Nat.sub_le _ _) t.isLt)).2,
      sout4_C_0 c (grid4.coords t) (ms4_0 t) (hs4_0 t) (ms4_1 t) (hs4_1 t) (ms4_2 t) (hs4_2 t) (ms4_3 t) (hs4_3 t) scM4_0 (Memref.isWhole_whole _) (fun h => h0 ((hcond4_0 t).mp h)) ((hcond4_1 t).mpr h1) (iblk4 V c 0 t) (iblk4 V c 1 t) (iblk4 V c 2 t) (outsAt4 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position n: before the first point what the region may use, undescribed; afterwards
    the accumulator at what the point before left in it, the other scoped buffers unopened, the generator register at
    some state. -/
def PhiS4 (c : Dev nD) : (n : ℕ) → n ≤ cfg4.N → sProp 𝕄
  | 0, _ => Pipeline.ΦA spec4 c
  | n + 1, hn => iprop(iprop(owns (c : Thread nD τ) scM4_0 fullShare ((outsAt4 V c n hn).2)
      ∗ Pipeline.scopedRestBut (Ix := Unit) (Name := ℕ) (U := UR sig nD τ) (Lvl := ℕ) (Val := Elt F) spec4 c [cc4_scratch0]) ∗ (∃ r, prngReg c r))

theorem PhiS4_zero (c : Dev nD) (n : ℕ) (h : n ≤ cfg4.N) (hz : n = 0) : PhiS4 V c n h = Pipeline.ΦA spec4 c := by
  subst hz; rfl

theorem PhiS4_succ (c : Dev nD) (n : ℕ) (hn : n < cfg4.N) :
    PhiS4 V c (n + 1) hn = iprop(iprop(owns (c : Thread nD τ) scM4_0 fullShare ((outsAt4 V c n hn).2)
      ∗ Pipeline.scopedRestBut (Ix := Unit) (Name := ℕ) (U := UR sig nD τ) (Lvl := ℕ) (Val := Elt F) spec4 c [cc4_scratch0]) ∗ (∃ r, prngReg c r)) := rfl

theorem PhiS4_pos (c : Dev nD) (n : ℕ) (h : n ≤ cfg4.N) (hz : n ≠ 0) :
    PhiS4 V c n h = iprop(iprop(owns (c : Thread nD τ) scM4_0 fullShare ((outsAt4 V c (n - 1) (by omega)).2)
      ∗ Pipeline.scopedRestBut (Ix := Unit) (Name := ℕ) (U := UR sig nD τ) (Lvl := ℕ) (Val := Elt F) spec4 c [cc4_scratch0]) ∗ (∃ r, prngReg c r)) := by
  cases n with
  | zero => exact absurd rfl hz
  | succ n => rfl

/-! ## The pipeline's proof data -/

/-- The arrays as the region finds them; after the body each input's buffer at its block and the output's at the
    accumulation's first component; the invariant above; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => (outsAt4 V c t.val t.isLt).1
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem PhiS4_castSucc (c : Dev nD) (t : Fin cfg4.N) :
    (dat4 V c).Φ t.castSucc = PhiS4 V c t.val (Nat.le_of_lt t.isLt) := by
  dsimp only [dat4]; simp only [Fin.coe_castSucc]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = (outsAt4 V c t.val t.isLt).1 := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

/-! ## The body obligation, at a generic point -/

/-- What the body is called with at point t, the windows one by one, -/
def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d)))

/-- and what it returns. -/
def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t)

set_option maxHeartbeats 4800000 in
/-- The body at any point: the inputs' memrefs hold their blocks; k decides the case; the invariant hands the body the
    accumulator (at anything at the first point, else at what the point before left) and takes it back at this point's
    contents; the core owes nothing throughout. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).owesAt () t.succ = (dat4 V c).owesAt () t.castSucc from rfl]
  rw [show (dat4 V c).Φ t.succ = PhiS4 V c (t.val + 1) t.isLt from rfl, PhiS4_succ]
  have hN : t.val < 16 := lt_of_lt_of_eq t.isLt (show cfg4.N = 16 from N_4)
  rw [show (dat4 V c).leavesExact 0 t = owns (c : Thread nD τ) (ms4_0 t) fullShare ((dat4 V c).after 0 t) from by
    unfold Dat.leavesExact; rw [liveAt4_0 t], after4_0]
  rw [show (dat4 V c).leavesExact 1 t = owns (c : Thread nD τ) (ms4_1 t) fullShare ((dat4 V c).after 1 t) from by
    unfold Dat.leavesExact; rw [liveAt4_1 t], after4_1]
  rw [show (dat4 V c).leavesExact 2 t = owns (c : Thread nD τ) (ms4_2 t) fullShare ((dat4 V c).after 2 t) from by
    unfold Dat.leavesExact; rw [liveAt4_2 t], after4_2]
  by_cases h0 : t.val % 2 = 0
  · have h1 : ¬t.val % 2 = 1 := by omega
    rw [Dat.leavesExact_idle (dat4 V c) 3 t (idleAt4_3_A t ((hcond4_0 t).mpr h0) (fun h => h1 ((hcond4_1 t).mp h))) (noFlush4_3_A t ((hcond4_0 t).mpr h0) (fun h => h1 ((hcond4_1 t).mp h)))]
    rw [outsAt4_A V c t h0 h1]
    unfold sout4_A_0; (try dsimp only)
    by_cases hz : t.val = 0
    · rw [PhiS4_castSucc V c t, PhiS4_zero V c _ _ hz, PhiA4_eq]
      iintro ⟨⟨⟨HS0, Hrest⟩, Hg⟩, Ho, ⟨%d0, H0⟩, ⟨%d1, H1⟩, ⟨%d2, H2⟩, ⟨%d3, H3⟩⟩
      iapply ((kernelRun4_A c (grid4.coords t) _ _ _ _ _ _ _ _ _ _ ((hcond4_0 t).mpr h0) (fun h => h1 ((hcond4_1 t).mp h)) (iblk4 V c 0 t) (iblk4 V c 1 t) (iblk4 V c 2 t)).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover4_A_0 c _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3
    · rw [PhiS4_castSucc V c t, PhiS4_pos V c _ _ hz]
      iintro ⟨⟨⟨HS0, Hrest⟩, Hg⟩, Ho, ⟨%d0, H0⟩, ⟨%d1, H1⟩, ⟨%d2, H2⟩, ⟨%d3, H3⟩⟩
      iapply ((kernelRun4_A c (grid4.coords t) _ _ _ _ _ _ _ _ _ _ ((hcond4_0 t).mpr h0) (fun h => h1 ((hcond4_1 t).mp h)) (iblk4 V c 0 t) (iblk4 V c 1 t) (iblk4 V c 2 t)).2.2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover4_A_0 c _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3
  · have h1 : t.val % 2 = 1 := by omega
    rw [show (dat4 V c).leavesExact 3 t = owns (c : Thread nD τ) (ms4_3 t) fullShare ((dat4 V c).after 3 t) from by
      unfold Dat.leavesExact; rw [liveAt4_3_C t (fun h => h0 ((hcond4_0 t).mp h)) ((hcond4_1 t).mpr h1)], after4_3]
    rw [outsAt4_C V c t h0 h1]
    unfold out4_C_3 sout4_C_0; (try dsimp only)
    have hz : t.val ≠ 0 := by omega
    rw [PhiS4_castSucc V c t, PhiS4_pos V c _ _ hz]
    iintro ⟨⟨⟨HS0, Hrest⟩, Hg⟩, Ho, ⟨%d0, H0⟩, ⟨%d1, H1⟩, ⟨%d2, H2⟩, ⟨%d3, H3⟩⟩
    iapply ((kernelRun4_C c (grid4.coords t) _ _ _ _ _ _ _ _ _ _ (fun h => h0 ((hcond4_0 t).mp h)) ((hcond4_1 t).mpr h1) (iblk4 V c 0 t) (iblk4 V c 1 t) (iblk4 V c 2 t) _).2.2 Set.univ _)
    isplitl [H0]; · iexact H0
    isplitl [H1]; · iexact H1
    isplitl [H2]; · iexact H2
    isplitl [H3]; · iexists _; iexact H3
    isplitl [HS0]; · iexact HS0
    iintro ⟨H0, H1, H2, ⟨%e3, H3⟩, ⟨%es0, HS0⟩⟩
    isplitl [HS0 Hrest Hg]
    · isplitl [HS0 Hrest]
      · isplitl [HS0]
        · unfold owns; iexists _; isplitr
          swap; · iexact HS0
          ipureintro; exact View.read_writes_of_cover _ _ _ _ _ (scover4_C_0 c _ _ _ _ _ _ _ _ _ _ _ _ _ _ _ _ _)
        iexact Hrest
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover4_C_3 c _ _ _ _ _ _ _ _ _ _ _ _ _ _ _ _ _)

/-- The pipeline library's body obligation, at every point. -/
theorem body_obligation4 (c : Dev nD) : BodyObligation (dat4 (F := F) V c) (defs₀ (F := F)) Variants.none () Set.univ := fun t => by
  rw [bigSep_W4, bigSep_W4]
  exact sound_body4 V c t

/-- What the launch hands the region is the invariant before the first point. -/
theorem hin4 (c : Dev nD) : Pipeline.ΦA spec4 c ⊢ (dat4 V c).Φ 0 := by
  rw [show (dat4 V c).Φ 0 = PhiS4 V c 0 (Nat.zero_le _) from rfl, PhiS4_zero V c 0 _ rfl]
  try exact Idealize.SL.BI.Entails.refl _

/-- After any point but the first the invariant gives it back: the accumulator's named contents are forgotten. -/
theorem Phi_out4 (c : Dev nD) (t : Fin (cfg4.N + 1)) (ht : t.val ≠ 0) : (dat4 V c).Φ t ⊢ Pipeline.ΦA spec4 c := by
  rw [show (dat4 V c).Φ t = PhiS4 V c t.val (Nat.le_of_lt_succ t.isLt) from rfl, PhiS4_pos V c _ _ ht, PhiA4_eq]
  iintro ⟨⟨HS0, Hrest⟩, Hg⟩
  isplitl [HS0 Hrest]
  · isplitl [HS0]
    · iexists _; iexact HS0
    iexact Hrest
  iexact Hg

theorem hout4 (c : Dev nD) : (dat4 V c).Φ (Fin.last cfg4.N) ⊢ Pipeline.ΦA spec4 c :=
  Phi_out4 V c _ (by rw [Fin.val_last]; have : cfg4.N = 16 := N_4; omega)

end Cert.Kernel.Hand

end
-- ==== Proof.K.Reg5Runs.lean ====
/- Region 5 (the aggregate-residual-MLP kernel, pipeline 1): what its two runs share — the windows' blocks at the
   region-entry contents, the input windows' staging contents, the body's two branch conditions decided over the
   grid, where the output window is idle, the staging and scratch memrefs, and the region invariant with the
   scratch accumulator owned as a memref. -/
import proofs.«181597_j77979426226450_2_alg».proof.Proof.Gen.Kernel.Launch
import proofs.«181597_j77979426226450_2_alg».proof.Proof.Gen.Kernel.Skeleton
import proofs.«181597_j77979426226450_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
-- the TensorCore's buffer contents when the region is entered: the parameter the region's half is stated at
variable (V : (c : Dev nD) → (b : Ref sig .tc) → Buf (Elt F) ((c : Thread nD τ).loc b))

/-! ## The windows' blocks -/

/-- Window `w`'s block at point `t`, read off its array as the region finds it (`V`). -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, fetched there or not, for any proof
    data whose array is `V`'s (`hA`) and whose body leaves the block in place (`hafter`): unfetched, the block
    index has not moved; the window is uncut and never idle. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's current staging buffer holds its block at every point, fetched there or not, for any proof
    data whose array is `V`'s (`hA`) and whose body leaves the block in place (`hafter`): unfetched, the block
    index has not moved; the window is uncut and never idle. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's current staging buffer holds its block at every point, fetched there or not, for any proof
    data whose array is `V`'s (`hA`) and whose body leaves the block in place (`hafter`): unfetched, the block
    index has not moved; the window is uncut and never idle. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- Input window 3's current staging buffer holds its block at every point, fetched there or not, for any proof
    data whose array is `V`'s (`hA`) and whose body leaves the block in place (`hafter`): unfetched, the block
    index has not moved; the window is uncut and never idle. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-- Input window 4's current staging buffer holds its block at every point, fetched there or not, for any proof
    data whose array is `V`'s (`hA`) and whose body leaves the block in place (`hafter`): unfetched, the block
    index has not moved; the window is uncut and never idle. -/
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

end Region

/-! ## The body's branch conditions -/

/-- The condition of the body's first conditional (the reduction index is 0), from the grid coordinates. -/
abbrev cond5_0 (i : grid5.Coords) : Prop := (Scalar.cmpi .ne (Scalar.extui (Scalar.cmpi .eq (BitVec.ofNat 32 (i 1).val) 0#32)) 0#32) = 1#1
/-- It holds at the points ≡ 0 (mod 2) — decided over the grid. -/
theorem hcond5_0 : ∀ t : Fin cfg5.N, cond5_0 (grid5.coords t) ↔ t.val % 2 = 0 :=
  (by decide +kernel : ∀ t : Fin grid5.N, cond5_0 (grid5.coords t) ↔ t.val % 2 = 0)

/-- The condition of the body's second conditional (the reduction index is the last). -/
abbrev cond5_1 (i : grid5.Coords) : Prop := k5_cond2 i = 1#1
/-- It holds at the points ≡ 1 (mod 2) — decided over the grid. -/
theorem hcond5_1 : ∀ t : Fin cfg5.N, cond5_1 (grid5.coords t) ↔ t.val % 2 = 1 :=
  (by decide +kernel : ∀ t : Fin grid5.N, cond5_1 (grid5.coords t) ↔ t.val % 2 = 1)

/-! ## Where the windows are idle -/

/-- Window 0 is never idle (an input). -/
theorem liveAt5_0 : ∀ t : Fin cfg5.N, cfg5.idle 0 (grid5.coords t) = false := by decide +kernel
/-- Window 1 is never idle (an input). -/
theorem liveAt5_1 : ∀ t : Fin cfg5.N, cfg5.idle 1 (grid5.coords t) = false := by decide +kernel
/-- Window 2 is never idle (an input). -/
theorem liveAt5_2 : ∀ t : Fin cfg5.N, cfg5.idle 2 (grid5.coords t) = false := by decide +kernel
/-- Window 3 is never idle (an input). -/
theorem liveAt5_3 : ∀ t : Fin cfg5.N, cfg5.idle 3 (grid5.coords t) = false := by decide +kernel
/-- Window 4 is never idle (an input). -/
theorem liveAt5_4 : ∀ t : Fin cfg5.N, cfg5.idle 4 (grid5.coords t) = false := by decide +kernel
/-- At the points of case A (first conditional taken, second not) output 5 is idle: the case stores nothing into it. -/
theorem idleAt5_5_A : ∀ t : Fin cfg5.N, cond5_0 (grid5.coords t) → ¬cond5_1 (grid5.coords t) → cfg5.idle 5 (grid5.coords t) = true := by decide +kernel
/-- At the points of case A the pipeline does not write output 5's block back. -/
theorem noFlush5_5_A : ∀ t : Fin cfg5.N, cond5_0 (grid5.coords t) → ¬cond5_1 (grid5.coords t) → (cfg5.win 5).flush t = false := by decide +kernel
/-- At the points of case C (first conditional not taken, second taken) output 5 is live: the case stores into it. -/
theorem liveAt5_5_C : ∀ t : Fin cfg5.N, ¬cond5_0 (grid5.coords t) → cond5_1 (grid5.coords t) → cfg5.idle 5 (grid5.coords t) = false := by decide +kernel

/-! ## The staging and scratch memrefs -/

/-- One staging buffer of output window 5, through which its contents are stated (the choice does not matter). -/
abbrev VO5_5 : View sig .tc .vmem S1024x128 .f32 := (Memref.whole cc5_stg5_0 : Memref sig .tc .vmem S1024x128 .f32).view
/-- Each window's current staging memref at point `t`, spelled as the pipeline passes it, and its wholeness. -/
abbrev ms5_0 (t : Fin cfg5.N) : Memref sig .tc .vmem S1024x4096 .bf16 := win5_0.stage (cfg5.slots t 0)
abbrev hs5_0 (t : Fin cfg5.N) : (ms5_0 t).IsWhole := hstage5_0 ((cfg5.slots t 0).cast nbuf5_0)
abbrev ms5_1 (t : Fin cfg5.N) : Memref sig .tc .vmem S4096x128 .f32 := win5_1.stage (cfg5.slots t 1)
abbrev hs5_1 (t : Fin cfg5.N) : (ms5_1 t).IsWhole := hstage5_1 ((cfg5.slots t 1).cast nbuf5_1)
abbrev ms5_2 (t : Fin cfg5.N) : Memref sig .tc .vmem S1024x128 .f32 := win5_2.stage (cfg5.slots t 2)
abbrev hs5_2 (t : Fin cfg5.N) : (ms5_2 t).IsWhole := hstage5_2 ((cfg5.slots t 2).cast nbuf5_2)
abbrev ms5_3 (t : Fin cfg5.N) : Memref sig .tc .vmem S128x128 .f32 := win5_3.stage (cfg5.slots t 3)
abbrev hs5_3 (t : Fin cfg5.N) : (ms5_3 t).IsWhole := hstage5_3 ((cfg5.slots t 3).cast nbuf5_3)
abbrev ms5_4 (t : Fin cfg5.N) : Memref sig .tc .vmem S1x128 .f32 := win5_4.stage (cfg5.slots t 4)
abbrev hs5_4 (t : Fin cfg5.N) : (ms5_4 t).IsWhole := hstage5_4 ((cfg5.slots t 4).cast nbuf5_4)
abbrev ms5_5 (t : Fin cfg5.N) : Memref sig .tc .vmem S1024x128 .f32 := win5_5.stage (cfg5.slots t 5)
abbrev hs5_5 (t : Fin cfg5.N) : (ms5_5 t).IsWhole := hstage5_5 ((cfg5.slots t 5).cast nbuf5_5)
/-- The scratch accumulator: a whole scoped buffer of the kernel's own, passed beside the windows. -/
abbrev scM5_0 : Memref sig .tc .vmem S1024x128 .f32 := Memref.whole cc5_scratch0
/-- The same as a view: what the accumulator holds between points is stated through it. -/
abbrev VS5_0 : View sig .tc .vmem S1024x128 .f32 := scM5_0.view

/-- The region invariant with the scratch accumulator as a memref owned at some contents, the other scoped buffers
    unopened, and the generator register at some state: what the body obligation hands the run and takes back. -/
theorem PhiA5_eq (c : Dev nD) :
    (Pipeline.ΦA spec5 c : sProp 𝕄)
      = iprop(iprop(iprop((∃ d, owns (c : Thread nD τ) scM5_0 fullShare d))
          ∗ Pipeline.scopedRestBut (Ix := Unit) (Name := ℕ) (U := UR sig nD τ) (Lvl := ℕ) (Val := Elt F) spec5 c [cc5_scratch0]) ∗ (∃ r, prngReg c r)) := by
  unfold Pipeline.ΦA; rw [scopedRest5_split]; simp only [scM5_0, owns_whole]; try rfl

end Cert.Kernel.Hand

end
-- ==== Proof.K.Reg5RunA.lean ====
/- Region 5: the whole-body run of the kernel in case A (first conditional taken, second not: the reduction's first
   step). The pieces the scratch accumulator ends with are the witness the run finds. -/
import proofs.«181597_j77979426226450_2_alg».proof.Proof.K.Reg5Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in the output's staging memref and in the scratch accumulator, as pieces (last first), in
    case A, with the proof that on whole staging memrefs — the inputs' at their contents, the output's (no store, the
    window idle and not written back at the case's points) at contents `xio` handed back untouched, the accumulator at
    anything — the body runs to the continuation holding the inputs' and the output's as they were and the accumulator
    with its pieces written: it is zeroed, then the product of the two input blocks is added. -/
noncomputable def kernelRun5_A (c : Dev nD) (i : grid5.Coords) (arg2 : Memref sig .tc .vmem S1024x4096 .bf16) (harg2 : arg2.IsWhole) (arg3 : Memref sig .tc .vmem S4096x128 .f32) (harg3 : arg3.IsWhole) (arg4 : Memref sig .tc .vmem S1024x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1024x128 .f32) (harg7 : arg7.IsWhole) (arg8 : Memref sig .tc .vmem S1024x128 .f32) (harg8 : arg8.IsWhole) (hcz : cond5_0 i) (hcl : ¬cond5_1 i)
    (xa : Vec F S1024x4096 .bf16) (xb : Vec F S4096x128 .f32) (xc : Vec F S1024x128 .f32) (xd : Vec F S128x128 .f32) (xe : Vec F S1x128 .f32) :
    Σ' (LO : List (View.Piece (Elt F) S1024x128 .f32)), { LS : List (View.Piece (Elt F) S1024x128 .f32) //
      ∀ (xio : Vec F S1024x128 .f32) (E : Set ℕ) (K : PUnit → sProp 𝕄),
        iprop(owns (c : Thread nD τ) arg2 fullShare xa ∗ owns (c : Thread nD τ) arg3 fullShare xb ∗ owns (c : Thread nD τ) arg4 fullShare xc ∗ owns (c : Thread nD τ) arg5 fullShare xd ∗ owns (c : Thread nD τ) arg6 fullShare xe ∗ owns (c : Thread nD τ) arg7 fullShare xio ∗ (∃ d, owns (c : Thread nD τ) arg8 fullShare d)
            ∗ (iprop(owns (c : Thread nD τ) arg2 fullShare xa ∗ owns (c : Thread nD τ) arg3 fullShare xb ∗ owns (c : Thread nD τ) arg4 fullShare xc ∗ owns (c : Thread nD τ) arg5 fullShare xd ∗ owns (c : Thread nD τ) arg6 fullShare xe ∗ owns (c : Thread nD τ) arg7 fullShare xio ∗ (∃ f, arg8.view.loc (c : Thread nD τ) ↦[arg8.view.set]{fullShare} arg8.view.writes (Elt F) f LS)) -∗ K ⟨⟩))
          ⊢ wp frame (wpE (defs₀ (F := F)) Variants.none c none) E (cc5__agg_residual_mlp_kernel i arg2 harg2 arg3 harg3 arg4 harg4 arg5 harg5 arg6 harg6 arg7 harg7 arg8 harg8) K } := by
  refine ⟨[], ?_, fun xio E K => ?run⟩
  case run =>
    simp only [cc5__agg_residual_mlp_kernel_eq_skeleton]; unfold cc5__agg_residual_mlp_kernel_skel
    unfold owns
    iintro ⟨⟨%fa, %hfa, Ha⟩, ⟨%fb, %hfb, Hb⟩, ⟨%fc, %hfc, Hc⟩, ⟨%fd, %hfd, Hd⟩, ⟨%fe, %hfe, He⟩, ⟨%fo, %hfo, Ho⟩, ⟨%ds, %fs, -, Hs⟩, Hk⟩
    obtain rfl := harg2.eq_unread hfa; obtain rfl := harg3.eq_unread hfb; obtain rfl := harg4.eq_unread hfc
    obtain rfl := harg5.eq_unread hfd; obtain rfl := harg6.eq_unread hfe; obtain rfl := harg7.eq_unread hfo
    sl_exec (disch := first | exact hcz | exact hcl)
    sl_step
    iapply Hk
    isplitl [Ha]
    · iexists _; isplitr; · ipureintro; exact harg2.read_unread _
      iexact Ha
    isplitl [Hb]
    · iexists _; isplitr; · ipureintro; exact harg3.read_unread _
      iexact Hb
    isplitl [Hc]
    · iexists _; isplitr; · ipureintro; exact harg4.read_unread _
      iexact Hc
    isplitl [Hd]
    · iexists _; isplitr; · ipureintro; exact harg5.read_unread _
      iexact Hd
    isplitl [He]
    · iexists _; isplitr; · ipureintro; exact harg6.read_unread _
      iexact He
    isplitl [Ho]
    · iexists _; isplitr; · ipureintro; exact harg7.read_unread _
      iexact Ho
    iexists _; iexact Hs

end Cert.Kernel.Hand

end
-- ==== Proof.K.Reg5RunC.lean ====
/- Region 5: the whole-body run of the kernel in case C (first conditional not taken, second taken: the reduction's
   last step). The pieces the output's staging memref and the scratch accumulator end with are the witness the run
   finds. -/
import proofs.«181597_j77979426226450_2_alg».proof.Proof.K.Reg5RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in the output's staging memref and in the scratch accumulator, as pieces (last first), in
    case C, with the proof that on whole staging memrefs — the inputs' at their contents, the output's at anything, the
    accumulator at the contents `xs` the point before left — the body runs to the continuation holding the inputs' as
    they were and the output's and the accumulator's with their pieces written: the product of the two input blocks is
    added to the accumulator, and the output is the residual layer applied to the sum. -/
noncomputable def kernelRun5_C (c : Dev nD) (i : grid5.Coords) (arg2 : Memref sig .tc .vmem S1024x4096 .bf16) (harg2 : arg2.IsWhole) (arg3 : Memref sig .tc .vmem S4096x128 .f32) (harg3 : arg3.IsWhole) (arg4 : Memref sig .tc .vmem S1024x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1024x128 .f32) (harg7 : arg7.IsWhole) (arg8 : Memref sig .tc .vmem S1024x128 .f32) (harg8 : arg8.IsWhole) (hcz : ¬cond5_0 i) (hcl : cond5_1 i)
    (xa : Vec F S1024x4096 .bf16) (xb : Vec F S4096x128 .f32) (xc : Vec F S1024x128 .f32) (xd : Vec F S128x128 .f32) (xe : Vec F S1x128 .f32) (xs : Vec F S1024x128 .f32) :
    Σ' (LO : List (View.Piece (Elt F) S1024x128 .f32)), { LS : List (View.Piece (Elt F) S1024x128 .f32) //
      ∀ (E : Set ℕ) (K : PUnit → sProp 𝕄),
        iprop(owns (c : Thread nD τ) arg2 fullShare xa ∗ owns (c : Thread nD τ) arg3 fullShare xb ∗ owns (c : Thread nD τ) arg4 fullShare xc ∗ owns (c : Thread nD τ) arg5 fullShare xd ∗ owns (c : Thread nD τ) arg6 fullShare xe ∗ (∃ d, owns (c : Thread nD τ) arg7 fullShare d) ∗ owns (c : Thread nD τ) arg8 fullShare xs
            ∗ (iprop(owns (c : Thread nD τ) arg2 fullShare xa ∗ owns (c : Thread nD τ) arg3 fullShare xb ∗ owns (c : Thread nD τ) arg4 fullShare xc ∗ owns (c : Thread nD τ) arg5 fullShare xd ∗ owns (c : Thread nD τ) arg6 fullShare xe ∗ (∃ f, arg7.view.loc (c : Thread nD τ) ↦[arg7.view.set]{fullShare} arg7.view.writes (Elt F) f LO) ∗ (∃ f, arg8.view.loc (c : Thread nD τ) ↦[arg8.view.set]{fullShare} arg8.view.writes (Elt F) f LS)) -∗ K ⟨⟩))
          ⊢ wp frame (wpE (defs₀ (F := F)) Variants.none c none) E (cc5__agg_residual_mlp_kernel i arg2 harg2 arg3 harg3 arg4 harg4 arg5 harg5 arg6 harg6 arg7 harg7 arg8 harg8) K } := by
  refine ⟨?_, ?_, fun E K => ?run⟩
  case run =>
    simp only [cc5__agg_residual_mlp_kernel_eq_skeleton]; unfold cc5__agg_residual_mlp_kernel_skel
    unfold owns
    iintro ⟨⟨%fa, %hfa, Ha⟩, ⟨%fb, %hfb, Hb⟩, ⟨%fc, %hfc, Hc⟩, ⟨%fd, %hfd, Hd⟩, ⟨%fe, %hfe, He⟩, ⟨%dout, %fo, -, Ho⟩, ⟨%fs, %hfs, Hs⟩, Hk⟩
    obtain rfl := harg2.eq_unread hfa; obtain rfl := harg3.eq_unread hfb; obtain rfl := harg4.eq_unread hfc
    obtain rfl := harg5.eq_unread hfd; obtain rfl := harg6.eq_unread hfe; obtain rfl := harg8.eq_unread hfs
    sl_exec (disch := first | exact hcz | exact hcl)
    sl_step
    iapply Hk
    isplitl [Ha]
    · iexists _; isplitr; · ipureintro; exact harg2.read_unread _
      iexact Ha
    isplitl [Hb]
    · iexists _; isplitr; · ipureintro; exact harg3.read_unread _
      iexact Hb
    isplitl [Hc]
    · iexists _; isplitr; · ipureintro; exact harg4.read_unread _
      iexact Hc
    isplitl [Hd]
    · iexists _; isplitr; · ipureintro; exact harg5.read_unread _
      iexact Hd
    isplitl [He]
    · iexists _; isplitr; · ipureintro; exact harg6.read_unread _
      iexact He
    isplitl [Ho]; · iexists _; iexact Ho
    iexists _; iexact Hs

end Cert.Kernel.Hand

end
-- ==== Proof.K.Reg5.lean ====
/- Region 5 (the aggregate-residual-MLP kernel, pipeline 1), the rest of its frame half: what the output's staging
   buffer and the scratch accumulator hold per case and point by point, the region invariant carrying the accumulator,
   the pipeline's proof data at the region-entry contents `V`, the body obligation at every point, and the invariant's
   entry and exit. -/
import proofs.«181597_j77979426226450_2_alg».proof.Proof.K.Reg5RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Case A stores nothing into output 5 (the window is idle at its points and not written back there): no pieces — a
    placeholder that nothing consults, since at these points the window is neither written back nor read at the next. -/
def out5_A_5 (c : Dev nD) (i : grid5.Coords) (arg2 : Memref sig .tc .vmem S1024x4096 .bf16) (harg2 : arg2.IsWhole) (arg3 : Memref sig .tc .vmem S4096x128 .f32) (harg3 : arg3.IsWhole) (arg4 : Memref sig .tc .vmem S1024x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1024x128 .f32) (harg7 : arg7.IsWhole) (arg8 : Memref sig .tc .vmem S1024x128 .f32) (harg8 : arg8.IsWhole) (hcz : cond5_0 i) (hcl : ¬cond5_1 i)
    (xa : Vec F S1024x4096 .bf16) (xb : Vec F S4096x128 .f32) (xc : Vec F S1024x128 .f32) (xd : Vec F S128x128 .f32) (xe : Vec F S1x128 .f32) : Vec F S1024x128 .f32 :=
  VO5_5.read (Elt F) (VO5_5.writes (Elt F) VO5_5.junk (kernelRun5_A c i arg2 harg2 arg3 harg3 arg4 harg4 arg5 harg5 arg6 harg6 arg7 harg7 arg8 harg8 hcz hcl xa xb xc xd xe).1)

/-- Case A's pieces for the scratch accumulator cover it: the zeroing store and the accumulating store each tile it. -/
theorem scover5_A_0 (c : Dev nD) (i : grid5.Coords) (arg2 : Memref sig .tc .vmem S1024x4096 .bf16) (harg2 : arg2.IsWhole) (arg3 : Memref sig .tc .vmem S4096x128 .f32) (harg3 : arg3.IsWhole) (arg4 : Memref sig .tc .vmem S1024x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1024x128 .f32) (harg7 : arg7.IsWhole) (arg8 : Memref sig .tc .vmem S1024x128 .f32) (harg8 : arg8.IsWhole) (hcz : cond5_0 i) (hcl : ¬cond5_1 i)
    (xa : Vec F S1024x4096 .bf16) (xb : Vec F S4096x128 .f32) (xc : Vec F S1024x128 .f32) (xd : Vec F S128x128 .f32) (xe : Vec F S1x128 .f32) (y : S1024x128.Idx) :
    ∃ pc ∈ (kernelRun5_A c i arg2 harg2 arg3 harg3 arg4 harg4 arg5 harg5 arg6 harg6 arg7 harg7 arg8 harg8 hcz hcl xa xb xc xd xe).2.1, y ∈ pc.1.set :=
  View.cover_of_tiledL (kernelRun5_A c i arg2 harg2 arg3 harg3 arg4 harg4 arg5 harg5 arg6 harg6 arg7 harg7 arg8 harg8 hcz hcl xa xb xc xd xe).2.1 S1024x128.size (by sl_kernel_rfl) y

/-- What case A leaves in the scratch accumulator: its pieces read back over junk. -/
def sout5_A_0 (c : Dev nD) (i : grid5.Coords) (arg2 : Memref sig .tc .vmem S1024x4096 .bf16) (harg2 : arg2.IsWhole) (arg3 : Memref sig .tc .vmem S4096x128 .f32) (harg3 : arg3.IsWhole) (arg4 : Memref sig .tc .vmem S1024x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1024x128 .f32) (harg7 : arg7.IsWhole) (arg8 : Memref sig .tc .vmem S1024x128 .f32) (harg8 : arg8.IsWhole) (hcz : cond5_0 i) (hcl : ¬cond5_1 i)
    (xa : Vec F S1024x4096 .bf16) (xb : Vec F S4096x128 .f32) (xc : Vec F S1024x128 .f32) (xd : Vec F S128x128 .f32) (xe : Vec F S1x128 .f32) : Vec F S1024x128 .f32 :=
  VS5_0.read (Elt F) (VS5_0.writes (Elt F) VS5_0.junk (kernelRun5_A c i arg2 harg2 arg3 harg3 arg4 harg4 arg5 harg5 arg6 harg6 arg7 harg7 arg8 harg8 hcz hcl xa xb xc xd xe).2.1)

/-- Case C's pieces for output 5 tile its block (one store of the whole block), so they cover it. -/
theorem cover5_C_5 (c : Dev nD) (i : grid5.Coords) (arg2 : Memref sig .tc .vmem S1024x4096 .bf16) (harg2 : arg2.IsWhole) (arg3 : Memref sig .tc .vmem S4096x128 .f32) (harg3 : arg3.IsWhole) (arg4 : Memref sig .tc .vmem S1024x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1024x128 .f32) (harg7 : arg7.IsWhole) (arg8 : Memref sig .tc .vmem S1024x128 .f32) (harg8 : arg8.IsWhole) (hcz : ¬cond5_0 i) (hcl : cond5_1 i)
    (xa : Vec F S1024x4096 .bf16) (xb : Vec F S4096x128 .f32) (xc : Vec F S1024x128 .f32) (xd : Vec F S128x128 .f32) (xe : Vec F S1x128 .f32) (xs : Vec F S1024x128 .f32) (y : S1024x128.Idx) :
    ∃ pc ∈ (kernelRun5_C c i arg2 harg2 arg3 harg3 arg4 harg4 arg5 harg5 arg6 harg6 arg7 harg7 arg8 harg8 hcz hcl xa xb xc xd xe xs).1, y ∈ pc.1.set :=
  View.cover_of_tiledL (kernelRun5_C c i arg2 harg2 arg3 harg3 arg4 harg4 arg5 harg5 arg6 harg6 arg7 harg7 arg8 harg8 hcz hcl xa xb xc xd xe xs).1 S1024x128.size (by sl_kernel_rfl) y

/-- What case C leaves in output 5's staging buffer: its pieces read back over junk. -/
def out5_C_5 (c : Dev nD) (i : grid5.Coords) (arg2 : Memref sig .tc .vmem S1024x4096 .bf16) (harg2 : arg2.IsWhole) (arg3 : Memref sig .tc .vmem S4096x128 .f32) (harg3 : arg3.IsWhole) (arg4 : Memref sig .tc .vmem S1024x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1024x128 .f32) (harg7 : arg7.IsWhole) (arg8 : Memref sig .tc .vmem S1024x128 .f32) (harg8 : arg8.IsWhole) (hcz : ¬cond5_0 i) (hcl : cond5_1 i)
    (xa : Vec F S1024x4096 .bf16) (xb : Vec F S4096x128 .f32) (xc : Vec F S1024x128 .f32) (xd : Vec F S128x128 .f32) (xe : Vec F S1x128 .f32) (xs : Vec F S1024x128 .f32) : Vec F S1024x128 .f32 :=
  VO5_5.read (Elt F) (VO5_5.writes (Elt F) VO5_5.junk (kernelRun5_C c i arg2 harg2 arg3 harg3 arg4 harg4 arg5 harg5 arg6 harg6 arg7 harg7 arg8 harg8 hcz hcl xa xb xc xd xe xs).1)

/-- Case C's pieces for the scratch accumulator cover it: one store of the whole buffer. -/
theorem scover5_C_0 (c : Dev nD) (i : grid5.Coords) (arg2 : Memref sig .tc .vmem S1024x4096 .bf16) (harg2 : arg2.IsWhole) (arg3 : Memref sig .tc .vmem S4096x128 .f32) (harg3 : arg3.IsWhole) (arg4 : Memref sig .tc .vmem S1024x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1024x128 .f32) (harg7 : arg7.IsWhole) (arg8 : Memref sig .tc .vmem S1024x128 .f32) (harg8 : arg8.IsWhole) (hcz : ¬cond5_0 i) (hcl : cond5_1 i)
    (xa : Vec F S1024x4096 .bf16) (xb : Vec F S4096x128 .f32) (xc : Vec F S1024x128 .f32) (xd : Vec F S128x128 .f32) (xe : Vec F S1x128 .f32) (xs : Vec F S1024x128 .f32) (y : S1024x128.Idx) :
    ∃ pc ∈ (kernelRun5_C c i arg2 harg2 arg3 harg3 arg4 harg4 arg5 harg5 arg6 harg6 arg7 harg7 arg8 harg8 hcz hcl xa xb xc xd xe xs).2.1, y ∈ pc.1.set :=
  View.cover_of_tiledL (kernelRun5_C c i arg2 harg2 arg3 harg3 arg4 harg4 arg5 harg5 arg6 harg6 arg7 harg7 arg8 harg8 hcz hcl xa xb xc xd xe xs).2.1 S1024x128.size (by sl_kernel_rfl) y

/-- What case C leaves in the scratch accumulator: its pieces read back over junk. -/
def sout5_C_0 (c : Dev nD) (i : grid5.Coords) (arg2 : Memref sig .tc .vmem S1024x4096 .bf16) (harg2 : arg2.IsWhole) (arg3 : Memref sig .tc .vmem S4096x128 .f32) (harg3 : arg3.IsWhole) (arg4 : Memref sig .tc .vmem S1024x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1024x128 .f32) (harg7 : arg7.IsWhole) (arg8 : Memref sig .tc .vmem S1024x128 .f32) (harg8 : arg8.IsWhole) (hcz : ¬cond5_0 i) (hcl : cond5_1 i)
    (xa : Vec F S1024x4096 .bf16) (xb : Vec F S4096x128 .f32) (xc : Vec F S1024x128 .f32) (xd : Vec F S128x128 .f32) (xe : Vec F S1x128 .f32) (xs : Vec F S1024x128 .f32) : Vec F S1024x128 .f32 :=
  VS5_0.read (Elt F) (VS5_0.writes (Elt F) VS5_0.junk (kernelRun5_C c i arg2 harg2 arg3 harg3 arg4 harg4 arg5 harg5 arg6 harg6 arg7 harg7 arg8 harg8 hcz hcl xa xb xc xd xe xs).2.1)

section Region
-- the TensorCore's buffer contents when the region is entered
variable (V : (c : Dev nD) → (b : Ref sig .tc) → Buf (Elt F) ((c : Thread nD τ).loc b))

/-! ## What the output and the accumulator hold after each point -/

/-- The accumulation. What output 5's staging buffer and the scratch accumulator hold after the body at position `n` (a
    pair: the output, then the accumulator): the case the closed forms select at `n`, run at the point's memrefs and input
    blocks, the accumulator in case C at what this leaves at `n - 1`. The two conditions partition the points, so the
    other two assignments are no case. -/
def outsAt5 (c : Dev nD) : (n : ℕ) → n < cfg5.N → Vec F S1024x128 .f32 × Vec F S1024x128 .f32
  | 0, hn => (out5_A_5 c (grid5.coords ⟨0, hn⟩) (ms5_0 ⟨0, hn⟩) (hs5_0 ⟨0, hn⟩) (ms5_1 ⟨0, hn⟩) (hs5_1 ⟨0, hn⟩) (ms5_2 ⟨0, hn⟩) (hs5_2 ⟨0, hn⟩) (ms5_3 ⟨0, hn⟩) (hs5_3 ⟨0, hn⟩) (ms5_4 ⟨0, hn⟩) (hs5_4 ⟨0, hn⟩) (ms5_5 ⟨0, hn⟩) (hs5_5 ⟨0, hn⟩) scM5_0 (Memref.isWhole_whole _) ((hcond5_0 ⟨0, hn⟩).mpr (Nat.zero_mod _)) (fun h => (fun h => by (try dsimp only at h); omega) ((hcond5_1 ⟨0, hn⟩).mp h)) (iblk5 V c 0 ⟨0, hn⟩) (iblk5 V c 1 ⟨0, hn⟩) (iblk5 V c 2 ⟨0, hn⟩) (iblk5 V c 3 ⟨0, hn⟩) (iblk5 V c 4 ⟨0, hn⟩), sout5_A_0 c (grid5.coords ⟨0, hn⟩) (ms5_0 ⟨0, hn⟩) (hs5_0 ⟨0, hn⟩) (ms5_1 ⟨0, hn⟩) (hs5_1 ⟨0, hn⟩) (ms5_2 ⟨0, hn⟩) (hs5_2 ⟨0, hn⟩) (ms5_3 ⟨0, hn⟩) (hs5_3 ⟨0, hn⟩) (ms5_4 ⟨0, hn⟩) (hs5_4 ⟨0, hn⟩) (ms5_5 ⟨0, hn⟩) (hs5_5 ⟨0, hn⟩) scM5_0 (Memref.isWhole_whole _) ((hcond5_0 ⟨0, hn⟩).mpr (Nat.zero_mod _)) (fun h => (fun h => by (try dsimp only at h); omega) ((hcond5_1 ⟨0, hn⟩).mp h)) (iblk5 V c 0 ⟨0, hn⟩) (iblk5 V c 1 ⟨0, hn⟩) (iblk5 V c 2 ⟨0, hn⟩) (iblk5 V c 3 ⟨0, hn⟩) (iblk5 V c 4 ⟨0, hn⟩))
  | n + 1, hn =>
    if hz : (n + 1) % 2 = 0 then
      if hl : (n + 1) % 2 = 1 then
        False.elim (by omega)
      else
        (out5_A_5 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) scM5_0 (Memref.isWhole_whole _) ((hcond5_0 ⟨n + 1, hn⟩).mpr hz) (fun h => hl ((hcond5_1 ⟨n + 1, hn⟩).mp h)) (iblk5 V c 0 ⟨n + 1, hn⟩) (iblk5 V c 1 ⟨n + 1, hn⟩) (iblk5 V c 2 ⟨n + 1, hn⟩) (iblk5 V c 3 ⟨n + 1, hn⟩) (iblk5 V c 4 ⟨n + 1, hn⟩), sout5_A_0 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) scM5_0 (Memref.isWhole_whole _) ((hcond5_0 ⟨n + 1, hn⟩).mpr hz) (fun h => hl ((hcond5_1 ⟨n + 1, hn⟩).mp h)) (iblk5 V c 0 ⟨n + 1, hn⟩) (iblk5 V c 1 ⟨n + 1, hn⟩) (iblk5 V c 2 ⟨n + 1, hn⟩) (iblk5 V c 3 ⟨n + 1, hn⟩) (iblk5 V c 4 ⟨n + 1, hn⟩))
    else
      if hl : (n + 1) % 2 = 1 then
        (out5_C_5 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) scM5_0 (Memref.isWhole_whole _) (fun h => hz ((hcond5_0 ⟨n + 1, hn⟩).mp h)) ((hcond5_1 ⟨n + 1, hn⟩).mpr hl) (iblk5 V c 0 ⟨n + 1, hn⟩) (iblk5 V c 1 ⟨n + 1, hn⟩) (iblk5 V c 2 ⟨n + 1, hn⟩) (iblk5 V c 3 ⟨n + 1, hn⟩) (iblk5 V c 4 ⟨n + 1, hn⟩) (outsAt5 c n (Nat.lt_of_succ_lt hn)).2, sout5_C_0 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) scM5_0 (Memref.isWhole_whole _) (fun h => hz ((hcond5_0 ⟨n + 1, hn⟩).mp h)) ((hcond5_1 ⟨n + 1, hn⟩).mpr hl) (iblk5 V c 0 ⟨n + 1, hn⟩) (iblk5 V c 1 ⟨n + 1, hn⟩) (iblk5 V c 2 ⟨n + 1, hn⟩) (iblk5 V c 3 ⟨n + 1, hn⟩) (iblk5 V c 4 ⟨n + 1, hn⟩) (outsAt5 c n (Nat.lt_of_succ_lt hn)).2)
      else
        False.elim (by omega)

/-- `outsAt5` at a point of case A: that case's contents. -/
theorem outsAt5_A (c : Dev nD) (t : Fin cfg5.N) (hz : t.val % 2 = 0) (hl : ¬t.val % 2 = 1) :
    outsAt5 V c t.val t.isLt = (out5_A_5 c (grid5.coords t) (ms5_0 t) (hs5_0 t) (ms5_1 t) (hs5_1 t) (ms5_2 t) (hs5_2 t) (ms5_3 t) (hs5_3 t) (ms5_4 t) (hs5_4 t) (ms5_5 t) (hs5_5 t) scM5_0 (Memref.isWhole_whole _) ((hcond5_0 t).mpr hz) (fun h => hl ((hcond5_1 t).mp h)) (iblk5 V c 0 t) (iblk5 V c 1 t) (iblk5 V c 2 t) (iblk5 V c 3 t) (iblk5 V c 4 t), sout5_A_0 c (grid5.coords t) (ms5_0 t) (hs5_0 t) (ms5_1 t) (hs5_1 t) (ms5_2 t) (hs5_2 t) (ms5_3 t) (hs5_3 t) (ms5_4 t) (hs5_4 t) (ms5_5 t) (hs5_5 t) scM5_0 (Memref.isWhole_whole _) ((hcond5_0 t).mpr hz) (fun h => hl ((hcond5_1 t).mp h)) (iblk5 V c 0 t) (iblk5 V c 1 t) (iblk5 V c 2 t) (iblk5 V c 3 t) (iblk5 V c 4 t)) := by
  obtain ⟨n, hn⟩ := t
  cases n with
  | zero => exact rfl
  | succ n => exact (dif_pos hz).trans ((dif_neg hl).trans rfl)

/-- `outsAt5` at a point of case C: that case's contents, over what the point before left in the accumulator. -/
theorem outsAt5_C (c : Dev nD) (t : Fin cfg5.N) (hz : ¬t.val % 2 = 0) (hl : t.val % 2 = 1) :
    outsAt5 V c t.val t.isLt = (out5_C_5 c (grid5.coords t) (ms5_0 t) (hs5_0 t) (ms5_1 t) (hs5_1 t) (ms5_2 t) (hs5_2 t) (ms5_3 t) (hs5_3 t) (ms5_4 t) (hs5_4 t) (ms5_5 t) (hs5_5 t) scM5_0 (Memref.isWhole_whole _) (fun h => hz ((hcond5_0 t).mp h)) ((hcond5_1 t).mpr hl) (iblk5 V c 0 t) (iblk5 V c 1 t) (iblk5 V c 2 t) (iblk5 V c 3 t) (iblk5 V c 4 t) (outsAt5 V c (t.val - 1) (Nat.lt_of_le_of_lt (Nat.sub_le _ _) t.isLt)).2, sout5_C_0 c (grid5.coords t) (ms5_0 t) (hs5_0 t) (ms5_1 t) (hs5_1 t) (ms5_2 t) (hs5_2 t) (ms5_3 t) (hs5_3 t) (ms5_4 t) (hs5_4 t) (ms5_5 t) (hs5_5 t) scM5_0 (Memref.isWhole_whole _) (fun h => hz ((hcond5_0 t).mp h)) ((hcond5_1 t).mpr hl) (iblk5 V c 0 t) (iblk5 V c 1 t) (iblk5 V c 2 t) (iblk5 V c 3 t) (iblk5 V c 4 t) (outsAt5 V c (t.val - 1) (Nat.lt_of_le_of_lt (Nat.sub_le _ _) t.isLt)).2) := by
  obtain ⟨n, hn⟩ := t
  cases n with
  | zero => exact (by exfalso; (try dsimp only at hz); exact absurd (Nat.zero_mod _) hz)
  | succ n => exact (dif_neg hz).trans ((dif_pos hl).trans rfl)

/-- The region invariant before position `n`, the kernel carrying its accumulator between points: before the first point
    the scoped rest with every scratch at anything; afterwards the accumulator at what the point before left in it
    (`outsAt5`'s second component), the other scoped buffers unopened, and the generator register at some state. -/
def PhiS5 (c : Dev nD) : (n : ℕ) → n ≤ cfg5.N → sProp 𝕄
  | 0, _ => Pipeline.ΦA spec5 c
  | n + 1, hn => iprop(iprop(owns (c : Thread nD τ) scM5_0 fullShare ((outsAt5 V c n hn).2) ∗ Pipeline.scopedRestBut (Ix := Unit) (Name := ℕ) (U := UR sig nD τ) (Lvl := ℕ) (Val := Elt F) spec5 c [cc5_scratch0]) ∗ (∃ r, prngReg c r))

theorem PhiS5_zero (c : Dev nD) (n : ℕ) (h : n ≤ cfg5.N) (hzero : n = 0) : PhiS5 V c n h = Pipeline.ΦA spec5 c := by
  subst hzero; rfl

/-- After point `n` (before point `n + 1`): the accumulator at that point's contents. -/
theorem PhiS5_succ (c : Dev nD) (n : ℕ) (hn : n < cfg5.N) :
    PhiS5 V c (n + 1) hn = iprop(iprop(owns (c : Thread nD τ) scM5_0 fullShare ((outsAt5 V c n hn).2) ∗ Pipeline.scopedRestBut (Ix := Unit) (Name := ℕ) (U := UR sig nD τ) (Lvl := ℕ) (Val := Elt F) spec5 c [cc5_scratch0]) ∗ (∃ r, prngReg c r)) := rfl

/-- Before a point that is not the first: the accumulator at what the point before left. -/
theorem PhiS5_pos (c : Dev nD) (n : ℕ) (h : n ≤ cfg5.N) (hzero : n ≠ 0) :
    PhiS5 V c n h = iprop(iprop(owns (c : Thread nD τ) scM5_0 fullShare ((outsAt5 V c (n - 1) (by omega)).2) ∗ Pipeline.scopedRestBut (Ix := Unit) (Name := ℕ) (U := UR sig nD τ) (Lvl := ℕ) (Val := Elt F) spec5 c [cc5_scratch0]) ∗ (∃ r, prngReg c r)) := by
  cases n with
  | zero => exact absurd rfl hzero
  | succ n => rfl

/-! ## The pipeline's proof data -/

/-- The proof data of pipeline 1 on core `c`: the arrays as the region finds them (`V`); after the body at point `t` each
    input's buffer at its block and the output's at `outsAt5`'s first component; the invariant `PhiS5`; nothing owed; full
    shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => (outsAt5 V c t.val t.isLt).1
  Φ t := PhiS5 V c t.val (Nat.le_of_lt_succ t.isLt)
  q _ := fullShare
  owed _ := 0

/-- The proof data's arrays are the region-entry contents (the definition projected, `V` never unfolded). -/
theorem A_eq5 (c : Dev nD) (w : Fin cfg5.W) : (dat5 V c).A w = V c (Pipeline.arrRef spec5 w) := by
  dsimp only [dat5]

/-- The invariant at a point's start (the proof data at `t.castSucc`), restated at `t.val`. -/
theorem PhiS5_castSucc (c : Dev nD) (t : Fin cfg5.N) :
    (dat5 V c).Φ t.castSucc = PhiS5 V c t.val (Nat.le_of_lt t.isLt) := by
  dsimp only [dat5]; simp only [Fin.coe_castSucc]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = (outsAt5 V c t.val t.isLt).1 := by dsimp only [dat5]

/-- Each input's current staging buffer holds its block at every point, fetched there or not. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d

/-! ## The body obligation, at a generic point -/

/-- What the body is called with at point `t` (the windows one by one), -/
def bodyPre5 (c : Dev nD) (t : Fin cfg5.N) : sProp 𝕄 :=
  iprop((dat5 V c).Φ t.castSucc ∗ (dat5 V c).owesAt () t.castSucc
    ∗ (∃ d, owns (c : Thread nD τ) (ms5_0 t) fullShare ((dat5 V c).before 0 t d))
    ∗ (∃ d, owns (c : Thread nD τ) (ms5_1 t) fullShare ((dat5 V c).before 1 t d))
    ∗ (∃ d, owns (c : Thread nD τ) (ms5_2 t) fullShare ((dat5 V c).before 2 t d))
    ∗ (∃ d, owns (c : Thread nD τ) (ms5_3 t) fullShare ((dat5 V c).before 3 t d))
    ∗ (∃ d, owns (c : Thread nD τ) (ms5_4 t) fullShare ((dat5 V c).before 4 t d))
    ∗ (∃ d, owns (c : Thread nD τ) (ms5_5 t) fullShare ((dat5 V c).before 5 t d)))

/-- and what it returns. -/
def bodyPost5 (c : Dev nD) (t : Fin cfg5.N) : sProp 𝕄 :=
  iprop((dat5 V c).Φ t.succ ∗ (dat5 V c).owesAt () t.succ
    ∗ (dat5 V c).leavesExact 0 t
    ∗ (dat5 V c).leavesExact 1 t
    ∗ (dat5 V c).leavesExact 2 t
    ∗ (dat5 V c).leavesExact 3 t
    ∗ (dat5 V c).leavesExact 4 t
    ∗ (dat5 V c).leavesExact 5 t)

set_option maxHeartbeats 4800000 in
/-- The body at any point: the inputs' memrefs hold their blocks; the closed forms say which case the point is in; the
    invariant hands the body the accumulator at what the point before left (at anything at the first point), the other
    scoped buffers and the generator register pass through, and it takes the accumulator back at this point's contents;
    in case A the output's buffer is handed back as found, in case C at its covering store; the core owes nothing
    throughout. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4]
  rw [show (dat5 V c).owesAt () t.succ = (dat5 V c).owesAt () t.castSucc from rfl]
  rw [show (dat5 V c).Φ t.succ = PhiS5 V c (t.val + 1) t.isLt from rfl, PhiS5_succ]
  have hN : t.val < 8 := lt_of_lt_of_eq t.isLt (show cfg5.N = 8 from N_5)
  by_cases hz : t.val % 2 = 0
  · have hl : ¬t.val % 2 = 1 := by omega
    rw [show (dat5 V c).leavesExact 0 t = owns (c : Thread nD τ) (ms5_0 t) fullShare ((dat5 V c).after 0 t) from by
      unfold Dat.leavesExact; rw [liveAt5_0 t], after5_0]
    rw [show (dat5 V c).leavesExact 1 t = owns (c : Thread nD τ) (ms5_1 t) fullShare ((dat5 V c).after 1 t) from by
      unfold Dat.leavesExact; rw [liveAt5_1 t], after5_1]
    rw [show (dat5 V c).leavesExact 2 t = owns (c : Thread nD τ) (ms5_2 t) fullShare ((dat5 V c).after 2 t) from by
      unfold Dat.leavesExact; rw [liveAt5_2 t], after5_2]
    rw [show (dat5 V c).leavesExact 3 t = owns (c : Thread nD τ) (ms5_3 t) fullShare ((dat5 V c).after 3 t) from by
      unfold Dat.leavesExact; rw [liveAt5_3 t], after5_3]
    rw [show (dat5 V c).leavesExact 4 t = owns (c : Thread nD τ) (ms5_4 t) fullShare ((dat5 V c).after 4 t) from by
      unfold Dat.leavesExact; rw [liveAt5_4 t], after5_4]
    rw [Dat.leavesExact_idle (dat5 V c) 5 t (idleAt5_5_A t ((hcond5_0 t).mpr hz) (fun h => hl ((hcond5_1 t).mp h))) (noFlush5_5_A t ((hcond5_0 t).mpr hz) (fun h => hl ((hcond5_1 t).mp h)))]
    rw [outsAt5_A V c t hz hl]
    unfold sout5_A_0; (try dsimp only)
    by_cases hzero : t.val = 0
    ·
      rw [PhiS5_castSucc V c t, PhiS5_zero V c _ _ hzero, PhiA5_eq]
      iintro ⟨⟨⟨Hs, Hr⟩, Hg⟩, Hw, ⟨%da, Ha⟩, ⟨%db, Hb⟩, ⟨%dc, Hc⟩, ⟨%dd, Hd⟩, ⟨%de, He⟩, ⟨%dq, Ho⟩⟩
      iapply ((kernelRun5_A c (grid5.coords t) _ _ _ _ _ _ _ _ _ _ _ _ _ _ ((hcond5_0 t).mpr hz) (fun h => hl ((hcond5_1 t).mp h)) (iblk5 V c 0 t) (iblk5 V c 1 t) (iblk5 V c 2 t) (iblk5 V c 3 t) (iblk5 V c 4 t)).2.2 _ Set.univ _)
      isplitl [Ha]; · iexact Ha
      isplitl [Hb]; · iexact Hb
      isplitl [Hc]; · iexact Hc
      isplitl [Hd]; · iexact Hd
      isplitl [He]; · iexact He
      isplitl [Ho]; · iexact Ho
      isplitl [Hs]; · iexact Hs
      iintro ⟨Ha, Hb, Hc, Hd, He, Ho, ⟨%es, Hs⟩⟩
      isplitl [Hs Hr Hg]
      · isplitl [Hs Hr]
        · isplitl [Hs]
          · unfold owns; iexists _; isplitr
            swap; · iexact Hs
            ipureintro; exact View.read_writes_of_cover _ _ _ _ _ (scover5_A_0 c _ _ _ _ _ _ _ _ _ _ _ _ _ _ _ _ _ _ _ _ _ _)
          iexact Hr
        iexact Hg
      isplitl [Hw]; · iexact Hw
      isplitl [Ha]; · iexact Ha
      isplitl [Hb]; · iexact Hb
      isplitl [Hc]; · iexact Hc
      isplitl [Hd]; · iexact Hd
      isplitl [He]; · iexact He
      iexists _; iexact Ho
    ·
      rw [PhiS5_castSucc V c t, PhiS5_pos V c _ _ hzero]
      iintro ⟨⟨⟨Hs, Hr⟩, Hg⟩, Hw, ⟨%da, Ha⟩, ⟨%db, Hb⟩, ⟨%dc, Hc⟩, ⟨%dd, Hd⟩, ⟨%de, He⟩, ⟨%dq, Ho⟩⟩
      iapply ((kernelRun5_A c (grid5.coords t) _ _ _ _ _ _ _ _ _ _ _ _ _ _ ((hcond5_0 t).mpr hz) (fun h => hl ((hcond5_1 t).mp h)) (iblk5 V c 0 t) (iblk5 V c 1 t) (iblk5 V c 2 t) (iblk5 V c 3 t) (iblk5 V c 4 t)).2.2 _ Set.univ _)
      isplitl [Ha]; · iexact Ha
      isplitl [Hb]; · iexact Hb
      isplitl [Hc]; · iexact Hc
      isplitl [Hd]; · iexact Hd
      isplitl [He]; · iexact He
      isplitl [Ho]; · iexact Ho
      isplitl [Hs]; · iexists _; iexact Hs
      iintro ⟨Ha, Hb, Hc, Hd, He, Ho, ⟨%es, Hs⟩⟩
      isplitl [Hs Hr Hg]
      · isplitl [Hs Hr]
        · isplitl [Hs]
          · unfold owns; iexists _; isplitr
            swap; · iexact Hs
            ipureintro; exact View.read_writes_of_cover _ _ _ _ _ (scover5_A_0 c _ _ _ _ _ _ _ _ _ _ _ _ _ _ _ _ _ _ _ _ _ _)
          iexact Hr
        iexact Hg
      isplitl [Hw]; · iexact Hw
      isplitl [Ha]; · iexact Ha
      isplitl [Hb]; · iexact Hb
      isplitl [Hc]; · iexact Hc
      isplitl [Hd]; · iexact Hd
      isplitl [He]; · iexact He
      iexists _; iexact Ho
  · have hl : t.val % 2 = 1 := by omega
    rw [show (dat5 V c).leavesExact 0 t = owns (c : Thread nD τ) (ms5_0 t) fullShare ((dat5 V c).after 0 t) from by
      unfold Dat.leavesExact; rw [liveAt5_0 t], after5_0]
    rw [show (dat5 V c).leavesExact 1 t = owns (c : Thread nD τ) (ms5_1 t) fullShare ((dat5 V c).after 1 t) from by
      unfold Dat.leavesExact; rw [liveAt5_1 t], after5_1]
    rw [show (dat5 V c).leavesExact 2 t = owns (c : Thread nD τ) (ms5_2 t) fullShare ((dat5 V c).after 2 t) from by
      unfold Dat.leavesExact; rw [liveAt5_2 t], after5_2]
    rw [show (dat5 V c).leavesExact 3 t = owns (c : Thread nD τ) (ms5_3 t) fullShare ((dat5 V c).after 3 t) from by
      unfold Dat.leavesExact; rw [liveAt5_3 t], after5_3]
    rw [show (dat5 V c).leavesExact 4 t = owns (c : Thread nD τ) (ms5_4 t) fullShare ((dat5 V c).after 4 t) from by
      unfold Dat.leavesExact; rw [liveAt5_4 t], after5_4]
    rw [show (dat5 V c).leavesExact 5 t = owns (c : Thread nD τ) (ms5_5 t) fullShare ((dat5 V c).after 5 t) from by
      unfold Dat.leavesExact; rw [liveAt5_5_C t (fun h => hz ((hcond5_0 t).mp h)) ((hcond5_1 t).mpr hl)], after5_5]
    rw [outsAt5_C V c t hz hl]
    unfold out5_C_5 sout5_C_0; (try dsimp only)
    have hzero : t.val ≠ 0 := by omega
    · rw [PhiS5_castSucc V c t, PhiS5_pos V c _ _ hzero]
      iintro ⟨⟨⟨Hs, Hr⟩, Hg⟩, Hw, ⟨%da, Ha⟩, ⟨%db, Hb⟩, ⟨%dc, Hc⟩, ⟨%dd, Hd⟩, ⟨%de, He⟩, ⟨%dq, Ho⟩⟩
      iapply ((kernelRun5_C c (grid5.coords t) _ _ _ _ _ _ _ _ _ _ _ _ _ _ (fun h => hz ((hcond5_0 t).mp h)) ((hcond5_1 t).mpr hl) (iblk5 V c 0 t) (iblk5 V c 1 t) (iblk5 V c 2 t) (iblk5 V c 3 t) (iblk5 V c 4 t) _).2.2 Set.univ _)
      isplitl [Ha]; · iexact Ha
      isplitl [Hb]; · iexact Hb
      isplitl [Hc]; · iexact Hc
      isplitl [Hd]; · iexact Hd
      isplitl [He]; · iexact He
      isplitl [Ho]; · iexists _; iexact Ho
      isplitl [Hs]; · iexact Hs
      iintro ⟨Ha, Hb, Hc, Hd, He, ⟨%eo, Ho⟩, ⟨%es, Hs⟩⟩
      isplitl [Hs Hr Hg]
      · isplitl [Hs Hr]
        · isplitl [Hs]
          · unfold owns; iexists _; isplitr
            swap; · iexact Hs
            ipureintro; exact View.read_writes_of_cover _ _ _ _ _ (scover5_C_0 c _ _ _ _ _ _ _ _ _ _ _ _ _ _ _ _ _ _ _ _ _ _ _)
          iexact Hr
        iexact Hg
      isplitl [Hw]; · iexact Hw
      isplitl [Ha]; · iexact Ha
      isplitl [Hb]; · iexact Hb
      isplitl [Hc]; · iexact Hc
      isplitl [Hd]; · iexact Hd
      isplitl [He]; · iexact He
      unfold owns; iexists _; isplitr
      swap; · iexact Ho
      ipureintro; exact View.read_writes_of_cover _ _ _ _ _ (cover5_C_5 c _ _ _ _ _ _ _ _ _ _ _ _ _ _ _ _ _ _ _ _ _ _ _)

/-- The library's body obligation, at every point. -/
theorem body_obligation5 (c : Dev nD) : BodyObligation (dat5 (F := F) V c) (defs₀ (F := F)) Variants.none () Set.univ := fun t => by
  rw [bigSep_W5, bigSep_W5]
  exact sound_body5 V c t

/-- What the launch hands the region is the invariant before the first point. -/
theorem hin5 (c : Dev nD) : Pipeline.ΦA spec5 c ⊢ (dat5 V c).Φ 0 := by
  rw [show (dat5 V c).Φ 0 = PhiS5 V c 0 (Nat.zero_le _) from rfl, PhiS5_zero V c 0 _ rfl]
  try exact Idealize.SL.BI.Entails.refl _

/-- After any point but the first the invariant gives the launch's back: the accumulator's named contents are forgotten. -/
theorem Phi_out5 (c : Dev nD) (t : Fin (cfg5.N + 1)) (ht : t.val ≠ 0) : (dat5 V c).Φ t ⊢ Pipeline.ΦA spec5 c := by
  rw [show (dat5 V c).Φ t = PhiS5 V c t.val (Nat.le_of_lt_succ t.isLt) from rfl, PhiS5_pos V c _ _ ht, PhiA5_eq]
  iintro ⟨⟨Hs, Hr⟩, Hg⟩
  isplitl [Hs Hr]
  · isplitl [Hs]
    · iexists _; iexact Hs
    iexact Hr
  iexact Hg

/-- The same after the last point. -/
theorem hout5 (c : Dev nD) : (dat5 V c).Φ (Fin.last cfg5.N) ⊢ Pipeline.ΦA spec5 c :=
  Phi_out5 V c _ (by rw [Fin.val_last]; have : cfg5.N = 8 := N_5; omega)

end Region

end Cert.Kernel.Hand

end
-- ==== Proof.K.Reg6Runs.lean ====
/-
  Region 6 (an edge update relu(he + vew2ᵀ·hv)), the definitions its two runs share.
  The grid is (i, k) with k of extent 2: point t has k = t mod 2. At k = 0 the accumulator is zeroed and the first
  half of the contraction added; at k = 1 the second half is added and the output block stored. Everything is stated
  at a parameter V, the TensorCore's buffer contents when the region is entered.
-/
import proofs.«181597_j77979426226450_2_alg».proof.Proof.Gen.Kernel.Launch
import proofs.«181597_j77979426226450_2_alg».proof.Proof.Gen.Kernel.Skeleton
import proofs.«181597_j77979426226450_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- An input window's current staging buffer holds its block at every point, fetched there or not: when it is not
    fetched its block index has not moved, so the block of the point before is this point's. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-! ## The body's two branch conditions, decided over the grid -/

/-- "k = 0": the accumulator is zeroed. -/
abbrev cond6_0 (i : grid6.Coords) : Prop := (Scalar.cmpi .ne (Scalar.extui (Scalar.cmpi .eq (BitVec.ofNat 32 (i 1).val) 0#32)) 0#32) = 1#1
theorem hcond6_0 : ∀ t : Fin cfg6.N, cond6_0 (grid6.coords t) ↔ t.val % 2 = 0 :=
  (by decide +kernel : ∀ t : Fin grid6.N, cond6_0 (grid6.coords t) ↔ t.val % 2 = 0)
/-- "k = 1", the last step: the output block is stored. -/
abbrev cond6_1 (i : grid6.Coords) : Prop := k6_cond2 i = 1#1
theorem hcond6_1 : ∀ t : Fin cfg6.N, cond6_1 (grid6.coords t) ↔ t.val % 2 = 1 :=
  (by decide +kernel : ∀ t : Fin grid6.N, cond6_1 (grid6.coords t) ↔ t.val % 2 = 1)

/-! ## Where the output window is idle -/

theorem liveAt6_0 : ∀ t : Fin cfg6.N, cfg6.idle 0 (grid6.coords t) = false := by decide +kernel
theorem liveAt6_1 : ∀ t : Fin cfg6.N, cfg6.idle 1 (grid6.coords t) = false := by decide +kernel
theorem liveAt6_2 : ∀ t : Fin cfg6.N, cfg6.idle 2 (grid6.coords t) = false := by decide +kernel
/-- At k = 0 nothing is stored into the output's buffer, and its block is not written back. -/
theorem idleAt6_3_A : ∀ t : Fin cfg6.N, cond6_0 (grid6.coords t) → ¬cond6_1 (grid6.coords t) → cfg6.idle 3 (grid6.coords t) = true := by decide +kernel
theorem noFlush6_3_A : ∀ t : Fin cfg6.N, cond6_0 (grid6.coords t) → ¬cond6_1 (grid6.coords t) → (cfg6.win 3).flush t = false := by decide +kernel
/-- At k = 1 it is stored. -/
theorem liveAt6_3_C : ∀ t : Fin cfg6.N, ¬cond6_0 (grid6.coords t) → cond6_1 (grid6.coords t) → cfg6.idle 3 (grid6.coords t) = false := by decide +kernel

/-! ## The memrefs the body is called with -/

/-- One staging buffer of the output window, through which its contents are stated. -/
abbrev VO6_3 : View sig .tc .vmem S1024x128 .f32 := (Memref.whole cc6_stg3_0 : Memref sig .tc .vmem S1024x128 .f32).view
abbrev ms6_0 (t : Fin cfg6.N) : Memref sig .tc .vmem S2048x1024 .bf16 := win6_0.stage (cfg6.slots t 0)
abbrev hs6_0 (t : Fin cfg6.N) : (ms6_0 t).IsWhole := hstage6_0 ((cfg6.slots t 0).cast nbuf6_0)
abbrev ms6_1 (t : Fin cfg6.N) : Memref sig .tc .vmem S2048x128 .f32 := win6_1.stage (cfg6.slots t 1)
abbrev hs6_1 (t : Fin cfg6.N) : (ms6_1 t).IsWhole := hstage6_1 ((cfg6.slots t 1).cast nbuf6_1)
abbrev ms6_2 (t : Fin cfg6.N) : Memref sig .tc .vmem S1024x128 .f32 := win6_2.stage (cfg6.slots t 2)
abbrev hs6_2 (t : Fin cfg6.N) : (ms6_2 t).IsWhole := hstage6_2 ((cfg6.slots t 2).cast nbuf6_2)
abbrev ms6_3 (t : Fin cfg6.N) : Memref sig .tc .vmem S1024x128 .f32 := win6_3.stage (cfg6.slots t 3)
abbrev hs6_3 (t : Fin cfg6.N) : (ms6_3 t).IsWhole := hstage6_3 ((cfg6.slots t 3).cast nbuf6_3)
/-- The accumulator: a whole scoped buffer of the kernel's own. -/
abbrev scM6_0 : Memref sig .tc .vmem S1024x128 .f32 := Memref.whole cc6_scratch0
abbrev VS6_0 : View sig .tc .vmem S1024x128 .f32 := scM6_0.view

/-- What the region may use and need not describe, with the accumulator split out: the accumulator at some contents,
    every other scoped buffer unopened, the generator register at some state. -/
theorem PhiA6_eq (c : Dev nD) :
    (Pipeline.ΦA spec6 c : sProp 𝕄)
      = iprop(iprop((∃ d, owns (c : Thread nD τ) scM6_0 fullShare d)
          ∗ Pipeline.scopedRestBut (Ix := Unit) (Name := ℕ) (U := UR sig nD τ) (Lvl := ℕ) (Val := Elt F) spec6 c [cc6_scratch0]) ∗ (∃ r, prngReg c r)) := by
  unfold Pipeline.ΦA; rw [scopedRest6_split]; simp only [scM6_0, owns_whole]; try rfl

end Cert.Kernel.Hand

end
-- ==== Proof.K.Reg6RunA.lean ====
/-
  Region 6, the body at k = 0: the accumulator is zeroed, the first half of the contraction (the one-hot block against
  the feature block and against its rounding remainder) is added to it, and nothing is stored into the output's buffer.
-/
import proofs.«181597_j77979426226450_2_alg».proof.Proof.K.Reg6Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's stores leave in the accumulator at k = 0 (last first), with the proof that on whole staging
    memrefs — the three inputs at their contents, the output's buffer at contents handed back untouched, the
    accumulator at anything — the body runs to a continuation holding the inputs and the output's buffer as they were and
    the accumulator with those pieces written. -/
noncomputable def kernelRun6_A (c : Dev nD) (i : grid6.Coords) (arg2 : Memref sig .tc .vmem S2048x1024 .bf16) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : cond6_0 i) (hc1 : ¬cond6_1 i)
    (x0 : Vec F S2048x1024 .bf16) (x1 : Vec F S2048x128 .f32) (x2 : Vec F S1024x128 .f32) :
    Σ' (L3 : List (View.Piece (Elt F) S1024x128 .f32)), { LS0 : List (View.Piece (Elt F) S1024x128 .f32) //
      ∀ (xi3 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc6__agg_relu_kernel i arg2 harg2 arg3 harg3 arg4 harg4 arg5 harg5 arg6 harg6) K } := by
  refine ⟨[], ?_, fun xi3 E K => ?run⟩
  case run =>
    simp only [cc6__agg_relu_kernel_eq_skeleton]; unfold cc6__agg_relu_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Hand

end
-- ==== Proof.K.Reg6RunC.lean ====
/-
  Region 6, the body at k = 1: the second half of the contraction is added to the accumulator, and the output block is
  stored: the maximum of zero and the accumulator plus the edge features.
-/
import proofs.«181597_j77979426226450_2_alg».proof.Proof.K.Reg6RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's stores leave in the output's buffer and in the accumulator at k = 1 (last first), with the
    proof that on whole staging memrefs — the three inputs at their contents, the output's buffer at anything, the
    accumulator at what the point before left — the body runs to a continuation holding the inputs as they were and the
    output's buffer and the accumulator with those pieces written. -/
noncomputable def kernelRun6_C (c : Dev nD) (i : grid6.Coords) (arg2 : Memref sig .tc .vmem S2048x1024 .bf16) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : ¬cond6_0 i) (hc1 : cond6_1 i)
    (x0 : Vec F S2048x1024 .bf16) (x1 : Vec F S2048x128 .f32) (x2 : Vec F S1024x128 .f32) (xs0 : Vec F S1024x128 .f32) :
    Σ' (L3 : List (View.Piece (Elt F) S1024x128 .f32)), { LS0 : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc6__agg_relu_kernel i arg2 harg2 arg3 harg3 arg4 harg4 arg5 harg5 arg6 harg6) K } := by
  refine ⟨?_, ?_, fun E K => ?run⟩
  case run =>
    simp only [cc6__agg_relu_kernel_eq_skeleton]; unfold cc6__agg_relu_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.Kernel.Hand

end
-- ==== Proof.K.Reg6.lean ====
/-
  Region 6: what the body leaves at each point, the accumulation over the grid, the pipeline's proof data and the body
  obligation. The accumulator holds, after the point (i, 0), the first half of the contraction for row block i, and after
  (i, 1) the whole contraction; the output block of row block i is stored at (i, 1) from the accumulator.
-/
import proofs.«181597_j77979426226450_2_alg».proof.Proof.K.Reg6RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- At k = 0 nothing is stored into the output's buffer: a placeholder nothing consults (the window is neither written
    back there nor read at the next point before being covered). -/
def out6_A_3 (c : Dev nD) (i : grid6.Coords) (arg2 : Memref sig .tc .vmem S2048x1024 .bf16) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : cond6_0 i) (hc1 : ¬cond6_1 i)
    (x0 : Vec F S2048x1024 .bf16) (x1 : Vec F S2048x128 .f32) (x2 : Vec F S1024x128 .f32) : Vec F S1024x128 .f32 :=
  VO6_3.read (Elt F) (VO6_3.writes (Elt F) VO6_3.junk (kernelRun6_A c i arg2 harg2 arg3 harg3 arg4 harg4 arg5 harg5 arg6 harg6 hc0 hc1 x0 x1 x2).1)

/-- The stores of k = 0 into the accumulator cover it. -/
theorem scover6_A_0 (c : Dev nD) (i : grid6.Coords) (arg2 : Memref sig .tc .vmem S2048x1024 .bf16) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : cond6_0 i) (hc1 : ¬cond6_1 i)
    (x0 : Vec F S2048x1024 .bf16) (x1 : Vec F S2048x128 .f32) (x2 : Vec F S1024x128 .f32) (y : S1024x128.Idx) :
    ∃ pc ∈ (kernelRun6_A c i arg2 harg2 arg3 harg3 arg4 harg4 arg5 harg5 arg6 harg6 hc0 hc1 x0 x1 x2).2.1, y ∈ pc.1.set :=
  View.cover_of_tiledL (kernelRun6_A c i arg2 harg2 arg3 harg3 arg4 harg4 arg5 harg5 arg6 harg6 hc0 hc1 x0 x1 x2).2.1 S1024x128.size (by sl_kernel_rfl) y

/-- What k = 0 leaves in the accumulator. -/
def sout6_A_0 (c : Dev nD) (i : grid6.Coords) (arg2 : Memref sig .tc .vmem S2048x1024 .bf16) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : cond6_0 i) (hc1 : ¬cond6_1 i)
    (x0 : Vec F S2048x1024 .bf16) (x1 : Vec F S2048x128 .f32) (x2 : Vec F S1024x128 .f32) : Vec F S1024x128 .f32 :=
  VS6_0.read (Elt F) (VS6_0.writes (Elt F) VS6_0.junk (kernelRun6_A c i arg2 harg2 arg3 harg3 arg4 harg4 arg5 harg5 arg6 harg6 hc0 hc1 x0 x1 x2).2.1)

/-- The store of k = 1 into the output's buffer covers it. -/
theorem cover6_C_3 (c : Dev nD) (i : grid6.Coords) (arg2 : Memref sig .tc .vmem S2048x1024 .bf16) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : ¬cond6_0 i) (hc1 : cond6_1 i)
    (x0 : Vec F S2048x1024 .bf16) (x1 : Vec F S2048x128 .f32) (x2 : Vec F S1024x128 .f32) (xs0 : Vec F S1024x128 .f32) (y : S1024x128.Idx) :
    ∃ pc ∈ (kernelRun6_C c i arg2 harg2 arg3 harg3 arg4 harg4 arg5 harg5 arg6 harg6 hc0 hc1 x0 x1 x2 xs0).1, y ∈ pc.1.set :=
  View.cover_of_tiledL (kernelRun6_C c i arg2 harg2 arg3 harg3 arg4 harg4 arg5 harg5 arg6 harg6 hc0 hc1 x0 x1 x2 xs0).1 S1024x128.size (by sl_kernel_rfl) y

/-- What k = 1 leaves in the output's buffer. -/
def out6_C_3 (c : Dev nD) (i : grid6.Coords) (arg2 : Memref sig .tc .vmem S2048x1024 .bf16) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : ¬cond6_0 i) (hc1 : cond6_1 i)
    (x0 : Vec F S2048x1024 .bf16) (x1 : Vec F S2048x128 .f32) (x2 : Vec F S1024x128 .f32) (xs0 : Vec F S1024x128 .f32) : Vec F S1024x128 .f32 :=
  VO6_3.read (Elt F) (VO6_3.writes (Elt F) VO6_3.junk (kernelRun6_C c i arg2 harg2 arg3 harg3 arg4 harg4 arg5 harg5 arg6 harg6 hc0 hc1 x0 x1 x2 xs0).1)

/-- The store of k = 1 into the accumulator covers it. -/
theorem scover6_C_0 (c : Dev nD) (i : grid6.Coords) (arg2 : Memref sig .tc .vmem S2048x1024 .bf16) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : ¬cond6_0 i) (hc1 : cond6_1 i)
    (x0 : Vec F S2048x1024 .bf16) (x1 : Vec F S2048x128 .f32) (x2 : Vec F S1024x128 .f32) (xs0 : Vec F S1024x128 .f32) (y : S1024x128.Idx) :
    ∃ pc ∈ (kernelRun6_C c i arg2 harg2 arg3 harg3 arg4 harg4 arg5 harg5 arg6 harg6 hc0 hc1 x0 x1 x2 xs0).2.1, y ∈ pc.1.set :=
  View.cover_of_tiledL (kernelRun6_C c i arg2 harg2 arg3 harg3 arg4 harg4 arg5 harg5 arg6 harg6 hc0 hc1 x0 x1 x2 xs0).2.1 S1024x128.size (by sl_kernel_rfl) y

/-- What k = 1 leaves in the accumulator. -/
def sout6_C_0 (c : Dev nD) (i : grid6.Coords) (arg2 : Memref sig .tc .vmem S2048x1024 .bf16) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : ¬cond6_0 i) (hc1 : cond6_1 i)
    (x0 : Vec F S2048x1024 .bf16) (x1 : Vec F S2048x128 .f32) (x2 : Vec F S1024x128 .f32) (xs0 : Vec F S1024x128 .f32) : Vec F S1024x128 .f32 :=
  VS6_0.read (Elt F) (VS6_0.writes (Elt F) VS6_0.junk (kernelRun6_C c i arg2 harg2 arg3 harg3 arg4 harg4 arg5 harg5 arg6 harg6 hc0 hc1 x0 x1 x2 xs0).2.1)

/-! ## What the output's buffer and the accumulator hold after each point -/

/-- The accumulation: after position n, the pair (output's buffer, accumulator) — at an even position the case k = 0 run
    at the point's blocks, at an odd one the case k = 1 run at the point's blocks over the accumulator the point before
    left. -/
def outsAt6 (c : Dev nD) : (n : ℕ) → n < cfg6.N → Vec F S1024x128 .f32 × Vec F S1024x128 .f32
  | 0, hn => (out6_A_3 c (grid6.coords ⟨0, hn⟩) (ms6_0 ⟨0, hn⟩) (hs6_0 ⟨0, hn⟩) (ms6_1 ⟨0, hn⟩) (hs6_1 ⟨0, hn⟩) (ms6_2 ⟨0, hn⟩) (hs6_2 ⟨0, hn⟩) (ms6_3 ⟨0, hn⟩) (hs6_3 ⟨0, hn⟩) scM6_0 (Memref.isWhole_whole _) ((hcond6_0 ⟨0, hn⟩).mpr (Nat.zero_mod _)) (fun h => (fun h => by (try dsimp only at h); omega) ((hcond6_1 ⟨0, hn⟩).mp h)) (iblk6 V c 0 ⟨0, hn⟩) (iblk6 V c 1 ⟨0, hn⟩) (iblk6 V c 2 ⟨0, hn⟩),
      sout6_A_0 c (grid6.coords ⟨0, hn⟩) (ms6_0 ⟨0, hn⟩) (hs6_0 ⟨0, hn⟩) (ms6_1 ⟨0, hn⟩) (hs6_1 ⟨0, hn⟩) (ms6_2 ⟨0, hn⟩) (hs6_2 ⟨0, hn⟩) (ms6_3 ⟨0, hn⟩) (hs6_3 ⟨0, hn⟩) scM6_0 (Memref.isWhole_whole _) ((hcond6_0 ⟨0, hn⟩).mpr (Nat.zero_mod _)) (fun h => (fun h => by (try dsimp only at h); omega) ((hcond6_1 ⟨0, hn⟩).mp h)) (iblk6 V c 0 ⟨0, hn⟩) (iblk6 V c 1 ⟨0, hn⟩) (iblk6 V c 2 ⟨0, hn⟩))
  | n + 1, hn =>
    if h0 : (n + 1) % 2 = 0 then
      if h1 : (n + 1) % 2 = 1 then
        False.elim (by omega)
      else
        (out6_A_3 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) scM6_0 (Memref.isWhole_whole _) ((hcond6_0 ⟨n + 1, hn⟩).mpr h0) (fun h => h1 ((hcond6_1 ⟨n + 1, hn⟩).mp h)) (iblk6 V c 0 ⟨n + 1, hn⟩) (iblk6 V c 1 ⟨n + 1, hn⟩) (iblk6 V c 2 ⟨n + 1, hn⟩),
          sout6_A_0 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) scM6_0 (Memref.isWhole_whole _) ((hcond6_0 ⟨n + 1, hn⟩).mpr h0) (fun h => h1 ((hcond6_1 ⟨n + 1, hn⟩).mp h)) (iblk6 V c 0 ⟨n + 1, hn⟩) (iblk6 V c 1 ⟨n + 1, hn⟩) (iblk6 V c 2 ⟨n + 1, hn⟩))
    else
      if h1 : (n + 1) % 2 = 1 then
        (out6_C_3 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) scM6_0 (Memref.isWhole_whole _) (fun h => h0 ((hcond6_0 ⟨n + 1, hn⟩).mp h)) ((hcond6_1 ⟨n + 1, hn⟩).mpr h1) (iblk6 V c 0 ⟨n + 1, hn⟩) (iblk6 V c 1 ⟨n + 1, hn⟩) (iblk6 V c 2 ⟨n + 1, hn⟩) (outsAt6 c n (Nat.lt_of_succ_lt hn)).2,
          sout6_C_0 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) scM6_0 (Memref.isWhole_whole _) (fun h => h0 ((hcond6_0 ⟨n + 1, hn⟩).mp h)) ((hcond6_1 ⟨n + 1, hn⟩).mpr h1) (iblk6 V c 0 ⟨n + 1, hn⟩) (iblk6 V c 1 ⟨n + 1, hn⟩) (iblk6 V c 2 ⟨n + 1, hn⟩) (outsAt6 c n (Nat.lt_of_succ_lt hn)).2)
      else
        False.elim (by omega)

/-- At a point with k = 0: that case's contents. -/
theorem outsAt6_A (c : Dev nD) (t : Fin cfg6.N) (h0 : t.val % 2 = 0) (h1 : ¬t.val % 2 = 1) :
    outsAt6 V c t.val t.isLt = (out6_A_3 c (grid6.coords t) (ms6_0 t) (hs6_0 t) (ms6_1 t) (hs6_1 t) (ms6_2 t) (hs6_2 t) (ms6_3 t) (hs6_3 t) scM6_0 (Memref.isWhole_whole _) ((hcond6_0 t).mpr h0) (fun h => h1 ((hcond6_1 t).mp h)) (iblk6 V c 0 t) (iblk6 V c 1 t) (iblk6 V c 2 t),
      sout6_A_0 c (grid6.coords t) (ms6_0 t) (hs6_0 t) (ms6_1 t) (hs6_1 t) (ms6_2 t) (hs6_2 t) (ms6_3 t) (hs6_3 t) scM6_0 (Memref.isWhole_whole _) ((hcond6_0 t).mpr h0) (fun h => h1 ((hcond6_1 t).mp h)) (iblk6 V c 0 t) (iblk6 V c 1 t) (iblk6 V c 2 t)) := by
  obtain ⟨n, hn⟩ := t
  cases n with
  | zero => exact rfl
  | succ n => exact (dif_pos h0).trans ((dif_neg h1).trans rfl)

/-- At a point with k = 1: that case's contents, over the accumulator the point before left. -/
theorem outsAt6_C (c : Dev nD) (t : Fin cfg6.N) (h0 : ¬t.val % 2 = 0) (h1 : t.val % 2 = 1) :
    outsAt6 V c t.val t.isLt = (out6_C_3 c (grid6.coords t) (ms6_0 t) (hs6_0 t) (ms6_1 t) (hs6_1 t) (ms6_2 t) (hs6_2 t) (ms6_3 t) (hs6_3 t) scM6_0 (Memref.isWhole_whole _) (fun h => h0 ((hcond6_0 t).mp h)) ((hcond6_1 t).mpr h1) (iblk6 V c 0 t) (iblk6 V c 1 t) (iblk6 V c 2 t) (outsAt6 V c (t.val - 1) (Nat.lt_of_le_of_lt (Nat.sub_le _ _) t.isLt)).2,
      sout6_C_0 c (grid6.coords t) (ms6_0 t) (hs6_0 t) (ms6_1 t) (hs6_1 t) (ms6_2 t) (hs6_2 t) (ms6_3 t) (hs6_3 t) scM6_0 (Memref.isWhole_whole _) (fun h => h0 ((hcond6_0 t).mp h)) ((hcond6_1 t).mpr h1) (iblk6 V c 0 t) (iblk6 V c 1 t) (iblk6 V c 2 t) (outsAt6 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position n: before the first point what the region may use, undescribed; afterwards
    the accumulator at what the point before left in it, the other scoped buffers unopened, the generator register at
    some state. -/
def PhiS6 (c : Dev nD) : (n : ℕ) → n ≤ cfg6.N → sProp 𝕄
  | 0, _ => Pipeline.ΦA spec6 c
  | n + 1, hn => iprop(iprop(owns (c : Thread nD τ) scM6_0 fullShare ((outsAt6 V c n hn).2)
      ∗ Pipeline.scopedRestBut (Ix := Unit) (Name := ℕ) (U := UR sig nD τ) (Lvl := ℕ) (Val := Elt F) spec6 c [cc6_scratch0]) ∗ (∃ r, prngReg c r))

theorem PhiS6_zero (c : Dev nD) (n : ℕ) (h : n ≤ cfg6.N) (hz : n = 0) : PhiS6 V c n h = Pipeline.ΦA spec6 c := by
  subst hz; rfl

theorem PhiS6_succ (c : Dev nD) (n : ℕ) (hn : n < cfg6.N) :
    PhiS6 V c (n + 1) hn = iprop(iprop(owns (c : Thread nD τ) scM6_0 fullShare ((outsAt6 V c n hn).2)
      ∗ Pipeline.scopedRestBut (Ix := Unit) (Name := ℕ) (U := UR sig nD τ) (Lvl := ℕ) (Val := Elt F) spec6 c [cc6_scratch0]) ∗ (∃ r, prngReg c r)) := rfl

theorem PhiS6_pos (c : Dev nD) (n : ℕ) (h : n ≤ cfg6.N) (hz : n ≠ 0) :
    PhiS6 V c n h = iprop(iprop(owns (c : Thread nD τ) scM6_0 fullShare ((outsAt6 V c (n - 1) (by omega)).2)
      ∗ Pipeline.scopedRestBut (Ix := Unit) (Name := ℕ) (U := UR sig nD τ) (Lvl := ℕ) (Val := Elt F) spec6 c [cc6_scratch0]) ∗ (∃ r, prngReg c r)) := by
  cases n with
  | zero => exact absurd rfl hz
  | succ n => rfl

/-! ## The pipeline's proof data -/

/-- The arrays as the region finds them; after the body each input's buffer at its block and the output's at the
    accumulation's first component; the invariant above; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => (outsAt6 V c t.val t.isLt).1
  Φ t := PhiS6 V c t.val (Nat.le_of_lt_succ t.isLt)
  q _ := fullShare
  owed _ := 0

theorem A_eq6 (c : Dev nD) (w : Fin cfg6.W) : (dat6 V c).A w = V c (Pipeline.arrRef spec6 w) := by
  dsimp only [dat6]

theorem PhiS6_castSucc (c : Dev nD) (t : Fin cfg6.N) :
    (dat6 V c).Φ t.castSucc = PhiS6 V c t.val (Nat.le_of_lt t.isLt) := by
  dsimp only [dat6]; simp only [Fin.coe_castSucc]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = (outsAt6 V c t.val t.isLt).1 := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d

/-! ## The body obligation, at a generic point -/

/-- What the body is called with at point t, the windows one by one, -/
def bodyPre6 (c : Dev nD) (t : Fin cfg6.N) : sProp 𝕄 :=
  iprop((dat6 V c).Φ t.castSucc ∗ (dat6 V c).owesAt () t.castSucc
    ∗ (∃ d, owns (c : Thread nD τ) (ms6_0 t) fullShare ((dat6 V c).before 0 t d))
    ∗ (∃ d, owns (c : Thread nD τ) (ms6_1 t) fullShare ((dat6 V c).before 1 t d))
    ∗ (∃ d, owns (c : Thread nD τ) (ms6_2 t) fullShare ((dat6 V c).before 2 t d))
    ∗ (∃ d, owns (c : Thread nD τ) (ms6_3 t) fullShare ((dat6 V c).before 3 t d)))

/-- and what it returns. -/
def bodyPost6 (c : Dev nD) (t : Fin cfg6.N) : sProp 𝕄 :=
  iprop((dat6 V c).Φ t.succ ∗ (dat6 V c).owesAt () t.succ
    ∗ (dat6 V c).leavesExact 0 t
    ∗ (dat6 V c).leavesExact 1 t
    ∗ (dat6 V c).leavesExact 2 t
    ∗ (dat6 V c).leavesExact 3 t)

set_option maxHeartbeats 4800000 in
/-- The body at any point: the inputs' memrefs hold their blocks; k decides the case; the invariant hands the body the
    accumulator (at anything at the first point, else at what the point before left) and takes it back at this point's
    contents; the core owes nothing throughout. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2]
  rw [show (dat6 V c).owesAt () t.succ = (dat6 V c).owesAt () t.castSucc from rfl]
  rw [show (dat6 V c).Φ t.succ = PhiS6 V c (t.val + 1) t.isLt from rfl, PhiS6_succ]
  have hN : t.val < 16 := lt_of_lt_of_eq t.isLt (show cfg6.N = 16 from N_6)
  rw [show (dat6 V c).leavesExact 0 t = owns (c : Thread nD τ) (ms6_0 t) fullShare ((dat6 V c).after 0 t) from by
    unfold Dat.leavesExact; rw [liveAt6_0 t], after6_0]
  rw [show (dat6 V c).leavesExact 1 t = owns (c : Thread nD τ) (ms6_1 t) fullShare ((dat6 V c).after 1 t) from by
    unfold Dat.leavesExact; rw [liveAt6_1 t], after6_1]
  rw [show (dat6 V c).leavesExact 2 t = owns (c : Thread nD τ) (ms6_2 t) fullShare ((dat6 V c).after 2 t) from by
    unfold Dat.leavesExact; rw [liveAt6_2 t], after6_2]
  by_cases h0 : t.val % 2 = 0
  · have h1 : ¬t.val % 2 = 1 := by omega
    rw [Dat.leavesExact_idle (dat6 V c) 3 t (idleAt6_3_A t ((hcond6_0 t).mpr h0) (fun h => h1 ((hcond6_1 t).mp h))) (noFlush6_3_A t ((hcond6_0 t).mpr h0) (fun h => h1 ((hcond6_1 t).mp h)))]
    rw [outsAt6_A V c t h0 h1]
    unfold sout6_A_0; (try dsimp only)
    by_cases hz : t.val = 0
    · rw [PhiS6_castSucc V c t, PhiS6_zero V c _ _ hz, PhiA6_eq]
      iintro ⟨⟨⟨HS0, Hrest⟩, Hg⟩, Ho, ⟨%d0, H0⟩, ⟨%d1, H1⟩, ⟨%d2, H2⟩, ⟨%d3, H3⟩⟩
      iapply ((kernelRun6_A c (grid6.coords t) _ _ _ _ _ _ _ _ _ _ ((hcond6_0 t).mpr h0) (fun h => h1 ((hcond6_1 t).mp h)) (iblk6 V c 0 t) (iblk6 V c 1 t) (iblk6 V c 2 t)).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover6_A_0 c _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3
    · rw [PhiS6_castSucc V c t, PhiS6_pos V c _ _ hz]
      iintro ⟨⟨⟨HS0, Hrest⟩, Hg⟩, Ho, ⟨%d0, H0⟩, ⟨%d1, H1⟩, ⟨%d2, H2⟩, ⟨%d3, H3⟩⟩
      iapply ((kernelRun6_A c (grid6.coords t) _ _ _ _ _ _ _ _ _ _ ((hcond6_0 t).mpr h0) (fun h => h1 ((hcond6_1 t).mp h)) (iblk6 V c 0 t) (iblk6 V c 1 t) (iblk6 V c 2 t)).2.2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover6_A_0 c _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3
  · have h1 : t.val % 2 = 1 := by omega
    rw [show (dat6 V c).leavesExact 3 t = owns (c : Thread nD τ) (ms6_3 t) fullShare ((dat6 V c).after 3 t) from by
      unfold Dat.leavesExact; rw [liveAt6_3_C t (fun h => h0 ((hcond6_0 t).mp h)) ((hcond6_1 t).mpr h1)], after6_3]
    rw [outsAt6_C V c t h0 h1]
    unfold out6_C_3 sout6_C_0; (try dsimp only)
    have hz : t.val ≠ 0 := by omega
    rw [PhiS6_castSucc V c t, PhiS6_pos V c _ _ hz]
    iintro ⟨⟨⟨HS0, Hrest⟩, Hg⟩, Ho, ⟨%d0, H0⟩, ⟨%d1, H1⟩, ⟨%d2, H2⟩, ⟨%d3, H3⟩⟩
    iapply ((kernelRun6_C c (grid6.coords t) _ _ _ _ _ _ _ _ _ _ (fun h => h0 ((hcond6_0 t).mp h)) ((hcond6_1 t).mpr h1) (iblk6 V c 0 t) (iblk6 V c 1 t) (iblk6 V c 2 t) _).2.2 Set.univ _)
    isplitl [H0]; · iexact H0
    isplitl [H1]; · iexact H1
    isplitl [H2]; · iexact H2
    isplitl [H3]; · iexists _; iexact H3
    isplitl [HS0]; · iexact HS0
    iintro ⟨H0, H1, H2, ⟨%e3, H3⟩, ⟨%es0, HS0⟩⟩
    isplitl [HS0 Hrest Hg]
    · isplitl [HS0 Hrest]
      · isplitl [HS0]
        · unfold owns; iexists _; isplitr
          swap; · iexact HS0
          ipureintro; exact View.read_writes_of_cover _ _ _ _ _ (scover6_C_0 c _ _ _ _ _ _ _ _ _ _ _ _ _ _ _ _ _)
        iexact Hrest
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover6_C_3 c _ _ _ _ _ _ _ _ _ _ _ _ _ _ _ _ _)

/-- The pipeline library's body obligation, at every point. -/
theorem body_obligation6 (c : Dev nD) : BodyObligation (dat6 (F := F) V c) (defs₀ (F := F)) Variants.none () Set.univ := fun t => by
  rw [bigSep_W6, bigSep_W6]
  exact sound_body6 V c t

/-- What the launch hands the region is the invariant before the first point. -/
theorem hin6 (c : Dev nD) : Pipeline.ΦA spec6 c ⊢ (dat6 V c).Φ 0 := by
  rw [show (dat6 V c).Φ 0 = PhiS6 V c 0 (Nat.zero_le _) from rfl, PhiS6_zero V c 0 _ rfl]
  try exact Idealize.SL.BI.Entails.refl _

/-- After any point but the first the invariant gives it back: the accumulator's named contents are forgotten. -/
theorem Phi_out6 (c : Dev nD) (t : Fin (cfg6.N + 1)) (ht : t.val ≠ 0) : (dat6 V c).Φ t ⊢ Pipeline.ΦA spec6 c := by
  rw [show (dat6 V c).Φ t = PhiS6 V c t.val (Nat.le_of_lt_succ t.isLt) from rfl, PhiS6_pos V c _ _ ht, PhiA6_eq]
  iintro ⟨⟨HS0, Hrest⟩, Hg⟩
  isplitl [HS0 Hrest]
  · isplitl [HS0]
    · iexists _; iexact HS0
    iexact Hrest
  iexact Hg

theorem hout6 (c : Dev nD) : (dat6 V c).Φ (Fin.last cfg6.N) ⊢ Pipeline.ΦA spec6 c :=
  Phi_out6 V c _ (by rw [Fin.val_last]; have : cfg6.N = 16 := N_6; omega)

end Cert.Kernel.Hand

end
-- ==== Proof.K.Reg7Runs.lean ====
/- Region 7 (the aggregate-residual-MLP kernel, pipeline 1): what its two runs share — the windows' blocks at the
   region-entry contents, the input windows' staging contents, the body's two branch conditions decided over the
   grid, where the output window is idle, the staging and scratch memrefs, and the region invariant with the
   scratch accumulator owned as a memref. -/
import proofs.«181597_j77979426226450_2_alg».proof.Proof.Gen.Kernel.Launch
import proofs.«181597_j77979426226450_2_alg».proof.Proof.Gen.Kernel.Skeleton
import proofs.«181597_j77979426226450_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
-- the TensorCore's buffer contents when the region is entered: the parameter the region's half is stated at
variable (V : (c : Dev nD) → (b : Ref sig .tc) → Buf (Elt F) ((c : Thread nD τ).loc b))

/-! ## The windows' blocks -/

/-- Window `w`'s block at point `t`, read off its array as the region finds it (`V`). -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- Input window 0's current staging buffer holds its block at every point, fetched there or not, for any proof
    data whose array is `V`'s (`hA`) and whose body leaves the block in place (`hafter`): unfetched, the block
    index has not moved; the window is uncut and never idle. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-- Input window 1's current staging buffer holds its block at every point, fetched there or not, for any proof
    data whose array is `V`'s (`hA`) and whose body leaves the block in place (`hafter`): unfetched, the block
    index has not moved; the window is uncut and never idle. -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-- Input window 2's current staging buffer holds its block at every point, fetched there or not, for any proof
    data whose array is `V`'s (`hA`) and whose body leaves the block in place (`hafter`): unfetched, the block
    index has not moved; the window is uncut and never idle. -/
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

/-- Input window 3's current staging buffer holds its block at every point, fetched there or not, for any proof
    data whose array is `V`'s (`hA`) and whose body leaves the block in place (`hafter`): unfetched, the block
    index has not moved; the window is uncut and never idle. -/
theorem before7_3_of {c : Dev nD} (dat : Dat τ (Elt F) Unit ℕ (UR sig nD τ) ℕ cfg7 c) (hA : dat.A 3 = V c (Pipeline.arrRef spec7 3))
    (hafter : ∀ t, dat.after 3 t = iblk7 V c 3 t) (t : Fin cfg7.N) (d) : dat.before 3 t d = iblk7 V c 3 t :=
  (dat.before_in_eq_fetched 3 rfl (fun _ => rfl) (fun _ _ _ => rfl) (fun t => by rw [hafter]; unfold Dat.blockOf iblk7; rw [hA]; try rfl) t d).trans
    (by unfold Dat.fetched Dat.blockOf iblk7; rw [hA]; try rfl)

/-- Input window 4's current staging buffer holds its block at every point, fetched there or not, for any proof
    data whose array is `V`'s (`hA`) and whose body leaves the block in place (`hafter`): unfetched, the block
    index has not moved; the window is uncut and never idle. -/
theorem before7_4_of {c : Dev nD} (dat : Dat τ (Elt F) Unit ℕ (UR sig nD τ) ℕ cfg7 c) (hA : dat.A 4 = V c (Pipeline.arrRef spec7 4))
    (hafter : ∀ t, dat.after 4 t = iblk7 V c 4 t) (t : Fin cfg7.N) (d) : dat.before 4 t d = iblk7 V c 4 t :=
  (dat.before_in_eq_fetched 4 rfl (fun _ => rfl) (fun _ _ _ => rfl) (fun t => by rw [hafter]; unfold Dat.blockOf iblk7; rw [hA]; try rfl) t d).trans
    (by unfold Dat.fetched Dat.blockOf iblk7; rw [hA]; try rfl)

end Region

/-! ## The body's branch conditions -/

/-- The condition of the body's first conditional (the reduction index is 0), from the grid coordinates. -/
abbrev cond7_0 (i : grid7.Coords) : Prop := (Scalar.cmpi .ne (Scalar.extui (Scalar.cmpi .eq (BitVec.ofNat 32 (i 1).val) 0#32)) 0#32) = 1#1
/-- It holds at the points ≡ 0 (mod 2) — decided over the grid. -/
theorem hcond7_0 : ∀ t : Fin cfg7.N, cond7_0 (grid7.coords t) ↔ t.val % 2 = 0 :=
  (by decide +kernel : ∀ t : Fin grid7.N, cond7_0 (grid7.coords t) ↔ t.val % 2 = 0)

/-- The condition of the body's second conditional (the reduction index is the last). -/
abbrev cond7_1 (i : grid7.Coords) : Prop := k7_cond2 i = 1#1
/-- It holds at the points ≡ 1 (mod 2) — decided over the grid. -/
theorem hcond7_1 : ∀ t : Fin cfg7.N, cond7_1 (grid7.coords t) ↔ t.val % 2 = 1 :=
  (by decide +kernel : ∀ t : Fin grid7.N, cond7_1 (grid7.coords t) ↔ t.val % 2 = 1)

/-! ## Where the windows are idle -/

/-- Window 0 is never idle (an input). -/
theorem liveAt7_0 : ∀ t : Fin cfg7.N, cfg7.idle 0 (grid7.coords t) = false := by decide +kernel
/-- Window 1 is never idle (an input). -/
theorem liveAt7_1 : ∀ t : Fin cfg7.N, cfg7.idle 1 (grid7.coords t) = false := by decide +kernel
/-- Window 2 is never idle (an input). -/
theorem liveAt7_2 : ∀ t : Fin cfg7.N, cfg7.idle 2 (grid7.coords t) = false := by decide +kernel
/-- Window 3 is never idle (an input). -/
theorem liveAt7_3 : ∀ t : Fin cfg7.N, cfg7.idle 3 (grid7.coords t) = false := by decide +kernel
/-- Window 4 is never idle (an input). -/
theorem liveAt7_4 : ∀ t : Fin cfg7.N, cfg7.idle 4 (grid7.coords t) = false := by decide +kernel
/-- At the points of case A (first conditional taken, second not) output 5 is idle: the case stores nothing into it. -/
theorem idleAt7_5_A : ∀ t : Fin cfg7.N, cond7_0 (grid7.coords t) → ¬cond7_1 (grid7.coords t) → cfg7.idle 5 (grid7.coords t) = true := by decide +kernel
/-- At the points of case A the pipeline does not write output 5's block back. -/
theorem noFlush7_5_A : ∀ t : Fin cfg7.N, cond7_0 (grid7.coords t) → ¬cond7_1 (grid7.coords t) → (cfg7.win 5).flush t = false := by decide +kernel
/-- At the points of case C (first conditional not taken, second taken) output 5 is live: the case stores into it. -/
theorem liveAt7_5_C : ∀ t : Fin cfg7.N, ¬cond7_0 (grid7.coords t) → cond7_1 (grid7.coords t) → cfg7.idle 5 (grid7.coords t) = false := by decide +kernel

/-! ## The staging and scratch memrefs -/

/-- One staging buffer of output window 5, through which its contents are stated (the choice does not matter). -/
abbrev VO7_5 : View sig .tc .vmem S1024x128 .f32 := (Memref.whole cc7_stg5_0 : Memref sig .tc .vmem S1024x128 .f32).view
/-- Each window's current staging memref at point `t`, spelled as the pipeline passes it, and its wholeness. -/
abbrev ms7_0 (t : Fin cfg7.N) : Memref sig .tc .vmem S1024x4096 .bf16 := win7_0.stage (cfg7.slots t 0)
abbrev hs7_0 (t : Fin cfg7.N) : (ms7_0 t).IsWhole := hstage7_0 ((cfg7.slots t 0).cast nbuf7_0)
abbrev ms7_1 (t : Fin cfg7.N) : Memref sig .tc .vmem S4096x128 .f32 := win7_1.stage (cfg7.slots t 1)
abbrev hs7_1 (t : Fin cfg7.N) : (ms7_1 t).IsWhole := hstage7_1 ((cfg7.slots t 1).cast nbuf7_1)
abbrev ms7_2 (t : Fin cfg7.N) : Memref sig .tc .vmem S1024x128 .f32 := win7_2.stage (cfg7.slots t 2)
abbrev hs7_2 (t : Fin cfg7.N) : (ms7_2 t).IsWhole := hstage7_2 ((cfg7.slots t 2).cast nbuf7_2)
abbrev ms7_3 (t : Fin cfg7.N) : Memref sig .tc .vmem S128x128 .f32 := win7_3.stage (cfg7.slots t 3)
abbrev hs7_3 (t : Fin cfg7.N) : (ms7_3 t).IsWhole := hstage7_3 ((cfg7.slots t 3).cast nbuf7_3)
abbrev ms7_4 (t : Fin cfg7.N) : Memref sig .tc .vmem S1x128 .f32 := win7_4.stage (cfg7.slots t 4)
abbrev hs7_4 (t : Fin cfg7.N) : (ms7_4 t).IsWhole := hstage7_4 ((cfg7.slots t 4).cast nbuf7_4)
abbrev ms7_5 (t : Fin cfg7.N) : Memref sig .tc .vmem S1024x128 .f32 := win7_5.stage (cfg7.slots t 5)
abbrev hs7_5 (t : Fin cfg7.N) : (ms7_5 t).IsWhole := hstage7_5 ((cfg7.slots t 5).cast nbuf7_5)
/-- The scratch accumulator: a whole scoped buffer of the kernel's own, passed beside the windows. -/
abbrev scM7_0 : Memref sig .tc .vmem S1024x128 .f32 := Memref.whole cc7_scratch0
/-- The same as a view: what the accumulator holds between points is stated through it. -/
abbrev VS7_0 : View sig .tc .vmem S1024x128 .f32 := scM7_0.view

/-- The region invariant with the scratch accumulator as a memref owned at some contents, the other scoped buffers
    unopened, and the generator register at some state: what the body obligation hands the run and takes back. -/
theorem PhiA7_eq (c : Dev nD) :
    (Pipeline.ΦA spec7 c : sProp 𝕄)
      = iprop(iprop(iprop((∃ d, owns (c : Thread nD τ) scM7_0 fullShare d))
          ∗ Pipeline.scopedRestBut (Ix := Unit) (Name := ℕ) (U := UR sig nD τ) (Lvl := ℕ) (Val := Elt F) spec7 c [cc7_scratch0]) ∗ (∃ r, prngReg c r)) := by
  unfold Pipeline.ΦA; rw [scopedRest7_split]; simp only [scM7_0, owns_whole]; try rfl

end Cert.Kernel.Hand

end
-- ==== Proof.K.Reg7RunA.lean ====
/- Region 7: the whole-body run of the kernel in case A (first conditional taken, second not: the reduction's first
   step). The pieces the scratch accumulator ends with are the witness the run finds. -/
import proofs.«181597_j77979426226450_2_alg».proof.Proof.K.Reg7Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in the output's staging memref and in the scratch accumulator, as pieces (last first), in
    case A, with the proof that on whole staging memrefs — the inputs' at their contents, the output's (no store, the
    window idle and not written back at the case's points) at contents `xio` handed back untouched, the accumulator at
    anything — the body runs to the continuation holding the inputs' and the output's as they were and the accumulator
    with its pieces written: it is zeroed, then the product of the two input blocks is added. -/
noncomputable def kernelRun7_A (c : Dev nD) (i : grid7.Coords) (arg2 : Memref sig .tc .vmem S1024x4096 .bf16) (harg2 : arg2.IsWhole) (arg3 : Memref sig .tc .vmem S4096x128 .f32) (harg3 : arg3.IsWhole) (arg4 : Memref sig .tc .vmem S1024x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1024x128 .f32) (harg7 : arg7.IsWhole) (arg8 : Memref sig .tc .vmem S1024x128 .f32) (harg8 : arg8.IsWhole) (hcz : cond7_0 i) (hcl : ¬cond7_1 i)
    (xa : Vec F S1024x4096 .bf16) (xb : Vec F S4096x128 .f32) (xc : Vec F S1024x128 .f32) (xd : Vec F S128x128 .f32) (xe : Vec F S1x128 .f32) :
    Σ' (LO : List (View.Piece (Elt F) S1024x128 .f32)), { LS : List (View.Piece (Elt F) S1024x128 .f32) //
      ∀ (xio : Vec F S1024x128 .f32) (E : Set ℕ) (K : PUnit → sProp 𝕄),
        iprop(owns (c : Thread nD τ) arg2 fullShare xa ∗ owns (c : Thread nD τ) arg3 fullShare xb ∗ owns (c : Thread nD τ) arg4 fullShare xc ∗ owns (c : Thread nD τ) arg5 fullShare xd ∗ owns (c : Thread nD τ) arg6 fullShare xe ∗ owns (c : Thread nD τ) arg7 fullShare xio ∗ (∃ d, owns (c : Thread nD τ) arg8 fullShare d)
            ∗ (iprop(owns (c : Thread nD τ) arg2 fullShare xa ∗ owns (c : Thread nD τ) arg3 fullShare xb ∗ owns (c : Thread nD τ) arg4 fullShare xc ∗ owns (c : Thread nD τ) arg5 fullShare xd ∗ owns (c : Thread nD τ) arg6 fullShare xe ∗ owns (c : Thread nD τ) arg7 fullShare xio ∗ (∃ f, arg8.view.loc (c : Thread nD τ) ↦[arg8.view.set]{fullShare} arg8.view.writes (Elt F) f LS)) -∗ K ⟨⟩))
          ⊢ wp frame (wpE (defs₀ (F := F)) Variants.none c none) E (cc7__agg_residual_mlp_kernel i arg2 harg2 arg3 harg3 arg4 harg4 arg5 harg5 arg6 harg6 arg7 harg7 arg8 harg8) K } := by
  refine ⟨[], ?_, fun xio E K => ?run⟩
  case run =>
    simp only [cc7__agg_residual_mlp_kernel_eq_skeleton]; unfold cc7__agg_residual_mlp_kernel_skel
    unfold owns
    iintro ⟨⟨%fa, %hfa, Ha⟩, ⟨%fb, %hfb, Hb⟩, ⟨%fc, %hfc, Hc⟩, ⟨%fd, %hfd, Hd⟩, ⟨%fe, %hfe, He⟩, ⟨%fo, %hfo, Ho⟩, ⟨%ds, %fs, -, Hs⟩, Hk⟩
    obtain rfl := harg2.eq_unread hfa; obtain rfl := harg3.eq_unread hfb; obtain rfl := harg4.eq_unread hfc
    obtain rfl := harg5.eq_unread hfd; obtain rfl := harg6.eq_unread hfe; obtain rfl := harg7.eq_unread hfo
    sl_exec (disch := first | exact hcz | exact hcl)
    sl_step
    iapply Hk
    isplitl [Ha]
    · iexists _; isplitr; · ipureintro; exact harg2.read_unread _
      iexact Ha
    isplitl [Hb]
    · iexists _; isplitr; · ipureintro; exact harg3.read_unread _
      iexact Hb
    isplitl [Hc]
    · iexists _; isplitr; · ipureintro; exact harg4.read_unread _
      iexact Hc
    isplitl [Hd]
    · iexists _; isplitr; · ipureintro; exact harg5.read_unread _
      iexact Hd
    isplitl [He]
    · iexists _; isplitr; · ipureintro; exact harg6.read_unread _
      iexact He
    isplitl [Ho]
    · iexists _; isplitr; · ipureintro; exact harg7.read_unread _
      iexact Ho
    iexists _; iexact Hs

end Cert.Kernel.Hand

end
-- ==== Proof.K.Reg7RunC.lean ====
/- Region 7: the whole-body run of the kernel in case C (first conditional not taken, second taken: the reduction's
   last step). The pieces the output's staging memref and the scratch accumulator end with are the witness the run
   finds. -/
import proofs.«181597_j77979426226450_2_alg».proof.Proof.K.Reg7RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in the output's staging memref and in the scratch accumulator, as pieces (last first), in
    case C, with the proof that on whole staging memrefs — the inputs' at their contents, the output's at anything, the
    accumulator at the contents `xs` the point before left — the body runs to the continuation holding the inputs' as
    they were and the output's and the accumulator's with their pieces written: the product of the two input blocks is
    added to the accumulator, and the output is the residual layer applied to the sum. -/
noncomputable def kernelRun7_C (c : Dev nD) (i : grid7.Coords) (arg2 : Memref sig .tc .vmem S1024x4096 .bf16) (harg2 : arg2.IsWhole) (arg3 : Memref sig .tc .vmem S4096x128 .f32) (harg3 : arg3.IsWhole) (arg4 : Memref sig .tc .vmem S1024x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1024x128 .f32) (harg7 : arg7.IsWhole) (arg8 : Memref sig .tc .vmem S1024x128 .f32) (harg8 : arg8.IsWhole) (hcz : ¬cond7_0 i) (hcl : cond7_1 i)
    (xa : Vec F S1024x4096 .bf16) (xb : Vec F S4096x128 .f32) (xc : Vec F S1024x128 .f32) (xd : Vec F S128x128 .f32) (xe : Vec F S1x128 .f32) (xs : Vec F S1024x128 .f32) :
    Σ' (LO : List (View.Piece (Elt F) S1024x128 .f32)), { LS : List (View.Piece (Elt F) S1024x128 .f32) //
      ∀ (E : Set ℕ) (K : PUnit → sProp 𝕄),
        iprop(owns (c : Thread nD τ) arg2 fullShare xa ∗ owns (c : Thread nD τ) arg3 fullShare xb ∗ owns (c : Thread nD τ) arg4 fullShare xc ∗ owns (c : Thread nD τ) arg5 fullShare xd ∗ owns (c : Thread nD τ) arg6 fullShare xe ∗ (∃ d, owns (c : Thread nD τ) arg7 fullShare d) ∗ owns (c : Thread nD τ) arg8 fullShare xs
            ∗ (iprop(owns (c : Thread nD τ) arg2 fullShare xa ∗ owns (c : Thread nD τ) arg3 fullShare xb ∗ owns (c : Thread nD τ) arg4 fullShare xc ∗ owns (c : Thread nD τ) arg5 fullShare xd ∗ owns (c : Thread nD τ) arg6 fullShare xe ∗ (∃ f, arg7.view.loc (c : Thread nD τ) ↦[arg7.view.set]{fullShare} arg7.view.writes (Elt F) f LO) ∗ (∃ f, arg8.view.loc (c : Thread nD τ) ↦[arg8.view.set]{fullShare} arg8.view.writes (Elt F) f LS)) -∗ K ⟨⟩))
          ⊢ wp frame (wpE (defs₀ (F := F)) Variants.none c none) E (cc7__agg_residual_mlp_kernel i arg2 harg2 arg3 harg3 arg4 harg4 arg5 harg5 arg6 harg6 arg7 harg7 arg8 harg8) K } := by
  refine ⟨?_, ?_, fun E K => ?run⟩
  case run =>
    simp only [cc7__agg_residual_mlp_kernel_eq_skeleton]; unfold cc7__agg_residual_mlp_kernel_skel
    unfold owns
    iintro ⟨⟨%fa, %hfa, Ha⟩, ⟨%fb, %hfb, Hb⟩, ⟨%fc, %hfc, Hc⟩, ⟨%fd, %hfd, Hd⟩, ⟨%fe, %hfe, He⟩, ⟨%dout, %fo, -, Ho⟩, ⟨%fs, %hfs, Hs⟩, Hk⟩
    obtain rfl := harg2.eq_unread hfa; obtain rfl := harg3.eq_unread hfb; obtain rfl := harg4.eq_unread hfc
    obtain rfl := harg5.eq_unread hfd; obtain rfl := harg6.eq_unread hfe; obtain rfl := harg8.eq_unread hfs
    sl_exec (disch := first | exact hcz | exact hcl)
    sl_step
    iapply Hk
    isplitl [Ha]
    · iexists _; isplitr; · ipureintro; exact harg2.read_unread _
      iexact Ha
    isplitl [Hb]
    · iexists _; isplitr; · ipureintro; exact harg3.read_unread _
      iexact Hb
    isplitl [Hc]
    · iexists _; isplitr; · ipureintro; exact harg4.read_unread _
      iexact Hc
    isplitl [Hd]
    · iexists _; isplitr; · ipureintro; exact harg5.read_unread _
      iexact Hd
    isplitl [He]
    · iexists _; isplitr; · ipureintro; exact harg6.read_unread _
      iexact He
    isplitl [Ho]; · iexists _; iexact Ho
    iexists _; iexact Hs

end Cert.Kernel.Hand

end
-- ==== Proof.K.Reg7.lean ====
/- Region 7 (the aggregate-residual-MLP kernel, pipeline 1), the rest of its frame half: what the output's staging
   buffer and the scratch accumulator hold per case and point by point, the region invariant carrying the accumulator,
   the pipeline's proof data at the region-entry contents `V`, the body obligation at every point, and the invariant's
   entry and exit. -/
import proofs.«181597_j77979426226450_2_alg».proof.Proof.K.Reg7RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Case A stores nothing into output 5 (the window is idle at its points and not written back there): no pieces — a
    placeholder that nothing consults, since at these points the window is neither written back nor read at the next. -/
def out7_A_5 (c : Dev nD) (i : grid7.Coords) (arg2 : Memref sig .tc .vmem S1024x4096 .bf16) (harg2 : arg2.IsWhole) (arg3 : Memref sig .tc .vmem S4096x128 .f32) (harg3 : arg3.IsWhole) (arg4 : Memref sig .tc .vmem S1024x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1024x128 .f32) (harg7 : arg7.IsWhole) (arg8 : Memref sig .tc .vmem S1024x128 .f32) (harg8 : arg8.IsWhole) (hcz : cond7_0 i) (hcl : ¬cond7_1 i)
    (xa : Vec F S1024x4096 .bf16) (xb : Vec F S4096x128 .f32) (xc : Vec F S1024x128 .f32) (xd : Vec F S128x128 .f32) (xe : Vec F S1x128 .f32) : Vec F S1024x128 .f32 :=
  VO7_5.read (Elt F) (VO7_5.writes (Elt F) VO7_5.junk (kernelRun7_A c i arg2 harg2 arg3 harg3 arg4 harg4 arg5 harg5 arg6 harg6 arg7 harg7 arg8 harg8 hcz hcl xa xb xc xd xe).1)

/-- Case A's pieces for the scratch accumulator cover it: the zeroing store and the accumulating store each tile it. -/
theorem scover7_A_0 (c : Dev nD) (i : grid7.Coords) (arg2 : Memref sig .tc .vmem S1024x4096 .bf16) (harg2 : arg2.IsWhole) (arg3 : Memref sig .tc .vmem S4096x128 .f32) (harg3 : arg3.IsWhole) (arg4 : Memref sig .tc .vmem S1024x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1024x128 .f32) (harg7 : arg7.IsWhole) (arg8 : Memref sig .tc .vmem S1024x128 .f32) (harg8 : arg8.IsWhole) (hcz : cond7_0 i) (hcl : ¬cond7_1 i)
    (xa : Vec F S1024x4096 .bf16) (xb : Vec F S4096x128 .f32) (xc : Vec F S1024x128 .f32) (xd : Vec F S128x128 .f32) (xe : Vec F S1x128 .f32) (y : S1024x128.Idx) :
    ∃ pc ∈ (kernelRun7_A c i arg2 harg2 arg3 harg3 arg4 harg4 arg5 harg5 arg6 harg6 arg7 harg7 arg8 harg8 hcz hcl xa xb xc xd xe).2.1, y ∈ pc.1.set :=
  View.cover_of_tiledL (kernelRun7_A c i arg2 harg2 arg3 harg3 arg4 harg4 arg5 harg5 arg6 harg6 arg7 harg7 arg8 harg8 hcz hcl xa xb xc xd xe).2.1 S1024x128.size (by sl_kernel_rfl) y

/-- What case A leaves in the scratch accumulator: its pieces read back over junk. -/
def sout7_A_0 (c : Dev nD) (i : grid7.Coords) (arg2 : Memref sig .tc .vmem S1024x4096 .bf16) (harg2 : arg2.IsWhole) (arg3 : Memref sig .tc .vmem S4096x128 .f32) (harg3 : arg3.IsWhole) (arg4 : Memref sig .tc .vmem S1024x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1024x128 .f32) (harg7 : arg7.IsWhole) (arg8 : Memref sig .tc .vmem S1024x128 .f32) (harg8 : arg8.IsWhole) (hcz : cond7_0 i) (hcl : ¬cond7_1 i)
    (xa : Vec F S1024x4096 .bf16) (xb : Vec F S4096x128 .f32) (xc : Vec F S1024x128 .f32) (xd : Vec F S128x128 .f32) (xe : Vec F S1x128 .f32) : Vec F S1024x128 .f32 :=
  VS7_0.read (Elt F) (VS7_0.writes (Elt F) VS7_0.junk (kernelRun7_A c i arg2 harg2 arg3 harg3 arg4 harg4 arg5 harg5 arg6 harg6 arg7 harg7 arg8 harg8 hcz hcl xa xb xc xd xe).2.1)

/-- Case C's pieces for output 5 tile its block (one store of the whole block), so they cover it. -/
theorem cover7_C_5 (c : Dev nD) (i : grid7.Coords) (arg2 : Memref sig .tc .vmem S1024x4096 .bf16) (harg2 : arg2.IsWhole) (arg3 : Memref sig .tc .vmem S4096x128 .f32) (harg3 : arg3.IsWhole) (arg4 : Memref sig .tc .vmem S1024x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1024x128 .f32) (harg7 : arg7.IsWhole) (arg8 : Memref sig .tc .vmem S1024x128 .f32) (harg8 : arg8.IsWhole) (hcz : ¬cond7_0 i) (hcl : cond7_1 i)
    (xa : Vec F S1024x4096 .bf16) (xb : Vec F S4096x128 .f32) (xc : Vec F S1024x128 .f32) (xd : Vec F S128x128 .f32) (xe : Vec F S1x128 .f32) (xs : Vec F S1024x128 .f32) (y : S1024x128.Idx) :
    ∃ pc ∈ (kernelRun7_C c i arg2 harg2 arg3 harg3 arg4 harg4 arg5 harg5 arg6 harg6 arg7 harg7 arg8 harg8 hcz hcl xa xb xc xd xe xs).1, y ∈ pc.1.set :=
  View.cover_of_tiledL (kernelRun7_C c i arg2 harg2 arg3 harg3 arg4 harg4 arg5 harg5 arg6 harg6 arg7 harg7 arg8 harg8 hcz hcl xa xb xc xd xe xs).1 S1024x128.size (by sl_kernel_rfl) y

/-- What case C leaves in output 5's staging buffer: its pieces read back over junk. -/
def out7_C_5 (c : Dev nD) (i : grid7.Coords) (arg2 : Memref sig .tc .vmem S1024x4096 .bf16) (harg2 : arg2.IsWhole) (arg3 : Memref sig .tc .vmem S4096x128 .f32) (harg3 : arg3.IsWhole) (arg4 : Memref sig .tc .vmem S1024x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1024x128 .f32) (harg7 : arg7.IsWhole) (arg8 : Memref sig .tc .vmem S1024x128 .f32) (harg8 : arg8.IsWhole) (hcz : ¬cond7_0 i) (hcl : cond7_1 i)
    (xa : Vec F S1024x4096 .bf16) (xb : Vec F S4096x128 .f32) (xc : Vec F S1024x128 .f32) (xd : Vec F S128x128 .f32) (xe : Vec F S1x128 .f32) (xs : Vec F S1024x128 .f32) : Vec F S1024x128 .f32 :=
  VO7_5.read (Elt F) (VO7_5.writes (Elt F) VO7_5.junk (kernelRun7_C c i arg2 harg2 arg3 harg3 arg4 harg4 arg5 harg5 arg6 harg6 arg7 harg7 arg8 harg8 hcz hcl xa xb xc xd xe xs).1)

/-- Case C's pieces for the scratch accumulator cover it: one store of the whole buffer. -/
theorem scover7_C_0 (c : Dev nD) (i : grid7.Coords) (arg2 : Memref sig .tc .vmem S1024x4096 .bf16) (harg2 : arg2.IsWhole) (arg3 : Memref sig .tc .vmem S4096x128 .f32) (harg3 : arg3.IsWhole) (arg4 : Memref sig .tc .vmem S1024x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1024x128 .f32) (harg7 : arg7.IsWhole) (arg8 : Memref sig .tc .vmem S1024x128 .f32) (harg8 : arg8.IsWhole) (hcz : ¬cond7_0 i) (hcl : cond7_1 i)
    (xa : Vec F S1024x4096 .bf16) (xb : Vec F S4096x128 .f32) (xc : Vec F S1024x128 .f32) (xd : Vec F S128x128 .f32) (xe : Vec F S1x128 .f32) (xs : Vec F S1024x128 .f32) (y : S1024x128.Idx) :
    ∃ pc ∈ (kernelRun7_C c i arg2 harg2 arg3 harg3 arg4 harg4 arg5 harg5 arg6 harg6 arg7 harg7 arg8 harg8 hcz hcl xa xb xc xd xe xs).2.1, y ∈ pc.1.set :=
  View.cover_of_tiledL (kernelRun7_C c i arg2 harg2 arg3 harg3 arg4 harg4 arg5 harg5 arg6 harg6 arg7 harg7 arg8 harg8 hcz hcl xa xb xc xd xe xs).2.1 S1024x128.size (by sl_kernel_rfl) y

/-- What case C leaves in the scratch accumulator: its pieces read back over junk. -/
def sout7_C_0 (c : Dev nD) (i : grid7.Coords) (arg2 : Memref sig .tc .vmem S1024x4096 .bf16) (harg2 : arg2.IsWhole) (arg3 : Memref sig .tc .vmem S4096x128 .f32) (harg3 : arg3.IsWhole) (arg4 : Memref sig .tc .vmem S1024x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1024x128 .f32) (harg7 : arg7.IsWhole) (arg8 : Memref sig .tc .vmem S1024x128 .f32) (harg8 : arg8.IsWhole) (hcz : ¬cond7_0 i) (hcl : cond7_1 i)
    (xa : Vec F S1024x4096 .bf16) (xb : Vec F S4096x128 .f32) (xc : Vec F S1024x128 .f32) (xd : Vec F S128x128 .f32) (xe : Vec F S1x128 .f32) (xs : Vec F S1024x128 .f32) : Vec F S1024x128 .f32 :=
  VS7_0.read (Elt F) (VS7_0.writes (Elt F) VS7_0.junk (kernelRun7_C c i arg2 harg2 arg3 harg3 arg4 harg4 arg5 harg5 arg6 harg6 arg7 harg7 arg8 harg8 hcz hcl xa xb xc xd xe xs).2.1)

section Region
-- the TensorCore's buffer contents when the region is entered
variable (V : (c : Dev nD) → (b : Ref sig .tc) → Buf (Elt F) ((c : Thread nD τ).loc b))

/-! ## What the output and the accumulator hold after each point -/

/-- The accumulation. What output 5's staging buffer and the scratch accumulator hold after the body at position `n` (a
    pair: the output, then the accumulator): the case the closed forms select at `n`, run at the point's memrefs and input
    blocks, the accumulator in case C at what this leaves at `n - 1`. The two conditions partition the points, so the
    other two assignments are no case. -/
def outsAt7 (c : Dev nD) : (n : ℕ) → n < cfg7.N → Vec F S1024x128 .f32 × Vec F S1024x128 .f32
  | 0, hn => (out7_A_5 c (grid7.coords ⟨0, hn⟩) (ms7_0 ⟨0, hn⟩) (hs7_0 ⟨0, hn⟩) (ms7_1 ⟨0, hn⟩) (hs7_1 ⟨0, hn⟩) (ms7_2 ⟨0, hn⟩) (hs7_2 ⟨0, hn⟩) (ms7_3 ⟨0, hn⟩) (hs7_3 ⟨0, hn⟩) (ms7_4 ⟨0, hn⟩) (hs7_4 ⟨0, hn⟩) (ms7_5 ⟨0, hn⟩) (hs7_5 ⟨0, hn⟩) scM7_0 (Memref.isWhole_whole _) ((hcond7_0 ⟨0, hn⟩).mpr (Nat.zero_mod _)) (fun h => (fun h => by (try dsimp only at h); omega) ((hcond7_1 ⟨0, hn⟩).mp h)) (iblk7 V c 0 ⟨0, hn⟩) (iblk7 V c 1 ⟨0, hn⟩) (iblk7 V c 2 ⟨0, hn⟩) (iblk7 V c 3 ⟨0, hn⟩) (iblk7 V c 4 ⟨0, hn⟩), sout7_A_0 c (grid7.coords ⟨0, hn⟩) (ms7_0 ⟨0, hn⟩) (hs7_0 ⟨0, hn⟩) (ms7_1 ⟨0, hn⟩) (hs7_1 ⟨0, hn⟩) (ms7_2 ⟨0, hn⟩) (hs7_2 ⟨0, hn⟩) (ms7_3 ⟨0, hn⟩) (hs7_3 ⟨0, hn⟩) (ms7_4 ⟨0, hn⟩) (hs7_4 ⟨0, hn⟩) (ms7_5 ⟨0, hn⟩) (hs7_5 ⟨0, hn⟩) scM7_0 (Memref.isWhole_whole _) ((hcond7_0 ⟨0, hn⟩).mpr (Nat.zero_mod _)) (fun h => (fun h => by (try dsimp only at h); omega) ((hcond7_1 ⟨0, hn⟩).mp h)) (iblk7 V c 0 ⟨0, hn⟩) (iblk7 V c 1 ⟨0, hn⟩) (iblk7 V c 2 ⟨0, hn⟩) (iblk7 V c 3 ⟨0, hn⟩) (iblk7 V c 4 ⟨0, hn⟩))
  | n + 1, hn =>
    if hz : (n + 1) % 2 = 0 then
      if hl : (n + 1) % 2 = 1 then
        False.elim (by omega)
      else
        (out7_A_5 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) (ms7_5 ⟨n + 1, hn⟩) (hs7_5 ⟨n + 1, hn⟩) scM7_0 (Memref.isWhole_whole _) ((hcond7_0 ⟨n + 1, hn⟩).mpr hz) (fun h => hl ((hcond7_1 ⟨n + 1, hn⟩).mp h)) (iblk7 V c 0 ⟨n + 1, hn⟩) (iblk7 V c 1 ⟨n + 1, hn⟩) (iblk7 V c 2 ⟨n + 1, hn⟩) (iblk7 V c 3 ⟨n + 1, hn⟩) (iblk7 V c 4 ⟨n + 1, hn⟩), sout7_A_0 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) (ms7_5 ⟨n + 1, hn⟩) (hs7_5 ⟨n + 1, hn⟩) scM7_0 (Memref.isWhole_whole _) ((hcond7_0 ⟨n + 1, hn⟩).mpr hz) (fun h => hl ((hcond7_1 ⟨n + 1, hn⟩).mp h)) (iblk7 V c 0 ⟨n + 1, hn⟩) (iblk7 V c 1 ⟨n + 1, hn⟩) (iblk7 V c 2 ⟨n + 1, hn⟩) (iblk7 V c 3 ⟨n + 1, hn⟩) (iblk7 V c 4 ⟨n + 1, hn⟩))
    else
      if hl : (n + 1) % 2 = 1 then
        (out7_C_5 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) (ms7_5 ⟨n + 1, hn⟩) (hs7_5 ⟨n + 1, hn⟩) scM7_0 (Memref.isWhole_whole _) (fun h => hz ((hcond7_0 ⟨n + 1, hn⟩).mp h)) ((hcond7_1 ⟨n + 1, hn⟩).mpr hl) (iblk7 V c 0 ⟨n + 1, hn⟩) (iblk7 V c 1 ⟨n + 1, hn⟩) (iblk7 V c 2 ⟨n + 1, hn⟩) (iblk7 V c 3 ⟨n + 1, hn⟩) (iblk7 V c 4 ⟨n + 1, hn⟩) (outsAt7 c n (Nat.lt_of_succ_lt hn)).2, sout7_C_0 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) (ms7_5 ⟨n + 1, hn⟩) (hs7_5 ⟨n + 1, hn⟩) scM7_0 (Memref.isWhole_whole _) (fun h => hz ((hcond7_0 ⟨n + 1, hn⟩).mp h)) ((hcond7_1 ⟨n + 1, hn⟩).mpr hl) (iblk7 V c 0 ⟨n + 1, hn⟩) (iblk7 V c 1 ⟨n + 1, hn⟩) (iblk7 V c 2 ⟨n + 1, hn⟩) (iblk7 V c 3 ⟨n + 1, hn⟩) (iblk7 V c 4 ⟨n + 1, hn⟩) (outsAt7 c n (Nat.lt_of_succ_lt hn)).2)
      else
        False.elim (by omega)

/-- `outsAt7` at a point of case A: that case's contents. -/
theorem outsAt7_A (c : Dev nD) (t : Fin cfg7.N) (hz : t.val % 2 = 0) (hl : ¬t.val % 2 = 1) :
    outsAt7 V c t.val t.isLt = (out7_A_5 c (grid7.coords t) (ms7_0 t) (hs7_0 t) (ms7_1 t) (hs7_1 t) (ms7_2 t) (hs7_2 t) (ms7_3 t) (hs7_3 t) (ms7_4 t) (hs7_4 t) (ms7_5 t) (hs7_5 t) scM7_0 (Memref.isWhole_whole _) ((hcond7_0 t).mpr hz) (fun h => hl ((hcond7_1 t).mp h)) (iblk7 V c 0 t) (iblk7 V c 1 t) (iblk7 V c 2 t) (iblk7 V c 3 t) (iblk7 V c 4 t), sout7_A_0 c (grid7.coords t) (ms7_0 t) (hs7_0 t) (ms7_1 t) (hs7_1 t) (ms7_2 t) (hs7_2 t) (ms7_3 t) (hs7_3 t) (ms7_4 t) (hs7_4 t) (ms7_5 t) (hs7_5 t) scM7_0 (Memref.isWhole_whole _) ((hcond7_0 t).mpr hz) (fun h => hl ((hcond7_1 t).mp h)) (iblk7 V c 0 t) (iblk7 V c 1 t) (iblk7 V c 2 t) (iblk7 V c 3 t) (iblk7 V c 4 t)) := by
  obtain ⟨n, hn⟩ := t
  cases n with
  | zero => exact rfl
  | succ n => exact (dif_pos hz).trans ((dif_neg hl).trans rfl)

/-- `outsAt7` at a point of case C: that case's contents, over what the point before left in the accumulator. -/
theorem outsAt7_C (c : Dev nD) (t : Fin cfg7.N) (hz : ¬t.val % 2 = 0) (hl : t.val % 2 = 1) :
    outsAt7 V c t.val t.isLt = (out7_C_5 c (grid7.coords t) (ms7_0 t) (hs7_0 t) (ms7_1 t) (hs7_1 t) (ms7_2 t) (hs7_2 t) (ms7_3 t) (hs7_3 t) (ms7_4 t) (hs7_4 t) (ms7_5 t) (hs7_5 t) scM7_0 (Memref.isWhole_whole _) (fun h => hz ((hcond7_0 t).mp h)) ((hcond7_1 t).mpr hl) (iblk7 V c 0 t) (iblk7 V c 1 t) (iblk7 V c 2 t) (iblk7 V c 3 t) (iblk7 V c 4 t) (outsAt7 V c (t.val - 1) (Nat.lt_of_le_of_lt (Nat.sub_le _ _) t.isLt)).2, sout7_C_0 c (grid7.coords t) (ms7_0 t) (hs7_0 t) (ms7_1 t) (hs7_1 t) (ms7_2 t) (hs7_2 t) (ms7_3 t) (hs7_3 t) (ms7_4 t) (hs7_4 t) (ms7_5 t) (hs7_5 t) scM7_0 (Memref.isWhole_whole _) (fun h => hz ((hcond7_0 t).mp h)) ((hcond7_1 t).mpr hl) (iblk7 V c 0 t) (iblk7 V c 1 t) (iblk7 V c 2 t) (iblk7 V c 3 t) (iblk7 V c 4 t) (outsAt7 V c (t.val - 1) (Nat.lt_of_le_of_lt (Nat.sub_le _ _) t.isLt)).2) := by
  obtain ⟨n, hn⟩ := t
  cases n with
  | zero => exact (by exfalso; (try dsimp only at hz); exact absurd (Nat.zero_mod _) hz)
  | succ n => exact (dif_neg hz).trans ((dif_pos hl).trans rfl)

/-- The region invariant before position `n`, the kernel carrying its accumulator between points: before the first point
    the scoped rest with every scratch at anything; afterwards the accumulator at what the point before left in it
    (`outsAt7`'s second component), the other scoped buffers unopened, and the generator register at some state. -/
def PhiS7 (c : Dev nD) : (n : ℕ) → n ≤ cfg7.N → sProp 𝕄
  | 0, _ => Pipeline.ΦA spec7 c
  | n + 1, hn => iprop(iprop(owns (c : Thread nD τ) scM7_0 fullShare ((outsAt7 V c n hn).2) ∗ Pipeline.scopedRestBut (Ix := Unit) (Name := ℕ) (U := UR sig nD τ) (Lvl := ℕ) (Val := Elt F) spec7 c [cc7_scratch0]) ∗ (∃ r, prngReg c r))

theorem PhiS7_zero (c : Dev nD) (n : ℕ) (h : n ≤ cfg7.N) (hzero : n = 0) : PhiS7 V c n h = Pipeline.ΦA spec7 c := by
  subst hzero; rfl

/-- After point `n` (before point `n + 1`): the accumulator at that point's contents. -/
theorem PhiS7_succ (c : Dev nD) (n : ℕ) (hn : n < cfg7.N) :
    PhiS7 V c (n + 1) hn = iprop(iprop(owns (c : Thread nD τ) scM7_0 fullShare ((outsAt7 V c n hn).2) ∗ Pipeline.scopedRestBut (Ix := Unit) (Name := ℕ) (U := UR sig nD τ) (Lvl := ℕ) (Val := Elt F) spec7 c [cc7_scratch0]) ∗ (∃ r, prngReg c r)) := rfl

/-- Before a point that is not the first: the accumulator at what the point before left. -/
theorem PhiS7_pos (c : Dev nD) (n : ℕ) (h : n ≤ cfg7.N) (hzero : n ≠ 0) :
    PhiS7 V c n h = iprop(iprop(owns (c : Thread nD τ) scM7_0 fullShare ((outsAt7 V c (n - 1) (by omega)).2) ∗ Pipeline.scopedRestBut (Ix := Unit) (Name := ℕ) (U := UR sig nD τ) (Lvl := ℕ) (Val := Elt F) spec7 c [cc7_scratch0]) ∗ (∃ r, prngReg c r)) := by
  cases n with
  | zero => exact absurd rfl hzero
  | succ n => rfl

/-! ## The pipeline's proof data -/

/-- The proof data of pipeline 1 on core `c`: the arrays as the region finds them (`V`); after the body at point `t` each
    input's buffer at its block and the output's at `outsAt7`'s first component; the invariant `PhiS7`; nothing owed; full
    shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => (outsAt7 V c t.val t.isLt).1
  Φ t := PhiS7 V c t.val (Nat.le_of_lt_succ t.isLt)
  q _ := fullShare
  owed _ := 0

/-- The proof data's arrays are the region-entry contents (the definition projected, `V` never unfolded). -/
theorem A_eq7 (c : Dev nD) (w : Fin cfg7.W) : (dat7 V c).A w = V c (Pipeline.arrRef spec7 w) := by
  dsimp only [dat7]

/-- The invariant at a point's start (the proof data at `t.castSucc`), restated at `t.val`. -/
theorem PhiS7_castSucc (c : Dev nD) (t : Fin cfg7.N) :
    (dat7 V c).Φ t.castSucc = PhiS7 V c t.val (Nat.le_of_lt t.isLt) := by
  dsimp only [dat7]; simp only [Fin.coe_castSucc]

/-- What the body leaves, window by window. -/
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = iblk7 V c 4 t := by dsimp only [dat7]
theorem after7_5 (c : Dev nD) (t : Fin cfg7.N) : (dat7 V c).after 5 t = (outsAt7 V c t.val t.isLt).1 := by dsimp only [dat7]

/-- Each input's current staging buffer holds its block at every point, fetched there or not. -/
theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d
theorem before7_3 (c : Dev nD) (t : Fin cfg7.N) (d) : (dat7 V c).before 3 t d = iblk7 V c 3 t :=
  before7_3_of V (dat7 V c) (A_eq7 V c 3) (after7_3 V c) t d
theorem before7_4 (c : Dev nD) (t : Fin cfg7.N) (d) : (dat7 V c).before 4 t d = iblk7 V c 4 t :=
  before7_4_of V (dat7 V c) (A_eq7 V c 4) (after7_4 V c) t d

/-! ## The body obligation, at a generic point -/

/-- What the body is called with at point `t` (the windows one by one), -/
def bodyPre7 (c : Dev nD) (t : Fin cfg7.N) : sProp 𝕄 :=
  iprop((dat7 V c).Φ t.castSucc ∗ (dat7 V c).owesAt () t.castSucc
    ∗ (∃ d, owns (c : Thread nD τ) (ms7_0 t) fullShare ((dat7 V c).before 0 t d))
    ∗ (∃ d, owns (c : Thread nD τ) (ms7_1 t) fullShare ((dat7 V c).before 1 t d))
    ∗ (∃ d, owns (c : Thread nD τ) (ms7_2 t) fullShare ((dat7 V c).before 2 t d))
    ∗ (∃ d, owns (c : Thread nD τ) (ms7_3 t) fullShare ((dat7 V c).before 3 t d))
    ∗ (∃ d, owns (c : Thread nD τ) (ms7_4 t) fullShare ((dat7 V c).before 4 t d))
    ∗ (∃ d, owns (c : Thread nD τ) (ms7_5 t) fullShare ((dat7 V c).before 5 t d)))

/-- and what it returns. -/
def bodyPost7 (c : Dev nD) (t : Fin cfg7.N) : sProp 𝕄 :=
  iprop((dat7 V c).Φ t.succ ∗ (dat7 V c).owesAt () t.succ
    ∗ (dat7 V c).leavesExact 0 t
    ∗ (dat7 V c).leavesExact 1 t
    ∗ (dat7 V c).leavesExact 2 t
    ∗ (dat7 V c).leavesExact 3 t
    ∗ (dat7 V c).leavesExact 4 t
    ∗ (dat7 V c).leavesExact 5 t)

set_option maxHeartbeats 4800000 in
/-- The body at any point: the inputs' memrefs hold their blocks; the closed forms say which case the point is in; the
    invariant hands the body the accumulator at what the point before left (at anything at the first point), the other
    scoped buffers and the generator register pass through, and it takes the accumulator back at this point's contents;
    in case A the output's buffer is handed back as found, in case C at its covering store; the core owes nothing
    throughout. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3, before7_4]
  rw [show (dat7 V c).owesAt () t.succ = (dat7 V c).owesAt () t.castSucc from rfl]
  rw [show (dat7 V c).Φ t.succ = PhiS7 V c (t.val + 1) t.isLt from rfl, PhiS7_succ]
  have hN : t.val < 8 := lt_of_lt_of_eq t.isLt (show cfg7.N = 8 from N_7)
  by_cases hz : t.val % 2 = 0
  · have hl : ¬t.val % 2 = 1 := by omega
    rw [show (dat7 V c).leavesExact 0 t = owns (c : Thread nD τ) (ms7_0 t) fullShare ((dat7 V c).after 0 t) from by
      unfold Dat.leavesExact; rw [liveAt7_0 t], after7_0]
    rw [show (dat7 V c).leavesExact 1 t = owns (c : Thread nD τ) (ms7_1 t) fullShare ((dat7 V c).after 1 t) from by
      unfold Dat.leavesExact; rw [liveAt7_1 t], after7_1]
    rw [show (dat7 V c).leavesExact 2 t = owns (c : Thread nD τ) (ms7_2 t) fullShare ((dat7 V c).after 2 t) from by
      unfold Dat.leavesExact; rw [liveAt7_2 t], after7_2]
    rw [show (dat7 V c).leavesExact 3 t = owns (c : Thread nD τ) (ms7_3 t) fullShare ((dat7 V c).after 3 t) from by
      unfold Dat.leavesExact; rw [liveAt7_3 t], after7_3]
    rw [show (dat7 V c).leavesExact 4 t = owns (c : Thread nD τ) (ms7_4 t) fullShare ((dat7 V c).after 4 t) from by
      unfold Dat.leavesExact; rw [liveAt7_4 t], after7_4]
    rw [Dat.leavesExact_idle (dat7 V c) 5 t (idleAt7_5_A t ((hcond7_0 t).mpr hz) (fun h => hl ((hcond7_1 t).mp h))) (noFlush7_5_A t ((hcond7_0 t).mpr hz) (fun h => hl ((hcond7_1 t).mp h)))]
    rw [outsAt7_A V c t hz hl]
    unfold sout7_A_0; (try dsimp only)
    by_cases hzero : t.val = 0
    ·
      rw [PhiS7_castSucc V c t, PhiS7_zero V c _ _ hzero, PhiA7_eq]
      iintro ⟨⟨⟨Hs, Hr⟩, Hg⟩, Hw, ⟨%da, Ha⟩, ⟨%db, Hb⟩, ⟨%dc, Hc⟩, ⟨%dd, Hd⟩, ⟨%de, He⟩, ⟨%dq, Ho⟩⟩
      iapply ((kernelRun7_A c (grid7.coords t) _ _ _ _ _ _ _ _ _ _ _ _ _ _ ((hcond7_0 t).mpr hz) (fun h => hl ((hcond7_1 t).mp h)) (iblk7 V c 0 t) (iblk7 V c 1 t) (iblk7 V c 2 t) (iblk7 V c 3 t) (iblk7 V c 4 t)).2.2 _ Set.univ _)
      isplitl [Ha]; · iexact Ha
      isplitl [Hb]; · iexact Hb
      isplitl [Hc]; · iexact Hc
      isplitl [Hd]; · iexact Hd
      isplitl [He]; · iexact He
      isplitl [Ho]; · iexact Ho
      isplitl [Hs]; · iexact Hs
      iintro ⟨Ha, Hb, Hc, Hd, He, Ho, ⟨%es, Hs⟩⟩
      isplitl [Hs Hr Hg]
      · isplitl [Hs Hr]
        · isplitl [Hs]
          · unfold owns; iexists _; isplitr
            swap; · iexact Hs
            ipureintro; exact View.read_writes_of_cover _ _ _ _ _ (scover7_A_0 c _ _ _ _ _ _ _ _ _ _ _ _ _ _ _ _ _ _ _ _ _ _)
          iexact Hr
        iexact Hg
      isplitl [Hw]; · iexact Hw
      isplitl [Ha]; · iexact Ha
      isplitl [Hb]; · iexact Hb
      isplitl [Hc]; · iexact Hc
      isplitl [Hd]; · iexact Hd
      isplitl [He]; · iexact He
      iexists _; iexact Ho
    ·
      rw [PhiS7_castSucc V c t, PhiS7_pos V c _ _ hzero]
      iintro ⟨⟨⟨Hs, Hr⟩, Hg⟩, Hw, ⟨%da, Ha⟩, ⟨%db, Hb⟩, ⟨%dc, Hc⟩, ⟨%dd, Hd⟩, ⟨%de, He⟩, ⟨%dq, Ho⟩⟩
      iapply ((kernelRun7_A c (grid7.coords t) _ _ _ _ _ _ _ _ _ _ _ _ _ _ ((hcond7_0 t).mpr hz) (fun h => hl ((hcond7_1 t).mp h)) (iblk7 V c 0 t) (iblk7 V c 1 t) (iblk7 V c 2 t) (iblk7 V c 3 t) (iblk7 V c 4 t)).2.2 _ Set.univ _)
      isplitl [Ha]; · iexact Ha
      isplitl [Hb]; · iexact Hb
      isplitl [Hc]; · iexact Hc
      isplitl [Hd]; · iexact Hd
      isplitl [He]; · iexact He
      isplitl [Ho]; · iexact Ho
      isplitl [Hs]; · iexists _; iexact Hs
      iintro ⟨Ha, Hb, Hc, Hd, He, Ho, ⟨%es, Hs⟩⟩
      isplitl [Hs Hr Hg]
      · isplitl [Hs Hr]
        · isplitl [Hs]
          · unfold owns; iexists _; isplitr
            swap; · iexact Hs
            ipureintro; exact View.read_writes_of_cover _ _ _ _ _ (scover7_A_0 c _ _ _ _ _ _ _ _ _ _ _ _ _ _ _ _ _ _ _ _ _ _)
          iexact Hr
        iexact Hg
      isplitl [Hw]; · iexact Hw
      isplitl [Ha]; · iexact Ha
      isplitl [Hb]; · iexact Hb
      isplitl [Hc]; · iexact Hc
      isplitl [Hd]; · iexact Hd
      isplitl [He]; · iexact He
      iexists _; iexact Ho
  · have hl : t.val % 2 = 1 := by omega
    rw [show (dat7 V c).leavesExact 0 t = owns (c : Thread nD τ) (ms7_0 t) fullShare ((dat7 V c).after 0 t) from by
      unfold Dat.leavesExact; rw [liveAt7_0 t], after7_0]
    rw [show (dat7 V c).leavesExact 1 t = owns (c : Thread nD τ) (ms7_1 t) fullShare ((dat7 V c).after 1 t) from by
      unfold Dat.leavesExact; rw [liveAt7_1 t], after7_1]
    rw [show (dat7 V c).leavesExact 2 t = owns (c : Thread nD τ) (ms7_2 t) fullShare ((dat7 V c).after 2 t) from by
      unfold Dat.leavesExact; rw [liveAt7_2 t], after7_2]
    rw [show (dat7 V c).leavesExact 3 t = owns (c : Thread nD τ) (ms7_3 t) fullShare ((dat7 V c).after 3 t) from by
      unfold Dat.leavesExact; rw [liveAt7_3 t], after7_3]
    rw [show (dat7 V c).leavesExact 4 t = owns (c : Thread nD τ) (ms7_4 t) fullShare ((dat7 V c).after 4 t) from by
      unfold Dat.leavesExact; rw [liveAt7_4 t], after7_4]
    rw [show (dat7 V c).leavesExact 5 t = owns (c : Thread nD τ) (ms7_5 t) fullShare ((dat7 V c).after 5 t) from by
      unfold Dat.leavesExact; rw [liveAt7_5_C t (fun h => hz ((hcond7_0 t).mp h)) ((hcond7_1 t).mpr hl)], after7_5]
    rw [outsAt7_C V c t hz hl]
    unfold out7_C_5 sout7_C_0; (try dsimp only)
    have hzero : t.val ≠ 0 := by omega
    · rw [PhiS7_castSucc V c t, PhiS7_pos V c _ _ hzero]
      iintro ⟨⟨⟨Hs, Hr⟩, Hg⟩, Hw, ⟨%da, Ha⟩, ⟨%db, Hb⟩, ⟨%dc, Hc⟩, ⟨%dd, Hd⟩, ⟨%de, He⟩, ⟨%dq, Ho⟩⟩
      iapply ((kernelRun7_C c (grid7.coords t) _ _ _ _ _ _ _ _ _ _ _ _ _ _ (fun h => hz ((hcond7_0 t).mp h)) ((hcond7_1 t).mpr hl) (iblk7 V c 0 t) (iblk7 V c 1 t) (iblk7 V c 2 t) (iblk7 V c 3 t) (iblk7 V c 4 t) _).2.2 Set.univ _)
      isplitl [Ha]; · iexact Ha
      isplitl [Hb]; · iexact Hb
      isplitl [Hc]; · iexact Hc
      isplitl [Hd]; · iexact Hd
      isplitl [He]; · iexact He
      isplitl [Ho]; · iexists _; iexact Ho
      isplitl [Hs]; · iexact Hs
      iintro ⟨Ha, Hb, Hc, Hd, He, ⟨%eo, Ho⟩, ⟨%es, Hs⟩⟩
      isplitl [Hs Hr Hg]
      · isplitl [Hs Hr]
        · isplitl [Hs]
          · unfold owns; iexists _; isplitr
            swap; · iexact Hs
            ipureintro; exact View.read_writes_of_cover _ _ _ _ _ (scover7_C_0 c _ _ _ _ _ _ _ _ _ _ _ _ _ _ _ _ _ _ _ _ _ _ _)
          iexact Hr
        iexact Hg
      isplitl [Hw]; · iexact Hw
      isplitl [Ha]; · iexact Ha
      isplitl [Hb]; · iexact Hb
      isplitl [Hc]; · iexact Hc
      isplitl [Hd]; · iexact Hd
      isplitl [He]; · iexact He
      unfold owns; iexists _; isplitr
      swap; · iexact Ho
      ipureintro; exact View.read_writes_of_cover _ _ _ _ _ (cover7_C_5 c _ _ _ _ _ _ _ _ _ _ _ _ _ _ _ _ _ _ _ _ _ _ _)

/-- The library's body obligation, at every point. -/
theorem body_obligation7 (c : Dev nD) : BodyObligation (dat7 (F := F) V c) (defs₀ (F := F)) Variants.none () Set.univ := fun t => by
  rw [bigSep_W7, bigSep_W7]
  exact sound_body7 V c t

/-- What the launch hands the region is the invariant before the first point. -/
theorem hin7 (c : Dev nD) : Pipeline.ΦA spec7 c ⊢ (dat7 V c).Φ 0 := by
  rw [show (dat7 V c).Φ 0 = PhiS7 V c 0 (Nat.zero_le _) from rfl, PhiS7_zero V c 0 _ rfl]
  try exact Idealize.SL.BI.Entails.refl _

/-- After any point but the first the invariant gives the launch's back: the accumulator's named contents are forgotten. -/
theorem Phi_out7 (c : Dev nD) (t : Fin (cfg7.N + 1)) (ht : t.val ≠ 0) : (dat7 V c).Φ t ⊢ Pipeline.ΦA spec7 c := by
  rw [show (dat7 V c).Φ t = PhiS7 V c t.val (Nat.le_of_lt_succ t.isLt) from rfl, PhiS7_pos V c _ _ ht, PhiA7_eq]
  iintro ⟨⟨Hs, Hr⟩, Hg⟩
  isplitl [Hs Hr]
  · isplitl [Hs]
    · iexists _; iexact Hs
    iexact Hr
  iexact Hg

/-- The same after the last point. -/
theorem hout7 (c : Dev nD) : (dat7 V c).Φ (Fin.last cfg7.N) ⊢ Pipeline.ΦA spec7 c :=
  Phi_out7 V c _ (by rw [Fin.val_last]; have : cfg7.N = 8 := N_7; omega)

end Region

end Cert.Kernel.Hand

end
-- ==== Proof.K.Reg8Runs.lean ====
import proofs.«181597_j77979426226450_2_alg».proof.Proof.Gen.Kernel.Launch
import proofs.«181597_j77979426226450_2_alg».proof.Proof.Gen.Kernel.Skeleton
import proofs.«181597_j77979426226450_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of large extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # REGION 8: what the two cases' runs share -/

/-! ## The windows' blocks -/

/-- Window `w`'s block at point `t`, read off its array as the region finds it (`V`). -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- Input window 0's current staging buffer holds its block at every point, fetched there or not, for ANY proof
    data whose array is `V`'s (`hA`) and whose body leaves the block in place (`hafter`): unfetched, the block
    index has not moved since the fetch; the window is uncut and never idle. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)

/-- Input window 1's current staging buffer holds its block at every point, fetched there or not, for ANY proof
    data whose array is `V`'s (`hA`) and whose body leaves the block in place (`hafter`): unfetched, the block
    index has not moved since the fetch; the window is uncut and never idle. -/
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

/-- Input window 2's current staging buffer holds its block at every point, fetched there or not, for ANY proof
    data whose array is `V`'s (`hA`) and whose body leaves the block in place (`hafter`): unfetched, the block
    index has not moved since the fetch; the window is uncut and never idle. -/
theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)

/-- Input window 3's current staging buffer holds its block at every point, fetched there or not, for ANY proof
    data whose array is `V`'s (`hA`) and whose body leaves the block in place (`hafter`): unfetched, the block
    index has not moved since the fetch; the window is uncut and never idle. -/
theorem before8_3_of {c : Dev nD} (dat : Dat τ (Elt F) Unit ℕ (UR sig nD τ) ℕ cfg8 c) (hA : dat.A 3 = V c (Pipeline.arrRef spec8 3))
    (hafter : ∀ t, dat.after 3 t = iblk8 V c 3 t) (t : Fin cfg8.N) (d) : dat.before 3 t d = iblk8 V c 3 t :=
  (dat.before_in_eq_fetched 3 rfl (fun _ => rfl) (fun _ _ _ => rfl) (fun t => by rw [hafter]; unfold Dat.blockOf iblk8; rw [hA]; try rfl) t d).trans
    (by unfold Dat.fetched Dat.blockOf iblk8; rw [hA]; try rfl)

/-! ## The body's branch conditions -/

/-- The condition of the body's first conditional (the inner grid coordinate is 0), from the grid coordinates. -/
abbrev cond8_0 (i : grid8.Coords) : Prop := (Scalar.cmpi .ne (Scalar.extui (Scalar.cmpi .eq (BitVec.ofNat 32 (i 1).val) 0#32)) 0#32) = 1#1
/-- It holds at the even points — decided over the grid. -/
theorem hcond8_0 : ∀ t : Fin cfg8.N, cond8_0 (grid8.coords t) ↔ t.val % 2 = 0 :=
  (by decide +kernel : ∀ t : Fin grid8.N, cond8_0 (grid8.coords t) ↔ t.val % 2 = 0)

/-- The condition of the body's second conditional (the inner grid coordinate is the last), from the grid coordinates. -/
abbrev cond8_1 (i : grid8.Coords) : Prop := k8_cond2 i = 1#1
/-- It holds at the odd points — decided over the grid. -/
theorem hcond8_1 : ∀ t : Fin cfg8.N, cond8_1 (grid8.coords t) ↔ t.val % 2 = 1 :=
  (by decide +kernel : ∀ t : Fin grid8.N, cond8_1 (grid8.coords t) ↔ t.val % 2 = 1)

/-! ## Where the windows are idle -/

/-- Windows 0 to 3 are never idle (inputs). -/
theorem liveAt8_0 : ∀ t : Fin cfg8.N, cfg8.idle 0 (grid8.coords t) = false := by decide +kernel
theorem liveAt8_1 : ∀ t : Fin cfg8.N, cfg8.idle 1 (grid8.coords t) = false := by decide +kernel
theorem liveAt8_2 : ∀ t : Fin cfg8.N, cfg8.idle 2 (grid8.coords t) = false := by decide +kernel
theorem liveAt8_3 : ∀ t : Fin cfg8.N, cfg8.idle 3 (grid8.coords t) = false := by decide +kernel
/-- At the points of case A output 4 is idle: the case stores nothing into it. -/
theorem idleAt8_4_A : ∀ t : Fin cfg8.N, cond8_0 (grid8.coords t) → ¬cond8_1 (grid8.coords t) → cfg8.idle 4 (grid8.coords t) = true := by decide +kernel
/-- At the points of case A output 4's block is not written back. -/
theorem noFlush8_4_A : ∀ t : Fin cfg8.N, cond8_0 (grid8.coords t) → ¬cond8_1 (grid8.coords t) → (cfg8.win 4).flush t = false := by decide +kernel
/-- At the points of case C output 4 is live: the case stores into it. -/
theorem liveAt8_4_C : ∀ t : Fin cfg8.N, ¬cond8_0 (grid8.coords t) → cond8_1 (grid8.coords t) → cfg8.idle 4 (grid8.coords t) = false := by decide +kernel

/-! ## The kernel body on any staging memrefs -/

/-- One staging buffer of output window 4, through which its contents are stated (the choice does not matter). -/
abbrev VO8_4 : View sig .tc .vmem S1024x384 .f32 := (Memref.whole cc8_stg4_0 : Memref sig .tc .vmem S1024x384 .f32).view
/-- Each window's current staging memref at point `t`, and its wholeness. -/
abbrev ms8_0 (t : Fin cfg8.N) : Memref sig .tc .vmem S2048x1024 .bf16 := win8_0.stage (cfg8.slots t 0)
abbrev hs8_0 (t : Fin cfg8.N) : (ms8_0 t).IsWhole := hstage8_0 ((cfg8.slots t 0).cast nbuf8_0)
abbrev ms8_1 (t : Fin cfg8.N) : Memref sig .tc .vmem S2048x1024 .bf16 := win8_1.stage (cfg8.slots t 1)
abbrev hs8_1 (t : Fin cfg8.N) : (ms8_1 t).IsWhole := hstage8_1 ((cfg8.slots t 1).cast nbuf8_1)
abbrev ms8_2 (t : Fin cfg8.N) : Memref sig .tc .vmem S2048x128 .f32 := win8_2.stage (cfg8.slots t 2)
abbrev hs8_2 (t : Fin cfg8.N) : (ms8_2 t).IsWhole := hstage8_2 ((cfg8.slots t 2).cast nbuf8_2)
abbrev ms8_3 (t : Fin cfg8.N) : Memref sig .tc .vmem S1024x128 .f32 := win8_3.stage (cfg8.slots t 3)
abbrev hs8_3 (t : Fin cfg8.N) : (ms8_3 t).IsWhole := hstage8_3 ((cfg8.slots t 3).cast nbuf8_3)
abbrev ms8_4 (t : Fin cfg8.N) : Memref sig .tc .vmem S1024x384 .f32 := win8_4.stage (cfg8.slots t 4)
abbrev hs8_4 (t : Fin cfg8.N) : (ms8_4 t).IsWhole := hstage8_4 ((cfg8.slots t 4).cast nbuf8_4)
/-- The scratch operands: whole scoped buffers of the kernel's own, passed beside the windows. -/
abbrev scM8_0 : Memref sig .tc .vmem S1024x128 .f32 := Memref.whole cc8_scratch0
abbrev scM8_1 : Memref sig .tc .vmem S1024x128 .f32 := Memref.whole cc8_scratch1
/-- The two scratch accumulators the kernel carries between points, as views: what they hold is stated through these. -/
abbrev VS8_0 : View sig .tc .vmem S1024x128 .f32 := scM8_0.view
abbrev VS8_1 : View sig .tc .vmem S1024x128 .f32 := scM8_1.view

/-- The region invariant with the two scratch operands as memrefs owned at some contents, every other scoped buffer
    that is no staging buffer left unopened: what the body obligation hands the run and takes back. -/
theorem PhiA8_eq (c : Dev nD) :
    (Pipeline.ΦA spec8 c : sProp 𝕄)
      = iprop(iprop(iprop((∃ d, owns (c : Thread nD τ) scM8_0 fullShare d) ∗ (∃ d, owns (c : Thread nD τ) scM8_1 fullShare d))
            ∗ Pipeline.scopedRestBut (Ix := Unit) (Name := ℕ) (U := UR sig nD τ) (Lvl := ℕ) (Val := Elt F) spec8 c [cc8_scratch0, cc8_scratch1])
          ∗ (∃ r, prngReg c r)) := by
  unfold Pipeline.ΦA; rw [scopedRest8_split]; simp only [scM8_0, scM8_1, owns_whole]; try rfl

end Cert.Kernel.Hand

end
-- ==== Proof.K.Reg8RunA.lean ====
import proofs.«181597_j77979426226450_2_alg».proof.Proof.K.Reg8Runs

-- membership in a rectangle of large extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

-- (the run's proof term is large: the definition's epilogue walks it past the default budget)
set_option maxHeartbeats 1000000 in
/-- What the body's stores leave in the output's staging memref and in the two scratch accumulators, as pieces (last
    first) IN CASE A (first conditional taken, second not: the even points), WITH the proof that on whole memrefs —
    the inputs' at their contents, the output's (no store: the window idle and not written back at the case's points)
    at contents `xi4` handed back untouched, the two scratch accumulators at anything (the case zeroes them before it
    reads them) — the body runs to the continuation holding the inputs' as they were and each accumulator with its
    pieces written. The pieces are the witness the run finds. -/
noncomputable def kernelRun8_A (c : Dev nD) (i : grid8.Coords) (arg2 : Memref sig .tc .vmem S2048x1024 .bf16) (harg2 : arg2.IsWhole) (arg3 : Memref sig .tc .vmem S2048x1024 .bf16) (harg3 : arg3.IsWhole) (arg4 : Memref sig .tc .vmem S2048x128 .f32) (harg4 : arg4.IsWhole) (arg5 : Memref sig .tc .vmem S1024x128 .f32) (harg5 : arg5.IsWhole) (arg6 : Memref sig .tc .vmem S1024x384 .f32) (harg6 : arg6.IsWhole) (argS0 : Memref sig .tc .vmem S1024x128 .f32) (hargS0 : argS0.IsWhole) (argS1 : Memref sig .tc .vmem S1024x128 .f32) (hargS1 : argS1.IsWhole) (hc0 : cond8_0 i) (hc1 : ¬cond8_1 i)
    (x0 : Vec F S2048x1024 .bf16) (x1 : Vec F S2048x1024 .bf16) (x2 : Vec F S2048x128 .f32) (x3 : Vec F S1024x128 .f32) :
    Σ' (L4 : List (View.Piece (Elt F) S1024x384 .f32)) (LS0 : List (View.Piece (Elt F) S1024x128 .f32)), { LS1 : List (View.Piece (Elt F) S1024x128 .f32) //
      ∀ (xi4 : Vec F S1024x384 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) argS0 fullShare d) ∗ (∃ d, owns (c : Thread nD τ) argS1 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, argS0.view.loc (c : Thread nD τ) ↦[argS0.view.set]{fullShare} argS0.view.writes (Elt F) f LS0) ∗ (∃ f, argS1.view.loc (c : Thread nD τ) ↦[argS1.view.set]{fullShare} argS1.view.writes (Elt F) f LS1)) -∗ K ⟨⟩))
          ⊢ wp frame (wpE (defs₀ (F := F)) Variants.none c none) E (cc8__final_kernel i arg2 harg2 arg3 harg3 arg4 harg4 arg5 harg5 arg6 harg6 argS0 hargS0 argS1 hargS1) K } := by
  refine ⟨[], ?_, ?_, fun xi4 E K => ?run⟩
  case run =>
    simp only [cc8__final_kernel_eq_skeleton]; unfold cc8__final_kernel_skel
    simp only [k8_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    iexists _; iexact HS1

end Cert.Kernel.Hand

end
-- ==== Proof.K.Reg8RunC.lean ====
import proofs.«181597_j77979426226450_2_alg».proof.Proof.K.Reg8RunA

-- membership in a rectangle of large extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

-- (the run's proof term is large: the definition's epilogue walks it past the default budget)
set_option maxHeartbeats 1000000 in
/-- What the body's stores leave in the output's staging memref and in the two scratch accumulators, as pieces (last
    first) IN CASE C (first conditional not taken, second taken: the odd points), WITH the proof that on whole memrefs —
    the inputs' at their contents, the output's at anything, the two scratch accumulators at the contents the point
    before left (`xs0`, `xs1`) — the body runs to the continuation holding the inputs' as they were, each accumulator
    with its pieces written and the output's buffer with its three column-block pieces written. The pieces are the
    witness the run finds. -/
noncomputable def kernelRun8_C (c : Dev nD) (i : grid8.Coords) (arg2 : Memref sig .tc .vmem S2048x1024 .bf16) (harg2 : arg2.IsWhole) (arg3 : Memref sig .tc .vmem S2048x1024 .bf16) (harg3 : arg3.IsWhole) (arg4 : Memref sig .tc .vmem S2048x128 .f32) (harg4 : arg4.IsWhole) (arg5 : Memref sig .tc .vmem S1024x128 .f32) (harg5 : arg5.IsWhole) (arg6 : Memref sig .tc .vmem S1024x384 .f32) (harg6 : arg6.IsWhole) (argS0 : Memref sig .tc .vmem S1024x128 .f32) (hargS0 : argS0.IsWhole) (argS1 : Memref sig .tc .vmem S1024x128 .f32) (hargS1 : argS1.IsWhole) (hc0 : ¬cond8_0 i) (hc1 : cond8_1 i)
    (x0 : Vec F S2048x1024 .bf16) (x1 : Vec F S2048x1024 .bf16) (x2 : Vec F S2048x128 .f32) (x3 : Vec F S1024x128 .f32) (xs0 : Vec F S1024x128 .f32) (xs1 : Vec F S1024x128 .f32) :
    Σ' (L4 : List (View.Piece (Elt F) S1024x384 .f32)) (LS0 : List (View.Piece (Elt F) S1024x128 .f32)), { LS1 : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) argS0 fullShare xs0 ∗ owns (c : Thread nD τ) argS1 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, argS0.view.loc (c : Thread nD τ) ↦[argS0.view.set]{fullShare} argS0.view.writes (Elt F) f LS0) ∗ (∃ f, argS1.view.loc (c : Thread nD τ) ↦[argS1.view.set]{fullShare} argS1.view.writes (Elt F) f LS1)) -∗ K ⟨⟩))
          ⊢ wp frame (wpE (defs₀ (F := F)) Variants.none c none) E (cc8__final_kernel i arg2 harg2 arg3 harg3 arg4 harg4 arg5 harg5 arg6 harg6 argS0 hargS0 argS1 hargS1) K } := by
  refine ⟨?_, ?_, ?_, fun E K => ?run⟩
  case run =>
    simp only [cc8__final_kernel_eq_skeleton]; unfold cc8__final_kernel_skel
    simp only [k8_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3
    obtain rfl := hargS0.eq_unread hfs0; obtain rfl := hargS1.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [HS0]; · iexists _; iexact HS0
    iexists _; iexact HS1

end Cert.Kernel.Hand

end
-- ==== Proof.K.Reg8.lean ====
import proofs.«181597_j77979426226450_2_alg».proof.Proof.K.Reg8RunC

-- membership in a rectangle of large extents recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # REGION 8: what its buffers hold case by case and point by point, the proof data, the body obligation -/

/-- Case A stores nothing into output 4 (the window is idle at its points and not written back there): no pieces —
    a placeholder (junk read back) that nothing consults. -/
def out8_A_4 (c : Dev nD) (i : grid8.Coords) (arg2 : Memref sig .tc .vmem S2048x1024 .bf16) (harg2 : arg2.IsWhole) (arg3 : Memref sig .tc .vmem S2048x1024 .bf16) (harg3 : arg3.IsWhole) (arg4 : Memref sig .tc .vmem S2048x128 .f32) (harg4 : arg4.IsWhole) (arg5 : Memref sig .tc .vmem S1024x128 .f32) (harg5 : arg5.IsWhole) (arg6 : Memref sig .tc .vmem S1024x384 .f32) (harg6 : arg6.IsWhole) (argS0 : Memref sig .tc .vmem S1024x128 .f32) (hargS0 : argS0.IsWhole) (argS1 : Memref sig .tc .vmem S1024x128 .f32) (hargS1 : argS1.IsWhole) (hc0 : cond8_0 i) (hc1 : ¬cond8_1 i)
    (x0 : Vec F S2048x1024 .bf16) (x1 : Vec F S2048x1024 .bf16) (x2 : Vec F S2048x128 .f32) (x3 : Vec F S1024x128 .f32) : Vec F S1024x384 .f32 :=
  VO8_4.read (Elt F) (VO8_4.writes (Elt F) VO8_4.junk (kernelRun8_A c i arg2 harg2 arg3 harg3 arg4 harg4 arg5 harg5 arg6 harg6 argS0 hargS0 argS1 hargS1 hc0 hc1 x0 x1 x2 x3).1)

/-- Case A's pieces for the first scratch accumulator cover it: the zeroing store and the accumulating store, each whole. -/
theorem scover8_A_0 (c : Dev nD) (i : grid8.Coords) (arg2 : Memref sig .tc .vmem S2048x1024 .bf16) (harg2 : arg2.IsWhole) (arg3 : Memref sig .tc .vmem S2048x1024 .bf16) (harg3 : arg3.IsWhole) (arg4 : Memref sig .tc .vmem S2048x128 .f32) (harg4 : arg4.IsWhole) (arg5 : Memref sig .tc .vmem S1024x128 .f32) (harg5 : arg5.IsWhole) (arg6 : Memref sig .tc .vmem S1024x384 .f32) (harg6 : arg6.IsWhole) (argS0 : Memref sig .tc .vmem S1024x128 .f32) (hargS0 : argS0.IsWhole) (argS1 : Memref sig .tc .vmem S1024x128 .f32) (hargS1 : argS1.IsWhole) (hc0 : cond8_0 i) (hc1 : ¬cond8_1 i)
    (x0 : Vec F S2048x1024 .bf16) (x1 : Vec F S2048x1024 .bf16) (x2 : Vec F S2048x128 .f32) (x3 : Vec F S1024x128 .f32) (y : S1024x128.Idx) :
    ∃ pc ∈ (kernelRun8_A c i arg2 harg2 arg3 harg3 arg4 harg4 arg5 harg5 arg6 harg6 argS0 hargS0 argS1 hargS1 hc0 hc1 x0 x1 x2 x3).2.1, y ∈ pc.1.set :=
  View.cover_of_tiledL (kernelRun8_A c i arg2 harg2 arg3 harg3 arg4 harg4 arg5 harg5 arg6 harg6 argS0 hargS0 argS1 hargS1 hc0 hc1 x0 x1 x2 x3).2.1 S1024x128.size (by sl_kernel_rfl) y

/-- What case A leaves in the first scratch accumulator: its pieces read back over junk. -/
def sout8_A_0 (c : Dev nD) (i : grid8.Coords) (arg2 : Memref sig .tc .vmem S2048x1024 .bf16) (harg2 : arg2.IsWhole) (arg3 : Memref sig .tc .vmem S2048x1024 .bf16) (harg3 : arg3.IsWhole) (arg4 : Memref sig .tc .vmem S2048x128 .f32) (harg4 : arg4.IsWhole) (arg5 : Memref sig .tc .vmem S1024x128 .f32) (harg5 : arg5.IsWhole) (arg6 : Memref sig .tc .vmem S1024x384 .f32) (harg6 : arg6.IsWhole) (argS0 : Memref sig .tc .vmem S1024x128 .f32) (hargS0 : argS0.IsWhole) (argS1 : Memref sig .tc .vmem S1024x128 .f32) (hargS1 : argS1.IsWhole) (hc0 : cond8_0 i) (hc1 : ¬cond8_1 i)
    (x0 : Vec F S2048x1024 .bf16) (x1 : Vec F S2048x1024 .bf16) (x2 : Vec F S2048x128 .f32) (x3 : Vec F S1024x128 .f32) : Vec F S1024x128 .f32 :=
  VS8_0.read (Elt F) (VS8_0.writes (Elt F) VS8_0.junk (kernelRun8_A c i arg2 harg2 arg3 harg3 arg4 harg4 arg5 harg5 arg6 harg6 argS0 hargS0 argS1 hargS1 hc0 hc1 x0 x1 x2 x3).2.1)

/-- Case A's pieces for the second scratch accumulator cover it. -/
theorem scover8_A_1 (c : Dev nD) (i : grid8.Coords) (arg2 : Memref sig .tc .vmem S2048x1024 .bf16) (harg2 : arg2.IsWhole) (arg3 : Memref sig .tc .vmem S2048x1024 .bf16) (harg3 : arg3.IsWhole) (arg4 : Memref sig .tc .vmem S2048x128 .f32) (harg4 : arg4.IsWhole) (arg5 : Memref sig .tc .vmem S1024x128 .f32) (harg5 : arg5.IsWhole) (arg6 : Memref sig .tc .vmem S1024x384 .f32) (harg6 : arg6.IsWhole) (argS0 : Memref sig .tc .vmem S1024x128 .f32) (hargS0 : argS0.IsWhole) (argS1 : Memref sig .tc .vmem S1024x128 .f32) (hargS1 : argS1.IsWhole) (hc0 : cond8_0 i) (hc1 : ¬cond8_1 i)
    (x0 : Vec F S2048x1024 .bf16) (x1 : Vec F S2048x1024 .bf16) (x2 : Vec F S2048x128 .f32) (x3 : Vec F S1024x128 .f32) (y : S1024x128.Idx) :
    ∃ pc ∈ (kernelRun8_A c i arg2 harg2 arg3 harg3 arg4 harg4 arg5 harg5 arg6 harg6 argS0 hargS0 argS1 hargS1 hc0 hc1 x0 x1 x2 x3).2.2.1, y ∈ pc.1.set :=
  View.cover_of_tiledL (kernelRun8_A c i arg2 harg2 arg3 harg3 arg4 harg4 arg5 harg5 arg6 harg6 argS0 hargS0 argS1 hargS1 hc0 hc1 x0 x1 x2 x3).2.2.1 S1024x128.size (by sl_kernel_rfl) y

/-- What case A leaves in the second scratch accumulator. -/
def sout8_A_1 (c : Dev nD) (i : grid8.Coords) (arg2 : Memref sig .tc .vmem S2048x1024 .bf16) (harg2 : arg2.IsWhole) (arg3 : Memref sig .tc .vmem S2048x1024 .bf16) (harg3 : arg3.IsWhole) (arg4 : Memref sig .tc .vmem S2048x128 .f32) (harg4 : arg4.IsWhole) (arg5 : Memref sig .tc .vmem S1024x128 .f32) (harg5 : arg5.IsWhole) (arg6 : Memref sig .tc .vmem S1024x384 .f32) (harg6 : arg6.IsWhole) (argS0 : Memref sig .tc .vmem S1024x128 .f32) (hargS0 : argS0.IsWhole) (argS1 : Memref sig .tc .vmem S1024x128 .f32) (hargS1 : argS1.IsWhole) (hc0 : cond8_0 i) (hc1 : ¬cond8_1 i)
    (x0 : Vec F S2048x1024 .bf16) (x1 : Vec F S2048x1024 .bf16) (x2 : Vec F S2048x128 .f32) (x3 : Vec F S1024x128 .f32) : Vec F S1024x128 .f32 :=
  VS8_1.read (Elt F) (VS8_1.writes (Elt F) VS8_1.junk (kernelRun8_A c i arg2 harg2 arg3 harg3 arg4 harg4 arg5 harg5 arg6 harg6 argS0 hargS0 argS1 hargS1 hc0 hc1 x0 x1 x2 x3).2.2.1)

/-- Case C's pieces for output 4 tile its block: three column blocks of 1024x128 side by side in 1024x384. -/
theorem cover8_C_4 (c : Dev nD) (i : grid8.Coords) (arg2 : Memref sig .tc .vmem S2048x1024 .bf16) (harg2 : arg2.IsWhole) (arg3 : Memref sig .tc .vmem S2048x1024 .bf16) (harg3 : arg3.IsWhole) (arg4 : Memref sig .tc .vmem S2048x128 .f32) (harg4 : arg4.IsWhole) (arg5 : Memref sig .tc .vmem S1024x128 .f32) (harg5 : arg5.IsWhole) (arg6 : Memref sig .tc .vmem S1024x384 .f32) (harg6 : arg6.IsWhole) (argS0 : Memref sig .tc .vmem S1024x128 .f32) (hargS0 : argS0.IsWhole) (argS1 : Memref sig .tc .vmem S1024x128 .f32) (hargS1 : argS1.IsWhole) (hc0 : ¬cond8_0 i) (hc1 : cond8_1 i)
    (x0 : Vec F S2048x1024 .bf16) (x1 : Vec F S2048x1024 .bf16) (x2 : Vec F S2048x128 .f32) (x3 : Vec F S1024x128 .f32) (xs0 : Vec F S1024x128 .f32) (xs1 : Vec F S1024x128 .f32) (y : S1024x384.Idx) :
    ∃ pc ∈ (kernelRun8_C c i arg2 harg2 arg3 harg3 arg4 harg4 arg5 harg5 arg6 harg6 argS0 hargS0 argS1 hargS1 hc0 hc1 x0 x1 x2 x3 xs0 xs1).1, y ∈ pc.1.set :=
  View.cover_of_tiledL (kernelRun8_C c i arg2 harg2 arg3 harg3 arg4 harg4 arg5 harg5 arg6 harg6 argS0 hargS0 argS1 hargS1 hc0 hc1 x0 x1 x2 x3 xs0 xs1).1 S1024x128.size (by sl_kernel_rfl) y

/-- What case C leaves in output 4's staging buffer: its pieces read back over junk. -/
def out8_C_4 (c : Dev nD) (i : grid8.Coords) (arg2 : Memref sig .tc .vmem S2048x1024 .bf16) (harg2 : arg2.IsWhole) (arg3 : Memref sig .tc .vmem S2048x1024 .bf16) (harg3 : arg3.IsWhole) (arg4 : Memref sig .tc .vmem S2048x128 .f32) (harg4 : arg4.IsWhole) (arg5 : Memref sig .tc .vmem S1024x128 .f32) (harg5 : arg5.IsWhole) (arg6 : Memref sig .tc .vmem S1024x384 .f32) (harg6 : arg6.IsWhole) (argS0 : Memref sig .tc .vmem S1024x128 .f32) (hargS0 : argS0.IsWhole) (argS1 : Memref sig .tc .vmem S1024x128 .f32) (hargS1 : argS1.IsWhole) (hc0 : ¬cond8_0 i) (hc1 : cond8_1 i)
    (x0 : Vec F S2048x1024 .bf16) (x1 : Vec F S2048x1024 .bf16) (x2 : Vec F S2048x128 .f32) (x3 : Vec F S1024x128 .f32) (xs0 : Vec F S1024x128 .f32) (xs1 : Vec F S1024x128 .f32) : Vec F S1024x384 .f32 :=
  VO8_4.read (Elt F) (VO8_4.writes (Elt F) VO8_4.junk (kernelRun8_C c i arg2 harg2 arg3 harg3 arg4 harg4 arg5 harg5 arg6 harg6 argS0 hargS0 argS1 hargS1 hc0 hc1 x0 x1 x2 x3 xs0 xs1).1)

/-- Case C's pieces for the first scratch accumulator cover it: the accumulating store, whole. -/
theorem scover8_C_0 (c : Dev nD) (i : grid8.Coords) (arg2 : Memref sig .tc .vmem S2048x1024 .bf16) (harg2 : arg2.IsWhole) (arg3 : Memref sig .tc .vmem S2048x1024 .bf16) (harg3 : arg3.IsWhole) (arg4 : Memref sig .tc .vmem S2048x128 .f32) (harg4 : arg4.IsWhole) (arg5 : Memref sig .tc .vmem S1024x128 .f32) (harg5 : arg5.IsWhole) (arg6 : Memref sig .tc .vmem S1024x384 .f32) (harg6 : arg6.IsWhole) (argS0 : Memref sig .tc .vmem S1024x128 .f32) (hargS0 : argS0.IsWhole) (argS1 : Memref sig .tc .vmem S1024x128 .f32) (hargS1 : argS1.IsWhole) (hc0 : ¬cond8_0 i) (hc1 : cond8_1 i)
    (x0 : Vec F S2048x1024 .bf16) (x1 : Vec F S2048x1024 .bf16) (x2 : Vec F S2048x128 .f32) (x3 : Vec F S1024x128 .f32) (xs0 : Vec F S1024x128 .f32) (xs1 : Vec F S1024x128 .f32) (y : S1024x128.Idx) :
    ∃ pc ∈ (kernelRun8_C c i arg2 harg2 arg3 harg3 arg4 harg4 arg5 harg5 arg6 harg6 argS0 hargS0 argS1 hargS1 hc0 hc1 x0 x1 x2 x3 xs0 xs1).2.1, y ∈ pc.1.set :=
  View.cover_of_tiledL (kernelRun8_C c i arg2 harg2 arg3 harg3 arg4 harg4 arg5 harg5 arg6 harg6 argS0 hargS0 argS1 hargS1 hc0 hc1 x0 x1 x2 x3 xs0 xs1).2.1 S1024x128.size (by sl_kernel_rfl) y

/-- What case C leaves in the first scratch accumulator. -/
def sout8_C_0 (c : Dev nD) (i : grid8.Coords) (arg2 : Memref sig .tc .vmem S2048x1024 .bf16) (harg2 : arg2.IsWhole) (arg3 : Memref sig .tc .vmem S2048x1024 .bf16) (harg3 : arg3.IsWhole) (arg4 : Memref sig .tc .vmem S2048x128 .f32) (harg4 : arg4.IsWhole) (arg5 : Memref sig .tc .vmem S1024x128 .f32) (harg5 : arg5.IsWhole) (arg6 : Memref sig .tc .vmem S1024x384 .f32) (harg6 : arg6.IsWhole) (argS0 : Memref sig .tc .vmem S1024x128 .f32) (hargS0 : argS0.IsWhole) (argS1 : Memref sig .tc .vmem S1024x128 .f32) (hargS1 : argS1.IsWhole) (hc0 : ¬cond8_0 i) (hc1 : cond8_1 i)
    (x0 : Vec F S2048x1024 .bf16) (x1 : Vec F S2048x1024 .bf16) (x2 : Vec F S2048x128 .f32) (x3 : Vec F S1024x128 .f32) (xs0 : Vec F S1024x128 .f32) (xs1 : Vec F S1024x128 .f32) : Vec F S1024x128 .f32 :=
  VS8_0.read (Elt F) (VS8_0.writes (Elt F) VS8_0.junk (kernelRun8_C c i arg2 harg2 arg3 harg3 arg4 harg4 arg5 harg5 arg6 harg6 argS0 hargS0 argS1 hargS1 hc0 hc1 x0 x1 x2 x3 xs0 xs1).2.1)

/-- Case C's pieces for the second scratch accumulator cover it. -/
theorem scover8_C_1 (c : Dev nD) (i : grid8.Coords) (arg2 : Memref sig .tc .vmem S2048x1024 .bf16) (harg2 : arg2.IsWhole) (arg3 : Memref sig .tc .vmem S2048x1024 .bf16) (harg3 : arg3.IsWhole) (arg4 : Memref sig .tc .vmem S2048x128 .f32) (harg4 : arg4.IsWhole) (arg5 : Memref sig .tc .vmem S1024x128 .f32) (harg5 : arg5.IsWhole) (arg6 : Memref sig .tc .vmem S1024x384 .f32) (harg6 : arg6.IsWhole) (argS0 : Memref sig .tc .vmem S1024x128 .f32) (hargS0 : argS0.IsWhole) (argS1 : Memref sig .tc .vmem S1024x128 .f32) (hargS1 : argS1.IsWhole) (hc0 : ¬cond8_0 i) (hc1 : cond8_1 i)
    (x0 : Vec F S2048x1024 .bf16) (x1 : Vec F S2048x1024 .bf16) (x2 : Vec F S2048x128 .f32) (x3 : Vec F S1024x128 .f32) (xs0 : Vec F S1024x128 .f32) (xs1 : Vec F S1024x128 .f32) (y : S1024x128.Idx) :
    ∃ pc ∈ (kernelRun8_C c i arg2 harg2 arg3 harg3 arg4 harg4 arg5 harg5 arg6 harg6 argS0 hargS0 argS1 hargS1 hc0 hc1 x0 x1 x2 x3 xs0 xs1).2.2.1, y ∈ pc.1.set :=
  View.cover_of_tiledL (kernelRun8_C c i arg2 harg2 arg3 harg3 arg4 harg4 arg5 harg5 arg6 harg6 argS0 hargS0 argS1 hargS1 hc0 hc1 x0 x1 x2 x3 xs0 xs1).2.2.1 S1024x128.size (by sl_kernel_rfl) y

/-- What case C leaves in the second scratch accumulator. -/
def sout8_C_1 (c : Dev nD) (i : grid8.Coords) (arg2 : Memref sig .tc .vmem S2048x1024 .bf16) (harg2 : arg2.IsWhole) (arg3 : Memref sig .tc .vmem S2048x1024 .bf16) (harg3 : arg3.IsWhole) (arg4 : Memref sig .tc .vmem S2048x128 .f32) (harg4 : arg4.IsWhole) (arg5 : Memref sig .tc .vmem S1024x128 .f32) (harg5 : arg5.IsWhole) (arg6 : Memref sig .tc .vmem S1024x384 .f32) (harg6 : arg6.IsWhole) (argS0 : Memref sig .tc .vmem S1024x128 .f32) (hargS0 : argS0.IsWhole) (argS1 : Memref sig .tc .vmem S1024x128 .f32) (hargS1 : argS1.IsWhole) (hc0 : ¬cond8_0 i) (hc1 : cond8_1 i)
    (x0 : Vec F S2048x1024 .bf16) (x1 : Vec F S2048x1024 .bf16) (x2 : Vec F S2048x128 .f32) (x3 : Vec F S1024x128 .f32) (xs0 : Vec F S1024x128 .f32) (xs1 : Vec F S1024x128 .f32) : Vec F S1024x128 .f32 :=
  VS8_1.read (Elt F) (VS8_1.writes (Elt F) VS8_1.junk (kernelRun8_C c i arg2 harg2 arg3 harg3 arg4 harg4 arg5 harg5 arg6 harg6 argS0 hargS0 argS1 hargS1 hc0 hc1 x0 x1 x2 x3 xs0 xs1).2.2.1)

/-! ## What the buffers hold after each point -/

/-- THE ACCUMULATION. What output 4's staging buffer and the two scratch accumulators hold after the body at position
    `n` (a tuple: the output, then the accumulators): the case the closed forms select at `n`, run at the point's
    memrefs and input blocks, in case C the accumulators at what the body left at `n - 1`. An assignment of the
    conditions no point meets is no case. -/
def outsAt8 (c : Dev nD) : (n : ℕ) → n < cfg8.N → Vec F S1024x384 .f32 × Vec F S1024x128 .f32 × Vec F S1024x128 .f32
  | 0, hn => (out8_A_4 c (grid8.coords ⟨0, hn⟩) (ms8_0 ⟨0, hn⟩) (hs8_0 ⟨0, hn⟩) (ms8_1 ⟨0, hn⟩) (hs8_1 ⟨0, hn⟩) (ms8_2 ⟨0, hn⟩) (hs8_2 ⟨0, hn⟩) (ms8_3 ⟨0, hn⟩) (hs8_3 ⟨0, hn⟩) (ms8_4 ⟨0, hn⟩) (hs8_4 ⟨0, hn⟩) scM8_0 (Memref.isWhole_whole _) scM8_1 (Memref.isWhole_whole _) ((hcond8_0 ⟨0, hn⟩).mpr (Nat.zero_mod _)) (fun h => (fun h => by (try dsimp only at h); omega) ((hcond8_1 ⟨0, hn⟩).mp h)) (iblk8 V c 0 ⟨0, hn⟩) (iblk8 V c 1 ⟨0, hn⟩) (iblk8 V c 2 ⟨0, hn⟩) (iblk8 V c 3 ⟨0, hn⟩), sout8_A_0 c (grid8.coords ⟨0, hn⟩) (ms8_0 ⟨0, hn⟩) (hs8_0 ⟨0, hn⟩) (ms8_1 ⟨0, hn⟩) (hs8_1 ⟨0, hn⟩) (ms8_2 ⟨0, hn⟩) (hs8_2 ⟨0, hn⟩) (ms8_3 ⟨0, hn⟩) (hs8_3 ⟨0, hn⟩) (ms8_4 ⟨0, hn⟩) (hs8_4 ⟨0, hn⟩) scM8_0 (Memref.isWhole_whole _) scM8_1 (Memref.isWhole_whole _) ((hcond8_0 ⟨0, hn⟩).mpr (Nat.zero_mod _)) (fun h => (fun h => by (try dsimp only at h); omega) ((hcond8_1 ⟨0, hn⟩).mp h)) (iblk8 V c 0 ⟨0, hn⟩) (iblk8 V c 1 ⟨0, hn⟩) (iblk8 V c 2 ⟨0, hn⟩) (iblk8 V c 3 ⟨0, hn⟩), sout8_A_1 c (grid8.coords ⟨0, hn⟩) (ms8_0 ⟨0, hn⟩) (hs8_0 ⟨0, hn⟩) (ms8_1 ⟨0, hn⟩) (hs8_1 ⟨0, hn⟩) (ms8_2 ⟨0, hn⟩) (hs8_2 ⟨0, hn⟩) (ms8_3 ⟨0, hn⟩) (hs8_3 ⟨0, hn⟩) (ms8_4 ⟨0, hn⟩) (hs8_4 ⟨0, hn⟩) scM8_0 (Memref.isWhole_whole _) scM8_1 (Memref.isWhole_whole _) ((hcond8_0 ⟨0, hn⟩).mpr (Nat.zero_mod _)) (fun h => (fun h => by (try dsimp only at h); omega) ((hcond8_1 ⟨0, hn⟩).mp h)) (iblk8 V c 0 ⟨0, hn⟩) (iblk8 V c 1 ⟨0, hn⟩) (iblk8 V c 2 ⟨0, hn⟩) (iblk8 V c 3 ⟨0, hn⟩))
  | n + 1, hn =>
    if h0 : (n + 1) % 2 = 0 then
      if h1 : (n + 1) % 2 = 1 then
        False.elim (by omega)
      else
        (out8_A_4 c (grid8.coords ⟨n + 1, hn⟩) (ms8_0 ⟨n + 1, hn⟩) (hs8_0 ⟨n + 1, hn⟩) (ms8_1 ⟨n + 1, hn⟩) (hs8_1 ⟨n + 1, hn⟩) (ms8_2 ⟨n + 1, hn⟩) (hs8_2 ⟨n + 1, hn⟩) (ms8_3 ⟨n + 1, hn⟩) (hs8_3 ⟨n + 1, hn⟩) (ms8_4 ⟨n + 1, hn⟩) (hs8_4 ⟨n + 1, hn⟩) scM8_0 (Memref.isWhole_whole _) scM8_1 (Memref.isWhole_whole _) ((hcond8_0 ⟨n + 1, hn⟩).mpr h0) (fun h => h1 ((hcond8_1 ⟨n + 1, hn⟩).mp h)) (iblk8 V c 0 ⟨n + 1, hn⟩) (iblk8 V c 1 ⟨n + 1, hn⟩) (iblk8 V c 2 ⟨n + 1, hn⟩) (iblk8 V c 3 ⟨n + 1, hn⟩), sout8_A_0 c (grid8.coords ⟨n + 1, hn⟩) (ms8_0 ⟨n + 1, hn⟩) (hs8_0 ⟨n + 1, hn⟩) (ms8_1 ⟨n + 1, hn⟩) (hs8_1 ⟨n + 1, hn⟩) (ms8_2 ⟨n + 1, hn⟩) (hs8_2 ⟨n + 1, hn⟩) (ms8_3 ⟨n + 1, hn⟩) (hs8_3 ⟨n + 1, hn⟩) (ms8_4 ⟨n + 1, hn⟩) (hs8_4 ⟨n + 1, hn⟩) scM8_0 (Memref.isWhole_whole _) scM8_1 (Memref.isWhole_whole _) ((hcond8_0 ⟨n + 1, hn⟩).mpr h0) (fun h => h1 ((hcond8_1 ⟨n + 1, hn⟩).mp h)) (iblk8 V c 0 ⟨n + 1, hn⟩) (iblk8 V c 1 ⟨n + 1, hn⟩) (iblk8 V c 2 ⟨n + 1, hn⟩) (iblk8 V c 3 ⟨n + 1, hn⟩), sout8_A_1 c (grid8.coords ⟨n + 1, hn⟩) (ms8_0 ⟨n + 1, hn⟩) (hs8_0 ⟨n + 1, hn⟩) (ms8_1 ⟨n + 1, hn⟩) (hs8_1 ⟨n + 1, hn⟩) (ms8_2 ⟨n + 1, hn⟩) (hs8_2 ⟨n + 1, hn⟩) (ms8_3 ⟨n + 1, hn⟩) (hs8_3 ⟨n + 1, hn⟩) (ms8_4 ⟨n + 1, hn⟩) (hs8_4 ⟨n + 1, hn⟩) scM8_0 (Memref.isWhole_whole _) scM8_1 (Memref.isWhole_whole _) ((hcond8_0 ⟨n + 1, hn⟩).mpr h0) (fun h => h1 ((hcond8_1 ⟨n + 1, hn⟩).mp h)) (iblk8 V c 0 ⟨n + 1, hn⟩) (iblk8 V c 1 ⟨n + 1, hn⟩) (iblk8 V c 2 ⟨n + 1, hn⟩) (iblk8 V c 3 ⟨n + 1, hn⟩))
    else
      if h1 : (n + 1) % 2 = 1 then
        (out8_C_4 c (grid8.coords ⟨n + 1, hn⟩) (ms8_0 ⟨n + 1, hn⟩) (hs8_0 ⟨n + 1, hn⟩) (ms8_1 ⟨n + 1, hn⟩) (hs8_1 ⟨n + 1, hn⟩) (ms8_2 ⟨n + 1, hn⟩) (hs8_2 ⟨n + 1, hn⟩) (ms8_3 ⟨n + 1, hn⟩) (hs8_3 ⟨n + 1, hn⟩) (ms8_4 ⟨n + 1, hn⟩) (hs8_4 ⟨n + 1, hn⟩) scM8_0 (Memref.isWhole_whole _) scM8_1 (Memref.isWhole_whole _) (fun h => h0 ((hcond8_0 ⟨n + 1, hn⟩).mp h)) ((hcond8_1 ⟨n + 1, hn⟩).mpr h1) (iblk8 V c 0 ⟨n + 1, hn⟩) (iblk8 V c 1 ⟨n + 1, hn⟩) (iblk8 V c 2 ⟨n + 1, hn⟩) (iblk8 V c 3 ⟨n + 1, hn⟩) (outsAt8 c n (Nat.lt_of_succ_lt hn)).2.1 (outsAt8 c n (Nat.lt_of_succ_lt hn)).2.2, sout8_C_0 c (grid8.coords ⟨n + 1, hn⟩) (ms8_0 ⟨n + 1, hn⟩) (hs8_0 ⟨n + 1, hn⟩) (ms8_1 ⟨n + 1, hn⟩) (hs8_1 ⟨n + 1, hn⟩) (ms8_2 ⟨n + 1, hn⟩) (hs8_2 ⟨n + 1, hn⟩) (ms8_3 ⟨n + 1, hn⟩) (hs8_3 ⟨n + 1, hn⟩) (ms8_4 ⟨n + 1, hn⟩) (hs8_4 ⟨n + 1, hn⟩) scM8_0 (Memref.isWhole_whole _) scM8_1 (Memref.isWhole_whole _) (fun h => h0 ((hcond8_0 ⟨n + 1, hn⟩).mp h)) ((hcond8_1 ⟨n + 1, hn⟩).mpr h1) (iblk8 V c 0 ⟨n + 1, hn⟩) (iblk8 V c 1 ⟨n + 1, hn⟩) (iblk8 V c 2 ⟨n + 1, hn⟩) (iblk8 V c 3 ⟨n + 1, hn⟩) (outsAt8 c n (Nat.lt_of_succ_lt hn)).2.1 (outsAt8 c n (Nat.lt_of_succ_lt hn)).2.2, sout8_C_1 c (grid8.coords ⟨n + 1, hn⟩) (ms8_0 ⟨n + 1, hn⟩) (hs8_0 ⟨n + 1, hn⟩) (ms8_1 ⟨n + 1, hn⟩) (hs8_1 ⟨n + 1, hn⟩) (ms8_2 ⟨n + 1, hn⟩) (hs8_2 ⟨n + 1, hn⟩) (ms8_3 ⟨n + 1, hn⟩) (hs8_3 ⟨n + 1, hn⟩) (ms8_4 ⟨n + 1, hn⟩) (hs8_4 ⟨n + 1, hn⟩) scM8_0 (Memref.isWhole_whole _) scM8_1 (Memref.isWhole_whole _) (fun h => h0 ((hcond8_0 ⟨n + 1, hn⟩).mp h)) ((hcond8_1 ⟨n + 1, hn⟩).mpr h1) (iblk8 V c 0 ⟨n + 1, hn⟩) (iblk8 V c 1 ⟨n + 1, hn⟩) (iblk8 V c 2 ⟨n + 1, hn⟩) (iblk8 V c 3 ⟨n + 1, hn⟩) (outsAt8 c n (Nat.lt_of_succ_lt hn)).2.1 (outsAt8 c n (Nat.lt_of_succ_lt hn)).2.2)
      else
        False.elim (by omega)

/-- `outsAt8` at a point of case A: that case's contents. -/
theorem outsAt8_A (c : Dev nD) (t : Fin cfg8.N) (h0 : t.val % 2 = 0) (h1 : ¬t.val % 2 = 1) :
    outsAt8 V c t.val t.isLt = (out8_A_4 c (grid8.coords t) (ms8_0 t) (hs8_0 t) (ms8_1 t) (hs8_1 t) (ms8_2 t) (hs8_2 t) (ms8_3 t) (hs8_3 t) (ms8_4 t) (hs8_4 t) scM8_0 (Memref.isWhole_whole _) scM8_1 (Memref.isWhole_whole _) ((hcond8_0 t).mpr h0) (fun h => h1 ((hcond8_1 t).mp h)) (iblk8 V c 0 t) (iblk8 V c 1 t) (iblk8 V c 2 t) (iblk8 V c 3 t), sout8_A_0 c (grid8.coords t) (ms8_0 t) (hs8_0 t) (ms8_1 t) (hs8_1 t) (ms8_2 t) (hs8_2 t) (ms8_3 t) (hs8_3 t) (ms8_4 t) (hs8_4 t) scM8_0 (Memref.isWhole_whole _) scM8_1 (Memref.isWhole_whole _) ((hcond8_0 t).mpr h0) (fun h => h1 ((hcond8_1 t).mp h)) (iblk8 V c 0 t) (iblk8 V c 1 t) (iblk8 V c 2 t) (iblk8 V c 3 t), sout8_A_1 c (grid8.coords t) (ms8_0 t) (hs8_0 t) (ms8_1 t) (hs8_1 t) (ms8_2 t) (hs8_2 t) (ms8_3 t) (hs8_3 t) (ms8_4 t) (hs8_4 t) scM8_0 (Memref.isWhole_whole _) scM8_1 (Memref.isWhole_whole _) ((hcond8_0 t).mpr h0) (fun h => h1 ((hcond8_1 t).mp h)) (iblk8 V c 0 t) (iblk8 V c 1 t) (iblk8 V c 2 t) (iblk8 V c 3 t)) := by
  obtain ⟨n, hn⟩ := t
  cases n with
  | zero => exact rfl
  | succ n => exact (dif_pos h0).trans ((dif_neg h1).trans rfl)

/-- `outsAt8` at a point of case C: that case's contents, over what the point before left. -/
theorem outsAt8_C (c : Dev nD) (t : Fin cfg8.N) (h0 : ¬t.val % 2 = 0) (h1 : t.val % 2 = 1) :
    outsAt8 V c t.val t.isLt = (out8_C_4 c (grid8.coords t) (ms8_0 t) (hs8_0 t) (ms8_1 t) (hs8_1 t) (ms8_2 t) (hs8_2 t) (ms8_3 t) (hs8_3 t) (ms8_4 t) (hs8_4 t) scM8_0 (Memref.isWhole_whole _) scM8_1 (Memref.isWhole_whole _) (fun h => h0 ((hcond8_0 t).mp h)) ((hcond8_1 t).mpr h1) (iblk8 V c 0 t) (iblk8 V c 1 t) (iblk8 V c 2 t) (iblk8 V c 3 t) (outsAt8 V c (t.val - 1) (Nat.lt_of_le_of_lt (Nat.sub_le _ _) t.isLt)).2.1 (outsAt8 V c (t.val - 1) (Nat.lt_of_le_of_lt (Nat.sub_le _ _) t.isLt)).2.2, sout8_C_0 c (grid8.coords t) (ms8_0 t) (hs8_0 t) (ms8_1 t) (hs8_1 t) (ms8_2 t) (hs8_2 t) (ms8_3 t) (hs8_3 t) (ms8_4 t) (hs8_4 t) scM8_0 (Memref.isWhole_whole _) scM8_1 (Memref.isWhole_whole _) (fun h => h0 ((hcond8_0 t).mp h)) ((hcond8_1 t).mpr h1) (iblk8 V c 0 t) (iblk8 V c 1 t) (iblk8 V c 2 t) (iblk8 V c 3 t) (outsAt8 V c (t.val - 1) (Nat.lt_of_le_of_lt (Nat.sub_le _ _) t.isLt)).2.1 (outsAt8 V c (t.val - 1) (Nat.lt_of_le_of_lt (Nat.sub_le _ _) t.isLt)).2.2, sout8_C_1 c (grid8.coords t) (ms8_0 t) (hs8_0 t) (ms8_1 t) (hs8_1 t) (ms8_2 t) (hs8_2 t) (ms8_3 t) (hs8_3 t) (ms8_4 t) (hs8_4 t) scM8_0 (Memref.isWhole_whole _) scM8_1 (Memref.isWhole_whole _) (fun h => h0 ((hcond8_0 t).mp h)) ((hcond8_1 t).mpr h1) (iblk8 V c 0 t) (iblk8 V c 1 t) (iblk8 V c 2 t) (iblk8 V c 3 t) (outsAt8 V c (t.val - 1) (Nat.lt_of_le_of_lt (Nat.sub_le _ _) t.isLt)).2.1 (outsAt8 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's (every scratch at anything);
    afterwards the two accumulators at what the point before left in them, every other scoped buffer that is no
    staging buffer unopened, and the generator register at some state. -/
def PhiS8 (c : Dev nD) : (n : ℕ) → n ≤ cfg8.N → sProp 𝕄
  | 0, _ => Pipeline.ΦA spec8 c
  | n + 1, hn => iprop(iprop(iprop(owns (c : Thread nD τ) scM8_0 fullShare ((outsAt8 V c n hn).2.1) ∗ owns (c : Thread nD τ) scM8_1 fullShare ((outsAt8 V c n hn).2.2))
      ∗ Pipeline.scopedRestBut (Ix := Unit) (Name := ℕ) (U := UR sig nD τ) (Lvl := ℕ) (Val := Elt F) spec8 c [cc8_scratch0, cc8_scratch1]) ∗ (∃ r, prngReg c r))

theorem PhiS8_zero (c : Dev nD) (n : ℕ) (h : n ≤ cfg8.N) (hz : n = 0) : PhiS8 V c n h = Pipeline.ΦA spec8 c := by
  subst hz; rfl

/-- After point `n` (before point `n + 1`): the accumulators at that point's contents. -/
theorem PhiS8_succ (c : Dev nD) (n : ℕ) (hn : n < cfg8.N) :
    PhiS8 V c (n + 1) hn = iprop(iprop(iprop(owns (c : Thread nD τ) scM8_0 fullShare ((outsAt8 V c n hn).2.1) ∗ owns (c : Thread nD τ) scM8_1 fullShare ((outsAt8 V c n hn).2.2))
      ∗ Pipeline.scopedRestBut (Ix := Unit) (Name := ℕ) (U := UR sig nD τ) (Lvl := ℕ) (Val := Elt F) spec8 c [cc8_scratch0, cc8_scratch1]) ∗ (∃ r, prngReg c r)) := rfl

/-- Before a point that is not the first: the accumulators at what the point before left. -/
theorem PhiS8_pos (c : Dev nD) (n : ℕ) (h : n ≤ cfg8.N) (hz : n ≠ 0) :
    PhiS8 V c n h = iprop(iprop(iprop(owns (c : Thread nD τ) scM8_0 fullShare ((outsAt8 V c (n - 1) (by omega)).2.1) ∗ owns (c : Thread nD τ) scM8_1 fullShare ((outsAt8 V c (n - 1) (by omega)).2.2))
      ∗ Pipeline.scopedRestBut (Ix := Unit) (Name := ℕ) (U := UR sig nD τ) (Lvl := ℕ) (Val := Elt F) spec8 c [cc8_scratch0, cc8_scratch1]) ∗ (∃ r, prngReg c r)) := by
  cases n with
  | zero => exact absurd rfl hz
  | succ n => rfl

/-! ## The pipeline's proof data -/

/-- The proof data of the region's pipeline on core `c`: the arrays as the region finds them (`V`); after the body at
    point `t` each input's buffer at its block and the output's at `outsAt8`'s first component; the invariant `PhiS8`;
    nothing owed; full shares. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => (outsAt8 V c t.val t.isLt).1
  Φ t := PhiS8 V c t.val (Nat.le_of_lt_succ t.isLt)
  q _ := fullShare
  owed _ := 0

/-- The proof data's arrays are the region-entry contents. -/
theorem A_eq8 (c : Dev nD) (w : Fin cfg8.W) : (dat8 V c).A w = V c (Pipeline.arrRef spec8 w) := by
  dsimp only [dat8]

/-- The invariant at a point's start, restated at `t.val`. -/
theorem PhiS8_castSucc (c : Dev nD) (t : Fin cfg8.N) :
    (dat8 V c).Φ t.castSucc = PhiS8 V c t.val (Nat.le_of_lt t.isLt) := by
  dsimp only [dat8]; simp only [Fin.coe_castSucc]

/-- What the body leaves, window by window. -/
theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = iblk8 V c 3 t := by dsimp only [dat8]
theorem after8_4 (c : Dev nD) (t : Fin cfg8.N) : (dat8 V c).after 4 t = (outsAt8 V c t.val t.isLt).1 := by dsimp only [dat8]

/-- Each input's current staging buffer holds its block at every point, fetched there or not. -/
theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d
theorem before8_3 (c : Dev nD) (t : Fin cfg8.N) (d) : (dat8 V c).before 3 t d = iblk8 V c 3 t :=
  before8_3_of V (dat8 V c) (A_eq8 V c 3) (after8_3 V c) t d

/-! ## The body obligation, at a generic point -/

/-- What the body is called with at point `t` (the windows one by one), -/
def bodyPre8 (c : Dev nD) (t : Fin cfg8.N) : sProp 𝕄 :=
  iprop((dat8 V c).Φ t.castSucc ∗ (dat8 V c).owesAt () t.castSucc
    ∗ (∃ d, owns (c : Thread nD τ) (ms8_0 t) fullShare ((dat8 V c).before 0 t d))
    ∗ (∃ d, owns (c : Thread nD τ) (ms8_1 t) fullShare ((dat8 V c).before 1 t d))
    ∗ (∃ d, owns (c : Thread nD τ) (ms8_2 t) fullShare ((dat8 V c).before 2 t d))
    ∗ (∃ d, owns (c : Thread nD τ) (ms8_3 t) fullShare ((dat8 V c).before 3 t d))
    ∗ (∃ d, owns (c : Thread nD τ) (ms8_4 t) fullShare ((dat8 V c).before 4 t d)))

/-- and what it returns. -/
def bodyPost8 (c : Dev nD) (t : Fin cfg8.N) : sProp 𝕄 :=
  iprop((dat8 V c).Φ t.succ ∗ (dat8 V c).owesAt () t.succ
    ∗ (dat8 V c).leavesExact 0 t
    ∗ (dat8 V c).leavesExact 1 t
    ∗ (dat8 V c).leavesExact 2 t
    ∗ (dat8 V c).leavesExact 3 t
    ∗ (dat8 V c).leavesExact 4 t)

set_option maxHeartbeats 4800000 in
/-- The body at any point: the inputs' memrefs hold their blocks; the closed forms say which case the point is in; so
    the run applies; the invariant hands the body the accumulators at what the point before left (at anything at the
    first point) and takes them back at this point's contents; the core owes nothing throughout. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2, before8_3]
  rw [show (dat8 V c).owesAt () t.succ = (dat8 V c).owesAt () t.castSucc from rfl]
  rw [show (dat8 V c).Φ t.succ = PhiS8 V c (t.val + 1) t.isLt from rfl, PhiS8_succ]
  have hN : t.val < 16 := lt_of_lt_of_eq t.isLt (show cfg8.N = 16 from N_8)
  by_cases h0 : t.val % 2 = 0
  · by_cases h1 : t.val % 2 = 1
    · exfalso; omega
    ·
      rw [show (dat8 V c).leavesExact 0 t = owns (c : Thread nD τ) (ms8_0 t) fullShare ((dat8 V c).after 0 t) from by
        unfold Dat.leavesExact; rw [liveAt8_0 t], after8_0]
      rw [show (dat8 V c).leavesExact 1 t = owns (c : Thread nD τ) (ms8_1 t) fullShare ((dat8 V c).after 1 t) from by
        unfold Dat.leavesExact; rw [liveAt8_1 t], after8_1]
      rw [show (dat8 V c).leavesExact 2 t = owns (c : Thread nD τ) (ms8_2 t) fullShare ((dat8 V c).after 2 t) from by
        unfold Dat.leavesExact; rw [liveAt8_2 t], after8_2]
      rw [show (dat8 V c).leavesExact 3 t = owns (c : Thread nD τ) (ms8_3 t) fullShare ((dat8 V c).after 3 t) from by
        unfold Dat.leavesExact; rw [liveAt8_3 t], after8_3]
      rw [Dat.leavesExact_idle (dat8 V c) 4 t (idleAt8_4_A t ((hcond8_0 t).mpr h0) (fun h => h1 ((hcond8_1 t).mp h))) (noFlush8_4_A t ((hcond8_0 t).mpr h0) (fun h => h1 ((hcond8_1 t).mp h)))]
      rw [outsAt8_A V c t h0 h1]
      unfold sout8_A_0 sout8_A_1; (try dsimp only)
      by_cases hz : t.val = 0
      · rw [PhiS8_castSucc V c t, PhiS8_zero V c _ _ hz, PhiA8_eq]
        iintro ⟨⟨⟨⟨HS0, HS1⟩, Hr⟩, Hg⟩, Ho, ⟨%d0, H0⟩, ⟨%d1, H1⟩, ⟨%d2, H2⟩, ⟨%d3, H3⟩, ⟨%d4, H4⟩⟩
        iapply ((kernelRun8_A c (grid8.coords t) _ _ _ _ _ _ _ _ _ _ _ _ _ _ ((hcond8_0 t).mpr h0) (fun h => h1 ((hcond8_1 t).mp h)) (iblk8 V c 0 t) (iblk8 V c 1 t) (iblk8 V c 2 t) (iblk8 V c 3 t)).2.2.2 _ Set.univ _)
        isplitl [H0]; · iexact H0
        isplitl [H1]; · iexact H1
        isplitl [H2]; · iexact H2
        isplitl [H3]; · iexact H3
        isplitl [H4]; · iexact H4
        isplitl [HS0]; · iexact HS0
        isplitl [HS1]; · iexact HS1
        iintro ⟨H0, H1, H2, H3, H4, ⟨%es0, HS0⟩, ⟨%es1, HS1⟩⟩
        isplitl [HS0 HS1 Hr Hg]
        · isplitl [HS0 HS1 Hr]
          · isplitl [HS0 HS1]
            · isplitl [HS0]
              · unfold owns; iexists _; isplitr
                swap; · iexact HS0
                ipureintro; exact View.read_writes_of_cover _ _ _ _ _ (scover8_A_0 c _ _ _ _ _ _ _ _ _ _ _ _ _ _ _ _ _ _ _ _ _)
              unfold owns; iexists _; isplitr
              swap; · iexact HS1
              ipureintro; exact View.read_writes_of_cover _ _ _ _ _ (scover8_A_1 c _ _ _ _ _ _ _ _ _ _ _ _ _ _ _ _ _ _ _ _ _)
            iexact Hr
          iexact Hg
        isplitl [Ho]; · iexact Ho
        isplitl [H0]; · iexact H0
        isplitl [H1]; · iexact H1
        isplitl [H2]; · iexact H2
        isplitl [H3]; · iexact H3
        iexists _; iexact H4
      · rw [PhiS8_castSucc V c t, PhiS8_pos V c _ _ hz]
        iintro ⟨⟨⟨⟨HS0, HS1⟩, Hr⟩, Hg⟩, Ho, ⟨%d0, H0⟩, ⟨%d1, H1⟩, ⟨%d2, H2⟩, ⟨%d3, H3⟩, ⟨%d4, H4⟩⟩
        iapply ((kernelRun8_A c (grid8.coords t) _ _ _ _ _ _ _ _ _ _ _ _ _ _ ((hcond8_0 t).mpr h0) (fun h => h1 ((hcond8_1 t).mp h)) (iblk8 V c 0 t) (iblk8 V c 1 t) (iblk8 V c 2 t) (iblk8 V c 3 t)).2.2.2 _ Set.univ _)
        isplitl [H0]; · iexact H0
        isplitl [H1]; · iexact H1
        isplitl [H2]; · iexact H2
        isplitl [H3]; · iexact H3
        isplitl [H4]; · iexact H4
        isplitl [HS0]; · iexists _; iexact HS0
        isplitl [HS1]; · iexists _; iexact HS1
        iintro ⟨H0, H1, H2, H3, H4, ⟨%es0, HS0⟩, ⟨%es1, HS1⟩⟩
        isplitl [HS0 HS1 Hr Hg]
        · isplitl [HS0 HS1 Hr]
          · isplitl [HS0 HS1]
            · isplitl [HS0]
              · unfold owns; iexists _; isplitr
                swap; · iexact HS0
                ipureintro; exact View.read_writes_of_cover _ _ _ _ _ (scover8_A_0 c _ _ _ _ _ _ _ _ _ _ _ _ _ _ _ _ _ _ _ _ _)
              unfold owns; iexists _; isplitr
              swap; · iexact HS1
              ipureintro; exact View.read_writes_of_cover _ _ _ _ _ (scover8_A_1 c _ _ _ _ _ _ _ _ _ _ _ _ _ _ _ _ _ _ _ _ _)
            iexact Hr
          iexact Hg
        isplitl [Ho]; · iexact Ho
        isplitl [H0]; · iexact H0
        isplitl [H1]; · iexact H1
        isplitl [H2]; · iexact H2
        isplitl [H3]; · iexact H3
        iexists _; iexact H4
  · by_cases h1 : t.val % 2 = 1
    ·
      rw [show (dat8 V c).leavesExact 0 t = owns (c : Thread nD τ) (ms8_0 t) fullShare ((dat8 V c).after 0 t) from by
        unfold Dat.leavesExact; rw [liveAt8_0 t], after8_0]
      rw [show (dat8 V c).leavesExact 1 t = owns (c : Thread nD τ) (ms8_1 t) fullShare ((dat8 V c).after 1 t) from by
        unfold Dat.leavesExact; rw [liveAt8_1 t], after8_1]
      rw [show (dat8 V c).leavesExact 2 t = owns (c : Thread nD τ) (ms8_2 t) fullShare ((dat8 V c).after 2 t) from by
        unfold Dat.leavesExact; rw [liveAt8_2 t], after8_2]
      rw [show (dat8 V c).leavesExact 3 t = owns (c : Thread nD τ) (ms8_3 t) fullShare ((dat8 V c).after 3 t) from by
        unfold Dat.leavesExact; rw [liveAt8_3 t], after8_3]
      rw [show (dat8 V c).leavesExact 4 t = owns (c : Thread nD τ) (ms8_4 t) fullShare ((dat8 V c).after 4 t) from by
        unfold Dat.leavesExact; rw [liveAt8_4_C t (fun h => h0 ((hcond8_0 t).mp h)) ((hcond8_1 t).mpr h1)], after8_4]
      rw [outsAt8_C V c t h0 h1]
      unfold out8_C_4 sout8_C_0 sout8_C_1; (try dsimp only)
      by_cases hz : t.val = 0
      · exfalso; omega
      · rw [PhiS8_castSucc V c t, PhiS8_pos V c _ _ hz]
        iintro ⟨⟨⟨⟨HS0, HS1⟩, Hr⟩, Hg⟩, Ho, ⟨%d0, H0⟩, ⟨%d1, H1⟩, ⟨%d2, H2⟩, ⟨%d3, H3⟩, ⟨%d4, H4⟩⟩
        iapply ((kernelRun8_C c (grid8.coords t) _ _ _ _ _ _ _ _ _ _ _ _ _ _ (fun h => h0 ((hcond8_0 t).mp h)) ((hcond8_1 t).mpr h1) (iblk8 V c 0 t) (iblk8 V c 1 t) (iblk8 V c 2 t) (iblk8 V c 3 t) _ _).2.2.2 Set.univ _)
        isplitl [H0]; · iexact H0
        isplitl [H1]; · iexact H1
        isplitl [H2]; · iexact H2
        isplitl [H3]; · iexact H3
        isplitl [H4]; · iexists _; iexact H4
        isplitl [HS0]; · iexact HS0
        isplitl [HS1]; · iexact HS1
        iintro ⟨H0, H1, H2, H3, ⟨%e4, H4⟩, ⟨%es0, HS0⟩, ⟨%es1, HS1⟩⟩
        isplitl [HS0 HS1 Hr Hg]
        · isplitl [HS0 HS1 Hr]
          · isplitl [HS0 HS1]
            · isplitl [HS0]
              · unfold owns; iexists _; isplitr
                swap; · iexact HS0
                ipureintro; exact View.read_writes_of_cover _ _ _ _ _ (scover8_C_0 c _ _ _ _ _ _ _ _ _ _ _ _ _ _ _ _ _ _ _ _ _ _ _)
              unfold owns; iexists _; isplitr
              swap; · iexact HS1
              ipureintro; exact View.read_writes_of_cover _ _ _ _ _ (scover8_C_1 c _ _ _ _ _ _ _ _ _ _ _ _ _ _ _ _ _ _ _ _ _ _ _)
            iexact Hr
          iexact Hg
        isplitl [Ho]; · iexact Ho
        isplitl [H0]; · iexact H0
        isplitl [H1]; · iexact H1
        isplitl [H2]; · iexact H2
        isplitl [H3]; · iexact H3
        unfold owns; iexists _; isplitr
        swap; · iexact H4
        ipureintro; exact View.read_writes_of_cover _ _ _ _ _ (cover8_C_4 c _ _ _ _ _ _ _ _ _ _ _ _ _ _ _ _ _ _ _ _ _ _ _)
    · exfalso; omega

/-- The library's body obligation, at every point. -/
theorem body_obligation8 (c : Dev nD) : BodyObligation (dat8 (F := F) V c) (defs₀ (F := F)) Variants.none () Set.univ := fun t => by
  rw [bigSep_W8, bigSep_W8]
  exact sound_body8 V c t

/-- What the launch hands the region is the invariant before the first point. -/
theorem hin8 (c : Dev nD) : Pipeline.ΦA spec8 c ⊢ (dat8 V c).Φ 0 := by
  rw [show (dat8 V c).Φ 0 = PhiS8 V c 0 (Nat.zero_le _) from rfl, PhiS8_zero V c 0 _ rfl]
  try exact Idealize.SL.BI.Entails.refl _

/-- After any point but the first the invariant gives the class's back: the accumulators' named contents are forgotten. -/
theorem Phi_out8 (c : Dev nD) (t : Fin (cfg8.N + 1)) (ht : t.val ≠ 0) : (dat8 V c).Φ t ⊢ Pipeline.ΦA spec8 c := by
  rw [show (dat8 V c).Φ t = PhiS8 V c t.val (Nat.le_of_lt_succ t.isLt) from rfl, PhiS8_pos V c _ _ ht, PhiA8_eq]
  iintro ⟨⟨⟨HS0, HS1⟩, Hr⟩, Hg⟩
  isplitl [HS0 HS1 Hr]
  · isplitl [HS0 HS1]
    · isplitl [HS0]
      · iexists _; iexact HS0
      iexists _; iexact HS1
    iexact Hr
  iexact Hg

/-- The same after the last point. -/
theorem hout8 (c : Dev nD) : (dat8 V c).Φ (Fin.last cfg8.N) ⊢ Pipeline.ΦA spec8 c :=
  Phi_out8 V c _ (by rw [Fin.val_last]; have : cfg8.N = 16 := N_8; omega)

end Cert.Kernel.Hand

end
-- ==== Proof.K.Run.lean ====
/-
  The whole run of the program, for any float values: @main is eighteen items in order — nine stretches of host
  operations and nine kernel regions. Between two items every unscoped buffer of the TensorCore holds a known contents:
  the launch memory, then what each host stretch computes, then, after a region, its arrays at what the pipeline's
  write-backs leave (the inputs as entered, the output's blocks as the body stored them) and every other buffer as it was.
  The last of these valuations is what every final state holds, buffer by buffer.
-/
import proofs.«181597_j77979426226450_2_alg».proof.Proof.K.Reg0
import proofs.«181597_j77979426226450_2_alg».proof.Proof.K.Reg1
import proofs.«181597_j77979426226450_2_alg».proof.Proof.K.Reg2
import proofs.«181597_j77979426226450_2_alg».proof.Proof.K.Reg3
import proofs.«181597_j77979426226450_2_alg».proof.Proof.K.Reg4
import proofs.«181597_j77979426226450_2_alg».proof.Proof.K.Reg5
import proofs.«181597_j77979426226450_2_alg».proof.Proof.K.Reg6
import proofs.«181597_j77979426226450_2_alg».proof.Proof.K.Reg7
import proofs.«181597_j77979426226450_2_alg».proof.Proof.K.Reg8
import proofs.«181597_j77979426226450_2_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between items -/

/-- At launch. -/
abbrev W0 : Dev nD → Valuation τ sig (Elt F) := fun c b => m ((c : Dev nD), b)
/-- After item 0, the host stretch `hostOps0`. -/
abbrev W1 : Dev nD → Valuation τ sig (Elt F) := fun c => StableHlo.after hostOps0 (W0 m c)
/-- After item 1, the host stretch `hostOps0_1`. -/
abbrev W2 : Dev nD → Valuation τ sig (Elt F) := fun c => StableHlo.after hostOps0_1 (W1 m c)
/-- After item 2, the host stretch `hostOps0_2`. -/
abbrev W3 : Dev nD → Valuation τ sig (Elt F) := fun c => StableHlo.after hostOps0_2 (W2 m c)
/-- After item 3, the host stretch `hostOps0_3`. -/
abbrev W4 : Dev nD → Valuation τ sig (Elt F) := fun c => StableHlo.after hostOps0_3 (W3 m c)
/-- After item 4, the host stretch `hostOps0_4`. -/
abbrev W5 : Dev nD → Valuation τ sig (Elt F) := fun c => StableHlo.after hostOps0_4 (W4 m c)
/-- Region 0 is entered from `W5`, read at the TensorCore's references. -/
abbrev Wv5 : (c : Dev nD) → (b : Ref sig .tc) → Buf (Elt F) ((c : Thread nD τ).loc b) := fun c b => W5 m c b
/-- After item 5, region 0: its arrays at what the pipeline leaves, every other buffer as entered. -/
def W6 (c : Dev nD) : Valuation τ sig (Elt F) :=
  Pipeline.withArrays spec0 c (W5 m c) fun w => (dat0 (Wv5 m) c).arrAt w cfg0.N
theorem W6_arr (c : Dev nD) (w : Fin cfg0.W) :
    W6 m c (Proc.devRef .tc (Pipeline.arrRef spec0 w)) = (dat0 (Wv5 m) c).arrAt w cfg0.N := by
  unfold W6; exact Pipeline.withArrays_arr spec0 launch0.win.arr_inj c _ _ w
theorem W6_of_ne (c : Dev nD) (b : Ref sig .tc) (hb : ∀ w, Pipeline.arrRef spec0 w ≠ b) :
    W6 m c (Proc.devRef .tc b) = W5 m c (Proc.devRef .tc b) := by
  unfold W6; exact Pipeline.withArrays_of_ne spec0 c _ _ b hb
abbrev Wv6 : (c : Dev nD) → (b : Ref sig .tc) → Buf (Elt F) ((c : Thread nD τ).loc b) := fun c b => W6 m c b
theorem hF0 (c : Dev nD) (w : Fin cfg0.W) : (dat0 (Wv5 m) c).arrAt w cfg0.N = Wv6 m c (Pipeline.arrRef spec0 w) :=
  (W6_arr m c w).symm
theorem hrest0 (c : Dev nD) : ∀ b, b ∉ Finset.univ.image (Pipeline.arrRef spec0) → Wv6 m c b = Wv5 m c b :=
  fun b hb => W6_of_ne m c b fun w e => hb (Finset.mem_image.mpr ⟨w, Finset.mem_univ _, e⟩)
/-- After item 6, the host stretch `hostOps1`. -/
abbrev W7 : Dev nD → Valuation τ sig (Elt F) := fun c => StableHlo.after hostOps1 (W6 m c)
/-- Region 1 is entered from `W7`, read at the TensorCore's references. -/
abbrev Wv7 : (c : Dev nD) → (b : Ref sig .tc) → Buf (Elt F) ((c : Thread nD τ).loc b) := fun c b => W7 m c b
/-- After item 7, region 1: its arrays at what the pipeline leaves, every other buffer as entered. -/
def W8 (c : Dev nD) : Valuation τ sig (Elt F) :=
  Pipeline.withArrays spec1 c (W7 m c) fun w => (dat1 (Wv7 m) c).arrAt w cfg1.N
theorem W8_arr (c : Dev nD) (w : Fin cfg1.W) :
    W8 m c (Proc.devRef .tc (Pipeline.arrRef spec1 w)) = (dat1 (Wv7 m) c).arrAt w cfg1.N := by
  unfold W8; exact Pipeline.withArrays_arr spec1 launch1.win.arr_inj c _ _ w
theorem W8_of_ne (c : Dev nD) (b : Ref sig .tc) (hb : ∀ w, Pipeline.arrRef spec1 w ≠ b) :
    W8 m c (Proc.devRef .tc b) = W7 m c (Proc.devRef .tc b) := by
  unfold W8; exact Pipeline.withArrays_of_ne spec1 c _ _ b hb
abbrev Wv8 : (c : Dev nD) → (b : Ref sig .tc) → Buf (Elt F) ((c : Thread nD τ).loc b) := fun c b => W8 m c b
theorem hF1 (c : Dev nD) (w : Fin cfg1.W) : (dat1 (Wv7 m) c).arrAt w cfg1.N = Wv8 m c (Pipeline.arrRef spec1 w) :=
  (W8_arr m c w).symm
theorem hrest1 (c : Dev nD) : ∀ b, b ∉ Finset.univ.image (Pipeline.arrRef spec1) → Wv8 m c b = Wv7 m c b :=
  fun b hb => W8_of_ne m c b fun w e => hb (Finset.mem_image.mpr ⟨w, Finset.mem_univ _, e⟩)
/-- After item 8, region 2: its arrays at what the pipeline leaves, every other buffer as entered. -/
def W9 (c : Dev nD) : Valuation τ sig (Elt F) :=
  Pipeline.withArrays spec2 c (W8 m c) fun w => (dat2 (Wv8 m) c).arrAt w cfg2.N
theorem W9_arr (c : Dev nD) (w : Fin cfg2.W) :
    W9 m c (Proc.devRef .tc (Pipeline.arrRef spec2 w)) = (dat2 (Wv8 m) c).arrAt w cfg2.N := by
  unfold W9; exact Pipeline.withArrays_arr spec2 launch2.win.arr_inj c _ _ w
theorem W9_of_ne (c : Dev nD) (b : Ref sig .tc) (hb : ∀ w, Pipeline.arrRef spec2 w ≠ b) :
    W9 m c (Proc.devRef .tc b) = W8 m c (Proc.devRef .tc b) := by
  unfold W9; exact Pipeline.withArrays_of_ne spec2 c _ _ b hb
abbrev Wv9 : (c : Dev nD) → (b : Ref sig .tc) → Buf (Elt F) ((c : Thread nD τ).loc b) := fun c b => W9 m c b
theorem hF2 (c : Dev nD) (w : Fin cfg2.W) : (dat2 (Wv8 m) c).arrAt w cfg2.N = Wv9 m c (Pipeline.arrRef spec2 w) :=
  (W9_arr m c w).symm
theorem hrest2 (c : Dev nD) : ∀ b, b ∉ Finset.univ.image (Pipeline.arrRef spec2) → Wv9 m c b = Wv8 m c b :=
  fun b hb => W9_of_ne m c b fun w e => hb (Finset.mem_image.mpr ⟨w, Finset.mem_univ _, e⟩)
/-- After item 9, the host stretch `hostOps3`. -/
abbrev W10 : Dev nD → Valuation τ sig (Elt F) := fun c => StableHlo.after hostOps3 (W9 m c)
/-- Region 3 is entered from `W10`, read at the TensorCore's references. -/
abbrev Wv10 : (c : Dev nD) → (b : Ref sig .tc) → Buf (Elt F) ((c : Thread nD τ).loc b) := fun c b => W10 m c b
/-- After item 10, region 3: its arrays at what the pipeline leaves, every other buffer as entered. -/
def W11 (c : Dev nD) : Valuation τ sig (Elt F) :=
  Pipeline.withArrays spec3 c (W10 m c) fun w => (dat3 (Wv10 m) c).arrAt w cfg3.N
theorem W11_arr (c : Dev nD) (w : Fin cfg3.W) :
    W11 m c (Proc.devRef .tc (Pipeline.arrRef spec3 w)) = (dat3 (Wv10 m) c).arrAt w cfg3.N := by
  unfold W11; exact Pipeline.withArrays_arr spec3 launch3.win.arr_inj c _ _ w
theorem W11_of_ne (c : Dev nD) (b : Ref sig .tc) (hb : ∀ w, Pipeline.arrRef spec3 w ≠ b) :
    W11 m c (Proc.devRef .tc b) = W10 m c (Proc.devRef .tc b) := by
  unfold W11; exact Pipeline.withArrays_of_ne spec3 c _ _ b hb
abbrev Wv11 : (c : Dev nD) → (b : Ref sig .tc) → Buf (Elt F) ((c : Thread nD τ).loc b) := fun c b => W11 m c b
theorem hF3 (c : Dev nD) (w : Fin cfg3.W) : (dat3 (Wv10 m) c).arrAt w cfg3.N = Wv11 m c (Pipeline.arrRef spec3 w) :=
  (W11_arr m c w).symm
theorem hrest3 (c : Dev nD) : ∀ b, b ∉ Finset.univ.image (Pipeline.arrRef spec3) → Wv11 m c b = Wv10 m c b :=
  fun b hb => W11_of_ne m c b fun w e => hb (Finset.mem_image.mpr ⟨w, Finset.mem_univ _, e⟩)
/-- After item 11, region 4: its arrays at what the pipeline leaves, every other buffer as entered. -/
def W12 (c : Dev nD) : Valuation τ sig (Elt F) :=
  Pipeline.withArrays spec4 c (W11 m c) fun w => (dat4 (Wv11 m) c).arrAt w cfg4.N
theorem W12_arr (c : Dev nD) (w : Fin cfg4.W) :
    W12 m c (Proc.devRef .tc (Pipeline.arrRef spec4 w)) = (dat4 (Wv11 m) c).arrAt w cfg4.N := by
  unfold W12; exact Pipeline.withArrays_arr spec4 launch4.win.arr_inj c _ _ w
theorem W12_of_ne (c : Dev nD) (b : Ref sig .tc) (hb : ∀ w, Pipeline.arrRef spec4 w ≠ b) :
    W12 m c (Proc.devRef .tc b) = W11 m c (Proc.devRef .tc b) := by
  unfold W12; exact Pipeline.withArrays_of_ne spec4 c _ _ b hb
abbrev Wv12 : (c : Dev nD) → (b : Ref sig .tc) → Buf (Elt F) ((c : Thread nD τ).loc b) := fun c b => W12 m c b
theorem hF4 (c : Dev nD) (w : Fin cfg4.W) : (dat4 (Wv11 m) c).arrAt w cfg4.N = Wv12 m c (Pipeline.arrRef spec4 w) :=
  (W12_arr m c w).symm
theorem hrest4 (c : Dev nD) : ∀ b, b ∉ Finset.univ.image (Pipeline.arrRef spec4) → Wv12 m c b = Wv11 m c b :=
  fun b hb => W12_of_ne m c b fun w e => hb (Finset.mem_image.mpr ⟨w, Finset.mem_univ _, e⟩)
/-- After item 12, the host stretch `hostOps5`. -/
abbrev W13 : Dev nD → Valuation τ sig (Elt F) := fun c => StableHlo.after hostOps5 (W12 m c)
/-- Region 5 is entered from `W13`, read at the TensorCore's references. -/
abbrev Wv13 : (c : Dev nD) → (b : Ref sig .tc) → Buf (Elt F) ((c : Thread nD τ).loc b) := fun c b => W13 m c b
/-- After item 13, region 5: its arrays at what the pipeline leaves, every other buffer as entered. -/
def W14 (c : Dev nD) : Valuation τ sig (Elt F) :=
  Pipeline.withArrays spec5 c (W13 m c) fun w => (dat5 (Wv13 m) c).arrAt w cfg5.N
theorem W14_arr (c : Dev nD) (w : Fin cfg5.W) :
    W14 m c (Proc.devRef .tc (Pipeline.arrRef spec5 w)) = (dat5 (Wv13 m) c).arrAt w cfg5.N := by
  unfold W14; exact Pipeline.withArrays_arr spec5 launch5.win.arr_inj c _ _ w
theorem W14_of_ne (c : Dev nD) (b : Ref sig .tc) (hb : ∀ w, Pipeline.arrRef spec5 w ≠ b) :
    W14 m c (Proc.devRef .tc b) = W13 m c (Proc.devRef .tc b) := by
  unfold W14; exact Pipeline.withArrays_of_ne spec5 c _ _ b hb
abbrev Wv14 : (c : Dev nD) → (b : Ref sig .tc) → Buf (Elt F) ((c : Thread nD τ).loc b) := fun c b => W14 m c b
theorem hF5 (c : Dev nD) (w : Fin cfg5.W) : (dat5 (Wv13 m) c).arrAt w cfg5.N = Wv14 m c (Pipeline.arrRef spec5 w) :=
  (W14_arr m c w).symm
theorem hrest5 (c : Dev nD) : ∀ b, b ∉ Finset.univ.image (Pipeline.arrRef spec5) → Wv14 m c b = Wv13 m c b :=
  fun b hb => W14_of_ne m c b fun w e => hb (Finset.mem_image.mpr ⟨w, Finset.mem_univ _, e⟩)
/-- After item 14, region 6: its arrays at what the pipeline leaves, every other buffer as entered. -/
def W15 (c : Dev nD) : Valuation τ sig (Elt F) :=
  Pipeline.withArrays spec6 c (W14 m c) fun w => (dat6 (Wv14 m) c).arrAt w cfg6.N
theorem W15_arr (c : Dev nD) (w : Fin cfg6.W) :
    W15 m c (Proc.devRef .tc (Pipeline.arrRef spec6 w)) = (dat6 (Wv14 m) c).arrAt w cfg6.N := by
  unfold W15; exact Pipeline.withArrays_arr spec6 launch6.win.arr_inj c _ _ w
theorem W15_of_ne (c : Dev nD) (b : Ref sig .tc) (hb : ∀ w, Pipeline.arrRef spec6 w ≠ b) :
    W15 m c (Proc.devRef .tc b) = W14 m c (Proc.devRef .tc b) := by
  unfold W15; exact Pipeline.withArrays_of_ne spec6 c _ _ b hb
abbrev Wv15 : (c : Dev nD) → (b : Ref sig .tc) → Buf (Elt F) ((c : Thread nD τ).loc b) := fun c b => W15 m c b
theorem hF6 (c : Dev nD) (w : Fin cfg6.W) : (dat6 (Wv14 m) c).arrAt w cfg6.N = Wv15 m c (Pipeline.arrRef spec6 w) :=
  (W15_arr m c w).symm
theorem hrest6 (c : Dev nD) : ∀ b, b ∉ Finset.univ.image (Pipeline.arrRef spec6) → Wv15 m c b = Wv14 m c b :=
  fun b hb => W15_of_ne m c b fun w e => hb (Finset.mem_image.mpr ⟨w, Finset.mem_univ _, e⟩)
/-- After item 15, the host stretch `hostOps7`. -/
abbrev W16 : Dev nD → Valuation τ sig (Elt F) := fun c => StableHlo.after hostOps7 (W15 m c)
/-- Region 7 is entered from `W16`, read at the TensorCore's references. -/
abbrev Wv16 : (c : Dev nD) → (b : Ref sig .tc) → Buf (Elt F) ((c : Thread nD τ).loc b) := fun c b => W16 m c b
/-- After item 16, region 7: its arrays at what the pipeline leaves, every other buffer as entered. -/
def W17 (c : Dev nD) : Valuation τ sig (Elt F) :=
  Pipeline.withArrays spec7 c (W16 m c) fun w => (dat7 (Wv16 m) c).arrAt w cfg7.N
theorem W17_arr (c : Dev nD) (w : Fin cfg7.W) :
    W17 m c (Proc.devRef .tc (Pipeline.arrRef spec7 w)) = (dat7 (Wv16 m) c).arrAt w cfg7.N := by
  unfold W17; exact Pipeline.withArrays_arr spec7 launch7.win.arr_inj c _ _ w
theorem W17_of_ne (c : Dev nD) (b : Ref sig .tc) (hb : ∀ w, Pipeline.arrRef spec7 w ≠ b) :
    W17 m c (Proc.devRef .tc b) = W16 m c (Proc.devRef .tc b) := by
  unfold W17; exact Pipeline.withArrays_of_ne spec7 c _ _ b hb
abbrev Wv17 : (c : Dev nD) → (b : Ref sig .tc) → Buf (Elt F) ((c : Thread nD τ).loc b) := fun c b => W17 m c b
theorem hF7 (c : Dev nD) (w : Fin cfg7.W) : (dat7 (Wv16 m) c).arrAt w cfg7.N = Wv17 m c (Pipeline.arrRef spec7 w) :=
  (W17_arr m c w).symm
theorem hrest7 (c : Dev nD) : ∀ b, b ∉ Finset.univ.image (Pipeline.arrRef spec7) → Wv17 m c b = Wv16 m c b :=
  fun b hb => W17_of_ne m c b fun w e => hb (Finset.mem_image.mpr ⟨w, Finset.mem_univ _, e⟩)
/-- After item 17, region 8: its arrays at what the pipeline leaves, every other buffer as entered. -/
def W18 (c : Dev nD) : Valuation τ sig (Elt F) :=
  Pipeline.withArrays spec8 c (W17 m c) fun w => (dat8 (Wv17 m) c).arrAt w cfg8.N
theorem W18_arr (c : Dev nD) (w : Fin cfg8.W) :
    W18 m c (Proc.devRef .tc (Pipeline.arrRef spec8 w)) = (dat8 (Wv17 m) c).arrAt w cfg8.N := by
  unfold W18; exact Pipeline.withArrays_arr spec8 launch8.win.arr_inj c _ _ w
theorem W18_of_ne (c : Dev nD) (b : Ref sig .tc) (hb : ∀ w, Pipeline.arrRef spec8 w ≠ b) :
    W18 m c (Proc.devRef .tc b) = W17 m c (Proc.devRef .tc b) := by
  unfold W18; exact Pipeline.withArrays_of_ne spec8 c _ _ b hb
abbrev Wv18 : (c : Dev nD) → (b : Ref sig .tc) → Buf (Elt F) ((c : Thread nD τ).loc b) := fun c b => W18 m c b
theorem hF8 (c : Dev nD) (w : Fin cfg8.W) : (dat8 (Wv17 m) c).arrAt w cfg8.N = Wv18 m c (Pipeline.arrRef spec8 w) :=
  (W18_arr m c w).symm
theorem hrest8 (c : Dev nD) : ∀ b, b ∉ Finset.univ.image (Pipeline.arrRef spec8) → Wv18 m c b = Wv17 m c b :=
  fun b hb => W18_of_ne m c b fun w e => hb (Finset.mem_image.mpr ⟨w, Finset.mem_univ _, e⟩)

/-! ## The proof data family and the thread state -/

abbrev hadm : (p : Fin 9) → (pcfgs (F := F) p).Adm := fun p => (cfgs p).toPCfg_adm
/-- Every pipeline's proof data, each at its region's entry contents. -/
def pdats : (p : Fin 9) → (c : Dev nD) → Dat τ (Elt F) Unit ℕ (UR sig nD τ) ℕ (Pipeline.pin (pcfgs (F := F)) hadm p) c
  | ⟨0, _⟩ => fun c => dat0 (Wv5 m) c
  | ⟨1, _⟩ => fun c => dat1 (Wv7 m) c
  | ⟨2, _⟩ => fun c => dat2 (Wv8 m) c
  | ⟨3, _⟩ => fun c => dat3 (Wv10 m) c
  | ⟨4, _⟩ => fun c => dat4 (Wv11 m) c
  | ⟨5, _⟩ => fun c => dat5 (Wv13 m) c
  | ⟨6, _⟩ => fun c => dat6 (Wv14 m) c
  | ⟨7, _⟩ => fun c => dat7 (Wv16 m) c
  | ⟨8, _⟩ => fun c => dat8 (Wv17 m) c
abbrev 𝒱h : Variants := Variants.none
abbrev Lh : GSem nD τ sig → Finset Unit := fun _ => ∅
abbrev lvh : GSem nD τ sig → Unit → ℕ := fun _ _ => 0
/-- What rides beside the buffers through every item: the generator register at some state and the core owing nothing. -/
abbrev Rh (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱h Lh lvh :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rh
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tn (c : Dev nD) : sProp 𝕄 := iprop(StableHlo.held (c : Thread nD τ) (Pipeline.ucRefs τ sig) (W18 m c) ∗ ∃ r, prngReg c r)

/-! ## The regions as segments -/

set_option backward.isDefEq.respectTransparency.types false in
/-- Region 0: entered from every unscoped buffer at `W5`, left at `W6`; its arrays split out of the unscoped
    buffers and put back at the exit contents; the generator register and the scoped buffers into the invariant and out;
    nothing owed; no semaphore of the kernel's own. -/
def reg0 : Pipeline.RegionSeg (pcfgs (F := F)) hadm (pdats m) () defs₀ 𝒱h Lh lvh 0 where
  win := launch0.win.to₀
  block_pos := launch0.block_pos
  stage_whole := launch0.stage_whole
  K := PEmpty
  osem k := k.elim
  ho := Pipeline.OwnSemFacts.none _
  hbody c := (body_obligation0 (Wv5 m) c).loose
  hwaits := Pipeline.hwaits_of_owed_zero _ _ _ _ Lh lvh 0 fun _ _ => rfl
  pre c := iprop(StableHlo.held (c : Thread nD τ) (Pipeline.ucRefs τ sig) (W5 m c) ∗ Rh c)
  post c := iprop(StableHlo.held (c : Thread nD τ) (Pipeline.ucRefs τ sig) (W6 m c) ∗ Rh c)
  X c := iprop(∃ r, prngReg c r)
  Y c := iprop(∃ r, prngReg c r)
  Z c := Pipeline.unscopedRest (Ix := Unit) (Name := ℕ) (U := UR sig nD τ) (Lvl := ℕ) spec0 c (Wv5 m c)
  hentry c := by
    rw [Pipeline.ownSems0_none]
    have hsplit := Pipeline.arrays_of_unscopedBufs (p := 0) (pcfgs (F := F)) hadm (pdats m) launch0.win launch0.arr_whole c
      ((pdats m 0 c).share_full fun _ => rfl) (Wv5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (Wv5 m) c)
    unfold Pipeline.ΦA
    iintro ⟨Hp, -, Hr⟩
    isplitl [Hr]; · iexact Hr
    iexact Hp
  hout c := by
    rw [Pipeline.ownSems0_none]
    refine BIBase.Entails.trans (hout0 (Wv5 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) hadm (Ix := Unit) (Name := ℕ) (U := UR sig nD τ) (Lvl := ℕ)
      launch0.win launch0.arr_whole c (pdats m) ((pdats m 0 c).share_full fun _ => rfl)
      (Wv5 m c) (Wv6 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: entered from every unscoped buffer at `W7`, left at `W8`; its arrays split out of the unscoped
    buffers and put back at the exit contents; the generator register and the scoped buffers into the invariant and out;
    nothing owed; no semaphore of the kernel's own. -/
def reg1 : Pipeline.RegionSeg (pcfgs (F := F)) hadm (pdats m) () defs₀ 𝒱h Lh lvh 1 where
  win := launch1.win.to₀
  block_pos := launch1.block_pos
  stage_whole := launch1.stage_whole
  K := PEmpty
  osem k := k.elim
  ho := Pipeline.OwnSemFacts.none _
  hbody c := (body_obligation1 (Wv7 m) c).loose
  hwaits := Pipeline.hwaits_of_owed_zero _ _ _ _ Lh lvh 1 fun _ _ => rfl
  pre c := iprop(StableHlo.held (c : Thread nD τ) (Pipeline.ucRefs τ sig) (W7 m c) ∗ Rh c)
  post c := iprop(StableHlo.held (c : Thread nD τ) (Pipeline.ucRefs τ sig) (W8 m c) ∗ Rh c)
  X c := iprop(∃ r, prngReg c r)
  Y c := iprop(∃ r, prngReg c r)
  Z c := Pipeline.unscopedRest (Ix := Unit) (Name := ℕ) (U := UR sig nD τ) (Lvl := ℕ) spec1 c (Wv7 m c)
  hentry c := by
    rw [Pipeline.ownSems0_none]
    have hsplit := Pipeline.arrays_of_unscopedBufs (p := 1) (pcfgs (F := F)) hadm (pdats m) launch1.win launch1.arr_whole c
      ((pdats m 1 c).share_full fun _ => rfl) (Wv7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (Wv7 m) c)
    unfold Pipeline.ΦA
    iintro ⟨Hp, -, Hr⟩
    isplitl [Hr]; · iexact Hr
    iexact Hp
  hout c := by
    rw [Pipeline.ownSems0_none]
    refine BIBase.Entails.trans (hout1 (Wv7 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) hadm (Ix := Unit) (Name := ℕ) (U := UR sig nD τ) (Lvl := ℕ)
      launch1.win launch1.arr_whole c (pdats m) ((pdats m 1 c).share_full fun _ => rfl)
      (Wv7 m c) (Wv8 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2: entered from every unscoped buffer at `W8`, left at `W9`; its arrays split out of the unscoped
    buffers and put back at the exit contents; the generator register and the scoped buffers into the invariant and out;
    nothing owed; no semaphore of the kernel's own. -/
def reg2 : Pipeline.RegionSeg (pcfgs (F := F)) hadm (pdats m) () defs₀ 𝒱h Lh lvh 2 where
  win := launch2.win.to₀
  block_pos := launch2.block_pos
  stage_whole := launch2.stage_whole
  K := PEmpty
  osem k := k.elim
  ho := Pipeline.OwnSemFacts.none _
  hbody c := (body_obligation2 (Wv8 m) c).loose
  hwaits := Pipeline.hwaits_of_owed_zero _ _ _ _ Lh lvh 2 fun _ _ => rfl
  pre c := iprop(StableHlo.held (c : Thread nD τ) (Pipeline.ucRefs τ sig) (W8 m c) ∗ Rh c)
  post c := iprop(StableHlo.held (c : Thread nD τ) (Pipeline.ucRefs τ sig) (W9 m c) ∗ Rh c)
  X c := iprop(∃ r, prngReg c r)
  Y c := iprop(∃ r, prngReg c r)
  Z c := Pipeline.unscopedRest (Ix := Unit) (Name := ℕ) (U := UR sig nD τ) (Lvl := ℕ) spec2 c (Wv8 m c)
  hentry c := by
    rw [Pipeline.ownSems0_none]
    have hsplit := Pipeline.arrays_of_unscopedBufs (p := 2) (pcfgs (F := F)) hadm (pdats m) launch2.win launch2.arr_whole c
      ((pdats m 2 c).share_full fun _ => rfl) (Wv8 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin2 (Wv8 m) c)
    unfold Pipeline.ΦA
    iintro ⟨Hp, -, Hr⟩
    isplitl [Hr]; · iexact Hr
    iexact Hp
  hout c := by
    rw [Pipeline.ownSems0_none]
    refine BIBase.Entails.trans (hout2 (Wv8 m) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) hadm (Ix := Unit) (Name := ℕ) (U := UR sig nD τ) (Lvl := ℕ)
      launch2.win launch2.arr_whole c (pdats m) ((pdats m 2 c).share_full fun _ => rfl)
      (Wv8 m c) (Wv9 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3: entered from every unscoped buffer at `W10`, left at `W11`; its arrays split out of the unscoped
    buffers and put back at the exit contents; the generator register and the scoped buffers into the invariant and out;
    nothing owed; no semaphore of the kernel's own. -/
def reg3 : Pipeline.RegionSeg (pcfgs (F := F)) hadm (pdats m) () defs₀ 𝒱h Lh lvh 3 where
  win := launch3.win.to₀
  block_pos := launch3.block_pos
  stage_whole := launch3.stage_whole
  K := PEmpty
  osem k := k.elim
  ho := Pipeline.OwnSemFacts.none _
  hbody c := (body_obligation3 (Wv10 m) c).loose
  hwaits := Pipeline.hwaits_of_owed_zero _ _ _ _ Lh lvh 3 fun _ _ => rfl
  pre c := iprop(StableHlo.held (c : Thread nD τ) (Pipeline.ucRefs τ sig) (W10 m c) ∗ Rh c)
  post c := iprop(StableHlo.held (c : Thread nD τ) (Pipeline.ucRefs τ sig) (W11 m c) ∗ Rh c)
  X c := iprop(∃ r, prngReg c r)
  Y c := iprop(∃ r, prngReg c r)
  Z c := Pipeline.unscopedRest (Ix := Unit) (Name := ℕ) (U := UR sig nD τ) (Lvl := ℕ) spec3 c (Wv10 m c)
  hentry c := by
    rw [Pipeline.ownSems0_none]
    have hsplit := Pipeline.arrays_of_unscopedBufs (p := 3) (pcfgs (F := F)) hadm (pdats m) launch3.win launch3.arr_whole c
      ((pdats m 3 c).share_full fun _ => rfl) (Wv10 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin3 (Wv10 m) c)
    unfold Pipeline.ΦA
    iintro ⟨Hp, -, Hr⟩
    isplitl [Hr]; · iexact Hr
    iexact Hp
  hout c := by
    rw [Pipeline.ownSems0_none]
    refine BIBase.Entails.trans (hout3 (Wv10 m) c) ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) hadm (Ix := Unit) (Name := ℕ) (U := UR sig nD τ) (Lvl := ℕ)
      launch3.win launch3.arr_whole c (pdats m) ((pdats m 3 c).share_full fun _ => rfl)
      (Wv10 m c) (Wv11 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4: entered from every unscoped buffer at `W11`, left at `W12`; its arrays split out of the unscoped
    buffers and put back at the exit contents; the generator register and the scoped buffers into the invariant and out;
    nothing owed; no semaphore of the kernel's own. -/
def reg4 : Pipeline.RegionSeg (pcfgs (F := F)) hadm (pdats m) () defs₀ 𝒱h Lh lvh 4 where
  win := launch4.win.to₀
  block_pos := launch4.block_pos
  stage_whole := launch4.stage_whole
  K := PEmpty
  osem k := k.elim
  ho := Pipeline.OwnSemFacts.none _
  hbody c := (body_obligation4 (Wv11 m) c).loose
  hwaits := Pipeline.hwaits_of_owed_zero _ _ _ _ Lh lvh 4 fun _ _ => rfl
  pre c := iprop(StableHlo.held (c : Thread nD τ) (Pipeline.ucRefs τ sig) (W11 m c) ∗ Rh c)
  post c := iprop(StableHlo.held (c : Thread nD τ) (Pipeline.ucRefs τ sig) (W12 m c) ∗ Rh c)
  X c := iprop(∃ r, prngReg c r)
  Y c := iprop(∃ r, prngReg c r)
  Z c := Pipeline.unscopedRest (Ix := Unit) (Name := ℕ) (U := UR sig nD τ) (Lvl := ℕ) spec4 c (Wv11 m c)
  hentry c := by
    rw [Pipeline.ownSems0_none]
    have hsplit := Pipeline.arrays_of_unscopedBufs (p := 4) (pcfgs (F := F)) hadm (pdats m) launch4.win launch4.arr_whole c
      ((pdats m 4 c).share_full fun _ => rfl) (Wv11 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin4 (Wv11 m) c)
    unfold Pipeline.ΦA
    iintro ⟨Hp, -, Hr⟩
    isplitl [Hr]; · iexact Hr
    iexact Hp
  hout c := by
    rw [Pipeline.ownSems0_none]
    refine BIBase.Entails.trans (hout4 (Wv11 m) c) ?_
    unfold Pipeline.ΦA
    iintro ⟨Hr, Hp⟩
    isplitl [Hp]; · iexact Hp
    isplitr; · iempintro
    iexact Hr
  hexit c := by
    have hjoin := Pipeline.unscopedBufs_of_arrays (p := 4) (pcfgs (F := F)) hadm (Ix := Unit) (Name := ℕ) (U := UR sig nD τ) (Lvl := ℕ)
      launch4.win launch4.arr_whole c (pdats m) ((pdats m 4 c).share_full fun _ => rfl)
      (Wv11 m c) (Wv12 m c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5: entered from every unscoped buffer at `W13`, left at `W14`; its arrays split out of the unscoped
    buffers and put back at the exit contents; the generator register and the scoped buffers into the invariant and out;
    nothing owed; no semaphore of the kernel's own. -/
def reg5 : Pipeline.RegionSeg (pcfgs (F := F)) hadm (pdats m) () defs₀ 𝒱h Lh lvh 5 where
  win := launch5.win.to₀
  block_pos := launch5.block_pos
  stage_whole := launch5.stage_whole
  K := PEmpty
  osem k := k.elim
  ho := Pipeline.OwnSemFacts.none _
  hbody c := (body_obligation5 (Wv13 m) c).loose
  hwaits := Pipeline.hwaits_of_owed_zero _ _ _ _ Lh lvh 5 fun _ _ => rfl
  pre c := iprop(StableHlo.held (c : Thread nD τ) (Pipeline.ucRefs τ sig) (W13 m c) ∗ Rh c)
  post c := iprop(StableHlo.held (c : Thread nD τ) (Pipeline.ucRefs τ sig) (W14 m c) ∗ Rh c)
  X c := iprop(∃ r, prngReg c r)
  Y c := iprop(∃ r, prngReg c r)
  Z c := Pipeline.unscopedRest (Ix := Unit) (Name := ℕ) (U := UR sig nD τ) (Lvl := ℕ) spec5 c (Wv13 m c)
  hentry c := by
    rw [Pipeline.ownSems0_none]
    have hsplit := Pipeline.arrays_of_unscopedBufs (p := 5) (pcfgs (F := F)) hadm (pdats m) launch5.win launch5.arr_whole c
      ((pdats m 5 c).share_full fun _ => rfl) (Wv13 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin5 (Wv13 m) c)
    unfold Pipeline.ΦA
    iintro ⟨Hp, -, Hr⟩
    isplitl [Hr]; · iexact Hr
    iexact Hp
  hout c := by
    rw [Pipeline.ownSems0_none]
    refine BIBase.Entails.trans (hout5 (Wv13 m) c) ?_
    unfold Pipeline.ΦA
    iintro ⟨Hr, Hp⟩
    isplitl [Hp]; · iexact Hp
    isplitr; · iempintro
    iexact Hr
  hexit c := by
    have hjoin := Pipeline.unscopedBufs_of_arrays (p := 5) (pcfgs (F := F)) hadm (Ix := Unit) (Name := ℕ) (U := UR sig nD τ) (Lvl := ℕ)
      launch5.win launch5.arr_whole c (pdats m) ((pdats m 5 c).share_full fun _ => rfl)
      (Wv13 m c) (Wv14 m c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 6: entered from every unscoped buffer at `W14`, left at `W15`; its arrays split out of the unscoped
    buffers and put back at the exit contents; the generator register and the scoped buffers into the invariant and out;
    nothing owed; no semaphore of the kernel's own. -/
def reg6 : Pipeline.RegionSeg (pcfgs (F := F)) hadm (pdats m) () defs₀ 𝒱h Lh lvh 6 where
  win := launch6.win.to₀
  block_pos := launch6.block_pos
  stage_whole := launch6.stage_whole
  K := PEmpty
  osem k := k.elim
  ho := Pipeline.OwnSemFacts.none _
  hbody c := (body_obligation6 (Wv14 m) c).loose
  hwaits := Pipeline.hwaits_of_owed_zero _ _ _ _ Lh lvh 6 fun _ _ => rfl
  pre c := iprop(StableHlo.held (c : Thread nD τ) (Pipeline.ucRefs τ sig) (W14 m c) ∗ Rh c)
  post c := iprop(StableHlo.held (c : Thread nD τ) (Pipeline.ucRefs τ sig) (W15 m c) ∗ Rh c)
  X c := iprop(∃ r, prngReg c r)
  Y c := iprop(∃ r, prngReg c r)
  Z c := Pipeline.unscopedRest (Ix := Unit) (Name := ℕ) (U := UR sig nD τ) (Lvl := ℕ) spec6 c (Wv14 m c)
  hentry c := by
    rw [Pipeline.ownSems0_none]
    have hsplit := Pipeline.arrays_of_unscopedBufs (p := 6) (pcfgs (F := F)) hadm (pdats m) launch6.win launch6.arr_whole c
      ((pdats m 6 c).share_full fun _ => rfl) (Wv14 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin6 (Wv14 m) c)
    unfold Pipeline.ΦA
    iintro ⟨Hp, -, Hr⟩
    isplitl [Hr]; · iexact Hr
    iexact Hp
  hout c := by
    rw [Pipeline.ownSems0_none]
    refine BIBase.Entails.trans (hout6 (Wv14 m) c) ?_
    unfold Pipeline.ΦA
    iintro ⟨Hr, Hp⟩
    isplitl [Hp]; · iexact Hp
    isplitr; · iempintro
    iexact Hr
  hexit c := by
    have hjoin := Pipeline.unscopedBufs_of_arrays (p := 6) (pcfgs (F := F)) hadm (Ix := Unit) (Name := ℕ) (U := UR sig nD τ) (Lvl := ℕ)
      launch6.win launch6.arr_whole c (pdats m) ((pdats m 6 c).share_full fun _ => rfl)
      (Wv14 m c) (Wv15 m c) ((pdats m 6 c).arrAt · cfg6.N) (hF6 m c) (hrest6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 7: entered from every unscoped buffer at `W16`, left at `W17`; its arrays split out of the unscoped
    buffers and put back at the exit contents; the generator register and the scoped buffers into the invariant and out;
    nothing owed; no semaphore of the kernel's own. -/
def reg7 : Pipeline.RegionSeg (pcfgs (F := F)) hadm (pdats m) () defs₀ 𝒱h Lh lvh 7 where
  win := launch7.win.to₀
  block_pos := launch7.block_pos
  stage_whole := launch7.stage_whole
  K := PEmpty
  osem k := k.elim
  ho := Pipeline.OwnSemFacts.none _
  hbody c := (body_obligation7 (Wv16 m) c).loose
  hwaits := Pipeline.hwaits_of_owed_zero _ _ _ _ Lh lvh 7 fun _ _ => rfl
  pre c := iprop(StableHlo.held (c : Thread nD τ) (Pipeline.ucRefs τ sig) (W16 m c) ∗ Rh c)
  post c := iprop(StableHlo.held (c : Thread nD τ) (Pipeline.ucRefs τ sig) (W17 m c) ∗ Rh c)
  X c := iprop(∃ r, prngReg c r)
  Y c := iprop(∃ r, prngReg c r)
  Z c := Pipeline.unscopedRest (Ix := Unit) (Name := ℕ) (U := UR sig nD τ) (Lvl := ℕ) spec7 c (Wv16 m c)
  hentry c := by
    rw [Pipeline.ownSems0_none]
    have hsplit := Pipeline.arrays_of_unscopedBufs (p := 7) (pcfgs (F := F)) hadm (pdats m) launch7.win launch7.arr_whole c
      ((pdats m 7 c).share_full fun _ => rfl) (Wv16 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin7 (Wv16 m) c)
    unfold Pipeline.ΦA
    iintro ⟨Hp, -, Hr⟩
    isplitl [Hr]; · iexact Hr
    iexact Hp
  hout c := by
    rw [Pipeline.ownSems0_none]
    refine BIBase.Entails.trans (hout7 (Wv16 m) c) ?_
    unfold Pipeline.ΦA
    iintro ⟨Hr, Hp⟩
    isplitl [Hp]; · iexact Hp
    isplitr; · iempintro
    iexact Hr
  hexit c := by
    have hjoin := Pipeline.unscopedBufs_of_arrays (p := 7) (pcfgs (F := F)) hadm (Ix := Unit) (Name := ℕ) (U := UR sig nD τ) (Lvl := ℕ)
      launch7.win launch7.arr_whole c (pdats m) ((pdats m 7 c).share_full fun _ => rfl)
      (Wv16 m c) (Wv17 m c) ((pdats m 7 c).arrAt · cfg7.N) (hF7 m c) (hrest7 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 8: entered from every unscoped buffer at `W17`, left at `W18`; its arrays split out of the unscoped
    buffers and put back at the exit contents; the generator register and the scoped buffers into the invariant and out;
    nothing owed; no semaphore of the kernel's own. -/
def reg8 : Pipeline.RegionSeg (pcfgs (F := F)) hadm (pdats m) () defs₀ 𝒱h Lh lvh 8 where
  win := launch8.win.to₀
  block_pos := launch8.block_pos
  stage_whole := launch8.stage_whole
  K := PEmpty
  osem k := k.elim
  ho := Pipeline.OwnSemFacts.none _
  hbody c := (body_obligation8 (Wv17 m) c).loose
  hwaits := Pipeline.hwaits_of_owed_zero _ _ _ _ Lh lvh 8 fun _ _ => rfl
  pre c := iprop(StableHlo.held (c : Thread nD τ) (Pipeline.ucRefs τ sig) (W17 m c) ∗ Rh c)
  post c := iprop(Tn m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec8 c (Wv17 m c)
  hentry c := by
    rw [Pipeline.ownSems0_none]
    have hsplit := Pipeline.arrays_of_unscopedBufs (p := 8) (pcfgs (F := F)) hadm (pdats m) launch8.win launch8.arr_whole c
      ((pdats m 8 c).share_full fun _ => rfl) (Wv17 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin8 (Wv17 m) c)
    unfold Pipeline.ΦA
    iintro ⟨Hp, -, Hr⟩
    isplitl [Hr]; · iexact Hr
    iexact Hp
  hout c := by
    rw [Pipeline.ownSems0_none]
    refine BIBase.Entails.trans (hout8 (Wv17 m) c) ?_
    unfold Pipeline.ΦA
    iintro ⟨Hr, Hp⟩
    isplitl [Hp]; · iexact Hp
    isplitr; · iempintro
    iexact Hr
  hexit c := by
    have hjoin := Pipeline.unscopedBufs_of_arrays (p := 8) (pcfgs (F := F)) hadm (Ix := Unit) (Name := ℕ) (U := UR sig nD τ) (Lvl := ℕ)
      launch8.win launch8.arr_whole c (pdats m) ((pdats m 8 c).share_full fun _ => rfl)
      (Wv17 m c) (Wv18 m c) ((pdats m 8 c).arrAt · cfg8.N) (hF8 m c) (hrest8 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) hadm (pdats m) () defs₀ 𝒱h Lh lvh) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .host (hseg hostOps0_3 hostOps0_3_sub hostOps0_3_fresh (W3 m)),
    .host (hseg hostOps0_4 hostOps0_4_sub hostOps0_4_fresh (W4 m)),
    .region (reg0 m),
    .host (hseg hostOps1 hostOps1_sub hostOps1_fresh (W6 m)),
    .region (reg1 m),
    .region (reg2 m),
    .host (hseg hostOps3 hostOps3_sub hostOps3_fresh (W9 m)),
    .region (reg3 m),
    .region (reg4 m),
    .host (hseg hostOps5 hostOps5_sub hostOps5_fresh (W12 m)),
    .region (reg5 m),
    .region (reg6 m),
    .host (hseg hostOps7 hostOps7_sub hostOps7_fresh (W15 m)),
    .region (reg7 m),
    .region (reg8 m) ]
theorem main_run (c : Dev nD) : main (F := F) c = Pipeline.Seg.run (segs m) := (main_chain c).trans (by first | chain_rfl | (rw [Pipeline.Seg.run_eq_chain]; rfl))

set_option backward.isDefEq.respectTransparency.types false in
/-- THE RUN. At the compiled mesh, for any float values, from any memory with zero counters: every weakly fair
    execution of @main on the TensorCores terminates, nothing faulting, and every final state holds every unscoped buffer at
    the last valuation. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W18 m c b) :=
  Pipeline.θ_run_regions_kit (pcfgs (F := F)) hadm (pdats m) () cellOf_inj emb₁ defs₀ 𝒱h Lh lvh m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ Rh c)) (Tₙ := Tn m)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach Lh lvh fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W18 m c b)
    (hfin := fun c s' => by
      iintro ⟨⟨Hh, -⟩, HSI⟩
      unfold StableHlo.held
      imodintro
      iapply (pointsTo_read_all (Pipeline.ucRefs τ sig) (fun b => (((c : Thread nD τ)).1, b)) (W18 m c) s')
      isplitl [Hh] <;> iassumption)
    (hQ := fun s h c => h c)

/-! ## The arguments end as launched: no host operation writes one and no region stages one -/
theorem W18_main_arg0 (c : Dev nD) : W18 m c (Proc.devRef .tc main_arg0) = m ((c : Thread nD τ).loc main_arg0) :=
  (W18_of_ne m c main_arg0 (by decide)).trans <|
  (W17_of_ne m c main_arg0 (by decide)).trans <|
  (StableHlo.after_of_writes_sub hostOps7 _ hostOps7_writes (by decide : main_arg0 ∉ hostOps7_W)).trans <|
  (W15_of_ne m c main_arg0 (by decide)).trans <|
  (W14_of_ne m c main_arg0 (by decide)).trans <|
  (StableHlo.after_of_writes_sub hostOps5 _ hostOps5_writes (by decide : main_arg0 ∉ hostOps5_W)).trans <|
  (W12_of_ne m c main_arg0 (by decide)).trans <|
  (W11_of_ne m c main_arg0 (by decide)).trans <|
  (StableHlo.after_of_writes_sub hostOps3 _ hostOps3_writes (by decide : main_arg0 ∉ hostOps3_W)).trans <|
  (W9_of_ne m c main_arg0 (by decide)).trans <|
  (W8_of_ne m c main_arg0 (by decide)).trans <|
  (StableHlo.after_of_writes_sub hostOps1 _ hostOps1_writes (by decide : main_arg0 ∉ hostOps1_W)).trans <|
  (W6_of_ne m c main_arg0 (by decide)).trans <|
  (StableHlo.after_of_writes_sub hostOps0_4 _ hostOps0_4_writes (by decide : main_arg0 ∉ hostOps0_4_W)).trans <|
  (StableHlo.after_of_writes_sub hostOps0_3 _ hostOps0_3_writes (by decide : main_arg0 ∉ hostOps0_3_W)).trans <|
  (StableHlo.after_of_writes_sub hostOps0_2 _ hostOps0_2_writes (by decide : main_arg0 ∉ hostOps0_2_W)).trans <|
  (StableHlo.after_of_writes_sub hostOps0_1 _ hostOps0_1_writes (by decide : main_arg0 ∉ hostOps0_1_W)).trans <|
  (StableHlo.after_of_writes_sub hostOps0 _ hostOps0_writes (by decide : main_arg0 ∉ hostOps0_W)).trans <| rfl
theorem W18_main_arg1 (c : Dev nD) : W18 m c (Proc.devRef .tc main_arg1) = m ((c : Thread nD τ).loc main_arg1) :=
  (W18_of_ne m c main_arg1 (by decide)).trans <|
  (W17_of_ne m c main_arg1 (by decide)).trans <|
  (StableHlo.after_of_writes_sub hostOps7 _ hostOps7_writes (by decide : main_arg1 ∉ hostOps7_W)).trans <|
  (W15_of_ne m c main_arg1 (by decide)).trans <|
  (W14_of_ne m c main_arg1 (by decide)).trans <|
  (StableHlo.after_of_writes_sub hostOps5 _ hostOps5_writes (by decide : main_arg1 ∉ hostOps5_W)).trans <|
  (W12_of_ne m c main_arg1 (by decide)).trans <|
  (W11_of_ne m c main_arg1 (by decide)).trans <|
  (StableHlo.after_of_writes_sub hostOps3 _ hostOps3_writes (by decide : main_arg1 ∉ hostOps3_W)).trans <|
  (W9_of_ne m c main_arg1 (by decide)).trans <|
  (W8_of_ne m c main_arg1 (by decide)).trans <|
  (StableHlo.after_of_writes_sub hostOps1 _ hostOps1_writes (by decide : main_arg1 ∉ hostOps1_W)).trans <|
  (W6_of_ne m c main_arg1 (by decide)).trans <|
  (StableHlo.after_of_writes_sub hostOps0_4 _ hostOps0_4_writes (by decide : main_arg1 ∉ hostOps0_4_W)).trans <|
  (StableHlo.after_of_writes_sub hostOps0_3 _ hostOps0_3_writes (by decide : main_arg1 ∉ hostOps0_3_W)).trans <|
  (StableHlo.after_of_writes_sub hostOps0_2 _ hostOps0_2_writes (by decide : main_arg1 ∉ hostOps0_2_W)).trans <|
  (StableHlo.after_of_writes_sub hostOps0_1 _ hostOps0_1_writes (by decide : main_arg1 ∉ hostOps0_1_W)).trans <|
  (StableHlo.after_of_writes_sub hostOps0 _ hostOps0_writes (by decide : main_arg1 ∉ hostOps0_W)).trans <| rfl
theorem W18_main_arg2 (c : Dev nD) : W18 m c (Proc.devRef .tc main_arg2) = m ((c : Thread nD τ).loc main_arg2) :=
  (W18_of_ne m c main_arg2 (by decide)).trans <|
  (W17_of_ne m c main_arg2 (by decide)).trans <|
  (StableHlo.after_of_writes_sub hostOps7 _ hostOps7_writes (by decide : main_arg2 ∉ hostOps7_W)).trans <|
  (W15_of_ne m c main_arg2 (by decide)).trans <|
  (W14_of_ne m c main_arg2 (by decide)).trans <|
  (StableHlo.after_of_writes_sub hostOps5 _ hostOps5_writes (by decide : main_arg2 ∉ hostOps5_W)).trans <|
  (W12_of_ne m c main_arg2 (by decide)).trans <|
  (W11_of_ne m c main_arg2 (by decide)).trans <|
  (StableHlo.after_of_writes_sub hostOps3 _ hostOps3_writes (by decide : main_arg2 ∉ hostOps3_W)).trans <|
  (W9_of_ne m c main_arg2 (by decide)).trans <|
  (W8_of_ne m c main_arg2 (by decide)).trans <|
  (StableHlo.after_of_writes_sub hostOps1 _ hostOps1_writes (by decide : main_arg2 ∉ hostOps1_W)).trans <|
  (W6_of_ne m c main_arg2 (by decide)).trans <|
  (StableHlo.after_of_writes_sub hostOps0_4 _ hostOps0_4_writes (by decide : main_arg2 ∉ hostOps0_4_W)).trans <|
  (StableHlo.after_of_writes_sub hostOps0_3 _ hostOps0_3_writes (by decide : main_arg2 ∉ hostOps0_3_W)).trans <|
  (StableHlo.after_of_writes_sub hostOps0_2 _ hostOps0_2_writes (by decide : main_arg2 ∉ hostOps0_2_W)).trans <|
  (StableHlo.after_of_writes_sub hostOps0_1 _ hostOps0_1_writes (by decide : main_arg2 ∉ hostOps0_1_W)).trans <|
  (StableHlo.after_of_writes_sub hostOps0 _ hostOps0_writes (by decide : main_arg2 ∉ hostOps0_W)).trans <| rfl
theorem W18_main_arg3 (c : Dev nD) : W18 m c (Proc.devRef .tc main_arg3) = m ((c : Thread nD τ).loc main_arg3) :=
  (W18_of_ne m c main_arg3 (by decide)).trans <|
  (W17_of_ne m c main_arg3 (by decide)).trans <|
  (StableHlo.after_of_writes_sub hostOps7 _ hostOps7_writes (by decide : main_arg3 ∉ hostOps7_W)).trans <|
  (W15_of_ne m c main_arg3 (by decide)).trans <|
  (W14_of_ne m c main_arg3 (by decide)).trans <|
  (StableHlo.after_of_writes_sub hostOps5 _ hostOps5_writes (by decide : main_arg3 ∉ hostOps5_W)).trans <|
  (W12_of_ne m c main_arg3 (by decide)).trans <|
  (W11_of_ne m c main_arg3 (by decide)).trans <|
  (StableHlo.after_of_writes_sub hostOps3 _ hostOps3_writes (by decide : main_arg3 ∉ hostOps3_W)).trans <|
  (W9_of_ne m c main_arg3 (by decide)).trans <|
  (W8_of_ne m c main_arg3 (by decide)).trans <|
  (StableHlo.after_of_writes_sub hostOps1 _ hostOps1_writes (by decide : main_arg3 ∉ hostOps1_W)).trans <|
  (W6_of_ne m c main_arg3 (by decide)).trans <|
  (StableHlo.after_of_writes_sub hostOps0_4 _ hostOps0_4_writes (by decide : main_arg3 ∉ hostOps0_4_W)).trans <|
  (StableHlo.after_of_writes_sub hostOps0_3 _ hostOps0_3_writes (by decide : main_arg3 ∉ hostOps0_3_W)).trans <|
  (StableHlo.after_of_writes_sub hostOps0_2 _ hostOps0_2_writes (by decide : main_arg3 ∉ hostOps0_2_W)).trans <|
  (StableHlo.after_of_writes_sub hostOps0_1 _ hostOps0_1_writes (by decide : main_arg3 ∉ hostOps0_1_W)).trans <|
  (StableHlo.after_of_writes_sub hostOps0 _ hostOps0_writes (by decide : main_arg3 ∉ hostOps0_W)).trans <| rfl
theorem W18_main_arg4 (c : Dev nD) : W18 m c (Proc.devRef .tc main_arg4) = m ((c : Thread nD τ).loc main_arg4) :=
  (W18_of_ne m c main_arg4 (by decide)).trans <|
  (W17_of_ne m c main_arg4 (by decide)).trans <|
  (StableHlo.after_of_writes_sub hostOps7 _ hostOps7_writes (by decide : main_arg4 ∉ hostOps7_W)).trans <|
  (W15_of_ne m c main_arg4 (by decide)).trans <|
  (W14_of_ne m c main_arg4 (by decide)).trans <|
  (StableHlo.after_of_writes_sub hostOps5 _ hostOps5_writes (by decide : main_arg4 ∉ hostOps5_W)).trans <|
  (W12_of_ne m c main_arg4 (by decide)).trans <|
  (W11_of_ne m c main_arg4 (by decide)).trans <|
  (StableHlo.after_of_writes_sub hostOps3 _ hostOps3_writes (by decide : main_arg4 ∉ hostOps3_W)).trans <|
  (W9_of_ne m c main_arg4 (by decide)).trans <|
  (W8_of_ne m c main_arg4 (by decide)).trans <|
  (StableHlo.after_of_writes_sub hostOps1 _ hostOps1_writes (by decide : main_arg4 ∉ hostOps1_W)).trans <|
  (W6_of_ne m c main_arg4 (by decide)).trans <|
  (StableHlo.after_of_writes_sub hostOps0_4 _ hostOps0_4_writes (by decide : main_arg4 ∉ hostOps0_4_W)).trans <|
  (StableHlo.after_of_writes_sub hostOps0_3 _ hostOps0_3_writes (by decide : main_arg4 ∉ hostOps0_3_W)).trans <|
  (StableHlo.after_of_writes_sub hostOps0_2 _ hostOps0_2_writes (by decide : main_arg4 ∉ hostOps0_2_W)).trans <|
  (StableHlo.after_of_writes_sub hostOps0_1 _ hostOps0_1_writes (by decide : main_arg4 ∉ hostOps0_1_W)).trans <|
  (StableHlo.after_of_writes_sub hostOps0 _ hostOps0_writes (by decide : main_arg4 ∉ hostOps0_W)).trans <| rfl
theorem W18_main_arg5 (c : Dev nD) : W18 m c (Proc.devRef .tc main_arg5) = m ((c : Thread nD τ).loc main_arg5) :=
  (W18_of_ne m c main_arg5 (by decide)).trans <|
  (W17_of_ne m c main_arg5 (by decide)).trans <|
  (StableHlo.after_of_writes_sub hostOps7 _ hostOps7_writes (by decide : main_arg5 ∉ hostOps7_W)).trans <|
  (W15_of_ne m c main_arg5 (by decide)).trans <|
  (W14_of_ne m c main_arg5 (by decide)).trans <|
  (StableHlo.after_of_writes_sub hostOps5 _ hostOps5_writes (by decide : main_arg5 ∉ hostOps5_W)).trans <|
  (W12_of_ne m c main_arg5 (by decide)).trans <|
  (W11_of_ne m c main_arg5 (by decide)).trans <|
  (StableHlo.after_of_writes_sub hostOps3 _ hostOps3_writes (by decide : main_arg5 ∉ hostOps3_W)).trans <|
  (W9_of_ne m c main_arg5 (by decide)).trans <|
  (W8_of_ne m c main_arg5 (by decide)).trans <|
  (StableHlo.after_of_writes_sub hostOps1 _ hostOps1_writes (by decide : main_arg5 ∉ hostOps1_W)).trans <|
  (W6_of_ne m c main_arg5 (by decide)).trans <|
  (StableHlo.after_of_writes_sub hostOps0_4 _ hostOps0_4_writes (by decide : main_arg5 ∉ hostOps0_4_W)).trans <|
  (StableHlo.after_of_writes_sub hostOps0_3 _ hostOps0_3_writes (by decide : main_arg5 ∉ hostOps0_3_W)).trans <|
  (StableHlo.after_of_writes_sub hostOps0_2 _ hostOps0_2_writes (by decide : main_arg5 ∉ hostOps0_2_W)).trans <|
  (StableHlo.after_of_writes_sub hostOps0_1 _ hostOps0_1_writes (by decide : main_arg5 ∉ hostOps0_1_W)).trans <|
  (StableHlo.after_of_writes_sub hostOps0 _ hostOps0_writes (by decide : main_arg5 ∉ hostOps0_W)).trans <| rfl
theorem W18_main_arg6 (c : Dev nD) : W18 m c (Proc.devRef .tc main_arg6) = m ((c : Thread nD τ).loc main_arg6) :=
  (W18_of_ne m c main_arg6 (by decide)).trans <|
  (W17_of_ne m c main_arg6 (by decide)).trans <|
  (StableHlo.after_of_writes_sub hostOps7 _ hostOps7_writes (by decide : main_arg6 ∉ hostOps7_W)).trans <|
  (W15_of_ne m c main_arg6 (by decide)).trans <|
  (W14_of_ne m c main_arg6 (by decide)).trans <|
  (StableHlo.after_of_writes_sub hostOps5 _ hostOps5_writes (by decide : main_arg6 ∉ hostOps5_W)).trans <|
  (W12_of_ne m c main_arg6 (by decide)).trans <|
  (W11_of_ne m c main_arg6 (by decide)).trans <|
  (StableHlo.after_of_writes_sub hostOps3 _ hostOps3_writes (by decide : main_arg6 ∉ hostOps3_W)).trans <|
  (W9_of_ne m c main_arg6 (by decide)).trans <|
  (W8_of_ne m c main_arg6 (by decide)).trans <|
  (StableHlo.after_of_writes_sub hostOps1 _ hostOps1_writes (by decide : main_arg6 ∉ hostOps1_W)).trans <|
  (W6_of_ne m c main_arg6 (by decide)).trans <|
  (StableHlo.after_of_writes_sub hostOps0_4 _ hostOps0_4_writes (by decide : main_arg6 ∉ hostOps0_4_W)).trans <|
  (StableHlo.after_of_writes_sub hostOps0_3 _ hostOps0_3_writes (by decide : main_arg6 ∉ hostOps0_3_W)).trans <|
  (StableHlo.after_of_writes_sub hostOps0_2 _ hostOps0_2_writes (by decide : main_arg6 ∉ hostOps0_2_W)).trans <|
  (StableHlo.after_of_writes_sub hostOps0_1 _ hostOps0_1_writes (by decide : main_arg6 ∉ hostOps0_1_W)).trans <|
  (StableHlo.after_of_writes_sub hostOps0 _ hostOps0_writes (by decide : main_arg6 ∉ hostOps0_W)).trans <| rfl
theorem W18_main_arg7 (c : Dev nD) : W18 m c (Proc.devRef .tc main_arg7) = m ((c : Thread nD τ).loc main_arg7) :=
  (W18_of_ne m c main_arg7 (by decide)).trans <|
  (W17_of_ne m c main_arg7 (by decide)).trans <|
  (StableHlo.after_of_writes_sub hostOps7 _ hostOps7_writes (by decide : main_arg7 ∉ hostOps7_W)).trans <|
  (W15_of_ne m c main_arg7 (by decide)).trans <|
  (W14_of_ne m c main_arg7 (by decide)).trans <|
  (StableHlo.after_of_writes_sub hostOps5 _ hostOps5_writes (by decide : main_arg7 ∉ hostOps5_W)).trans <|
  (W12_of_ne m c main_arg7 (by decide)).trans <|
  (W11_of_ne m c main_arg7 (by decide)).trans <|
  (StableHlo.after_of_writes_sub hostOps3 _ hostOps3_writes (by decide : main_arg7 ∉ hostOps3_W)).trans <|
  (W9_of_ne m c main_arg7 (by decide)).trans <|
  (W8_of_ne m c main_arg7 (by decide)).trans <|
  (StableHlo.after_of_writes_sub hostOps1 _ hostOps1_writes (by decide : main_arg7 ∉ hostOps1_W)).trans <|
  (W6_of_ne m c main_arg7 (by decide)).trans <|
  (StableHlo.after_of_writes_sub hostOps0_4 _ hostOps0_4_writes (by decide : main_arg7 ∉ hostOps0_4_W)).trans <|
  (StableHlo.after_of_writes_sub hostOps0_3 _ hostOps0_3_writes (by decide : main_arg7 ∉ hostOps0_3_W)).trans <|
  (StableHlo.after_of_writes_sub hostOps0_2 _ hostOps0_2_writes (by decide : main_arg7 ∉ hostOps0_2_W)).trans <|
  (StableHlo.after_of_writes_sub hostOps0_1 _ hostOps0_1_writes (by decide : main_arg7 ∉ hostOps0_1_W)).trans <|
  (StableHlo.after_of_writes_sub hostOps0 _ hostOps0_writes (by decide : main_arg7 ∉ hostOps0_W)).trans <| rfl
theorem W18_main_arg8 (c : Dev nD) : W18 m c (Proc.devRef .tc main_arg8) = m ((c : Thread nD τ).loc main_arg8) :=
  (W18_of_ne m c main_arg8 (by decide)).trans <|
  (W17_of_ne m c main_arg8 (by decide)).trans <|
  (StableHlo.after_of_writes_sub hostOps7 _ hostOps7_writes (by decide : main_arg8 ∉ hostOps7_W)).trans <|
  (W15_of_ne m c main_arg8 (by decide)).trans <|
  (W14_of_ne m c main_arg8 (by decide)).trans <|
  (StableHlo.after_of_writes_sub hostOps5 _ hostOps5_writes (by decide : main_arg8 ∉ hostOps5_W)).trans <|
  (W12_of_ne m c main_arg8 (by decide)).trans <|
  (W11_of_ne m c main_arg8 (by decide)).trans <|
  (StableHlo.after_of_writes_sub hostOps3 _ hostOps3_writes (by decide : main_arg8 ∉ hostOps3_W)).trans <|
  (W9_of_ne m c main_arg8 (by decide)).trans <|
  (W8_of_ne m c main_arg8 (by decide)).trans <|
  (StableHlo.after_of_writes_sub hostOps1 _ hostOps1_writes (by decide : main_arg8 ∉ hostOps1_W)).trans <|
  (W6_of_ne m c main_arg8 (by decide)).trans <|
  (StableHlo.after_of_writes_sub hostOps0_4 _ hostOps0_4_writes (by decide : main_arg8 ∉ hostOps0_4_W)).trans <|
  (StableHlo.after_of_writes_sub hostOps0_3 _ hostOps0_3_writes (by decide : main_arg8 ∉ hostOps0_3_W)).trans <|
  (StableHlo.after_of_writes_sub hostOps0_2 _ hostOps0_2_writes (by decide : main_arg8 ∉ hostOps0_2_W)).trans <|
  (StableHlo.after_of_writes_sub hostOps0_1 _ hostOps0_1_writes (by decide : main_arg8 ∉ hostOps0_1_W)).trans <|
  (StableHlo.after_of_writes_sub hostOps0 _ hostOps0_writes (by decide : main_arg8 ∉ hostOps0_W)).trans <| rfl
theorem W18_main_arg9 (c : Dev nD) : W18 m c (Proc.devRef .tc main_arg9) = m ((c : Thread nD τ).loc main_arg9) :=
  (W18_of_ne m c main_arg9 (by decide)).trans <|
  (W17_of_ne m c main_arg9 (by decide)).trans <|
  (StableHlo.after_of_writes_sub hostOps7 _ hostOps7_writes (by decide : main_arg9 ∉ hostOps7_W)).trans <|
  (W15_of_ne m c main_arg9 (by decide)).trans <|
  (W14_of_ne m c main_arg9 (by decide)).trans <|
  (StableHlo.after_of_writes_sub hostOps5 _ hostOps5_writes (by decide : main_arg9 ∉ hostOps5_W)).trans <|
  (W12_of_ne m c main_arg9 (by decide)).trans <|
  (W11_of_ne m c main_arg9 (by decide)).trans <|
  (StableHlo.after_of_writes_sub hostOps3 _ hostOps3_writes (by decide : main_arg9 ∉ hostOps3_W)).trans <|
  (W9_of_ne m c main_arg9 (by decide)).trans <|
  (W8_of_ne m c main_arg9 (by decide)).trans <|
  (StableHlo.after_of_writes_sub hostOps1 _ hostOps1_writes (by decide : main_arg9 ∉ hostOps1_W)).trans <|
  (W6_of_ne m c main_arg9 (by decide)).trans <|
  (StableHlo.after_of_writes_sub hostOps0_4 _ hostOps0_4_writes (by decide : main_arg9 ∉ hostOps0_4_W)).trans <|
  (StableHlo.after_of_writes_sub hostOps0_3 _ hostOps0_3_writes (by decide : main_arg9 ∉ hostOps0_3_W)).trans <|
  (StableHlo.after_of_writes_sub hostOps0_2 _ hostOps0_2_writes (by decide : main_arg9 ∉ hostOps0_2_W)).trans <|
  (StableHlo.after_of_writes_sub hostOps0_1 _ hostOps0_1_writes (by decide : main_arg9 ∉ hostOps0_1_W)).trans <|
  (StableHlo.after_of_writes_sub hostOps0 _ hostOps0_writes (by decide : main_arg9 ∉ hostOps0_W)).trans <| rfl
theorem W18_main_arg10 (c : Dev nD) : W18 m c (Proc.devRef .tc main_arg10) = m ((c : Thread nD τ).loc main_arg10) :=
  (W18_of_ne m c main_arg10 (by decide)).trans <|
  (W17_of_ne m c main_arg10 (by decide)).trans <|
  (StableHlo.after_of_writes_sub hostOps7 _ hostOps7_writes (by decide : main_arg10 ∉ hostOps7_W)).trans <|
  (W15_of_ne m c main_arg10 (by decide)).trans <|
  (W14_of_ne m c main_arg10 (by decide)).trans <|
  (StableHlo.after_of_writes_sub hostOps5 _ hostOps5_writes (by decide : main_arg10 ∉ hostOps5_W)).trans <|
  (W12_of_ne m c main_arg10 (by decide)).trans <|
  (W11_of_ne m c main_arg10 (by decide)).trans <|
  (StableHlo.after_of_writes_sub hostOps3 _ hostOps3_writes (by decide : main_arg10 ∉ hostOps3_W)).trans <|
  (W9_of_ne m c main_arg10 (by decide)).trans <|
  (W8_of_ne m c main_arg10 (by decide)).trans <|
  (StableHlo.after_of_writes_sub hostOps1 _ hostOps1_writes (by decide : main_arg10 ∉ hostOps1_W)).trans <|
  (W6_of_ne m c main_arg10 (by decide)).trans <|
  (StableHlo.after_of_writes_sub hostOps0_4 _ hostOps0_4_writes (by decide : main_arg10 ∉ hostOps0_4_W)).trans <|
  (StableHlo.after_of_writes_sub hostOps0_3 _ hostOps0_3_writes (by decide : main_arg10 ∉ hostOps0_3_W)).trans <|
  (StableHlo.after_of_writes_sub hostOps0_2 _ hostOps0_2_writes (by decide : main_arg10 ∉ hostOps0_2_W)).trans <|
  (StableHlo.after_of_writes_sub hostOps0_1 _ hostOps0_1_writes (by decide : main_arg10 ∉ hostOps0_1_W)).trans <|
  (StableHlo.after_of_writes_sub hostOps0 _ hostOps0_writes (by decide : main_arg10 ∉ hostOps0_W)).trans <| rfl
theorem W18_main_arg11 (c : Dev nD) : W18 m c (Proc.devRef .tc main_arg11) = m ((c : Thread nD τ).loc main_arg11) :=
  (W18_of_ne m c main_arg11 (by decide)).trans <|
  (W17_of_ne m c main_arg11 (by decide)).trans <|
  (StableHlo.after_of_writes_sub hostOps7 _ hostOps7_writes (by decide : main_arg11 ∉ hostOps7_W)).trans <|
  (W15_of_ne m c main_arg11 (by decide)).trans <|
  (W14_of_ne m c main_arg11 (by decide)).trans <|
  (StableHlo.after_of_writes_sub hostOps5 _ hostOps5_writes (by decide : main_arg11 ∉ hostOps5_W)).trans <|
  (W12_of_ne m c main_arg11 (by decide)).trans <|
  (W11_of_ne m c main_arg11 (by decide)).trans <|
  (StableHlo.after_of_writes_sub hostOps3 _ hostOps3_writes (by decide : main_arg11 ∉ hostOps3_W)).trans <|
  (W9_of_ne m c main_arg11 (by decide)).trans <|
  (W8_of_ne m c main_arg11 (by decide)).trans <|
  (StableHlo.after_of_writes_sub hostOps1 _ hostOps1_writes (by decide : main_arg11 ∉ hostOps1_W)).trans <|
  (W6_of_ne m c main_arg11 (by decide)).trans <|
  (StableHlo.after_of_writes_sub hostOps0_4 _ hostOps0_4_writes (by decide : main_arg11 ∉ hostOps0_4_W)).trans <|
  (StableHlo.after_of_writes_sub hostOps0_3 _ hostOps0_3_writes (by decide : main_arg11 ∉ hostOps0_3_W)).trans <|
  (StableHlo.after_of_writes_sub hostOps0_2 _ hostOps0_2_writes (by decide : main_arg11 ∉ hostOps0_2_W)).trans <|
  (StableHlo.after_of_writes_sub hostOps0_1 _ hostOps0_1_writes (by decide : main_arg11 ∉ hostOps0_1_W)).trans <|
  (StableHlo.after_of_writes_sub hostOps0 _ hostOps0_writes (by decide : main_arg11 ∉ hostOps0_W)).trans <| rfl
theorem W18_main_arg12 (c : Dev nD) : W18 m c (Proc.devRef .tc main_arg12) = m ((c : Thread nD τ).loc main_arg12) :=
  (W18_of_ne m c main_arg12 (by decide)).trans <|
  (W17_of_ne m c main_arg12 (by decide)).trans <|
  (StableHlo.after_of_writes_sub hostOps7 _ hostOps7_writes (by decide : main_arg12 ∉ hostOps7_W)).trans <|
  (W15_of_ne m c main_arg12 (by decide)).trans <|
  (W14_of_ne m c main_arg12 (by decide)).trans <|
  (StableHlo.after_of_writes_sub hostOps5 _ hostOps5_writes (by decide : main_arg12 ∉ hostOps5_W)).trans <|
  (W12_of_ne m c main_arg12 (by decide)).trans <|
  (W11_of_ne m c main_arg12 (by decide)).trans <|
  (StableHlo.after_of_writes_sub hostOps3 _ hostOps3_writes (by decide : main_arg12 ∉ hostOps3_W)).trans <|
  (W9_of_ne m c main_arg12 (by decide)).trans <|
  (W8_of_ne m c main_arg12 (by decide)).trans <|
  (StableHlo.after_of_writes_sub hostOps1 _ hostOps1_writes (by decide : main_arg12 ∉ hostOps1_W)).trans <|
  (W6_of_ne m c main_arg12 (by decide)).trans <|
  (StableHlo.after_of_writes_sub hostOps0_4 _ hostOps0_4_writes (by decide : main_arg12 ∉ hostOps0_4_W)).trans <|
  (StableHlo.after_of_writes_sub hostOps0_3 _ hostOps0_3_writes (by decide : main_arg12 ∉ hostOps0_3_W)).trans <|
  (StableHlo.after_of_writes_sub hostOps0_2 _ hostOps0_2_writes (by decide : main_arg12 ∉ hostOps0_2_W)).trans <|
  (StableHlo.after_of_writes_sub hostOps0_1 _ hostOps0_1_writes (by decide : main_arg12 ∉ hostOps0_1_W)).trans <|
  (StableHlo.after_of_writes_sub hostOps0 _ hostOps0_writes (by decide : main_arg12 ∉ hostOps0_W)).trans <| rfl
theorem W18_main_arg13 (c : Dev nD) : W18 m c (Proc.devRef .tc main_arg13) = m ((c : Thread nD τ).loc main_arg13) :=
  (W18_of_ne m c main_arg13 (by decide)).trans <|
  (W17_of_ne m c main_arg13 (by decide)).trans <|
  (StableHlo.after_of_writes_sub hostOps7 _ hostOps7_writes (by decide : main_arg13 ∉ hostOps7_W)).trans <|
  (W15_of_ne m c main_arg13 (by decide)).trans <|
  (W14_of_ne m c main_arg13 (by decide)).trans <|
  (StableHlo.after_of_writes_sub hostOps5 _ hostOps5_writes (by decide : main_arg13 ∉ hostOps5_W)).trans <|
  (W12_of_ne m c main_arg13 (by decide)).trans <|
  (W11_of_ne m c main_arg13 (by decide)).trans <|
  (StableHlo.after_of_writes_sub hostOps3 _ hostOps3_writes (by decide : main_arg13 ∉ hostOps3_W)).trans <|
  (W9_of_ne m c main_arg13 (by decide)).trans <|
  (W8_of_ne m c main_arg13 (by decide)).trans <|
  (StableHlo.after_of_writes_sub hostOps1 _ hostOps1_writes (by decide : main_arg13 ∉ hostOps1_W)).trans <|
  (W6_of_ne m c main_arg13 (by decide)).trans <|
  (StableHlo.after_of_writes_sub hostOps0_4 _ hostOps0_4_writes (by decide : main_arg13 ∉ hostOps0_4_W)).trans <|
  (StableHlo.after_of_writes_sub hostOps0_3 _ hostOps0_3_writes (by decide : main_arg13 ∉ hostOps0_3_W)).trans <|
  (StableHlo.after_of_writes_sub hostOps0_2 _ hostOps0_2_writes (by decide : main_arg13 ∉ hostOps0_2_W)).trans <|
  (StableHlo.after_of_writes_sub hostOps0_1 _ hostOps0_1_writes (by decide : main_arg13 ∉ hostOps0_1_W)).trans <|
  (StableHlo.after_of_writes_sub hostOps0 _ hostOps0_writes (by decide : main_arg13 ∉ hostOps0_W)).trans <| rfl

/-! ## Buffers kept from item to item: a host stretch does not write them; a region either does not touch them or stages
    them as an input, whose array comes back as entered -/
theorem keep_main_v24_5_7 (c : Dev nD) : W7 m c (Proc.devRef .tc main_v24) = W5 m c (Proc.devRef .tc main_v24) :=
  (StableHlo.after_of_writes_sub hostOps1 _ hostOps1_writes (by decide : main_v24 ∉ hostOps1_W)).trans <|
  (W6_of_ne m c main_v24 (by decide)).trans <| rfl
theorem keep_main_v24_5_10 (c : Dev nD) : W10 m c (Proc.devRef .tc main_v24) = W5 m c (Proc.devRef .tc main_v24) :=
  (StableHlo.after_of_writes_sub hostOps3 _ hostOps3_writes (by decide : main_v24 ∉ hostOps3_W)).trans <|
  (W9_of_ne m c main_v24 (by decide)).trans <|
  ((W8_arr m c 0).trans (((dat1 (Wv7 m) c).arrAt_in 0 rfl _).trans (A_eq1 (Wv7 m) c 0))).trans <|
  (StableHlo.after_of_writes_sub hostOps1 _ hostOps1_writes (by decide : main_v24 ∉ hostOps1_W)).trans <|
  (W6_of_ne m c main_v24 (by decide)).trans <| rfl
theorem keep_main_v24_5_13 (c : Dev nD) : W13 m c (Proc.devRef .tc main_v24) = W5 m c (Proc.devRef .tc main_v24) :=
  (StableHlo.after_of_writes_sub hostOps5 _ hostOps5_writes (by decide : main_v24 ∉ hostOps5_W)).trans <|
  (W12_of_ne m c main_v24 (by decide)).trans <|
  ((W11_arr m c 0).trans (((dat3 (Wv10 m) c).arrAt_in 0 rfl _).trans (A_eq3 (Wv10 m) c 0))).trans <|
  (StableHlo.after_of_writes_sub hostOps3 _ hostOps3_writes (by decide : main_v24 ∉ hostOps3_W)).trans <|
  (W9_of_ne m c main_v24 (by decide)).trans <|
  ((W8_arr m c 0).trans (((dat1 (Wv7 m) c).arrAt_in 0 rfl _).trans (A_eq1 (Wv7 m) c 0))).trans <|
  (StableHlo.after_of_writes_sub hostOps1 _ hostOps1_writes (by decide : main_v24 ∉ hostOps1_W)).trans <|
  (W6_of_ne m c main_v24 (by decide)).trans <| rfl
theorem keep_main_v24_5_16 (c : Dev nD) : W16 m c (Proc.devRef .tc main_v24) = W5 m c (Proc.devRef .tc main_v24) :=
  (StableHlo.after_of_writes_sub hostOps7 _ hostOps7_writes (by decide : main_v24 ∉ hostOps7_W)).trans <|
  (W15_of_ne m c main_v24 (by decide)).trans <|
  ((W14_arr m c 0).trans (((dat5 (Wv13 m) c).arrAt_in 0 rfl _).trans (A_eq5 (Wv13 m) c 0))).trans <|
  (StableHlo.after_of_writes_sub hostOps5 _ hostOps5_writes (by decide : main_v24 ∉ hostOps5_W)).trans <|
  (W12_of_ne m c main_v24 (by decide)).trans <|
  ((W11_arr m c 0).trans (((dat3 (Wv10 m) c).arrAt_in 0 rfl _).trans (A_eq3 (Wv10 m) c 0))).trans <|
  (StableHlo.after_of_writes_sub hostOps3 _ hostOps3_writes (by decide : main_v24 ∉ hostOps3_W)).trans <|
  (W9_of_ne m c main_v24 (by decide)).trans <|
  ((W8_arr m c 0).trans (((dat1 (Wv7 m) c).arrAt_in 0 rfl _).trans (A_eq1 (Wv7 m) c 0))).trans <|
  (StableHlo.after_of_writes_sub hostOps1 _ hostOps1_writes (by decide : main_v24 ∉ hostOps1_W)).trans <|
  (W6_of_ne m c main_v24 (by decide)).trans <| rfl
theorem keep_main_v24_5_17 (c : Dev nD) : W17 m c (Proc.devRef .tc main_v24) = W5 m c (Proc.devRef .tc main_v24) :=
  ((W17_arr m c 0).trans (((dat7 (Wv16 m) c).arrAt_in 0 rfl _).trans (A_eq7 (Wv16 m) c 0))).trans <|
  (StableHlo.after_of_writes_sub hostOps7 _ hostOps7_writes (by decide : main_v24 ∉ hostOps7_W)).trans <|
  (W15_of_ne m c main_v24 (by decide)).trans <|
  ((W14_arr m c 0).trans (((dat5 (Wv13 m) c).arrAt_in 0 rfl _).trans (A_eq5 (Wv13 m) c 0))).trans <|
  (StableHlo.after_of_writes_sub hostOps5 _ hostOps5_writes (by decide : main_v24 ∉ hostOps5_W)).trans <|
  (W12_of_ne m c main_v24 (by decide)).trans <|
  ((W11_arr m c 0).trans (((dat3 (Wv10 m) c).arrAt_in 0 rfl _).trans (A_eq3 (Wv10 m) c 0))).trans <|
  (StableHlo.after_of_writes_sub hostOps3 _ hostOps3_writes (by decide : main_v24 ∉ hostOps3_W)).trans <|
  (W9_of_ne m c main_v24 (by decide)).trans <|
  ((W8_arr m c 0).trans (((dat1 (Wv7 m) c).arrAt_in 0 rfl _).trans (A_eq1 (Wv7 m) c 0))).trans <|
  (StableHlo.after_of_writes_sub hostOps1 _ hostOps1_writes (by decide : main_v24 ∉ hostOps1_W)).trans <|
  (W6_of_ne m c main_v24 (by decide)).trans <| rfl
theorem keep_main_v25_5_8 (c : Dev nD) : W8 m c (Proc.devRef .tc main_v25) = W5 m c (Proc.devRef .tc main_v25) :=
  (W8_of_ne m c main_v25 (by decide)).trans <|
  (StableHlo.after_of_writes_sub hostOps1 _ hostOps1_writes (by decide : main_v25 ∉ hostOps1_W)).trans <|
  ((W6_arr m c 0).trans (((dat0 (Wv5 m) c).arrAt_in 0 rfl _).trans (A_eq0 (Wv5 m) c 0))).trans <| rfl
theorem keep_main_v25_5_11 (c : Dev nD) : W11 m c (Proc.devRef .tc main_v25) = W5 m c (Proc.devRef .tc main_v25) :=
  (W11_of_ne m c main_v25 (by decide)).trans <|
  (StableHlo.after_of_writes_sub hostOps3 _ hostOps3_writes (by decide : main_v25 ∉ hostOps3_W)).trans <|
  ((W9_arr m c 0).trans (((dat2 (Wv8 m) c).arrAt_in 0 rfl _).trans (A_eq2 (Wv8 m) c 0))).trans <|
  (W8_of_ne m c main_v25 (by decide)).trans <|
  (StableHlo.after_of_writes_sub hostOps1 _ hostOps1_writes (by decide : main_v25 ∉ hostOps1_W)).trans <|
  ((W6_arr m c 0).trans (((dat0 (Wv5 m) c).arrAt_in 0 rfl _).trans (A_eq0 (Wv5 m) c 0))).trans <| rfl
theorem keep_main_v25_5_14 (c : Dev nD) : W14 m c (Proc.devRef .tc main_v25) = W5 m c (Proc.devRef .tc main_v25) :=
  (W14_of_ne m c main_v25 (by decide)).trans <|
  (StableHlo.after_of_writes_sub hostOps5 _ hostOps5_writes (by decide : main_v25 ∉ hostOps5_W)).trans <|
  ((W12_arr m c 0).trans (((dat4 (Wv11 m) c).arrAt_in 0 rfl _).trans (A_eq4 (Wv11 m) c 0))).trans <|
  (W11_of_ne m c main_v25 (by decide)).trans <|
  (StableHlo.after_of_writes_sub hostOps3 _ hostOps3_writes (by decide : main_v25 ∉ hostOps3_W)).trans <|
  ((W9_arr m c 0).trans (((dat2 (Wv8 m) c).arrAt_in 0 rfl _).trans (A_eq2 (Wv8 m) c 0))).trans <|
  (W8_of_ne m c main_v25 (by decide)).trans <|
  (StableHlo.after_of_writes_sub hostOps1 _ hostOps1_writes (by decide : main_v25 ∉ hostOps1_W)).trans <|
  ((W6_arr m c 0).trans (((dat0 (Wv5 m) c).arrAt_in 0 rfl _).trans (A_eq0 (Wv5 m) c 0))).trans <| rfl
theorem keep_main_v25_5_17 (c : Dev nD) : W17 m c (Proc.devRef .tc main_v25) = W5 m c (Proc.devRef .tc main_v25) :=
  (W17_of_ne m c main_v25 (by decide)).trans <|
  (StableHlo.after_of_writes_sub hostOps7 _ hostOps7_writes (by decide : main_v25 ∉ hostOps7_W)).trans <|
  ((W15_arr m c 0).trans (((dat6 (Wv14 m) c).arrAt_in 0 rfl _).trans (A_eq6 (Wv14 m) c 0))).trans <|
  (W14_of_ne m c main_v25 (by decide)).trans <|
  (StableHlo.after_of_writes_sub hostOps5 _ hostOps5_writes (by decide : main_v25 ∉ hostOps5_W)).trans <|
  ((W12_arr m c 0).trans (((dat4 (Wv11 m) c).arrAt_in 0 rfl _).trans (A_eq4 (Wv11 m) c 0))).trans <|
  (W11_of_ne m c main_v25 (by decide)).trans <|
  (StableHlo.after_of_writes_sub hostOps3 _ hostOps3_writes (by decide : main_v25 ∉ hostOps3_W)).trans <|
  ((W9_arr m c 0).trans (((dat2 (Wv8 m) c).arrAt_in 0 rfl _).trans (A_eq2 (Wv8 m) c 0))).trans <|
  (W8_of_ne m c main_v25 (by decide)).trans <|
  (StableHlo.after_of_writes_sub hostOps1 _ hostOps1_writes (by decide : main_v25 ∉ hostOps1_W)).trans <|
  ((W6_arr m c 0).trans (((dat0 (Wv5 m) c).arrAt_in 0 rfl _).trans (A_eq0 (Wv5 m) c 0))).trans <| rfl
theorem keep_main_v23_5_8 (c : Dev nD) : W8 m c (Proc.devRef .tc main_v23) = W5 m c (Proc.devRef .tc main_v23) :=
  (W8_of_ne m c main_v23 (by decide)).trans <|
  (StableHlo.after_of_writes_sub hostOps1 _ hostOps1_writes (by decide : main_v23 ∉ hostOps1_W)).trans <|
  ((W6_arr m c 2).trans (((dat0 (Wv5 m) c).arrAt_in 2 rfl _).trans (A_eq0 (Wv5 m) c 2))).trans <| rfl
theorem keep_main_v23_5_11 (c : Dev nD) : W11 m c (Proc.devRef .tc main_v23) = W5 m c (Proc.devRef .tc main_v23) :=
  (W11_of_ne m c main_v23 (by decide)).trans <|
  (StableHlo.after_of_writes_sub hostOps3 _ hostOps3_writes (by decide : main_v23 ∉ hostOps3_W)).trans <|
  ((W9_arr m c 2).trans (((dat2 (Wv8 m) c).arrAt_in 2 rfl _).trans (A_eq2 (Wv8 m) c 2))).trans <|
  (W8_of_ne m c main_v23 (by decide)).trans <|
  (StableHlo.after_of_writes_sub hostOps1 _ hostOps1_writes (by decide : main_v23 ∉ hostOps1_W)).trans <|
  ((W6_arr m c 2).trans (((dat0 (Wv5 m) c).arrAt_in 2 rfl _).trans (A_eq0 (Wv5 m) c 2))).trans <| rfl
theorem keep_main_v23_5_14 (c : Dev nD) : W14 m c (Proc.devRef .tc main_v23) = W5 m c (Proc.devRef .tc main_v23) :=
  (W14_of_ne m c main_v23 (by decide)).trans <|
  (StableHlo.after_of_writes_sub hostOps5 _ hostOps5_writes (by decide : main_v23 ∉ hostOps5_W)).trans <|
  ((W12_arr m c 2).trans (((dat4 (Wv11 m) c).arrAt_in 2 rfl _).trans (A_eq4 (Wv11 m) c 2))).trans <|
  (W11_of_ne m c main_v23 (by decide)).trans <|
  (StableHlo.after_of_writes_sub hostOps3 _ hostOps3_writes (by decide : main_v23 ∉ hostOps3_W)).trans <|
  ((W9_arr m c 2).trans (((dat2 (Wv8 m) c).arrAt_in 2 rfl _).trans (A_eq2 (Wv8 m) c 2))).trans <|
  (W8_of_ne m c main_v23 (by decide)).trans <|
  (StableHlo.after_of_writes_sub hostOps1 _ hostOps1_writes (by decide : main_v23 ∉ hostOps1_W)).trans <|
  ((W6_arr m c 2).trans (((dat0 (Wv5 m) c).arrAt_in 2 rfl _).trans (A_eq0 (Wv5 m) c 2))).trans <| rfl
theorem keep_main_v23_5_17 (c : Dev nD) : W17 m c (Proc.devRef .tc main_v23) = W5 m c (Proc.devRef .tc main_v23) :=
  (W17_of_ne m c main_v23 (by decide)).trans <|
  (StableHlo.after_of_writes_sub hostOps7 _ hostOps7_writes (by decide : main_v23 ∉ hostOps7_W)).trans <|
  ((W15_arr m c 2).trans (((dat6 (Wv14 m) c).arrAt_in 2 rfl _).trans (A_eq6 (Wv14 m) c 2))).trans <|
  (W14_of_ne m c main_v23 (by decide)).trans <|
  (StableHlo.after_of_writes_sub hostOps5 _ hostOps5_writes (by decide : main_v23 ∉ hostOps5_W)).trans <|
  ((W12_arr m c 2).trans (((dat4 (Wv11 m) c).arrAt_in 2 rfl _).trans (A_eq4 (Wv11 m) c 2))).trans <|
  (W11_of_ne m c main_v23 (by decide)).trans <|
  (StableHlo.after_of_writes_sub hostOps3 _ hostOps3_writes (by decide : main_v23 ∉ hostOps3_W)).trans <|
  ((W9_arr m c 2).trans (((dat2 (Wv8 m) c).arrAt_in 2 rfl _).trans (A_eq2 (Wv8 m) c 2))).trans <|
  (W8_of_ne m c main_v23 (by decide)).trans <|
  (StableHlo.after_of_writes_sub hostOps1 _ hostOps1_writes (by decide : main_v23 ∉ hostOps1_W)).trans <|
  ((W6_arr m c 2).trans (((dat0 (Wv5 m) c).arrAt_in 2 rfl _).trans (A_eq0 (Wv5 m) c 2))).trans <| rfl
theorem keep_main_v11_5_7 (c : Dev nD) : W7 m c (Proc.devRef .tc main_v11) = W5 m c (Proc.devRef .tc main_v11) :=
  (StableHlo.after_of_writes_sub hostOps1 _ hostOps1_writes (by decide : main_v11 ∉ hostOps1_W)).trans <|
  ((W6_arr m c 1).trans (((dat0 (Wv5 m) c).arrAt_in 1 rfl _).trans (A_eq0 (Wv5 m) c 1))).trans <| rfl
theorem keep_main_v26_5_6 (c : Dev nD) : W6 m c (Proc.devRef .tc main_v26) = W5 m c (Proc.devRef .tc main_v26) :=
  (W6_of_ne m c main_v26 (by decide)).trans <| rfl
theorem keep_main_v26_5_9 (c : Dev nD) : W9 m c (Proc.devRef .tc main_v26) = W5 m c (Proc.devRef .tc main_v26) :=
  (W9_of_ne m c main_v26 (by decide)).trans <|
  (W8_of_ne m c main_v26 (by decide)).trans <|
  (StableHlo.after_of_writes_sub hostOps1 _ hostOps1_writes (by decide : main_v26 ∉ hostOps1_W)).trans <|
  (W6_of_ne m c main_v26 (by decide)).trans <| rfl
theorem keep_main_v26_5_12 (c : Dev nD) : W12 m c (Proc.devRef .tc main_v26) = W5 m c (Proc.devRef .tc main_v26) :=
  (W12_of_ne m c main_v26 (by decide)).trans <|
  (W11_of_ne m c main_v26 (by decide)).trans <|
  (StableHlo.after_of_writes_sub hostOps3 _ hostOps3_writes (by decide : main_v26 ∉ hostOps3_W)).trans <|
  (W9_of_ne m c main_v26 (by decide)).trans <|
  (W8_of_ne m c main_v26 (by decide)).trans <|
  (StableHlo.after_of_writes_sub hostOps1 _ hostOps1_writes (by decide : main_v26 ∉ hostOps1_W)).trans <|
  (W6_of_ne m c main_v26 (by decide)).trans <| rfl
theorem keep_main_v26_5_15 (c : Dev nD) : W15 m c (Proc.devRef .tc main_v26) = W5 m c (Proc.devRef .tc main_v26) :=
  (W15_of_ne m c main_v26 (by decide)).trans <|
  (W14_of_ne m c main_v26 (by decide)).trans <|
  (StableHlo.after_of_writes_sub hostOps5 _ hostOps5_writes (by decide : main_v26 ∉ hostOps5_W)).trans <|
  (W12_of_ne m c main_v26 (by decide)).trans <|
  (W11_of_ne m c main_v26 (by decide)).trans <|
  (StableHlo.after_of_writes_sub hostOps3 _ hostOps3_writes (by decide : main_v26 ∉ hostOps3_W)).trans <|
  (W9_of_ne m c main_v26 (by decide)).trans <|
  (W8_of_ne m c main_v26 (by decide)).trans <|
  (StableHlo.after_of_writes_sub hostOps1 _ hostOps1_writes (by decide : main_v26 ∉ hostOps1_W)).trans <|
  (W6_of_ne m c main_v26 (by decide)).trans <| rfl
theorem keep_main_arg13_0_6 (c : Dev nD) : W6 m c (Proc.devRef .tc main_arg13) = W0 m c (Proc.devRef .tc main_arg13) :=
  (W6_of_ne m c main_arg13 (by decide)).trans <|
  (StableHlo.after_of_writes_sub hostOps0_4 _ hostOps0_4_writes (by decide : main_arg13 ∉ hostOps0_4_W)).trans <|
  (StableHlo.after_of_writes_sub hostOps0_3 _ hostOps0_3_writes (by decide : main_arg13 ∉ hostOps0_3_W)).trans <|
  (StableHlo.after_of_writes_sub hostOps0_2 _ hostOps0_2_writes (by decide : main_arg13 ∉ hostOps0_2_W)).trans <|
  (StableHlo.after_of_writes_sub hostOps0_1 _ hostOps0_1_writes (by decide : main_arg13 ∉ hostOps0_1_W)).trans <|
  (StableHlo.after_of_writes_sub hostOps0 _ hostOps0_writes (by decide : main_arg13 ∉ hostOps0_W)).trans <| rfl
theorem keep_main_arg13_0_9 (c : Dev nD) : W9 m c (Proc.devRef .tc main_arg13) = W0 m c (Proc.devRef .tc main_arg13) :=
  (W9_of_ne m c main_arg13 (by decide)).trans <|
  (W8_of_ne m c main_arg13 (by decide)).trans <|
  (StableHlo.after_of_writes_sub hostOps1 _ hostOps1_writes (by decide : main_arg13 ∉ hostOps1_W)).trans <|
  (W6_of_ne m c main_arg13 (by decide)).trans <|
  (StableHlo.after_of_writes_sub hostOps0_4 _ hostOps0_4_writes (by decide : main_arg13 ∉ hostOps0_4_W)).trans <|
  (StableHlo.after_of_writes_sub hostOps0_3 _ hostOps0_3_writes (by decide : main_arg13 ∉ hostOps0_3_W)).trans <|
  (StableHlo.after_of_writes_sub hostOps0_2 _ hostOps0_2_writes (by decide : main_arg13 ∉ hostOps0_2_W)).trans <|
  (StableHlo.after_of_writes_sub hostOps0_1 _ hostOps0_1_writes (by decide : main_arg13 ∉ hostOps0_1_W)).trans <|
  (StableHlo.after_of_writes_sub hostOps0 _ hostOps0_writes (by decide : main_arg13 ∉ hostOps0_W)).trans <| rfl
theorem keep_main_arg13_0_12 (c : Dev nD) : W12 m c (Proc.devRef .tc main_arg13) = W0 m c (Proc.devRef .tc main_arg13) :=
  (W12_of_ne m c main_arg13 (by decide)).trans <|
  (W11_of_ne m c main_arg13 (by decide)).trans <|
  (StableHlo.after_of_writes_sub hostOps3 _ hostOps3_writes (by decide : main_arg13 ∉ hostOps3_W)).trans <|
  (W9_of_ne m c main_arg13 (by decide)).trans <|
  (W8_of_ne m c main_arg13 (by decide)).trans <|
  (StableHlo.after_of_writes_sub hostOps1 _ hostOps1_writes (by decide : main_arg13 ∉ hostOps1_W)).trans <|
  (W6_of_ne m c main_arg13 (by decide)).trans <|
  (StableHlo.after_of_writes_sub hostOps0_4 _ hostOps0_4_writes (by decide : main_arg13 ∉ hostOps0_4_W)).trans <|
  (StableHlo.after_of_writes_sub hostOps0_3 _ hostOps0_3_writes (by decide : main_arg13 ∉ hostOps0_3_W)).trans <|
  (StableHlo.after_of_writes_sub hostOps0_2 _ hostOps0_2_writes (by decide : main_arg13 ∉ hostOps0_2_W)).trans <|
  (StableHlo.after_of_writes_sub hostOps0_1 _ hostOps0_1_writes (by decide : main_arg13 ∉ hostOps0_1_W)).trans <|
  (StableHlo.after_of_writes_sub hostOps0 _ hostOps0_writes (by decide : main_arg13 ∉ hostOps0_W)).trans <| rfl
theorem keep_main_arg13_0_15 (c : Dev nD) : W15 m c (Proc.devRef .tc main_arg13) = W0 m c (Proc.devRef .tc main_arg13) :=
  (W15_of_ne m c main_arg13 (by decide)).trans <|
  (W14_of_ne m c main_arg13 (by decide)).trans <|
  (StableHlo.after_of_writes_sub hostOps5 _ hostOps5_writes (by decide : main_arg13 ∉ hostOps5_W)).trans <|
  (W12_of_ne m c main_arg13 (by decide)).trans <|
  (W11_of_ne m c main_arg13 (by decide)).trans <|
  (StableHlo.after_of_writes_sub hostOps3 _ hostOps3_writes (by decide : main_arg13 ∉ hostOps3_W)).trans <|
  (W9_of_ne m c main_arg13 (by decide)).trans <|
  (W8_of_ne m c main_arg13 (by decide)).trans <|
  (StableHlo.after_of_writes_sub hostOps1 _ hostOps1_writes (by decide : main_arg13 ∉ hostOps1_W)).trans <|
  (W6_of_ne m c main_arg13 (by decide)).trans <|
  (StableHlo.after_of_writes_sub hostOps0_4 _ hostOps0_4_writes (by decide : main_arg13 ∉ hostOps0_4_W)).trans <|
  (StableHlo.after_of_writes_sub hostOps0_3 _ hostOps0_3_writes (by decide : main_arg13 ∉ hostOps0_3_W)).trans <|
  (StableHlo.after_of_writes_sub hostOps0_2 _ hostOps0_2_writes (by decide : main_arg13 ∉ hostOps0_2_W)).trans <|
  (StableHlo.after_of_writes_sub hostOps0_1 _ hostOps0_1_writes (by decide : main_arg13 ∉ hostOps0_1_W)).trans <|
  (StableHlo.after_of_writes_sub hostOps0 _ hostOps0_writes (by decide : main_arg13 ∉ hostOps0_W)).trans <| rfl
theorem keep_main_arg12_0_4 (c : Dev nD) : W4 m c (Proc.devRef .tc main_arg12) = W0 m c (Proc.devRef .tc main_arg12) :=
  (StableHlo.after_of_writes_sub hostOps0_3 _ hostOps0_3_writes (by decide : main_arg12 ∉ hostOps0_3_W)).trans <|
  (StableHlo.after_of_writes_sub hostOps0_2 _ hostOps0_2_writes (by decide : main_arg12 ∉ hostOps0_2_W)).trans <|
  (StableHlo.after_of_writes_sub hostOps0_1 _ hostOps0_1_writes (by decide : main_arg12 ∉ hostOps0_1_W)).trans <|
  (StableHlo.after_of_writes_sub hostOps0 _ hostOps0_writes (by decide : main_arg12 ∉ hostOps0_W)).trans <| rfl
theorem keep_main_arg2_0_4 (c : Dev nD) : W4 m c (Proc.devRef .tc main_arg2) = W0 m c (Proc.devRef .tc main_arg2) :=
  (StableHlo.after_of_writes_sub hostOps0_3 _ hostOps0_3_writes (by decide : main_arg2 ∉ hostOps0_3_W)).trans <|
  (StableHlo.after_of_writes_sub hostOps0_2 _ hostOps0_2_writes (by decide : main_arg2 ∉ hostOps0_2_W)).trans <|
  (StableHlo.after_of_writes_sub hostOps0_1 _ hostOps0_1_writes (by decide : main_arg2 ∉ hostOps0_1_W)).trans <|
  (StableHlo.after_of_writes_sub hostOps0 _ hostOps0_writes (by decide : main_arg2 ∉ hostOps0_W)).trans <| rfl
theorem keep_main_arg3_0_4 (c : Dev nD) : W4 m c (Proc.devRef .tc main_arg3) = W0 m c (Proc.devRef .tc main_arg3) :=
  (StableHlo.after_of_writes_sub hostOps0_3 _ hostOps0_3_writes (by decide : main_arg3 ∉ hostOps0_3_W)).trans <|
  (StableHlo.after_of_writes_sub hostOps0_2 _ hostOps0_2_writes (by decide : main_arg3 ∉ hostOps0_2_W)).trans <|
  (StableHlo.after_of_writes_sub hostOps0_1 _ hostOps0_1_writes (by decide : main_arg3 ∉ hostOps0_1_W)).trans <|
  (StableHlo.after_of_writes_sub hostOps0 _ hostOps0_writes (by decide : main_arg3 ∉ hostOps0_W)).trans <| rfl
theorem keep_main_v27_6_7 (c : Dev nD) : W7 m c (Proc.devRef .tc main_v27) = W6 m c (Proc.devRef .tc main_v27) :=
  (StableHlo.after_of_writes_sub hostOps1 _ hostOps1_writes (by decide : main_v27 ∉ hostOps1_W)).trans <| rfl
theorem keep_main_v33_8_10 (c : Dev nD) : W10 m c (Proc.devRef .tc main_v33) = W8 m c (Proc.devRef .tc main_v33) :=
  (StableHlo.after_of_writes_sub hostOps3 _ hostOps3_writes (by decide : main_v33 ∉ hostOps3_W)).trans <|
  ((W9_arr m c 1).trans (((dat2 (Wv8 m) c).arrAt_in 1 rfl _).trans (A_eq2 (Wv8 m) c 1))).trans <| rfl
theorem keep_main_v34_9_10 (c : Dev nD) : W10 m c (Proc.devRef .tc main_v34) = W9 m c (Proc.devRef .tc main_v34) :=
  (StableHlo.after_of_writes_sub hostOps3 _ hostOps3_writes (by decide : main_v34 ∉ hostOps3_W)).trans <| rfl
theorem keep_main_v40_11_13 (c : Dev nD) : W13 m c (Proc.devRef .tc main_v40) = W11 m c (Proc.devRef .tc main_v40) :=
  (StableHlo.after_of_writes_sub hostOps5 _ hostOps5_writes (by decide : main_v40 ∉ hostOps5_W)).trans <|
  ((W12_arr m c 1).trans (((dat4 (Wv11 m) c).arrAt_in 1 rfl _).trans (A_eq4 (Wv11 m) c 1))).trans <| rfl
theorem keep_main_v41_12_13 (c : Dev nD) : W13 m c (Proc.devRef .tc main_v41) = W12 m c (Proc.devRef .tc main_v41) :=
  (StableHlo.after_of_writes_sub hostOps5 _ hostOps5_writes (by decide : main_v41 ∉ hostOps5_W)).trans <| rfl
theorem keep_main_v47_14_16 (c : Dev nD) : W16 m c (Proc.devRef .tc main_v47) = W14 m c (Proc.devRef .tc main_v47) :=
  (StableHlo.after_of_writes_sub hostOps7 _ hostOps7_writes (by decide : main_v47 ∉ hostOps7_W)).trans <|
  ((W15_arr m c 1).trans (((dat6 (Wv14 m) c).arrAt_in 1 rfl _).trans (A_eq6 (Wv14 m) c 1))).trans <| rfl
theorem keep_main_v48_15_16 (c : Dev nD) : W16 m c (Proc.devRef .tc main_v48) = W15 m c (Proc.devRef .tc main_v48) :=
  (StableHlo.after_of_writes_sub hostOps7 _ hostOps7_writes (by decide : main_v48 ∉ hostOps7_W)).trans <| rfl
theorem keep_main_v54_17_18 (c : Dev nD) : W18 m c (Proc.devRef .tc main_v54) = W17 m c (Proc.devRef .tc main_v54) :=
  ((W18_arr m c 2).trans (((dat8 (Wv17 m) c).arrAt_in 2 rfl _).trans (A_eq8 (Wv17 m) c 2))).trans <| rfl
theorem out_main_v27 (c : Dev nD) : W6 m c (Proc.devRef .tc main_v27) = (dat0 (Wv5 m) c).arrAt 3 cfg0.N := W6_arr m c 3
theorem out_main_v33 (c : Dev nD) : W8 m c (Proc.devRef .tc main_v33) = (dat1 (Wv7 m) c).arrAt 5 cfg1.N := W8_arr m c 5
theorem out_main_v34 (c : Dev nD) : W9 m c (Proc.devRef .tc main_v34) = (dat2 (Wv8 m) c).arrAt 3 cfg2.N := W9_arr m c 3
theorem out_main_v40 (c : Dev nD) : W11 m c (Proc.devRef .tc main_v40) = (dat3 (Wv10 m) c).arrAt 5 cfg3.N := W11_arr m c 5
theorem out_main_v41 (c : Dev nD) : W12 m c (Proc.devRef .tc main_v41) = (dat4 (Wv11 m) c).arrAt 3 cfg4.N := W12_arr m c 3
theorem out_main_v47 (c : Dev nD) : W14 m c (Proc.devRef .tc main_v47) = (dat5 (Wv13 m) c).arrAt 5 cfg5.N := W14_arr m c 5
theorem out_main_v48 (c : Dev nD) : W15 m c (Proc.devRef .tc main_v48) = (dat6 (Wv14 m) c).arrAt 3 cfg6.N := W15_arr m c 3
theorem out_main_v54 (c : Dev nD) : W17 m c (Proc.devRef .tc main_v54) = (dat7 (Wv16 m) c).arrAt 5 cfg7.N := W17_arr m c 5
theorem out_main_v55 (c : Dev nD) : W18 m c (Proc.devRef .tc main_v55) = (dat8 (Wv17 m) c).arrAt 4 cfg8.N := W18_arr m c 4

end Cert.Kernel.Hand

end
-- ==== Proof.KI.Reg0Runs.lean ====
/-
  Region 0 (an edge update relu(he + vew2ᵀ·hv)), the definitions its two runs share.
  The grid is (i, k) with k of extent 2: point t has k = t mod 2. At k = 0 the accumulator is zeroed and the first
  half of the contraction added; at k = 1 the second half is added and the output block stored. Everything is stated
  at a parameter V, the TensorCore's buffer contents when the region is entered.
-/
import proofs.«181597_j77979426226450_2_alg».proof.Proof.Gen.KernelIdeal.Launch
import proofs.«181597_j77979426226450_2_alg».proof.Proof.Gen.KernelIdeal.Skeleton
import proofs.«181597_j77979426226450_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not: when it is not
    fetched its block index has not moved, so the block of the point before is this point's. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's two branch conditions, decided over the grid -/

/-- "k = 0": the accumulator is zeroed. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 2 = 0 :=
  (by decide +kernel : ∀ t : Fin grid0.N, cond0_0 (grid0.coords t) ↔ t.val % 2 = 0)
/-- "k = 1", the last step: the output block is stored. -/
abbrev cond0_1 (i : grid0.Coords) : Prop := k0_cond2 i = 1#1
theorem hcond0_1 : ∀ t : Fin cfg0.N, cond0_1 (grid0.coords t) ↔ t.val % 2 = 1 :=
  (by decide +kernel : ∀ t : Fin grid0.N, cond0_1 (grid0.coords t) ↔ t.val % 2 = 1)

/-! ## Where the output window is idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- At k = 0 nothing is stored into the output's buffer, and its block is not written back. -/
theorem idleAt0_3_A : ∀ t : Fin cfg0.N, cond0_0 (grid0.coords t) → ¬cond0_1 (grid0.coords t) → cfg0.idle 3 (grid0.coords t) = true := by decide +kernel
theorem noFlush0_3_A : ∀ t : Fin cfg0.N, cond0_0 (grid0.coords t) → ¬cond0_1 (grid0.coords t) → (cfg0.win 3).flush t = false := by decide +kernel
/-- At k = 1 it is stored. -/
theorem liveAt0_3_C : ∀ t : Fin cfg0.N, ¬cond0_0 (grid0.coords t) → cond0_1 (grid0.coords t) → cfg0.idle 3 (grid0.coords t) = false := by decide +kernel

/-! ## The memrefs the body is called with -/

/-- One staging buffer of the output window, through which its contents are stated. -/
abbrev VO0_3 : View sig .tc .vmem S1024x128 .f32 := (Memref.whole cc0_stg3_0 : Memref sig .tc .vmem S1024x128 .f32).view
abbrev ms0_0 (t : Fin cfg0.N) : Memref sig .tc .vmem S2048x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x128 .f32 := win0_3.stage (cfg0.slots t 3)
abbrev hs0_3 (t : Fin cfg0.N) : (ms0_3 t).IsWhole := hstage0_3 ((cfg0.slots t 3).cast nbuf0_3)
/-- The accumulator: a whole scoped buffer of the kernel's own. -/
abbrev scM0_0 : Memref sig .tc .vmem S1024x128 .f32 := Memref.whole cc0_scratch0
abbrev VS0_0 : View sig .tc .vmem S1024x128 .f32 := scM0_0.view

/-- What the region may use and need not describe, with the accumulator split out: the accumulator at some contents,
    every other scoped buffer unopened, the generator register at some state. -/
theorem PhiA0_eq (c : Dev nD) :
    (Pipeline.ΦA spec0 c : sProp 𝕄)
      = iprop(iprop((∃ d, owns (c : Thread nD τ) scM0_0 fullShare d)
          ∗ Pipeline.scopedRestBut (Ix := Unit) (Name := ℕ) (U := UR sig nD τ) (Lvl := ℕ) (Val := Elt F) spec0 c [cc0_scratch0]) ∗ (∃ r, prngReg c r)) := by
  unfold Pipeline.ΦA; rw [scopedRest0_split]; simp only [scM0_0, owns_whole]; try rfl

end Cert.KernelIdeal.Hand

end
-- ==== Proof.KI.Reg0RunA.lean ====
/-
  Region 0, the body at k = 0: the accumulator is zeroed, the first half of the contraction (the one-hot block against
  the feature block and against its rounding remainder) is added to it, and nothing is stored into the output's buffer.
-/
import proofs.«181597_j77979426226450_2_alg».proof.Proof.KI.Reg0Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's stores leave in the accumulator at k = 0 (last first), with the proof that on whole staging
    memrefs — the three inputs at their contents, the output's buffer at contents handed back untouched, the
    accumulator at anything — the body runs to a continuation holding the inputs and the output's buffer as they were and
    the accumulator with those pieces written. -/
noncomputable def kernelRun0_A (c : Dev nD) (i : grid0.Coords) (arg2 : Memref sig .tc .vmem S2048x1024 .bf16) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : cond0_0 i) (hc1 : ¬cond0_1 i)
    (x0 : Vec F S2048x1024 .bf16) (x1 : Vec F S2048x128 .f32) (x2 : Vec F S1024x128 .f32) :
    Σ' (L3 : List (View.Piece (Elt F) S1024x128 .f32)), { LS0 : List (View.Piece (Elt F) S1024x128 .f32) //
      ∀ (xi3 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__agg_relu_kernel i arg2 harg2 arg3 harg3 arg4 harg4 arg5 harg5 arg6 harg6) K } := by
  refine ⟨[], ?_, fun xi3 E K => ?run⟩
  case run =>
    simp only [cc0__agg_relu_kernel_eq_skeleton]; unfold cc0__agg_relu_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Hand

end
-- ==== Proof.KI.Reg0RunC.lean ====
/-
  Region 0, the body at k = 1: the second half of the contraction is added to the accumulator, and the output block is
  stored: the maximum of zero and the accumulator plus the edge features.
-/
import proofs.«181597_j77979426226450_2_alg».proof.Proof.KI.Reg0RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's stores leave in the output's buffer and in the accumulator at k = 1 (last first), with the
    proof that on whole staging memrefs — the three inputs at their contents, the output's buffer at anything, the
    accumulator at what the point before left — the body runs to a continuation holding the inputs as they were and the
    output's buffer and the accumulator with those pieces written. -/
noncomputable def kernelRun0_C (c : Dev nD) (i : grid0.Coords) (arg2 : Memref sig .tc .vmem S2048x1024 .bf16) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : ¬cond0_0 i) (hc1 : cond0_1 i)
    (x0 : Vec F S2048x1024 .bf16) (x1 : Vec F S2048x128 .f32) (x2 : Vec F S1024x128 .f32) (xs0 : Vec F S1024x128 .f32) :
    Σ' (L3 : List (View.Piece (Elt F) S1024x128 .f32)), { LS0 : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc0__agg_relu_kernel i arg2 harg2 arg3 harg3 arg4 harg4 arg5 harg5 arg6 harg6) K } := by
  refine ⟨?_, ?_, fun E K => ?run⟩
  case run =>
    simp only [cc0__agg_relu_kernel_eq_skeleton]; unfold cc0__agg_relu_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.KernelIdeal.Hand

end
-- ==== Proof.KI.Reg0.lean ====
/-
  Region 0: what the body leaves at each point, the accumulation over the grid, the pipeline's proof data and the body
  obligation. The accumulator holds, after the point (i, 0), the first half of the contraction for row block i, and after
  (i, 1) the whole contraction; the output block of row block i is stored at (i, 1) from the accumulator.
-/
import proofs.«181597_j77979426226450_2_alg».proof.Proof.KI.Reg0RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- At k = 0 nothing is stored into the output's buffer: a placeholder nothing consults (the window is neither written
    back there nor read at the next point before being covered). -/
def out0_A_3 (c : Dev nD) (i : grid0.Coords) (arg2 : Memref sig .tc .vmem S2048x1024 .bf16) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : cond0_0 i) (hc1 : ¬cond0_1 i)
    (x0 : Vec F S2048x1024 .bf16) (x1 : Vec F S2048x128 .f32) (x2 : Vec F S1024x128 .f32) : Vec F S1024x128 .f32 :=
  VO0_3.read (Elt F) (VO0_3.writes (Elt F) VO0_3.junk (kernelRun0_A c i arg2 harg2 arg3 harg3 arg4 harg4 arg5 harg5 arg6 harg6 hc0 hc1 x0 x1 x2).1)

/-- The stores of k = 0 into the accumulator cover it. -/
theorem scover0_A_0 (c : Dev nD) (i : grid0.Coords) (arg2 : Memref sig .tc .vmem S2048x1024 .bf16) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : cond0_0 i) (hc1 : ¬cond0_1 i)
    (x0 : Vec F S2048x1024 .bf16) (x1 : Vec F S2048x128 .f32) (x2 : Vec F S1024x128 .f32) (y : S1024x128.Idx) :
    ∃ pc ∈ (kernelRun0_A c i arg2 harg2 arg3 harg3 arg4 harg4 arg5 harg5 arg6 harg6 hc0 hc1 x0 x1 x2).2.1, y ∈ pc.1.set :=
  View.cover_of_tiledL (kernelRun0_A c i arg2 harg2 arg3 harg3 arg4 harg4 arg5 harg5 arg6 harg6 hc0 hc1 x0 x1 x2).2.1 S1024x128.size (by sl_kernel_rfl) y

/-- What k = 0 leaves in the accumulator. -/
def sout0_A_0 (c : Dev nD) (i : grid0.Coords) (arg2 : Memref sig .tc .vmem S2048x1024 .bf16) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : cond0_0 i) (hc1 : ¬cond0_1 i)
    (x0 : Vec F S2048x1024 .bf16) (x1 : Vec F S2048x128 .f32) (x2 : Vec F S1024x128 .f32) : Vec F S1024x128 .f32 :=
  VS0_0.read (Elt F) (VS0_0.writes (Elt F) VS0_0.junk (kernelRun0_A c i arg2 harg2 arg3 harg3 arg4 harg4 arg5 harg5 arg6 harg6 hc0 hc1 x0 x1 x2).2.1)

/-- The store of k = 1 into the output's buffer covers it. -/
theorem cover0_C_3 (c : Dev nD) (i : grid0.Coords) (arg2 : Memref sig .tc .vmem S2048x1024 .bf16) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : ¬cond0_0 i) (hc1 : cond0_1 i)
    (x0 : Vec F S2048x1024 .bf16) (x1 : Vec F S2048x128 .f32) (x2 : Vec F S1024x128 .f32) (xs0 : Vec F S1024x128 .f32) (y : S1024x128.Idx) :
    ∃ pc ∈ (kernelRun0_C c i arg2 harg2 arg3 harg3 arg4 harg4 arg5 harg5 arg6 harg6 hc0 hc1 x0 x1 x2 xs0).1, y ∈ pc.1.set :=
  View.cover_of_tiledL (kernelRun0_C c i arg2 harg2 arg3 harg3 arg4 harg4 arg5 harg5 arg6 harg6 hc0 hc1 x0 x1 x2 xs0).1 S1024x128.size (by sl_kernel_rfl) y

/-- What k = 1 leaves in the output's buffer. -/
def out0_C_3 (c : Dev nD) (i : grid0.Coords) (arg2 : Memref sig .tc .vmem S2048x1024 .bf16) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : ¬cond0_0 i) (hc1 : cond0_1 i)
    (x0 : Vec F S2048x1024 .bf16) (x1 : Vec F S2048x128 .f32) (x2 : Vec F S1024x128 .f32) (xs0 : Vec F S1024x128 .f32) : Vec F S1024x128 .f32 :=
  VO0_3.read (Elt F) (VO0_3.writes (Elt F) VO0_3.junk (kernelRun0_C c i arg2 harg2 arg3 harg3 arg4 harg4 arg5 harg5 arg6 harg6 hc0 hc1 x0 x1 x2 xs0).1)

/-- The store of k = 1 into the accumulator covers it. -/
theorem scover0_C_0 (c : Dev nD) (i : grid0.Coords) (arg2 : Memref sig .tc .vmem S2048x1024 .bf16) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : ¬cond0_0 i) (hc1 : cond0_1 i)
    (x0 : Vec F S2048x1024 .bf16) (x1 : Vec F S2048x128 .f32) (x2 : Vec F S1024x128 .f32) (xs0 : Vec F S1024x128 .f32) (y : S1024x128.Idx) :
    ∃ pc ∈ (kernelRun0_C c i arg2 harg2 arg3 harg3 arg4 harg4 arg5 harg5 arg6 harg6 hc0 hc1 x0 x1 x2 xs0).2.1, y ∈ pc.1.set :=
  View.cover_of_tiledL (kernelRun0_C c i arg2 harg2 arg3 harg3 arg4 harg4 arg5 harg5 arg6 harg6 hc0 hc1 x0 x1 x2 xs0).2.1 S1024x128.size (by sl_kernel_rfl) y

/-- What k = 1 leaves in the accumulator. -/
def sout0_C_0 (c : Dev nD) (i : grid0.Coords) (arg2 : Memref sig .tc .vmem S2048x1024 .bf16) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : ¬cond0_0 i) (hc1 : cond0_1 i)
    (x0 : Vec F S2048x1024 .bf16) (x1 : Vec F S2048x128 .f32) (x2 : Vec F S1024x128 .f32) (xs0 : Vec F S1024x128 .f32) : Vec F S1024x128 .f32 :=
  VS0_0.read (Elt F) (VS0_0.writes (Elt F) VS0_0.junk (kernelRun0_C c i arg2 harg2 arg3 harg3 arg4 harg4 arg5 harg5 arg6 harg6 hc0 hc1 x0 x1 x2 xs0).2.1)

/-! ## What the output's buffer and the accumulator hold after each point -/

/-- The accumulation: after position n, the pair (output's buffer, accumulator) — at an even position the case k = 0 run
    at the point's blocks, at an odd one the case k = 1 run at the point's blocks over the accumulator the point before
    left. -/
def outsAt0 (c : Dev nD) : (n : ℕ) → n < cfg0.N → Vec F S1024x128 .f32 × Vec F S1024x128 .f32
  | 0, hn => (out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩),
      sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩))
  | n + 1, hn =>
    if h0 : (n + 1) % 2 = 0 then
      if h1 : (n + 1) % 2 = 1 then
        False.elim (by omega)
      else
        (out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩),
          sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩))
    else
      if h1 : (n + 1) % 2 = 1 then
        (out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2,
          sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2)
      else
        False.elim (by omega)

/-- At a point with k = 0: that case's contents. -/
theorem outsAt0_A (c : Dev nD) (t : Fin cfg0.N) (h0 : t.val % 2 = 0) (h1 : ¬t.val % 2 = 1) :
    outsAt0 V c t.val t.isLt = (out0_A_3 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk0 V c 0 t) (iblk0 V c 1 t) (iblk0 V c 2 t),
      sout0_A_0 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk0 V c 0 t) (iblk0 V c 1 t) (iblk0 V c 2 t)) := by
  obtain ⟨n, hn⟩ := t
  cases n with
  | zero => exact rfl
  | succ n => exact (dif_pos h0).trans ((dif_neg h1).trans rfl)

/-- At a point with k = 1: that case's contents, over the accumulator the point before left. -/
theorem outsAt0_C (c : Dev nD) (t : Fin cfg0.N) (h0 : ¬t.val % 2 = 0) (h1 : t.val % 2 = 1) :
    outsAt0 V c t.val t.isLt = (out0_C_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2,
      sout0_C_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position n: before the first point what the region may use, undescribed; afterwards
    the accumulator at what the point before left in it, the other scoped buffers unopened, the generator register at
    some state. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2)
      ∗ Pipeline.scopedRestBut (Ix := Unit) (Name := ℕ) (U := UR sig nD τ) (Lvl := ℕ) (Val := Elt F) spec0 c [cc0_scratch0]) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0_0 fullShare ((outsAt0 V c n hn).2)
      ∗ Pipeline.scopedRestBut (Ix := Unit) (Name := ℕ) (U := UR sig nD τ) (Lvl := ℕ) (Val := Elt F) spec0 c [cc0_scratch0]) ∗ (∃ r, prngReg c r)) := rfl

theorem PhiS0_pos (c : Dev nD) (n : ℕ) (h : n ≤ cfg0.N) (hz : n ≠ 0) :
    PhiS0 V c n h = iprop(iprop(owns (c : Thread nD τ) scM0_0 fullShare ((outsAt0 V c (n - 1) (by omega)).2)
      ∗ Pipeline.scopedRestBut (Ix := Unit) (Name := ℕ) (U := UR sig nD τ) (Lvl := ℕ) (Val := Elt F) spec0 c [cc0_scratch0]) ∗ (∃ r, prngReg c r)) := by
  cases n with
  | zero => exact absurd rfl hz
  | succ n => rfl

/-! ## The pipeline's proof data -/

/-- The arrays as the region finds them; after the body each input's buffer at its block and the output's at the
    accumulation's first component; the invariant above; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- The body at any point: the inputs' memrefs hold their blocks; k decides the case; the invariant hands the body the
    accumulator (at anything at the first point, else at what the point before left) and takes it back at this point's
    contents; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  have hN : t.val < 16 := lt_of_lt_of_eq t.isLt (show cfg0.N = 16 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  by_cases h0 : t.val % 2 = 0
  · have h1 : ¬t.val % 2 = 1 := by omega
    rw [Dat.leavesExact_idle (dat0 V c) 3 t (idleAt0_3_A t ((hcond0_0 t).mpr h0) (fun h => h1 ((hcond0_1 t).mp h))) (noFlush0_3_A t ((hcond0_0 t).mpr h0) (fun h => h1 ((hcond0_1 t).mp h)))]
    rw [outsAt0_A V c t h0 h1]
    unfold sout0_A_0; (try dsimp only)
    by_cases hz : t.val = 0
    · rw [PhiS0_castSucc V c t, PhiS0_zero V c _ _ hz, PhiA0_eq]
      iintro ⟨⟨⟨HS0, Hrest⟩, Hg⟩, Ho, ⟨%d0, H0⟩, ⟨%d1, H1⟩, ⟨%d2, H2⟩, ⟨%d3, H3⟩⟩
      iapply ((kernelRun0_A c (grid0.coords t) _ _ _ _ _ _ _ _ _ _ ((hcond0_0 t).mpr h0) (fun h => h1 ((hcond0_1 t).mp h)) (iblk0 V c 0 t) (iblk0 V c 1 t) (iblk0 V c 2 t)).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover0_A_0 c _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3
    · rw [PhiS0_castSucc V c t, PhiS0_pos V c _ _ hz]
      iintro ⟨⟨⟨HS0, Hrest⟩, Hg⟩, Ho, ⟨%d0, H0⟩, ⟨%d1, H1⟩, ⟨%d2, H2⟩, ⟨%d3, H3⟩⟩
      iapply ((kernelRun0_A c (grid0.coords t) _ _ _ _ _ _ _ _ _ _ ((hcond0_0 t).mpr h0) (fun h => h1 ((hcond0_1 t).mp h)) (iblk0 V c 0 t) (iblk0 V c 1 t) (iblk0 V c 2 t)).2.2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover0_A_0 c _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3
  · have h1 : t.val % 2 = 1 := by omega
    rw [show (dat0 V c).leavesExact 3 t = owns (c : Thread nD τ) (ms0_3 t) fullShare ((dat0 V c).after 3 t) from by
      unfold Dat.leavesExact; rw [liveAt0_3_C t (fun h => h0 ((hcond0_0 t).mp h)) ((hcond0_1 t).mpr h1)], after0_3]
    rw [outsAt0_C V c t h0 h1]
    unfold out0_C_3 sout0_C_0; (try dsimp only)
    have hz : t.val ≠ 0 := by omega
    rw [PhiS0_castSucc V c t, PhiS0_pos V c _ _ hz]
    iintro ⟨⟨⟨HS0, Hrest⟩, Hg⟩, Ho, ⟨%d0, H0⟩, ⟨%d1, H1⟩, ⟨%d2, H2⟩, ⟨%d3, H3⟩⟩
    iapply ((kernelRun0_C c (grid0.coords t) _ _ _ _ _ _ _ _ _ _ (fun h => h0 ((hcond0_0 t).mp h)) ((hcond0_1 t).mpr h1) (iblk0 V c 0 t) (iblk0 V c 1 t) (iblk0 V c 2 t) _).2.2 Set.univ _)
    isplitl [H0]; · iexact H0
    isplitl [H1]; · iexact H1
    isplitl [H2]; · iexact H2
    isplitl [H3]; · iexists _; iexact H3
    isplitl [HS0]; · iexact HS0
    iintro ⟨H0, H1, H2, ⟨%e3, H3⟩, ⟨%es0, HS0⟩⟩
    isplitl [HS0 Hrest Hg]
    · isplitl [HS0 Hrest]
      · isplitl [HS0]
        · unfold owns; iexists _; isplitr
          swap; · iexact HS0
          ipureintro; exact View.read_writes_of_cover _ _ _ _ _ (scover0_C_0 c _ _ _ _ _ _ _ _ _ _ _ _ _ _ _ _ _)
        iexact Hrest
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover0_C_3 c _ _ _ _ _ _ _ _ _ _ _ _ _ _ _ _ _)

/-- The pipeline library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives it back: the accumulator's named contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, Hrest⟩, Hg⟩
  isplitl [HS0 Hrest]
  · isplitl [HS0]
    · iexists _; iexact HS0
    iexact Hrest
  iexact Hg

theorem hout0 (c : Dev nD) : (dat0 V c).Φ (Fin.last cfg0.N) ⊢ Pipeline.ΦA spec0 c :=
  Phi_out0 V c _ (by rw [Fin.val_last]; have : cfg0.N = 16 := N_0; omega)

end Cert.KernelIdeal.Hand

end
-- ==== Proof.KI.Reg1Runs.lean ====
/- Region 1 (the aggregate-residual-MLP kernel, pipeline 1): what its two runs share — the windows' blocks at the
   region-entry contents, the input windows' staging contents, the body's two branch conditions decided over the
   grid, where the output window is idle, the staging and scratch memrefs, and the region invariant with the
   scratch accumulator owned as a memref. -/
import proofs.«181597_j77979426226450_2_alg».proof.Proof.Gen.KernelIdeal.Launch
import proofs.«181597_j77979426226450_2_alg».proof.Proof.Gen.KernelIdeal.Skeleton
import proofs.«181597_j77979426226450_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
-- the TensorCore's buffer contents when the region is entered: the parameter the region's half is stated at
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s (`hA`) and whose body leaves the block in place (`hafter`): unfetched, the block
    index has not moved; the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is `V`'s (`hA`) and whose body leaves the block in place (`hafter`): unfetched, the block
    index has not moved; the window is uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof
    data whose array is `V`'s (`hA`) and whose body leaves the block in place (`hafter`): unfetched, the block
    index has not moved; the window is uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof
    data whose array is `V`'s (`hA`) and whose body leaves the block in place (`hafter`): unfetched, the block
    index has not moved; the window is uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not, for any proof
    data whose array is `V`'s (`hA`) and whose body leaves the block in place (`hafter`): unfetched, the block
    index has not moved; the window is uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

end Region

/-! ## The body's branch conditions -/

/-- The condition of the body's first conditional (the reduction index is 0), from the grid coordinates. -/
abbrev cond1_0 (i : grid1.Coords) : Prop := (Scalar.cmpi .ne (Scalar.extui (Scalar.cmpi .eq (BitVec.ofNat 32 (i 1).val) 0#32)) 0#32) = 1#1
/-- It holds at the points ≡ 0 (mod 2) — decided over the grid. -/
theorem hcond1_0 : ∀ t : Fin cfg1.N, cond1_0 (grid1.coords t) ↔ t.val % 2 = 0 :=
  (by decide +kernel : ∀ t : Fin grid1.N, cond1_0 (grid1.coords t) ↔ t.val % 2 = 0)

/-- The condition of the body's second conditional (the reduction index is the last). -/
abbrev cond1_1 (i : grid1.Coords) : Prop := k1_cond2 i = 1#1
/-- It holds at the points ≡ 1 (mod 2) — decided over the grid. -/
theorem hcond1_1 : ∀ t : Fin cfg1.N, cond1_1 (grid1.coords t) ↔ t.val % 2 = 1 :=
  (by decide +kernel : ∀ t : Fin grid1.N, cond1_1 (grid1.coords t) ↔ t.val % 2 = 1)

/-! ## Where the windows are idle -/

/-- Window 0 is never idle (an input). -/
theorem liveAt1_0 : ∀ t : Fin cfg1.N, cfg1.idle 0 (grid1.coords t) = false := by decide +kernel
/-- Window 1 is never idle (an input). -/
theorem liveAt1_1 : ∀ t : Fin cfg1.N, cfg1.idle 1 (grid1.coords t) = false := by decide +kernel
/-- Window 2 is never idle (an input). -/
theorem liveAt1_2 : ∀ t : Fin cfg1.N, cfg1.idle 2 (grid1.coords t) = false := by decide +kernel
/-- Window 3 is never idle (an input). -/
theorem liveAt1_3 : ∀ t : Fin cfg1.N, cfg1.idle 3 (grid1.coords t) = false := by decide +kernel
/-- Window 4 is never idle (an input). -/
theorem liveAt1_4 : ∀ t : Fin cfg1.N, cfg1.idle 4 (grid1.coords t) = false := by decide +kernel
/-- At the points of case A (first conditional taken, second not) output 5 is idle: the case stores nothing into it. -/
theorem idleAt1_5_A : ∀ t : Fin cfg1.N, cond1_0 (grid1.coords t) → ¬cond1_1 (grid1.coords t) → cfg1.idle 5 (grid1.coords t) = true := by decide +kernel
/-- At the points of case A the pipeline does not write output 5's block back. -/
theorem noFlush1_5_A : ∀ t : Fin cfg1.N, cond1_0 (grid1.coords t) → ¬cond1_1 (grid1.coords t) → (cfg1.win 5).flush t = false := by decide +kernel
/-- At the points of case C (first conditional not taken, second taken) output 5 is live: the case stores into it. -/
theorem liveAt1_5_C : ∀ t : Fin cfg1.N, ¬cond1_0 (grid1.coords t) → cond1_1 (grid1.coords t) → cfg1.idle 5 (grid1.coords t) = false := by decide +kernel

/-! ## The staging and scratch memrefs -/

/-- One staging buffer of output window 5, through which its contents are stated (the choice does not matter). -/
abbrev VO1_5 : View sig .tc .vmem S1024x128 .f32 := (Memref.whole cc1_stg5_0 : Memref sig .tc .vmem S1024x128 .f32).view
/-- Each window's current staging memref at point `t`, spelled as the pipeline passes it, and its wholeness. -/
abbrev ms1_0 (t : Fin cfg1.N) : Memref sig .tc .vmem S1024x4096 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S4096x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S128x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1024x128 .f32 := win1_5.stage (cfg1.slots t 5)
abbrev hs1_5 (t : Fin cfg1.N) : (ms1_5 t).IsWhole := hstage1_5 ((cfg1.slots t 5).cast nbuf1_5)
/-- The scratch accumulator: a whole scoped buffer of the kernel's own, passed beside the windows. -/
abbrev scM1_0 : Memref sig .tc .vmem S1024x128 .f32 := Memref.whole cc1_scratch0
/-- The same as a view: what the accumulator holds between points is stated through it. -/
abbrev VS1_0 : View sig .tc .vmem S1024x128 .f32 := scM1_0.view

/-- The region invariant with the scratch accumulator as a memref owned at some contents, the other scoped buffers
    unopened, and the generator register at some state: what the body obligation hands the run and takes back. -/
theorem PhiA1_eq (c : Dev nD) :
    (Pipeline.ΦA spec1 c : sProp 𝕄)
      = iprop(iprop(iprop((∃ d, owns (c : Thread nD τ) scM1_0 fullShare d))
          ∗ Pipeline.scopedRestBut (Ix := Unit) (Name := ℕ) (U := UR sig nD τ) (Lvl := ℕ) (Val := Elt F) spec1 c [cc1_scratch0]) ∗ (∃ r, prngReg c r)) := by
  unfold Pipeline.ΦA; rw [scopedRest1_split]; simp only [scM1_0, owns_whole]; try rfl

end Cert.KernelIdeal.Hand

end
-- ==== Proof.KI.Reg1RunA.lean ====
/- Region 1: the whole-body run of the kernel in case A (first conditional taken, second not: the reduction's first
   step). The pieces the scratch accumulator ends with are the witness the run finds. -/
import proofs.«181597_j77979426226450_2_alg».proof.Proof.KI.Reg1Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in the output's staging memref and in the scratch accumulator, as pieces (last first), in
    case A, with the proof that on whole staging memrefs — the inputs' at their contents, the output's (no store, the
    window idle and not written back at the case's points) at contents `xio` handed back untouched, the accumulator at
    anything — the body runs to the continuation holding the inputs' and the output's as they were and the accumulator
    with its pieces written: it is zeroed, then the product of the two input blocks is added. -/
noncomputable def kernelRun1_A (c : Dev nD) (i : grid1.Coords) (arg2 : Memref sig .tc .vmem S1024x4096 .bf16) (harg2 : arg2.IsWhole) (arg3 : Memref sig .tc .vmem S4096x128 .f32) (harg3 : arg3.IsWhole) (arg4 : Memref sig .tc .vmem S1024x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1024x128 .f32) (harg7 : arg7.IsWhole) (arg8 : Memref sig .tc .vmem S1024x128 .f32) (harg8 : arg8.IsWhole) (hcz : cond1_0 i) (hcl : ¬cond1_1 i)
    (xa : Vec F S1024x4096 .bf16) (xb : Vec F S4096x128 .f32) (xc : Vec F S1024x128 .f32) (xd : Vec F S128x128 .f32) (xe : Vec F S1x128 .f32) :
    Σ' (LO : List (View.Piece (Elt F) S1024x128 .f32)), { LS : List (View.Piece (Elt F) S1024x128 .f32) //
      ∀ (xio : Vec F S1024x128 .f32) (E : Set ℕ) (K : PUnit → sProp 𝕄),
        iprop(owns (c : Thread nD τ) arg2 fullShare xa ∗ owns (c : Thread nD τ) arg3 fullShare xb ∗ owns (c : Thread nD τ) arg4 fullShare xc ∗ owns (c : Thread nD τ) arg5 fullShare xd ∗ owns (c : Thread nD τ) arg6 fullShare xe ∗ owns (c : Thread nD τ) arg7 fullShare xio ∗ (∃ d, owns (c : Thread nD τ) arg8 fullShare d)
            ∗ (iprop(owns (c : Thread nD τ) arg2 fullShare xa ∗ owns (c : Thread nD τ) arg3 fullShare xb ∗ owns (c : Thread nD τ) arg4 fullShare xc ∗ owns (c : Thread nD τ) arg5 fullShare xd ∗ owns (c : Thread nD τ) arg6 fullShare xe ∗ owns (c : Thread nD τ) arg7 fullShare xio ∗ (∃ f, arg8.view.loc (c : Thread nD τ) ↦[arg8.view.set]{fullShare} arg8.view.writes (Elt F) f LS)) -∗ K ⟨⟩))
          ⊢ wp frame (wpE (defs₀ (F := F)) Variants.none c none) E (cc1__agg_residual_mlp_kernel i arg2 harg2 arg3 harg3 arg4 harg4 arg5 harg5 arg6 harg6 arg7 harg7 arg8 harg8) K } := by
  refine ⟨[], ?_, fun xio E K => ?run⟩
  case run =>
    simp only [cc1__agg_residual_mlp_kernel_eq_skeleton]; unfold cc1__agg_residual_mlp_kernel_skel
    unfold owns
    iintro ⟨⟨%fa, %hfa, Ha⟩, ⟨%fb, %hfb, Hb⟩, ⟨%fc, %hfc, Hc⟩, ⟨%fd, %hfd, Hd⟩, ⟨%fe, %hfe, He⟩, ⟨%fo, %hfo, Ho⟩, ⟨%ds, %fs, -, Hs⟩, Hk⟩
    obtain rfl := harg2.eq_unread hfa; obtain rfl := harg3.eq_unread hfb; obtain rfl := harg4.eq_unread hfc
    obtain rfl := harg5.eq_unread hfd; obtain rfl := harg6.eq_unread hfe; obtain rfl := harg7.eq_unread hfo
    sl_exec (disch := first | exact hcz | exact hcl)
    sl_step
    iapply Hk
    isplitl [Ha]
    · iexists _; isplitr; · ipureintro; exact harg2.read_unread _
      iexact Ha
    isplitl [Hb]
    · iexists _; isplitr; · ipureintro; exact harg3.read_unread _
      iexact Hb
    isplitl [Hc]
    · iexists _; isplitr; · ipureintro; exact harg4.read_unread _
      iexact Hc
    isplitl [Hd]
    · iexists _; isplitr; · ipureintro; exact harg5.read_unread _
      iexact Hd
    isplitl [He]
    · iexists _; isplitr; · ipureintro; exact harg6.read_unread _
      iexact He
    isplitl [Ho]
    · iexists _; isplitr; · ipureintro; exact harg7.read_unread _
      iexact Ho
    iexists _; iexact Hs

end Cert.KernelIdeal.Hand

end
-- ==== Proof.KI.Reg1RunC.lean ====
/- Region 1: the whole-body run of the kernel in case C (first conditional not taken, second taken: the reduction's
   last step). The pieces the output's staging memref and the scratch accumulator end with are the witness the run
   finds. -/
import proofs.«181597_j77979426226450_2_alg».proof.Proof.KI.Reg1RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in the output's staging memref and in the scratch accumulator, as pieces (last first), in
    case C, with the proof that on whole staging memrefs — the inputs' at their contents, the output's at anything, the
    accumulator at the contents `xs` the point before left — the body runs to the continuation holding the inputs' as
    they were and the output's and the accumulator's with their pieces written: the product of the two input blocks is
    added to the accumulator, and the output is the residual layer applied to the sum. -/
noncomputable def kernelRun1_C (c : Dev nD) (i : grid1.Coords) (arg2 : Memref sig .tc .vmem S1024x4096 .bf16) (harg2 : arg2.IsWhole) (arg3 : Memref sig .tc .vmem S4096x128 .f32) (harg3 : arg3.IsWhole) (arg4 : Memref sig .tc .vmem S1024x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1024x128 .f32) (harg7 : arg7.IsWhole) (arg8 : Memref sig .tc .vmem S1024x128 .f32) (harg8 : arg8.IsWhole) (hcz : ¬cond1_0 i) (hcl : cond1_1 i)
    (xa : Vec F S1024x4096 .bf16) (xb : Vec F S4096x128 .f32) (xc : Vec F S1024x128 .f32) (xd : Vec F S128x128 .f32) (xe : Vec F S1x128 .f32) (xs : Vec F S1024x128 .f32) :
    Σ' (LO : List (View.Piece (Elt F) S1024x128 .f32)), { LS : List (View.Piece (Elt F) S1024x128 .f32) //
      ∀ (E : Set ℕ) (K : PUnit → sProp 𝕄),
        iprop(owns (c : Thread nD τ) arg2 fullShare xa ∗ owns (c : Thread nD τ) arg3 fullShare xb ∗ owns (c : Thread nD τ) arg4 fullShare xc ∗ owns (c : Thread nD τ) arg5 fullShare xd ∗ owns (c : Thread nD τ) arg6 fullShare xe ∗ (∃ d, owns (c : Thread nD τ) arg7 fullShare d) ∗ owns (c : Thread nD τ) arg8 fullShare xs
            ∗ (iprop(owns (c : Thread nD τ) arg2 fullShare xa ∗ owns (c : Thread nD τ) arg3 fullShare xb ∗ owns (c : Thread nD τ) arg4 fullShare xc ∗ owns (c : Thread nD τ) arg5 fullShare xd ∗ owns (c : Thread nD τ) arg6 fullShare xe ∗ (∃ f, arg7.view.loc (c : Thread nD τ) ↦[arg7.view.set]{fullShare} arg7.view.writes (Elt F) f LO) ∗ (∃ f, arg8.view.loc (c : Thread nD τ) ↦[arg8.view.set]{fullShare} arg8.view.writes (Elt F) f LS)) -∗ K ⟨⟩))
          ⊢ wp frame (wpE (defs₀ (F := F)) Variants.none c none) E (cc1__agg_residual_mlp_kernel i arg2 harg2 arg3 harg3 arg4 harg4 arg5 harg5 arg6 harg6 arg7 harg7 arg8 harg8) K } := by
  refine ⟨?_, ?_, fun E K => ?run⟩
  case run =>
    simp only [cc1__agg_residual_mlp_kernel_eq_skeleton]; unfold cc1__agg_residual_mlp_kernel_skel
    unfold owns
    iintro ⟨⟨%fa, %hfa, Ha⟩, ⟨%fb, %hfb, Hb⟩, ⟨%fc, %hfc, Hc⟩, ⟨%fd, %hfd, Hd⟩, ⟨%fe, %hfe, He⟩, ⟨%dout, %fo, -, Ho⟩, ⟨%fs, %hfs, Hs⟩, Hk⟩
    obtain rfl := harg2.eq_unread hfa; obtain rfl := harg3.eq_unread hfb; obtain rfl := harg4.eq_unread hfc
    obtain rfl := harg5.eq_unread hfd; obtain rfl := harg6.eq_unread hfe; obtain rfl := harg8.eq_unread hfs
    sl_exec (disch := first | exact hcz | exact hcl)
    sl_step
    iapply Hk
    isplitl [Ha]
    · iexists _; isplitr; · ipureintro; exact harg2.read_unread _
      iexact Ha
    isplitl [Hb]
    · iexists _; isplitr; · ipureintro; exact harg3.read_unread _
      iexact Hb
    isplitl [Hc]
    · iexists _; isplitr; · ipureintro; exact harg4.read_unread _
      iexact Hc
    isplitl [Hd]
    · iexists _; isplitr; · ipureintro; exact harg5.read_unread _
      iexact Hd
    isplitl [He]
    · iexists _; isplitr; · ipureintro; exact harg6.read_unread _
      iexact He
    isplitl [Ho]; · iexists _; iexact Ho
    iexists _; iexact Hs

end Cert.KernelIdeal.Hand

end
-- ==== Proof.KI.Reg1.lean ====
/- Region 1 (the aggregate-residual-MLP kernel, pipeline 1), the rest of its frame half: what the output's staging
   buffer and the scratch accumulator hold per case and point by point, the region invariant carrying the accumulator,
   the pipeline's proof data at the region-entry contents `V`, the body obligation at every point, and the invariant's
   entry and exit. -/
import proofs.«181597_j77979426226450_2_alg».proof.Proof.KI.Reg1RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Case A stores nothing into output 5 (the window is idle at its points and not written back there): no pieces — a
    placeholder that nothing consults, since at these points the window is neither written back nor read at the next. -/
def out1_A_5 (c : Dev nD) (i : grid1.Coords) (arg2 : Memref sig .tc .vmem S1024x4096 .bf16) (harg2 : arg2.IsWhole) (arg3 : Memref sig .tc .vmem S4096x128 .f32) (harg3 : arg3.IsWhole) (arg4 : Memref sig .tc .vmem S1024x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1024x128 .f32) (harg7 : arg7.IsWhole) (arg8 : Memref sig .tc .vmem S1024x128 .f32) (harg8 : arg8.IsWhole) (hcz : cond1_0 i) (hcl : ¬cond1_1 i)
    (xa : Vec F S1024x4096 .bf16) (xb : Vec F S4096x128 .f32) (xc : Vec F S1024x128 .f32) (xd : Vec F S128x128 .f32) (xe : Vec F S1x128 .f32) : Vec F S1024x128 .f32 :=
  VO1_5.read (Elt F) (VO1_5.writes (Elt F) VO1_5.junk (kernelRun1_A c i arg2 harg2 arg3 harg3 arg4 harg4 arg5 harg5 arg6 harg6 arg7 harg7 arg8 harg8 hcz hcl xa xb xc xd xe).1)

/-- Case A's pieces for the scratch accumulator cover it: the zeroing store and the accumulating store each tile it. -/
theorem scover1_A_0 (c : Dev nD) (i : grid1.Coords) (arg2 : Memref sig .tc .vmem S1024x4096 .bf16) (harg2 : arg2.IsWhole) (arg3 : Memref sig .tc .vmem S4096x128 .f32) (harg3 : arg3.IsWhole) (arg4 : Memref sig .tc .vmem S1024x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1024x128 .f32) (harg7 : arg7.IsWhole) (arg8 : Memref sig .tc .vmem S1024x128 .f32) (harg8 : arg8.IsWhole) (hcz : cond1_0 i) (hcl : ¬cond1_1 i)
    (xa : Vec F S1024x4096 .bf16) (xb : Vec F S4096x128 .f32) (xc : Vec F S1024x128 .f32) (xd : Vec F S128x128 .f32) (xe : Vec F S1x128 .f32) (y : S1024x128.Idx) :
    ∃ pc ∈ (kernelRun1_A c i arg2 harg2 arg3 harg3 arg4 harg4 arg5 harg5 arg6 harg6 arg7 harg7 arg8 harg8 hcz hcl xa xb xc xd xe).2.1, y ∈ pc.1.set :=
  View.cover_of_tiledL (kernelRun1_A c i arg2 harg2 arg3 harg3 arg4 harg4 arg5 harg5 arg6 harg6 arg7 harg7 arg8 harg8 hcz hcl xa xb xc xd xe).2.1 S1024x128.size (by sl_kernel_rfl) y

/-- What case A leaves in the scratch accumulator: its pieces read back over junk. -/
def sout1_A_0 (c : Dev nD) (i : grid1.Coords) (arg2 : Memref sig .tc .vmem S1024x4096 .bf16) (harg2 : arg2.IsWhole) (arg3 : Memref sig .tc .vmem S4096x128 .f32) (harg3 : arg3.IsWhole) (arg4 : Memref sig .tc .vmem S1024x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1024x128 .f32) (harg7 : arg7.IsWhole) (arg8 : Memref sig .tc .vmem S1024x128 .f32) (harg8 : arg8.IsWhole) (hcz : cond1_0 i) (hcl : ¬cond1_1 i)
    (xa : Vec F S1024x4096 .bf16) (xb : Vec F S4096x128 .f32) (xc : Vec F S1024x128 .f32) (xd : Vec F S128x128 .f32) (xe : Vec F S1x128 .f32) : Vec F S1024x128 .f32 :=
  VS1_0.read (Elt F) (VS1_0.writes (Elt F) VS1_0.junk (kernelRun1_A c i arg2 harg2 arg3 harg3 arg4 harg4 arg5 harg5 arg6 harg6 arg7 harg7 arg8 harg8 hcz hcl xa xb xc xd xe).2.1)

/-- Case C's pieces for output 5 tile its block (one store of the whole block), so they cover it. -/
theorem cover1_C_5 (c : Dev nD) (i : grid1.Coords) (arg2 : Memref sig .tc .vmem S1024x4096 .bf16) (harg2 : arg2.IsWhole) (arg3 : Memref sig .tc .vmem S4096x128 .f32) (harg3 : arg3.IsWhole) (arg4 : Memref sig .tc .vmem S1024x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1024x128 .f32) (harg7 : arg7.IsWhole) (arg8 : Memref sig .tc .vmem S1024x128 .f32) (harg8 : arg8.IsWhole) (hcz : ¬cond1_0 i) (hcl : cond1_1 i)
    (xa : Vec F S1024x4096 .bf16) (xb : Vec F S4096x128 .f32) (xc : Vec F S1024x128 .f32) (xd : Vec F S128x128 .f32) (xe : Vec F S1x128 .f32) (xs : Vec F S1024x128 .f32) (y : S1024x128.Idx) :
    ∃ pc ∈ (kernelRun1_C c i arg2 harg2 arg3 harg3 arg4 harg4 arg5 harg5 arg6 harg6 arg7 harg7 arg8 harg8 hcz hcl xa xb xc xd xe xs).1, y ∈ pc.1.set :=
  View.cover_of_tiledL (kernelRun1_C c i arg2 harg2 arg3 harg3 arg4 harg4 arg5 harg5 arg6 harg6 arg7 harg7 arg8 harg8 hcz hcl xa xb xc xd xe xs).1 S1024x128.size (by sl_kernel_rfl) y

/-- What case C leaves in output 5's staging buffer: its pieces read back over junk. -/
def out1_C_5 (c : Dev nD) (i : grid1.Coords) (arg2 : Memref sig .tc .vmem S1024x4096 .bf16) (harg2 : arg2.IsWhole) (arg3 : Memref sig .tc .vmem S4096x128 .f32) (harg3 : arg3.IsWhole) (arg4 : Memref sig .tc .vmem S1024x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1024x128 .f32) (harg7 : arg7.IsWhole) (arg8 : Memref sig .tc .vmem S1024x128 .f32) (harg8 : arg8.IsWhole) (hcz : ¬cond1_0 i) (hcl : cond1_1 i)
    (xa : Vec F S1024x4096 .bf16) (xb : Vec F S4096x128 .f32) (xc : Vec F S1024x128 .f32) (xd : Vec F S128x128 .f32) (xe : Vec F S1x128 .f32) (xs : Vec F S1024x128 .f32) : Vec F S1024x128 .f32 :=
  VO1_5.read (Elt F) (VO1_5.writes (Elt F) VO1_5.junk (kernelRun1_C c i arg2 harg2 arg3 harg3 arg4 harg4 arg5 harg5 arg6 harg6 arg7 harg7 arg8 harg8 hcz hcl xa xb xc xd xe xs).1)

/-- Case C's pieces for the scratch accumulator cover it: one store of the whole buffer. -/
theorem scover1_C_0 (c : Dev nD) (i : grid1.Coords) (arg2 : Memref sig .tc .vmem S1024x4096 .bf16) (harg2 : arg2.IsWhole) (arg3 : Memref sig .tc .vmem S4096x128 .f32) (harg3 : arg3.IsWhole) (arg4 : Memref sig .tc .vmem S1024x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1024x128 .f32) (harg7 : arg7.IsWhole) (arg8 : Memref sig .tc .vmem S1024x128 .f32) (harg8 : arg8.IsWhole) (hcz : ¬cond1_0 i) (hcl : cond1_1 i)
    (xa : Vec F S1024x4096 .bf16) (xb : Vec F S4096x128 .f32) (xc : Vec F S1024x128 .f32) (xd : Vec F S128x128 .f32) (xe : Vec F S1x128 .f32) (xs : Vec F S1024x128 .f32) (y : S1024x128.Idx) :
    ∃ pc ∈ (kernelRun1_C c i arg2 harg2 arg3 harg3 arg4 harg4 arg5 harg5 arg6 harg6 arg7 harg7 arg8 harg8 hcz hcl xa xb xc xd xe xs).2.1, y ∈ pc.1.set :=
  View.cover_of_tiledL (kernelRun1_C c i arg2 harg2 arg3 harg3 arg4 harg4 arg5 harg5 arg6 harg6 arg7 harg7 arg8 harg8 hcz hcl xa xb xc xd xe xs).2.1 S1024x128.size (by sl_kernel_rfl) y

/-- What case C leaves in the scratch accumulator: its pieces read back over junk. -/
def sout1_C_0 (c : Dev nD) (i : grid1.Coords) (arg2 : Memref sig .tc .vmem S1024x4096 .bf16) (harg2 : arg2.IsWhole) (arg3 : Memref sig .tc .vmem S4096x128 .f32) (harg3 : arg3.IsWhole) (arg4 : Memref sig .tc .vmem S1024x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1024x128 .f32) (harg7 : arg7.IsWhole) (arg8 : Memref sig .tc .vmem S1024x128 .f32) (harg8 : arg8.IsWhole) (hcz : ¬cond1_0 i) (hcl : cond1_1 i)
    (xa : Vec F S1024x4096 .bf16) (xb : Vec F S4096x128 .f32) (xc : Vec F S1024x128 .f32) (xd : Vec F S128x128 .f32) (xe : Vec F S1x128 .f32) (xs : Vec F S1024x128 .f32) : Vec F S1024x128 .f32 :=
  VS1_0.read (Elt F) (VS1_0.writes (Elt F) VS1_0.junk (kernelRun1_C c i arg2 harg2 arg3 harg3 arg4 harg4 arg5 harg5 arg6 harg6 arg7 harg7 arg8 harg8 hcz hcl xa xb xc xd xe xs).2.1)

section Region
-- the TensorCore's buffer contents when the region is entered
variable (V : (c : Dev nD) → (b : Ref sig .tc) → Buf (Elt F) ((c : Thread nD τ).loc b))

/-! ## What the output and the accumulator hold after each point -/

/-- The accumulation. What output 5's staging buffer and the scratch accumulator hold after the body at position `n` (a
    pair: the output, then the accumulator): the case the closed forms select at `n`, run at the point's memrefs and input
    blocks, the accumulator in case C at what this leaves at `n - 1`. The two conditions partition the points, so the
    other two assignments are no case. -/
def outsAt1 (c : Dev nD) : (n : ℕ) → n < cfg1.N → Vec F S1024x128 .f32 × Vec F S1024x128 .f32
  | 0, hn => (out1_A_5 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩))
  | n + 1, hn =>
    if hz : (n + 1) % 2 = 0 then
      if hl : (n + 1) % 2 = 1 then
        False.elim (by omega)
      else
        (out1_A_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) ((hcond1_0 ⟨n + 1, hn⟩).mpr hz) (fun h => hl ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) ((hcond1_0 ⟨n + 1, hn⟩).mpr hz) (fun h => hl ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩))
    else
      if hl : (n + 1) % 2 = 1 then
        (out1_C_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => hz ((hcond1_0 ⟨n + 1, hn⟩).mp h)) ((hcond1_1 ⟨n + 1, hn⟩).mpr hl) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) (fun h => hz ((hcond1_0 ⟨n + 1, hn⟩).mp h)) ((hcond1_1 ⟨n + 1, hn⟩).mpr hl) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn)).2)
      else
        False.elim (by omega)

/-- `outsAt1` at a point of case A: that case's contents. -/
theorem outsAt1_A (c : Dev nD) (t : Fin cfg1.N) (hz : t.val % 2 = 0) (hl : ¬t.val % 2 = 1) :
    outsAt1 V c t.val t.isLt = (out1_A_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr hz) (fun h => hl ((hcond1_1 t).mp h)) (iblk1 V c 0 t) (iblk1 V c 1 t) (iblk1 V c 2 t) (iblk1 V c 3 t) (iblk1 V c 4 t), sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) ((hcond1_0 t).mpr hz) (fun h => hl ((hcond1_1 t).mp h)) (iblk1 V c 0 t) (iblk1 V c 1 t) (iblk1 V c 2 t) (iblk1 V c 3 t) (iblk1 V c 4 t)) := by
  obtain ⟨n, hn⟩ := t
  cases n with
  | zero => exact rfl
  | succ n => exact (dif_pos hz).trans ((dif_neg hl).trans rfl)

/-- `outsAt1` at a point of case C: that case's contents, over what the point before left in the accumulator. -/
theorem outsAt1_C (c : Dev nD) (t : Fin cfg1.N) (hz : ¬t.val % 2 = 0) (hl : t.val % 2 = 1) :
    outsAt1 V c t.val t.isLt = (out1_C_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => hz ((hcond1_0 t).mp h)) ((hcond1_1 t).mpr hl) (iblk1 V c 0 t) (iblk1 V c 1 t) (iblk1 V c 2 t) (iblk1 V c 3 t) (iblk1 V c 4 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => hz ((hcond1_0 t).mp h)) ((hcond1_1 t).mpr hl) (iblk1 V c 0 t) (iblk1 V c 1 t) (iblk1 V c 2 t) (iblk1 V c 3 t) (iblk1 V c 4 t) (outsAt1 V c (t.val - 1) (Nat.lt_of_le_of_lt (Nat.sub_le _ _) t.isLt)).2) := by
  obtain ⟨n, hn⟩ := t
  cases n with
  | zero => exact (by exfalso; (try dsimp only at hz); exact absurd (Nat.zero_mod _) hz)
  | succ n => exact (dif_neg hz).trans ((dif_pos hl).trans rfl)

/-- The region invariant before position `n`, the kernel carrying its accumulator between points: before the first point
    the scoped rest with every scratch at anything; afterwards the accumulator at what the point before left in it
    (`outsAt1`'s second component), the other scoped buffers unopened, and the generator register at some state. -/
def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2) ∗ Pipeline.scopedRestBut (Ix := Unit) (Name := ℕ) (U := UR sig nD τ) (Lvl := ℕ) (Val := Elt F) spec1 c [cc1_scratch0]) ∗ (∃ r, prngReg c r))

theorem PhiS1_zero (c : Dev nD) (n : ℕ) (h : n ≤ cfg1.N) (hzero : n = 0) : PhiS1 V c n h = Pipeline.ΦA spec1 c := by
  subst hzero; rfl

/-- After point `n` (before point `n + 1`): the accumulator at that point's contents. -/
theorem PhiS1_succ (c : Dev nD) (n : ℕ) (hn : n < cfg1.N) :
    PhiS1 V c (n + 1) hn = iprop(iprop(owns (c : Thread nD τ) scM1_0 fullShare ((outsAt1 V c n hn).2) ∗ Pipeline.scopedRestBut (Ix := Unit) (Name := ℕ) (U := UR sig nD τ) (Lvl := ℕ) (Val := Elt F) spec1 c [cc1_scratch0]) ∗ (∃ r, prngReg c r)) := rfl

/-- Before a point that is not the first: the accumulator at what the point before left. -/
theorem PhiS1_pos (c : Dev nD) (n : ℕ) (h : n ≤ cfg1.N) (hzero : n ≠ 0) :
    PhiS1 V c n h = iprop(iprop(owns (c : Thread nD τ) scM1_0 fullShare ((outsAt1 V c (n - 1) (by omega)).2) ∗ Pipeline.scopedRestBut (Ix := Unit) (Name := ℕ) (U := UR sig nD τ) (Lvl := ℕ) (Val := Elt F) spec1 c [cc1_scratch0]) ∗ (∃ r, prngReg c r)) := by
  cases n with
  | zero => exact absurd rfl hzero
  | succ n => rfl

/-! ## The pipeline's proof data -/

/-- The proof data of pipeline 1 on core `c`: the arrays as the region finds them (`V`); after the body at point `t` each
    input's buffer at its block and the output's at `outsAt1`'s first component; the invariant `PhiS1`; nothing owed; full
    shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t.val t.isLt).1
  Φ t := PhiS1 V c t.val (Nat.le_of_lt_succ t.isLt)
  q _ := fullShare
  owed _ := 0

/-- The proof data's arrays are the region-entry contents (the definition projected, `V` never unfolded). -/
theorem A_eq1 (c : Dev nD) (w : Fin cfg1.W) : (dat1 V c).A w = V c (Pipeline.arrRef spec1 w) := by
  dsimp only [dat1]

/-- The invariant at a point's start (the proof data at `t.castSucc`), restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = (outsAt1 V c t.val t.isLt).1 := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t` (the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 4800000 in
/-- The body at any point: the inputs' memrefs hold their blocks; the closed forms say which case the point is in; the
    invariant hands the body the accumulator at what the point before left (at anything at the first point), the other
    scoped buffers and the generator register pass through, and it takes the accumulator back at this point's contents;
    in case A the output's buffer is handed back as found, in case C at its covering store; the core owes nothing
    throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS1 V c (t.val + 1) t.isLt from rfl, PhiS1_succ]
  have hN : t.val < 8 := lt_of_lt_of_eq t.isLt (show cfg1.N = 8 from N_1)
  by_cases hz : t.val % 2 = 0
  · have hl : ¬t.val % 2 = 1 := by omega
    rw [show (dat1 V c).leavesExact 0 t = owns (c : Thread nD τ) (ms1_0 t) fullShare ((dat1 V c).after 0 t) from by
      unfold Dat.leavesExact; rw [liveAt1_0 t], after1_0]
    rw [show (dat1 V c).leavesExact 1 t = owns (c : Thread nD τ) (ms1_1 t) fullShare ((dat1 V c).after 1 t) from by
      unfold Dat.leavesExact; rw [liveAt1_1 t], after1_1]
    rw [show (dat1 V c).leavesExact 2 t = owns (c : Thread nD τ) (ms1_2 t) fullShare ((dat1 V c).after 2 t) from by
      unfold Dat.leavesExact; rw [liveAt1_2 t], after1_2]
    rw [show (dat1 V c).leavesExact 3 t = owns (c : Thread nD τ) (ms1_3 t) fullShare ((dat1 V c).after 3 t) from by
      unfold Dat.leavesExact; rw [liveAt1_3 t], after1_3]
    rw [show (dat1 V c).leavesExact 4 t = owns (c : Thread nD τ) (ms1_4 t) fullShare ((dat1 V c).after 4 t) from by
      unfold Dat.leavesExact; rw [liveAt1_4 t], after1_4]
    rw [Dat.leavesExact_idle (dat1 V c) 5 t (idleAt1_5_A t ((hcond1_0 t).mpr hz) (fun h => hl ((hcond1_1 t).mp h))) (noFlush1_5_A t ((hcond1_0 t).mpr hz) (fun h => hl ((hcond1_1 t).mp h)))]
    rw [outsAt1_A V c t hz hl]
    unfold sout1_A_0; (try dsimp only)
    by_cases hzero : t.val = 0
    ·
      rw [PhiS1_castSucc V c t, PhiS1_zero V c _ _ hzero, PhiA1_eq]
      iintro ⟨⟨⟨Hs, Hr⟩, Hg⟩, Hw, ⟨%da, Ha⟩, ⟨%db, Hb⟩, ⟨%dc, Hc⟩, ⟨%dd, Hd⟩, ⟨%de, He⟩, ⟨%dq, Ho⟩⟩
      iapply ((kernelRun1_A c (grid1.coords t) _ _ _ _ _ _ _ _ _ _ _ _ _ _ ((hcond1_0 t).mpr hz) (fun h => hl ((hcond1_1 t).mp h)) (iblk1 V c 0 t) (iblk1 V c 1 t) (iblk1 V c 2 t) (iblk1 V c 3 t) (iblk1 V c 4 t)).2.2 _ Set.univ _)
      isplitl [Ha]; · iexact Ha
      isplitl [Hb]; · iexact Hb
      isplitl [Hc]; · iexact Hc
      isplitl [Hd]; · iexact Hd
      isplitl [He]; · iexact He
      isplitl [Ho]; · iexact Ho
      isplitl [Hs]; · iexact Hs
      iintro ⟨Ha, Hb, Hc, Hd, He, Ho, ⟨%es, Hs⟩⟩
      isplitl [Hs Hr Hg]
      · isplitl [Hs Hr]
        · isplitl [Hs]
          · unfold owns; iexists _; isplitr
            swap; · iexact Hs
            ipureintro; exact View.read_writes_of_cover _ _ _ _ _ (scover1_A_0 c _ _ _ _ _ _ _ _ _ _ _ _ _ _ _ _ _ _ _ _ _ _)
          iexact Hr
        iexact Hg
      isplitl [Hw]; · iexact Hw
      isplitl [Ha]; · iexact Ha
      isplitl [Hb]; · iexact Hb
      isplitl [Hc]; · iexact Hc
      isplitl [Hd]; · iexact Hd
      isplitl [He]; · iexact He
      iexists _; iexact Ho
    ·
      rw [PhiS1_castSucc V c t, PhiS1_pos V c _ _ hzero]
      iintro ⟨⟨⟨Hs, Hr⟩, Hg⟩, Hw, ⟨%da, Ha⟩, ⟨%db, Hb⟩, ⟨%dc, Hc⟩, ⟨%dd, Hd⟩, ⟨%de, He⟩, ⟨%dq, Ho⟩⟩
      iapply ((kernelRun1_A c (grid1.coords t) _ _ _ _ _ _ _ _ _ _ _ _ _ _ ((hcond1_0 t).mpr hz) (fun h => hl ((hcond1_1 t).mp h)) (iblk1 V c 0 t) (iblk1 V c 1 t) (iblk1 V c 2 t) (iblk1 V c 3 t) (iblk1 V c 4 t)).2.2 _ Set.univ _)
      isplitl [Ha]; · iexact Ha
      isplitl [Hb]; · iexact Hb
      isplitl [Hc]; · iexact Hc
      isplitl [Hd]; · iexact Hd
      isplitl [He]; · iexact He
      isplitl [Ho]; · iexact Ho
      isplitl [Hs]; · iexists _; iexact Hs
      iintro ⟨Ha, Hb, Hc, Hd, He, Ho, ⟨%es, Hs⟩⟩
      isplitl [Hs Hr Hg]
      · isplitl [Hs Hr]
        · isplitl [Hs]
          · unfold owns; iexists _; isplitr
            swap; · iexact Hs
            ipureintro; exact View.read_writes_of_cover _ _ _ _ _ (scover1_A_0 c _ _ _ _ _ _ _ _ _ _ _ _ _ _ _ _ _ _ _ _ _ _)
          iexact Hr
        iexact Hg
      isplitl [Hw]; · iexact Hw
      isplitl [Ha]; · iexact Ha
      isplitl [Hb]; · iexact Hb
      isplitl [Hc]; · iexact Hc
      isplitl [Hd]; · iexact Hd
      isplitl [He]; · iexact He
      iexists _; iexact Ho
  · have hl : t.val % 2 = 1 := by omega
    rw [show (dat1 V c).leavesExact 0 t = owns (c : Thread nD τ) (ms1_0 t) fullShare ((dat1 V c).after 0 t) from by
      unfold Dat.leavesExact; rw [liveAt1_0 t], after1_0]
    rw [show (dat1 V c).leavesExact 1 t = owns (c : Thread nD τ) (ms1_1 t) fullShare ((dat1 V c).after 1 t) from by
      unfold Dat.leavesExact; rw [liveAt1_1 t], after1_1]
    rw [show (dat1 V c).leavesExact 2 t = owns (c : Thread nD τ) (ms1_2 t) fullShare ((dat1 V c).after 2 t) from by
      unfold Dat.leavesExact; rw [liveAt1_2 t], after1_2]
    rw [show (dat1 V c).leavesExact 3 t = owns (c : Thread nD τ) (ms1_3 t) fullShare ((dat1 V c).after 3 t) from by
      unfold Dat.leavesExact; rw [liveAt1_3 t], after1_3]
    rw [show (dat1 V c).leavesExact 4 t = owns (c : Thread nD τ) (ms1_4 t) fullShare ((dat1 V c).after 4 t) from by
      unfold Dat.leavesExact; rw [liveAt1_4 t], after1_4]
    rw [show (dat1 V c).leavesExact 5 t = owns (c : Thread nD τ) (ms1_5 t) fullShare ((dat1 V c).after 5 t) from by
      unfold Dat.leavesExact; rw [liveAt1_5_C t (fun h => hz ((hcond1_0 t).mp h)) ((hcond1_1 t).mpr hl)], after1_5]
    rw [outsAt1_C V c t hz hl]
    unfold out1_C_5 sout1_C_0; (try dsimp only)
    have hzero : t.val ≠ 0 := by omega
    · rw [PhiS1_castSucc V c t, PhiS1_pos V c _ _ hzero]
      iintro ⟨⟨⟨Hs, Hr⟩, Hg⟩, Hw, ⟨%da, Ha⟩, ⟨%db, Hb⟩, ⟨%dc, Hc⟩, ⟨%dd, Hd⟩, ⟨%de, He⟩, ⟨%dq, Ho⟩⟩
      iapply ((kernelRun1_C c (grid1.coords t) _ _ _ _ _ _ _ _ _ _ _ _ _ _ (fun h => hz ((hcond1_0 t).mp h)) ((hcond1_1 t).mpr hl) (iblk1 V c 0 t) (iblk1 V c 1 t) (iblk1 V c 2 t) (iblk1 V c 3 t) (iblk1 V c 4 t) _).2.2 Set.univ _)
      isplitl [Ha]; · iexact Ha
      isplitl [Hb]; · iexact Hb
      isplitl [Hc]; · iexact Hc
      isplitl [Hd]; · iexact Hd
      isplitl [He]; · iexact He
      isplitl [Ho]; · iexists _; iexact Ho
      isplitl [Hs]; · iexact Hs
      iintro ⟨Ha, Hb, Hc, Hd, He, ⟨%eo, Ho⟩, ⟨%es, Hs⟩⟩
      isplitl [Hs Hr Hg]
      · isplitl [Hs Hr]
        · isplitl [Hs]
          · unfold owns; iexists _; isplitr
            swap; · iexact Hs
            ipureintro; exact View.read_writes_of_cover _ _ _ _ _ (scover1_C_0 c _ _ _ _ _ _ _ _ _ _ _ _ _ _ _ _ _ _ _ _ _ _ _)
          iexact Hr
        iexact Hg
      isplitl [Hw]; · iexact Hw
      isplitl [Ha]; · iexact Ha
      isplitl [Hb]; · iexact Hb
      isplitl [Hc]; · iexact Hc
      isplitl [Hd]; · iexact Hd
      isplitl [He]; · iexact He
      unfold owns; iexists _; isplitr
      swap; · iexact Ho
      ipureintro; exact View.read_writes_of_cover _ _ _ _ _ (cover1_C_5 c _ _ _ _ _ _ _ _ _ _ _ _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the launch's back: the accumulator's named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨Hs, Hr⟩, Hg⟩
  isplitl [Hs Hr]
  · isplitl [Hs]
    · iexists _; iexact Hs
    iexact Hr
  iexact Hg

/-- The same after the last point. -/
theorem hout1 (c : Dev nD) : (dat1 V c).Φ (Fin.last cfg1.N) ⊢ Pipeline.ΦA spec1 c :=
  Phi_out1 V c _ (by rw [Fin.val_last]; have : cfg1.N = 8 := N_1; omega)

end Region

end Cert.KernelIdeal.Hand

end
-- ==== Proof.KI.Reg2Runs.lean ====
/-
  Region 2 (an edge update relu(he + vew2ᵀ·hv)), the definitions its two runs share.
  The grid is (i, k) with k of extent 2: point t has k = t mod 2. At k = 0 the accumulator is zeroed and the first
  half of the contraction added; at k = 1 the second half is added and the output block stored. Everything is stated
  at a parameter V, the TensorCore's buffer contents when the region is entered.
-/
import proofs.«181597_j77979426226450_2_alg».proof.Proof.Gen.KernelIdeal.Launch
import proofs.«181597_j77979426226450_2_alg».proof.Proof.Gen.KernelIdeal.Skeleton
import proofs.«181597_j77979426226450_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not: when it is not
    fetched its block index has not moved, so the block of the point before is this point's. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's two branch conditions, decided over the grid -/

/-- "k = 0": the accumulator is zeroed. -/
abbrev cond2_0 (i : grid2.Coords) : Prop := (Scalar.cmpi .ne (Scalar.extui (Scalar.cmpi .eq (BitVec.ofNat 32 (i 1).val) 0#32)) 0#32) = 1#1
theorem hcond2_0 : ∀ t : Fin cfg2.N, cond2_0 (grid2.coords t) ↔ t.val % 2 = 0 :=
  (by decide +kernel : ∀ t : Fin grid2.N, cond2_0 (grid2.coords t) ↔ t.val % 2 = 0)
/-- "k = 1", the last step: the output block is stored. -/
abbrev cond2_1 (i : grid2.Coords) : Prop := k2_cond2 i = 1#1
theorem hcond2_1 : ∀ t : Fin cfg2.N, cond2_1 (grid2.coords t) ↔ t.val % 2 = 1 :=
  (by decide +kernel : ∀ t : Fin grid2.N, cond2_1 (grid2.coords t) ↔ t.val % 2 = 1)

/-! ## Where the output window is idle -/

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
/-- At k = 0 nothing is stored into the output's buffer, and its block is not written back. -/
theorem idleAt2_3_A : ∀ t : Fin cfg2.N, cond2_0 (grid2.coords t) → ¬cond2_1 (grid2.coords t) → cfg2.idle 3 (grid2.coords t) = true := by decide +kernel
theorem noFlush2_3_A : ∀ t : Fin cfg2.N, cond2_0 (grid2.coords t) → ¬cond2_1 (grid2.coords t) → (cfg2.win 3).flush t = false := by decide +kernel
/-- At k = 1 it is stored. -/
theorem liveAt2_3_C : ∀ t : Fin cfg2.N, ¬cond2_0 (grid2.coords t) → cond2_1 (grid2.coords t) → cfg2.idle 3 (grid2.coords t) = false := by decide +kernel

/-! ## The memrefs the body is called with -/

/-- One staging buffer of the output window, through which its contents are stated. -/
abbrev VO2_3 : View sig .tc .vmem S1024x128 .f32 := (Memref.whole cc2_stg3_0 : Memref sig .tc .vmem S1024x128 .f32).view
abbrev ms2_0 (t : Fin cfg2.N) : Memref sig .tc .vmem S2048x1024 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S2048x128 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1024x128 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1024x128 .f32 := win2_3.stage (cfg2.slots t 3)
abbrev hs2_3 (t : Fin cfg2.N) : (ms2_3 t).IsWhole := hstage2_3 ((cfg2.slots t 3).cast nbuf2_3)
/-- The accumulator: a whole scoped buffer of the kernel's own. -/
abbrev scM2_0 : Memref sig .tc .vmem S1024x128 .f32 := Memref.whole cc2_scratch0
abbrev VS2_0 : View sig .tc .vmem S1024x128 .f32 := scM2_0.view

/-- What the region may use and need not describe, with the accumulator split out: the accumulator at some contents,
    every other scoped buffer unopened, the generator register at some state. -/
theorem PhiA2_eq (c : Dev nD) :
    (Pipeline.ΦA spec2 c : sProp 𝕄)
      = iprop(iprop((∃ d, owns (c : Thread nD τ) scM2_0 fullShare d)
          ∗ Pipeline.scopedRestBut (Ix := Unit) (Name := ℕ) (U := UR sig nD τ) (Lvl := ℕ) (Val := Elt F) spec2 c [cc2_scratch0]) ∗ (∃ r, prngReg c r)) := by
  unfold Pipeline.ΦA; rw [scopedRest2_split]; simp only [scM2_0, owns_whole]; try rfl

end Cert.KernelIdeal.Hand

end
-- ==== Proof.KI.Reg2RunA.lean ====
/-
  Region 2, the body at k = 0: the accumulator is zeroed, the first half of the contraction (the one-hot block against
  the feature block and against its rounding remainder) is added to it, and nothing is stored into the output's buffer.
-/
import proofs.«181597_j77979426226450_2_alg».proof.Proof.KI.Reg2Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's stores leave in the accumulator at k = 0 (last first), with the proof that on whole staging
    memrefs — the three inputs at their contents, the output's buffer at contents handed back untouched, the
    accumulator at anything — the body runs to a continuation holding the inputs and the output's buffer as they were and
    the accumulator with those pieces written. -/
noncomputable def kernelRun2_A (c : Dev nD) (i : grid2.Coords) (arg2 : Memref sig .tc .vmem S2048x1024 .bf16) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : cond2_0 i) (hc1 : ¬cond2_1 i)
    (x0 : Vec F S2048x1024 .bf16) (x1 : Vec F S2048x128 .f32) (x2 : Vec F S1024x128 .f32) :
    Σ' (L3 : List (View.Piece (Elt F) S1024x128 .f32)), { LS0 : List (View.Piece (Elt F) S1024x128 .f32) //
      ∀ (xi3 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc2__agg_relu_kernel i arg2 harg2 arg3 harg3 arg4 harg4 arg5 harg5 arg6 harg6) K } := by
  refine ⟨[], ?_, fun xi3 E K => ?run⟩
  case run =>
    simp only [cc2__agg_relu_kernel_eq_skeleton]; unfold cc2__agg_relu_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Hand

end
-- ==== Proof.KI.Reg2RunC.lean ====
/-
  Region 2, the body at k = 1: the second half of the contraction is added to the accumulator, and the output block is
  stored: the maximum of zero and the accumulator plus the edge features.
-/
import proofs.«181597_j77979426226450_2_alg».proof.Proof.KI.Reg2RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's stores leave in the output's buffer and in the accumulator at k = 1 (last first), with the
    proof that on whole staging memrefs — the three inputs at their contents, the output's buffer at anything, the
    accumulator at what the point before left — the body runs to a continuation holding the inputs as they were and the
    output's buffer and the accumulator with those pieces written. -/
noncomputable def kernelRun2_C (c : Dev nD) (i : grid2.Coords) (arg2 : Memref sig .tc .vmem S2048x1024 .bf16) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : ¬cond2_0 i) (hc1 : cond2_1 i)
    (x0 : Vec F S2048x1024 .bf16) (x1 : Vec F S2048x128 .f32) (x2 : Vec F S1024x128 .f32) (xs0 : Vec F S1024x128 .f32) :
    Σ' (L3 : List (View.Piece (Elt F) S1024x128 .f32)), { LS0 : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc2__agg_relu_kernel i arg2 harg2 arg3 harg3 arg4 harg4 arg5 harg5 arg6 harg6) K } := by
  refine ⟨?_, ?_, fun E K => ?run⟩
  case run =>
    simp only [cc2__agg_relu_kernel_eq_skeleton]; unfold cc2__agg_relu_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.KernelIdeal.Hand

end
-- ==== Proof.KI.Reg2.lean ====
/-
  Region 2: what the body leaves at each point, the accumulation over the grid, the pipeline's proof data and the body
  obligation. The accumulator holds, after the point (i, 0), the first half of the contraction for row block i, and after
  (i, 1) the whole contraction; the output block of row block i is stored at (i, 1) from the accumulator.
-/
import proofs.«181597_j77979426226450_2_alg».proof.Proof.KI.Reg2RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- At k = 0 nothing is stored into the output's buffer: a placeholder nothing consults (the window is neither written
    back there nor read at the next point before being covered). -/
def out2_A_3 (c : Dev nD) (i : grid2.Coords) (arg2 : Memref sig .tc .vmem S2048x1024 .bf16) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : cond2_0 i) (hc1 : ¬cond2_1 i)
    (x0 : Vec F S2048x1024 .bf16) (x1 : Vec F S2048x128 .f32) (x2 : Vec F S1024x128 .f32) : Vec F S1024x128 .f32 :=
  VO2_3.read (Elt F) (VO2_3.writes (Elt F) VO2_3.junk (kernelRun2_A c i arg2 harg2 arg3 harg3 arg4 harg4 arg5 harg5 arg6 harg6 hc0 hc1 x0 x1 x2).1)

/-- The stores of k = 0 into the accumulator cover it. -/
theorem scover2_A_0 (c : Dev nD) (i : grid2.Coords) (arg2 : Memref sig .tc .vmem S2048x1024 .bf16) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : cond2_0 i) (hc1 : ¬cond2_1 i)
    (x0 : Vec F S2048x1024 .bf16) (x1 : Vec F S2048x128 .f32) (x2 : Vec F S1024x128 .f32) (y : S1024x128.Idx) :
    ∃ pc ∈ (kernelRun2_A c i arg2 harg2 arg3 harg3 arg4 harg4 arg5 harg5 arg6 harg6 hc0 hc1 x0 x1 x2).2.1, y ∈ pc.1.set :=
  View.cover_of_tiledL (kernelRun2_A c i arg2 harg2 arg3 harg3 arg4 harg4 arg5 harg5 arg6 harg6 hc0 hc1 x0 x1 x2).2.1 S1024x128.size (by sl_kernel_rfl) y

/-- What k = 0 leaves in the accumulator. -/
def sout2_A_0 (c : Dev nD) (i : grid2.Coords) (arg2 : Memref sig .tc .vmem S2048x1024 .bf16) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : cond2_0 i) (hc1 : ¬cond2_1 i)
    (x0 : Vec F S2048x1024 .bf16) (x1 : Vec F S2048x128 .f32) (x2 : Vec F S1024x128 .f32) : Vec F S1024x128 .f32 :=
  VS2_0.read (Elt F) (VS2_0.writes (Elt F) VS2_0.junk (kernelRun2_A c i arg2 harg2 arg3 harg3 arg4 harg4 arg5 harg5 arg6 harg6 hc0 hc1 x0 x1 x2).2.1)

/-- The store of k = 1 into the output's buffer covers it. -/
theorem cover2_C_3 (c : Dev nD) (i : grid2.Coords) (arg2 : Memref sig .tc .vmem S2048x1024 .bf16) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : ¬cond2_0 i) (hc1 : cond2_1 i)
    (x0 : Vec F S2048x1024 .bf16) (x1 : Vec F S2048x128 .f32) (x2 : Vec F S1024x128 .f32) (xs0 : Vec F S1024x128 .f32) (y : S1024x128.Idx) :
    ∃ pc ∈ (kernelRun2_C c i arg2 harg2 arg3 harg3 arg4 harg4 arg5 harg5 arg6 harg6 hc0 hc1 x0 x1 x2 xs0).1, y ∈ pc.1.set :=
  View.cover_of_tiledL (kernelRun2_C c i arg2 harg2 arg3 harg3 arg4 harg4 arg5 harg5 arg6 harg6 hc0 hc1 x0 x1 x2 xs0).1 S1024x128.size (by sl_kernel_rfl) y

/-- What k = 1 leaves in the output's buffer. -/
def out2_C_3 (c : Dev nD) (i : grid2.Coords) (arg2 : Memref sig .tc .vmem S2048x1024 .bf16) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : ¬cond2_0 i) (hc1 : cond2_1 i)
    (x0 : Vec F S2048x1024 .bf16) (x1 : Vec F S2048x128 .f32) (x2 : Vec F S1024x128 .f32) (xs0 : Vec F S1024x128 .f32) : Vec F S1024x128 .f32 :=
  VO2_3.read (Elt F) (VO2_3.writes (Elt F) VO2_3.junk (kernelRun2_C c i arg2 harg2 arg3 harg3 arg4 harg4 arg5 harg5 arg6 harg6 hc0 hc1 x0 x1 x2 xs0).1)

/-- The store of k = 1 into the accumulator covers it. -/
theorem scover2_C_0 (c : Dev nD) (i : grid2.Coords) (arg2 : Memref sig .tc .vmem S2048x1024 .bf16) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : ¬cond2_0 i) (hc1 : cond2_1 i)
    (x0 : Vec F S2048x1024 .bf16) (x1 : Vec F S2048x128 .f32) (x2 : Vec F S1024x128 .f32) (xs0 : Vec F S1024x128 .f32) (y : S1024x128.Idx) :
    ∃ pc ∈ (kernelRun2_C c i arg2 harg2 arg3 harg3 arg4 harg4 arg5 harg5 arg6 harg6 hc0 hc1 x0 x1 x2 xs0).2.1, y ∈ pc.1.set :=
  View.cover_of_tiledL (kernelRun2_C c i arg2 harg2 arg3 harg3 arg4 harg4 arg5 harg5 arg6 harg6 hc0 hc1 x0 x1 x2 xs0).2.1 S1024x128.size (by sl_kernel_rfl) y

/-- What k = 1 leaves in the accumulator. -/
def sout2_C_0 (c : Dev nD) (i : grid2.Coords) (arg2 : Memref sig .tc .vmem S2048x1024 .bf16) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : ¬cond2_0 i) (hc1 : cond2_1 i)
    (x0 : Vec F S2048x1024 .bf16) (x1 : Vec F S2048x128 .f32) (x2 : Vec F S1024x128 .f32) (xs0 : Vec F S1024x128 .f32) : Vec F S1024x128 .f32 :=
  VS2_0.read (Elt F) (VS2_0.writes (Elt F) VS2_0.junk (kernelRun2_C c i arg2 harg2 arg3 harg3 arg4 harg4 arg5 harg5 arg6 harg6 hc0 hc1 x0 x1 x2 xs0).2.1)

/-! ## What the output's buffer and the accumulator hold after each point -/

/-- The accumulation: after position n, the pair (output's buffer, accumulator) — at an even position the case k = 0 run
    at the point's blocks, at an odd one the case k = 1 run at the point's blocks over the accumulator the point before
    left. -/
def outsAt2 (c : Dev nD) : (n : ℕ) → n < cfg2.N → Vec F S1024x128 .f32 × Vec F S1024x128 .f32
  | 0, hn => (out2_A_3 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩),
      sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩))
  | n + 1, hn =>
    if h0 : (n + 1) % 2 = 0 then
      if h1 : (n + 1) % 2 = 1 then
        False.elim (by omega)
      else
        (out2_A_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩),
          sout2_A_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩))
    else
      if h1 : (n + 1) % 2 = 1 then
        (out2_C_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).2,
          sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).2)
      else
        False.elim (by omega)

/-- At a point with k = 0: that case's contents. -/
theorem outsAt2_A (c : Dev nD) (t : Fin cfg2.N) (h0 : t.val % 2 = 0) (h1 : ¬t.val % 2 = 1) :
    outsAt2 V c t.val t.isLt = (out2_A_3 c (grid2.coords t) (ms2_0 t) (hs2_0 t) (ms2_1 t) (hs2_1 t) (ms2_2 t) (hs2_2 t) (ms2_3 t) (hs2_3 t) scM2_0 (Memref.isWhole_whole _) ((hcond2_0 t).mpr h0) (fun h => h1 ((hcond2_1 t).mp h)) (iblk2 V c 0 t) (iblk2 V c 1 t) (iblk2 V c 2 t),
      sout2_A_0 c (grid2.coords t) (ms2_0 t) (hs2_0 t) (ms2_1 t) (hs2_1 t) (ms2_2 t) (hs2_2 t) (ms2_3 t) (hs2_3 t) scM2_0 (Memref.isWhole_whole _) ((hcond2_0 t).mpr h0) (fun h => h1 ((hcond2_1 t).mp h)) (iblk2 V c 0 t) (iblk2 V c 1 t) (iblk2 V c 2 t)) := by
  obtain ⟨n, hn⟩ := t
  cases n with
  | zero => exact rfl
  | succ n => exact (dif_pos h0).trans ((dif_neg h1).trans rfl)

/-- At a point with k = 1: that case's contents, over the accumulator the point before left. -/
theorem outsAt2_C (c : Dev nD) (t : Fin cfg2.N) (h0 : ¬t.val % 2 = 0) (h1 : t.val % 2 = 1) :
    outsAt2 V c t.val t.isLt = (out2_C_3 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2,
      sout2_C_0 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position n: before the first point what the region may use, undescribed; afterwards
    the accumulator at what the point before left in it, the other scoped buffers unopened, the generator register at
    some state. -/
def PhiS2 (c : Dev nD) : (n : ℕ) → n ≤ cfg2.N → sProp 𝕄
  | 0, _ => Pipeline.ΦA spec2 c
  | n + 1, hn => iprop(iprop(owns (c : Thread nD τ) scM2_0 fullShare ((outsAt2 V c n hn).2)
      ∗ Pipeline.scopedRestBut (Ix := Unit) (Name := ℕ) (U := UR sig nD τ) (Lvl := ℕ) (Val := Elt F) spec2 c [cc2_scratch0]) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(owns (c : Thread nD τ) scM2_0 fullShare ((outsAt2 V c n hn).2)
      ∗ Pipeline.scopedRestBut (Ix := Unit) (Name := ℕ) (U := UR sig nD τ) (Lvl := ℕ) (Val := Elt F) spec2 c [cc2_scratch0]) ∗ (∃ r, prngReg c r)) := rfl

theorem PhiS2_pos (c : Dev nD) (n : ℕ) (h : n ≤ cfg2.N) (hz : n ≠ 0) :
    PhiS2 V c n h = iprop(iprop(owns (c : Thread nD τ) scM2_0 fullShare ((outsAt2 V c (n - 1) (by omega)).2)
      ∗ Pipeline.scopedRestBut (Ix := Unit) (Name := ℕ) (U := UR sig nD τ) (Lvl := ℕ) (Val := Elt F) spec2 c [cc2_scratch0]) ∗ (∃ r, prngReg c r)) := by
  cases n with
  | zero => exact absurd rfl hz
  | succ n => rfl

/-! ## The pipeline's proof data -/

/-- The arrays as the region finds them; after the body each input's buffer at its block and the output's at the
    accumulation's first component; the invariant above; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = (outsAt2 V c t.val t.isLt).1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point t, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

set_option maxHeartbeats 4800000 in
/-- The body at any point: the inputs' memrefs hold their blocks; k decides the case; the invariant hands the body the
    accumulator (at anything at the first point, else at what the point before left) and takes it back at this point's
    contents; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = PhiS2 V c (t.val + 1) t.isLt from rfl, PhiS2_succ]
  have hN : t.val < 16 := lt_of_lt_of_eq t.isLt (show cfg2.N = 16 from N_2)
  rw [show (dat2 V c).leavesExact 0 t = owns (c : Thread nD τ) (ms2_0 t) fullShare ((dat2 V c).after 0 t) from by
    unfold Dat.leavesExact; rw [liveAt2_0 t], after2_0]
  rw [show (dat2 V c).leavesExact 1 t = owns (c : Thread nD τ) (ms2_1 t) fullShare ((dat2 V c).after 1 t) from by
    unfold Dat.leavesExact; rw [liveAt2_1 t], after2_1]
  rw [show (dat2 V c).leavesExact 2 t = owns (c : Thread nD τ) (ms2_2 t) fullShare ((dat2 V c).after 2 t) from by
    unfold Dat.leavesExact; rw [liveAt2_2 t], after2_2]
  by_cases h0 : t.val % 2 = 0
  · have h1 : ¬t.val % 2 = 1 := by omega
    rw [Dat.leavesExact_idle (dat2 V c) 3 t (idleAt2_3_A t ((hcond2_0 t).mpr h0) (fun h => h1 ((hcond2_1 t).mp h))) (noFlush2_3_A t ((hcond2_0 t).mpr h0) (fun h => h1 ((hcond2_1 t).mp h)))]
    rw [outsAt2_A V c t h0 h1]
    unfold sout2_A_0; (try dsimp only)
    by_cases hz : t.val = 0
    · rw [PhiS2_castSucc V c t, PhiS2_zero V c _ _ hz, PhiA2_eq]
      iintro ⟨⟨⟨HS0, Hrest⟩, Hg⟩, Ho, ⟨%d0, H0⟩, ⟨%d1, H1⟩, ⟨%d2, H2⟩, ⟨%d3, H3⟩⟩
      iapply ((kernelRun2_A c (grid2.coords t) _ _ _ _ _ _ _ _ _ _ ((hcond2_0 t).mpr h0) (fun h => h1 ((hcond2_1 t).mp h)) (iblk2 V c 0 t) (iblk2 V c 1 t) (iblk2 V c 2 t)).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover2_A_0 c _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3
    · rw [PhiS2_castSucc V c t, PhiS2_pos V c _ _ hz]
      iintro ⟨⟨⟨HS0, Hrest⟩, Hg⟩, Ho, ⟨%d0, H0⟩, ⟨%d1, H1⟩, ⟨%d2, H2⟩, ⟨%d3, H3⟩⟩
      iapply ((kernelRun2_A c (grid2.coords t) _ _ _ _ _ _ _ _ _ _ ((hcond2_0 t).mpr h0) (fun h => h1 ((hcond2_1 t).mp h)) (iblk2 V c 0 t) (iblk2 V c 1 t) (iblk2 V c 2 t)).2.2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover2_A_0 c _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3
  · have h1 : t.val % 2 = 1 := by omega
    rw [show (dat2 V c).leavesExact 3 t = owns (c : Thread nD τ) (ms2_3 t) fullShare ((dat2 V c).after 3 t) from by
      unfold Dat.leavesExact; rw [liveAt2_3_C t (fun h => h0 ((hcond2_0 t).mp h)) ((hcond2_1 t).mpr h1)], after2_3]
    rw [outsAt2_C V c t h0 h1]
    unfold out2_C_3 sout2_C_0; (try dsimp only)
    have hz : t.val ≠ 0 := by omega
    rw [PhiS2_castSucc V c t, PhiS2_pos V c _ _ hz]
    iintro ⟨⟨⟨HS0, Hrest⟩, Hg⟩, Ho, ⟨%d0, H0⟩, ⟨%d1, H1⟩, ⟨%d2, H2⟩, ⟨%d3, H3⟩⟩
    iapply ((kernelRun2_C c (grid2.coords t) _ _ _ _ _ _ _ _ _ _ (fun h => h0 ((hcond2_0 t).mp h)) ((hcond2_1 t).mpr h1) (iblk2 V c 0 t) (iblk2 V c 1 t) (iblk2 V c 2 t) _).2.2 Set.univ _)
    isplitl [H0]; · iexact H0
    isplitl [H1]; · iexact H1
    isplitl [H2]; · iexact H2
    isplitl [H3]; · iexists _; iexact H3
    isplitl [HS0]; · iexact HS0
    iintro ⟨H0, H1, H2, ⟨%e3, H3⟩, ⟨%es0, HS0⟩⟩
    isplitl [HS0 Hrest Hg]
    · isplitl [HS0 Hrest]
      · isplitl [HS0]
        · unfold owns; iexists _; isplitr
          swap; · iexact HS0
          ipureintro; exact View.read_writes_of_cover _ _ _ _ _ (scover2_C_0 c _ _ _ _ _ _ _ _ _ _ _ _ _ _ _ _ _)
        iexact Hrest
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover2_C_3 c _ _ _ _ _ _ _ _ _ _ _ _ _ _ _ _ _)

/-- The pipeline library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point but the first the invariant gives it back: the accumulator's named contents are forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨HS0, Hrest⟩, Hg⟩
  isplitl [HS0 Hrest]
  · isplitl [HS0]
    · iexists _; iexact HS0
    iexact Hrest
  iexact Hg

theorem hout2 (c : Dev nD) : (dat2 V c).Φ (Fin.last cfg2.N) ⊢ Pipeline.ΦA spec2 c :=
  Phi_out2 V c _ (by rw [Fin.val_last]; have : cfg2.N = 16 := N_2; omega)

end Cert.KernelIdeal.Hand

end
-- ==== Proof.KI.Reg3Runs.lean ====
/- Region 3 (the aggregate-residual-MLP kernel, pipeline 1): what its two runs share — the windows' blocks at the
   region-entry contents, the input windows' staging contents, the body's two branch conditions decided over the
   grid, where the output window is idle, the staging and scratch memrefs, and the region invariant with the
   scratch accumulator owned as a memref. -/
import proofs.«181597_j77979426226450_2_alg».proof.Proof.Gen.KernelIdeal.Launch
import proofs.«181597_j77979426226450_2_alg».proof.Proof.Gen.KernelIdeal.Skeleton
import proofs.«181597_j77979426226450_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
-- the TensorCore's buffer contents when the region is entered: the parameter the region's half is stated at
variable (V : (c : Dev nD) → (b : Ref sig .tc) → Buf (Elt F) ((c : Thread nD τ).loc b))

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not, for any proof
    data whose array is `V`'s (`hA`) and whose body leaves the block in place (`hafter`): unfetched, the block
    index has not moved; the window is uncut and never idle. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, fetched there or not, for any proof
    data whose array is `V`'s (`hA`) and whose body leaves the block in place (`hafter`): unfetched, the block
    index has not moved; the window is uncut and never idle. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, fetched there or not, for any proof
    data whose array is `V`'s (`hA`) and whose body leaves the block in place (`hafter`): unfetched, the block
    index has not moved; the window is uncut and never idle. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's current staging buffer holds its block at every point, fetched there or not, for any proof
    data whose array is `V`'s (`hA`) and whose body leaves the block in place (`hafter`): unfetched, the block
    index has not moved; the window is uncut and never idle. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4's current staging buffer holds its block at every point, fetched there or not, for any proof
    data whose array is `V`'s (`hA`) and whose body leaves the block in place (`hafter`): unfetched, the block
    index has not moved; the window is uncut and never idle. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

end Region

/-! ## The body's branch conditions -/

/-- The condition of the body's first conditional (the reduction index is 0), from the grid coordinates. -/
abbrev cond3_0 (i : grid3.Coords) : Prop := (Scalar.cmpi .ne (Scalar.extui (Scalar.cmpi .eq (BitVec.ofNat 32 (i 1).val) 0#32)) 0#32) = 1#1
/-- It holds at the points ≡ 0 (mod 2) — decided over the grid. -/
theorem hcond3_0 : ∀ t : Fin cfg3.N, cond3_0 (grid3.coords t) ↔ t.val % 2 = 0 :=
  (by decide +kernel : ∀ t : Fin grid3.N, cond3_0 (grid3.coords t) ↔ t.val % 2 = 0)

/-- The condition of the body's second conditional (the reduction index is the last). -/
abbrev cond3_1 (i : grid3.Coords) : Prop := k3_cond2 i = 1#1
/-- It holds at the points ≡ 1 (mod 2) — decided over the grid. -/
theorem hcond3_1 : ∀ t : Fin cfg3.N, cond3_1 (grid3.coords t) ↔ t.val % 2 = 1 :=
  (by decide +kernel : ∀ t : Fin grid3.N, cond3_1 (grid3.coords t) ↔ t.val % 2 = 1)

/-! ## Where the windows are idle -/

/-- Window 0 is never idle (an input). -/
theorem liveAt3_0 : ∀ t : Fin cfg3.N, cfg3.idle 0 (grid3.coords t) = false := by decide +kernel
/-- Window 1 is never idle (an input). -/
theorem liveAt3_1 : ∀ t : Fin cfg3.N, cfg3.idle 1 (grid3.coords t) = false := by decide +kernel
/-- Window 2 is never idle (an input). -/
theorem liveAt3_2 : ∀ t : Fin cfg3.N, cfg3.idle 2 (grid3.coords t) = false := by decide +kernel
/-- Window 3 is never idle (an input). -/
theorem liveAt3_3 : ∀ t : Fin cfg3.N, cfg3.idle 3 (grid3.coords t) = false := by decide +kernel
/-- Window 4 is never idle (an input). -/
theorem liveAt3_4 : ∀ t : Fin cfg3.N, cfg3.idle 4 (grid3.coords t) = false := by decide +kernel
/-- At the points of case A (first conditional taken, second not) output 5 is idle: the case stores nothing into it. -/
theorem idleAt3_5_A : ∀ t : Fin cfg3.N, cond3_0 (grid3.coords t) → ¬cond3_1 (grid3.coords t) → cfg3.idle 5 (grid3.coords t) = true := by decide +kernel
/-- At the points of case A the pipeline does not write output 5's block back. -/
theorem noFlush3_5_A : ∀ t : Fin cfg3.N, cond3_0 (grid3.coords t) → ¬cond3_1 (grid3.coords t) → (cfg3.win 5).flush t = false := by decide +kernel
/-- At the points of case C (first conditional not taken, second taken) output 5 is live: the case stores into it. -/
theorem liveAt3_5_C : ∀ t : Fin cfg3.N, ¬cond3_0 (grid3.coords t) → cond3_1 (grid3.coords t) → cfg3.idle 5 (grid3.coords t) = false := by decide +kernel

/-! ## The staging and scratch memrefs -/

/-- One staging buffer of output window 5, through which its contents are stated (the choice does not matter). -/
abbrev VO3_5 : View sig .tc .vmem S1024x128 .f32 := (Memref.whole cc3_stg5_0 : Memref sig .tc .vmem S1024x128 .f32).view
/-- Each window's current staging memref at point `t`, spelled as the pipeline passes it, and its wholeness. -/
abbrev ms3_0 (t : Fin cfg3.N) : Memref sig .tc .vmem S1024x4096 .bf16 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S4096x128 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1024x128 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S128x128 .f32 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S1x128 .f32 := win3_4.stage (cfg3.slots t 4)
abbrev hs3_4 (t : Fin cfg3.N) : (ms3_4 t).IsWhole := hstage3_4 ((cfg3.slots t 4).cast nbuf3_4)
abbrev ms3_5 (t : Fin cfg3.N) : Memref sig .tc .vmem S1024x128 .f32 := win3_5.stage (cfg3.slots t 5)
abbrev hs3_5 (t : Fin cfg3.N) : (ms3_5 t).IsWhole := hstage3_5 ((cfg3.slots t 5).cast nbuf3_5)
/-- The scratch accumulator: a whole scoped buffer of the kernel's own, passed beside the windows. -/
abbrev scM3_0 : Memref sig .tc .vmem S1024x128 .f32 := Memref.whole cc3_scratch0
/-- The same as a view: what the accumulator holds between points is stated through it. -/
abbrev VS3_0 : View sig .tc .vmem S1024x128 .f32 := scM3_0.view

/-- The region invariant with the scratch accumulator as a memref owned at some contents, the other scoped buffers
    unopened, and the generator register at some state: what the body obligation hands the run and takes back. -/
theorem PhiA3_eq (c : Dev nD) :
    (Pipeline.ΦA spec3 c : sProp 𝕄)
      = iprop(iprop(iprop((∃ d, owns (c : Thread nD τ) scM3_0 fullShare d))
          ∗ Pipeline.scopedRestBut (Ix := Unit) (Name := ℕ) (U := UR sig nD τ) (Lvl := ℕ) (Val := Elt F) spec3 c [cc3_scratch0]) ∗ (∃ r, prngReg c r)) := by
  unfold Pipeline.ΦA; rw [scopedRest3_split]; simp only [scM3_0, owns_whole]; try rfl

end Cert.KernelIdeal.Hand

end
-- ==== Proof.KI.Reg3RunA.lean ====
/- Region 3: the whole-body run of the kernel in case A (first conditional taken, second not: the reduction's first
   step). The pieces the scratch accumulator ends with are the witness the run finds. -/
import proofs.«181597_j77979426226450_2_alg».proof.Proof.KI.Reg3Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in the output's staging memref and in the scratch accumulator, as pieces (last first), in
    case A, with the proof that on whole staging memrefs — the inputs' at their contents, the output's (no store, the
    window idle and not written back at the case's points) at contents `xio` handed back untouched, the accumulator at
    anything — the body runs to the continuation holding the inputs' and the output's as they were and the accumulator
    with its pieces written: it is zeroed, then the product of the two input blocks is added. -/
noncomputable def kernelRun3_A (c : Dev nD) (i : grid3.Coords) (arg2 : Memref sig .tc .vmem S1024x4096 .bf16) (harg2 : arg2.IsWhole) (arg3 : Memref sig .tc .vmem S4096x128 .f32) (harg3 : arg3.IsWhole) (arg4 : Memref sig .tc .vmem S1024x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1024x128 .f32) (harg7 : arg7.IsWhole) (arg8 : Memref sig .tc .vmem S1024x128 .f32) (harg8 : arg8.IsWhole) (hcz : cond3_0 i) (hcl : ¬cond3_1 i)
    (xa : Vec F S1024x4096 .bf16) (xb : Vec F S4096x128 .f32) (xc : Vec F S1024x128 .f32) (xd : Vec F S128x128 .f32) (xe : Vec F S1x128 .f32) :
    Σ' (LO : List (View.Piece (Elt F) S1024x128 .f32)), { LS : List (View.Piece (Elt F) S1024x128 .f32) //
      ∀ (xio : Vec F S1024x128 .f32) (E : Set ℕ) (K : PUnit → sProp 𝕄),
        iprop(owns (c : Thread nD τ) arg2 fullShare xa ∗ owns (c : Thread nD τ) arg3 fullShare xb ∗ owns (c : Thread nD τ) arg4 fullShare xc ∗ owns (c : Thread nD τ) arg5 fullShare xd ∗ owns (c : Thread nD τ) arg6 fullShare xe ∗ owns (c : Thread nD τ) arg7 fullShare xio ∗ (∃ d, owns (c : Thread nD τ) arg8 fullShare d)
            ∗ (iprop(owns (c : Thread nD τ) arg2 fullShare xa ∗ owns (c : Thread nD τ) arg3 fullShare xb ∗ owns (c : Thread nD τ) arg4 fullShare xc ∗ owns (c : Thread nD τ) arg5 fullShare xd ∗ owns (c : Thread nD τ) arg6 fullShare xe ∗ owns (c : Thread nD τ) arg7 fullShare xio ∗ (∃ f, arg8.view.loc (c : Thread nD τ) ↦[arg8.view.set]{fullShare} arg8.view.writes (Elt F) f LS)) -∗ K ⟨⟩))
          ⊢ wp frame (wpE (defs₀ (F := F)) Variants.none c none) E (cc3__agg_residual_mlp_kernel i arg2 harg2 arg3 harg3 arg4 harg4 arg5 harg5 arg6 harg6 arg7 harg7 arg8 harg8) K } := by
  refine ⟨[], ?_, fun xio E K => ?run⟩
  case run =>
    simp only [cc3__agg_residual_mlp_kernel_eq_skeleton]; unfold cc3__agg_residual_mlp_kernel_skel
    unfold owns
    iintro ⟨⟨%fa, %hfa, Ha⟩, ⟨%fb, %hfb, Hb⟩, ⟨%fc, %hfc, Hc⟩, ⟨%fd, %hfd, Hd⟩, ⟨%fe, %hfe, He⟩, ⟨%fo, %hfo, Ho⟩, ⟨%ds, %fs, -, Hs⟩, Hk⟩
    obtain rfl := harg2.eq_unread hfa; obtain rfl := harg3.eq_unread hfb; obtain rfl := harg4.eq_unread hfc
    obtain rfl := harg5.eq_unread hfd; obtain rfl := harg6.eq_unread hfe; obtain rfl := harg7.eq_unread hfo
    sl_exec (disch := first | exact hcz | exact hcl)
    sl_step
    iapply Hk
    isplitl [Ha]
    · iexists _; isplitr; · ipureintro; exact harg2.read_unread _
      iexact Ha
    isplitl [Hb]
    · iexists _; isplitr; · ipureintro; exact harg3.read_unread _
      iexact Hb
    isplitl [Hc]
    · iexists _; isplitr; · ipureintro; exact harg4.read_unread _
      iexact Hc
    isplitl [Hd]
    · iexists _; isplitr; · ipureintro; exact harg5.read_unread _
      iexact Hd
    isplitl [He]
    · iexists _; isplitr; · ipureintro; exact harg6.read_unread _
      iexact He
    isplitl [Ho]
    · iexists _; isplitr; · ipureintro; exact harg7.read_unread _
      iexact Ho
    iexists _; iexact Hs

end Cert.KernelIdeal.Hand

end
-- ==== Proof.KI.Reg3RunC.lean ====
/- Region 3: the whole-body run of the kernel in case C (first conditional not taken, second taken: the reduction's
   last step). The pieces the output's staging memref and the scratch accumulator end with are the witness the run
   finds. -/
import proofs.«181597_j77979426226450_2_alg».proof.Proof.KI.Reg3RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in the output's staging memref and in the scratch accumulator, as pieces (last first), in
    case C, with the proof that on whole staging memrefs — the inputs' at their contents, the output's at anything, the
    accumulator at the contents `xs` the point before left — the body runs to the continuation holding the inputs' as
    they were and the output's and the accumulator's with their pieces written: the product of the two input blocks is
    added to the accumulator, and the output is the residual layer applied to the sum. -/
noncomputable def kernelRun3_C (c : Dev nD) (i : grid3.Coords) (arg2 : Memref sig .tc .vmem S1024x4096 .bf16) (harg2 : arg2.IsWhole) (arg3 : Memref sig .tc .vmem S4096x128 .f32) (harg3 : arg3.IsWhole) (arg4 : Memref sig .tc .vmem S1024x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1024x128 .f32) (harg7 : arg7.IsWhole) (arg8 : Memref sig .tc .vmem S1024x128 .f32) (harg8 : arg8.IsWhole) (hcz : ¬cond3_0 i) (hcl : cond3_1 i)
    (xa : Vec F S1024x4096 .bf16) (xb : Vec F S4096x128 .f32) (xc : Vec F S1024x128 .f32) (xd : Vec F S128x128 .f32) (xe : Vec F S1x128 .f32) (xs : Vec F S1024x128 .f32) :
    Σ' (LO : List (View.Piece (Elt F) S1024x128 .f32)), { LS : List (View.Piece (Elt F) S1024x128 .f32) //
      ∀ (E : Set ℕ) (K : PUnit → sProp 𝕄),
        iprop(owns (c : Thread nD τ) arg2 fullShare xa ∗ owns (c : Thread nD τ) arg3 fullShare xb ∗ owns (c : Thread nD τ) arg4 fullShare xc ∗ owns (c : Thread nD τ) arg5 fullShare xd ∗ owns (c : Thread nD τ) arg6 fullShare xe ∗ (∃ d, owns (c : Thread nD τ) arg7 fullShare d) ∗ owns (c : Thread nD τ) arg8 fullShare xs
            ∗ (iprop(owns (c : Thread nD τ) arg2 fullShare xa ∗ owns (c : Thread nD τ) arg3 fullShare xb ∗ owns (c : Thread nD τ) arg4 fullShare xc ∗ owns (c : Thread nD τ) arg5 fullShare xd ∗ owns (c : Thread nD τ) arg6 fullShare xe ∗ (∃ f, arg7.view.loc (c : Thread nD τ) ↦[arg7.view.set]{fullShare} arg7.view.writes (Elt F) f LO) ∗ (∃ f, arg8.view.loc (c : Thread nD τ) ↦[arg8.view.set]{fullShare} arg8.view.writes (Elt F) f LS)) -∗ K ⟨⟩))
          ⊢ wp frame (wpE (defs₀ (F := F)) Variants.none c none) E (cc3__agg_residual_mlp_kernel i arg2 harg2 arg3 harg3 arg4 harg4 arg5 harg5 arg6 harg6 arg7 harg7 arg8 harg8) K } := by
  refine ⟨?_, ?_, fun E K => ?run⟩
  case run =>
    simp only [cc3__agg_residual_mlp_kernel_eq_skeleton]; unfold cc3__agg_residual_mlp_kernel_skel
    unfold owns
    iintro ⟨⟨%fa, %hfa, Ha⟩, ⟨%fb, %hfb, Hb⟩, ⟨%fc, %hfc, Hc⟩, ⟨%fd, %hfd, Hd⟩, ⟨%fe, %hfe, He⟩, ⟨%dout, %fo, -, Ho⟩, ⟨%fs, %hfs, Hs⟩, Hk⟩
    obtain rfl := harg2.eq_unread hfa; obtain rfl := harg3.eq_unread hfb; obtain rfl := harg4.eq_unread hfc
    obtain rfl := harg5.eq_unread hfd; obtain rfl := harg6.eq_unread hfe; obtain rfl := harg8.eq_unread hfs
    sl_exec (disch := first | exact hcz | exact hcl)
    sl_step
    iapply Hk
    isplitl [Ha]
    · iexists _; isplitr; · ipureintro; exact harg2.read_unread _
      iexact Ha
    isplitl [Hb]
    · iexists _; isplitr; · ipureintro; exact harg3.read_unread _
      iexact Hb
    isplitl [Hc]
    · iexists _; isplitr; · ipureintro; exact harg4.read_unread _
      iexact Hc
    isplitl [Hd]
    · iexists _; isplitr; · ipureintro; exact harg5.read_unread _
      iexact Hd
    isplitl [He]
    · iexists _; isplitr; · ipureintro; exact harg6.read_unread _
      iexact He
    isplitl [Ho]; · iexists _; iexact Ho
    iexists _; iexact Hs

end Cert.KernelIdeal.Hand

end
-- ==== Proof.KI.Reg3.lean ====
/- Region 3 (the aggregate-residual-MLP kernel, pipeline 1), the rest of its frame half: what the output's staging
   buffer and the scratch accumulator hold per case and point by point, the region invariant carrying the accumulator,
   the pipeline's proof data at the region-entry contents `V`, the body obligation at every point, and the invariant's
   entry and exit. -/
import proofs.«181597_j77979426226450_2_alg».proof.Proof.KI.Reg3RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Case A stores nothing into output 5 (the window is idle at its points and not written back there): no pieces — a
    placeholder that nothing consults, since at these points the window is neither written back nor read at the next. -/
def out3_A_5 (c : Dev nD) (i : grid3.Coords) (arg2 : Memref sig .tc .vmem S1024x4096 .bf16) (harg2 : arg2.IsWhole) (arg3 : Memref sig .tc .vmem S4096x128 .f32) (harg3 : arg3.IsWhole) (arg4 : Memref sig .tc .vmem S1024x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1024x128 .f32) (harg7 : arg7.IsWhole) (arg8 : Memref sig .tc .vmem S1024x128 .f32) (harg8 : arg8.IsWhole) (hcz : cond3_0 i) (hcl : ¬cond3_1 i)
    (xa : Vec F S1024x4096 .bf16) (xb : Vec F S4096x128 .f32) (xc : Vec F S1024x128 .f32) (xd : Vec F S128x128 .f32) (xe : Vec F S1x128 .f32) : Vec F S1024x128 .f32 :=
  VO3_5.read (Elt F) (VO3_5.writes (Elt F) VO3_5.junk (kernelRun3_A c i arg2 harg2 arg3 harg3 arg4 harg4 arg5 harg5 arg6 harg6 arg7 harg7 arg8 harg8 hcz hcl xa xb xc xd xe).1)

/-- Case A's pieces for the scratch accumulator cover it: the zeroing store and the accumulating store each tile it. -/
theorem scover3_A_0 (c : Dev nD) (i : grid3.Coords) (arg2 : Memref sig .tc .vmem S1024x4096 .bf16) (harg2 : arg2.IsWhole) (arg3 : Memref sig .tc .vmem S4096x128 .f32) (harg3 : arg3.IsWhole) (arg4 : Memref sig .tc .vmem S1024x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1024x128 .f32) (harg7 : arg7.IsWhole) (arg8 : Memref sig .tc .vmem S1024x128 .f32) (harg8 : arg8.IsWhole) (hcz : cond3_0 i) (hcl : ¬cond3_1 i)
    (xa : Vec F S1024x4096 .bf16) (xb : Vec F S4096x128 .f32) (xc : Vec F S1024x128 .f32) (xd : Vec F S128x128 .f32) (xe : Vec F S1x128 .f32) (y : S1024x128.Idx) :
    ∃ pc ∈ (kernelRun3_A c i arg2 harg2 arg3 harg3 arg4 harg4 arg5 harg5 arg6 harg6 arg7 harg7 arg8 harg8 hcz hcl xa xb xc xd xe).2.1, y ∈ pc.1.set :=
  View.cover_of_tiledL (kernelRun3_A c i arg2 harg2 arg3 harg3 arg4 harg4 arg5 harg5 arg6 harg6 arg7 harg7 arg8 harg8 hcz hcl xa xb xc xd xe).2.1 S1024x128.size (by sl_kernel_rfl) y

/-- What case A leaves in the scratch accumulator: its pieces read back over junk. -/
def sout3_A_0 (c : Dev nD) (i : grid3.Coords) (arg2 : Memref sig .tc .vmem S1024x4096 .bf16) (harg2 : arg2.IsWhole) (arg3 : Memref sig .tc .vmem S4096x128 .f32) (harg3 : arg3.IsWhole) (arg4 : Memref sig .tc .vmem S1024x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1024x128 .f32) (harg7 : arg7.IsWhole) (arg8 : Memref sig .tc .vmem S1024x128 .f32) (harg8 : arg8.IsWhole) (hcz : cond3_0 i) (hcl : ¬cond3_1 i)
    (xa : Vec F S1024x4096 .bf16) (xb : Vec F S4096x128 .f32) (xc : Vec F S1024x128 .f32) (xd : Vec F S128x128 .f32) (xe : Vec F S1x128 .f32) : Vec F S1024x128 .f32 :=
  VS3_0.read (Elt F) (VS3_0.writes (Elt F) VS3_0.junk (kernelRun3_A c i arg2 harg2 arg3 harg3 arg4 harg4 arg5 harg5 arg6 harg6 arg7 harg7 arg8 harg8 hcz hcl xa xb xc xd xe).2.1)

/-- Case C's pieces for output 5 tile its block (one store of the whole block), so they cover it. -/
theorem cover3_C_5 (c : Dev nD) (i : grid3.Coords) (arg2 : Memref sig .tc .vmem S1024x4096 .bf16) (harg2 : arg2.IsWhole) (arg3 : Memref sig .tc .vmem S4096x128 .f32) (harg3 : arg3.IsWhole) (arg4 : Memref sig .tc .vmem S1024x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1024x128 .f32) (harg7 : arg7.IsWhole) (arg8 : Memref sig .tc .vmem S1024x128 .f32) (harg8 : arg8.IsWhole) (hcz : ¬cond3_0 i) (hcl : cond3_1 i)
    (xa : Vec F S1024x4096 .bf16) (xb : Vec F S4096x128 .f32) (xc : Vec F S1024x128 .f32) (xd : Vec F S128x128 .f32) (xe : Vec F S1x128 .f32) (xs : Vec F S1024x128 .f32) (y : S1024x128.Idx) :
    ∃ pc ∈ (kernelRun3_C c i arg2 harg2 arg3 harg3 arg4 harg4 arg5 harg5 arg6 harg6 arg7 harg7 arg8 harg8 hcz hcl xa xb xc xd xe xs).1, y ∈ pc.1.set :=
  View.cover_of_tiledL (kernelRun3_C c i arg2 harg2 arg3 harg3 arg4 harg4 arg5 harg5 arg6 harg6 arg7 harg7 arg8 harg8 hcz hcl xa xb xc xd xe xs).1 S1024x128.size (by sl_kernel_rfl) y

/-- What case C leaves in output 5's staging buffer: its pieces read back over junk. -/
def out3_C_5 (c : Dev nD) (i : grid3.Coords) (arg2 : Memref sig .tc .vmem S1024x4096 .bf16) (harg2 : arg2.IsWhole) (arg3 : Memref sig .tc .vmem S4096x128 .f32) (harg3 : arg3.IsWhole) (arg4 : Memref sig .tc .vmem S1024x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1024x128 .f32) (harg7 : arg7.IsWhole) (arg8 : Memref sig .tc .vmem S1024x128 .f32) (harg8 : arg8.IsWhole) (hcz : ¬cond3_0 i) (hcl : cond3_1 i)
    (xa : Vec F S1024x4096 .bf16) (xb : Vec F S4096x128 .f32) (xc : Vec F S1024x128 .f32) (xd : Vec F S128x128 .f32) (xe : Vec F S1x128 .f32) (xs : Vec F S1024x128 .f32) : Vec F S1024x128 .f32 :=
  VO3_5.read (Elt F) (VO3_5.writes (Elt F) VO3_5.junk (kernelRun3_C c i arg2 harg2 arg3 harg3 arg4 harg4 arg5 harg5 arg6 harg6 arg7 harg7 arg8 harg8 hcz hcl xa xb xc xd xe xs).1)

/-- Case C's pieces for the scratch accumulator cover it: one store of the whole buffer. -/
theorem scover3_C_0 (c : Dev nD) (i : grid3.Coords) (arg2 : Memref sig .tc .vmem S1024x4096 .bf16) (harg2 : arg2.IsWhole) (arg3 : Memref sig .tc .vmem S4096x128 .f32) (harg3 : arg3.IsWhole) (arg4 : Memref sig .tc .vmem S1024x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1024x128 .f32) (harg7 : arg7.IsWhole) (arg8 : Memref sig .tc .vmem S1024x128 .f32) (harg8 : arg8.IsWhole) (hcz : ¬cond3_0 i) (hcl : cond3_1 i)
    (xa : Vec F S1024x4096 .bf16) (xb : Vec F S4096x128 .f32) (xc : Vec F S1024x128 .f32) (xd : Vec F S128x128 .f32) (xe : Vec F S1x128 .f32) (xs : Vec F S1024x128 .f32) (y : S1024x128.Idx) :
    ∃ pc ∈ (kernelRun3_C c i arg2 harg2 arg3 harg3 arg4 harg4 arg5 harg5 arg6 harg6 arg7 harg7 arg8 harg8 hcz hcl xa xb xc xd xe xs).2.1, y ∈ pc.1.set :=
  View.cover_of_tiledL (kernelRun3_C c i arg2 harg2 arg3 harg3 arg4 harg4 arg5 harg5 arg6 harg6 arg7 harg7 arg8 harg8 hcz hcl xa xb xc xd xe xs).2.1 S1024x128.size (by sl_kernel_rfl) y

/-- What case C leaves in the scratch accumulator: its pieces read back over junk. -/
def sout3_C_0 (c : Dev nD) (i : grid3.Coords) (arg2 : Memref sig .tc .vmem S1024x4096 .bf16) (harg2 : arg2.IsWhole) (arg3 : Memref sig .tc .vmem S4096x128 .f32) (harg3 : arg3.IsWhole) (arg4 : Memref sig .tc .vmem S1024x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1024x128 .f32) (harg7 : arg7.IsWhole) (arg8 : Memref sig .tc .vmem S1024x128 .f32) (harg8 : arg8.IsWhole) (hcz : ¬cond3_0 i) (hcl : cond3_1 i)
    (xa : Vec F S1024x4096 .bf16) (xb : Vec F S4096x128 .f32) (xc : Vec F S1024x128 .f32) (xd : Vec F S128x128 .f32) (xe : Vec F S1x128 .f32) (xs : Vec F S1024x128 .f32) : Vec F S1024x128 .f32 :=
  VS3_0.read (Elt F) (VS3_0.writes (Elt F) VS3_0.junk (kernelRun3_C c i arg2 harg2 arg3 harg3 arg4 harg4 arg5 harg5 arg6 harg6 arg7 harg7 arg8 harg8 hcz hcl xa xb xc xd xe xs).2.1)

section Region
-- the TensorCore's buffer contents when the region is entered
variable (V : (c : Dev nD) → (b : Ref sig .tc) → Buf (Elt F) ((c : Thread nD τ).loc b))

/-! ## What the output and the accumulator hold after each point -/

/-- The accumulation. What output 5's staging buffer and the scratch accumulator hold after the body at position `n` (a
    pair: the output, then the accumulator): the case the closed forms select at `n`, run at the point's memrefs and input
    blocks, the accumulator in case C at what this leaves at `n - 1`. The two conditions partition the points, so the
    other two assignments are no case. -/
def outsAt3 (c : Dev nD) : (n : ℕ) → n < cfg3.N → Vec F S1024x128 .f32 × Vec F S1024x128 .f32
  | 0, hn => (out3_A_5 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) (ms3_5 ⟨0, hn⟩) (hs3_5 ⟨0, hn⟩) scM3_0 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩) (iblk3 V c 2 ⟨0, hn⟩) (iblk3 V c 3 ⟨0, hn⟩) (iblk3 V c 4 ⟨0, hn⟩), sout3_A_0 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) (ms3_5 ⟨0, hn⟩) (hs3_5 ⟨0, hn⟩) scM3_0 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩) (iblk3 V c 2 ⟨0, hn⟩) (iblk3 V c 3 ⟨0, hn⟩) (iblk3 V c 4 ⟨0, hn⟩))
  | n + 1, hn =>
    if hz : (n + 1) % 2 = 0 then
      if hl : (n + 1) % 2 = 1 then
        False.elim (by omega)
      else
        (out3_A_5 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) scM3_0 (Memref.isWhole_whole _) ((hcond3_0 ⟨n + 1, hn⟩).mpr hz) (fun h => hl ((hcond3_1 ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩), sout3_A_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) scM3_0 (Memref.isWhole_whole _) ((hcond3_0 ⟨n + 1, hn⟩).mpr hz) (fun h => hl ((hcond3_1 ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩))
    else
      if hl : (n + 1) % 2 = 1 then
        (out3_C_5 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) scM3_0 (Memref.isWhole_whole _) (fun h => hz ((hcond3_0 ⟨n + 1, hn⟩).mp h)) ((hcond3_1 ⟨n + 1, hn⟩).mpr hl) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (outsAt3 c n (Nat.lt_of_succ_lt hn)).2, sout3_C_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) scM3_0 (Memref.isWhole_whole _) (fun h => hz ((hcond3_0 ⟨n + 1, hn⟩).mp h)) ((hcond3_1 ⟨n + 1, hn⟩).mpr hl) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (outsAt3 c n (Nat.lt_of_succ_lt hn)).2)
      else
        False.elim (by omega)

/-- `outsAt3` at a point of case A: that case's contents. -/
theorem outsAt3_A (c : Dev nD) (t : Fin cfg3.N) (hz : t.val % 2 = 0) (hl : ¬t.val % 2 = 1) :
    outsAt3 V c t.val t.isLt = (out3_A_5 c (grid3.coords t) (ms3_0 t) (hs3_0 t) (ms3_1 t) (hs3_1 t) (ms3_2 t) (hs3_2 t) (ms3_3 t) (hs3_3 t) (ms3_4 t) (hs3_4 t) (ms3_5 t) (hs3_5 t) scM3_0 (Memref.isWhole_whole _) ((hcond3_0 t).mpr hz) (fun h => hl ((hcond3_1 t).mp h)) (iblk3 V c 0 t) (iblk3 V c 1 t) (iblk3 V c 2 t) (iblk3 V c 3 t) (iblk3 V c 4 t), sout3_A_0 c (grid3.coords t) (ms3_0 t) (hs3_0 t) (ms3_1 t) (hs3_1 t) (ms3_2 t) (hs3_2 t) (ms3_3 t) (hs3_3 t) (ms3_4 t) (hs3_4 t) (ms3_5 t) (hs3_5 t) scM3_0 (Memref.isWhole_whole _) ((hcond3_0 t).mpr hz) (fun h => hl ((hcond3_1 t).mp h)) (iblk3 V c 0 t) (iblk3 V c 1 t) (iblk3 V c 2 t) (iblk3 V c 3 t) (iblk3 V c 4 t)) := by
  obtain ⟨n, hn⟩ := t
  cases n with
  | zero => exact rfl
  | succ n => exact (dif_pos hz).trans ((dif_neg hl).trans rfl)

/-- `outsAt3` at a point of case C: that case's contents, over what the point before left in the accumulator. -/
theorem outsAt3_C (c : Dev nD) (t : Fin cfg3.N) (hz : ¬t.val % 2 = 0) (hl : t.val % 2 = 1) :
    outsAt3 V c t.val t.isLt = (out3_C_5 c (grid3.coords t) (ms3_0 t) (hs3_0 t) (ms3_1 t) (hs3_1 t) (ms3_2 t) (hs3_2 t) (ms3_3 t) (hs3_3 t) (ms3_4 t) (hs3_4 t) (ms3_5 t) (hs3_5 t) scM3_0 (Memref.isWhole_whole _) (fun h => hz ((hcond3_0 t).mp h)) ((hcond3_1 t).mpr hl) (iblk3 V c 0 t) (iblk3 V c 1 t) (iblk3 V c 2 t) (iblk3 V c 3 t) (iblk3 V c 4 t) (outsAt3 V c (t.val - 1) (Nat.lt_of_le_of_lt (Nat.sub_le _ _) t.isLt)).2, sout3_C_0 c (grid3.coords t) (ms3_0 t) (hs3_0 t) (ms3_1 t) (hs3_1 t) (ms3_2 t) (hs3_2 t) (ms3_3 t) (hs3_3 t) (ms3_4 t) (hs3_4 t) (ms3_5 t) (hs3_5 t) scM3_0 (Memref.isWhole_whole _) (fun h => hz ((hcond3_0 t).mp h)) ((hcond3_1 t).mpr hl) (iblk3 V c 0 t) (iblk3 V c 1 t) (iblk3 V c 2 t) (iblk3 V c 3 t) (iblk3 V c 4 t) (outsAt3 V c (t.val - 1) (Nat.lt_of_le_of_lt (Nat.sub_le _ _) t.isLt)).2) := by
  obtain ⟨n, hn⟩ := t
  cases n with
  | zero => exact (by exfalso; (try dsimp only at hz); exact absurd (Nat.zero_mod _) hz)
  | succ n => exact (dif_neg hz).trans ((dif_pos hl).trans rfl)

/-- The region invariant before position `n`, the kernel carrying its accumulator between points: before the first point
    the scoped rest with every scratch at anything; afterwards the accumulator at what the point before left in it
    (`outsAt3`'s second component), the other scoped buffers unopened, and the generator register at some state. -/
def PhiS3 (c : Dev nD) : (n : ℕ) → n ≤ cfg3.N → sProp 𝕄
  | 0, _ => Pipeline.ΦA spec3 c
  | n + 1, hn => iprop(iprop(owns (c : Thread nD τ) scM3_0 fullShare ((outsAt3 V c n hn).2) ∗ Pipeline.scopedRestBut (Ix := Unit) (Name := ℕ) (U := UR sig nD τ) (Lvl := ℕ) (Val := Elt F) spec3 c [cc3_scratch0]) ∗ (∃ r, prngReg c r))

theorem PhiS3_zero (c : Dev nD) (n : ℕ) (h : n ≤ cfg3.N) (hzero : n = 0) : PhiS3 V c n h = Pipeline.ΦA spec3 c := by
  subst hzero; rfl

/-- After point `n` (before point `n + 1`): the accumulator at that point's contents. -/
theorem PhiS3_succ (c : Dev nD) (n : ℕ) (hn : n < cfg3.N) :
    PhiS3 V c (n + 1) hn = iprop(iprop(owns (c : Thread nD τ) scM3_0 fullShare ((outsAt3 V c n hn).2) ∗ Pipeline.scopedRestBut (Ix := Unit) (Name := ℕ) (U := UR sig nD τ) (Lvl := ℕ) (Val := Elt F) spec3 c [cc3_scratch0]) ∗ (∃ r, prngReg c r)) := rfl

/-- Before a point that is not the first: the accumulator at what the point before left. -/
theorem PhiS3_pos (c : Dev nD) (n : ℕ) (h : n ≤ cfg3.N) (hzero : n ≠ 0) :
    PhiS3 V c n h = iprop(iprop(owns (c : Thread nD τ) scM3_0 fullShare ((outsAt3 V c (n - 1) (by omega)).2) ∗ Pipeline.scopedRestBut (Ix := Unit) (Name := ℕ) (U := UR sig nD τ) (Lvl := ℕ) (Val := Elt F) spec3 c [cc3_scratch0]) ∗ (∃ r, prngReg c r)) := by
  cases n with
  | zero => exact absurd rfl hzero
  | succ n => rfl

/-! ## The pipeline's proof data -/

/-- The proof data of pipeline 1 on core `c`: the arrays as the region finds them (`V`); after the body at point `t` each
    input's buffer at its block and the output's at `outsAt3`'s first component; the invariant `PhiS3`; nothing owed; full
    shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => (outsAt3 V c t.val t.isLt).1
  Φ t := PhiS3 V c t.val (Nat.le_of_lt_succ t.isLt)
  q _ := fullShare
  owed _ := 0

/-- The proof data's arrays are the region-entry contents (the definition projected, `V` never unfolded). -/
theorem A_eq3 (c : Dev nD) (w : Fin cfg3.W) : (dat3 V c).A w = V c (Pipeline.arrRef spec3 w) := by
  dsimp only [dat3]

/-- The invariant at a point's start (the proof data at `t.castSucc`), restated at `t.val`. -/
theorem PhiS3_castSucc (c : Dev nD) (t : Fin cfg3.N) :
    (dat3 V c).Φ t.castSucc = PhiS3 V c t.val (Nat.le_of_lt t.isLt) := by
  dsimp only [dat3]; simp only [Fin.coe_castSucc]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = (outsAt3 V c t.val t.isLt).1 := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-! ## The body obligation, at a generic point -/

/-- What the body is called with at point `t` (the windows one by one), -/
def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d))
    ∗ (∃ d, owns (c : Thread nD τ) (ms3_4 t) fullShare ((dat3 V c).before 4 t d))
    ∗ (∃ d, owns (c : Thread nD τ) (ms3_5 t) fullShare ((dat3 V c).before 5 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t
    ∗ (dat3 V c).leavesExact 5 t)

set_option maxHeartbeats 4800000 in
/-- The body at any point: the inputs' memrefs hold their blocks; the closed forms say which case the point is in; the
    invariant hands the body the accumulator at what the point before left (at anything at the first point), the other
    scoped buffers and the generator register pass through, and it takes the accumulator back at this point's contents;
    in case A the output's buffer is handed back as found, in case C at its covering store; the core owes nothing
    throughout. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).owesAt () t.succ = (dat3 V c).owesAt () t.castSucc from rfl]
  rw [show (dat3 V c).Φ t.succ = PhiS3 V c (t.val + 1) t.isLt from rfl, PhiS3_succ]
  have hN : t.val < 8 := lt_of_lt_of_eq t.isLt (show cfg3.N = 8 from N_3)
  by_cases hz : t.val % 2 = 0
  · have hl : ¬t.val % 2 = 1 := by omega
    rw [show (dat3 V c).leavesExact 0 t = owns (c : Thread nD τ) (ms3_0 t) fullShare ((dat3 V c).after 0 t) from by
      unfold Dat.leavesExact; rw [liveAt3_0 t], after3_0]
    rw [show (dat3 V c).leavesExact 1 t = owns (c : Thread nD τ) (ms3_1 t) fullShare ((dat3 V c).after 1 t) from by
      unfold Dat.leavesExact; rw [liveAt3_1 t], after3_1]
    rw [show (dat3 V c).leavesExact 2 t = owns (c : Thread nD τ) (ms3_2 t) fullShare ((dat3 V c).after 2 t) from by
      unfold Dat.leavesExact; rw [liveAt3_2 t], after3_2]
    rw [show (dat3 V c).leavesExact 3 t = owns (c : Thread nD τ) (ms3_3 t) fullShare ((dat3 V c).after 3 t) from by
      unfold Dat.leavesExact; rw [liveAt3_3 t], after3_3]
    rw [show (dat3 V c).leavesExact 4 t = owns (c : Thread nD τ) (ms3_4 t) fullShare ((dat3 V c).after 4 t) from by
      unfold Dat.leavesExact; rw [liveAt3_4 t], after3_4]
    rw [Dat.leavesExact_idle (dat3 V c) 5 t (idleAt3_5_A t ((hcond3_0 t).mpr hz) (fun h => hl ((hcond3_1 t).mp h))) (noFlush3_5_A t ((hcond3_0 t).mpr hz) (fun h => hl ((hcond3_1 t).mp h)))]
    rw [outsAt3_A V c t hz hl]
    unfold sout3_A_0; (try dsimp only)
    by_cases hzero : t.val = 0
    ·
      rw [PhiS3_castSucc V c t, PhiS3_zero V c _ _ hzero, PhiA3_eq]
      iintro ⟨⟨⟨Hs, Hr⟩, Hg⟩, Hw, ⟨%da, Ha⟩, ⟨%db, Hb⟩, ⟨%dc, Hc⟩, ⟨%dd, Hd⟩, ⟨%de, He⟩, ⟨%dq, Ho⟩⟩
      iapply ((kernelRun3_A c (grid3.coords t) _ _ _ _ _ _ _ _ _ _ _ _ _ _ ((hcond3_0 t).mpr hz) (fun h => hl ((hcond3_1 t).mp h)) (iblk3 V c 0 t) (iblk3 V c 1 t) (iblk3 V c 2 t) (iblk3 V c 3 t) (iblk3 V c 4 t)).2.2 _ Set.univ _)
      isplitl [Ha]; · iexact Ha
      isplitl [Hb]; · iexact Hb
      isplitl [Hc]; · iexact Hc
      isplitl [Hd]; · iexact Hd
      isplitl [He]; · iexact He
      isplitl [Ho]; · iexact Ho
      isplitl [Hs]; · iexact Hs
      iintro ⟨Ha, Hb, Hc, Hd, He, Ho, ⟨%es, Hs⟩⟩
      isplitl [Hs Hr Hg]
      · isplitl [Hs Hr]
        · isplitl [Hs]
          · unfold owns; iexists _; isplitr
            swap; · iexact Hs
            ipureintro; exact View.read_writes_of_cover _ _ _ _ _ (scover3_A_0 c _ _ _ _ _ _ _ _ _ _ _ _ _ _ _ _ _ _ _ _ _ _)
          iexact Hr
        iexact Hg
      isplitl [Hw]; · iexact Hw
      isplitl [Ha]; · iexact Ha
      isplitl [Hb]; · iexact Hb
      isplitl [Hc]; · iexact Hc
      isplitl [Hd]; · iexact Hd
      isplitl [He]; · iexact He
      iexists _; iexact Ho
    ·
      rw [PhiS3_castSucc V c t, PhiS3_pos V c _ _ hzero]
      iintro ⟨⟨⟨Hs, Hr⟩, Hg⟩, Hw, ⟨%da, Ha⟩, ⟨%db, Hb⟩, ⟨%dc, Hc⟩, ⟨%dd, Hd⟩, ⟨%de, He⟩, ⟨%dq, Ho⟩⟩
      iapply ((kernelRun3_A c (grid3.coords t) _ _ _ _ _ _ _ _ _ _ _ _ _ _ ((hcond3_0 t).mpr hz) (fun h => hl ((hcond3_1 t).mp h)) (iblk3 V c 0 t) (iblk3 V c 1 t) (iblk3 V c 2 t) (iblk3 V c 3 t) (iblk3 V c 4 t)).2.2 _ Set.univ _)
      isplitl [Ha]; · iexact Ha
      isplitl [Hb]; · iexact Hb
      isplitl [Hc]; · iexact Hc
      isplitl [Hd]; · iexact Hd
      isplitl [He]; · iexact He
      isplitl [Ho]; · iexact Ho
      isplitl [Hs]; · iexists _; iexact Hs
      iintro ⟨Ha, Hb, Hc, Hd, He, Ho, ⟨%es, Hs⟩⟩
      isplitl [Hs Hr Hg]
      · isplitl [Hs Hr]
        · isplitl [Hs]
          · unfold owns; iexists _; isplitr
            swap; · iexact Hs
            ipureintro; exact View.read_writes_of_cover _ _ _ _ _ (scover3_A_0 c _ _ _ _ _ _ _ _ _ _ _ _ _ _ _ _ _ _ _ _ _ _)
          iexact Hr
        iexact Hg
      isplitl [Hw]; · iexact Hw
      isplitl [Ha]; · iexact Ha
      isplitl [Hb]; · iexact Hb
      isplitl [Hc]; · iexact Hc
      isplitl [Hd]; · iexact Hd
      isplitl [He]; · iexact He
      iexists _; iexact Ho
  · have hl : t.val % 2 = 1 := by omega
    rw [show (dat3 V c).leavesExact 0 t = owns (c : Thread nD τ) (ms3_0 t) fullShare ((dat3 V c).after 0 t) from by
      unfold Dat.leavesExact; rw [liveAt3_0 t], after3_0]
    rw [show (dat3 V c).leavesExact 1 t = owns (c : Thread nD τ) (ms3_1 t) fullShare ((dat3 V c).after 1 t) from by
      unfold Dat.leavesExact; rw [liveAt3_1 t], after3_1]
    rw [show (dat3 V c).leavesExact 2 t = owns (c : Thread nD τ) (ms3_2 t) fullShare ((dat3 V c).after 2 t) from by
      unfold Dat.leavesExact; rw [liveAt3_2 t], after3_2]
    rw [show (dat3 V c).leavesExact 3 t = owns (c : Thread nD τ) (ms3_3 t) fullShare ((dat3 V c).after 3 t) from by
      unfold Dat.leavesExact; rw [liveAt3_3 t], after3_3]
    rw [show (dat3 V c).leavesExact 4 t = owns (c : Thread nD τ) (ms3_4 t) fullShare ((dat3 V c).after 4 t) from by
      unfold Dat.leavesExact; rw [liveAt3_4 t], after3_4]
    rw [show (dat3 V c).leavesExact 5 t = owns (c : Thread nD τ) (ms3_5 t) fullShare ((dat3 V c).after 5 t) from by
      unfold Dat.leavesExact; rw [liveAt3_5_C t (fun h => hz ((hcond3_0 t).mp h)) ((hcond3_1 t).mpr hl)], after3_5]
    rw [outsAt3_C V c t hz hl]
    unfold out3_C_5 sout3_C_0; (try dsimp only)
    have hzero : t.val ≠ 0 := by omega
    · rw [PhiS3_castSucc V c t, PhiS3_pos V c _ _ hzero]
      iintro ⟨⟨⟨Hs, Hr⟩, Hg⟩, Hw, ⟨%da, Ha⟩, ⟨%db, Hb⟩, ⟨%dc, Hc⟩, ⟨%dd, Hd⟩, ⟨%de, He⟩, ⟨%dq, Ho⟩⟩
      iapply ((kernelRun3_C c (grid3.coords t) _ _ _ _ _ _ _ _ _ _ _ _ _ _ (fun h => hz ((hcond3_0 t).mp h)) ((hcond3_1 t).mpr hl) (iblk3 V c 0 t) (iblk3 V c 1 t) (iblk3 V c 2 t) (iblk3 V c 3 t) (iblk3 V c 4 t) _).2.2 Set.univ _)
      isplitl [Ha]; · iexact Ha
      isplitl [Hb]; · iexact Hb
      isplitl [Hc]; · iexact Hc
      isplitl [Hd]; · iexact Hd
      isplitl [He]; · iexact He
      isplitl [Ho]; · iexists _; iexact Ho
      isplitl [Hs]; · iexact Hs
      iintro ⟨Ha, Hb, Hc, Hd, He, ⟨%eo, Ho⟩, ⟨%es, Hs⟩⟩
      isplitl [Hs Hr Hg]
      · isplitl [Hs Hr]
        · isplitl [Hs]
          · unfold owns; iexists _; isplitr
            swap; · iexact Hs
            ipureintro; exact View.read_writes_of_cover _ _ _ _ _ (scover3_C_0 c _ _ _ _ _ _ _ _ _ _ _ _ _ _ _ _ _ _ _ _ _ _ _)
          iexact Hr
        iexact Hg
      isplitl [Hw]; · iexact Hw
      isplitl [Ha]; · iexact Ha
      isplitl [Hb]; · iexact Hb
      isplitl [Hc]; · iexact Hc
      isplitl [Hd]; · iexact Hd
      isplitl [He]; · iexact He
      unfold owns; iexists _; isplitr
      swap; · iexact Ho
      ipureintro; exact View.read_writes_of_cover _ _ _ _ _ (cover3_C_5 c _ _ _ _ _ _ _ _ _ _ _ _ _ _ _ _ _ _ _ _ _ _ _)

/-- The library's body obligation, at every point. -/
theorem body_obligation3 (c : Dev nD) : BodyObligation (dat3 (F := F) V c) (defs₀ (F := F)) Variants.none () Set.univ := fun t => by
  rw [bigSep_W3, bigSep_W3]
  exact sound_body3 V c t

/-- What the launch hands the region is the invariant before the first point. -/
theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

/-- After any point but the first the invariant gives the launch's back: the accumulator's named contents are forgotten. -/
theorem Phi_out3 (c : Dev nD) (t : Fin (cfg3.N + 1)) (ht : t.val ≠ 0) : (dat3 V c).Φ t ⊢ Pipeline.ΦA spec3 c := by
  rw [show (dat3 V c).Φ t = PhiS3 V c t.val (Nat.le_of_lt_succ t.isLt) from rfl, PhiS3_pos V c _ _ ht, PhiA3_eq]
  iintro ⟨⟨Hs, Hr⟩, Hg⟩
  isplitl [Hs Hr]
  · isplitl [Hs]
    · iexists _; iexact Hs
    iexact Hr
  iexact Hg

/-- The same after the last point. -/
theorem hout3 (c : Dev nD) : (dat3 V c).Φ (Fin.last cfg3.N) ⊢ Pipeline.ΦA spec3 c :=
  Phi_out3 V c _ (by rw [Fin.val_last]; have : cfg3.N = 8 := N_3; omega)

end Region

end Cert.KernelIdeal.Hand

end
-- ==== Proof.KI.Reg4Runs.lean ====
/-
  Region 4 (an edge update relu(he + vew2ᵀ·hv)), the definitions its two runs share.
  The grid is (i, k) with k of extent 2: point t has k = t mod 2. At k = 0 the accumulator is zeroed and the first
  half of the contraction added; at k = 1 the second half is added and the output block stored. Everything is stated
  at a parameter V, the TensorCore's buffer contents when the region is entered.
-/
import proofs.«181597_j77979426226450_2_alg».proof.Proof.Gen.KernelIdeal.Launch
import proofs.«181597_j77979426226450_2_alg».proof.Proof.Gen.KernelIdeal.Skeleton
import proofs.«181597_j77979426226450_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input window's current staging buffer holds its block at every point, fetched there or not: when it is not
    fetched its block index has not moved, so the block of the point before is this point's. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-! ## The body's two branch conditions, decided over the grid -/

/-- "k = 0": the accumulator is zeroed. -/
abbrev cond4_0 (i : grid4.Coords) : Prop := (Scalar.cmpi .ne (Scalar.extui (Scalar.cmpi .eq (BitVec.ofNat 32 (i 1).val) 0#32)) 0#32) = 1#1
theorem hcond4_0 : ∀ t : Fin cfg4.N, cond4_0 (grid4.coords t) ↔ t.val % 2 = 0 :=
  (by decide +kernel : ∀ t : Fin grid4.N, cond4_0 (grid4.coords t) ↔ t.val % 2 = 0)
/-- "k = 1", the last step: the output block is stored. -/
abbrev cond4_1 (i : grid4.Coords) : Prop := k4_cond2 i = 1#1
theorem hcond4_1 : ∀ t : Fin cfg4.N, cond4_1 (grid4.coords t) ↔ t.val % 2 = 1 :=
  (by decide +kernel : ∀ t : Fin grid4.N, cond4_1 (grid4.coords t) ↔ t.val % 2 = 1)

/-! ## Where the output window is idle -/

theorem liveAt4_0 : ∀ t : Fin cfg4.N, cfg4.idle 0 (grid4.coords t) = false := by decide +kernel
theorem liveAt4_1 : ∀ t : Fin cfg4.N, cfg4.idle 1 (grid4.coords t) = false := by decide +kernel
theorem liveAt4_2 : ∀ t : Fin cfg4.N, cfg4.idle 2 (grid4.coords t) = false := by decide +kernel
/-- At k = 0 nothing is stored into the output's buffer, and its block is not written back. -/
theorem idleAt4_3_A : ∀ t : Fin cfg4.N, cond4_0 (grid4.coords t) → ¬cond4_1 (grid4.coords t) → cfg4.idle 3 (grid4.coords t) = true := by decide +kernel
theorem noFlush4_3_A : ∀ t : Fin cfg4.N, cond4_0 (grid4.coords t) → ¬cond4_1 (grid4.coords t) → (cfg4.win 3).flush t = false := by decide +kernel
/-- At k = 1 it is stored. -/
theorem liveAt4_3_C : ∀ t : Fin cfg4.N, ¬cond4_0 (grid4.coords t) → cond4_1 (grid4.coords t) → cfg4.idle 3 (grid4.coords t) = false := by decide +kernel

/-! ## The memrefs the body is called with -/

/-- One staging buffer of the output window, through which its contents are stated. -/
abbrev VO4_3 : View sig .tc .vmem S1024x128 .f32 := (Memref.whole cc4_stg3_0 : Memref sig .tc .vmem S1024x128 .f32).view
abbrev ms4_0 (t : Fin cfg4.N) : Memref sig .tc .vmem S2048x1024 .bf16 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S2048x128 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S1024x128 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S1024x128 .f32 := win4_3.stage (cfg4.slots t 3)
abbrev hs4_3 (t : Fin cfg4.N) : (ms4_3 t).IsWhole := hstage4_3 ((cfg4.slots t 3).cast nbuf4_3)
/-- The accumulator: a whole scoped buffer of the kernel's own. -/
abbrev scM4_0 : Memref sig .tc .vmem S1024x128 .f32 := Memref.whole cc4_scratch0
abbrev VS4_0 : View sig .tc .vmem S1024x128 .f32 := scM4_0.view

/-- What the region may use and need not describe, with the accumulator split out: the accumulator at some contents,
    every other scoped buffer unopened, the generator register at some state. -/
theorem PhiA4_eq (c : Dev nD) :
    (Pipeline.ΦA spec4 c : sProp 𝕄)
      = iprop(iprop((∃ d, owns (c : Thread nD τ) scM4_0 fullShare d)
          ∗ Pipeline.scopedRestBut (Ix := Unit) (Name := ℕ) (U := UR sig nD τ) (Lvl := ℕ) (Val := Elt F) spec4 c [cc4_scratch0]) ∗ (∃ r, prngReg c r)) := by
  unfold Pipeline.ΦA; rw [scopedRest4_split]; simp only [scM4_0, owns_whole]; try rfl

end Cert.KernelIdeal.Hand

end
-- ==== Proof.KI.Reg4RunA.lean ====
/-
  Region 4, the body at k = 0: the accumulator is zeroed, the first half of the contraction (the one-hot block against
  the feature block and against its rounding remainder) is added to it, and nothing is stored into the output's buffer.
-/
import proofs.«181597_j77979426226450_2_alg».proof.Proof.KI.Reg4Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's stores leave in the accumulator at k = 0 (last first), with the proof that on whole staging
    memrefs — the three inputs at their contents, the output's buffer at contents handed back untouched, the
    accumulator at anything — the body runs to a continuation holding the inputs and the output's buffer as they were and
    the accumulator with those pieces written. -/
noncomputable def kernelRun4_A (c : Dev nD) (i : grid4.Coords) (arg2 : Memref sig .tc .vmem S2048x1024 .bf16) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : cond4_0 i) (hc1 : ¬cond4_1 i)
    (x0 : Vec F S2048x1024 .bf16) (x1 : Vec F S2048x128 .f32) (x2 : Vec F S1024x128 .f32) :
    Σ' (L3 : List (View.Piece (Elt F) S1024x128 .f32)), { LS0 : List (View.Piece (Elt F) S1024x128 .f32) //
      ∀ (xi3 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc4__agg_relu_kernel i arg2 harg2 arg3 harg3 arg4 harg4 arg5 harg5 arg6 harg6) K } := by
  refine ⟨[], ?_, fun xi3 E K => ?run⟩
  case run =>
    simp only [cc4__agg_relu_kernel_eq_skeleton]; unfold cc4__agg_relu_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Hand

end
-- ==== Proof.KI.Reg4RunC.lean ====
/-
  Region 4, the body at k = 1: the second half of the contraction is added to the accumulator, and the output block is
  stored: the maximum of zero and the accumulator plus the edge features.
-/
import proofs.«181597_j77979426226450_2_alg».proof.Proof.KI.Reg4RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's stores leave in the output's buffer and in the accumulator at k = 1 (last first), with the
    proof that on whole staging memrefs — the three inputs at their contents, the output's buffer at anything, the
    accumulator at what the point before left — the body runs to a continuation holding the inputs as they were and the
    output's buffer and the accumulator with those pieces written. -/
noncomputable def kernelRun4_C (c : Dev nD) (i : grid4.Coords) (arg2 : Memref sig .tc .vmem S2048x1024 .bf16) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : ¬cond4_0 i) (hc1 : cond4_1 i)
    (x0 : Vec F S2048x1024 .bf16) (x1 : Vec F S2048x128 .f32) (x2 : Vec F S1024x128 .f32) (xs0 : Vec F S1024x128 .f32) :
    Σ' (L3 : List (View.Piece (Elt F) S1024x128 .f32)), { LS0 : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc4__agg_relu_kernel i arg2 harg2 arg3 harg3 arg4 harg4 arg5 harg5 arg6 harg6) K } := by
  refine ⟨?_, ?_, fun E K => ?run⟩
  case run =>
    simp only [cc4__agg_relu_kernel_eq_skeleton]; unfold cc4__agg_relu_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.KernelIdeal.Hand

end
-- ==== Proof.KI.Reg4.lean ====
/-
  Region 4: what the body leaves at each point, the accumulation over the grid, the pipeline's proof data and the body
  obligation. The accumulator holds, after the point (i, 0), the first half of the contraction for row block i, and after
  (i, 1) the whole contraction; the output block of row block i is stored at (i, 1) from the accumulator.
-/
import proofs.«181597_j77979426226450_2_alg».proof.Proof.KI.Reg4RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- At k = 0 nothing is stored into the output's buffer: a placeholder nothing consults (the window is neither written
    back there nor read at the next point before being covered). -/
def out4_A_3 (c : Dev nD) (i : grid4.Coords) (arg2 : Memref sig .tc .vmem S2048x1024 .bf16) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : cond4_0 i) (hc1 : ¬cond4_1 i)
    (x0 : Vec F S2048x1024 .bf16) (x1 : Vec F S2048x128 .f32) (x2 : Vec F S1024x128 .f32) : Vec F S1024x128 .f32 :=
  VO4_3.read (Elt F) (VO4_3.writes (Elt F) VO4_3.junk (kernelRun4_A c i arg2 harg2 arg3 harg3 arg4 harg4 arg5 harg5 arg6 harg6 hc0 hc1 x0 x1 x2).1)

/-- The stores of k = 0 into the accumulator cover it. -/
theorem scover4_A_0 (c : Dev nD) (i : grid4.Coords) (arg2 : Memref sig .tc .vmem S2048x1024 .bf16) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : cond4_0 i) (hc1 : ¬cond4_1 i)
    (x0 : Vec F S2048x1024 .bf16) (x1 : Vec F S2048x128 .f32) (x2 : Vec F S1024x128 .f32) (y : S1024x128.Idx) :
    ∃ pc ∈ (kernelRun4_A c i arg2 harg2 arg3 harg3 arg4 harg4 arg5 harg5 arg6 harg6 hc0 hc1 x0 x1 x2).2.1, y ∈ pc.1.set :=
  View.cover_of_tiledL (kernelRun4_A c i arg2 harg2 arg3 harg3 arg4 harg4 arg5 harg5 arg6 harg6 hc0 hc1 x0 x1 x2).2.1 S1024x128.size (by sl_kernel_rfl) y

/-- What k = 0 leaves in the accumulator. -/
def sout4_A_0 (c : Dev nD) (i : grid4.Coords) (arg2 : Memref sig .tc .vmem S2048x1024 .bf16) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : cond4_0 i) (hc1 : ¬cond4_1 i)
    (x0 : Vec F S2048x1024 .bf16) (x1 : Vec F S2048x128 .f32) (x2 : Vec F S1024x128 .f32) : Vec F S1024x128 .f32 :=
  VS4_0.read (Elt F) (VS4_0.writes (Elt F) VS4_0.junk (kernelRun4_A c i arg2 harg2 arg3 harg3 arg4 harg4 arg5 harg5 arg6 harg6 hc0 hc1 x0 x1 x2).2.1)

/-- The store of k = 1 into the output's buffer covers it. -/
theorem cover4_C_3 (c : Dev nD) (i : grid4.Coords) (arg2 : Memref sig .tc .vmem S2048x1024 .bf16) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : ¬cond4_0 i) (hc1 : cond4_1 i)
    (x0 : Vec F S2048x1024 .bf16) (x1 : Vec F S2048x128 .f32) (x2 : Vec F S1024x128 .f32) (xs0 : Vec F S1024x128 .f32) (y : S1024x128.Idx) :
    ∃ pc ∈ (kernelRun4_C c i arg2 harg2 arg3 harg3 arg4 harg4 arg5 harg5 arg6 harg6 hc0 hc1 x0 x1 x2 xs0).1, y ∈ pc.1.set :=
  View.cover_of_tiledL (kernelRun4_C c i arg2 harg2 arg3 harg3 arg4 harg4 arg5 harg5 arg6 harg6 hc0 hc1 x0 x1 x2 xs0).1 S1024x128.size (by sl_kernel_rfl) y

/-- What k = 1 leaves in the output's buffer. -/
def out4_C_3 (c : Dev nD) (i : grid4.Coords) (arg2 : Memref sig .tc .vmem S2048x1024 .bf16) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : ¬cond4_0 i) (hc1 : cond4_1 i)
    (x0 : Vec F S2048x1024 .bf16) (x1 : Vec F S2048x128 .f32) (x2 : Vec F S1024x128 .f32) (xs0 : Vec F S1024x128 .f32) : Vec F S1024x128 .f32 :=
  VO4_3.read (Elt F) (VO4_3.writes (Elt F) VO4_3.junk (kernelRun4_C c i arg2 harg2 arg3 harg3 arg4 harg4 arg5 harg5 arg6 harg6 hc0 hc1 x0 x1 x2 xs0).1)

/-- The store of k = 1 into the accumulator covers it. -/
theorem scover4_C_0 (c : Dev nD) (i : grid4.Coords) (arg2 : Memref sig .tc .vmem S2048x1024 .bf16) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : ¬cond4_0 i) (hc1 : cond4_1 i)
    (x0 : Vec F S2048x1024 .bf16) (x1 : Vec F S2048x128 .f32) (x2 : Vec F S1024x128 .f32) (xs0 : Vec F S1024x128 .f32) (y : S1024x128.Idx) :
    ∃ pc ∈ (kernelRun4_C c i arg2 harg2 arg3 harg3 arg4 harg4 arg5 harg5 arg6 harg6 hc0 hc1 x0 x1 x2 xs0).2.1, y ∈ pc.1.set :=
  View.cover_of_tiledL (kernelRun4_C c i arg2 harg2 arg3 harg3 arg4 harg4 arg5 harg5 arg6 harg6 hc0 hc1 x0 x1 x2 xs0).2.1 S1024x128.size (by sl_kernel_rfl) y

/-- What k = 1 leaves in the accumulator. -/
def sout4_C_0 (c : Dev nD) (i : grid4.Coords) (arg2 : Memref sig .tc .vmem S2048x1024 .bf16) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : ¬cond4_0 i) (hc1 : cond4_1 i)
    (x0 : Vec F S2048x1024 .bf16) (x1 : Vec F S2048x128 .f32) (x2 : Vec F S1024x128 .f32) (xs0 : Vec F S1024x128 .f32) : Vec F S1024x128 .f32 :=
  VS4_0.read (Elt F) (VS4_0.writes (Elt F) VS4_0.junk (kernelRun4_C c i arg2 harg2 arg3 harg3 arg4 harg4 arg5 harg5 arg6 harg6 hc0 hc1 x0 x1 x2 xs0).2.1)

/-! ## What the output's buffer and the accumulator hold after each point -/

/-- The accumulation: after position n, the pair (output's buffer, accumulator) — at an even position the case k = 0 run
    at the point's blocks, at an odd one the case k = 1 run at the point's blocks over the accumulator the point before
    left. -/
def outsAt4 (c : Dev nD) : (n : ℕ) → n < cfg4.N → Vec F S1024x128 .f32 × Vec F S1024x128 .f32
  | 0, hn => (out4_A_3 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) scM4_0 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩) (iblk4 V c 2 ⟨0, hn⟩),
      sout4_A_0 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) scM4_0 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩) (iblk4 V c 2 ⟨0, hn⟩))
  | n + 1, hn =>
    if h0 : (n + 1) % 2 = 0 then
      if h1 : (n + 1) % 2 = 1 then
        False.elim (by omega)
      else
        (out4_A_3 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) ((hcond4_0 ⟨n + 1, hn⟩).mpr h0) (fun h => h1 ((hcond4_1 ⟨n + 1, hn⟩).mp h)) (iblk4 V c 0 ⟨n + 1, hn⟩) (iblk4 V c 1 ⟨n + 1, hn⟩) (iblk4 V c 2 ⟨n + 1, hn⟩),
          sout4_A_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) ((hcond4_0 ⟨n + 1, hn⟩).mpr h0) (fun h => h1 ((hcond4_1 ⟨n + 1, hn⟩).mp h)) (iblk4 V c 0 ⟨n + 1, hn⟩) (iblk4 V c 1 ⟨n + 1, hn⟩) (iblk4 V c 2 ⟨n + 1, hn⟩))
    else
      if h1 : (n + 1) % 2 = 1 then
        (out4_C_3 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (outsAt4 c n (Nat.lt_of_succ_lt hn)).2,
          sout4_C_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (outsAt4 c n (Nat.lt_of_succ_lt hn)).2)
      else
        False.elim (by omega)

/-- At a point with k = 0: that case's contents. -/
theorem outsAt4_A (c : Dev nD) (t : Fin cfg4.N) (h0 : t.val % 2 = 0) (h1 : ¬t.val % 2 = 1) :
    outsAt4 V c t.val t.isLt = (out4_A_3 c (grid4.coords t) (ms4_0 t) (hs4_0 t) (ms4_1 t) (hs4_1 t) (ms4_2 t) (hs4_2 t) (ms4_3 t) (hs4_3 t) scM4_0 (Memref.isWhole_whole _) ((hcond4_0 t).mpr h0) (fun h => h1 ((hcond4_1 t).mp h)) (iblk4 V c 0 t) (iblk4 V c 1 t) (iblk4 V c 2 t),
      sout4_A_0 c (grid4.coords t) (ms4_0 t) (hs4_0 t) (ms4_1 t) (hs4_1 t) (ms4_2 t) (hs4_2 t) (ms4_3 t) (hs4_3 t) scM4_0 (Memref.isWhole_whole _) ((hcond4_0 t).mpr h0) (fun h => h1 ((hcond4_1 t).mp h)) (iblk4 V c 0 t) (iblk4 V c 1 t) (iblk4 V c 2 t)) := by
  obtain ⟨n, hn⟩ := t
  cases n with
  | zero => exact rfl
  | succ n => exact (dif_pos h0).trans ((dif_neg h1).trans rfl)

/-- At a point with k = 1: that case's contents, over the accumulator the point before left. -/
theorem outsAt4_C (c : Dev nD) (t : Fin cfg4.N) (h0 : ¬t.val % 2 = 0) (h1 : t.val % 2 = 1) :
    outsAt4 V c t.val t.isLt = (out4_C_3 c (grid4.coords t) (ms4_0 t) (hs4_0 t) (ms4_1 t) (hs4_1 t) (ms4_2 t) (hs4_2 t) (ms4_3 t) (hs4_3 t) scM4_0 (Memref.isWhole_whole _) (fun h => h0 ((hcond4_0 t).mp h)) ((hcond4_1 t).mpr h1) (iblk4 V c 0 t) (iblk4 V c 1 t) (iblk4 V c 2 t) (outsAt4 V c (t.val - 1) (Nat.lt_of_le_of_lt (Nat.sub_le _ _) t.isLt)).2,
      sout4_C_0 c (grid4.coords t) (ms4_0 t) (hs4_0 t) (ms4_1 t) (hs4_1 t) (ms4_2 t) (hs4_2 t) (ms4_3 t) (hs4_3 t) scM4_0 (Memref.isWhole_whole _) (fun h => h0 ((hcond4_0 t).mp h)) ((hcond4_1 t).mpr h1) (iblk4 V c 0 t) (iblk4 V c 1 t) (iblk4 V c 2 t) (outsAt4 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position n: before the first point what the region may use, undescribed; afterwards
    the accumulator at what the point before left in it, the other scoped buffers unopened, the generator register at
    some state. -/
def PhiS4 (c : Dev nD) : (n : ℕ) → n ≤ cfg4.N → sProp 𝕄
  | 0, _ => Pipeline.ΦA spec4 c
  | n + 1, hn => iprop(iprop(owns (c : Thread nD τ) scM4_0 fullShare ((outsAt4 V c n hn).2)
      ∗ Pipeline.scopedRestBut (Ix := Unit) (Name := ℕ) (U := UR sig nD τ) (Lvl := ℕ) (Val := Elt F) spec4 c [cc4_scratch0]) ∗ (∃ r, prngReg c r))

theorem PhiS4_zero (c : Dev nD) (n : ℕ) (h : n ≤ cfg4.N) (hz : n = 0) : PhiS4 V c n h = Pipeline.ΦA spec4 c := by
  subst hz; rfl

theorem PhiS4_succ (c : Dev nD) (n : ℕ) (hn : n < cfg4.N) :
    PhiS4 V c (n + 1) hn = iprop(iprop(owns (c : Thread nD τ) scM4_0 fullShare ((outsAt4 V c n hn).2)
      ∗ Pipeline.scopedRestBut (Ix := Unit) (Name := ℕ) (U := UR sig nD τ) (Lvl := ℕ) (Val := Elt F) spec4 c [cc4_scratch0]) ∗ (∃ r, prngReg c r)) := rfl

theorem PhiS4_pos (c : Dev nD) (n : ℕ) (h : n ≤ cfg4.N) (hz : n ≠ 0) :
    PhiS4 V c n h = iprop(iprop(owns (c : Thread nD τ) scM4_0 fullShare ((outsAt4 V c (n - 1) (by omega)).2)
      ∗ Pipeline.scopedRestBut (Ix := Unit) (Name := ℕ) (U := UR sig nD τ) (Lvl := ℕ) (Val := Elt F) spec4 c [cc4_scratch0]) ∗ (∃ r, prngReg c r)) := by
  cases n with
  | zero => exact absurd rfl hz
  | succ n => rfl

/-! ## The pipeline's proof data -/

/-- The arrays as the region finds them; after the body each input's buffer at its block and the output's at the
    accumulation's first component; the invariant above; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => (outsAt4 V c t.val t.isLt).1
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem PhiS4_castSucc (c : Dev nD) (t : Fin cfg4.N) :
    (dat4 V c).Φ t.castSucc = PhiS4 V c t.val (Nat.le_of_lt t.isLt) := by
  dsimp only [dat4]; simp only [Fin.coe_castSucc]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = (outsAt4 V c t.val t.isLt).1 := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d

/-! ## The body obligation, at a generic point -/

/-- What the body is called with at point t, the windows one by one, -/
def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d)))

/-- and what it returns. -/
def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t)

set_option maxHeartbeats 4800000 in
/-- The body at any point: the inputs' memrefs hold their blocks; k decides the case; the invariant hands the body the
    accumulator (at anything at the first point, else at what the point before left) and takes it back at this point's
    contents; the core owes nothing throughout. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2]
  rw [show (dat4 V c).owesAt () t.succ = (dat4 V c).owesAt () t.castSucc from rfl]
  rw [show (dat4 V c).Φ t.succ = PhiS4 V c (t.val + 1) t.isLt from rfl, PhiS4_succ]
  have hN : t.val < 16 := lt_of_lt_of_eq t.isLt (show cfg4.N = 16 from N_4)
  rw [show (dat4 V c).leavesExact 0 t = owns (c : Thread nD τ) (ms4_0 t) fullShare ((dat4 V c).after 0 t) from by
    unfold Dat.leavesExact; rw [liveAt4_0 t], after4_0]
  rw [show (dat4 V c).leavesExact 1 t = owns (c : Thread nD τ) (ms4_1 t) fullShare ((dat4 V c).after 1 t) from by
    unfold Dat.leavesExact; rw [liveAt4_1 t], after4_1]
  rw [show (dat4 V c).leavesExact 2 t = owns (c : Thread nD τ) (ms4_2 t) fullShare ((dat4 V c).after 2 t) from by
    unfold Dat.leavesExact; rw [liveAt4_2 t], after4_2]
  by_cases h0 : t.val % 2 = 0
  · have h1 : ¬t.val % 2 = 1 := by omega
    rw [Dat.leavesExact_idle (dat4 V c) 3 t (idleAt4_3_A t ((hcond4_0 t).mpr h0) (fun h => h1 ((hcond4_1 t).mp h))) (noFlush4_3_A t ((hcond4_0 t).mpr h0) (fun h => h1 ((hcond4_1 t).mp h)))]
    rw [outsAt4_A V c t h0 h1]
    unfold sout4_A_0; (try dsimp only)
    by_cases hz : t.val = 0
    · rw [PhiS4_castSucc V c t, PhiS4_zero V c _ _ hz, PhiA4_eq]
      iintro ⟨⟨⟨HS0, Hrest⟩, Hg⟩, Ho, ⟨%d0, H0⟩, ⟨%d1, H1⟩, ⟨%d2, H2⟩, ⟨%d3, H3⟩⟩
      iapply ((kernelRun4_A c (grid4.coords t) _ _ _ _ _ _ _ _ _ _ ((hcond4_0 t).mpr h0) (fun h => h1 ((hcond4_1 t).mp h)) (iblk4 V c 0 t) (iblk4 V c 1 t) (iblk4 V c 2 t)).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover4_A_0 c _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3
    · rw [PhiS4_castSucc V c t, PhiS4_pos V c _ _ hz]
      iintro ⟨⟨⟨HS0, Hrest⟩, Hg⟩, Ho, ⟨%d0, H0⟩, ⟨%d1, H1⟩, ⟨%d2, H2⟩, ⟨%d3, H3⟩⟩
      iapply ((kernelRun4_A c (grid4.coords t) _ _ _ _ _ _ _ _ _ _ ((hcond4_0 t).mpr h0) (fun h => h1 ((hcond4_1 t).mp h)) (iblk4 V c 0 t) (iblk4 V c 1 t) (iblk4 V c 2 t)).2.2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover4_A_0 c _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3
  · have h1 : t.val % 2 = 1 := by omega
    rw [show (dat4 V c).leavesExact 3 t = owns (c : Thread nD τ) (ms4_3 t) fullShare ((dat4 V c).after 3 t) from by
      unfold Dat.leavesExact; rw [liveAt4_3_C t (fun h => h0 ((hcond4_0 t).mp h)) ((hcond4_1 t).mpr h1)], after4_3]
    rw [outsAt4_C V c t h0 h1]
    unfold out4_C_3 sout4_C_0; (try dsimp only)
    have hz : t.val ≠ 0 := by omega
    rw [PhiS4_castSucc V c t, PhiS4_pos V c _ _ hz]
    iintro ⟨⟨⟨HS0, Hrest⟩, Hg⟩, Ho, ⟨%d0, H0⟩, ⟨%d1, H1⟩, ⟨%d2, H2⟩, ⟨%d3, H3⟩⟩
    iapply ((kernelRun4_C c (grid4.coords t) _ _ _ _ _ _ _ _ _ _ (fun h => h0 ((hcond4_0 t).mp h)) ((hcond4_1 t).mpr h1) (iblk4 V c 0 t) (iblk4 V c 1 t) (iblk4 V c 2 t) _).2.2 Set.univ _)
    isplitl [H0]; · iexact H0
    isplitl [H1]; · iexact H1
    isplitl [H2]; · iexact H2
    isplitl [H3]; · iexists _; iexact H3
    isplitl [HS0]; · iexact HS0
    iintro ⟨H0, H1, H2, ⟨%e3, H3⟩, ⟨%es0, HS0⟩⟩
    isplitl [HS0 Hrest Hg]
    · isplitl [HS0 Hrest]
      · isplitl [HS0]
        · unfold owns; iexists _; isplitr
          swap; · iexact HS0
          ipureintro; exact View.read_writes_of_cover _ _ _ _ _ (scover4_C_0 c _ _ _ _ _ _ _ _ _ _ _ _ _ _ _ _ _)
        iexact Hrest
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover4_C_3 c _ _ _ _ _ _ _ _ _ _ _ _ _ _ _ _ _)

/-- The pipeline library's body obligation, at every point. -/
theorem body_obligation4 (c : Dev nD) : BodyObligation (dat4 (F := F) V c) (defs₀ (F := F)) Variants.none () Set.univ := fun t => by
  rw [bigSep_W4, bigSep_W4]
  exact sound_body4 V c t

/-- What the launch hands the region is the invariant before the first point. -/
theorem hin4 (c : Dev nD) : Pipeline.ΦA spec4 c ⊢ (dat4 V c).Φ 0 := by
  rw [show (dat4 V c).Φ 0 = PhiS4 V c 0 (Nat.zero_le _) from rfl, PhiS4_zero V c 0 _ rfl]
  try exact Idealize.SL.BI.Entails.refl _

/-- After any point but the first the invariant gives it back: the accumulator's named contents are forgotten. -/
theorem Phi_out4 (c : Dev nD) (t : Fin (cfg4.N + 1)) (ht : t.val ≠ 0) : (dat4 V c).Φ t ⊢ Pipeline.ΦA spec4 c := by
  rw [show (dat4 V c).Φ t = PhiS4 V c t.val (Nat.le_of_lt_succ t.isLt) from rfl, PhiS4_pos V c _ _ ht, PhiA4_eq]
  iintro ⟨⟨HS0, Hrest⟩, Hg⟩
  isplitl [HS0 Hrest]
  · isplitl [HS0]
    · iexists _; iexact HS0
    iexact Hrest
  iexact Hg

theorem hout4 (c : Dev nD) : (dat4 V c).Φ (Fin.last cfg4.N) ⊢ Pipeline.ΦA spec4 c :=
  Phi_out4 V c _ (by rw [Fin.val_last]; have : cfg4.N = 16 := N_4; omega)

end Cert.KernelIdeal.Hand

end
-- ==== Proof.KI.Reg5Runs.lean ====
/- Region 5 (the aggregate-residual-MLP kernel, pipeline 1): what its two runs share — the windows' blocks at the
   region-entry contents, the input windows' staging contents, the body's two branch conditions decided over the
   grid, where the output window is idle, the staging and scratch memrefs, and the region invariant with the
   scratch accumulator owned as a memref. -/
import proofs.«181597_j77979426226450_2_alg».proof.Proof.Gen.KernelIdeal.Launch
import proofs.«181597_j77979426226450_2_alg».proof.Proof.Gen.KernelIdeal.Skeleton
import proofs.«181597_j77979426226450_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
-- the TensorCore's buffer contents when the region is entered: the parameter the region's half is stated at
variable (V : (c : Dev nD) → (b : Ref sig .tc) → Buf (Elt F) ((c : Thread nD τ).loc b))

/-! ## The windows' blocks -/

/-- Window `w`'s block at point `t`, read off its array as the region finds it (`V`). -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, fetched there or not, for any proof
    data whose array is `V`'s (`hA`) and whose body leaves the block in place (`hafter`): unfetched, the block
    index has not moved; the window is uncut and never idle. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's current staging buffer holds its block at every point, fetched there or not, for any proof
    data whose array is `V`'s (`hA`) and whose body leaves the block in place (`hafter`): unfetched, the block
    index has not moved; the window is uncut and never idle. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's current staging buffer holds its block at every point, fetched there or not, for any proof
    data whose array is `V`'s (`hA`) and whose body leaves the block in place (`hafter`): unfetched, the block
    index has not moved; the window is uncut and never idle. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- Input window 3's current staging buffer holds its block at every point, fetched there or not, for any proof
    data whose array is `V`'s (`hA`) and whose body leaves the block in place (`hafter`): unfetched, the block
    index has not moved; the window is uncut and never idle. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-- Input window 4's current staging buffer holds its block at every point, fetched there or not, for any proof
    data whose array is `V`'s (`hA`) and whose body leaves the block in place (`hafter`): unfetched, the block
    index has not moved; the window is uncut and never idle. -/
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

end Region

/-! ## The body's branch conditions -/

/-- The condition of the body's first conditional (the reduction index is 0), from the grid coordinates. -/
abbrev cond5_0 (i : grid5.Coords) : Prop := (Scalar.cmpi .ne (Scalar.extui (Scalar.cmpi .eq (BitVec.ofNat 32 (i 1).val) 0#32)) 0#32) = 1#1
/-- It holds at the points ≡ 0 (mod 2) — decided over the grid. -/
theorem hcond5_0 : ∀ t : Fin cfg5.N, cond5_0 (grid5.coords t) ↔ t.val % 2 = 0 :=
  (by decide +kernel : ∀ t : Fin grid5.N, cond5_0 (grid5.coords t) ↔ t.val % 2 = 0)

/-- The condition of the body's second conditional (the reduction index is the last). -/
abbrev cond5_1 (i : grid5.Coords) : Prop := k5_cond2 i = 1#1
/-- It holds at the points ≡ 1 (mod 2) — decided over the grid. -/
theorem hcond5_1 : ∀ t : Fin cfg5.N, cond5_1 (grid5.coords t) ↔ t.val % 2 = 1 :=
  (by decide +kernel : ∀ t : Fin grid5.N, cond5_1 (grid5.coords t) ↔ t.val % 2 = 1)

/-! ## Where the windows are idle -/

/-- Window 0 is never idle (an input). -/
theorem liveAt5_0 : ∀ t : Fin cfg5.N, cfg5.idle 0 (grid5.coords t) = false := by decide +kernel
/-- Window 1 is never idle (an input). -/
theorem liveAt5_1 : ∀ t : Fin cfg5.N, cfg5.idle 1 (grid5.coords t) = false := by decide +kernel
/-- Window 2 is never idle (an input). -/
theorem liveAt5_2 : ∀ t : Fin cfg5.N, cfg5.idle 2 (grid5.coords t) = false := by decide +kernel
/-- Window 3 is never idle (an input). -/
theorem liveAt5_3 : ∀ t : Fin cfg5.N, cfg5.idle 3 (grid5.coords t) = false := by decide +kernel
/-- Window 4 is never idle (an input). -/
theorem liveAt5_4 : ∀ t : Fin cfg5.N, cfg5.idle 4 (grid5.coords t) = false := by decide +kernel
/-- At the points of case A (first conditional taken, second not) output 5 is idle: the case stores nothing into it. -/
theorem idleAt5_5_A : ∀ t : Fin cfg5.N, cond5_0 (grid5.coords t) → ¬cond5_1 (grid5.coords t) → cfg5.idle 5 (grid5.coords t) = true := by decide +kernel
/-- At the points of case A the pipeline does not write output 5's block back. -/
theorem noFlush5_5_A : ∀ t : Fin cfg5.N, cond5_0 (grid5.coords t) → ¬cond5_1 (grid5.coords t) → (cfg5.win 5).flush t = false := by decide +kernel
/-- At the points of case C (first conditional not taken, second taken) output 5 is live: the case stores into it. -/
theorem liveAt5_5_C : ∀ t : Fin cfg5.N, ¬cond5_0 (grid5.coords t) → cond5_1 (grid5.coords t) → cfg5.idle 5 (grid5.coords t) = false := by decide +kernel

/-! ## The staging and scratch memrefs -/

/-- One staging buffer of output window 5, through which its contents are stated (the choice does not matter). -/
abbrev VO5_5 : View sig .tc .vmem S1024x128 .f32 := (Memref.whole cc5_stg5_0 : Memref sig .tc .vmem S1024x128 .f32).view
/-- Each window's current staging memref at point `t`, spelled as the pipeline passes it, and its wholeness. -/
abbrev ms5_0 (t : Fin cfg5.N) : Memref sig .tc .vmem S1024x4096 .bf16 := win5_0.stage (cfg5.slots t 0)
abbrev hs5_0 (t : Fin cfg5.N) : (ms5_0 t).IsWhole := hstage5_0 ((cfg5.slots t 0).cast nbuf5_0)
abbrev ms5_1 (t : Fin cfg5.N) : Memref sig .tc .vmem S4096x128 .f32 := win5_1.stage (cfg5.slots t 1)
abbrev hs5_1 (t : Fin cfg5.N) : (ms5_1 t).IsWhole := hstage5_1 ((cfg5.slots t 1).cast nbuf5_1)
abbrev ms5_2 (t : Fin cfg5.N) : Memref sig .tc .vmem S1024x128 .f32 := win5_2.stage (cfg5.slots t 2)
abbrev hs5_2 (t : Fin cfg5.N) : (ms5_2 t).IsWhole := hstage5_2 ((cfg5.slots t 2).cast nbuf5_2)
abbrev ms5_3 (t : Fin cfg5.N) : Memref sig .tc .vmem S128x128 .f32 := win5_3.stage (cfg5.slots t 3)
abbrev hs5_3 (t : Fin cfg5.N) : (ms5_3 t).IsWhole := hstage5_3 ((cfg5.slots t 3).cast nbuf5_3)
abbrev ms5_4 (t : Fin cfg5.N) : Memref sig .tc .vmem S1x128 .f32 := win5_4.stage (cfg5.slots t 4)
abbrev hs5_4 (t : Fin cfg5.N) : (ms5_4 t).IsWhole := hstage5_4 ((cfg5.slots t 4).cast nbuf5_4)
abbrev ms5_5 (t : Fin cfg5.N) : Memref sig .tc .vmem S1024x128 .f32 := win5_5.stage (cfg5.slots t 5)
abbrev hs5_5 (t : Fin cfg5.N) : (ms5_5 t).IsWhole := hstage5_5 ((cfg5.slots t 5).cast nbuf5_5)
/-- The scratch accumulator: a whole scoped buffer of the kernel's own, passed beside the windows. -/
abbrev scM5_0 : Memref sig .tc .vmem S1024x128 .f32 := Memref.whole cc5_scratch0
/-- The same as a view: what the accumulator holds between points is stated through it. -/
abbrev VS5_0 : View sig .tc .vmem S1024x128 .f32 := scM5_0.view

/-- The region invariant with the scratch accumulator as a memref owned at some contents, the other scoped buffers
    unopened, and the generator register at some state: what the body obligation hands the run and takes back. -/
theorem PhiA5_eq (c : Dev nD) :
    (Pipeline.ΦA spec5 c : sProp 𝕄)
      = iprop(iprop(iprop((∃ d, owns (c : Thread nD τ) scM5_0 fullShare d))
          ∗ Pipeline.scopedRestBut (Ix := Unit) (Name := ℕ) (U := UR sig nD τ) (Lvl := ℕ) (Val := Elt F) spec5 c [cc5_scratch0]) ∗ (∃ r, prngReg c r)) := by
  unfold Pipeline.ΦA; rw [scopedRest5_split]; simp only [scM5_0, owns_whole]; try rfl

end Cert.KernelIdeal.Hand

end
-- ==== Proof.KI.Reg5RunA.lean ====
/- Region 5: the whole-body run of the kernel in case A (first conditional taken, second not: the reduction's first
   step). The pieces the scratch accumulator ends with are the witness the run finds. -/
import proofs.«181597_j77979426226450_2_alg».proof.Proof.KI.Reg5Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in the output's staging memref and in the scratch accumulator, as pieces (last first), in
    case A, with the proof that on whole staging memrefs — the inputs' at their contents, the output's (no store, the
    window idle and not written back at the case's points) at contents `xio` handed back untouched, the accumulator at
    anything — the body runs to the continuation holding the inputs' and the output's as they were and the accumulator
    with its pieces written: it is zeroed, then the product of the two input blocks is added. -/
noncomputable def kernelRun5_A (c : Dev nD) (i : grid5.Coords) (arg2 : Memref sig .tc .vmem S1024x4096 .bf16) (harg2 : arg2.IsWhole) (arg3 : Memref sig .tc .vmem S4096x128 .f32) (harg3 : arg3.IsWhole) (arg4 : Memref sig .tc .vmem S1024x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1024x128 .f32) (harg7 : arg7.IsWhole) (arg8 : Memref sig .tc .vmem S1024x128 .f32) (harg8 : arg8.IsWhole) (hcz : cond5_0 i) (hcl : ¬cond5_1 i)
    (xa : Vec F S1024x4096 .bf16) (xb : Vec F S4096x128 .f32) (xc : Vec F S1024x128 .f32) (xd : Vec F S128x128 .f32) (xe : Vec F S1x128 .f32) :
    Σ' (LO : List (View.Piece (Elt F) S1024x128 .f32)), { LS : List (View.Piece (Elt F) S1024x128 .f32) //
      ∀ (xio : Vec F S1024x128 .f32) (E : Set ℕ) (K : PUnit → sProp 𝕄),
        iprop(owns (c : Thread nD τ) arg2 fullShare xa ∗ owns (c : Thread nD τ) arg3 fullShare xb ∗ owns (c : Thread nD τ) arg4 fullShare xc ∗ owns (c : Thread nD τ) arg5 fullShare xd ∗ owns (c : Thread nD τ) arg6 fullShare xe ∗ owns (c : Thread nD τ) arg7 fullShare xio ∗ (∃ d, owns (c : Thread nD τ) arg8 fullShare d)
            ∗ (iprop(owns (c : Thread nD τ) arg2 fullShare xa ∗ owns (c : Thread nD τ) arg3 fullShare xb ∗ owns (c : Thread nD τ) arg4 fullShare xc ∗ owns (c : Thread nD τ) arg5 fullShare xd ∗ owns (c : Thread nD τ) arg6 fullShare xe ∗ owns (c : Thread nD τ) arg7 fullShare xio ∗ (∃ f, arg8.view.loc (c : Thread nD τ) ↦[arg8.view.set]{fullShare} arg8.view.writes (Elt F) f LS)) -∗ K ⟨⟩))
          ⊢ wp frame (wpE (defs₀ (F := F)) Variants.none c none) E (cc5__agg_residual_mlp_kernel i arg2 harg2 arg3 harg3 arg4 harg4 arg5 harg5 arg6 harg6 arg7 harg7 arg8 harg8) K } := by
  refine ⟨[], ?_, fun xio E K => ?run⟩
  case run =>
    simp only [cc5__agg_residual_mlp_kernel_eq_skeleton]; unfold cc5__agg_residual_mlp_kernel_skel
    unfold owns
    iintro ⟨⟨%fa, %hfa, Ha⟩, ⟨%fb, %hfb, Hb⟩, ⟨%fc, %hfc, Hc⟩, ⟨%fd, %hfd, Hd⟩, ⟨%fe, %hfe, He⟩, ⟨%fo, %hfo, Ho⟩, ⟨%ds, %fs, -, Hs⟩, Hk⟩
    obtain rfl := harg2.eq_unread hfa; obtain rfl := harg3.eq_unread hfb; obtain rfl := harg4.eq_unread hfc
    obtain rfl := harg5.eq_unread hfd; obtain rfl := harg6.eq_unread hfe; obtain rfl := harg7.eq_unread hfo
    sl_exec (disch := first | exact hcz | exact hcl)
    sl_step
    iapply Hk
    isplitl [Ha]
    · iexists _; isplitr; · ipureintro; exact harg2.read_unread _
      iexact Ha
    isplitl [Hb]
    · iexists _; isplitr; · ipureintro; exact harg3.read_unread _
      iexact Hb
    isplitl [Hc]
    · iexists _; isplitr; · ipureintro; exact harg4.read_unread _
      iexact Hc
    isplitl [Hd]
    · iexists _; isplitr; · ipureintro; exact harg5.read_unread _
      iexact Hd
    isplitl [He]
    · iexists _; isplitr; · ipureintro; exact harg6.read_unread _
      iexact He
    isplitl [Ho]
    · iexists _; isplitr; · ipureintro; exact harg7.read_unread _
      iexact Ho
    iexists _; iexact Hs

end Cert.KernelIdeal.Hand

end
-- ==== Proof.KI.Reg5RunC.lean ====
/- Region 5: the whole-body run of the kernel in case C (first conditional not taken, second taken: the reduction's
   last step). The pieces the output's staging memref and the scratch accumulator end with are the witness the run
   finds. -/
import proofs.«181597_j77979426226450_2_alg».proof.Proof.KI.Reg5RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in the output's staging memref and in the scratch accumulator, as pieces (last first), in
    case C, with the proof that on whole staging memrefs — the inputs' at their contents, the output's at anything, the
    accumulator at the contents `xs` the point before left — the body runs to the continuation holding the inputs' as
    they were and the output's and the accumulator's with their pieces written: the product of the two input blocks is
    added to the accumulator, and the output is the residual layer applied to the sum. -/
noncomputable def kernelRun5_C (c : Dev nD) (i : grid5.Coords) (arg2 : Memref sig .tc .vmem S1024x4096 .bf16) (harg2 : arg2.IsWhole) (arg3 : Memref sig .tc .vmem S4096x128 .f32) (harg3 : arg3.IsWhole) (arg4 : Memref sig .tc .vmem S1024x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1024x128 .f32) (harg7 : arg7.IsWhole) (arg8 : Memref sig .tc .vmem S1024x128 .f32) (harg8 : arg8.IsWhole) (hcz : ¬cond5_0 i) (hcl : cond5_1 i)
    (xa : Vec F S1024x4096 .bf16) (xb : Vec F S4096x128 .f32) (xc : Vec F S1024x128 .f32) (xd : Vec F S128x128 .f32) (xe : Vec F S1x128 .f32) (xs : Vec F S1024x128 .f32) :
    Σ' (LO : List (View.Piece (Elt F) S1024x128 .f32)), { LS : List (View.Piece (Elt F) S1024x128 .f32) //
      ∀ (E : Set ℕ) (K : PUnit → sProp 𝕄),
        iprop(owns (c : Thread nD τ) arg2 fullShare xa ∗ owns (c : Thread nD τ) arg3 fullShare xb ∗ owns (c : Thread nD τ) arg4 fullShare xc ∗ owns (c : Thread nD τ) arg5 fullShare xd ∗ owns (c : Thread nD τ) arg6 fullShare xe ∗ (∃ d, owns (c : Thread nD τ) arg7 fullShare d) ∗ owns (c : Thread nD τ) arg8 fullShare xs
            ∗ (iprop(owns (c : Thread nD τ) arg2 fullShare xa ∗ owns (c : Thread nD τ) arg3 fullShare xb ∗ owns (c : Thread nD τ) arg4 fullShare xc ∗ owns (c : Thread nD τ) arg5 fullShare xd ∗ owns (c : Thread nD τ) arg6 fullShare xe ∗ (∃ f, arg7.view.loc (c : Thread nD τ) ↦[arg7.view.set]{fullShare} arg7.view.writes (Elt F) f LO) ∗ (∃ f, arg8.view.loc (c : Thread nD τ) ↦[arg8.view.set]{fullShare} arg8.view.writes (Elt F) f LS)) -∗ K ⟨⟩))
          ⊢ wp frame (wpE (defs₀ (F := F)) Variants.none c none) E (cc5__agg_residual_mlp_kernel i arg2 harg2 arg3 harg3 arg4 harg4 arg5 harg5 arg6 harg6 arg7 harg7 arg8 harg8) K } := by
  refine ⟨?_, ?_, fun E K => ?run⟩
  case run =>
    simp only [cc5__agg_residual_mlp_kernel_eq_skeleton]; unfold cc5__agg_residual_mlp_kernel_skel
    unfold owns
    iintro ⟨⟨%fa, %hfa, Ha⟩, ⟨%fb, %hfb, Hb⟩, ⟨%fc, %hfc, Hc⟩, ⟨%fd, %hfd, Hd⟩, ⟨%fe, %hfe, He⟩, ⟨%dout, %fo, -, Ho⟩, ⟨%fs, %hfs, Hs⟩, Hk⟩
    obtain rfl := harg2.eq_unread hfa; obtain rfl := harg3.eq_unread hfb; obtain rfl := harg4.eq_unread hfc
    obtain rfl := harg5.eq_unread hfd; obtain rfl := harg6.eq_unread hfe; obtain rfl := harg8.eq_unread hfs
    sl_exec (disch := first | exact hcz | exact hcl)
    sl_step
    iapply Hk
    isplitl [Ha]
    · iexists _; isplitr; · ipureintro; exact harg2.read_unread _
      iexact Ha
    isplitl [Hb]
    · iexists _; isplitr; · ipureintro; exact harg3.read_unread _
      iexact Hb
    isplitl [Hc]
    · iexists _; isplitr; · ipureintro; exact harg4.read_unread _
      iexact Hc
    isplitl [Hd]
    · iexists _; isplitr; · ipureintro; exact harg5.read_unread _
      iexact Hd
    isplitl [He]
    · iexists _; isplitr; · ipureintro; exact harg6.read_unread _
      iexact He
    isplitl [Ho]; · iexists _; iexact Ho
    iexists _; iexact Hs

end Cert.KernelIdeal.Hand

end
-- ==== Proof.KI.Reg5.lean ====
/- Region 5 (the aggregate-residual-MLP kernel, pipeline 1), the rest of its frame half: what the output's staging
   buffer and the scratch accumulator hold per case and point by point, the region invariant carrying the accumulator,
   the pipeline's proof data at the region-entry contents `V`, the body obligation at every point, and the invariant's
   entry and exit. -/
import proofs.«181597_j77979426226450_2_alg».proof.Proof.KI.Reg5RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Case A stores nothing into output 5 (the window is idle at its points and not written back there): no pieces — a
    placeholder that nothing consults, since at these points the window is neither written back nor read at the next. -/
def out5_A_5 (c : Dev nD) (i : grid5.Coords) (arg2 : Memref sig .tc .vmem S1024x4096 .bf16) (harg2 : arg2.IsWhole) (arg3 : Memref sig .tc .vmem S4096x128 .f32) (harg3 : arg3.IsWhole) (arg4 : Memref sig .tc .vmem S1024x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1024x128 .f32) (harg7 : arg7.IsWhole) (arg8 : Memref sig .tc .vmem S1024x128 .f32) (harg8 : arg8.IsWhole) (hcz : cond5_0 i) (hcl : ¬cond5_1 i)
    (xa : Vec F S1024x4096 .bf16) (xb : Vec F S4096x128 .f32) (xc : Vec F S1024x128 .f32) (xd : Vec F S128x128 .f32) (xe : Vec F S1x128 .f32) : Vec F S1024x128 .f32 :=
  VO5_5.read (Elt F) (VO5_5.writes (Elt F) VO5_5.junk (kernelRun5_A c i arg2 harg2 arg3 harg3 arg4 harg4 arg5 harg5 arg6 harg6 arg7 harg7 arg8 harg8 hcz hcl xa xb xc xd xe).1)

/-- Case A's pieces for the scratch accumulator cover it: the zeroing store and the accumulating store each tile it. -/
theorem scover5_A_0 (c : Dev nD) (i : grid5.Coords) (arg2 : Memref sig .tc .vmem S1024x4096 .bf16) (harg2 : arg2.IsWhole) (arg3 : Memref sig .tc .vmem S4096x128 .f32) (harg3 : arg3.IsWhole) (arg4 : Memref sig .tc .vmem S1024x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1024x128 .f32) (harg7 : arg7.IsWhole) (arg8 : Memref sig .tc .vmem S1024x128 .f32) (harg8 : arg8.IsWhole) (hcz : cond5_0 i) (hcl : ¬cond5_1 i)
    (xa : Vec F S1024x4096 .bf16) (xb : Vec F S4096x128 .f32) (xc : Vec F S1024x128 .f32) (xd : Vec F S128x128 .f32) (xe : Vec F S1x128 .f32) (y : S1024x128.Idx) :
    ∃ pc ∈ (kernelRun5_A c i arg2 harg2 arg3 harg3 arg4 harg4 arg5 harg5 arg6 harg6 arg7 harg7 arg8 harg8 hcz hcl xa xb xc xd xe).2.1, y ∈ pc.1.set :=
  View.cover_of_tiledL (kernelRun5_A c i arg2 harg2 arg3 harg3 arg4 harg4 arg5 harg5 arg6 harg6 arg7 harg7 arg8 harg8 hcz hcl xa xb xc xd xe).2.1 S1024x128.size (by sl_kernel_rfl) y

/-- What case A leaves in the scratch accumulator: its pieces read back over junk. -/
def sout5_A_0 (c : Dev nD) (i : grid5.Coords) (arg2 : Memref sig .tc .vmem S1024x4096 .bf16) (harg2 : arg2.IsWhole) (arg3 : Memref sig .tc .vmem S4096x128 .f32) (harg3 : arg3.IsWhole) (arg4 : Memref sig .tc .vmem S1024x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1024x128 .f32) (harg7 : arg7.IsWhole) (arg8 : Memref sig .tc .vmem S1024x128 .f32) (harg8 : arg8.IsWhole) (hcz : cond5_0 i) (hcl : ¬cond5_1 i)
    (xa : Vec F S1024x4096 .bf16) (xb : Vec F S4096x128 .f32) (xc : Vec F S1024x128 .f32) (xd : Vec F S128x128 .f32) (xe : Vec F S1x128 .f32) : Vec F S1024x128 .f32 :=
  VS5_0.read (Elt F) (VS5_0.writes (Elt F) VS5_0.junk (kernelRun5_A c i arg2 harg2 arg3 harg3 arg4 harg4 arg5 harg5 arg6 harg6 arg7 harg7 arg8 harg8 hcz hcl xa xb xc xd xe).2.1)

/-- Case C's pieces for output 5 tile its block (one store of the whole block), so they cover it. -/
theorem cover5_C_5 (c : Dev nD) (i : grid5.Coords) (arg2 : Memref sig .tc .vmem S1024x4096 .bf16) (harg2 : arg2.IsWhole) (arg3 : Memref sig .tc .vmem S4096x128 .f32) (harg3 : arg3.IsWhole) (arg4 : Memref sig .tc .vmem S1024x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1024x128 .f32) (harg7 : arg7.IsWhole) (arg8 : Memref sig .tc .vmem S1024x128 .f32) (harg8 : arg8.IsWhole) (hcz : ¬cond5_0 i) (hcl : cond5_1 i)
    (xa : Vec F S1024x4096 .bf16) (xb : Vec F S4096x128 .f32) (xc : Vec F S1024x128 .f32) (xd : Vec F S128x128 .f32) (xe : Vec F S1x128 .f32) (xs : Vec F S1024x128 .f32) (y : S1024x128.Idx) :
    ∃ pc ∈ (kernelRun5_C c i arg2 harg2 arg3 harg3 arg4 harg4 arg5 harg5 arg6 harg6 arg7 harg7 arg8 harg8 hcz hcl xa xb xc xd xe xs).1, y ∈ pc.1.set :=
  View.cover_of_tiledL (kernelRun5_C c i arg2 harg2 arg3 harg3 arg4 harg4 arg5 harg5 arg6 harg6 arg7 harg7 arg8 harg8 hcz hcl xa xb xc xd xe xs).1 S1024x128.size (by sl_kernel_rfl) y

/-- What case C leaves in output 5's staging buffer: its pieces read back over junk. -/
def out5_C_5 (c : Dev nD) (i : grid5.Coords) (arg2 : Memref sig .tc .vmem S1024x4096 .bf16) (harg2 : arg2.IsWhole) (arg3 : Memref sig .tc .vmem S4096x128 .f32) (harg3 : arg3.IsWhole) (arg4 : Memref sig .tc .vmem S1024x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1024x128 .f32) (harg7 : arg7.IsWhole) (arg8 : Memref sig .tc .vmem S1024x128 .f32) (harg8 : arg8.IsWhole) (hcz : ¬cond5_0 i) (hcl : cond5_1 i)
    (xa : Vec F S1024x4096 .bf16) (xb : Vec F S4096x128 .f32) (xc : Vec F S1024x128 .f32) (xd : Vec F S128x128 .f32) (xe : Vec F S1x128 .f32) (xs : Vec F S1024x128 .f32) : Vec F S1024x128 .f32 :=
  VO5_5.read (Elt F) (VO5_5.writes (Elt F) VO5_5.junk (kernelRun5_C c i arg2 harg2 arg3 harg3 arg4 harg4 arg5 harg5 arg6 harg6 arg7 harg7 arg8 harg8 hcz hcl xa xb xc xd xe xs).1)

/-- Case C's pieces for the scratch accumulator cover it: one store of the whole buffer. -/
theorem scover5_C_0 (c : Dev nD) (i : grid5.Coords) (arg2 : Memref sig .tc .vmem S1024x4096 .bf16) (harg2 : arg2.IsWhole) (arg3 : Memref sig .tc .vmem S4096x128 .f32) (harg3 : arg3.IsWhole) (arg4 : Memref sig .tc .vmem S1024x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1024x128 .f32) (harg7 : arg7.IsWhole) (arg8 : Memref sig .tc .vmem S1024x128 .f32) (harg8 : arg8.IsWhole) (hcz : ¬cond5_0 i) (hcl : cond5_1 i)
    (xa : Vec F S1024x4096 .bf16) (xb : Vec F S4096x128 .f32) (xc : Vec F S1024x128 .f32) (xd : Vec F S128x128 .f32) (xe : Vec F S1x128 .f32) (xs : Vec F S1024x128 .f32) (y : S1024x128.Idx) :
    ∃ pc ∈ (kernelRun5_C c i arg2 harg2 arg3 harg3 arg4 harg4 arg5 harg5 arg6 harg6 arg7 harg7 arg8 harg8 hcz hcl xa xb xc xd xe xs).2.1, y ∈ pc.1.set :=
  View.cover_of_tiledL (kernelRun5_C c i arg2 harg2 arg3 harg3 arg4 harg4 arg5 harg5 arg6 harg6 arg7 harg7 arg8 harg8 hcz hcl xa xb xc xd xe xs).2.1 S1024x128.size (by sl_kernel_rfl) y

/-- What case C leaves in the scratch accumulator: its pieces read back over junk. -/
def sout5_C_0 (c : Dev nD) (i : grid5.Coords) (arg2 : Memref sig .tc .vmem S1024x4096 .bf16) (harg2 : arg2.IsWhole) (arg3 : Memref sig .tc .vmem S4096x128 .f32) (harg3 : arg3.IsWhole) (arg4 : Memref sig .tc .vmem S1024x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1024x128 .f32) (harg7 : arg7.IsWhole) (arg8 : Memref sig .tc .vmem S1024x128 .f32) (harg8 : arg8.IsWhole) (hcz : ¬cond5_0 i) (hcl : cond5_1 i)
    (xa : Vec F S1024x4096 .bf16) (xb : Vec F S4096x128 .f32) (xc : Vec F S1024x128 .f32) (xd : Vec F S128x128 .f32) (xe : Vec F S1x128 .f32) (xs : Vec F S1024x128 .f32) : Vec F S1024x128 .f32 :=
  VS5_0.read (Elt F) (VS5_0.writes (Elt F) VS5_0.junk (kernelRun5_C c i arg2 harg2 arg3 harg3 arg4 harg4 arg5 harg5 arg6 harg6 arg7 harg7 arg8 harg8 hcz hcl xa xb xc xd xe xs).2.1)

section Region
-- the TensorCore's buffer contents when the region is entered
variable (V : (c : Dev nD) → (b : Ref sig .tc) → Buf (Elt F) ((c : Thread nD τ).loc b))

/-! ## What the output and the accumulator hold after each point -/

/-- The accumulation. What output 5's staging buffer and the scratch accumulator hold after the body at position `n` (a
    pair: the output, then the accumulator): the case the closed forms select at `n`, run at the point's memrefs and input
    blocks, the accumulator in case C at what this leaves at `n - 1`. The two conditions partition the points, so the
    other two assignments are no case. -/
def outsAt5 (c : Dev nD) : (n : ℕ) → n < cfg5.N → Vec F S1024x128 .f32 × Vec F S1024x128 .f32
  | 0, hn => (out5_A_5 c (grid5.coords ⟨0, hn⟩) (ms5_0 ⟨0, hn⟩) (hs5_0 ⟨0, hn⟩) (ms5_1 ⟨0, hn⟩) (hs5_1 ⟨0, hn⟩) (ms5_2 ⟨0, hn⟩) (hs5_2 ⟨0, hn⟩) (ms5_3 ⟨0, hn⟩) (hs5_3 ⟨0, hn⟩) (ms5_4 ⟨0, hn⟩) (hs5_4 ⟨0, hn⟩) (ms5_5 ⟨0, hn⟩) (hs5_5 ⟨0, hn⟩) scM5_0 (Memref.isWhole_whole _) ((hcond5_0 ⟨0, hn⟩).mpr (Nat.zero_mod _)) (fun h => (fun h => by (try dsimp only at h); omega) ((hcond5_1 ⟨0, hn⟩).mp h)) (iblk5 V c 0 ⟨0, hn⟩) (iblk5 V c 1 ⟨0, hn⟩) (iblk5 V c 2 ⟨0, hn⟩) (iblk5 V c 3 ⟨0, hn⟩) (iblk5 V c 4 ⟨0, hn⟩), sout5_A_0 c (grid5.coords ⟨0, hn⟩) (ms5_0 ⟨0, hn⟩) (hs5_0 ⟨0, hn⟩) (ms5_1 ⟨0, hn⟩) (hs5_1 ⟨0, hn⟩) (ms5_2 ⟨0, hn⟩) (hs5_2 ⟨0, hn⟩) (ms5_3 ⟨0, hn⟩) (hs5_3 ⟨0, hn⟩) (ms5_4 ⟨0, hn⟩) (hs5_4 ⟨0, hn⟩) (ms5_5 ⟨0, hn⟩) (hs5_5 ⟨0, hn⟩) scM5_0 (Memref.isWhole_whole _) ((hcond5_0 ⟨0, hn⟩).mpr (Nat.zero_mod _)) (fun h => (fun h => by (try dsimp only at h); omega) ((hcond5_1 ⟨0, hn⟩).mp h)) (iblk5 V c 0 ⟨0, hn⟩) (iblk5 V c 1 ⟨0, hn⟩) (iblk5 V c 2 ⟨0, hn⟩) (iblk5 V c 3 ⟨0, hn⟩) (iblk5 V c 4 ⟨0, hn⟩))
  | n + 1, hn =>
    if hz : (n + 1) % 2 = 0 then
      if hl : (n + 1) % 2 = 1 then
        False.elim (by omega)
      else
        (out5_A_5 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) scM5_0 (Memref.isWhole_whole _) ((hcond5_0 ⟨n + 1, hn⟩).mpr hz) (fun h => hl ((hcond5_1 ⟨n + 1, hn⟩).mp h)) (iblk5 V c 0 ⟨n + 1, hn⟩) (iblk5 V c 1 ⟨n + 1, hn⟩) (iblk5 V c 2 ⟨n + 1, hn⟩) (iblk5 V c 3 ⟨n + 1, hn⟩) (iblk5 V c 4 ⟨n + 1, hn⟩), sout5_A_0 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) scM5_0 (Memref.isWhole_whole _) ((hcond5_0 ⟨n + 1, hn⟩).mpr hz) (fun h => hl ((hcond5_1 ⟨n + 1, hn⟩).mp h)) (iblk5 V c 0 ⟨n + 1, hn⟩) (iblk5 V c 1 ⟨n + 1, hn⟩) (iblk5 V c 2 ⟨n + 1, hn⟩) (iblk5 V c 3 ⟨n + 1, hn⟩) (iblk5 V c 4 ⟨n + 1, hn⟩))
    else
      if hl : (n + 1) % 2 = 1 then
        (out5_C_5 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) scM5_0 (Memref.isWhole_whole _) (fun h => hz ((hcond5_0 ⟨n + 1, hn⟩).mp h)) ((hcond5_1 ⟨n + 1, hn⟩).mpr hl) (iblk5 V c 0 ⟨n + 1, hn⟩) (iblk5 V c 1 ⟨n + 1, hn⟩) (iblk5 V c 2 ⟨n + 1, hn⟩) (iblk5 V c 3 ⟨n + 1, hn⟩) (iblk5 V c 4 ⟨n + 1, hn⟩) (outsAt5 c n (Nat.lt_of_succ_lt hn)).2, sout5_C_0 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) scM5_0 (Memref.isWhole_whole _) (fun h => hz ((hcond5_0 ⟨n + 1, hn⟩).mp h)) ((hcond5_1 ⟨n + 1, hn⟩).mpr hl) (iblk5 V c 0 ⟨n + 1, hn⟩) (iblk5 V c 1 ⟨n + 1, hn⟩) (iblk5 V c 2 ⟨n + 1, hn⟩) (iblk5 V c 3 ⟨n + 1, hn⟩) (iblk5 V c 4 ⟨n + 1, hn⟩) (outsAt5 c n (Nat.lt_of_succ_lt hn)).2)
      else
        False.elim (by omega)

/-- `outsAt5` at a point of case A: that case's contents. -/
theorem outsAt5_A (c : Dev nD) (t : Fin cfg5.N) (hz : t.val % 2 = 0) (hl : ¬t.val % 2 = 1) :
    outsAt5 V c t.val t.isLt = (out5_A_5 c (grid5.coords t) (ms5_0 t) (hs5_0 t) (ms5_1 t) (hs5_1 t) (ms5_2 t) (hs5_2 t) (ms5_3 t) (hs5_3 t) (ms5_4 t) (hs5_4 t) (ms5_5 t) (hs5_5 t) scM5_0 (Memref.isWhole_whole _) ((hcond5_0 t).mpr hz) (fun h => hl ((hcond5_1 t).mp h)) (iblk5 V c 0 t) (iblk5 V c 1 t) (iblk5 V c 2 t) (iblk5 V c 3 t) (iblk5 V c 4 t), sout5_A_0 c (grid5.coords t) (ms5_0 t) (hs5_0 t) (ms5_1 t) (hs5_1 t) (ms5_2 t) (hs5_2 t) (ms5_3 t) (hs5_3 t) (ms5_4 t) (hs5_4 t) (ms5_5 t) (hs5_5 t) scM5_0 (Memref.isWhole_whole _) ((hcond5_0 t).mpr hz) (fun h => hl ((hcond5_1 t).mp h)) (iblk5 V c 0 t) (iblk5 V c 1 t) (iblk5 V c 2 t) (iblk5 V c 3 t) (iblk5 V c 4 t)) := by
  obtain ⟨n, hn⟩ := t
  cases n with
  | zero => exact rfl
  | succ n => exact (dif_pos hz).trans ((dif_neg hl).trans rfl)

/-- `outsAt5` at a point of case C: that case's contents, over what the point before left in the accumulator. -/
theorem outsAt5_C (c : Dev nD) (t : Fin cfg5.N) (hz : ¬t.val % 2 = 0) (hl : t.val % 2 = 1) :
    outsAt5 V c t.val t.isLt = (out5_C_5 c (grid5.coords t) (ms5_0 t) (hs5_0 t) (ms5_1 t) (hs5_1 t) (ms5_2 t) (hs5_2 t) (ms5_3 t) (hs5_3 t) (ms5_4 t) (hs5_4 t) (ms5_5 t) (hs5_5 t) scM5_0 (Memref.isWhole_whole _) (fun h => hz ((hcond5_0 t).mp h)) ((hcond5_1 t).mpr hl) (iblk5 V c 0 t) (iblk5 V c 1 t) (iblk5 V c 2 t) (iblk5 V c 3 t) (iblk5 V c 4 t) (outsAt5 V c (t.val - 1) (Nat.lt_of_le_of_lt (Nat.sub_le _ _) t.isLt)).2, sout5_C_0 c (grid5.coords t) (ms5_0 t) (hs5_0 t) (ms5_1 t) (hs5_1 t) (ms5_2 t) (hs5_2 t) (ms5_3 t) (hs5_3 t) (ms5_4 t) (hs5_4 t) (ms5_5 t) (hs5_5 t) scM5_0 (Memref.isWhole_whole _) (fun h => hz ((hcond5_0 t).mp h)) ((hcond5_1 t).mpr hl) (iblk5 V c 0 t) (iblk5 V c 1 t) (iblk5 V c 2 t) (iblk5 V c 3 t) (iblk5 V c 4 t) (outsAt5 V c (t.val - 1) (Nat.lt_of_le_of_lt (Nat.sub_le _ _) t.isLt)).2) := by
  obtain ⟨n, hn⟩ := t
  cases n with
  | zero => exact (by exfalso; (try dsimp only at hz); exact absurd (Nat.zero_mod _) hz)
  | succ n => exact (dif_neg hz).trans ((dif_pos hl).trans rfl)

/-- The region invariant before position `n`, the kernel carrying its accumulator between points: before the first point
    the scoped rest with every scratch at anything; afterwards the accumulator at what the point before left in it
    (`outsAt5`'s second component), the other scoped buffers unopened, and the generator register at some state. -/
def PhiS5 (c : Dev nD) : (n : ℕ) → n ≤ cfg5.N → sProp 𝕄
  | 0, _ => Pipeline.ΦA spec5 c
  | n + 1, hn => iprop(iprop(owns (c : Thread nD τ) scM5_0 fullShare ((outsAt5 V c n hn).2) ∗ Pipeline.scopedRestBut (Ix := Unit) (Name := ℕ) (U := UR sig nD τ) (Lvl := ℕ) (Val := Elt F) spec5 c [cc5_scratch0]) ∗ (∃ r, prngReg c r))

theorem PhiS5_zero (c : Dev nD) (n : ℕ) (h : n ≤ cfg5.N) (hzero : n = 0) : PhiS5 V c n h = Pipeline.ΦA spec5 c := by
  subst hzero; rfl

/-- After point `n` (before point `n + 1`): the accumulator at that point's contents. -/
theorem PhiS5_succ (c : Dev nD) (n : ℕ) (hn : n < cfg5.N) :
    PhiS5 V c (n + 1) hn = iprop(iprop(owns (c : Thread nD τ) scM5_0 fullShare ((outsAt5 V c n hn).2) ∗ Pipeline.scopedRestBut (Ix := Unit) (Name := ℕ) (U := UR sig nD τ) (Lvl := ℕ) (Val := Elt F) spec5 c [cc5_scratch0]) ∗ (∃ r, prngReg c r)) := rfl

/-- Before a point that is not the first: the accumulator at what the point before left. -/
theorem PhiS5_pos (c : Dev nD) (n : ℕ) (h : n ≤ cfg5.N) (hzero : n ≠ 0) :
    PhiS5 V c n h = iprop(iprop(owns (c : Thread nD τ) scM5_0 fullShare ((outsAt5 V c (n - 1) (by omega)).2) ∗ Pipeline.scopedRestBut (Ix := Unit) (Name := ℕ) (U := UR sig nD τ) (Lvl := ℕ) (Val := Elt F) spec5 c [cc5_scratch0]) ∗ (∃ r, prngReg c r)) := by
  cases n with
  | zero => exact absurd rfl hzero
  | succ n => rfl

/-! ## The pipeline's proof data -/

/-- The proof data of pipeline 1 on core `c`: the arrays as the region finds them (`V`); after the body at point `t` each
    input's buffer at its block and the output's at `outsAt5`'s first component; the invariant `PhiS5`; nothing owed; full
    shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => (outsAt5 V c t.val t.isLt).1
  Φ t := PhiS5 V c t.val (Nat.le_of_lt_succ t.isLt)
  q _ := fullShare
  owed _ := 0

/-- The proof data's arrays are the region-entry contents (the definition projected, `V` never unfolded). -/
theorem A_eq5 (c : Dev nD) (w : Fin cfg5.W) : (dat5 V c).A w = V c (Pipeline.arrRef spec5 w) := by
  dsimp only [dat5]

/-- The invariant at a point's start (the proof data at `t.castSucc`), restated at `t.val`. -/
theorem PhiS5_castSucc (c : Dev nD) (t : Fin cfg5.N) :
    (dat5 V c).Φ t.castSucc = PhiS5 V c t.val (Nat.le_of_lt t.isLt) := by
  dsimp only [dat5]; simp only [Fin.coe_castSucc]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = (outsAt5 V c t.val t.isLt).1 := by dsimp only [dat5]

/-- Each input's current staging buffer holds its block at every point, fetched there or not. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d

/-! ## The body obligation, at a generic point -/

/-- What the body is called with at point `t` (the windows one by one), -/
def bodyPre5 (c : Dev nD) (t : Fin cfg5.N) : sProp 𝕄 :=
  iprop((dat5 V c).Φ t.castSucc ∗ (dat5 V c).owesAt () t.castSucc
    ∗ (∃ d, owns (c : Thread nD τ) (ms5_0 t) fullShare ((dat5 V c).before 0 t d))
    ∗ (∃ d, owns (c : Thread nD τ) (ms5_1 t) fullShare ((dat5 V c).before 1 t d))
    ∗ (∃ d, owns (c : Thread nD τ) (ms5_2 t) fullShare ((dat5 V c).before 2 t d))
    ∗ (∃ d, owns (c : Thread nD τ) (ms5_3 t) fullShare ((dat5 V c).before 3 t d))
    ∗ (∃ d, owns (c : Thread nD τ) (ms5_4 t) fullShare ((dat5 V c).before 4 t d))
    ∗ (∃ d, owns (c : Thread nD τ) (ms5_5 t) fullShare ((dat5 V c).before 5 t d)))

/-- and what it returns. -/
def bodyPost5 (c : Dev nD) (t : Fin cfg5.N) : sProp 𝕄 :=
  iprop((dat5 V c).Φ t.succ ∗ (dat5 V c).owesAt () t.succ
    ∗ (dat5 V c).leavesExact 0 t
    ∗ (dat5 V c).leavesExact 1 t
    ∗ (dat5 V c).leavesExact 2 t
    ∗ (dat5 V c).leavesExact 3 t
    ∗ (dat5 V c).leavesExact 4 t
    ∗ (dat5 V c).leavesExact 5 t)

set_option maxHeartbeats 4800000 in
/-- The body at any point: the inputs' memrefs hold their blocks; the closed forms say which case the point is in; the
    invariant hands the body the accumulator at what the point before left (at anything at the first point), the other
    scoped buffers and the generator register pass through, and it takes the accumulator back at this point's contents;
    in case A the output's buffer is handed back as found, in case C at its covering store; the core owes nothing
    throughout. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4]
  rw [show (dat5 V c).owesAt () t.succ = (dat5 V c).owesAt () t.castSucc from rfl]
  rw [show (dat5 V c).Φ t.succ = PhiS5 V c (t.val + 1) t.isLt from rfl, PhiS5_succ]
  have hN : t.val < 8 := lt_of_lt_of_eq t.isLt (show cfg5.N = 8 from N_5)
  by_cases hz : t.val % 2 = 0
  · have hl : ¬t.val % 2 = 1 := by omega
    rw [show (dat5 V c).leavesExact 0 t = owns (c : Thread nD τ) (ms5_0 t) fullShare ((dat5 V c).after 0 t) from by
      unfold Dat.leavesExact; rw [liveAt5_0 t], after5_0]
    rw [show (dat5 V c).leavesExact 1 t = owns (c : Thread nD τ) (ms5_1 t) fullShare ((dat5 V c).after 1 t) from by
      unfold Dat.leavesExact; rw [liveAt5_1 t], after5_1]
    rw [show (dat5 V c).leavesExact 2 t = owns (c : Thread nD τ) (ms5_2 t) fullShare ((dat5 V c).after 2 t) from by
      unfold Dat.leavesExact; rw [liveAt5_2 t], after5_2]
    rw [show (dat5 V c).leavesExact 3 t = owns (c : Thread nD τ) (ms5_3 t) fullShare ((dat5 V c).after 3 t) from by
      unfold Dat.leavesExact; rw [liveAt5_3 t], after5_3]
    rw [show (dat5 V c).leavesExact 4 t = owns (c : Thread nD τ) (ms5_4 t) fullShare ((dat5 V c).after 4 t) from by
      unfold Dat.leavesExact; rw [liveAt5_4 t], after5_4]
    rw [Dat.leavesExact_idle (dat5 V c) 5 t (idleAt5_5_A t ((hcond5_0 t).mpr hz) (fun h => hl ((hcond5_1 t).mp h))) (noFlush5_5_A t ((hcond5_0 t).mpr hz) (fun h => hl ((hcond5_1 t).mp h)))]
    rw [outsAt5_A V c t hz hl]
    unfold sout5_A_0; (try dsimp only)
    by_cases hzero : t.val = 0
    ·
      rw [PhiS5_castSucc V c t, PhiS5_zero V c _ _ hzero, PhiA5_eq]
      iintro ⟨⟨⟨Hs, Hr⟩, Hg⟩, Hw, ⟨%da, Ha⟩, ⟨%db, Hb⟩, ⟨%dc, Hc⟩, ⟨%dd, Hd⟩, ⟨%de, He⟩, ⟨%dq, Ho⟩⟩
      iapply ((kernelRun5_A c (grid5.coords t) _ _ _ _ _ _ _ _ _ _ _ _ _ _ ((hcond5_0 t).mpr hz) (fun h => hl ((hcond5_1 t).mp h)) (iblk5 V c 0 t) (iblk5 V c 1 t) (iblk5 V c 2 t) (iblk5 V c 3 t) (iblk5 V c 4 t)).2.2 _ Set.univ _)
      isplitl [Ha]; · iexact Ha
      isplitl [Hb]; · iexact Hb
      isplitl [Hc]; · iexact Hc
      isplitl [Hd]; · iexact Hd
      isplitl [He]; · iexact He
      isplitl [Ho]; · iexact Ho
      isplitl [Hs]; · iexact Hs
      iintro ⟨Ha, Hb, Hc, Hd, He, Ho, ⟨%es, Hs⟩⟩
      isplitl [Hs Hr Hg]
      · isplitl [Hs Hr]
        · isplitl [Hs]
          · unfold owns; iexists _; isplitr
            swap; · iexact Hs
            ipureintro; exact View.read_writes_of_cover _ _ _ _ _ (scover5_A_0 c _ _ _ _ _ _ _ _ _ _ _ _ _ _ _ _ _ _ _ _ _ _)
          iexact Hr
        iexact Hg
      isplitl [Hw]; · iexact Hw
      isplitl [Ha]; · iexact Ha
      isplitl [Hb]; · iexact Hb
      isplitl [Hc]; · iexact Hc
      isplitl [Hd]; · iexact Hd
      isplitl [He]; · iexact He
      iexists _; iexact Ho
    ·
      rw [PhiS5_castSucc V c t, PhiS5_pos V c _ _ hzero]
      iintro ⟨⟨⟨Hs, Hr⟩, Hg⟩, Hw, ⟨%da, Ha⟩, ⟨%db, Hb⟩, ⟨%dc, Hc⟩, ⟨%dd, Hd⟩, ⟨%de, He⟩, ⟨%dq, Ho⟩⟩
      iapply ((kernelRun5_A c (grid5.coords t) _ _ _ _ _ _ _ _ _ _ _ _ _ _ ((hcond5_0 t).mpr hz) (fun h => hl ((hcond5_1 t).mp h)) (iblk5 V c 0 t) (iblk5 V c 1 t) (iblk5 V c 2 t) (iblk5 V c 3 t) (iblk5 V c 4 t)).2.2 _ Set.univ _)
      isplitl [Ha]; · iexact Ha
      isplitl [Hb]; · iexact Hb
      isplitl [Hc]; · iexact Hc
      isplitl [Hd]; · iexact Hd
      isplitl [He]; · iexact He
      isplitl [Ho]; · iexact Ho
      isplitl [Hs]; · iexists _; iexact Hs
      iintro ⟨Ha, Hb, Hc, Hd, He, Ho, ⟨%es, Hs⟩⟩
      isplitl [Hs Hr Hg]
      · isplitl [Hs Hr]
        · isplitl [Hs]
          · unfold owns; iexists _; isplitr
            swap; · iexact Hs
            ipureintro; exact View.read_writes_of_cover _ _ _ _ _ (scover5_A_0 c _ _ _ _ _ _ _ _ _ _ _ _ _ _ _ _ _ _ _ _ _ _)
          iexact Hr
        iexact Hg
      isplitl [Hw]; · iexact Hw
      isplitl [Ha]; · iexact Ha
      isplitl [Hb]; · iexact Hb
      isplitl [Hc]; · iexact Hc
      isplitl [Hd]; · iexact Hd
      isplitl [He]; · iexact He
      iexists _; iexact Ho
  · have hl : t.val % 2 = 1 := by omega
    rw [show (dat5 V c).leavesExact 0 t = owns (c : Thread nD τ) (ms5_0 t) fullShare ((dat5 V c).after 0 t) from by
      unfold Dat.leavesExact; rw [liveAt5_0 t], after5_0]
    rw [show (dat5 V c).leavesExact 1 t = owns (c : Thread nD τ) (ms5_1 t) fullShare ((dat5 V c).after 1 t) from by
      unfold Dat.leavesExact; rw [liveAt5_1 t], after5_1]
    rw [show (dat5 V c).leavesExact 2 t = owns (c : Thread nD τ) (ms5_2 t) fullShare ((dat5 V c).after 2 t) from by
      unfold Dat.leavesExact; rw [liveAt5_2 t], after5_2]
    rw [show (dat5 V c).leavesExact 3 t = owns (c : Thread nD τ) (ms5_3 t) fullShare ((dat5 V c).after 3 t) from by
      unfold Dat.leavesExact; rw [liveAt5_3 t], after5_3]
    rw [show (dat5 V c).leavesExact 4 t = owns (c : Thread nD τ) (ms5_4 t) fullShare ((dat5 V c).after 4 t) from by
      unfold Dat.leavesExact; rw [liveAt5_4 t], after5_4]
    rw [show (dat5 V c).leavesExact 5 t = owns (c : Thread nD τ) (ms5_5 t) fullShare ((dat5 V c).after 5 t) from by
      unfold Dat.leavesExact; rw [liveAt5_5_C t (fun h => hz ((hcond5_0 t).mp h)) ((hcond5_1 t).mpr hl)], after5_5]
    rw [outsAt5_C V c t hz hl]
    unfold out5_C_5 sout5_C_0; (try dsimp only)
    have hzero : t.val ≠ 0 := by omega
    · rw [PhiS5_castSucc V c t, PhiS5_pos V c _ _ hzero]
      iintro ⟨⟨⟨Hs, Hr⟩, Hg⟩, Hw, ⟨%da, Ha⟩, ⟨%db, Hb⟩, ⟨%dc, Hc⟩, ⟨%dd, Hd⟩, ⟨%de, He⟩, ⟨%dq, Ho⟩⟩
      iapply ((kernelRun5_C c (grid5.coords t) _ _ _ _ _ _ _ _ _ _ _ _ _ _ (fun h => hz ((hcond5_0 t).mp h)) ((hcond5_1 t).mpr hl) (iblk5 V c 0 t) (iblk5 V c 1 t) (iblk5 V c 2 t) (iblk5 V c 3 t) (iblk5 V c 4 t) _).2.2 Set.univ _)
      isplitl [Ha]; · iexact Ha
      isplitl [Hb]; · iexact Hb
      isplitl [Hc]; · iexact Hc
      isplitl [Hd]; · iexact Hd
      isplitl [He]; · iexact He
      isplitl [Ho]; · iexists _; iexact Ho
      isplitl [Hs]; · iexact Hs
      iintro ⟨Ha, Hb, Hc, Hd, He, ⟨%eo, Ho⟩, ⟨%es, Hs⟩⟩
      isplitl [Hs Hr Hg]
      · isplitl [Hs Hr]
        · isplitl [Hs]
          · unfold owns; iexists _; isplitr
            swap; · iexact Hs
            ipureintro; exact View.read_writes_of_cover _ _ _ _ _ (scover5_C_0 c _ _ _ _ _ _ _ _ _ _ _ _ _ _ _ _ _ _ _ _ _ _ _)
          iexact Hr
        iexact Hg
      isplitl [Hw]; · iexact Hw
      isplitl [Ha]; · iexact Ha
      isplitl [Hb]; · iexact Hb
      isplitl [Hc]; · iexact Hc
      isplitl [Hd]; · iexact Hd
      isplitl [He]; · iexact He
      unfold owns; iexists _; isplitr
      swap; · iexact Ho
      ipureintro; exact View.read_writes_of_cover _ _ _ _ _ (cover5_C_5 c _ _ _ _ _ _ _ _ _ _ _ _ _ _ _ _ _ _ _ _ _ _ _)

/-- The library's body obligation, at every point. -/
theorem body_obligation5 (c : Dev nD) : BodyObligation (dat5 (F := F) V c) (defs₀ (F := F)) Variants.none () Set.univ := fun t => by
  rw [bigSep_W5, bigSep_W5]
  exact sound_body5 V c t

/-- What the launch hands the region is the invariant before the first point. -/
theorem hin5 (c : Dev nD) : Pipeline.ΦA spec5 c ⊢ (dat5 V c).Φ 0 := by
  rw [show (dat5 V c).Φ 0 = PhiS5 V c 0 (Nat.zero_le _) from rfl, PhiS5_zero V c 0 _ rfl]
  try exact Idealize.SL.BI.Entails.refl _

/-- After any point but the first the invariant gives the launch's back: the accumulator's named contents are forgotten. -/
theorem Phi_out5 (c : Dev nD) (t : Fin (cfg5.N + 1)) (ht : t.val ≠ 0) : (dat5 V c).Φ t ⊢ Pipeline.ΦA spec5 c := by
  rw [show (dat5 V c).Φ t = PhiS5 V c t.val (Nat.le_of_lt_succ t.isLt) from rfl, PhiS5_pos V c _ _ ht, PhiA5_eq]
  iintro ⟨⟨Hs, Hr⟩, Hg⟩
  isplitl [Hs Hr]
  · isplitl [Hs]
    · iexists _; iexact Hs
    iexact Hr
  iexact Hg

/-- The same after the last point. -/
theorem hout5 (c : Dev nD) : (dat5 V c).Φ (Fin.last cfg5.N) ⊢ Pipeline.ΦA spec5 c :=
  Phi_out5 V c _ (by rw [Fin.val_last]; have : cfg5.N = 8 := N_5; omega)

end Region

end Cert.KernelIdeal.Hand

end
-- ==== Proof.KI.Reg6Runs.lean ====
/-
  Region 6 (an edge update relu(he + vew2ᵀ·hv)), the definitions its two runs share.
  The grid is (i, k) with k of extent 2: point t has k = t mod 2. At k = 0 the accumulator is zeroed and the first
  half of the contraction added; at k = 1 the second half is added and the output block stored. Everything is stated
  at a parameter V, the TensorCore's buffer contents when the region is entered.
-/
import proofs.«181597_j77979426226450_2_alg».proof.Proof.Gen.KernelIdeal.Launch
import proofs.«181597_j77979426226450_2_alg».proof.Proof.Gen.KernelIdeal.Skeleton
import proofs.«181597_j77979426226450_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- An input window's current staging buffer holds its block at every point, fetched there or not: when it is not
    fetched its block index has not moved, so the block of the point before is this point's. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-! ## The body's two branch conditions, decided over the grid -/

/-- "k = 0": the accumulator is zeroed. -/
abbrev cond6_0 (i : grid6.Coords) : Prop := (Scalar.cmpi .ne (Scalar.extui (Scalar.cmpi .eq (BitVec.ofNat 32 (i 1).val) 0#32)) 0#32) = 1#1
theorem hcond6_0 : ∀ t : Fin cfg6.N, cond6_0 (grid6.coords t) ↔ t.val % 2 = 0 :=
  (by decide +kernel : ∀ t : Fin grid6.N, cond6_0 (grid6.coords t) ↔ t.val % 2 = 0)
/-- "k = 1", the last step: the output block is stored. -/
abbrev cond6_1 (i : grid6.Coords) : Prop := k6_cond2 i = 1#1
theorem hcond6_1 : ∀ t : Fin cfg6.N, cond6_1 (grid6.coords t) ↔ t.val % 2 = 1 :=
  (by decide +kernel : ∀ t : Fin grid6.N, cond6_1 (grid6.coords t) ↔ t.val % 2 = 1)

/-! ## Where the output window is idle -/

theorem liveAt6_0 : ∀ t : Fin cfg6.N, cfg6.idle 0 (grid6.coords t) = false := by decide +kernel
theorem liveAt6_1 : ∀ t : Fin cfg6.N, cfg6.idle 1 (grid6.coords t) = false := by decide +kernel
theorem liveAt6_2 : ∀ t : Fin cfg6.N, cfg6.idle 2 (grid6.coords t) = false := by decide +kernel
/-- At k = 0 nothing is stored into the output's buffer, and its block is not written back. -/
theorem idleAt6_3_A : ∀ t : Fin cfg6.N, cond6_0 (grid6.coords t) → ¬cond6_1 (grid6.coords t) → cfg6.idle 3 (grid6.coords t) = true := by decide +kernel
theorem noFlush6_3_A : ∀ t : Fin cfg6.N, cond6_0 (grid6.coords t) → ¬cond6_1 (grid6.coords t) → (cfg6.win 3).flush t = false := by decide +kernel
/-- At k = 1 it is stored. -/
theorem liveAt6_3_C : ∀ t : Fin cfg6.N, ¬cond6_0 (grid6.coords t) → cond6_1 (grid6.coords t) → cfg6.idle 3 (grid6.coords t) = false := by decide +kernel

/-! ## The memrefs the body is called with -/

/-- One staging buffer of the output window, through which its contents are stated. -/
abbrev VO6_3 : View sig .tc .vmem S1024x128 .f32 := (Memref.whole cc6_stg3_0 : Memref sig .tc .vmem S1024x128 .f32).view
abbrev ms6_0 (t : Fin cfg6.N) : Memref sig .tc .vmem S2048x1024 .bf16 := win6_0.stage (cfg6.slots t 0)
abbrev hs6_0 (t : Fin cfg6.N) : (ms6_0 t).IsWhole := hstage6_0 ((cfg6.slots t 0).cast nbuf6_0)
abbrev ms6_1 (t : Fin cfg6.N) : Memref sig .tc .vmem S2048x128 .f32 := win6_1.stage (cfg6.slots t 1)
abbrev hs6_1 (t : Fin cfg6.N) : (ms6_1 t).IsWhole := hstage6_1 ((cfg6.slots t 1).cast nbuf6_1)
abbrev ms6_2 (t : Fin cfg6.N) : Memref sig .tc .vmem S1024x128 .f32 := win6_2.stage (cfg6.slots t 2)
abbrev hs6_2 (t : Fin cfg6.N) : (ms6_2 t).IsWhole := hstage6_2 ((cfg6.slots t 2).cast nbuf6_2)
abbrev ms6_3 (t : Fin cfg6.N) : Memref sig .tc .vmem S1024x128 .f32 := win6_3.stage (cfg6.slots t 3)
abbrev hs6_3 (t : Fin cfg6.N) : (ms6_3 t).IsWhole := hstage6_3 ((cfg6.slots t 3).cast nbuf6_3)
/-- The accumulator: a whole scoped buffer of the kernel's own. -/
abbrev scM6_0 : Memref sig .tc .vmem S1024x128 .f32 := Memref.whole cc6_scratch0
abbrev VS6_0 : View sig .tc .vmem S1024x128 .f32 := scM6_0.view

/-- What the region may use and need not describe, with the accumulator split out: the accumulator at some contents,
    every other scoped buffer unopened, the generator register at some state. -/
theorem PhiA6_eq (c : Dev nD) :
    (Pipeline.ΦA spec6 c : sProp 𝕄)
      = iprop(iprop((∃ d, owns (c : Thread nD τ) scM6_0 fullShare d)
          ∗ Pipeline.scopedRestBut (Ix := Unit) (Name := ℕ) (U := UR sig nD τ) (Lvl := ℕ) (Val := Elt F) spec6 c [cc6_scratch0]) ∗ (∃ r, prngReg c r)) := by
  unfold Pipeline.ΦA; rw [scopedRest6_split]; simp only [scM6_0, owns_whole]; try rfl

end Cert.KernelIdeal.Hand

end
-- ==== Proof.KI.Reg6RunA.lean ====
/-
  Region 6, the body at k = 0: the accumulator is zeroed, the first half of the contraction (the one-hot block against
  the feature block and against its rounding remainder) is added to it, and nothing is stored into the output's buffer.
-/
import proofs.«181597_j77979426226450_2_alg».proof.Proof.KI.Reg6Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's stores leave in the accumulator at k = 0 (last first), with the proof that on whole staging
    memrefs — the three inputs at their contents, the output's buffer at contents handed back untouched, the
    accumulator at anything — the body runs to a continuation holding the inputs and the output's buffer as they were and
    the accumulator with those pieces written. -/
noncomputable def kernelRun6_A (c : Dev nD) (i : grid6.Coords) (arg2 : Memref sig .tc .vmem S2048x1024 .bf16) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : cond6_0 i) (hc1 : ¬cond6_1 i)
    (x0 : Vec F S2048x1024 .bf16) (x1 : Vec F S2048x128 .f32) (x2 : Vec F S1024x128 .f32) :
    Σ' (L3 : List (View.Piece (Elt F) S1024x128 .f32)), { LS0 : List (View.Piece (Elt F) S1024x128 .f32) //
      ∀ (xi3 : Vec F S1024x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc6__agg_relu_kernel i arg2 harg2 arg3 harg3 arg4 harg4 arg5 harg5 arg6 harg6) K } := by
  refine ⟨[], ?_, fun xi3 E K => ?run⟩
  case run =>
    simp only [cc6__agg_relu_kernel_eq_skeleton]; unfold cc6__agg_relu_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Hand

end
-- ==== Proof.KI.Reg6RunC.lean ====
/-
  Region 6, the body at k = 1: the second half of the contraction is added to the accumulator, and the output block is
  stored: the maximum of zero and the accumulator plus the edge features.
-/
import proofs.«181597_j77979426226450_2_alg».proof.Proof.KI.Reg6RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's stores leave in the output's buffer and in the accumulator at k = 1 (last first), with the
    proof that on whole staging memrefs — the three inputs at their contents, the output's buffer at anything, the
    accumulator at what the point before left — the body runs to a continuation holding the inputs as they were and the
    output's buffer and the accumulator with those pieces written. -/
noncomputable def kernelRun6_C (c : Dev nD) (i : grid6.Coords) (arg2 : Memref sig .tc .vmem S2048x1024 .bf16) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : ¬cond6_0 i) (hc1 : cond6_1 i)
    (x0 : Vec F S2048x1024 .bf16) (x1 : Vec F S2048x128 .f32) (x2 : Vec F S1024x128 .f32) (xs0 : Vec F S1024x128 .f32) :
    Σ' (L3 : List (View.Piece (Elt F) S1024x128 .f32)), { LS0 : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc6__agg_relu_kernel i arg2 harg2 arg3 harg3 arg4 harg4 arg5 harg5 arg6 harg6) K } := by
  refine ⟨?_, ?_, fun E K => ?run⟩
  case run =>
    simp only [cc6__agg_relu_kernel_eq_skeleton]; unfold cc6__agg_relu_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.KernelIdeal.Hand

end
-- ==== Proof.KI.Reg6.lean ====
/-
  Region 6: what the body leaves at each point, the accumulation over the grid, the pipeline's proof data and the body
  obligation. The accumulator holds, after the point (i, 0), the first half of the contraction for row block i, and after
  (i, 1) the whole contraction; the output block of row block i is stored at (i, 1) from the accumulator.
-/
import proofs.«181597_j77979426226450_2_alg».proof.Proof.KI.Reg6RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- At k = 0 nothing is stored into the output's buffer: a placeholder nothing consults (the window is neither written
    back there nor read at the next point before being covered). -/
def out6_A_3 (c : Dev nD) (i : grid6.Coords) (arg2 : Memref sig .tc .vmem S2048x1024 .bf16) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : cond6_0 i) (hc1 : ¬cond6_1 i)
    (x0 : Vec F S2048x1024 .bf16) (x1 : Vec F S2048x128 .f32) (x2 : Vec F S1024x128 .f32) : Vec F S1024x128 .f32 :=
  VO6_3.read (Elt F) (VO6_3.writes (Elt F) VO6_3.junk (kernelRun6_A c i arg2 harg2 arg3 harg3 arg4 harg4 arg5 harg5 arg6 harg6 hc0 hc1 x0 x1 x2).1)

/-- The stores of k = 0 into the accumulator cover it. -/
theorem scover6_A_0 (c : Dev nD) (i : grid6.Coords) (arg2 : Memref sig .tc .vmem S2048x1024 .bf16) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : cond6_0 i) (hc1 : ¬cond6_1 i)
    (x0 : Vec F S2048x1024 .bf16) (x1 : Vec F S2048x128 .f32) (x2 : Vec F S1024x128 .f32) (y : S1024x128.Idx) :
    ∃ pc ∈ (kernelRun6_A c i arg2 harg2 arg3 harg3 arg4 harg4 arg5 harg5 arg6 harg6 hc0 hc1 x0 x1 x2).2.1, y ∈ pc.1.set :=
  View.cover_of_tiledL (kernelRun6_A c i arg2 harg2 arg3 harg3 arg4 harg4 arg5 harg5 arg6 harg6 hc0 hc1 x0 x1 x2).2.1 S1024x128.size (by sl_kernel_rfl) y

/-- What k = 0 leaves in the accumulator. -/
def sout6_A_0 (c : Dev nD) (i : grid6.Coords) (arg2 : Memref sig .tc .vmem S2048x1024 .bf16) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : cond6_0 i) (hc1 : ¬cond6_1 i)
    (x0 : Vec F S2048x1024 .bf16) (x1 : Vec F S2048x128 .f32) (x2 : Vec F S1024x128 .f32) : Vec F S1024x128 .f32 :=
  VS6_0.read (Elt F) (VS6_0.writes (Elt F) VS6_0.junk (kernelRun6_A c i arg2 harg2 arg3 harg3 arg4 harg4 arg5 harg5 arg6 harg6 hc0 hc1 x0 x1 x2).2.1)

/-- The store of k = 1 into the output's buffer covers it. -/
theorem cover6_C_3 (c : Dev nD) (i : grid6.Coords) (arg2 : Memref sig .tc .vmem S2048x1024 .bf16) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : ¬cond6_0 i) (hc1 : cond6_1 i)
    (x0 : Vec F S2048x1024 .bf16) (x1 : Vec F S2048x128 .f32) (x2 : Vec F S1024x128 .f32) (xs0 : Vec F S1024x128 .f32) (y : S1024x128.Idx) :
    ∃ pc ∈ (kernelRun6_C c i arg2 harg2 arg3 harg3 arg4 harg4 arg5 harg5 arg6 harg6 hc0 hc1 x0 x1 x2 xs0).1, y ∈ pc.1.set :=
  View.cover_of_tiledL (kernelRun6_C c i arg2 harg2 arg3 harg3 arg4 harg4 arg5 harg5 arg6 harg6 hc0 hc1 x0 x1 x2 xs0).1 S1024x128.size (by sl_kernel_rfl) y

/-- What k = 1 leaves in the output's buffer. -/
def out6_C_3 (c : Dev nD) (i : grid6.Coords) (arg2 : Memref sig .tc .vmem S2048x1024 .bf16) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : ¬cond6_0 i) (hc1 : cond6_1 i)
    (x0 : Vec F S2048x1024 .bf16) (x1 : Vec F S2048x128 .f32) (x2 : Vec F S1024x128 .f32) (xs0 : Vec F S1024x128 .f32) : Vec F S1024x128 .f32 :=
  VO6_3.read (Elt F) (VO6_3.writes (Elt F) VO6_3.junk (kernelRun6_C c i arg2 harg2 arg3 harg3 arg4 harg4 arg5 harg5 arg6 harg6 hc0 hc1 x0 x1 x2 xs0).1)

/-- The store of k = 1 into the accumulator covers it. -/
theorem scover6_C_0 (c : Dev nD) (i : grid6.Coords) (arg2 : Memref sig .tc .vmem S2048x1024 .bf16) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : ¬cond6_0 i) (hc1 : cond6_1 i)
    (x0 : Vec F S2048x1024 .bf16) (x1 : Vec F S2048x128 .f32) (x2 : Vec F S1024x128 .f32) (xs0 : Vec F S1024x128 .f32) (y : S1024x128.Idx) :
    ∃ pc ∈ (kernelRun6_C c i arg2 harg2 arg3 harg3 arg4 harg4 arg5 harg5 arg6 harg6 hc0 hc1 x0 x1 x2 xs0).2.1, y ∈ pc.1.set :=
  View.cover_of_tiledL (kernelRun6_C c i arg2 harg2 arg3 harg3 arg4 harg4 arg5 harg5 arg6 harg6 hc0 hc1 x0 x1 x2 xs0).2.1 S1024x128.size (by sl_kernel_rfl) y

/-- What k = 1 leaves in the accumulator. -/
def sout6_C_0 (c : Dev nD) (i : grid6.Coords) (arg2 : Memref sig .tc .vmem S2048x1024 .bf16) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : ¬cond6_0 i) (hc1 : cond6_1 i)
    (x0 : Vec F S2048x1024 .bf16) (x1 : Vec F S2048x128 .f32) (x2 : Vec F S1024x128 .f32) (xs0 : Vec F S1024x128 .f32) : Vec F S1024x128 .f32 :=
  VS6_0.read (Elt F) (VS6_0.writes (Elt F) VS6_0.junk (kernelRun6_C c i arg2 harg2 arg3 harg3 arg4 harg4 arg5 harg5 arg6 harg6 hc0 hc1 x0 x1 x2 xs0).2.1)

/-! ## What the output's buffer and the accumulator hold after each point -/

/-- The accumulation: after position n, the pair (output's buffer, accumulator) — at an even position the case k = 0 run
    at the point's blocks, at an odd one the case k = 1 run at the point's blocks over the accumulator the point before
    left. -/
def outsAt6 (c : Dev nD) : (n : ℕ) → n < cfg6.N → Vec F S1024x128 .f32 × Vec F S1024x128 .f32
  | 0, hn => (out6_A_3 c (grid6.coords ⟨0, hn⟩) (ms6_0 ⟨0, hn⟩) (hs6_0 ⟨0, hn⟩) (ms6_1 ⟨0, hn⟩) (hs6_1 ⟨0, hn⟩) (ms6_2 ⟨0, hn⟩) (hs6_2 ⟨0, hn⟩) (ms6_3 ⟨0, hn⟩) (hs6_3 ⟨0, hn⟩) scM6_0 (Memref.isWhole_whole _) ((hcond6_0 ⟨0, hn⟩).mpr (Nat.zero_mod _)) (fun h => (fun h => by (try dsimp only at h); omega) ((hcond6_1 ⟨0, hn⟩).mp h)) (iblk6 V c 0 ⟨0, hn⟩) (iblk6 V c 1 ⟨0, hn⟩) (iblk6 V c 2 ⟨0, hn⟩),
      sout6_A_0 c (grid6.coords ⟨0, hn⟩) (ms6_0 ⟨0, hn⟩) (hs6_0 ⟨0, hn⟩) (ms6_1 ⟨0, hn⟩) (hs6_1 ⟨0, hn⟩) (ms6_2 ⟨0, hn⟩) (hs6_2 ⟨0, hn⟩) (ms6_3 ⟨0, hn⟩) (hs6_3 ⟨0, hn⟩) scM6_0 (Memref.isWhole_whole _) ((hcond6_0 ⟨0, hn⟩).mpr (Nat.zero_mod _)) (fun h => (fun h => by (try dsimp only at h); omega) ((hcond6_1 ⟨0, hn⟩).mp h)) (iblk6 V c 0 ⟨0, hn⟩) (iblk6 V c 1 ⟨0, hn⟩) (iblk6 V c 2 ⟨0, hn⟩))
  | n + 1, hn =>
    if h0 : (n + 1) % 2 = 0 then
      if h1 : (n + 1) % 2 = 1 then
        False.elim (by omega)
      else
        (out6_A_3 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) scM6_0 (Memref.isWhole_whole _) ((hcond6_0 ⟨n + 1, hn⟩).mpr h0) (fun h => h1 ((hcond6_1 ⟨n + 1, hn⟩).mp h)) (iblk6 V c 0 ⟨n + 1, hn⟩) (iblk6 V c 1 ⟨n + 1, hn⟩) (iblk6 V c 2 ⟨n + 1, hn⟩),
          sout6_A_0 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) scM6_0 (Memref.isWhole_whole _) ((hcond6_0 ⟨n + 1, hn⟩).mpr h0) (fun h => h1 ((hcond6_1 ⟨n + 1, hn⟩).mp h)) (iblk6 V c 0 ⟨n + 1, hn⟩) (iblk6 V c 1 ⟨n + 1, hn⟩) (iblk6 V c 2 ⟨n + 1, hn⟩))
    else
      if h1 : (n + 1) % 2 = 1 then
        (out6_C_3 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) scM6_0 (Memref.isWhole_whole _) (fun h => h0 ((hcond6_0 ⟨n + 1, hn⟩).mp h)) ((hcond6_1 ⟨n + 1, hn⟩).mpr h1) (iblk6 V c 0 ⟨n + 1, hn⟩) (iblk6 V c 1 ⟨n + 1, hn⟩) (iblk6 V c 2 ⟨n + 1, hn⟩) (outsAt6 c n (Nat.lt_of_succ_lt hn)).2,
          sout6_C_0 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) (ms6_3 ⟨n + 1, hn⟩) (hs6_3 ⟨n + 1, hn⟩) scM6_0 (Memref.isWhole_whole _) (fun h => h0 ((hcond6_0 ⟨n + 1, hn⟩).mp h)) ((hcond6_1 ⟨n + 1, hn⟩).mpr h1) (iblk6 V c 0 ⟨n + 1, hn⟩) (iblk6 V c 1 ⟨n + 1, hn⟩) (iblk6 V c 2 ⟨n + 1, hn⟩) (outsAt6 c n (Nat.lt_of_succ_lt hn)).2)
      else
        False.elim (by omega)

/-- At a point with k = 0: that case's contents. -/
theorem outsAt6_A (c : Dev nD) (t : Fin cfg6.N) (h0 : t.val % 2 = 0) (h1 : ¬t.val % 2 = 1) :
    outsAt6 V c t.val t.isLt = (out6_A_3 c (grid6.coords t) (ms6_0 t) (hs6_0 t) (ms6_1 t) (hs6_1 t) (ms6_2 t) (hs6_2 t) (ms6_3 t) (hs6_3 t) scM6_0 (Memref.isWhole_whole _) ((hcond6_0 t).mpr h0) (fun h => h1 ((hcond6_1 t).mp h)) (iblk6 V c 0 t) (iblk6 V c 1 t) (iblk6 V c 2 t),
      sout6_A_0 c (grid6.coords t) (ms6_0 t) (hs6_0 t) (ms6_1 t) (hs6_1 t) (ms6_2 t) (hs6_2 t) (ms6_3 t) (hs6_3 t) scM6_0 (Memref.isWhole_whole _) ((hcond6_0 t).mpr h0) (fun h => h1 ((hcond6_1 t).mp h)) (iblk6 V c 0 t) (iblk6 V c 1 t) (iblk6 V c 2 t)) := by
  obtain ⟨n, hn⟩ := t
  cases n with
  | zero => exact rfl
  | succ n => exact (dif_pos h0).trans ((dif_neg h1).trans rfl)

/-- At a point with k = 1: that case's contents, over the accumulator the point before left. -/
theorem outsAt6_C (c : Dev nD) (t : Fin cfg6.N) (h0 : ¬t.val % 2 = 0) (h1 : t.val % 2 = 1) :
    outsAt6 V c t.val t.isLt = (out6_C_3 c (grid6.coords t) (ms6_0 t) (hs6_0 t) (ms6_1 t) (hs6_1 t) (ms6_2 t) (hs6_2 t) (ms6_3 t) (hs6_3 t) scM6_0 (Memref.isWhole_whole _) (fun h => h0 ((hcond6_0 t).mp h)) ((hcond6_1 t).mpr h1) (iblk6 V c 0 t) (iblk6 V c 1 t) (iblk6 V c 2 t) (outsAt6 V c (t.val - 1) (Nat.lt_of_le_of_lt (Nat.sub_le _ _) t.isLt)).2,
      sout6_C_0 c (grid6.coords t) (ms6_0 t) (hs6_0 t) (ms6_1 t) (hs6_1 t) (ms6_2 t) (hs6_2 t) (ms6_3 t) (hs6_3 t) scM6_0 (Memref.isWhole_whole _) (fun h => h0 ((hcond6_0 t).mp h)) ((hcond6_1 t).mpr h1) (iblk6 V c 0 t) (iblk6 V c 1 t) (iblk6 V c 2 t) (outsAt6 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position n: before the first point what the region may use, undescribed; afterwards
    the accumulator at what the point before left in it, the other scoped buffers unopened, the generator register at
    some state. -/
def PhiS6 (c : Dev nD) : (n : ℕ) → n ≤ cfg6.N → sProp 𝕄
  | 0, _ => Pipeline.ΦA spec6 c
  | n + 1, hn => iprop(iprop(owns (c : Thread nD τ) scM6_0 fullShare ((outsAt6 V c n hn).2)
      ∗ Pipeline.scopedRestBut (Ix := Unit) (Name := ℕ) (U := UR sig nD τ) (Lvl := ℕ) (Val := Elt F) spec6 c [cc6_scratch0]) ∗ (∃ r, prngReg c r))

theorem PhiS6_zero (c : Dev nD) (n : ℕ) (h : n ≤ cfg6.N) (hz : n = 0) : PhiS6 V c n h = Pipeline.ΦA spec6 c := by
  subst hz; rfl

theorem PhiS6_succ (c : Dev nD) (n : ℕ) (hn : n < cfg6.N) :
    PhiS6 V c (n + 1) hn = iprop(iprop(owns (c : Thread nD τ) scM6_0 fullShare ((outsAt6 V c n hn).2)
      ∗ Pipeline.scopedRestBut (Ix := Unit) (Name := ℕ) (U := UR sig nD τ) (Lvl := ℕ) (Val := Elt F) spec6 c [cc6_scratch0]) ∗ (∃ r, prngReg c r)) := rfl

theorem PhiS6_pos (c : Dev nD) (n : ℕ) (h : n ≤ cfg6.N) (hz : n ≠ 0) :
    PhiS6 V c n h = iprop(iprop(owns (c : Thread nD τ) scM6_0 fullShare ((outsAt6 V c (n - 1) (by omega)).2)
      ∗ Pipeline.scopedRestBut (Ix := Unit) (Name := ℕ) (U := UR sig nD τ) (Lvl := ℕ) (Val := Elt F) spec6 c [cc6_scratch0]) ∗ (∃ r, prngReg c r)) := by
  cases n with
  | zero => exact absurd rfl hz
  | succ n => rfl

/-! ## The pipeline's proof data -/

/-- The arrays as the region finds them; after the body each input's buffer at its block and the output's at the
    accumulation's first component; the invariant above; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => (outsAt6 V c t.val t.isLt).1
  Φ t := PhiS6 V c t.val (Nat.le_of_lt_succ t.isLt)
  q _ := fullShare
  owed _ := 0

theorem A_eq6 (c : Dev nD) (w : Fin cfg6.W) : (dat6 V c).A w = V c (Pipeline.arrRef spec6 w) := by
  dsimp only [dat6]

theorem PhiS6_castSucc (c : Dev nD) (t : Fin cfg6.N) :
    (dat6 V c).Φ t.castSucc = PhiS6 V c t.val (Nat.le_of_lt t.isLt) := by
  dsimp only [dat6]; simp only [Fin.coe_castSucc]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = (outsAt6 V c t.val t.isLt).1 := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d

/-! ## The body obligation, at a generic point -/

/-- What the body is called with at point t, the windows one by one, -/
def bodyPre6 (c : Dev nD) (t : Fin cfg6.N) : sProp 𝕄 :=
  iprop((dat6 V c).Φ t.castSucc ∗ (dat6 V c).owesAt () t.castSucc
    ∗ (∃ d, owns (c : Thread nD τ) (ms6_0 t) fullShare ((dat6 V c).before 0 t d))
    ∗ (∃ d, owns (c : Thread nD τ) (ms6_1 t) fullShare ((dat6 V c).before 1 t d))
    ∗ (∃ d, owns (c : Thread nD τ) (ms6_2 t) fullShare ((dat6 V c).before 2 t d))
    ∗ (∃ d, owns (c : Thread nD τ) (ms6_3 t) fullShare ((dat6 V c).before 3 t d)))

/-- and what it returns. -/
def bodyPost6 (c : Dev nD) (t : Fin cfg6.N) : sProp 𝕄 :=
  iprop((dat6 V c).Φ t.succ ∗ (dat6 V c).owesAt () t.succ
    ∗ (dat6 V c).leavesExact 0 t
    ∗ (dat6 V c).leavesExact 1 t
    ∗ (dat6 V c).leavesExact 2 t
    ∗ (dat6 V c).leavesExact 3 t)

set_option maxHeartbeats 4800000 in
/-- The body at any point: the inputs' memrefs hold their blocks; k decides the case; the invariant hands the body the
    accumulator (at anything at the first point, else at what the point before left) and takes it back at this point's
    contents; the core owes nothing throughout. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2]
  rw [show (dat6 V c).owesAt () t.succ = (dat6 V c).owesAt () t.castSucc from rfl]
  rw [show (dat6 V c).Φ t.succ = PhiS6 V c (t.val + 1) t.isLt from rfl, PhiS6_succ]
  have hN : t.val < 16 := lt_of_lt_of_eq t.isLt (show cfg6.N = 16 from N_6)
  rw [show (dat6 V c).leavesExact 0 t = owns (c : Thread nD τ) (ms6_0 t) fullShare ((dat6 V c).after 0 t) from by
    unfold Dat.leavesExact; rw [liveAt6_0 t], after6_0]
  rw [show (dat6 V c).leavesExact 1 t = owns (c : Thread nD τ) (ms6_1 t) fullShare ((dat6 V c).after 1 t) from by
    unfold Dat.leavesExact; rw [liveAt6_1 t], after6_1]
  rw [show (dat6 V c).leavesExact 2 t = owns (c : Thread nD τ) (ms6_2 t) fullShare ((dat6 V c).after 2 t) from by
    unfold Dat.leavesExact; rw [liveAt6_2 t], after6_2]
  by_cases h0 : t.val % 2 = 0
  · have h1 : ¬t.val % 2 = 1 := by omega
    rw [Dat.leavesExact_idle (dat6 V c) 3 t (idleAt6_3_A t ((hcond6_0 t).mpr h0) (fun h => h1 ((hcond6_1 t).mp h))) (noFlush6_3_A t ((hcond6_0 t).mpr h0) (fun h => h1 ((hcond6_1 t).mp h)))]
    rw [outsAt6_A V c t h0 h1]
    unfold sout6_A_0; (try dsimp only)
    by_cases hz : t.val = 0
    · rw [PhiS6_castSucc V c t, PhiS6_zero V c _ _ hz, PhiA6_eq]
      iintro ⟨⟨⟨HS0, Hrest⟩, Hg⟩, Ho, ⟨%d0, H0⟩, ⟨%d1, H1⟩, ⟨%d2, H2⟩, ⟨%d3, H3⟩⟩
      iapply ((kernelRun6_A c (grid6.coords t) _ _ _ _ _ _ _ _ _ _ ((hcond6_0 t).mpr h0) (fun h => h1 ((hcond6_1 t).mp h)) (iblk6 V c 0 t) (iblk6 V c 1 t) (iblk6 V c 2 t)).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover6_A_0 c _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3
    · rw [PhiS6_castSucc V c t, PhiS6_pos V c _ _ hz]
      iintro ⟨⟨⟨HS0, Hrest⟩, Hg⟩, Ho, ⟨%d0, H0⟩, ⟨%d1, H1⟩, ⟨%d2, H2⟩, ⟨%d3, H3⟩⟩
      iapply ((kernelRun6_A c (grid6.coords t) _ _ _ _ _ _ _ _ _ _ ((hcond6_0 t).mpr h0) (fun h => h1 ((hcond6_1 t).mp h)) (iblk6 V c 0 t) (iblk6 V c 1 t) (iblk6 V c 2 t)).2.2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover6_A_0 c _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3
  · have h1 : t.val % 2 = 1 := by omega
    rw [show (dat6 V c).leavesExact 3 t = owns (c : Thread nD τ) (ms6_3 t) fullShare ((dat6 V c).after 3 t) from by
      unfold Dat.leavesExact; rw [liveAt6_3_C t (fun h => h0 ((hcond6_0 t).mp h)) ((hcond6_1 t).mpr h1)], after6_3]
    rw [outsAt6_C V c t h0 h1]
    unfold out6_C_3 sout6_C_0; (try dsimp only)
    have hz : t.val ≠ 0 := by omega
    rw [PhiS6_castSucc V c t, PhiS6_pos V c _ _ hz]
    iintro ⟨⟨⟨HS0, Hrest⟩, Hg⟩, Ho, ⟨%d0, H0⟩, ⟨%d1, H1⟩, ⟨%d2, H2⟩, ⟨%d3, H3⟩⟩
    iapply ((kernelRun6_C c (grid6.coords t) _ _ _ _ _ _ _ _ _ _ (fun h => h0 ((hcond6_0 t).mp h)) ((hcond6_1 t).mpr h1) (iblk6 V c 0 t) (iblk6 V c 1 t) (iblk6 V c 2 t) _).2.2 Set.univ _)
    isplitl [H0]; · iexact H0
    isplitl [H1]; · iexact H1
    isplitl [H2]; · iexact H2
    isplitl [H3]; · iexists _; iexact H3
    isplitl [HS0]; · iexact HS0
    iintro ⟨H0, H1, H2, ⟨%e3, H3⟩, ⟨%es0, HS0⟩⟩
    isplitl [HS0 Hrest Hg]
    · isplitl [HS0 Hrest]
      · isplitl [HS0]
        · unfold owns; iexists _; isplitr
          swap; · iexact HS0
          ipureintro; exact View.read_writes_of_cover _ _ _ _ _ (scover6_C_0 c _ _ _ _ _ _ _ _ _ _ _ _ _ _ _ _ _)
        iexact Hrest
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover6_C_3 c _ _ _ _ _ _ _ _ _ _ _ _ _ _ _ _ _)

/-- The pipeline library's body obligation, at every point. -/
theorem body_obligation6 (c : Dev nD) : BodyObligation (dat6 (F := F) V c) (defs₀ (F := F)) Variants.none () Set.univ := fun t => by
  rw [bigSep_W6, bigSep_W6]
  exact sound_body6 V c t

/-- What the launch hands the region is the invariant before the first point. -/
theorem hin6 (c : Dev nD) : Pipeline.ΦA spec6 c ⊢ (dat6 V c).Φ 0 := by
  rw [show (dat6 V c).Φ 0 = PhiS6 V c 0 (Nat.zero_le _) from rfl, PhiS6_zero V c 0 _ rfl]
  try exact Idealize.SL.BI.Entails.refl _

/-- After any point but the first the invariant gives it back: the accumulator's named contents are forgotten. -/
theorem Phi_out6 (c : Dev nD) (t : Fin (cfg6.N + 1)) (ht : t.val ≠ 0) : (dat6 V c).Φ t ⊢ Pipeline.ΦA spec6 c := by
  rw [show (dat6 V c).Φ t = PhiS6 V c t.val (Nat.le_of_lt_succ t.isLt) from rfl, PhiS6_pos V c _ _ ht, PhiA6_eq]
  iintro ⟨⟨HS0, Hrest⟩, Hg⟩
  isplitl [HS0 Hrest]
  · isplitl [HS0]
    · iexists _; iexact HS0
    iexact Hrest
  iexact Hg

theorem hout6 (c : Dev nD) : (dat6 V c).Φ (Fin.last cfg6.N) ⊢ Pipeline.ΦA spec6 c :=
  Phi_out6 V c _ (by rw [Fin.val_last]; have : cfg6.N = 16 := N_6; omega)

end Cert.KernelIdeal.Hand

end
-- ==== Proof.KI.Reg7Runs.lean ====
/- Region 7 (the aggregate-residual-MLP kernel, pipeline 1): what its two runs share — the windows' blocks at the
   region-entry contents, the input windows' staging contents, the body's two branch conditions decided over the
   grid, where the output window is idle, the staging and scratch memrefs, and the region invariant with the
   scratch accumulator owned as a memref. -/
import proofs.«181597_j77979426226450_2_alg».proof.Proof.Gen.KernelIdeal.Launch
import proofs.«181597_j77979426226450_2_alg».proof.Proof.Gen.KernelIdeal.Skeleton
import proofs.«181597_j77979426226450_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region
-- the TensorCore's buffer contents when the region is entered: the parameter the region's half is stated at
variable (V : (c : Dev nD) → (b : Ref sig .tc) → Buf (Elt F) ((c : Thread nD τ).loc b))

/-! ## The windows' blocks -/

/-- Window `w`'s block at point `t`, read off its array as the region finds it (`V`). -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- Input window 0's current staging buffer holds its block at every point, fetched there or not, for any proof
    data whose array is `V`'s (`hA`) and whose body leaves the block in place (`hafter`): unfetched, the block
    index has not moved; the window is uncut and never idle. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-- Input window 1's current staging buffer holds its block at every point, fetched there or not, for any proof
    data whose array is `V`'s (`hA`) and whose body leaves the block in place (`hafter`): unfetched, the block
    index has not moved; the window is uncut and never idle. -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-- Input window 2's current staging buffer holds its block at every point, fetched there or not, for any proof
    data whose array is `V`'s (`hA`) and whose body leaves the block in place (`hafter`): unfetched, the block
    index has not moved; the window is uncut and never idle. -/
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

/-- Input window 3's current staging buffer holds its block at every point, fetched there or not, for any proof
    data whose array is `V`'s (`hA`) and whose body leaves the block in place (`hafter`): unfetched, the block
    index has not moved; the window is uncut and never idle. -/
theorem before7_3_of {c : Dev nD} (dat : Dat τ (Elt F) Unit ℕ (UR sig nD τ) ℕ cfg7 c) (hA : dat.A 3 = V c (Pipeline.arrRef spec7 3))
    (hafter : ∀ t, dat.after 3 t = iblk7 V c 3 t) (t : Fin cfg7.N) (d) : dat.before 3 t d = iblk7 V c 3 t :=
  (dat.before_in_eq_fetched 3 rfl (fun _ => rfl) (fun _ _ _ => rfl) (fun t => by rw [hafter]; unfold Dat.blockOf iblk7; rw [hA]; try rfl) t d).trans
    (by unfold Dat.fetched Dat.blockOf iblk7; rw [hA]; try rfl)

/-- Input window 4's current staging buffer holds its block at every point, fetched there or not, for any proof
    data whose array is `V`'s (`hA`) and whose body leaves the block in place (`hafter`): unfetched, the block
    index has not moved; the window is uncut and never idle. -/
theorem before7_4_of {c : Dev nD} (dat : Dat τ (Elt F) Unit ℕ (UR sig nD τ) ℕ cfg7 c) (hA : dat.A 4 = V c (Pipeline.arrRef spec7 4))
    (hafter : ∀ t, dat.after 4 t = iblk7 V c 4 t) (t : Fin cfg7.N) (d) : dat.before 4 t d = iblk7 V c 4 t :=
  (dat.before_in_eq_fetched 4 rfl (fun _ => rfl) (fun _ _ _ => rfl) (fun t => by rw [hafter]; unfold Dat.blockOf iblk7; rw [hA]; try rfl) t d).trans
    (by unfold Dat.fetched Dat.blockOf iblk7; rw [hA]; try rfl)

end Region

/-! ## The body's branch conditions -/

/-- The condition of the body's first conditional (the reduction index is 0), from the grid coordinates. -/
abbrev cond7_0 (i : grid7.Coords) : Prop := (Scalar.cmpi .ne (Scalar.extui (Scalar.cmpi .eq (BitVec.ofNat 32 (i 1).val) 0#32)) 0#32) = 1#1
/-- It holds at the points ≡ 0 (mod 2) — decided over the grid. -/
theorem hcond7_0 : ∀ t : Fin cfg7.N, cond7_0 (grid7.coords t) ↔ t.val % 2 = 0 :=
  (by decide +kernel : ∀ t : Fin grid7.N, cond7_0 (grid7.coords t) ↔ t.val % 2 = 0)

/-- The condition of the body's second conditional (the reduction index is the last). -/
abbrev cond7_1 (i : grid7.Coords) : Prop := k7_cond2 i = 1#1
/-- It holds at the points ≡ 1 (mod 2) — decided over the grid. -/
theorem hcond7_1 : ∀ t : Fin cfg7.N, cond7_1 (grid7.coords t) ↔ t.val % 2 = 1 :=
  (by decide +kernel : ∀ t : Fin grid7.N, cond7_1 (grid7.coords t) ↔ t.val % 2 = 1)

/-! ## Where the windows are idle -/

/-- Window 0 is never idle (an input). -/
theorem liveAt7_0 : ∀ t : Fin cfg7.N, cfg7.idle 0 (grid7.coords t) = false := by decide +kernel
/-- Window 1 is never idle (an input). -/
theorem liveAt7_1 : ∀ t : Fin cfg7.N, cfg7.idle 1 (grid7.coords t) = false := by decide +kernel
/-- Window 2 is never idle (an input). -/
theorem liveAt7_2 : ∀ t : Fin cfg7.N, cfg7.idle 2 (grid7.coords t) = false := by decide +kernel
/-- Window 3 is never idle (an input). -/
theorem liveAt7_3 : ∀ t : Fin cfg7.N, cfg7.idle 3 (grid7.coords t) = false := by decide +kernel
/-- Window 4 is never idle (an input). -/
theorem liveAt7_4 : ∀ t : Fin cfg7.N, cfg7.idle 4 (grid7.coords t) = false := by decide +kernel
/-- At the points of case A (first conditional taken, second not) output 5 is idle: the case stores nothing into it. -/
theorem idleAt7_5_A : ∀ t : Fin cfg7.N, cond7_0 (grid7.coords t) → ¬cond7_1 (grid7.coords t) → cfg7.idle 5 (grid7.coords t) = true := by decide +kernel
/-- At the points of case A the pipeline does not write output 5's block back. -/
theorem noFlush7_5_A : ∀ t : Fin cfg7.N, cond7_0 (grid7.coords t) → ¬cond7_1 (grid7.coords t) → (cfg7.win 5).flush t = false := by decide +kernel
/-- At the points of case C (first conditional not taken, second taken) output 5 is live: the case stores into it. -/
theorem liveAt7_5_C : ∀ t : Fin cfg7.N, ¬cond7_0 (grid7.coords t) → cond7_1 (grid7.coords t) → cfg7.idle 5 (grid7.coords t) = false := by decide +kernel

/-! ## The staging and scratch memrefs -/

/-- One staging buffer of output window 5, through which its contents are stated (the choice does not matter). -/
abbrev VO7_5 : View sig .tc .vmem S1024x128 .f32 := (Memref.whole cc7_stg5_0 : Memref sig .tc .vmem S1024x128 .f32).view
/-- Each window's current staging memref at point `t`, spelled as the pipeline passes it, and its wholeness. -/
abbrev ms7_0 (t : Fin cfg7.N) : Memref sig .tc .vmem S1024x4096 .bf16 := win7_0.stage (cfg7.slots t 0)
abbrev hs7_0 (t : Fin cfg7.N) : (ms7_0 t).IsWhole := hstage7_0 ((cfg7.slots t 0).cast nbuf7_0)
abbrev ms7_1 (t : Fin cfg7.N) : Memref sig .tc .vmem S4096x128 .f32 := win7_1.stage (cfg7.slots t 1)
abbrev hs7_1 (t : Fin cfg7.N) : (ms7_1 t).IsWhole := hstage7_1 ((cfg7.slots t 1).cast nbuf7_1)
abbrev ms7_2 (t : Fin cfg7.N) : Memref sig .tc .vmem S1024x128 .f32 := win7_2.stage (cfg7.slots t 2)
abbrev hs7_2 (t : Fin cfg7.N) : (ms7_2 t).IsWhole := hstage7_2 ((cfg7.slots t 2).cast nbuf7_2)
abbrev ms7_3 (t : Fin cfg7.N) : Memref sig .tc .vmem S128x128 .f32 := win7_3.stage (cfg7.slots t 3)
abbrev hs7_3 (t : Fin cfg7.N) : (ms7_3 t).IsWhole := hstage7_3 ((cfg7.slots t 3).cast nbuf7_3)
abbrev ms7_4 (t : Fin cfg7.N) : Memref sig .tc .vmem S1x128 .f32 := win7_4.stage (cfg7.slots t 4)
abbrev hs7_4 (t : Fin cfg7.N) : (ms7_4 t).IsWhole := hstage7_4 ((cfg7.slots t 4).cast nbuf7_4)
abbrev ms7_5 (t : Fin cfg7.N) : Memref sig .tc .vmem S1024x128 .f32 := win7_5.stage (cfg7.slots t 5)
abbrev hs7_5 (t : Fin cfg7.N) : (ms7_5 t).IsWhole := hstage7_5 ((cfg7.slots t 5).cast nbuf7_5)
/-- The scratch accumulator: a whole scoped buffer of the kernel's own, passed beside the windows. -/
abbrev scM7_0 : Memref sig .tc .vmem S1024x128 .f32 := Memref.whole cc7_scratch0
/-- The same as a view: what the accumulator holds between points is stated through it. -/
abbrev VS7_0 : View sig .tc .vmem S1024x128 .f32 := scM7_0.view

/-- The region invariant with the scratch accumulator as a memref owned at some contents, the other scoped buffers
    unopened, and the generator register at some state: what the body obligation hands the run and takes back. -/
theorem PhiA7_eq (c : Dev nD) :
    (Pipeline.ΦA spec7 c : sProp 𝕄)
      = iprop(iprop(iprop((∃ d, owns (c : Thread nD τ) scM7_0 fullShare d))
          ∗ Pipeline.scopedRestBut (Ix := Unit) (Name := ℕ) (U := UR sig nD τ) (Lvl := ℕ) (Val := Elt F) spec7 c [cc7_scratch0]) ∗ (∃ r, prngReg c r)) := by
  unfold Pipeline.ΦA; rw [scopedRest7_split]; simp only [scM7_0, owns_whole]; try rfl

end Cert.KernelIdeal.Hand

end
-- ==== Proof.KI.Reg7RunA.lean ====
/- Region 7: the whole-body run of the kernel in case A (first conditional taken, second not: the reduction's first
   step). The pieces the scratch accumulator ends with are the witness the run finds. -/
import proofs.«181597_j77979426226450_2_alg».proof.Proof.KI.Reg7Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in the output's staging memref and in the scratch accumulator, as pieces (last first), in
    case A, with the proof that on whole staging memrefs — the inputs' at their contents, the output's (no store, the
    window idle and not written back at the case's points) at contents `xio` handed back untouched, the accumulator at
    anything — the body runs to the continuation holding the inputs' and the output's as they were and the accumulator
    with its pieces written: it is zeroed, then the product of the two input blocks is added. -/
noncomputable def kernelRun7_A (c : Dev nD) (i : grid7.Coords) (arg2 : Memref sig .tc .vmem S1024x4096 .bf16) (harg2 : arg2.IsWhole) (arg3 : Memref sig .tc .vmem S4096x128 .f32) (harg3 : arg3.IsWhole) (arg4 : Memref sig .tc .vmem S1024x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1024x128 .f32) (harg7 : arg7.IsWhole) (arg8 : Memref sig .tc .vmem S1024x128 .f32) (harg8 : arg8.IsWhole) (hcz : cond7_0 i) (hcl : ¬cond7_1 i)
    (xa : Vec F S1024x4096 .bf16) (xb : Vec F S4096x128 .f32) (xc : Vec F S1024x128 .f32) (xd : Vec F S128x128 .f32) (xe : Vec F S1x128 .f32) :
    Σ' (LO : List (View.Piece (Elt F) S1024x128 .f32)), { LS : List (View.Piece (Elt F) S1024x128 .f32) //
      ∀ (xio : Vec F S1024x128 .f32) (E : Set ℕ) (K : PUnit → sProp 𝕄),
        iprop(owns (c : Thread nD τ) arg2 fullShare xa ∗ owns (c : Thread nD τ) arg3 fullShare xb ∗ owns (c : Thread nD τ) arg4 fullShare xc ∗ owns (c : Thread nD τ) arg5 fullShare xd ∗ owns (c : Thread nD τ) arg6 fullShare xe ∗ owns (c : Thread nD τ) arg7 fullShare xio ∗ (∃ d, owns (c : Thread nD τ) arg8 fullShare d)
            ∗ (iprop(owns (c : Thread nD τ) arg2 fullShare xa ∗ owns (c : Thread nD τ) arg3 fullShare xb ∗ owns (c : Thread nD τ) arg4 fullShare xc ∗ owns (c : Thread nD τ) arg5 fullShare xd ∗ owns (c : Thread nD τ) arg6 fullShare xe ∗ owns (c : Thread nD τ) arg7 fullShare xio ∗ (∃ f, arg8.view.loc (c : Thread nD τ) ↦[arg8.view.set]{fullShare} arg8.view.writes (Elt F) f LS)) -∗ K ⟨⟩))
          ⊢ wp frame (wpE (defs₀ (F := F)) Variants.none c none) E (cc7__agg_residual_mlp_kernel i arg2 harg2 arg3 harg3 arg4 harg4 arg5 harg5 arg6 harg6 arg7 harg7 arg8 harg8) K } := by
  refine ⟨[], ?_, fun xio E K => ?run⟩
  case run =>
    simp only [cc7__agg_residual_mlp_kernel_eq_skeleton]; unfold cc7__agg_residual_mlp_kernel_skel
    unfold owns
    iintro ⟨⟨%fa, %hfa, Ha⟩, ⟨%fb, %hfb, Hb⟩, ⟨%fc, %hfc, Hc⟩, ⟨%fd, %hfd, Hd⟩, ⟨%fe, %hfe, He⟩, ⟨%fo, %hfo, Ho⟩, ⟨%ds, %fs, -, Hs⟩, Hk⟩
    obtain rfl := harg2.eq_unread hfa; obtain rfl := harg3.eq_unread hfb; obtain rfl := harg4.eq_unread hfc
    obtain rfl := harg5.eq_unread hfd; obtain rfl := harg6.eq_unread hfe; obtain rfl := harg7.eq_unread hfo
    sl_exec (disch := first | exact hcz | exact hcl)
    sl_step
    iapply Hk
    isplitl [Ha]
    · iexists _; isplitr; · ipureintro; exact harg2.read_unread _
      iexact Ha
    isplitl [Hb]
    · iexists _; isplitr; · ipureintro; exact harg3.read_unread _
      iexact Hb
    isplitl [Hc]
    · iexists _; isplitr; · ipureintro; exact harg4.read_unread _
      iexact Hc
    isplitl [Hd]
    · iexists _; isplitr; · ipureintro; exact harg5.read_unread _
      iexact Hd
    isplitl [He]
    · iexists _; isplitr; · ipureintro; exact harg6.read_unread _
      iexact He
    isplitl [Ho]
    · iexists _; isplitr; · ipureintro; exact harg7.read_unread _
      iexact Ho
    iexists _; iexact Hs

end Cert.KernelIdeal.Hand

end
-- ==== Proof.KI.Reg7RunC.lean ====
/- Region 7: the whole-body run of the kernel in case C (first conditional not taken, second taken: the reduction's
   last step). The pieces the output's staging memref and the scratch accumulator end with are the witness the run
   finds. -/
import proofs.«181597_j77979426226450_2_alg».proof.Proof.KI.Reg7RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in the output's staging memref and in the scratch accumulator, as pieces (last first), in
    case C, with the proof that on whole staging memrefs — the inputs' at their contents, the output's at anything, the
    accumulator at the contents `xs` the point before left — the body runs to the continuation holding the inputs' as
    they were and the output's and the accumulator's with their pieces written: the product of the two input blocks is
    added to the accumulator, and the output is the residual layer applied to the sum. -/
noncomputable def kernelRun7_C (c : Dev nD) (i : grid7.Coords) (arg2 : Memref sig .tc .vmem S1024x4096 .bf16) (harg2 : arg2.IsWhole) (arg3 : Memref sig .tc .vmem S4096x128 .f32) (harg3 : arg3.IsWhole) (arg4 : Memref sig .tc .vmem S1024x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1024x128 .f32) (harg7 : arg7.IsWhole) (arg8 : Memref sig .tc .vmem S1024x128 .f32) (harg8 : arg8.IsWhole) (hcz : ¬cond7_0 i) (hcl : cond7_1 i)
    (xa : Vec F S1024x4096 .bf16) (xb : Vec F S4096x128 .f32) (xc : Vec F S1024x128 .f32) (xd : Vec F S128x128 .f32) (xe : Vec F S1x128 .f32) (xs : Vec F S1024x128 .f32) :
    Σ' (LO : List (View.Piece (Elt F) S1024x128 .f32)), { LS : List (View.Piece (Elt F) S1024x128 .f32) //
      ∀ (E : Set ℕ) (K : PUnit → sProp 𝕄),
        iprop(owns (c : Thread nD τ) arg2 fullShare xa ∗ owns (c : Thread nD τ) arg3 fullShare xb ∗ owns (c : Thread nD τ) arg4 fullShare xc ∗ owns (c : Thread nD τ) arg5 fullShare xd ∗ owns (c : Thread nD τ) arg6 fullShare xe ∗ (∃ d, owns (c : Thread nD τ) arg7 fullShare d) ∗ owns (c : Thread nD τ) arg8 fullShare xs
            ∗ (iprop(owns (c : Thread nD τ) arg2 fullShare xa ∗ owns (c : Thread nD τ) arg3 fullShare xb ∗ owns (c : Thread nD τ) arg4 fullShare xc ∗ owns (c : Thread nD τ) arg5 fullShare xd ∗ owns (c : Thread nD τ) arg6 fullShare xe ∗ (∃ f, arg7.view.loc (c : Thread nD τ) ↦[arg7.view.set]{fullShare} arg7.view.writes (Elt F) f LO) ∗ (∃ f, arg8.view.loc (c : Thread nD τ) ↦[arg8.view.set]{fullShare} arg8.view.writes (Elt F) f LS)) -∗ K ⟨⟩))
          ⊢ wp frame (wpE (defs₀ (F := F)) Variants.none c none) E (cc7__agg_residual_mlp_kernel i arg2 harg2 arg3 harg3 arg4 harg4 arg5 harg5 arg6 harg6 arg7 harg7 arg8 harg8) K } := by
  refine ⟨?_, ?_, fun E K => ?run⟩
  case run =>
    simp only [cc7__agg_residual_mlp_kernel_eq_skeleton]; unfold cc7__agg_residual_mlp_kernel_skel
    unfold owns
    iintro ⟨⟨%fa, %hfa, Ha⟩, ⟨%fb, %hfb, Hb⟩, ⟨%fc, %hfc, Hc⟩, ⟨%fd, %hfd, Hd⟩, ⟨%fe, %hfe, He⟩, ⟨%dout, %fo, -, Ho⟩, ⟨%fs, %hfs, Hs⟩, Hk⟩
    obtain rfl := harg2.eq_unread hfa; obtain rfl := harg3.eq_unread hfb; obtain rfl := harg4.eq_unread hfc
    obtain rfl := harg5.eq_unread hfd; obtain rfl := harg6.eq_unread hfe; obtain rfl := harg8.eq_unread hfs
    sl_exec (disch := first | exact hcz | exact hcl)
    sl_step
    iapply Hk
    isplitl [Ha]
    · iexists _; isplitr; · ipureintro; exact harg2.read_unread _
      iexact Ha
    isplitl [Hb]
    · iexists _; isplitr; · ipureintro; exact harg3.read_unread _
      iexact Hb
    isplitl [Hc]
    · iexists _; isplitr; · ipureintro; exact harg4.read_unread _
      iexact Hc
    isplitl [Hd]
    · iexists _; isplitr; · ipureintro; exact harg5.read_unread _
      iexact Hd
    isplitl [He]
    · iexists _; isplitr; · ipureintro; exact harg6.read_unread _
      iexact He
    isplitl [Ho]; · iexists _; iexact Ho
    iexists _; iexact Hs

end Cert.KernelIdeal.Hand

end
-- ==== Proof.KI.Reg7.lean ====
/- Region 7 (the aggregate-residual-MLP kernel, pipeline 1), the rest of its frame half: what the output's staging
   buffer and the scratch accumulator hold per case and point by point, the region invariant carrying the accumulator,
   the pipeline's proof data at the region-entry contents `V`, the body obligation at every point, and the invariant's
   entry and exit. -/
import proofs.«181597_j77979426226450_2_alg».proof.Proof.KI.Reg7RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Case A stores nothing into output 5 (the window is idle at its points and not written back there): no pieces — a
    placeholder that nothing consults, since at these points the window is neither written back nor read at the next. -/
def out7_A_5 (c : Dev nD) (i : grid7.Coords) (arg2 : Memref sig .tc .vmem S1024x4096 .bf16) (harg2 : arg2.IsWhole) (arg3 : Memref sig .tc .vmem S4096x128 .f32) (harg3 : arg3.IsWhole) (arg4 : Memref sig .tc .vmem S1024x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1024x128 .f32) (harg7 : arg7.IsWhole) (arg8 : Memref sig .tc .vmem S1024x128 .f32) (harg8 : arg8.IsWhole) (hcz : cond7_0 i) (hcl : ¬cond7_1 i)
    (xa : Vec F S1024x4096 .bf16) (xb : Vec F S4096x128 .f32) (xc : Vec F S1024x128 .f32) (xd : Vec F S128x128 .f32) (xe : Vec F S1x128 .f32) : Vec F S1024x128 .f32 :=
  VO7_5.read (Elt F) (VO7_5.writes (Elt F) VO7_5.junk (kernelRun7_A c i arg2 harg2 arg3 harg3 arg4 harg4 arg5 harg5 arg6 harg6 arg7 harg7 arg8 harg8 hcz hcl xa xb xc xd xe).1)

/-- Case A's pieces for the scratch accumulator cover it: the zeroing store and the accumulating store each tile it. -/
theorem scover7_A_0 (c : Dev nD) (i : grid7.Coords) (arg2 : Memref sig .tc .vmem S1024x4096 .bf16) (harg2 : arg2.IsWhole) (arg3 : Memref sig .tc .vmem S4096x128 .f32) (harg3 : arg3.IsWhole) (arg4 : Memref sig .tc .vmem S1024x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1024x128 .f32) (harg7 : arg7.IsWhole) (arg8 : Memref sig .tc .vmem S1024x128 .f32) (harg8 : arg8.IsWhole) (hcz : cond7_0 i) (hcl : ¬cond7_1 i)
    (xa : Vec F S1024x4096 .bf16) (xb : Vec F S4096x128 .f32) (xc : Vec F S1024x128 .f32) (xd : Vec F S128x128 .f32) (xe : Vec F S1x128 .f32) (y : S1024x128.Idx) :
    ∃ pc ∈ (kernelRun7_A c i arg2 harg2 arg3 harg3 arg4 harg4 arg5 harg5 arg6 harg6 arg7 harg7 arg8 harg8 hcz hcl xa xb xc xd xe).2.1, y ∈ pc.1.set :=
  View.cover_of_tiledL (kernelRun7_A c i arg2 harg2 arg3 harg3 arg4 harg4 arg5 harg5 arg6 harg6 arg7 harg7 arg8 harg8 hcz hcl xa xb xc xd xe).2.1 S1024x128.size (by sl_kernel_rfl) y

/-- What case A leaves in the scratch accumulator: its pieces read back over junk. -/
def sout7_A_0 (c : Dev nD) (i : grid7.Coords) (arg2 : Memref sig .tc .vmem S1024x4096 .bf16) (harg2 : arg2.IsWhole) (arg3 : Memref sig .tc .vmem S4096x128 .f32) (harg3 : arg3.IsWhole) (arg4 : Memref sig .tc .vmem S1024x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1024x128 .f32) (harg7 : arg7.IsWhole) (arg8 : Memref sig .tc .vmem S1024x128 .f32) (harg8 : arg8.IsWhole) (hcz : cond7_0 i) (hcl : ¬cond7_1 i)
    (xa : Vec F S1024x4096 .bf16) (xb : Vec F S4096x128 .f32) (xc : Vec F S1024x128 .f32) (xd : Vec F S128x128 .f32) (xe : Vec F S1x128 .f32) : Vec F S1024x128 .f32 :=
  VS7_0.read (Elt F) (VS7_0.writes (Elt F) VS7_0.junk (kernelRun7_A c i arg2 harg2 arg3 harg3 arg4 harg4 arg5 harg5 arg6 harg6 arg7 harg7 arg8 harg8 hcz hcl xa xb xc xd xe).2.1)

/-- Case C's pieces for output 5 tile its block (one store of the whole block), so they cover it. -/
theorem cover7_C_5 (c : Dev nD) (i : grid7.Coords) (arg2 : Memref sig .tc .vmem S1024x4096 .bf16) (harg2 : arg2.IsWhole) (arg3 : Memref sig .tc .vmem S4096x128 .f32) (harg3 : arg3.IsWhole) (arg4 : Memref sig .tc .vmem S1024x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1024x128 .f32) (harg7 : arg7.IsWhole) (arg8 : Memref sig .tc .vmem S1024x128 .f32) (harg8 : arg8.IsWhole) (hcz : ¬cond7_0 i) (hcl : cond7_1 i)
    (xa : Vec F S1024x4096 .bf16) (xb : Vec F S4096x128 .f32) (xc : Vec F S1024x128 .f32) (xd : Vec F S128x128 .f32) (xe : Vec F S1x128 .f32) (xs : Vec F S1024x128 .f32) (y : S1024x128.Idx) :
    ∃ pc ∈ (kernelRun7_C c i arg2 harg2 arg3 harg3 arg4 harg4 arg5 harg5 arg6 harg6 arg7 harg7 arg8 harg8 hcz hcl xa xb xc xd xe xs).1, y ∈ pc.1.set :=
  View.cover_of_tiledL (kernelRun7_C c i arg2 harg2 arg3 harg3 arg4 harg4 arg5 harg5 arg6 harg6 arg7 harg7 arg8 harg8 hcz hcl xa xb xc xd xe xs).1 S1024x128.size (by sl_kernel_rfl) y

/-- What case C leaves in output 5's staging buffer: its pieces read back over junk. -/
def out7_C_5 (c : Dev nD) (i : grid7.Coords) (arg2 : Memref sig .tc .vmem S1024x4096 .bf16) (harg2 : arg2.IsWhole) (arg3 : Memref sig .tc .vmem S4096x128 .f32) (harg3 : arg3.IsWhole) (arg4 : Memref sig .tc .vmem S1024x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1024x128 .f32) (harg7 : arg7.IsWhole) (arg8 : Memref sig .tc .vmem S1024x128 .f32) (harg8 : arg8.IsWhole) (hcz : ¬cond7_0 i) (hcl : cond7_1 i)
    (xa : Vec F S1024x4096 .bf16) (xb : Vec F S4096x128 .f32) (xc : Vec F S1024x128 .f32) (xd : Vec F S128x128 .f32) (xe : Vec F S1x128 .f32) (xs : Vec F S1024x128 .f32) : Vec F S1024x128 .f32 :=
  VO7_5.read (Elt F) (VO7_5.writes (Elt F) VO7_5.junk (kernelRun7_C c i arg2 harg2 arg3 harg3 arg4 harg4 arg5 harg5 arg6 harg6 arg7 harg7 arg8 harg8 hcz hcl xa xb xc xd xe xs).1)

/-- Case C's pieces for the scratch accumulator cover it: one store of the whole buffer. -/
theorem scover7_C_0 (c : Dev nD) (i : grid7.Coords) (arg2 : Memref sig .tc .vmem S1024x4096 .bf16) (harg2 : arg2.IsWhole) (arg3 : Memref sig .tc .vmem S4096x128 .f32) (harg3 : arg3.IsWhole) (arg4 : Memref sig .tc .vmem S1024x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1024x128 .f32) (harg7 : arg7.IsWhole) (arg8 : Memref sig .tc .vmem S1024x128 .f32) (harg8 : arg8.IsWhole) (hcz : ¬cond7_0 i) (hcl : cond7_1 i)
    (xa : Vec F S1024x4096 .bf16) (xb : Vec F S4096x128 .f32) (xc : Vec F S1024x128 .f32) (xd : Vec F S128x128 .f32) (xe : Vec F S1x128 .f32) (xs : Vec F S1024x128 .f32) (y : S1024x128.Idx) :
    ∃ pc ∈ (kernelRun7_C c i arg2 harg2 arg3 harg3 arg4 harg4 arg5 harg5 arg6 harg6 arg7 harg7 arg8 harg8 hcz hcl xa xb xc xd xe xs).2.1, y ∈ pc.1.set :=
  View.cover_of_tiledL (kernelRun7_C c i arg2 harg2 arg3 harg3 arg4 harg4 arg5 harg5 arg6 harg6 arg7 harg7 arg8 harg8 hcz hcl xa xb xc xd xe xs).2.1 S1024x128.size (by sl_kernel_rfl) y

/-- What case C leaves in the scratch accumulator: its pieces read back over junk. -/
def sout7_C_0 (c : Dev nD) (i : grid7.Coords) (arg2 : Memref sig .tc .vmem S1024x4096 .bf16) (harg2 : arg2.IsWhole) (arg3 : Memref sig .tc .vmem S4096x128 .f32) (harg3 : arg3.IsWhole) (arg4 : Memref sig .tc .vmem S1024x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1024x128 .f32) (harg7 : arg7.IsWhole) (arg8 : Memref sig .tc .vmem S1024x128 .f32) (harg8 : arg8.IsWhole) (hcz : ¬cond7_0 i) (hcl : cond7_1 i)
    (xa : Vec F S1024x4096 .bf16) (xb : Vec F S4096x128 .f32) (xc : Vec F S1024x128 .f32) (xd : Vec F S128x128 .f32) (xe : Vec F S1x128 .f32) (xs : Vec F S1024x128 .f32) : Vec F S1024x128 .f32 :=
  VS7_0.read (Elt F) (VS7_0.writes (Elt F) VS7_0.junk (kernelRun7_C c i arg2 harg2 arg3 harg3 arg4 harg4 arg5 harg5 arg6 harg6 arg7 harg7 arg8 harg8 hcz hcl xa xb xc xd xe xs).2.1)

section Region
-- the TensorCore's buffer contents when the region is entered
variable (V : (c : Dev nD) → (b : Ref sig .tc) → Buf (Elt F) ((c : Thread nD τ).loc b))

/-! ## What the output and the accumulator hold after each point -/

/-- The accumulation. What output 5's staging buffer and the scratch accumulator hold after the body at position `n` (a
    pair: the output, then the accumulator): the case the closed forms select at `n`, run at the point's memrefs and input
    blocks, the accumulator in case C at what this leaves at `n - 1`. The two conditions partition the points, so the
    other two assignments are no case. -/
def outsAt7 (c : Dev nD) : (n : ℕ) → n < cfg7.N → Vec F S1024x128 .f32 × Vec F S1024x128 .f32
  | 0, hn => (out7_A_5 c (grid7.coords ⟨0, hn⟩) (ms7_0 ⟨0, hn⟩) (hs7_0 ⟨0, hn⟩) (ms7_1 ⟨0, hn⟩) (hs7_1 ⟨0, hn⟩) (ms7_2 ⟨0, hn⟩) (hs7_2 ⟨0, hn⟩) (ms7_3 ⟨0, hn⟩) (hs7_3 ⟨0, hn⟩) (ms7_4 ⟨0, hn⟩) (hs7_4 ⟨0, hn⟩) (ms7_5 ⟨0, hn⟩) (hs7_5 ⟨0, hn⟩) scM7_0 (Memref.isWhole_whole _) ((hcond7_0 ⟨0, hn⟩).mpr (Nat.zero_mod _)) (fun h => (fun h => by (try dsimp only at h); omega) ((hcond7_1 ⟨0, hn⟩).mp h)) (iblk7 V c 0 ⟨0, hn⟩) (iblk7 V c 1 ⟨0, hn⟩) (iblk7 V c 2 ⟨0, hn⟩) (iblk7 V c 3 ⟨0, hn⟩) (iblk7 V c 4 ⟨0, hn⟩), sout7_A_0 c (grid7.coords ⟨0, hn⟩) (ms7_0 ⟨0, hn⟩) (hs7_0 ⟨0, hn⟩) (ms7_1 ⟨0, hn⟩) (hs7_1 ⟨0, hn⟩) (ms7_2 ⟨0, hn⟩) (hs7_2 ⟨0, hn⟩) (ms7_3 ⟨0, hn⟩) (hs7_3 ⟨0, hn⟩) (ms7_4 ⟨0, hn⟩) (hs7_4 ⟨0, hn⟩) (ms7_5 ⟨0, hn⟩) (hs7_5 ⟨0, hn⟩) scM7_0 (Memref.isWhole_whole _) ((hcond7_0 ⟨0, hn⟩).mpr (Nat.zero_mod _)) (fun h => (fun h => by (try dsimp only at h); omega) ((hcond7_1 ⟨0, hn⟩).mp h)) (iblk7 V c 0 ⟨0, hn⟩) (iblk7 V c 1 ⟨0, hn⟩) (iblk7 V c 2 ⟨0, hn⟩) (iblk7 V c 3 ⟨0, hn⟩) (iblk7 V c 4 ⟨0, hn⟩))
  | n + 1, hn =>
    if hz : (n + 1) % 2 = 0 then
      if hl : (n + 1) % 2 = 1 then
        False.elim (by omega)
      else
        (out7_A_5 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) (ms7_5 ⟨n + 1, hn⟩) (hs7_5 ⟨n + 1, hn⟩) scM7_0 (Memref.isWhole_whole _) ((hcond7_0 ⟨n + 1, hn⟩).mpr hz) (fun h => hl ((hcond7_1 ⟨n + 1, hn⟩).mp h)) (iblk7 V c 0 ⟨n + 1, hn⟩) (iblk7 V c 1 ⟨n + 1, hn⟩) (iblk7 V c 2 ⟨n + 1, hn⟩) (iblk7 V c 3 ⟨n + 1, hn⟩) (iblk7 V c 4 ⟨n + 1, hn⟩), sout7_A_0 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) (ms7_5 ⟨n + 1, hn⟩) (hs7_5 ⟨n + 1, hn⟩) scM7_0 (Memref.isWhole_whole _) ((hcond7_0 ⟨n + 1, hn⟩).mpr hz) (fun h => hl ((hcond7_1 ⟨n + 1, hn⟩).mp h)) (iblk7 V c 0 ⟨n + 1, hn⟩) (iblk7 V c 1 ⟨n + 1, hn⟩) (iblk7 V c 2 ⟨n + 1, hn⟩) (iblk7 V c 3 ⟨n + 1, hn⟩) (iblk7 V c 4 ⟨n + 1, hn⟩))
    else
      if hl : (n + 1) % 2 = 1 then
        (out7_C_5 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) (ms7_5 ⟨n + 1, hn⟩) (hs7_5 ⟨n + 1, hn⟩) scM7_0 (Memref.isWhole_whole _) (fun h => hz ((hcond7_0 ⟨n + 1, hn⟩).mp h)) ((hcond7_1 ⟨n + 1, hn⟩).mpr hl) (iblk7 V c 0 ⟨n + 1, hn⟩) (iblk7 V c 1 ⟨n + 1, hn⟩) (iblk7 V c 2 ⟨n + 1, hn⟩) (iblk7 V c 3 ⟨n + 1, hn⟩) (iblk7 V c 4 ⟨n + 1, hn⟩) (outsAt7 c n (Nat.lt_of_succ_lt hn)).2, sout7_C_0 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) (ms7_5 ⟨n + 1, hn⟩) (hs7_5 ⟨n + 1, hn⟩) scM7_0 (Memref.isWhole_whole _) (fun h => hz ((hcond7_0 ⟨n + 1, hn⟩).mp h)) ((hcond7_1 ⟨n + 1, hn⟩).mpr hl) (iblk7 V c 0 ⟨n + 1, hn⟩) (iblk7 V c 1 ⟨n + 1, hn⟩) (iblk7 V c 2 ⟨n + 1, hn⟩) (iblk7 V c 3 ⟨n + 1, hn⟩) (iblk7 V c 4 ⟨n + 1, hn⟩) (outsAt7 c n (Nat.lt_of_succ_lt hn)).2)
      else
        False.elim (by omega)

/-- `outsAt7` at a point of case A: that case's contents. -/
theorem outsAt7_A (c : Dev nD) (t : Fin cfg7.N) (hz : t.val % 2 = 0) (hl : ¬t.val % 2 = 1) :
    outsAt7 V c t.val t.isLt = (out7_A_5 c (grid7.coords t) (ms7_0 t) (hs7_0 t) (ms7_1 t) (hs7_1 t) (ms7_2 t) (hs7_2 t) (ms7_3 t) (hs7_3 t) (ms7_4 t) (hs7_4 t) (ms7_5 t) (hs7_5 t) scM7_0 (Memref.isWhole_whole _) ((hcond7_0 t).mpr hz) (fun h => hl ((hcond7_1 t).mp h)) (iblk7 V c 0 t) (iblk7 V c 1 t) (iblk7 V c 2 t) (iblk7 V c 3 t) (iblk7 V c 4 t), sout7_A_0 c (grid7.coords t) (ms7_0 t) (hs7_0 t) (ms7_1 t) (hs7_1 t) (ms7_2 t) (hs7_2 t) (ms7_3 t) (hs7_3 t) (ms7_4 t) (hs7_4 t) (ms7_5 t) (hs7_5 t) scM7_0 (Memref.isWhole_whole _) ((hcond7_0 t).mpr hz) (fun h => hl ((hcond7_1 t).mp h)) (iblk7 V c 0 t) (iblk7 V c 1 t) (iblk7 V c 2 t) (iblk7 V c 3 t) (iblk7 V c 4 t)) := by
  obtain ⟨n, hn⟩ := t
  cases n with
  | zero => exact rfl
  | succ n => exact (dif_pos hz).trans ((dif_neg hl).trans rfl)

/-- `outsAt7` at a point of case C: that case's contents, over what the point before left in the accumulator. -/
theorem outsAt7_C (c : Dev nD) (t : Fin cfg7.N) (hz : ¬t.val % 2 = 0) (hl : t.val % 2 = 1) :
    outsAt7 V c t.val t.isLt = (out7_C_5 c (grid7.coords t) (ms7_0 t) (hs7_0 t) (ms7_1 t) (hs7_1 t) (ms7_2 t) (hs7_2 t) (ms7_3 t) (hs7_3 t) (ms7_4 t) (hs7_4 t) (ms7_5 t) (hs7_5 t) scM7_0 (Memref.isWhole_whole _) (fun h => hz ((hcond7_0 t).mp h)) ((hcond7_1 t).mpr hl) (iblk7 V c 0 t) (iblk7 V c 1 t) (iblk7 V c 2 t) (iblk7 V c 3 t) (iblk7 V c 4 t) (outsAt7 V c (t.val - 1) (Nat.lt_of_le_of_lt (Nat.sub_le _ _) t.isLt)).2, sout7_C_0 c (grid7.coords t) (ms7_0 t) (hs7_0 t) (ms7_1 t) (hs7_1 t) (ms7_2 t) (hs7_2 t) (ms7_3 t) (hs7_3 t) (ms7_4 t) (hs7_4 t) (ms7_5 t) (hs7_5 t) scM7_0 (Memref.isWhole_whole _) (fun h => hz ((hcond7_0 t).mp h)) ((hcond7_1 t).mpr hl) (iblk7 V c 0 t) (iblk7 V c 1 t) (iblk7 V c 2 t) (iblk7 V c 3 t) (iblk7 V c 4 t) (outsAt7 V c (t.val - 1) (Nat.lt_of_le_of_lt (Nat.sub_le _ _) t.isLt)).2) := by
  obtain ⟨n, hn⟩ := t
  cases n with
  | zero => exact (by exfalso; (try dsimp only at hz); exact absurd (Nat.zero_mod _) hz)
  | succ n => exact (dif_neg hz).trans ((dif_pos hl).trans rfl)

/-- The region invariant before position `n`, the kernel carrying its accumulator between points: before the first point
    the scoped rest with every scratch at anything; afterwards the accumulator at what the point before left in it
    (`outsAt7`'s second component), the other scoped buffers unopened, and the generator register at some state. -/
def PhiS7 (c : Dev nD) : (n : ℕ) → n ≤ cfg7.N → sProp 𝕄
  | 0, _ => Pipeline.ΦA spec7 c
  | n + 1, hn => iprop(iprop(owns (c : Thread nD τ) scM7_0 fullShare ((outsAt7 V c n hn).2) ∗ Pipeline.scopedRestBut (Ix := Unit) (Name := ℕ) (U := UR sig nD τ) (Lvl := ℕ) (Val := Elt F) spec7 c [cc7_scratch0]) ∗ (∃ r, prngReg c r))

theorem PhiS7_zero (c : Dev nD) (n : ℕ) (h : n ≤ cfg7.N) (hzero : n = 0) : PhiS7 V c n h = Pipeline.ΦA spec7 c := by
  subst hzero; rfl

/-- After point `n` (before point `n + 1`): the accumulator at that point's contents. -/
theorem PhiS7_succ (c : Dev nD) (n : ℕ) (hn : n < cfg7.N) :
    PhiS7 V c (n + 1) hn = iprop(iprop(owns (c : Thread nD τ) scM7_0 fullShare ((outsAt7 V c n hn).2) ∗ Pipeline.scopedRestBut (Ix := Unit) (Name := ℕ) (U := UR sig nD τ) (Lvl := ℕ) (Val := Elt F) spec7 c [cc7_scratch0]) ∗ (∃ r, prngReg c r)) := rfl

/-- Before a point that is not the first: the accumulator at what the point before left. -/
theorem PhiS7_pos (c : Dev nD) (n : ℕ) (h : n ≤ cfg7.N) (hzero : n ≠ 0) :
    PhiS7 V c n h = iprop(iprop(owns (c : Thread nD τ) scM7_0 fullShare ((outsAt7 V c (n - 1) (by omega)).2) ∗ Pipeline.scopedRestBut (Ix := Unit) (Name := ℕ) (U := UR sig nD τ) (Lvl := ℕ) (Val := Elt F) spec7 c [cc7_scratch0]) ∗ (∃ r, prngReg c r)) := by
  cases n with
  | zero => exact absurd rfl hzero
  | succ n => rfl

/-! ## The pipeline's proof data -/

/-- The proof data of pipeline 1 on core `c`: the arrays as the region finds them (`V`); after the body at point `t` each
    input's buffer at its block and the output's at `outsAt7`'s first component; the invariant `PhiS7`; nothing owed; full
    shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => (outsAt7 V c t.val t.isLt).1
  Φ t := PhiS7 V c t.val (Nat.le_of_lt_succ t.isLt)
  q _ := fullShare
  owed _ := 0

/-- The proof data's arrays are the region-entry contents (the definition projected, `V` never unfolded). -/
theorem A_eq7 (c : Dev nD) (w : Fin cfg7.W) : (dat7 V c).A w = V c (Pipeline.arrRef spec7 w) := by
  dsimp only [dat7]

/-- The invariant at a point's start (the proof data at `t.castSucc`), restated at `t.val`. -/
theorem PhiS7_castSucc (c : Dev nD) (t : Fin cfg7.N) :
    (dat7 V c).Φ t.castSucc = PhiS7 V c t.val (Nat.le_of_lt t.isLt) := by
  dsimp only [dat7]; simp only [Fin.coe_castSucc]

/-- What the body leaves, window by window. -/
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = iblk7 V c 4 t := by dsimp only [dat7]
theorem after7_5 (c : Dev nD) (t : Fin cfg7.N) : (dat7 V c).after 5 t = (outsAt7 V c t.val t.isLt).1 := by dsimp only [dat7]

/-- Each input's current staging buffer holds its block at every point, fetched there or not. -/
theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d
theorem before7_3 (c : Dev nD) (t : Fin cfg7.N) (d) : (dat7 V c).before 3 t d = iblk7 V c 3 t :=
  before7_3_of V (dat7 V c) (A_eq7 V c 3) (after7_3 V c) t d
theorem before7_4 (c : Dev nD) (t : Fin cfg7.N) (d) : (dat7 V c).before 4 t d = iblk7 V c 4 t :=
  before7_4_of V (dat7 V c) (A_eq7 V c 4) (after7_4 V c) t d

/-! ## The body obligation, at a generic point -/

/-- What the body is called with at point `t` (the windows one by one), -/
def bodyPre7 (c : Dev nD) (t : Fin cfg7.N) : sProp 𝕄 :=
  iprop((dat7 V c).Φ t.castSucc ∗ (dat7 V c).owesAt () t.castSucc
    ∗ (∃ d, owns (c : Thread nD τ) (ms7_0 t) fullShare ((dat7 V c).before 0 t d))
    ∗ (∃ d, owns (c : Thread nD τ) (ms7_1 t) fullShare ((dat7 V c).before 1 t d))
    ∗ (∃ d, owns (c : Thread nD τ) (ms7_2 t) fullShare ((dat7 V c).before 2 t d))
    ∗ (∃ d, owns (c : Thread nD τ) (ms7_3 t) fullShare ((dat7 V c).before 3 t d))
    ∗ (∃ d, owns (c : Thread nD τ) (ms7_4 t) fullShare ((dat7 V c).before 4 t d))
    ∗ (∃ d, owns (c : Thread nD τ) (ms7_5 t) fullShare ((dat7 V c).before 5 t d)))

/-- and what it returns. -/
def bodyPost7 (c : Dev nD) (t : Fin cfg7.N) : sProp 𝕄 :=
  iprop((dat7 V c).Φ t.succ ∗ (dat7 V c).owesAt () t.succ
    ∗ (dat7 V c).leavesExact 0 t
    ∗ (dat7 V c).leavesExact 1 t
    ∗ (dat7 V c).leavesExact 2 t
    ∗ (dat7 V c).leavesExact 3 t
    ∗ (dat7 V c).leavesExact 4 t
    ∗ (dat7 V c).leavesExact 5 t)

set_option maxHeartbeats 4800000 in
/-- The body at any point: the inputs' memrefs hold their blocks; the closed forms say which case the point is in; the
    invariant hands the body the accumulator at what the point before left (at anything at the first point), the other
    scoped buffers and the generator register pass through, and it takes the accumulator back at this point's contents;
    in case A the output's buffer is handed back as found, in case C at its covering store; the core owes nothing
    throughout. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3, before7_4]
  rw [show (dat7 V c).owesAt () t.succ = (dat7 V c).owesAt () t.castSucc from rfl]
  rw [show (dat7 V c).Φ t.succ = PhiS7 V c (t.val + 1) t.isLt from rfl, PhiS7_succ]
  have hN : t.val < 8 := lt_of_lt_of_eq t.isLt (show cfg7.N = 8 from N_7)
  by_cases hz : t.val % 2 = 0
  · have hl : ¬t.val % 2 = 1 := by omega
    rw [show (dat7 V c).leavesExact 0 t = owns (c : Thread nD τ) (ms7_0 t) fullShare ((dat7 V c).after 0 t) from by
      unfold Dat.leavesExact; rw [liveAt7_0 t], after7_0]
    rw [show (dat7 V c).leavesExact 1 t = owns (c : Thread nD τ) (ms7_1 t) fullShare ((dat7 V c).after 1 t) from by
      unfold Dat.leavesExact; rw [liveAt7_1 t], after7_1]
    rw [show (dat7 V c).leavesExact 2 t = owns (c : Thread nD τ) (ms7_2 t) fullShare ((dat7 V c).after 2 t) from by
      unfold Dat.leavesExact; rw [liveAt7_2 t], after7_2]
    rw [show (dat7 V c).leavesExact 3 t = owns (c : Thread nD τ) (ms7_3 t) fullShare ((dat7 V c).after 3 t) from by
      unfold Dat.leavesExact; rw [liveAt7_3 t], after7_3]
    rw [show (dat7 V c).leavesExact 4 t = owns (c : Thread nD τ) (ms7_4 t) fullShare ((dat7 V c).after 4 t) from by
      unfold Dat.leavesExact; rw [liveAt7_4 t], after7_4]
    rw [Dat.leavesExact_idle (dat7 V c) 5 t (idleAt7_5_A t ((hcond7_0 t).mpr hz) (fun h => hl ((hcond7_1 t).mp h))) (noFlush7_5_A t ((hcond7_0 t).mpr hz) (fun h => hl ((hcond7_1 t).mp h)))]
    rw [outsAt7_A V c t hz hl]
    unfold sout7_A_0; (try dsimp only)
    by_cases hzero : t.val = 0
    ·
      rw [PhiS7_castSucc V c t, PhiS7_zero V c _ _ hzero, PhiA7_eq]
      iintro ⟨⟨⟨Hs, Hr⟩, Hg⟩, Hw, ⟨%da, Ha⟩, ⟨%db, Hb⟩, ⟨%dc, Hc⟩, ⟨%dd, Hd⟩, ⟨%de, He⟩, ⟨%dq, Ho⟩⟩
      iapply ((kernelRun7_A c (grid7.coords t) _ _ _ _ _ _ _ _ _ _ _ _ _ _ ((hcond7_0 t).mpr hz) (fun h => hl ((hcond7_1 t).mp h)) (iblk7 V c 0 t) (iblk7 V c 1 t) (iblk7 V c 2 t) (iblk7 V c 3 t) (iblk7 V c 4 t)).2.2 _ Set.univ _)
      isplitl [Ha]; · iexact Ha
      isplitl [Hb]; · iexact Hb
      isplitl [Hc]; · iexact Hc
      isplitl [Hd]; · iexact Hd
      isplitl [He]; · iexact He
      isplitl [Ho]; · iexact Ho
      isplitl [Hs]; · iexact Hs
      iintro ⟨Ha, Hb, Hc, Hd, He, Ho, ⟨%es, Hs⟩⟩
      isplitl [Hs Hr Hg]
      · isplitl [Hs Hr]
        · isplitl [Hs]
          · unfold owns; iexists _; isplitr
            swap; · iexact Hs
            ipureintro; exact View.read_writes_of_cover _ _ _ _ _ (scover7_A_0 c _ _ _ _ _ _ _ _ _ _ _ _ _ _ _ _ _ _ _ _ _ _)
          iexact Hr
        iexact Hg
      isplitl [Hw]; · iexact Hw
      isplitl [Ha]; · iexact Ha
      isplitl [Hb]; · iexact Hb
      isplitl [Hc]; · iexact Hc
      isplitl [Hd]; · iexact Hd
      isplitl [He]; · iexact He
      iexists _; iexact Ho
    ·
      rw [PhiS7_castSucc V c t, PhiS7_pos V c _ _ hzero]
      iintro ⟨⟨⟨Hs, Hr⟩, Hg⟩, Hw, ⟨%da, Ha⟩, ⟨%db, Hb⟩, ⟨%dc, Hc⟩, ⟨%dd, Hd⟩, ⟨%de, He⟩, ⟨%dq, Ho⟩⟩
      iapply ((kernelRun7_A c (grid7.coords t) _ _ _ _ _ _ _ _ _ _ _ _ _ _ ((hcond7_0 t).mpr hz) (fun h => hl ((hcond7_1 t).mp h)) (iblk7 V c 0 t) (iblk7 V c 1 t) (iblk7 V c 2 t) (iblk7 V c 3 t) (iblk7 V c 4 t)).2.2 _ Set.univ _)
      isplitl [Ha]; · iexact Ha
      isplitl [Hb]; · iexact Hb
      isplitl [Hc]; · iexact Hc
      isplitl [Hd]; · iexact Hd
      isplitl [He]; · iexact He
      isplitl [Ho]; · iexact Ho
      isplitl [Hs]; · iexists _; iexact Hs
      iintro ⟨Ha, Hb, Hc, Hd, He, Ho, ⟨%es, Hs⟩⟩
      isplitl [Hs Hr Hg]
      · isplitl [Hs Hr]
        · isplitl [Hs]
          · unfold owns; iexists _; isplitr
            swap; · iexact Hs
            ipureintro; exact View.read_writes_of_cover _ _ _ _ _ (scover7_A_0 c _ _ _ _ _ _ _ _ _ _ _ _ _ _ _ _ _ _ _ _ _ _)
          iexact Hr
        iexact Hg
      isplitl [Hw]; · iexact Hw
      isplitl [Ha]; · iexact Ha
      isplitl [Hb]; · iexact Hb
      isplitl [Hc]; · iexact Hc
      isplitl [Hd]; · iexact Hd
      isplitl [He]; · iexact He
      iexists _; iexact Ho
  · have hl : t.val % 2 = 1 := by omega
    rw [show (dat7 V c).leavesExact 0 t = owns (c : Thread nD τ) (ms7_0 t) fullShare ((dat7 V c).after 0 t) from by
      unfold Dat.leavesExact; rw [liveAt7_0 t], after7_0]
    rw [show (dat7 V c).leavesExact 1 t = owns (c : Thread nD τ) (ms7_1 t) fullShare ((dat7 V c).after 1 t) from by
      unfold Dat.leavesExact; rw [liveAt7_1 t], after7_1]
    rw [show (dat7 V c).leavesExact 2 t = owns (c : Thread nD τ) (ms7_2 t) fullShare ((dat7 V c).after 2 t) from by
      unfold Dat.leavesExact; rw [liveAt7_2 t], after7_2]
    rw [show (dat7 V c).leavesExact 3 t = owns (c : Thread nD τ) (ms7_3 t) fullShare ((dat7 V c).after 3 t) from by
      unfold Dat.leavesExact; rw [liveAt7_3 t], after7_3]
    rw [show (dat7 V c).leavesExact 4 t = owns (c : Thread nD τ) (ms7_4 t) fullShare ((dat7 V c).after 4 t) from by
      unfold Dat.leavesExact; rw [liveAt7_4 t], after7_4]
    rw [show (dat7 V c).leavesExact 5 t = owns (c : Thread nD τ) (ms7_5 t) fullShare ((dat7 V c).after 5 t) from by
      unfold Dat.leavesExact; rw [liveAt7_5_C t (fun h => hz ((hcond7_0 t).mp h)) ((hcond7_1 t).mpr hl)], after7_5]
    rw [outsAt7_C V c t hz hl]
    unfold out7_C_5 sout7_C_0; (try dsimp only)
    have hzero : t.val ≠ 0 := by omega
    · rw [PhiS7_castSucc V c t, PhiS7_pos V c _ _ hzero]
      iintro ⟨⟨⟨Hs, Hr⟩, Hg⟩, Hw, ⟨%da, Ha⟩, ⟨%db, Hb⟩, ⟨%dc, Hc⟩, ⟨%dd, Hd⟩, ⟨%de, He⟩, ⟨%dq, Ho⟩⟩
      iapply ((kernelRun7_C c (grid7.coords t) _ _ _ _ _ _ _ _ _ _ _ _ _ _ (fun h => hz ((hcond7_0 t).mp h)) ((hcond7_1 t).mpr hl) (iblk7 V c 0 t) (iblk7 V c 1 t) (iblk7 V c 2 t) (iblk7 V c 3 t) (iblk7 V c 4 t) _).2.2 Set.univ _)
      isplitl [Ha]; · iexact Ha
      isplitl [Hb]; · iexact Hb
      isplitl [Hc]; · iexact Hc
      isplitl [Hd]; · iexact Hd
      isplitl [He]; · iexact He
      isplitl [Ho]; · iexists _; iexact Ho
      isplitl [Hs]; · iexact Hs
      iintro ⟨Ha, Hb, Hc, Hd, He, ⟨%eo, Ho⟩, ⟨%es, Hs⟩⟩
      isplitl [Hs Hr Hg]
      · isplitl [Hs Hr]
        · isplitl [Hs]
          · unfold owns; iexists _; isplitr
            swap; · iexact Hs
            ipureintro; exact View.read_writes_of_cover _ _ _ _ _ (scover7_C_0 c _ _ _ _ _ _ _ _ _ _ _ _ _ _ _ _ _ _ _ _ _ _ _)
          iexact Hr
        iexact Hg
      isplitl [Hw]; · iexact Hw
      isplitl [Ha]; · iexact Ha
      isplitl [Hb]; · iexact Hb
      isplitl [Hc]; · iexact Hc
      isplitl [Hd]; · iexact Hd
      isplitl [He]; · iexact He
      unfold owns; iexists _; isplitr
      swap; · iexact Ho
      ipureintro; exact View.read_writes_of_cover _ _ _ _ _ (cover7_C_5 c _ _ _ _ _ _ _ _ _ _ _ _ _ _ _ _ _ _ _ _ _ _ _)

/-- The library's body obligation, at every point. -/
theorem body_obligation7 (c : Dev nD) : BodyObligation (dat7 (F := F) V c) (defs₀ (F := F)) Variants.none () Set.univ := fun t => by
  rw [bigSep_W7, bigSep_W7]
  exact sound_body7 V c t

/-- What the launch hands the region is the invariant before the first point. -/
theorem hin7 (c : Dev nD) : Pipeline.ΦA spec7 c ⊢ (dat7 V c).Φ 0 := by
  rw [show (dat7 V c).Φ 0 = PhiS7 V c 0 (Nat.zero_le _) from rfl, PhiS7_zero V c 0 _ rfl]
  try exact Idealize.SL.BI.Entails.refl _

/-- After any point but the first the invariant gives the launch's back: the accumulator's named contents are forgotten. -/
theorem Phi_out7 (c : Dev nD) (t : Fin (cfg7.N + 1)) (ht : t.val ≠ 0) : (dat7 V c).Φ t ⊢ Pipeline.ΦA spec7 c := by
  rw [show (dat7 V c).Φ t = PhiS7 V c t.val (Nat.le_of_lt_succ t.isLt) from rfl, PhiS7_pos V c _ _ ht, PhiA7_eq]
  iintro ⟨⟨Hs, Hr⟩, Hg⟩
  isplitl [Hs Hr]
  · isplitl [Hs]
    · iexists _; iexact Hs
    iexact Hr
  iexact Hg

/-- The same after the last point. -/
theorem hout7 (c : Dev nD) : (dat7 V c).Φ (Fin.last cfg7.N) ⊢ Pipeline.ΦA spec7 c :=
  Phi_out7 V c _ (by rw [Fin.val_last]; have : cfg7.N = 8 := N_7; omega)

end Region

end Cert.KernelIdeal.Hand

end
-- ==== Proof.KI.Reg8Runs.lean ====
import proofs.«181597_j77979426226450_2_alg».proof.Proof.Gen.KernelIdeal.Launch
import proofs.«181597_j77979426226450_2_alg».proof.Proof.Gen.KernelIdeal.Skeleton
import proofs.«181597_j77979426226450_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of large extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # REGION 8: what the two cases' runs share -/

/-! ## The windows' blocks -/

/-- Window `w`'s block at point `t`, read off its array as the region finds it (`V`). -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- Input window 0's current staging buffer holds its block at every point, fetched there or not, for ANY proof
    data whose array is `V`'s (`hA`) and whose body leaves the block in place (`hafter`): unfetched, the block
    index has not moved since the fetch; the window is uncut and never idle. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)

/-- Input window 1's current staging buffer holds its block at every point, fetched there or not, for ANY proof
    data whose array is `V`'s (`hA`) and whose body leaves the block in place (`hafter`): unfetched, the block
    index has not moved since the fetch; the window is uncut and never idle. -/
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

/-- Input window 2's current staging buffer holds its block at every point, fetched there or not, for ANY proof
    data whose array is `V`'s (`hA`) and whose body leaves the block in place (`hafter`): unfetched, the block
    index has not moved since the fetch; the window is uncut and never idle. -/
theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)

/-- Input window 3's current staging buffer holds its block at every point, fetched there or not, for ANY proof
    data whose array is `V`'s (`hA`) and whose body leaves the block in place (`hafter`): unfetched, the block
    index has not moved since the fetch; the window is uncut and never idle. -/
theorem before8_3_of {c : Dev nD} (dat : Dat τ (Elt F) Unit ℕ (UR sig nD τ) ℕ cfg8 c) (hA : dat.A 3 = V c (Pipeline.arrRef spec8 3))
    (hafter : ∀ t, dat.after 3 t = iblk8 V c 3 t) (t : Fin cfg8.N) (d) : dat.before 3 t d = iblk8 V c 3 t :=
  (dat.before_in_eq_fetched 3 rfl (fun _ => rfl) (fun _ _ _ => rfl) (fun t => by rw [hafter]; unfold Dat.blockOf iblk8; rw [hA]; try rfl) t d).trans
    (by unfold Dat.fetched Dat.blockOf iblk8; rw [hA]; try rfl)

/-! ## The body's branch conditions -/

/-- The condition of the body's first conditional (the inner grid coordinate is 0), from the grid coordinates. -/
abbrev cond8_0 (i : grid8.Coords) : Prop := (Scalar.cmpi .ne (Scalar.extui (Scalar.cmpi .eq (BitVec.ofNat 32 (i 1).val) 0#32)) 0#32) = 1#1
/-- It holds at the even points — decided over the grid. -/
theorem hcond8_0 : ∀ t : Fin cfg8.N, cond8_0 (grid8.coords t) ↔ t.val % 2 = 0 :=
  (by decide +kernel : ∀ t : Fin grid8.N, cond8_0 (grid8.coords t) ↔ t.val % 2 = 0)

/-- The condition of the body's second conditional (the inner grid coordinate is the last), from the grid coordinates. -/
abbrev cond8_1 (i : grid8.Coords) : Prop := k8_cond2 i = 1#1
/-- It holds at the odd points — decided over the grid. -/
theorem hcond8_1 : ∀ t : Fin cfg8.N, cond8_1 (grid8.coords t) ↔ t.val % 2 = 1 :=
  (by decide +kernel : ∀ t : Fin grid8.N, cond8_1 (grid8.coords t) ↔ t.val % 2 = 1)

/-! ## Where the windows are idle -/

/-- Windows 0 to 3 are never idle (inputs). -/
theorem liveAt8_0 : ∀ t : Fin cfg8.N, cfg8.idle 0 (grid8.coords t) = false := by decide +kernel
theorem liveAt8_1 : ∀ t : Fin cfg8.N, cfg8.idle 1 (grid8.coords t) = false := by decide +kernel
theorem liveAt8_2 : ∀ t : Fin cfg8.N, cfg8.idle 2 (grid8.coords t) = false := by decide +kernel
theorem liveAt8_3 : ∀ t : Fin cfg8.N, cfg8.idle 3 (grid8.coords t) = false := by decide +kernel
/-- At the points of case A output 4 is idle: the case stores nothing into it. -/
theorem idleAt8_4_A : ∀ t : Fin cfg8.N, cond8_0 (grid8.coords t) → ¬cond8_1 (grid8.coords t) → cfg8.idle 4 (grid8.coords t) = true := by decide +kernel
/-- At the points of case A output 4's block is not written back. -/
theorem noFlush8_4_A : ∀ t : Fin cfg8.N, cond8_0 (grid8.coords t) → ¬cond8_1 (grid8.coords t) → (cfg8.win 4).flush t = false := by decide +kernel
/-- At the points of case C output 4 is live: the case stores into it. -/
theorem liveAt8_4_C : ∀ t : Fin cfg8.N, ¬cond8_0 (grid8.coords t) → cond8_1 (grid8.coords t) → cfg8.idle 4 (grid8.coords t) = false := by decide +kernel

/-! ## The kernel body on any staging memrefs -/

/-- One staging buffer of output window 4, through which its contents are stated (the choice does not matter). -/
abbrev VO8_4 : View sig .tc .vmem S1024x384 .f32 := (Memref.whole cc8_stg4_0 : Memref sig .tc .vmem S1024x384 .f32).view
/-- Each window's current staging memref at point `t`, and its wholeness. -/
abbrev ms8_0 (t : Fin cfg8.N) : Memref sig .tc .vmem S2048x1024 .bf16 := win8_0.stage (cfg8.slots t 0)
abbrev hs8_0 (t : Fin cfg8.N) : (ms8_0 t).IsWhole := hstage8_0 ((cfg8.slots t 0).cast nbuf8_0)
abbrev ms8_1 (t : Fin cfg8.N) : Memref sig .tc .vmem S2048x1024 .bf16 := win8_1.stage (cfg8.slots t 1)
abbrev hs8_1 (t : Fin cfg8.N) : (ms8_1 t).IsWhole := hstage8_1 ((cfg8.slots t 1).cast nbuf8_1)
abbrev ms8_2 (t : Fin cfg8.N) : Memref sig .tc .vmem S2048x128 .f32 := win8_2.stage (cfg8.slots t 2)
abbrev hs8_2 (t : Fin cfg8.N) : (ms8_2 t).IsWhole := hstage8_2 ((cfg8.slots t 2).cast nbuf8_2)
abbrev ms8_3 (t : Fin cfg8.N) : Memref sig .tc .vmem S1024x128 .f32 := win8_3.stage (cfg8.slots t 3)
abbrev hs8_3 (t : Fin cfg8.N) : (ms8_3 t).IsWhole := hstage8_3 ((cfg8.slots t 3).cast nbuf8_3)
abbrev ms8_4 (t : Fin cfg8.N) : Memref sig .tc .vmem S1024x384 .f32 := win8_4.stage (cfg8.slots t 4)
abbrev hs8_4 (t : Fin cfg8.N) : (ms8_4 t).IsWhole := hstage8_4 ((cfg8.slots t 4).cast nbuf8_4)
/-- The scratch operands: whole scoped buffers of the kernel's own, passed beside the windows. -/
abbrev scM8_0 : Memref sig .tc .vmem S1024x128 .f32 := Memref.whole cc8_scratch0
abbrev scM8_1 : Memref sig .tc .vmem S1024x128 .f32 := Memref.whole cc8_scratch1
/-- The two scratch accumulators the kernel carries between points, as views: what they hold is stated through these. -/
abbrev VS8_0 : View sig .tc .vmem S1024x128 .f32 := scM8_0.view
abbrev VS8_1 : View sig .tc .vmem S1024x128 .f32 := scM8_1.view

/-- The region invariant with the two scratch operands as memrefs owned at some contents, every other scoped buffer
    that is no staging buffer left unopened: what the body obligation hands the run and takes back. -/
theorem PhiA8_eq (c : Dev nD) :
    (Pipeline.ΦA spec8 c : sProp 𝕄)
      = iprop(iprop(iprop((∃ d, owns (c : Thread nD τ) scM8_0 fullShare d) ∗ (∃ d, owns (c : Thread nD τ) scM8_1 fullShare d))
            ∗ Pipeline.scopedRestBut (Ix := Unit) (Name := ℕ) (U := UR sig nD τ) (Lvl := ℕ) (Val := Elt F) spec8 c [cc8_scratch0, cc8_scratch1])
          ∗ (∃ r, prngReg c r)) := by
  unfold Pipeline.ΦA; rw [scopedRest8_split]; simp only [scM8_0, scM8_1, owns_whole]; try rfl

end Cert.KernelIdeal.Hand

end
-- ==== Proof.KI.Reg8RunA.lean ====
import proofs.«181597_j77979426226450_2_alg».proof.Proof.KI.Reg8Runs

-- membership in a rectangle of large extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

-- (the run's proof term is large: the definition's epilogue walks it past the default budget)
set_option maxHeartbeats 1000000 in
/-- What the body's stores leave in the output's staging memref and in the two scratch accumulators, as pieces (last
    first) IN CASE A (first conditional taken, second not: the even points), WITH the proof that on whole memrefs —
    the inputs' at their contents, the output's (no store: the window idle and not written back at the case's points)
    at contents `xi4` handed back untouched, the two scratch accumulators at anything (the case zeroes them before it
    reads them) — the body runs to the continuation holding the inputs' as they were and each accumulator with its
    pieces written. The pieces are the witness the run finds. -/
noncomputable def kernelRun8_A (c : Dev nD) (i : grid8.Coords) (arg2 : Memref sig .tc .vmem S2048x1024 .bf16) (harg2 : arg2.IsWhole) (arg3 : Memref sig .tc .vmem S2048x1024 .bf16) (harg3 : arg3.IsWhole) (arg4 : Memref sig .tc .vmem S2048x128 .f32) (harg4 : arg4.IsWhole) (arg5 : Memref sig .tc .vmem S1024x128 .f32) (harg5 : arg5.IsWhole) (arg6 : Memref sig .tc .vmem S1024x384 .f32) (harg6 : arg6.IsWhole) (argS0 : Memref sig .tc .vmem S1024x128 .f32) (hargS0 : argS0.IsWhole) (argS1 : Memref sig .tc .vmem S1024x128 .f32) (hargS1 : argS1.IsWhole) (hc0 : cond8_0 i) (hc1 : ¬cond8_1 i)
    (x0 : Vec F S2048x1024 .bf16) (x1 : Vec F S2048x1024 .bf16) (x2 : Vec F S2048x128 .f32) (x3 : Vec F S1024x128 .f32) :
    Σ' (L4 : List (View.Piece (Elt F) S1024x384 .f32)) (LS0 : List (View.Piece (Elt F) S1024x128 .f32)), { LS1 : List (View.Piece (Elt F) S1024x128 .f32) //
      ∀ (xi4 : Vec F S1024x384 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) argS0 fullShare d) ∗ (∃ d, owns (c : Thread nD τ) argS1 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, argS0.view.loc (c : Thread nD τ) ↦[argS0.view.set]{fullShare} argS0.view.writes (Elt F) f LS0) ∗ (∃ f, argS1.view.loc (c : Thread nD τ) ↦[argS1.view.set]{fullShare} argS1.view.writes (Elt F) f LS1)) -∗ K ⟨⟩))
          ⊢ wp frame (wpE (defs₀ (F := F)) Variants.none c none) E (cc8__final_kernel i arg2 harg2 arg3 harg3 arg4 harg4 arg5 harg5 arg6 harg6 argS0 hargS0 argS1 hargS1) K } := by
  refine ⟨[], ?_, ?_, fun xi4 E K => ?run⟩
  case run =>
    simp only [cc8__final_kernel_eq_skeleton]; unfold cc8__final_kernel_skel
    simp only [k8_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [HS0]; · iexists _; iexact HS0
    iexists _; iexact HS1

end Cert.KernelIdeal.Hand

end
-- ==== Proof.KI.Reg8RunC.lean ====
import proofs.«181597_j77979426226450_2_alg».proof.Proof.KI.Reg8RunA

-- membership in a rectangle of large extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

-- (the run's proof term is large: the definition's epilogue walks it past the default budget)
set_option maxHeartbeats 1000000 in
/-- What the body's stores leave in the output's staging memref and in the two scratch accumulators, as pieces (last
    first) IN CASE C (first conditional not taken, second taken: the odd points), WITH the proof that on whole memrefs —
    the inputs' at their contents, the output's at anything, the two scratch accumulators at the contents the point
    before left (`xs0`, `xs1`) — the body runs to the continuation holding the inputs' as they were, each accumulator
    with its pieces written and the output's buffer with its three column-block pieces written. The pieces are the
    witness the run finds. -/
noncomputable def kernelRun8_C (c : Dev nD) (i : grid8.Coords) (arg2 : Memref sig .tc .vmem S2048x1024 .bf16) (harg2 : arg2.IsWhole) (arg3 : Memref sig .tc .vmem S2048x1024 .bf16) (harg3 : arg3.IsWhole) (arg4 : Memref sig .tc .vmem S2048x128 .f32) (harg4 : arg4.IsWhole) (arg5 : Memref sig .tc .vmem S1024x128 .f32) (harg5 : arg5.IsWhole) (arg6 : Memref sig .tc .vmem S1024x384 .f32) (harg6 : arg6.IsWhole) (argS0 : Memref sig .tc .vmem S1024x128 .f32) (hargS0 : argS0.IsWhole) (argS1 : Memref sig .tc .vmem S1024x128 .f32) (hargS1 : argS1.IsWhole) (hc0 : ¬cond8_0 i) (hc1 : cond8_1 i)
    (x0 : Vec F S2048x1024 .bf16) (x1 : Vec F S2048x1024 .bf16) (x2 : Vec F S2048x128 .f32) (x3 : Vec F S1024x128 .f32) (xs0 : Vec F S1024x128 .f32) (xs1 : Vec F S1024x128 .f32) :
    Σ' (L4 : List (View.Piece (Elt F) S1024x384 .f32)) (LS0 : List (View.Piece (Elt F) S1024x128 .f32)), { LS1 : List (View.Piece (Elt F) S1024x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) argS0 fullShare xs0 ∗ owns (c : Thread nD τ) argS1 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, argS0.view.loc (c : Thread nD τ) ↦[argS0.view.set]{fullShare} argS0.view.writes (Elt F) f LS0) ∗ (∃ f, argS1.view.loc (c : Thread nD τ) ↦[argS1.view.set]{fullShare} argS1.view.writes (Elt F) f LS1)) -∗ K ⟨⟩))
          ⊢ wp frame (wpE (defs₀ (F := F)) Variants.none c none) E (cc8__final_kernel i arg2 harg2 arg3 harg3 arg4 harg4 arg5 harg5 arg6 harg6 argS0 hargS0 argS1 hargS1) K } := by
  refine ⟨?_, ?_, ?_, fun E K => ?run⟩
  case run =>
    simp only [cc8__final_kernel_eq_skeleton]; unfold cc8__final_kernel_skel
    simp only [k8_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3
    obtain rfl := hargS0.eq_unread hfs0; obtain rfl := hargS1.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [HS0]; · iexists _; iexact HS0
    iexists _; iexact HS1

end Cert.KernelIdeal.Hand

end
-- ==== Proof.KI.Reg8.lean ====
import proofs.«181597_j77979426226450_2_alg».proof.Proof.KI.Reg8RunC

-- membership in a rectangle of large extents recurses once per coordinate of the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! # REGION 8: what its buffers hold case by case and point by point, the proof data, the body obligation -/

/-- Case A stores nothing into output 4 (the window is idle at its points and not written back there): no pieces —
    a placeholder (junk read back) that nothing consults. -/
def out8_A_4 (c : Dev nD) (i : grid8.Coords) (arg2 : Memref sig .tc .vmem S2048x1024 .bf16) (harg2 : arg2.IsWhole) (arg3 : Memref sig .tc .vmem S2048x1024 .bf16) (harg3 : arg3.IsWhole) (arg4 : Memref sig .tc .vmem S2048x128 .f32) (harg4 : arg4.IsWhole) (arg5 : Memref sig .tc .vmem S1024x128 .f32) (harg5 : arg5.IsWhole) (arg6 : Memref sig .tc .vmem S1024x384 .f32) (harg6 : arg6.IsWhole) (argS0 : Memref sig .tc .vmem S1024x128 .f32) (hargS0 : argS0.IsWhole) (argS1 : Memref sig .tc .vmem S1024x128 .f32) (hargS1 : argS1.IsWhole) (hc0 : cond8_0 i) (hc1 : ¬cond8_1 i)
    (x0 : Vec F S2048x1024 .bf16) (x1 : Vec F S2048x1024 .bf16) (x2 : Vec F S2048x128 .f32) (x3 : Vec F S1024x128 .f32) : Vec F S1024x384 .f32 :=
  VO8_4.read (Elt F) (VO8_4.writes (Elt F) VO8_4.junk (kernelRun8_A c i arg2 harg2 arg3 harg3 arg4 harg4 arg5 harg5 arg6 harg6 argS0 hargS0 argS1 hargS1 hc0 hc1 x0 x1 x2 x3).1)

/-- Case A's pieces for the first scratch accumulator cover it: the zeroing store and the accumulating store, each whole. -/
theorem scover8_A_0 (c : Dev nD) (i : grid8.Coords) (arg2 : Memref sig .tc .vmem S2048x1024 .bf16) (harg2 : arg2.IsWhole) (arg3 : Memref sig .tc .vmem S2048x1024 .bf16) (harg3 : arg3.IsWhole) (arg4 : Memref sig .tc .vmem S2048x128 .f32) (harg4 : arg4.IsWhole) (arg5 : Memref sig .tc .vmem S1024x128 .f32) (harg5 : arg5.IsWhole) (arg6 : Memref sig .tc .vmem S1024x384 .f32) (harg6 : arg6.IsWhole) (argS0 : Memref sig .tc .vmem S1024x128 .f32) (hargS0 : argS0.IsWhole) (argS1 : Memref sig .tc .vmem S1024x128 .f32) (hargS1 : argS1.IsWhole) (hc0 : cond8_0 i) (hc1 : ¬cond8_1 i)
    (x0 : Vec F S2048x1024 .bf16) (x1 : Vec F S2048x1024 .bf16) (x2 : Vec F S2048x128 .f32) (x3 : Vec F S1024x128 .f32) (y : S1024x128.Idx) :
    ∃ pc ∈ (kernelRun8_A c i arg2 harg2 arg3 harg3 arg4 harg4 arg5 harg5 arg6 harg6 argS0 hargS0 argS1 hargS1 hc0 hc1 x0 x1 x2 x3).2.1, y ∈ pc.1.set :=
  View.cover_of_tiledL (kernelRun8_A c i arg2 harg2 arg3 harg3 arg4 harg4 arg5 harg5 arg6 harg6 argS0 hargS0 argS1 hargS1 hc0 hc1 x0 x1 x2 x3).2.1 S1024x128.size (by sl_kernel_rfl) y

/-- What case A leaves in the first scratch accumulator: its pieces read back over junk. -/
def sout8_A_0 (c : Dev nD) (i : grid8.Coords) (arg2 : Memref sig .tc .vmem S2048x1024 .bf16) (harg2 : arg2.IsWhole) (arg3 : Memref sig .tc .vmem S2048x1024 .bf16) (harg3 : arg3.IsWhole) (arg4 : Memref sig .tc .vmem S2048x128 .f32) (harg4 : arg4.IsWhole) (arg5 : Memref sig .tc .vmem S1024x128 .f32) (harg5 : arg5.IsWhole) (arg6 : Memref sig .tc .vmem S1024x384 .f32) (harg6 : arg6.IsWhole) (argS0 : Memref sig .tc .vmem S1024x128 .f32) (hargS0 : argS0.IsWhole) (argS1 : Memref sig .tc .vmem S1024x128 .f32) (hargS1 : argS1.IsWhole) (hc0 : cond8_0 i) (hc1 : ¬cond8_1 i)
    (x0 : Vec F S2048x1024 .bf16) (x1 : Vec F S2048x1024 .bf16) (x2 : Vec F S2048x128 .f32) (x3 : Vec F S1024x128 .f32) : Vec F S1024x128 .f32 :=
  VS8_0.read (Elt F) (VS8_0.writes (Elt F) VS8_0.junk (kernelRun8_A c i arg2 harg2 arg3 harg3 arg4 harg4 arg5 harg5 arg6 harg6 argS0 hargS0 argS1 hargS1 hc0 hc1 x0 x1 x2 x3).2.1)

/-- Case A's pieces for the second scratch accumulator cover it. -/
theorem scover8_A_1 (c : Dev nD) (i : grid8.Coords) (arg2 : Memref sig .tc .vmem S2048x1024 .bf16) (harg2 : arg2.IsWhole) (arg3 : Memref sig .tc .vmem S2048x1024 .bf16) (harg3 : arg3.IsWhole) (arg4 : Memref sig .tc .vmem S2048x128 .f32) (harg4 : arg4.IsWhole) (arg5 : Memref sig .tc .vmem S1024x128 .f32) (harg5 : arg5.IsWhole) (arg6 : Memref sig .tc .vmem S1024x384 .f32) (harg6 : arg6.IsWhole) (argS0 : Memref sig .tc .vmem S1024x128 .f32) (hargS0 : argS0.IsWhole) (argS1 : Memref sig .tc .vmem S1024x128 .f32) (hargS1 : argS1.IsWhole) (hc0 : cond8_0 i) (hc1 : ¬cond8_1 i)
    (x0 : Vec F S2048x1024 .bf16) (x1 : Vec F S2048x1024 .bf16) (x2 : Vec F S2048x128 .f32) (x3 : Vec F S1024x128 .f32) (y : S1024x128.Idx) :
    ∃ pc ∈ (kernelRun8_A c i arg2 harg2 arg3 harg3 arg4 harg4 arg5 harg5 arg6 harg6 argS0 hargS0 argS1 hargS1 hc0 hc1 x0 x1 x2 x3).2.2.1, y ∈ pc.1.set :=
  View.cover_of_tiledL (kernelRun8_A c i arg2 harg2 arg3 harg3 arg4 harg4 arg5 harg5 arg6 harg6 argS0 hargS0 argS1 hargS1 hc0 hc1 x0 x1 x2 x3).2.2.1 S1024x128.size (by sl_kernel_rfl) y

/-- What case A leaves in the second scratch accumulator. -/
def sout8_A_1 (c : Dev nD) (i : grid8.Coords) (arg2 : Memref sig .tc .vmem S2048x1024 .bf16) (harg2 : arg2.IsWhole) (arg3 : Memref sig .tc .vmem S2048x1024 .bf16) (harg3 : arg3.IsWhole) (arg4 : Memref sig .tc .vmem S2048x128 .f32) (harg4 : arg4.IsWhole) (arg5 : Memref sig .tc .vmem S1024x128 .f32) (harg5 : arg5.IsWhole) (arg6 : Memref sig .tc .vmem S1024x384 .f32) (harg6 : arg6.IsWhole) (argS0 : Memref sig .tc .vmem S1024x128 .f32) (hargS0 : argS0.IsWhole) (argS1 : Memref sig .tc .vmem S1024x128 .f32) (hargS1 : argS1.IsWhole) (hc0 : cond8_0 i) (hc1 : ¬cond8_1 i)
    (x0 : Vec F S2048x1024 .bf16) (x1 : Vec F S2048x1024 .bf16) (x2 : Vec F S2048x128 .f32) (x3 : Vec F S1024x128 .f32) : Vec F S1024x128 .f32 :=
  VS8_1.read (Elt F) (VS8_1.writes (Elt F) VS8_1.junk (kernelRun8_A c i arg2 harg2 arg3 harg3 arg4 harg4 arg5 harg5 arg6 harg6 argS0 hargS0 argS1 hargS1 hc0 hc1 x0 x1 x2 x3).2.2.1)

/-- Case C's pieces for output 4 tile its block: three column blocks of 1024x128 side by side in 1024x384. -/
theorem cover8_C_4 (c : Dev nD) (i : grid8.Coords) (arg2 : Memref sig .tc .vmem S2048x1024 .bf16) (harg2 : arg2.IsWhole) (arg3 : Memref sig .tc .vmem S2048x1024 .bf16) (harg3 : arg3.IsWhole) (arg4 : Memref sig .tc .vmem S2048x128 .f32) (harg4 : arg4.IsWhole) (arg5 : Memref sig .tc .vmem S1024x128 .f32) (harg5 : arg5.IsWhole) (arg6 : Memref sig .tc .vmem S1024x384 .f32) (harg6 : arg6.IsWhole) (argS0 : Memref sig .tc .vmem S1024x128 .f32) (hargS0 : argS0.IsWhole) (argS1 : Memref sig .tc .vmem S1024x128 .f32) (hargS1 : argS1.IsWhole) (hc0 : ¬cond8_0 i) (hc1 : cond8_1 i)
    (x0 : Vec F S2048x1024 .bf16) (x1 : Vec F S2048x1024 .bf16) (x2 : Vec F S2048x128 .f32) (x3 : Vec F S1024x128 .f32) (xs0 : Vec F S1024x128 .f32) (xs1 : Vec F S1024x128 .f32) (y : S1024x384.Idx) :
    ∃ pc ∈ (kernelRun8_C c i arg2 harg2 arg3 harg3 arg4 harg4 arg5 harg5 arg6 harg6 argS0 hargS0 argS1 hargS1 hc0 hc1 x0 x1 x2 x3 xs0 xs1).1, y ∈ pc.1.set :=
  View.cover_of_tiledL (kernelRun8_C c i arg2 harg2 arg3 harg3 arg4 harg4 arg5 harg5 arg6 harg6 argS0 hargS0 argS1 hargS1 hc0 hc1 x0 x1 x2 x3 xs0 xs1).1 S1024x128.size (by sl_kernel_rfl) y

/-- What case C leaves in output 4's staging buffer: its pieces read back over junk. -/
def out8_C_4 (c : Dev nD) (i : grid8.Coords) (arg2 : Memref sig .tc .vmem S2048x1024 .bf16) (harg2 : arg2.IsWhole) (arg3 : Memref sig .tc .vmem S2048x1024 .bf16) (harg3 : arg3.IsWhole) (arg4 : Memref sig .tc .vmem S2048x128 .f32) (harg4 : arg4.IsWhole) (arg5 : Memref sig .tc .vmem S1024x128 .f32) (harg5 : arg5.IsWhole) (arg6 : Memref sig .tc .vmem S1024x384 .f32) (harg6 : arg6.IsWhole) (argS0 : Memref sig .tc .vmem S1024x128 .f32) (hargS0 : argS0.IsWhole) (argS1 : Memref sig .tc .vmem S1024x128 .f32) (hargS1 : argS1.IsWhole) (hc0 : ¬cond8_0 i) (hc1 : cond8_1 i)
    (x0 : Vec F S2048x1024 .bf16) (x1 : Vec F S2048x1024 .bf16) (x2 : Vec F S2048x128 .f32) (x3 : Vec F S1024x128 .f32) (xs0 : Vec F S1024x128 .f32) (xs1 : Vec F S1024x128 .f32) : Vec F S1024x384 .f32 :=
  VO8_4.read (Elt F) (VO8_4.writes (Elt F) VO8_4.junk (kernelRun8_C c i arg2 harg2 arg3 harg3 arg4 harg4 arg5 harg5 arg6 harg6 argS0 hargS0 argS1 hargS1 hc0 hc1 x0 x1 x2 x3 xs0 xs1).1)

/-- Case C's pieces for the first scratch accumulator cover it: the accumulating store, whole. -/
theorem scover8_C_0 (c : Dev nD) (i : grid8.Coords) (arg2 : Memref sig .tc .vmem S2048x1024 .bf16) (harg2 : arg2.IsWhole) (arg3 : Memref sig .tc .vmem S2048x1024 .bf16) (harg3 : arg3.IsWhole) (arg4 : Memref sig .tc .vmem S2048x128 .f32) (harg4 : arg4.IsWhole) (arg5 : Memref sig .tc .vmem S1024x128 .f32) (harg5 : arg5.IsWhole) (arg6 : Memref sig .tc .vmem S1024x384 .f32) (harg6 : arg6.IsWhole) (argS0 : Memref sig .tc .vmem S1024x128 .f32) (hargS0 : argS0.IsWhole) (argS1 : Memref sig .tc .vmem S1024x128 .f32) (hargS1 : argS1.IsWhole) (hc0 : ¬cond8_0 i) (hc1 : cond8_1 i)
    (x0 : Vec F S2048x1024 .bf16) (x1 : Vec F S2048x1024 .bf16) (x2 : Vec F S2048x128 .f32) (x3 : Vec F S1024x128 .f32) (xs0 : Vec F S1024x128 .f32) (xs1 : Vec F S1024x128 .f32) (y : S1024x128.Idx) :
    ∃ pc ∈ (kernelRun8_C c i arg2 harg2 arg3 harg3 arg4 harg4 arg5 harg5 arg6 harg6 argS0 hargS0 argS1 hargS1 hc0 hc1 x0 x1 x2 x3 xs0 xs1).2.1, y ∈ pc.1.set :=
  View.cover_of_tiledL (kernelRun8_C c i arg2 harg2 arg3 harg3 arg4 harg4 arg5 harg5 arg6 harg6 argS0 hargS0 argS1 hargS1 hc0 hc1 x0 x1 x2 x3 xs0 xs1).2.1 S1024x128.size (by sl_kernel_rfl) y

/-- What case C leaves in the first scratch accumulator. -/
def sout8_C_0 (c : Dev nD) (i : grid8.Coords) (arg2 : Memref sig .tc .vmem S2048x1024 .bf16) (harg2 : arg2.IsWhole) (arg3 : Memref sig .tc .vmem S2048x1024 .bf16) (harg3 : arg3.IsWhole) (arg4 : Memref sig .tc .vmem S2048x128 .f32) (harg4 : arg4.IsWhole) (arg5 : Memref sig .tc .vmem S1024x128 .f32) (harg5 : arg5.IsWhole) (arg6 : Memref sig .tc .vmem S1024x384 .f32) (harg6 : arg6.IsWhole) (argS0 : Memref sig .tc .vmem S1024x128 .f32) (hargS0 : argS0.IsWhole) (argS1 : Memref sig .tc .vmem S1024x128 .f32) (hargS1 : argS1.IsWhole) (hc0 : ¬cond8_0 i) (hc1 : cond8_1 i)
    (x0 : Vec F S2048x1024 .bf16) (x1 : Vec F S2048x1024 .bf16) (x2 : Vec F S2048x128 .f32) (x3 : Vec F S1024x128 .f32) (xs0 : Vec F S1024x128 .f32) (xs1 : Vec F S1024x128 .f32) : Vec F S1024x128 .f32 :=
  VS8_0.read (Elt F) (VS8_0.writes (Elt F) VS8_0.junk (kernelRun8_C c i arg2 harg2 arg3 harg3 arg4 harg4 arg5 harg5 arg6 harg6 argS0 hargS0 argS1 hargS1 hc0 hc1 x0 x1 x2 x3 xs0 xs1).2.1)

/-- Case C's pieces for the second scratch accumulator cover it. -/
theorem scover8_C_1 (c : Dev nD) (i : grid8.Coords) (arg2 : Memref sig .tc .vmem S2048x1024 .bf16) (harg2 : arg2.IsWhole) (arg3 : Memref sig .tc .vmem S2048x1024 .bf16) (harg3 : arg3.IsWhole) (arg4 : Memref sig .tc .vmem S2048x128 .f32) (harg4 : arg4.IsWhole) (arg5 : Memref sig .tc .vmem S1024x128 .f32) (harg5 : arg5.IsWhole) (arg6 : Memref sig .tc .vmem S1024x384 .f32) (harg6 : arg6.IsWhole) (argS0 : Memref sig .tc .vmem S1024x128 .f32) (hargS0 : argS0.IsWhole) (argS1 : Memref sig .tc .vmem S1024x128 .f32) (hargS1 : argS1.IsWhole) (hc0 : ¬cond8_0 i) (hc1 : cond8_1 i)
    (x0 : Vec F S2048x1024 .bf16) (x1 : Vec F S2048x1024 .bf16) (x2 : Vec F S2048x128 .f32) (x3 : Vec F S1024x128 .f32) (xs0 : Vec F S1024x128 .f32) (xs1 : Vec F S1024x128 .f32) (y : S1024x128.Idx) :
    ∃ pc ∈ (kernelRun8_C c i arg2 harg2 arg3 harg3 arg4 harg4 arg5 harg5 arg6 harg6 argS0 hargS0 argS1 hargS1 hc0 hc1 x0 x1 x2 x3 xs0 xs1).2.2.1, y ∈ pc.1.set :=
  View.cover_of_tiledL (kernelRun8_C c i arg2 harg2 arg3 harg3 arg4 harg4 arg5 harg5 arg6 harg6 argS0 hargS0 argS1 hargS1 hc0 hc1 x0 x1 x2 x3 xs0 xs1).2.2.1 S1024x128.size (by sl_kernel_rfl) y

/-- What case C leaves in the second scratch accumulator. -/
def sout8_C_1 (c : Dev nD) (i : grid8.Coords) (arg2 : Memref sig .tc .vmem S2048x1024 .bf16) (harg2 : arg2.IsWhole) (arg3 : Memref sig .tc .vmem S2048x1024 .bf16) (harg3 : arg3.IsWhole) (arg4 : Memref sig .tc .vmem S2048x128 .f32) (harg4 : arg4.IsWhole) (arg5 : Memref sig .tc .vmem S1024x128 .f32) (harg5 : arg5.IsWhole) (arg6 : Memref sig .tc .vmem S1024x384 .f32) (harg6 : arg6.IsWhole) (argS0 : Memref sig .tc .vmem S1024x128 .f32) (hargS0 : argS0.IsWhole) (argS1 : Memref sig .tc .vmem S1024x128 .f32) (hargS1 : argS1.IsWhole) (hc0 : ¬cond8_0 i) (hc1 : cond8_1 i)
    (x0 : Vec F S2048x1024 .bf16) (x1 : Vec F S2048x1024 .bf16) (x2 : Vec F S2048x128 .f32) (x3 : Vec F S1024x128 .f32) (xs0 : Vec F S1024x128 .f32) (xs1 : Vec F S1024x128 .f32) : Vec F S1024x128 .f32 :=
  VS8_1.read (Elt F) (VS8_1.writes (Elt F) VS8_1.junk (kernelRun8_C c i arg2 harg2 arg3 harg3 arg4 harg4 arg5 harg5 arg6 harg6 argS0 hargS0 argS1 hargS1 hc0 hc1 x0 x1 x2 x3 xs0 xs1).2.2.1)

/-! ## What the buffers hold after each point -/

/-- THE ACCUMULATION. What output 4's staging buffer and the two scratch accumulators hold after the body at position
    `n` (a tuple: the output, then the accumulators): the case the closed forms select at `n`, run at the point's
    memrefs and input blocks, in case C the accumulators at what the body left at `n - 1`. An assignment of the
    conditions no point meets is no case. -/
def outsAt8 (c : Dev nD) : (n : ℕ) → n < cfg8.N → Vec F S1024x384 .f32 × Vec F S1024x128 .f32 × Vec F S1024x128 .f32
  | 0, hn => (out8_A_4 c (grid8.coords ⟨0, hn⟩) (ms8_0 ⟨0, hn⟩) (hs8_0 ⟨0, hn⟩) (ms8_1 ⟨0, hn⟩) (hs8_1 ⟨0, hn⟩) (ms8_2 ⟨0, hn⟩) (hs8_2 ⟨0, hn⟩) (ms8_3 ⟨0, hn⟩) (hs8_3 ⟨0, hn⟩) (ms8_4 ⟨0, hn⟩) (hs8_4 ⟨0, hn⟩) scM8_0 (Memref.isWhole_whole _) scM8_1 (Memref.isWhole_whole _) ((hcond8_0 ⟨0, hn⟩).mpr (Nat.zero_mod _)) (fun h => (fun h => by (try dsimp only at h); omega) ((hcond8_1 ⟨0, hn⟩).mp h)) (iblk8 V c 0 ⟨0, hn⟩) (iblk8 V c 1 ⟨0, hn⟩) (iblk8 V c 2 ⟨0, hn⟩) (iblk8 V c 3 ⟨0, hn⟩), sout8_A_0 c (grid8.coords ⟨0, hn⟩) (ms8_0 ⟨0, hn⟩) (hs8_0 ⟨0, hn⟩) (ms8_1 ⟨0, hn⟩) (hs8_1 ⟨0, hn⟩) (ms8_2 ⟨0, hn⟩) (hs8_2 ⟨0, hn⟩) (ms8_3 ⟨0, hn⟩) (hs8_3 ⟨0, hn⟩) (ms8_4 ⟨0, hn⟩) (hs8_4 ⟨0, hn⟩) scM8_0 (Memref.isWhole_whole _) scM8_1 (Memref.isWhole_whole _) ((hcond8_0 ⟨0, hn⟩).mpr (Nat.zero_mod _)) (fun h => (fun h => by (try dsimp only at h); omega) ((hcond8_1 ⟨0, hn⟩).mp h)) (iblk8 V c 0 ⟨0, hn⟩) (iblk8 V c 1 ⟨0, hn⟩) (iblk8 V c 2 ⟨0, hn⟩) (iblk8 V c 3 ⟨0, hn⟩), sout8_A_1 c (grid8.coords ⟨0, hn⟩) (ms8_0 ⟨0, hn⟩) (hs8_0 ⟨0, hn⟩) (ms8_1 ⟨0, hn⟩) (hs8_1 ⟨0, hn⟩) (ms8_2 ⟨0, hn⟩) (hs8_2 ⟨0, hn⟩) (ms8_3 ⟨0, hn⟩) (hs8_3 ⟨0, hn⟩) (ms8_4 ⟨0, hn⟩) (hs8_4 ⟨0, hn⟩) scM8_0 (Memref.isWhole_whole _) scM8_1 (Memref.isWhole_whole _) ((hcond8_0 ⟨0, hn⟩).mpr (Nat.zero_mod _)) (fun h => (fun h => by (try dsimp only at h); omega) ((hcond8_1 ⟨0, hn⟩).mp h)) (iblk8 V c 0 ⟨0, hn⟩) (iblk8 V c 1 ⟨0, hn⟩) (iblk8 V c 2 ⟨0, hn⟩) (iblk8 V c 3 ⟨0, hn⟩))
  | n + 1, hn =>
    if h0 : (n + 1) % 2 = 0 then
      if h1 : (n + 1) % 2 = 1 then
        False.elim (by omega)
      else
        (out8_A_4 c (grid8.coords ⟨n + 1, hn⟩) (ms8_0 ⟨n + 1, hn⟩) (hs8_0 ⟨n + 1, hn⟩) (ms8_1 ⟨n + 1, hn⟩) (hs8_1 ⟨n + 1, hn⟩) (ms8_2 ⟨n + 1, hn⟩) (hs8_2 ⟨n + 1, hn⟩) (ms8_3 ⟨n + 1, hn⟩) (hs8_3 ⟨n + 1, hn⟩) (ms8_4 ⟨n + 1, hn⟩) (hs8_4 ⟨n + 1, hn⟩) scM8_0 (Memref.isWhole_whole _) scM8_1 (Memref.isWhole_whole _) ((hcond8_0 ⟨n + 1, hn⟩).mpr h0) (fun h => h1 ((hcond8_1 ⟨n + 1, hn⟩).mp h)) (iblk8 V c 0 ⟨n + 1, hn⟩) (iblk8 V c 1 ⟨n + 1, hn⟩) (iblk8 V c 2 ⟨n + 1, hn⟩) (iblk8 V c 3 ⟨n + 1, hn⟩), sout8_A_0 c (grid8.coords ⟨n + 1, hn⟩) (ms8_0 ⟨n + 1, hn⟩) (hs8_0 ⟨n + 1, hn⟩) (ms8_1 ⟨n + 1, hn⟩) (hs8_1 ⟨n + 1, hn⟩) (ms8_2 ⟨n + 1, hn⟩) (hs8_2 ⟨n + 1, hn⟩) (ms8_3 ⟨n + 1, hn⟩) (hs8_3 ⟨n + 1, hn⟩) (ms8_4 ⟨n + 1, hn⟩) (hs8_4 ⟨n + 1, hn⟩) scM8_0 (Memref.isWhole_whole _) scM8_1 (Memref.isWhole_whole _) ((hcond8_0 ⟨n + 1, hn⟩).mpr h0) (fun h => h1 ((hcond8_1 ⟨n + 1, hn⟩).mp h)) (iblk8 V c 0 ⟨n + 1, hn⟩) (iblk8 V c 1 ⟨n + 1, hn⟩) (iblk8 V c 2 ⟨n + 1, hn⟩) (iblk8 V c 3 ⟨n + 1, hn⟩), sout8_A_1 c (grid8.coords ⟨n + 1, hn⟩) (ms8_0 ⟨n + 1, hn⟩) (hs8_0 ⟨n + 1, hn⟩) (ms8_1 ⟨n + 1, hn⟩) (hs8_1 ⟨n + 1, hn⟩) (ms8_2 ⟨n + 1, hn⟩) (hs8_2 ⟨n + 1, hn⟩) (ms8_3 ⟨n + 1, hn⟩) (hs8_3 ⟨n + 1, hn⟩) (ms8_4 ⟨n + 1, hn⟩) (hs8_4 ⟨n + 1, hn⟩) scM8_0 (Memref.isWhole_whole _) scM8_1 (Memref.isWhole_whole _) ((hcond8_0 ⟨n + 1, hn⟩).mpr h0) (fun h => h1 ((hcond8_1 ⟨n + 1, hn⟩).mp h)) (iblk8 V c 0 ⟨n + 1, hn⟩) (iblk8 V c 1 ⟨n + 1, hn⟩) (iblk8 V c 2 ⟨n + 1, hn⟩) (iblk8 V c 3 ⟨n + 1, hn⟩))
    else
      if h1 : (n + 1) % 2 = 1 then
        (out8_C_4 c (grid8.coords ⟨n + 1, hn⟩) (ms8_0 ⟨n + 1, hn⟩) (hs8_0 ⟨n + 1, hn⟩) (ms8_1 ⟨n + 1, hn⟩) (hs8_1 ⟨n + 1, hn⟩) (ms8_2 ⟨n + 1, hn⟩) (hs8_2 ⟨n + 1, hn⟩) (ms8_3 ⟨n + 1, hn⟩) (hs8_3 ⟨n + 1, hn⟩) (ms8_4 ⟨n + 1, hn⟩) (hs8_4 ⟨n + 1, hn⟩) scM8_0 (Memref.isWhole_whole _) scM8_1 (Memref.isWhole_whole _) (fun h => h0 ((hcond8_0 ⟨n + 1, hn⟩).mp h)) ((hcond8_1 ⟨n + 1, hn⟩).mpr h1) (iblk8 V c 0 ⟨n + 1, hn⟩) (iblk8 V c 1 ⟨n + 1, hn⟩) (iblk8 V c 2 ⟨n + 1, hn⟩) (iblk8 V c 3 ⟨n + 1, hn⟩) (outsAt8 c n (Nat.lt_of_succ_lt hn)).2.1 (outsAt8 c n (Nat.lt_of_succ_lt hn)).2.2, sout8_C_0 c (grid8.coords ⟨n + 1, hn⟩) (ms8_0 ⟨n + 1, hn⟩) (hs8_0 ⟨n + 1, hn⟩) (ms8_1 ⟨n + 1, hn⟩) (hs8_1 ⟨n + 1, hn⟩) (ms8_2 ⟨n + 1, hn⟩) (hs8_2 ⟨n + 1, hn⟩) (ms8_3 ⟨n + 1, hn⟩) (hs8_3 ⟨n + 1, hn⟩) (ms8_4 ⟨n + 1, hn⟩) (hs8_4 ⟨n + 1, hn⟩) scM8_0 (Memref.isWhole_whole _) scM8_1 (Memref.isWhole_whole _) (fun h => h0 ((hcond8_0 ⟨n + 1, hn⟩).mp h)) ((hcond8_1 ⟨n + 1, hn⟩).mpr h1) (iblk8 V c 0 ⟨n + 1, hn⟩) (iblk8 V c 1 ⟨n + 1, hn⟩) (iblk8 V c 2 ⟨n + 1, hn⟩) (iblk8 V c 3 ⟨n + 1, hn⟩) (outsAt8 c n (Nat.lt_of_succ_lt hn)).2.1 (outsAt8 c n (Nat.lt_of_succ_lt hn)).2.2, sout8_C_1 c (grid8.coords ⟨n + 1, hn⟩) (ms8_0 ⟨n + 1, hn⟩) (hs8_0 ⟨n + 1, hn⟩) (ms8_1 ⟨n + 1, hn⟩) (hs8_1 ⟨n + 1, hn⟩) (ms8_2 ⟨n + 1, hn⟩) (hs8_2 ⟨n + 1, hn⟩) (ms8_3 ⟨n + 1, hn⟩) (hs8_3 ⟨n + 1, hn⟩) (ms8_4 ⟨n + 1, hn⟩) (hs8_4 ⟨n + 1, hn⟩) scM8_0 (Memref.isWhole_whole _) scM8_1 (Memref.isWhole_whole _) (fun h => h0 ((hcond8_0 ⟨n + 1, hn⟩).mp h)) ((hcond8_1 ⟨n + 1, hn⟩).mpr h1) (iblk8 V c 0 ⟨n + 1, hn⟩) (iblk8 V c 1 ⟨n + 1, hn⟩) (iblk8 V c 2 ⟨n + 1, hn⟩) (iblk8 V c 3 ⟨n + 1, hn⟩) (outsAt8 c n (Nat.lt_of_succ_lt hn)).2.1 (outsAt8 c n (Nat.lt_of_succ_lt hn)).2.2)
      else
        False.elim (by omega)

/-- `outsAt8` at a point of case A: that case's contents. -/
theorem outsAt8_A (c : Dev nD) (t : Fin cfg8.N) (h0 : t.val % 2 = 0) (h1 : ¬t.val % 2 = 1) :
    outsAt8 V c t.val t.isLt = (out8_A_4 c (grid8.coords t) (ms8_0 t) (hs8_0 t) (ms8_1 t) (hs8_1 t) (ms8_2 t) (hs8_2 t) (ms8_3 t) (hs8_3 t) (ms8_4 t) (hs8_4 t) scM8_0 (Memref.isWhole_whole _) scM8_1 (Memref.isWhole_whole _) ((hcond8_0 t).mpr h0) (fun h => h1 ((hcond8_1 t).mp h)) (iblk8 V c 0 t) (iblk8 V c 1 t) (iblk8 V c 2 t) (iblk8 V c 3 t), sout8_A_0 c (grid8.coords t) (ms8_0 t) (hs8_0 t) (ms8_1 t) (hs8_1 t) (ms8_2 t) (hs8_2 t) (ms8_3 t) (hs8_3 t) (ms8_4 t) (hs8_4 t) scM8_0 (Memref.isWhole_whole _) scM8_1 (Memref.isWhole_whole _) ((hcond8_0 t).mpr h0) (fun h => h1 ((hcond8_1 t).mp h)) (iblk8 V c 0 t) (iblk8 V c 1 t) (iblk8 V c 2 t) (iblk8 V c 3 t), sout8_A_1 c (grid8.coords t) (ms8_0 t) (hs8_0 t) (ms8_1 t) (hs8_1 t) (ms8_2 t) (hs8_2 t) (ms8_3 t) (hs8_3 t) (ms8_4 t) (hs8_4 t) scM8_0 (Memref.isWhole_whole _) scM8_1 (Memref.isWhole_whole _) ((hcond8_0 t).mpr h0) (fun h => h1 ((hcond8_1 t).mp h)) (iblk8 V c 0 t) (iblk8 V c 1 t) (iblk8 V c 2 t) (iblk8 V c 3 t)) := by
  obtain ⟨n, hn⟩ := t
  cases n with
  | zero => exact rfl
  | succ n => exact (dif_pos h0).trans ((dif_neg h1).trans rfl)

/-- `outsAt8` at a point of case C: that case's contents, over what the point before left. -/
theorem outsAt8_C (c : Dev nD) (t : Fin cfg8.N) (h0 : ¬t.val % 2 = 0) (h1 : t.val % 2 = 1) :
    outsAt8 V c t.val t.isLt = (out8_C_4 c (grid8.coords t) (ms8_0 t) (hs8_0 t) (ms8_1 t) (hs8_1 t) (ms8_2 t) (hs8_2 t) (ms8_3 t) (hs8_3 t) (ms8_4 t) (hs8_4 t) scM8_0 (Memref.isWhole_whole _) scM8_1 (Memref.isWhole_whole _) (fun h => h0 ((hcond8_0 t).mp h)) ((hcond8_1 t).mpr h1) (iblk8 V c 0 t) (iblk8 V c 1 t) (iblk8 V c 2 t) (iblk8 V c 3 t) (outsAt8 V c (t.val - 1) (Nat.lt_of_le_of_lt (Nat.sub_le _ _) t.isLt)).2.1 (outsAt8 V c (t.val - 1) (Nat.lt_of_le_of_lt (Nat.sub_le _ _) t.isLt)).2.2, sout8_C_0 c (grid8.coords t) (ms8_0 t) (hs8_0 t) (ms8_1 t) (hs8_1 t) (ms8_2 t) (hs8_2 t) (ms8_3 t) (hs8_3 t) (ms8_4 t) (hs8_4 t) scM8_0 (Memref.isWhole_whole _) scM8_1 (Memref.isWhole_whole _) (fun h => h0 ((hcond8_0 t).mp h)) ((hcond8_1 t).mpr h1) (iblk8 V c 0 t) (iblk8 V c 1 t) (iblk8 V c 2 t) (iblk8 V c 3 t) (outsAt8 V c (t.val - 1) (Nat.lt_of_le_of_lt (Nat.sub_le _ _) t.isLt)).2.1 (outsAt8 V c (t.val - 1) (Nat.lt_of_le_of_lt (Nat.sub_le _ _) t.isLt)).2.2, sout8_C_1 c (grid8.coords t) (ms8_0 t) (hs8_0 t) (ms8_1 t) (hs8_1 t) (ms8_2 t) (hs8_2 t) (ms8_3 t) (hs8_3 t) (ms8_4 t) (hs8_4 t) scM8_0 (Memref.isWhole_whole _) scM8_1 (Memref.isWhole_whole _) (fun h => h0 ((hcond8_0 t).mp h)) ((hcond8_1 t).mpr h1) (iblk8 V c 0 t) (iblk8 V c 1 t) (iblk8 V c 2 t) (iblk8 V c 3 t) (outsAt8 V c (t.val - 1) (Nat.lt_of_le_of_lt (Nat.sub_le _ _) t.isLt)).2.1 (outsAt8 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's (every scratch at anything);
    afterwards the two accumulators at what the point before left in them, every other scoped buffer that is no
    staging buffer unopened, and the generator register at some state. -/
def PhiS8 (c : Dev nD) : (n : ℕ) → n ≤ cfg8.N → sProp 𝕄
  | 0, _ => Pipeline.ΦA spec8 c
  | n + 1, hn => iprop(iprop(iprop(owns (c : Thread nD τ) scM8_0 fullShare ((outsAt8 V c n hn).2.1) ∗ owns (c : Thread nD τ) scM8_1 fullShare ((outsAt8 V c n hn).2.2))
      ∗ Pipeline.scopedRestBut (Ix := Unit) (Name := ℕ) (U := UR sig nD τ) (Lvl := ℕ) (Val := Elt F) spec8 c [cc8_scratch0, cc8_scratch1]) ∗ (∃ r, prngReg c r))

theorem PhiS8_zero (c : Dev nD) (n : ℕ) (h : n ≤ cfg8.N) (hz : n = 0) : PhiS8 V c n h = Pipeline.ΦA spec8 c := by
  subst hz; rfl

/-- After point `n` (before point `n + 1`): the accumulators at that point's contents. -/
theorem PhiS8_succ (c : Dev nD) (n : ℕ) (hn : n < cfg8.N) :
    PhiS8 V c (n + 1) hn = iprop(iprop(iprop(owns (c : Thread nD τ) scM8_0 fullShare ((outsAt8 V c n hn).2.1) ∗ owns (c : Thread nD τ) scM8_1 fullShare ((outsAt8 V c n hn).2.2))
      ∗ Pipeline.scopedRestBut (Ix := Unit) (Name := ℕ) (U := UR sig nD τ) (Lvl := ℕ) (Val := Elt F) spec8 c [cc8_scratch0, cc8_scratch1]) ∗ (∃ r, prngReg c r)) := rfl

/-- Before a point that is not the first: the accumulators at what the point before left. -/
theorem PhiS8_pos (c : Dev nD) (n : ℕ) (h : n ≤ cfg8.N) (hz : n ≠ 0) :
    PhiS8 V c n h = iprop(iprop(iprop(owns (c : Thread nD τ) scM8_0 fullShare ((outsAt8 V c (n - 1) (by omega)).2.1) ∗ owns (c : Thread nD τ) scM8_1 fullShare ((outsAt8 V c (n - 1) (by omega)).2.2))
      ∗ Pipeline.scopedRestBut (Ix := Unit) (Name := ℕ) (U := UR sig nD τ) (Lvl := ℕ) (Val := Elt F) spec8 c [cc8_scratch0, cc8_scratch1]) ∗ (∃ r, prngReg c r)) := by
  cases n with
  | zero => exact absurd rfl hz
  | succ n => rfl

/-! ## The pipeline's proof data -/

/-- The proof data of the region's pipeline on core `c`: the arrays as the region finds them (`V`); after the body at
    point `t` each input's buffer at its block and the output's at `outsAt8`'s first component; the invariant `PhiS8`;
    nothing owed; full shares. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => (outsAt8 V c t.val t.isLt).1
  Φ t := PhiS8 V c t.val (Nat.le_of_lt_succ t.isLt)
  q _ := fullShare
  owed _ := 0

/-- The proof data's arrays are the region-entry contents. -/
theorem A_eq8 (c : Dev nD) (w : Fin cfg8.W) : (dat8 V c).A w = V c (Pipeline.arrRef spec8 w) := by
  dsimp only [dat8]

/-- The invariant at a point's start, restated at `t.val`. -/
theorem PhiS8_castSucc (c : Dev nD) (t : Fin cfg8.N) :
    (dat8 V c).Φ t.castSucc = PhiS8 V c t.val (Nat.le_of_lt t.isLt) := by
  dsimp only [dat8]; simp only [Fin.coe_castSucc]

/-- What the body leaves, window by window. -/
theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = iblk8 V c 3 t := by dsimp only [dat8]
theorem after8_4 (c : Dev nD) (t : Fin cfg8.N) : (dat8 V c).after 4 t = (outsAt8 V c t.val t.isLt).1 := by dsimp only [dat8]

/-- Each input's current staging buffer holds its block at every point, fetched there or not. -/
theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d
theorem before8_3 (c : Dev nD) (t : Fin cfg8.N) (d) : (dat8 V c).before 3 t d = iblk8 V c 3 t :=
  before8_3_of V (dat8 V c) (A_eq8 V c 3) (after8_3 V c) t d

/-! ## The body obligation, at a generic point -/

/-- What the body is called with at point `t` (the windows one by one), -/
def bodyPre8 (c : Dev nD) (t : Fin cfg8.N) : sProp 𝕄 :=
  iprop((dat8 V c).Φ t.castSucc ∗ (dat8 V c).owesAt () t.castSucc
    ∗ (∃ d, owns (c : Thread nD τ) (ms8_0 t) fullShare ((dat8 V c).before 0 t d))
    ∗ (∃ d, owns (c : Thread nD τ) (ms8_1 t) fullShare ((dat8 V c).before 1 t d))
    ∗ (∃ d, owns (c : Thread nD τ) (ms8_2 t) fullShare ((dat8 V c).before 2 t d))
    ∗ (∃ d, owns (c : Thread nD τ) (ms8_3 t) fullShare ((dat8 V c).before 3 t d))
    ∗ (∃ d, owns (c : Thread nD τ) (ms8_4 t) fullShare ((dat8 V c).before 4 t d)))

/-- and what it returns. -/
def bodyPost8 (c : Dev nD) (t : Fin cfg8.N) : sProp 𝕄 :=
  iprop((dat8 V c).Φ t.succ ∗ (dat8 V c).owesAt () t.succ
    ∗ (dat8 V c).leavesExact 0 t
    ∗ (dat8 V c).leavesExact 1 t
    ∗ (dat8 V c).leavesExact 2 t
    ∗ (dat8 V c).leavesExact 3 t
    ∗ (dat8 V c).leavesExact 4 t)

set_option maxHeartbeats 4800000 in
/-- The body at any point: the inputs' memrefs hold their blocks; the closed forms say which case the point is in; so
    the run applies; the invariant hands the body the accumulators at what the point before left (at anything at the
    first point) and takes them back at this point's contents; the core owes nothing throughout. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2, before8_3]
  rw [show (dat8 V c).owesAt () t.succ = (dat8 V c).owesAt () t.castSucc from rfl]
  rw [show (dat8 V c).Φ t.succ = PhiS8 V c (t.val + 1) t.isLt from rfl, PhiS8_succ]
  have hN : t.val < 16 := lt_of_lt_of_eq t.isLt (show cfg8.N = 16 from N_8)
  by_cases h0 : t.val % 2 = 0
  · by_cases h1 : t.val % 2 = 1
    · exfalso; omega
    ·
      rw [show (dat8 V c).leavesExact 0 t = owns (c : Thread nD τ) (ms8_0 t) fullShare ((dat8 V c).after 0 t) from by
        unfold Dat.leavesExact; rw [liveAt8_0 t], after8_0]
      rw [show (dat8 V c).leavesExact 1 t = owns (c : Thread nD τ) (ms8_1 t) fullShare ((dat8 V c).after 1 t) from by
        unfold Dat.leavesExact; rw [liveAt8_1 t], after8_1]
      rw [show (dat8 V c).leavesExact 2 t = owns (c : Thread nD τ) (ms8_2 t) fullShare ((dat8 V c).after 2 t) from by
        unfold Dat.leavesExact; rw [liveAt8_2 t], after8_2]
      rw [show (dat8 V c).leavesExact 3 t = owns (c : Thread nD τ) (ms8_3 t) fullShare ((dat8 V c).after 3 t) from by
        unfold Dat.leavesExact; rw [liveAt8_3 t], after8_3]
      rw [Dat.leavesExact_idle (dat8 V c) 4 t (idleAt8_4_A t ((hcond8_0 t).mpr h0) (fun h => h1 ((hcond8_1 t).mp h))) (noFlush8_4_A t ((hcond8_0 t).mpr h0) (fun h => h1 ((hcond8_1 t).mp h)))]
      rw [outsAt8_A V c t h0 h1]
      unfold sout8_A_0 sout8_A_1; (try dsimp only)
      by_cases hz : t.val = 0
      · rw [PhiS8_castSucc V c t, PhiS8_zero V c _ _ hz, PhiA8_eq]
        iintro ⟨⟨⟨⟨HS0, HS1⟩, Hr⟩, Hg⟩, Ho, ⟨%d0, H0⟩, ⟨%d1, H1⟩, ⟨%d2, H2⟩, ⟨%d3, H3⟩, ⟨%d4, H4⟩⟩
        iapply ((kernelRun8_A c (grid8.coords t) _ _ _ _ _ _ _ _ _ _ _ _ _ _ ((hcond8_0 t).mpr h0) (fun h => h1 ((hcond8_1 t).mp h)) (iblk8 V c 0 t) (iblk8 V c 1 t) (iblk8 V c 2 t) (iblk8 V c 3 t)).2.2.2 _ Set.univ _)
        isplitl [H0]; · iexact H0
        isplitl [H1]; · iexact H1
        isplitl [H2]; · iexact H2
        isplitl [H3]; · iexact H3
        isplitl [H4]; · iexact H4
        isplitl [HS0]; · iexact HS0
        isplitl [HS1]; · iexact HS1
        iintro ⟨H0, H1, H2, H3, H4, ⟨%es0, HS0⟩, ⟨%es1, HS1⟩⟩
        isplitl [HS0 HS1 Hr Hg]
        · isplitl [HS0 HS1 Hr]
          · isplitl [HS0 HS1]
            · isplitl [HS0]
              · unfold owns; iexists _; isplitr
                swap; · iexact HS0
                ipureintro; exact View.read_writes_of_cover _ _ _ _ _ (scover8_A_0 c _ _ _ _ _ _ _ _ _ _ _ _ _ _ _ _ _ _ _ _ _)
              unfold owns; iexists _; isplitr
              swap; · iexact HS1
              ipureintro; exact View.read_writes_of_cover _ _ _ _ _ (scover8_A_1 c _ _ _ _ _ _ _ _ _ _ _ _ _ _ _ _ _ _ _ _ _)
            iexact Hr
          iexact Hg
        isplitl [Ho]; · iexact Ho
        isplitl [H0]; · iexact H0
        isplitl [H1]; · iexact H1
        isplitl [H2]; · iexact H2
        isplitl [H3]; · iexact H3
        iexists _; iexact H4
      · rw [PhiS8_castSucc V c t, PhiS8_pos V c _ _ hz]
        iintro ⟨⟨⟨⟨HS0, HS1⟩, Hr⟩, Hg⟩, Ho, ⟨%d0, H0⟩, ⟨%d1, H1⟩, ⟨%d2, H2⟩, ⟨%d3, H3⟩, ⟨%d4, H4⟩⟩
        iapply ((kernelRun8_A c (grid8.coords t) _ _ _ _ _ _ _ _ _ _ _ _ _ _ ((hcond8_0 t).mpr h0) (fun h => h1 ((hcond8_1 t).mp h)) (iblk8 V c 0 t) (iblk8 V c 1 t) (iblk8 V c 2 t) (iblk8 V c 3 t)).2.2.2 _ Set.univ _)
        isplitl [H0]; · iexact H0
        isplitl [H1]; · iexact H1
        isplitl [H2]; · iexact H2
        isplitl [H3]; · iexact H3
        isplitl [H4]; · iexact H4
        isplitl [HS0]; · iexists _; iexact HS0
        isplitl [HS1]; · iexists _; iexact HS1
        iintro ⟨H0, H1, H2, H3, H4, ⟨%es0, HS0⟩, ⟨%es1, HS1⟩⟩
        isplitl [HS0 HS1 Hr Hg]
        · isplitl [HS0 HS1 Hr]
          · isplitl [HS0 HS1]
            · isplitl [HS0]
              · unfold owns; iexists _; isplitr
                swap; · iexact HS0
                ipureintro; exact View.read_writes_of_cover _ _ _ _ _ (scover8_A_0 c _ _ _ _ _ _ _ _ _ _ _ _ _ _ _ _ _ _ _ _ _)
              unfold owns; iexists _; isplitr
              swap; · iexact HS1
              ipureintro; exact View.read_writes_of_cover _ _ _ _ _ (scover8_A_1 c _ _ _ _ _ _ _ _ _ _ _ _ _ _ _ _ _ _ _ _ _)
            iexact Hr
          iexact Hg
        isplitl [Ho]; · iexact Ho
        isplitl [H0]; · iexact H0
        isplitl [H1]; · iexact H1
        isplitl [H2]; · iexact H2
        isplitl [H3]; · iexact H3
        iexists _; iexact H4
  · by_cases h1 : t.val % 2 = 1
    ·
      rw [show (dat8 V c).leavesExact 0 t = owns (c : Thread nD τ) (ms8_0 t) fullShare ((dat8 V c).after 0 t) from by
        unfold Dat.leavesExact; rw [liveAt8_0 t], after8_0]
      rw [show (dat8 V c).leavesExact 1 t = owns (c : Thread nD τ) (ms8_1 t) fullShare ((dat8 V c).after 1 t) from by
        unfold Dat.leavesExact; rw [liveAt8_1 t], after8_1]
      rw [show (dat8 V c).leavesExact 2 t = owns (c : Thread nD τ) (ms8_2 t) fullShare ((dat8 V c).after 2 t) from by
        unfold Dat.leavesExact; rw [liveAt8_2 t], after8_2]
      rw [show (dat8 V c).leavesExact 3 t = owns (c : Thread nD τ) (ms8_3 t) fullShare ((dat8 V c).after 3 t) from by
        unfold Dat.leavesExact; rw [liveAt8_3 t], after8_3]
      rw [show (dat8 V c).leavesExact 4 t = owns (c : Thread nD τ) (ms8_4 t) fullShare ((dat8 V c).after 4 t) from by
        unfold Dat.leavesExact; rw [liveAt8_4_C t (fun h => h0 ((hcond8_0 t).mp h)) ((hcond8_1 t).mpr h1)], after8_4]
      rw [outsAt8_C V c t h0 h1]
      unfold out8_C_4 sout8_C_0 sout8_C_1; (try dsimp only)
      by_cases hz : t.val = 0
      · exfalso; omega
      · rw [PhiS8_castSucc V c t, PhiS8_pos V c _ _ hz]
        iintro ⟨⟨⟨⟨HS0, HS1⟩, Hr⟩, Hg⟩, Ho, ⟨%d0, H0⟩, ⟨%d1, H1⟩, ⟨%d2, H2⟩, ⟨%d3, H3⟩, ⟨%d4, H4⟩⟩
        iapply ((kernelRun8_C c (grid8.coords t) _ _ _ _ _ _ _ _ _ _ _ _ _ _ (fun h => h0 ((hcond8_0 t).mp h)) ((hcond8_1 t).mpr h1) (iblk8 V c 0 t) (iblk8 V c 1 t) (iblk8 V c 2 t) (iblk8 V c 3 t) _ _).2.2.2 Set.univ _)
        isplitl [H0]; · iexact H0
        isplitl [H1]; · iexact H1
        isplitl [H2]; · iexact H2
        isplitl [H3]; · iexact H3
        isplitl [H4]; · iexists _; iexact H4
        isplitl [HS0]; · iexact HS0
        isplitl [HS1]; · iexact HS1
        iintro ⟨H0, H1, H2, H3, ⟨%e4, H4⟩, ⟨%es0, HS0⟩, ⟨%es1, HS1⟩⟩
        isplitl [HS0 HS1 Hr Hg]
        · isplitl [HS0 HS1 Hr]
          · isplitl [HS0 HS1]
            · isplitl [HS0]
              · unfold owns; iexists _; isplitr
                swap; · iexact HS0
                ipureintro; exact View.read_writes_of_cover _ _ _ _ _ (scover8_C_0 c _ _ _ _ _ _ _ _ _ _ _ _ _ _ _ _ _ _ _ _ _ _ _)
              unfold owns; iexists _; isplitr
              swap; · iexact HS1
              ipureintro; exact View.read_writes_of_cover _ _ _ _ _ (scover8_C_1 c _ _ _ _ _ _ _ _ _ _ _ _ _ _ _ _ _ _ _ _ _ _ _)
            iexact Hr
          iexact Hg
        isplitl [Ho]; · iexact Ho
        isplitl [H0]; · iexact H0
        isplitl [H1]; · iexact H1
        isplitl [H2]; · iexact H2
        isplitl [H3]; · iexact H3
        unfold owns; iexists _; isplitr
        swap; · iexact H4
        ipureintro; exact View.read_writes_of_cover _ _ _ _ _ (cover8_C_4 c _ _ _ _ _ _ _ _ _ _ _ _ _ _ _ _ _ _ _ _ _ _ _)
    · exfalso; omega

/-- The library's body obligation, at every point. -/
theorem body_obligation8 (c : Dev nD) : BodyObligation (dat8 (F := F) V c) (defs₀ (F := F)) Variants.none () Set.univ := fun t => by
  rw [bigSep_W8, bigSep_W8]
  exact sound_body8 V c t

/-- What the launch hands the region is the invariant before the first point. -/
theorem hin8 (c : Dev nD) : Pipeline.ΦA spec8 c ⊢ (dat8 V c).Φ 0 := by
  rw [show (dat8 V c).Φ 0 = PhiS8 V c 0 (Nat.zero_le _) from rfl, PhiS8_zero V c 0 _ rfl]
  try exact Idealize.SL.BI.Entails.refl _

/-- After any point but the first the invariant gives the class's back: the accumulators' named contents are forgotten. -/
theorem Phi_out8 (c : Dev nD) (t : Fin (cfg8.N + 1)) (ht : t.val ≠ 0) : (dat8 V c).Φ t ⊢ Pipeline.ΦA spec8 c := by
  rw [show (dat8 V c).Φ t = PhiS8 V c t.val (Nat.le_of_lt_succ t.isLt) from rfl, PhiS8_pos V c _ _ ht, PhiA8_eq]
  iintro ⟨⟨⟨HS0, HS1⟩, Hr⟩, Hg⟩
  isplitl [HS0 HS1 Hr]
  · isplitl [HS0 HS1]
    · isplitl [HS0]
      · iexists _; iexact HS0
      iexists _; iexact HS1
    iexact Hr
  iexact Hg

/-- The same after the last point. -/
theorem hout8 (c : Dev nD) : (dat8 V c).Φ (Fin.last cfg8.N) ⊢ Pipeline.ΦA spec8 c :=
  Phi_out8 V c _ (by rw [Fin.val_last]; have : cfg8.N = 16 := N_8; omega)

end Cert.KernelIdeal.Hand

end
-- ==== Proof.KI.Run.lean ====
/-
  The whole run of the program, for any float values: @main is eighteen items in order — nine stretches of host
  operations and nine kernel regions. Between two items every unscoped buffer of the TensorCore holds a known contents:
  the launch memory, then what each host stretch computes, then, after a region, its arrays at what the pipeline's
  write-backs leave (the inputs as entered, the output's blocks as the body stored them) and every other buffer as it was.
  The last of these valuations is what every final state holds, buffer by buffer.
-/
import proofs.«181597_j77979426226450_2_alg».proof.Proof.KI.Reg0
import proofs.«181597_j77979426226450_2_alg».proof.Proof.KI.Reg1
import proofs.«181597_j77979426226450_2_alg».proof.Proof.KI.Reg2
import proofs.«181597_j77979426226450_2_alg».proof.Proof.KI.Reg3
import proofs.«181597_j77979426226450_2_alg».proof.Proof.KI.Reg4
import proofs.«181597_j77979426226450_2_alg».proof.Proof.KI.Reg5
import proofs.«181597_j77979426226450_2_alg».proof.Proof.KI.Reg6
import proofs.«181597_j77979426226450_2_alg».proof.Proof.KI.Reg7
import proofs.«181597_j77979426226450_2_alg».proof.Proof.KI.Reg8
import proofs.«181597_j77979426226450_2_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between items -/

/-- At launch. -/
abbrev W0 : Dev nD → Valuation τ sig (Elt F) := fun c b => m ((c : Dev nD), b)
/-- After item 0, the host stretch `hostOps0`. -/
abbrev W1 : Dev nD → Valuation τ sig (Elt F) := fun c => StableHlo.after hostOps0 (W0 m c)
/-- After item 1, the host stretch `hostOps0_1`. -/
abbrev W2 : Dev nD → Valuation τ sig (Elt F) := fun c => StableHlo.after hostOps0_1 (W1 m c)
/-- After item 2, the host stretch `hostOps0_2`. -/
abbrev W3 : Dev nD → Valuation τ sig (Elt F) := fun c => StableHlo.after hostOps0_2 (W2 m c)
/-- After item 3, the host stretch `hostOps0_3`. -/
abbrev W4 : Dev nD → Valuation τ sig (Elt F) := fun c => StableHlo.after hostOps0_3 (W3 m c)
/-- After item 4, the host stretch `hostOps0_4`. -/
abbrev W5 : Dev nD → Valuation τ sig (Elt F) := fun c => StableHlo.after hostOps0_4 (W4 m c)
/-- Region 0 is entered from `W5`, read at the TensorCore's references. -/
abbrev Wv5 : (c : Dev nD) → (b : Ref sig .tc) → Buf (Elt F) ((c : Thread nD τ).loc b) := fun c b => W5 m c b
/-- After item 5, region 0: its arrays at what the pipeline leaves, every other buffer as entered. -/
def W6 (c : Dev nD) : Valuation τ sig (Elt F) :=
  Pipeline.withArrays spec0 c (W5 m c) fun w => (dat0 (Wv5 m) c).arrAt w cfg0.N
theorem W6_arr (c : Dev nD) (w : Fin cfg0.W) :
    W6 m c (Proc.devRef .tc (Pipeline.arrRef spec0 w)) = (dat0 (Wv5 m) c).arrAt w cfg0.N := by
  unfold W6; exact Pipeline.withArrays_arr spec0 launch0.win.arr_inj c _ _ w
theorem W6_of_ne (c : Dev nD) (b : Ref sig .tc) (hb : ∀ w, Pipeline.arrRef spec0 w ≠ b) :
    W6 m c (Proc.devRef .tc b) = W5 m c (Proc.devRef .tc b) := by
  unfold W6; exact Pipeline.withArrays_of_ne spec0 c _ _ b hb
abbrev Wv6 : (c : Dev nD) → (b : Ref sig .tc) → Buf (Elt F) ((c : Thread nD τ).loc b) := fun c b => W6 m c b
theorem hF0 (c : Dev nD) (w : Fin cfg0.W) : (dat0 (Wv5 m) c).arrAt w cfg0.N = Wv6 m c (Pipeline.arrRef spec0 w) :=
  (W6_arr m c w).symm
theorem hrest0 (c : Dev nD) : ∀ b, b ∉ Finset.univ.image (Pipeline.arrRef spec0) → Wv6 m c b = Wv5 m c b :=
  fun b hb => W6_of_ne m c b fun w e => hb (Finset.mem_image.mpr ⟨w, Finset.mem_univ _, e⟩)
/-- After item 6, the host stretch `hostOps1`. -/
abbrev W7 : Dev nD → Valuation τ sig (Elt F) := fun c => StableHlo.after hostOps1 (W6 m c)
/-- Region 1 is entered from `W7`, read at the TensorCore's references. -/
abbrev Wv7 : (c : Dev nD) → (b : Ref sig .tc) → Buf (Elt F) ((c : Thread nD τ).loc b) := fun c b => W7 m c b
/-- After item 7, region 1: its arrays at what the pipeline leaves, every other buffer as entered. -/
def W8 (c : Dev nD) : Valuation τ sig (Elt F) :=
  Pipeline.withArrays spec1 c (W7 m c) fun w => (dat1 (Wv7 m) c).arrAt w cfg1.N
theorem W8_arr (c : Dev nD) (w : Fin cfg1.W) :
    W8 m c (Proc.devRef .tc (Pipeline.arrRef spec1 w)) = (dat1 (Wv7 m) c).arrAt w cfg1.N := by
  unfold W8; exact Pipeline.withArrays_arr spec1 launch1.win.arr_inj c _ _ w
theorem W8_of_ne (c : Dev nD) (b : Ref sig .tc) (hb : ∀ w, Pipeline.arrRef spec1 w ≠ b) :
    W8 m c (Proc.devRef .tc b) = W7 m c (Proc.devRef .tc b) := by
  unfold W8; exact Pipeline.withArrays_of_ne spec1 c _ _ b hb
abbrev Wv8 : (c : Dev nD) → (b : Ref sig .tc) → Buf (Elt F) ((c : Thread nD τ).loc b) := fun c b => W8 m c b
theorem hF1 (c : Dev nD) (w : Fin cfg1.W) : (dat1 (Wv7 m) c).arrAt w cfg1.N = Wv8 m c (Pipeline.arrRef spec1 w) :=
  (W8_arr m c w).symm
theorem hrest1 (c : Dev nD) : ∀ b, b ∉ Finset.univ.image (Pipeline.arrRef spec1) → Wv8 m c b = Wv7 m c b :=
  fun b hb => W8_of_ne m c b fun w e => hb (Finset.mem_image.mpr ⟨w, Finset.mem_univ _, e⟩)
/-- After item 8, region 2: its arrays at what the pipeline leaves, every other buffer as entered. -/
def W9 (c : Dev nD) : Valuation τ sig (Elt F) :=
  Pipeline.withArrays spec2 c (W8 m c) fun w => (dat2 (Wv8 m) c).arrAt w cfg2.N
theorem W9_arr (c : Dev nD) (w : Fin cfg2.W) :
    W9 m c (Proc.devRef .tc (Pipeline.arrRef spec2 w)) = (dat2 (Wv8 m) c).arrAt w cfg2.N := by
  unfold W9; exact Pipeline.withArrays_arr spec2 launch2.win.arr_inj c _ _ w
theorem W9_of_ne (c : Dev nD) (b : Ref sig .tc) (hb : ∀ w, Pipeline.arrRef spec2 w ≠ b) :
    W9 m c (Proc.devRef .tc b) = W8 m c (Proc.devRef .tc b) := by
  unfold W9; exact Pipeline.withArrays_of_ne spec2 c _ _ b hb
abbrev Wv9 : (c : Dev nD) → (b : Ref sig .tc) → Buf (Elt F) ((c : Thread nD τ).loc b) := fun c b => W9 m c b
theorem hF2 (c : Dev nD) (w : Fin cfg2.W) : (dat2 (Wv8 m) c).arrAt w cfg2.N = Wv9 m c (Pipeline.arrRef spec2 w) :=
  (W9_arr m c w).symm
theorem hrest2 (c : Dev nD) : ∀ b, b ∉ Finset.univ.image (Pipeline.arrRef spec2) → Wv9 m c b = Wv8 m c b :=
  fun b hb => W9_of_ne m c b fun w e => hb (Finset.mem_image.mpr ⟨w, Finset.mem_univ _, e⟩)
/-- After item 9, the host stretch `hostOps3`. -/
abbrev W10 : Dev nD → Valuation τ sig (Elt F) := fun c => StableHlo.after hostOps3 (W9 m c)
/-- Region 3 is entered from `W10`, read at the TensorCore's references. -/
abbrev Wv10 : (c : Dev nD) → (b : Ref sig .tc) → Buf (Elt F) ((c : Thread nD τ).loc b) := fun c b => W10 m c b
/-- After item 10, region 3: its arrays at what the pipeline leaves, every other buffer as entered. -/
def W11 (c : Dev nD) : Valuation τ sig (Elt F) :=
  Pipeline.withArrays spec3 c (W10 m c) fun w => (dat3 (Wv10 m) c).arrAt w cfg3.N
theorem W11_arr (c : Dev nD) (w : Fin cfg3.W) :
    W11 m c (Proc.devRef .tc (Pipeline.arrRef spec3 w)) = (dat3 (Wv10 m) c).arrAt w cfg3.N := by
  unfold W11; exact Pipeline.withArrays_arr spec3 launch3.win.arr_inj c _ _ w
theorem W11_of_ne (c : Dev nD) (b : Ref sig .tc) (hb : ∀ w, Pipeline.arrRef spec3 w ≠ b) :
    W11 m c (Proc.devRef .tc b) = W10 m c (Proc.devRef .tc b) := by
  unfold W11; exact Pipeline.withArrays_of_ne spec3 c _ _ b hb
abbrev Wv11 : (c : Dev nD) → (b : Ref sig .tc) → Buf (Elt F) ((c : Thread nD τ).loc b) := fun c b => W11 m c b
theorem hF3 (c : Dev nD) (w : Fin cfg3.W) : (dat3 (Wv10 m) c).arrAt w cfg3.N = Wv11 m c (Pipeline.arrRef spec3 w) :=
  (W11_arr m c w).symm
theorem hrest3 (c : Dev nD) : ∀ b, b ∉ Finset.univ.image (Pipeline.arrRef spec3) → Wv11 m c b = Wv10 m c b :=
  fun b hb => W11_of_ne m c b fun w e => hb (Finset.mem_image.mpr ⟨w, Finset.mem_univ _, e⟩)
/-- After item 11, region 4: its arrays at what the pipeline leaves, every other buffer as entered. -/
def W12 (c : Dev nD) : Valuation τ sig (Elt F) :=
  Pipeline.withArrays spec4 c (W11 m c) fun w => (dat4 (Wv11 m) c).arrAt w cfg4.N
theorem W12_arr (c : Dev nD) (w : Fin cfg4.W) :
    W12 m c (Proc.devRef .tc (Pipeline.arrRef spec4 w)) = (dat4 (Wv11 m) c).arrAt w cfg4.N := by
  unfold W12; exact Pipeline.withArrays_arr spec4 launch4.win.arr_inj c _ _ w
theorem W12_of_ne (c : Dev nD) (b : Ref sig .tc) (hb : ∀ w, Pipeline.arrRef spec4 w ≠ b) :
    W12 m c (Proc.devRef .tc b) = W11 m c (Proc.devRef .tc b) := by
  unfold W12; exact Pipeline.withArrays_of_ne spec4 c _ _ b hb
abbrev Wv12 : (c : Dev nD) → (b : Ref sig .tc) → Buf (Elt F) ((c : Thread nD τ).loc b) := fun c b => W12 m c b
theorem hF4 (c : Dev nD) (w : Fin cfg4.W) : (dat4 (Wv11 m) c).arrAt w cfg4.N = Wv12 m c (Pipeline.arrRef spec4 w) :=
  (W12_arr m c w).symm
theorem hrest4 (c : Dev nD) : ∀ b, b ∉ Finset.univ.image (Pipeline.arrRef spec4) → Wv12 m c b = Wv11 m c b :=
  fun b hb => W12_of_ne m c b fun w e => hb (Finset.mem_image.mpr ⟨w, Finset.mem_univ _, e⟩)
/-- After item 12, the host stretch `hostOps5`. -/
abbrev W13 : Dev nD → Valuation τ sig (Elt F) := fun c => StableHlo.after hostOps5 (W12 m c)
/-- Region 5 is entered from `W13`, read at the TensorCore's references. -/
abbrev Wv13 : (c : Dev nD) → (b : Ref sig .tc) → Buf (Elt F) ((c : Thread nD τ).loc b) := fun c b => W13 m c b
/-- After item 13, region 5: its arrays at what the pipeline leaves, every other buffer as entered. -/
def W14 (c : Dev nD) : Valuation τ sig (Elt F) :=
  Pipeline.withArrays spec5 c (W13 m c) fun w => (dat5 (Wv13 m) c).arrAt w cfg5.N
theorem W14_arr (c : Dev nD) (w : Fin cfg5.W) :
    W14 m c (Proc.devRef .tc (Pipeline.arrRef spec5 w)) = (dat5 (Wv13 m) c).arrAt w cfg5.N := by
  unfold W14; exact Pipeline.withArrays_arr spec5 launch5.win.arr_inj c _ _ w
theorem W14_of_ne (c : Dev nD) (b : Ref sig .tc) (hb : ∀ w, Pipeline.arrRef spec5 w ≠ b) :
    W14 m c (Proc.devRef .tc b) = W13 m c (Proc.devRef .tc b) := by
  unfold W14; exact Pipeline.withArrays_of_ne spec5 c _ _ b hb
abbrev Wv14 : (c : Dev nD) → (b : Ref sig .tc) → Buf (Elt F) ((c : Thread nD τ).loc b) := fun c b => W14 m c b
theorem hF5 (c : Dev nD) (w : Fin cfg5.W) : (dat5 (Wv13 m) c).arrAt w cfg5.N = Wv14 m c (Pipeline.arrRef spec5 w) :=
  (W14_arr m c w).symm
theorem hrest5 (c : Dev nD) : ∀ b, b ∉ Finset.univ.image (Pipeline.arrRef spec5) → Wv14 m c b = Wv13 m c b :=
  fun b hb => W14_of_ne m c b fun w e => hb (Finset.mem_image.mpr ⟨w, Finset.mem_univ _, e⟩)
/-- After item 14, region 6: its arrays at what the pipeline leaves, every other buffer as entered. -/
def W15 (c : Dev nD) : Valuation τ sig (Elt F) :=
  Pipeline.withArrays spec6 c (W14 m c) fun w => (dat6 (Wv14 m) c).arrAt w cfg6.N
theorem W15_arr (c : Dev nD) (w : Fin cfg6.W) :
    W15 m c (Proc.devRef .tc (Pipeline.arrRef spec6 w)) = (dat6 (Wv14 m) c).arrAt w cfg6.N := by
  unfold W15; exact Pipeline.withArrays_arr spec6 launch6.win.arr_inj c _ _ w
theorem W15_of_ne (c : Dev nD) (b : Ref sig .tc) (hb : ∀ w, Pipeline.arrRef spec6 w ≠ b) :
    W15 m c (Proc.devRef .tc b) = W14 m c (Proc.devRef .tc b) := by
  unfold W15; exact Pipeline.withArrays_of_ne spec6 c _ _ b hb
abbrev Wv15 : (c : Dev nD) → (b : Ref sig .tc) → Buf (Elt F) ((c : Thread nD τ).loc b) := fun c b => W15 m c b
theorem hF6 (c : Dev nD) (w : Fin cfg6.W) : (dat6 (Wv14 m) c).arrAt w cfg6.N = Wv15 m c (Pipeline.arrRef spec6 w) :=
  (W15_arr m c w).symm
theorem hrest6 (c : Dev nD) : ∀ b, b ∉ Finset.univ.image (Pipeline.arrRef spec6) → Wv15 m c b = Wv14 m c b :=
  fun b hb => W15_of_ne m c b fun w e => hb (Finset.mem_image.mpr ⟨w, Finset.mem_univ _, e⟩)
/-- After item 15, the host stretch `hostOps7`. -/
abbrev W16 : Dev nD → Valuation τ sig (Elt F) := fun c => StableHlo.after hostOps7 (W15 m c)
/-- Region 7 is entered from `W16`, read at the TensorCore's references. -/
abbrev Wv16 : (c : Dev nD) → (b : Ref sig .tc) → Buf (Elt F) ((c : Thread nD τ).loc b) := fun c b => W16 m c b
/-- After item 16, region 7: its arrays at what the pipeline leaves, every other buffer as entered. -/
def W17 (c : Dev nD) : Valuation τ sig (Elt F) :=
  Pipeline.withArrays spec7 c (W16 m c) fun w => (dat7 (Wv16 m) c).arrAt w cfg7.N
theorem W17_arr (c : Dev nD) (w : Fin cfg7.W) :
    W17 m c (Proc.devRef .tc (Pipeline.arrRef spec7 w)) = (dat7 (Wv16 m) c).arrAt w cfg7.N := by
  unfold W17; exact Pipeline.withArrays_arr spec7 launch7.win.arr_inj c _ _ w
theorem W17_of_ne (c : Dev nD) (b : Ref sig .tc) (hb : ∀ w, Pipeline.arrRef spec7 w ≠ b) :
    W17 m c (Proc.devRef .tc b) = W16 m c (Proc.devRef .tc b) := by
  unfold W17; exact Pipeline.withArrays_of_ne spec7 c _ _ b hb
abbrev Wv17 : (c : Dev nD) → (b : Ref sig .tc) → Buf (Elt F) ((c : Thread nD τ).loc b) := fun c b => W17 m c b
theorem hF7 (c : Dev nD) (w : Fin cfg7.W) : (dat7 (Wv16 m) c).arrAt w cfg7.N = Wv17 m c (Pipeline.arrRef spec7 w) :=
  (W17_arr m c w).symm
theorem hrest7 (c : Dev nD) : ∀ b, b ∉ Finset.univ.image (Pipeline.arrRef spec7) → Wv17 m c b = Wv16 m c b :=
  fun b hb => W17_of_ne m c b fun w e => hb (Finset.mem_image.mpr ⟨w, Finset.mem_univ _, e⟩)
/-- After item 17, region 8: its arrays at what the pipeline leaves, every other buffer as entered. -/
def W18 (c : Dev nD) : Valuation τ sig (Elt F) :=
  Pipeline.withArrays spec8 c (W17 m c) fun w => (dat8 (Wv17 m) c).arrAt w cfg8.N
theorem W18_arr (c : Dev nD) (w : Fin cfg8.W) :
    W18 m c (Proc.devRef .tc (Pipeline.arrRef spec8 w)) = (dat8 (Wv17 m) c).arrAt w cfg8.N := by
  unfold W18; exact Pipeline.withArrays_arr spec8 launch8.win.arr_inj c _ _ w
theorem W18_of_ne (c : Dev nD) (b : Ref sig .tc) (hb : ∀ w, Pipeline.arrRef spec8 w ≠ b) :
    W18 m c (Proc.devRef .tc b) = W17 m c (Proc.devRef .tc b) := by
  unfold W18; exact Pipeline.withArrays_of_ne spec8 c _ _ b hb
abbrev Wv18 : (c : Dev nD) → (b : Ref sig .tc) → Buf (Elt F) ((c : Thread nD τ).loc b) := fun c b => W18 m c b
theorem hF8 (c : Dev nD) (w : Fin cfg8.W) : (dat8 (Wv17 m) c).arrAt w cfg8.N = Wv18 m c (Pipeline.arrRef spec8 w) :=
  (W18_arr m c w).symm
theorem hrest8 (c : Dev nD) : ∀ b, b ∉ Finset.univ.image (Pipeline.arrRef spec8) → Wv18 m c b = Wv17 m c b :=
  fun b hb => W18_of_ne m c b fun w e => hb (Finset.mem_image.mpr ⟨w, Finset.mem_univ _, e⟩)

/-! ## The proof data family and the thread state -/

abbrev hadm : (p : Fin 9) → (pcfgs (F := F) p).Adm := fun p => (cfgs p).toPCfg_adm
/-- Every pipeline's proof data, each at its region's entry contents. -/
def pdats : (p : Fin 9) → (c : Dev nD) → Dat τ (Elt F) Unit ℕ (UR sig nD τ) ℕ (Pipeline.pin (pcfgs (F := F)) hadm p) c
  | ⟨0, _⟩ => fun c => dat0 (Wv5 m) c
  | ⟨1, _⟩ => fun c => dat1 (Wv7 m) c
  | ⟨2, _⟩ => fun c => dat2 (Wv8 m) c
  | ⟨3, _⟩ => fun c => dat3 (Wv10 m) c
  | ⟨4, _⟩ => fun c => dat4 (Wv11 m) c
  | ⟨5, _⟩ => fun c => dat5 (Wv13 m) c
  | ⟨6, _⟩ => fun c => dat6 (Wv14 m) c
  | ⟨7, _⟩ => fun c => dat7 (Wv16 m) c
  | ⟨8, _⟩ => fun c => dat8 (Wv17 m) c
abbrev 𝒱h : Variants := Variants.none
abbrev Lh : GSem nD τ sig → Finset Unit := fun _ => ∅
abbrev lvh : GSem nD τ sig → Unit → ℕ := fun _ _ => 0
/-- What rides beside the buffers through every item: the generator register at some state and the core owing nothing. -/
abbrev Rh (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱h Lh lvh :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rh
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tn (c : Dev nD) : sProp 𝕄 := iprop(StableHlo.held (c : Thread nD τ) (Pipeline.ucRefs τ sig) (W18 m c) ∗ ∃ r, prngReg c r)

/-! ## The regions as segments -/

set_option backward.isDefEq.respectTransparency.types false in
/-- Region 0: entered from every unscoped buffer at `W5`, left at `W6`; its arrays split out of the unscoped
    buffers and put back at the exit contents; the generator register and the scoped buffers into the invariant and out;
    nothing owed; no semaphore of the kernel's own. -/
def reg0 : Pipeline.RegionSeg (pcfgs (F := F)) hadm (pdats m) () defs₀ 𝒱h Lh lvh 0 where
  win := launch0.win.to₀
  block_pos := launch0.block_pos
  stage_whole := launch0.stage_whole
  K := PEmpty
  osem k := k.elim
  ho := Pipeline.OwnSemFacts.none _
  hbody c := (body_obligation0 (Wv5 m) c).loose
  hwaits := Pipeline.hwaits_of_owed_zero _ _ _ _ Lh lvh 0 fun _ _ => rfl
  pre c := iprop(StableHlo.held (c : Thread nD τ) (Pipeline.ucRefs τ sig) (W5 m c) ∗ Rh c)
  post c := iprop(StableHlo.held (c : Thread nD τ) (Pipeline.ucRefs τ sig) (W6 m c) ∗ Rh c)
  X c := iprop(∃ r, prngReg c r)
  Y c := iprop(∃ r, prngReg c r)
  Z c := Pipeline.unscopedRest (Ix := Unit) (Name := ℕ) (U := UR sig nD τ) (Lvl := ℕ) spec0 c (Wv5 m c)
  hentry c := by
    rw [Pipeline.ownSems0_none]
    have hsplit := Pipeline.arrays_of_unscopedBufs (p := 0) (pcfgs (F := F)) hadm (pdats m) launch0.win launch0.arr_whole c
      ((pdats m 0 c).share_full fun _ => rfl) (Wv5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (Wv5 m) c)
    unfold Pipeline.ΦA
    iintro ⟨Hp, -, Hr⟩
    isplitl [Hr]; · iexact Hr
    iexact Hp
  hout c := by
    rw [Pipeline.ownSems0_none]
    refine BIBase.Entails.trans (hout0 (Wv5 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) hadm (Ix := Unit) (Name := ℕ) (U := UR sig nD τ) (Lvl := ℕ)
      launch0.win launch0.arr_whole c (pdats m) ((pdats m 0 c).share_full fun _ => rfl)
      (Wv5 m c) (Wv6 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: entered from every unscoped buffer at `W7`, left at `W8`; its arrays split out of the unscoped
    buffers and put back at the exit contents; the generator register and the scoped buffers into the invariant and out;
    nothing owed; no semaphore of the kernel's own. -/
def reg1 : Pipeline.RegionSeg (pcfgs (F := F)) hadm (pdats m) () defs₀ 𝒱h Lh lvh 1 where
  win := launch1.win.to₀
  block_pos := launch1.block_pos
  stage_whole := launch1.stage_whole
  K := PEmpty
  osem k := k.elim
  ho := Pipeline.OwnSemFacts.none _
  hbody c := (body_obligation1 (Wv7 m) c).loose
  hwaits := Pipeline.hwaits_of_owed_zero _ _ _ _ Lh lvh 1 fun _ _ => rfl
  pre c := iprop(StableHlo.held (c : Thread nD τ) (Pipeline.ucRefs τ sig) (W7 m c) ∗ Rh c)
  post c := iprop(StableHlo.held (c : Thread nD τ) (Pipeline.ucRefs τ sig) (W8 m c) ∗ Rh c)
  X c := iprop(∃ r, prngReg c r)
  Y c := iprop(∃ r, prngReg c r)
  Z c := Pipeline.unscopedRest (Ix := Unit) (Name := ℕ) (U := UR sig nD τ) (Lvl := ℕ) spec1 c (Wv7 m c)
  hentry c := by
    rw [Pipeline.ownSems0_none]
    have hsplit := Pipeline.arrays_of_unscopedBufs (p := 1) (pcfgs (F := F)) hadm (pdats m) launch1.win launch1.arr_whole c
      ((pdats m 1 c).share_full fun _ => rfl) (Wv7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (Wv7 m) c)
    unfold Pipeline.ΦA
    iintro ⟨Hp, -, Hr⟩
    isplitl [Hr]; · iexact Hr
    iexact Hp
  hout c := by
    rw [Pipeline.ownSems0_none]
    refine BIBase.Entails.trans (hout1 (Wv7 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) hadm (Ix := Unit) (Name := ℕ) (U := UR sig nD τ) (Lvl := ℕ)
      launch1.win launch1.arr_whole c (pdats m) ((pdats m 1 c).share_full fun _ => rfl)
      (Wv7 m c) (Wv8 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2: entered from every unscoped buffer at `W8`, left at `W9`; its arrays split out of the unscoped
    buffers and put back at the exit contents; the generator register and the scoped buffers into the invariant and out;
    nothing owed; no semaphore of the kernel's own. -/
def reg2 : Pipeline.RegionSeg (pcfgs (F := F)) hadm (pdats m) () defs₀ 𝒱h Lh lvh 2 where
  win := launch2.win.to₀
  block_pos := launch2.block_pos
  stage_whole := launch2.stage_whole
  K := PEmpty
  osem k := k.elim
  ho := Pipeline.OwnSemFacts.none _
  hbody c := (body_obligation2 (Wv8 m) c).loose
  hwaits := Pipeline.hwaits_of_owed_zero _ _ _ _ Lh lvh 2 fun _ _ => rfl
  pre c := iprop(StableHlo.held (c : Thread nD τ) (Pipeline.ucRefs τ sig) (W8 m c) ∗ Rh c)
  post c := iprop(StableHlo.held (c : Thread nD τ) (Pipeline.ucRefs τ sig) (W9 m c) ∗ Rh c)
  X c := iprop(∃ r, prngReg c r)
  Y c := iprop(∃ r, prngReg c r)
  Z c := Pipeline.unscopedRest (Ix := Unit) (Name := ℕ) (U := UR sig nD τ) (Lvl := ℕ) spec2 c (Wv8 m c)
  hentry c := by
    rw [Pipeline.ownSems0_none]
    have hsplit := Pipeline.arrays_of_unscopedBufs (p := 2) (pcfgs (F := F)) hadm (pdats m) launch2.win launch2.arr_whole c
      ((pdats m 2 c).share_full fun _ => rfl) (Wv8 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin2 (Wv8 m) c)
    unfold Pipeline.ΦA
    iintro ⟨Hp, -, Hr⟩
    isplitl [Hr]; · iexact Hr
    iexact Hp
  hout c := by
    rw [Pipeline.ownSems0_none]
    refine BIBase.Entails.trans (hout2 (Wv8 m) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) hadm (Ix := Unit) (Name := ℕ) (U := UR sig nD τ) (Lvl := ℕ)
      launch2.win launch2.arr_whole c (pdats m) ((pdats m 2 c).share_full fun _ => rfl)
      (Wv8 m c) (Wv9 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3: entered from every unscoped buffer at `W10`, left at `W11`; its arrays split out of the unscoped
    buffers and put back at the exit contents; the generator register and the scoped buffers into the invariant and out;
    nothing owed; no semaphore of the kernel's own. -/
def reg3 : Pipeline.RegionSeg (pcfgs (F := F)) hadm (pdats m) () defs₀ 𝒱h Lh lvh 3 where
  win := launch3.win.to₀
  block_pos := launch3.block_pos
  stage_whole := launch3.stage_whole
  K := PEmpty
  osem k := k.elim
  ho := Pipeline.OwnSemFacts.none _
  hbody c := (body_obligation3 (Wv10 m) c).loose
  hwaits := Pipeline.hwaits_of_owed_zero _ _ _ _ Lh lvh 3 fun _ _ => rfl
  pre c := iprop(StableHlo.held (c : Thread nD τ) (Pipeline.ucRefs τ sig) (W10 m c) ∗ Rh c)
  post c := iprop(StableHlo.held (c : Thread nD τ) (Pipeline.ucRefs τ sig) (W11 m c) ∗ Rh c)
  X c := iprop(∃ r, prngReg c r)
  Y c := iprop(∃ r, prngReg c r)
  Z c := Pipeline.unscopedRest (Ix := Unit) (Name := ℕ) (U := UR sig nD τ) (Lvl := ℕ) spec3 c (Wv10 m c)
  hentry c := by
    rw [Pipeline.ownSems0_none]
    have hsplit := Pipeline.arrays_of_unscopedBufs (p := 3) (pcfgs (F := F)) hadm (pdats m) launch3.win launch3.arr_whole c
      ((pdats m 3 c).share_full fun _ => rfl) (Wv10 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin3 (Wv10 m) c)
    unfold Pipeline.ΦA
    iintro ⟨Hp, -, Hr⟩
    isplitl [Hr]; · iexact Hr
    iexact Hp
  hout c := by
    rw [Pipeline.ownSems0_none]
    refine BIBase.Entails.trans (hout3 (Wv10 m) c) ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) hadm (Ix := Unit) (Name := ℕ) (U := UR sig nD τ) (Lvl := ℕ)
      launch3.win launch3.arr_whole c (pdats m) ((pdats m 3 c).share_full fun _ => rfl)
      (Wv10 m c) (Wv11 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4: entered from every unscoped buffer at `W11`, left at `W12`; its arrays split out of the unscoped
    buffers and put back at the exit contents; the generator register and the scoped buffers into the invariant and out;
    nothing owed; no semaphore of the kernel's own. -/
def reg4 : Pipeline.RegionSeg (pcfgs (F := F)) hadm (pdats m) () defs₀ 𝒱h Lh lvh 4 where
  win := launch4.win.to₀
  block_pos := launch4.block_pos
  stage_whole := launch4.stage_whole
  K := PEmpty
  osem k := k.elim
  ho := Pipeline.OwnSemFacts.none _
  hbody c := (body_obligation4 (Wv11 m) c).loose
  hwaits := Pipeline.hwaits_of_owed_zero _ _ _ _ Lh lvh 4 fun _ _ => rfl
  pre c := iprop(StableHlo.held (c : Thread nD τ) (Pipeline.ucRefs τ sig) (W11 m c) ∗ Rh c)
  post c := iprop(StableHlo.held (c : Thread nD τ) (Pipeline.ucRefs τ sig) (W12 m c) ∗ Rh c)
  X c := iprop(∃ r, prngReg c r)
  Y c := iprop(∃ r, prngReg c r)
  Z c := Pipeline.unscopedRest (Ix := Unit) (Name := ℕ) (U := UR sig nD τ) (Lvl := ℕ) spec4 c (Wv11 m c)
  hentry c := by
    rw [Pipeline.ownSems0_none]
    have hsplit := Pipeline.arrays_of_unscopedBufs (p := 4) (pcfgs (F := F)) hadm (pdats m) launch4.win launch4.arr_whole c
      ((pdats m 4 c).share_full fun _ => rfl) (Wv11 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin4 (Wv11 m) c)
    unfold Pipeline.ΦA
    iintro ⟨Hp, -, Hr⟩
    isplitl [Hr]; · iexact Hr
    iexact Hp
  hout c := by
    rw [Pipeline.ownSems0_none]
    refine BIBase.Entails.trans (hout4 (Wv11 m) c) ?_
    unfold Pipeline.ΦA
    iintro ⟨Hr, Hp⟩
    isplitl [Hp]; · iexact Hp
    isplitr; · iempintro
    iexact Hr
  hexit c := by
    have hjoin := Pipeline.unscopedBufs_of_arrays (p := 4) (pcfgs (F := F)) hadm (Ix := Unit) (Name := ℕ) (U := UR sig nD τ) (Lvl := ℕ)
      launch4.win launch4.arr_whole c (pdats m) ((pdats m 4 c).share_full fun _ => rfl)
      (Wv11 m c) (Wv12 m c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5: entered from every unscoped buffer at `W13`, left at `W14`; its arrays split out of the unscoped
    buffers and put back at the exit contents; the generator register and the scoped buffers into the invariant and out;
    nothing owed; no semaphore of the kernel's own. -/
def reg5 : Pipeline.RegionSeg (pcfgs (F := F)) hadm (pdats m) () defs₀ 𝒱h Lh lvh 5 where
  win := launch5.win.to₀
  block_pos := launch5.block_pos
  stage_whole := launch5.stage_whole
  K := PEmpty
  osem k := k.elim
  ho := Pipeline.OwnSemFacts.none _
  hbody c := (body_obligation5 (Wv13 m) c).loose
  hwaits := Pipeline.hwaits_of_owed_zero _ _ _ _ Lh lvh 5 fun _ _ => rfl
  pre c := iprop(StableHlo.held (c : Thread nD τ) (Pipeline.ucRefs τ sig) (W13 m c) ∗ Rh c)
  post c := iprop(StableHlo.held (c : Thread nD τ) (Pipeline.ucRefs τ sig) (W14 m c) ∗ Rh c)
  X c := iprop(∃ r, prngReg c r)
  Y c := iprop(∃ r, prngReg c r)
  Z c := Pipeline.unscopedRest (Ix := Unit) (Name := ℕ) (U := UR sig nD τ) (Lvl := ℕ) spec5 c (Wv13 m c)
  hentry c := by
    rw [Pipeline.ownSems0_none]
    have hsplit := Pipeline.arrays_of_unscopedBufs (p := 5) (pcfgs (F := F)) hadm (pdats m) launch5.win launch5.arr_whole c
      ((pdats m 5 c).share_full fun _ => rfl) (Wv13 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin5 (Wv13 m) c)
    unfold Pipeline.ΦA
    iintro ⟨Hp, -, Hr⟩
    isplitl [Hr]; · iexact Hr
    iexact Hp
  hout c := by
    rw [Pipeline.ownSems0_none]
    refine BIBase.Entails.trans (hout5 (Wv13 m) c) ?_
    unfold Pipeline.ΦA
    iintro ⟨Hr, Hp⟩
    isplitl [Hp]; · iexact Hp
    isplitr; · iempintro
    iexact Hr
  hexit c := by
    have hjoin := Pipeline.unscopedBufs_of_arrays (p := 5) (pcfgs (F := F)) hadm (Ix := Unit) (Name := ℕ) (U := UR sig nD τ) (Lvl := ℕ)
      launch5.win launch5.arr_whole c (pdats m) ((pdats m 5 c).share_full fun _ => rfl)
      (Wv13 m c) (Wv14 m c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 6: entered from every unscoped buffer at `W14`, left at `W15`; its arrays split out of the unscoped
    buffers and put back at the exit contents; the generator register and the scoped buffers into the invariant and out;
    nothing owed; no semaphore of the kernel's own. -/
def reg6 : Pipeline.RegionSeg (pcfgs (F := F)) hadm (pdats m) () defs₀ 𝒱h Lh lvh 6 where
  win := launch6.win.to₀
  block_pos := launch6.block_pos
  stage_whole := launch6.stage_whole
  K := PEmpty
  osem k := k.elim
  ho := Pipeline.OwnSemFacts.none _
  hbody c := (body_obligation6 (Wv14 m) c).loose
  hwaits := Pipeline.hwaits_of_owed_zero _ _ _ _ Lh lvh 6 fun _ _ => rfl
  pre c := iprop(StableHlo.held (c : Thread nD τ) (Pipeline.ucRefs τ sig) (W14 m c) ∗ Rh c)
  post c := iprop(StableHlo.held (c : Thread nD τ) (Pipeline.ucRefs τ sig) (W15 m c) ∗ Rh c)
  X c := iprop(∃ r, prngReg c r)
  Y c := iprop(∃ r, prngReg c r)
  Z c := Pipeline.unscopedRest (Ix := Unit) (Name := ℕ) (U := UR sig nD τ) (Lvl := ℕ) spec6 c (Wv14 m c)
  hentry c := by
    rw [Pipeline.ownSems0_none]
    have hsplit := Pipeline.arrays_of_unscopedBufs (p := 6) (pcfgs (F := F)) hadm (pdats m) launch6.win launch6.arr_whole c
      ((pdats m 6 c).share_full fun _ => rfl) (Wv14 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin6 (Wv14 m) c)
    unfold Pipeline.ΦA
    iintro ⟨Hp, -, Hr⟩
    isplitl [Hr]; · iexact Hr
    iexact Hp
  hout c := by
    rw [Pipeline.ownSems0_none]
    refine BIBase.Entails.trans (hout6 (Wv14 m) c) ?_
    unfold Pipeline.ΦA
    iintro ⟨Hr, Hp⟩
    isplitl [Hp]; · iexact Hp
    isplitr; · iempintro
    iexact Hr
  hexit c := by
    have hjoin := Pipeline.unscopedBufs_of_arrays (p := 6) (pcfgs (F := F)) hadm (Ix := Unit) (Name := ℕ) (U := UR sig nD τ) (Lvl := ℕ)
      launch6.win launch6.arr_whole c (pdats m) ((pdats m 6 c).share_full fun _ => rfl)
      (Wv14 m c) (Wv15 m c) ((pdats m 6 c).arrAt · cfg6.N) (hF6 m c) (hrest6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 7: entered from every unscoped buffer at `W16`, left at `W17`; its arrays split out of the unscoped
    buffers and put back at the exit contents; the generator register and the scoped buffers into the invariant and out;
    nothing owed; no semaphore of the kernel's own. -/
def reg7 : Pipeline.RegionSeg (pcfgs (F := F)) hadm (pdats m) () defs₀ 𝒱h Lh lvh 7 where
  win := launch7.win.to₀
  block_pos := launch7.block_pos
  stage_whole := launch7.stage_whole
  K := PEmpty
  osem k := k.elim
  ho := Pipeline.OwnSemFacts.none _
  hbody c := (body_obligation7 (Wv16 m) c).loose
  hwaits := Pipeline.hwaits_of_owed_zero _ _ _ _ Lh lvh 7 fun _ _ => rfl
  pre c := iprop(StableHlo.held (c : Thread nD τ) (Pipeline.ucRefs τ sig) (W16 m c) ∗ Rh c)
  post c := iprop(StableHlo.held (c : Thread nD τ) (Pipeline.ucRefs τ sig) (W17 m c) ∗ Rh c)
  X c := iprop(∃ r, prngReg c r)
  Y c := iprop(∃ r, prngReg c r)
  Z c := Pipeline.unscopedRest (Ix := Unit) (Name := ℕ) (U := UR sig nD τ) (Lvl := ℕ) spec7 c (Wv16 m c)
  hentry c := by
    rw [Pipeline.ownSems0_none]
    have hsplit := Pipeline.arrays_of_unscopedBufs (p := 7) (pcfgs (F := F)) hadm (pdats m) launch7.win launch7.arr_whole c
      ((pdats m 7 c).share_full fun _ => rfl) (Wv16 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin7 (Wv16 m) c)
    unfold Pipeline.ΦA
    iintro ⟨Hp, -, Hr⟩
    isplitl [Hr]; · iexact Hr
    iexact Hp
  hout c := by
    rw [Pipeline.ownSems0_none]
    refine BIBase.Entails.trans (hout7 (Wv16 m) c) ?_
    unfold Pipeline.ΦA
    iintro ⟨Hr, Hp⟩
    isplitl [Hp]; · iexact Hp
    isplitr; · iempintro
    iexact Hr
  hexit c := by
    have hjoin := Pipeline.unscopedBufs_of_arrays (p := 7) (pcfgs (F := F)) hadm (Ix := Unit) (Name := ℕ) (U := UR sig nD τ) (Lvl := ℕ)
      launch7.win launch7.arr_whole c (pdats m) ((pdats m 7 c).share_full fun _ => rfl)
      (Wv16 m c) (Wv17 m c) ((pdats m 7 c).arrAt · cfg7.N) (hF7 m c) (hrest7 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 8: entered from every unscoped buffer at `W17`, left at `W18`; its arrays split out of the unscoped
    buffers and put back at the exit contents; the generator register and the scoped buffers into the invariant and out;
    nothing owed; no semaphore of the kernel's own. -/
def reg8 : Pipeline.RegionSeg (pcfgs (F := F)) hadm (pdats m) () defs₀ 𝒱h Lh lvh 8 where
  win := launch8.win.to₀
  block_pos := launch8.block_pos
  stage_whole := launch8.stage_whole
  K := PEmpty
  osem k := k.elim
  ho := Pipeline.OwnSemFacts.none _
  hbody c := (body_obligation8 (Wv17 m) c).loose
  hwaits := Pipeline.hwaits_of_owed_zero _ _ _ _ Lh lvh 8 fun _ _ => rfl
  pre c := iprop(StableHlo.held (c : Thread nD τ) (Pipeline.ucRefs τ sig) (W17 m c) ∗ Rh c)
  post c := iprop(Tn m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec8 c (Wv17 m c)
  hentry c := by
    rw [Pipeline.ownSems0_none]
    have hsplit := Pipeline.arrays_of_unscopedBufs (p := 8) (pcfgs (F := F)) hadm (pdats m) launch8.win launch8.arr_whole c
      ((pdats m 8 c).share_full fun _ => rfl) (Wv17 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin8 (Wv17 m) c)
    unfold Pipeline.ΦA
    iintro ⟨Hp, -, Hr⟩
    isplitl [Hr]; · iexact Hr
    iexact Hp
  hout c := by
    rw [Pipeline.ownSems0_none]
    refine BIBase.Entails.trans (hout8 (Wv17 m) c) ?_
    unfold Pipeline.ΦA
    iintro ⟨Hr, Hp⟩
    isplitl [Hp]; · iexact Hp
    isplitr; · iempintro
    iexact Hr
  hexit c := by
    have hjoin := Pipeline.unscopedBufs_of_arrays (p := 8) (pcfgs (F := F)) hadm (Ix := Unit) (Name := ℕ) (U := UR sig nD τ) (Lvl := ℕ)
      launch8.win launch8.arr_whole c (pdats m) ((pdats m 8 c).share_full fun _ => rfl)
      (Wv17 m c) (Wv18 m c) ((pdats m 8 c).arrAt · cfg8.N) (hF8 m c) (hrest8 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) hadm (pdats m) () defs₀ 𝒱h Lh lvh) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .host (hseg hostOps0_3 hostOps0_3_sub hostOps0_3_fresh (W3 m)),
    .host (hseg hostOps0_4 hostOps0_4_sub hostOps0_4_fresh (W4 m)),
    .region (reg0 m),
    .host (hseg hostOps1 hostOps1_sub hostOps1_fresh (W6 m)),
    .region (reg1 m),
    .region (reg2 m),
    .host (hseg hostOps3 hostOps3_sub hostOps3_fresh (W9 m)),
    .region (reg3 m),
    .region (reg4 m),
    .host (hseg hostOps5 hostOps5_sub hostOps5_fresh (W12 m)),
    .region (reg5 m),
    .region (reg6 m),
    .host (hseg hostOps7 hostOps7_sub hostOps7_fresh (W15 m)),
    .region (reg7 m),
    .region (reg8 m) ]
theorem main_run (c : Dev nD) : main (F := F) c = Pipeline.Seg.run (segs m) := (main_chain c).trans (by first | chain_rfl | (rw [Pipeline.Seg.run_eq_chain]; rfl))

set_option backward.isDefEq.respectTransparency.types false in
/-- THE RUN. At the compiled mesh, for any float values, from any memory with zero counters: every weakly fair
    execution of @main on the TensorCores terminates, nothing faulting, and every final state holds every unscoped buffer at
    the last valuation. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W18 m c b) :=
  Pipeline.θ_run_regions_kit (pcfgs (F := F)) hadm (pdats m) () cellOf_inj emb₁ defs₀ 𝒱h Lh lvh m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ Rh c)) (Tₙ := Tn m)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach Lh lvh fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W18 m c b)
    (hfin := fun c s' => by
      iintro ⟨⟨Hh, -⟩, HSI⟩
      unfold StableHlo.held
      imodintro
      iapply (pointsTo_read_all (Pipeline.ucRefs τ sig) (fun b => (((c : Thread nD τ)).1, b)) (W18 m c) s')
      isplitl [Hh] <;> iassumption)
    (hQ := fun s h c => h c)

/-! ## The arguments end as launched: no host operation writes one and no region stages one -/
theorem W18_main_arg0 (c : Dev nD) : W18 m c (Proc.devRef .tc main_arg0) = m ((c : Thread nD τ).loc main_arg0) :=
  (W18_of_ne m c main_arg0 (by decide)).trans <|
  (W17_of_ne m c main_arg0 (by decide)).trans <|
  (StableHlo.after_of_writes_sub hostOps7 _ hostOps7_writes (by decide : main_arg0 ∉ hostOps7_W)).trans <|
  (W15_of_ne m c main_arg0 (by decide)).trans <|
  (W14_of_ne m c main_arg0 (by decide)).trans <|
  (StableHlo.after_of_writes_sub hostOps5 _ hostOps5_writes (by decide : main_arg0 ∉ hostOps5_W)).trans <|
  (W12_of_ne m c main_arg0 (by decide)).trans <|
  (W11_of_ne m c main_arg0 (by decide)).trans <|
  (StableHlo.after_of_writes_sub hostOps3 _ hostOps3_writes (by decide : main_arg0 ∉ hostOps3_W)).trans <|
  (W9_of_ne m c main_arg0 (by decide)).trans <|
  (W8_of_ne m c main_arg0 (by decide)).trans <|
  (StableHlo.after_of_writes_sub hostOps1 _ hostOps1_writes (by decide : main_arg0 ∉ hostOps1_W)).trans <|
  (W6_of_ne m c main_arg0 (by decide)).trans <|
  (StableHlo.after_of_writes_sub hostOps0_4 _ hostOps0_4_writes (by decide : main_arg0 ∉ hostOps0_4_W)).trans <|
  (StableHlo.after_of_writes_sub hostOps0_3 _ hostOps0_3_writes (by decide : main_arg0 ∉ hostOps0_3_W)).trans <|
  (StableHlo.after_of_writes_sub hostOps0_2 _ hostOps0_2_writes (by decide : main_arg0 ∉ hostOps0_2_W)).trans <|
  (StableHlo.after_of_writes_sub hostOps0_1 _ hostOps0_1_writes (by decide : main_arg0 ∉ hostOps0_1_W)).trans <|
  (StableHlo.after_of_writes_sub hostOps0 _ hostOps0_writes (by decide : main_arg0 ∉ hostOps0_W)).trans <| rfl
theorem W18_main_arg1 (c : Dev nD) : W18 m c (Proc.devRef .tc main_arg1) = m ((c : Thread nD τ).loc main_arg1) :=
  (W18_of_ne m c main_arg1 (by decide)).trans <|
  (W17_of_ne m c main_arg1 (by decide)).trans <|
  (StableHlo.after_of_writes_sub hostOps7 _ hostOps7_writes (by decide : main_arg1 ∉ hostOps7_W)).trans <|
  (W15_of_ne m c main_arg1 (by decide)).trans <|
  (W14_of_ne m c main_arg1 (by decide)).trans <|
  (StableHlo.after_of_writes_sub hostOps5 _ hostOps5_writes (by decide : main_arg1 ∉ hostOps5_W)).trans <|
  (W12_of_ne m c main_arg1 (by decide)).trans <|
  (W11_of_ne m c main_arg1 (by decide)).trans <|
  (StableHlo.after_of_writes_sub hostOps3 _ hostOps3_writes (by decide : main_arg1 ∉ hostOps3_W)).trans <|
  (W9_of_ne m c main_arg1 (by decide)).trans <|
  (W8_of_ne m c main_arg1 (by decide)).trans <|
  (StableHlo.after_of_writes_sub hostOps1 _ hostOps1_writes (by decide : main_arg1 ∉ hostOps1_W)).trans <|
  (W6_of_ne m c main_arg1 (by decide)).trans <|
  (StableHlo.after_of_writes_sub hostOps0_4 _ hostOps0_4_writes (by decide : main_arg1 ∉ hostOps0_4_W)).trans <|
  (StableHlo.after_of_writes_sub hostOps0_3 _ hostOps0_3_writes (by decide : main_arg1 ∉ hostOps0_3_W)).trans <|
  (StableHlo.after_of_writes_sub hostOps0_2 _ hostOps0_2_writes (by decide : main_arg1 ∉ hostOps0_2_W)).trans <|
  (StableHlo.after_of_writes_sub hostOps0_1 _ hostOps0_1_writes (by decide : main_arg1 ∉ hostOps0_1_W)).trans <|
  (StableHlo.after_of_writes_sub hostOps0 _ hostOps0_writes (by decide : main_arg1 ∉ hostOps0_W)).trans <| rfl
theorem W18_main_arg2 (c : Dev nD) : W18 m c (Proc.devRef .tc main_arg2) = m ((c : Thread nD τ).loc main_arg2) :=
  (W18_of_ne m c main_arg2 (by decide)).trans <|
  (W17_of_ne m c main_arg2 (by decide)).trans <|
  (StableHlo.after_of_writes_sub hostOps7 _ hostOps7_writes (by decide : main_arg2 ∉ hostOps7_W)).trans <|
  (W15_of_ne m c main_arg2 (by decide)).trans <|
  (W14_of_ne m c main_arg2 (by decide)).trans <|
  (StableHlo.after_of_writes_sub hostOps5 _ hostOps5_writes (by decide : main_arg2 ∉ hostOps5_W)).trans <|
  (W12_of_ne m c main_arg2 (by decide)).trans <|
  (W11_of_ne m c main_arg2 (by decide)).trans <|
  (StableHlo.after_of_writes_sub hostOps3 _ hostOps3_writes (by decide : main_arg2 ∉ hostOps3_W)).trans <|
  (W9_of_ne m c main_arg2 (by decide)).trans <|
  (W8_of_ne m c main_arg2 (by decide)).trans <|
  (StableHlo.after_of_writes_sub hostOps1 _ hostOps1_writes (by decide : main_arg2 ∉ hostOps1_W)).trans <|
  (W6_of_ne m c main_arg2 (by decide)).trans <|
  (StableHlo.after_of_writes_sub hostOps0_4 _ hostOps0_4_writes (by decide : main_arg2 ∉ hostOps0_4_W)).trans <|
  (StableHlo.after_of_writes_sub hostOps0_3 _ hostOps0_3_writes (by decide : main_arg2 ∉ hostOps0_3_W)).trans <|
  (StableHlo.after_of_writes_sub hostOps0_2 _ hostOps0_2_writes (by decide : main_arg2 ∉ hostOps0_2_W)).trans <|
  (StableHlo.after_of_writes_sub hostOps0_1 _ hostOps0_1_writes (by decide : main_arg2 ∉ hostOps0_1_W)).trans <|
  (StableHlo.after_of_writes_sub hostOps0 _ hostOps0_writes (by decide : main_arg2 ∉ hostOps0_W)).trans <| rfl
theorem W18_main_arg3 (c : Dev nD) : W18 m c (Proc.devRef .tc main_arg3) = m ((c : Thread nD τ).loc main_arg3) :=
  (W18_of_ne m c main_arg3 (by decide)).trans <|
  (W17_of_ne m c main_arg3 (by decide)).trans <|
  (StableHlo.after_of_writes_sub hostOps7 _ hostOps7_writes (by decide : main_arg3 ∉ hostOps7_W)).trans <|
  (W15_of_ne m c main_arg3 (by decide)).trans <|
  (W14_of_ne m c main_arg3 (by decide)).trans <|
  (StableHlo.after_of_writes_sub hostOps5 _ hostOps5_writes (by decide : main_arg3 ∉ hostOps5_W)).trans <|
  (W12_of_ne m c main_arg3 (by decide)).trans <|
  (W11_of_ne m c main_arg3 (by decide)).trans <|
  (StableHlo.after_of_writes_sub hostOps3 _ hostOps3_writes (by decide : main_arg3 ∉ hostOps3_W)).trans <|
  (W9_of_ne m c main_arg3 (by decide)).trans <|
  (W8_of_ne m c main_arg3 (by decide)).trans <|
  (StableHlo.after_of_writes_sub hostOps1 _ hostOps1_writes (by decide : main_arg3 ∉ hostOps1_W)).trans <|
  (W6_of_ne m c main_arg3 (by decide)).trans <|
  (StableHlo.after_of_writes_sub hostOps0_4 _ hostOps0_4_writes (by decide : main_arg3 ∉ hostOps0_4_W)).trans <|
  (StableHlo.after_of_writes_sub hostOps0_3 _ hostOps0_3_writes (by decide : main_arg3 ∉ hostOps0_3_W)).trans <|
  (StableHlo.after_of_writes_sub hostOps0_2 _ hostOps0_2_writes (by decide : main_arg3 ∉ hostOps0_2_W)).trans <|
  (StableHlo.after_of_writes_sub hostOps0_1 _ hostOps0_1_writes (by decide : main_arg3 ∉ hostOps0_1_W)).trans <|
  (StableHlo.after_of_writes_sub hostOps0 _ hostOps0_writes (by decide : main_arg3 ∉ hostOps0_W)).trans <| rfl
theorem W18_main_arg4 (c : Dev nD) : W18 m c (Proc.devRef .tc main_arg4) = m ((c : Thread nD τ).loc main_arg4) :=
  (W18_of_ne m c main_arg4 (by decide)).trans <|
  (W17_of_ne m c main_arg4 (by decide)).trans <|
  (StableHlo.after_of_writes_sub hostOps7 _ hostOps7_writes (by decide : main_arg4 ∉ hostOps7_W)).trans <|
  (W15_of_ne m c main_arg4 (by decide)).trans <|
  (W14_of_ne m c main_arg4 (by decide)).trans <|
  (StableHlo.after_of_writes_sub hostOps5 _ hostOps5_writes (by decide : main_arg4 ∉ hostOps5_W)).trans <|
  (W12_of_ne m c main_arg4 (by decide)).trans <|
  (W11_of_ne m c main_arg4 (by decide)).trans <|
  (StableHlo.after_of_writes_sub hostOps3 _ hostOps3_writes (by decide : main_arg4 ∉ hostOps3_W)).trans <|
  (W9_of_ne m c main_arg4 (by decide)).trans <|
  (W8_of_ne m c main_arg4 (by decide)).trans <|
  (StableHlo.after_of_writes_sub hostOps1 _ hostOps1_writes (by decide : main_arg4 ∉ hostOps1_W)).trans <|
  (W6_of_ne m c main_arg4 (by decide)).trans <|
  (StableHlo.after_of_writes_sub hostOps0_4 _ hostOps0_4_writes (by decide : main_arg4 ∉ hostOps0_4_W)).trans <|
  (StableHlo.after_of_writes_sub hostOps0_3 _ hostOps0_3_writes (by decide : main_arg4 ∉ hostOps0_3_W)).trans <|
  (StableHlo.after_of_writes_sub hostOps0_2 _ hostOps0_2_writes (by decide : main_arg4 ∉ hostOps0_2_W)).trans <|
  (StableHlo.after_of_writes_sub hostOps0_1 _ hostOps0_1_writes (by decide : main_arg4 ∉ hostOps0_1_W)).trans <|
  (StableHlo.after_of_writes_sub hostOps0 _ hostOps0_writes (by decide : main_arg4 ∉ hostOps0_W)).trans <| rfl
theorem W18_main_arg5 (c : Dev nD) : W18 m c (Proc.devRef .tc main_arg5) = m ((c : Thread nD τ).loc main_arg5) :=
  (W18_of_ne m c main_arg5 (by decide)).trans <|
  (W17_of_ne m c main_arg5 (by decide)).trans <|
  (StableHlo.after_of_writes_sub hostOps7 _ hostOps7_writes (by decide : main_arg5 ∉ hostOps7_W)).trans <|
  (W15_of_ne m c main_arg5 (by decide)).trans <|
  (W14_of_ne m c main_arg5 (by decide)).trans <|
  (StableHlo.after_of_writes_sub hostOps5 _ hostOps5_writes (by decide : main_arg5 ∉ hostOps5_W)).trans <|
  (W12_of_ne m c main_arg5 (by decide)).trans <|
  (W11_of_ne m c main_arg5 (by decide)).trans <|
  (StableHlo.after_of_writes_sub hostOps3 _ hostOps3_writes (by decide : main_arg5 ∉ hostOps3_W)).trans <|
  (W9_of_ne m c main_arg5 (by decide)).trans <|
  (W8_of_ne m c main_arg5 (by decide)).trans <|
  (StableHlo.after_of_writes_sub hostOps1 _ hostOps1_writes (by decide : main_arg5 ∉ hostOps1_W)).trans <|
  (W6_of_ne m c main_arg5 (by decide)).trans <|
  (StableHlo.after_of_writes_sub hostOps0_4 _ hostOps0_4_writes (by decide : main_arg5 ∉ hostOps0_4_W)).trans <|
  (StableHlo.after_of_writes_sub hostOps0_3 _ hostOps0_3_writes (by decide : main_arg5 ∉ hostOps0_3_W)).trans <|
  (StableHlo.after_of_writes_sub hostOps0_2 _ hostOps0_2_writes (by decide : main_arg5 ∉ hostOps0_2_W)).trans <|
  (StableHlo.after_of_writes_sub hostOps0_1 _ hostOps0_1_writes (by decide : main_arg5 ∉ hostOps0_1_W)).trans <|
  (StableHlo.after_of_writes_sub hostOps0 _ hostOps0_writes (by decide : main_arg5 ∉ hostOps0_W)).trans <| rfl
theorem W18_main_arg6 (c : Dev nD) : W18 m c (Proc.devRef .tc main_arg6) = m ((c : Thread nD τ).loc main_arg6) :=
  (W18_of_ne m c main_arg6 (by decide)).trans <|
  (W17_of_ne m c main_arg6 (by decide)).trans <|
  (StableHlo.after_of_writes_sub hostOps7 _ hostOps7_writes (by decide : main_arg6 ∉ hostOps7_W)).trans <|
  (W15_of_ne m c main_arg6 (by decide)).trans <|
  (W14_of_ne m c main_arg6 (by decide)).trans <|
  (StableHlo.after_of_writes_sub hostOps5 _ hostOps5_writes (by decide : main_arg6 ∉ hostOps5_W)).trans <|
  (W12_of_ne m c main_arg6 (by decide)).trans <|
  (W11_of_ne m c main_arg6 (by decide)).trans <|
  (StableHlo.after_of_writes_sub hostOps3 _ hostOps3_writes (by decide : main_arg6 ∉ hostOps3_W)).trans <|
  (W9_of_ne m c main_arg6 (by decide)).trans <|
  (W8_of_ne m c main_arg6 (by decide)).trans <|
  (StableHlo.after_of_writes_sub hostOps1 _ hostOps1_writes (by decide : main_arg6 ∉ hostOps1_W)).trans <|
  (W6_of_ne m c main_arg6 (by decide)).trans <|
  (StableHlo.after_of_writes_sub hostOps0_4 _ hostOps0_4_writes (by decide : main_arg6 ∉ hostOps0_4_W)).trans <|
  (StableHlo.after_of_writes_sub hostOps0_3 _ hostOps0_3_writes (by decide : main_arg6 ∉ hostOps0_3_W)).trans <|
  (StableHlo.after_of_writes_sub hostOps0_2 _ hostOps0_2_writes (by decide : main_arg6 ∉ hostOps0_2_W)).trans <|
  (StableHlo.after_of_writes_sub hostOps0_1 _ hostOps0_1_writes (by decide : main_arg6 ∉ hostOps0_1_W)).trans <|
  (StableHlo.after_of_writes_sub hostOps0 _ hostOps0_writes (by decide : main_arg6 ∉ hostOps0_W)).trans <| rfl
theorem W18_main_arg7 (c : Dev nD) : W18 m c (Proc.devRef .tc main_arg7) = m ((c : Thread nD τ).loc main_arg7) :=
  (W18_of_ne m c main_arg7 (by decide)).trans <|
  (W17_of_ne m c main_arg7 (by decide)).trans <|
  (StableHlo.after_of_writes_sub hostOps7 _ hostOps7_writes (by decide : main_arg7 ∉ hostOps7_W)).trans <|
  (W15_of_ne m c main_arg7 (by decide)).trans <|
  (W14_of_ne m c main_arg7 (by decide)).trans <|
  (StableHlo.after_of_writes_sub hostOps5 _ hostOps5_writes (by decide : main_arg7 ∉ hostOps5_W)).trans <|
  (W12_of_ne m c main_arg7 (by decide)).trans <|
  (W11_of_ne m c main_arg7 (by decide)).trans <|
  (StableHlo.after_of_writes_sub hostOps3 _ hostOps3_writes (by decide : main_arg7 ∉ hostOps3_W)).trans <|
  (W9_of_ne m c main_arg7 (by decide)).trans <|
  (W8_of_ne m c main_arg7 (by decide)).trans <|
  (StableHlo.after_of_writes_sub hostOps1 _ hostOps1_writes (by decide : main_arg7 ∉ hostOps1_W)).trans <|
  (W6_of_ne m c main_arg7 (by decide)).trans <|
  (StableHlo.after_of_writes_sub hostOps0_4 _ hostOps0_4_writes (by decide : main_arg7 ∉ hostOps0_4_W)).trans <|
  (StableHlo.after_of_writes_sub hostOps0_3 _ hostOps0_3_writes (by decide : main_arg7 ∉ hostOps0_3_W)).trans <|
  (StableHlo.after_of_writes_sub hostOps0_2 _ hostOps0_2_writes (by decide : main_arg7 ∉ hostOps0_2_W)).trans <|
  (StableHlo.after_of_writes_sub hostOps0_1 _ hostOps0_1_writes (by decide : main_arg7 ∉ hostOps0_1_W)).trans <|
  (StableHlo.after_of_writes_sub hostOps0 _ hostOps0_writes (by decide : main_arg7 ∉ hostOps0_W)).trans <| rfl
theorem W18_main_arg8 (c : Dev nD) : W18 m c (Proc.devRef .tc main_arg8) = m ((c : Thread nD τ).loc main_arg8) :=
  (W18_of_ne m c main_arg8 (by decide)).trans <|
  (W17_of_ne m c main_arg8 (by decide)).trans <|
  (StableHlo.after_of_writes_sub hostOps7 _ hostOps7_writes (by decide : main_arg8 ∉ hostOps7_W)).trans <|
  (W15_of_ne m c main_arg8 (by decide)).trans <|
  (W14_of_ne m c main_arg8 (by decide)).trans <|
  (StableHlo.after_of_writes_sub hostOps5 _ hostOps5_writes (by decide : main_arg8 ∉ hostOps5_W)).trans <|
  (W12_of_ne m c main_arg8 (by decide)).trans <|
  (W11_of_ne m c main_arg8 (by decide)).trans <|
  (StableHlo.after_of_writes_sub hostOps3 _ hostOps3_writes (by decide : main_arg8 ∉ hostOps3_W)).trans <|
  (W9_of_ne m c main_arg8 (by decide)).trans <|
  (W8_of_ne m c main_arg8 (by decide)).trans <|
  (StableHlo.after_of_writes_sub hostOps1 _ hostOps1_writes (by decide : main_arg8 ∉ hostOps1_W)).trans <|
  (W6_of_ne m c main_arg8 (by decide)).trans <|
  (StableHlo.after_of_writes_sub hostOps0_4 _ hostOps0_4_writes (by decide : main_arg8 ∉ hostOps0_4_W)).trans <|
  (StableHlo.after_of_writes_sub hostOps0_3 _ hostOps0_3_writes (by decide : main_arg8 ∉ hostOps0_3_W)).trans <|
  (StableHlo.after_of_writes_sub hostOps0_2 _ hostOps0_2_writes (by decide : main_arg8 ∉ hostOps0_2_W)).trans <|
  (StableHlo.after_of_writes_sub hostOps0_1 _ hostOps0_1_writes (by decide : main_arg8 ∉ hostOps0_1_W)).trans <|
  (StableHlo.after_of_writes_sub hostOps0 _ hostOps0_writes (by decide : main_arg8 ∉ hostOps0_W)).trans <| rfl
theorem W18_main_arg9 (c : Dev nD) : W18 m c (Proc.devRef .tc main_arg9) = m ((c : Thread nD τ).loc main_arg9) :=
  (W18_of_ne m c main_arg9 (by decide)).trans <|
  (W17_of_ne m c main_arg9 (by decide)).trans <|
  (StableHlo.after_of_writes_sub hostOps7 _ hostOps7_writes (by decide : main_arg9 ∉ hostOps7_W)).trans <|
  (W15_of_ne m c main_arg9 (by decide)).trans <|
  (W14_of_ne m c main_arg9 (by decide)).trans <|
  (StableHlo.after_of_writes_sub hostOps5 _ hostOps5_writes (by decide : main_arg9 ∉ hostOps5_W)).trans <|
  (W12_of_ne m c main_arg9 (by decide)).trans <|
  (W11_of_ne m c main_arg9 (by decide)).trans <|
  (StableHlo.after_of_writes_sub hostOps3 _ hostOps3_writes (by decide : main_arg9 ∉ hostOps3_W)).trans <|
  (W9_of_ne m c main_arg9 (by decide)).trans <|
  (W8_of_ne m c main_arg9 (by decide)).trans <|
  (StableHlo.after_of_writes_sub hostOps1 _ hostOps1_writes (by decide : main_arg9 ∉ hostOps1_W)).trans <|
  (W6_of_ne m c main_arg9 (by decide)).trans <|
  (StableHlo.after_of_writes_sub hostOps0_4 _ hostOps0_4_writes (by decide : main_arg9 ∉ hostOps0_4_W)).trans <|
  (StableHlo.after_of_writes_sub hostOps0_3 _ hostOps0_3_writes (by decide : main_arg9 ∉ hostOps0_3_W)).trans <|
  (StableHlo.after_of_writes_sub hostOps0_2 _ hostOps0_2_writes (by decide : main_arg9 ∉ hostOps0_2_W)).trans <|
  (StableHlo.after_of_writes_sub hostOps0_1 _ hostOps0_1_writes (by decide : main_arg9 ∉ hostOps0_1_W)).trans <|
  (StableHlo.after_of_writes_sub hostOps0 _ hostOps0_writes (by decide : main_arg9 ∉ hostOps0_W)).trans <| rfl
theorem W18_main_arg10 (c : Dev nD) : W18 m c (Proc.devRef .tc main_arg10) = m ((c : Thread nD τ).loc main_arg10) :=
  (W18_of_ne m c main_arg10 (by decide)).trans <|
  (W17_of_ne m c main_arg10 (by decide)).trans <|
  (StableHlo.after_of_writes_sub hostOps7 _ hostOps7_writes (by decide : main_arg10 ∉ hostOps7_W)).trans <|
  (W15_of_ne m c main_arg10 (by decide)).trans <|
  (W14_of_ne m c main_arg10 (by decide)).trans <|
  (StableHlo.after_of_writes_sub hostOps5 _ hostOps5_writes (by decide : main_arg10 ∉ hostOps5_W)).trans <|
  (W12_of_ne m c main_arg10 (by decide)).trans <|
  (W11_of_ne m c main_arg10 (by decide)).trans <|
  (StableHlo.after_of_writes_sub hostOps3 _ hostOps3_writes (by decide : main_arg10 ∉ hostOps3_W)).trans <|
  (W9_of_ne m c main_arg10 (by decide)).trans <|
  (W8_of_ne m c main_arg10 (by decide)).trans <|
  (StableHlo.after_of_writes_sub hostOps1 _ hostOps1_writes (by decide : main_arg10 ∉ hostOps1_W)).trans <|
  (W6_of_ne m c main_arg10 (by decide)).trans <|
  (StableHlo.after_of_writes_sub hostOps0_4 _ hostOps0_4_writes (by decide : main_arg10 ∉ hostOps0_4_W)).trans <|
  (StableHlo.after_of_writes_sub hostOps0_3 _ hostOps0_3_writes (by decide : main_arg10 ∉ hostOps0_3_W)).trans <|
  (StableHlo.after_of_writes_sub hostOps0_2 _ hostOps0_2_writes (by decide : main_arg10 ∉ hostOps0_2_W)).trans <|
  (StableHlo.after_of_writes_sub hostOps0_1 _ hostOps0_1_writes (by decide : main_arg10 ∉ hostOps0_1_W)).trans <|
  (StableHlo.after_of_writes_sub hostOps0 _ hostOps0_writes (by decide : main_arg10 ∉ hostOps0_W)).trans <| rfl
theorem W18_main_arg11 (c : Dev nD) : W18 m c (Proc.devRef .tc main_arg11) = m ((c : Thread nD τ).loc main_arg11) :=
  (W18_of_ne m c main_arg11 (by decide)).trans <|
  (W17_of_ne m c main_arg11 (by decide)).trans <|
  (StableHlo.after_of_writes_sub hostOps7 _ hostOps7_writes (by decide : main_arg11 ∉ hostOps7_W)).trans <|
  (W15_of_ne m c main_arg11 (by decide)).trans <|
  (W14_of_ne m c main_arg11 (by decide)).trans <|
  (StableHlo.after_of_writes_sub hostOps5 _ hostOps5_writes (by decide : main_arg11 ∉ hostOps5_W)).trans <|
  (W12_of_ne m c main_arg11 (by decide)).trans <|
  (W11_of_ne m c main_arg11 (by decide)).trans <|
  (StableHlo.after_of_writes_sub hostOps3 _ hostOps3_writes (by decide : main_arg11 ∉ hostOps3_W)).trans <|
  (W9_of_ne m c main_arg11 (by decide)).trans <|
  (W8_of_ne m c main_arg11 (by decide)).trans <|
  (StableHlo.after_of_writes_sub hostOps1 _ hostOps1_writes (by decide : main_arg11 ∉ hostOps1_W)).trans <|
  (W6_of_ne m c main_arg11 (by decide)).trans <|
  (StableHlo.after_of_writes_sub hostOps0_4 _ hostOps0_4_writes (by decide : main_arg11 ∉ hostOps0_4_W)).trans <|
  (StableHlo.after_of_writes_sub hostOps0_3 _ hostOps0_3_writes (by decide : main_arg11 ∉ hostOps0_3_W)).trans <|
  (StableHlo.after_of_writes_sub hostOps0_2 _ hostOps0_2_writes (by decide : main_arg11 ∉ hostOps0_2_W)).trans <|
  (StableHlo.after_of_writes_sub hostOps0_1 _ hostOps0_1_writes (by decide : main_arg11 ∉ hostOps0_1_W)).trans <|
  (StableHlo.after_of_writes_sub hostOps0 _ hostOps0_writes (by decide : main_arg11 ∉ hostOps0_W)).trans <| rfl
theorem W18_main_arg12 (c : Dev nD) : W18 m c (Proc.devRef .tc main_arg12) = m ((c : Thread nD τ).loc main_arg12) :=
  (W18_of_ne m c main_arg12 (by decide)).trans <|
  (W17_of_ne m c main_arg12 (by decide)).trans <|
  (StableHlo.after_of_writes_sub hostOps7 _ hostOps7_writes (by decide : main_arg12 ∉ hostOps7_W)).trans <|
  (W15_of_ne m c main_arg12 (by decide)).trans <|
  (W14_of_ne m c main_arg12 (by decide)).trans <|
  (StableHlo.after_of_writes_sub hostOps5 _ hostOps5_writes (by decide : main_arg12 ∉ hostOps5_W)).trans <|
  (W12_of_ne m c main_arg12 (by decide)).trans <|
  (W11_of_ne m c main_arg12 (by decide)).trans <|
  (StableHlo.after_of_writes_sub hostOps3 _ hostOps3_writes (by decide : main_arg12 ∉ hostOps3_W)).trans <|
  (W9_of_ne m c main_arg12 (by decide)).trans <|
  (W8_of_ne m c main_arg12 (by decide)).trans <|
  (StableHlo.after_of_writes_sub hostOps1 _ hostOps1_writes (by decide : main_arg12 ∉ hostOps1_W)).trans <|
  (W6_of_ne m c main_arg12 (by decide)).trans <|
  (StableHlo.after_of_writes_sub hostOps0_4 _ hostOps0_4_writes (by decide : main_arg12 ∉ hostOps0_4_W)).trans <|
  (StableHlo.after_of_writes_sub hostOps0_3 _ hostOps0_3_writes (by decide : main_arg12 ∉ hostOps0_3_W)).trans <|
  (StableHlo.after_of_writes_sub hostOps0_2 _ hostOps0_2_writes (by decide : main_arg12 ∉ hostOps0_2_W)).trans <|
  (StableHlo.after_of_writes_sub hostOps0_1 _ hostOps0_1_writes (by decide : main_arg12 ∉ hostOps0_1_W)).trans <|
  (StableHlo.after_of_writes_sub hostOps0 _ hostOps0_writes (by decide : main_arg12 ∉ hostOps0_W)).trans <| rfl
theorem W18_main_arg13 (c : Dev nD) : W18 m c (Proc.devRef .tc main_arg13) = m ((c : Thread nD τ).loc main_arg13) :=
  (W18_of_ne m c main_arg13 (by decide)).trans <|
  (W17_of_ne m c main_arg13 (by decide)).trans <|
  (StableHlo.after_of_writes_sub hostOps7 _ hostOps7_writes (by decide : main_arg13 ∉ hostOps7_W)).trans <|
  (W15_of_ne m c main_arg13 (by decide)).trans <|
  (W14_of_ne m c main_arg13 (by decide)).trans <|
  (StableHlo.after_of_writes_sub hostOps5 _ hostOps5_writes (by decide : main_arg13 ∉ hostOps5_W)).trans <|
  (W12_of_ne m c main_arg13 (by decide)).trans <|
  (W11_of_ne m c main_arg13 (by decide)).trans <|
  (StableHlo.after_of_writes_sub hostOps3 _ hostOps3_writes (by decide : main_arg13 ∉ hostOps3_W)).trans <|
  (W9_of_ne m c main_arg13 (by decide)).trans <|
  (W8_of_ne m c main_arg13 (by decide)).trans <|
  (StableHlo.after_of_writes_sub hostOps1 _ hostOps1_writes (by decide : main_arg13 ∉ hostOps1_W)).trans <|
  (W6_of_ne m c main_arg13 (by decide)).trans <|
  (StableHlo.after_of_writes_sub hostOps0_4 _ hostOps0_4_writes (by decide : main_arg13 ∉ hostOps0_4_W)).trans <|
  (StableHlo.after_of_writes_sub hostOps0_3 _ hostOps0_3_writes (by decide : main_arg13 ∉ hostOps0_3_W)).trans <|
  (StableHlo.after_of_writes_sub hostOps0_2 _ hostOps0_2_writes (by decide : main_arg13 ∉ hostOps0_2_W)).trans <|
  (StableHlo.after_of_writes_sub hostOps0_1 _ hostOps0_1_writes (by decide : main_arg13 ∉ hostOps0_1_W)).trans <|
  (StableHlo.after_of_writes_sub hostOps0 _ hostOps0_writes (by decide : main_arg13 ∉ hostOps0_W)).trans <| rfl

/-! ## Buffers kept from item to item: a host stretch does not write them; a region either does not touch them or stages
    them as an input, whose array comes back as entered -/
theorem keep_main_v24_5_7 (c : Dev nD) : W7 m c (Proc.devRef .tc main_v24) = W5 m c (Proc.devRef .tc main_v24) :=
  (StableHlo.after_of_writes_sub hostOps1 _ hostOps1_writes (by decide : main_v24 ∉ hostOps1_W)).trans <|
  (W6_of_ne m c main_v24 (by decide)).trans <| rfl
theorem keep_main_v24_5_10 (c : Dev nD) : W10 m c (Proc.devRef .tc main_v24) = W5 m c (Proc.devRef .tc main_v24) :=
  (StableHlo.after_of_writes_sub hostOps3 _ hostOps3_writes (by decide : main_v24 ∉ hostOps3_W)).trans <|
  (W9_of_ne m c main_v24 (by decide)).trans <|
  ((W8_arr m c 0).trans (((dat1 (Wv7 m) c).arrAt_in 0 rfl _).trans (A_eq1 (Wv7 m) c 0))).trans <|
  (StableHlo.after_of_writes_sub hostOps1 _ hostOps1_writes (by decide : main_v24 ∉ hostOps1_W)).trans <|
  (W6_of_ne m c main_v24 (by decide)).trans <| rfl
theorem keep_main_v24_5_13 (c : Dev nD) : W13 m c (Proc.devRef .tc main_v24) = W5 m c (Proc.devRef .tc main_v24) :=
  (StableHlo.after_of_writes_sub hostOps5 _ hostOps5_writes (by decide : main_v24 ∉ hostOps5_W)).trans <|
  (W12_of_ne m c main_v24 (by decide)).trans <|
  ((W11_arr m c 0).trans (((dat3 (Wv10 m) c).arrAt_in 0 rfl _).trans (A_eq3 (Wv10 m) c 0))).trans <|
  (StableHlo.after_of_writes_sub hostOps3 _ hostOps3_writes (by decide : main_v24 ∉ hostOps3_W)).trans <|
  (W9_of_ne m c main_v24 (by decide)).trans <|
  ((W8_arr m c 0).trans (((dat1 (Wv7 m) c).arrAt_in 0 rfl _).trans (A_eq1 (Wv7 m) c 0))).trans <|
  (StableHlo.after_of_writes_sub hostOps1 _ hostOps1_writes (by decide : main_v24 ∉ hostOps1_W)).trans <|
  (W6_of_ne m c main_v24 (by decide)).trans <| rfl
theorem keep_main_v24_5_16 (c : Dev nD) : W16 m c (Proc.devRef .tc main_v24) = W5 m c (Proc.devRef .tc main_v24) :=
  (StableHlo.after_of_writes_sub hostOps7 _ hostOps7_writes (by decide : main_v24 ∉ hostOps7_W)).trans <|
  (W15_of_ne m c main_v24 (by decide)).trans <|
  ((W14_arr m c 0).trans (((dat5 (Wv13 m) c).arrAt_in 0 rfl _).trans (A_eq5 (Wv13 m) c 0))).trans <|
  (StableHlo.after_of_writes_sub hostOps5 _ hostOps5_writes (by decide : main_v24 ∉ hostOps5_W)).trans <|
  (W12_of_ne m c main_v24 (by decide)).trans <|
  ((W11_arr m c 0).trans (((dat3 (Wv10 m) c).arrAt_in 0 rfl _).trans (A_eq3 (Wv10 m) c 0))).trans <|
  (StableHlo.after_of_writes_sub hostOps3 _ hostOps3_writes (by decide : main_v24 ∉ hostOps3_W)).trans <|
  (W9_of_ne m c main_v24 (by decide)).trans <|
  ((W8_arr m c 0).trans (((dat1 (Wv7 m) c).arrAt_in 0 rfl _).trans (A_eq1 (Wv7 m) c 0))).trans <|
  (StableHlo.after_of_writes_sub hostOps1 _ hostOps1_writes (by decide : main_v24 ∉ hostOps1_W)).trans <|
  (W6_of_ne m c main_v24 (by decide)).trans <| rfl
theorem keep_main_v24_5_17 (c : Dev nD) : W17 m c (Proc.devRef .tc main_v24) = W5 m c (Proc.devRef .tc main_v24) :=
  ((W17_arr m c 0).trans (((dat7 (Wv16 m) c).arrAt_in 0 rfl _).trans (A_eq7 (Wv16 m) c 0))).trans <|
  (StableHlo.after_of_writes_sub hostOps7 _ hostOps7_writes (by decide : main_v24 ∉ hostOps7_W)).trans <|
  (W15_of_ne m c main_v24 (by decide)).trans <|
  ((W14_arr m c 0).trans (((dat5 (Wv13 m) c).arrAt_in 0 rfl _).trans (A_eq5 (Wv13 m) c 0))).trans <|
  (StableHlo.after_of_writes_sub hostOps5 _ hostOps5_writes (by decide : main_v24 ∉ hostOps5_W)).trans <|
  (W12_of_ne m c main_v24 (by decide)).trans <|
  ((W11_arr m c 0).trans (((dat3 (Wv10 m) c).arrAt_in 0 rfl _).trans (A_eq3 (Wv10 m) c 0))).trans <|
  (StableHlo.after_of_writes_sub hostOps3 _ hostOps3_writes (by decide : main_v24 ∉ hostOps3_W)).trans <|
  (W9_of_ne m c main_v24 (by decide)).trans <|
  ((W8_arr m c 0).trans (((dat1 (Wv7 m) c).arrAt_in 0 rfl _).trans (A_eq1 (Wv7 m) c 0))).trans <|
  (StableHlo.after_of_writes_sub hostOps1 _ hostOps1_writes (by decide : main_v24 ∉ hostOps1_W)).trans <|
  (W6_of_ne m c main_v24 (by decide)).trans <| rfl
theorem keep_main_v25_5_8 (c : Dev nD) : W8 m c (Proc.devRef .tc main_v25) = W5 m c (Proc.devRef .tc main_v25) :=
  (W8_of_ne m c main_v25 (by decide)).trans <|
  (StableHlo.after_of_writes_sub hostOps1 _ hostOps1_writes (by decide : main_v25 ∉ hostOps1_W)).trans <|
  ((W6_arr m c 0).trans (((dat0 (Wv5 m) c).arrAt_in 0 rfl _).trans (A_eq0 (Wv5 m) c 0))).trans <| rfl
theorem keep_main_v25_5_11 (c : Dev nD) : W11 m c (Proc.devRef .tc main_v25) = W5 m c (Proc.devRef .tc main_v25) :=
  (W11_of_ne m c main_v25 (by decide)).trans <|
  (StableHlo.after_of_writes_sub hostOps3 _ hostOps3_writes (by decide : main_v25 ∉ hostOps3_W)).trans <|
  ((W9_arr m c 0).trans (((dat2 (Wv8 m) c).arrAt_in 0 rfl _).trans (A_eq2 (Wv8 m) c 0))).trans <|
  (W8_of_ne m c main_v25 (by decide)).trans <|
  (StableHlo.after_of_writes_sub hostOps1 _ hostOps1_writes (by decide : main_v25 ∉ hostOps1_W)).trans <|
  ((W6_arr m c 0).trans (((dat0 (Wv5 m) c).arrAt_in 0 rfl _).trans (A_eq0 (Wv5 m) c 0))).trans <| rfl
theorem keep_main_v25_5_14 (c : Dev nD) : W14 m c (Proc.devRef .tc main_v25) = W5 m c (Proc.devRef .tc main_v25) :=
  (W14_of_ne m c main_v25 (by decide)).trans <|
  (StableHlo.after_of_writes_sub hostOps5 _ hostOps5_writes (by decide : main_v25 ∉ hostOps5_W)).trans <|
  ((W12_arr m c 0).trans (((dat4 (Wv11 m) c).arrAt_in 0 rfl _).trans (A_eq4 (Wv11 m) c 0))).trans <|
  (W11_of_ne m c main_v25 (by decide)).trans <|
  (StableHlo.after_of_writes_sub hostOps3 _ hostOps3_writes (by decide : main_v25 ∉ hostOps3_W)).trans <|
  ((W9_arr m c 0).trans (((dat2 (Wv8 m) c).arrAt_in 0 rfl _).trans (A_eq2 (Wv8 m) c 0))).trans <|
  (W8_of_ne m c main_v25 (by decide)).trans <|
  (StableHlo.after_of_writes_sub hostOps1 _ hostOps1_writes (by decide : main_v25 ∉ hostOps1_W)).trans <|
  ((W6_arr m c 0).trans (((dat0 (Wv5 m) c).arrAt_in 0 rfl _).trans (A_eq0 (Wv5 m) c 0))).trans <| rfl
theorem keep_main_v25_5_17 (c : Dev nD) : W17 m c (Proc.devRef .tc main_v25) = W5 m c (Proc.devRef .tc main_v25) :=
  (W17_of_ne m c main_v25 (by decide)).trans <|
  (StableHlo.after_of_writes_sub hostOps7 _ hostOps7_writes (by decide : main_v25 ∉ hostOps7_W)).trans <|
  ((W15_arr m c 0).trans (((dat6 (Wv14 m) c).arrAt_in 0 rfl _).trans (A_eq6 (Wv14 m) c 0))).trans <|
  (W14_of_ne m c main_v25 (by decide)).trans <|
  (StableHlo.after_of_writes_sub hostOps5 _ hostOps5_writes (by decide : main_v25 ∉ hostOps5_W)).trans <|
  ((W12_arr m c 0).trans (((dat4 (Wv11 m) c).arrAt_in 0 rfl _).trans (A_eq4 (Wv11 m) c 0))).trans <|
  (W11_of_ne m c main_v25 (by decide)).trans <|
  (StableHlo.after_of_writes_sub hostOps3 _ hostOps3_writes (by decide : main_v25 ∉ hostOps3_W)).trans <|
  ((W9_arr m c 0).trans (((dat2 (Wv8 m) c).arrAt_in 0 rfl _).trans (A_eq2 (Wv8 m) c 0))).trans <|
  (W8_of_ne m c main_v25 (by decide)).trans <|
  (StableHlo.after_of_writes_sub hostOps1 _ hostOps1_writes (by decide : main_v25 ∉ hostOps1_W)).trans <|
  ((W6_arr m c 0).trans (((dat0 (Wv5 m) c).arrAt_in 0 rfl _).trans (A_eq0 (Wv5 m) c 0))).trans <| rfl
theorem keep_main_v23_5_8 (c : Dev nD) : W8 m c (Proc.devRef .tc main_v23) = W5 m c (Proc.devRef .tc main_v23) :=
  (W8_of_ne m c main_v23 (by decide)).trans <|
  (StableHlo.after_of_writes_sub hostOps1 _ hostOps1_writes (by decide : main_v23 ∉ hostOps1_W)).trans <|
  ((W6_arr m c 2).trans (((dat0 (Wv5 m) c).arrAt_in 2 rfl _).trans (A_eq0 (Wv5 m) c 2))).trans <| rfl
theorem keep_main_v23_5_11 (c : Dev nD) : W11 m c (Proc.devRef .tc main_v23) = W5 m c (Proc.devRef .tc main_v23) :=
  (W11_of_ne m c main_v23 (by decide)).trans <|
  (StableHlo.after_of_writes_sub hostOps3 _ hostOps3_writes (by decide : main_v23 ∉ hostOps3_W)).trans <|
  ((W9_arr m c 2).trans (((dat2 (Wv8 m) c).arrAt_in 2 rfl _).trans (A_eq2 (Wv8 m) c 2))).trans <|
  (W8_of_ne m c main_v23 (by decide)).trans <|
  (StableHlo.after_of_writes_sub hostOps1 _ hostOps1_writes (by decide : main_v23 ∉ hostOps1_W)).trans <|
  ((W6_arr m c 2).trans (((dat0 (Wv5 m) c).arrAt_in 2 rfl _).trans (A_eq0 (Wv5 m) c 2))).trans <| rfl
theorem keep_main_v23_5_14 (c : Dev nD) : W14 m c (Proc.devRef .tc main_v23) = W5 m c (Proc.devRef .tc main_v23) :=
  (W14_of_ne m c main_v23 (by decide)).trans <|
  (StableHlo.after_of_writes_sub hostOps5 _ hostOps5_writes (by decide : main_v23 ∉ hostOps5_W)).trans <|
  ((W12_arr m c 2).trans (((dat4 (Wv11 m) c).arrAt_in 2 rfl _).trans (A_eq4 (Wv11 m) c 2))).trans <|
  (W11_of_ne m c main_v23 (by decide)).trans <|
  (StableHlo.after_of_writes_sub hostOps3 _ hostOps3_writes (by decide : main_v23 ∉ hostOps3_W)).trans <|
  ((W9_arr m c 2).trans (((dat2 (Wv8 m) c).arrAt_in 2 rfl _).trans (A_eq2 (Wv8 m) c 2))).trans <|
  (W8_of_ne m c main_v23 (by decide)).trans <|
  (StableHlo.after_of_writes_sub hostOps1 _ hostOps1_writes (by decide : main_v23 ∉ hostOps1_W)).trans <|
  ((W6_arr m c 2).trans (((dat0 (Wv5 m) c).arrAt_in 2 rfl _).trans (A_eq0 (Wv5 m) c 2))).trans <| rfl
theorem keep_main_v23_5_17 (c : Dev nD) : W17 m c (Proc.devRef .tc main_v23) = W5 m c (Proc.devRef .tc main_v23) :=
  (W17_of_ne m c main_v23 (by decide)).trans <|
  (StableHlo.after_of_writes_sub hostOps7 _ hostOps7_writes (by decide : main_v23 ∉ hostOps7_W)).trans <|
  ((W15_arr m c 2).trans (((dat6 (Wv14 m) c).arrAt_in 2 rfl _).trans (A_eq6 (Wv14 m) c 2))).trans <|
  (W14_of_ne m c main_v23 (by decide)).trans <|
  (StableHlo.after_of_writes_sub hostOps5 _ hostOps5_writes (by decide : main_v23 ∉ hostOps5_W)).trans <|
  ((W12_arr m c 2).trans (((dat4 (Wv11 m) c).arrAt_in 2 rfl _).trans (A_eq4 (Wv11 m) c 2))).trans <|
  (W11_of_ne m c main_v23 (by decide)).trans <|
  (StableHlo.after_of_writes_sub hostOps3 _ hostOps3_writes (by decide : main_v23 ∉ hostOps3_W)).trans <|
  ((W9_arr m c 2).trans (((dat2 (Wv8 m) c).arrAt_in 2 rfl _).trans (A_eq2 (Wv8 m) c 2))).trans <|
  (W8_of_ne m c main_v23 (by decide)).trans <|
  (StableHlo.after_of_writes_sub hostOps1 _ hostOps1_writes (by decide : main_v23 ∉ hostOps1_W)).trans <|
  ((W6_arr m c 2).trans (((dat0 (Wv5 m) c).arrAt_in 2 rfl _).trans (A_eq0 (Wv5 m) c 2))).trans <| rfl
theorem keep_main_v11_5_7 (c : Dev nD) : W7 m c (Proc.devRef .tc main_v11) = W5 m c (Proc.devRef .tc main_v11) :=
  (StableHlo.after_of_writes_sub hostOps1 _ hostOps1_writes (by decide : main_v11 ∉ hostOps1_W)).trans <|
  ((W6_arr m c 1).trans (((dat0 (Wv5 m) c).arrAt_in 1 rfl _).trans (A_eq0 (Wv5 m) c 1))).trans <| rfl
theorem keep_main_v26_5_6 (c : Dev nD) : W6 m c (Proc.devRef .tc main_v26) = W5 m c (Proc.devRef .tc main_v26) :=
  (W6_of_ne m c main_v26 (by decide)).trans <| rfl
theorem keep_main_v26_5_9 (c : Dev nD) : W9 m c (Proc.devRef .tc main_v26) = W5 m c (Proc.devRef .tc main_v26) :=
  (W9_of_ne m c main_v26 (by decide)).trans <|
  (W8_of_ne m c main_v26 (by decide)).trans <|
  (StableHlo.after_of_writes_sub hostOps1 _ hostOps1_writes (by decide : main_v26 ∉ hostOps1_W)).trans <|
  (W6_of_ne m c main_v26 (by decide)).trans <| rfl
theorem keep_main_v26_5_12 (c : Dev nD) : W12 m c (Proc.devRef .tc main_v26) = W5 m c (Proc.devRef .tc main_v26) :=
  (W12_of_ne m c main_v26 (by decide)).trans <|
  (W11_of_ne m c main_v26 (by decide)).trans <|
  (StableHlo.after_of_writes_sub hostOps3 _ hostOps3_writes (by decide : main_v26 ∉ hostOps3_W)).trans <|
  (W9_of_ne m c main_v26 (by decide)).trans <|
  (W8_of_ne m c main_v26 (by decide)).trans <|
  (StableHlo.after_of_writes_sub hostOps1 _ hostOps1_writes (by decide : main_v26 ∉ hostOps1_W)).trans <|
  (W6_of_ne m c main_v26 (by decide)).trans <| rfl
theorem keep_main_v26_5_15 (c : Dev nD) : W15 m c (Proc.devRef .tc main_v26) = W5 m c (Proc.devRef .tc main_v26) :=
  (W15_of_ne m c main_v26 (by decide)).trans <|
  (W14_of_ne m c main_v26 (by decide)).trans <|
  (StableHlo.after_of_writes_sub hostOps5 _ hostOps5_writes (by decide : main_v26 ∉ hostOps5_W)).trans <|
  (W12_of_ne m c main_v26 (by decide)).trans <|
  (W11_of_ne m c main_v26 (by decide)).trans <|
  (StableHlo.after_of_writes_sub hostOps3 _ hostOps3_writes (by decide : main_v26 ∉ hostOps3_W)).trans <|
  (W9_of_ne m c main_v26 (by decide)).trans <|
  (W8_of_ne m c main_v26 (by decide)).trans <|
  (StableHlo.after_of_writes_sub hostOps1 _ hostOps1_writes (by decide : main_v26 ∉ hostOps1_W)).trans <|
  (W6_of_ne m c main_v26 (by decide)).trans <| rfl
theorem keep_main_arg13_0_6 (c : Dev nD) : W6 m c (Proc.devRef .tc main_arg13) = W0 m c (Proc.devRef .tc main_arg13) :=
  (W6_of_ne m c main_arg13 (by decide)).trans <|
  (StableHlo.after_of_writes_sub hostOps0_4 _ hostOps0_4_writes (by decide : main_arg13 ∉ hostOps0_4_W)).trans <|
  (StableHlo.after_of_writes_sub hostOps0_3 _ hostOps0_3_writes (by decide : main_arg13 ∉ hostOps0_3_W)).trans <|
  (StableHlo.after_of_writes_sub hostOps0_2 _ hostOps0_2_writes (by decide : main_arg13 ∉ hostOps0_2_W)).trans <|
  (StableHlo.after_of_writes_sub hostOps0_1 _ hostOps0_1_writes (by decide : main_arg13 ∉ hostOps0_1_W)).trans <|
  (StableHlo.after_of_writes_sub hostOps0 _ hostOps0_writes (by decide : main_arg13 ∉ hostOps0_W)).trans <| rfl
theorem keep_main_arg13_0_9 (c : Dev nD) : W9 m c (Proc.devRef .tc main_arg13) = W0 m c (Proc.devRef .tc main_arg13) :=
  (W9_of_ne m c main_arg13 (by decide)).trans <|
  (W8_of_ne m c main_arg13 (by decide)).trans <|
  (StableHlo.after_of_writes_sub hostOps1 _ hostOps1_writes (by decide : main_arg13 ∉ hostOps1_W)).trans <|
  (W6_of_ne m c main_arg13 (by decide)).trans <|
  (StableHlo.after_of_writes_sub hostOps0_4 _ hostOps0_4_writes (by decide : main_arg13 ∉ hostOps0_4_W)).trans <|
  (StableHlo.after_of_writes_sub hostOps0_3 _ hostOps0_3_writes (by decide : main_arg13 ∉ hostOps0_3_W)).trans <|
  (StableHlo.after_of_writes_sub hostOps0_2 _ hostOps0_2_writes (by decide : main_arg13 ∉ hostOps0_2_W)).trans <|
  (StableHlo.after_of_writes_sub hostOps0_1 _ hostOps0_1_writes (by decide : main_arg13 ∉ hostOps0_1_W)).trans <|
  (StableHlo.after_of_writes_sub hostOps0 _ hostOps0_writes (by decide : main_arg13 ∉ hostOps0_W)).trans <| rfl
theorem keep_main_arg13_0_12 (c : Dev nD) : W12 m c (Proc.devRef .tc main_arg13) = W0 m c (Proc.devRef .tc main_arg13) :=
  (W12_of_ne m c main_arg13 (by decide)).trans <|
  (W11_of_ne m c main_arg13 (by decide)).trans <|
  (StableHlo.after_of_writes_sub hostOps3 _ hostOps3_writes (by decide : main_arg13 ∉ hostOps3_W)).trans <|
  (W9_of_ne m c main_arg13 (by decide)).trans <|
  (W8_of_ne m c main_arg13 (by decide)).trans <|
  (StableHlo.after_of_writes_sub hostOps1 _ hostOps1_writes (by decide : main_arg13 ∉ hostOps1_W)).trans <|
  (W6_of_ne m c main_arg13 (by decide)).trans <|
  (StableHlo.after_of_writes_sub hostOps0_4 _ hostOps0_4_writes (by decide : main_arg13 ∉ hostOps0_4_W)).trans <|
  (StableHlo.after_of_writes_sub hostOps0_3 _ hostOps0_3_writes (by decide : main_arg13 ∉ hostOps0_3_W)).trans <|
  (StableHlo.after_of_writes_sub hostOps0_2 _ hostOps0_2_writes (by decide : main_arg13 ∉ hostOps0_2_W)).trans <|
  (StableHlo.after_of_writes_sub hostOps0_1 _ hostOps0_1_writes (by decide : main_arg13 ∉ hostOps0_1_W)).trans <|
  (StableHlo.after_of_writes_sub hostOps0 _ hostOps0_writes (by decide : main_arg13 ∉ hostOps0_W)).trans <| rfl
theorem keep_main_arg13_0_15 (c : Dev nD) : W15 m c (Proc.devRef .tc main_arg13) = W0 m c (Proc.devRef .tc main_arg13) :=
  (W15_of_ne m c main_arg13 (by decide)).trans <|
  (W14_of_ne m c main_arg13 (by decide)).trans <|
  (StableHlo.after_of_writes_sub hostOps5 _ hostOps5_writes (by decide : main_arg13 ∉ hostOps5_W)).trans <|
  (W12_of_ne m c main_arg13 (by decide)).trans <|
  (W11_of_ne m c main_arg13 (by decide)).trans <|
  (StableHlo.after_of_writes_sub hostOps3 _ hostOps3_writes (by decide : main_arg13 ∉ hostOps3_W)).trans <|
  (W9_of_ne m c main_arg13 (by decide)).trans <|
  (W8_of_ne m c main_arg13 (by decide)).trans <|
  (StableHlo.after_of_writes_sub hostOps1 _ hostOps1_writes (by decide : main_arg13 ∉ hostOps1_W)).trans <|
  (W6_of_ne m c main_arg13 (by decide)).trans <|
  (StableHlo.after_of_writes_sub hostOps0_4 _ hostOps0_4_writes (by decide : main_arg13 ∉ hostOps0_4_W)).trans <|
  (StableHlo.after_of_writes_sub hostOps0_3 _ hostOps0_3_writes (by decide : main_arg13 ∉ hostOps0_3_W)).trans <|
  (StableHlo.after_of_writes_sub hostOps0_2 _ hostOps0_2_writes (by decide : main_arg13 ∉ hostOps0_2_W)).trans <|
  (StableHlo.after_of_writes_sub hostOps0_1 _ hostOps0_1_writes (by decide : main_arg13 ∉ hostOps0_1_W)).trans <|
  (StableHlo.after_of_writes_sub hostOps0 _ hostOps0_writes (by decide : main_arg13 ∉ hostOps0_W)).trans <| rfl
theorem keep_main_arg12_0_4 (c : Dev nD) : W4 m c (Proc.devRef .tc main_arg12) = W0 m c (Proc.devRef .tc main_arg12) :=
  (StableHlo.after_of_writes_sub hostOps0_3 _ hostOps0_3_writes (by decide : main_arg12 ∉ hostOps0_3_W)).trans <|
  (StableHlo.after_of_writes_sub hostOps0_2 _ hostOps0_2_writes (by decide : main_arg12 ∉ hostOps0_2_W)).trans <|
  (StableHlo.after_of_writes_sub hostOps0_1 _ hostOps0_1_writes (by decide : main_arg12 ∉ hostOps0_1_W)).trans <|
  (StableHlo.after_of_writes_sub hostOps0 _ hostOps0_writes (by decide : main_arg12 ∉ hostOps0_W)).trans <| rfl
theorem keep_main_arg2_0_4 (c : Dev nD) : W4 m c (Proc.devRef .tc main_arg2) = W0 m c (Proc.devRef .tc main_arg2) :=
  (StableHlo.after_of_writes_sub hostOps0_3 _ hostOps0_3_writes (by decide : main_arg2 ∉ hostOps0_3_W)).trans <|
  (StableHlo.after_of_writes_sub hostOps0_2 _ hostOps0_2_writes (by decide : main_arg2 ∉ hostOps0_2_W)).trans <|
  (StableHlo.after_of_writes_sub hostOps0_1 _ hostOps0_1_writes (by decide : main_arg2 ∉ hostOps0_1_W)).trans <|
  (StableHlo.after_of_writes_sub hostOps0 _ hostOps0_writes (by decide : main_arg2 ∉ hostOps0_W)).trans <| rfl
theorem keep_main_arg3_0_4 (c : Dev nD) : W4 m c (Proc.devRef .tc main_arg3) = W0 m c (Proc.devRef .tc main_arg3) :=
  (StableHlo.after_of_writes_sub hostOps0_3 _ hostOps0_3_writes (by decide : main_arg3 ∉ hostOps0_3_W)).trans <|
  (StableHlo.after_of_writes_sub hostOps0_2 _ hostOps0_2_writes (by decide : main_arg3 ∉ hostOps0_2_W)).trans <|
  (StableHlo.after_of_writes_sub hostOps0_1 _ hostOps0_1_writes (by decide : main_arg3 ∉ hostOps0_1_W)).trans <|
  (StableHlo.after_of_writes_sub hostOps0 _ hostOps0_writes (by decide : main_arg3 ∉ hostOps0_W)).trans <| rfl
theorem keep_main_v27_6_7 (c : Dev nD) : W7 m c (Proc.devRef .tc main_v27) = W6 m c (Proc.devRef .tc main_v27) :=
  (StableHlo.after_of_writes_sub hostOps1 _ hostOps1_writes (by decide : main_v27 ∉ hostOps1_W)).trans <| rfl
theorem keep_main_v33_8_10 (c : Dev nD) : W10 m c (Proc.devRef .tc main_v33) = W8 m c (Proc.devRef .tc main_v33) :=
  (StableHlo.after_of_writes_sub hostOps3 _ hostOps3_writes (by decide : main_v33 ∉ hostOps3_W)).trans <|
  ((W9_arr m c 1).trans (((dat2 (Wv8 m) c).arrAt_in 1 rfl _).trans (A_eq2 (Wv8 m) c 1))).trans <| rfl
theorem keep_main_v34_9_10 (c : Dev nD) : W10 m c (Proc.devRef .tc main_v34) = W9 m c (Proc.devRef .tc main_v34) :=
  (StableHlo.after_of_writes_sub hostOps3 _ hostOps3_writes (by decide : main_v34 ∉ hostOps3_W)).trans <| rfl
theorem keep_main_v40_11_13 (c : Dev nD) : W13 m c (Proc.devRef .tc main_v40) = W11 m c (Proc.devRef .tc main_v40) :=
  (StableHlo.after_of_writes_sub hostOps5 _ hostOps5_writes (by decide : main_v40 ∉ hostOps5_W)).trans <|
  ((W12_arr m c 1).trans (((dat4 (Wv11 m) c).arrAt_in 1 rfl _).trans (A_eq4 (Wv11 m) c 1))).trans <| rfl
theorem keep_main_v41_12_13 (c : Dev nD) : W13 m c (Proc.devRef .tc main_v41) = W12 m c (Proc.devRef .tc main_v41) :=
  (StableHlo.after_of_writes_sub hostOps5 _ hostOps5_writes (by decide : main_v41 ∉ hostOps5_W)).trans <| rfl
theorem keep_main_v47_14_16 (c : Dev nD) : W16 m c (Proc.devRef .tc main_v47) = W14 m c (Proc.devRef .tc main_v47) :=
  (StableHlo.after_of_writes_sub hostOps7 _ hostOps7_writes (by decide : main_v47 ∉ hostOps7_W)).trans <|
  ((W15_arr m c 1).trans (((dat6 (Wv14 m) c).arrAt_in 1 rfl _).trans (A_eq6 (Wv14 m) c 1))).trans <| rfl
theorem keep_main_v48_15_16 (c : Dev nD) : W16 m c (Proc.devRef .tc main_v48) = W15 m c (Proc.devRef .tc main_v48) :=
  (StableHlo.after_of_writes_sub hostOps7 _ hostOps7_writes (by decide : main_v48 ∉ hostOps7_W)).trans <| rfl
theorem keep_main_v54_17_18 (c : Dev nD) : W18 m c (Proc.devRef .tc main_v54) = W17 m c (Proc.devRef .tc main_v54) :=
  ((W18_arr m c 2).trans (((dat8 (Wv17 m) c).arrAt_in 2 rfl _).trans (A_eq8 (Wv17 m) c 2))).trans <| rfl
theorem out_main_v27 (c : Dev nD) : W6 m c (Proc.devRef .tc main_v27) = (dat0 (Wv5 m) c).arrAt 3 cfg0.N := W6_arr m c 3
theorem out_main_v33 (c : Dev nD) : W8 m c (Proc.devRef .tc main_v33) = (dat1 (Wv7 m) c).arrAt 5 cfg1.N := W8_arr m c 5
theorem out_main_v34 (c : Dev nD) : W9 m c (Proc.devRef .tc main_v34) = (dat2 (Wv8 m) c).arrAt 3 cfg2.N := W9_arr m c 3
theorem out_main_v40 (c : Dev nD) : W11 m c (Proc.devRef .tc main_v40) = (dat3 (Wv10 m) c).arrAt 5 cfg3.N := W11_arr m c 5
theorem out_main_v41 (c : Dev nD) : W12 m c (Proc.devRef .tc main_v41) = (dat4 (Wv11 m) c).arrAt 3 cfg4.N := W12_arr m c 3
theorem out_main_v47 (c : Dev nD) : W14 m c (Proc.devRef .tc main_v47) = (dat5 (Wv13 m) c).arrAt 5 cfg5.N := W14_arr m c 5
theorem out_main_v48 (c : Dev nD) : W15 m c (Proc.devRef .tc main_v48) = (dat6 (Wv14 m) c).arrAt 3 cfg6.N := W15_arr m c 3
theorem out_main_v54 (c : Dev nD) : W17 m c (Proc.devRef .tc main_v54) = (dat7 (Wv16 m) c).arrAt 5 cfg7.N := W17_arr m c 5
theorem out_main_v55 (c : Dev nD) : W18 m c (Proc.devRef .tc main_v55) = (dat8 (Wv17 m) c).arrAt 4 cfg8.N := W18_arr m c 4

end Cert.KernelIdeal.Hand

end
-- ==== Proof.Ref.Ops.lean ====
/-
  The reference program's @main as a list of its host operations. Each call of an outlined function
  (leaky_relu, which itself calls _where; relu) is replaced by the callee's operations, in order, over the
  buffers of that call's record: unfolding the callee's definition at the call is the inlining. The list is
  cut where the network's layers end: two encoders, four message-passing layers, the final concatenation.
  @main is `main_part0` followed by `main_part1`; the first is the straight line of the first four
  segments, the second of the last three, and the program is the straight line of the whole list.
-/
import proofs.«181597_j77979426226450_2_alg».proof.Proof.Gen.ReferenceIdeal
import Idealize.ShloMosaic.Lib.StableHlo.Run
import Idealize.ShloMosaic.Lib.Pipeline.Frame

set_option Elab.async false

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- An operation that writes the one buffer `y`, a member of the list `W`, writes inside `W`. -/
theorem w_sub {W : List (Ref sig .tc)} {op : HloOp τ sig (Elt F)} {y : Ref sig .tc}
    (h : op.writes = {Proc.devRef .tc y}) (hy : y ∈ W) :
    op.writes ⊆ (W.map (Proc.devRef (τ := τ) .tc)).toFinset := by
  rw [h, Finset.singleton_subset_iff, List.mem_toFinset]; exact List.mem_map_of_mem hy

/-- The first encoder: the operations up to the `tanh` that writes `main_v11`. -/
abbrev segA : List (HloOp τ sig (Elt F)) :=
  [ unary main_arg4 main_v0 ((transpose S64x128 [1, 0] · transposes_S128x64_S64x128_1_0) : (⟨S128x64, .f32⟩ : BufTy).Contents (Elt F) → (⟨S64x128, .f32⟩ : BufTy).Contents (Elt F)),
    binary main_arg0 main_v0 main_v1 ((fun l r => Host.dotGeneral dot_S4096x64_S64x128_S4096x128_1_0_0_1_n_n none l r) : (⟨S4096x64, .f32⟩ : BufTy).Contents (Elt F) → (⟨S64x128, .f32⟩ : BufTy).Contents (Elt F) → (⟨S4096x128, .f32⟩ : BufTy).Contents (Elt F)),
    unary main_arg5 main_v2 (broadcastInDim S1x128 ![1] bcast_S128_S1x128_1 : (⟨S128, .f32⟩ : BufTy).Contents (Elt F) → (⟨S1x128, .f32⟩ : BufTy).Contents (Elt F)),
    unary main_v2 main_v3 (broadcastInDim S4096x128 ![0, 1] bcast_S1x128_S4096x128_0_1 : (⟨S1x128, .f32⟩ : BufTy).Contents (Elt F) → (⟨S4096x128, .f32⟩ : BufTy).Contents (Elt F)),
    binary main_v1 main_v3 main_v4 (addf : (⟨S4096x128, .f32⟩ : BufTy).Contents (Elt F) → (⟨S4096x128, .f32⟩ : BufTy).Contents (Elt F) → (⟨S4096x128, .f32⟩ : BufTy).Contents (Elt F)),
    nullary main_cst (constant S_ .f32 0x3C23D70A#32),
    TRef.nullary main_call0.cst (constant S_ .f32 0x00000000#32),
    TRef.unary main_call0.cst main_call0.v0 (broadcastInDim S4096x128 ![] bcast_S_S4096x128),
    TRef.binary (.of main_v4 : TRef sig ⟨S4096x128, .f32⟩) main_call0.v0 main_call0.v1 (cmpf .oge),
    TRef.unary (.of main_cst : TRef sig ⟨S_, .f32⟩) main_call0.v2 id,
    TRef.unary main_call0.v2 main_call0.v3 (broadcastInDim S4096x128 ![] bcast_S_S4096x128),
    TRef.binary main_call0.v3 (.of main_v4 : TRef sig ⟨S4096x128, .f32⟩) main_call0.v4 mulf,
    TRef.ternary main_call0.v1 (.of main_v4 : TRef sig ⟨S4096x128, .f32⟩) main_call0.v4 main_call0.call0.v0 select,
    unary main_arg6 main_v6 ((transpose S128x128 [1, 0] · transposes_S128x128_S128x128_1_0) : (⟨S128x128, .f32⟩ : BufTy).Contents (Elt F) → (⟨S128x128, .f32⟩ : BufTy).Contents (Elt F)),
    binary main_v5 main_v6 main_v7 ((fun l r => Host.dotGeneral dot_S4096x128_S128x128_S4096x128_1_0_0_1_n_n none l r) : (⟨S4096x128, .f32⟩ : BufTy).Contents (Elt F) → (⟨S128x128, .f32⟩ : BufTy).Contents (Elt F) → (⟨S4096x128, .f32⟩ : BufTy).Contents (Elt F)),
    unary main_arg7 main_v8 (broadcastInDim S1x128 ![1] bcast_S128_S1x128_1 : (⟨S128, .f32⟩ : BufTy).Contents (Elt F) → (⟨S1x128, .f32⟩ : BufTy).Contents (Elt F)),
    unary main_v8 main_v9 (broadcastInDim S4096x128 ![0, 1] bcast_S1x128_S4096x128_0_1 : (⟨S1x128, .f32⟩ : BufTy).Contents (Elt F) → (⟨S4096x128, .f32⟩ : BufTy).Contents (Elt F)),
    binary main_v7 main_v9 main_v10 (addf : (⟨S4096x128, .f32⟩ : BufTy).Contents (Elt F) → (⟨S4096x128, .f32⟩ : BufTy).Contents (Elt F) → (⟨S4096x128, .f32⟩ : BufTy).Contents (Elt F)),
    unary main_v10 main_v11 (Host.tanh : (⟨S4096x128, .f32⟩ : BufTy).Contents (Elt F) → (⟨S4096x128, .f32⟩ : BufTy).Contents (Elt F)) ]

theorem segA_sub : (segA : List (HloOp τ sig (Elt F))).Forall fun op => op.bufs ⊆ tcRefs τ sig :=
  ⟨unary_bufs_sub .., binary_bufs_sub .., unary_bufs_sub .., unary_bufs_sub .., binary_bufs_sub .., nullary_bufs_sub ..,
    nullary_bufs_sub .., unary_bufs_sub .., binary_bufs_sub .., unary_bufs_sub .., unary_bufs_sub .., binary_bufs_sub ..,
    ternary_bufs_sub .., unary_bufs_sub .., binary_bufs_sub .., unary_bufs_sub .., unary_bufs_sub .., binary_bufs_sub ..,
    unary_bufs_sub ..⟩

theorem segA_fresh : (segA : List (HloOp τ sig (Elt F))).Forall fun op => op.fresh = ∅ :=
  ⟨rfl, rfl, rfl, rfl, rfl, rfl, rfl, rfl, rfl, rfl, rfl, rfl, rfl, rfl, rfl, rfl, rfl, rfl, rfl⟩

/-- The buffers the operations of `segA` write, in order. -/
abbrev segA_W : List (Ref sig .tc) :=
  [main_v0, main_v1, main_v2, main_v3, main_v4, main_cst, main_call0_cst, main_call0_v0,
   main_call0_v1, main_call0_v2, main_call0_v3, main_call0_v4, main_v5, main_v6, main_v7, main_v8,
   main_v9, main_v10, main_v11]
theorem segA_writes : (segA : List (HloOp τ sig (Elt F))).Forall fun op => op.writes ⊆ ((segA_W).map (Proc.devRef (τ := τ) .tc)).toFinset :=
  ⟨w_sub (y := main_v0) rfl (by decide), w_sub (y := main_v1) rfl (by decide), w_sub (y := main_v2) rfl (by decide),
    w_sub (y := main_v3) rfl (by decide), w_sub (y := main_v4) rfl (by decide), w_sub (y := main_cst) rfl (by decide),
    w_sub (y := main_call0_cst) rfl (by decide), w_sub (y := main_call0_v0) rfl (by decide), w_sub (y := main_call0_v1) rfl (by decide),
    w_sub (y := main_call0_v2) rfl (by decide), w_sub (y := main_call0_v3) rfl (by decide), w_sub (y := main_call0_v4) rfl (by decide),
    w_sub (y := main_v5) rfl (by decide), w_sub (y := main_v6) rfl (by decide), w_sub (y := main_v7) rfl (by decide),
    w_sub (y := main_v8) rfl (by decide), w_sub (y := main_v9) rfl (by decide), w_sub (y := main_v10) rfl (by decide),
    w_sub (y := main_v11) rfl (by decide)⟩

/-- A buffer `segA` does not write keeps its contents through it. -/
theorem segA_keep (V : Valuation τ sig (Elt F)) (r : Ref sig .tc) (h : r ∉ segA_W) :
    after segA V (Proc.devRef .tc r) = V (Proc.devRef .tc r) :=
  after_of_writes_sub segA V segA_writes h

/-- The second encoder: the operations up to the `tanh` that writes `main_v23`. -/
abbrev segB : List (HloOp τ sig (Elt F)) :=
  [ unary main_arg8 main_v12 ((transpose S32x128 [1, 0] · transposes_S128x32_S32x128_1_0) : (⟨S128x32, .f32⟩ : BufTy).Contents (Elt F) → (⟨S32x128, .f32⟩ : BufTy).Contents (Elt F)),
    binary main_arg1 main_v12 main_v13 ((fun l r => Host.dotGeneral dot_S8192x32_S32x128_S8192x128_1_0_0_1_n_n none l r) : (⟨S8192x32, .f32⟩ : BufTy).Contents (Elt F) → (⟨S32x128, .f32⟩ : BufTy).Contents (Elt F) → (⟨S8192x128, .f32⟩ : BufTy).Contents (Elt F)),
    unary main_arg9 main_v14 (broadcastInDim S1x128 ![1] bcast_S128_S1x128_1 : (⟨S128, .f32⟩ : BufTy).Contents (Elt F) → (⟨S1x128, .f32⟩ : BufTy).Contents (Elt F)),
    unary main_v14 main_v15 (broadcastInDim S8192x128 ![0, 1] bcast_S1x128_S8192x128_0_1 : (⟨S1x128, .f32⟩ : BufTy).Contents (Elt F) → (⟨S8192x128, .f32⟩ : BufTy).Contents (Elt F)),
    binary main_v13 main_v15 main_v16 (addf : (⟨S8192x128, .f32⟩ : BufTy).Contents (Elt F) → (⟨S8192x128, .f32⟩ : BufTy).Contents (Elt F) → (⟨S8192x128, .f32⟩ : BufTy).Contents (Elt F)),
    nullary main_cst_0 (constant S_ .f32 0x3C23D70A#32),
    TRef.nullary main_call1.cst (constant S_ .f32 0x00000000#32),
    TRef.unary main_call1.cst main_call1.v0 (broadcastInDim S8192x128 ![] bcast_S_S8192x128),
    TRef.binary (.of main_v16 : TRef sig ⟨S8192x128, .f32⟩) main_call1.v0 main_call1.v1 (cmpf .oge),
    TRef.unary (.of main_cst_0 : TRef sig ⟨S_, .f32⟩) main_call1.v2 id,
    TRef.unary main_call1.v2 main_call1.v3 (broadcastInDim S8192x128 ![] bcast_S_S8192x128),
    TRef.binary main_call1.v3 (.of main_v16 : TRef sig ⟨S8192x128, .f32⟩) main_call1.v4 mulf,
    TRef.ternary main_call1.v1 (.of main_v16 : TRef sig ⟨S8192x128, .f32⟩) main_call1.v4 main_call1.call0.v0 select,
    unary main_arg10 main_v18 ((transpose S128x128 [1, 0] · transposes_S128x128_S128x128_1_0) : (⟨S128x128, .f32⟩ : BufTy).Contents (Elt F) → (⟨S128x128, .f32⟩ : BufTy).Contents (Elt F)),
    binary main_v17 main_v18 main_v19 ((fun l r => Host.dotGeneral dot_S8192x128_S128x128_S8192x128_1_0_0_1_n_n none l r) : (⟨S8192x128, .f32⟩ : BufTy).Contents (Elt F) → (⟨S128x128, .f32⟩ : BufTy).Contents (Elt F) → (⟨S8192x128, .f32⟩ : BufTy).Contents (Elt F)),
    unary main_arg11 main_v20 (broadcastInDim S1x128 ![1] bcast_S128_S1x128_1 : (⟨S128, .f32⟩ : BufTy).Contents (Elt F) → (⟨S1x128, .f32⟩ : BufTy).Contents (Elt F)),
    unary main_v20 main_v21 (broadcastInDim S8192x128 ![0, 1] bcast_S1x128_S8192x128_0_1 : (⟨S1x128, .f32⟩ : BufTy).Contents (Elt F) → (⟨S8192x128, .f32⟩ : BufTy).Contents (Elt F)),
    binary main_v19 main_v21 main_v22 (addf : (⟨S8192x128, .f32⟩ : BufTy).Contents (Elt F) → (⟨S8192x128, .f32⟩ : BufTy).Contents (Elt F) → (⟨S8192x128, .f32⟩ : BufTy).Contents (Elt F)),
    unary main_v22 main_v23 (Host.tanh : (⟨S8192x128, .f32⟩ : BufTy).Contents (Elt F) → (⟨S8192x128, .f32⟩ : BufTy).Contents (Elt F)) ]

theorem segB_sub : (segB : List (HloOp τ sig (Elt F))).Forall fun op => op.bufs ⊆ tcRefs τ sig :=
  ⟨unary_bufs_sub .., binary_bufs_sub .., unary_bufs_sub .., unary_bufs_sub .., binary_bufs_sub .., nullary_bufs_sub ..,
    nullary_bufs_sub .., unary_bufs_sub .., binary_bufs_sub .., unary_bufs_sub .., unary_bufs_sub .., binary_bufs_sub ..,
    ternary_bufs_sub .., unary_bufs_sub .., binary_bufs_sub .., unary_bufs_sub .., unary_bufs_sub .., binary_bufs_sub ..,
    unary_bufs_sub ..⟩

theorem segB_fresh : (segB : List (HloOp τ sig (Elt F))).Forall fun op => op.fresh = ∅ :=
  ⟨rfl, rfl, rfl, rfl, rfl, rfl, rfl, rfl, rfl, rfl, rfl, rfl, rfl, rfl, rfl, rfl, rfl, rfl, rfl⟩

/-- The buffers the operations of `segB` write, in order. -/
abbrev segB_W : List (Ref sig .tc) :=
  [main_v12, main_v13, main_v14, main_v15, main_v16, main_cst_0, main_call1_cst, main_call1_v0,
   main_call1_v1, main_call1_v2, main_call1_v3, main_call1_v4, main_v17, main_v18, main_v19, main_v20,
   main_v21, main_v22, main_v23]
theorem segB_writes : (segB : List (HloOp τ sig (Elt F))).Forall fun op => op.writes ⊆ ((segB_W).map (Proc.devRef (τ := τ) .tc)).toFinset :=
  ⟨w_sub (y := main_v12) rfl (by decide), w_sub (y := main_v13) rfl (by decide), w_sub (y := main_v14) rfl (by decide),
    w_sub (y := main_v15) rfl (by decide), w_sub (y := main_v16) rfl (by decide), w_sub (y := main_cst_0) rfl (by decide),
    w_sub (y := main_call1_cst) rfl (by decide), w_sub (y := main_call1_v0) rfl (by decide), w_sub (y := main_call1_v1) rfl (by decide),
    w_sub (y := main_call1_v2) rfl (by decide), w_sub (y := main_call1_v3) rfl (by decide), w_sub (y := main_call1_v4) rfl (by decide),
    w_sub (y := main_v17) rfl (by decide), w_sub (y := main_v18) rfl (by decide), w_sub (y := main_v19) rfl (by decide),
    w_sub (y := main_v20) rfl (by decide), w_sub (y := main_v21) rfl (by decide), w_sub (y := main_v22) rfl (by decide),
    w_sub (y := main_v23) rfl (by decide)⟩

/-- A buffer `segB` does not write keeps its contents through it. -/
theorem segB_keep (V : Valuation τ sig (Elt F)) (r : Ref sig .tc) (h : r ∉ segB_W) :
    after segB V (Proc.devRef .tc r) = V (Proc.devRef .tc r) :=
  after_of_writes_sub segB V segB_writes h

/-- Message-passing layer 0: from `main_v11` and `main_v23` to `main_v39`. -/
abbrev segL0 : List (HloOp τ sig (Elt F)) :=
  [ unary main_arg3 main_v24 ((transpose S8192x4096 [1, 0] · transposes_S4096x8192_S8192x4096_1_0) : (⟨S4096x8192, .f32⟩ : BufTy).Contents (Elt F) → (⟨S8192x4096, .f32⟩ : BufTy).Contents (Elt F)),
    binary main_v24 main_v11 main_v25 ((fun l r => Host.dotGeneral dot_S8192x4096_S4096x128_S8192x128_1_0_0_1_n_n none l r) : (⟨S8192x4096, .f32⟩ : BufTy).Contents (Elt F) → (⟨S4096x128, .f32⟩ : BufTy).Contents (Elt F) → (⟨S8192x128, .f32⟩ : BufTy).Contents (Elt F)),
    binary main_v23 main_v25 main_v26 (addf : (⟨S8192x128, .f32⟩ : BufTy).Contents (Elt F) → (⟨S8192x128, .f32⟩ : BufTy).Contents (Elt F) → (⟨S8192x128, .f32⟩ : BufTy).Contents (Elt F)),
    TRef.nullary main_call2.cst (constant S_ .f32 0x00000000#32),
    TRef.unary main_call2.cst main_call2.v0 (broadcastInDim S8192x128 ![] bcast_S_S8192x128),
    TRef.binary (.of main_v26 : TRef sig ⟨S8192x128, .f32⟩) main_call2.v0 main_call2.v1 maximumf,
    binary main_arg2 main_v27 main_v28 ((fun l r => Host.dotGeneral dot_S4096x8192_S8192x128_S4096x128_1_0_0_1_n_n none l r) : (⟨S4096x8192, .f32⟩ : BufTy).Contents (Elt F) → (⟨S8192x128, .f32⟩ : BufTy).Contents (Elt F) → (⟨S4096x128, .f32⟩ : BufTy).Contents (Elt F)),
    binary main_v11 main_v28 main_v29 (addf : (⟨S4096x128, .f32⟩ : BufTy).Contents (Elt F) → (⟨S4096x128, .f32⟩ : BufTy).Contents (Elt F) → (⟨S4096x128, .f32⟩ : BufTy).Contents (Elt F)),
    unary main_arg12 main_v30 ((extractStridedSlice S1x128x128 ![0, 0, 0] · slices_S4x128x128_S1x128x128_0_0_0) : (⟨S4x128x128, .f32⟩ : BufTy).Contents (Elt F) → (⟨S1x128x128, .f32⟩ : BufTy).Contents (Elt F)),
    reshape main_v30 main_v31 rfl shapeCasts_S1x128x128_S128x128,
    unary main_v31 main_v32 ((transpose S128x128 [1, 0] · transposes_S128x128_S128x128_1_0) : (⟨S128x128, .f32⟩ : BufTy).Contents (Elt F) → (⟨S128x128, .f32⟩ : BufTy).Contents (Elt F)),
    binary main_v29 main_v32 main_v33 ((fun l r => Host.dotGeneral dot_S4096x128_S128x128_S4096x128_1_0_0_1_n_n none l r) : (⟨S4096x128, .f32⟩ : BufTy).Contents (Elt F) → (⟨S128x128, .f32⟩ : BufTy).Contents (Elt F) → (⟨S4096x128, .f32⟩ : BufTy).Contents (Elt F)),
    unary main_arg13 main_v34 ((extractStridedSlice S1x128 ![0, 0] · slices_S4x128_S1x128_0_0) : (⟨S4x128, .f32⟩ : BufTy).Contents (Elt F) → (⟨S1x128, .f32⟩ : BufTy).Contents (Elt F)),
    reshape main_v34 main_v35 rfl shapeCasts_S1x128_S128,
    unary main_v35 main_v36 (broadcastInDim S1x128 ![1] bcast_S128_S1x128_1 : (⟨S128, .f32⟩ : BufTy).Contents (Elt F) → (⟨S1x128, .f32⟩ : BufTy).Contents (Elt F)),
    unary main_v36 main_v37 (broadcastInDim S4096x128 ![0, 1] bcast_S1x128_S4096x128_0_1 : (⟨S1x128, .f32⟩ : BufTy).Contents (Elt F) → (⟨S4096x128, .f32⟩ : BufTy).Contents (Elt F)),
    binary main_v33 main_v37 main_v38 (addf : (⟨S4096x128, .f32⟩ : BufTy).Contents (Elt F) → (⟨S4096x128, .f32⟩ : BufTy).Contents (Elt F) → (⟨S4096x128, .f32⟩ : BufTy).Contents (Elt F)),
    nullary main_cst_1 (constant S_ .f32 0x3C23D70A#32),
    TRef.nullary main_call3.cst (constant S_ .f32 0x00000000#32),
    TRef.unary main_call3.cst main_call3.v0 (broadcastInDim S4096x128 ![] bcast_S_S4096x128),
    TRef.binary (.of main_v38 : TRef sig ⟨S4096x128, .f32⟩) main_call3.v0 main_call3.v1 (cmpf .oge),
    TRef.unary (.of main_cst_1 : TRef sig ⟨S_, .f32⟩) main_call3.v2 id,
    TRef.unary main_call3.v2 main_call3.v3 (broadcastInDim S4096x128 ![] bcast_S_S4096x128),
    TRef.binary main_call3.v3 (.of main_v38 : TRef sig ⟨S4096x128, .f32⟩) main_call3.v4 mulf,
    TRef.ternary main_call3.v1 (.of main_v38 : TRef sig ⟨S4096x128, .f32⟩) main_call3.v4 main_call3.call0.v0 select ]

theorem segL0_sub : (segL0 : List (HloOp τ sig (Elt F))).Forall fun op => op.bufs ⊆ tcRefs τ sig :=
  ⟨unary_bufs_sub .., binary_bufs_sub .., binary_bufs_sub .., nullary_bufs_sub .., unary_bufs_sub .., binary_bufs_sub ..,
    binary_bufs_sub .., binary_bufs_sub .., unary_bufs_sub .., reshape_bufs_sub .., unary_bufs_sub .., binary_bufs_sub ..,
    unary_bufs_sub .., reshape_bufs_sub .., unary_bufs_sub .., unary_bufs_sub .., binary_bufs_sub .., nullary_bufs_sub ..,
    nullary_bufs_sub .., unary_bufs_sub .., binary_bufs_sub .., unary_bufs_sub .., unary_bufs_sub .., binary_bufs_sub ..,
    ternary_bufs_sub ..⟩

theorem segL0_fresh : (segL0 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl⟩

/-- The buffers the operations of `segL0` write, in order. -/
abbrev segL0_W : List (Ref sig .tc) :=
  [main_v24, main_v25, main_v26, main_call2_cst, main_call2_v0, main_v27, main_v28, main_v29,
   main_v30, main_v31, main_v32, main_v33, main_v34, main_v35, main_v36, main_v37,
   main_v38, main_cst_1, main_call3_cst, main_call3_v0, main_call3_v1, main_call3_v2, main_call3_v3, main_call3_v4,
   main_v39]
theorem segL0_writes : (segL0 : List (HloOp τ sig (Elt F))).Forall fun op => op.writes ⊆ ((segL0_W).map (Proc.devRef (τ := τ) .tc)).toFinset :=
  ⟨w_sub (y := main_v24) rfl (by decide), w_sub (y := main_v25) rfl (by decide), w_sub (y := main_v26) rfl (by decide),
    w_sub (y := main_call2_cst) rfl (by decide), w_sub (y := main_call2_v0) rfl (by decide), w_sub (y := main_v27) rfl (by decide),
    w_sub (y := main_v28) rfl (by decide), w_sub (y := main_v29) rfl (by decide), w_sub (y := main_v30) rfl (by decide),
    w_sub (y := main_v31) rfl (by decide), w_sub (y := main_v32) rfl (by decide), w_sub (y := main_v33) rfl (by decide),
    w_sub (y := main_v34) rfl (by decide), w_sub (y := main_v35) rfl (by decide), w_sub (y := main_v36) rfl (by decide),
    w_sub (y := main_v37) rfl (by decide), w_sub (y := main_v38) rfl (by decide), w_sub (y := main_cst_1) rfl (by decide),
    w_sub (y := main_call3_cst) rfl (by decide), w_sub (y := main_call3_v0) rfl (by decide), w_sub (y := main_call3_v1) rfl (by decide),
    w_sub (y := main_call3_v2) rfl (by decide), w_sub (y := main_call3_v3) rfl (by decide), w_sub (y := main_call3_v4) rfl (by decide),
    w_sub (y := main_v39) rfl (by decide)⟩

/-- A buffer `segL0` does not write keeps its contents through it. -/
theorem segL0_keep (V : Valuation τ sig (Elt F)) (r : Ref sig .tc) (h : r ∉ segL0_W) :
    after segL0 V (Proc.devRef .tc r) = V (Proc.devRef .tc r) :=
  after_of_writes_sub segL0 V segL0_writes h

/-- Message-passing layer 1: from `main_v39` and `main_v23` to `main_v55`. -/
abbrev segL1 : List (HloOp τ sig (Elt F)) :=
  [ unary main_arg3 main_v40 ((transpose S8192x4096 [1, 0] · transposes_S4096x8192_S8192x4096_1_0) : (⟨S4096x8192, .f32⟩ : BufTy).Contents (Elt F) → (⟨S8192x4096, .f32⟩ : BufTy).Contents (Elt F)),
    binary main_v40 main_v39 main_v41 ((fun l r => Host.dotGeneral dot_S8192x4096_S4096x128_S8192x128_1_0_0_1_n_n none l r) : (⟨S8192x4096, .f32⟩ : BufTy).Contents (Elt F) → (⟨S4096x128, .f32⟩ : BufTy).Contents (Elt F) → (⟨S8192x128, .f32⟩ : BufTy).Contents (Elt F)),
    binary main_v23 main_v41 main_v42 (addf : (⟨S8192x128, .f32⟩ : BufTy).Contents (Elt F) → (⟨S8192x128, .f32⟩ : BufTy).Contents (Elt F) → (⟨S8192x128, .f32⟩ : BufTy).Contents (Elt F)),
    TRef.nullary main_call4.cst (constant S_ .f32 0x00000000#32),
    TRef.unary main_call4.cst main_call4.v0 (broadcastInDim S8192x128 ![] bcast_S_S8192x128),
    TRef.binary (.of main_v42 : TRef sig ⟨S8192x128, .f32⟩) main_call4.v0 main_call4.v1 maximumf,
    binary main_arg2 main_v43 main_v44 ((fun l r => Host.dotGeneral dot_S4096x8192_S8192x128_S4096x128_1_0_0_1_n_n none l r) : (⟨S4096x8192, .f32⟩ : BufTy).Contents (Elt F) → (⟨S8192x128, .f32⟩ : BufTy).Contents (Elt F) → (⟨S4096x128, .f32⟩ : BufTy).Contents (Elt F)),
    binary main_v39 main_v44 main_v45 (addf : (⟨S4096x128, .f32⟩ : BufTy).Contents (Elt F) → (⟨S4096x128, .f32⟩ : BufTy).Contents (Elt F) → (⟨S4096x128, .f32⟩ : BufTy).Contents (Elt F)),
    unary main_arg12 main_v46 ((extractStridedSlice S1x128x128 ![1, 0, 0] · slices_S4x128x128_S1x128x128_1_0_0) : (⟨S4x128x128, .f32⟩ : BufTy).Contents (Elt F) → (⟨S1x128x128, .f32⟩ : BufTy).Contents (Elt F)),
    reshape main_v46 main_v47 rfl shapeCasts_S1x128x128_S128x128,
    unary main_v47 main_v48 ((transpose S128x128 [1, 0] · transposes_S128x128_S128x128_1_0) : (⟨S128x128, .f32⟩ : BufTy).Contents (Elt F) → (⟨S128x128, .f32⟩ : BufTy).Contents (Elt F)),
    binary main_v45 main_v48 main_v49 ((fun l r => Host.dotGeneral dot_S4096x128_S128x128_S4096x128_1_0_0_1_n_n none l r) : (⟨S4096x128, .f32⟩ : BufTy).Contents (Elt F) → (⟨S128x128, .f32⟩ : BufTy).Contents (Elt F) → (⟨S4096x128, .f32⟩ : BufTy).Contents (Elt F)),
    unary main_arg13 main_v50 ((extractStridedSlice S1x128 ![1, 0] · slices_S4x128_S1x128_1_0) : (⟨S4x128, .f32⟩ : BufTy).Contents (Elt F) → (⟨S1x128, .f32⟩ : BufTy).Contents (Elt F)),
    reshape main_v50 main_v51 rfl shapeCasts_S1x128_S128,
    unary main_v51 main_v52 (broadcastInDim S1x128 ![1] bcast_S128_S1x128_1 : (⟨S128, .f32⟩ : BufTy).Contents (Elt F) → (⟨S1x128, .f32⟩ : BufTy).Contents (Elt F)),
    unary main_v52 main_v53 (broadcastInDim S4096x128 ![0, 1] bcast_S1x128_S4096x128_0_1 : (⟨S1x128, .f32⟩ : BufTy).Contents (Elt F) → (⟨S4096x128, .f32⟩ : BufTy).Contents (Elt F)),
    binary main_v49 main_v53 main_v54 (addf : (⟨S4096x128, .f32⟩ : BufTy).Contents (Elt F) → (⟨S4096x128, .f32⟩ : BufTy).Contents (Elt F) → (⟨S4096x128, .f32⟩ : BufTy).Contents (Elt F)),
    nullary main_cst_2 (constant S_ .f32 0x3C23D70A#32),
    TRef.nullary main_call5.cst (constant S_ .f32 0x00000000#32),
    TRef.unary main_call5.cst main_call5.v0 (broadcastInDim S4096x128 ![] bcast_S_S4096x128),
    TRef.binary (.of main_v54 : TRef sig ⟨S4096x128, .f32⟩) main_call5.v0 main_call5.v1 (cmpf .oge),
    TRef.unary (.of main_cst_2 : TRef sig ⟨S_, .f32⟩) main_call5.v2 id,
    TRef.unary main_call5.v2 main_call5.v3 (broadcastInDim S4096x128 ![] bcast_S_S4096x128),
    TRef.binary main_call5.v3 (.of main_v54 : TRef sig ⟨S4096x128, .f32⟩) main_call5.v4 mulf,
    TRef.ternary main_call5.v1 (.of main_v54 : TRef sig ⟨S4096x128, .f32⟩) main_call5.v4 main_call5.call0.v0 select ]

theorem segL1_sub : (segL1 : List (HloOp τ sig (Elt F))).Forall fun op => op.bufs ⊆ tcRefs τ sig :=
  ⟨unary_bufs_sub .., binary_bufs_sub .., binary_bufs_sub .., nullary_bufs_sub .., unary_bufs_sub .., binary_bufs_sub ..,
    binary_bufs_sub .., binary_bufs_sub .., unary_bufs_sub .., reshape_bufs_sub .., unary_bufs_sub .., binary_bufs_sub ..,
    unary_bufs_sub .., reshape_bufs_sub .., unary_bufs_sub .., unary_bufs_sub .., binary_bufs_sub .., nullary_bufs_sub ..,
    nullary_bufs_sub .., unary_bufs_sub .., binary_bufs_sub .., unary_bufs_sub .., unary_bufs_sub .., binary_bufs_sub ..,
    ternary_bufs_sub ..⟩

theorem segL1_fresh : (segL1 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl⟩

/-- The buffers the operations of `segL1` write, in order. -/
abbrev segL1_W : List (Ref sig .tc) :=
  [main_v40, main_v41, main_v42, main_call4_cst, main_call4_v0, main_v43, main_v44, main_v45,
   main_v46, main_v47, main_v48, main_v49, main_v50, main_v51, main_v52, main_v53,
   main_v54, main_cst_2, main_call5_cst, main_call5_v0, main_call5_v1, main_call5_v2, main_call5_v3, main_call5_v4,
   main_v55]
theorem segL1_writes : (segL1 : List (HloOp τ sig (Elt F))).Forall fun op => op.writes ⊆ ((segL1_W).map (Proc.devRef (τ := τ) .tc)).toFinset :=
  ⟨w_sub (y := main_v40) rfl (by decide), w_sub (y := main_v41) rfl (by decide), w_sub (y := main_v42) rfl (by decide),
    w_sub (y := main_call4_cst) rfl (by decide), w_sub (y := main_call4_v0) rfl (by decide), w_sub (y := main_v43) rfl (by decide),
    w_sub (y := main_v44) rfl (by decide), w_sub (y := main_v45) rfl (by decide), w_sub (y := main_v46) rfl (by decide),
    w_sub (y := main_v47) rfl (by decide), w_sub (y := main_v48) rfl (by decide), w_sub (y := main_v49) rfl (by decide),
    w_sub (y := main_v50) rfl (by decide), w_sub (y := main_v51) rfl (by decide), w_sub (y := main_v52) rfl (by decide),
    w_sub (y := main_v53) rfl (by decide), w_sub (y := main_v54) rfl (by decide), w_sub (y := main_cst_2) rfl (by decide),
    w_sub (y := main_call5_cst) rfl (by decide), w_sub (y := main_call5_v0) rfl (by decide), w_sub (y := main_call5_v1) rfl (by decide),
    w_sub (y := main_call5_v2) rfl (by decide), w_sub (y := main_call5_v3) rfl (by decide), w_sub (y := main_call5_v4) rfl (by decide),
    w_sub (y := main_v55) rfl (by decide)⟩

/-- A buffer `segL1` does not write keeps its contents through it. -/
theorem segL1_keep (V : Valuation τ sig (Elt F)) (r : Ref sig .tc) (h : r ∉ segL1_W) :
    after segL1 V (Proc.devRef .tc r) = V (Proc.devRef .tc r) :=
  after_of_writes_sub segL1 V segL1_writes h

/-- Message-passing layer 2: from `main_v55` and `main_v23` to `main_v71`. -/
abbrev segL2 : List (HloOp τ sig (Elt F)) :=
  [ unary main_arg3 main_v56 ((transpose S8192x4096 [1, 0] · transposes_S4096x8192_S8192x4096_1_0) : (⟨S4096x8192, .f32⟩ : BufTy).Contents (Elt F) → (⟨S8192x4096, .f32⟩ : BufTy).Contents (Elt F)),
    binary main_v56 main_v55 main_v57 ((fun l r => Host.dotGeneral dot_S8192x4096_S4096x128_S8192x128_1_0_0_1_n_n none l r) : (⟨S8192x4096, .f32⟩ : BufTy).Contents (Elt F) → (⟨S4096x128, .f32⟩ : BufTy).Contents (Elt F) → (⟨S8192x128, .f32⟩ : BufTy).Contents (Elt F)),
    binary main_v23 main_v57 main_v58 (addf : (⟨S8192x128, .f32⟩ : BufTy).Contents (Elt F) → (⟨S8192x128, .f32⟩ : BufTy).Contents (Elt F) → (⟨S8192x128, .f32⟩ : BufTy).Contents (Elt F)),
    TRef.nullary main_call6.cst (constant S_ .f32 0x00000000#32),
    TRef.unary main_call6.cst main_call6.v0 (broadcastInDim S8192x128 ![] bcast_S_S8192x128),
    TRef.binary (.of main_v58 : TRef sig ⟨S8192x128, .f32⟩) main_call6.v0 main_call6.v1 maximumf,
    binary main_arg2 main_v59 main_v60 ((fun l r => Host.dotGeneral dot_S4096x8192_S8192x128_S4096x128_1_0_0_1_n_n none l r) : (⟨S4096x8192, .f32⟩ : BufTy).Contents (Elt F) → (⟨S8192x128, .f32⟩ : BufTy).Contents (Elt F) → (⟨S4096x128, .f32⟩ : BufTy).Contents (Elt F)),
    binary main_v55 main_v60 main_v61 (addf : (⟨S4096x128, .f32⟩ : BufTy).Contents (Elt F) → (⟨S4096x128, .f32⟩ : BufTy).Contents (Elt F) → (⟨S4096x128, .f32⟩ : BufTy).Contents (Elt F)),
    unary main_arg12 main_v62 ((extractStridedSlice S1x128x128 ![2, 0, 0] · slices_S4x128x128_S1x128x128_2_0_0) : (⟨S4x128x128, .f32⟩ : BufTy).Contents (Elt F) → (⟨S1x128x128, .f32⟩ : BufTy).Contents (Elt F)),
    reshape main_v62 main_v63 rfl shapeCasts_S1x128x128_S128x128,
    unary main_v63 main_v64 ((transpose S128x128 [1, 0] · transposes_S128x128_S128x128_1_0) : (⟨S128x128, .f32⟩ : BufTy).Contents (Elt F) → (⟨S128x128, .f32⟩ : BufTy).Contents (Elt F)),
    binary main_v61 main_v64 main_v65 ((fun l r => Host.dotGeneral dot_S4096x128_S128x128_S4096x128_1_0_0_1_n_n none l r) : (⟨S4096x128, .f32⟩ : BufTy).Contents (Elt F) → (⟨S128x128, .f32⟩ : BufTy).Contents (Elt F) → (⟨S4096x128, .f32⟩ : BufTy).Contents (Elt F)),
    unary main_arg13 main_v66 ((extractStridedSlice S1x128 ![2, 0] · slices_S4x128_S1x128_2_0) : (⟨S4x128, .f32⟩ : BufTy).Contents (Elt F) → (⟨S1x128, .f32⟩ : BufTy).Contents (Elt F)),
    reshape main_v66 main_v67 rfl shapeCasts_S1x128_S128,
    unary main_v67 main_v68 (broadcastInDim S1x128 ![1] bcast_S128_S1x128_1 : (⟨S128, .f32⟩ : BufTy).Contents (Elt F) → (⟨S1x128, .f32⟩ : BufTy).Contents (Elt F)),
    unary main_v68 main_v69 (broadcastInDim S4096x128 ![0, 1] bcast_S1x128_S4096x128_0_1 : (⟨S1x128, .f32⟩ : BufTy).Contents (Elt F) → (⟨S4096x128, .f32⟩ : BufTy).Contents (Elt F)),
    binary main_v65 main_v69 main_v70 (addf : (⟨S4096x128, .f32⟩ : BufTy).Contents (Elt F) → (⟨S4096x128, .f32⟩ : BufTy).Contents (Elt F) → (⟨S4096x128, .f32⟩ : BufTy).Contents (Elt F)),
    nullary main_cst_3 (constant S_ .f32 0x3C23D70A#32),
    TRef.nullary main_call7.cst (constant S_ .f32 0x00000000#32),
    TRef.unary main_call7.cst main_call7.v0 (broadcastInDim S4096x128 ![] bcast_S_S4096x128),
    TRef.binary (.of main_v70 : TRef sig ⟨S4096x128, .f32⟩) main_call7.v0 main_call7.v1 (cmpf .oge),
    TRef.unary (.of main_cst_3 : TRef sig ⟨S_, .f32⟩) main_call7.v2 id,
    TRef.unary main_call7.v2 main_call7.v3 (broadcastInDim S4096x128 ![] bcast_S_S4096x128),
    TRef.binary main_call7.v3 (.of main_v70 : TRef sig ⟨S4096x128, .f32⟩) main_call7.v4 mulf,
    TRef.ternary main_call7.v1 (.of main_v70 : TRef sig ⟨S4096x128, .f32⟩) main_call7.v4 main_call7.call0.v0 select ]

theorem segL2_sub : (segL2 : List (HloOp τ sig (Elt F))).Forall fun op => op.bufs ⊆ tcRefs τ sig :=
  ⟨unary_bufs_sub .., binary_bufs_sub .., binary_bufs_sub .., nullary_bufs_sub .., unary_bufs_sub .., binary_bufs_sub ..,
    binary_bufs_sub .., binary_bufs_sub .., unary_bufs_sub .., reshape_bufs_sub .., unary_bufs_sub .., binary_bufs_sub ..,
    unary_bufs_sub .., reshape_bufs_sub .., unary_bufs_sub .., unary_bufs_sub .., binary_bufs_sub .., nullary_bufs_sub ..,
    nullary_bufs_sub .., unary_bufs_sub .., binary_bufs_sub .., unary_bufs_sub .., unary_bufs_sub .., binary_bufs_sub ..,
    ternary_bufs_sub ..⟩

theorem segL2_fresh : (segL2 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl⟩

/-- The buffers the operations of `segL2` write, in order. -/
abbrev segL2_W : List (Ref sig .tc) :=
  [main_v56, main_v57, main_v58, main_call6_cst, main_call6_v0, main_v59, main_v60, main_v61,
   main_v62, main_v63, main_v64, main_v65, main_v66, main_v67, main_v68, main_v69,
   main_v70, main_cst_3, main_call7_cst, main_call7_v0, main_call7_v1, main_call7_v2, main_call7_v3, main_call7_v4,
   main_v71]
theorem segL2_writes : (segL2 : List (HloOp τ sig (Elt F))).Forall fun op => op.writes ⊆ ((segL2_W).map (Proc.devRef (τ := τ) .tc)).toFinset :=
  ⟨w_sub (y := main_v56) rfl (by decide), w_sub (y := main_v57) rfl (by decide), w_sub (y := main_v58) rfl (by decide),
    w_sub (y := main_call6_cst) rfl (by decide), w_sub (y := main_call6_v0) rfl (by decide), w_sub (y := main_v59) rfl (by decide),
    w_sub (y := main_v60) rfl (by decide), w_sub (y := main_v61) rfl (by decide), w_sub (y := main_v62) rfl (by decide),
    w_sub (y := main_v63) rfl (by decide), w_sub (y := main_v64) rfl (by decide), w_sub (y := main_v65) rfl (by decide),
    w_sub (y := main_v66) rfl (by decide), w_sub (y := main_v67) rfl (by decide), w_sub (y := main_v68) rfl (by decide),
    w_sub (y := main_v69) rfl (by decide), w_sub (y := main_v70) rfl (by decide), w_sub (y := main_cst_3) rfl (by decide),
    w_sub (y := main_call7_cst) rfl (by decide), w_sub (y := main_call7_v0) rfl (by decide), w_sub (y := main_call7_v1) rfl (by decide),
    w_sub (y := main_call7_v2) rfl (by decide), w_sub (y := main_call7_v3) rfl (by decide), w_sub (y := main_call7_v4) rfl (by decide),
    w_sub (y := main_v71) rfl (by decide)⟩

/-- A buffer `segL2` does not write keeps its contents through it. -/
theorem segL2_keep (V : Valuation τ sig (Elt F)) (r : Ref sig .tc) (h : r ∉ segL2_W) :
    after segL2 V (Proc.devRef .tc r) = V (Proc.devRef .tc r) :=
  after_of_writes_sub segL2 V segL2_writes h

/-- Message-passing layer 3: from `main_v71` and `main_v23` to `main_v87`. -/
abbrev segL3 : List (HloOp τ sig (Elt F)) :=
  [ unary main_arg3 main_v72 ((transpose S8192x4096 [1, 0] · transposes_S4096x8192_S8192x4096_1_0) : (⟨S4096x8192, .f32⟩ : BufTy).Contents (Elt F) → (⟨S8192x4096, .f32⟩ : BufTy).Contents (Elt F)),
    binary main_v72 main_v71 main_v73 ((fun l r => Host.dotGeneral dot_S8192x4096_S4096x128_S8192x128_1_0_0_1_n_n none l r) : (⟨S8192x4096, .f32⟩ : BufTy).Contents (Elt F) → (⟨S4096x128, .f32⟩ : BufTy).Contents (Elt F) → (⟨S8192x128, .f32⟩ : BufTy).Contents (Elt F)),
    binary main_v23 main_v73 main_v74 (addf : (⟨S8192x128, .f32⟩ : BufTy).Contents (Elt F) → (⟨S8192x128, .f32⟩ : BufTy).Contents (Elt F) → (⟨S8192x128, .f32⟩ : BufTy).Contents (Elt F)),
    TRef.nullary main_call8.cst (constant S_ .f32 0x00000000#32),
    TRef.unary main_call8.cst main_call8.v0 (broadcastInDim S8192x128 ![] bcast_S_S8192x128),
    TRef.binary (.of main_v74 : TRef sig ⟨S8192x128, .f32⟩) main_call8.v0 main_call8.v1 maximumf,
    binary main_arg2 main_v75 main_v76 ((fun l r => Host.dotGeneral dot_S4096x8192_S8192x128_S4096x128_1_0_0_1_n_n none l r) : (⟨S4096x8192, .f32⟩ : BufTy).Contents (Elt F) → (⟨S8192x128, .f32⟩ : BufTy).Contents (Elt F) → (⟨S4096x128, .f32⟩ : BufTy).Contents (Elt F)),
    binary main_v71 main_v76 main_v77 (addf : (⟨S4096x128, .f32⟩ : BufTy).Contents (Elt F) → (⟨S4096x128, .f32⟩ : BufTy).Contents (Elt F) → (⟨S4096x128, .f32⟩ : BufTy).Contents (Elt F)),
    unary main_arg12 main_v78 ((extractStridedSlice S1x128x128 ![3, 0, 0] · slices_S4x128x128_S1x128x128_3_0_0) : (⟨S4x128x128, .f32⟩ : BufTy).Contents (Elt F) → (⟨S1x128x128, .f32⟩ : BufTy).Contents (Elt F)),
    reshape main_v78 main_v79 rfl shapeCasts_S1x128x128_S128x128,
    unary main_v79 main_v80 ((transpose S128x128 [1, 0] · transposes_S128x128_S128x128_1_0) : (⟨S128x128, .f32⟩ : BufTy).Contents (Elt F) → (⟨S128x128, .f32⟩ : BufTy).Contents (Elt F)),
    binary main_v77 main_v80 main_v81 ((fun l r => Host.dotGeneral dot_S4096x128_S128x128_S4096x128_1_0_0_1_n_n none l r) : (⟨S4096x128, .f32⟩ : BufTy).Contents (Elt F) → (⟨S128x128, .f32⟩ : BufTy).Contents (Elt F) → (⟨S4096x128, .f32⟩ : BufTy).Contents (Elt F)),
    unary main_arg13 main_v82 ((extractStridedSlice S1x128 ![3, 0] · slices_S4x128_S1x128_3_0) : (⟨S4x128, .f32⟩ : BufTy).Contents (Elt F) → (⟨S1x128, .f32⟩ : BufTy).Contents (Elt F)),
    reshape main_v82 main_v83 rfl shapeCasts_S1x128_S128,
    unary main_v83 main_v84 (broadcastInDim S1x128 ![1] bcast_S128_S1x128_1 : (⟨S128, .f32⟩ : BufTy).Contents (Elt F) → (⟨S1x128, .f32⟩ : BufTy).Contents (Elt F)),
    unary main_v84 main_v85 (broadcastInDim S4096x128 ![0, 1] bcast_S1x128_S4096x128_0_1 : (⟨S1x128, .f32⟩ : BufTy).Contents (Elt F) → (⟨S4096x128, .f32⟩ : BufTy).Contents (Elt F)),
    binary main_v81 main_v85 main_v86 (addf : (⟨S4096x128, .f32⟩ : BufTy).Contents (Elt F) → (⟨S4096x128, .f32⟩ : BufTy).Contents (Elt F) → (⟨S4096x128, .f32⟩ : BufTy).Contents (Elt F)),
    nullary main_cst_4 (constant S_ .f32 0x3C23D70A#32),
    TRef.nullary main_call9.cst (constant S_ .f32 0x00000000#32),
    TRef.unary main_call9.cst main_call9.v0 (broadcastInDim S4096x128 ![] bcast_S_S4096x128),
    TRef.binary (.of main_v86 : TRef sig ⟨S4096x128, .f32⟩) main_call9.v0 main_call9.v1 (cmpf .oge),
    TRef.unary (.of main_cst_4 : TRef sig ⟨S_, .f32⟩) main_call9.v2 id,
    TRef.unary main_call9.v2 main_call9.v3 (broadcastInDim S4096x128 ![] bcast_S_S4096x128),
    TRef.binary main_call9.v3 (.of main_v86 : TRef sig ⟨S4096x128, .f32⟩) main_call9.v4 mulf,
    TRef.ternary main_call9.v1 (.of main_v86 : TRef sig ⟨S4096x128, .f32⟩) main_call9.v4 main_call9.call0.v0 select ]

theorem segL3_sub : (segL3 : List (HloOp τ sig (Elt F))).Forall fun op => op.bufs ⊆ tcRefs τ sig :=
  ⟨unary_bufs_sub .., binary_bufs_sub .., binary_bufs_sub .., nullary_bufs_sub .., unary_bufs_sub .., binary_bufs_sub ..,
    binary_bufs_sub .., binary_bufs_sub .., unary_bufs_sub .., reshape_bufs_sub .., unary_bufs_sub .., binary_bufs_sub ..,
    unary_bufs_sub .., reshape_bufs_sub .., unary_bufs_sub .., unary_bufs_sub .., binary_bufs_sub .., nullary_bufs_sub ..,
    nullary_bufs_sub .., unary_bufs_sub .., binary_bufs_sub .., unary_bufs_sub .., unary_bufs_sub .., binary_bufs_sub ..,
    ternary_bufs_sub ..⟩

theorem segL3_fresh : (segL3 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl⟩

/-- The buffers the operations of `segL3` write, in order. -/
abbrev segL3_W : List (Ref sig .tc) :=
  [main_v72, main_v73, main_v74, main_call8_cst, main_call8_v0, main_v75, main_v76, main_v77,
   main_v78, main_v79, main_v80, main_v81, main_v82, main_v83, main_v84, main_v85,
   main_v86, main_cst_4, main_call9_cst, main_call9_v0, main_call9_v1, main_call9_v2, main_call9_v3, main_call9_v4,
   main_v87]
theorem segL3_writes : (segL3 : List (HloOp τ sig (Elt F))).Forall fun op => op.writes ⊆ ((segL3_W).map (Proc.devRef (τ := τ) .tc)).toFinset :=
  ⟨w_sub (y := main_v72) rfl (by decide), w_sub (y := main_v73) rfl (by decide), w_sub (y := main_v74) rfl (by decide),
    w_sub (y := main_call8_cst) rfl (by decide), w_sub (y := main_call8_v0) rfl (by decide), w_sub (y := main_v75) rfl (by decide),
    w_sub (y := main_v76) rfl (by decide), w_sub (y := main_v77) rfl (by decide), w_sub (y := main_v78) rfl (by decide),
    w_sub (y := main_v79) rfl (by decide), w_sub (y := main_v80) rfl (by decide), w_sub (y := main_v81) rfl (by decide),
    w_sub (y := main_v82) rfl (by decide), w_sub (y := main_v83) rfl (by decide), w_sub (y := main_v84) rfl (by decide),
    w_sub (y := main_v85) rfl (by decide), w_sub (y := main_v86) rfl (by decide), w_sub (y := main_cst_4) rfl (by decide),
    w_sub (y := main_call9_cst) rfl (by decide), w_sub (y := main_call9_v0) rfl (by decide), w_sub (y := main_call9_v1) rfl (by decide),
    w_sub (y := main_call9_v2) rfl (by decide), w_sub (y := main_call9_v3) rfl (by decide), w_sub (y := main_call9_v4) rfl (by decide),
    w_sub (y := main_v87) rfl (by decide)⟩

/-- A buffer `segL3` does not write keeps its contents through it. -/
theorem segL3_keep (V : Valuation τ sig (Elt F)) (r : Ref sig .tc) (h : r ∉ segL3_W) :
    after segL3 V (Proc.devRef .tc r) = V (Proc.devRef .tc r) :=
  after_of_writes_sub segL3 V segL3_writes h

/-- The two aggregations of `main_v87` and their concatenation with `main_v23` by columns: `main_v92`. -/
abbrev segFin : List (HloOp τ sig (Elt F)) :=
  [ unary main_arg2 main_v88 ((transpose S8192x4096 [1, 0] · transposes_S4096x8192_S8192x4096_1_0) : (⟨S4096x8192, .f32⟩ : BufTy).Contents (Elt F) → (⟨S8192x4096, .f32⟩ : BufTy).Contents (Elt F)),
    binary main_v88 main_v87 main_v89 ((fun l r => Host.dotGeneral dot_S8192x4096_S4096x128_S8192x128_1_0_0_1_n_n none l r) : (⟨S8192x4096, .f32⟩ : BufTy).Contents (Elt F) → (⟨S4096x128, .f32⟩ : BufTy).Contents (Elt F) → (⟨S8192x128, .f32⟩ : BufTy).Contents (Elt F)),
    unary main_arg3 main_v90 ((transpose S8192x4096 [1, 0] · transposes_S4096x8192_S8192x4096_1_0) : (⟨S4096x8192, .f32⟩ : BufTy).Contents (Elt F) → (⟨S8192x4096, .f32⟩ : BufTy).Contents (Elt F)),
    binary main_v90 main_v87 main_v91 ((fun l r => Host.dotGeneral dot_S8192x4096_S4096x128_S8192x128_1_0_0_1_n_n none l r) : (⟨S8192x4096, .f32⟩ : BufTy).Contents (Elt F) → (⟨S4096x128, .f32⟩ : BufTy).Contents (Elt F) → (⟨S8192x128, .f32⟩ : BufTy).Contents (Elt F)),
    nary ![main_v89, main_v91, main_v23] main_v92 (fun u => concatenate S8192x384 1 [⟨S8192x128, u 0⟩, ⟨S8192x128, u 1⟩, ⟨S8192x128, u 2⟩] concatenates_S8192x128_S8192x128_S8192x128_S8192x384_d1) ]

theorem segFin_sub : (segFin : List (HloOp τ sig (Elt F))).Forall fun op => op.bufs ⊆ tcRefs τ sig :=
  ⟨unary_bufs_sub .., binary_bufs_sub .., unary_bufs_sub .., binary_bufs_sub .., nary_bufs_sub ..⟩

theorem segFin_fresh : (segFin : List (HloOp τ sig (Elt F))).Forall fun op => op.fresh = ∅ :=
  ⟨rfl, rfl, rfl, rfl, rfl⟩

/-- The buffers the operations of `segFin` write, in order. -/
abbrev segFin_W : List (Ref sig .tc) :=
  [main_v88, main_v89, main_v90, main_v91, main_v92]
theorem segFin_writes : (segFin : List (HloOp τ sig (Elt F))).Forall fun op => op.writes ⊆ ((segFin_W).map (Proc.devRef (τ := τ) .tc)).toFinset :=
  ⟨w_sub (y := main_v88) rfl (by decide), w_sub (y := main_v89) rfl (by decide), w_sub (y := main_v90) rfl (by decide),
    w_sub (y := main_v91) rfl (by decide), w_sub (y := main_v92) rfl (by decide)⟩

/-- A buffer `segFin` does not write keeps its contents through it. -/
theorem segFin_keep (V : Valuation τ sig (Elt F)) (r : Ref sig .tc) (h : r ∉ segFin_W) :
    after segFin V (Proc.devRef .tc r) = V (Proc.devRef .tc r) :=
  after_of_writes_sub segFin V segFin_writes h

/-- The operations of `main_part0`, callees inlined: 88 operations. -/
abbrev ops_part0 : List (HloOp τ sig (Elt F)) := segA ++ segB ++ segL0 ++ segL1
/-- The operations of `main_part1`, callees inlined: 55 operations. -/
abbrev ops_part1 : List (HloOp τ sig (Elt F)) := segL2 ++ segL3 ++ segFin
/-- @main's 143 operations, in order. -/
abbrev ops : List (HloOp τ sig (Elt F)) := ops_part0 ++ ops_part1

set_option maxRecDepth 16384 in
theorem main_part0_eq (c : Dev nD) : main_part0 (F := F) c = seq ops_part0 := rfl
set_option maxRecDepth 16384 in
theorem main_part1_eq (c : Dev nD) : main_part1 (F := F) c = seq ops_part1 := rfl
/-- @main is the straight line of its operations: the two parts one after the other. -/
theorem main_eq (c : Dev nD) : main (F := F) c = seq ops := by
  rw [show (ops : List (HloOp τ sig (Elt F))) = ops_part0 ++ ops_part1 from rfl, seq_append, ← main_part0_eq c, ← main_part1_eq c]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  List.forall_iff_forall_mem.mpr fun op h => by
    simp only [ops, ops_part0, ops_part1, List.mem_append] at h
    rcases h with (((h | h) | h) | h) | ((h | h) | h)
    exacts [List.forall_iff_forall_mem.mp segA_sub op h, List.forall_iff_forall_mem.mp segB_sub op h, List.forall_iff_forall_mem.mp segL0_sub op h, List.forall_iff_forall_mem.mp segL1_sub op h, List.forall_iff_forall_mem.mp segL2_sub op h, List.forall_iff_forall_mem.mp segL3_sub op h, List.forall_iff_forall_mem.mp segFin_sub op h]

/-- Every operation determines its results. -/
theorem ops_fresh : ∀ op ∈ (ops : List (HloOp τ sig (Elt F))), op.fresh = ∅ := fun op h => by
  simp only [ops, ops_part0, ops_part1, List.mem_append] at h
  rcases h with (((h | h) | h) | h) | ((h | h) | h)
  exacts [List.forall_iff_forall_mem.mp segA_fresh op h, List.forall_iff_forall_mem.mp segB_fresh op h, List.forall_iff_forall_mem.mp segL0_fresh op h, List.forall_iff_forall_mem.mp segL1_fresh op h, List.forall_iff_forall_mem.mp segL2_fresh op h, List.forall_iff_forall_mem.mp segL3_fresh op h, List.forall_iff_forall_mem.mp segFin_fresh op h]

/-- The fold over the whole line is the folds over the seven segments, one after the other. -/
theorem after_ops (V : Valuation τ sig (Elt F)) :
    after ops V = after segFin (after segL3 (after segL2 (after segL1 (after segL0 (after segB (after segA V)))))) := by
  simp only [ops, ops_part0, ops_part1, StableHlo.after_append]

/-- A buffer no segment writes keeps its launch contents through the whole line. -/
theorem after_ops_keep (V : Valuation τ sig (Elt F)) (r : Ref sig .tc)
    (h0 : r ∉ segA_W) (h1 : r ∉ segB_W) (h2 : r ∉ segL0_W) (h3 : r ∉ segL1_W) (h4 : r ∉ segL2_W) (h5 : r ∉ segL3_W) (h6 : r ∉ segFin_W) :
    after ops V (Proc.devRef .tc r) = V (Proc.devRef .tc r) := by
  rw [after_ops, segFin_keep _ r h6, segL3_keep _ r h5, segL2_keep _ r h4, segL1_keep _ r h3, segL0_keep _ r h2,
    segB_keep _ r h1, segA_keep _ r h0]

end Cert.ReferenceIdeal.Hand

end
-- ==== Proof.Ref.Run.lean ====
/-
  The reference program's run: every weakly fair execution of @main on the TensorCores terminates, each
  of the two result buffers ends at the fold of the operations over the launch contents, and each argument
  buffer ends as it started (no operation writes an argument).
-/
import proofs.«181597_j77979426226450_2_alg».proof.Proof.Ref.Ops
import Idealize.ShloMosaic.PureOps.Ideal

set_option Elab.async false

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- On every device, for any float values, from any memory with zero counters: every weakly fair execution of
    @main terminates with each result at the operations' fold over the launch contents and the arguments
    unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v87) = StableHlo.after ops (fun b => m (c, b)) (Proc.devRef .tc main_v87)
      ∧ r.2.mem ((c.tc : Thread nD τ).loc main_v92) = StableHlo.after ops (fun b => m (c, b)) (Proc.devRef .tc main_v92)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c => ⟨h c main_v87, h c main_v92,
      (h c main_arg0).trans (after_ops_keep _ main_arg0 (by decide) (by decide) (by decide) (by decide) (by decide) (by decide) (by decide)),
      (h c main_arg1).trans (after_ops_keep _ main_arg1 (by decide) (by decide) (by decide) (by decide) (by decide) (by decide) (by decide)),
      (h c main_arg2).trans (after_ops_keep _ main_arg2 (by decide) (by decide) (by decide) (by decide) (by decide) (by decide) (by decide)),
      (h c main_arg3).trans (after_ops_keep _ main_arg3 (by decide) (by decide) (by decide) (by decide) (by decide) (by decide) (by decide)),
      (h c main_arg4).trans (after_ops_keep _ main_arg4 (by decide) (by decide) (by decide) (by decide) (by decide) (by decide) (by decide)),
      (h c main_arg5).trans (after_ops_keep _ main_arg5 (by decide) (by decide) (by decide) (by decide) (by decide) (by decide) (by decide)),
      (h c main_arg6).trans (after_ops_keep _ main_arg6 (by decide) (by decide) (by decide) (by decide) (by decide) (by decide) (by decide)),
      (h c main_arg7).trans (after_ops_keep _ main_arg7 (by decide) (by decide) (by decide) (by decide) (by decide) (by decide) (by decide)),
      (h c main_arg8).trans (after_ops_keep _ main_arg8 (by decide) (by decide) (by decide) (by decide) (by decide) (by decide) (by decide)),
      (h c main_arg9).trans (after_ops_keep _ main_arg9 (by decide) (by decide) (by decide) (by decide) (by decide) (by decide) (by decide)),
      (h c main_arg10).trans (after_ops_keep _ main_arg10 (by decide) (by decide) (by decide) (by decide) (by decide) (by decide) (by decide)),
      (h c main_arg11).trans (after_ops_keep _ main_arg11 (by decide) (by decide) (by decide) (by decide) (by decide) (by decide) (by decide)),
      (h c main_arg12).trans (after_ops_keep _ main_arg12 (by decide) (by decide) (by decide) (by decide) (by decide) (by decide) (by decide)),
      (h c main_arg13).trans (after_ops_keep _ main_arg13 (by decide) (by decide) (by decide) (by decide) (by decide) (by decide) (by decide))⟩)
    (run_seq scopedRefs_eq scopedSems_eq defs main (fun _ => ops) main_eq (fun _ => ops_sub) m ρ (fun _ => ops_fresh))

/-- The run at the ideal values keeps every argument: the frame conjunct of the reference. -/
theorem frame_ri (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c => (h c).2.2) (run m ρ)

end Cert.ReferenceIdeal.Hand

end
-- ==== Proof.Claims.lean ====
/-
  Four of the five claims. Each kernel program's frame is its whole run read at the fourteen argument buffers: the last
  valuation holds each argument as launched, since no host operation writes an argument and no region stages one. The
  reference's frame is its run with the results dropped. The idealization removed nine round trips through bf16 (one per
  region, where the feature block is rounded and widened again to form the rounding remainder); each is its rule's statement.
-/
import proofs.«181597_j77979426226450_2_alg».proof.Defs
import proofs.«181597_j77979426226450_2_alg».proof.Proof.K.Run
import proofs.«181597_j77979426226450_2_alg».proof.Proof.KI.Run
import proofs.«181597_j77979426226450_2_alg».proof.Proof.Ref.Run
import proofs.«181597_j77979426226450_2_alg».proof.Proof.Gen.Kernel
import proofs.«181597_j77979426226450_2_alg».proof.Proof.Gen.KernelIdeal
import proofs.«181597_j77979426226450_2_alg».proof.Proof.Gen.ReferenceIdeal
import proofs.«181597_j77979426226450_2_alg».proof.Proof.Gen.Pre_finite_inputs

noncomputable section

namespace Cert.Proof.Claims

open Idealize.ShloMosaic Idealize.ShloMosaic.TcCoe Idealize.SL.Sem

theorem frame_k : Cert.frame_Kernel := fun m ρ _ =>
  (θ_run (Cert.Kernel.defs (F := Bits)) _ _).mono (fun _ h c =>
    ⟨(h c _ (Cert.Kernel.Hand.mem_uc Cert.Kernel.main_arg0 (by decide))).trans (Cert.Kernel.Hand.W18_main_arg0 m c),
      (h c _ (Cert.Kernel.Hand.mem_uc Cert.Kernel.main_arg1 (by decide))).trans (Cert.Kernel.Hand.W18_main_arg1 m c),
      (h c _ (Cert.Kernel.Hand.mem_uc Cert.Kernel.main_arg2 (by decide))).trans (Cert.Kernel.Hand.W18_main_arg2 m c),
      (h c _ (Cert.Kernel.Hand.mem_uc Cert.Kernel.main_arg3 (by decide))).trans (Cert.Kernel.Hand.W18_main_arg3 m c),
      (h c _ (Cert.Kernel.Hand.mem_uc Cert.Kernel.main_arg4 (by decide))).trans (Cert.Kernel.Hand.W18_main_arg4 m c),
      (h c _ (Cert.Kernel.Hand.mem_uc Cert.Kernel.main_arg5 (by decide))).trans (Cert.Kernel.Hand.W18_main_arg5 m c),
      (h c _ (Cert.Kernel.Hand.mem_uc Cert.Kernel.main_arg6 (by decide))).trans (Cert.Kernel.Hand.W18_main_arg6 m c),
      (h c _ (Cert.Kernel.Hand.mem_uc Cert.Kernel.main_arg7 (by decide))).trans (Cert.Kernel.Hand.W18_main_arg7 m c),
      (h c _ (Cert.Kernel.Hand.mem_uc Cert.Kernel.main_arg8 (by decide))).trans (Cert.Kernel.Hand.W18_main_arg8 m c),
      (h c _ (Cert.Kernel.Hand.mem_uc Cert.Kernel.main_arg9 (by decide))).trans (Cert.Kernel.Hand.W18_main_arg9 m c),
      (h c _ (Cert.Kernel.Hand.mem_uc Cert.Kernel.main_arg10 (by decide))).trans (Cert.Kernel.Hand.W18_main_arg10 m c),
      (h c _ (Cert.Kernel.Hand.mem_uc Cert.Kernel.main_arg11 (by decide))).trans (Cert.Kernel.Hand.W18_main_arg11 m c),
      (h c _ (Cert.Kernel.Hand.mem_uc Cert.Kernel.main_arg12 (by decide))).trans (Cert.Kernel.Hand.W18_main_arg12 m c),
      (h c _ (Cert.Kernel.Hand.mem_uc Cert.Kernel.main_arg13 (by decide))).trans (Cert.Kernel.Hand.W18_main_arg13 m c)⟩) (Cert.Kernel.Hand.run_all (F := Bits) m ρ)

theorem frame_ki : Cert.frame_KernelIdeal := fun m ρ _ =>
  (θ_run (Cert.KernelIdeal.defs (F := Ideal)) _ _).mono (fun _ h c =>
    ⟨(h c _ (Cert.KernelIdeal.Hand.mem_uc Cert.KernelIdeal.main_arg0 (by decide))).trans (Cert.KernelIdeal.Hand.W18_main_arg0 m c),
      (h c _ (Cert.KernelIdeal.Hand.mem_uc Cert.KernelIdeal.main_arg1 (by decide))).trans (Cert.KernelIdeal.Hand.W18_main_arg1 m c),
      (h c _ (Cert.KernelIdeal.Hand.mem_uc Cert.KernelIdeal.main_arg2 (by decide))).trans (Cert.KernelIdeal.Hand.W18_main_arg2 m c),
      (h c _ (Cert.KernelIdeal.Hand.mem_uc Cert.KernelIdeal.main_arg3 (by decide))).trans (Cert.KernelIdeal.Hand.W18_main_arg3 m c),
      (h c _ (Cert.KernelIdeal.Hand.mem_uc Cert.KernelIdeal.main_arg4 (by decide))).trans (Cert.KernelIdeal.Hand.W18_main_arg4 m c),
      (h c _ (Cert.KernelIdeal.Hand.mem_uc Cert.KernelIdeal.main_arg5 (by decide))).trans (Cert.KernelIdeal.Hand.W18_main_arg5 m c),
      (h c _ (Cert.KernelIdeal.Hand.mem_uc Cert.KernelIdeal.main_arg6 (by decide))).trans (Cert.KernelIdeal.Hand.W18_main_arg6 m c),
      (h c _ (Cert.KernelIdeal.Hand.mem_uc Cert.KernelIdeal.main_arg7 (by decide))).trans (Cert.KernelIdeal.Hand.W18_main_arg7 m c),
      (h c _ (Cert.KernelIdeal.Hand.mem_uc Cert.KernelIdeal.main_arg8 (by decide))).trans (Cert.KernelIdeal.Hand.W18_main_arg8 m c),
      (h c _ (Cert.KernelIdeal.Hand.mem_uc Cert.KernelIdeal.main_arg9 (by decide))).trans (Cert.KernelIdeal.Hand.W18_main_arg9 m c),
      (h c _ (Cert.KernelIdeal.Hand.mem_uc Cert.KernelIdeal.main_arg10 (by decide))).trans (Cert.KernelIdeal.Hand.W18_main_arg10 m c),
      (h c _ (Cert.KernelIdeal.Hand.mem_uc Cert.KernelIdeal.main_arg11 (by decide))).trans (Cert.KernelIdeal.Hand.W18_main_arg11 m c),
      (h c _ (Cert.KernelIdeal.Hand.mem_uc Cert.KernelIdeal.main_arg12 (by decide))).trans (Cert.KernelIdeal.Hand.W18_main_arg12 m c),
      (h c _ (Cert.KernelIdeal.Hand.mem_uc Cert.KernelIdeal.main_arg13 (by decide))).trans (Cert.KernelIdeal.Hand.W18_main_arg13 m c)⟩) (Cert.KernelIdeal.Hand.run_all (F := Ideal) m ρ)

theorem frame_ri : Cert.frame_ReferenceIdeal := fun m ρ _ => Cert.ReferenceIdeal.Hand.frame_ri m ρ

theorem preserves : Cert.preserves_Kernel_KernelIdeal :=
  ⟨IdealRules.truncf_extf.statement _ .f32 .bf16, IdealRules.truncf_extf.statement _ .f32 .bf16, IdealRules.truncf_extf.statement _ .f32 .bf16,
    IdealRules.truncf_extf.statement _ .f32 .bf16, IdealRules.truncf_extf.statement _ .f32 .bf16, IdealRules.truncf_extf.statement _ .f32 .bf16,
    IdealRules.truncf_extf.statement _ .f32 .bf16, IdealRules.truncf_extf.statement _ .f32 .bf16, IdealRules.truncf_extf.statement _ .f32 .bf16⟩

end Cert.Proof.Claims

end
-- ==== Proof.KI.Val0Pieces.lean ====
/-
  Region 0: what the pieces found by the two runs of the body are, as the kernel's payloads of the blocks. At k = 0 the
  accumulator is left at the second payload over the zero payload; at k = 1 at the second payload over the accumulator
  it was entered with, and the output's buffer at the third payload of that and the edge-feature block.
-/
import proofs.«181597_j77979426226450_2_alg».proof.Proof.KI.Reg0
import Idealize.ShloMosaic.Lib.Pipeline.Value
import Idealize.ShloMosaic.Lib.ValueIdx
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL.Sem
open Idealize.ShloMosaic.Pipeline (Dat Cfg Window cellOf)
open Idealize.ShloMosaic.ValueIdx

variable {F : FTy → Type} [FloatOps F]

theorem zeroOffsets2 : (![0, 0] : Fin 2 → Nat) = fun _ => 0 := funext fun a => by fin_cases a <;> rfl

/-- At k = 0 the accumulator is left at the accumulation step over the zero block. -/
theorem sout0_A_0_eq (c : Dev nD) (i : grid0.Coords) (arg2 : Memref sig .tc .vmem S2048x1024 .bf16) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : cond0_0 i) (hc1 : ¬cond0_1 i)
    (x0 : Vec F S2048x1024 .bf16) (x1 : Vec F S2048x128 .f32) (x2 : Vec F S1024x128 .f32) :
    sout0_A_0 c i arg2 harg2 arg3 harg3 arg4 harg4 arg5 harg5 arg6 harg6 hc0 hc1 x0 x1 x2 = k0_pay2 x1 (k0_pay1 (F := F)) x0 := by
  unfold sout0_A_0
  rw [View.read_writes_eq_canon _ _ _ (scover0_A_0 c i arg2 harg2 arg3 harg3 arg4 harg4 arg5 harg5 arg6 harg6 hc0 hc1 x0 x1 x2)]
  unfold kernelRun0_A
  dsimp only
  sl_unfold_words
  rw [View.canon_cons_unit_zero (S := S1024x128) zeroOffsets2, View.readCov_unit_zero (S := S1024x128) _ zeroOffsets2]
  simp only [View.readAt_eq_ld, harg2.read_unread, harg3.read_unread, harg4.read_unread, harg6.read_unread, View.ld_unit_zero (S := S2048x128) zeroOffsets2, View.ld_unit_zero (S := S2048x1024) zeroOffsets2, View.ld_unit_zero (S := S1024x128) zeroOffsets2]

/-- At k = 1 the accumulator is left at the accumulation step over what it held. -/
theorem sout0_C_0_eq (c : Dev nD) (i : grid0.Coords) (arg2 : Memref sig .tc .vmem S2048x1024 .bf16) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : ¬cond0_0 i) (hc1 : cond0_1 i)
    (x0 : Vec F S2048x1024 .bf16) (x1 : Vec F S2048x128 .f32) (x2 : Vec F S1024x128 .f32) (xs0 : Vec F S1024x128 .f32) :
    sout0_C_0 c i arg2 harg2 arg3 harg3 arg4 harg4 arg5 harg5 arg6 harg6 hc0 hc1 x0 x1 x2 xs0 = k0_pay2 x1 xs0 x0 := by
  unfold sout0_C_0
  rw [View.read_writes_eq_canon _ _ _ (scover0_C_0 c i arg2 harg2 arg3 harg3 arg4 harg4 arg5 harg5 arg6 harg6 hc0 hc1 x0 x1 x2 xs0)]
  unfold kernelRun0_C
  dsimp only
  sl_unfold_words
  rw [View.canon_unit_zero zeroOffsets2]
  simp only [View.readAt_eq_ld, harg2.read_unread, harg3.read_unread, harg4.read_unread, harg6.read_unread, View.ld_unit_zero (S := S2048x128) zeroOffsets2, View.ld_unit_zero (S := S2048x1024) zeroOffsets2, View.ld_unit_zero (S := S1024x128) zeroOffsets2]

/-- At k = 1 the output's buffer is left at the clipped sum of the new accumulator and the edge-feature block. -/
theorem out0_C_3_eq (c : Dev nD) (i : grid0.Coords) (arg2 : Memref sig .tc .vmem S2048x1024 .bf16) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : ¬cond0_0 i) (hc1 : cond0_1 i)
    (x0 : Vec F S2048x1024 .bf16) (x1 : Vec F S2048x128 .f32) (x2 : Vec F S1024x128 .f32) (xs0 : Vec F S1024x128 .f32) :
    out0_C_3 c i arg2 harg2 arg3 harg3 arg4 harg4 arg5 harg5 arg6 harg6 hc0 hc1 x0 x1 x2 xs0 = k0_pay3 (k0_pay2 x1 xs0 x0) x2 := by
  unfold out0_C_3
  rw [View.read_writes_eq_canon _ _ _ (cover0_C_3 c i arg2 harg2 arg3 harg3 arg4 harg4 arg5 harg5 arg6 harg6 hc0 hc1 x0 x1 x2 xs0)]
  unfold kernelRun0_C
  dsimp only
  sl_unfold_words
  rw [View.canon_unit_zero zeroOffsets2, View.readCov_unit_zero (S := S1024x128) _ zeroOffsets2]
  simp only [View.readAt_eq_ld, harg2.read_unread, harg3.read_unread, harg4.read_unread, harg6.read_unread, View.ld_unit_zero (S := S2048x128) zeroOffsets2, View.ld_unit_zero (S := S2048x1024) zeroOffsets2, View.ld_unit_zero (S := S1024x128) zeroOffsets2]

end Cert.KernelIdeal.Hand

end
-- ==== Proof.KI.Val0Points.lean ====
/-
  Region 0: what the accumulation holds at a point, in terms of the kernel's payloads of the point's blocks, for any
  float values. After a point with k = 0 the accumulator holds the accumulation step over the zero block; after a point
  with k = 1 the output's buffer holds the clipped sum of the accumulation step, over what the point before left in the
  accumulator, and the edge-feature block.
-/
import proofs.«181597_j77979426226450_2_alg».proof.Proof.KI.Val0Pieces

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL.Sem
open Idealize.ShloMosaic.Pipeline (Dat Cfg Window cellOf)
open Idealize.ShloMosaic.ValueIdx

variable {F : FTy → Type} [FloatOps F]
variable (V : (c : Dev nD) → (b : Ref sig .tc) → Buf (Elt F) ((c : Thread nD τ).loc b))

set_option maxHeartbeats 2000000 in
/-- After a point with k = 0 the accumulator holds the accumulation step over the zero block. -/
theorem acc_even0 (c : Dev nD) (t : Fin cfg0.N) (h0 : t.val % 2 = 0) :
    (outsAt0 V c t.val t.isLt).2 = k0_pay2 (iblk0 V c 1 t) (k0_pay1 (F := F)) (iblk0 V c 0 t) := by
  have h1 : ¬t.val % 2 = 1 := by omega
  rw [outsAt0_A V c t h0 h1]
  exact sout0_A_0_eq (F := F) c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk0 V c 0 t) (iblk0 V c 1 t) (iblk0 V c 2 t)

set_option maxHeartbeats 2000000 in
/-- After a point with k = 1 the output's buffer holds the clipped sum of the accumulation step, over what the point
    before left in the accumulator, and the edge-feature block. -/
theorem out_odd0 (c : Dev nD) (t : Fin cfg0.N) (h1 : t.val % 2 = 1) :
    (outsAt0 V c t.val t.isLt).1
      = k0_pay3 (k0_pay2 (iblk0 V c 1 t) (outsAt0 V c (t.val - 1) (Nat.lt_of_le_of_lt (Nat.sub_le _ _) t.isLt)).2 (iblk0 V c 0 t)) (iblk0 V c 2 t) := by
  have h0 : ¬t.val % 2 = 0 := by omega
  rw [outsAt0_C V c t h0 h1]
  exact out0_C_3_eq (F := F) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2

end Cert.KernelIdeal.Hand

end
-- ==== Proof.LibSplitAccumulate.lean ====
/-
  Pure algebra on the extended reals for a contraction that is accumulated in halves and whose right operand is
  split into a rounded part and its remainder.

  * A sum over an index set of even size is the sum over its lower half plus the sum over its upper half.
  * For a real x the remainder x - x is 0, so a·x + a·(x - x) = a·x for every extended real a (a·0 = 0 holds on
    all extended reals); hence a contraction against the split operand is the contraction against the operand itself.
  * Reals are closed under +, ·, max and finite sums, as extended reals.
  * The two-step accumulation ((0 + S₀) + S₁) + h, clipped at 0, is max (h + (S₀ + S₁)) 0: only commutativity and
    associativity of + and 0 + x = x, which hold on all extended reals.
-/
import Mathlib.Algebra.BigOperators.Fin
import Idealize.ShloMosaic.PureOps.Ideal

noncomputable section

open scoped BigOperators

namespace Cert.SplitAccumulate

/-- An extended real that is a real number. -/
def IsReal (x : EReal) : Prop := ∃ r : ℝ, x = (r : EReal)

theorem isReal_coe (r : ℝ) : IsReal (r : EReal) := ⟨r, rfl⟩
theorem isReal_zero : IsReal 0 := ⟨0, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.max {x y : EReal} (hx : IsReal x) (hy : IsReal y) : IsReal (max x y) := by
  rcases max_choice x y with h | h <;> rw [h] <;> assumption

/-- A finite sum of reals is real. -/
theorem isReal_sum {ι : Type*} (s : Finset ι) (f : ι → EReal) (hf : ∀ i ∈ s, IsReal (f i)) : IsReal (∑ i ∈ s, f i) := by
  classical
  induction s using Finset.induction_on with
  | empty => simpa using isReal_zero
  | insert a s ha ih =>
    rw [Finset.sum_insert ha]
    exact (hf a (Finset.mem_insert_self a s)).add (ih fun i hi => hf i (Finset.mem_insert_of_mem hi))

/-- The remainder of a real against itself is zero. -/
theorem sub_self_of_isReal {x : EReal} (hx : IsReal x) : x - x = 0 := by
  obtain ⟨r, rfl⟩ := hx
  rw [← EReal.coe_sub, sub_self, EReal.coe_zero]

/-- One product against the split operand: the remainder's product vanishes. -/
theorem mul_split (a : EReal) {x : EReal} (hx : IsReal x) : a * x + a * (x - x) = a * x := by
  rw [sub_self_of_isReal hx, mul_zero, add_zero]

/-- A contraction against the remainder of a real operand is zero. -/
theorem sum_mul_remainder {ι : Type*} [Fintype ι] (a x : ι → EReal) (hx : ∀ k, IsReal (x k)) :
    ∑ k, a k * (x k - x k) = 0 :=
  Finset.sum_eq_zero fun k _ => by rw [sub_self_of_isReal (hx k), mul_zero]

/-- A contraction against the split operand is the contraction against the operand. -/
theorem sum_split {ι : Type*} [Fintype ι] (a x : ι → EReal) (hx : ∀ k, IsReal (x k)) :
    ∑ k, a k * x k + ∑ k, a k * (x k - x k) = ∑ k, a k * x k := by
  rw [sum_mul_remainder a x hx, add_zero]

/-- A sum over an index set of size n + n is the sum over the lower half plus the sum over the upper half. -/
theorem sum_halves {M : Type*} [AddCommMonoid M] {n m : ℕ} (h : n + n = m) (f : Fin m → M) :
    ∑ v, f v = ∑ k : Fin n, f ⟨k.val, by omega⟩ + ∑ k : Fin n, f ⟨n + k.val, by omega⟩ := by
  subst h
  rw [Fin.sum_univ_add]
  rfl

/-- The two-step accumulation from zero, with the addend h, clipped at zero. -/
theorem accumulate_two (S0 S1 h : EReal) : max (((0 + S0) + S1) + h) 0 = max (h + (S0 + S1)) 0 := by
  rw [zero_add, add_comm (S0 + S1) h]

end Cert.SplitAccumulate

end
-- ==== Proof.KI.Val0Payload.lean ====
/-
  Region 0's payloads read at an index, on the extended reals, over explicit coordinates (a, b) of a 1024 by 128 block:
  the zero block is 0; the accumulation step is acc[a,b] + Σ_k A[k,a]·x[k,b] over the 2048 rows of the two blocks, the
  contraction against the remainder x - x vanishing when column b of x is real; the clipped sum is max (s[a,b] + h[a,b]) 0.
-/
import proofs.«181597_j77979426226450_2_alg».proof.Proof.Gen.KernelIdeal.Skeleton
import proofs.«181597_j77979426226450_2_alg».proof.Proof.LibSplitAccumulate
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL.Sem
open Idealize.ShloMosaic.Pipeline (Dat Cfg Window cellOf)
open Idealize.ShloMosaic.ValueIdx

open Cert.SplitAccumulate

/-- The contraction of a 2048 by 1024 block with a 2048 by 128 block over their first axes, into the zero block, at
    (a, b): Σ_k A[k,a]·B[k,b]. -/
theorem matmulT_zero_apply (A : FVec Ideal S2048x1024 .bf16) (B : FVec Ideal S2048x128 .bf16) (a : Fin 1024) (b : Fin 128) :
    matmul (F := Ideal) dot_S2048x1024_S2048x128_S1024x128_0_0_1_1_n_n none A B (constant (F := Ideal) S1024x128 .f32 0x00000000#32) (ix2 a b)
      = ∑ k : Fin 2048, (A (ix2 k a) : EReal) * (B (ix2 k b) : EReal) := by
  refine (Ideal.matmul_constant_zero_apply dot_S2048x1024_S2048x128_S1024x128_0_0_1_1_n_n none A B (ix2 a b)).trans ?_
  rw [← Equiv.sum_comp (contrEquiv1 dot_S2048x1024_S2048x128_S1024x128_0_0_1_1_n_n 2048 rfl rfl).symm]
  refine Finset.sum_congr rfl fun k _ => ?_
  have ck := contrEquiv1_symm_val dot_S2048x1024_S2048x128_S1024x128_0_0_1_1_n_n 2048 rfl rfl k
  have l2 : (dot_S2048x1024_S2048x128_S1024x128_0_0_1_1_n_n).lhsIdx (ix2 a b) ((contrEquiv1 dot_S2048x1024_S2048x128_S1024x128_0_0_1_1_n_n 2048 rfl rfl).symm k) = ix2 k a := by
    funext ax; apply Fin.ext
    match ax with
    | ⟨0, _⟩ => simp [DotDims.lhsIdx, dot_S2048x1024_S2048x128_S1024x128_0_0_1_1_n_n]; exact ck
    | ⟨1, _⟩ => simp [DotDims.lhsIdx, dot_S2048x1024_S2048x128_S1024x128_0_0_1_1_n_n]; rfl
  have r2 : (dot_S2048x1024_S2048x128_S1024x128_0_0_1_1_n_n).rhsIdx (ix2 a b) ((contrEquiv1 dot_S2048x1024_S2048x128_S1024x128_0_0_1_1_n_n 2048 rfl rfl).symm k) = ix2 k b := by
    funext ax; apply Fin.ext
    match ax with
    | ⟨0, _⟩ => simp [DotDims.rhsIdx, dot_S2048x1024_S2048x128_S1024x128_0_0_1_1_n_n]; exact ck
    | ⟨1, _⟩ => simp [DotDims.rhsIdx, dot_S2048x1024_S2048x128_S1024x128_0_0_1_1_n_n]; rfl
  rw [l2, r2]

/-- The zero block at an index. -/
theorem k0_pay1_apply (a : Fin 1024) (b : Fin 128) : k0_pay1 (F := Ideal) (ix2 a b) = (0 : EReal) := by
  unfold k0_pay1
  simp only [shapeCast_self]
  exact Ideal.ofBits_zero_f32

/-- The accumulation step at an index: the accumulator plus the contraction of the two blocks, when the feature
    block's column is real. -/
theorem k0_pay2_apply (x1 : FVec Ideal S2048x128 .f32) (acc : FVec Ideal S1024x128 .f32) (x0 : FVec Ideal S2048x1024 .bf16)
    (a : Fin 1024) (b : Fin 128) (hreal : ∀ k : Fin 2048, IsReal (x1 (ix2 k b))) :
    k0_pay2 (F := Ideal) x1 acc x0 (ix2 a b)
      = (acc (ix2 a b) : EReal) + ∑ k : Fin 2048, (x0 (ix2 k a) : EReal) * (x1 (ix2 k b) : EReal) := by
  unfold k0_pay2
  simp only [shapeCast_self]
  refine Eq.trans (congrArg (fun z : EReal => (acc (ix2 a b) : EReal) + z)
    (congrArg₂ (fun y z : EReal => y + z) (matmulT_zero_apply x0 _ a b) (matmulT_zero_apply x0 _ a b))) ?_
  exact congrArg (fun z : EReal => (acc (ix2 a b) : EReal) + z)
    (sum_split (fun k : Fin 2048 => (x0 (ix2 k a) : EReal)) (fun k : Fin 2048 => (x1 (ix2 k b) : EReal)) hreal)

/-- The clipped sum at an index. -/
theorem k0_pay3_apply (s h : FVec Ideal S1024x128 .f32) (a : Fin 1024) (b : Fin 128) :
    k0_pay3 (F := Ideal) s h (ix2 a b) = max ((s (ix2 a b) : EReal) + (h (ix2 a b) : EReal)) 0 := by
  unfold k0_pay3
  simp only [shapeCast_self]
  exact congrArg (fun z : EReal => max ((s (ix2 a b) : EReal) + (h (ix2 a b) : EReal)) z) Ideal.ofBits_zero_f32

end Cert.KernelIdeal.Hand

end
-- ==== Proof.KI.Val0Core.lean ====
/-
  Region 0's value on the extended reals: after the region its output array holds, at
  (e, j), max (he[e,j] + Σ_v A2[v,e]·hv[v,j]) 0 of the arrays the region was entered with, when hv is real. Point (i, 0)
  leaves in the accumulator the contraction over rows 0..2048 for edge block i; point (i, 1) adds the contraction over
  rows 2048..4096 and stores the clipped sum with the edge-feature block; the sum over the 4096 rows is the sum of its
  two halves.
-/
import proofs.«181597_j77979426226450_2_alg».proof.Proof.KI.Val0Points
import proofs.«181597_j77979426226450_2_alg».proof.Proof.KI.Val0Payload

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL.Sem
open Idealize.ShloMosaic.Pipeline (Dat Cfg Window cellOf)
open Idealize.ShloMosaic.ValueIdx

open Cert.SplitAccumulate

/-! ## The closed form -/

/-- The edge update, index by index: max (he[e,j] + Σ_v A2[v,e]·hv[v,j]) 0. -/
def edgeUpdate (A2 : S4096x8192.Idx → EReal) (hv : S4096x128.Idx → EReal) (he : S8192x128.Idx → EReal) : S8192x128.Idx → EReal :=
  fun i => max (he (ix2 (i 0) (i 1)) + ∑ v : Fin 4096, A2 (ix2 v (i 0)) * hv (ix2 v (i 1))) 0

/-- The clipped two-step accumulation from zero, of the contraction over the lower and the upper 2048 rows, is the edge
    update at (e, j). -/
theorem edgeUpdate_of_halves (A2 : S4096x8192.Idx → EReal) (hv : S4096x128.Idx → EReal) (he : S8192x128.Idx → EReal)
    (e : Fin 8192) (j : Fin 128) (S0 S1 h : EReal)
    (hS0 : S0 = ∑ k : Fin 2048, A2 (ix2 (⟨k.val, by omega⟩ : Fin 4096) e) * hv (ix2 (⟨k.val, by omega⟩ : Fin 4096) j))
    (hS1 : S1 = ∑ k : Fin 2048, A2 (ix2 (⟨2048 + k.val, by omega⟩ : Fin 4096) e) * hv (ix2 (⟨2048 + k.val, by omega⟩ : Fin 4096) j))
    (hh : h = he (ix2 e j)) :
    max (((0 + S0) + S1) + h) 0 = edgeUpdate A2 hv he (ix2 e j) := by
  subst hS0 hS1 hh
  rw [accumulate_two]
  show _ = max (he (ix2 e j) + ∑ v : Fin 4096, A2 (ix2 v e) * hv (ix2 v j)) 0
  rw [sum_halves (n := 2048) (m := 4096) rfl (fun v : Fin 4096 => A2 (ix2 v e) * hv (ix2 v j))]

/-! ## A point's value from its blocks -/

/-- The output block a point with k = 1 stores, at (a, b), from the blocks of that point (x0c, x1c, x2) and of the point
    before (x0a, x1a), when column b of both feature blocks is real. -/
theorem point_value (x0a x0c : FVec Ideal S2048x1024 .bf16) (x1a x1c : FVec Ideal S2048x128 .f32) (x2 : FVec Ideal S1024x128 .f32)
    (a : Fin 1024) (b : Fin 128) (hra : ∀ k : Fin 2048, IsReal (x1a (ix2 k b))) (hrc : ∀ k : Fin 2048, IsReal (x1c (ix2 k b))) :
    k0_pay3 (F := Ideal) (k0_pay2 (F := Ideal) x1c (k0_pay2 (F := Ideal) x1a (k0_pay1 (F := Ideal)) x0a) x0c) x2 (ix2 a b)
      = max ((((0 : EReal) + ∑ k : Fin 2048, (x0a (ix2 k a) : EReal) * (x1a (ix2 k b) : EReal))
          + ∑ k : Fin 2048, (x0c (ix2 k a) : EReal) * (x1c (ix2 k b) : EReal)) + (x2 (ix2 a b) : EReal)) 0 := by
  rw [k0_pay3_apply, k0_pay2_apply x1c _ x0c a b hrc, k0_pay2_apply x1a _ x0a a b hra, k0_pay1_apply]

/-! ## The block indices, decided over the grid -/

/-- Point t = 2i + k reads block (k, i) of the incidence matrix, block (k, 0) of the node features, block (i, 0) of the
    edge features, and its output block is (i, 0). -/
theorem idx_facts0 : ∀ t : Fin cfg0.N,
    win0_0.index t (0 : Fin 2) = t.val % 2 ∧ win0_0.index t (1 : Fin 2) = t.val / 2
    ∧ win0_1.index t (0 : Fin 2) = t.val % 2 ∧ win0_1.index t (1 : Fin 2) = 0
    ∧ win0_2.index t (0 : Fin 2) = t.val / 2 ∧ win0_2.index t (1 : Fin 2) = 0
    ∧ win0_3.index t (0 : Fin 2) = t.val / 2 ∧ win0_3.index t (1 : Fin 2) = 0 :=
  (by decide +kernel : ∀ t : Fin grid0.N, _)

/-! ## The blocks, typed over their literal shapes, and read at an index -/

variable (V : (c : Dev nD) → (b : Ref sig .tc) → Buf (Elt Ideal) ((c : Thread nD τ).loc b))

/-- The incidence block of point t. -/
def blkA (c : Dev nD) (t : Fin cfg0.N) : FVec Ideal S2048x1024 .bf16 := iblk0 V c 0 t
/-- The node-feature block of point t. -/
def blkX (c : Dev nD) (t : Fin cfg0.N) : FVec Ideal S2048x128 .f32 := iblk0 V c 1 t
/-- The edge-feature block of point t. -/
def blkH (c : Dev nD) (t : Fin cfg0.N) : FVec Ideal S1024x128 .f32 := iblk0 V c 2 t

/-- The incidence block at (k, a) is the matrix at row (t mod 2)·2048 + k, column (t div 2)·1024 + a. -/
theorem blkA_apply (c : Dev nD) (t : Fin cfg0.N) (k : Fin 2048) (a : Fin 1024) (r : Fin 4096) (e : Fin 8192)
    (hr : r.val = t.val % 2 * 2048 + k.val) (he : e.val = t.val / 2 * 1024 + a.val) :
    blkA V c t (ix2 k a) = (V c main_v25 : S4096x8192.Idx → EReal) (ix2 r e) := by
  obtain ⟨e0, e1, -⟩ := idx_facts0 t
  unfold blkA iblk0
  rw [View.read_apply]
  show V c main_v25 _ = V c main_v25 _
  congr 1
  funext ax; apply Fin.ext
  match ax with
  | ⟨0, _⟩ => show win0_0.index t (0 : Fin 2) * 2048 + 1 * k.val = r.val; omega
  | ⟨1, _⟩ => show win0_0.index t (1 : Fin 2) * 1024 + 1 * a.val = e.val; omega

/-- The node-feature block at (k, b) is the array at row (t mod 2)·2048 + k, column b. -/
theorem blkX_apply (c : Dev nD) (t : Fin cfg0.N) (k : Fin 2048) (b : Fin 128) (r : Fin 4096)
    (hr : r.val = t.val % 2 * 2048 + k.val) :
    blkX V c t (ix2 k b) = (V c main_v11 : S4096x128.Idx → EReal) (ix2 r b) := by
  obtain ⟨-, -, e0, e1, -⟩ := idx_facts0 t
  unfold blkX iblk0
  rw [View.read_apply]
  show V c main_v11 _ = V c main_v11 _
  congr 1
  funext ax; apply Fin.ext
  match ax with
  | ⟨0, _⟩ => show win0_1.index t (0 : Fin 2) * 2048 + 1 * k.val = r.val; omega
  | ⟨1, _⟩ => show win0_1.index t (1 : Fin 2) * 128 + 1 * b.val = b.val; omega

/-- The edge-feature block at (a, b) is the array at row (t div 2)·1024 + a, column b. -/
theorem blkH_apply (c : Dev nD) (t : Fin cfg0.N) (a : Fin 1024) (b : Fin 128) (e : Fin 8192)
    (he : e.val = t.val / 2 * 1024 + a.val) :
    blkH V c t (ix2 a b) = (V c main_v23 : S8192x128.Idx → EReal) (ix2 e b) := by
  obtain ⟨-, -, -, -, e0, e1, -⟩ := idx_facts0 t
  unfold blkH iblk0
  rw [View.read_apply]
  show V c main_v23 _ = V c main_v23 _
  congr 1
  funext ax; apply Fin.ext
  match ax with
  | ⟨0, _⟩ => show win0_2.index t (0 : Fin 2) * 1024 + 1 * a.val = e.val; omega
  | ⟨1, _⟩ => show win0_2.index t (1 : Fin 2) * 128 + 1 * b.val = b.val; omega

/-! ## The output's buffer after a point with k = 1 -/

/-- After a point t with k = 1 the output's buffer holds, at (a, b), the edge update at edge (t div 2)·1024 + a and
    column b, of the arrays the region was entered with. -/
theorem out_value0 (c : Dev nD) (hreal : ∀ i, IsReal ((V c main_v11 : S4096x128.Idx → EReal) i)) (t : Fin cfg0.N)
    (h1 : t.val % 2 = 1) (a : Fin 1024) (b : Fin 128) (e : Fin 8192) (he : e.val = t.val / 2 * 1024 + a.val) :
    (outsAt0 V c t.val t.isLt).1 (ix2 a b) = edgeUpdate (V c main_v25) (V c main_v11) (V c main_v23) (ix2 e b) := by
  have hN : t.val < 16 := lt_of_lt_of_eq t.isLt (show cfg0.N = 16 from N_0)
  have hlt : t.val - 1 < cfg0.N := Nat.lt_of_le_of_lt (Nat.sub_le _ _) t.isLt
  have hev : (⟨t.val - 1, hlt⟩ : Fin cfg0.N).val % 2 = 0 := by dsimp only; omega
  have hpt : (outsAt0 V c t.val t.isLt).1
      = k0_pay3 (F := Ideal) (k0_pay2 (F := Ideal) (blkX V c t) (k0_pay2 (F := Ideal) (blkX V c ⟨t.val - 1, hlt⟩) (k0_pay1 (F := Ideal)) (blkA V c ⟨t.val - 1, hlt⟩)) (blkA V c t)) (blkH V c t) := by
    rw [out_odd0 V c t h1, acc_even0 V c ⟨t.val - 1, hlt⟩ hev]
    rfl
  rw [hpt]
  refine (point_value (blkA V c ⟨t.val - 1, hlt⟩) (blkA V c t) (blkX V c ⟨t.val - 1, hlt⟩) (blkX V c t) (blkH V c t) a b ?_ ?_).trans ?_
  · intro k
    rw [blkX_apply V c ⟨t.val - 1, hlt⟩ k b ⟨k.val, by omega⟩ (by dsimp only; omega)]
    exact hreal _
  · intro k
    rw [blkX_apply V c t k b ⟨2048 + k.val, by omega⟩ (by dsimp only; omega)]
    exact hreal _
  · refine edgeUpdate_of_halves _ _ _ e b _ _ _ ?_ ?_ ?_
    · exact Finset.sum_congr rfl fun k _ => congrArg₂ (fun y z : EReal => y * z)
        (blkA_apply V c ⟨t.val - 1, hlt⟩ k a ⟨k.val, by omega⟩ e (by dsimp only; omega) (by dsimp only; omega))
        (blkX_apply V c ⟨t.val - 1, hlt⟩ k b ⟨k.val, by omega⟩ (by dsimp only; omega))
    · exact Finset.sum_congr rfl fun k _ => congrArg₂ (fun y z : EReal => y * z)
        (blkA_apply V c t k a ⟨2048 + k.val, by omega⟩ e (by dsimp only; omega) he)
        (blkX_apply V c t k b ⟨2048 + k.val, by omega⟩ (by dsimp only; omega))
    · exact blkH_apply V c t a b e he

/-! ## From the blocks to the array -/

/-- What a point with k = 1 writes back is its block of the edge update. -/
theorem flushed0_3_eq (c : Dev nD) (hreal : ∀ i, IsReal ((V c main_v11 : S4096x128.Idx → EReal) i)) (t : Fin cfg0.N)
    (hf : (cfg0.win 3).flush t = true) :
    (dat0 (F := Ideal) V c).flushed 3 t
      = ((cfg0.win 3).blk t).view.read (Elt Ideal) (edgeUpdate (V c main_v25) (V c main_v11) (V c main_v23)) := by
  have h1 : t.val % 2 = 1 := (flush0_3 t).mp hf
  have hN : t.val < 16 := lt_of_lt_of_eq t.isLt (show cfg0.N = 16 from N_0)
  obtain ⟨-, -, -, -, -, -, e0, e1⟩ := idx_facts0 t
  show (cfg0.win 3).cut (grid0.coords t) ((dat0 V c).after 3 t) = _
  rw [after0_3]
  funext j
  rw [View.read_apply]
  have hj0 : (j 0).val < 1024 := (j 0).isLt
  have hj1 : (j 1).val < 128 := (j 1).isLt
  refine Eq.trans (b := (outsAt0 V c t.val t.isLt).1 (ix2 (⟨(j 0).val, hj0⟩ : Fin 1024) (⟨(j 1).val, hj1⟩ : Fin 128))) ?_ ?_
  · exact congrArg (outsAt0 V c t.val t.isLt).1 (funext fun ax => Fin.ext (by match ax with | ⟨0, _⟩ => rfl | ⟨1, _⟩ => rfl))
  · refine (out_value0 V c hreal t h1 ⟨(j 0).val, hj0⟩ ⟨(j 1).val, hj1⟩ ⟨t.val / 2 * 1024 + (j 0).val, by omega⟩ rfl).trans ?_
    refine congrArg (edgeUpdate (V c main_v25) (V c main_v11) (V c main_v23)) (funext fun ax => Fin.ext ?_)
    match ax with
    | ⟨0, _⟩ => show t.val / 2 * 1024 + (j 0).val = win0_3.index t (0 : Fin 2) * 1024 + 1 * (j 0).val; omega
    | ⟨1, _⟩ => show (j 1).val = win0_3.index t (1 : Fin 2) * 128 + 1 * (j 1).val; omega

/-- An index of the output array is in point t's block iff each coordinate is in the block's range on its axis. -/
theorem mem_blk0_3 (t : Fin cfg0.N) (i : S8192x128.Idx) :
    i ∈ ((cfg0.win 3).blk t).view.set ↔ ∀ a : Fin 2, win0_3.index t a * S1024x128.size a ≤ (i a).val ∧ (i a).val < win0_3.index t a * S1024x128.size a + S1024x128.size a := by
  show i ∈ ((View.whole main_v27).slice (win0_3.rect t)).set ↔ _
  rw [View.set_slice_whole, Rect.mem_set_unit]
  exact Iff.rfl

/-- Every index of the output array is in the block of a point with k = 1: row e lies in edge block e div 1024. -/
theorem cover0_3 (i : S8192x128.Idx) : ∃ t : Fin cfg0.N, (cfg0.win 3).flush t = true ∧ i ∈ ((cfg0.win 3).blk t).view.set := by
  have hi0 : (i 0).val < 8192 := (i 0).isLt
  have hi1 : (i 1).val < 128 := (i 1).isLt
  have hN : cfg0.N = 16 := N_0
  have ht : 2 * ((i 0).val / 1024) + 1 < cfg0.N := by omega
  obtain ⟨-, -, -, -, -, -, e0, e1⟩ := idx_facts0 ⟨2 * ((i 0).val / 1024) + 1, ht⟩
  refine ⟨⟨2 * ((i 0).val / 1024) + 1, ht⟩, (flush0_3 _).mpr (by dsimp only; omega), ?_⟩
  rw [mem_blk0_3]
  intro a
  match a with
  | ⟨0, _⟩ =>
    show win0_3.index ⟨2 * ((i 0).val / 1024) + 1, ht⟩ (0 : Fin 2) * 1024 ≤ (i 0).val ∧ (i 0).val < win0_3.index ⟨2 * ((i 0).val / 1024) + 1, ht⟩ (0 : Fin 2) * 1024 + 1024
    dsimp only at e0; omega
  | ⟨1, _⟩ =>
    show win0_3.index ⟨2 * ((i 0).val / 1024) + 1, ht⟩ (1 : Fin 2) * 128 ≤ (i 1).val ∧ (i 1).val < win0_3.index ⟨2 * ((i 0).val / 1024) + 1, ht⟩ (1 : Fin 2) * 128 + 128
    omega

/-- After the region the output array is the edge update of the arrays the region was entered with. -/
theorem final0_core (c : Dev nD) (hreal : ∀ i, IsReal ((V c main_v11 : S4096x128.Idx → EReal) i)) :
    (dat0 (F := Ideal) V c).arrAt 3 cfg0.N = edgeUpdate (V c main_v25) (V c main_v11) (V c main_v23) :=
  (dat0 (F := Ideal) V c).arrAt_eq_of_cover 3 (edgeUpdate (V c main_v25) (V c main_v11) (V c main_v23))
    (fun t hf => flushed0_3_eq V c hreal t hf) (fun i => cover0_3 i)

end Cert.KernelIdeal.Hand

end
-- ==== Proof.Spec.lean ====
/-
  The network, stage by stage, as functions on the extended reals, index by index, over literal shapes.

  Notation: A1, A2 are the two incidence matrices (4096 nodes by 8192 edges); hv is the node features (4096 by 128),
  he the edge features (8192 by 128); W, b are the four layers' weights (4 by 128 by 128, output index first) and biases.
    edge update        X[e,j]  = max (he[e,j] + Σ_v A2[v,e]·hv[v,j]) 0
    node residual      R[p,k]  = hv[p,k] + Σ_e A1[p,e]·X[e,k]
    node layer l       H[p,j]  = act (Σ_k R[p,k]·W[l,j,k] + b[l,j]),   act x = x if 0 ≤ x, else s·x  (s the slope's literal)
    final edge output  O[e, 0..128) = Σ_v A1[v,e]·hv[v,j];  O[e, 128..256) = Σ_v A2[v,e]·hv[v,j];  O[e, 256..384) = he[e,j]
  Both programs compute hv and he at the start by the same host operations; the statements about them live with
  the programs, not here.
-/
import Idealize.ShloMosaic.PureOps.Ideal
import Idealize.ShloMosaic.Lib.ValueIdx

noncomputable section

namespace Cert.Spec

open Idealize.ShloMosaic Idealize.ShloMosaic.ValueIdx

/-- Arrays of extended reals over a literal rank-2 / rank-3 shape. -/
abbrev Arr2 (a b : Nat) : Type := (⟨2, ![a, b]⟩ : Shape).Idx → EReal
abbrev Arr3 (a b c : Nat) : Type := (⟨3, ![a, b, c]⟩ : Shape).Idx → EReal

/-- The slope of the leaky activation: the f32 literal nearest 0.01, read exactly. -/
def slope : EReal := Ideal.ofBits .f32 0x3C23D70A#32

/-- The leaky activation. -/
def act (x : EReal) : EReal := if 0 ≤ x then x else slope * x

/-- (Aᵀ·B)[e,j] = Σ_v A[v,e]·B[v,j]: contraction over the FIRST axis of both. -/
def mmT {K M N : Nat} (A : Arr2 K M) (B : Arr2 K N) (e : Fin M) (j : Fin N) : EReal :=
  ∑ v : Fin K, A (ix2 v e) * B (ix2 v j)

/-- (A·B)[p,j] = Σ_e A[p,e]·B[e,j]. -/
def mm {M K N : Nat} (A : Arr2 M K) (B : Arr2 K N) (p : Fin M) (j : Fin N) : EReal :=
  ∑ e : Fin K, A (ix2 p e) * B (ix2 e j)

/-- The edge update of a layer. -/
def edgeUpd (A2 : Arr2 4096 8192) (hv : Arr2 4096 128) (he : Arr2 8192 128) : Arr2 8192 128 :=
  fun i => max (he (ix2 (i 0) (i 1)) + mmT A2 hv (i 0) (i 1)) 0

/-- The node residual of a layer. -/
def nodeRes (A1 : Arr2 4096 8192) (hv : Arr2 4096 128) (X : Arr2 8192 128) : Arr2 4096 128 :=
  fun i => hv (ix2 (i 0) (i 1)) + mm A1 X (i 0) (i 1)

/-- Layer l's dense map with the leaky activation: weights W[l] (output index first) and bias b[l]. -/
def nodeLayer (W : Arr3 4 128 128) (b : Arr2 4 128) (l : Fin 4) (R : Arr2 4096 128) : Arr2 4096 128 :=
  fun i => act ((∑ k : Fin 128, R (ix2 (i 0) k) * W (ix3 l (i 1) k)) + b (ix2 l (i 1)))

/-- The same dense map over the layer's weights as the programs hand them to it: Wt the transposed slice (input index
    first, Wt[k,j] = W[l,j,k]) and bias the slice as a row. -/
def nodeLayerT (Wt : Arr2 128 128) (bias : Arr2 1 128) (R : Arr2 4096 128) : Arr2 4096 128 :=
  fun i => act ((∑ k : Fin 128, R (ix2 (i 0) k) * Wt (ix2 k (i 1))) + bias (ix2 0 (i 1)))

/-- With the transposed slice and the row slice of layer l the two forms agree. -/
theorem nodeLayerT_eq (W : Arr3 4 128 128) (b : Arr2 4 128) (l : Fin 4) (Wt : Arr2 128 128) (bias : Arr2 1 128)
    (hW : ∀ (k j : Fin 128), Wt (ix2 k j) = W (ix3 l j k)) (hb : ∀ j : Fin 128, bias (ix2 0 j) = b (ix2 l j)) (R : Arr2 4096 128) :
    nodeLayerT Wt bias R = nodeLayer W b l R := by
  funext i
  have hs : (∑ k : Fin 128, R (ix2 (i 0) k) * Wt (ix2 k (i 1))) = ∑ k : Fin 128, R (ix2 (i 0) k) * W (ix3 l (i 1) k) :=
    Finset.sum_congr rfl fun k _ => congrArg (R (ix2 (i 0) k) * ·) (hW k (i 1))
  show act ((∑ k : Fin 128, R (ix2 (i 0) k) * Wt (ix2 k (i 1))) + bias (ix2 0 (i 1)))
      = act ((∑ k : Fin 128, R (ix2 (i 0) k) * W (ix3 l (i 1) k)) + b (ix2 l (i 1)))
  rw [hs, hb (i 1)]

/-- One whole message-passing layer on the node features. -/
def layer (A1 A2 : Arr2 4096 8192) (W : Arr3 4 128 128) (b : Arr2 4 128) (he : Arr2 8192 128) (l : Fin 4) (hv : Arr2 4096 128) : Arr2 4096 128 :=
  nodeLayer W b l (nodeRes A1 hv (edgeUpd A2 hv he))

/-- The node features after the four layers. -/
def hvOut (A1 A2 : Arr2 4096 8192) (W : Arr3 4 128 128) (b : Arr2 4 128) (he : Arr2 8192 128) (hv0 : Arr2 4096 128) : Arr2 4096 128 :=
  layer A1 A2 W b he 3 (layer A1 A2 W b he 2 (layer A1 A2 W b he 1 (layer A1 A2 W b he 0 hv0)))

/-- The final edge output: three column blocks of width 128. -/
def heOut (A1 A2 : Arr2 4096 8192) (hv : Arr2 4096 128) (he : Arr2 8192 128) : Arr2 8192 384 :=
  fun i =>
    have hlt : (i 1).val < 384 := (i 1).isLt
    if h : (i 1).val < 128 then mmT A1 hv (i 0) ⟨(i 1).val, h⟩
    else if h' : (i 1).val < 256 then mmT A2 hv (i 0) ⟨(i 1).val - 128, by omega⟩
    else he (ix2 (i 0) ⟨(i 1).val - 256, by omega⟩)

/-- Every entry is a real number (neither infinity). -/
def AllReal {S : Shape} (x : S.Idx → EReal) : Prop := ∀ i, ∃ r : ℝ, x i = (r : EReal)

end Cert.Spec

end
-- ==== Proof.KI.Val0.lean ====
/-
  Region 0's value, against the specification: after the region its output array is the specification's edge update of
  the incidence matrix, the node features and the edge features the region was entered with, when the node features
  are real.
-/
import proofs.«181597_j77979426226450_2_alg».proof.Proof.KI.Val0Core
import proofs.«181597_j77979426226450_2_alg».proof.Proof.Spec

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL.Sem
open Idealize.ShloMosaic.Pipeline (Dat Cfg Window cellOf)
open Idealize.ShloMosaic.ValueIdx

variable (V : (c : Dev nD) → (b : Ref sig .tc) → Buf (Elt Ideal) ((c : Thread nD τ).loc b))

/-- The closed form read off the kernel is the specification's edge update. -/
theorem edgeUpdate_eq_spec (A2 : Cert.Spec.Arr2 4096 8192) (hv : Cert.Spec.Arr2 4096 128) (he : Cert.Spec.Arr2 8192 128) :
    edgeUpdate A2 hv he = Cert.Spec.edgeUpd A2 hv he := rfl

/-- After region 0 its output array is the edge update of the arrays the region was entered with. -/
theorem final0 (c : Dev nD) (hreal : Cert.Spec.AllReal (S := S4096x128) (V c main_v11)) :
    (dat0 (F := Ideal) V c).arrAt 3 cfg0.N = Cert.Spec.edgeUpd (V c main_v25) (V c main_v11) (V c main_v23) :=
  (final0_core V c hreal).trans (edgeUpdate_eq_spec (V c main_v25) (V c main_v11) (V c main_v23))

end Cert.KernelIdeal.Hand

end
-- ==== Proof.KI.Val1Pieces.lean ====
/- Region 1: what the two runs found, read back as the kernel's payloads of the blocks. In the first reduction step the
   accumulator is zeroed and the step's product of the two input blocks is added; in the last step the product is added to
   what the step before left, and the output block is the residual layer of that sum. Generic in the float values. -/
import proofs.«181597_j77979426226450_2_alg».proof.Proof.KI.Reg1
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic Idealize.SL.Sem
open Idealize.ShloMosaic.Pipeline (Dat)

variable {F : FTy → Type} [FloatOps F]

/-- The zero offsets of a whole-block access. -/
theorem hz1 : (![0, 0] : Fin 2 → Nat) = fun _ => 0 := funext fun a => by fin_cases a <;> rfl

/-- Case C's accumulator: the one covering store's payload, over the blocks and what the accumulator held. -/
theorem sout1_C_0_eq (c : Dev nD) (i : grid1.Coords) (arg2 : Memref sig .tc .vmem S1024x4096 .bf16) (harg2 : arg2.IsWhole) (arg3 : Memref sig .tc .vmem S4096x128 .f32) (harg3 : arg3.IsWhole) (arg4 : Memref sig .tc .vmem S1024x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1024x128 .f32) (harg7 : arg7.IsWhole) (arg8 : Memref sig .tc .vmem S1024x128 .f32) (harg8 : arg8.IsWhole) (hcz : ¬cond1_0 i) (hcl : cond1_1 i)
    (xa : Vec F S1024x4096 .bf16) (xb : Vec F S4096x128 .f32) (xc : Vec F S1024x128 .f32) (xd : Vec F S128x128 .f32) (xe : Vec F S1x128 .f32) (xs : Vec F S1024x128 .f32) :
    sout1_C_0 c i arg2 harg2 arg3 harg3 arg4 harg4 arg5 harg5 arg6 harg6 arg7 harg7 arg8 harg8 hcz hcl xa xb xc xd xe xs = k1_pay2 xb xs xa := by
  unfold sout1_C_0
  rw [View.read_writes_eq_canon _ _ _ (scover1_C_0 c i arg2 harg2 arg3 harg3 arg4 harg4 arg5 harg5 arg6 harg6 arg7 harg7 arg8 harg8 hcz hcl xa xb xc xd xe xs)]
  unfold kernelRun1_C
  dsimp only
  sl_unfold_words
  rw [View.canon_unit_zero (S := S1024x128) hz1]
  simp only [View.readAt_eq_ld, harg2.read_unread, harg3.read_unread, harg8.read_unread, View.ld_unit_zero (S := S1024x4096) hz1, View.ld_unit_zero (S := S4096x128) hz1, View.ld_unit_zero (S := S1024x128) hz1, View.ld_unit_zero (S := S128x128) hz1, View.ld_unit_zero (S := S1x128) hz1]

/-- Case A's accumulator: the zero block is stored and read back, then the covering store adds the product to it. -/
theorem sout1_A_0_eq (c : Dev nD) (i : grid1.Coords) (arg2 : Memref sig .tc .vmem S1024x4096 .bf16) (harg2 : arg2.IsWhole) (arg3 : Memref sig .tc .vmem S4096x128 .f32) (harg3 : arg3.IsWhole) (arg4 : Memref sig .tc .vmem S1024x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1024x128 .f32) (harg7 : arg7.IsWhole) (arg8 : Memref sig .tc .vmem S1024x128 .f32) (harg8 : arg8.IsWhole) (hcz : cond1_0 i) (hcl : ¬cond1_1 i)
    (xa : Vec F S1024x4096 .bf16) (xb : Vec F S4096x128 .f32) (xc : Vec F S1024x128 .f32) (xd : Vec F S128x128 .f32) (xe : Vec F S1x128 .f32) :
    sout1_A_0 c i arg2 harg2 arg3 harg3 arg4 harg4 arg5 harg5 arg6 harg6 arg7 harg7 arg8 harg8 hcz hcl xa xb xc xd xe = k1_pay2 xb (k1_pay1 (F := F)) xa := by
  unfold sout1_A_0
  rw [View.read_writes_eq_canon _ _ _ (scover1_A_0 c i arg2 harg2 arg3 harg3 arg4 harg4 arg5 harg5 arg6 harg6 arg7 harg7 arg8 harg8 hcz hcl xa xb xc xd xe)]
  unfold kernelRun1_A
  dsimp only
  sl_unfold_words
  rw [View.canon_cons_unit_zero (S := S1024x128) hz1, View.readCov_unit_zero (S := S1024x128) _ hz1]
  simp only [View.readAt_eq_ld, harg2.read_unread, harg3.read_unread, View.ld_unit_zero (S := S1024x4096) hz1, View.ld_unit_zero (S := S4096x128) hz1, View.ld_unit_zero (S := S1024x128) hz1, View.ld_unit_zero (S := S128x128) hz1, View.ld_unit_zero (S := S1x128) hz1]

/-- Case C's output block: the one covering store's payload, over the residual block, the accumulator as the case
    leaves it, the weight block and the bias row. -/
theorem out1_C_5_eq (c : Dev nD) (i : grid1.Coords) (arg2 : Memref sig .tc .vmem S1024x4096 .bf16) (harg2 : arg2.IsWhole) (arg3 : Memref sig .tc .vmem S4096x128 .f32) (harg3 : arg3.IsWhole) (arg4 : Memref sig .tc .vmem S1024x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1024x128 .f32) (harg7 : arg7.IsWhole) (arg8 : Memref sig .tc .vmem S1024x128 .f32) (harg8 : arg8.IsWhole) (hcz : ¬cond1_0 i) (hcl : cond1_1 i)
    (xa : Vec F S1024x4096 .bf16) (xb : Vec F S4096x128 .f32) (xc : Vec F S1024x128 .f32) (xd : Vec F S128x128 .f32) (xe : Vec F S1x128 .f32) (xs : Vec F S1024x128 .f32) :
    out1_C_5 c i arg2 harg2 arg3 harg3 arg4 harg4 arg5 harg5 arg6 harg6 arg7 harg7 arg8 harg8 hcz hcl xa xb xc xd xe xs = k1_pay3 xc (k1_pay2 xb xs xa) xd xe := by
  unfold out1_C_5
  rw [View.read_writes_eq_canon _ _ _ (cover1_C_5 c i arg2 harg2 arg3 harg3 arg4 harg4 arg5 harg5 arg6 harg6 arg7 harg7 arg8 harg8 hcz hcl xa xb xc xd xe xs)]
  unfold kernelRun1_C
  dsimp only
  sl_unfold_words
  rw [View.canon_unit_zero (S := S1024x128) hz1]
  simp only [View.readAt_eq_ld, harg2.read_unread, harg3.read_unread, harg4.read_unread, harg5.read_unread, harg6.read_unread, harg8.read_unread, View.ld_unit_zero (S := S1024x4096) hz1, View.ld_unit_zero (S := S4096x128) hz1, View.ld_unit_zero (S := S1024x128) hz1, View.ld_unit_zero (S := S128x128) hz1, View.ld_unit_zero (S := S1x128) hz1]
  rw [View.readCov_unit_zero (S := S1024x128) _ hz1]

end Cert.KernelIdeal.Hand

end
-- ==== Proof.KI.Val1Payload.lean ====
/-
  Region 1's payloads read at an index, on the extended reals, over explicit coordinates (p, q) of a 1024 by 128 block:
  the zero block is 0; the accumulation step is acc[p,q] + Σ_e A[p,e]·x[e,q] over the 4096 columns of the incidence
  block, the contraction against the remainder x - x vanishing when column q of x is real; the residual layer is
  act (Σ_k (h[p,k] + acc[p,k])·Wt[k,q] + b[0,q]) with act x = x for 0 ≤ x and slope·x otherwise.
-/
import proofs.«181597_j77979426226450_2_alg».proof.Proof.Gen.KernelIdeal.Skeleton
import proofs.«181597_j77979426226450_2_alg».proof.Proof.LibSplitAccumulate
import proofs.«181597_j77979426226450_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL.Sem
open Idealize.ShloMosaic.Pipeline (Dat Cfg Window cellOf)
open Idealize.ShloMosaic.ValueIdx

open Cert.SplitAccumulate

/-- The product of a 1024 by 4096 block with a 4096 by 128 block, into the zero block, at (p, q): Σ_e A[p,e]·B[e,q]. -/
theorem matmulBlk1_zero_apply (A : FVec Ideal S1024x4096 .bf16) (B : FVec Ideal S4096x128 .bf16) (p : Fin 1024) (q : Fin 128) :
    matmul (F := Ideal) dot_S1024x4096_S4096x128_S1024x128_1_0_0_1_n_n none A B (constant (F := Ideal) S1024x128 .f32 0x00000000#32) (ix2 p q)
      = ∑ k : Fin 4096, (A (ix2 p k) : EReal) * (B (ix2 k q) : EReal) := by
  refine (Ideal.matmul_constant_zero_apply dot_S1024x4096_S4096x128_S1024x128_1_0_0_1_n_n none A B (ix2 p q)).trans ?_
  rw [← Equiv.sum_comp (contrEquiv1 dot_S1024x4096_S4096x128_S1024x128_1_0_0_1_n_n 4096 rfl rfl).symm]
  refine Finset.sum_congr rfl fun k _ => ?_
  have ck := contrEquiv1_symm_val dot_S1024x4096_S4096x128_S1024x128_1_0_0_1_n_n 4096 rfl rfl k
  have l2 : (dot_S1024x4096_S4096x128_S1024x128_1_0_0_1_n_n).lhsIdx (ix2 p q) ((contrEquiv1 dot_S1024x4096_S4096x128_S1024x128_1_0_0_1_n_n 4096 rfl rfl).symm k) = ix2 p k := by
    funext ax; apply Fin.ext
    match ax with
    | ⟨0, _⟩ => simp [DotDims.lhsIdx, dot_S1024x4096_S4096x128_S1024x128_1_0_0_1_n_n]; rfl
    | ⟨1, _⟩ => simp [DotDims.lhsIdx, dot_S1024x4096_S4096x128_S1024x128_1_0_0_1_n_n]; exact ck
  have r2 : (dot_S1024x4096_S4096x128_S1024x128_1_0_0_1_n_n).rhsIdx (ix2 p q) ((contrEquiv1 dot_S1024x4096_S4096x128_S1024x128_1_0_0_1_n_n 4096 rfl rfl).symm k) = ix2 k q := by
    funext ax; apply Fin.ext
    match ax with
    | ⟨0, _⟩ => simp [DotDims.rhsIdx, dot_S1024x4096_S4096x128_S1024x128_1_0_0_1_n_n]; exact ck
    | ⟨1, _⟩ => simp [DotDims.rhsIdx, dot_S1024x4096_S4096x128_S1024x128_1_0_0_1_n_n]; rfl
  rw [l2, r2]

/-- The product of a 1024 by 128 block with the 128 by 128 weight block, into the zero block, at (p, q): Σ_k A[p,k]·B[k,q]. -/
theorem matmulDense1_zero_apply (A : FVec Ideal S1024x128 .f32) (B : FVec Ideal S128x128 .f32) (p : Fin 1024) (q : Fin 128) :
    matmul (F := Ideal) dot_S1024x128_S128x128_S1024x128_1_0_0_1_n_n none A B (constant (F := Ideal) S1024x128 .f32 0x00000000#32) (ix2 p q)
      = ∑ k : Fin 128, (A (ix2 p k) : EReal) * (B (ix2 k q) : EReal) := by
  refine (Ideal.matmul_constant_zero_apply dot_S1024x128_S128x128_S1024x128_1_0_0_1_n_n none A B (ix2 p q)).trans ?_
  rw [← Equiv.sum_comp (contrEquiv1 dot_S1024x128_S128x128_S1024x128_1_0_0_1_n_n 128 rfl rfl).symm]
  refine Finset.sum_congr rfl fun k _ => ?_
  have ck := contrEquiv1_symm_val dot_S1024x128_S128x128_S1024x128_1_0_0_1_n_n 128 rfl rfl k
  have l2 : (dot_S1024x128_S128x128_S1024x128_1_0_0_1_n_n).lhsIdx (ix2 p q) ((contrEquiv1 dot_S1024x128_S128x128_S1024x128_1_0_0_1_n_n 128 rfl rfl).symm k) = ix2 p k := by
    funext ax; apply Fin.ext
    match ax with
    | ⟨0, _⟩ => simp [DotDims.lhsIdx, dot_S1024x128_S128x128_S1024x128_1_0_0_1_n_n]; rfl
    | ⟨1, _⟩ => simp [DotDims.lhsIdx, dot_S1024x128_S128x128_S1024x128_1_0_0_1_n_n]; exact ck
  have r2 : (dot_S1024x128_S128x128_S1024x128_1_0_0_1_n_n).rhsIdx (ix2 p q) ((contrEquiv1 dot_S1024x128_S128x128_S1024x128_1_0_0_1_n_n 128 rfl rfl).symm k) = ix2 k q := by
    funext ax; apply Fin.ext
    match ax with
    | ⟨0, _⟩ => simp [DotDims.rhsIdx, dot_S1024x128_S128x128_S1024x128_1_0_0_1_n_n]; exact ck
    | ⟨1, _⟩ => simp [DotDims.rhsIdx, dot_S1024x128_S128x128_S1024x128_1_0_0_1_n_n]; rfl
  rw [l2, r2]

/-- The zero block at an index. -/
theorem k1_pay1_apply (p : Fin 1024) (q : Fin 128) : k1_pay1 (F := Ideal) (ix2 p q) = (0 : EReal) := by
  unfold k1_pay1
  simp only [shapeCast_self]
  exact Ideal.ofBits_zero_f32

/-- The accumulation step at an index: the accumulator plus the product of the two blocks, when the feature block's
    column is real. -/
theorem k1_pay2_apply (xb : FVec Ideal S4096x128 .f32) (acc : FVec Ideal S1024x128 .f32) (xa : FVec Ideal S1024x4096 .bf16)
    (p : Fin 1024) (q : Fin 128) (hreal : ∀ e : Fin 4096, IsReal (xb (ix2 e q))) :
    k1_pay2 (F := Ideal) xb acc xa (ix2 p q)
      = (acc (ix2 p q) : EReal) + ∑ e : Fin 4096, (xa (ix2 p e) : EReal) * (xb (ix2 e q) : EReal) := by
  unfold k1_pay2
  simp only [shapeCast_self]
  refine Eq.trans (congrArg (fun z : EReal => (acc (ix2 p q) : EReal) + z)
    (congrArg₂ (fun y z : EReal => y + z) (matmulBlk1_zero_apply xa _ p q) (matmulBlk1_zero_apply xa _ p q))) ?_
  exact congrArg (fun z : EReal => (acc (ix2 p q) : EReal) + z)
    (sum_split (fun e : Fin 4096 => (xa (ix2 p e) : EReal)) (fun e : Fin 4096 => (xb (ix2 e q) : EReal)) hreal)

/-- The leaky step on one value: the comparison against zero selects the value or its product with the slope. -/
theorem leaky1_apply (x : Ideal .f32) :
    Scalar.select (FloatOps.cmpf (F := Ideal) (φ := .f32) .oge x (Ideal.ofBits .f32 0x00000000#32)) x
        (FloatOps.mulf (F := Ideal) (φ := .f32) (Ideal.ofBits .f32 0x3C23D70A#32) x) = Cert.Spec.act x := by
  by_cases h : (0 : EReal) ≤ x
  · have e : FloatOps.cmpf (F := Ideal) (φ := .f32) .oge x (Ideal.ofBits .f32 0x00000000#32) = 1#1 := by
      rw [Ideal.cmpf_def, Ideal.ofBits_zero_f32]
      show BitVec.ofBool (decide ((0 : EReal) ≤ x)) = 1#1
      rw [decide_eq_true h]; rfl
    rw [e, select_one]; unfold Cert.Spec.act; rw [if_pos h]
  · have e : FloatOps.cmpf (F := Ideal) (φ := .f32) .oge x (Ideal.ofBits .f32 0x00000000#32) = 0#1 := by
      rw [Ideal.cmpf_def, Ideal.ofBits_zero_f32]
      show BitVec.ofBool (decide ((0 : EReal) ≤ x)) = 0#1
      rw [decide_eq_false h]; rfl
    rw [e, select_zero]; unfold Cert.Spec.act Cert.Spec.slope; rw [if_neg h]; rfl

/-- The residual layer at an index: the dense map of the residual block plus the accumulator, plus the bias row, under
    the leaky activation. -/
theorem k1_pay3_apply (xc acc : FVec Ideal S1024x128 .f32) (xd : FVec Ideal S128x128 .f32) (xe : FVec Ideal S1x128 .f32)
    (p : Fin 1024) (q : Fin 128) :
    k1_pay3 (F := Ideal) xc acc xd xe (ix2 p q)
      = Cert.Spec.act ((∑ k : Fin 128, ((xc (ix2 p k) : EReal) + (acc (ix2 p k) : EReal)) * (xd (ix2 k q) : EReal))
          + (xe (ix2 (0 : Fin 1) q) : EReal)) := by
  unfold k1_pay3
  simp only [shapeCast_self]
  have key : ∀ (v w : Ideal .f32), v = w →
      Scalar.select (FloatOps.cmpf (F := Ideal) (φ := .f32) .oge v (Ideal.ofBits .f32 0x00000000#32)) v
        (FloatOps.mulf (F := Ideal) (φ := .f32) (Ideal.ofBits .f32 0x3C23D70A#32) v) = Cert.Spec.act w :=
    fun v w h => h ▸ leaky1_apply v
  refine key _ _ ?_
  exact congrArg₂ (fun y z : EReal => y + z) (matmulDense1_zero_apply (addf xc acc) xd p q)
    (broadcastTo_1b_ab_apply xe broadcasts_S1x128_S1024x128 p q)

end Cert.KernelIdeal.Hand

end
-- ==== Proof.KI.Val1Point.lean ====
/-
  Region 1, one block row: the output block of the row's last reduction step, read at (p, q), is the residual layer of
  the whole arrays at row i·1024 + p. The accumulator of the two steps is (0 + S₀) + S₁ with S₀, S₁ the contractions
  over the lower and upper halves of the 8192 edges, which together are the contraction over all of them; the rounding
  split of the edge update costs nothing because its entries are real.
-/
import proofs.«181597_j77979426226450_2_alg».proof.Proof.KI.Val1Payload

set_option maxRecDepth 16384

noncomputable section

namespace Cert.KernelIdeal.Hand

open Cert.KernelIdeal Cert.KernelIdeal.Gen
open Idealize.ShloMosaic Idealize.ShloMosaic.ValueIdx
open Cert.SplitAccumulate

/-- The residual layer of block row `i` at (p, q) from the blocks of its two reduction steps: `A0`, `X0` the first step's
    incidence and edge-update blocks (edges 0 … 4095), `A1`, `X1` the second's (edges 4096 … 8191), `H` the row's
    node-feature block, `Wb`, `Bb` the weight block and the bias row — each hypothesis says where the block sits in its
    array. -/
theorem layerBlock1_apply (A : Cert.Spec.Arr2 4096 8192) (hv : Cert.Spec.Arr2 4096 128) (X : Cert.Spec.Arr2 8192 128)
    (Wt : Cert.Spec.Arr2 128 128) (bias : Cert.Spec.Arr2 1 128) (hX : Cert.Spec.AllReal X) (i : Fin 4)
    (A0 A1 : FVec Ideal S1024x4096 .bf16) (X0 X1 : FVec Ideal S4096x128 .f32) (H : FVec Ideal S1024x128 .f32)
    (Wb : FVec Ideal S128x128 .f32) (Bb : FVec Ideal S1x128 .f32)
    (hA0 : ∀ (p : Fin 1024) (e : Fin 4096), (A0 (ix2 p e) : EReal) = A (ix2 ⟨i.val * 1024 + p.val, by omega⟩ ⟨e.val, by omega⟩))
    (hA1 : ∀ (p : Fin 1024) (e : Fin 4096), (A1 (ix2 p e) : EReal) = A (ix2 ⟨i.val * 1024 + p.val, by omega⟩ ⟨4096 + e.val, by omega⟩))
    (hX0 : ∀ (e : Fin 4096) (k : Fin 128), (X0 (ix2 e k) : EReal) = X (ix2 ⟨e.val, by omega⟩ k))
    (hX1 : ∀ (e : Fin 4096) (k : Fin 128), (X1 (ix2 e k) : EReal) = X (ix2 ⟨4096 + e.val, by omega⟩ k))
    (hH : ∀ (p : Fin 1024) (k : Fin 128), (H (ix2 p k) : EReal) = hv (ix2 ⟨i.val * 1024 + p.val, by omega⟩ k))
    (hW : ∀ (k q : Fin 128), (Wb (ix2 k q) : EReal) = Wt (ix2 k q))
    (hB : ∀ q : Fin 128, (Bb (ix2 (0 : Fin 1) q) : EReal) = bias (ix2 (0 : Fin 1) q))
    (p : Fin 1024) (q : Fin 128) :
    k1_pay3 (F := Ideal) H (k1_pay2 (F := Ideal) X1 (k1_pay2 (F := Ideal) X0 (k1_pay1 (F := Ideal)) A0) A1) Wb Bb (ix2 p q)
      = Cert.Spec.nodeLayerT Wt bias (Cert.Spec.nodeRes A hv X) (ix2 (⟨i.val * 1024 + p.val, by omega⟩ : Fin 4096) q) := by
  have hsum : ∀ k : Fin 128,
      (H (ix2 p k) : EReal) + (k1_pay2 (F := Ideal) X1 (k1_pay2 (F := Ideal) X0 (k1_pay1 (F := Ideal)) A0) A1 (ix2 p k) : EReal)
        = hv (ix2 ⟨i.val * 1024 + p.val, by omega⟩ k)
          + ∑ e : Fin 8192, A (ix2 ⟨i.val * 1024 + p.val, by omega⟩ e) * X (ix2 e k) := by
    intro k
    rw [k1_pay2_apply X1 _ A1 p k (fun e => by rw [hX1]; exact hX _),
      k1_pay2_apply X0 _ A0 p k (fun e => by rw [hX0]; exact hX _), k1_pay1_apply, zero_add, hH,
      sum_halves (n := 4096) (m := 8192) rfl (fun e : Fin 8192 => A (ix2 ⟨i.val * 1024 + p.val, by omega⟩ e) * X (ix2 e k))]
    simp only [hA0, hA1, hX0, hX1]
  rw [k1_pay3_apply]
  simp only [hsum, hW, hB]
  rfl

end Cert.KernelIdeal.Hand

end
-- ==== Proof.KI.Val1.lean ====
/-
  Region 1's value on the extended reals: after the region, the output array is the residual layer of the node residual,
  nodeLayerT Wt b (nodeRes A hv X), when every entry of the edge update X is real. The output block of block row i is
  written back once, after the row's second reduction step; it is the layer at rows i·1024 … i·1024 + 1023, and the four
  rows of blocks tile the array.
-/
import proofs.«181597_j77979426226450_2_alg».proof.Proof.KI.Val1Pieces
import proofs.«181597_j77979426226450_2_alg».proof.Proof.KI.Val1Point

set_option maxRecDepth 16384

noncomputable section

namespace Cert.KernelIdeal.Hand

open Cert.KernelIdeal Cert.KernelIdeal.Gen
open Idealize.ShloMosaic Idealize.ShloMosaic.TcCoe Idealize.ShloMosaic.Tactic Idealize.SL.Sem
open Idealize.ShloMosaic.Pipeline (Dat)
open Idealize.ShloMosaic.ValueIdx
open Cert.SplitAccumulate

/-! ## The output block after a row's second step, from the two found pieces (any float values) -/

section AnyValues
variable {F : FTy → Type} [FloatOps F] (V : (c : Dev nD) → (b : Ref sig .tc) → Buf (Elt F) ((c : Thread nD τ).loc b))

/-- The point before `t`. -/
abbrev prevPt1 (t : Fin cfg1.N) : Fin cfg1.N := ⟨t.val - 1, Nat.lt_of_le_of_lt (Nat.sub_le _ _) t.isLt⟩

set_option maxHeartbeats 2000000 in
/-- At a point of the second step the output block is the residual layer's payload of the row's blocks and of the
    accumulator, which is the second step's product added to the first step's product added to the zero block. -/
theorem outAt1_last (c : Dev nD) (t : Fin cfg1.N) (hl : t.val % 2 = 1) :
    (outsAt1 V c t.val t.isLt).1
      = k1_pay3 (iblk1 V c 2 t) (k1_pay2 (iblk1 V c 1 t) (k1_pay2 (iblk1 V c 1 (prevPt1 t)) (k1_pay1 (F := F)) (iblk1 V c 0 (prevPt1 t))) (iblk1 V c 0 t))
          (iblk1 V c 3 t) (iblk1 V c 4 t) := by
  have hz : ¬t.val % 2 = 0 := by omega
  have hzp : (prevPt1 t).val % 2 = 0 := by show (t.val - 1) % 2 = 0; omega
  have hlp : ¬(prevPt1 t).val % 2 = 1 := by show ¬(t.val - 1) % 2 = 1; omega
  have hprev : (outsAt1 V c (t.val - 1) (Nat.lt_of_le_of_lt (Nat.sub_le _ _) t.isLt)).2
      = k1_pay2 (iblk1 V c 1 (prevPt1 t)) (k1_pay1 (F := F)) (iblk1 V c 0 (prevPt1 t)) :=
    (congrArg Prod.snd (outsAt1_A V c (prevPt1 t) hzp hlp)).trans
      (sout1_A_0_eq c (grid1.coords (prevPt1 t)) (ms1_0 (prevPt1 t)) (hs1_0 (prevPt1 t)) (ms1_1 (prevPt1 t)) (hs1_1 (prevPt1 t)) (ms1_2 (prevPt1 t)) (hs1_2 (prevPt1 t)) (ms1_3 (prevPt1 t)) (hs1_3 (prevPt1 t)) (ms1_4 (prevPt1 t)) (hs1_4 (prevPt1 t)) (ms1_5 (prevPt1 t)) (hs1_5 (prevPt1 t)) scM1_0 (Memref.isWhole_whole _) ((hcond1_0 (prevPt1 t)).mpr hzp) (fun h => hlp ((hcond1_1 (prevPt1 t)).mp h)) (iblk1 V c 0 (prevPt1 t)) (iblk1 V c 1 (prevPt1 t)) (iblk1 V c 2 (prevPt1 t)) (iblk1 V c 3 (prevPt1 t)) (iblk1 V c 4 (prevPt1 t)))
  refine (congrArg Prod.fst (outsAt1_C V c t hz hl)).trans ?_
  refine (out1_C_5_eq c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) (fun h => hz ((hcond1_0 t).mp h)) ((hcond1_1 t).mpr hl) (iblk1 V c 0 t) (iblk1 V c 1 t) (iblk1 V c 2 t) (iblk1 V c 3 t) (iblk1 V c 4 t)
    (outsAt1 V c (t.val - 1) (Nat.lt_of_le_of_lt (Nat.sub_le _ _) t.isLt)).2).trans ?_
  rw [hprev]

end AnyValues

/-! ## On the extended reals -/

section AtIdeal
variable (V : (c : Dev nD) → (b : Ref sig .tc) → Buf (Elt Ideal) ((c : Thread nD τ).loc b))

/-- Window 0's block at point `t`, at (y, z), is its array at the block's offset plus (y, z). -/
theorem iblk1_0_apply (c : Dev nD) (t : Fin cfg1.N) (y : Fin 1024) (z : Fin 4096) (Y : Fin 4096) (Z : Fin 8192)
    (hY : win1_0.index t (0 : Fin 2) * 1024 + 1 * y.val = Y.val) (hZ : win1_0.index t (1 : Fin 2) * 4096 + 1 * z.val = Z.val) :
    ((iblk1 V c 0 t : FVec Ideal S1024x4096 .bf16) (ix2 y z) : EReal) = (V c main_v24 : Cert.Spec.Arr2 4096 8192) (ix2 Y Z) := by
  unfold iblk1
  rw [View.read_apply]
  show V c main_v24 _ = V c main_v24 _
  refine congrArg (V c main_v24) (funext fun a => Fin.ext ?_)
  match a with
  | ⟨0, _⟩ => exact hY
  | ⟨1, _⟩ => exact hZ

/-- Window 1's block at point `t`, at (y, z), is its array at the block's offset plus (y, z). -/
theorem iblk1_1_apply (c : Dev nD) (t : Fin cfg1.N) (y : Fin 4096) (z : Fin 128) (Y : Fin 8192) (Z : Fin 128)
    (hY : win1_1.index t (0 : Fin 2) * 4096 + 1 * y.val = Y.val) (hZ : win1_1.index t (1 : Fin 2) * 128 + 1 * z.val = Z.val) :
    ((iblk1 V c 1 t : FVec Ideal S4096x128 .f32) (ix2 y z) : EReal) = (V c main_v27 : Cert.Spec.Arr2 8192 128) (ix2 Y Z) := by
  unfold iblk1
  rw [View.read_apply]
  show V c main_v27 _ = V c main_v27 _
  refine congrArg (V c main_v27) (funext fun a => Fin.ext ?_)
  match a with
  | ⟨0, _⟩ => exact hY
  | ⟨1, _⟩ => exact hZ

/-- Window 2's block at point `t`, at (y, z), is its array at the block's offset plus (y, z). -/
theorem iblk1_2_apply (c : Dev nD) (t : Fin cfg1.N) (y : Fin 1024) (z : Fin 128) (Y : Fin 4096) (Z : Fin 128)
    (hY : win1_2.index t (0 : Fin 2) * 1024 + 1 * y.val = Y.val) (hZ : win1_2.index t (1 : Fin 2) * 128 + 1 * z.val = Z.val) :
    ((iblk1 V c 2 t : FVec Ideal S1024x128 .f32) (ix2 y z) : EReal) = (V c main_v11 : Cert.Spec.Arr2 4096 128) (ix2 Y Z) := by
  unfold iblk1
  rw [View.read_apply]
  show V c main_v11 _ = V c main_v11 _
  refine congrArg (V c main_v11) (funext fun a => Fin.ext ?_)
  match a with
  | ⟨0, _⟩ => exact hY
  | ⟨1, _⟩ => exact hZ

/-- Window 3's block at point `t`, at (y, z), is its array at the block's offset plus (y, z). -/
theorem iblk1_3_apply (c : Dev nD) (t : Fin cfg1.N) (y : Fin 128) (z : Fin 128) (Y : Fin 128) (Z : Fin 128)
    (hY : win1_3.index t (0 : Fin 2) * 128 + 1 * y.val = Y.val) (hZ : win1_3.index t (1 : Fin 2) * 128 + 1 * z.val = Z.val) :
    ((iblk1 V c 3 t : FVec Ideal S128x128 .f32) (ix2 y z) : EReal) = (V c main_v29 : Cert.Spec.Arr2 128 128) (ix2 Y Z) := by
  unfold iblk1
  rw [View.read_apply]
  show V c main_v29 _ = V c main_v29 _
  refine congrArg (V c main_v29) (funext fun a => Fin.ext ?_)
  match a with
  | ⟨0, _⟩ => exact hY
  | ⟨1, _⟩ => exact hZ

/-- Window 4's block at point `t`, at (y, z), is its array at the block's offset plus (y, z). -/
theorem iblk1_4_apply (c : Dev nD) (t : Fin cfg1.N) (y : Fin 1) (z : Fin 128) (Y : Fin 1) (Z : Fin 128)
    (hY : win1_4.index t (0 : Fin 2) * 1 + 1 * y.val = Y.val) (hZ : win1_4.index t (1 : Fin 2) * 128 + 1 * z.val = Z.val) :
    ((iblk1 V c 4 t : FVec Ideal S1x128 .f32) (ix2 y z) : EReal) = (V c main_v32 : Cert.Spec.Arr2 1 128) (ix2 Y Z) := by
  unfold iblk1
  rw [View.read_apply]
  show V c main_v32 _ = V c main_v32 _
  refine congrArg (V c main_v32) (funext fun a => Fin.ext ?_)
  match a with
  | ⟨0, _⟩ => exact hY
  | ⟨1, _⟩ => exact hZ

/-- The printed index maps at a point of the second step, decided over the grid: the output, the node features and
    the incidence block sit in block row t / 2, the incidence block and the edge update in the upper half of the edges;
    the weights and the bias do not move. -/
theorem idx_last1 : ∀ t : Fin cfg1.N, t.val % 2 = 1 →
    win1_5.index t (0 : Fin 2) = t.val / 2 ∧ win1_5.index t (1 : Fin 2) = 0
    ∧ win1_2.index t (0 : Fin 2) = t.val / 2 ∧ win1_2.index t (1 : Fin 2) = 0
    ∧ win1_0.index t (0 : Fin 2) = t.val / 2 ∧ win1_0.index t (1 : Fin 2) = 1
    ∧ win1_1.index t (0 : Fin 2) = 1 ∧ win1_1.index t (1 : Fin 2) = 0
    ∧ win1_3.index t (0 : Fin 2) = 0 ∧ win1_3.index t (1 : Fin 2) = 0
    ∧ win1_4.index t (0 : Fin 2) = 0 ∧ win1_4.index t (1 : Fin 2) = 0 :=
  (by decide +kernel : ∀ t : Fin grid1.N, t.val % 2 = 1 → _)

/-- At a point of the first step: the incidence block in block row t / 2 and the lower half of the edges, the edge
    update in the lower half. -/
theorem idx_first1 : ∀ t : Fin cfg1.N, t.val % 2 = 0 →
    win1_0.index t (0 : Fin 2) = t.val / 2 ∧ win1_0.index t (1 : Fin 2) = 0
    ∧ win1_1.index t (0 : Fin 2) = 0 ∧ win1_1.index t (1 : Fin 2) = 0 :=
  (by decide +kernel : ∀ t : Fin grid1.N, t.val % 2 = 0 → _)

/-- The layer as one function of the arrays the region finds. -/
abbrev layerOf1 (c : Dev nD) : Cert.Spec.Arr2 4096 128 :=
  Cert.Spec.nodeLayerT (V c main_v29) (V c main_v32) (Cert.Spec.nodeRes (V c main_v24) (V c main_v11) (V c main_v27))

/-- What a point of the second step writes back is its block of the layer. -/
theorem flushed1_5_eq (c : Dev nD) (hreal : Cert.Spec.AllReal (V c main_v27 : Cert.Spec.Arr2 8192 128)) (t : Fin cfg1.N)
    (hf : (cfg1.win 5).flush t = true) :
    (dat1 (F := Ideal) V c).flushed 5 t = ((cfg1.win 5).blk t).view.read (Elt Ideal) (layerOf1 V c) := by
  have hl : t.val % 2 = 1 := (flush1_5 t).mp hf
  have hN : t.val < 8 := lt_of_lt_of_eq t.isLt (show cfg1.N = 8 from N_1)
  have hzp : (prevPt1 t).val % 2 = 0 := by show (t.val - 1) % 2 = 0; omega
  have hpv : (prevPt1 t).val = t.val - 1 := rfl
  obtain ⟨o0, o1, h0, h1, a0, a1, x0, x1, w0, w1, b0, b1⟩ := idx_last1 t hl
  obtain ⟨pa0, pa1, px0, px1⟩ := idx_first1 (prevPt1 t) hzp
  show (cfg1.win 5).cut (grid1.coords t) ((dat1 V c).after 5 t) = _
  rw [after1_5, outAt1_last V c t hl]
  funext j
  obtain ⟨p, q, rfl⟩ : ∃ (p : Fin 1024) (q : Fin 128), j = ix2 p q := ⟨j 0, j 1, eq_ix2 j⟩
  have hp : p.val < 1024 := p.isLt
  have hq : q.val < 128 := q.isLt
  have hemb : ((cfg1.win 5).blk t).view.emb (ix2 p q) = ix2 (⟨(⟨t.val / 2, by omega⟩ : Fin 4).val * 1024 + p.val, by show t.val / 2 * 1024 + p.val < 4096; omega⟩ : Fin 4096) q := by
    funext a; apply Fin.ext
    match a with
    | ⟨0, _⟩ => show win1_5.index t (0 : Fin 2) * 1024 + 1 * p.val = t.val / 2 * 1024 + p.val; rw [o0]; omega
    | ⟨1, _⟩ => show win1_5.index t (1 : Fin 2) * 128 + 1 * q.val = q.val; rw [o1]; omega
  rw [View.read_apply, hemb]
  exact layerBlock1_apply (V c main_v24) (V c main_v11) (V c main_v27) (V c main_v29) (V c main_v32) hreal ⟨t.val / 2, by omega⟩
    (iblk1 V c 0 (prevPt1 t)) (iblk1 V c 0 t) (iblk1 V c 1 (prevPt1 t)) (iblk1 V c 1 t) (iblk1 V c 2 t) (iblk1 V c 3 t) (iblk1 V c 4 t)
    (fun y e => iblk1_0_apply V c (prevPt1 t) y e _ _ (by show _ = t.val / 2 * 1024 + y.val; rw [pa0, hpv]; omega) (by show _ = e.val; rw [pa1]; omega))
    (fun y e => iblk1_0_apply V c t y e _ _ (by show _ = t.val / 2 * 1024 + y.val; rw [a0]; omega) (by show _ = 4096 + e.val; rw [a1]; omega))
    (fun e k => iblk1_1_apply V c (prevPt1 t) e k _ _ (by show _ = e.val; rw [px0]; omega) (by show _ = k.val; rw [px1]; omega))
    (fun e k => iblk1_1_apply V c t e k _ _ (by show _ = 4096 + e.val; rw [x0]; omega) (by show _ = k.val; rw [x1]; omega))
    (fun y k => iblk1_2_apply V c t y k _ _ (by show _ = t.val / 2 * 1024 + y.val; rw [h0]; omega) (by show _ = k.val; rw [h1]; omega))
    (fun k z => iblk1_3_apply V c t k z _ _ (by show _ = k.val; rw [w0]; omega) (by show _ = z.val; rw [w1]; omega))
    (fun z => iblk1_4_apply V c t (0 : Fin 1) z _ _ (by show _ = (0 : Fin 1).val; rw [b0]; rfl) (by show _ = z.val; rw [b1]; omega))
    p q

/-- An index of the output array is in point `t`'s block iff each coordinate is in the block's range on its axis. -/
theorem mem_blk1_5 (t : Fin cfg1.N) (i : S4096x128.Idx) :
    i ∈ ((cfg1.win 5).blk t).view.set ↔ ∀ a : Fin 2, win1_5.index t a * S1024x128.size a ≤ (i a).val ∧ (i a).val < win1_5.index t a * S1024x128.size a + S1024x128.size a := by
  show i ∈ ((View.whole main_v33).slice (win1_5.rect t)).set ↔ _
  rw [View.set_slice_whole, Rect.mem_set_unit]
  exact Iff.rfl

/-- Every index of the output array is in the block some second-step point writes back: row r is in block row r / 1024. -/
theorem cover1_5 (i : S4096x128.Idx) : ∃ t : Fin cfg1.N, (cfg1.win 5).flush t = true ∧ i ∈ ((cfg1.win 5).blk t).view.set := by
  have hi0 : (i 0).val < 4096 := (i 0).isLt
  have hi1 : (i 1).val < 128 := (i 1).isLt
  have hN : cfg1.N = 8 := N_1
  have hlt : 2 * ((i 0).val / 1024) + 1 < cfg1.N := by rw [hN]; omega
  have hval : (⟨2 * ((i 0).val / 1024) + 1, hlt⟩ : Fin cfg1.N).val = 2 * ((i 0).val / 1024) + 1 := rfl
  have hodd : (⟨2 * ((i 0).val / 1024) + 1, hlt⟩ : Fin cfg1.N).val % 2 = 1 := by rw [hval]; omega
  obtain ⟨o0, o1, -⟩ := idx_last1 ⟨2 * ((i 0).val / 1024) + 1, hlt⟩ hodd
  refine ⟨⟨2 * ((i 0).val / 1024) + 1, hlt⟩, (flush1_5 _).mpr hodd, ?_⟩
  rw [mem_blk1_5]
  intro a
  match a with
  | ⟨0, _⟩ =>
    show win1_5.index ⟨2 * ((i 0).val / 1024) + 1, hlt⟩ (0 : Fin 2) * 1024 ≤ (i 0).val ∧ (i 0).val < win1_5.index ⟨2 * ((i 0).val / 1024) + 1, hlt⟩ (0 : Fin 2) * 1024 + 1024
    rw [o0, hval]; omega
  | ⟨1, _⟩ =>
    show win1_5.index ⟨2 * ((i 0).val / 1024) + 1, hlt⟩ (1 : Fin 2) * 128 ≤ (i 1).val ∧ (i 1).val < win1_5.index ⟨2 * ((i 0).val / 1024) + 1, hlt⟩ (1 : Fin 2) * 128 + 128
    rw [o1]; omega

/-- THE VALUE of region 1: after the region the output array is the residual layer of the node residual of the arrays the
    region finds, when every entry of the edge update is real. -/
theorem final1 (c : Dev nD) (hreal : Cert.Spec.AllReal (V c main_v27 : Cert.Spec.Arr2 8192 128)) :
    (dat1 (F := Ideal) V c).arrAt 5 cfg1.N
      = Cert.Spec.nodeLayerT (V c main_v29) (V c main_v32) (Cert.Spec.nodeRes (V c main_v24) (V c main_v11) (V c main_v27)) :=
  (dat1 (F := Ideal) V c).arrAt_eq_of_cover 5 (layerOf1 V c) (fun t hf => flushed1_5_eq V c hreal t hf) (fun i => cover1_5 i)

end AtIdeal

end Cert.KernelIdeal.Hand

end
-- ==== Proof.KI.Val2Pieces.lean ====
/-
  Region 2: what the pieces found by the two runs of the body are, as the kernel's payloads of the blocks. At k = 0 the
  accumulator is left at the second payload over the zero payload; at k = 1 at the second payload over the accumulator
  it was entered with, and the output's buffer at the third payload of that and the edge-feature block.
-/
import proofs.«181597_j77979426226450_2_alg».proof.Proof.KI.Reg2
import Idealize.ShloMosaic.Lib.Pipeline.Value
import Idealize.ShloMosaic.Lib.ValueIdx
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL.Sem
open Idealize.ShloMosaic.Pipeline (Dat Cfg Window cellOf)
open Idealize.ShloMosaic.ValueIdx

variable {F : FTy → Type} [FloatOps F]

theorem zeroOffsets2_r2 : (![0, 0] : Fin 2 → Nat) = fun _ => 0 := funext fun a => by fin_cases a <;> rfl

/-- At k = 0 the accumulator is left at the accumulation step over the zero block. -/
theorem sout2_A_0_eq (c : Dev nD) (i : grid2.Coords) (arg2 : Memref sig .tc .vmem S2048x1024 .bf16) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : cond2_0 i) (hc1 : ¬cond2_1 i)
    (x0 : Vec F S2048x1024 .bf16) (x1 : Vec F S2048x128 .f32) (x2 : Vec F S1024x128 .f32) :
    sout2_A_0 c i arg2 harg2 arg3 harg3 arg4 harg4 arg5 harg5 arg6 harg6 hc0 hc1 x0 x1 x2 = k2_pay2 x1 (k2_pay1 (F := F)) x0 := by
  unfold sout2_A_0
  rw [View.read_writes_eq_canon _ _ _ (scover2_A_0 c i arg2 harg2 arg3 harg3 arg4 harg4 arg5 harg5 arg6 harg6 hc0 hc1 x0 x1 x2)]
  unfold kernelRun2_A
  dsimp only
  sl_unfold_words
  rw [View.canon_cons_unit_zero (S := S1024x128) zeroOffsets2_r2, View.readCov_unit_zero (S := S1024x128) _ zeroOffsets2_r2]
  simp only [View.readAt_eq_ld, harg2.read_unread, harg3.read_unread, harg4.read_unread, harg6.read_unread, View.ld_unit_zero (S := S2048x128) zeroOffsets2_r2, View.ld_unit_zero (S := S2048x1024) zeroOffsets2_r2, View.ld_unit_zero (S := S1024x128) zeroOffsets2_r2]

/-- At k = 1 the accumulator is left at the accumulation step over what it held. -/
theorem sout2_C_0_eq (c : Dev nD) (i : grid2.Coords) (arg2 : Memref sig .tc .vmem S2048x1024 .bf16) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : ¬cond2_0 i) (hc1 : cond2_1 i)
    (x0 : Vec F S2048x1024 .bf16) (x1 : Vec F S2048x128 .f32) (x2 : Vec F S1024x128 .f32) (xs0 : Vec F S1024x128 .f32) :
    sout2_C_0 c i arg2 harg2 arg3 harg3 arg4 harg4 arg5 harg5 arg6 harg6 hc0 hc1 x0 x1 x2 xs0 = k2_pay2 x1 xs0 x0 := by
  unfold sout2_C_0
  rw [View.read_writes_eq_canon _ _ _ (scover2_C_0 c i arg2 harg2 arg3 harg3 arg4 harg4 arg5 harg5 arg6 harg6 hc0 hc1 x0 x1 x2 xs0)]
  unfold kernelRun2_C
  dsimp only
  sl_unfold_words
  rw [View.canon_unit_zero zeroOffsets2_r2]
  simp only [View.readAt_eq_ld, harg2.read_unread, harg3.read_unread, harg4.read_unread, harg6.read_unread, View.ld_unit_zero (S := S2048x128) zeroOffsets2_r2, View.ld_unit_zero (S := S2048x1024) zeroOffsets2_r2, View.ld_unit_zero (S := S1024x128) zeroOffsets2_r2]

/-- At k = 1 the output's buffer is left at the clipped sum of the new accumulator and the edge-feature block. -/
theorem out2_C_3_eq (c : Dev nD) (i : grid2.Coords) (arg2 : Memref sig .tc .vmem S2048x1024 .bf16) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : ¬cond2_0 i) (hc1 : cond2_1 i)
    (x0 : Vec F S2048x1024 .bf16) (x1 : Vec F S2048x128 .f32) (x2 : Vec F S1024x128 .f32) (xs0 : Vec F S1024x128 .f32) :
    out2_C_3 c i arg2 harg2 arg3 harg3 arg4 harg4 arg5 harg5 arg6 harg6 hc0 hc1 x0 x1 x2 xs0 = k2_pay3 (k2_pay2 x1 xs0 x0) x2 := by
  unfold out2_C_3
  rw [View.read_writes_eq_canon _ _ _ (cover2_C_3 c i arg2 harg2 arg3 harg3 arg4 harg4 arg5 harg5 arg6 harg6 hc0 hc1 x0 x1 x2 xs0)]
  unfold kernelRun2_C
  dsimp only
  sl_unfold_words
  rw [View.canon_unit_zero zeroOffsets2_r2, View.readCov_unit_zero (S := S1024x128) _ zeroOffsets2_r2]
  simp only [View.readAt_eq_ld, harg2.read_unread, harg3.read_unread, harg4.read_unread, harg6.read_unread, View.ld_unit_zero (S := S2048x128) zeroOffsets2_r2, View.ld_unit_zero (S := S2048x1024) zeroOffsets2_r2, View.ld_unit_zero (S := S1024x128) zeroOffsets2_r2]

end Cert.KernelIdeal.Hand

end
-- ==== Proof.KI.Val2Points.lean ====
/-
  Region 2: what the accumulation holds at a point, in terms of the kernel's payloads of the point's blocks, for any
  float values. After a point with k = 0 the accumulator holds the accumulation step over the zero block; after a point
  with k = 1 the output's buffer holds the clipped sum of the accumulation step, over what the point before left in the
  accumulator, and the edge-feature block.
-/
import proofs.«181597_j77979426226450_2_alg».proof.Proof.KI.Val2Pieces

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL.Sem
open Idealize.ShloMosaic.Pipeline (Dat Cfg Window cellOf)
open Idealize.ShloMosaic.ValueIdx

variable {F : FTy → Type} [FloatOps F]
variable (V : (c : Dev nD) → (b : Ref sig .tc) → Buf (Elt F) ((c : Thread nD τ).loc b))

set_option maxHeartbeats 2000000 in
/-- After a point with k = 0 the accumulator holds the accumulation step over the zero block. -/
theorem acc_even2 (c : Dev nD) (t : Fin cfg2.N) (h0 : t.val % 2 = 0) :
    (outsAt2 V c t.val t.isLt).2 = k2_pay2 (iblk2 V c 1 t) (k2_pay1 (F := F)) (iblk2 V c 0 t) := by
  have h1 : ¬t.val % 2 = 1 := by omega
  rw [outsAt2_A V c t h0 h1]
  exact sout2_A_0_eq (F := F) c (grid2.coords t) (ms2_0 t) (hs2_0 t) (ms2_1 t) (hs2_1 t) (ms2_2 t) (hs2_2 t) (ms2_3 t) (hs2_3 t) scM2_0 (Memref.isWhole_whole _) ((hcond2_0 t).mpr h0) (fun h => h1 ((hcond2_1 t).mp h)) (iblk2 V c 0 t) (iblk2 V c 1 t) (iblk2 V c 2 t)

set_option maxHeartbeats 2000000 in
/-- After a point with k = 1 the output's buffer holds the clipped sum of the accumulation step, over what the point
    before left in the accumulator, and the edge-feature block. -/
theorem out_odd2 (c : Dev nD) (t : Fin cfg2.N) (h1 : t.val % 2 = 1) :
    (outsAt2 V c t.val t.isLt).1
      = k2_pay3 (k2_pay2 (iblk2 V c 1 t) (outsAt2 V c (t.val - 1) (Nat.lt_of_le_of_lt (Nat.sub_le _ _) t.isLt)).2 (iblk2 V c 0 t)) (iblk2 V c 2 t) := by
  have h0 : ¬t.val % 2 = 0 := by omega
  rw [outsAt2_C V c t h0 h1]
  exact out2_C_3_eq (F := F) c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2

end Cert.KernelIdeal.Hand

end
-- ==== Proof.KI.Val2Payload.lean ====
/-
  Region 2's payloads read at an index, on the extended reals, over explicit coordinates (a, b) of a 1024 by 128 block:
  the zero block is 0; the accumulation step is acc[a,b] + Σ_k A[k,a]·x[k,b] over the 2048 rows of the two blocks, the
  contraction against the remainder x - x vanishing when column b of x is real; the clipped sum is max (s[a,b] + h[a,b]) 0.
-/
import proofs.«181597_j77979426226450_2_alg».proof.Proof.Gen.KernelIdeal.Skeleton
import proofs.«181597_j77979426226450_2_alg».proof.Proof.LibSplitAccumulate
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL.Sem
open Idealize.ShloMosaic.Pipeline (Dat Cfg Window cellOf)
open Idealize.ShloMosaic.ValueIdx

open Cert.SplitAccumulate

/-- The contraction of a 2048 by 1024 block with a 2048 by 128 block over their first axes, into the zero block, at
    (a, b): Σ_k A[k,a]·B[k,b]. -/
theorem matmulT_zero_apply_r2 (A : FVec Ideal S2048x1024 .bf16) (B : FVec Ideal S2048x128 .bf16) (a : Fin 1024) (b : Fin 128) :
    matmul (F := Ideal) dot_S2048x1024_S2048x128_S1024x128_0_0_1_1_n_n none A B (constant (F := Ideal) S1024x128 .f32 0x00000000#32) (ix2 a b)
      = ∑ k : Fin 2048, (A (ix2 k a) : EReal) * (B (ix2 k b) : EReal) := by
  refine (Ideal.matmul_constant_zero_apply dot_S2048x1024_S2048x128_S1024x128_0_0_1_1_n_n none A B (ix2 a b)).trans ?_
  rw [← Equiv.sum_comp (contrEquiv1 dot_S2048x1024_S2048x128_S1024x128_0_0_1_1_n_n 2048 rfl rfl).symm]
  refine Finset.sum_congr rfl fun k _ => ?_
  have ck := contrEquiv1_symm_val dot_S2048x1024_S2048x128_S1024x128_0_0_1_1_n_n 2048 rfl rfl k
  have l2 : (dot_S2048x1024_S2048x128_S1024x128_0_0_1_1_n_n).lhsIdx (ix2 a b) ((contrEquiv1 dot_S2048x1024_S2048x128_S1024x128_0_0_1_1_n_n 2048 rfl rfl).symm k) = ix2 k a := by
    funext ax; apply Fin.ext
    match ax with
    | ⟨0, _⟩ => simp [DotDims.lhsIdx, dot_S2048x1024_S2048x128_S1024x128_0_0_1_1_n_n]; exact ck
    | ⟨1, _⟩ => simp [DotDims.lhsIdx, dot_S2048x1024_S2048x128_S1024x128_0_0_1_1_n_n]; rfl
  have r2 : (dot_S2048x1024_S2048x128_S1024x128_0_0_1_1_n_n).rhsIdx (ix2 a b) ((contrEquiv1 dot_S2048x1024_S2048x128_S1024x128_0_0_1_1_n_n 2048 rfl rfl).symm k) = ix2 k b := by
    funext ax; apply Fin.ext
    match ax with
    | ⟨0, _⟩ => simp [DotDims.rhsIdx, dot_S2048x1024_S2048x128_S1024x128_0_0_1_1_n_n]; exact ck
    | ⟨1, _⟩ => simp [DotDims.rhsIdx, dot_S2048x1024_S2048x128_S1024x128_0_0_1_1_n_n]; rfl
  rw [l2, r2]

/-- The zero block at an index. -/
theorem k2_pay1_apply (a : Fin 1024) (b : Fin 128) : k2_pay1 (F := Ideal) (ix2 a b) = (0 : EReal) := by
  unfold k2_pay1
  simp only [shapeCast_self]
  exact Ideal.ofBits_zero_f32

/-- The accumulation step at an index: the accumulator plus the contraction of the two blocks, when the feature
    block's column is real. -/
theorem k2_pay2_apply (x1 : FVec Ideal S2048x128 .f32) (acc : FVec Ideal S1024x128 .f32) (x0 : FVec Ideal S2048x1024 .bf16)
    (a : Fin 1024) (b : Fin 128) (hreal : ∀ k : Fin 2048, IsReal (x1 (ix2 k b))) :
    k2_pay2 (F := Ideal) x1 acc x0 (ix2 a b)
      = (acc (ix2 a b) : EReal) + ∑ k : Fin 2048, (x0 (ix2 k a) : EReal) * (x1 (ix2 k b) : EReal) := by
  unfold k2_pay2
  simp only [shapeCast_self]
  refine Eq.trans (congrArg (fun z : EReal => (acc (ix2 a b) : EReal) + z)
    (congrArg₂ (fun y z : EReal => y + z) (matmulT_zero_apply_r2 x0 _ a b) (matmulT_zero_apply_r2 x0 _ a b))) ?_
  exact congrArg (fun z : EReal => (acc (ix2 a b) : EReal) + z)
    (sum_split (fun k : Fin 2048 => (x0 (ix2 k a) : EReal)) (fun k : Fin 2048 => (x1 (ix2 k b) : EReal)) hreal)

/-- The clipped sum at an index. -/
theorem k2_pay3_apply (s h : FVec Ideal S1024x128 .f32) (a : Fin 1024) (b : Fin 128) :
    k2_pay3 (F := Ideal) s h (ix2 a b) = max ((s (ix2 a b) : EReal) + (h (ix2 a b) : EReal)) 0 := by
  unfold k2_pay3
  simp only [shapeCast_self]
  exact congrArg (fun z : EReal => max ((s (ix2 a b) : EReal) + (h (ix2 a b) : EReal)) z) Ideal.ofBits_zero_f32

end Cert.KernelIdeal.Hand

end
-- ==== Proof.KI.Val2Core.lean ====
/-
  Region 2's value on the extended reals: after the region its output array holds, at
  (e, j), max (he[e,j] + Σ_v A2[v,e]·hv[v,j]) 0 of the arrays the region was entered with, when hv is real. Point (i, 0)
  leaves in the accumulator the contraction over rows 0..2048 for edge block i; point (i, 1) adds the contraction over
  rows 2048..4096 and stores the clipped sum with the edge-feature block; the sum over the 4096 rows is the sum of its
  two halves.
-/
import proofs.«181597_j77979426226450_2_alg».proof.Proof.KI.Val2Points
import proofs.«181597_j77979426226450_2_alg».proof.Proof.KI.Val2Payload

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL.Sem
open Idealize.ShloMosaic.Pipeline (Dat Cfg Window cellOf)
open Idealize.ShloMosaic.ValueIdx

open Cert.SplitAccumulate

/-! ## The closed form -/

/-- The edge update, index by index: max (he[e,j] + Σ_v A2[v,e]·hv[v,j]) 0. -/
def edgeUpdate_r2 (A2 : S4096x8192.Idx → EReal) (hv : S4096x128.Idx → EReal) (he : S8192x128.Idx → EReal) : S8192x128.Idx → EReal :=
  fun i => max (he (ix2 (i 0) (i 1)) + ∑ v : Fin 4096, A2 (ix2 v (i 0)) * hv (ix2 v (i 1))) 0

/-- The clipped two-step accumulation from zero, of the contraction over the lower and the upper 2048 rows, is the edge
    update at (e, j). -/
theorem edgeUpdate_of_halves_r2 (A2 : S4096x8192.Idx → EReal) (hv : S4096x128.Idx → EReal) (he : S8192x128.Idx → EReal)
    (e : Fin 8192) (j : Fin 128) (S0 S1 h : EReal)
    (hS0 : S0 = ∑ k : Fin 2048, A2 (ix2 (⟨k.val, by omega⟩ : Fin 4096) e) * hv (ix2 (⟨k.val, by omega⟩ : Fin 4096) j))
    (hS1 : S1 = ∑ k : Fin 2048, A2 (ix2 (⟨2048 + k.val, by omega⟩ : Fin 4096) e) * hv (ix2 (⟨2048 + k.val, by omega⟩ : Fin 4096) j))
    (hh : h = he (ix2 e j)) :
    max (((0 + S0) + S1) + h) 0 = edgeUpdate_r2 A2 hv he (ix2 e j) := by
  subst hS0 hS1 hh
  rw [accumulate_two]
  show _ = max (he (ix2 e j) + ∑ v : Fin 4096, A2 (ix2 v e) * hv (ix2 v j)) 0
  rw [sum_halves (n := 2048) (m := 4096) rfl (fun v : Fin 4096 => A2 (ix2 v e) * hv (ix2 v j))]

/-! ## A point's value from its blocks -/

/-- The output block a point with k = 1 stores, at (a, b), from the blocks of that point (x0c, x1c, x2) and of the point
    before (x0a, x1a), when column b of both feature blocks is real. -/
theorem point_value_r2 (x0a x0c : FVec Ideal S2048x1024 .bf16) (x1a x1c : FVec Ideal S2048x128 .f32) (x2 : FVec Ideal S1024x128 .f32)
    (a : Fin 1024) (b : Fin 128) (hra : ∀ k : Fin 2048, IsReal (x1a (ix2 k b))) (hrc : ∀ k : Fin 2048, IsReal (x1c (ix2 k b))) :
    k2_pay3 (F := Ideal) (k2_pay2 (F := Ideal) x1c (k2_pay2 (F := Ideal) x1a (k2_pay1 (F := Ideal)) x0a) x0c) x2 (ix2 a b)
      = max ((((0 : EReal) + ∑ k : Fin 2048, (x0a (ix2 k a) : EReal) * (x1a (ix2 k b) : EReal))
          + ∑ k : Fin 2048, (x0c (ix2 k a) : EReal) * (x1c (ix2 k b) : EReal)) + (x2 (ix2 a b) : EReal)) 0 := by
  rw [k2_pay3_apply, k2_pay2_apply x1c _ x0c a b hrc, k2_pay2_apply x1a _ x0a a b hra, k2_pay1_apply]

/-! ## The block indices, decided over the grid -/

/-- Point t = 2i + k reads block (k, i) of the incidence matrix, block (k, 0) of the node features, block (i, 0) of the
    edge features, and its output block is (i, 0). -/
theorem idx_facts2 : ∀ t : Fin cfg2.N,
    win2_0.index t (0 : Fin 2) = t.val % 2 ∧ win2_0.index t (1 : Fin 2) = t.val / 2
    ∧ win2_1.index t (0 : Fin 2) = t.val % 2 ∧ win2_1.index t (1 : Fin 2) = 0
    ∧ win2_2.index t (0 : Fin 2) = t.val / 2 ∧ win2_2.index t (1 : Fin 2) = 0
    ∧ win2_3.index t (0 : Fin 2) = t.val / 2 ∧ win2_3.index t (1 : Fin 2) = 0 :=
  (by decide +kernel : ∀ t : Fin grid2.N, _)

/-! ## The blocks, typed over their literal shapes, and read at an index -/

variable (V : (c : Dev nD) → (b : Ref sig .tc) → Buf (Elt Ideal) ((c : Thread nD τ).loc b))

/-- The incidence block of point t. -/
def blkA_r2 (c : Dev nD) (t : Fin cfg2.N) : FVec Ideal S2048x1024 .bf16 := iblk2 V c 0 t
/-- The node-feature block of point t. -/
def blkX_r2 (c : Dev nD) (t : Fin cfg2.N) : FVec Ideal S2048x128 .f32 := iblk2 V c 1 t
/-- The edge-feature block of point t. -/
def blkH_r2 (c : Dev nD) (t : Fin cfg2.N) : FVec Ideal S1024x128 .f32 := iblk2 V c 2 t

/-- The incidence block at (k, a) is the matrix at row (t mod 2)·2048 + k, column (t div 2)·1024 + a. -/
theorem blkA_apply_r2 (c : Dev nD) (t : Fin cfg2.N) (k : Fin 2048) (a : Fin 1024) (r : Fin 4096) (e : Fin 8192)
    (hr : r.val = t.val % 2 * 2048 + k.val) (he : e.val = t.val / 2 * 1024 + a.val) :
    blkA_r2 V c t (ix2 k a) = (V c main_v25 : S4096x8192.Idx → EReal) (ix2 r e) := by
  obtain ⟨e0, e1, -⟩ := idx_facts2 t
  unfold blkA_r2 iblk2
  rw [View.read_apply]
  show V c main_v25 _ = V c main_v25 _
  congr 1
  funext ax; apply Fin.ext
  match ax with
  | ⟨0, _⟩ => show win2_0.index t (0 : Fin 2) * 2048 + 1 * k.val = r.val; omega
  | ⟨1, _⟩ => show win2_0.index t (1 : Fin 2) * 1024 + 1 * a.val = e.val; omega

/-- The node-feature block at (k, b) is the array at row (t mod 2)·2048 + k, column b. -/
theorem blkX_apply_r2 (c : Dev nD) (t : Fin cfg2.N) (k : Fin 2048) (b : Fin 128) (r : Fin 4096)
    (hr : r.val = t.val % 2 * 2048 + k.val) :
    blkX_r2 V c t (ix2 k b) = (V c main_v33 : S4096x128.Idx → EReal) (ix2 r b) := by
  obtain ⟨-, -, e0, e1, -⟩ := idx_facts2 t
  unfold blkX_r2 iblk2
  rw [View.read_apply]
  show V c main_v33 _ = V c main_v33 _
  congr 1
  funext ax; apply Fin.ext
  match ax with
  | ⟨0, _⟩ => show win2_1.index t (0 : Fin 2) * 2048 + 1 * k.val = r.val; omega
  | ⟨1, _⟩ => show win2_1.index t (1 : Fin 2) * 128 + 1 * b.val = b.val; omega

/-- The edge-feature block at (a, b) is the array at row (t div 2)·1024 + a, column b. -/
theorem blkH_apply_r2 (c : Dev nD) (t : Fin cfg2.N) (a : Fin 1024) (b : Fin 128) (e : Fin 8192)
    (he : e.val = t.val / 2 * 1024 + a.val) :
    blkH_r2 V c t (ix2 a b) = (V c main_v23 : S8192x128.Idx → EReal) (ix2 e b) := by
  obtain ⟨-, -, -, -, e0, e1, -⟩ := idx_facts2 t
  unfold blkH_r2 iblk2
  rw [View.read_apply]
  show V c main_v23 _ = V c main_v23 _
  congr 1
  funext ax; apply Fin.ext
  match ax with
  | ⟨0, _⟩ => show win2_2.index t (0 : Fin 2) * 1024 + 1 * a.val = e.val; omega
  | ⟨1, _⟩ => show win2_2.index t (1 : Fin 2) * 128 + 1 * b.val = b.val; omega

/-! ## The output's buffer after a point with k = 1 -/

/-- After a point t with k = 1 the output's buffer holds, at (a, b), the edge update at edge (t div 2)·1024 + a and
    column b, of the arrays the region was entered with. -/
theorem out_value2 (c : Dev nD) (hreal : ∀ i, IsReal ((V c main_v33 : S4096x128.Idx → EReal) i)) (t : Fin cfg2.N)
    (h1 : t.val % 2 = 1) (a : Fin 1024) (b : Fin 128) (e : Fin 8192) (he : e.val = t.val / 2 * 1024 + a.val) :
    (outsAt2 V c t.val t.isLt).1 (ix2 a b) = edgeUpdate_r2 (V c main_v25) (V c main_v33) (V c main_v23) (ix2 e b) := by
  have hN : t.val < 16 := lt_of_lt_of_eq t.isLt (show cfg2.N = 16 from N_2)
  have hlt : t.val - 1 < cfg2.N := Nat.lt_of_le_of_lt (Nat.sub_le _ _) t.isLt
  have hev : (⟨t.val - 1, hlt⟩ : Fin cfg2.N).val % 2 = 0 := by dsimp only; omega
  have hpt : (outsAt2 V c t.val t.isLt).1
      = k2_pay3 (F := Ideal) (k2_pay2 (F := Ideal) (blkX_r2 V c t) (k2_pay2 (F := Ideal) (blkX_r2 V c ⟨t.val - 1, hlt⟩) (k2_pay1 (F := Ideal)) (blkA_r2 V c ⟨t.val - 1, hlt⟩)) (blkA_r2 V c t)) (blkH_r2 V c t) := by
    rw [out_odd2 V c t h1, acc_even2 V c ⟨t.val - 1, hlt⟩ hev]
    rfl
  rw [hpt]
  refine (point_value_r2 (blkA_r2 V c ⟨t.val - 1, hlt⟩) (blkA_r2 V c t) (blkX_r2 V c ⟨t.val - 1, hlt⟩) (blkX_r2 V c t) (blkH_r2 V c t) a b ?_ ?_).trans ?_
  · intro k
    rw [blkX_apply_r2 V c ⟨t.val - 1, hlt⟩ k b ⟨k.val, by omega⟩ (by dsimp only; omega)]
    exact hreal _
  · intro k
    rw [blkX_apply_r2 V c t k b ⟨2048 + k.val, by omega⟩ (by dsimp only; omega)]
    exact hreal _
  · refine edgeUpdate_of_halves_r2 _ _ _ e b _ _ _ ?_ ?_ ?_
    · exact Finset.sum_congr rfl fun k _ => congrArg₂ (fun y z : EReal => y * z)
        (blkA_apply_r2 V c ⟨t.val - 1, hlt⟩ k a ⟨k.val, by omega⟩ e (by dsimp only; omega) (by dsimp only; omega))
        (blkX_apply_r2 V c ⟨t.val - 1, hlt⟩ k b ⟨k.val, by omega⟩ (by dsimp only; omega))
    · exact Finset.sum_congr rfl fun k _ => congrArg₂ (fun y z : EReal => y * z)
        (blkA_apply_r2 V c t k a ⟨2048 + k.val, by omega⟩ e (by dsimp only; omega) he)
        (blkX_apply_r2 V c t k b ⟨2048 + k.val, by omega⟩ (by dsimp only; omega))
    · exact blkH_apply_r2 V c t a b e he

/-! ## From the blocks to the array -/

/-- What a point with k = 1 writes back is its block of the edge update. -/
theorem flushed2_3_eq (c : Dev nD) (hreal : ∀ i, IsReal ((V c main_v33 : S4096x128.Idx → EReal) i)) (t : Fin cfg2.N)
    (hf : (cfg2.win 3).flush t = true) :
    (dat2 (F := Ideal) V c).flushed 3 t
      = ((cfg2.win 3).blk t).view.read (Elt Ideal) (edgeUpdate_r2 (V c main_v25) (V c main_v33) (V c main_v23)) := by
  have h1 : t.val % 2 = 1 := (flush2_3 t).mp hf
  have hN : t.val < 16 := lt_of_lt_of_eq t.isLt (show cfg2.N = 16 from N_2)
  obtain ⟨-, -, -, -, -, -, e0, e1⟩ := idx_facts2 t
  show (cfg2.win 3).cut (grid2.coords t) ((dat2 V c).after 3 t) = _
  rw [after2_3]
  funext j
  rw [View.read_apply]
  have hj0 : (j 0).val < 1024 := (j 0).isLt
  have hj1 : (j 1).val < 128 := (j 1).isLt
  refine Eq.trans (b := (outsAt2 V c t.val t.isLt).1 (ix2 (⟨(j 0).val, hj0⟩ : Fin 1024) (⟨(j 1).val, hj1⟩ : Fin 128))) ?_ ?_
  · exact congrArg (outsAt2 V c t.val t.isLt).1 (funext fun ax => Fin.ext (by match ax with | ⟨0, _⟩ => rfl | ⟨1, _⟩ => rfl))
  · refine (out_value2 V c hreal t h1 ⟨(j 0).val, hj0⟩ ⟨(j 1).val, hj1⟩ ⟨t.val / 2 * 1024 + (j 0).val, by omega⟩ rfl).trans ?_
    refine congrArg (edgeUpdate_r2 (V c main_v25) (V c main_v33) (V c main_v23)) (funext fun ax => Fin.ext ?_)
    match ax with
    | ⟨0, _⟩ => show t.val / 2 * 1024 + (j 0).val = win2_3.index t (0 : Fin 2) * 1024 + 1 * (j 0).val; omega
    | ⟨1, _⟩ => show (j 1).val = win2_3.index t (1 : Fin 2) * 128 + 1 * (j 1).val; omega

/-- An index of the output array is in point t's block iff each coordinate is in the block's range on its axis. -/
theorem mem_blk2_3 (t : Fin cfg2.N) (i : S8192x128.Idx) :
    i ∈ ((cfg2.win 3).blk t).view.set ↔ ∀ a : Fin 2, win2_3.index t a * S1024x128.size a ≤ (i a).val ∧ (i a).val < win2_3.index t a * S1024x128.size a + S1024x128.size a := by
  show i ∈ ((View.whole main_v34).slice (win2_3.rect t)).set ↔ _
  rw [View.set_slice_whole, Rect.mem_set_unit]
  exact Iff.rfl

/-- Every index of the output array is in the block of a point with k = 1: row e lies in edge block e div 1024. -/
theorem cover2_3 (i : S8192x128.Idx) : ∃ t : Fin cfg2.N, (cfg2.win 3).flush t = true ∧ i ∈ ((cfg2.win 3).blk t).view.set := by
  have hi0 : (i 0).val < 8192 := (i 0).isLt
  have hi1 : (i 1).val < 128 := (i 1).isLt
  have hN : cfg2.N = 16 := N_2
  have ht : 2 * ((i 0).val / 1024) + 1 < cfg2.N := by omega
  obtain ⟨-, -, -, -, -, -, e0, e1⟩ := idx_facts2 ⟨2 * ((i 0).val / 1024) + 1, ht⟩
  refine ⟨⟨2 * ((i 0).val / 1024) + 1, ht⟩, (flush2_3 _).mpr (by dsimp only; omega), ?_⟩
  rw [mem_blk2_3]
  intro a
  match a with
  | ⟨0, _⟩ =>
    show win2_3.index ⟨2 * ((i 0).val / 1024) + 1, ht⟩ (0 : Fin 2) * 1024 ≤ (i 0).val ∧ (i 0).val < win2_3.index ⟨2 * ((i 0).val / 1024) + 1, ht⟩ (0 : Fin 2) * 1024 + 1024
    dsimp only at e0; omega
  | ⟨1, _⟩ =>
    show win2_3.index ⟨2 * ((i 0).val / 1024) + 1, ht⟩ (1 : Fin 2) * 128 ≤ (i 1).val ∧ (i 1).val < win2_3.index ⟨2 * ((i 0).val / 1024) + 1, ht⟩ (1 : Fin 2) * 128 + 128
    omega

/-- After the region the output array is the edge update of the arrays the region was entered with. -/
theorem final2_core (c : Dev nD) (hreal : ∀ i, IsReal ((V c main_v33 : S4096x128.Idx → EReal) i)) :
    (dat2 (F := Ideal) V c).arrAt 3 cfg2.N = edgeUpdate_r2 (V c main_v25) (V c main_v33) (V c main_v23) :=
  (dat2 (F := Ideal) V c).arrAt_eq_of_cover 3 (edgeUpdate_r2 (V c main_v25) (V c main_v33) (V c main_v23))
    (fun t hf => flushed2_3_eq V c hreal t hf) (fun i => cover2_3 i)

end Cert.KernelIdeal.Hand

end
-- ==== Proof.KI.Val2.lean ====
/-
  Region 2's value, against the specification: after the region its output array is the specification's edge update of
  the incidence matrix, the node features and the edge features the region was entered with, when the node features
  are real.
-/
import proofs.«181597_j77979426226450_2_alg».proof.Proof.KI.Val2Core
import proofs.«181597_j77979426226450_2_alg».proof.Proof.Spec

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL.Sem
open Idealize.ShloMosaic.Pipeline (Dat Cfg Window cellOf)
open Idealize.ShloMosaic.ValueIdx

variable (V : (c : Dev nD) → (b : Ref sig .tc) → Buf (Elt Ideal) ((c : Thread nD τ).loc b))

/-- The closed form read off the kernel is the specification's edge update. -/
theorem edgeUpdate_eq_spec_r2 (A2 : Cert.Spec.Arr2 4096 8192) (hv : Cert.Spec.Arr2 4096 128) (he : Cert.Spec.Arr2 8192 128) :
    edgeUpdate_r2 A2 hv he = Cert.Spec.edgeUpd A2 hv he := rfl

/-- After region 2 its output array is the edge update of the arrays the region was entered with. -/
theorem final2 (c : Dev nD) (hreal : Cert.Spec.AllReal (S := S4096x128) (V c main_v33)) :
    (dat2 (F := Ideal) V c).arrAt 3 cfg2.N = Cert.Spec.edgeUpd (V c main_v25) (V c main_v33) (V c main_v23) :=
  (final2_core V c hreal).trans (edgeUpdate_eq_spec_r2 (V c main_v25) (V c main_v33) (V c main_v23))

end Cert.KernelIdeal.Hand

end
-- ==== Proof.KI.Val3Pieces.lean ====
/- Region 3: what the two runs found, read back as the kernel's payloads of the blocks. In the first reduction step the
   accumulator is zeroed and the step's product of the two input blocks is added; in the last step the product is added to
   what the step before left, and the output block is the residual layer of that sum. Generic in the float values. -/
import proofs.«181597_j77979426226450_2_alg».proof.Proof.KI.Reg3
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic Idealize.SL.Sem
open Idealize.ShloMosaic.Pipeline (Dat)

variable {F : FTy → Type} [FloatOps F]

/-- The zero offsets of a whole-block access. -/
theorem hz3 : (![0, 0] : Fin 2 → Nat) = fun _ => 0 := funext fun a => by fin_cases a <;> rfl

/-- Case C's accumulator: the one covering store's payload, over the blocks and what the accumulator held. -/
theorem sout3_C_0_eq (c : Dev nD) (i : grid3.Coords) (arg2 : Memref sig .tc .vmem S1024x4096 .bf16) (harg2 : arg2.IsWhole) (arg3 : Memref sig .tc .vmem S4096x128 .f32) (harg3 : arg3.IsWhole) (arg4 : Memref sig .tc .vmem S1024x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1024x128 .f32) (harg7 : arg7.IsWhole) (arg8 : Memref sig .tc .vmem S1024x128 .f32) (harg8 : arg8.IsWhole) (hcz : ¬cond3_0 i) (hcl : cond3_1 i)
    (xa : Vec F S1024x4096 .bf16) (xb : Vec F S4096x128 .f32) (xc : Vec F S1024x128 .f32) (xd : Vec F S128x128 .f32) (xe : Vec F S1x128 .f32) (xs : Vec F S1024x128 .f32) :
    sout3_C_0 c i arg2 harg2 arg3 harg3 arg4 harg4 arg5 harg5 arg6 harg6 arg7 harg7 arg8 harg8 hcz hcl xa xb xc xd xe xs = k3_pay2 xb xs xa := by
  unfold sout3_C_0
  rw [View.read_writes_eq_canon _ _ _ (scover3_C_0 c i arg2 harg2 arg3 harg3 arg4 harg4 arg5 harg5 arg6 harg6 arg7 harg7 arg8 harg8 hcz hcl xa xb xc xd xe xs)]
  unfold kernelRun3_C
  dsimp only
  sl_unfold_words
  rw [View.canon_unit_zero (S := S1024x128) hz3]
  simp only [View.readAt_eq_ld, harg2.read_unread, harg3.read_unread, harg8.read_unread, View.ld_unit_zero (S := S1024x4096) hz3, View.ld_unit_zero (S := S4096x128) hz3, View.ld_unit_zero (S := S1024x128) hz3, View.ld_unit_zero (S := S128x128) hz3, View.ld_unit_zero (S := S1x128) hz3]

/-- Case A's accumulator: the zero block is stored and read back, then the covering store adds the product to it. -/
theorem sout3_A_0_eq (c : Dev nD) (i : grid3.Coords) (arg2 : Memref sig .tc .vmem S1024x4096 .bf16) (harg2 : arg2.IsWhole) (arg3 : Memref sig .tc .vmem S4096x128 .f32) (harg3 : arg3.IsWhole) (arg4 : Memref sig .tc .vmem S1024x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1024x128 .f32) (harg7 : arg7.IsWhole) (arg8 : Memref sig .tc .vmem S1024x128 .f32) (harg8 : arg8.IsWhole) (hcz : cond3_0 i) (hcl : ¬cond3_1 i)
    (xa : Vec F S1024x4096 .bf16) (xb : Vec F S4096x128 .f32) (xc : Vec F S1024x128 .f32) (xd : Vec F S128x128 .f32) (xe : Vec F S1x128 .f32) :
    sout3_A_0 c i arg2 harg2 arg3 harg3 arg4 harg4 arg5 harg5 arg6 harg6 arg7 harg7 arg8 harg8 hcz hcl xa xb xc xd xe = k3_pay2 xb (k3_pay1 (F := F)) xa := by
  unfold sout3_A_0
  rw [View.read_writes_eq_canon _ _ _ (scover3_A_0 c i arg2 harg2 arg3 harg3 arg4 harg4 arg5 harg5 arg6 harg6 arg7 harg7 arg8 harg8 hcz hcl xa xb xc xd xe)]
  unfold kernelRun3_A
  dsimp only
  sl_unfold_words
  rw [View.canon_cons_unit_zero (S := S1024x128) hz3, View.readCov_unit_zero (S := S1024x128) _ hz3]
  simp only [View.readAt_eq_ld, harg2.read_unread, harg3.read_unread, View.ld_unit_zero (S := S1024x4096) hz3, View.ld_unit_zero (S := S4096x128) hz3, View.ld_unit_zero (S := S1024x128) hz3, View.ld_unit_zero (S := S128x128) hz3, View.ld_unit_zero (S := S1x128) hz3]

/-- Case C's output block: the one covering store's payload, over the residual block, the accumulator as the case
    leaves it, the weight block and the bias row. -/
theorem out3_C_5_eq (c : Dev nD) (i : grid3.Coords) (arg2 : Memref sig .tc .vmem S1024x4096 .bf16) (harg2 : arg2.IsWhole) (arg3 : Memref sig .tc .vmem S4096x128 .f32) (harg3 : arg3.IsWhole) (arg4 : Memref sig .tc .vmem S1024x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1024x128 .f32) (harg7 : arg7.IsWhole) (arg8 : Memref sig .tc .vmem S1024x128 .f32) (harg8 : arg8.IsWhole) (hcz : ¬cond3_0 i) (hcl : cond3_1 i)
    (xa : Vec F S1024x4096 .bf16) (xb : Vec F S4096x128 .f32) (xc : Vec F S1024x128 .f32) (xd : Vec F S128x128 .f32) (xe : Vec F S1x128 .f32) (xs : Vec F S1024x128 .f32) :
    out3_C_5 c i arg2 harg2 arg3 harg3 arg4 harg4 arg5 harg5 arg6 harg6 arg7 harg7 arg8 harg8 hcz hcl xa xb xc xd xe xs = k3_pay3 xc (k3_pay2 xb xs xa) xd xe := by
  unfold out3_C_5
  rw [View.read_writes_eq_canon _ _ _ (cover3_C_5 c i arg2 harg2 arg3 harg3 arg4 harg4 arg5 harg5 arg6 harg6 arg7 harg7 arg8 harg8 hcz hcl xa xb xc xd xe xs)]
  unfold kernelRun3_C
  dsimp only
  sl_unfold_words
  rw [View.canon_unit_zero (S := S1024x128) hz3]
  simp only [View.readAt_eq_ld, harg2.read_unread, harg3.read_unread, harg4.read_unread, harg5.read_unread, harg6.read_unread, harg8.read_unread, View.ld_unit_zero (S := S1024x4096) hz3, View.ld_unit_zero (S := S4096x128) hz3, View.ld_unit_zero (S := S1024x128) hz3, View.ld_unit_zero (S := S128x128) hz3, View.ld_unit_zero (S := S1x128) hz3]
  rw [View.readCov_unit_zero (S := S1024x128) _ hz3]

end Cert.KernelIdeal.Hand

end
-- ==== Proof.KI.Val3Payload.lean ====
/-
  Region 3's payloads read at an index, on the extended reals, over explicit coordinates (p, q) of a 1024 by 128 block:
  the zero block is 0; the accumulation step is acc[p,q] + Σ_e A[p,e]·x[e,q] over the 4096 columns of the incidence
  block, the contraction against the remainder x - x vanishing when column q of x is real; the residual layer is
  act (Σ_k (h[p,k] + acc[p,k])·Wt[k,q] + b[0,q]) with act x = x for 0 ≤ x and slope·x otherwise.
-/
import proofs.«181597_j77979426226450_2_alg».proof.Proof.Gen.KernelIdeal.Skeleton
import proofs.«181597_j77979426226450_2_alg».proof.Proof.LibSplitAccumulate
import proofs.«181597_j77979426226450_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL.Sem
open Idealize.ShloMosaic.Pipeline (Dat Cfg Window cellOf)
open Idealize.ShloMosaic.ValueIdx

open Cert.SplitAccumulate

/-- The product of a 1024 by 4096 block with a 4096 by 128 block, into the zero block, at (p, q): Σ_e A[p,e]·B[e,q]. -/
theorem matmulBlk3_zero_apply (A : FVec Ideal S1024x4096 .bf16) (B : FVec Ideal S4096x128 .bf16) (p : Fin 1024) (q : Fin 128) :
    matmul (F := Ideal) dot_S1024x4096_S4096x128_S1024x128_1_0_0_1_n_n none A B (constant (F := Ideal) S1024x128 .f32 0x00000000#32) (ix2 p q)
      = ∑ k : Fin 4096, (A (ix2 p k) : EReal) * (B (ix2 k q) : EReal) := by
  refine (Ideal.matmul_constant_zero_apply dot_S1024x4096_S4096x128_S1024x128_1_0_0_1_n_n none A B (ix2 p q)).trans ?_
  rw [← Equiv.sum_comp (contrEquiv1 dot_S1024x4096_S4096x128_S1024x128_1_0_0_1_n_n 4096 rfl rfl).symm]
  refine Finset.sum_congr rfl fun k _ => ?_
  have ck := contrEquiv1_symm_val dot_S1024x4096_S4096x128_S1024x128_1_0_0_1_n_n 4096 rfl rfl k
  have l2 : (dot_S1024x4096_S4096x128_S1024x128_1_0_0_1_n_n).lhsIdx (ix2 p q) ((contrEquiv1 dot_S1024x4096_S4096x128_S1024x128_1_0_0_1_n_n 4096 rfl rfl).symm k) = ix2 p k := by
    funext ax; apply Fin.ext
    match ax with
    | ⟨0, _⟩ => simp [DotDims.lhsIdx, dot_S1024x4096_S4096x128_S1024x128_1_0_0_1_n_n]; rfl
    | ⟨1, _⟩ => simp [DotDims.lhsIdx, dot_S1024x4096_S4096x128_S1024x128_1_0_0_1_n_n]; exact ck
  have r2 : (dot_S1024x4096_S4096x128_S1024x128_1_0_0_1_n_n).rhsIdx (ix2 p q) ((contrEquiv1 dot_S1024x4096_S4096x128_S1024x128_1_0_0_1_n_n 4096 rfl rfl).symm k) = ix2 k q := by
    funext ax; apply Fin.ext
    match ax with
    | ⟨0, _⟩ => simp [DotDims.rhsIdx, dot_S1024x4096_S4096x128_S1024x128_1_0_0_1_n_n]; exact ck
    | ⟨1, _⟩ => simp [DotDims.rhsIdx, dot_S1024x4096_S4096x128_S1024x128_1_0_0_1_n_n]; rfl
  rw [l2, r2]

/-- The product of a 1024 by 128 block with the 128 by 128 weight block, into the zero block, at (p, q): Σ_k A[p,k]·B[k,q]. -/
theorem matmulDense3_zero_apply (A : FVec Ideal S1024x128 .f32) (B : FVec Ideal S128x128 .f32) (p : Fin 1024) (q : Fin 128) :
    matmul (F := Ideal) dot_S1024x128_S128x128_S1024x128_1_0_0_1_n_n none A B (constant (F := Ideal) S1024x128 .f32 0x00000000#32) (ix2 p q)
      = ∑ k : Fin 128, (A (ix2 p k) : EReal) * (B (ix2 k q) : EReal) := by
  refine (Ideal.matmul_constant_zero_apply dot_S1024x128_S128x128_S1024x128_1_0_0_1_n_n none A B (ix2 p q)).trans ?_
  rw [← Equiv.sum_comp (contrEquiv1 dot_S1024x128_S128x128_S1024x128_1_0_0_1_n_n 128 rfl rfl).symm]
  refine Finset.sum_congr rfl fun k _ => ?_
  have ck := contrEquiv1_symm_val dot_S1024x128_S128x128_S1024x128_1_0_0_1_n_n 128 rfl rfl k
  have l2 : (dot_S1024x128_S128x128_S1024x128_1_0_0_1_n_n).lhsIdx (ix2 p q) ((contrEquiv1 dot_S1024x128_S128x128_S1024x128_1_0_0_1_n_n 128 rfl rfl).symm k) = ix2 p k := by
    funext ax; apply Fin.ext
    match ax with
    | ⟨0, _⟩ => simp [DotDims.lhsIdx, dot_S1024x128_S128x128_S1024x128_1_0_0_1_n_n]; rfl
    | ⟨1, _⟩ => simp [DotDims.lhsIdx, dot_S1024x128_S128x128_S1024x128_1_0_0_1_n_n]; exact ck
  have r2 : (dot_S1024x128_S128x128_S1024x128_1_0_0_1_n_n).rhsIdx (ix2 p q) ((contrEquiv1 dot_S1024x128_S128x128_S1024x128_1_0_0_1_n_n 128 rfl rfl).symm k) = ix2 k q := by
    funext ax; apply Fin.ext
    match ax with
    | ⟨0, _⟩ => simp [DotDims.rhsIdx, dot_S1024x128_S128x128_S1024x128_1_0_0_1_n_n]; exact ck
    | ⟨1, _⟩ => simp [DotDims.rhsIdx, dot_S1024x128_S128x128_S1024x128_1_0_0_1_n_n]; rfl
  rw [l2, r2]

/-- The zero block at an index. -/
theorem k3_pay1_apply (p : Fin 1024) (q : Fin 128) : k3_pay1 (F := Ideal) (ix2 p q) = (0 : EReal) := by
  unfold k3_pay1
  simp only [shapeCast_self]
  exact Ideal.ofBits_zero_f32

/-- The accumulation step at an index: the accumulator plus the product of the two blocks, when the feature block's
    column is real. -/
theorem k3_pay2_apply (xb : FVec Ideal S4096x128 .f32) (acc : FVec Ideal S1024x128 .f32) (xa : FVec Ideal S1024x4096 .bf16)
    (p : Fin 1024) (q : Fin 128) (hreal : ∀ e : Fin 4096, IsReal (xb (ix2 e q))) :
    k3_pay2 (F := Ideal) xb acc xa (ix2 p q)
      = (acc (ix2 p q) : EReal) + ∑ e : Fin 4096, (xa (ix2 p e) : EReal) * (xb (ix2 e q) : EReal) := by
  unfold k3_pay2
  simp only [shapeCast_self]
  refine Eq.trans (congrArg (fun z : EReal => (acc (ix2 p q) : EReal) + z)
    (congrArg₂ (fun y z : EReal => y + z) (matmulBlk3_zero_apply xa _ p q) (matmulBlk3_zero_apply xa _ p q))) ?_
  exact congrArg (fun z : EReal => (acc (ix2 p q) : EReal) + z)
    (sum_split (fun e : Fin 4096 => (xa (ix2 p e) : EReal)) (fun e : Fin 4096 => (xb (ix2 e q) : EReal)) hreal)

/-- The leaky step on one value: the comparison against zero selects the value or its product with the slope. -/
theorem leaky3_apply (x : Ideal .f32) :
    Scalar.select (FloatOps.cmpf (F := Ideal) (φ := .f32) .oge x (Ideal.ofBits .f32 0x00000000#32)) x
        (FloatOps.mulf (F := Ideal) (φ := .f32) (Ideal.ofBits .f32 0x3C23D70A#32) x) = Cert.Spec.act x := by
  by_cases h : (0 : EReal) ≤ x
  · have e : FloatOps.cmpf (F := Ideal) (φ := .f32) .oge x (Ideal.ofBits .f32 0x00000000#32) = 1#1 := by
      rw [Ideal.cmpf_def, Ideal.ofBits_zero_f32]
      show BitVec.ofBool (decide ((0 : EReal) ≤ x)) = 1#1
      rw [decide_eq_true h]; rfl
    rw [e, select_one]; unfold Cert.Spec.act; rw [if_pos h]
  · have e : FloatOps.cmpf (F := Ideal) (φ := .f32) .oge x (Ideal.ofBits .f32 0x00000000#32) = 0#1 := by
      rw [Ideal.cmpf_def, Ideal.ofBits_zero_f32]
      show BitVec.ofBool (decide ((0 : EReal) ≤ x)) = 0#1
      rw [decide_eq_false h]; rfl
    rw [e, select_zero]; unfold Cert.Spec.act Cert.Spec.slope; rw [if_neg h]; rfl

/-- The residual layer at an index: the dense map of the residual block plus the accumulator, plus the bias row, under
    the leaky activation. -/
theorem k3_pay3_apply (xc acc : FVec Ideal S1024x128 .f32) (xd : FVec Ideal S128x128 .f32) (xe : FVec Ideal S1x128 .f32)
    (p : Fin 1024) (q : Fin 128) :
    k3_pay3 (F := Ideal) xc acc xd xe (ix2 p q)
      = Cert.Spec.act ((∑ k : Fin 128, ((xc (ix2 p k) : EReal) + (acc (ix2 p k) : EReal)) * (xd (ix2 k q) : EReal))
          + (xe (ix2 (0 : Fin 1) q) : EReal)) := by
  unfold k3_pay3
  simp only [shapeCast_self]
  have key : ∀ (v w : Ideal .f32), v = w →
      Scalar.select (FloatOps.cmpf (F := Ideal) (φ := .f32) .oge v (Ideal.ofBits .f32 0x00000000#32)) v
        (FloatOps.mulf (F := Ideal) (φ := .f32) (Ideal.ofBits .f32 0x3C23D70A#32) v) = Cert.Spec.act w :=
    fun v w h => h ▸ leaky3_apply v
  refine key _ _ ?_
  exact congrArg₂ (fun y z : EReal => y + z) (matmulDense3_zero_apply (addf xc acc) xd p q)
    (broadcastTo_1b_ab_apply xe broadcasts_S1x128_S1024x128 p q)

end Cert.KernelIdeal.Hand

end
-- ==== Proof.KI.Val3Point.lean ====
/-
  Region 3, one block row: the output block of the row's last reduction step, read at (p, q), is the residual layer of
  the whole arrays at row i·1024 + p. The accumulator of the two steps is (0 + S₀) + S₁ with S₀, S₁ the contractions
  over the lower and upper halves of the 8192 edges, which together are the contraction over all of them; the rounding
  split of the edge update costs nothing because its entries are real.
-/
import proofs.«181597_j77979426226450_2_alg».proof.Proof.KI.Val3Payload

set_option maxRecDepth 16384

noncomputable section

namespace Cert.KernelIdeal.Hand

open Cert.KernelIdeal Cert.KernelIdeal.Gen
open Idealize.ShloMosaic Idealize.ShloMosaic.ValueIdx
open Cert.SplitAccumulate

/-- The residual layer of block row `i` at (p, q) from the blocks of its two reduction steps: `A0`, `X0` the first step's
    incidence and edge-update blocks (edges 0 … 4095), `A1`, `X1` the second's (edges 4096 … 8191), `H` the row's
    node-feature block, `Wb`, `Bb` the weight block and the bias row — each hypothesis says where the block sits in its
    array. -/
theorem layerBlock3_apply (A : Cert.Spec.Arr2 4096 8192) (hv : Cert.Spec.Arr2 4096 128) (X : Cert.Spec.Arr2 8192 128)
    (Wt : Cert.Spec.Arr2 128 128) (bias : Cert.Spec.Arr2 1 128) (hX : Cert.Spec.AllReal X) (i : Fin 4)
    (A0 A1 : FVec Ideal S1024x4096 .bf16) (X0 X1 : FVec Ideal S4096x128 .f32) (H : FVec Ideal S1024x128 .f32)
    (Wb : FVec Ideal S128x128 .f32) (Bb : FVec Ideal S1x128 .f32)
    (hA0 : ∀ (p : Fin 1024) (e : Fin 4096), (A0 (ix2 p e) : EReal) = A (ix2 ⟨i.val * 1024 + p.val, by omega⟩ ⟨e.val, by omega⟩))
    (hA1 : ∀ (p : Fin 1024) (e : Fin 4096), (A1 (ix2 p e) : EReal) = A (ix2 ⟨i.val * 1024 + p.val, by omega⟩ ⟨4096 + e.val, by omega⟩))
    (hX0 : ∀ (e : Fin 4096) (k : Fin 128), (X0 (ix2 e k) : EReal) = X (ix2 ⟨e.val, by omega⟩ k))
    (hX1 : ∀ (e : Fin 4096) (k : Fin 128), (X1 (ix2 e k) : EReal) = X (ix2 ⟨4096 + e.val, by omega⟩ k))
    (hH : ∀ (p : Fin 1024) (k : Fin 128), (H (ix2 p k) : EReal) = hv (ix2 ⟨i.val * 1024 + p.val, by omega⟩ k))
    (hW : ∀ (k q : Fin 128), (Wb (ix2 k q) : EReal) = Wt (ix2 k q))
    (hB : ∀ q : Fin 128, (Bb (ix2 (0 : Fin 1) q) : EReal) = bias (ix2 (0 : Fin 1) q))
    (p : Fin 1024) (q : Fin 128) :
    k3_pay3 (F := Ideal) H (k3_pay2 (F := Ideal) X1 (k3_pay2 (F := Ideal) X0 (k3_pay1 (F := Ideal)) A0) A1) Wb Bb (ix2 p q)
      = Cert.Spec.nodeLayerT Wt bias (Cert.Spec.nodeRes A hv X) (ix2 (⟨i.val * 1024 + p.val, by omega⟩ : Fin 4096) q) := by
  have hsum : ∀ k : Fin 128,
      (H (ix2 p k) : EReal) + (k3_pay2 (F := Ideal) X1 (k3_pay2 (F := Ideal) X0 (k3_pay1 (F := Ideal)) A0) A1 (ix2 p k) : EReal)
        = hv (ix2 ⟨i.val * 1024 + p.val, by omega⟩ k)
          + ∑ e : Fin 8192, A (ix2 ⟨i.val * 1024 + p.val, by omega⟩ e) * X (ix2 e k) := by
    intro k
    rw [k3_pay2_apply X1 _ A1 p k (fun e => by rw [hX1]; exact hX _),
      k3_pay2_apply X0 _ A0 p k (fun e => by rw [hX0]; exact hX _), k3_pay1_apply, zero_add, hH,
      sum_halves (n := 4096) (m := 8192) rfl (fun e : Fin 8192 => A (ix2 ⟨i.val * 1024 + p.val, by omega⟩ e) * X (ix2 e k))]
    simp only [hA0, hA1, hX0, hX1]
  rw [k3_pay3_apply]
  simp only [hsum, hW, hB]
  rfl

end Cert.KernelIdeal.Hand

end
-- ==== Proof.KI.Val3.lean ====
/-
  Region 3's value on the extended reals: after the region, the output array is the residual layer of the node residual,
  nodeLayerT Wt b (nodeRes A hv X), when every entry of the edge update X is real. The output block of block row i is
  written back once, after the row's second reduction step; it is the layer at rows i·1024 … i·1024 + 1023, and the four
  rows of blocks tile the array.
-/
import proofs.«181597_j77979426226450_2_alg».proof.Proof.KI.Val3Pieces
import proofs.«181597_j77979426226450_2_alg».proof.Proof.KI.Val3Point

set_option maxRecDepth 16384

noncomputable section

namespace Cert.KernelIdeal.Hand

open Cert.KernelIdeal Cert.KernelIdeal.Gen
open Idealize.ShloMosaic Idealize.ShloMosaic.TcCoe Idealize.ShloMosaic.Tactic Idealize.SL.Sem
open Idealize.ShloMosaic.Pipeline (Dat)
open Idealize.ShloMosaic.ValueIdx
open Cert.SplitAccumulate

/-! ## The output block after a row's second step, from the two found pieces (any float values) -/

section AnyValues
variable {F : FTy → Type} [FloatOps F] (V : (c : Dev nD) → (b : Ref sig .tc) → Buf (Elt F) ((c : Thread nD τ).loc b))

/-- The point before `t`. -/
abbrev prevPt3 (t : Fin cfg3.N) : Fin cfg3.N := ⟨t.val - 1, Nat.lt_of_le_of_lt (Nat.sub_le _ _) t.isLt⟩

set_option maxHeartbeats 2000000 in
/-- At a point of the second step the output block is the residual layer's payload of the row's blocks and of the
    accumulator, which is the second step's product added to the first step's product added to the zero block. -/
theorem outAt3_last (c : Dev nD) (t : Fin cfg3.N) (hl : t.val % 2 = 1) :
    (outsAt3 V c t.val t.isLt).1
      = k3_pay3 (iblk3 V c 2 t) (k3_pay2 (iblk3 V c 1 t) (k3_pay2 (iblk3 V c 1 (prevPt3 t)) (k3_pay1 (F := F)) (iblk3 V c 0 (prevPt3 t))) (iblk3 V c 0 t))
          (iblk3 V c 3 t) (iblk3 V c 4 t) := by
  have hz : ¬t.val % 2 = 0 := by omega
  have hzp : (prevPt3 t).val % 2 = 0 := by show (t.val - 1) % 2 = 0; omega
  have hlp : ¬(prevPt3 t).val % 2 = 1 := by show ¬(t.val - 1) % 2 = 1; omega
  have hprev : (outsAt3 V c (t.val - 1) (Nat.lt_of_le_of_lt (Nat.sub_le _ _) t.isLt)).2
      = k3_pay2 (iblk3 V c 1 (prevPt3 t)) (k3_pay1 (F := F)) (iblk3 V c 0 (prevPt3 t)) :=
    (congrArg Prod.snd (outsAt3_A V c (prevPt3 t) hzp hlp)).trans
      (sout3_A_0_eq c (grid3.coords (prevPt3 t)) (ms3_0 (prevPt3 t)) (hs3_0 (prevPt3 t)) (ms3_1 (prevPt3 t)) (hs3_1 (prevPt3 t)) (ms3_2 (prevPt3 t)) (hs3_2 (prevPt3 t)) (ms3_3 (prevPt3 t)) (hs3_3 (prevPt3 t)) (ms3_4 (prevPt3 t)) (hs3_4 (prevPt3 t)) (ms3_5 (prevPt3 t)) (hs3_5 (prevPt3 t)) scM3_0 (Memref.isWhole_whole _) ((hcond3_0 (prevPt3 t)).mpr hzp) (fun h => hlp ((hcond3_1 (prevPt3 t)).mp h)) (iblk3 V c 0 (prevPt3 t)) (iblk3 V c 1 (prevPt3 t)) (iblk3 V c 2 (prevPt3 t)) (iblk3 V c 3 (prevPt3 t)) (iblk3 V c 4 (prevPt3 t)))
  refine (congrArg Prod.fst (outsAt3_C V c t hz hl)).trans ?_
  refine (out3_C_5_eq c (grid3.coords t) (ms3_0 t) (hs3_0 t) (ms3_1 t) (hs3_1 t) (ms3_2 t) (hs3_2 t) (ms3_3 t) (hs3_3 t) (ms3_4 t) (hs3_4 t) (ms3_5 t) (hs3_5 t) scM3_0 (Memref.isWhole_whole _) (fun h => hz ((hcond3_0 t).mp h)) ((hcond3_1 t).mpr hl) (iblk3 V c 0 t) (iblk3 V c 1 t) (iblk3 V c 2 t) (iblk3 V c 3 t) (iblk3 V c 4 t)
    (outsAt3 V c (t.val - 1) (Nat.lt_of_le_of_lt (Nat.sub_le _ _) t.isLt)).2).trans ?_
  rw [hprev]

end AnyValues

/-! ## On the extended reals -/

section AtIdeal
variable (V : (c : Dev nD) → (b : Ref sig .tc) → Buf (Elt Ideal) ((c : Thread nD τ).loc b))

/-- Window 0's block at point `t`, at (y, z), is its array at the block's offset plus (y, z). -/
theorem iblk3_0_apply (c : Dev nD) (t : Fin cfg3.N) (y : Fin 1024) (z : Fin 4096) (Y : Fin 4096) (Z : Fin 8192)
    (hY : win3_0.index t (0 : Fin 2) * 1024 + 1 * y.val = Y.val) (hZ : win3_0.index t (1 : Fin 2) * 4096 + 1 * z.val = Z.val) :
    ((iblk3 V c 0 t : FVec Ideal S1024x4096 .bf16) (ix2 y z) : EReal) = (V c main_v24 : Cert.Spec.Arr2 4096 8192) (ix2 Y Z) := by
  unfold iblk3
  rw [View.read_apply]
  show V c main_v24 _ = V c main_v24 _
  refine congrArg (V c main_v24) (funext fun a => Fin.ext ?_)
  match a with
  | ⟨0, _⟩ => exact hY
  | ⟨1, _⟩ => exact hZ

/-- Window 1's block at point `t`, at (y, z), is its array at the block's offset plus (y, z). -/
theorem iblk3_1_apply (c : Dev nD) (t : Fin cfg3.N) (y : Fin 4096) (z : Fin 128) (Y : Fin 8192) (Z : Fin 128)
    (hY : win3_1.index t (0 : Fin 2) * 4096 + 1 * y.val = Y.val) (hZ : win3_1.index t (1 : Fin 2) * 128 + 1 * z.val = Z.val) :
    ((iblk3 V c 1 t : FVec Ideal S4096x128 .f32) (ix2 y z) : EReal) = (V c main_v34 : Cert.Spec.Arr2 8192 128) (ix2 Y Z) := by
  unfold iblk3
  rw [View.read_apply]
  show V c main_v34 _ = V c main_v34 _
  refine congrArg (V c main_v34) (funext fun a => Fin.ext ?_)
  match a with
  | ⟨0, _⟩ => exact hY
  | ⟨1, _⟩ => exact hZ

/-- Window 2's block at point `t`, at (y, z), is its array at the block's offset plus (y, z). -/
theorem iblk3_2_apply (c : Dev nD) (t : Fin cfg3.N) (y : Fin 1024) (z : Fin 128) (Y : Fin 4096) (Z : Fin 128)
    (hY : win3_2.index t (0 : Fin 2) * 1024 + 1 * y.val = Y.val) (hZ : win3_2.index t (1 : Fin 2) * 128 + 1 * z.val = Z.val) :
    ((iblk3 V c 2 t : FVec Ideal S1024x128 .f32) (ix2 y z) : EReal) = (V c main_v33 : Cert.Spec.Arr2 4096 128) (ix2 Y Z) := by
  unfold iblk3
  rw [View.read_apply]
  show V c main_v33 _ = V c main_v33 _
  refine congrArg (V c main_v33) (funext fun a => Fin.ext ?_)
  match a with
  | ⟨0, _⟩ => exact hY
  | ⟨1, _⟩ => exact hZ

/-- Window 3's block at point `t`, at (y, z), is its array at the block's offset plus (y, z). -/
theorem iblk3_3_apply (c : Dev nD) (t : Fin cfg3.N) (y : Fin 128) (z : Fin 128) (Y : Fin 128) (Z : Fin 128)
    (hY : win3_3.index t (0 : Fin 2) * 128 + 1 * y.val = Y.val) (hZ : win3_3.index t (1 : Fin 2) * 128 + 1 * z.val = Z.val) :
    ((iblk3 V c 3 t : FVec Ideal S128x128 .f32) (ix2 y z) : EReal) = (V c main_v36 : Cert.Spec.Arr2 128 128) (ix2 Y Z) := by
  unfold iblk3
  rw [View.read_apply]
  show V c main_v36 _ = V c main_v36 _
  refine congrArg (V c main_v36) (funext fun a => Fin.ext ?_)
  match a with
  | ⟨0, _⟩ => exact hY
  | ⟨1, _⟩ => exact hZ

/-- Window 4's block at point `t`, at (y, z), is its array at the block's offset plus (y, z). -/
theorem iblk3_4_apply (c : Dev nD) (t : Fin cfg3.N) (y : Fin 1) (z : Fin 128) (Y : Fin 1) (Z : Fin 128)
    (hY : win3_4.index t (0 : Fin 2) * 1 + 1 * y.val = Y.val) (hZ : win3_4.index t (1 : Fin 2) * 128 + 1 * z.val = Z.val) :
    ((iblk3 V c 4 t : FVec Ideal S1x128 .f32) (ix2 y z) : EReal) = (V c main_v39 : Cert.Spec.Arr2 1 128) (ix2 Y Z) := by
  unfold iblk3
  rw [View.read_apply]
  show V c main_v39 _ = V c main_v39 _
  refine congrArg (V c main_v39) (funext fun a => Fin.ext ?_)
  match a with
  | ⟨0, _⟩ => exact hY
  | ⟨1, _⟩ => exact hZ

/-- The printed index maps at a point of the second step, decided over the grid: the output, the node features and
    the incidence block sit in block row t / 2, the incidence block and the edge update in the upper half of the edges;
    the weights and the bias do not move. -/
theorem idx_last3 : ∀ t : Fin cfg3.N, t.val % 2 = 1 →
    win3_5.index t (0 : Fin 2) = t.val / 2 ∧ win3_5.index t (1 : Fin 2) = 0
    ∧ win3_2.index t (0 : Fin 2) = t.val / 2 ∧ win3_2.index t (1 : Fin 2) = 0
    ∧ win3_0.index t (0 : Fin 2) = t.val / 2 ∧ win3_0.index t (1 : Fin 2) = 1
    ∧ win3_1.index t (0 : Fin 2) = 1 ∧ win3_1.index t (1 : Fin 2) = 0
    ∧ win3_3.index t (0 : Fin 2) = 0 ∧ win3_3.index t (1 : Fin 2) = 0
    ∧ win3_4.index t (0 : Fin 2) = 0 ∧ win3_4.index t (1 : Fin 2) = 0 :=
  (by decide +kernel : ∀ t : Fin grid3.N, t.val % 2 = 1 → _)

/-- At a point of the first step: the incidence block in block row t / 2 and the lower half of the edges, the edge
    update in the lower half. -/
theorem idx_first3 : ∀ t : Fin cfg3.N, t.val % 2 = 0 →
    win3_0.index t (0 : Fin 2) = t.val / 2 ∧ win3_0.index t (1 : Fin 2) = 0
    ∧ win3_1.index t (0 : Fin 2) = 0 ∧ win3_1.index t (1 : Fin 2) = 0 :=
  (by decide +kernel : ∀ t : Fin grid3.N, t.val % 2 = 0 → _)

/-- The layer as one function of the arrays the region finds. -/
abbrev layerOf3 (c : Dev nD) : Cert.Spec.Arr2 4096 128 :=
  Cert.Spec.nodeLayerT (V c main_v36) (V c main_v39) (Cert.Spec.nodeRes (V c main_v24) (V c main_v33) (V c main_v34))

/-- What a point of the second step writes back is its block of the layer. -/
theorem flushed3_5_eq (c : Dev nD) (hreal : Cert.Spec.AllReal (V c main_v34 : Cert.Spec.Arr2 8192 128)) (t : Fin cfg3.N)
    (hf : (cfg3.win 5).flush t = true) :
    (dat3 (F := Ideal) V c).flushed 5 t = ((cfg3.win 5).blk t).view.read (Elt Ideal) (layerOf3 V c) := by
  have hl : t.val % 2 = 1 := (flush3_5 t).mp hf
  have hN : t.val < 8 := lt_of_lt_of_eq t.isLt (show cfg3.N = 8 from N_3)
  have hzp : (prevPt3 t).val % 2 = 0 := by show (t.val - 1) % 2 = 0; omega
  have hpv : (prevPt3 t).val = t.val - 1 := rfl
  obtain ⟨o0, o1, h0, h1, a0, a1, x0, x1, w0, w1, b0, b1⟩ := idx_last3 t hl
  obtain ⟨pa0, pa1, px0, px1⟩ := idx_first3 (prevPt3 t) hzp
  show (cfg3.win 5).cut (grid3.coords t) ((dat3 V c).after 5 t) = _
  rw [after3_5, outAt3_last V c t hl]
  funext j
  obtain ⟨p, q, rfl⟩ : ∃ (p : Fin 1024) (q : Fin 128), j = ix2 p q := ⟨j 0, j 1, eq_ix2 j⟩
  have hp : p.val < 1024 := p.isLt
  have hq : q.val < 128 := q.isLt
  have hemb : ((cfg3.win 5).blk t).view.emb (ix2 p q) = ix2 (⟨(⟨t.val / 2, by omega⟩ : Fin 4).val * 1024 + p.val, by show t.val / 2 * 1024 + p.val < 4096; omega⟩ : Fin 4096) q := by
    funext a; apply Fin.ext
    match a with
    | ⟨0, _⟩ => show win3_5.index t (0 : Fin 2) * 1024 + 1 * p.val = t.val / 2 * 1024 + p.val; rw [o0]; omega
    | ⟨1, _⟩ => show win3_5.index t (1 : Fin 2) * 128 + 1 * q.val = q.val; rw [o1]; omega
  rw [View.read_apply, hemb]
  exact layerBlock3_apply (V c main_v24) (V c main_v33) (V c main_v34) (V c main_v36) (V c main_v39) hreal ⟨t.val / 2, by omega⟩
    (iblk3 V c 0 (prevPt3 t)) (iblk3 V c 0 t) (iblk3 V c 1 (prevPt3 t)) (iblk3 V c 1 t) (iblk3 V c 2 t) (iblk3 V c 3 t) (iblk3 V c 4 t)
    (fun y e => iblk3_0_apply V c (prevPt3 t) y e _ _ (by show _ = t.val / 2 * 1024 + y.val; rw [pa0, hpv]; omega) (by show _ = e.val; rw [pa1]; omega))
    (fun y e => iblk3_0_apply V c t y e _ _ (by show _ = t.val / 2 * 1024 + y.val; rw [a0]; omega) (by show _ = 4096 + e.val; rw [a1]; omega))
    (fun e k => iblk3_1_apply V c (prevPt3 t) e k _ _ (by show _ = e.val; rw [px0]; omega) (by show _ = k.val; rw [px1]; omega))
    (fun e k => iblk3_1_apply V c t e k _ _ (by show _ = 4096 + e.val; rw [x0]; omega) (by show _ = k.val; rw [x1]; omega))
    (fun y k => iblk3_2_apply V c t y k _ _ (by show _ = t.val / 2 * 1024 + y.val; rw [h0]; omega) (by show _ = k.val; rw [h1]; omega))
    (fun k z => iblk3_3_apply V c t k z _ _ (by show _ = k.val; rw [w0]; omega) (by show _ = z.val; rw [w1]; omega))
    (fun z => iblk3_4_apply V c t (0 : Fin 1) z _ _ (by show _ = (0 : Fin 1).val; rw [b0]; rfl) (by show _ = z.val; rw [b1]; omega))
    p q

/-- An index of the output array is in point `t`'s block iff each coordinate is in the block's range on its axis. -/
theorem mem_blk3_5 (t : Fin cfg3.N) (i : S4096x128.Idx) :
    i ∈ ((cfg3.win 5).blk t).view.set ↔ ∀ a : Fin 2, win3_5.index t a * S1024x128.size a ≤ (i a).val ∧ (i a).val < win3_5.index t a * S1024x128.size a + S1024x128.size a := by
  show i ∈ ((View.whole main_v40).slice (win3_5.rect t)).set ↔ _
  rw [View.set_slice_whole, Rect.mem_set_unit]
  exact Iff.rfl

/-- Every index of the output array is in the block some second-step point writes back: row r is in block row r / 1024. -/
theorem cover3_5 (i : S4096x128.Idx) : ∃ t : Fin cfg3.N, (cfg3.win 5).flush t = true ∧ i ∈ ((cfg3.win 5).blk t).view.set := by
  have hi0 : (i 0).val < 4096 := (i 0).isLt
  have hi1 : (i 1).val < 128 := (i 1).isLt
  have hN : cfg3.N = 8 := N_3
  have hlt : 2 * ((i 0).val / 1024) + 1 < cfg3.N := by rw [hN]; omega
  have hval : (⟨2 * ((i 0).val / 1024) + 1, hlt⟩ : Fin cfg3.N).val = 2 * ((i 0).val / 1024) + 1 := rfl
  have hodd : (⟨2 * ((i 0).val / 1024) + 1, hlt⟩ : Fin cfg3.N).val % 2 = 1 := by rw [hval]; omega
  obtain ⟨o0, o1, -⟩ := idx_last3 ⟨2 * ((i 0).val / 1024) + 1, hlt⟩ hodd
  refine ⟨⟨2 * ((i 0).val / 1024) + 1, hlt⟩, (flush3_5 _).mpr hodd, ?_⟩
  rw [mem_blk3_5]
  intro a
  match a with
  | ⟨0, _⟩ =>
    show win3_5.index ⟨2 * ((i 0).val / 1024) + 1, hlt⟩ (0 : Fin 2) * 1024 ≤ (i 0).val ∧ (i 0).val < win3_5.index ⟨2 * ((i 0).val / 1024) + 1, hlt⟩ (0 : Fin 2) * 1024 + 1024
    rw [o0, hval]; omega
  | ⟨1, _⟩ =>
    show win3_5.index ⟨2 * ((i 0).val / 1024) + 1, hlt⟩ (1 : Fin 2) * 128 ≤ (i 1).val ∧ (i 1).val < win3_5.index ⟨2 * ((i 0).val / 1024) + 1, hlt⟩ (1 : Fin 2) * 128 + 128
    rw [o1]; omega

/-- THE VALUE of region 3: after the region the output array is the residual layer of the node residual of the arrays the
    region finds, when every entry of the edge update is real. -/
theorem final3 (c : Dev nD) (hreal : Cert.Spec.AllReal (V c main_v34 : Cert.Spec.Arr2 8192 128)) :
    (dat3 (F := Ideal) V c).arrAt 5 cfg3.N
      = Cert.Spec.nodeLayerT (V c main_v36) (V c main_v39) (Cert.Spec.nodeRes (V c main_v24) (V c main_v33) (V c main_v34)) :=
  (dat3 (F := Ideal) V c).arrAt_eq_of_cover 5 (layerOf3 V c) (fun t hf => flushed3_5_eq V c hreal t hf) (fun i => cover3_5 i)

end AtIdeal

end Cert.KernelIdeal.Hand

end
-- ==== Proof.KI.Val4Pieces.lean ====
/-
  Region 4: what the pieces found by the two runs of the body are, as the kernel's payloads of the blocks. At k = 0 the
  accumulator is left at the second payload over the zero payload; at k = 1 at the second payload over the accumulator
  it was entered with, and the output's buffer at the third payload of that and the edge-feature block.
-/
import proofs.«181597_j77979426226450_2_alg».proof.Proof.KI.Reg4
import Idealize.ShloMosaic.Lib.Pipeline.Value
import Idealize.ShloMosaic.Lib.ValueIdx
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL.Sem
open Idealize.ShloMosaic.Pipeline (Dat Cfg Window cellOf)
open Idealize.ShloMosaic.ValueIdx

variable {F : FTy → Type} [FloatOps F]

theorem zeroOffsets2_r4 : (![0, 0] : Fin 2 → Nat) = fun _ => 0 := funext fun a => by fin_cases a <;> rfl

/-- At k = 0 the accumulator is left at the accumulation step over the zero block. -/
theorem sout4_A_0_eq (c : Dev nD) (i : grid4.Coords) (arg2 : Memref sig .tc .vmem S2048x1024 .bf16) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : cond4_0 i) (hc1 : ¬cond4_1 i)
    (x0 : Vec F S2048x1024 .bf16) (x1 : Vec F S2048x128 .f32) (x2 : Vec F S1024x128 .f32) :
    sout4_A_0 c i arg2 harg2 arg3 harg3 arg4 harg4 arg5 harg5 arg6 harg6 hc0 hc1 x0 x1 x2 = k4_pay2 x1 (k4_pay1 (F := F)) x0 := by
  unfold sout4_A_0
  rw [View.read_writes_eq_canon _ _ _ (scover4_A_0 c i arg2 harg2 arg3 harg3 arg4 harg4 arg5 harg5 arg6 harg6 hc0 hc1 x0 x1 x2)]
  unfold kernelRun4_A
  dsimp only
  sl_unfold_words
  rw [View.canon_cons_unit_zero (S := S1024x128) zeroOffsets2_r4, View.readCov_unit_zero (S := S1024x128) _ zeroOffsets2_r4]
  simp only [View.readAt_eq_ld, harg2.read_unread, harg3.read_unread, harg4.read_unread, harg6.read_unread, View.ld_unit_zero (S := S2048x128) zeroOffsets2_r4, View.ld_unit_zero (S := S2048x1024) zeroOffsets2_r4, View.ld_unit_zero (S := S1024x128) zeroOffsets2_r4]

/-- At k = 1 the accumulator is left at the accumulation step over what it held. -/
theorem sout4_C_0_eq (c : Dev nD) (i : grid4.Coords) (arg2 : Memref sig .tc .vmem S2048x1024 .bf16) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : ¬cond4_0 i) (hc1 : cond4_1 i)
    (x0 : Vec F S2048x1024 .bf16) (x1 : Vec F S2048x128 .f32) (x2 : Vec F S1024x128 .f32) (xs0 : Vec F S1024x128 .f32) :
    sout4_C_0 c i arg2 harg2 arg3 harg3 arg4 harg4 arg5 harg5 arg6 harg6 hc0 hc1 x0 x1 x2 xs0 = k4_pay2 x1 xs0 x0 := by
  unfold sout4_C_0
  rw [View.read_writes_eq_canon _ _ _ (scover4_C_0 c i arg2 harg2 arg3 harg3 arg4 harg4 arg5 harg5 arg6 harg6 hc0 hc1 x0 x1 x2 xs0)]
  unfold kernelRun4_C
  dsimp only
  sl_unfold_words
  rw [View.canon_unit_zero zeroOffsets2_r4]
  simp only [View.readAt_eq_ld, harg2.read_unread, harg3.read_unread, harg4.read_unread, harg6.read_unread, View.ld_unit_zero (S := S2048x128) zeroOffsets2_r4, View.ld_unit_zero (S := S2048x1024) zeroOffsets2_r4, View.ld_unit_zero (S := S1024x128) zeroOffsets2_r4]

/-- At k = 1 the output's buffer is left at the clipped sum of the new accumulator and the edge-feature block. -/
theorem out4_C_3_eq (c : Dev nD) (i : grid4.Coords) (arg2 : Memref sig .tc .vmem S2048x1024 .bf16) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : ¬cond4_0 i) (hc1 : cond4_1 i)
    (x0 : Vec F S2048x1024 .bf16) (x1 : Vec F S2048x128 .f32) (x2 : Vec F S1024x128 .f32) (xs0 : Vec F S1024x128 .f32) :
    out4_C_3 c i arg2 harg2 arg3 harg3 arg4 harg4 arg5 harg5 arg6 harg6 hc0 hc1 x0 x1 x2 xs0 = k4_pay3 (k4_pay2 x1 xs0 x0) x2 := by
  unfold out4_C_3
  rw [View.read_writes_eq_canon _ _ _ (cover4_C_3 c i arg2 harg2 arg3 harg3 arg4 harg4 arg5 harg5 arg6 harg6 hc0 hc1 x0 x1 x2 xs0)]
  unfold kernelRun4_C
  dsimp only
  sl_unfold_words
  rw [View.canon_unit_zero zeroOffsets2_r4, View.readCov_unit_zero (S := S1024x128) _ zeroOffsets2_r4]
  simp only [View.readAt_eq_ld, harg2.read_unread, harg3.read_unread, harg4.read_unread, harg6.read_unread, View.ld_unit_zero (S := S2048x128) zeroOffsets2_r4, View.ld_unit_zero (S := S2048x1024) zeroOffsets2_r4, View.ld_unit_zero (S := S1024x128) zeroOffsets2_r4]

end Cert.KernelIdeal.Hand

end
-- ==== Proof.KI.Val4Points.lean ====
/-
  Region 4: what the accumulation holds at a point, in terms of the kernel's payloads of the point's blocks, for any
  float values. After a point with k = 0 the accumulator holds the accumulation step over the zero block; after a point
  with k = 1 the output's buffer holds the clipped sum of the accumulation step, over what the point before left in the
  accumulator, and the edge-feature block.
-/
import proofs.«181597_j77979426226450_2_alg».proof.Proof.KI.Val4Pieces

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL.Sem
open Idealize.ShloMosaic.Pipeline (Dat Cfg Window cellOf)
open Idealize.ShloMosaic.ValueIdx

variable {F : FTy → Type} [FloatOps F]
variable (V : (c : Dev nD) → (b : Ref sig .tc) → Buf (Elt F) ((c : Thread nD τ).loc b))

set_option maxHeartbeats 2000000 in
/-- After a point with k = 0 the accumulator holds the accumulation step over the zero block. -/
theorem acc_even4 (c : Dev nD) (t : Fin cfg4.N) (h0 : t.val % 2 = 0) :
    (outsAt4 V c t.val t.isLt).2 = k4_pay2 (iblk4 V c 1 t) (k4_pay1 (F := F)) (iblk4 V c 0 t) := by
  have h1 : ¬t.val % 2 = 1 := by omega
  rw [outsAt4_A V c t h0 h1]
  exact sout4_A_0_eq (F := F) c (grid4.coords t) (ms4_0 t) (hs4_0 t) (ms4_1 t) (hs4_1 t) (ms4_2 t) (hs4_2 t) (ms4_3 t) (hs4_3 t) scM4_0 (Memref.isWhole_whole _) ((hcond4_0 t).mpr h0) (fun h => h1 ((hcond4_1 t).mp h)) (iblk4 V c 0 t) (iblk4 V c 1 t) (iblk4 V c 2 t)

set_option maxHeartbeats 2000000 in
/-- After a point with k = 1 the output's buffer holds the clipped sum of the accumulation step, over what the point
    before left in the accumulator, and the edge-feature block. -/
theorem out_odd4 (c : Dev nD) (t : Fin cfg4.N) (h1 : t.val % 2 = 1) :
    (outsAt4 V c t.val t.isLt).1
      = k4_pay3 (k4_pay2 (iblk4 V c 1 t) (outsAt4 V c (t.val - 1) (Nat.lt_of_le_of_lt (Nat.sub_le _ _) t.isLt)).2 (iblk4 V c 0 t)) (iblk4 V c 2 t) := by
  have h0 : ¬t.val % 2 = 0 := by omega
  rw [outsAt4_C V c t h0 h1]
  exact out4_C_3_eq (F := F) c (grid4.coords t) (ms4_0 t) (hs4_0 t) (ms4_1 t) (hs4_1 t) (ms4_2 t) (hs4_2 t) (ms4_3 t) (hs4_3 t) scM4_0 (Memref.isWhole_whole _) (fun h => h0 ((hcond4_0 t).mp h)) ((hcond4_1 t).mpr h1) (iblk4 V c 0 t) (iblk4 V c 1 t) (iblk4 V c 2 t) (outsAt4 V c (t.val - 1) (Nat.lt_of_le_of_lt (Nat.sub_le _ _) t.isLt)).2

end Cert.KernelIdeal.Hand

end
-- ==== Proof.KI.Val4Payload.lean ====
/-
  Region 4's payloads read at an index, on the extended reals, over explicit coordinates (a, b) of a 1024 by 128 block:
  the zero block is 0; the accumulation step is acc[a,b] + Σ_k A[k,a]·x[k,b] over the 2048 rows of the two blocks, the
  contraction against the remainder x - x vanishing when column b of x is real; the clipped sum is max (s[a,b] + h[a,b]) 0.
-/
import proofs.«181597_j77979426226450_2_alg».proof.Proof.Gen.KernelIdeal.Skeleton
import proofs.«181597_j77979426226450_2_alg».proof.Proof.LibSplitAccumulate
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL.Sem
open Idealize.ShloMosaic.Pipeline (Dat Cfg Window cellOf)
open Idealize.ShloMosaic.ValueIdx

open Cert.SplitAccumulate

/-- The contraction of a 2048 by 1024 block with a 2048 by 128 block over their first axes, into the zero block, at
    (a, b): Σ_k A[k,a]·B[k,b]. -/
theorem matmulT_zero_apply_r4 (A : FVec Ideal S2048x1024 .bf16) (B : FVec Ideal S2048x128 .bf16) (a : Fin 1024) (b : Fin 128) :
    matmul (F := Ideal) dot_S2048x1024_S2048x128_S1024x128_0_0_1_1_n_n none A B (constant (F := Ideal) S1024x128 .f32 0x00000000#32) (ix2 a b)
      = ∑ k : Fin 2048, (A (ix2 k a) : EReal) * (B (ix2 k b) : EReal) := by
  refine (Ideal.matmul_constant_zero_apply dot_S2048x1024_S2048x128_S1024x128_0_0_1_1_n_n none A B (ix2 a b)).trans ?_
  rw [← Equiv.sum_comp (contrEquiv1 dot_S2048x1024_S2048x128_S1024x128_0_0_1_1_n_n 2048 rfl rfl).symm]
  refine Finset.sum_congr rfl fun k _ => ?_
  have ck := contrEquiv1_symm_val dot_S2048x1024_S2048x128_S1024x128_0_0_1_1_n_n 2048 rfl rfl k
  have l2 : (dot_S2048x1024_S2048x128_S1024x128_0_0_1_1_n_n).lhsIdx (ix2 a b) ((contrEquiv1 dot_S2048x1024_S2048x128_S1024x128_0_0_1_1_n_n 2048 rfl rfl).symm k) = ix2 k a := by
    funext ax; apply Fin.ext
    match ax with
    | ⟨0, _⟩ => simp [DotDims.lhsIdx, dot_S2048x1024_S2048x128_S1024x128_0_0_1_1_n_n]; exact ck
    | ⟨1, _⟩ => simp [DotDims.lhsIdx, dot_S2048x1024_S2048x128_S1024x128_0_0_1_1_n_n]; rfl
  have r2 : (dot_S2048x1024_S2048x128_S1024x128_0_0_1_1_n_n).rhsIdx (ix2 a b) ((contrEquiv1 dot_S2048x1024_S2048x128_S1024x128_0_0_1_1_n_n 2048 rfl rfl).symm k) = ix2 k b := by
    funext ax; apply Fin.ext
    match ax with
    | ⟨0, _⟩ => simp [DotDims.rhsIdx, dot_S2048x1024_S2048x128_S1024x128_0_0_1_1_n_n]; exact ck
    | ⟨1, _⟩ => simp [DotDims.rhsIdx, dot_S2048x1024_S2048x128_S1024x128_0_0_1_1_n_n]; rfl
  rw [l2, r2]

/-- The zero block at an index. -/
theorem k4_pay1_apply (a : Fin 1024) (b : Fin 128) : k4_pay1 (F := Ideal) (ix2 a b) = (0 : EReal) := by
  unfold k4_pay1
  simp only [shapeCast_self]
  exact Ideal.ofBits_zero_f32

/-- The accumulation step at an index: the accumulator plus the contraction of the two blocks, when the feature
    block's column is real. -/
theorem k4_pay2_apply (x1 : FVec Ideal S2048x128 .f32) (acc : FVec Ideal S1024x128 .f32) (x0 : FVec Ideal S2048x1024 .bf16)
    (a : Fin 1024) (b : Fin 128) (hreal : ∀ k : Fin 2048, IsReal (x1 (ix2 k b))) :
    k4_pay2 (F := Ideal) x1 acc x0 (ix2 a b)
      = (acc (ix2 a b) : EReal) + ∑ k : Fin 2048, (x0 (ix2 k a) : EReal) * (x1 (ix2 k b) : EReal) := by
  unfold k4_pay2
  simp only [shapeCast_self]
  refine Eq.trans (congrArg (fun z : EReal => (acc (ix2 a b) : EReal) + z)
    (congrArg₂ (fun y z : EReal => y + z) (matmulT_zero_apply_r4 x0 _ a b) (matmulT_zero_apply_r4 x0 _ a b))) ?_
  exact congrArg (fun z : EReal => (acc (ix2 a b) : EReal) + z)
    (sum_split (fun k : Fin 2048 => (x0 (ix2 k a) : EReal)) (fun k : Fin 2048 => (x1 (ix2 k b) : EReal)) hreal)

/-- The clipped sum at an index. -/
theorem k4_pay3_apply (s h : FVec Ideal S1024x128 .f32) (a : Fin 1024) (b : Fin 128) :
    k4_pay3 (F := Ideal) s h (ix2 a b) = max ((s (ix2 a b) : EReal) + (h (ix2 a b) : EReal)) 0 := by
  unfold k4_pay3
  simp only [shapeCast_self]
  exact congrArg (fun z : EReal => max ((s (ix2 a b) : EReal) + (h (ix2 a b) : EReal)) z) Ideal.ofBits_zero_f32

end Cert.KernelIdeal.Hand

end
-- ==== Proof.KI.Val4Core.lean ====
/-
  Region 4's value on the extended reals: after the region its output array holds, at
  (e, j), max (he[e,j] + Σ_v A2[v,e]·hv[v,j]) 0 of the arrays the region was entered with, when hv is real. Point (i, 0)
  leaves in the accumulator the contraction over rows 0..2048 for edge block i; point (i, 1) adds the contraction over
  rows 2048..4096 and stores the clipped sum with the edge-feature block; the sum over the 4096 rows is the sum of its
  two halves.
-/
import proofs.«181597_j77979426226450_2_alg».proof.Proof.KI.Val4Points
import proofs.«181597_j77979426226450_2_alg».proof.Proof.KI.Val4Payload

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL.Sem
open Idealize.ShloMosaic.Pipeline (Dat Cfg Window cellOf)
open Idealize.ShloMosaic.ValueIdx

open Cert.SplitAccumulate

/-! ## The closed form -/

/-- The edge update, index by index: max (he[e,j] + Σ_v A2[v,e]·hv[v,j]) 0. -/
def edgeUpdate_r4 (A2 : S4096x8192.Idx → EReal) (hv : S4096x128.Idx → EReal) (he : S8192x128.Idx → EReal) : S8192x128.Idx → EReal :=
  fun i => max (he (ix2 (i 0) (i 1)) + ∑ v : Fin 4096, A2 (ix2 v (i 0)) * hv (ix2 v (i 1))) 0

/-- The clipped two-step accumulation from zero, of the contraction over the lower and the upper 2048 rows, is the edge
    update at (e, j). -/
theorem edgeUpdate_of_halves_r4 (A2 : S4096x8192.Idx → EReal) (hv : S4096x128.Idx → EReal) (he : S8192x128.Idx → EReal)
    (e : Fin 8192) (j : Fin 128) (S0 S1 h : EReal)
    (hS0 : S0 = ∑ k : Fin 2048, A2 (ix2 (⟨k.val, by omega⟩ : Fin 4096) e) * hv (ix2 (⟨k.val, by omega⟩ : Fin 4096) j))
    (hS1 : S1 = ∑ k : Fin 2048, A2 (ix2 (⟨2048 + k.val, by omega⟩ : Fin 4096) e) * hv (ix2 (⟨2048 + k.val, by omega⟩ : Fin 4096) j))
    (hh : h = he (ix2 e j)) :
    max (((0 + S0) + S1) + h) 0 = edgeUpdate_r4 A2 hv he (ix2 e j) := by
  subst hS0 hS1 hh
  rw [accumulate_two]
  show _ = max (he (ix2 e j) + ∑ v : Fin 4096, A2 (ix2 v e) * hv (ix2 v j)) 0
  rw [sum_halves (n := 2048) (m := 4096) rfl (fun v : Fin 4096 => A2 (ix2 v e) * hv (ix2 v j))]

/-! ## A point's value from its blocks -/

/-- The output block a point with k = 1 stores, at (a, b), from the blocks of that point (x0c, x1c, x2) and of the point
    before (x0a, x1a), when column b of both feature blocks is real. -/
theorem point_value_r4 (x0a x0c : FVec Ideal S2048x1024 .bf16) (x1a x1c : FVec Ideal S2048x128 .f32) (x2 : FVec Ideal S1024x128 .f32)
    (a : Fin 1024) (b : Fin 128) (hra : ∀ k : Fin 2048, IsReal (x1a (ix2 k b))) (hrc : ∀ k : Fin 2048, IsReal (x1c (ix2 k b))) :
    k4_pay3 (F := Ideal) (k4_pay2 (F := Ideal) x1c (k4_pay2 (F := Ideal) x1a (k4_pay1 (F := Ideal)) x0a) x0c) x2 (ix2 a b)
      = max ((((0 : EReal) + ∑ k : Fin 2048, (x0a (ix2 k a) : EReal) * (x1a (ix2 k b) : EReal))
          + ∑ k : Fin 2048, (x0c (ix2 k a) : EReal) * (x1c (ix2 k b) : EReal)) + (x2 (ix2 a b) : EReal)) 0 := by
  rw [k4_pay3_apply, k4_pay2_apply x1c _ x0c a b hrc, k4_pay2_apply x1a _ x0a a b hra, k4_pay1_apply]

/-! ## The block indices, decided over the grid -/

/-- Point t = 2i + k reads block (k, i) of the incidence matrix, block (k, 0) of the node features, block (i, 0) of the
    edge features, and its output block is (i, 0). -/
theorem idx_facts4 : ∀ t : Fin cfg4.N,
    win4_0.index t (0 : Fin 2) = t.val % 2 ∧ win4_0.index t (1 : Fin 2) = t.val / 2
    ∧ win4_1.index t (0 : Fin 2) = t.val % 2 ∧ win4_1.index t (1 : Fin 2) = 0
    ∧ win4_2.index t (0 : Fin 2) = t.val / 2 ∧ win4_2.index t (1 : Fin 2) = 0
    ∧ win4_3.index t (0 : Fin 2) = t.val / 2 ∧ win4_3.index t (1 : Fin 2) = 0 :=
  (by decide +kernel : ∀ t : Fin grid4.N, _)

/-! ## The blocks, typed over their literal shapes, and read at an index -/

variable (V : (c : Dev nD) → (b : Ref sig .tc) → Buf (Elt Ideal) ((c : Thread nD τ).loc b))

/-- The incidence block of point t. -/
def blkA_r4 (c : Dev nD) (t : Fin cfg4.N) : FVec Ideal S2048x1024 .bf16 := iblk4 V c 0 t
/-- The node-feature block of point t. -/
def blkX_r4 (c : Dev nD) (t : Fin cfg4.N) : FVec Ideal S2048x128 .f32 := iblk4 V c 1 t
/-- The edge-feature block of point t. -/
def blkH_r4 (c : Dev nD) (t : Fin cfg4.N) : FVec Ideal S1024x128 .f32 := iblk4 V c 2 t

/-- The incidence block at (k, a) is the matrix at row (t mod 2)·2048 + k, column (t div 2)·1024 + a. -/
theorem blkA_apply_r4 (c : Dev nD) (t : Fin cfg4.N) (k : Fin 2048) (a : Fin 1024) (r : Fin 4096) (e : Fin 8192)
    (hr : r.val = t.val % 2 * 2048 + k.val) (he : e.val = t.val / 2 * 1024 + a.val) :
    blkA_r4 V c t (ix2 k a) = (V c main_v25 : S4096x8192.Idx → EReal) (ix2 r e) := by
  obtain ⟨e0, e1, -⟩ := idx_facts4 t
  unfold blkA_r4 iblk4
  rw [View.read_apply]
  show V c main_v25 _ = V c main_v25 _
  congr 1
  funext ax; apply Fin.ext
  match ax with
  | ⟨0, _⟩ => show win4_0.index t (0 : Fin 2) * 2048 + 1 * k.val = r.val; omega
  | ⟨1, _⟩ => show win4_0.index t (1 : Fin 2) * 1024 + 1 * a.val = e.val; omega

/-- The node-feature block at (k, b) is the array at row (t mod 2)·2048 + k, column b. -/
theorem blkX_apply_r4 (c : Dev nD) (t : Fin cfg4.N) (k : Fin 2048) (b : Fin 128) (r : Fin 4096)
    (hr : r.val = t.val % 2 * 2048 + k.val) :
    blkX_r4 V c t (ix2 k b) = (V c main_v40 : S4096x128.Idx → EReal) (ix2 r b) := by
  obtain ⟨-, -, e0, e1, -⟩ := idx_facts4 t
  unfold blkX_r4 iblk4
  rw [View.read_apply]
  show V c main_v40 _ = V c main_v40 _
  congr 1
  funext ax; apply Fin.ext
  match ax with
  | ⟨0, _⟩ => show win4_1.index t (0 : Fin 2) * 2048 + 1 * k.val = r.val; omega
  | ⟨1, _⟩ => show win4_1.index t (1 : Fin 2) * 128 + 1 * b.val = b.val; omega

/-- The edge-feature block at (a, b) is the array at row (t div 2)·1024 + a, column b. -/
theorem blkH_apply_r4 (c : Dev nD) (t : Fin cfg4.N) (a : Fin 1024) (b : Fin 128) (e : Fin 8192)
    (he : e.val = t.val / 2 * 1024 + a.val) :
    blkH_r4 V c t (ix2 a b) = (V c main_v23 : S8192x128.Idx → EReal) (ix2 e b) := by
  obtain ⟨-, -, -, -, e0, e1, -⟩ := idx_facts4 t
  unfold blkH_r4 iblk4
  rw [View.read_apply]
  show V c main_v23 _ = V c main_v23 _
  congr 1
  funext ax; apply Fin.ext
  match ax with
  | ⟨0, _⟩ => show win4_2.index t (0 : Fin 2) * 1024 + 1 * a.val = e.val; omega
  | ⟨1, _⟩ => show win4_2.index t (1 : Fin 2) * 128 + 1 * b.val = b.val; omega

/-! ## The output's buffer after a point with k = 1 -/

/-- After a point t with k = 1 the output's buffer holds, at (a, b), the edge update at edge (t div 2)·1024 + a and
    column b, of the arrays the region was entered with. -/
theorem out_value4 (c : Dev nD) (hreal : ∀ i, IsReal ((V c main_v40 : S4096x128.Idx → EReal) i)) (t : Fin cfg4.N)
    (h1 : t.val % 2 = 1) (a : Fin 1024) (b : Fin 128) (e : Fin 8192) (he : e.val = t.val / 2 * 1024 + a.val) :
    (outsAt4 V c t.val t.isLt).1 (ix2 a b) = edgeUpdate_r4 (V c main_v25) (V c main_v40) (V c main_v23) (ix2 e b) := by
  have hN : t.val < 16 := lt_of_lt_of_eq t.isLt (show cfg4.N = 16 from N_4)
  have hlt : t.val - 1 < cfg4.N := Nat.lt_of_le_of_lt (Nat.sub_le _ _) t.isLt
  have hev : (⟨t.val - 1, hlt⟩ : Fin cfg4.N).val % 2 = 0 := by dsimp only; omega
  have hpt : (outsAt4 V c t.val t.isLt).1
      = k4_pay3 (F := Ideal) (k4_pay2 (F := Ideal) (blkX_r4 V c t) (k4_pay2 (F := Ideal) (blkX_r4 V c ⟨t.val - 1, hlt⟩) (k4_pay1 (F := Ideal)) (blkA_r4 V c ⟨t.val - 1, hlt⟩)) (blkA_r4 V c t)) (blkH_r4 V c t) := by
    rw [out_odd4 V c t h1, acc_even4 V c ⟨t.val - 1, hlt⟩ hev]
    rfl
  rw [hpt]
  refine (point_value_r4 (blkA_r4 V c ⟨t.val - 1, hlt⟩) (blkA_r4 V c t) (blkX_r4 V c ⟨t.val - 1, hlt⟩) (blkX_r4 V c t) (blkH_r4 V c t) a b ?_ ?_).trans ?_
  · intro k
    rw [blkX_apply_r4 V c ⟨t.val - 1, hlt⟩ k b ⟨k.val, by omega⟩ (by dsimp only; omega)]
    exact hreal _
  · intro k
    rw [blkX_apply_r4 V c t k b ⟨2048 + k.val, by omega⟩ (by dsimp only; omega)]
    exact hreal _
  · refine edgeUpdate_of_halves_r4 _ _ _ e b _ _ _ ?_ ?_ ?_
    · exact Finset.sum_congr rfl fun k _ => congrArg₂ (fun y z : EReal => y * z)
        (blkA_apply_r4 V c ⟨t.val - 1, hlt⟩ k a ⟨k.val, by omega⟩ e (by dsimp only; omega) (by dsimp only; omega))
        (blkX_apply_r4 V c ⟨t.val - 1, hlt⟩ k b ⟨k.val, by omega⟩ (by dsimp only; omega))
    · exact Finset.sum_congr rfl fun k _ => congrArg₂ (fun y z : EReal => y * z)
        (blkA_apply_r4 V c t k a ⟨2048 + k.val, by omega⟩ e (by dsimp only; omega) he)
        (blkX_apply_r4 V c t k b ⟨2048 + k.val, by omega⟩ (by dsimp only; omega))
    · exact blkH_apply_r4 V c t a b e he

/-! ## From the blocks to the array -/

/-- What a point with k = 1 writes back is its block of the edge update. -/
theorem flushed4_3_eq (c : Dev nD) (hreal : ∀ i, IsReal ((V c main_v40 : S4096x128.Idx → EReal) i)) (t : Fin cfg4.N)
    (hf : (cfg4.win 3).flush t = true) :
    (dat4 (F := Ideal) V c).flushed 3 t
      = ((cfg4.win 3).blk t).view.read (Elt Ideal) (edgeUpdate_r4 (V c main_v25) (V c main_v40) (V c main_v23)) := by
  have h1 : t.val % 2 = 1 := (flush4_3 t).mp hf
  have hN : t.val < 16 := lt_of_lt_of_eq t.isLt (show cfg4.N = 16 from N_4)
  obtain ⟨-, -, -, -, -, -, e0, e1⟩ := idx_facts4 t
  show (cfg4.win 3).cut (grid4.coords t) ((dat4 V c).after 3 t) = _
  rw [after4_3]
  funext j
  rw [View.read_apply]
  have hj0 : (j 0).val < 1024 := (j 0).isLt
  have hj1 : (j 1).val < 128 := (j 1).isLt
  refine Eq.trans (b := (outsAt4 V c t.val t.isLt).1 (ix2 (⟨(j 0).val, hj0⟩ : Fin 1024) (⟨(j 1).val, hj1⟩ : Fin 128))) ?_ ?_
  · exact congrArg (outsAt4 V c t.val t.isLt).1 (funext fun ax => Fin.ext (by match ax with | ⟨0, _⟩ => rfl | ⟨1, _⟩ => rfl))
  · refine (out_value4 V c hreal t h1 ⟨(j 0).val, hj0⟩ ⟨(j 1).val, hj1⟩ ⟨t.val / 2 * 1024 + (j 0).val, by omega⟩ rfl).trans ?_
    refine congrArg (edgeUpdate_r4 (V c main_v25) (V c main_v40) (V c main_v23)) (funext fun ax => Fin.ext ?_)
    match ax with
    | ⟨0, _⟩ => show t.val / 2 * 1024 + (j 0).val = win4_3.index t (0 : Fin 2) * 1024 + 1 * (j 0).val; omega
    | ⟨1, _⟩ => show (j 1).val = win4_3.index t (1 : Fin 2) * 128 + 1 * (j 1).val; omega

/-- An index of the output array is in point t's block iff each coordinate is in the block's range on its axis. -/
theorem mem_blk4_3 (t : Fin cfg4.N) (i : S8192x128.Idx) :
    i ∈ ((cfg4.win 3).blk t).view.set ↔ ∀ a : Fin 2, win4_3.index t a * S1024x128.size a ≤ (i a).val ∧ (i a).val < win4_3.index t a * S1024x128.size a + S1024x128.size a := by
  show i ∈ ((View.whole main_v41).slice (win4_3.rect t)).set ↔ _
  rw [View.set_slice_whole, Rect.mem_set_unit]
  exact Iff.rfl

/-- Every index of the output array is in the block of a point with k = 1: row e lies in edge block e div 1024. -/
theorem cover4_3 (i : S8192x128.Idx) : ∃ t : Fin cfg4.N, (cfg4.win 3).flush t = true ∧ i ∈ ((cfg4.win 3).blk t).view.set := by
  have hi0 : (i 0).val < 8192 := (i 0).isLt
  have hi1 : (i 1).val < 128 := (i 1).isLt
  have hN : cfg4.N = 16 := N_4
  have ht : 2 * ((i 0).val / 1024) + 1 < cfg4.N := by omega
  obtain ⟨-, -, -, -, -, -, e0, e1⟩ := idx_facts4 ⟨2 * ((i 0).val / 1024) + 1, ht⟩
  refine ⟨⟨2 * ((i 0).val / 1024) + 1, ht⟩, (flush4_3 _).mpr (by dsimp only; omega), ?_⟩
  rw [mem_blk4_3]
  intro a
  match a with
  | ⟨0, _⟩ =>
    show win4_3.index ⟨2 * ((i 0).val / 1024) + 1, ht⟩ (0 : Fin 2) * 1024 ≤ (i 0).val ∧ (i 0).val < win4_3.index ⟨2 * ((i 0).val / 1024) + 1, ht⟩ (0 : Fin 2) * 1024 + 1024
    dsimp only at e0; omega
  | ⟨1, _⟩ =>
    show win4_3.index ⟨2 * ((i 0).val / 1024) + 1, ht⟩ (1 : Fin 2) * 128 ≤ (i 1).val ∧ (i 1).val < win4_3.index ⟨2 * ((i 0).val / 1024) + 1, ht⟩ (1 : Fin 2) * 128 + 128
    omega

/-- After the region the output array is the edge update of the arrays the region was entered with. -/
theorem final4_core (c : Dev nD) (hreal : ∀ i, IsReal ((V c main_v40 : S4096x128.Idx → EReal) i)) :
    (dat4 (F := Ideal) V c).arrAt 3 cfg4.N = edgeUpdate_r4 (V c main_v25) (V c main_v40) (V c main_v23) :=
  (dat4 (F := Ideal) V c).arrAt_eq_of_cover 3 (edgeUpdate_r4 (V c main_v25) (V c main_v40) (V c main_v23))
    (fun t hf => flushed4_3_eq V c hreal t hf) (fun i => cover4_3 i)

end Cert.KernelIdeal.Hand

end
-- ==== Proof.KI.Val4.lean ====
/-
  Region 4's value, against the specification: after the region its output array is the specification's edge update of
  the incidence matrix, the node features and the edge features the region was entered with, when the node features
  are real.
-/
import proofs.«181597_j77979426226450_2_alg».proof.Proof.KI.Val4Core
import proofs.«181597_j77979426226450_2_alg».proof.Proof.Spec

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL.Sem
open Idealize.ShloMosaic.Pipeline (Dat Cfg Window cellOf)
open Idealize.ShloMosaic.ValueIdx

variable (V : (c : Dev nD) → (b : Ref sig .tc) → Buf (Elt Ideal) ((c : Thread nD τ).loc b))

/-- The closed form read off the kernel is the specification's edge update. -/
theorem edgeUpdate_eq_spec_r4 (A2 : Cert.Spec.Arr2 4096 8192) (hv : Cert.Spec.Arr2 4096 128) (he : Cert.Spec.Arr2 8192 128) :
    edgeUpdate_r4 A2 hv he = Cert.Spec.edgeUpd A2 hv he := rfl

/-- After region 4 its output array is the edge update of the arrays the region was entered with. -/
theorem final4 (c : Dev nD) (hreal : Cert.Spec.AllReal (S := S4096x128) (V c main_v40)) :
    (dat4 (F := Ideal) V c).arrAt 3 cfg4.N = Cert.Spec.edgeUpd (V c main_v25) (V c main_v40) (V c main_v23) :=
  (final4_core V c hreal).trans (edgeUpdate_eq_spec_r4 (V c main_v25) (V c main_v40) (V c main_v23))

end Cert.KernelIdeal.Hand

end
-- ==== Proof.KI.Val5Pieces.lean ====
/- Region 5: what the two runs found, read back as the kernel's payloads of the blocks. In the first reduction step the
   accumulator is zeroed and the step's product of the two input blocks is added; in the last step the product is added to
   what the step before left, and the output block is the residual layer of that sum. Generic in the float values. -/
import proofs.«181597_j77979426226450_2_alg».proof.Proof.KI.Reg5
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic Idealize.SL.Sem
open Idealize.ShloMosaic.Pipeline (Dat)

variable {F : FTy → Type} [FloatOps F]

/-- The zero offsets of a whole-block access. -/
theorem hz5 : (![0, 0] : Fin 2 → Nat) = fun _ => 0 := funext fun a => by fin_cases a <;> rfl

/-- Case C's accumulator: the one covering store's payload, over the blocks and what the accumulator held. -/
theorem sout5_C_0_eq (c : Dev nD) (i : grid5.Coords) (arg2 : Memref sig .tc .vmem S1024x4096 .bf16) (harg2 : arg2.IsWhole) (arg3 : Memref sig .tc .vmem S4096x128 .f32) (harg3 : arg3.IsWhole) (arg4 : Memref sig .tc .vmem S1024x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1024x128 .f32) (harg7 : arg7.IsWhole) (arg8 : Memref sig .tc .vmem S1024x128 .f32) (harg8 : arg8.IsWhole) (hcz : ¬cond5_0 i) (hcl : cond5_1 i)
    (xa : Vec F S1024x4096 .bf16) (xb : Vec F S4096x128 .f32) (xc : Vec F S1024x128 .f32) (xd : Vec F S128x128 .f32) (xe : Vec F S1x128 .f32) (xs : Vec F S1024x128 .f32) :
    sout5_C_0 c i arg2 harg2 arg3 harg3 arg4 harg4 arg5 harg5 arg6 harg6 arg7 harg7 arg8 harg8 hcz hcl xa xb xc xd xe xs = k5_pay2 xb xs xa := by
  unfold sout5_C_0
  rw [View.read_writes_eq_canon _ _ _ (scover5_C_0 c i arg2 harg2 arg3 harg3 arg4 harg4 arg5 harg5 arg6 harg6 arg7 harg7 arg8 harg8 hcz hcl xa xb xc xd xe xs)]
  unfold kernelRun5_C
  dsimp only
  sl_unfold_words
  rw [View.canon_unit_zero (S := S1024x128) hz5]
  simp only [View.readAt_eq_ld, harg2.read_unread, harg3.read_unread, harg8.read_unread, View.ld_unit_zero (S := S1024x4096) hz5, View.ld_unit_zero (S := S4096x128) hz5, View.ld_unit_zero (S := S1024x128) hz5, View.ld_unit_zero (S := S128x128) hz5, View.ld_unit_zero (S := S1x128) hz5]

/-- Case A's accumulator: the zero block is stored and read back, then the covering store adds the product to it. -/
theorem sout5_A_0_eq (c : Dev nD) (i : grid5.Coords) (arg2 : Memref sig .tc .vmem S1024x4096 .bf16) (harg2 : arg2.IsWhole) (arg3 : Memref sig .tc .vmem S4096x128 .f32) (harg3 : arg3.IsWhole) (arg4 : Memref sig .tc .vmem S1024x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1024x128 .f32) (harg7 : arg7.IsWhole) (arg8 : Memref sig .tc .vmem S1024x128 .f32) (harg8 : arg8.IsWhole) (hcz : cond5_0 i) (hcl : ¬cond5_1 i)
    (xa : Vec F S1024x4096 .bf16) (xb : Vec F S4096x128 .f32) (xc : Vec F S1024x128 .f32) (xd : Vec F S128x128 .f32) (xe : Vec F S1x128 .f32) :
    sout5_A_0 c i arg2 harg2 arg3 harg3 arg4 harg4 arg5 harg5 arg6 harg6 arg7 harg7 arg8 harg8 hcz hcl xa xb xc xd xe = k5_pay2 xb (k5_pay1 (F := F)) xa := by
  unfold sout5_A_0
  rw [View.read_writes_eq_canon _ _ _ (scover5_A_0 c i arg2 harg2 arg3 harg3 arg4 harg4 arg5 harg5 arg6 harg6 arg7 harg7 arg8 harg8 hcz hcl xa xb xc xd xe)]
  unfold kernelRun5_A
  dsimp only
  sl_unfold_words
  rw [View.canon_cons_unit_zero (S := S1024x128) hz5, View.readCov_unit_zero (S := S1024x128) _ hz5]
  simp only [View.readAt_eq_ld, harg2.read_unread, harg3.read_unread, View.ld_unit_zero (S := S1024x4096) hz5, View.ld_unit_zero (S := S4096x128) hz5, View.ld_unit_zero (S := S1024x128) hz5, View.ld_unit_zero (S := S128x128) hz5, View.ld_unit_zero (S := S1x128) hz5]

/-- Case C's output block: the one covering store's payload, over the residual block, the accumulator as the case
    leaves it, the weight block and the bias row. -/
theorem out5_C_5_eq (c : Dev nD) (i : grid5.Coords) (arg2 : Memref sig .tc .vmem S1024x4096 .bf16) (harg2 : arg2.IsWhole) (arg3 : Memref sig .tc .vmem S4096x128 .f32) (harg3 : arg3.IsWhole) (arg4 : Memref sig .tc .vmem S1024x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1024x128 .f32) (harg7 : arg7.IsWhole) (arg8 : Memref sig .tc .vmem S1024x128 .f32) (harg8 : arg8.IsWhole) (hcz : ¬cond5_0 i) (hcl : cond5_1 i)
    (xa : Vec F S1024x4096 .bf16) (xb : Vec F S4096x128 .f32) (xc : Vec F S1024x128 .f32) (xd : Vec F S128x128 .f32) (xe : Vec F S1x128 .f32) (xs : Vec F S1024x128 .f32) :
    out5_C_5 c i arg2 harg2 arg3 harg3 arg4 harg4 arg5 harg5 arg6 harg6 arg7 harg7 arg8 harg8 hcz hcl xa xb xc xd xe xs = k5_pay3 xc (k5_pay2 xb xs xa) xd xe := by
  unfold out5_C_5
  rw [View.read_writes_eq_canon _ _ _ (cover5_C_5 c i arg2 harg2 arg3 harg3 arg4 harg4 arg5 harg5 arg6 harg6 arg7 harg7 arg8 harg8 hcz hcl xa xb xc xd xe xs)]
  unfold kernelRun5_C
  dsimp only
  sl_unfold_words
  rw [View.canon_unit_zero (S := S1024x128) hz5]
  simp only [View.readAt_eq_ld, harg2.read_unread, harg3.read_unread, harg4.read_unread, harg5.read_unread, harg6.read_unread, harg8.read_unread, View.ld_unit_zero (S := S1024x4096) hz5, View.ld_unit_zero (S := S4096x128) hz5, View.ld_unit_zero (S := S1024x128) hz5, View.ld_unit_zero (S := S128x128) hz5, View.ld_unit_zero (S := S1x128) hz5]
  rw [View.readCov_unit_zero (S := S1024x128) _ hz5]

end Cert.KernelIdeal.Hand

end
-- ==== Proof.KI.Val5Payload.lean ====
/-
  Region 5's payloads read at an index, on the extended reals, over explicit coordinates (p, q) of a 1024 by 128 block:
  the zero block is 0; the accumulation step is acc[p,q] + Σ_e A[p,e]·x[e,q] over the 4096 columns of the incidence
  block, the contraction against the remainder x - x vanishing when column q of x is real; the residual layer is
  act (Σ_k (h[p,k] + acc[p,k])·Wt[k,q] + b[0,q]) with act x = x for 0 ≤ x and slope·x otherwise.
-/
import proofs.«181597_j77979426226450_2_alg».proof.Proof.Gen.KernelIdeal.Skeleton
import proofs.«181597_j77979426226450_2_alg».proof.Proof.LibSplitAccumulate
import proofs.«181597_j77979426226450_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL.Sem
open Idealize.ShloMosaic.Pipeline (Dat Cfg Window cellOf)
open Idealize.ShloMosaic.ValueIdx

open Cert.SplitAccumulate

/-- The product of a 1024 by 4096 block with a 4096 by 128 block, into the zero block, at (p, q): Σ_e A[p,e]·B[e,q]. -/
theorem matmulBlk5_zero_apply (A : FVec Ideal S1024x4096 .bf16) (B : FVec Ideal S4096x128 .bf16) (p : Fin 1024) (q : Fin 128) :
    matmul (F := Ideal) dot_S1024x4096_S4096x128_S1024x128_1_0_0_1_n_n none A B (constant (F := Ideal) S1024x128 .f32 0x00000000#32) (ix2 p q)
      = ∑ k : Fin 4096, (A (ix2 p k) : EReal) * (B (ix2 k q) : EReal) := by
  refine (Ideal.matmul_constant_zero_apply dot_S1024x4096_S4096x128_S1024x128_1_0_0_1_n_n none A B (ix2 p q)).trans ?_
  rw [← Equiv.sum_comp (contrEquiv1 dot_S1024x4096_S4096x128_S1024x128_1_0_0_1_n_n 4096 rfl rfl).symm]
  refine Finset.sum_congr rfl fun k _ => ?_
  have ck := contrEquiv1_symm_val dot_S1024x4096_S4096x128_S1024x128_1_0_0_1_n_n 4096 rfl rfl k
  have l2 : (dot_S1024x4096_S4096x128_S1024x128_1_0_0_1_n_n).lhsIdx (ix2 p q) ((contrEquiv1 dot_S1024x4096_S4096x128_S1024x128_1_0_0_1_n_n 4096 rfl rfl).symm k) = ix2 p k := by
    funext ax; apply Fin.ext
    match ax with
    | ⟨0, _⟩ => simp [DotDims.lhsIdx, dot_S1024x4096_S4096x128_S1024x128_1_0_0_1_n_n]; rfl
    | ⟨1, _⟩ => simp [DotDims.lhsIdx, dot_S1024x4096_S4096x128_S1024x128_1_0_0_1_n_n]; exact ck
  have r2 : (dot_S1024x4096_S4096x128_S1024x128_1_0_0_1_n_n).rhsIdx (ix2 p q) ((contrEquiv1 dot_S1024x4096_S4096x128_S1024x128_1_0_0_1_n_n 4096 rfl rfl).symm k) = ix2 k q := by
    funext ax; apply Fin.ext
    match ax with
    | ⟨0, _⟩ => simp [DotDims.rhsIdx, dot_S1024x4096_S4096x128_S1024x128_1_0_0_1_n_n]; exact ck
    | ⟨1, _⟩ => simp [DotDims.rhsIdx, dot_S1024x4096_S4096x128_S1024x128_1_0_0_1_n_n]; rfl
  rw [l2, r2]

/-- The product of a 1024 by 128 block with the 128 by 128 weight block, into the zero block, at (p, q): Σ_k A[p,k]·B[k,q]. -/
theorem matmulDense5_zero_apply (A : FVec Ideal S1024x128 .f32) (B : FVec Ideal S128x128 .f32) (p : Fin 1024) (q : Fin 128) :
    matmul (F := Ideal) dot_S1024x128_S128x128_S1024x128_1_0_0_1_n_n none A B (constant (F := Ideal) S1024x128 .f32 0x00000000#32) (ix2 p q)
      = ∑ k : Fin 128, (A (ix2 p k) : EReal) * (B (ix2 k q) : EReal) := by
  refine (Ideal.matmul_constant_zero_apply dot_S1024x128_S128x128_S1024x128_1_0_0_1_n_n none A B (ix2 p q)).trans ?_
  rw [← Equiv.sum_comp (contrEquiv1 dot_S1024x128_S128x128_S1024x128_1_0_0_1_n_n 128 rfl rfl).symm]
  refine Finset.sum_congr rfl fun k _ => ?_
  have ck := contrEquiv1_symm_val dot_S1024x128_S128x128_S1024x128_1_0_0_1_n_n 128 rfl rfl k
  have l2 : (dot_S1024x128_S128x128_S1024x128_1_0_0_1_n_n).lhsIdx (ix2 p q) ((contrEquiv1 dot_S1024x128_S128x128_S1024x128_1_0_0_1_n_n 128 rfl rfl).symm k) = ix2 p k := by
    funext ax; apply Fin.ext
    match ax with
    | ⟨0, _⟩ => simp [DotDims.lhsIdx, dot_S1024x128_S128x128_S1024x128_1_0_0_1_n_n]; rfl
    | ⟨1, _⟩ => simp [DotDims.lhsIdx, dot_S1024x128_S128x128_S1024x128_1_0_0_1_n_n]; exact ck
  have r2 : (dot_S1024x128_S128x128_S1024x128_1_0_0_1_n_n).rhsIdx (ix2 p q) ((contrEquiv1 dot_S1024x128_S128x128_S1024x128_1_0_0_1_n_n 128 rfl rfl).symm k) = ix2 k q := by
    funext ax; apply Fin.ext
    match ax with
    | ⟨0, _⟩ => simp [DotDims.rhsIdx, dot_S1024x128_S128x128_S1024x128_1_0_0_1_n_n]; exact ck
    | ⟨1, _⟩ => simp [DotDims.rhsIdx, dot_S1024x128_S128x128_S1024x128_1_0_0_1_n_n]; rfl
  rw [l2, r2]

/-- The zero block at an index. -/
theorem k5_pay1_apply (p : Fin 1024) (q : Fin 128) : k5_pay1 (F := Ideal) (ix2 p q) = (0 : EReal) := by
  unfold k5_pay1
  simp only [shapeCast_self]
  exact Ideal.ofBits_zero_f32

/-- The accumulation step at an index: the accumulator plus the product of the two blocks, when the feature block's
    column is real. -/
theorem k5_pay2_apply (xb : FVec Ideal S4096x128 .f32) (acc : FVec Ideal S1024x128 .f32) (xa : FVec Ideal S1024x4096 .bf16)
    (p : Fin 1024) (q : Fin 128) (hreal : ∀ e : Fin 4096, IsReal (xb (ix2 e q))) :
    k5_pay2 (F := Ideal) xb acc xa (ix2 p q)
      = (acc (ix2 p q) : EReal) + ∑ e : Fin 4096, (xa (ix2 p e) : EReal) * (xb (ix2 e q) : EReal) := by
  unfold k5_pay2
  simp only [shapeCast_self]
  refine Eq.trans (congrArg (fun z : EReal => (acc (ix2 p q) : EReal) + z)
    (congrArg₂ (fun y z : EReal => y + z) (matmulBlk5_zero_apply xa _ p q) (matmulBlk5_zero_apply xa _ p q))) ?_
  exact congrArg (fun z : EReal => (acc (ix2 p q) : EReal) + z)
    (sum_split (fun e : Fin 4096 => (xa (ix2 p e) : EReal)) (fun e : Fin 4096 => (xb (ix2 e q) : EReal)) hreal)

/-- The leaky step on one value: the comparison against zero selects the value or its product with the slope. -/
theorem leaky5_apply (x : Ideal .f32) :
    Scalar.select (FloatOps.cmpf (F := Ideal) (φ := .f32) .oge x (Ideal.ofBits .f32 0x00000000#32)) x
        (FloatOps.mulf (F := Ideal) (φ := .f32) (Ideal.ofBits .f32 0x3C23D70A#32) x) = Cert.Spec.act x := by
  by_cases h : (0 : EReal) ≤ x
  · have e : FloatOps.cmpf (F := Ideal) (φ := .f32) .oge x (Ideal.ofBits .f32 0x00000000#32) = 1#1 := by
      rw [Ideal.cmpf_def, Ideal.ofBits_zero_f32]
      show BitVec.ofBool (decide ((0 : EReal) ≤ x)) = 1#1
      rw [decide_eq_true h]; rfl
    rw [e, select_one]; unfold Cert.Spec.act; rw [if_pos h]
  · have e : FloatOps.cmpf (F := Ideal) (φ := .f32) .oge x (Ideal.ofBits .f32 0x00000000#32) = 0#1 := by
      rw [Ideal.cmpf_def, Ideal.ofBits_zero_f32]
      show BitVec.ofBool (decide ((0 : EReal) ≤ x)) = 0#1
      rw [decide_eq_false h]; rfl
    rw [e, select_zero]; unfold Cert.Spec.act Cert.Spec.slope; rw [if_neg h]; rfl

/-- The residual layer at an index: the dense map of the residual block plus the accumulator, plus the bias row, under
    the leaky activation. -/
theorem k5_pay3_apply (xc acc : FVec Ideal S1024x128 .f32) (xd : FVec Ideal S128x128 .f32) (xe : FVec Ideal S1x128 .f32)
    (p : Fin 1024) (q : Fin 128) :
    k5_pay3 (F := Ideal) xc acc xd xe (ix2 p q)
      = Cert.Spec.act ((∑ k : Fin 128, ((xc (ix2 p k) : EReal) + (acc (ix2 p k) : EReal)) * (xd (ix2 k q) : EReal))
          + (xe (ix2 (0 : Fin 1) q) : EReal)) := by
  unfold k5_pay3
  simp only [shapeCast_self]
  have key : ∀ (v w : Ideal .f32), v = w →
      Scalar.select (FloatOps.cmpf (F := Ideal) (φ := .f32) .oge v (Ideal.ofBits .f32 0x00000000#32)) v
        (FloatOps.mulf (F := Ideal) (φ := .f32) (Ideal.ofBits .f32 0x3C23D70A#32) v) = Cert.Spec.act w :=
    fun v w h => h ▸ leaky5_apply v
  refine key _ _ ?_
  exact congrArg₂ (fun y z : EReal => y + z) (matmulDense5_zero_apply (addf xc acc) xd p q)
    (broadcastTo_1b_ab_apply xe broadcasts_S1x128_S1024x128 p q)

end Cert.KernelIdeal.Hand

end
-- ==== Proof.KI.Val5Point.lean ====
/-
  Region 5, one block row: the output block of the row's last reduction step, read at (p, q), is the residual layer of
  the whole arrays at row i·1024 + p. The accumulator of the two steps is (0 + S₀) + S₁ with S₀, S₁ the contractions
  over the lower and upper halves of the 8192 edges, which together are the contraction over all of them; the rounding
  split of the edge update costs nothing because its entries are real.
-/
import proofs.«181597_j77979426226450_2_alg».proof.Proof.KI.Val5Payload

set_option maxRecDepth 16384

noncomputable section

namespace Cert.KernelIdeal.Hand

open Cert.KernelIdeal Cert.KernelIdeal.Gen
open Idealize.ShloMosaic Idealize.ShloMosaic.ValueIdx
open Cert.SplitAccumulate

/-- The residual layer of block row `i` at (p, q) from the blocks of its two reduction steps: `A0`, `X0` the first step's
    incidence and edge-update blocks (edges 0 … 4095), `A1`, `X1` the second's (edges 4096 … 8191), `H` the row's
    node-feature block, `Wb`, `Bb` the weight block and the bias row — each hypothesis says where the block sits in its
    array. -/
theorem layerBlock5_apply (A : Cert.Spec.Arr2 4096 8192) (hv : Cert.Spec.Arr2 4096 128) (X : Cert.Spec.Arr2 8192 128)
    (Wt : Cert.Spec.Arr2 128 128) (bias : Cert.Spec.Arr2 1 128) (hX : Cert.Spec.AllReal X) (i : Fin 4)
    (A0 A1 : FVec Ideal S1024x4096 .bf16) (X0 X1 : FVec Ideal S4096x128 .f32) (H : FVec Ideal S1024x128 .f32)
    (Wb : FVec Ideal S128x128 .f32) (Bb : FVec Ideal S1x128 .f32)
    (hA0 : ∀ (p : Fin 1024) (e : Fin 4096), (A0 (ix2 p e) : EReal) = A (ix2 ⟨i.val * 1024 + p.val, by omega⟩ ⟨e.val, by omega⟩))
    (hA1 : ∀ (p : Fin 1024) (e : Fin 4096), (A1 (ix2 p e) : EReal) = A (ix2 ⟨i.val * 1024 + p.val, by omega⟩ ⟨4096 + e.val, by omega⟩))
    (hX0 : ∀ (e : Fin 4096) (k : Fin 128), (X0 (ix2 e k) : EReal) = X (ix2 ⟨e.val, by omega⟩ k))
    (hX1 : ∀ (e : Fin 4096) (k : Fin 128), (X1 (ix2 e k) : EReal) = X (ix2 ⟨4096 + e.val, by omega⟩ k))
    (hH : ∀ (p : Fin 1024) (k : Fin 128), (H (ix2 p k) : EReal) = hv (ix2 ⟨i.val * 1024 + p.val, by omega⟩ k))
    (hW : ∀ (k q : Fin 128), (Wb (ix2 k q) : EReal) = Wt (ix2 k q))
    (hB : ∀ q : Fin 128, (Bb (ix2 (0 : Fin 1) q) : EReal) = bias (ix2 (0 : Fin 1) q))
    (p : Fin 1024) (q : Fin 128) :
    k5_pay3 (F := Ideal) H (k5_pay2 (F := Ideal) X1 (k5_pay2 (F := Ideal) X0 (k5_pay1 (F := Ideal)) A0) A1) Wb Bb (ix2 p q)
      = Cert.Spec.nodeLayerT Wt bias (Cert.Spec.nodeRes A hv X) (ix2 (⟨i.val * 1024 + p.val, by omega⟩ : Fin 4096) q) := by
  have hsum : ∀ k : Fin 128,
      (H (ix2 p k) : EReal) + (k5_pay2 (F := Ideal) X1 (k5_pay2 (F := Ideal) X0 (k5_pay1 (F := Ideal)) A0) A1 (ix2 p k) : EReal)
        = hv (ix2 ⟨i.val * 1024 + p.val, by omega⟩ k)
          + ∑ e : Fin 8192, A (ix2 ⟨i.val * 1024 + p.val, by omega⟩ e) * X (ix2 e k) := by
    intro k
    rw [k5_pay2_apply X1 _ A1 p k (fun e => by rw [hX1]; exact hX _),
      k5_pay2_apply X0 _ A0 p k (fun e => by rw [hX0]; exact hX _), k5_pay1_apply, zero_add, hH,
      sum_halves (n := 4096) (m := 8192) rfl (fun e : Fin 8192 => A (ix2 ⟨i.val * 1024 + p.val, by omega⟩ e) * X (ix2 e k))]
    simp only [hA0, hA1, hX0, hX1]
  rw [k5_pay3_apply]
  simp only [hsum, hW, hB]
  rfl

end Cert.KernelIdeal.Hand

end
-- ==== Proof.KI.Val5.lean ====
/-
  Region 5's value on the extended reals: after the region, the output array is the residual layer of the node residual,
  nodeLayerT Wt b (nodeRes A hv X), when every entry of the edge update X is real. The output block of block row i is
  written back once, after the row's second reduction step; it is the layer at rows i·1024 … i·1024 + 1023, and the four
  rows of blocks tile the array.
-/
import proofs.«181597_j77979426226450_2_alg».proof.Proof.KI.Val5Pieces
import proofs.«181597_j77979426226450_2_alg».proof.Proof.KI.Val5Point

set_option maxRecDepth 16384

noncomputable section

namespace Cert.KernelIdeal.Hand

open Cert.KernelIdeal Cert.KernelIdeal.Gen
open Idealize.ShloMosaic Idealize.ShloMosaic.TcCoe Idealize.ShloMosaic.Tactic Idealize.SL.Sem
open Idealize.ShloMosaic.Pipeline (Dat)
open Idealize.ShloMosaic.ValueIdx
open Cert.SplitAccumulate

/-! ## The output block after a row's second step, from the two found pieces (any float values) -/

section AnyValues
variable {F : FTy → Type} [FloatOps F] (V : (c : Dev nD) → (b : Ref sig .tc) → Buf (Elt F) ((c : Thread nD τ).loc b))

/-- The point before `t`. -/
abbrev prevPt5 (t : Fin cfg5.N) : Fin cfg5.N := ⟨t.val - 1, Nat.lt_of_le_of_lt (Nat.sub_le _ _) t.isLt⟩

set_option maxHeartbeats 2000000 in
/-- At a point of the second step the output block is the residual layer's payload of the row's blocks and of the
    accumulator, which is the second step's product added to the first step's product added to the zero block. -/
theorem outAt5_last (c : Dev nD) (t : Fin cfg5.N) (hl : t.val % 2 = 1) :
    (outsAt5 V c t.val t.isLt).1
      = k5_pay3 (iblk5 V c 2 t) (k5_pay2 (iblk5 V c 1 t) (k5_pay2 (iblk5 V c 1 (prevPt5 t)) (k5_pay1 (F := F)) (iblk5 V c 0 (prevPt5 t))) (iblk5 V c 0 t))
          (iblk5 V c 3 t) (iblk5 V c 4 t) := by
  have hz : ¬t.val % 2 = 0 := by omega
  have hzp : (prevPt5 t).val % 2 = 0 := by show (t.val - 1) % 2 = 0; omega
  have hlp : ¬(prevPt5 t).val % 2 = 1 := by show ¬(t.val - 1) % 2 = 1; omega
  have hprev : (outsAt5 V c (t.val - 1) (Nat.lt_of_le_of_lt (Nat.sub_le _ _) t.isLt)).2
      = k5_pay2 (iblk5 V c 1 (prevPt5 t)) (k5_pay1 (F := F)) (iblk5 V c 0 (prevPt5 t)) :=
    (congrArg Prod.snd (outsAt5_A V c (prevPt5 t) hzp hlp)).trans
      (sout5_A_0_eq c (grid5.coords (prevPt5 t)) (ms5_0 (prevPt5 t)) (hs5_0 (prevPt5 t)) (ms5_1 (prevPt5 t)) (hs5_1 (prevPt5 t)) (ms5_2 (prevPt5 t)) (hs5_2 (prevPt5 t)) (ms5_3 (prevPt5 t)) (hs5_3 (prevPt5 t)) (ms5_4 (prevPt5 t)) (hs5_4 (prevPt5 t)) (ms5_5 (prevPt5 t)) (hs5_5 (prevPt5 t)) scM5_0 (Memref.isWhole_whole _) ((hcond5_0 (prevPt5 t)).mpr hzp) (fun h => hlp ((hcond5_1 (prevPt5 t)).mp h)) (iblk5 V c 0 (prevPt5 t)) (iblk5 V c 1 (prevPt5 t)) (iblk5 V c 2 (prevPt5 t)) (iblk5 V c 3 (prevPt5 t)) (iblk5 V c 4 (prevPt5 t)))
  refine (congrArg Prod.fst (outsAt5_C V c t hz hl)).trans ?_
  refine (out5_C_5_eq c (grid5.coords t) (ms5_0 t) (hs5_0 t) (ms5_1 t) (hs5_1 t) (ms5_2 t) (hs5_2 t) (ms5_3 t) (hs5_3 t) (ms5_4 t) (hs5_4 t) (ms5_5 t) (hs5_5 t) scM5_0 (Memref.isWhole_whole _) (fun h => hz ((hcond5_0 t).mp h)) ((hcond5_1 t).mpr hl) (iblk5 V c 0 t) (iblk5 V c 1 t) (iblk5 V c 2 t) (iblk5 V c 3 t) (iblk5 V c 4 t)
    (outsAt5 V c (t.val - 1) (Nat.lt_of_le_of_lt (Nat.sub_le _ _) t.isLt)).2).trans ?_
  rw [hprev]

end AnyValues

/-! ## On the extended reals -/

section AtIdeal
variable (V : (c : Dev nD) → (b : Ref sig .tc) → Buf (Elt Ideal) ((c : Thread nD τ).loc b))

/-- Window 0's block at point `t`, at (y, z), is its array at the block's offset plus (y, z). -/
theorem iblk5_0_apply (c : Dev nD) (t : Fin cfg5.N) (y : Fin 1024) (z : Fin 4096) (Y : Fin 4096) (Z : Fin 8192)
    (hY : win5_0.index t (0 : Fin 2) * 1024 + 1 * y.val = Y.val) (hZ : win5_0.index t (1 : Fin 2) * 4096 + 1 * z.val = Z.val) :
    ((iblk5 V c 0 t : FVec Ideal S1024x4096 .bf16) (ix2 y z) : EReal) = (V c main_v24 : Cert.Spec.Arr2 4096 8192) (ix2 Y Z) := by
  unfold iblk5
  rw [View.read_apply]
  show V c main_v24 _ = V c main_v24 _
  refine congrArg (V c main_v24) (funext fun a => Fin.ext ?_)
  match a with
  | ⟨0, _⟩ => exact hY
  | ⟨1, _⟩ => exact hZ

/-- Window 1's block at point `t`, at (y, z), is its array at the block's offset plus (y, z). -/
theorem iblk5_1_apply (c : Dev nD) (t : Fin cfg5.N) (y : Fin 4096) (z : Fin 128) (Y : Fin 8192) (Z : Fin 128)
    (hY : win5_1.index t (0 : Fin 2) * 4096 + 1 * y.val = Y.val) (hZ : win5_1.index t (1 : Fin 2) * 128 + 1 * z.val = Z.val) :
    ((iblk5 V c 1 t : FVec Ideal S4096x128 .f32) (ix2 y z) : EReal) = (V c main_v41 : Cert.Spec.Arr2 8192 128) (ix2 Y Z) := by
  unfold iblk5
  rw [View.read_apply]
  show V c main_v41 _ = V c main_v41 _
  refine congrArg (V c main_v41) (funext fun a => Fin.ext ?_)
  match a with
  | ⟨0, _⟩ => exact hY
  | ⟨1, _⟩ => exact hZ

/-- Window 2's block at point `t`, at (y, z), is its array at the block's offset plus (y, z). -/
theorem iblk5_2_apply (c : Dev nD) (t : Fin cfg5.N) (y : Fin 1024) (z : Fin 128) (Y : Fin 4096) (Z : Fin 128)
    (hY : win5_2.index t (0 : Fin 2) * 1024 + 1 * y.val = Y.val) (hZ : win5_2.index t (1 : Fin 2) * 128 + 1 * z.val = Z.val) :
    ((iblk5 V c 2 t : FVec Ideal S1024x128 .f32) (ix2 y z) : EReal) = (V c main_v40 : Cert.Spec.Arr2 4096 128) (ix2 Y Z) := by
  unfold iblk5
  rw [View.read_apply]
  show V c main_v40 _ = V c main_v40 _
  refine congrArg (V c main_v40) (funext fun a => Fin.ext ?_)
  match a with
  | ⟨0, _⟩ => exact hY
  | ⟨1, _⟩ => exact hZ

/-- Window 3's block at point `t`, at (y, z), is its array at the block's offset plus (y, z). -/
theorem iblk5_3_apply (c : Dev nD) (t : Fin cfg5.N) (y : Fin 128) (z : Fin 128) (Y : Fin 128) (Z : Fin 128)
    (hY : win5_3.index t (0 : Fin 2) * 128 + 1 * y.val = Y.val) (hZ : win5_3.index t (1 : Fin 2) * 128 + 1 * z.val = Z.val) :
    ((iblk5 V c 3 t : FVec Ideal S128x128 .f32) (ix2 y z) : EReal) = (V c main_v43 : Cert.Spec.Arr2 128 128) (ix2 Y Z) := by
  unfold iblk5
  rw [View.read_apply]
  show V c main_v43 _ = V c main_v43 _
  refine congrArg (V c main_v43) (funext fun a => Fin.ext ?_)
  match a with
  | ⟨0, _⟩ => exact hY
  | ⟨1, _⟩ => exact hZ

/-- Window 4's block at point `t`, at (y, z), is its array at the block's offset plus (y, z). -/
theorem iblk5_4_apply (c : Dev nD) (t : Fin cfg5.N) (y : Fin 1) (z : Fin 128) (Y : Fin 1) (Z : Fin 128)
    (hY : win5_4.index t (0 : Fin 2) * 1 + 1 * y.val = Y.val) (hZ : win5_4.index t (1 : Fin 2) * 128 + 1 * z.val = Z.val) :
    ((iblk5 V c 4 t : FVec Ideal S1x128 .f32) (ix2 y z) : EReal) = (V c main_v46 : Cert.Spec.Arr2 1 128) (ix2 Y Z) := by
  unfold iblk5
  rw [View.read_apply]
  show V c main_v46 _ = V c main_v46 _
  refine congrArg (V c main_v46) (funext fun a => Fin.ext ?_)
  match a with
  | ⟨0, _⟩ => exact hY
  | ⟨1, _⟩ => exact hZ

/-- The printed index maps at a point of the second step, decided over the grid: the output, the node features and
    the incidence block sit in block row t / 2, the incidence block and the edge update in the upper half of the edges;
    the weights and the bias do not move. -/
theorem idx_last5 : ∀ t : Fin cfg5.N, t.val % 2 = 1 →
    win5_5.index t (0 : Fin 2) = t.val / 2 ∧ win5_5.index t (1 : Fin 2) = 0
    ∧ win5_2.index t (0 : Fin 2) = t.val / 2 ∧ win5_2.index t (1 : Fin 2) = 0
    ∧ win5_0.index t (0 : Fin 2) = t.val / 2 ∧ win5_0.index t (1 : Fin 2) = 1
    ∧ win5_1.index t (0 : Fin 2) = 1 ∧ win5_1.index t (1 : Fin 2) = 0
    ∧ win5_3.index t (0 : Fin 2) = 0 ∧ win5_3.index t (1 : Fin 2) = 0
    ∧ win5_4.index t (0 : Fin 2) = 0 ∧ win5_4.index t (1 : Fin 2) = 0 :=
  (by decide +kernel : ∀ t : Fin grid5.N, t.val % 2 = 1 → _)

/-- At a point of the first step: the incidence block in block row t / 2 and the lower half of the edges, the edge
    update in the lower half. -/
theorem idx_first5 : ∀ t : Fin cfg5.N, t.val % 2 = 0 →
    win5_0.index t (0 : Fin 2) = t.val / 2 ∧ win5_0.index t (1 : Fin 2) = 0
    ∧ win5_1.index t (0 : Fin 2) = 0 ∧ win5_1.index t (1 : Fin 2) = 0 :=
  (by decide +kernel : ∀ t : Fin grid5.N, t.val % 2 = 0 → _)

/-- The layer as one function of the arrays the region finds. -/
abbrev layerOf5 (c : Dev nD) : Cert.Spec.Arr2 4096 128 :=
  Cert.Spec.nodeLayerT (V c main_v43) (V c main_v46) (Cert.Spec.nodeRes (V c main_v24) (V c main_v40) (V c main_v41))

/-- What a point of the second step writes back is its block of the layer. -/
theorem flushed5_5_eq (c : Dev nD) (hreal : Cert.Spec.AllReal (V c main_v41 : Cert.Spec.Arr2 8192 128)) (t : Fin cfg5.N)
    (hf : (cfg5.win 5).flush t = true) :
    (dat5 (F := Ideal) V c).flushed 5 t = ((cfg5.win 5).blk t).view.read (Elt Ideal) (layerOf5 V c) := by
  have hl : t.val % 2 = 1 := (flush5_5 t).mp hf
  have hN : t.val < 8 := lt_of_lt_of_eq t.isLt (show cfg5.N = 8 from N_5)
  have hzp : (prevPt5 t).val % 2 = 0 := by show (t.val - 1) % 2 = 0; omega
  have hpv : (prevPt5 t).val = t.val - 1 := rfl
  obtain ⟨o0, o1, h0, h1, a0, a1, x0, x1, w0, w1, b0, b1⟩ := idx_last5 t hl
  obtain ⟨pa0, pa1, px0, px1⟩ := idx_first5 (prevPt5 t) hzp
  show (cfg5.win 5).cut (grid5.coords t) ((dat5 V c).after 5 t) = _
  rw [after5_5, outAt5_last V c t hl]
  funext j
  obtain ⟨p, q, rfl⟩ : ∃ (p : Fin 1024) (q : Fin 128), j = ix2 p q := ⟨j 0, j 1, eq_ix2 j⟩
  have hp : p.val < 1024 := p.isLt
  have hq : q.val < 128 := q.isLt
  have hemb : ((cfg5.win 5).blk t).view.emb (ix2 p q) = ix2 (⟨(⟨t.val / 2, by omega⟩ : Fin 4).val * 1024 + p.val, by show t.val / 2 * 1024 + p.val < 4096; omega⟩ : Fin 4096) q := by
    funext a; apply Fin.ext
    match a with
    | ⟨0, _⟩ => show win5_5.index t (0 : Fin 2) * 1024 + 1 * p.val = t.val / 2 * 1024 + p.val; rw [o0]; omega
    | ⟨1, _⟩ => show win5_5.index t (1 : Fin 2) * 128 + 1 * q.val = q.val; rw [o1]; omega
  rw [View.read_apply, hemb]
  exact layerBlock5_apply (V c main_v24) (V c main_v40) (V c main_v41) (V c main_v43) (V c main_v46) hreal ⟨t.val / 2, by omega⟩
    (iblk5 V c 0 (prevPt5 t)) (iblk5 V c 0 t) (iblk5 V c 1 (prevPt5 t)) (iblk5 V c 1 t) (iblk5 V c 2 t) (iblk5 V c 3 t) (iblk5 V c 4 t)
    (fun y e => iblk5_0_apply V c (prevPt5 t) y e _ _ (by show _ = t.val / 2 * 1024 + y.val; rw [pa0, hpv]; omega) (by show _ = e.val; rw [pa1]; omega))
    (fun y e => iblk5_0_apply V c t y e _ _ (by show _ = t.val / 2 * 1024 + y.val; rw [a0]; omega) (by show _ = 4096 + e.val; rw [a1]; omega))
    (fun e k => iblk5_1_apply V c (prevPt5 t) e k _ _ (by show _ = e.val; rw [px0]; omega) (by show _ = k.val; rw [px1]; omega))
    (fun e k => iblk5_1_apply V c t e k _ _ (by show _ = 4096 + e.val; rw [x0]; omega) (by show _ = k.val; rw [x1]; omega))
    (fun y k => iblk5_2_apply V c t y k _ _ (by show _ = t.val / 2 * 1024 + y.val; rw [h0]; omega) (by show _ = k.val; rw [h1]; omega))
    (fun k z => iblk5_3_apply V c t k z _ _ (by show _ = k.val; rw [w0]; omega) (by show _ = z.val; rw [w1]; omega))
    (fun z => iblk5_4_apply V c t (0 : Fin 1) z _ _ (by show _ = (0 : Fin 1).val; rw [b0]; rfl) (by show _ = z.val; rw [b1]; omega))
    p q

/-- An index of the output array is in point `t`'s block iff each coordinate is in the block's range on its axis. -/
theorem mem_blk5_5 (t : Fin cfg5.N) (i : S4096x128.Idx) :
    i ∈ ((cfg5.win 5).blk t).view.set ↔ ∀ a : Fin 2, win5_5.index t a * S1024x128.size a ≤ (i a).val ∧ (i a).val < win5_5.index t a * S1024x128.size a + S1024x128.size a := by
  show i ∈ ((View.whole main_v47).slice (win5_5.rect t)).set ↔ _
  rw [View.set_slice_whole, Rect.mem_set_unit]
  exact Iff.rfl

/-- Every index of the output array is in the block some second-step point writes back: row r is in block row r / 1024. -/
theorem cover5_5 (i : S4096x128.Idx) : ∃ t : Fin cfg5.N, (cfg5.win 5).flush t = true ∧ i ∈ ((cfg5.win 5).blk t).view.set := by
  have hi0 : (i 0).val < 4096 := (i 0).isLt
  have hi1 : (i 1).val < 128 := (i 1).isLt
  have hN : cfg5.N = 8 := N_5
  have hlt : 2 * ((i 0).val / 1024) + 1 < cfg5.N := by rw [hN]; omega
  have hval : (⟨2 * ((i 0).val / 1024) + 1, hlt⟩ : Fin cfg5.N).val = 2 * ((i 0).val / 1024) + 1 := rfl
  have hodd : (⟨2 * ((i 0).val / 1024) + 1, hlt⟩ : Fin cfg5.N).val % 2 = 1 := by rw [hval]; omega
  obtain ⟨o0, o1, -⟩ := idx_last5 ⟨2 * ((i 0).val / 1024) + 1, hlt⟩ hodd
  refine ⟨⟨2 * ((i 0).val / 1024) + 1, hlt⟩, (flush5_5 _).mpr hodd, ?_⟩
  rw [mem_blk5_5]
  intro a
  match a with
  | ⟨0, _⟩ =>
    show win5_5.index ⟨2 * ((i 0).val / 1024) + 1, hlt⟩ (0 : Fin 2) * 1024 ≤ (i 0).val ∧ (i 0).val < win5_5.index ⟨2 * ((i 0).val / 1024) + 1, hlt⟩ (0 : Fin 2) * 1024 + 1024
    rw [o0, hval]; omega
  | ⟨1, _⟩ =>
    show win5_5.index ⟨2 * ((i 0).val / 1024) + 1, hlt⟩ (1 : Fin 2) * 128 ≤ (i 1).val ∧ (i 1).val < win5_5.index ⟨2 * ((i 0).val / 1024) + 1, hlt⟩ (1 : Fin 2) * 128 + 128
    rw [o1]; omega

/-- THE VALUE of region 5: after the region the output array is the residual layer of the node residual of the arrays the
    region finds, when every entry of the edge update is real. -/
theorem final5 (c : Dev nD) (hreal : Cert.Spec.AllReal (V c main_v41 : Cert.Spec.Arr2 8192 128)) :
    (dat5 (F := Ideal) V c).arrAt 5 cfg5.N
      = Cert.Spec.nodeLayerT (V c main_v43) (V c main_v46) (Cert.Spec.nodeRes (V c main_v24) (V c main_v40) (V c main_v41)) :=
  (dat5 (F := Ideal) V c).arrAt_eq_of_cover 5 (layerOf5 V c) (fun t hf => flushed5_5_eq V c hreal t hf) (fun i => cover5_5 i)

end AtIdeal

end Cert.KernelIdeal.Hand

end
-- ==== Proof.KI.Val6Pieces.lean ====
/-
  Region 6: what the pieces found by the two runs of the body are, as the kernel's payloads of the blocks. At k = 0 the
  accumulator is left at the second payload over the zero payload; at k = 1 at the second payload over the accumulator
  it was entered with, and the output's buffer at the third payload of that and the edge-feature block.
-/
import proofs.«181597_j77979426226450_2_alg».proof.Proof.KI.Reg6
import Idealize.ShloMosaic.Lib.Pipeline.Value
import Idealize.ShloMosaic.Lib.ValueIdx
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL.Sem
open Idealize.ShloMosaic.Pipeline (Dat Cfg Window cellOf)
open Idealize.ShloMosaic.ValueIdx

variable {F : FTy → Type} [FloatOps F]

theorem zeroOffsets2_r6 : (![0, 0] : Fin 2 → Nat) = fun _ => 0 := funext fun a => by fin_cases a <;> rfl

/-- At k = 0 the accumulator is left at the accumulation step over the zero block. -/
theorem sout6_A_0_eq (c : Dev nD) (i : grid6.Coords) (arg2 : Memref sig .tc .vmem S2048x1024 .bf16) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : cond6_0 i) (hc1 : ¬cond6_1 i)
    (x0 : Vec F S2048x1024 .bf16) (x1 : Vec F S2048x128 .f32) (x2 : Vec F S1024x128 .f32) :
    sout6_A_0 c i arg2 harg2 arg3 harg3 arg4 harg4 arg5 harg5 arg6 harg6 hc0 hc1 x0 x1 x2 = k6_pay2 x1 (k6_pay1 (F := F)) x0 := by
  unfold sout6_A_0
  rw [View.read_writes_eq_canon _ _ _ (scover6_A_0 c i arg2 harg2 arg3 harg3 arg4 harg4 arg5 harg5 arg6 harg6 hc0 hc1 x0 x1 x2)]
  unfold kernelRun6_A
  dsimp only
  sl_unfold_words
  rw [View.canon_cons_unit_zero (S := S1024x128) zeroOffsets2_r6, View.readCov_unit_zero (S := S1024x128) _ zeroOffsets2_r6]
  simp only [View.readAt_eq_ld, harg2.read_unread, harg3.read_unread, harg4.read_unread, harg6.read_unread, View.ld_unit_zero (S := S2048x128) zeroOffsets2_r6, View.ld_unit_zero (S := S2048x1024) zeroOffsets2_r6, View.ld_unit_zero (S := S1024x128) zeroOffsets2_r6]

/-- At k = 1 the accumulator is left at the accumulation step over what it held. -/
theorem sout6_C_0_eq (c : Dev nD) (i : grid6.Coords) (arg2 : Memref sig .tc .vmem S2048x1024 .bf16) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : ¬cond6_0 i) (hc1 : cond6_1 i)
    (x0 : Vec F S2048x1024 .bf16) (x1 : Vec F S2048x128 .f32) (x2 : Vec F S1024x128 .f32) (xs0 : Vec F S1024x128 .f32) :
    sout6_C_0 c i arg2 harg2 arg3 harg3 arg4 harg4 arg5 harg5 arg6 harg6 hc0 hc1 x0 x1 x2 xs0 = k6_pay2 x1 xs0 x0 := by
  unfold sout6_C_0
  rw [View.read_writes_eq_canon _ _ _ (scover6_C_0 c i arg2 harg2 arg3 harg3 arg4 harg4 arg5 harg5 arg6 harg6 hc0 hc1 x0 x1 x2 xs0)]
  unfold kernelRun6_C
  dsimp only
  sl_unfold_words
  rw [View.canon_unit_zero zeroOffsets2_r6]
  simp only [View.readAt_eq_ld, harg2.read_unread, harg3.read_unread, harg4.read_unread, harg6.read_unread, View.ld_unit_zero (S := S2048x128) zeroOffsets2_r6, View.ld_unit_zero (S := S2048x1024) zeroOffsets2_r6, View.ld_unit_zero (S := S1024x128) zeroOffsets2_r6]

/-- At k = 1 the output's buffer is left at the clipped sum of the new accumulator and the edge-feature block. -/
theorem out6_C_3_eq (c : Dev nD) (i : grid6.Coords) (arg2 : Memref sig .tc .vmem S2048x1024 .bf16) (harg2 : arg2.IsWhole) (arg3 : Memref sig .tc .vmem S2048x128 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (hc0 : ¬cond6_0 i) (hc1 : cond6_1 i)
    (x0 : Vec F S2048x1024 .bf16) (x1 : Vec F S2048x128 .f32) (x2 : Vec F S1024x128 .f32) (xs0 : Vec F S1024x128 .f32) :
    out6_C_3 c i arg2 harg2 arg3 harg3 arg4 harg4 arg5 harg5 arg6 harg6 hc0 hc1 x0 x1 x2 xs0 = k6_pay3 (k6_pay2 x1 xs0 x0) x2 := by
  unfold out6_C_3
  rw [View.read_writes_eq_canon _ _ _ (cover6_C_3 c i arg2 harg2 arg3 harg3 arg4 harg4 arg5 harg5 arg6 harg6 hc0 hc1 x0 x1 x2 xs0)]
  unfold kernelRun6_C
  dsimp only
  sl_unfold_words
  rw [View.canon_unit_zero zeroOffsets2_r6, View.readCov_unit_zero (S := S1024x128) _ zeroOffsets2_r6]
  simp only [View.readAt_eq_ld, harg2.read_unread, harg3.read_unread, harg4.read_unread, harg6.read_unread, View.ld_unit_zero (S := S2048x128) zeroOffsets2_r6, View.ld_unit_zero (S := S2048x1024) zeroOffsets2_r6, View.ld_unit_zero (S := S1024x128) zeroOffsets2_r6]

end Cert.KernelIdeal.Hand

end
-- ==== Proof.KI.Val6Points.lean ====
/-
  Region 6: what the accumulation holds at a point, in terms of the kernel's payloads of the point's blocks, for any
  float values. After a point with k = 0 the accumulator holds the accumulation step over the zero block; after a point
  with k = 1 the output's buffer holds the clipped sum of the accumulation step, over what the point before left in the
  accumulator, and the edge-feature block.
-/
import proofs.«181597_j77979426226450_2_alg».proof.Proof.KI.Val6Pieces

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL.Sem
open Idealize.ShloMosaic.Pipeline (Dat Cfg Window cellOf)
open Idealize.ShloMosaic.ValueIdx

variable {F : FTy → Type} [FloatOps F]
variable (V : (c : Dev nD) → (b : Ref sig .tc) → Buf (Elt F) ((c : Thread nD τ).loc b))

set_option maxHeartbeats 2000000 in
/-- After a point with k = 0 the accumulator holds the accumulation step over the zero block. -/
theorem acc_even6 (c : Dev nD) (t : Fin cfg6.N) (h0 : t.val % 2 = 0) :
    (outsAt6 V c t.val t.isLt).2 = k6_pay2 (iblk6 V c 1 t) (k6_pay1 (F := F)) (iblk6 V c 0 t) := by
  have h1 : ¬t.val % 2 = 1 := by omega
  rw [outsAt6_A V c t h0 h1]
  exact sout6_A_0_eq (F := F) c (grid6.coords t) (ms6_0 t) (hs6_0 t) (ms6_1 t) (hs6_1 t) (ms6_2 t) (hs6_2 t) (ms6_3 t) (hs6_3 t) scM6_0 (Memref.isWhole_whole _) ((hcond6_0 t).mpr h0) (fun h => h1 ((hcond6_1 t).mp h)) (iblk6 V c 0 t) (iblk6 V c 1 t) (iblk6 V c 2 t)

set_option maxHeartbeats 2000000 in
/-- After a point with k = 1 the output's buffer holds the clipped sum of the accumulation step, over what the point
    before left in the accumulator, and the edge-feature block. -/
theorem out_odd6 (c : Dev nD) (t : Fin cfg6.N) (h1 : t.val % 2 = 1) :
    (outsAt6 V c t.val t.isLt).1
      = k6_pay3 (k6_pay2 (iblk6 V c 1 t) (outsAt6 V c (t.val - 1) (Nat.lt_of_le_of_lt (Nat.sub_le _ _) t.isLt)).2 (iblk6 V c 0 t)) (iblk6 V c 2 t) := by
  have h0 : ¬t.val % 2 = 0 := by omega
  rw [outsAt6_C V c t h0 h1]
  exact out6_C_3_eq (F := F) c (grid6.coords t) (ms6_0 t) (hs6_0 t) (ms6_1 t) (hs6_1 t) (ms6_2 t) (hs6_2 t) (ms6_3 t) (hs6_3 t) scM6_0 (Memref.isWhole_whole _) (fun h => h0 ((hcond6_0 t).mp h)) ((hcond6_1 t).mpr h1) (iblk6 V c 0 t) (iblk6 V c 1 t) (iblk6 V c 2 t) (outsAt6 V c (t.val - 1) (Nat.lt_of_le_of_lt (Nat.sub_le _ _) t.isLt)).2

end Cert.KernelIdeal.Hand

end
-- ==== Proof.KI.Val6Payload.lean ====
/-
  Region 6's payloads read at an index, on the extended reals, over explicit coordinates (a, b) of a 1024 by 128 block:
  the zero block is 0; the accumulation step is acc[a,b] + Σ_k A[k,a]·x[k,b] over the 2048 rows of the two blocks, the
  contraction against the remainder x - x vanishing when column b of x is real; the clipped sum is max (s[a,b] + h[a,b]) 0.
-/
import proofs.«181597_j77979426226450_2_alg».proof.Proof.Gen.KernelIdeal.Skeleton
import proofs.«181597_j77979426226450_2_alg».proof.Proof.LibSplitAccumulate
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL.Sem
open Idealize.ShloMosaic.Pipeline (Dat Cfg Window cellOf)
open Idealize.ShloMosaic.ValueIdx

open Cert.SplitAccumulate

/-- The contraction of a 2048 by 1024 block with a 2048 by 128 block over their first axes, into the zero block, at
    (a, b): Σ_k A[k,a]·B[k,b]. -/
theorem matmulT_zero_apply_r6 (A : FVec Ideal S2048x1024 .bf16) (B : FVec Ideal S2048x128 .bf16) (a : Fin 1024) (b : Fin 128) :
    matmul (F := Ideal) dot_S2048x1024_S2048x128_S1024x128_0_0_1_1_n_n none A B (constant (F := Ideal) S1024x128 .f32 0x00000000#32) (ix2 a b)
      = ∑ k : Fin 2048, (A (ix2 k a) : EReal) * (B (ix2 k b) : EReal) := by
  refine (Ideal.matmul_constant_zero_apply dot_S2048x1024_S2048x128_S1024x128_0_0_1_1_n_n none A B (ix2 a b)).trans ?_
  rw [← Equiv.sum_comp (contrEquiv1 dot_S2048x1024_S2048x128_S1024x128_0_0_1_1_n_n 2048 rfl rfl).symm]
  refine Finset.sum_congr rfl fun k _ => ?_
  have ck := contrEquiv1_symm_val dot_S2048x1024_S2048x128_S1024x128_0_0_1_1_n_n 2048 rfl rfl k
  have l2 : (dot_S2048x1024_S2048x128_S1024x128_0_0_1_1_n_n).lhsIdx (ix2 a b) ((contrEquiv1 dot_S2048x1024_S2048x128_S1024x128_0_0_1_1_n_n 2048 rfl rfl).symm k) = ix2 k a := by
    funext ax; apply Fin.ext
    match ax with
    | ⟨0, _⟩ => simp [DotDims.lhsIdx, dot_S2048x1024_S2048x128_S1024x128_0_0_1_1_n_n]; exact ck
    | ⟨1, _⟩ => simp [DotDims.lhsIdx, dot_S2048x1024_S2048x128_S1024x128_0_0_1_1_n_n]; rfl
  have r2 : (dot_S2048x1024_S2048x128_S1024x128_0_0_1_1_n_n).rhsIdx (ix2 a b) ((contrEquiv1 dot_S2048x1024_S2048x128_S1024x128_0_0_1_1_n_n 2048 rfl rfl).symm k) = ix2 k b := by
    funext ax; apply Fin.ext
    match ax with
    | ⟨0, _⟩ => simp [DotDims.rhsIdx, dot_S2048x1024_S2048x128_S1024x128_0_0_1_1_n_n]; exact ck
    | ⟨1, _⟩ => simp [DotDims.rhsIdx, dot_S2048x1024_S2048x128_S1024x128_0_0_1_1_n_n]; rfl
  rw [l2, r2]

/-- The zero block at an index. -/
theorem k6_pay1_apply (a : Fin 1024) (b : Fin 128) : k6_pay1 (F := Ideal) (ix2 a b) = (0 : EReal) := by
  unfold k6_pay1
  simp only [shapeCast_self]
  exact Ideal.ofBits_zero_f32

/-- The accumulation step at an index: the accumulator plus the contraction of the two blocks, when the feature
    block's column is real. -/
theorem k6_pay2_apply (x1 : FVec Ideal S2048x128 .f32) (acc : FVec Ideal S1024x128 .f32) (x0 : FVec Ideal S2048x1024 .bf16)
    (a : Fin 1024) (b : Fin 128) (hreal : ∀ k : Fin 2048, IsReal (x1 (ix2 k b))) :
    k6_pay2 (F := Ideal) x1 acc x0 (ix2 a b)
      = (acc (ix2 a b) : EReal) + ∑ k : Fin 2048, (x0 (ix2 k a) : EReal) * (x1 (ix2 k b) : EReal) := by
  unfold k6_pay2
  simp only [shapeCast_self]
  refine Eq.trans (congrArg (fun z : EReal => (acc (ix2 a b) : EReal) + z)
    (congrArg₂ (fun y z : EReal => y + z) (matmulT_zero_apply_r6 x0 _ a b) (matmulT_zero_apply_r6 x0 _ a b))) ?_
  exact congrArg (fun z : EReal => (acc (ix2 a b) : EReal) + z)
    (sum_split (fun k : Fin 2048 => (x0 (ix2 k a) : EReal)) (fun k : Fin 2048 => (x1 (ix2 k b) : EReal)) hreal)

/-- The clipped sum at an index. -/
theorem k6_pay3_apply (s h : FVec Ideal S1024x128 .f32) (a : Fin 1024) (b : Fin 128) :
    k6_pay3 (F := Ideal) s h (ix2 a b) = max ((s (ix2 a b) : EReal) + (h (ix2 a b) : EReal)) 0 := by
  unfold k6_pay3
  simp only [shapeCast_self]
  exact congrArg (fun z : EReal => max ((s (ix2 a b) : EReal) + (h (ix2 a b) : EReal)) z) Ideal.ofBits_zero_f32

end Cert.KernelIdeal.Hand

end
-- ==== Proof.KI.Val6Core.lean ====
/-
  Region 6's value on the extended reals: after the region its output array holds, at
  (e, j), max (he[e,j] + Σ_v A2[v,e]·hv[v,j]) 0 of the arrays the region was entered with, when hv is real. Point (i, 0)
  leaves in the accumulator the contraction over rows 0..2048 for edge block i; point (i, 1) adds the contraction over
  rows 2048..4096 and stores the clipped sum with the edge-feature block; the sum over the 4096 rows is the sum of its
  two halves.
-/
import proofs.«181597_j77979426226450_2_alg».proof.Proof.KI.Val6Points
import proofs.«181597_j77979426226450_2_alg».proof.Proof.KI.Val6Payload

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL.Sem
open Idealize.ShloMosaic.Pipeline (Dat Cfg Window cellOf)
open Idealize.ShloMosaic.ValueIdx

open Cert.SplitAccumulate

/-! ## The closed form -/

/-- The edge update, index by index: max (he[e,j] + Σ_v A2[v,e]·hv[v,j]) 0. -/
def edgeUpdate_r6 (A2 : S4096x8192.Idx → EReal) (hv : S4096x128.Idx → EReal) (he : S8192x128.Idx → EReal) : S8192x128.Idx → EReal :=
  fun i => max (he (ix2 (i 0) (i 1)) + ∑ v : Fin 4096, A2 (ix2 v (i 0)) * hv (ix2 v (i 1))) 0

/-- The clipped two-step accumulation from zero, of the contraction over the lower and the upper 2048 rows, is the edge
    update at (e, j). -/
theorem edgeUpdate_of_halves_r6 (A2 : S4096x8192.Idx → EReal) (hv : S4096x128.Idx → EReal) (he : S8192x128.Idx → EReal)
    (e : Fin 8192) (j : Fin 128) (S0 S1 h : EReal)
    (hS0 : S0 = ∑ k : Fin 2048, A2 (ix2 (⟨k.val, by omega⟩ : Fin 4096) e) * hv (ix2 (⟨k.val, by omega⟩ : Fin 4096) j))
    (hS1 : S1 = ∑ k : Fin 2048, A2 (ix2 (⟨2048 + k.val, by omega⟩ : Fin 4096) e) * hv (ix2 (⟨2048 + k.val, by omega⟩ : Fin 4096) j))
    (hh : h = he (ix2 e j)) :
    max (((0 + S0) + S1) + h) 0 = edgeUpdate_r6 A2 hv he (ix2 e j) := by
  subst hS0 hS1 hh
  rw [accumulate_two]
  show _ = max (he (ix2 e j) + ∑ v : Fin 4096, A2 (ix2 v e) * hv (ix2 v j)) 0
  rw [sum_halves (n := 2048) (m := 4096) rfl (fun v : Fin 4096 => A2 (ix2 v e) * hv (ix2 v j))]

/-! ## A point's value from its blocks -/

/-- The output block a point with k = 1 stores, at (a, b), from the blocks of that point (x0c, x1c, x2) and of the point
    before (x0a, x1a), when column b of both feature blocks is real. -/
theorem point_value_r6 (x0a x0c : FVec Ideal S2048x1024 .bf16) (x1a x1c : FVec Ideal S2048x128 .f32) (x2 : FVec Ideal S1024x128 .f32)
    (a : Fin 1024) (b : Fin 128) (hra : ∀ k : Fin 2048, IsReal (x1a (ix2 k b))) (hrc : ∀ k : Fin 2048, IsReal (x1c (ix2 k b))) :
    k6_pay3 (F := Ideal) (k6_pay2 (F := Ideal) x1c (k6_pay2 (F := Ideal) x1a (k6_pay1 (F := Ideal)) x0a) x0c) x2 (ix2 a b)
      = max ((((0 : EReal) + ∑ k : Fin 2048, (x0a (ix2 k a) : EReal) * (x1a (ix2 k b) : EReal))
          + ∑ k : Fin 2048, (x0c (ix2 k a) : EReal) * (x1c (ix2 k b) : EReal)) + (x2 (ix2 a b) : EReal)) 0 := by
  rw [k6_pay3_apply, k6_pay2_apply x1c _ x0c a b hrc, k6_pay2_apply x1a _ x0a a b hra, k6_pay1_apply]

/-! ## The block indices, decided over the grid -/

/-- Point t = 2i + k reads block (k, i) of the incidence matrix, block (k, 0) of the node features, block (i, 0) of the
    edge features, and its output block is (i, 0). -/
theorem idx_facts6 : ∀ t : Fin cfg6.N,
    win6_0.index t (0 : Fin 2) = t.val % 2 ∧ win6_0.index t (1 : Fin 2) = t.val / 2
    ∧ win6_1.index t (0 : Fin 2) = t.val % 2 ∧ win6_1.index t (1 : Fin 2) = 0
    ∧ win6_2.index t (0 : Fin 2) = t.val / 2 ∧ win6_2.index t (1 : Fin 2) = 0
    ∧ win6_3.index t (0 : Fin 2) = t.val / 2 ∧ win6_3.index t (1 : Fin 2) = 0 :=
  (by decide +kernel : ∀ t : Fin grid6.N, _)

/-! ## The blocks, typed over their literal shapes, and read at an index -/

variable (V : (c : Dev nD) → (b : Ref sig .tc) → Buf (Elt Ideal) ((c : Thread nD τ).loc b))

/-- The incidence block of point t. -/
def blkA_r6 (c : Dev nD) (t : Fin cfg6.N) : FVec Ideal S2048x1024 .bf16 := iblk6 V c 0 t
/-- The node-feature block of point t. -/
def blkX_r6 (c : Dev nD) (t : Fin cfg6.N) : FVec Ideal S2048x128 .f32 := iblk6 V c 1 t
/-- The edge-feature block of point t. -/
def blkH_r6 (c : Dev nD) (t : Fin cfg6.N) : FVec Ideal S1024x128 .f32 := iblk6 V c 2 t

/-- The incidence block at (k, a) is the matrix at row (t mod 2)·2048 + k, column (t div 2)·1024 + a. -/
theorem blkA_apply_r6 (c : Dev nD) (t : Fin cfg6.N) (k : Fin 2048) (a : Fin 1024) (r : Fin 4096) (e : Fin 8192)
    (hr : r.val = t.val % 2 * 2048 + k.val) (he : e.val = t.val / 2 * 1024 + a.val) :
    blkA_r6 V c t (ix2 k a) = (V c main_v25 : S4096x8192.Idx → EReal) (ix2 r e) := by
  obtain ⟨e0, e1, -⟩ := idx_facts6 t
  unfold blkA_r6 iblk6
  rw [View.read_apply]
  show V c main_v25 _ = V c main_v25 _
  congr 1
  funext ax; apply Fin.ext
  match ax with
  | ⟨0, _⟩ => show win6_0.index t (0 : Fin 2) * 2048 + 1 * k.val = r.val; omega
  | ⟨1, _⟩ => show win6_0.index t (1 : Fin 2) * 1024 + 1 * a.val = e.val; omega

/-- The node-feature block at (k, b) is the array at row (t mod 2)·2048 + k, column b. -/
theorem blkX_apply_r6 (c : Dev nD) (t : Fin cfg6.N) (k : Fin 2048) (b : Fin 128) (r : Fin 4096)
    (hr : r.val = t.val % 2 * 2048 + k.val) :
    blkX_r6 V c t (ix2 k b) = (V c main_v47 : S4096x128.Idx → EReal) (ix2 r b) := by
  obtain ⟨-, -, e0, e1, -⟩ := idx_facts6 t
  unfold blkX_r6 iblk6
  rw [View.read_apply]
  show V c main_v47 _ = V c main_v47 _
  congr 1
  funext ax; apply Fin.ext
  match ax with
  | ⟨0, _⟩ => show win6_1.index t (0 : Fin 2) * 2048 + 1 * k.val = r.val; omega
  | ⟨1, _⟩ => show win6_1.index t (1 : Fin 2) * 128 + 1 * b.val = b.val; omega

/-- The edge-feature block at (a, b) is the array at row (t div 2)·1024 + a, column b. -/
theorem blkH_apply_r6 (c : Dev nD) (t : Fin cfg6.N) (a : Fin 1024) (b : Fin 128) (e : Fin 8192)
    (he : e.val = t.val / 2 * 1024 + a.val) :
    blkH_r6 V c t (ix2 a b) = (V c main_v23 : S8192x128.Idx → EReal) (ix2 e b) := by
  obtain ⟨-, -, -, -, e0, e1, -⟩ := idx_facts6 t
  unfold blkH_r6 iblk6
  rw [View.read_apply]
  show V c main_v23 _ = V c main_v23 _
  congr 1
  funext ax; apply Fin.ext
  match ax with
  | ⟨0, _⟩ => show win6_2.index t (0 : Fin 2) * 1024 + 1 * a.val = e.val; omega
  | ⟨1, _⟩ => show win6_2.index t (1 : Fin 2) * 128 + 1 * b.val = b.val; omega

/-! ## The output's buffer after a point with k = 1 -/

/-- After a point t with k = 1 the output's buffer holds, at (a, b), the edge update at edge (t div 2)·1024 + a and
    column b, of the arrays the region was entered with. -/
theorem out_value6 (c : Dev nD) (hreal : ∀ i, IsReal ((V c main_v47 : S4096x128.Idx → EReal) i)) (t : Fin cfg6.N)
    (h1 : t.val % 2 = 1) (a : Fin 1024) (b : Fin 128) (e : Fin 8192) (he : e.val = t.val / 2 * 1024 + a.val) :
    (outsAt6 V c t.val t.isLt).1 (ix2 a b) = edgeUpdate_r6 (V c main_v25) (V c main_v47) (V c main_v23) (ix2 e b) := by
  have hN : t.val < 16 := lt_of_lt_of_eq t.isLt (show cfg6.N = 16 from N_6)
  have hlt : t.val - 1 < cfg6.N := Nat.lt_of_le_of_lt (Nat.sub_le _ _) t.isLt
  have hev : (⟨t.val - 1, hlt⟩ : Fin cfg6.N).val % 2 = 0 := by dsimp only; omega
  have hpt : (outsAt6 V c t.val t.isLt).1
      = k6_pay3 (F := Ideal) (k6_pay2 (F := Ideal) (blkX_r6 V c t) (k6_pay2 (F := Ideal) (blkX_r6 V c ⟨t.val - 1, hlt⟩) (k6_pay1 (F := Ideal)) (blkA_r6 V c ⟨t.val - 1, hlt⟩)) (blkA_r6 V c t)) (blkH_r6 V c t) := by
    rw [out_odd6 V c t h1, acc_even6 V c ⟨t.val - 1, hlt⟩ hev]
    rfl
  rw [hpt]
  refine (point_value_r6 (blkA_r6 V c ⟨t.val - 1, hlt⟩) (blkA_r6 V c t) (blkX_r6 V c ⟨t.val - 1, hlt⟩) (blkX_r6 V c t) (blkH_r6 V c t) a b ?_ ?_).trans ?_
  · intro k
    rw [blkX_apply_r6 V c ⟨t.val - 1, hlt⟩ k b ⟨k.val, by omega⟩ (by dsimp only; omega)]
    exact hreal _
  · intro k
    rw [blkX_apply_r6 V c t k b ⟨2048 + k.val, by omega⟩ (by dsimp only; omega)]
    exact hreal _
  · refine edgeUpdate_of_halves_r6 _ _ _ e b _ _ _ ?_ ?_ ?_
    · exact Finset.sum_congr rfl fun k _ => congrArg₂ (fun y z : EReal => y * z)
        (blkA_apply_r6 V c ⟨t.val - 1, hlt⟩ k a ⟨k.val, by omega⟩ e (by dsimp only; omega) (by dsimp only; omega))
        (blkX_apply_r6 V c ⟨t.val - 1, hlt⟩ k b ⟨k.val, by omega⟩ (by dsimp only; omega))
    · exact Finset.sum_congr rfl fun k _ => congrArg₂ (fun y z : EReal => y * z)
        (blkA_apply_r6 V c t k a ⟨2048 + k.val, by omega⟩ e (by dsimp only; omega) he)
        (blkX_apply_r6 V c t k b ⟨2048 + k.val, by omega⟩ (by dsimp only; omega))
    · exact blkH_apply_r6 V c t a b e he

/-! ## From the blocks to the array -/

/-- What a point with k = 1 writes back is its block of the edge update. -/
theorem flushed6_3_eq (c : Dev nD) (hreal : ∀ i, IsReal ((V c main_v47 : S4096x128.Idx → EReal) i)) (t : Fin cfg6.N)
    (hf : (cfg6.win 3).flush t = true) :
    (dat6 (F := Ideal) V c).flushed 3 t
      = ((cfg6.win 3).blk t).view.read (Elt Ideal) (edgeUpdate_r6 (V c main_v25) (V c main_v47) (V c main_v23)) := by
  have h1 : t.val % 2 = 1 := (flush6_3 t).mp hf
  have hN : t.val < 16 := lt_of_lt_of_eq t.isLt (show cfg6.N = 16 from N_6)
  obtain ⟨-, -, -, -, -, -, e0, e1⟩ := idx_facts6 t
  show (cfg6.win 3).cut (grid6.coords t) ((dat6 V c).after 3 t) = _
  rw [after6_3]
  funext j
  rw [View.read_apply]
  have hj0 : (j 0).val < 1024 := (j 0).isLt
  have hj1 : (j 1).val < 128 := (j 1).isLt
  refine Eq.trans (b := (outsAt6 V c t.val t.isLt).1 (ix2 (⟨(j 0).val, hj0⟩ : Fin 1024) (⟨(j 1).val, hj1⟩ : Fin 128))) ?_ ?_
  · exact congrArg (outsAt6 V c t.val t.isLt).1 (funext fun ax => Fin.ext (by match ax with | ⟨0, _⟩ => rfl | ⟨1, _⟩ => rfl))
  · refine (out_value6 V c hreal t h1 ⟨(j 0).val, hj0⟩ ⟨(j 1).val, hj1⟩ ⟨t.val / 2 * 1024 + (j 0).val, by omega⟩ rfl).trans ?_
    refine congrArg (edgeUpdate_r6 (V c main_v25) (V c main_v47) (V c main_v23)) (funext fun ax => Fin.ext ?_)
    match ax with
    | ⟨0, _⟩ => show t.val / 2 * 1024 + (j 0).val = win6_3.index t (0 : Fin 2) * 1024 + 1 * (j 0).val; omega
    | ⟨1, _⟩ => show (j 1).val = win6_3.index t (1 : Fin 2) * 128 + 1 * (j 1).val; omega

/-- An index of the output array is in point t's block iff each coordinate is in the block's range on its axis. -/
theorem mem_blk6_3 (t : Fin cfg6.N) (i : S8192x128.Idx) :
    i ∈ ((cfg6.win 3).blk t).view.set ↔ ∀ a : Fin 2, win6_3.index t a * S1024x128.size a ≤ (i a).val ∧ (i a).val < win6_3.index t a * S1024x128.size a + S1024x128.size a := by
  show i ∈ ((View.whole main_v48).slice (win6_3.rect t)).set ↔ _
  rw [View.set_slice_whole, Rect.mem_set_unit]
  exact Iff.rfl

/-- Every index of the output array is in the block of a point with k = 1: row e lies in edge block e div 1024. -/
theorem cover6_3 (i : S8192x128.Idx) : ∃ t : Fin cfg6.N, (cfg6.win 3).flush t = true ∧ i ∈ ((cfg6.win 3).blk t).view.set := by
  have hi0 : (i 0).val < 8192 := (i 0).isLt
  have hi1 : (i 1).val < 128 := (i 1).isLt
  have hN : cfg6.N = 16 := N_6
  have ht : 2 * ((i 0).val / 1024) + 1 < cfg6.N := by omega
  obtain ⟨-, -, -, -, -, -, e0, e1⟩ := idx_facts6 ⟨2 * ((i 0).val / 1024) + 1, ht⟩
  refine ⟨⟨2 * ((i 0).val / 1024) + 1, ht⟩, (flush6_3 _).mpr (by dsimp only; omega), ?_⟩
  rw [mem_blk6_3]
  intro a
  match a with
  | ⟨0, _⟩ =>
    show win6_3.index ⟨2 * ((i 0).val / 1024) + 1, ht⟩ (0 : Fin 2) * 1024 ≤ (i 0).val ∧ (i 0).val < win6_3.index ⟨2 * ((i 0).val / 1024) + 1, ht⟩ (0 : Fin 2) * 1024 + 1024
    dsimp only at e0; omega
  | ⟨1, _⟩ =>
    show win6_3.index ⟨2 * ((i 0).val / 1024) + 1, ht⟩ (1 : Fin 2) * 128 ≤ (i 1).val ∧ (i 1).val < win6_3.index ⟨2 * ((i 0).val / 1024) + 1, ht⟩ (1 : Fin 2) * 128 + 128
    omega

/-- After the region the output array is the edge update of the arrays the region was entered with. -/
theorem final6_core (c : Dev nD) (hreal : ∀ i, IsReal ((V c main_v47 : S4096x128.Idx → EReal) i)) :
    (dat6 (F := Ideal) V c).arrAt 3 cfg6.N = edgeUpdate_r6 (V c main_v25) (V c main_v47) (V c main_v23) :=
  (dat6 (F := Ideal) V c).arrAt_eq_of_cover 3 (edgeUpdate_r6 (V c main_v25) (V c main_v47) (V c main_v23))
    (fun t hf => flushed6_3_eq V c hreal t hf) (fun i => cover6_3 i)

end Cert.KernelIdeal.Hand

end
-- ==== Proof.KI.Val6.lean ====
/-
  Region 6's value, against the specification: after the region its output array is the specification's edge update of
  the incidence matrix, the node features and the edge features the region was entered with, when the node features
  are real.
-/
import proofs.«181597_j77979426226450_2_alg».proof.Proof.KI.Val6Core
import proofs.«181597_j77979426226450_2_alg».proof.Proof.Spec

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL.Sem
open Idealize.ShloMosaic.Pipeline (Dat Cfg Window cellOf)
open Idealize.ShloMosaic.ValueIdx

variable (V : (c : Dev nD) → (b : Ref sig .tc) → Buf (Elt Ideal) ((c : Thread nD τ).loc b))

/-- The closed form read off the kernel is the specification's edge update. -/
theorem edgeUpdate_eq_spec_r6 (A2 : Cert.Spec.Arr2 4096 8192) (hv : Cert.Spec.Arr2 4096 128) (he : Cert.Spec.Arr2 8192 128) :
    edgeUpdate_r6 A2 hv he = Cert.Spec.edgeUpd A2 hv he := rfl

/-- After region 6 its output array is the edge update of the arrays the region was entered with. -/
theorem final6 (c : Dev nD) (hreal : Cert.Spec.AllReal (S := S4096x128) (V c main_v47)) :
    (dat6 (F := Ideal) V c).arrAt 3 cfg6.N = Cert.Spec.edgeUpd (V c main_v25) (V c main_v47) (V c main_v23) :=
  (final6_core V c hreal).trans (edgeUpdate_eq_spec_r6 (V c main_v25) (V c main_v47) (V c main_v23))

end Cert.KernelIdeal.Hand

end
-- ==== Proof.KI.Val7Pieces.lean ====
/- Region 7: what the two runs found, read back as the kernel's payloads of the blocks. In the first reduction step the
   accumulator is zeroed and the step's product of the two input blocks is added; in the last step the product is added to
   what the step before left, and the output block is the residual layer of that sum. Generic in the float values. -/
import proofs.«181597_j77979426226450_2_alg».proof.Proof.KI.Reg7
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic Idealize.SL.Sem
open Idealize.ShloMosaic.Pipeline (Dat)

variable {F : FTy → Type} [FloatOps F]

/-- The zero offsets of a whole-block access. -/
theorem hz7 : (![0, 0] : Fin 2 → Nat) = fun _ => 0 := funext fun a => by fin_cases a <;> rfl

/-- Case C's accumulator: the one covering store's payload, over the blocks and what the accumulator held. -/
theorem sout7_C_0_eq (c : Dev nD) (i : grid7.Coords) (arg2 : Memref sig .tc .vmem S1024x4096 .bf16) (harg2 : arg2.IsWhole) (arg3 : Memref sig .tc .vmem S4096x128 .f32) (harg3 : arg3.IsWhole) (arg4 : Memref sig .tc .vmem S1024x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1024x128 .f32) (harg7 : arg7.IsWhole) (arg8 : Memref sig .tc .vmem S1024x128 .f32) (harg8 : arg8.IsWhole) (hcz : ¬cond7_0 i) (hcl : cond7_1 i)
    (xa : Vec F S1024x4096 .bf16) (xb : Vec F S4096x128 .f32) (xc : Vec F S1024x128 .f32) (xd : Vec F S128x128 .f32) (xe : Vec F S1x128 .f32) (xs : Vec F S1024x128 .f32) :
    sout7_C_0 c i arg2 harg2 arg3 harg3 arg4 harg4 arg5 harg5 arg6 harg6 arg7 harg7 arg8 harg8 hcz hcl xa xb xc xd xe xs = k7_pay2 xb xs xa := by
  unfold sout7_C_0
  rw [View.read_writes_eq_canon _ _ _ (scover7_C_0 c i arg2 harg2 arg3 harg3 arg4 harg4 arg5 harg5 arg6 harg6 arg7 harg7 arg8 harg8 hcz hcl xa xb xc xd xe xs)]
  unfold kernelRun7_C
  dsimp only
  sl_unfold_words
  rw [View.canon_unit_zero (S := S1024x128) hz7]
  simp only [View.readAt_eq_ld, harg2.read_unread, harg3.read_unread, harg8.read_unread, View.ld_unit_zero (S := S1024x4096) hz7, View.ld_unit_zero (S := S4096x128) hz7, View.ld_unit_zero (S := S1024x128) hz7, View.ld_unit_zero (S := S128x128) hz7, View.ld_unit_zero (S := S1x128) hz7]

/-- Case A's accumulator: the zero block is stored and read back, then the covering store adds the product to it. -/
theorem sout7_A_0_eq (c : Dev nD) (i : grid7.Coords) (arg2 : Memref sig .tc .vmem S1024x4096 .bf16) (harg2 : arg2.IsWhole) (arg3 : Memref sig .tc .vmem S4096x128 .f32) (harg3 : arg3.IsWhole) (arg4 : Memref sig .tc .vmem S1024x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1024x128 .f32) (harg7 : arg7.IsWhole) (arg8 : Memref sig .tc .vmem S1024x128 .f32) (harg8 : arg8.IsWhole) (hcz : cond7_0 i) (hcl : ¬cond7_1 i)
    (xa : Vec F S1024x4096 .bf16) (xb : Vec F S4096x128 .f32) (xc : Vec F S1024x128 .f32) (xd : Vec F S128x128 .f32) (xe : Vec F S1x128 .f32) :
    sout7_A_0 c i arg2 harg2 arg3 harg3 arg4 harg4 arg5 harg5 arg6 harg6 arg7 harg7 arg8 harg8 hcz hcl xa xb xc xd xe = k7_pay2 xb (k7_pay1 (F := F)) xa := by
  unfold sout7_A_0
  rw [View.read_writes_eq_canon _ _ _ (scover7_A_0 c i arg2 harg2 arg3 harg3 arg4 harg4 arg5 harg5 arg6 harg6 arg7 harg7 arg8 harg8 hcz hcl xa xb xc xd xe)]
  unfold kernelRun7_A
  dsimp only
  sl_unfold_words
  rw [View.canon_cons_unit_zero (S := S1024x128) hz7, View.readCov_unit_zero (S := S1024x128) _ hz7]
  simp only [View.readAt_eq_ld, harg2.read_unread, harg3.read_unread, View.ld_unit_zero (S := S1024x4096) hz7, View.ld_unit_zero (S := S4096x128) hz7, View.ld_unit_zero (S := S1024x128) hz7, View.ld_unit_zero (S := S128x128) hz7, View.ld_unit_zero (S := S1x128) hz7]

/-- Case C's output block: the one covering store's payload, over the residual block, the accumulator as the case
    leaves it, the weight block and the bias row. -/
theorem out7_C_5_eq (c : Dev nD) (i : grid7.Coords) (arg2 : Memref sig .tc .vmem S1024x4096 .bf16) (harg2 : arg2.IsWhole) (arg3 : Memref sig .tc .vmem S4096x128 .f32) (harg3 : arg3.IsWhole) (arg4 : Memref sig .tc .vmem S1024x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1024x128 .f32) (harg7 : arg7.IsWhole) (arg8 : Memref sig .tc .vmem S1024x128 .f32) (harg8 : arg8.IsWhole) (hcz : ¬cond7_0 i) (hcl : cond7_1 i)
    (xa : Vec F S1024x4096 .bf16) (xb : Vec F S4096x128 .f32) (xc : Vec F S1024x128 .f32) (xd : Vec F S128x128 .f32) (xe : Vec F S1x128 .f32) (xs : Vec F S1024x128 .f32) :
    out7_C_5 c i arg2 harg2 arg3 harg3 arg4 harg4 arg5 harg5 arg6 harg6 arg7 harg7 arg8 harg8 hcz hcl xa xb xc xd xe xs = k7_pay3 xc (k7_pay2 xb xs xa) xd xe := by
  unfold out7_C_5
  rw [View.read_writes_eq_canon _ _ _ (cover7_C_5 c i arg2 harg2 arg3 harg3 arg4 harg4 arg5 harg5 arg6 harg6 arg7 harg7 arg8 harg8 hcz hcl xa xb xc xd xe xs)]
  unfold kernelRun7_C
  dsimp only
  sl_unfold_words
  rw [View.canon_unit_zero (S := S1024x128) hz7]
  simp only [View.readAt_eq_ld, harg2.read_unread, harg3.read_unread, harg4.read_unread, harg5.read_unread, harg6.read_unread, harg8.read_unread, View.ld_unit_zero (S := S1024x4096) hz7, View.ld_unit_zero (S := S4096x128) hz7, View.ld_unit_zero (S := S1024x128) hz7, View.ld_unit_zero (S := S128x128) hz7, View.ld_unit_zero (S := S1x128) hz7]
  rw [View.readCov_unit_zero (S := S1024x128) _ hz7]

end Cert.KernelIdeal.Hand

end
-- ==== Proof.KI.Val7Payload.lean ====
/-
  Region 7's payloads read at an index, on the extended reals, over explicit coordinates (p, q) of a 1024 by 128 block:
  the zero block is 0; the accumulation step is acc[p,q] + Σ_e A[p,e]·x[e,q] over the 4096 columns of the incidence
  block, the contraction against the remainder x - x vanishing when column q of x is real; the residual layer is
  act (Σ_k (h[p,k] + acc[p,k])·Wt[k,q] + b[0,q]) with act x = x for 0 ≤ x and slope·x otherwise.
-/
import proofs.«181597_j77979426226450_2_alg».proof.Proof.Gen.KernelIdeal.Skeleton
import proofs.«181597_j77979426226450_2_alg».proof.Proof.LibSplitAccumulate
import proofs.«181597_j77979426226450_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL.Sem
open Idealize.ShloMosaic.Pipeline (Dat Cfg Window cellOf)
open Idealize.ShloMosaic.ValueIdx

open Cert.SplitAccumulate

/-- The product of a 1024 by 4096 block with a 4096 by 128 block, into the zero block, at (p, q): Σ_e A[p,e]·B[e,q]. -/
theorem matmulBlk7_zero_apply (A : FVec Ideal S1024x4096 .bf16) (B : FVec Ideal S4096x128 .bf16) (p : Fin 1024) (q : Fin 128) :
    matmul (F := Ideal) dot_S1024x4096_S4096x128_S1024x128_1_0_0_1_n_n none A B (constant (F := Ideal) S1024x128 .f32 0x00000000#32) (ix2 p q)
      = ∑ k : Fin 4096, (A (ix2 p k) : EReal) * (B (ix2 k q) : EReal) := by
  refine (Ideal.matmul_constant_zero_apply dot_S1024x4096_S4096x128_S1024x128_1_0_0_1_n_n none A B (ix2 p q)).trans ?_
  rw [← Equiv.sum_comp (contrEquiv1 dot_S1024x4096_S4096x128_S1024x128_1_0_0_1_n_n 4096 rfl rfl).symm]
  refine Finset.sum_congr rfl fun k _ => ?_
  have ck := contrEquiv1_symm_val dot_S1024x4096_S4096x128_S1024x128_1_0_0_1_n_n 4096 rfl rfl k
  have l2 : (dot_S1024x4096_S4096x128_S1024x128_1_0_0_1_n_n).lhsIdx (ix2 p q) ((contrEquiv1 dot_S1024x4096_S4096x128_S1024x128_1_0_0_1_n_n 4096 rfl rfl).symm k) = ix2 p k := by
    funext ax; apply Fin.ext
    match ax with
    | ⟨0, _⟩ => simp [DotDims.lhsIdx, dot_S1024x4096_S4096x128_S1024x128_1_0_0_1_n_n]; rfl
    | ⟨1, _⟩ => simp [DotDims.lhsIdx, dot_S1024x4096_S4096x128_S1024x128_1_0_0_1_n_n]; exact ck
  have r2 : (dot_S1024x4096_S4096x128_S1024x128_1_0_0_1_n_n).rhsIdx (ix2 p q) ((contrEquiv1 dot_S1024x4096_S4096x128_S1024x128_1_0_0_1_n_n 4096 rfl rfl).symm k) = ix2 k q := by
    funext ax; apply Fin.ext
    match ax with
    | ⟨0, _⟩ => simp [DotDims.rhsIdx, dot_S1024x4096_S4096x128_S1024x128_1_0_0_1_n_n]; exact ck
    | ⟨1, _⟩ => simp [DotDims.rhsIdx, dot_S1024x4096_S4096x128_S1024x128_1_0_0_1_n_n]; rfl
  rw [l2, r2]

/-- The product of a 1024 by 128 block with the 128 by 128 weight block, into the zero block, at (p, q): Σ_k A[p,k]·B[k,q]. -/
theorem matmulDense7_zero_apply (A : FVec Ideal S1024x128 .f32) (B : FVec Ideal S128x128 .f32) (p : Fin 1024) (q : Fin 128) :
    matmul (F := Ideal) dot_S1024x128_S128x128_S1024x128_1_0_0_1_n_n none A B (constant (F := Ideal) S1024x128 .f32 0x00000000#32) (ix2 p q)
      = ∑ k : Fin 128, (A (ix2 p k) : EReal) * (B (ix2 k q) : EReal) := by
  refine (Ideal.matmul_constant_zero_apply dot_S1024x128_S128x128_S1024x128_1_0_0_1_n_n none A B (ix2 p q)).trans ?_
  rw [← Equiv.sum_comp (contrEquiv1 dot_S1024x128_S128x128_S1024x128_1_0_0_1_n_n 128 rfl rfl).symm]
  refine Finset.sum_congr rfl fun k _ => ?_
  have ck := contrEquiv1_symm_val dot_S1024x128_S128x128_S1024x128_1_0_0_1_n_n 128 rfl rfl k
  have l2 : (dot_S1024x128_S128x128_S1024x128_1_0_0_1_n_n).lhsIdx (ix2 p q) ((contrEquiv1 dot_S1024x128_S128x128_S1024x128_1_0_0_1_n_n 128 rfl rfl).symm k) = ix2 p k := by
    funext ax; apply Fin.ext
    match ax with
    | ⟨0, _⟩ => simp [DotDims.lhsIdx, dot_S1024x128_S128x128_S1024x128_1_0_0_1_n_n]; rfl
    | ⟨1, _⟩ => simp [DotDims.lhsIdx, dot_S1024x128_S128x128_S1024x128_1_0_0_1_n_n]; exact ck
  have r2 : (dot_S1024x128_S128x128_S1024x128_1_0_0_1_n_n).rhsIdx (ix2 p q) ((contrEquiv1 dot_S1024x128_S128x128_S1024x128_1_0_0_1_n_n 128 rfl rfl).symm k) = ix2 k q := by
    funext ax; apply Fin.ext
    match ax with
    | ⟨0, _⟩ => simp [DotDims.rhsIdx, dot_S1024x128_S128x128_S1024x128_1_0_0_1_n_n]; exact ck
    | ⟨1, _⟩ => simp [DotDims.rhsIdx, dot_S1024x128_S128x128_S1024x128_1_0_0_1_n_n]; rfl
  rw [l2, r2]

/-- The zero block at an index. -/
theorem k7_pay1_apply (p : Fin 1024) (q : Fin 128) : k7_pay1 (F := Ideal) (ix2 p q) = (0 : EReal) := by
  unfold k7_pay1
  simp only [shapeCast_self]
  exact Ideal.ofBits_zero_f32

/-- The accumulation step at an index: the accumulator plus the product of the two blocks, when the feature block's
    column is real. -/
theorem k7_pay2_apply (xb : FVec Ideal S4096x128 .f32) (acc : FVec Ideal S1024x128 .f32) (xa : FVec Ideal S1024x4096 .bf16)
    (p : Fin 1024) (q : Fin 128) (hreal : ∀ e : Fin 4096, IsReal (xb (ix2 e q))) :
    k7_pay2 (F := Ideal) xb acc xa (ix2 p q)
      = (acc (ix2 p q) : EReal) + ∑ e : Fin 4096, (xa (ix2 p e) : EReal) * (xb (ix2 e q) : EReal) := by
  unfold k7_pay2
  simp only [shapeCast_self]
  refine Eq.trans (congrArg (fun z : EReal => (acc (ix2 p q) : EReal) + z)
    (congrArg₂ (fun y z : EReal => y + z) (matmulBlk7_zero_apply xa _ p q) (matmulBlk7_zero_apply xa _ p q))) ?_
  exact congrArg (fun z : EReal => (acc (ix2 p q) : EReal) + z)
    (sum_split (fun e : Fin 4096 => (xa (ix2 p e) : EReal)) (fun e : Fin 4096 => (xb (ix2 e q) : EReal)) hreal)

/-- The leaky step on one value: the comparison against zero selects the value or its product with the slope. -/
theorem leaky7_apply (x : Ideal .f32) :
    Scalar.select (FloatOps.cmpf (F := Ideal) (φ := .f32) .oge x (Ideal.ofBits .f32 0x00000000#32)) x
        (FloatOps.mulf (F := Ideal) (φ := .f32) (Ideal.ofBits .f32 0x3C23D70A#32) x) = Cert.Spec.act x := by
  by_cases h : (0 : EReal) ≤ x
  · have e : FloatOps.cmpf (F := Ideal) (φ := .f32) .oge x (Ideal.ofBits .f32 0x00000000#32) = 1#1 := by
      rw [Ideal.cmpf_def, Ideal.ofBits_zero_f32]
      show BitVec.ofBool (decide ((0 : EReal) ≤ x)) = 1#1
      rw [decide_eq_true h]; rfl
    rw [e, select_one]; unfold Cert.Spec.act; rw [if_pos h]
  · have e : FloatOps.cmpf (F := Ideal) (φ := .f32) .oge x (Ideal.ofBits .f32 0x00000000#32) = 0#1 := by
      rw [Ideal.cmpf_def, Ideal.ofBits_zero_f32]
      show BitVec.ofBool (decide ((0 : EReal) ≤ x)) = 0#1
      rw [decide_eq_false h]; rfl
    rw [e, select_zero]; unfold Cert.Spec.act Cert.Spec.slope; rw [if_neg h]; rfl

/-- The residual layer at an index: the dense map of the residual block plus the accumulator, plus the bias row, under
    the leaky activation. -/
theorem k7_pay3_apply (xc acc : FVec Ideal S1024x128 .f32) (xd : FVec Ideal S128x128 .f32) (xe : FVec Ideal S1x128 .f32)
    (p : Fin 1024) (q : Fin 128) :
    k7_pay3 (F := Ideal) xc acc xd xe (ix2 p q)
      = Cert.Spec.act ((∑ k : Fin 128, ((xc (ix2 p k) : EReal) + (acc (ix2 p k) : EReal)) * (xd (ix2 k q) : EReal))
          + (xe (ix2 (0 : Fin 1) q) : EReal)) := by
  unfold k7_pay3
  simp only [shapeCast_self]
  have key : ∀ (v w : Ideal .f32), v = w →
      Scalar.select (FloatOps.cmpf (F := Ideal) (φ := .f32) .oge v (Ideal.ofBits .f32 0x00000000#32)) v
        (FloatOps.mulf (F := Ideal) (φ := .f32) (Ideal.ofBits .f32 0x3C23D70A#32) v) = Cert.Spec.act w :=
    fun v w h => h ▸ leaky7_apply v
  refine key _ _ ?_
  exact congrArg₂ (fun y z : EReal => y + z) (matmulDense7_zero_apply (addf xc acc) xd p q)
    (broadcastTo_1b_ab_apply xe broadcasts_S1x128_S1024x128 p q)

end Cert.KernelIdeal.Hand

end
-- ==== Proof.KI.Val7Point.lean ====
/-
  Region 7, one block row: the output block of the row's last reduction step, read at (p, q), is the residual layer of
  the whole arrays at row i·1024 + p. The accumulator of the two steps is (0 + S₀) + S₁ with S₀, S₁ the contractions
  over the lower and upper halves of the 8192 edges, which together are the contraction over all of them; the rounding
  split of the edge update costs nothing because its entries are real.
-/
import proofs.«181597_j77979426226450_2_alg».proof.Proof.KI.Val7Payload

set_option maxRecDepth 16384

noncomputable section

namespace Cert.KernelIdeal.Hand

open Cert.KernelIdeal Cert.KernelIdeal.Gen
open Idealize.ShloMosaic Idealize.ShloMosaic.ValueIdx
open Cert.SplitAccumulate

/-- The residual layer of block row `i` at (p, q) from the blocks of its two reduction steps: `A0`, `X0` the first step's
    incidence and edge-update blocks (edges 0 … 4095), `A1`, `X1` the second's (edges 4096 … 8191), `H` the row's
    node-feature block, `Wb`, `Bb` the weight block and the bias row — each hypothesis says where the block sits in its
    array. -/
theorem layerBlock7_apply (A : Cert.Spec.Arr2 4096 8192) (hv : Cert.Spec.Arr2 4096 128) (X : Cert.Spec.Arr2 8192 128)
    (Wt : Cert.Spec.Arr2 128 128) (bias : Cert.Spec.Arr2 1 128) (hX : Cert.Spec.AllReal X) (i : Fin 4)
    (A0 A1 : FVec Ideal S1024x4096 .bf16) (X0 X1 : FVec Ideal S4096x128 .f32) (H : FVec Ideal S1024x128 .f32)
    (Wb : FVec Ideal S128x128 .f32) (Bb : FVec Ideal S1x128 .f32)
    (hA0 : ∀ (p : Fin 1024) (e : Fin 4096), (A0 (ix2 p e) : EReal) = A (ix2 ⟨i.val * 1024 + p.val, by omega⟩ ⟨e.val, by omega⟩))
    (hA1 : ∀ (p : Fin 1024) (e : Fin 4096), (A1 (ix2 p e) : EReal) = A (ix2 ⟨i.val * 1024 + p.val, by omega⟩ ⟨4096 + e.val, by omega⟩))
    (hX0 : ∀ (e : Fin 4096) (k : Fin 128), (X0 (ix2 e k) : EReal) = X (ix2 ⟨e.val, by omega⟩ k))
    (hX1 : ∀ (e : Fin 4096) (k : Fin 128), (X1 (ix2 e k) : EReal) = X (ix2 ⟨4096 + e.val, by omega⟩ k))
    (hH : ∀ (p : Fin 1024) (k : Fin 128), (H (ix2 p k) : EReal) = hv (ix2 ⟨i.val * 1024 + p.val, by omega⟩ k))
    (hW : ∀ (k q : Fin 128), (Wb (ix2 k q) : EReal) = Wt (ix2 k q))
    (hB : ∀ q : Fin 128, (Bb (ix2 (0 : Fin 1) q) : EReal) = bias (ix2 (0 : Fin 1) q))
    (p : Fin 1024) (q : Fin 128) :
    k7_pay3 (F := Ideal) H (k7_pay2 (F := Ideal) X1 (k7_pay2 (F := Ideal) X0 (k7_pay1 (F := Ideal)) A0) A1) Wb Bb (ix2 p q)
      = Cert.Spec.nodeLayerT Wt bias (Cert.Spec.nodeRes A hv X) (ix2 (⟨i.val * 1024 + p.val, by omega⟩ : Fin 4096) q) := by
  have hsum : ∀ k : Fin 128,
      (H (ix2 p k) : EReal) + (k7_pay2 (F := Ideal) X1 (k7_pay2 (F := Ideal) X0 (k7_pay1 (F := Ideal)) A0) A1 (ix2 p k) : EReal)
        = hv (ix2 ⟨i.val * 1024 + p.val, by omega⟩ k)
          + ∑ e : Fin 8192, A (ix2 ⟨i.val * 1024 + p.val, by omega⟩ e) * X (ix2 e k) := by
    intro k
    rw [k7_pay2_apply X1 _ A1 p k (fun e => by rw [hX1]; exact hX _),
      k7_pay2_apply X0 _ A0 p k (fun e => by rw [hX0]; exact hX _), k7_pay1_apply, zero_add, hH,
      sum_halves (n := 4096) (m := 8192) rfl (fun e : Fin 8192 => A (ix2 ⟨i.val * 1024 + p.val, by omega⟩ e) * X (ix2 e k))]
    simp only [hA0, hA1, hX0, hX1]
  rw [k7_pay3_apply]
  simp only [hsum, hW, hB]
  rfl

end Cert.KernelIdeal.Hand

end
-- ==== Proof.KI.Val7.lean ====
/-
  Region 7's value on the extended reals: after the region, the output array is the residual layer of the node residual,
  nodeLayerT Wt b (nodeRes A hv X), when every entry of the edge update X is real. The output block of block row i is
  written back once, after the row's second reduction step; it is the layer at rows i·1024 … i·1024 + 1023, and the four
  rows of blocks tile the array.
-/
import proofs.«181597_j77979426226450_2_alg».proof.Proof.KI.Val7Pieces
import proofs.«181597_j77979426226450_2_alg».proof.Proof.KI.Val7Point

set_option maxRecDepth 16384

noncomputable section

namespace Cert.KernelIdeal.Hand

open Cert.KernelIdeal Cert.KernelIdeal.Gen
open Idealize.ShloMosaic Idealize.ShloMosaic.TcCoe Idealize.ShloMosaic.Tactic Idealize.SL.Sem
open Idealize.ShloMosaic.Pipeline (Dat)
open Idealize.ShloMosaic.ValueIdx
open Cert.SplitAccumulate

/-! ## The output block after a row's second step, from the two found pieces (any float values) -/

section AnyValues
variable {F : FTy → Type} [FloatOps F] (V : (c : Dev nD) → (b : Ref sig .tc) → Buf (Elt F) ((c : Thread nD τ).loc b))

/-- The point before `t`. -/
abbrev prevPt7 (t : Fin cfg7.N) : Fin cfg7.N := ⟨t.val - 1, Nat.lt_of_le_of_lt (Nat.sub_le _ _) t.isLt⟩

set_option maxHeartbeats 2000000 in
/-- At a point of the second step the output block is the residual layer's payload of the row's blocks and of the
    accumulator, which is the second step's product added to the first step's product added to the zero block. -/
theorem outAt7_last (c : Dev nD) (t : Fin cfg7.N) (hl : t.val % 2 = 1) :
    (outsAt7 V c t.val t.isLt).1
      = k7_pay3 (iblk7 V c 2 t) (k7_pay2 (iblk7 V c 1 t) (k7_pay2 (iblk7 V c 1 (prevPt7 t)) (k7_pay1 (F := F)) (iblk7 V c 0 (prevPt7 t))) (iblk7 V c 0 t))
          (iblk7 V c 3 t) (iblk7 V c 4 t) := by
  have hz : ¬t.val % 2 = 0 := by omega
  have hzp : (prevPt7 t).val % 2 = 0 := by show (t.val - 1) % 2 = 0; omega
  have hlp : ¬(prevPt7 t).val % 2 = 1 := by show ¬(t.val - 1) % 2 = 1; omega
  have hprev : (outsAt7 V c (t.val - 1) (Nat.lt_of_le_of_lt (Nat.sub_le _ _) t.isLt)).2
      = k7_pay2 (iblk7 V c 1 (prevPt7 t)) (k7_pay1 (F := F)) (iblk7 V c 0 (prevPt7 t)) :=
    (congrArg Prod.snd (outsAt7_A V c (prevPt7 t) hzp hlp)).trans
      (sout7_A_0_eq c (grid7.coords (prevPt7 t)) (ms7_0 (prevPt7 t)) (hs7_0 (prevPt7 t)) (ms7_1 (prevPt7 t)) (hs7_1 (prevPt7 t)) (ms7_2 (prevPt7 t)) (hs7_2 (prevPt7 t)) (ms7_3 (prevPt7 t)) (hs7_3 (prevPt7 t)) (ms7_4 (prevPt7 t)) (hs7_4 (prevPt7 t)) (ms7_5 (prevPt7 t)) (hs7_5 (prevPt7 t)) scM7_0 (Memref.isWhole_whole _) ((hcond7_0 (prevPt7 t)).mpr hzp) (fun h => hlp ((hcond7_1 (prevPt7 t)).mp h)) (iblk7 V c 0 (prevPt7 t)) (iblk7 V c 1 (prevPt7 t)) (iblk7 V c 2 (prevPt7 t)) (iblk7 V c 3 (prevPt7 t)) (iblk7 V c 4 (prevPt7 t)))
  refine (congrArg Prod.fst (outsAt7_C V c t hz hl)).trans ?_
  refine (out7_C_5_eq c (grid7.coords t) (ms7_0 t) (hs7_0 t) (ms7_1 t) (hs7_1 t) (ms7_2 t) (hs7_2 t) (ms7_3 t) (hs7_3 t) (ms7_4 t) (hs7_4 t) (ms7_5 t) (hs7_5 t) scM7_0 (Memref.isWhole_whole _) (fun h => hz ((hcond7_0 t).mp h)) ((hcond7_1 t).mpr hl) (iblk7 V c 0 t) (iblk7 V c 1 t) (iblk7 V c 2 t) (iblk7 V c 3 t) (iblk7 V c 4 t)
    (outsAt7 V c (t.val - 1) (Nat.lt_of_le_of_lt (Nat.sub_le _ _) t.isLt)).2).trans ?_
  rw [hprev]

end AnyValues

/-! ## On the extended reals -/

section AtIdeal
variable (V : (c : Dev nD) → (b : Ref sig .tc) → Buf (Elt Ideal) ((c : Thread nD τ).loc b))

/-- Window 0's block at point `t`, at (y, z), is its array at the block's offset plus (y, z). -/
theorem iblk7_0_apply (c : Dev nD) (t : Fin cfg7.N) (y : Fin 1024) (z : Fin 4096) (Y : Fin 4096) (Z : Fin 8192)
    (hY : win7_0.index t (0 : Fin 2) * 1024 + 1 * y.val = Y.val) (hZ : win7_0.index t (1 : Fin 2) * 4096 + 1 * z.val = Z.val) :
    ((iblk7 V c 0 t : FVec Ideal S1024x4096 .bf16) (ix2 y z) : EReal) = (V c main_v24 : Cert.Spec.Arr2 4096 8192) (ix2 Y Z) := by
  unfold iblk7
  rw [View.read_apply]
  show V c main_v24 _ = V c main_v24 _
  refine congrArg (V c main_v24) (funext fun a => Fin.ext ?_)
  match a with
  | ⟨0, _⟩ => exact hY
  | ⟨1, _⟩ => exact hZ

/-- Window 1's block at point `t`, at (y, z), is its array at the block's offset plus (y, z). -/
theorem iblk7_1_apply (c : Dev nD) (t : Fin cfg7.N) (y : Fin 4096) (z : Fin 128) (Y : Fin 8192) (Z : Fin 128)
    (hY : win7_1.index t (0 : Fin 2) * 4096 + 1 * y.val = Y.val) (hZ : win7_1.index t (1 : Fin 2) * 128 + 1 * z.val = Z.val) :
    ((iblk7 V c 1 t : FVec Ideal S4096x128 .f32) (ix2 y z) : EReal) = (V c main_v48 : Cert.Spec.Arr2 8192 128) (ix2 Y Z) := by
  unfold iblk7
  rw [View.read_apply]
  show V c main_v48 _ = V c main_v48 _
  refine congrArg (V c main_v48) (funext fun a => Fin.ext ?_)
  match a with
  | ⟨0, _⟩ => exact hY
  | ⟨1, _⟩ => exact hZ

/-- Window 2's block at point `t`, at (y, z), is its array at the block's offset plus (y, z). -/
theorem iblk7_2_apply (c : Dev nD) (t : Fin cfg7.N) (y : Fin 1024) (z : Fin 128) (Y : Fin 4096) (Z : Fin 128)
    (hY : win7_2.index t (0 : Fin 2) * 1024 + 1 * y.val = Y.val) (hZ : win7_2.index t (1 : Fin 2) * 128 + 1 * z.val = Z.val) :
    ((iblk7 V c 2 t : FVec Ideal S1024x128 .f32) (ix2 y z) : EReal) = (V c main_v47 : Cert.Spec.Arr2 4096 128) (ix2 Y Z) := by
  unfold iblk7
  rw [View.read_apply]
  show V c main_v47 _ = V c main_v47 _
  refine congrArg (V c main_v47) (funext fun a => Fin.ext ?_)
  match a with
  | ⟨0, _⟩ => exact hY
  | ⟨1, _⟩ => exact hZ

/-- Window 3's block at point `t`, at (y, z), is its array at the block's offset plus (y, z). -/
theorem iblk7_3_apply (c : Dev nD) (t : Fin cfg7.N) (y : Fin 128) (z : Fin 128) (Y : Fin 128) (Z : Fin 128)
    (hY : win7_3.index t (0 : Fin 2) * 128 + 1 * y.val = Y.val) (hZ : win7_3.index t (1 : Fin 2) * 128 + 1 * z.val = Z.val) :
    ((iblk7 V c 3 t : FVec Ideal S128x128 .f32) (ix2 y z) : EReal) = (V c main_v50 : Cert.Spec.Arr2 128 128) (ix2 Y Z) := by
  unfold iblk7
  rw [View.read_apply]
  show V c main_v50 _ = V c main_v50 _
  refine congrArg (V c main_v50) (funext fun a => Fin.ext ?_)
  match a with
  | ⟨0, _⟩ => exact hY
  | ⟨1, _⟩ => exact hZ

/-- Window 4's block at point `t`, at (y, z), is its array at the block's offset plus (y, z). -/
theorem iblk7_4_apply (c : Dev nD) (t : Fin cfg7.N) (y : Fin 1) (z : Fin 128) (Y : Fin 1) (Z : Fin 128)
    (hY : win7_4.index t (0 : Fin 2) * 1 + 1 * y.val = Y.val) (hZ : win7_4.index t (1 : Fin 2) * 128 + 1 * z.val = Z.val) :
    ((iblk7 V c 4 t : FVec Ideal S1x128 .f32) (ix2 y z) : EReal) = (V c main_v53 : Cert.Spec.Arr2 1 128) (ix2 Y Z) := by
  unfold iblk7
  rw [View.read_apply]
  show V c main_v53 _ = V c main_v53 _
  refine congrArg (V c main_v53) (funext fun a => Fin.ext ?_)
  match a with
  | ⟨0, _⟩ => exact hY
  | ⟨1, _⟩ => exact hZ

/-- The printed index maps at a point of the second step, decided over the grid: the output, the node features and
    the incidence block sit in block row t / 2, the incidence block and the edge update in the upper half of the edges;
    the weights and the bias do not move. -/
theorem idx_last7 : ∀ t : Fin cfg7.N, t.val % 2 = 1 →
    win7_5.index t (0 : Fin 2) = t.val / 2 ∧ win7_5.index t (1 : Fin 2) = 0
    ∧ win7_2.index t (0 : Fin 2) = t.val / 2 ∧ win7_2.index t (1 : Fin 2) = 0
    ∧ win7_0.index t (0 : Fin 2) = t.val / 2 ∧ win7_0.index t (1 : Fin 2) = 1
    ∧ win7_1.index t (0 : Fin 2) = 1 ∧ win7_1.index t (1 : Fin 2) = 0
    ∧ win7_3.index t (0 : Fin 2) = 0 ∧ win7_3.index t (1 : Fin 2) = 0
    ∧ win7_4.index t (0 : Fin 2) = 0 ∧ win7_4.index t (1 : Fin 2) = 0 :=
  (by decide +kernel : ∀ t : Fin grid7.N, t.val % 2 = 1 → _)

/-- At a point of the first step: the incidence block in block row t / 2 and the lower half of the edges, the edge
    update in the lower half. -/
theorem idx_first7 : ∀ t : Fin cfg7.N, t.val % 2 = 0 →
    win7_0.index t (0 : Fin 2) = t.val / 2 ∧ win7_0.index t (1 : Fin 2) = 0
    ∧ win7_1.index t (0 : Fin 2) = 0 ∧ win7_1.index t (1 : Fin 2) = 0 :=
  (by decide +kernel : ∀ t : Fin grid7.N, t.val % 2 = 0 → _)

/-- The layer as one function of the arrays the region finds. -/
abbrev layerOf7 (c : Dev nD) : Cert.Spec.Arr2 4096 128 :=
  Cert.Spec.nodeLayerT (V c main_v50) (V c main_v53) (Cert.Spec.nodeRes (V c main_v24) (V c main_v47) (V c main_v48))

/-- What a point of the second step writes back is its block of the layer. -/
theorem flushed7_5_eq (c : Dev nD) (hreal : Cert.Spec.AllReal (V c main_v48 : Cert.Spec.Arr2 8192 128)) (t : Fin cfg7.N)
    (hf : (cfg7.win 5).flush t = true) :
    (dat7 (F := Ideal) V c).flushed 5 t = ((cfg7.win 5).blk t).view.read (Elt Ideal) (layerOf7 V c) := by
  have hl : t.val % 2 = 1 := (flush7_5 t).mp hf
  have hN : t.val < 8 := lt_of_lt_of_eq t.isLt (show cfg7.N = 8 from N_7)
  have hzp : (prevPt7 t).val % 2 = 0 := by show (t.val - 1) % 2 = 0; omega
  have hpv : (prevPt7 t).val = t.val - 1 := rfl
  obtain ⟨o0, o1, h0, h1, a0, a1, x0, x1, w0, w1, b0, b1⟩ := idx_last7 t hl
  obtain ⟨pa0, pa1, px0, px1⟩ := idx_first7 (prevPt7 t) hzp
  show (cfg7.win 5).cut (grid7.coords t) ((dat7 V c).after 5 t) = _
  rw [after7_5, outAt7_last V c t hl]
  funext j
  obtain ⟨p, q, rfl⟩ : ∃ (p : Fin 1024) (q : Fin 128), j = ix2 p q := ⟨j 0, j 1, eq_ix2 j⟩
  have hp : p.val < 1024 := p.isLt
  have hq : q.val < 128 := q.isLt
  have hemb : ((cfg7.win 5).blk t).view.emb (ix2 p q) = ix2 (⟨(⟨t.val / 2, by omega⟩ : Fin 4).val * 1024 + p.val, by show t.val / 2 * 1024 + p.val < 4096; omega⟩ : Fin 4096) q := by
    funext a; apply Fin.ext
    match a with
    | ⟨0, _⟩ => show win7_5.index t (0 : Fin 2) * 1024 + 1 * p.val = t.val / 2 * 1024 + p.val; rw [o0]; omega
    | ⟨1, _⟩ => show win7_5.index t (1 : Fin 2) * 128 + 1 * q.val = q.val; rw [o1]; omega
  rw [View.read_apply, hemb]
  exact layerBlock7_apply (V c main_v24) (V c main_v47) (V c main_v48) (V c main_v50) (V c main_v53) hreal ⟨t.val / 2, by omega⟩
    (iblk7 V c 0 (prevPt7 t)) (iblk7 V c 0 t) (iblk7 V c 1 (prevPt7 t)) (iblk7 V c 1 t) (iblk7 V c 2 t) (iblk7 V c 3 t) (iblk7 V c 4 t)
    (fun y e => iblk7_0_apply V c (prevPt7 t) y e _ _ (by show _ = t.val / 2 * 1024 + y.val; rw [pa0, hpv]; omega) (by show _ = e.val; rw [pa1]; omega))
    (fun y e => iblk7_0_apply V c t y e _ _ (by show _ = t.val / 2 * 1024 + y.val; rw [a0]; omega) (by show _ = 4096 + e.val; rw [a1]; omega))
    (fun e k => iblk7_1_apply V c (prevPt7 t) e k _ _ (by show _ = e.val; rw [px0]; omega) (by show _ = k.val; rw [px1]; omega))
    (fun e k => iblk7_1_apply V c t e k _ _ (by show _ = 4096 + e.val; rw [x0]; omega) (by show _ = k.val; rw [x1]; omega))
    (fun y k => iblk7_2_apply V c t y k _ _ (by show _ = t.val / 2 * 1024 + y.val; rw [h0]; omega) (by show _ = k.val; rw [h1]; omega))
    (fun k z => iblk7_3_apply V c t k z _ _ (by show _ = k.val; rw [w0]; omega) (by show _ = z.val; rw [w1]; omega))
    (fun z => iblk7_4_apply V c t (0 : Fin 1) z _ _ (by show _ = (0 : Fin 1).val; rw [b0]; rfl) (by show _ = z.val; rw [b1]; omega))
    p q

/-- An index of the output array is in point `t`'s block iff each coordinate is in the block's range on its axis. -/
theorem mem_blk7_5 (t : Fin cfg7.N) (i : S4096x128.Idx) :
    i ∈ ((cfg7.win 5).blk t).view.set ↔ ∀ a : Fin 2, win7_5.index t a * S1024x128.size a ≤ (i a).val ∧ (i a).val < win7_5.index t a * S1024x128.size a + S1024x128.size a := by
  show i ∈ ((View.whole main_v54).slice (win7_5.rect t)).set ↔ _
  rw [View.set_slice_whole, Rect.mem_set_unit]
  exact Iff.rfl

/-- Every index of the output array is in the block some second-step point writes back: row r is in block row r / 1024. -/
theorem cover7_5 (i : S4096x128.Idx) : ∃ t : Fin cfg7.N, (cfg7.win 5).flush t = true ∧ i ∈ ((cfg7.win 5).blk t).view.set := by
  have hi0 : (i 0).val < 4096 := (i 0).isLt
  have hi1 : (i 1).val < 128 := (i 1).isLt
  have hN : cfg7.N = 8 := N_7
  have hlt : 2 * ((i 0).val / 1024) + 1 < cfg7.N := by rw [hN]; omega
  have hval : (⟨2 * ((i 0).val / 1024) + 1, hlt⟩ : Fin cfg7.N).val = 2 * ((i 0).val / 1024) + 1 := rfl
  have hodd : (⟨2 * ((i 0).val / 1024) + 1, hlt⟩ : Fin cfg7.N).val % 2 = 1 := by rw [hval]; omega
  obtain ⟨o0, o1, -⟩ := idx_last7 ⟨2 * ((i 0).val / 1024) + 1, hlt⟩ hodd
  refine ⟨⟨2 * ((i 0).val / 1024) + 1, hlt⟩, (flush7_5 _).mpr hodd, ?_⟩
  rw [mem_blk7_5]
  intro a
  match a with
  | ⟨0, _⟩ =>
    show win7_5.index ⟨2 * ((i 0).val / 1024) + 1, hlt⟩ (0 : Fin 2) * 1024 ≤ (i 0).val ∧ (i 0).val < win7_5.index ⟨2 * ((i 0).val / 1024) + 1, hlt⟩ (0 : Fin 2) * 1024 + 1024
    rw [o0, hval]; omega
  | ⟨1, _⟩ =>
    show win7_5.index ⟨2 * ((i 0).val / 1024) + 1, hlt⟩ (1 : Fin 2) * 128 ≤ (i 1).val ∧ (i 1).val < win7_5.index ⟨2 * ((i 0).val / 1024) + 1, hlt⟩ (1 : Fin 2) * 128 + 128
    rw [o1]; omega

/-- THE VALUE of region 7: after the region the output array is the residual layer of the node residual of the arrays the
    region finds, when every entry of the edge update is real. -/
theorem final7 (c : Dev nD) (hreal : Cert.Spec.AllReal (V c main_v48 : Cert.Spec.Arr2 8192 128)) :
    (dat7 (F := Ideal) V c).arrAt 5 cfg7.N
      = Cert.Spec.nodeLayerT (V c main_v50) (V c main_v53) (Cert.Spec.nodeRes (V c main_v24) (V c main_v47) (V c main_v48)) :=
  (dat7 (F := Ideal) V c).arrAt_eq_of_cover 5 (layerOf7 V c) (fun t hf => flushed7_5_eq V c hreal t hf) (fun i => cover7_5 i)

end AtIdeal

end Cert.KernelIdeal.Hand

end
-- ==== Proof.KI.Val8Pieces.lean ====
/-
  Region 8: what the pieces found by the two runs of the body are, as the kernel's payloads of the blocks. At an even
  point each accumulator is left at its accumulation step over the zero block; at an odd point at its accumulation step
  over what it held, and the output's buffer at three column blocks side by side: the two new accumulators and the
  edge-feature block.
-/
import proofs.«181597_j77979426226450_2_alg».proof.Proof.KI.Reg8
import Idealize.ShloMosaic.Lib.Pipeline.Value
import Idealize.ShloMosaic.Lib.ValueIdx
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL.Sem
open Idealize.ShloMosaic.Pipeline (Dat Cfg Window cellOf)
open Idealize.ShloMosaic.ValueIdx

variable {F : FTy → Type} [FloatOps F]

theorem hz8 : (![0, 0] : Fin 2 → Nat) = fun _ => 0 := funext fun a => by fin_cases a <;> rfl

/-- At an even point the first accumulator is left at its accumulation step over the zero block. -/
theorem sout8_A_0_eq (c : Dev nD) (i : grid8.Coords) (arg2 : Memref sig .tc .vmem S2048x1024 .bf16) (harg2 : arg2.IsWhole) (arg3 : Memref sig .tc .vmem S2048x1024 .bf16) (harg3 : arg3.IsWhole) (arg4 : Memref sig .tc .vmem S2048x128 .f32) (harg4 : arg4.IsWhole) (arg5 : Memref sig .tc .vmem S1024x128 .f32) (harg5 : arg5.IsWhole) (arg6 : Memref sig .tc .vmem S1024x384 .f32) (harg6 : arg6.IsWhole) (argS0 : Memref sig .tc .vmem S1024x128 .f32) (hargS0 : argS0.IsWhole) (argS1 : Memref sig .tc .vmem S1024x128 .f32) (hargS1 : argS1.IsWhole) (hc0 : cond8_0 i) (hc1 : ¬cond8_1 i)
    (x0 : Vec F S2048x1024 .bf16) (x1 : Vec F S2048x1024 .bf16) (x2 : Vec F S2048x128 .f32) (x3 : Vec F S1024x128 .f32) :
    sout8_A_0 c i arg2 harg2 arg3 harg3 arg4 harg4 arg5 harg5 arg6 harg6 argS0 hargS0 argS1 hargS1 hc0 hc1 x0 x1 x2 x3 = k8_pay6 x2 (k8_pay1 (F := F)) x0 := by
  unfold sout8_A_0
  rw [View.read_writes_eq_canon _ _ _ (scover8_A_0 c i arg2 harg2 arg3 harg3 arg4 harg4 arg5 harg5 arg6 harg6 argS0 hargS0 argS1 hargS1 hc0 hc1 x0 x1 x2 x3)]
  unfold kernelRun8_A
  dsimp only
  sl_unfold_words
  rw [View.canon_cons_unit_zero (S := S1024x128) hz8, View.readCov_unit_zero (S := S1024x128) _ hz8]
  simp only [View.readAt_eq_ld, harg2.read_unread, harg3.read_unread, harg4.read_unread, harg5.read_unread, hargS0.read_unread, hargS1.read_unread, View.ld_unit_zero (S := S2048x128) hz8, View.ld_unit_zero (S := S2048x1024) hz8, View.ld_unit_zero (S := S1024x128) hz8]

/-- At an even point the second accumulator is left at its accumulation step over the zero block. -/
theorem sout8_A_1_eq (c : Dev nD) (i : grid8.Coords) (arg2 : Memref sig .tc .vmem S2048x1024 .bf16) (harg2 : arg2.IsWhole) (arg3 : Memref sig .tc .vmem S2048x1024 .bf16) (harg3 : arg3.IsWhole) (arg4 : Memref sig .tc .vmem S2048x128 .f32) (harg4 : arg4.IsWhole) (arg5 : Memref sig .tc .vmem S1024x128 .f32) (harg5 : arg5.IsWhole) (arg6 : Memref sig .tc .vmem S1024x384 .f32) (harg6 : arg6.IsWhole) (argS0 : Memref sig .tc .vmem S1024x128 .f32) (hargS0 : argS0.IsWhole) (argS1 : Memref sig .tc .vmem S1024x128 .f32) (hargS1 : argS1.IsWhole) (hc0 : cond8_0 i) (hc1 : ¬cond8_1 i)
    (x0 : Vec F S2048x1024 .bf16) (x1 : Vec F S2048x1024 .bf16) (x2 : Vec F S2048x128 .f32) (x3 : Vec F S1024x128 .f32) :
    sout8_A_1 c i arg2 harg2 arg3 harg3 arg4 harg4 arg5 harg5 arg6 harg6 argS0 hargS0 argS1 hargS1 hc0 hc1 x0 x1 x2 x3 = k8_pay7 x2 (k8_pay2 (F := F)) x1 := by
  unfold sout8_A_1
  rw [View.read_writes_eq_canon _ _ _ (scover8_A_1 c i arg2 harg2 arg3 harg3 arg4 harg4 arg5 harg5 arg6 harg6 argS0 hargS0 argS1 hargS1 hc0 hc1 x0 x1 x2 x3)]
  unfold kernelRun8_A
  dsimp only
  sl_unfold_words
  rw [View.canon_cons_unit_zero (S := S1024x128) hz8, View.readCov_unit_zero (S := S1024x128) _ hz8]
  simp only [View.readAt_eq_ld, harg2.read_unread, harg3.read_unread, harg4.read_unread, harg5.read_unread, hargS0.read_unread, hargS1.read_unread, View.ld_unit_zero (S := S2048x128) hz8, View.ld_unit_zero (S := S2048x1024) hz8, View.ld_unit_zero (S := S1024x128) hz8]

/-- At an odd point the first accumulator is left at its accumulation step over what it held. -/
theorem sout8_C_0_eq (c : Dev nD) (i : grid8.Coords) (arg2 : Memref sig .tc .vmem S2048x1024 .bf16) (harg2 : arg2.IsWhole) (arg3 : Memref sig .tc .vmem S2048x1024 .bf16) (harg3 : arg3.IsWhole) (arg4 : Memref sig .tc .vmem S2048x128 .f32) (harg4 : arg4.IsWhole) (arg5 : Memref sig .tc .vmem S1024x128 .f32) (harg5 : arg5.IsWhole) (arg6 : Memref sig .tc .vmem S1024x384 .f32) (harg6 : arg6.IsWhole) (argS0 : Memref sig .tc .vmem S1024x128 .f32) (hargS0 : argS0.IsWhole) (argS1 : Memref sig .tc .vmem S1024x128 .f32) (hargS1 : argS1.IsWhole) (hc0 : ¬cond8_0 i) (hc1 : cond8_1 i)
    (x0 : Vec F S2048x1024 .bf16) (x1 : Vec F S2048x1024 .bf16) (x2 : Vec F S2048x128 .f32) (x3 : Vec F S1024x128 .f32) (xs0 : Vec F S1024x128 .f32) (xs1 : Vec F S1024x128 .f32) :
    sout8_C_0 c i arg2 harg2 arg3 harg3 arg4 harg4 arg5 harg5 arg6 harg6 argS0 hargS0 argS1 hargS1 hc0 hc1 x0 x1 x2 x3 xs0 xs1 = k8_pay6 x2 xs0 x0 := by
  unfold sout8_C_0
  rw [View.read_writes_eq_canon _ _ _ (scover8_C_0 c i arg2 harg2 arg3 harg3 arg4 harg4 arg5 harg5 arg6 harg6 argS0 hargS0 argS1 hargS1 hc0 hc1 x0 x1 x2 x3 xs0 xs1)]
  unfold kernelRun8_C
  dsimp only
  sl_unfold_words
  rw [View.canon_unit_zero hz8]
  simp only [View.readAt_eq_ld, harg2.read_unread, harg3.read_unread, harg4.read_unread, harg5.read_unread, hargS0.read_unread, hargS1.read_unread, View.ld_unit_zero (S := S2048x128) hz8, View.ld_unit_zero (S := S2048x1024) hz8, View.ld_unit_zero (S := S1024x128) hz8]

/-- At an odd point the second accumulator is left at its accumulation step over what it held. -/
theorem sout8_C_1_eq (c : Dev nD) (i : grid8.Coords) (arg2 : Memref sig .tc .vmem S2048x1024 .bf16) (harg2 : arg2.IsWhole) (arg3 : Memref sig .tc .vmem S2048x1024 .bf16) (harg3 : arg3.IsWhole) (arg4 : Memref sig .tc .vmem S2048x128 .f32) (harg4 : arg4.IsWhole) (arg5 : Memref sig .tc .vmem S1024x128 .f32) (harg5 : arg5.IsWhole) (arg6 : Memref sig .tc .vmem S1024x384 .f32) (harg6 : arg6.IsWhole) (argS0 : Memref sig .tc .vmem S1024x128 .f32) (hargS0 : argS0.IsWhole) (argS1 : Memref sig .tc .vmem S1024x128 .f32) (hargS1 : argS1.IsWhole) (hc0 : ¬cond8_0 i) (hc1 : cond8_1 i)
    (x0 : Vec F S2048x1024 .bf16) (x1 : Vec F S2048x1024 .bf16) (x2 : Vec F S2048x128 .f32) (x3 : Vec F S1024x128 .f32) (xs0 : Vec F S1024x128 .f32) (xs1 : Vec F S1024x128 .f32) :
    sout8_C_1 c i arg2 harg2 arg3 harg3 arg4 harg4 arg5 harg5 arg6 harg6 argS0 hargS0 argS1 hargS1 hc0 hc1 x0 x1 x2 x3 xs0 xs1 = k8_pay7 x2 xs1 x1 := by
  unfold sout8_C_1
  rw [View.read_writes_eq_canon _ _ _ (scover8_C_1 c i arg2 harg2 arg3 harg3 arg4 harg4 arg5 harg5 arg6 harg6 argS0 hargS0 argS1 hargS1 hc0 hc1 x0 x1 x2 x3 xs0 xs1)]
  unfold kernelRun8_C
  dsimp only
  sl_unfold_words
  rw [View.canon_unit_zero hz8]
  simp only [View.readAt_eq_ld, harg2.read_unread, harg3.read_unread, harg4.read_unread, harg5.read_unread, hargS0.read_unread, hargS1.read_unread, View.ld_unit_zero (S := S2048x128) hz8, View.ld_unit_zero (S := S2048x1024) hz8, View.ld_unit_zero (S := S1024x128) hz8]

/-! ## The output block: three column blocks side by side -/

/-- Three blocks of 1024x128 side by side, as one block of 1024x384. -/
def cols8 (P0 P1 P2 : Vec F S1024x128 .f32) : Vec F S1024x384 .f32 := fun y =>
  have hlt : (y 1).val < 384 := (y 1).isLt
  if h : (y 1).val < 128 then P0 (ix2 (y 0 : Fin 1024) ⟨(y 1).val, h⟩)
  else if h' : (y 1).val < 256 then P1 (ix2 (y 0 : Fin 1024) ⟨(y 1).val - 128, by omega⟩)
  else P2 (ix2 (y 0 : Fin 1024) ⟨(y 1).val - 256, by omega⟩)

/-- In columns 0 to 127 it is the first block; -/
theorem cols8_at0 (P0 P1 P2 : Vec F S1024x128 .f32) (x : S1024x128.Idx) (y : S1024x384.Idx)
    (h0 : (y 0).val = (x 0).val) (h1 : (y 1).val = (x 1).val) : cols8 P0 P1 P2 y = P0 x := by
  have hx : (x 1).val < 128 := (x 1).isLt
  unfold cols8
  rw [dif_pos (by omega)]
  exact congrArg P0 (funext fun a => match a with | ⟨0, _⟩ => Fin.ext h0 | ⟨1, _⟩ => Fin.ext h1)

/-- in columns 128 to 255 the second; -/
theorem cols8_at1 (P0 P1 P2 : Vec F S1024x128 .f32) (x : S1024x128.Idx) (y : S1024x384.Idx)
    (h0 : (y 0).val = (x 0).val) (h1 : (y 1).val = 128 + (x 1).val) : cols8 P0 P1 P2 y = P1 x := by
  have hx : (x 1).val < 128 := (x 1).isLt
  unfold cols8
  rw [dif_neg (by omega), dif_pos (by omega)]
  exact congrArg P1 (funext fun a => match a with | ⟨0, _⟩ => Fin.ext h0 | ⟨1, _⟩ => Fin.ext (by show (y 1).val - 128 = (x 1).val; omega))

/-- in columns 256 to 383 the third. -/
theorem cols8_at2 (P0 P1 P2 : Vec F S1024x128 .f32) (x : S1024x128.Idx) (y : S1024x384.Idx)
    (h0 : (y 0).val = (x 0).val) (h1 : (y 1).val = 256 + (x 1).val) : cols8 P0 P1 P2 y = P2 x := by
  have hx : (x 1).val < 128 := (x 1).isLt
  unfold cols8
  rw [dif_neg (by omega), dif_neg (by omega)]
  exact congrArg P2 (funext fun a => match a with | ⟨0, _⟩ => Fin.ext h0 | ⟨1, _⟩ => Fin.ext (by show (y 1).val - 256 = (x 1).val; omega))

/-- At an odd point the output's buffer is left at the two new accumulators and the edge-feature block, side by side:
    each of the three stores writes one column block, and the three tile the buffer. -/
theorem out8_C_4_eq (c : Dev nD) (i : grid8.Coords) (arg2 : Memref sig .tc .vmem S2048x1024 .bf16) (harg2 : arg2.IsWhole) (arg3 : Memref sig .tc .vmem S2048x1024 .bf16) (harg3 : arg3.IsWhole) (arg4 : Memref sig .tc .vmem S2048x128 .f32) (harg4 : arg4.IsWhole) (arg5 : Memref sig .tc .vmem S1024x128 .f32) (harg5 : arg5.IsWhole) (arg6 : Memref sig .tc .vmem S1024x384 .f32) (harg6 : arg6.IsWhole) (argS0 : Memref sig .tc .vmem S1024x128 .f32) (hargS0 : argS0.IsWhole) (argS1 : Memref sig .tc .vmem S1024x128 .f32) (hargS1 : argS1.IsWhole) (hc0 : ¬cond8_0 i) (hc1 : cond8_1 i)
    (x0 : Vec F S2048x1024 .bf16) (x1 : Vec F S2048x1024 .bf16) (x2 : Vec F S2048x128 .f32) (x3 : Vec F S1024x128 .f32) (xs0 : Vec F S1024x128 .f32) (xs1 : Vec F S1024x128 .f32) :
    out8_C_4 c i arg2 harg2 arg3 harg3 arg4 harg4 arg5 harg5 arg6 harg6 argS0 hargS0 argS1 hargS1 hc0 hc1 x0 x1 x2 x3 xs0 xs1 = cols8 (k8_pay6 x2 xs0 x0) (k8_pay7 x2 xs1 x1) (k8_pay8 x3) := by
  unfold out8_C_4
  rw [View.read_writes_eq_canon _ _ _ (cover8_C_4 c i arg2 harg2 arg3 harg3 arg4 harg4 arg5 harg5 arg6 harg6 argS0 hargS0 argS1 hargS1 hc0 hc1 x0 x1 x2 x3 xs0 xs1)]
  unfold kernelRun8_C
  dsimp only
  sl_unfold_words
  rw [View.readCov_unit_zero (S := S1024x128) _ hz8, View.readCov_unit_zero (S := S1024x128) _ hz8]
  simp only [View.readAt_eq_ld, harg2.read_unread, harg3.read_unread, harg4.read_unread, harg5.read_unread, hargS0.read_unread, hargS1.read_unread, View.ld_unit_zero (S := S2048x128) hz8, View.ld_unit_zero (S := S2048x1024) hz8, View.ld_unit_zero (S := S1024x128) hz8]
  funext y
  refine View.canon_apply_of_pieces (cols8 (k8_pay6 x2 xs0 x0) (k8_pay7 x2 xs1 x1) (k8_pay8 x3)) _ ?_ y
    (View.cover_of_tiledL (s := S1024x384) _ S1024x128.size (by sl_kernel_rfl) y)
  intro p hp
  simp only [List.mem_cons, List.mem_nil_iff, or_false] at hp
  rcases hp with rfl | rfl | rfl
  · intro x
    exact (cols8_at2 _ _ _ x _ (by show 0 + 1 * (x 0).val = (x 0).val; omega) (by show 256 + 1 * (x 1).val = 256 + (x 1).val; omega)).symm
  · intro x
    exact (cols8_at1 _ _ _ x _ (by show 0 + 1 * (x 0).val = (x 0).val; omega) (by show 128 + 1 * (x 1).val = 128 + (x 1).val; omega)).symm
  · intro x
    exact (cols8_at0 _ _ _ x _ (by show 0 + 1 * (x 0).val = (x 0).val; omega) (by show 0 + 1 * (x 1).val = (x 1).val; omega)).symm

end Cert.KernelIdeal.Hand

end
-- ==== Proof.KI.Val8Points.lean ====
/-
  Region 8 on the extended reals, point by point: at an even point each accumulator holds its accumulation step over the
  zero block; at an odd point the output's buffer holds, side by side, the two accumulators after this point's step over
  what the point before left, and the edge-feature block.
-/
import proofs.«181597_j77979426226450_2_alg».proof.Proof.KI.Val8Pieces

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL.Sem
open Idealize.ShloMosaic.Pipeline (Dat Cfg Window cellOf)
open Idealize.ShloMosaic.ValueIdx

variable (V : (c : Dev nD) → (b : Ref sig .tc) → Buf (Elt Ideal) ((c : Thread nD τ).loc b))

set_option maxHeartbeats 1600000 in
/-- At an even point each accumulator holds its accumulation step over the zero block. -/
theorem accAt8_even (c : Dev nD) (t : Fin cfg8.N) (h0 : t.val % 2 = 0) :
    (outsAt8 V c t.val t.isLt).2.1 = k8_pay6 (F := Ideal) (iblk8 V c 2 t) (k8_pay1 (F := Ideal)) (iblk8 V c 0 t)
    ∧ (outsAt8 V c t.val t.isLt).2.2 = k8_pay7 (F := Ideal) (iblk8 V c 2 t) (k8_pay2 (F := Ideal)) (iblk8 V c 1 t) := by
  have h1 : ¬ t.val % 2 = 1 := by omega
  rw [outsAt8_A V c t h0 h1]
  dsimp only
  exact ⟨sout8_A_0_eq (F := Ideal) c (grid8.coords t) (ms8_0 t) (hs8_0 t) (ms8_1 t) (hs8_1 t) (ms8_2 t) (hs8_2 t) (ms8_3 t) (hs8_3 t) (ms8_4 t) (hs8_4 t) scM8_0 (Memref.isWhole_whole _) scM8_1 (Memref.isWhole_whole _) ((hcond8_0 t).mpr h0) (fun h => h1 ((hcond8_1 t).mp h)) (iblk8 V c 0 t) (iblk8 V c 1 t) (iblk8 V c 2 t) (iblk8 V c 3 t),
    sout8_A_1_eq (F := Ideal) c (grid8.coords t) (ms8_0 t) (hs8_0 t) (ms8_1 t) (hs8_1 t) (ms8_2 t) (hs8_2 t) (ms8_3 t) (hs8_3 t) (ms8_4 t) (hs8_4 t) scM8_0 (Memref.isWhole_whole _) scM8_1 (Memref.isWhole_whole _) ((hcond8_0 t).mpr h0) (fun h => h1 ((hcond8_1 t).mp h)) (iblk8 V c 0 t) (iblk8 V c 1 t) (iblk8 V c 2 t) (iblk8 V c 3 t)⟩

set_option maxHeartbeats 1600000 in
/-- At an odd point the output's buffer holds, side by side, the two accumulators after this point's step over what the
    point before left, and the edge-feature block. -/
theorem outAt8_odd (c : Dev nD) (t : Fin cfg8.N) (h1 : t.val % 2 = 1) :
    (outsAt8 V c t.val t.isLt).1
      = cols8 (k8_pay6 (F := Ideal) (iblk8 V c 2 t) (outsAt8 V c (t.val - 1) (Nat.lt_of_le_of_lt (Nat.sub_le _ _) t.isLt)).2.1 (iblk8 V c 0 t))
          (k8_pay7 (F := Ideal) (iblk8 V c 2 t) (outsAt8 V c (t.val - 1) (Nat.lt_of_le_of_lt (Nat.sub_le _ _) t.isLt)).2.2 (iblk8 V c 1 t))
          (k8_pay8 (F := Ideal) (iblk8 V c 3 t)) := by
  have h0 : ¬ t.val % 2 = 0 := by omega
  rw [outsAt8_C V c t h0 h1]
  dsimp only
  exact out8_C_4_eq (F := Ideal) c (grid8.coords t) (ms8_0 t) (hs8_0 t) (ms8_1 t) (hs8_1 t) (ms8_2 t) (hs8_2 t) (ms8_3 t) (hs8_3 t) (ms8_4 t) (hs8_4 t) scM8_0 (Memref.isWhole_whole _) scM8_1 (Memref.isWhole_whole _) (fun h => h0 ((hcond8_0 t).mp h)) ((hcond8_1 t).mpr h1) (iblk8 V c 0 t) (iblk8 V c 1 t) (iblk8 V c 2 t) (iblk8 V c 3 t) (outsAt8 V c (t.val - 1) (Nat.lt_of_le_of_lt (Nat.sub_le _ _) t.isLt)).2.1 (outsAt8 V c (t.val - 1) (Nat.lt_of_le_of_lt (Nat.sub_le _ _) t.isLt)).2.2

end Cert.KernelIdeal.Hand

end
-- ==== Proof.KI.Val8Blocks.lean ====
/-
  Region 8: where its windows' blocks sit in their arrays. At point t the grid coordinates are (t / 2, t % 2); the two
  incidence blocks are block (t % 2, t / 2) of their arrays, the node-feature block is block (t % 2, 0), the edge-feature
  block and the output block are block (t / 2, 0). Each input block read at (p, q) is its array's entry at the block's
  index times the block's extent plus (p, q).
-/
import proofs.«181597_j77979426226450_2_alg».proof.Proof.KI.Reg8
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL.Sem
open Idealize.ShloMosaic.Pipeline (Dat Cfg Window cellOf)
open Idealize.ShloMosaic.ValueIdx

variable {F : FTy → Type} [FloatOps F]
variable (V : (c : Dev nD) → (b : Ref sig .tc) → Buf (Elt F) ((c : Thread nD τ).loc b))

/-- The printed index maps, decided once over the grid. -/
theorem idx_facts8 : ∀ t : Fin cfg8.N,
    win8_0.index t (0 : Fin 2) = t.val % 2 ∧ win8_0.index t (1 : Fin 2) = t.val / 2
    ∧ win8_1.index t (0 : Fin 2) = t.val % 2 ∧ win8_1.index t (1 : Fin 2) = t.val / 2
    ∧ win8_2.index t (0 : Fin 2) = t.val % 2 ∧ win8_2.index t (1 : Fin 2) = 0
    ∧ win8_3.index t (0 : Fin 2) = t.val / 2 ∧ win8_3.index t (1 : Fin 2) = 0
    ∧ win8_4.index t (0 : Fin 2) = t.val / 2 ∧ win8_4.index t (1 : Fin 2) = 0 :=
  (by decide +kernel : ∀ t : Fin grid8.N, _)

/-- Window 0's block at a point, at (p, q): the array's entry whose coordinates are the block's index times the block's
    extent plus the coordinate inside the block. -/
theorem iblk8_0_apply (c : Dev nD) (t : Fin cfg8.N) (p : Fin 2048) (q : Fin 1024) (I : S4096x8192.Idx)
    (h0 : (I 0).val = (t.val % 2) * 2048 + p.val) (h1 : (I 1).val = (t.val / 2) * 1024 + q.val) :
    (iblk8 V c 0 t : Vec F S2048x1024 .bf16) (ix2 p q) = (V c main_v24 : S4096x8192.Idx → Elt F .bf16) I := by
  obtain ⟨e00, e01, e10, e11, e20, e21, e30, e31, e40, e41⟩ := idx_facts8 t
  unfold iblk8
  rw [View.read_apply]
  show V c main_v24 _ = V c main_v24 I
  refine congrArg (V c main_v24) (funext fun ax => Fin.ext ?_)
  match ax with
  | ⟨0, _⟩ => show win8_0.index t (0 : Fin 2) * 2048 + 1 * p.val = (I 0).val; rw [e00, h0]; omega
  | ⟨1, _⟩ => show win8_0.index t (1 : Fin 2) * 1024 + 1 * q.val = (I 1).val; rw [e01, h1]; omega

/-- Window 1's block at a point, at (p, q): the array's entry whose coordinates are the block's index times the block's
    extent plus the coordinate inside the block. -/
theorem iblk8_1_apply (c : Dev nD) (t : Fin cfg8.N) (p : Fin 2048) (q : Fin 1024) (I : S4096x8192.Idx)
    (h0 : (I 0).val = (t.val % 2) * 2048 + p.val) (h1 : (I 1).val = (t.val / 2) * 1024 + q.val) :
    (iblk8 V c 1 t : Vec F S2048x1024 .bf16) (ix2 p q) = (V c main_v25 : S4096x8192.Idx → Elt F .bf16) I := by
  obtain ⟨e00, e01, e10, e11, e20, e21, e30, e31, e40, e41⟩ := idx_facts8 t
  unfold iblk8
  rw [View.read_apply]
  show V c main_v25 _ = V c main_v25 I
  refine congrArg (V c main_v25) (funext fun ax => Fin.ext ?_)
  match ax with
  | ⟨0, _⟩ => show win8_1.index t (0 : Fin 2) * 2048 + 1 * p.val = (I 0).val; rw [e10, h0]; omega
  | ⟨1, _⟩ => show win8_1.index t (1 : Fin 2) * 1024 + 1 * q.val = (I 1).val; rw [e11, h1]; omega

/-- Window 2's block at a point, at (p, q): the array's entry whose coordinates are the block's index times the block's
    extent plus the coordinate inside the block. -/
theorem iblk8_2_apply (c : Dev nD) (t : Fin cfg8.N) (p : Fin 2048) (q : Fin 128) (I : S4096x128.Idx)
    (h0 : (I 0).val = (t.val % 2) * 2048 + p.val) (h1 : (I 1).val = 0 * 128 + q.val) :
    (iblk8 V c 2 t : Vec F S2048x128 .f32) (ix2 p q) = (V c main_v54 : S4096x128.Idx → Elt F .f32) I := by
  obtain ⟨e00, e01, e10, e11, e20, e21, e30, e31, e40, e41⟩ := idx_facts8 t
  unfold iblk8
  rw [View.read_apply]
  show V c main_v54 _ = V c main_v54 I
  refine congrArg (V c main_v54) (funext fun ax => Fin.ext ?_)
  match ax with
  | ⟨0, _⟩ => show win8_2.index t (0 : Fin 2) * 2048 + 1 * p.val = (I 0).val; rw [e20, h0]; omega
  | ⟨1, _⟩ => show win8_2.index t (1 : Fin 2) * 128 + 1 * q.val = (I 1).val; rw [e21, h1]; omega

/-- Window 3's block at a point, at (p, q): the array's entry whose coordinates are the block's index times the block's
    extent plus the coordinate inside the block. -/
theorem iblk8_3_apply (c : Dev nD) (t : Fin cfg8.N) (p : Fin 1024) (q : Fin 128) (I : S8192x128.Idx)
    (h0 : (I 0).val = (t.val / 2) * 1024 + p.val) (h1 : (I 1).val = 0 * 128 + q.val) :
    (iblk8 V c 3 t : Vec F S1024x128 .f32) (ix2 p q) = (V c main_v23 : S8192x128.Idx → Elt F .f32) I := by
  obtain ⟨e00, e01, e10, e11, e20, e21, e30, e31, e40, e41⟩ := idx_facts8 t
  unfold iblk8
  rw [View.read_apply]
  show V c main_v23 _ = V c main_v23 I
  refine congrArg (V c main_v23) (funext fun ax => Fin.ext ?_)
  match ax with
  | ⟨0, _⟩ => show win8_3.index t (0 : Fin 2) * 1024 + 1 * p.val = (I 0).val; rw [e30, h0]; omega
  | ⟨1, _⟩ => show win8_3.index t (1 : Fin 2) * 128 + 1 * q.val = (I 1).val; rw [e31, h1]; omega

/-- The output block's index (r, q) at point t, in the output array: (t / 2 · 1024 + r, q). -/
theorem blk8_4_emb (t : Fin cfg8.N) (y : S1024x384.Idx) :
    ((((cfg8.win 4).blk t).view.emb y) 0).val = (t.val / 2) * 1024 + (y 0).val
    ∧ ((((cfg8.win 4).blk t).view.emb y) 1).val = (y 1).val := by
  obtain ⟨e00, e01, e10, e11, e20, e21, e30, e31, e40, e41⟩ := idx_facts8 t
  constructor
  · show win8_4.index t (0 : Fin 2) * 1024 + 1 * (y 0).val = _; rw [e40]; omega
  · show win8_4.index t (1 : Fin 2) * 384 + 1 * (y 1).val = _; rw [e41]; omega

/-- An index of the output array is in point t's block iff each coordinate is in the block's range on its axis. -/
theorem mem_blk8_4 (t : Fin cfg8.N) (i : S8192x384.Idx) :
    i ∈ ((cfg8.win 4).blk t).view.set ↔ ∀ a : Fin 2, win8_4.index t a * S1024x384.size a ≤ (i a).val ∧ (i a).val < win8_4.index t a * S1024x384.size a + S1024x384.size a := by
  show i ∈ ((View.whole main_v55).slice (win8_4.rect t)).set ↔ _
  rw [View.set_slice_whole, Rect.mem_set_unit]
  exact Iff.rfl

end Cert.KernelIdeal.Hand

end
-- ==== Proof.KI.Val8Payload.lean ====
/-
  Region 8's payloads read at an index, on the extended reals, over explicit coordinates (a, b) of a 1024 by 128 block:
  the zero blocks are 0; each accumulation step is acc[a,b] + Σ_k A[k,a]·x[k,b] over the 2048 rows of the two blocks, the
  contraction against the remainder x - x vanishing when column b of x is real; the copy of the edge-feature block is
  the block.
-/
import proofs.«181597_j77979426226450_2_alg».proof.Proof.KI.Val0Payload

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL.Sem
open Idealize.ShloMosaic.Pipeline (Dat Cfg Window cellOf)
open Idealize.ShloMosaic.ValueIdx

open Cert.SplitAccumulate

/-- The first zero block at an index. -/
theorem k8_pay1_apply (a : Fin 1024) (b : Fin 128) : k8_pay1 (F := Ideal) (ix2 a b) = (0 : EReal) := by
  unfold k8_pay1
  simp only [shapeCast_self]
  exact Ideal.ofBits_zero_f32

/-- The second zero block at an index. -/
theorem k8_pay2_apply (a : Fin 1024) (b : Fin 128) : k8_pay2 (F := Ideal) (ix2 a b) = (0 : EReal) := by
  unfold k8_pay2
  simp only [shapeCast_self]
  exact Ideal.ofBits_zero_f32

/-- The first accumulation step at an index: the accumulator plus the contraction of the two blocks, when the
    feature block's column is real. -/
theorem k8_pay6_apply (x2 : FVec Ideal S2048x128 .f32) (acc : FVec Ideal S1024x128 .f32) (x0 : FVec Ideal S2048x1024 .bf16)
    (a : Fin 1024) (b : Fin 128) (hreal : ∀ k : Fin 2048, IsReal (x2 (ix2 k b))) :
    k8_pay6 (F := Ideal) x2 acc x0 (ix2 a b)
      = (acc (ix2 a b) : EReal) + ∑ k : Fin 2048, (x0 (ix2 k a) : EReal) * (x2 (ix2 k b) : EReal) := by
  unfold k8_pay6 k8_pay4 k8_pay5 k8_pay3
  simp only [shapeCast_self]
  refine Eq.trans (congrArg (fun z : EReal => (acc (ix2 a b) : EReal) + z)
    (congrArg₂ (fun y z : EReal => y + z) (matmulT_zero_apply x0 _ a b) (matmulT_zero_apply x0 _ a b))) ?_
  exact congrArg (fun z : EReal => (acc (ix2 a b) : EReal) + z)
    (sum_split (fun k : Fin 2048 => (x0 (ix2 k a) : EReal)) (fun k : Fin 2048 => (x2 (ix2 k b) : EReal)) hreal)

/-- The second accumulation step at an index, likewise. -/
theorem k8_pay7_apply (x2 : FVec Ideal S2048x128 .f32) (acc : FVec Ideal S1024x128 .f32) (x1 : FVec Ideal S2048x1024 .bf16)
    (a : Fin 1024) (b : Fin 128) (hreal : ∀ k : Fin 2048, IsReal (x2 (ix2 k b))) :
    k8_pay7 (F := Ideal) x2 acc x1 (ix2 a b)
      = (acc (ix2 a b) : EReal) + ∑ k : Fin 2048, (x1 (ix2 k a) : EReal) * (x2 (ix2 k b) : EReal) := by
  unfold k8_pay7 k8_pay4 k8_pay5 k8_pay3
  simp only [shapeCast_self]
  refine Eq.trans (congrArg (fun z : EReal => (acc (ix2 a b) : EReal) + z)
    (congrArg₂ (fun y z : EReal => y + z) (matmulT_zero_apply x1 _ a b) (matmulT_zero_apply x1 _ a b))) ?_
  exact congrArg (fun z : EReal => (acc (ix2 a b) : EReal) + z)
    (sum_split (fun k : Fin 2048 => (x1 (ix2 k a) : EReal)) (fun k : Fin 2048 => (x2 (ix2 k b) : EReal)) hreal)

/-- The copy of the edge-feature block is the block. -/
theorem k8_pay8_eq (x3 : FVec Ideal S1024x128 .f32) : k8_pay8 (F := Ideal) x3 = x3 := by
  unfold k8_pay8
  simp only [shapeCast_self]

end Cert.KernelIdeal.Hand

end
-- ==== Proof.KI.Val8Spec.lean ====
/-
  The final edge output read on each of its three column ranges, and a contraction over 4096 rows as the sum of its two
  halves of 2048 rows each, started from zero. No program is imported.
-/
import proofs.«181597_j77979426226450_2_alg».proof.Proof.Spec
import proofs.«181597_j77979426226450_2_alg».proof.Proof.LibSplitAccumulate

noncomputable section

namespace Cert.Spec

open Idealize.ShloMosaic Idealize.ShloMosaic.ValueIdx Cert.SplitAccumulate
open scoped BigOperators

/-- In columns 0 to 127 the final edge output is the first contraction; -/
theorem heOut_at0 (A1 A2 : Arr2 4096 8192) (hv : Arr2 4096 128) (he : Arr2 8192 128) (I : (⟨2, ![8192, 384]⟩ : Shape).Idx)
    (e : Fin 8192) (j : Fin 128) (h0 : (I 0).val = e.val) (h1 : (I 1).val = j.val) :
    heOut A1 A2 hv he I = mmT A1 hv e j := by
  have hj : j.val < 128 := j.isLt
  unfold heOut
  dsimp only
  rw [dif_pos (by omega)]
  exact congrArg₂ (mmT A1 hv) (Fin.ext h0) (Fin.ext h1)

/-- in columns 128 to 255 the second; -/
theorem heOut_at1 (A1 A2 : Arr2 4096 8192) (hv : Arr2 4096 128) (he : Arr2 8192 128) (I : (⟨2, ![8192, 384]⟩ : Shape).Idx)
    (e : Fin 8192) (j : Fin 128) (h0 : (I 0).val = e.val) (h1 : (I 1).val = 128 + j.val) :
    heOut A1 A2 hv he I = mmT A2 hv e j := by
  have hj : j.val < 128 := j.isLt
  unfold heOut
  dsimp only
  rw [dif_neg (by omega), dif_pos (by omega)]
  exact congrArg₂ (mmT A2 hv) (Fin.ext h0) (Fin.ext (by show (I 1).val - 128 = j.val; omega))

/-- in columns 256 to 383 the edge features. -/
theorem heOut_at2 (A1 A2 : Arr2 4096 8192) (hv : Arr2 4096 128) (he : Arr2 8192 128) (I : (⟨2, ![8192, 384]⟩ : Shape).Idx)
    (e : Fin 8192) (j : Fin 128) (h0 : (I 0).val = e.val) (h1 : (I 1).val = 256 + j.val) :
    heOut A1 A2 hv he I = he (ix2 e j) := by
  have hj : j.val < 128 := j.isLt
  unfold heOut
  dsimp only
  rw [dif_neg (by omega), dif_neg (by omega)]
  exact congrArg he (funext fun a => match a with
    | ⟨0, _⟩ => Fin.ext h0
    | ⟨1, _⟩ => Fin.ext (by show (I 1).val - 256 = j.val; omega))

/-- The contraction over 4096 rows is the two-step accumulation from zero over rows 0 to 2047 and rows 2048 to 4095. -/
theorem mmT_halves (A : Arr2 4096 8192) (B : Arr2 4096 128) (e : Fin 8192) (j : Fin 128) :
    mmT A B e j
      = (0 + ∑ k : Fin 2048, A (ix2 (⟨k.val, by have := k.isLt; omega⟩ : Fin 4096) e) * B (ix2 (⟨k.val, by have := k.isLt; omega⟩ : Fin 4096) j))
        + ∑ k : Fin 2048, A (ix2 (⟨2048 + k.val, by have := k.isLt; omega⟩ : Fin 4096) e) * B (ix2 (⟨2048 + k.val, by have := k.isLt; omega⟩ : Fin 4096) j) := by
  unfold mmT
  rw [zero_add]
  exact sum_halves (n := 2048) (m := 4096) rfl (fun v : Fin 4096 => A (ix2 v e) * B (ix2 v j))

end Cert.Spec

end
-- ==== Proof.KI.Val8Acc.lean ====
/-
  Region 8 on the extended reals: two steps of either accumulation from the zero block, over the lower then the upper
  half of the rows, are the whole contraction of the specification, when the node features are real.
-/
import proofs.«181597_j77979426226450_2_alg».proof.Proof.KI.Val8Payload
import proofs.«181597_j77979426226450_2_alg».proof.Proof.KI.Val8Spec

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL.Sem
open Idealize.ShloMosaic.Pipeline (Dat Cfg Window cellOf)
open Idealize.ShloMosaic.ValueIdx

open Cert.SplitAccumulate Cert.Spec
open scoped BigOperators

/-- Two steps of the first accumulation from the zero block — rows 0 to 2047 of the incidence and feature arrays, then rows
    2048 to 4095 — leave, at (a, b) of column block i, the whole contraction over the 4096 rows. -/
theorem acc8_0_two (A : Arr2 4096 8192) (hv : Arr2 4096 128) (hreal : AllReal hv)
    (x0s x0t : FVec Ideal S2048x1024 .bf16) (x2s x2t : FVec Ideal S2048x128 .f32) (i : Fin 8)
    (hx0s : ∀ (k : Fin 2048) (a : Fin 1024), (x0s (ix2 k a) : EReal) = A (ix2 (⟨k.val, by have := k.isLt; omega⟩ : Fin 4096) (⟨i.val * 1024 + a.val, by have := i.isLt; have := a.isLt; omega⟩ : Fin 8192)))
    (hx0t : ∀ (k : Fin 2048) (a : Fin 1024), (x0t (ix2 k a) : EReal) = A (ix2 (⟨2048 + k.val, by have := k.isLt; omega⟩ : Fin 4096) (⟨i.val * 1024 + a.val, by have := i.isLt; have := a.isLt; omega⟩ : Fin 8192)))
    (hx2s : ∀ (k : Fin 2048) (b : Fin 128), (x2s (ix2 k b) : EReal) = hv (ix2 (⟨k.val, by have := k.isLt; omega⟩ : Fin 4096) b))
    (hx2t : ∀ (k : Fin 2048) (b : Fin 128), (x2t (ix2 k b) : EReal) = hv (ix2 (⟨2048 + k.val, by have := k.isLt; omega⟩ : Fin 4096) b))
    (a : Fin 1024) (b : Fin 128) :
    k8_pay6 (F := Ideal) x2t (k8_pay6 (F := Ideal) x2s (k8_pay1 (F := Ideal)) x0s) x0t (ix2 a b)
      = mmT A hv (⟨i.val * 1024 + a.val, by have := i.isLt; have := a.isLt; omega⟩ : Fin 8192) b := by
  refine Eq.trans ?_ (mmT_halves A hv _ b).symm
  refine (k8_pay6_apply x2t _ x0t a b (fun k => ?_)).trans ?_
  · rw [hx2t]; exact hreal _
  refine congrArg₂ (fun y z : EReal => y + z) ?_ ?_
  · refine (k8_pay6_apply x2s _ x0s a b (fun k => ?_)).trans ?_
    · rw [hx2s]; exact hreal _
    refine congrArg₂ (fun y z : EReal => y + z) (k8_pay1_apply a b) ?_
    exact Finset.sum_congr rfl fun k _ => by rw [hx0s, hx2s]
  · exact Finset.sum_congr rfl fun k _ => by rw [hx0t, hx2t]

/-- Two steps of the second accumulation from the zero block — rows 0 to 2047 of the incidence and feature arrays, then rows
    2048 to 4095 — leave, at (a, b) of column block i, the whole contraction over the 4096 rows. -/
theorem acc8_1_two (A : Arr2 4096 8192) (hv : Arr2 4096 128) (hreal : AllReal hv)
    (x1s x1t : FVec Ideal S2048x1024 .bf16) (x2s x2t : FVec Ideal S2048x128 .f32) (i : Fin 8)
    (hx1s : ∀ (k : Fin 2048) (a : Fin 1024), (x1s (ix2 k a) : EReal) = A (ix2 (⟨k.val, by have := k.isLt; omega⟩ : Fin 4096) (⟨i.val * 1024 + a.val, by have := i.isLt; have := a.isLt; omega⟩ : Fin 8192)))
    (hx1t : ∀ (k : Fin 2048) (a : Fin 1024), (x1t (ix2 k a) : EReal) = A (ix2 (⟨2048 + k.val, by have := k.isLt; omega⟩ : Fin 4096) (⟨i.val * 1024 + a.val, by have := i.isLt; have := a.isLt; omega⟩ : Fin 8192)))
    (hx2s : ∀ (k : Fin 2048) (b : Fin 128), (x2s (ix2 k b) : EReal) = hv (ix2 (⟨k.val, by have := k.isLt; omega⟩ : Fin 4096) b))
    (hx2t : ∀ (k : Fin 2048) (b : Fin 128), (x2t (ix2 k b) : EReal) = hv (ix2 (⟨2048 + k.val, by have := k.isLt; omega⟩ : Fin 4096) b))
    (a : Fin 1024) (b : Fin 128) :
    k8_pay7 (F := Ideal) x2t (k8_pay7 (F := Ideal) x2s (k8_pay2 (F := Ideal)) x1s) x1t (ix2 a b)
      = mmT A hv (⟨i.val * 1024 + a.val, by have := i.isLt; have := a.isLt; omega⟩ : Fin 8192) b := by
  refine Eq.trans ?_ (mmT_halves A hv _ b).symm
  refine (k8_pay7_apply x2t _ x1t a b (fun k => ?_)).trans ?_
  · rw [hx2t]; exact hreal _
  refine congrArg₂ (fun y z : EReal => y + z) ?_ ?_
  · refine (k8_pay7_apply x2s _ x1s a b (fun k => ?_)).trans ?_
    · rw [hx2s]; exact hreal _
    refine congrArg₂ (fun y z : EReal => y + z) (k8_pay2_apply a b) ?_
    exact Finset.sum_congr rfl fun k _ => by rw [hx1s, hx2s]
  · exact Finset.sum_congr rfl fun k _ => by rw [hx1t, hx2t]

end Cert.KernelIdeal.Hand

end
-- ==== Proof.KI.Val8.lean ====
/-
  Region 8's value on the extended reals: the output array ends holding the final edge output of the specification —
  in each row block of 1024 edges, columns 0 to 127 the contraction of the first incidence matrix with the node features,
  columns 128 to 255 that of the second, columns 256 to 383 the edge features — when the node features are real.

  At an even point each accumulator holds one accumulation step from zero over the lower half of the rows; at the odd
  point that follows the output block is the two accumulators after a second step over the upper half, beside the
  edge-feature block; that point writes the block back, and the eight such blocks tile the array.
-/
import proofs.«181597_j77979426226450_2_alg».proof.Proof.KI.Val8Points
import proofs.«181597_j77979426226450_2_alg».proof.Proof.KI.Val8Blocks
import proofs.«181597_j77979426226450_2_alg».proof.Proof.KI.Val8Acc

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL.Sem
open Idealize.ShloMosaic.Pipeline (Dat Cfg Window cellOf)
open Idealize.ShloMosaic.ValueIdx

open Cert.SplitAccumulate Cert.Spec
open scoped BigOperators

variable (V : (c : Dev nD) → (b : Ref sig .tc) → Buf (Elt Ideal) ((c : Thread nD τ).loc b))

set_option maxHeartbeats 1600000 in
/-- WHAT A FLUSHING POINT WRITES BACK is its block of the final edge output of the arrays as the region finds them. -/
theorem flushed8_eq (c : Dev nD) (hreal : Cert.Spec.AllReal (S := S4096x128) (V c main_v54)) (t : Fin cfg8.N)
    (hf : (cfg8.win 4).flush t = true) :
    (dat8 (F := Ideal) V c).flushed 4 t = ((cfg8.win 4).blk t).view.read (Elt Ideal) (Cert.Spec.heOut (V c main_v24) (V c main_v25) (V c main_v54) (V c main_v23)) := by
  have h1 : t.val % 2 = 1 := (flush8_4 t).mp hf
  have hN : t.val < 16 := lt_of_lt_of_eq t.isLt (show cfg8.N = 16 from N_8)
  have hs : t.val - 1 < cfg8.N := Nat.lt_of_le_of_lt (Nat.sub_le _ _) t.isLt
  show (cfg8.win 4).cut (grid8.coords t) ((dat8 V c).after 4 t) = _
  rw [after8_4, outAt8_odd V c t h1]
  obtain ⟨eS0, eS1⟩ := accAt8_even V c ⟨t.val - 1, hs⟩ (by show (t.val - 1) % 2 = 0; omega)
  have eS0' : (outsAt8 V c (t.val - 1) hs).2.1 = _ := eS0
  have eS1' : (outsAt8 V c (t.val - 1) hs).2.2 = _ := eS1
  rw [eS0', eS1']
  funext y
  rw [View.read_apply]
  obtain ⟨hE0, hE1⟩ := blk8_4_emb t y
  have hy0 : (y 0).val < 1024 := (y 0).isLt
  have hy1 : (y 1).val < 384 := (y 1).isLt
  by_cases c0 : (y 1).val < 128
  · refine (cols8_at0 _ _ _ (ix2 (⟨(y 0).val, hy0⟩ : Fin 1024) (⟨(y 1).val, c0⟩ : Fin 128)) y rfl rfl).trans ?_
    refine Eq.trans ?_ (heOut_at0 _ _ _ _ _ (⟨(t.val / 2) * 1024 + (y 0).val, by omega⟩ : Fin 8192) (⟨(y 1).val, c0⟩ : Fin 128) hE0 hE1).symm
    exact acc8_0_two (V c main_v24) (V c main_v54) hreal
        (iblk8 V c 0 ⟨t.val - 1, hs⟩) (iblk8 V c 0 t) (iblk8 V c 2 ⟨t.val - 1, hs⟩) (iblk8 V c 2 t) (⟨t.val / 2, by omega⟩ : Fin 8)
        (fun k a => iblk8_0_apply V c ⟨t.val - 1, hs⟩ k a _ (by show k.val = ((t.val - 1) % 2) * 2048 + k.val; omega) (by show (t.val / 2) * 1024 + a.val = ((t.val - 1) / 2) * 1024 + a.val; omega))
        (fun k a => iblk8_0_apply V c t k a _ (by show 2048 + k.val = (t.val % 2) * 2048 + k.val; omega) (by show (t.val / 2) * 1024 + a.val = (t.val / 2) * 1024 + a.val; rfl))
        (fun k b => iblk8_2_apply V c ⟨t.val - 1, hs⟩ k b _ (by show k.val = ((t.val - 1) % 2) * 2048 + k.val; omega) (by show b.val = 0 * 128 + b.val; omega))
        (fun k b => iblk8_2_apply V c t k b _ (by show 2048 + k.val = (t.val % 2) * 2048 + k.val; omega) (by show b.val = 0 * 128 + b.val; omega))
        (⟨(y 0).val, hy0⟩ : Fin 1024) (⟨(y 1).val, c0⟩ : Fin 128)
  · by_cases c1 : (y 1).val < 256
    · refine (cols8_at1 _ _ _ (ix2 (⟨(y 0).val, hy0⟩ : Fin 1024) (⟨(y 1).val - 128, by omega⟩ : Fin 128)) y rfl
          (by show (y 1).val = 128 + ((y 1).val - 128); omega)).trans ?_
      refine Eq.trans ?_ (heOut_at1 _ _ _ _ _ (⟨(t.val / 2) * 1024 + (y 0).val, by omega⟩ : Fin 8192) (⟨(y 1).val - 128, by omega⟩ : Fin 128) hE0
          (hE1.trans (by show (y 1).val = 128 + ((y 1).val - 128); omega))).symm
      exact acc8_1_two (V c main_v25) (V c main_v54) hreal
          (iblk8 V c 1 ⟨t.val - 1, hs⟩) (iblk8 V c 1 t) (iblk8 V c 2 ⟨t.val - 1, hs⟩) (iblk8 V c 2 t) (⟨t.val / 2, by omega⟩ : Fin 8)
          (fun k a => iblk8_1_apply V c ⟨t.val - 1, hs⟩ k a _ (by show k.val = ((t.val - 1) % 2) * 2048 + k.val; omega) (by show (t.val / 2) * 1024 + a.val = ((t.val - 1) / 2) * 1024 + a.val; omega))
          (fun k a => iblk8_1_apply V c t k a _ (by show 2048 + k.val = (t.val % 2) * 2048 + k.val; omega) (by show (t.val / 2) * 1024 + a.val = (t.val / 2) * 1024 + a.val; rfl))
          (fun k b => iblk8_2_apply V c ⟨t.val - 1, hs⟩ k b _ (by show k.val = ((t.val - 1) % 2) * 2048 + k.val; omega) (by show b.val = 0 * 128 + b.val; omega))
          (fun k b => iblk8_2_apply V c t k b _ (by show 2048 + k.val = (t.val % 2) * 2048 + k.val; omega) (by show b.val = 0 * 128 + b.val; omega))
          (⟨(y 0).val, hy0⟩ : Fin 1024) (⟨(y 1).val - 128, by omega⟩ : Fin 128)
    · refine (cols8_at2 _ _ _ (ix2 (⟨(y 0).val, hy0⟩ : Fin 1024) (⟨(y 1).val - 256, by omega⟩ : Fin 128)) y rfl
          (by show (y 1).val = 256 + ((y 1).val - 256); omega)).trans ?_
      refine Eq.trans ?_ (heOut_at2 _ _ _ _ _ (⟨(t.val / 2) * 1024 + (y 0).val, by omega⟩ : Fin 8192) (⟨(y 1).val - 256, by omega⟩ : Fin 128) hE0
          (hE1.trans (by show (y 1).val = 256 + ((y 1).val - 256); omega))).symm
      rw [k8_pay8_eq]
      exact iblk8_3_apply V c t (⟨(y 0).val, hy0⟩ : Fin 1024) (⟨(y 1).val - 256, by omega⟩ : Fin 128) _
          (by show (t.val / 2) * 1024 + (y 0).val = (t.val / 2) * 1024 + (y 0).val; rfl)
          (by show (y 1).val - 256 = 0 * 128 + ((y 1).val - 256); omega)

/-- Every index of the output array is in the block of the odd point of its row block. -/
theorem cover8 (i : S8192x384.Idx) :
    ∃ t : Fin cfg8.N, (cfg8.win 4).flush t = true ∧ i ∈ ((cfg8.win 4).blk t).view.set := by
  have hi0 : (i 0).val < 8192 := (i 0).isLt
  have hi1 : (i 1).val < 384 := (i 1).isLt
  have hlt : 2 * ((i 0).val / 1024) + 1 < cfg8.N := by rw [show cfg8.N = 16 from N_8]; omega
  obtain ⟨e00, e01, e10, e11, e20, e21, e30, e31, e40, e41⟩ := idx_facts8 ⟨2 * ((i 0).val / 1024) + 1, hlt⟩
  have e40' : win8_4.index ⟨2 * ((i 0).val / 1024) + 1, hlt⟩ (0 : Fin 2) = (2 * ((i 0).val / 1024) + 1) / 2 := e40
  refine ⟨⟨2 * ((i 0).val / 1024) + 1, hlt⟩, (flush8_4 _).mpr (by show (2 * ((i 0).val / 1024) + 1) % 2 = 1; omega), ?_⟩
  rw [mem_blk8_4]
  intro a
  match a with
  | ⟨0, _⟩ =>
    show win8_4.index ⟨2 * ((i 0).val / 1024) + 1, hlt⟩ (0 : Fin 2) * 1024 ≤ (i 0).val ∧ (i 0).val < win8_4.index ⟨2 * ((i 0).val / 1024) + 1, hlt⟩ (0 : Fin 2) * 1024 + 1024
    rw [e40']; omega
  | ⟨1, _⟩ =>
    show win8_4.index ⟨2 * ((i 0).val / 1024) + 1, hlt⟩ (1 : Fin 2) * 384 ≤ (i 1).val ∧ (i 1).val < win8_4.index ⟨2 * ((i 0).val / 1024) + 1, hlt⟩ (1 : Fin 2) * 384 + 384
    rw [e41]; omega

/-- THE VALUE OF REGION 8: when the node features the region finds are real, its output array ends holding the final edge
    output of the arrays the region finds. -/
theorem final8 (c : Dev nD) (hreal : Cert.Spec.AllReal (S := S4096x128) (V c main_v54)) :
    (dat8 (F := Ideal) V c).arrAt 4 cfg8.N = Cert.Spec.heOut (V c main_v24) (V c main_v25) (V c main_v54) (V c main_v23) :=
  (dat8 (F := Ideal) V c).arrAt_eq_of_cover 4 (Cert.Spec.heOut (V c main_v24) (V c main_v25) (V c main_v54) (V c main_v23)) (fun t hf => flushed8_eq V c hreal t hf) cover8

end Cert.KernelIdeal.Hand

end
-- ==== Proof.KI.GlueHostW.lean ====
/-
  The host operations between the kernel regions: the weights and the bias each node layer is handed.

  Before each node layer the program cuts slice l out of the stack of transposed weights and drops the unit axis,
  and cuts row l out of the stacked biases and reshapes it to a vector and back to a row. Read at an index, the
  weight buffer's entry (k, j) is the transposed stack's entry (l, k, j), and the bias buffer's entry (0, j) is
  the stacked biases' entry (l, j), from whatever contents the stretch starts. Every buffer a stretch does not
  write keeps its contents through it. All of it holds for any float values.
-/
import proofs.«181597_j77979426226450_2_alg».proof.Proof.Gen.KernelIdeal.Launch
import Idealize.ShloMosaic.Lib.StableHlo.Run
import Idealize.ShloMosaic.Lib.ValueIdx
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.ShloMosaic.StableHlo Idealize.ShloMosaic.ValueIdx

variable {F : FTy → Type} [FloatOps F]

/-- An operation that writes the one buffer `y`, a member of the list `W`, writes inside `W`. -/
theorem w_sub {W : List (Ref sig .tc)} {op : HloOp τ sig (Elt F)} {y : Ref sig .tc}
    (h : op.writes = {Proc.devRef .tc y}) (hy : y ∈ W) :
    op.writes ⊆ (W.map (Proc.devRef (τ := τ) .tc)).toFinset := by
  rw [h, Finset.singleton_subset_iff, List.mem_toFinset]; exact List.mem_map_of_mem hy

/-! ### Layer 0: the stretch `hostOps1` -/

/-- The buffers the stretch writes, in order. -/
abbrev hostOps1_W : List (Ref sig .tc) := [main_v28, main_v29, main_v30, main_v31, main_v32]
theorem hostOps1_writes : (hostOps1 : List (HloOp τ sig (Elt F))).Forall fun op => op.writes ⊆ ((hostOps1_W).map (Proc.devRef (τ := τ) .tc)).toFinset :=
  ⟨w_sub (y := main_v28) rfl (by decide), w_sub (y := main_v29) rfl (by decide), w_sub (y := main_v30) rfl (by decide),
    w_sub (y := main_v31) rfl (by decide), w_sub (y := main_v32) rfl (by decide)⟩
/-- A buffer the stretch does not write keeps its contents through it. -/
theorem hostOps1_keep (V : Valuation τ sig (Elt F)) (r : Ref sig .tc) (h : r ∉ hostOps1_W) :
    after hostOps1 V (Proc.devRef .tc r) = V (Proc.devRef .tc r) :=
  after_of_writes_sub hostOps1 V hostOps1_writes h

/-- The weight buffer of layer 0 after the stretch: slice 0 of the transposed stack, its unit axis dropped. -/
theorem hostOps1_weight (V : Valuation τ sig (Elt F)) :
    after hostOps1 V (Proc.devRef .tc main_v29)
      = (fun i => shapeCast S128x128 (extractStridedSlice S1x128x128 ![0, 0, 0] (V (Proc.devRef .tc main_v26)) slices_S4x128x128_S1x128x128_0_0_0) shapeCasts_S1x128x128_S128x128 i) := by
  dsimp only [hostOps1]
  after_results
  rfl

/-- … read at an index: entry `(k, j)` is the transposed stack's entry `(0, k, j)`. -/
theorem hostOps1_weight_apply (V : Valuation τ sig (Elt F)) (k j : Fin 128) :
    (after hostOps1 V (Proc.devRef .tc main_v29) : S128x128.Idx → F .f32) (ix2 k j)
      = (V (Proc.devRef .tc main_v26) : S4x128x128.Idx → F .f32) (ix3 (0 : Fin 4) k j) := by
  rw [hostOps1_weight]
  show shapeCast S128x128 _ _ (ix2 k j) = _
  rw [shapeCast_1ab_ab_apply]
  exact extractStridedSlice_apply _ _ _ _ _ (fun ax => by
    match ax with
    | ⟨0, _⟩ => rfl
    | ⟨1, _⟩ => exact (Nat.zero_add _).symm
    | ⟨2, _⟩ => exact (Nat.zero_add _).symm)

/-- The bias buffer of layer 0 after the stretch: row 0 of the stacked biases, as a vector, as a row again. -/
theorem hostOps1_bias (V : Valuation τ sig (Elt F)) :
    after hostOps1 V (Proc.devRef .tc main_v32)
      = (fun i => shapeCast S1x128 (fun i' => shapeCast S128 (extractStridedSlice S1x128 ![0, 0] (V (Proc.devRef .tc main_arg13)) slices_S4x128_S1x128_0_0) shapeCasts_S1x128_S128 i') shapeCasts_S128_S1x128 i) := by
  dsimp only [hostOps1]
  after_results
  rfl

/-- … read at an index: entry `(0, j)` is the stacked biases' entry `(0, j)`. -/
theorem hostOps1_bias_apply (V : Valuation τ sig (Elt F)) (j : Fin 128) :
    (after hostOps1 V (Proc.devRef .tc main_v32) : S1x128.Idx → F .f32) (ix2 (0 : Fin 1) j)
      = (V (Proc.devRef .tc main_arg13) : S4x128.Idx → F .f32) (ix2 (0 : Fin 4) j) := by
  rw [hostOps1_bias]
  show shapeCast S1x128 _ _ (ix2 (0 : Fin 1) j) = _
  rw [shapeCast_a_1a_apply]
  show shapeCast S128 _ _ (ix1 j) = _
  rw [shapeCast_1a_a_apply]
  exact slice2_axis0_apply 0 _ _ (0 : Fin 1) j (0 : Fin 4) rfl

/-! ### Layer 1: the stretch `hostOps3` -/

/-- The buffers the stretch writes, in order. -/
abbrev hostOps3_W : List (Ref sig .tc) := [main_v35, main_v36, main_v37, main_v38, main_v39]
theorem hostOps3_writes : (hostOps3 : List (HloOp τ sig (Elt F))).Forall fun op => op.writes ⊆ ((hostOps3_W).map (Proc.devRef (τ := τ) .tc)).toFinset :=
  ⟨w_sub (y := main_v35) rfl (by decide), w_sub (y := main_v36) rfl (by decide), w_sub (y := main_v37) rfl (by decide),
    w_sub (y := main_v38) rfl (by decide), w_sub (y := main_v39) rfl (by decide)⟩
/-- A buffer the stretch does not write keeps its contents through it. -/
theorem hostOps3_keep (V : Valuation τ sig (Elt F)) (r : Ref sig .tc) (h : r ∉ hostOps3_W) :
    after hostOps3 V (Proc.devRef .tc r) = V (Proc.devRef .tc r) :=
  after_of_writes_sub hostOps3 V hostOps3_writes h

/-- The weight buffer of layer 1 after the stretch: slice 1 of the transposed stack, its unit axis dropped. -/
theorem hostOps3_weight (V : Valuation τ sig (Elt F)) :
    after hostOps3 V (Proc.devRef .tc main_v36)
      = (fun i => shapeCast S128x128 (extractStridedSlice S1x128x128 ![1, 0, 0] (V (Proc.devRef .tc main_v26)) slices_S4x128x128_S1x128x128_1_0_0) shapeCasts_S1x128x128_S128x128 i) := by
  dsimp only [hostOps3]
  after_results
  rfl

/-- … read at an index: entry `(k, j)` is the transposed stack's entry `(1, k, j)`. -/
theorem hostOps3_weight_apply (V : Valuation τ sig (Elt F)) (k j : Fin 128) :
    (after hostOps3 V (Proc.devRef .tc main_v36) : S128x128.Idx → F .f32) (ix2 k j)
      = (V (Proc.devRef .tc main_v26) : S4x128x128.Idx → F .f32) (ix3 (1 : Fin 4) k j) := by
  rw [hostOps3_weight]
  show shapeCast S128x128 _ _ (ix2 k j) = _
  rw [shapeCast_1ab_ab_apply]
  exact extractStridedSlice_apply _ _ _ _ _ (fun ax => by
    match ax with
    | ⟨0, _⟩ => rfl
    | ⟨1, _⟩ => exact (Nat.zero_add _).symm
    | ⟨2, _⟩ => exact (Nat.zero_add _).symm)

/-- The bias buffer of layer 1 after the stretch: row 1 of the stacked biases, as a vector, as a row again. -/
theorem hostOps3_bias (V : Valuation τ sig (Elt F)) :
    after hostOps3 V (Proc.devRef .tc main_v39)
      = (fun i => shapeCast S1x128 (fun i' => shapeCast S128 (extractStridedSlice S1x128 ![1, 0] (V (Proc.devRef .tc main_arg13)) slices_S4x128_S1x128_1_0) shapeCasts_S1x128_S128 i') shapeCasts_S128_S1x128 i) := by
  dsimp only [hostOps3]
  after_results
  rfl

/-- … read at an index: entry `(0, j)` is the stacked biases' entry `(1, j)`. -/
theorem hostOps3_bias_apply (V : Valuation τ sig (Elt F)) (j : Fin 128) :
    (after hostOps3 V (Proc.devRef .tc main_v39) : S1x128.Idx → F .f32) (ix2 (0 : Fin 1) j)
      = (V (Proc.devRef .tc main_arg13) : S4x128.Idx → F .f32) (ix2 (1 : Fin 4) j) := by
  rw [hostOps3_bias]
  show shapeCast S1x128 _ _ (ix2 (0 : Fin 1) j) = _
  rw [shapeCast_a_1a_apply]
  show shapeCast S128 _ _ (ix1 j) = _
  rw [shapeCast_1a_a_apply]
  exact slice2_axis0_apply 1 _ _ (0 : Fin 1) j (1 : Fin 4) rfl

/-! ### Layer 2: the stretch `hostOps5` -/

/-- The buffers the stretch writes, in order. -/
abbrev hostOps5_W : List (Ref sig .tc) := [main_v42, main_v43, main_v44, main_v45, main_v46]
theorem hostOps5_writes : (hostOps5 : List (HloOp τ sig (Elt F))).Forall fun op => op.writes ⊆ ((hostOps5_W).map (Proc.devRef (τ := τ) .tc)).toFinset :=
  ⟨w_sub (y := main_v42) rfl (by decide), w_sub (y := main_v43) rfl (by decide), w_sub (y := main_v44) rfl (by decide),
    w_sub (y := main_v45) rfl (by decide), w_sub (y := main_v46) rfl (by decide)⟩
/-- A buffer the stretch does not write keeps its contents through it. -/
theorem hostOps5_keep (V : Valuation τ sig (Elt F)) (r : Ref sig .tc) (h : r ∉ hostOps5_W) :
    after hostOps5 V (Proc.devRef .tc r) = V (Proc.devRef .tc r) :=
  after_of_writes_sub hostOps5 V hostOps5_writes h

/-- The weight buffer of layer 2 after the stretch: slice 2 of the transposed stack, its unit axis dropped. -/
theorem hostOps5_weight (V : Valuation τ sig (Elt F)) :
    after hostOps5 V (Proc.devRef .tc main_v43)
      = (fun i => shapeCast S128x128 (extractStridedSlice S1x128x128 ![2, 0, 0] (V (Proc.devRef .tc main_v26)) slices_S4x128x128_S1x128x128_2_0_0) shapeCasts_S1x128x128_S128x128 i) := by
  dsimp only [hostOps5]
  after_results
  rfl

/-- … read at an index: entry `(k, j)` is the transposed stack's entry `(2, k, j)`. -/
theorem hostOps5_weight_apply (V : Valuation τ sig (Elt F)) (k j : Fin 128) :
    (after hostOps5 V (Proc.devRef .tc main_v43) : S128x128.Idx → F .f32) (ix2 k j)
      = (V (Proc.devRef .tc main_v26) : S4x128x128.Idx → F .f32) (ix3 (2 : Fin 4) k j) := by
  rw [hostOps5_weight]
  show shapeCast S128x128 _ _ (ix2 k j) = _
  rw [shapeCast_1ab_ab_apply]
  exact extractStridedSlice_apply _ _ _ _ _ (fun ax => by
    match ax with
    | ⟨0, _⟩ => rfl
    | ⟨1, _⟩ => exact (Nat.zero_add _).symm
    | ⟨2, _⟩ => exact (Nat.zero_add _).symm)

/-- The bias buffer of layer 2 after the stretch: row 2 of the stacked biases, as a vector, as a row again. -/
theorem hostOps5_bias (V : Valuation τ sig (Elt F)) :
    after hostOps5 V (Proc.devRef .tc main_v46)
      = (fun i => shapeCast S1x128 (fun i' => shapeCast S128 (extractStridedSlice S1x128 ![2, 0] (V (Proc.devRef .tc main_arg13)) slices_S4x128_S1x128_2_0) shapeCasts_S1x128_S128 i') shapeCasts_S128_S1x128 i) := by
  dsimp only [hostOps5]
  after_results
  rfl

/-- … read at an index: entry `(0, j)` is the stacked biases' entry `(2, j)`. -/
theorem hostOps5_bias_apply (V : Valuation τ sig (Elt F)) (j : Fin 128) :
    (after hostOps5 V (Proc.devRef .tc main_v46) : S1x128.Idx → F .f32) (ix2 (0 : Fin 1) j)
      = (V (Proc.devRef .tc main_arg13) : S4x128.Idx → F .f32) (ix2 (2 : Fin 4) j) := by
  rw [hostOps5_bias]
  show shapeCast S1x128 _ _ (ix2 (0 : Fin 1) j) = _
  rw [shapeCast_a_1a_apply]
  show shapeCast S128 _ _ (ix1 j) = _
  rw [shapeCast_1a_a_apply]
  exact slice2_axis0_apply 2 _ _ (0 : Fin 1) j (2 : Fin 4) rfl

/-! ### Layer 3: the stretch `hostOps7` -/

/-- The buffers the stretch writes, in order. -/
abbrev hostOps7_W : List (Ref sig .tc) := [main_v49, main_v50, main_v51, main_v52, main_v53]
theorem hostOps7_writes : (hostOps7 : List (HloOp τ sig (Elt F))).Forall fun op => op.writes ⊆ ((hostOps7_W).map (Proc.devRef (τ := τ) .tc)).toFinset :=
  ⟨w_sub (y := main_v49) rfl (by decide), w_sub (y := main_v50) rfl (by decide), w_sub (y := main_v51) rfl (by decide),
    w_sub (y := main_v52) rfl (by decide), w_sub (y := main_v53) rfl (by decide)⟩
/-- A buffer the stretch does not write keeps its contents through it. -/
theorem hostOps7_keep (V : Valuation τ sig (Elt F)) (r : Ref sig .tc) (h : r ∉ hostOps7_W) :
    after hostOps7 V (Proc.devRef .tc r) = V (Proc.devRef .tc r) :=
  after_of_writes_sub hostOps7 V hostOps7_writes h

/-- The weight buffer of layer 3 after the stretch: slice 3 of the transposed stack, its unit axis dropped. -/
theorem hostOps7_weight (V : Valuation τ sig (Elt F)) :
    after hostOps7 V (Proc.devRef .tc main_v50)
      = (fun i => shapeCast S128x128 (extractStridedSlice S1x128x128 ![3, 0, 0] (V (Proc.devRef .tc main_v26)) slices_S4x128x128_S1x128x128_3_0_0) shapeCasts_S1x128x128_S128x128 i) := by
  dsimp only [hostOps7]
  after_results
  rfl

/-- … read at an index: entry `(k, j)` is the transposed stack's entry `(3, k, j)`. -/
theorem hostOps7_weight_apply (V : Valuation τ sig (Elt F)) (k j : Fin 128) :
    (after hostOps7 V (Proc.devRef .tc main_v50) : S128x128.Idx → F .f32) (ix2 k j)
      = (V (Proc.devRef .tc main_v26) : S4x128x128.Idx → F .f32) (ix3 (3 : Fin 4) k j) := by
  rw [hostOps7_weight]
  show shapeCast S128x128 _ _ (ix2 k j) = _
  rw [shapeCast_1ab_ab_apply]
  exact extractStridedSlice_apply _ _ _ _ _ (fun ax => by
    match ax with
    | ⟨0, _⟩ => rfl
    | ⟨1, _⟩ => exact (Nat.zero_add _).symm
    | ⟨2, _⟩ => exact (Nat.zero_add _).symm)

/-- The bias buffer of layer 3 after the stretch: row 3 of the stacked biases, as a vector, as a row again. -/
theorem hostOps7_bias (V : Valuation τ sig (Elt F)) :
    after hostOps7 V (Proc.devRef .tc main_v53)
      = (fun i => shapeCast S1x128 (fun i' => shapeCast S128 (extractStridedSlice S1x128 ![3, 0] (V (Proc.devRef .tc main_arg13)) slices_S4x128_S1x128_3_0) shapeCasts_S1x128_S128 i') shapeCasts_S128_S1x128 i) := by
  dsimp only [hostOps7]
  after_results
  rfl

/-- … read at an index: entry `(0, j)` is the stacked biases' entry `(3, j)`. -/
theorem hostOps7_bias_apply (V : Valuation τ sig (Elt F)) (j : Fin 128) :
    (after hostOps7 V (Proc.devRef .tc main_v53) : S1x128.Idx → F .f32) (ix2 (0 : Fin 1) j)
      = (V (Proc.devRef .tc main_arg13) : S4x128.Idx → F .f32) (ix2 (3 : Fin 4) j) := by
  rw [hostOps7_bias]
  show shapeCast S1x128 _ _ (ix2 (0 : Fin 1) j) = _
  rw [shapeCast_a_1a_apply]
  show shapeCast S128 _ _ (ix1 j) = _
  rw [shapeCast_1a_a_apply]
  exact slice2_axis0_apply 3 _ _ (0 : Fin 1) j (3 : Fin 4) rfl

end Cert.KernelIdeal.Hand

end
-- ==== Proof.KI.GlueHost.lean ====
/-
  The host operations that precede the first kernel region, as functions of the program's arguments.

  Five stretches of host operations run before the first region: the two encoders (a dense map, the leaky
  rectifier, a second dense map, the hyperbolic tangent — on the node inputs and on the edge inputs), the two
  incidence matrices converted to the narrower float format, and the stack of layer weights transposed on its last
  two axes. What each of the buffers the regions read holds after the five stretches is a pure term of the
  contents of the arguments at the start, for any float values:
    the initial node features  `encA'` of arguments 0, 4, 5, 6, 7;
    the edge features          `encB'` of arguments 1, 8, 9, 10, 11;
    the converted incidence matrices  the format change of arguments 2 and 3 (at the extended reals, themselves);
    the transposed stack       entry (l, k, j) is argument 12's entry (l, j, k).
  A buffer none of the five stretches writes keeps its contents. With the slices of GlueHostW these give, for each
  layer, the two hypotheses under which the layer over the handed weights is the layer over the stacked weights.
-/
import proofs.«181597_j77979426226450_2_alg».proof.Proof.KI.GlueHostW
import proofs.«181597_j77979426226450_2_alg».proof.Proof.Spec

set_option maxRecDepth 16384

noncomputable section

namespace Cert.KernelIdeal.Hand

open Cert.KernelIdeal Cert.KernelIdeal.Gen
open Idealize.ShloMosaic Idealize.ShloMosaic.TcCoe Idealize.ShloMosaic.StableHlo Idealize.ShloMosaic.ValueIdx

variable {F : FTy → Type} [FloatOps F]

/-! ## The encoders as functions of arrays -/

/-- The slope of the leaky rectifier, as a rank-0 array. -/
def slopeArr : (⟨S_, .f32⟩ : BufTy).Contents (Elt F) := constant S_ .f32 0x3C23D70A#32

/-- The leaky rectifier on [4096,128]: `x` where `x ≥ 0`, else `c · x`. -/
def leaky4 (x : (⟨S4096x128, .f32⟩ : BufTy).Contents (Elt F)) (c : (⟨S_, .f32⟩ : BufTy).Contents (Elt F)) : (⟨S4096x128, .f32⟩ : BufTy).Contents (Elt F) :=
  select (cmpf .oge x (broadcastInDim S4096x128 ![] bcast_S_S4096x128 (constant S_ .f32 0x00000000#32))) x
    (mulf (broadcastInDim S4096x128 ![] bcast_S_S4096x128 (id c)) x)

/-- The leaky rectifier on [8192,128]. -/
def leaky8 (x : (⟨S8192x128, .f32⟩ : BufTy).Contents (Elt F)) (c : (⟨S_, .f32⟩ : BufTy).Contents (Elt F)) : (⟨S8192x128, .f32⟩ : BufTy).Contents (Elt F) :=
  select (cmpf .oge x (broadcastInDim S8192x128 ![] bcast_S_S8192x128 (constant S_ .f32 0x00000000#32))) x
    (mulf (broadcastInDim S8192x128 ![] bcast_S_S8192x128 (id c)) x)

/-- A bias vector [128] as a [4096,128] array: row `r`, column `j` is `b j`. -/
def bias4 (b : (⟨S128, .f32⟩ : BufTy).Contents (Elt F)) : (⟨S4096x128, .f32⟩ : BufTy).Contents (Elt F) :=
  broadcastInDim S4096x128 ![0, 1] bcast_S1x128_S4096x128_0_1 (broadcastInDim S1x128 ![1] bcast_S128_S1x128_1 b)

/-- A bias vector [128] as a [8192,128] array. -/
def bias8 (b : (⟨S128, .f32⟩ : BufTy).Contents (Elt F)) : (⟨S8192x128, .f32⟩ : BufTy).Contents (Elt F) :=
  broadcastInDim S8192x128 ![0, 1] bcast_S1x128_S8192x128_0_1 (broadcastInDim S1x128 ![1] bcast_S128_S1x128_1 b)

/-- The first encoder: `tanh (leaky (x · W₁ᵀ + b₁) · W₂ᵀ + b₂)` on [4096,64]. -/
def encA' (x : (⟨S4096x64, .f32⟩ : BufTy).Contents (Elt F)) (W1 : (⟨S128x64, .f32⟩ : BufTy).Contents (Elt F)) (b1 : (⟨S128, .f32⟩ : BufTy).Contents (Elt F)) (W2 : (⟨S128x128, .f32⟩ : BufTy).Contents (Elt F)) (b2 : (⟨S128, .f32⟩ : BufTy).Contents (Elt F)) :
    (⟨S4096x128, .f32⟩ : BufTy).Contents (Elt F) :=
  Host.tanh (addf (Host.dotGeneral dot_S4096x128_S128x128_S4096x128_1_0_0_1_n_n none
      (leaky4 (addf (Host.dotGeneral dot_S4096x64_S64x128_S4096x128_1_0_0_1_n_n none x (transpose S64x128 [1, 0] W1 transposes_S128x64_S64x128_1_0)) (bias4 b1)) slopeArr)
      (transpose S128x128 [1, 0] W2 transposes_S128x128_S128x128_1_0)) (bias4 b2))

/-- The second encoder: `tanh (leaky (x · W₁ᵀ + b₁) · W₂ᵀ + b₂)` on [8192,32]. -/
def encB' (x : (⟨S8192x32, .f32⟩ : BufTy).Contents (Elt F)) (W1 : (⟨S128x32, .f32⟩ : BufTy).Contents (Elt F)) (b1 : (⟨S128, .f32⟩ : BufTy).Contents (Elt F)) (W2 : (⟨S128x128, .f32⟩ : BufTy).Contents (Elt F)) (b2 : (⟨S128, .f32⟩ : BufTy).Contents (Elt F)) :
    (⟨S8192x128, .f32⟩ : BufTy).Contents (Elt F) :=
  Host.tanh (addf (Host.dotGeneral dot_S8192x128_S128x128_S8192x128_1_0_0_1_n_n none
      (leaky8 (addf (Host.dotGeneral dot_S8192x32_S32x128_S8192x128_1_0_0_1_n_n none x (transpose S32x128 [1, 0] W1 transposes_S128x32_S32x128_1_0)) (bias8 b1)) slopeArr)
      (transpose S128x128 [1, 0] W2 transposes_S128x128_S128x128_1_0)) (bias8 b2))

/-! ## The contents after the five stretches -/

/-- The buffers' contents after the five host stretches that precede the first region, from contents `V₀`. -/
abbrev U5 (V₀ : Valuation τ sig (Elt F)) : Valuation τ sig (Elt F) :=
  after hostOps0_4 (after hostOps0_3 (after hostOps0_2 (after hostOps0_1 (after hostOps0 V₀))))

set_option maxHeartbeats 2000000 in
/-- The initial node features are the first encoder of arguments 0, 4, 5, 6, 7. -/
theorem U5_v11 (V₀ : Valuation τ sig (Elt F)) :
    U5 V₀ (Proc.devRef .tc main_v11)
      = encA' (V₀ (Proc.devRef .tc main_arg0)) (V₀ (Proc.devRef .tc main_arg4)) (V₀ (Proc.devRef .tc main_arg5)) (V₀ (Proc.devRef .tc main_arg6)) (V₀ (Proc.devRef .tc main_arg7)) := by
  dsimp only [U5, hostOps0, hostOps0_1, hostOps0_2, hostOps0_3, hostOps0_4]
  after_results_simp
  rfl

set_option maxHeartbeats 2000000 in
/-- The edge features are the second encoder of arguments 1, 8, 9, 10, 11. -/
theorem U5_v23 (V₀ : Valuation τ sig (Elt F)) :
    U5 V₀ (Proc.devRef .tc main_v23)
      = encB' (V₀ (Proc.devRef .tc main_arg1)) (V₀ (Proc.devRef .tc main_arg8)) (V₀ (Proc.devRef .tc main_arg9)) (V₀ (Proc.devRef .tc main_arg10)) (V₀ (Proc.devRef .tc main_arg11)) := by
  dsimp only [U5, hostOps0, hostOps0_1, hostOps0_2, hostOps0_3, hostOps0_4]
  after_results_simp
  rfl

set_option maxHeartbeats 2000000 in
/-- The first converted incidence matrix is the format change of argument 2. -/
theorem U5_v24 (V₀ : Valuation τ sig (Elt F)) :
    U5 V₀ (Proc.devRef .tc main_v24) = truncf .bf16 (V₀ (Proc.devRef .tc main_arg2)) bitsLt_bf16_f32 := by
  dsimp only [U5, hostOps0, hostOps0_1, hostOps0_2, hostOps0_3, hostOps0_4]
  after_results_simp

set_option maxHeartbeats 2000000 in
/-- The second converted incidence matrix is the format change of argument 3. -/
theorem U5_v25 (V₀ : Valuation τ sig (Elt F)) :
    U5 V₀ (Proc.devRef .tc main_v25) = truncf .bf16 (V₀ (Proc.devRef .tc main_arg3)) bitsLt_bf16_f32 := by
  dsimp only [U5, hostOps0, hostOps0_1, hostOps0_2, hostOps0_3, hostOps0_4]
  after_results_simp

set_option maxHeartbeats 2000000 in
/-- The stack of layer weights, transposed on its last two axes. -/
theorem U5_v26 (V₀ : Valuation τ sig (Elt F)) :
    U5 V₀ (Proc.devRef .tc main_v26)
      = transpose S4x128x128 [0, 2, 1] (V₀ (Proc.devRef .tc main_arg12)) transposes_S4x128x128_S4x128x128_0_2_1 := by
  dsimp only [U5, hostOps0, hostOps0_1, hostOps0_2, hostOps0_3, hostOps0_4]
  after_results_simp

/-- … read at an index: entry `(l, k, j)` is argument 12's entry `(l, j, k)`. -/
theorem U5_v26_apply (V₀ : Valuation τ sig (Elt F)) (l : Fin 4) (k j : Fin 128) :
    (U5 V₀ (Proc.devRef .tc main_v26) : S4x128x128.Idx → F .f32) (ix3 l k j)
      = (V₀ (Proc.devRef .tc main_arg12) : S4x128x128.Idx → F .f32) (ix3 l j k) := by
  rw [U5_v26]
  exact transpose_ix3_021_apply _ _ l k j

end Cert.KernelIdeal.Hand

end
-- ==== Proof.KI.GlueLayer.lean ====
/-
  At the extended reals: what the regions are handed, in the network's own terms.

  The incidence matrices converted to the narrower format are the arguments themselves (a format change is the
  identity on extended reals). For each layer l, from any contents whose transposed stack is the one the first
  five stretches left and whose stacked biases are the argument's, the handed weight buffer's entry (k, j) is the
  stacked weights' entry (l, j, k) and the handed bias row's entry (0, j) is the stacked biases' entry (l, j): the
  two hypotheses under which the layer over the handed slices is the layer over the stacks.
-/
import proofs.«181597_j77979426226450_2_alg».proof.Proof.KI.GlueHost

set_option maxRecDepth 16384

noncomputable section

namespace Cert.KernelIdeal.Hand

open Cert.KernelIdeal Cert.KernelIdeal.Gen
open Idealize.ShloMosaic Idealize.ShloMosaic.TcCoe Idealize.ShloMosaic.StableHlo Idealize.ShloMosaic.ValueIdx
open Cert.Spec

/-- The first converted incidence matrix is argument 2, entry by entry the same extended real. -/
theorem U5_v24_ideal (V₀ : Valuation τ sig (Elt Ideal)) :
    (U5 V₀ (Proc.devRef .tc main_v24) : Arr2 4096 8192) = (V₀ (Proc.devRef .tc main_arg2) : Arr2 4096 8192) :=
  U5_v24 V₀

/-- The second converted incidence matrix is argument 3. -/
theorem U5_v25_ideal (V₀ : Valuation τ sig (Elt Ideal)) :
    (U5 V₀ (Proc.devRef .tc main_v25) : Arr2 4096 8192) = (V₀ (Proc.devRef .tc main_arg3) : Arr2 4096 8192) :=
  U5_v25 V₀

/-- Layer 0: the handed weights are the stacked weights' slice 0, transposed. -/
theorem hostOps1_hW (V₀ V : Valuation τ sig (Elt Ideal))
    (h26 : V (Proc.devRef .tc main_v26) = U5 V₀ (Proc.devRef .tc main_v26)) (k j : Fin 128) :
    (after hostOps1 V (Proc.devRef .tc main_v29) : Arr2 128 128) (ix2 k j)
      = (V₀ (Proc.devRef .tc main_arg12) : Arr3 4 128 128) (ix3 (0 : Fin 4) j k) :=
  (hostOps1_weight_apply V k j).trans ((congrFun h26 (ix3 (0 : Fin 4) k j)).trans (U5_v26_apply V₀ 0 k j))

/-- Layer 0: the handed bias row is the stacked biases' row 0. -/
theorem hostOps1_hb (V₀ V : Valuation τ sig (Elt Ideal))
    (h13 : V (Proc.devRef .tc main_arg13) = V₀ (Proc.devRef .tc main_arg13)) (j : Fin 128) :
    (after hostOps1 V (Proc.devRef .tc main_v32) : Arr2 1 128) (ix2 (0 : Fin 1) j)
      = (V₀ (Proc.devRef .tc main_arg13) : Arr2 4 128) (ix2 (0 : Fin 4) j) :=
  (hostOps1_bias_apply V j).trans (congrFun h13 (ix2 (0 : Fin 4) j))

/-- Layer 0 over the handed slices is layer 0 over the stacks. -/
theorem hostOps1_layer (V₀ V : Valuation τ sig (Elt Ideal))
    (h26 : V (Proc.devRef .tc main_v26) = U5 V₀ (Proc.devRef .tc main_v26))
    (h13 : V (Proc.devRef .tc main_arg13) = V₀ (Proc.devRef .tc main_arg13)) (R : Arr2 4096 128) :
    nodeLayerT (after hostOps1 V (Proc.devRef .tc main_v29) : Arr2 128 128) (after hostOps1 V (Proc.devRef .tc main_v32) : Arr2 1 128) R
      = nodeLayer (V₀ (Proc.devRef .tc main_arg12) : Arr3 4 128 128) (V₀ (Proc.devRef .tc main_arg13) : Arr2 4 128) (0 : Fin 4) R :=
  nodeLayerT_eq _ _ (0 : Fin 4) _ _ (hostOps1_hW V₀ V h26) (hostOps1_hb V₀ V h13) R

/-- Layer 1: the handed weights are the stacked weights' slice 1, transposed. -/
theorem hostOps3_hW (V₀ V : Valuation τ sig (Elt Ideal))
    (h26 : V (Proc.devRef .tc main_v26) = U5 V₀ (Proc.devRef .tc main_v26)) (k j : Fin 128) :
    (after hostOps3 V (Proc.devRef .tc main_v36) : Arr2 128 128) (ix2 k j)
      = (V₀ (Proc.devRef .tc main_arg12) : Arr3 4 128 128) (ix3 (1 : Fin 4) j k) :=
  (hostOps3_weight_apply V k j).trans ((congrFun h26 (ix3 (1 : Fin 4) k j)).trans (U5_v26_apply V₀ 1 k j))

/-- Layer 1: the handed bias row is the stacked biases' row 1. -/
theorem hostOps3_hb (V₀ V : Valuation τ sig (Elt Ideal))
    (h13 : V (Proc.devRef .tc main_arg13) = V₀ (Proc.devRef .tc main_arg13)) (j : Fin 128) :
    (after hostOps3 V (Proc.devRef .tc main_v39) : Arr2 1 128) (ix2 (0 : Fin 1) j)
      = (V₀ (Proc.devRef .tc main_arg13) : Arr2 4 128) (ix2 (1 : Fin 4) j) :=
  (hostOps3_bias_apply V j).trans (congrFun h13 (ix2 (1 : Fin 4) j))

/-- Layer 1 over the handed slices is layer 1 over the stacks. -/
theorem hostOps3_layer (V₀ V : Valuation τ sig (Elt Ideal))
    (h26 : V (Proc.devRef .tc main_v26) = U5 V₀ (Proc.devRef .tc main_v26))
    (h13 : V (Proc.devRef .tc main_arg13) = V₀ (Proc.devRef .tc main_arg13)) (R : Arr2 4096 128) :
    nodeLayerT (after hostOps3 V (Proc.devRef .tc main_v36) : Arr2 128 128) (after hostOps3 V (Proc.devRef .tc main_v39) : Arr2 1 128) R
      = nodeLayer (V₀ (Proc.devRef .tc main_arg12) : Arr3 4 128 128) (V₀ (Proc.devRef .tc main_arg13) : Arr2 4 128) (1 : Fin 4) R :=
  nodeLayerT_eq _ _ (1 : Fin 4) _ _ (hostOps3_hW V₀ V h26) (hostOps3_hb V₀ V h13) R

/-- Layer 2: the handed weights are the stacked weights' slice 2, transposed. -/
theorem hostOps5_hW (V₀ V : Valuation τ sig (Elt Ideal))
    (h26 : V (Proc.devRef .tc main_v26) = U5 V₀ (Proc.devRef .tc main_v26)) (k j : Fin 128) :
    (after hostOps5 V (Proc.devRef .tc main_v43) : Arr2 128 128) (ix2 k j)
      = (V₀ (Proc.devRef .tc main_arg12) : Arr3 4 128 128) (ix3 (2 : Fin 4) j k) :=
  (hostOps5_weight_apply V k j).trans ((congrFun h26 (ix3 (2 : Fin 4) k j)).trans (U5_v26_apply V₀ 2 k j))

/-- Layer 2: the handed bias row is the stacked biases' row 2. -/
theorem hostOps5_hb (V₀ V : Valuation τ sig (Elt Ideal))
    (h13 : V (Proc.devRef .tc main_arg13) = V₀ (Proc.devRef .tc main_arg13)) (j : Fin 128) :
    (after hostOps5 V (Proc.devRef .tc main_v46) : Arr2 1 128) (ix2 (0 : Fin 1) j)
      = (V₀ (Proc.devRef .tc main_arg13) : Arr2 4 128) (ix2 (2 : Fin 4) j) :=
  (hostOps5_bias_apply V j).trans (congrFun h13 (ix2 (2 : Fin 4) j))

/-- Layer 2 over the handed slices is layer 2 over the stacks. -/
theorem hostOps5_layer (V₀ V : Valuation τ sig (Elt Ideal))
    (h26 : V (Proc.devRef .tc main_v26) = U5 V₀ (Proc.devRef .tc main_v26))
    (h13 : V (Proc.devRef .tc main_arg13) = V₀ (Proc.devRef .tc main_arg13)) (R : Arr2 4096 128) :
    nodeLayerT (after hostOps5 V (Proc.devRef .tc main_v43) : Arr2 128 128) (after hostOps5 V (Proc.devRef .tc main_v46) : Arr2 1 128) R
      = nodeLayer (V₀ (Proc.devRef .tc main_arg12) : Arr3 4 128 128) (V₀ (Proc.devRef .tc main_arg13) : Arr2 4 128) (2 : Fin 4) R :=
  nodeLayerT_eq _ _ (2 : Fin 4) _ _ (hostOps5_hW V₀ V h26) (hostOps5_hb V₀ V h13) R

/-- Layer 3: the handed weights are the stacked weights' slice 3, transposed. -/
theorem hostOps7_hW (V₀ V : Valuation τ sig (Elt Ideal))
    (h26 : V (Proc.devRef .tc main_v26) = U5 V₀ (Proc.devRef .tc main_v26)) (k j : Fin 128) :
    (after hostOps7 V (Proc.devRef .tc main_v50) : Arr2 128 128) (ix2 k j)
      = (V₀ (Proc.devRef .tc main_arg12) : Arr3 4 128 128) (ix3 (3 : Fin 4) j k) :=
  (hostOps7_weight_apply V k j).trans ((congrFun h26 (ix3 (3 : Fin 4) k j)).trans (U5_v26_apply V₀ 3 k j))

/-- Layer 3: the handed bias row is the stacked biases' row 3. -/
theorem hostOps7_hb (V₀ V : Valuation τ sig (Elt Ideal))
    (h13 : V (Proc.devRef .tc main_arg13) = V₀ (Proc.devRef .tc main_arg13)) (j : Fin 128) :
    (after hostOps7 V (Proc.devRef .tc main_v53) : Arr2 1 128) (ix2 (0 : Fin 1) j)
      = (V₀ (Proc.devRef .tc main_arg13) : Arr2 4 128) (ix2 (3 : Fin 4) j) :=
  (hostOps7_bias_apply V j).trans (congrFun h13 (ix2 (3 : Fin 4) j))

/-- Layer 3 over the handed slices is layer 3 over the stacks. -/
theorem hostOps7_layer (V₀ V : Valuation τ sig (Elt Ideal))
    (h26 : V (Proc.devRef .tc main_v26) = U5 V₀ (Proc.devRef .tc main_v26))
    (h13 : V (Proc.devRef .tc main_arg13) = V₀ (Proc.devRef .tc main_arg13)) (R : Arr2 4096 128) :
    nodeLayerT (after hostOps7 V (Proc.devRef .tc main_v50) : Arr2 128 128) (after hostOps7 V (Proc.devRef .tc main_v53) : Arr2 1 128) R
      = nodeLayer (V₀ (Proc.devRef .tc main_arg12) : Arr3 4 128 128) (V₀ (Proc.devRef .tc main_arg13) : Arr2 4 128) (3 : Fin 4) R :=
  nodeLayerT_eq _ _ (3 : Fin 4) _ _ (hostOps7_hW V₀ V h26) (hostOps7_hb V₀ V h13) R

end Cert.KernelIdeal.Hand

end
-- ==== Proof.LibRealValued.lean ====
/-
  Real-valued arrays on the extended reals.

  At the ideal reading a float is an extended real, and the laws that join two arrangements of one
  computation (a factor moved across a sum, a variance computed two ways) hold for REAL entries only.
  A precondition says that the INPUTS are real; this module carries that fact through the host
  operations of a program, so that an intermediate array — a normalised adjacency, a propagated
  embedding, a projected feature matrix — is known to be real without ever being read at an index.

  * `IsReal x`, `IsNonneg x`, `IsPos x`: the extended real `x` is (the coercion of) a real, a real `≥ 0`,
    a real `> 0`; closed under `+`, `-`, `*`, `max`, finite sums, the quotient by a nonzero real; a
    nonnegative plus a positive is positive; the reciprocal square root of a positive is positive.
  * `AllReal v`, `AllNonneg v`, `AllPos v`: every entry is. Preserved by re-indexing (hence by
    `gather`, `broadcast_in_dim`, `slice`, `reshape`), by `pad`, by the pointwise operations, by the host's
    accumulating scatter (the exact sum of the colliding updates), by `dot_general` and by a float sum.
  * `AllReal.exists_real`: a real-valued array IS the coercion of an array of reals.
-/
import Idealize.ShloMosaic.PureOps.Ideal
import Idealize.ShloMosaic.PureOps.Contract
import Mathlib.Tactic

noncomputable section

namespace Cert.Lib.RealValued

open Idealize.ShloMosaic

/-! ## One extended real -/

/-- `x` is a real number. -/
def IsReal (x : EReal) : Prop := ∃ r : ℝ, x = (r : EReal)
/-- `x` is a real number `≥ 0`. -/
def IsNonneg (x : EReal) : Prop := ∃ r : ℝ, 0 ≤ r ∧ x = (r : EReal)
/-- `x` is a real number `> 0`. -/
def IsPos (x : EReal) : Prop := ∃ r : ℝ, 0 < r ∧ x = (r : EReal)

theorem IsPos.isNonneg {x : EReal} (h : IsPos x) : IsNonneg x := let ⟨r, hr, e⟩ := h; ⟨r, hr.le, e⟩
theorem IsNonneg.isReal {x : EReal} (h : IsNonneg x) : IsReal x := let ⟨r, _, e⟩ := h; ⟨r, e⟩
theorem IsPos.isReal {x : EReal} (h : IsPos x) : IsReal x := h.isNonneg.isReal

namespace IsReal

theorem coe (r : ℝ) : IsReal (r : EReal) := ⟨r, rfl⟩
theorem zero : IsReal (0 : EReal) := ⟨0, EReal.coe_zero.symm⟩
theorem one : IsReal (1 : EReal) := ⟨1, EReal.coe_one.symm⟩

theorem add {x y : EReal} (hx : IsReal x) (hy : IsReal y) : IsReal (x + y) := by
  obtain ⟨a, rfl⟩ := hx; obtain ⟨b, rfl⟩ := hy; exact ⟨a + b, (EReal.coe_add a b).symm⟩
theorem sub {x y : EReal} (hx : IsReal x) (hy : IsReal y) : IsReal (x - y) := by
  obtain ⟨a, rfl⟩ := hx; obtain ⟨b, rfl⟩ := hy; exact ⟨a - b, (EReal.coe_sub a b).symm⟩
theorem mul {x y : EReal} (hx : IsReal x) (hy : IsReal y) : IsReal (x * y) := by
  obtain ⟨a, rfl⟩ := hx; obtain ⟨b, rfl⟩ := hy; exact ⟨a * b, (EReal.coe_mul a b).symm⟩
theorem neg {x : EReal} (hx : IsReal x) : IsReal (-x) := by
  obtain ⟨a, rfl⟩ := hx; exact ⟨-a, (EReal.coe_neg a).symm⟩
theorem max {x y : EReal} (hx : IsReal x) (hy : IsReal y) : IsReal (max x y) := by
  obtain ⟨a, rfl⟩ := hx; obtain ⟨b, rfl⟩ := hy
  exact ⟨Max.max a b, (EReal.coe_strictMono.monotone.map_max (a := a) (b := b)).symm⟩

/-- A finite sum of reals is a real. -/
theorem sum {ι : Type*} (s : Finset ι) (f : ι → EReal) (h : ∀ i ∈ s, IsReal (f i)) : IsReal (∑ i ∈ s, f i) := by
  classical
  induction s using Finset.induction_on with
  | empty => rw [Finset.sum_empty]; exact zero
  | insert a s ha ih =>
    rw [Finset.sum_insert ha]
    exact (h a (Finset.mem_insert_self a s)).add (ih fun i hi => h i (Finset.mem_insert_of_mem hi))

/-- The quotient of a real by a nonzero real constant is a real. -/
theorem div_coe {x : EReal} (hx : IsReal x) {n : ℝ} (hn : n ≠ 0) : IsReal (Ideal.div x (n : EReal)) := by
  rw [Ideal.div_coe hn]; exact hx.mul (coe _)

theorem ne_top {x : EReal} (hx : IsReal x) : x ≠ ⊤ := by obtain ⟨a, rfl⟩ := hx; exact EReal.coe_ne_top a
theorem ne_bot {x : EReal} (hx : IsReal x) : x ≠ ⊥ := by obtain ⟨a, rfl⟩ := hx; exact EReal.coe_ne_bot a

end IsReal

namespace IsNonneg

theorem zero : IsNonneg (0 : EReal) := ⟨0, le_rfl, EReal.coe_zero.symm⟩
theorem add {x y : EReal} (hx : IsNonneg x) (hy : IsNonneg y) : IsNonneg (x + y) := by
  obtain ⟨a, ha, rfl⟩ := hx; obtain ⟨b, hb, rfl⟩ := hy; exact ⟨a + b, add_nonneg ha hb, (EReal.coe_add a b).symm⟩
theorem mul {x y : EReal} (hx : IsNonneg x) (hy : IsNonneg y) : IsNonneg (x * y) := by
  obtain ⟨a, ha, rfl⟩ := hx; obtain ⟨b, hb, rfl⟩ := hy; exact ⟨a * b, mul_nonneg ha hb, (EReal.coe_mul a b).symm⟩
/-- A nonnegative real plus a positive one is positive (a degree count plus the self loop). -/
theorem add_pos {x y : EReal} (hx : IsNonneg x) (hy : IsPos y) : IsPos (x + y) := by
  obtain ⟨a, ha, rfl⟩ := hx; obtain ⟨b, hb, rfl⟩ := hy
  exact ⟨a + b, add_pos_of_nonneg_of_pos ha hb, (EReal.coe_add a b).symm⟩
theorem sum {ι : Type*} (s : Finset ι) (f : ι → EReal) (h : ∀ i ∈ s, IsNonneg (f i)) : IsNonneg (∑ i ∈ s, f i) := by
  classical
  induction s using Finset.induction_on with
  | empty => rw [Finset.sum_empty]; exact zero
  | insert a s ha ih =>
    rw [Finset.sum_insert ha]
    exact (h a (Finset.mem_insert_self a s)).add (ih fun i hi => h i (Finset.mem_insert_of_mem hi))

end IsNonneg

namespace IsPos

theorem one : IsPos (1 : EReal) := ⟨1, one_pos, EReal.coe_one.symm⟩
theorem mul {x y : EReal} (hx : IsPos x) (hy : IsPos y) : IsPos (x * y) := by
  obtain ⟨a, ha, rfl⟩ := hx; obtain ⟨b, hb, rfl⟩ := hy; exact ⟨a * b, mul_pos ha hb, (EReal.coe_mul a b).symm⟩
/-- The reciprocal square root of a positive real is a positive real (no corner of `rsqrt` is met). -/
theorem rsqrt {x : EReal} (hx : IsPos x) : IsPos (Ideal.rsqrt x) := by
  obtain ⟨r, hr, rfl⟩ := hx
  rw [Ideal.rsqrt_coe, if_neg (not_lt.2 hr.le), if_neg hr.ne']
  exact ⟨_, inv_pos.2 (Real.sqrt_pos.2 hr), rfl⟩

end IsPos

/-! ## Arrays -/

/-- Every entry is a real. -/
def AllReal {ι : Type*} (v : ι → EReal) : Prop := ∀ i, IsReal (v i)
/-- Every entry is a real `≥ 0`. -/
def AllNonneg {ι : Type*} (v : ι → EReal) : Prop := ∀ i, IsNonneg (v i)
/-- Every entry is a real `> 0`. -/
def AllPos {ι : Type*} (v : ι → EReal) : Prop := ∀ i, IsPos (v i)

theorem AllPos.allNonneg {ι : Type*} {v : ι → EReal} (h : AllPos v) : AllNonneg v := fun i => (h i).isNonneg
theorem AllNonneg.allReal {ι : Type*} {v : ι → EReal} (h : AllNonneg v) : AllReal v := fun i => (h i).isReal
theorem AllPos.allReal {ι : Type*} {v : ι → EReal} (h : AllPos v) : AllReal v := fun i => (h i).isReal

/-- A real-valued array is the coercion of an array of reals. -/
theorem AllReal.exists_real {ι : Type*} {v : ι → EReal} (h : AllReal v) : ∃ r : ι → ℝ, v = fun i => (r i : EReal) :=
  ⟨fun i => (h i).choose, funext fun i => (h i).choose_spec⟩

/-- Any re-indexing of a real-valued array is real-valued. -/
theorem AllReal.reindex {ι κ : Type*} {v : ι → EReal} (h : AllReal v) (g : κ → ι) : AllReal (fun j => v (g j)) :=
  fun j => h (g j)
theorem AllNonneg.reindex {ι κ : Type*} {v : ι → EReal} (h : AllNonneg v) (g : κ → ι) : AllNonneg (fun j => v (g j)) :=
  fun j => h (g j)
theorem AllPos.reindex {ι κ : Type*} {v : ι → EReal} (h : AllPos v) (g : κ → ι) : AllPos (fun j => v (g j)) :=
  fun j => h (g j)

section Ops

variable {s t : Shape} {φ : FTy}

/-! ### Pointwise operations -/

theorem AllReal.addf {x y : FVec Ideal s φ} (hx : AllReal x) (hy : AllReal y) : AllReal (addf x y) :=
  fun i => (hx i).add (hy i)
theorem AllReal.subf {x y : FVec Ideal s φ} (hx : AllReal x) (hy : AllReal y) : AllReal (subf x y) :=
  fun i => (hx i).sub (hy i)
theorem AllReal.mulf {x y : FVec Ideal s φ} (hx : AllReal x) (hy : AllReal y) : AllReal (mulf x y) :=
  fun i => (hx i).mul (hy i)
theorem AllReal.maximumf {x y : FVec Ideal s φ} (hx : AllReal x) (hy : AllReal y) : AllReal (maximumf x y) :=
  fun i => (hx i).max (hy i)
theorem AllNonneg.add_pos {x y : FVec Ideal s φ} (hx : AllNonneg x) (hy : AllPos y) : AllPos (Idealize.ShloMosaic.addf x y) :=
  fun i => (hx i).add_pos (hy i)
theorem AllPos.mulf {x y : FVec Ideal s φ} (hx : AllPos x) (hy : AllPos y) : AllPos (Idealize.ShloMosaic.mulf x y) :=
  fun i => (hx i).mul (hy i)
/-- The host's reciprocal square root of a positive array is positive. -/
theorem AllPos.hostRsqrt {x : FVec Ideal s φ} (hx : AllPos x) : AllPos (Host.rsqrt x) :=
  fun i => (hx i).rsqrt
/-- The host's quotient by a splat nonzero real constant. -/
theorem AllReal.hostDivf_const {x y : FVec Ideal s φ} (hx : AllReal x) {n : ℝ} (hn : n ≠ 0) (hy : ∀ i, y i = (n : EReal)) :
    AllReal (Host.divf x y) :=
  fun i => by
    show IsReal (Ideal.div (x i) (y i))
    rw [hy i]; exact (hx i).div_coe hn

/-! ### Layout operations -/

theorem AllReal.broadcastInDim {x : s.Idx → EReal} (hx : AllReal x) (dims : Fin s.rank → Fin t.rank)
    (h : s.BroadcastsInDim t dims) : AllReal (broadcastInDim t dims h x) := fun _ => hx _
theorem AllPos.broadcastInDim {x : s.Idx → EReal} (hx : AllPos x) (dims : Fin s.rank → Fin t.rank)
    (h : s.BroadcastsInDim t dims) : AllPos (Idealize.ShloMosaic.broadcastInDim t dims h x) := fun _ => hx _
theorem AllReal.extractStridedSlice {x : s.Idx → EReal} (hx : AllReal x) (off : Fin s.rank → Nat) (h : s.Slices off t) :
    AllReal (extractStridedSlice t off x h) := fun _ => hx _
theorem AllReal.shapeCast {x : s.Idx → EReal} (hx : AllReal x) (h : s.ShapeCasts t) :
    AllReal (shapeCast t x h) := fun _ => hx _
/-- A padded array is real-valued when the array and the padding value are. -/
theorem AllReal.pad {x : s.Idx → EReal} (hx : AllReal x) (lo hi interior : Fin s.rank → Nat) {u : Shape} {v : u.Idx → EReal}
    (hv : AllReal v) (h : s.Pads lo hi interior t) (hu : 0 < u.numel) : AllReal (pad t lo hi interior x v h hu) := fun j => by
  unfold Idealize.ShloMosaic.pad
  split_ifs
  · exact hx _
  · exact hv _

/-! ### Gather, scatter-add, contraction, sum -/

/-- A gather reads entries of its operand. -/
theorem AllReal.gather {si : Shape} {w : Nat} {x : s.Idx → EReal} (hx : AllReal x) (d : GatherDims s si t) (idx : IVec si w) :
    AllReal (Host.gather d x idx) := fun _ => hx _
theorem AllPos.gather {si : Shape} {w : Nat} {x : s.Idx → EReal} (hx : AllPos x) (d : GatherDims s si t) (idx : IVec si w) :
    AllPos (Host.gather d x idx) := fun _ => hx _

/-- The host's accumulating scatter at the ideal reading is each operand entry plus the exact sum of the updates
    landing on it: real-valued when operand and updates are, wherever the indices point. -/
theorem AllReal.scatterAdd {si u : Shape} {w : Nat} (d : ScatterDims s si u) {x : FVec Ideal s φ} (hx : AllReal x)
    (idx : IVec si w) {upd : FVec Ideal u φ} (hu : AllReal upd) : AllReal (Host.scatterAdd d x idx upd) := fun i => by
  show IsReal (x i + ∑ j ∈ Finset.univ.filter (fun j => d.resultIdx? j idx = some i), upd j)
  exact (hx i).add (IsReal.sum _ _ fun j _ => hu j)
/-- … and nonnegative when both are (a degree count). -/
theorem AllNonneg.scatterAdd {si u : Shape} {w : Nat} (d : ScatterDims s si u) {x : FVec Ideal s φ} (hx : AllNonneg x)
    (idx : IVec si w) {upd : FVec Ideal u φ} (hu : AllNonneg upd) : AllNonneg (Host.scatterAdd d x idx upd) := fun i => by
  show IsNonneg (x i + ∑ j ∈ Finset.univ.filter (fun j => d.resultIdx? j idx = some i), upd j)
  exact (hx i).add (IsNonneg.sum _ _ fun j _ => hu j)

/-- The host's `dot_general` of real-valued operands is real-valued: a finite sum of products. -/
theorem AllReal.dotGeneral {sl sr so : Shape} {φ₁ φ₂ : FTy} (d : DotDims sl sr so) (prec : Option ContractPrecision)
    {l : FVec Ideal sl φ₁} (hl : AllReal l) {r : FVec Ideal sr φ₂} (hr : AllReal r) :
    AllReal (Host.dotGeneral d prec l r) := fun j => by
  show IsReal ((0 : EReal) + ∑ k : d.contr.Idx, l (d.lhsIdx j k) * r (d.rhsIdx j k))
  exact IsReal.zero.add (IsReal.sum _ _ fun k _ => (hl _).mul (hr _))

/-- The host's float sum of a real-valued array from a real initial value is real-valued. -/
theorem AllReal.reduceAdd {axes : List (Fin s.rank)} {u : Shape} {x : FVec Ideal s φ} (hx : AllReal x)
    {init : u.Idx → Ideal φ} (hi : AllReal init) (h : s.ReducesTo axes t) (hu : 0 < u.numel) :
    AllReal (Host.reduceAdd x init h hu) := fun j => by
  show IsReal (init (Shape.Idx.first hu) + ∑ i ∈ Finset.univ.filter (fun i => h.drop i = j), x i)
  exact (hi _).add (IsReal.sum _ _ fun i _ => hx i)

end Ops

end Cert.Lib.RealValued

end
-- ==== Proof.KI.GlueRealSpec.lean ====
/-
  Real-valued arrays through the network's stages.

  A sum or a product of reals is a real, the maximum of a real with zero is a real, and the leaky activation of a
  real is a real (its slope is a real number: a finite pattern). Hence every stage of the network — the edge
  update, the node residual, a node layer in either form, a whole layer, the four layers composed, the final edge
  output — maps real-valued arrays to real-valued arrays.
-/
import proofs.«181597_j77979426226450_2_alg».proof.Proof.Spec
import proofs.«181597_j77979426226450_2_alg».proof.Proof.LibRealValued

noncomputable section

namespace Cert.KernelIdeal.Hand

open Idealize.ShloMosaic Idealize.ShloMosaic.ValueIdx
open Cert.Spec Cert.Lib.RealValued

/-- The two notions of a real-valued array are one. -/
theorem allReal_iff {S : Shape} (x : S.Idx → EReal) : Cert.Spec.AllReal x ↔ Cert.Lib.RealValued.AllReal x := Iff.rfl

/-- An entry of a real-valued array is a real. -/
theorem AllReal.at {S : Shape} {x : S.Idx → EReal} (h : Cert.Spec.AllReal x) (i : S.Idx) : IsReal (x i) := h i

/-- The slope of the leaky activation is a real number. -/
theorem slope_isReal : IsReal Cert.Spec.slope := by
  unfold Cert.Spec.slope Ideal.ofBits Ideal.ieee
  dsimp only
  rw [if_neg (by decide), if_neg (by decide)]
  exact ⟨_, rfl⟩

/-- The leaky activation of a real is a real. -/
theorem act_isReal {x : EReal} (h : IsReal x) : IsReal (act x) := by
  unfold act
  split_ifs
  · exact h
  · exact slope_isReal.mul h

/-- A contraction over the first axis of two real-valued matrices is a real. -/
theorem mmT_isReal {K M N : Nat} {A : Arr2 K M} {B : Arr2 K N} (hA : Cert.Spec.AllReal A) (hB : Cert.Spec.AllReal B)
    (e : Fin M) (j : Fin N) : IsReal (mmT A B e j) :=
  IsReal.sum _ _ fun v _ => (AllReal.at hA (ix2 v e)).mul (AllReal.at hB (ix2 v j))

/-- A matrix product of two real-valued matrices is a real. -/
theorem mm_isReal {M K N : Nat} {A : Arr2 M K} {B : Arr2 K N} (hA : Cert.Spec.AllReal A) (hB : Cert.Spec.AllReal B)
    (p : Fin M) (j : Fin N) : IsReal (mm A B p j) :=
  IsReal.sum _ _ fun e _ => (AllReal.at hA (ix2 p e)).mul (AllReal.at hB (ix2 e j))

/-- The edge update of real-valued arrays is real-valued. -/
theorem allReal_edgeUpd {A2 : Arr2 4096 8192} {hv : Arr2 4096 128} {he : Arr2 8192 128}
    (hA2 : Cert.Spec.AllReal A2) (hhv : Cert.Spec.AllReal hv) (hhe : Cert.Spec.AllReal he) :
    Cert.Spec.AllReal (edgeUpd A2 hv he) :=
  fun i => ((AllReal.at hhe _).add (mmT_isReal hA2 hhv (i 0) (i 1))).max IsReal.zero

/-- The node residual of real-valued arrays is real-valued. -/
theorem allReal_nodeRes {A1 : Arr2 4096 8192} {hv : Arr2 4096 128} {X : Arr2 8192 128}
    (hA1 : Cert.Spec.AllReal A1) (hhv : Cert.Spec.AllReal hv) (hX : Cert.Spec.AllReal X) :
    Cert.Spec.AllReal (nodeRes A1 hv X) :=
  fun i => (AllReal.at hhv _).add (mm_isReal hA1 hX (i 0) (i 1))

/-- A node layer over the transposed weight slice and the bias row, of real-valued arrays, is real-valued. -/
theorem allReal_nodeLayerT {Wt : Arr2 128 128} {bias : Arr2 1 128} {R : Arr2 4096 128}
    (hWt : Cert.Spec.AllReal Wt) (hbias : Cert.Spec.AllReal bias) (hR : Cert.Spec.AllReal R) :
    Cert.Spec.AllReal (nodeLayerT Wt bias R) :=
  fun i => act_isReal ((IsReal.sum _ _ fun k _ => (AllReal.at hR (ix2 (i 0) k)).mul (AllReal.at hWt (ix2 k (i 1)))).add (AllReal.at hbias _))

/-- A node layer over the stacked weights and biases, of real-valued arrays, is real-valued. -/
theorem allReal_nodeLayer {W : Arr3 4 128 128} {b : Arr2 4 128} (l : Fin 4) {R : Arr2 4096 128}
    (hW : Cert.Spec.AllReal W) (hb : Cert.Spec.AllReal b) (hR : Cert.Spec.AllReal R) :
    Cert.Spec.AllReal (nodeLayer W b l R) :=
  fun i => act_isReal ((IsReal.sum _ _ fun k _ => (AllReal.at hR (ix2 (i 0) k)).mul (AllReal.at hW (ix3 l (i 1) k))).add (AllReal.at hb _))

/-- One whole message-passing layer keeps the node features real-valued. -/
theorem allReal_layer {A1 A2 : Arr2 4096 8192} {W : Arr3 4 128 128} {b : Arr2 4 128} {he : Arr2 8192 128} (l : Fin 4)
    {hv : Arr2 4096 128} (hA1 : Cert.Spec.AllReal A1) (hA2 : Cert.Spec.AllReal A2) (hW : Cert.Spec.AllReal W)
    (hb : Cert.Spec.AllReal b) (hhe : Cert.Spec.AllReal he) (hhv : Cert.Spec.AllReal hv) :
    Cert.Spec.AllReal (layer A1 A2 W b he l hv) :=
  allReal_nodeLayer l hW hb (allReal_nodeRes hA1 hhv (allReal_edgeUpd hA2 hhv hhe))

/-- The node features after the four layers are real-valued. -/
theorem allReal_hvOut {A1 A2 : Arr2 4096 8192} {W : Arr3 4 128 128} {b : Arr2 4 128} {he : Arr2 8192 128}
    {hv0 : Arr2 4096 128} (hA1 : Cert.Spec.AllReal A1) (hA2 : Cert.Spec.AllReal A2) (hW : Cert.Spec.AllReal W)
    (hb : Cert.Spec.AllReal b) (hhe : Cert.Spec.AllReal he) (hhv : Cert.Spec.AllReal hv0) :
    Cert.Spec.AllReal (hvOut A1 A2 W b he hv0) :=
  allReal_layer 3 hA1 hA2 hW hb hhe (allReal_layer 2 hA1 hA2 hW hb hhe (allReal_layer 1 hA1 hA2 hW hb hhe
    (allReal_layer 0 hA1 hA2 hW hb hhe hhv)))

/-- The final edge output of real-valued arrays is real-valued. -/
theorem allReal_heOut {A1 A2 : Arr2 4096 8192} {hv : Arr2 4096 128} {he : Arr2 8192 128}
    (hA1 : Cert.Spec.AllReal A1) (hA2 : Cert.Spec.AllReal A2) (hhv : Cert.Spec.AllReal hv) (hhe : Cert.Spec.AllReal he) :
    Cert.Spec.AllReal (heOut A1 A2 hv he) := fun i => by
  unfold heOut
  dsimp only
  split_ifs
  · exact mmT_isReal hA1 hhv _ _
  · exact mmT_isReal hA2 hhv _ _
  · exact AllReal.at hhe _

end Cert.KernelIdeal.Hand

end
-- ==== Proof.LibFiniteTest.lean ====
/-
  The precondition "every float input is finite", read back.

  A precondition `jnp.all(jnp.abs(x) < inf)` prints as: the absolute value of the array, compared `<`
  entry by entry with the splat of the pattern of `+∞`, the `i1` results reduced by `and` from `1` over
  all axes. At the ideal reading `|x| = max x (−x)`, the pattern `0x7F800000` denotes `⊤`, and `max x (−x) < ⊤`
  holds exactly of the real numbers (for `⊥` the maximum is `⊤` too). So a test that came out `1` says
  every entry is a real.

  * `ofBits_inf`            the f32 pattern `0x7F800000` denotes `⊤`;
  * `lt_of_cmp_olt`         an ordered `<` comparison that answered `1` is the order's `<`;
  * `isReal_of_abs_lt_top`  `max x (−x) < ⊤` makes `x` a real;
  * `isReal_of_test`        one entry's printed test;
  * `allReal_of_all`        the whole printed conjunct: `jnp.all(jnp.abs(x) < inf) = 1` makes `x` real-valued.
-/
import Idealize.ShloMosaic.Lib.ReduceAll
import Idealize.ShloMosaic.PureOps.Ideal
import proofs.«181597_j77979426226450_2_alg».proof.Proof.LibRealValued

noncomputable section

namespace Cert.Lib.FiniteTest

open Idealize.ShloMosaic Cert.Lib.RealValued

/-- The f32 pattern of `+∞` denotes `⊤`. -/
theorem ofBits_inf : Ideal.ofBits .f32 0x7F800000#32 = (⊤ : EReal) := by
  simp [Ideal.ofBits, Ideal.ieee]

/-- An ordered `<` that answered `1` is `<`. -/
theorem lt_of_cmp_olt {a b : EReal} (h : Ideal.cmp .olt a b = 1#1) : a < b := by
  unfold Ideal.cmp at h
  by_contra hn
  simp [hn] at h

/-- An extended real whose absolute value is below `⊤` is a real. -/
theorem isReal_of_abs_lt_top {x : EReal} (h : max x (-x) < ⊤) : IsReal x := by
  induction x using EReal.rec with
  | bot => simp at h
  | coe r => exact ⟨r, rfl⟩
  | top => simp at h

/-- One entry's test, as printed: `|x| < +∞` answered `1`. -/
theorem isReal_of_test {x : EReal}
    (h : Ideal.cmp .olt (max x (-x)) (Ideal.ofBits .f32 0x7F800000#32) = 1#1) : IsReal x := by
  rw [ofBits_inf] at h
  exact isReal_of_abs_lt_top (lt_of_cmp_olt h)

/-- The printed conjunct of one input: the `and`-reduction over all axes of `|x| < +∞` (the bound a splat of the
    pattern of `+∞` from any constant shape) is `1`; then every entry of `x` is a real. -/
theorem allReal_of_all {s t u c : Shape} [Subsingleton t.Idx] {axes : List (Fin s.rank)} (x : FVec Ideal s .f32)
    (init : u.Idx → BitVec 1) (h : s.ReducesTo axes t) (hu : 0 < u.numel)
    (dims : Fin c.rank → Fin s.rank) (hb : c.BroadcastsInDim s dims) (j : t.Idx)
    (e : Host.reduce IntOp.andi (cmpf .olt (Host.absf x) (broadcastInDim s dims hb (constant c .f32 0x7F800000#32))) init h hu j = 1#1) :
    AllReal x := fun i =>
  isReal_of_test (Host.reduce_andi_all _ init h hu j e i)

end Cert.Lib.FiniteTest

end
-- ==== Proof.KI.GlueRealPre.lean ====
/-
  The precondition read back: every argument array is real-valued.

  The precondition says that, of every float argument x, the test "every entry of |x| is below +∞" came out true, all
  fourteen tests joined by `and`. At the extended reals an entry whose absolute value is below +∞ is a real number,
  so each of the fourteen argument arrays is real-valued.
-/
import proofs.«181597_j77979426226450_2_alg».proof.Defs
import proofs.«181597_j77979426226450_2_alg».proof.Proof.Gen.Pre_finite_inputs
import proofs.«181597_j77979426226450_2_alg».proof.Proof.LibFiniteTest
import proofs.«181597_j77979426226450_2_alg».proof.Proof.Spec
import Idealize.ShloMosaic.Lib.ValueIdx

set_option maxRecDepth 16384

noncomputable section

namespace Cert.KernelIdeal.Hand

open Cert.KernelIdeal
open Idealize.ShloMosaic Idealize.ShloMosaic.TcCoe Idealize.ShloMosaic.ValueIdx
open Cert.Lib.RealValued Cert.Lib.FiniteTest

/-- The scalar shape has one index. -/
instance : Subsingleton Cert.Pre_finite_inputs.S_.Idx := ⟨fun a b => funext fun d => d.elim0⟩

set_option maxHeartbeats 1000000 in
/-- The printed predicate taken apart: if it answers true, each of its fourteen arguments is real-valued. -/
theorem allReal_of_finite_inputs (a0 : FVec Ideal Cert.Pre_finite_inputs.S4096x64 .f32) (a1 : FVec Ideal Cert.Pre_finite_inputs.S8192x32 .f32) (a2 : FVec Ideal Cert.Pre_finite_inputs.S4096x8192 .f32) (a3 : FVec Ideal Cert.Pre_finite_inputs.S4096x8192 .f32) (a4 : FVec Ideal Cert.Pre_finite_inputs.S128x64 .f32) (a5 : FVec Ideal Cert.Pre_finite_inputs.S128 .f32) (a6 : FVec Ideal Cert.Pre_finite_inputs.S128x128 .f32) (a7 : FVec Ideal Cert.Pre_finite_inputs.S128 .f32) (a8 : FVec Ideal Cert.Pre_finite_inputs.S128x32 .f32) (a9 : FVec Ideal Cert.Pre_finite_inputs.S128 .f32) (a10 : FVec Ideal Cert.Pre_finite_inputs.S128x128 .f32) (a11 : FVec Ideal Cert.Pre_finite_inputs.S128 .f32) (a12 : FVec Ideal Cert.Pre_finite_inputs.S4x128x128 .f32) (a13 : FVec Ideal Cert.Pre_finite_inputs.S4x128 .f32)
    (h : Cert.Pre_finite_inputs.fn (F := Ideal) a0 a1 a2 a3 a4 a5 a6 a7 a8 a9 a10 a11 a12 a13 = fun _ => 1#1) :
    Cert.Spec.AllReal a0 ∧ Cert.Spec.AllReal a1 ∧ Cert.Spec.AllReal a2 ∧ Cert.Spec.AllReal a3 ∧ Cert.Spec.AllReal a4 ∧ Cert.Spec.AllReal a5 ∧ Cert.Spec.AllReal a6 ∧ Cert.Spec.AllReal a7 ∧ Cert.Spec.AllReal a8 ∧ Cert.Spec.AllReal a9 ∧ Cert.Spec.AllReal a10 ∧ Cert.Spec.AllReal a11 ∧ Cert.Spec.AllReal a12 ∧ Cert.Spec.AllReal a13 := by
  have h := congrFun h ix0
  dsimp only [Cert.Pre_finite_inputs.fn, Cert.Pre_finite_inputs.fn_part1, Cert.Pre_finite_inputs.fn_part2, Cert.Pre_finite_inputs.fn_part3, Cert.Pre_finite_inputs.fn_part4] at h
  obtain ⟨h, e13⟩ := IntOp.andi_eq_one.1 h
  obtain ⟨h, e12⟩ := IntOp.andi_eq_one.1 h
  obtain ⟨h, e11⟩ := IntOp.andi_eq_one.1 h
  obtain ⟨h, e10⟩ := IntOp.andi_eq_one.1 h
  obtain ⟨h, e9⟩ := IntOp.andi_eq_one.1 h
  obtain ⟨h, e8⟩ := IntOp.andi_eq_one.1 h
  obtain ⟨h, e7⟩ := IntOp.andi_eq_one.1 h
  obtain ⟨h, e6⟩ := IntOp.andi_eq_one.1 h
  obtain ⟨h, e5⟩ := IntOp.andi_eq_one.1 h
  obtain ⟨h, e4⟩ := IntOp.andi_eq_one.1 h
  obtain ⟨h, e3⟩ := IntOp.andi_eq_one.1 h
  obtain ⟨h, e2⟩ := IntOp.andi_eq_one.1 h
  obtain ⟨e0, e1⟩ := IntOp.andi_eq_one.1 h
  exact ⟨allReal_of_all _ _ _ _ _ _ _ e0,
    allReal_of_all _ _ _ _ _ _ _ e1,
    allReal_of_all _ _ _ _ _ _ _ e2,
    allReal_of_all _ _ _ _ _ _ _ e3,
    allReal_of_all _ _ _ _ _ _ _ e4,
    allReal_of_all _ _ _ _ _ _ _ e5,
    allReal_of_all _ _ _ _ _ _ _ e6,
    allReal_of_all _ _ _ _ _ _ _ e7,
    allReal_of_all _ _ _ _ _ _ _ e8,
    allReal_of_all _ _ _ _ _ _ _ e9,
    allReal_of_all _ _ _ _ _ _ _ e10,
    allReal_of_all _ _ _ _ _ _ _ e11,
    allReal_of_all _ _ _ _ _ _ _ e12,
    allReal_of_all _ _ _ _ _ _ _ e13⟩

/-- Every argument array of a valuation is real-valued. -/
structure ArgsReal (V₀ : Valuation τ sig (Elt Ideal)) : Prop where
  a0 : Cert.Spec.AllReal (V₀ (Proc.devRef .tc main_arg0) : S4096x64.Idx → EReal)
  a1 : Cert.Spec.AllReal (V₀ (Proc.devRef .tc main_arg1) : S8192x32.Idx → EReal)
  a2 : Cert.Spec.AllReal (V₀ (Proc.devRef .tc main_arg2) : S4096x8192.Idx → EReal)
  a3 : Cert.Spec.AllReal (V₀ (Proc.devRef .tc main_arg3) : S4096x8192.Idx → EReal)
  a4 : Cert.Spec.AllReal (V₀ (Proc.devRef .tc main_arg4) : S128x64.Idx → EReal)
  a5 : Cert.Spec.AllReal (V₀ (Proc.devRef .tc main_arg5) : S128.Idx → EReal)
  a6 : Cert.Spec.AllReal (V₀ (Proc.devRef .tc main_arg6) : S128x128.Idx → EReal)
  a7 : Cert.Spec.AllReal (V₀ (Proc.devRef .tc main_arg7) : S128.Idx → EReal)
  a8 : Cert.Spec.AllReal (V₀ (Proc.devRef .tc main_arg8) : S128x32.Idx → EReal)
  a9 : Cert.Spec.AllReal (V₀ (Proc.devRef .tc main_arg9) : S128.Idx → EReal)
  a10 : Cert.Spec.AllReal (V₀ (Proc.devRef .tc main_arg10) : S128x128.Idx → EReal)
  a11 : Cert.Spec.AllReal (V₀ (Proc.devRef .tc main_arg11) : S128.Idx → EReal)
  a12 : Cert.Spec.AllReal (V₀ (Proc.devRef .tc main_arg12) : S4x128x128.Idx → EReal)
  a13 : Cert.Spec.AllReal (V₀ (Proc.devRef .tc main_arg13) : S4x128.Idx → EReal)

/-- Under the precondition every argument array of every device's launch contents is real-valued. -/
theorem argsReal_of_pre (m : (ℓ : Loc nD τ sig) → Buf (Elt Ideal) ℓ) (h : Cert.Pre_KernelIdeal m) (c : Dev nD) :
    ArgsReal (fun b => m ((c : Dev nD), b)) := by
  obtain ⟨h0, h1, h2, h3, h4, h5, h6, h7, h8, h9, h10, h11, h12, h13⟩ := allReal_of_finite_inputs _ _ _ _ _ _ _ _ _ _ _ _ _ _ (h c)
  exact ⟨h0, h1, h2, h3, h4, h5, h6, h7, h8, h9, h10, h11, h12, h13⟩

end Cert.KernelIdeal.Hand

end
-- ==== Proof.KI.GlueReal.lean ====
/-
  The encoders keep real-valued arrays real-valued.

  Each encoder is a dense map, the leaky rectifier, a second dense map and the hyperbolic tangent. A contraction of
  real-valued arrays is real-valued (a finite sum of products), a transposed or broadcast real-valued array is
  real-valued (a re-indexing), the leaky rectifier selects between a real and the slope times a real, and the
  hyperbolic tangent of a real is a real. So when the arguments are real-valued the initial node features and the
  edge features are, and with them — the incidence matrices converted being the arguments themselves — every array
  the first region reads.
-/
import proofs.«181597_j77979426226450_2_alg».proof.Proof.KI.GlueHost
import proofs.«181597_j77979426226450_2_alg».proof.Proof.KI.GlueRealSpec
import proofs.«181597_j77979426226450_2_alg».proof.Proof.KI.GlueRealPre

set_option maxRecDepth 16384

noncomputable section

namespace Cert.KernelIdeal.Hand

open Cert.KernelIdeal Cert.KernelIdeal.Gen
open Idealize.ShloMosaic Idealize.ShloMosaic.TcCoe Idealize.ShloMosaic.StableHlo Idealize.ShloMosaic.ValueIdx
open Cert.Lib.RealValued

/-! ## Three more operations that keep an array real-valued -/

/-- The host's hyperbolic tangent of a real-valued array is real-valued. -/
theorem allReal_hostTanh {s : Shape} {φ : FTy} {x : FVec Ideal s φ} (hx : AllReal x) : AllReal (Host.tanh x) := fun i => by
  obtain ⟨r, hr⟩ := hx i
  show IsReal (Ideal.tanh (x i))
  rw [hr]
  exact ⟨Real.tanh r, rfl⟩

/-- A select between two real-valued arrays is real-valued, whatever the condition. -/
theorem allReal_select {s : Shape} (c : IVec s 1) {a b : s.Idx → EReal} (ha : AllReal a) (hb : AllReal b) :
    AllReal (select c a b) := fun i => by
  show IsReal (Scalar.select (c i) (a i) (b i))
  unfold Scalar.select
  split_ifs
  · exact ha i
  · exact hb i

/-- A transposed real-valued array is real-valued. -/
theorem allReal_transpose {s t : Shape} {x : s.Idx → EReal} (hx : AllReal x) (perm : List (Fin s.rank))
    (h : s.Transposes perm t) : AllReal (transpose t perm x h) := fun _ => hx _

/-! ## The encoders -/

/-- The slope, as a rank-0 array, is real-valued. -/
theorem allReal_slopeArr : AllReal (slopeArr (F := Ideal) : S_.Idx → EReal) := fun _ => slope_isReal

theorem allReal_leaky4 {x : FVec Ideal S4096x128 .f32} {c : FVec Ideal S_ .f32} (hx : AllReal x) (hc : AllReal c) :
    AllReal (leaky4 (F := Ideal) x c : S4096x128.Idx → EReal) :=
  allReal_select _ hx (AllReal.mulf (AllReal.broadcastInDim (x := c) hc _ _) hx)

theorem allReal_leaky8 {x : FVec Ideal S8192x128 .f32} {c : FVec Ideal S_ .f32} (hx : AllReal x) (hc : AllReal c) :
    AllReal (leaky8 (F := Ideal) x c : S8192x128.Idx → EReal) :=
  allReal_select _ hx (AllReal.mulf (AllReal.broadcastInDim (x := c) hc _ _) hx)

theorem allReal_bias4 {b : FVec Ideal S128 .f32} (hb : AllReal b) : AllReal (bias4 (F := Ideal) b : S4096x128.Idx → EReal) :=
  AllReal.broadcastInDim (AllReal.broadcastInDim hb _ _) _ _

theorem allReal_bias8 {b : FVec Ideal S128 .f32} (hb : AllReal b) : AllReal (bias8 (F := Ideal) b : S8192x128.Idx → EReal) :=
  AllReal.broadcastInDim (AllReal.broadcastInDim hb _ _) _ _

/-- The first encoder of real-valued arguments is real-valued. -/
theorem allReal_encA' {x : FVec Ideal S4096x64 .f32} {W1 : FVec Ideal S128x64 .f32} {b1 : FVec Ideal S128 .f32}
    {W2 : FVec Ideal S128x128 .f32} {b2 : FVec Ideal S128 .f32}
    (hx : AllReal x) (hW1 : AllReal W1) (hb1 : AllReal b1) (hW2 : AllReal W2) (hb2 : AllReal b2) :
    AllReal (encA' (F := Ideal) x W1 b1 W2 b2 : S4096x128.Idx → EReal) :=
  allReal_hostTanh (AllReal.addf (AllReal.dotGeneral _ none
    (allReal_leaky4 (AllReal.addf (AllReal.dotGeneral _ none hx (allReal_transpose hW1 _ _)) (allReal_bias4 hb1)) allReal_slopeArr)
    (allReal_transpose hW2 _ _)) (allReal_bias4 hb2))

/-- The second encoder of real-valued arguments is real-valued. -/
theorem allReal_encB' {x : FVec Ideal S8192x32 .f32} {W1 : FVec Ideal S128x32 .f32} {b1 : FVec Ideal S128 .f32}
    {W2 : FVec Ideal S128x128 .f32} {b2 : FVec Ideal S128 .f32}
    (hx : AllReal x) (hW1 : AllReal W1) (hb1 : AllReal b1) (hW2 : AllReal W2) (hb2 : AllReal b2) :
    AllReal (encB' (F := Ideal) x W1 b1 W2 b2 : S8192x128.Idx → EReal) :=
  allReal_hostTanh (AllReal.addf (AllReal.dotGeneral _ none
    (allReal_leaky8 (AllReal.addf (AllReal.dotGeneral _ none hx (allReal_transpose hW1 _ _)) (allReal_bias8 hb1)) allReal_slopeArr)
    (allReal_transpose hW2 _ _)) (allReal_bias8 hb2))

/-! ## The arrays the regions read, after the five host stretches -/

/-- The initial node features are real-valued when the arguments are. -/
theorem U5_v11_allReal (V₀ : Valuation τ sig (Elt Ideal)) (h : ArgsReal V₀) :
    Cert.Spec.AllReal (U5 V₀ (Proc.devRef .tc main_v11) : S4096x128.Idx → EReal) := by
  rw [U5_v11]
  exact allReal_encA' h.a0 h.a4 h.a5 h.a6 h.a7

/-- The edge features are real-valued when the arguments are. -/
theorem U5_v23_allReal (V₀ : Valuation τ sig (Elt Ideal)) (h : ArgsReal V₀) :
    Cert.Spec.AllReal (U5 V₀ (Proc.devRef .tc main_v23) : S8192x128.Idx → EReal) := by
  rw [U5_v23]
  exact allReal_encB' h.a1 h.a8 h.a9 h.a10 h.a11

end Cert.KernelIdeal.Hand

end
-- ==== Proof.KI.Chain.lean ====
/-
  The kernel program's two results at the extended reals, in the network's own terms. Going down the run item by
  item: each region's output array is the specification's stage of the arrays the region was entered with; those
  arrays are, by the buffers the items in between leave alone, the earlier stages' outputs, the encoders' outputs
  and the arguments; and every array a region needs real-valued is, because the arguments are (the precondition)
  and every stage keeps real-valued arrays real-valued. So the first result is the specification's node features
  after the four layers, and the second its final edge output.
-/
import proofs.«181597_j77979426226450_2_alg».proof.Proof.KI.Run
import proofs.«181597_j77979426226450_2_alg».proof.Proof.KI.Val0
import proofs.«181597_j77979426226450_2_alg».proof.Proof.KI.Val1
import proofs.«181597_j77979426226450_2_alg».proof.Proof.KI.Val2
import proofs.«181597_j77979426226450_2_alg».proof.Proof.KI.Val3
import proofs.«181597_j77979426226450_2_alg».proof.Proof.KI.Val4
import proofs.«181597_j77979426226450_2_alg».proof.Proof.KI.Val5
import proofs.«181597_j77979426226450_2_alg».proof.Proof.KI.Val6
import proofs.«181597_j77979426226450_2_alg».proof.Proof.KI.Val7
import proofs.«181597_j77979426226450_2_alg».proof.Proof.KI.Val8
import proofs.«181597_j77979426226450_2_alg».proof.Proof.KI.GlueLayer
import proofs.«181597_j77979426226450_2_alg».proof.Proof.KI.GlueReal

set_option maxRecDepth 16384

noncomputable section

namespace Cert.KernelIdeal.Hand

open Cert.KernelIdeal Cert.KernelIdeal.Gen
open Idealize.ShloMosaic Idealize.ShloMosaic.TcCoe Idealize.ShloMosaic.StableHlo Idealize.ShloMosaic.ValueIdx
open Cert.Spec (Arr2 Arr3)

/-- A real-valued array's equal is real-valued. -/
theorem allReal_of_eq {S : Shape} {x y : S.Idx → EReal} (h : x = y) (hy : Cert.Spec.AllReal y) : Cert.Spec.AllReal x := h ▸ hy

section Chain

variable [Cert.Pre_finite_inputs.Facts] (m : (ℓ : Loc nD τ sig) → Buf (Elt Ideal) ℓ) (hpre : Cert.Pre_KernelIdeal m) (c : Dev nD)

/-! ## The stages, as terms of the arguments -/

/-- The edge features: the second encoder of the arguments. -/
def He : Arr2 8192 128 := (encB' (W0 m c (Proc.devRef .tc main_arg1)) (W0 m c (Proc.devRef .tc main_arg8)) (W0 m c (Proc.devRef .tc main_arg9)) (W0 m c (Proc.devRef .tc main_arg10)) (W0 m c (Proc.devRef .tc main_arg11)))
/-- The node features before the layers: the first encoder of the arguments. -/
def H0 : Arr2 4096 128 := (encA' (W0 m c (Proc.devRef .tc main_arg0)) (W0 m c (Proc.devRef .tc main_arg4)) (W0 m c (Proc.devRef .tc main_arg5)) (W0 m c (Proc.devRef .tc main_arg6)) (W0 m c (Proc.devRef .tc main_arg7)))
/-- The edge update of layer 0. -/
def X0 : Arr2 8192 128 := Spec.edgeUpd (W0 m c (Proc.devRef .tc main_arg3)) (H0 m c) (He m c)
/-- The node features after layer 0. -/
def H1 : Arr2 4096 128 := Spec.layer (W0 m c (Proc.devRef .tc main_arg2)) (W0 m c (Proc.devRef .tc main_arg3)) (W0 m c (Proc.devRef .tc main_arg12)) (W0 m c (Proc.devRef .tc main_arg13)) (He m c) 0 (H0 m c)
/-- The edge update of layer 1. -/
def X1 : Arr2 8192 128 := Spec.edgeUpd (W0 m c (Proc.devRef .tc main_arg3)) (H1 m c) (He m c)
/-- The node features after layer 1. -/
def H2 : Arr2 4096 128 := Spec.layer (W0 m c (Proc.devRef .tc main_arg2)) (W0 m c (Proc.devRef .tc main_arg3)) (W0 m c (Proc.devRef .tc main_arg12)) (W0 m c (Proc.devRef .tc main_arg13)) (He m c) 1 (H1 m c)
/-- The edge update of layer 2. -/
def X2 : Arr2 8192 128 := Spec.edgeUpd (W0 m c (Proc.devRef .tc main_arg3)) (H2 m c) (He m c)
/-- The node features after layer 2. -/
def H3 : Arr2 4096 128 := Spec.layer (W0 m c (Proc.devRef .tc main_arg2)) (W0 m c (Proc.devRef .tc main_arg3)) (W0 m c (Proc.devRef .tc main_arg12)) (W0 m c (Proc.devRef .tc main_arg13)) (He m c) 2 (H2 m c)
/-- The edge update of layer 3. -/
def X3 : Arr2 8192 128 := Spec.edgeUpd (W0 m c (Proc.devRef .tc main_arg3)) (H3 m c) (He m c)
/-- The node features after layer 3. -/
def H4 : Arr2 4096 128 := Spec.layer (W0 m c (Proc.devRef .tc main_arg2)) (W0 m c (Proc.devRef .tc main_arg3)) (W0 m c (Proc.devRef .tc main_arg12)) (W0 m c (Proc.devRef .tc main_arg13)) (He m c) 3 (H3 m c)

/-! ## They are real-valued -/

include hpre

theorem argsReal : ArgsReal (W0 m c) := argsReal_of_pre m hpre c
theorem rA2 : Cert.Spec.AllReal ((W0 m c (Proc.devRef .tc main_arg2)) : Arr2 4096 8192) := (argsReal m hpre c).a2
theorem rA3 : Cert.Spec.AllReal ((W0 m c (Proc.devRef .tc main_arg3)) : Arr2 4096 8192) := (argsReal m hpre c).a3
theorem rW : Cert.Spec.AllReal ((W0 m c (Proc.devRef .tc main_arg12)) : Arr3 4 128 128) := (argsReal m hpre c).a12
theorem rB : Cert.Spec.AllReal ((W0 m c (Proc.devRef .tc main_arg13)) : Arr2 4 128) := (argsReal m hpre c).a13
theorem rHe : Cert.Spec.AllReal (He m c) :=
  allReal_encB' (argsReal m hpre c).a1 (argsReal m hpre c).a8 (argsReal m hpre c).a9 (argsReal m hpre c).a10 (argsReal m hpre c).a11
theorem rH0 : Cert.Spec.AllReal (H0 m c) :=
  allReal_encA' (argsReal m hpre c).a0 (argsReal m hpre c).a4 (argsReal m hpre c).a5 (argsReal m hpre c).a6 (argsReal m hpre c).a7
theorem rX0 : Cert.Spec.AllReal (X0 m c) := allReal_edgeUpd (rA3 m hpre c) (rH0 m hpre c) (rHe m hpre c)
theorem rH1 : Cert.Spec.AllReal (H1 m c) :=
  allReal_layer (0 : Fin 4) (rA2 m hpre c) (rA3 m hpre c) (rW m hpre c) (rB m hpre c) (rHe m hpre c) (rH0 m hpre c)
theorem rX1 : Cert.Spec.AllReal (X1 m c) := allReal_edgeUpd (rA3 m hpre c) (rH1 m hpre c) (rHe m hpre c)
theorem rH2 : Cert.Spec.AllReal (H2 m c) :=
  allReal_layer (1 : Fin 4) (rA2 m hpre c) (rA3 m hpre c) (rW m hpre c) (rB m hpre c) (rHe m hpre c) (rH1 m hpre c)
theorem rX2 : Cert.Spec.AllReal (X2 m c) := allReal_edgeUpd (rA3 m hpre c) (rH2 m hpre c) (rHe m hpre c)
theorem rH3 : Cert.Spec.AllReal (H3 m c) :=
  allReal_layer (2 : Fin 4) (rA2 m hpre c) (rA3 m hpre c) (rW m hpre c) (rB m hpre c) (rHe m hpre c) (rH2 m hpre c)
theorem rX3 : Cert.Spec.AllReal (X3 m c) := allReal_edgeUpd (rA3 m hpre c) (rH3 m hpre c) (rHe m hpre c)
theorem rH4 : Cert.Spec.AllReal (H4 m c) :=
  allReal_layer (3 : Fin 4) (rA2 m hpre c) (rA3 m hpre c) (rW m hpre c) (rB m hpre c) (rHe m hpre c) (rH3 m hpre c)

/-! ## The buffers the first region is entered with -/

theorem W5_v24 : (W5 m c (Proc.devRef .tc main_v24) : Arr2 4096 8192) = (W0 m c (Proc.devRef .tc main_arg2)) := U5_v24_ideal (W0 m c)
theorem W5_v25 : (W5 m c (Proc.devRef .tc main_v25) : Arr2 4096 8192) = (W0 m c (Proc.devRef .tc main_arg3)) := U5_v25_ideal (W0 m c)
theorem W5_v11 : (W5 m c (Proc.devRef .tc main_v11) : Arr2 4096 128) = H0 m c := U5_v11 (W0 m c)
theorem W5_v23 : (W5 m c (Proc.devRef .tc main_v23) : Arr2 8192 128) = He m c := U5_v23 (W0 m c)

/-! ## Layer 0: the edge update (region 0), then the node layer (region 1) -/
theorem W6_v27 : (W6 m c (Proc.devRef .tc main_v27) : Arr2 8192 128) = X0 m c :=
  (out_main_v27 m c).trans ((final0 (Wv5 m) c (allReal_of_eq (W5_v11 m hpre c) (rH0 m hpre c))).trans (by
    show Spec.edgeUpd (W5 m c (Proc.devRef .tc main_v25) : Arr2 4096 8192) (W5 m c (Proc.devRef .tc main_v11) : Arr2 4096 128) (W5 m c (Proc.devRef .tc main_v23) : Arr2 8192 128) = _
    rw [W5_v25 m hpre c, W5_v11 m hpre c, W5_v23 m hpre c]
    rfl))
theorem W7_v27 : (W7 m c (Proc.devRef .tc main_v27) : Arr2 8192 128) = X0 m c := (keep_main_v27_6_7 m c).trans (W6_v27 m hpre c)
theorem W7_v11 : (W7 m c (Proc.devRef .tc main_v11) : Arr2 4096 128) = H0 m c := (keep_main_v11_5_7 m c).trans (W5_v11 m hpre c)
theorem W7_v24 : (W7 m c (Proc.devRef .tc main_v24) : Arr2 4096 8192) = (W0 m c (Proc.devRef .tc main_arg2)) := (keep_main_v24_5_7 m c).trans (W5_v24 m hpre c)
theorem W7_layer (R : Arr2 4096 128) :
    Spec.nodeLayerT (W7 m c (Proc.devRef .tc main_v29) : Arr2 128 128) (W7 m c (Proc.devRef .tc main_v32) : Arr2 1 128) R
      = Spec.nodeLayer (W0 m c (Proc.devRef .tc main_arg12)) (W0 m c (Proc.devRef .tc main_arg13)) (0 : Fin 4) R :=
  hostOps1_layer (W0 m c) (W6 m c) (keep_main_v26_5_6 m c) (keep_main_arg13_0_6 m c) R
theorem W8_v33 : (W8 m c (Proc.devRef .tc main_v33) : Arr2 4096 128) = H1 m c :=
  (out_main_v33 m c).trans ((final1 (Wv7 m) c (allReal_of_eq (W7_v27 m hpre c) (rX0 m hpre c))).trans (by
    show Spec.nodeLayerT (W7 m c (Proc.devRef .tc main_v29) : Arr2 128 128) (W7 m c (Proc.devRef .tc main_v32) : Arr2 1 128)
        (Spec.nodeRes (W7 m c (Proc.devRef .tc main_v24) : Arr2 4096 8192) (W7 m c (Proc.devRef .tc main_v11) : Arr2 4096 128) (W7 m c (Proc.devRef .tc main_v27) : Arr2 8192 128)) = _
    rw [W7_v24 m hpre c, W7_v11 m hpre c, W7_v27 m hpre c, W7_layer m hpre c]
    rfl))

/-! ## Layer 1: the edge update (region 2), then the node layer (region 3) -/
theorem W8_v25 : (W8 m c (Proc.devRef .tc main_v25) : Arr2 4096 8192) = (W0 m c (Proc.devRef .tc main_arg3)) := (keep_main_v25_5_8 m c).trans (W5_v25 m hpre c)
theorem W8_v23 : (W8 m c (Proc.devRef .tc main_v23) : Arr2 8192 128) = He m c := (keep_main_v23_5_8 m c).trans (W5_v23 m hpre c)
theorem W9_v34 : (W9 m c (Proc.devRef .tc main_v34) : Arr2 8192 128) = X1 m c :=
  (out_main_v34 m c).trans ((final2 (Wv8 m) c (allReal_of_eq (W8_v33 m hpre c) (rH1 m hpre c))).trans (by
    show Spec.edgeUpd (W8 m c (Proc.devRef .tc main_v25) : Arr2 4096 8192) (W8 m c (Proc.devRef .tc main_v33) : Arr2 4096 128) (W8 m c (Proc.devRef .tc main_v23) : Arr2 8192 128) = _
    rw [W8_v25 m hpre c, W8_v33 m hpre c, W8_v23 m hpre c]
    rfl))
theorem W10_v34 : (W10 m c (Proc.devRef .tc main_v34) : Arr2 8192 128) = X1 m c := (keep_main_v34_9_10 m c).trans (W9_v34 m hpre c)
theorem W10_v33 : (W10 m c (Proc.devRef .tc main_v33) : Arr2 4096 128) = H1 m c := (keep_main_v33_8_10 m c).trans (W8_v33 m hpre c)
theorem W10_v24 : (W10 m c (Proc.devRef .tc main_v24) : Arr2 4096 8192) = (W0 m c (Proc.devRef .tc main_arg2)) := (keep_main_v24_5_10 m c).trans (W5_v24 m hpre c)
theorem W10_layer (R : Arr2 4096 128) :
    Spec.nodeLayerT (W10 m c (Proc.devRef .tc main_v36) : Arr2 128 128) (W10 m c (Proc.devRef .tc main_v39) : Arr2 1 128) R
      = Spec.nodeLayer (W0 m c (Proc.devRef .tc main_arg12)) (W0 m c (Proc.devRef .tc main_arg13)) (1 : Fin 4) R :=
  hostOps3_layer (W0 m c) (W9 m c) (keep_main_v26_5_9 m c) (keep_main_arg13_0_9 m c) R
theorem W11_v40 : (W11 m c (Proc.devRef .tc main_v40) : Arr2 4096 128) = H2 m c :=
  (out_main_v40 m c).trans ((final3 (Wv10 m) c (allReal_of_eq (W10_v34 m hpre c) (rX1 m hpre c))).trans (by
    show Spec.nodeLayerT (W10 m c (Proc.devRef .tc main_v36) : Arr2 128 128) (W10 m c (Proc.devRef .tc main_v39) : Arr2 1 128)
        (Spec.nodeRes (W10 m c (Proc.devRef .tc main_v24) : Arr2 4096 8192) (W10 m c (Proc.devRef .tc main_v33) : Arr2 4096 128) (W10 m c (Proc.devRef .tc main_v34) : Arr2 8192 128)) = _
    rw [W10_v24 m hpre c, W10_v33 m hpre c, W10_v34 m hpre c, W10_layer m hpre c]
    rfl))

/-! ## Layer 2: the edge update (region 4), then the node layer (region 5) -/
theorem W11_v25 : (W11 m c (Proc.devRef .tc main_v25) : Arr2 4096 8192) = (W0 m c (Proc.devRef .tc main_arg3)) := (keep_main_v25_5_11 m c).trans (W5_v25 m hpre c)
theorem W11_v23 : (W11 m c (Proc.devRef .tc main_v23) : Arr2 8192 128) = He m c := (keep_main_v23_5_11 m c).trans (W5_v23 m hpre c)
theorem W12_v41 : (W12 m c (Proc.devRef .tc main_v41) : Arr2 8192 128) = X2 m c :=
  (out_main_v41 m c).trans ((final4 (Wv11 m) c (allReal_of_eq (W11_v40 m hpre c) (rH2 m hpre c))).trans (by
    show Spec.edgeUpd (W11 m c (Proc.devRef .tc main_v25) : Arr2 4096 8192) (W11 m c (Proc.devRef .tc main_v40) : Arr2 4096 128) (W11 m c (Proc.devRef .tc main_v23) : Arr2 8192 128) = _
    rw [W11_v25 m hpre c, W11_v40 m hpre c, W11_v23 m hpre c]
    rfl))
theorem W13_v41 : (W13 m c (Proc.devRef .tc main_v41) : Arr2 8192 128) = X2 m c := (keep_main_v41_12_13 m c).trans (W12_v41 m hpre c)
theorem W13_v40 : (W13 m c (Proc.devRef .tc main_v40) : Arr2 4096 128) = H2 m c := (keep_main_v40_11_13 m c).trans (W11_v40 m hpre c)
theorem W13_v24 : (W13 m c (Proc.devRef .tc main_v24) : Arr2 4096 8192) = (W0 m c (Proc.devRef .tc main_arg2)) := (keep_main_v24_5_13 m c).trans (W5_v24 m hpre c)
theorem W13_layer (R : Arr2 4096 128) :
    Spec.nodeLayerT (W13 m c (Proc.devRef .tc main_v43) : Arr2 128 128) (W13 m c (Proc.devRef .tc main_v46) : Arr2 1 128) R
      = Spec.nodeLayer (W0 m c (Proc.devRef .tc main_arg12)) (W0 m c (Proc.devRef .tc main_arg13)) (2 : Fin 4) R :=
  hostOps5_layer (W0 m c) (W12 m c) (keep_main_v26_5_12 m c) (keep_main_arg13_0_12 m c) R
theorem W14_v47 : (W14 m c (Proc.devRef .tc main_v47) : Arr2 4096 128) = H3 m c :=
  (out_main_v47 m c).trans ((final5 (Wv13 m) c (allReal_of_eq (W13_v41 m hpre c) (rX2 m hpre c))).trans (by
    show Spec.nodeLayerT (W13 m c (Proc.devRef .tc main_v43) : Arr2 128 128) (W13 m c (Proc.devRef .tc main_v46) : Arr2 1 128)
        (Spec.nodeRes (W13 m c (Proc.devRef .tc main_v24) : Arr2 4096 8192) (W13 m c (Proc.devRef .tc main_v40) : Arr2 4096 128) (W13 m c (Proc.devRef .tc main_v41) : Arr2 8192 128)) = _
    rw [W13_v24 m hpre c, W13_v40 m hpre c, W13_v41 m hpre c, W13_layer m hpre c]
    rfl))

/-! ## Layer 3: the edge update (region 6), then the node layer (region 7) -/
theorem W14_v25 : (W14 m c (Proc.devRef .tc main_v25) : Arr2 4096 8192) = (W0 m c (Proc.devRef .tc main_arg3)) := (keep_main_v25_5_14 m c).trans (W5_v25 m hpre c)
theorem W14_v23 : (W14 m c (Proc.devRef .tc main_v23) : Arr2 8192 128) = He m c := (keep_main_v23_5_14 m c).trans (W5_v23 m hpre c)
theorem W15_v48 : (W15 m c (Proc.devRef .tc main_v48) : Arr2 8192 128) = X3 m c :=
  (out_main_v48 m c).trans ((final6 (Wv14 m) c (allReal_of_eq (W14_v47 m hpre c) (rH3 m hpre c))).trans (by
    show Spec.edgeUpd (W14 m c (Proc.devRef .tc main_v25) : Arr2 4096 8192) (W14 m c (Proc.devRef .tc main_v47) : Arr2 4096 128) (W14 m c (Proc.devRef .tc main_v23) : Arr2 8192 128) = _
    rw [W14_v25 m hpre c, W14_v47 m hpre c, W14_v23 m hpre c]
    rfl))
theorem W16_v48 : (W16 m c (Proc.devRef .tc main_v48) : Arr2 8192 128) = X3 m c := (keep_main_v48_15_16 m c).trans (W15_v48 m hpre c)
theorem W16_v47 : (W16 m c (Proc.devRef .tc main_v47) : Arr2 4096 128) = H3 m c := (keep_main_v47_14_16 m c).trans (W14_v47 m hpre c)
theorem W16_v24 : (W16 m c (Proc.devRef .tc main_v24) : Arr2 4096 8192) = (W0 m c (Proc.devRef .tc main_arg2)) := (keep_main_v24_5_16 m c).trans (W5_v24 m hpre c)
theorem W16_layer (R : Arr2 4096 128) :
    Spec.nodeLayerT (W16 m c (Proc.devRef .tc main_v50) : Arr2 128 128) (W16 m c (Proc.devRef .tc main_v53) : Arr2 1 128) R
      = Spec.nodeLayer (W0 m c (Proc.devRef .tc main_arg12)) (W0 m c (Proc.devRef .tc main_arg13)) (3 : Fin 4) R :=
  hostOps7_layer (W0 m c) (W15 m c) (keep_main_v26_5_15 m c) (keep_main_arg13_0_15 m c) R
theorem W17_v54 : (W17 m c (Proc.devRef .tc main_v54) : Arr2 4096 128) = H4 m c :=
  (out_main_v54 m c).trans ((final7 (Wv16 m) c (allReal_of_eq (W16_v48 m hpre c) (rX3 m hpre c))).trans (by
    show Spec.nodeLayerT (W16 m c (Proc.devRef .tc main_v50) : Arr2 128 128) (W16 m c (Proc.devRef .tc main_v53) : Arr2 1 128)
        (Spec.nodeRes (W16 m c (Proc.devRef .tc main_v24) : Arr2 4096 8192) (W16 m c (Proc.devRef .tc main_v47) : Arr2 4096 128) (W16 m c (Proc.devRef .tc main_v48) : Arr2 8192 128)) = _
    rw [W16_v24 m hpre c, W16_v47 m hpre c, W16_v48 m hpre c, W16_layer m hpre c]
    rfl))

/-! ## The final edge output (region 8) -/

theorem W17_v24 : (W17 m c (Proc.devRef .tc main_v24) : Arr2 4096 8192) = (W0 m c (Proc.devRef .tc main_arg2)) := (keep_main_v24_5_17 m c).trans (W5_v24 m hpre c)
theorem W17_v25 : (W17 m c (Proc.devRef .tc main_v25) : Arr2 4096 8192) = (W0 m c (Proc.devRef .tc main_arg3)) := (keep_main_v25_5_17 m c).trans (W5_v25 m hpre c)
theorem W17_v23 : (W17 m c (Proc.devRef .tc main_v23) : Arr2 8192 128) = He m c := (keep_main_v23_5_17 m c).trans (W5_v23 m hpre c)
theorem W18_v55 : (W18 m c (Proc.devRef .tc main_v55) : Arr2 8192 384) = Spec.heOut (W0 m c (Proc.devRef .tc main_arg2)) (W0 m c (Proc.devRef .tc main_arg3)) (H4 m c) (He m c) :=
  (out_main_v55 m c).trans ((final8 (Wv17 m) c (allReal_of_eq (W17_v54 m hpre c) (rH4 m hpre c))).trans (by
    show Spec.heOut (W17 m c (Proc.devRef .tc main_v24) : Arr2 4096 8192) (W17 m c (Proc.devRef .tc main_v25) : Arr2 4096 8192) (W17 m c (Proc.devRef .tc main_v54) : Arr2 4096 128) (W17 m c (Proc.devRef .tc main_v23) : Arr2 8192 128) = _
    rw [W17_v24 m hpre c, W17_v25 m hpre c, W17_v54 m hpre c, W17_v23 m hpre c]))
theorem W18_v54 : (W18 m c (Proc.devRef .tc main_v54) : Arr2 4096 128) = H4 m c := (keep_main_v54_17_18 m c).trans (W17_v54 m hpre c)

/-! ## The two results -/

/-- The first result: the specification's node features after the four layers, over the two encoders' outputs. -/
theorem kernel_hv :
    (W18 m c (Proc.devRef .tc main_v54) : Arr2 4096 128)
      = Spec.hvOut (W0 m c (Proc.devRef .tc main_arg2)) (W0 m c (Proc.devRef .tc main_arg3)) (W0 m c (Proc.devRef .tc main_arg12)) (W0 m c (Proc.devRef .tc main_arg13))
          (encB' (W0 m c (Proc.devRef .tc main_arg1)) (W0 m c (Proc.devRef .tc main_arg8)) (W0 m c (Proc.devRef .tc main_arg9)) (W0 m c (Proc.devRef .tc main_arg10)) (W0 m c (Proc.devRef .tc main_arg11)))
          (encA' (W0 m c (Proc.devRef .tc main_arg0)) (W0 m c (Proc.devRef .tc main_arg4)) (W0 m c (Proc.devRef .tc main_arg5)) (W0 m c (Proc.devRef .tc main_arg6)) (W0 m c (Proc.devRef .tc main_arg7))) :=
  W18_v54 m hpre c

/-- The second result: the specification's final edge output over the first result and the second encoder's output. -/
theorem kernel_he :
    (W18 m c (Proc.devRef .tc main_v55) : Arr2 8192 384)
      = Spec.heOut (W0 m c (Proc.devRef .tc main_arg2)) (W0 m c (Proc.devRef .tc main_arg3))
          (Spec.hvOut (W0 m c (Proc.devRef .tc main_arg2)) (W0 m c (Proc.devRef .tc main_arg3)) (W0 m c (Proc.devRef .tc main_arg12)) (W0 m c (Proc.devRef .tc main_arg13))
            (encB' (W0 m c (Proc.devRef .tc main_arg1)) (W0 m c (Proc.devRef .tc main_arg8)) (W0 m c (Proc.devRef .tc main_arg9)) (W0 m c (Proc.devRef .tc main_arg10)) (W0 m c (Proc.devRef .tc main_arg11)))
            (encA' (W0 m c (Proc.devRef .tc main_arg0)) (W0 m c (Proc.devRef .tc main_arg4)) (W0 m c (Proc.devRef .tc main_arg5)) (W0 m c (Proc.devRef .tc main_arg6)) (W0 m c (Proc.devRef .tc main_arg7))))
          (encB' (W0 m c (Proc.devRef .tc main_arg1)) (W0 m c (Proc.devRef .tc main_arg8)) (W0 m c (Proc.devRef .tc main_arg9)) (W0 m c (Proc.devRef .tc main_arg10)) (W0 m c (Proc.devRef .tc main_arg11))) :=
  W18_v55 m hpre c

end Chain

end Cert.KernelIdeal.Hand

end
-- ==== Proof.Ref.Value.lean ====
/-
  The reference's two results as pure functions of its arguments' contents, for any float values: each
  layer of the network is one function of arrays (the operations' functions composed), each segment of
  the operation list computes its layer, and the fold over the whole list is the layers composed.
-/
import proofs.«181597_j77979426226450_2_alg».proof.Proof.Ref.Ops

set_option Elab.async false

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! ## The layers -/

/-- The slope of the leaky rectifier, as a rank-0 array. -/
def slope : (⟨S_, .f32⟩ : BufTy).Contents (Elt F) := constant S_ .f32 0x3C23D70A#32

/-- The leaky rectifier on [4096,128]: `x` where `x ≥ 0`, else `c · x`. -/
def leaky4 (x : (⟨S4096x128, .f32⟩ : BufTy).Contents (Elt F)) (c : (⟨S_, .f32⟩ : BufTy).Contents (Elt F)) : (⟨S4096x128, .f32⟩ : BufTy).Contents (Elt F) :=
  select (cmpf .oge x (broadcastInDim S4096x128 ![] bcast_S_S4096x128 (constant S_ .f32 0x00000000#32))) x
    (mulf (broadcastInDim S4096x128 ![] bcast_S_S4096x128 (id c)) x)

/-- The leaky rectifier on [8192,128]. -/
def leaky8 (x : (⟨S8192x128, .f32⟩ : BufTy).Contents (Elt F)) (c : (⟨S_, .f32⟩ : BufTy).Contents (Elt F)) : (⟨S8192x128, .f32⟩ : BufTy).Contents (Elt F) :=
  select (cmpf .oge x (broadcastInDim S8192x128 ![] bcast_S_S8192x128 (constant S_ .f32 0x00000000#32))) x
    (mulf (broadcastInDim S8192x128 ![] bcast_S_S8192x128 (id c)) x)

/-- The rectifier on [8192,128]: the maximum with zero. -/
def relu8 (x : (⟨S8192x128, .f32⟩ : BufTy).Contents (Elt F)) : (⟨S8192x128, .f32⟩ : BufTy).Contents (Elt F) :=
  maximumf x (broadcastInDim S8192x128 ![] bcast_S_S8192x128 (constant S_ .f32 0x00000000#32))

/-- A bias vector [128] as a [4096,128] array: row `r`, column `j` is `b j`. -/
def bias4 (b : (⟨S128, .f32⟩ : BufTy).Contents (Elt F)) : (⟨S4096x128, .f32⟩ : BufTy).Contents (Elt F) :=
  broadcastInDim S4096x128 ![0, 1] bcast_S1x128_S4096x128_0_1 (broadcastInDim S1x128 ![1] bcast_S128_S1x128_1 b)

/-- A bias vector [128] as a [8192,128] array. -/
def bias8 (b : (⟨S128, .f32⟩ : BufTy).Contents (Elt F)) : (⟨S8192x128, .f32⟩ : BufTy).Contents (Elt F) :=
  broadcastInDim S8192x128 ![0, 1] bcast_S1x128_S8192x128_0_1 (broadcastInDim S1x128 ![1] bcast_S128_S1x128_1 b)

/-- The first encoder: `tanh (leaky (x · W₁ᵀ + b₁) · W₂ᵀ + b₂)` on [4096,64]. -/
def encA (x : (⟨S4096x64, .f32⟩ : BufTy).Contents (Elt F)) (W1 : (⟨S128x64, .f32⟩ : BufTy).Contents (Elt F)) (b1 : (⟨S128, .f32⟩ : BufTy).Contents (Elt F)) (W2 : (⟨S128x128, .f32⟩ : BufTy).Contents (Elt F)) (b2 : (⟨S128, .f32⟩ : BufTy).Contents (Elt F)) :
    (⟨S4096x128, .f32⟩ : BufTy).Contents (Elt F) :=
  Host.tanh (addf (Host.dotGeneral dot_S4096x128_S128x128_S4096x128_1_0_0_1_n_n none
      (leaky4 (addf (Host.dotGeneral dot_S4096x64_S64x128_S4096x128_1_0_0_1_n_n none x (transpose S64x128 [1, 0] W1 transposes_S128x64_S64x128_1_0)) (bias4 b1)) slope)
      (transpose S128x128 [1, 0] W2 transposes_S128x128_S128x128_1_0)) (bias4 b2))

/-- The second encoder: `tanh (leaky (x · W₁ᵀ + b₁) · W₂ᵀ + b₂)` on [8192,32]. -/
def encB (x : (⟨S8192x32, .f32⟩ : BufTy).Contents (Elt F)) (W1 : (⟨S128x32, .f32⟩ : BufTy).Contents (Elt F)) (b1 : (⟨S128, .f32⟩ : BufTy).Contents (Elt F)) (W2 : (⟨S128x128, .f32⟩ : BufTy).Contents (Elt F)) (b2 : (⟨S128, .f32⟩ : BufTy).Contents (Elt F)) :
    (⟨S8192x128, .f32⟩ : BufTy).Contents (Elt F) :=
  Host.tanh (addf (Host.dotGeneral dot_S8192x128_S128x128_S8192x128_1_0_0_1_n_n none
      (leaky8 (addf (Host.dotGeneral dot_S8192x32_S32x128_S8192x128_1_0_0_1_n_n none x (transpose S32x128 [1, 0] W1 transposes_S128x32_S32x128_1_0)) (bias8 b1)) slope)
      (transpose S128x128 [1, 0] W2 transposes_S128x128_S128x128_1_0)) (bias8 b2))

/-- Member `l` of the stack of weights [4,128,128], transposed. -/
def stackW (l : Nat) (hW : S4x128x128.Slices ![l, 0, 0] S1x128x128) (W : (⟨S4x128x128, .f32⟩ : BufTy).Contents (Elt F)) : (⟨S128x128, .f32⟩ : BufTy).Contents (Elt F) :=
  transpose S128x128 [1, 0] (fun i => shapeCast S128x128 (extractStridedSlice S1x128x128 ![l, 0, 0] W hW) shapeCasts_S1x128x128_S128x128 i)
    transposes_S128x128_S128x128_1_0

/-- Member `l` of the stack of biases [4,128], as a [4096,128] array. -/
def stackB (l : Nat) (hb : S4x128.Slices ![l, 0] S1x128) (B : (⟨S4x128, .f32⟩ : BufTy).Contents (Elt F)) : (⟨S4096x128, .f32⟩ : BufTy).Contents (Elt F) :=
  bias4 (fun i => shapeCast S128 (extractStridedSlice S1x128 ![l, 0] B hb) shapeCasts_S1x128_S128 i)

/-- What the second side gathers from the first in a layer: `relu (h + A₃ᵀ · a)`. -/
def gather (A3 : (⟨S4096x8192, .f32⟩ : BufTy).Contents (Elt F)) (h : (⟨S8192x128, .f32⟩ : BufTy).Contents (Elt F)) (a : (⟨S4096x128, .f32⟩ : BufTy).Contents (Elt F)) : (⟨S8192x128, .f32⟩ : BufTy).Contents (Elt F) :=
  relu8 (addf h (Host.dotGeneral dot_S8192x4096_S4096x128_S8192x128_1_0_0_1_n_n none (transpose S8192x4096 [1, 0] A3 transposes_S4096x8192_S8192x4096_1_0) a))

/-- One message-passing layer: `leaky ((a + A₂ · relu (h + A₃ᵀ · a)) · W_lᵀ + b_l)`. -/
def layer (l : Nat) (hW : S4x128x128.Slices ![l, 0, 0] S1x128x128) (hb : S4x128.Slices ![l, 0] S1x128)
    (A2 A3 : (⟨S4096x8192, .f32⟩ : BufTy).Contents (Elt F)) (W : (⟨S4x128x128, .f32⟩ : BufTy).Contents (Elt F)) (B : (⟨S4x128, .f32⟩ : BufTy).Contents (Elt F)) (h : (⟨S8192x128, .f32⟩ : BufTy).Contents (Elt F)) (a : (⟨S4096x128, .f32⟩ : BufTy).Contents (Elt F)) :
    (⟨S4096x128, .f32⟩ : BufTy).Contents (Elt F) :=
  leaky4 (addf (Host.dotGeneral dot_S4096x128_S128x128_S4096x128_1_0_0_1_n_n none
      (addf a (Host.dotGeneral dot_S4096x8192_S8192x128_S4096x128_1_0_0_1_n_n none A2 (gather A3 h a))) (stackW l hW W)) (stackB l hb B)) slope

/-- The second result: `A₂ᵀ · a`, `A₃ᵀ · a` and `h` side by side, by columns. -/
def out1 (A2 A3 : (⟨S4096x8192, .f32⟩ : BufTy).Contents (Elt F)) (h : (⟨S8192x128, .f32⟩ : BufTy).Contents (Elt F)) (a : (⟨S4096x128, .f32⟩ : BufTy).Contents (Elt F)) : (⟨S8192x384, .f32⟩ : BufTy).Contents (Elt F) :=
  concatenate S8192x384 1
    [⟨S8192x128, Host.dotGeneral dot_S8192x4096_S4096x128_S8192x128_1_0_0_1_n_n none (transpose S8192x4096 [1, 0] A2 transposes_S4096x8192_S8192x4096_1_0) a⟩,
     ⟨S8192x128, Host.dotGeneral dot_S8192x4096_S4096x128_S8192x128_1_0_0_1_n_n none (transpose S8192x4096 [1, 0] A3 transposes_S4096x8192_S8192x4096_1_0) a⟩,
     ⟨S8192x128, h⟩] concatenates_S8192x128_S8192x128_S8192x128_S8192x384_d1

/-! ## Each segment computes its layer -/

set_option maxRecDepth 16384 in
set_option maxHeartbeats 2000000 in
/-- The first encoder read off its operations. -/
theorem segA_out (V : Valuation τ sig (Elt F)) :
    after segA V (Proc.devRef .tc main_v11)
      = encA (V (Proc.devRef .tc main_arg0)) (V (Proc.devRef .tc main_arg4)) (V (Proc.devRef .tc main_arg5)) (V (Proc.devRef .tc main_arg6)) (V (Proc.devRef .tc main_arg7)) := by
  simp only [segA]
  after_results_simp
  rfl

set_option maxRecDepth 16384 in
set_option maxHeartbeats 2000000 in
/-- The second encoder read off its operations. -/
theorem segB_out (V : Valuation τ sig (Elt F)) :
    after segB V (Proc.devRef .tc main_v23)
      = encB (V (Proc.devRef .tc main_arg1)) (V (Proc.devRef .tc main_arg8)) (V (Proc.devRef .tc main_arg9)) (V (Proc.devRef .tc main_arg10)) (V (Proc.devRef .tc main_arg11)) := by
  simp only [segB]
  after_results_simp
  rfl

set_option maxRecDepth 16384 in
set_option maxHeartbeats 2000000 in
/-- Layer 0 read off its operations: `main_v39` is `layer` of the four arguments it reads, `main_v23` and `main_v11`. -/
theorem segL0_out (V : Valuation τ sig (Elt F)) :
    after segL0 V (Proc.devRef .tc main_v39)
      = layer 0 slices_S4x128x128_S1x128x128_0_0_0 slices_S4x128_S1x128_0_0 (V (Proc.devRef .tc main_arg2)) (V (Proc.devRef .tc main_arg3))
          (V (Proc.devRef .tc main_arg12)) (V (Proc.devRef .tc main_arg13)) (V (Proc.devRef .tc main_v23)) (V (Proc.devRef .tc main_v11)) := by
  simp only [segL0]
  after_results_simp
  rfl

set_option maxRecDepth 16384 in
set_option maxHeartbeats 2000000 in
/-- Layer 1 read off its operations: `main_v55` is `layer` of the four arguments it reads, `main_v23` and `main_v39`. -/
theorem segL1_out (V : Valuation τ sig (Elt F)) :
    after segL1 V (Proc.devRef .tc main_v55)
      = layer 1 slices_S4x128x128_S1x128x128_1_0_0 slices_S4x128_S1x128_1_0 (V (Proc.devRef .tc main_arg2)) (V (Proc.devRef .tc main_arg3))
          (V (Proc.devRef .tc main_arg12)) (V (Proc.devRef .tc main_arg13)) (V (Proc.devRef .tc main_v23)) (V (Proc.devRef .tc main_v39)) := by
  simp only [segL1]
  after_results_simp
  rfl

set_option maxRecDepth 16384 in
set_option maxHeartbeats 2000000 in
/-- Layer 2 read off its operations: `main_v71` is `layer` of the four arguments it reads, `main_v23` and `main_v55`. -/
theorem segL2_out (V : Valuation τ sig (Elt F)) :
    after segL2 V (Proc.devRef .tc main_v71)
      = layer 2 slices_S4x128x128_S1x128x128_2_0_0 slices_S4x128_S1x128_2_0 (V (Proc.devRef .tc main_arg2)) (V (Proc.devRef .tc main_arg3))
          (V (Proc.devRef .tc main_arg12)) (V (Proc.devRef .tc main_arg13)) (V (Proc.devRef .tc main_v23)) (V (Proc.devRef .tc main_v55)) := by
  simp only [segL2]
  after_results_simp
  rfl

set_option maxRecDepth 16384 in
set_option maxHeartbeats 2000000 in
/-- Layer 3 read off its operations: `main_v87` is `layer` of the four arguments it reads, `main_v23` and `main_v71`. -/
theorem segL3_out (V : Valuation τ sig (Elt F)) :
    after segL3 V (Proc.devRef .tc main_v87)
      = layer 3 slices_S4x128x128_S1x128x128_3_0_0 slices_S4x128_S1x128_3_0 (V (Proc.devRef .tc main_arg2)) (V (Proc.devRef .tc main_arg3))
          (V (Proc.devRef .tc main_arg12)) (V (Proc.devRef .tc main_arg13)) (V (Proc.devRef .tc main_v23)) (V (Proc.devRef .tc main_v71)) := by
  simp only [segL3]
  after_results_simp
  rfl

set_option maxRecDepth 16384 in
set_option maxHeartbeats 2000000 in
/-- The final segment read off its operations. -/
theorem segFin_out (V : Valuation τ sig (Elt F)) :
    after segFin V (Proc.devRef .tc main_v92)
      = out1 (V (Proc.devRef .tc main_arg2)) (V (Proc.devRef .tc main_arg3)) (V (Proc.devRef .tc main_v23)) (V (Proc.devRef .tc main_v87)) := by
  simp only [segFin]
  after_results_simp
  try dsimp only [Matrix.cons_val]
  try after_results_simp
  rfl

end Cert.ReferenceIdeal.Hand

end
-- ==== Proof.KI.GlueEnc.lean ====
/-
  The two programs' encoders are one function.

  Both programs compute the initial node features and the edge features by the same host operations on the same
  arguments. The encoders named on this side and on the reference's side are the same composition of the same
  operations over the same literal shapes; the records of contraction dimensions differ only in the proof they
  carry. So the two are equal by unfolding.
-/
import proofs.«181597_j77979426226450_2_alg».proof.Proof.KI.GlueHost
import proofs.«181597_j77979426226450_2_alg».proof.Proof.Ref.Value

set_option maxRecDepth 16384

noncomputable section

namespace Cert.KernelIdeal.Hand

open Cert.KernelIdeal Cert.KernelIdeal.Gen
open Idealize.ShloMosaic

variable {F : FTy → Type} [FloatOps F]

/-- The first encoder is the reference's first encoder. -/
theorem encA'_eq_ref (x : (⟨S4096x64, .f32⟩ : BufTy).Contents (Elt F)) (W1 : (⟨S128x64, .f32⟩ : BufTy).Contents (Elt F))
    (b1 : (⟨S128, .f32⟩ : BufTy).Contents (Elt F)) (W2 : (⟨S128x128, .f32⟩ : BufTy).Contents (Elt F))
    (b2 : (⟨S128, .f32⟩ : BufTy).Contents (Elt F)) :
    encA' x W1 b1 W2 b2 = Cert.ReferenceIdeal.Hand.encA x W1 b1 W2 b2 := rfl

/-- The second encoder is the reference's second encoder. -/
theorem encB'_eq_ref (x : (⟨S8192x32, .f32⟩ : BufTy).Contents (Elt F)) (W1 : (⟨S128x32, .f32⟩ : BufTy).Contents (Elt F))
    (b1 : (⟨S128, .f32⟩ : BufTy).Contents (Elt F)) (W2 : (⟨S128x128, .f32⟩ : BufTy).Contents (Elt F))
    (b2 : (⟨S128, .f32⟩ : BufTy).Contents (Elt F)) :
    encB' x W1 b1 W2 b2 = Cert.ReferenceIdeal.Hand.encB x W1 b1 W2 b2 := rfl

end Cert.KernelIdeal.Hand

end
-- ==== Proof.Ref.Compose.lean ====
/-
  The fold over the whole operation list, read at the two result buffers (and at the two encoders'
  outputs): the stages' contents one after the other, each needed buffer either kept by a segment
  that does not write it or computed by the segment's layer from buffers already read.
-/
import proofs.«181597_j77979426226450_2_alg».proof.Proof.Ref.Value

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! ## The stages -/

/-- The second side's hidden state, from the launch contents. -/
def hidB (V : Valuation τ sig (Elt F)) : (⟨S8192x128, .f32⟩ : BufTy).Contents (Elt F) :=
  encB (V (Proc.devRef .tc main_arg1)) (V (Proc.devRef .tc main_arg8)) (V (Proc.devRef .tc main_arg9)) (V (Proc.devRef .tc main_arg10)) (V (Proc.devRef .tc main_arg11))

/-- The first side's state before the layers: the first encoder's output. -/
def st0 (V : Valuation τ sig (Elt F)) : (⟨S4096x128, .f32⟩ : BufTy).Contents (Elt F) :=
  encA (V (Proc.devRef .tc main_arg0)) (V (Proc.devRef .tc main_arg4)) (V (Proc.devRef .tc main_arg5)) (V (Proc.devRef .tc main_arg6)) (V (Proc.devRef .tc main_arg7))

/-- The first side's state after layer 0. -/
def st1 (V : Valuation τ sig (Elt F)) : (⟨S4096x128, .f32⟩ : BufTy).Contents (Elt F) :=
  layer 0 slices_S4x128x128_S1x128x128_0_0_0 slices_S4x128_S1x128_0_0 (V (Proc.devRef .tc main_arg2)) (V (Proc.devRef .tc main_arg3))
    (V (Proc.devRef .tc main_arg12)) (V (Proc.devRef .tc main_arg13)) (hidB V) (st0 V)

/-- The first side's state after layer 1. -/
def st2 (V : Valuation τ sig (Elt F)) : (⟨S4096x128, .f32⟩ : BufTy).Contents (Elt F) :=
  layer 1 slices_S4x128x128_S1x128x128_1_0_0 slices_S4x128_S1x128_1_0 (V (Proc.devRef .tc main_arg2)) (V (Proc.devRef .tc main_arg3))
    (V (Proc.devRef .tc main_arg12)) (V (Proc.devRef .tc main_arg13)) (hidB V) (st1 V)

/-- The first side's state after layer 2. -/
def st3 (V : Valuation τ sig (Elt F)) : (⟨S4096x128, .f32⟩ : BufTy).Contents (Elt F) :=
  layer 2 slices_S4x128x128_S1x128x128_2_0_0 slices_S4x128_S1x128_2_0 (V (Proc.devRef .tc main_arg2)) (V (Proc.devRef .tc main_arg3))
    (V (Proc.devRef .tc main_arg12)) (V (Proc.devRef .tc main_arg13)) (hidB V) (st2 V)

/-- The first side's state after layer 3. -/
def st4 (V : Valuation τ sig (Elt F)) : (⟨S4096x128, .f32⟩ : BufTy).Contents (Elt F) :=
  layer 3 slices_S4x128x128_S1x128x128_3_0_0 slices_S4x128_S1x128_3_0 (V (Proc.devRef .tc main_arg2)) (V (Proc.devRef .tc main_arg3))
    (V (Proc.devRef .tc main_arg12)) (V (Proc.devRef .tc main_arg13)) (hidB V) (st3 V)

/-- The second result, from the launch contents. -/
def res1 (V : Valuation τ sig (Elt F)) : (⟨S8192x384, .f32⟩ : BufTy).Contents (Elt F) :=
  out1 (V (Proc.devRef .tc main_arg2)) (V (Proc.devRef .tc main_arg3)) (hidB V) (st4 V)

/-- The device's buffer contents after the first `k` segments. -/
def U0 (V : Valuation τ sig (Elt F)) : Valuation τ sig (Elt F) := V
def U1 (V : Valuation τ sig (Elt F)) : Valuation τ sig (Elt F) := after segA (U0 V)
def U2 (V : Valuation τ sig (Elt F)) : Valuation τ sig (Elt F) := after segB (U1 V)
def U3 (V : Valuation τ sig (Elt F)) : Valuation τ sig (Elt F) := after segL0 (U2 V)
def U4 (V : Valuation τ sig (Elt F)) : Valuation τ sig (Elt F) := after segL1 (U3 V)
def U5 (V : Valuation τ sig (Elt F)) : Valuation τ sig (Elt F) := after segL2 (U4 V)
def U6 (V : Valuation τ sig (Elt F)) : Valuation τ sig (Elt F) := after segL3 (U5 V)
def U7 (V : Valuation τ sig (Elt F)) : Valuation τ sig (Elt F) := after segFin (U6 V)

theorem after_ops_U7 (V : Valuation τ sig (Elt F)) : after ops V = U7 V := after_ops V

/-! ## A buffer no segment so far writes -/
theorem U1_keep (V : Valuation τ sig (Elt F)) (r : Ref sig .tc) (h0 : r ∉ segA_W) :
    U1 V (Proc.devRef .tc r) = V (Proc.devRef .tc r) := (segA_keep _ r h0).trans (rfl)
theorem U2_keep (V : Valuation τ sig (Elt F)) (r : Ref sig .tc) (h0 : r ∉ segA_W) (h1 : r ∉ segB_W) :
    U2 V (Proc.devRef .tc r) = V (Proc.devRef .tc r) := (segB_keep _ r h1).trans (U1_keep V r h0)
theorem U3_keep (V : Valuation τ sig (Elt F)) (r : Ref sig .tc) (h0 : r ∉ segA_W) (h1 : r ∉ segB_W) (h2 : r ∉ segL0_W) :
    U3 V (Proc.devRef .tc r) = V (Proc.devRef .tc r) := (segL0_keep _ r h2).trans (U2_keep V r h0 h1)
theorem U4_keep (V : Valuation τ sig (Elt F)) (r : Ref sig .tc) (h0 : r ∉ segA_W) (h1 : r ∉ segB_W) (h2 : r ∉ segL0_W) (h3 : r ∉ segL1_W) :
    U4 V (Proc.devRef .tc r) = V (Proc.devRef .tc r) := (segL1_keep _ r h3).trans (U3_keep V r h0 h1 h2)
theorem U5_keep (V : Valuation τ sig (Elt F)) (r : Ref sig .tc) (h0 : r ∉ segA_W) (h1 : r ∉ segB_W) (h2 : r ∉ segL0_W) (h3 : r ∉ segL1_W) (h4 : r ∉ segL2_W) :
    U5 V (Proc.devRef .tc r) = V (Proc.devRef .tc r) := (segL2_keep _ r h4).trans (U4_keep V r h0 h1 h2 h3)
theorem U6_keep (V : Valuation τ sig (Elt F)) (r : Ref sig .tc) (h0 : r ∉ segA_W) (h1 : r ∉ segB_W) (h2 : r ∉ segL0_W) (h3 : r ∉ segL1_W) (h4 : r ∉ segL2_W) (h5 : r ∉ segL3_W) :
    U6 V (Proc.devRef .tc r) = V (Proc.devRef .tc r) := (segL3_keep _ r h5).trans (U5_keep V r h0 h1 h2 h3 h4)

/-! ## The encoders -/

theorem U1_v11 (V : Valuation τ sig (Elt F)) : U1 V (Proc.devRef .tc main_v11) = st0 V := segA_out V
theorem U2_v11 (V : Valuation τ sig (Elt F)) : U2 V (Proc.devRef .tc main_v11) = st0 V := (segB_keep _ main_v11 (by decide)).trans (U1_v11 V)
theorem U2_v23 (V : Valuation τ sig (Elt F)) : U2 V (Proc.devRef .tc main_v23) = hidB V :=
  (segB_out (U1 V)).trans (by
    rw [U1_keep V main_arg1 (by decide), U1_keep V main_arg8 (by decide), U1_keep V main_arg9 (by decide), U1_keep V main_arg10 (by decide), U1_keep V main_arg11 (by decide)]
    rfl)

/-! ## Layer 0 -/

theorem U3_v39 (V : Valuation τ sig (Elt F)) : U3 V (Proc.devRef .tc main_v39) = st1 V :=
  (segL0_out (U2 V)).trans (by
    rw [U2_keep V main_arg2 (by decide) (by decide), U2_keep V main_arg3 (by decide) (by decide), U2_keep V main_arg12 (by decide) (by decide), U2_keep V main_arg13 (by decide) (by decide),
      U2_v23 V, U2_v11 V]
    rfl)
theorem U3_v23 (V : Valuation τ sig (Elt F)) : U3 V (Proc.devRef .tc main_v23) = hidB V := (segL0_keep _ main_v23 (by decide)).trans (U2_v23 V)

/-! ## Layer 1 -/

theorem U4_v55 (V : Valuation τ sig (Elt F)) : U4 V (Proc.devRef .tc main_v55) = st2 V :=
  (segL1_out (U3 V)).trans (by
    rw [U3_keep V main_arg2 (by decide) (by decide) (by decide), U3_keep V main_arg3 (by decide) (by decide) (by decide), U3_keep V main_arg12 (by decide) (by decide) (by decide), U3_keep V main_arg13 (by decide) (by decide) (by decide),
      U3_v23 V, U3_v39 V]
    rfl)
theorem U4_v23 (V : Valuation τ sig (Elt F)) : U4 V (Proc.devRef .tc main_v23) = hidB V := (segL1_keep _ main_v23 (by decide)).trans (U3_v23 V)

/-! ## Layer 2 -/

theorem U5_v71 (V : Valuation τ sig (Elt F)) : U5 V (Proc.devRef .tc main_v71) = st3 V :=
  (segL2_out (U4 V)).trans (by
    rw [U4_keep V main_arg2 (by decide) (by decide) (by decide) (by decide), U4_keep V main_arg3 (by decide) (by decide) (by decide) (by decide), U4_keep V main_arg12 (by decide) (by decide) (by decide) (by decide), U4_keep V main_arg13 (by decide) (by decide) (by decide) (by decide),
      U4_v23 V, U4_v55 V]
    rfl)
theorem U5_v23 (V : Valuation τ sig (Elt F)) : U5 V (Proc.devRef .tc main_v23) = hidB V := (segL2_keep _ main_v23 (by decide)).trans (U4_v23 V)

/-! ## Layer 3 -/

theorem U6_v87 (V : Valuation τ sig (Elt F)) : U6 V (Proc.devRef .tc main_v87) = st4 V :=
  (segL3_out (U5 V)).trans (by
    rw [U5_keep V main_arg2 (by decide) (by decide) (by decide) (by decide) (by decide), U5_keep V main_arg3 (by decide) (by decide) (by decide) (by decide) (by decide), U5_keep V main_arg12 (by decide) (by decide) (by decide) (by decide) (by decide), U5_keep V main_arg13 (by decide) (by decide) (by decide) (by decide) (by decide),
      U5_v23 V, U5_v71 V]
    rfl)
theorem U6_v23 (V : Valuation τ sig (Elt F)) : U6 V (Proc.devRef .tc main_v23) = hidB V := (segL3_keep _ main_v23 (by decide)).trans (U5_v23 V)

/-! ## The results -/

/-- The first result buffer after the whole line: four layers over the first encoder's output. -/
theorem after_v87 (V : Valuation τ sig (Elt F)) : after ops V (Proc.devRef .tc main_v87) = st4 V := by
  rw [after_ops_U7]
  exact (segFin_keep _ main_v87 (by decide)).trans (U6_v87 V)

/-- The second result buffer after the whole line. -/
theorem after_v92 (V : Valuation τ sig (Elt F)) : after ops V (Proc.devRef .tc main_v92) = res1 V := by
  rw [after_ops_U7]
  exact (segFin_out (U6 V)).trans (by
    rw [U6_keep V main_arg2 (by decide) (by decide) (by decide) (by decide) (by decide) (by decide), U6_keep V main_arg3 (by decide) (by decide) (by decide) (by decide) (by decide) (by decide), U6_v23 V, U6_v87 V]
    rfl)

/-- The first encoder's output buffer after the whole line. -/
theorem after_segA_v11 (V : Valuation τ sig (Elt F)) :
    after ops V (Proc.devRef .tc main_v11)
      = encA (V (Proc.devRef .tc main_arg0)) (V (Proc.devRef .tc main_arg4)) (V (Proc.devRef .tc main_arg5)) (V (Proc.devRef .tc main_arg6)) (V (Proc.devRef .tc main_arg7)) := by
  rw [after_ops_U7]
  exact (segFin_keep _ main_v11 (by decide)).trans ((segL3_keep _ main_v11 (by decide)).trans ((segL2_keep _ main_v11 (by decide)).trans
    ((segL1_keep _ main_v11 (by decide)).trans ((segL0_keep _ main_v11 (by decide)).trans (U2_v11 V)))))

/-- The second encoder's output buffer after the whole line. -/
theorem after_segB_v23 (V : Valuation τ sig (Elt F)) :
    after ops V (Proc.devRef .tc main_v23)
      = encB (V (Proc.devRef .tc main_arg1)) (V (Proc.devRef .tc main_arg8)) (V (Proc.devRef .tc main_arg9)) (V (Proc.devRef .tc main_arg10)) (V (Proc.devRef .tc main_arg11)) := by
  rw [after_ops_U7]
  exact (segFin_keep _ main_v23 (by decide)).trans (U6_v23 V)

end Cert.ReferenceIdeal.Hand

end
-- ==== Proof.Ref.Read.lean ====
/-
  The reference's two results at the ideal values, index by index: every layer function of Ref/Value.lean
  read at an index is the textbook formula of the specification (a dot product as a finite sum over the
  contracted axis, a bias broadcast along rows, the leaky rectifier, the maximum with zero, a member of a
  stack of weights, three blocks side by side by columns).
-/
import proofs.«181597_j77979426226450_2_alg».proof.Proof.Ref.Compose
import proofs.«181597_j77979426226450_2_alg».proof.Proof.Spec
import Idealize.ShloMosaic.PureOps.Ideal.Laws
import Idealize.ShloMosaic.Lib.ValueIdx
import Idealize.ShloMosaic.Lib.ValueLayout
import Idealize.ShloMosaic.Lib.StackMember
import Idealize.ShloMosaic.Lib.IdealHost
import Idealize.ShloMosaic.Lib.Pipeline.Value

noncomputable section

namespace Cert.ReferenceIdeal.Hand

open Cert.ReferenceIdeal Cert.ReferenceIdeal.Gen Idealize.ShloMosaic Idealize.ShloMosaic.TcCoe Idealize.SL.Sem
open Idealize.ShloMosaic.StableHlo Idealize.ShloMosaic.ValueIdx Idealize.ShloMosaic.StackMember
open Cert.Spec (Arr2 Arr3)

/-! ## The operations at an index -/

/-- [4096,128] times [128,128] at (p, j): the sum over the 128 contracted coordinates. -/
theorem dot_a2_apply (A : Arr2 4096 128) (B : Arr2 128 128) (p : Fin 4096) (j : Fin 128) :
    Host.dotGeneral (F := Ideal) (φ₁ := .f32) (φ₂ := .f32) dot_S4096x128_S128x128_S4096x128_1_0_0_1_n_n none A B (ix2 p j)
      = ∑ k : Fin 128, A (ix2 p k) * B (ix2 k j) :=
  dotGeneral_plain_apply (m := 4096) (n := 128) (φ₁ := .f32) (φ₂ := .f32) none A B p j

/-- [8192,4096] times [4096,128] at (e, j): the sum over the 4096 contracted coordinates. -/
theorem dot_t_apply (A : Arr2 8192 4096) (B : Arr2 4096 128) (e : Fin 8192) (j : Fin 128) :
    Host.dotGeneral (F := Ideal) (φ₁ := .f32) (φ₂ := .f32) dot_S8192x4096_S4096x128_S8192x128_1_0_0_1_n_n none A B (ix2 e j)
      = ∑ v : Fin 4096, A (ix2 e v) * B (ix2 v j) :=
  dotGeneral_plain_apply (m := 8192) (n := 128) (φ₁ := .f32) (φ₂ := .f32) none A B e j

/-- [4096,8192] times [8192,128] at (p, j): the sum over the 8192 contracted coordinates. -/
theorem dot_g_apply (A : Arr2 4096 8192) (B : Arr2 8192 128) (p : Fin 4096) (j : Fin 128) :
    Host.dotGeneral (F := Ideal) (φ₁ := .f32) (φ₂ := .f32) dot_S4096x8192_S8192x128_S4096x128_1_0_0_1_n_n none A B (ix2 p j)
      = ∑ e : Fin 8192, A (ix2 p e) * B (ix2 e j) :=
  dotGeneral_plain_apply (m := 4096) (n := 128) (φ₁ := .f32) (φ₂ := .f32) none A B p j

/-- The incidence matrix transposed, times node features, at (e, j): the contraction over the FIRST axis of both. -/
theorem dotT_apply (A : Arr2 4096 8192) (B : Arr2 4096 128) (e : Fin 8192) (j : Fin 128) :
    Host.dotGeneral (F := Ideal) (φ₁ := .f32) (φ₂ := .f32) dot_S8192x4096_S4096x128_S8192x128_1_0_0_1_n_n none
        (transpose S8192x4096 [1, 0] A transposes_S4096x8192_S8192x4096_1_0) B (ix2 e j)
      = Spec.mmT A B e j := by
  rw [dot_t_apply]
  exact Finset.sum_congr rfl fun v _ => by rw [transpose_ix2_apply]

/-- The leaky rectifier at an index is the specification's activation. -/
theorem leaky4_apply (x : Arr2 4096 128) (i : S4096x128.Idx) :
    leaky4 (F := Ideal) x slope i = Spec.act (x i) := by
  unfold leaky4 slope Spec.act
  rw [select_apply, cmpf_apply, mulf_apply, broadcastInDim_scalar_apply, broadcastInDim_scalar_apply, constant_apply,
    Ideal.ofBits_zero_f32, Ideal.cmpf_def]
  show Scalar.select (Ideal.cmp .oge (x i) 0) (x i) (Ideal.ofBits .f32 0x3C23D70A#32 * x i) = _
  unfold Ideal.cmp Scalar.select Spec.slope
  by_cases h : (0 : EReal) ≤ x i
  · simp [h]
  · simp [h]

/-- The rectifier at an index: the maximum with zero. -/
theorem relu8_apply (x : Arr2 8192 128) (i : S8192x128.Idx) : relu8 (F := Ideal) x i = max (x i) 0 := by
  unfold relu8
  rw [maximumf_apply, broadcastInDim_scalar_apply, constant_apply, Ideal.ofBits_zero_f32]

/-- What the second side gathers is the specification's edge update. -/
theorem gather_eq (A3 : Arr2 4096 8192) (h : Arr2 8192 128) (a : Arr2 4096 128) :
    gather (F := Ideal) A3 h a = Spec.edgeUpd A3 a h := by
  funext i
  obtain ⟨e, j, rfl⟩ : ∃ (e : Fin 8192) (j : Fin 128), i = ix2 e j := ⟨i 0, i 1, eq_ix2 i⟩
  unfold gather
  rw [relu8_apply, addf_apply, dotT_apply]
  rfl

/-- The node residual at (p, k). -/
theorem nodeRes_apply (A2 : Arr2 4096 8192) (a : Arr2 4096 128) (X : Arr2 8192 128) (p : Fin 4096) (k : Fin 128) :
    addf (F := Ideal) (φ := .f32) a (Host.dotGeneral (F := Ideal) (φ₁ := .f32) (φ₂ := .f32) dot_S4096x8192_S8192x128_S4096x128_1_0_0_1_n_n none A2 X) (ix2 p k)
      = Spec.nodeRes A2 a X (ix2 p k) := by
  rw [addf_apply, dot_g_apply]
  rfl

/-- A bias vector broadcast along rows, at (p, j): the vector at j. -/
theorem bias4_apply (b : (⟨1, ![128]⟩ : Shape).Idx → EReal) (p : Fin 4096) (j : Fin 128) :
    bias4 (F := Ideal) b (ix2 p j) = b (ix1 j) := by
  unfold bias4
  rw [broadcastInDim_apply ![0, 1] bcast_S1x128_S4096x128_0_1 _ (ix2 p j) (ix2 (0 : Fin 1) j) (fun a => match a with
        | ⟨0, _⟩ => rfl
        | ⟨1, _⟩ => rfl),
    broadcastInDim_apply ![1] bcast_S128_S1x128_1 b (ix2 (0 : Fin 1) j) (ix1 j) (fun a => match a with
        | ⟨0, _⟩ => rfl)]

/-- Member `l` of the stack of weights, transposed, at (k, j): the weight at (l, j, k). -/
theorem stackW_apply (l : Nat) (hl : l < 4) (hW : S4x128x128.Slices ![l, 0, 0] S1x128x128) (W : Arr3 4 128 128)
    (k j : Fin 128) : stackW (F := Ideal) l hW W (ix2 k j) = W (ix3 (⟨l, hl⟩ : Fin 4) j k) := by
  unfold stackW
  rw [transpose_ix2_apply]
  show shapeCast S128x128 (extractStridedSlice S1x128x128 ![l, 0, 0] W hW) shapeCasts_S1x128x128_S128x128 (ix2 j k) = _
  rw [shapeCast_1ab_ab_apply]
  exact extractStridedSlice_apply _ W hW _ _ fun a => match a with
    | ⟨0, _⟩ => by show l = l + 0; rfl
    | ⟨1, _⟩ => by show j.val = 0 + j.val; omega
    | ⟨2, _⟩ => by show k.val = 0 + k.val; omega

/-- Member `l` of the stack of biases broadcast along rows, at (p, j): the bias at (l, j). -/
theorem stackB_apply (l : Nat) (hl : l < 4) (hb : S4x128.Slices ![l, 0] S1x128) (B : Arr2 4 128) (p : Fin 4096) (j : Fin 128) :
    stackB (F := Ideal) l hb B (ix2 p j) = B (ix2 (⟨l, hl⟩ : Fin 4) j) := by
  unfold stackB
  rw [bias4_apply]
  show shapeCast S128 (extractStridedSlice S1x128 ![l, 0] B hb) shapeCasts_S1x128_S128 (ix1 j) = _
  rw [shapeCast_1a_a_apply]
  exact extractStridedSlice_apply _ B hb _ _ fun a => match a with
    | ⟨0, _⟩ => by show l = l + 0; rfl
    | ⟨1, _⟩ => by show j.val = 0 + j.val; omega

/-! ## A layer is the specification's layer -/

theorem layer_eq (l : Nat) (hl : l < 4) (hW : S4x128x128.Slices ![l, 0, 0] S1x128x128) (hb : S4x128.Slices ![l, 0] S1x128)
    (A1 A2 : Arr2 4096 8192) (W : Arr3 4 128 128) (B : Arr2 4 128) (h : Arr2 8192 128) (a : Arr2 4096 128) :
    layer (F := Ideal) l hW hb A1 A2 W B h a = Spec.layer A1 A2 W B h ⟨l, hl⟩ a := by
  funext i
  obtain ⟨p, j, rfl⟩ : ∃ (p : Fin 4096) (j : Fin 128), i = ix2 p j := ⟨i 0, i 1, eq_ix2 i⟩
  unfold layer
  rw [leaky4_apply, addf_apply, dot_a2_apply, stackB_apply l hl, gather_eq]
  unfold Spec.layer Spec.nodeLayer
  refine congrArg Spec.act (congrArg (· + B (ix2 ⟨l, hl⟩ j)) (Finset.sum_congr rfl fun k _ => ?_))
  rw [nodeRes_apply, stackW_apply l hl]

/-! ## The three column blocks -/

theorem heOut_lo (A1 A2 : Arr2 4096 8192) (hv : Arr2 4096 128) (he : Arr2 8192 128) (e : Fin 8192) (c : Fin 384)
    (h1 : c.val < 128) : Spec.heOut A1 A2 hv he (ix2 e c) = Spec.mmT A1 hv e ⟨c.val, h1⟩ := by
  unfold Spec.heOut; exact dif_pos h1
theorem heOut_mid (A1 A2 : Arr2 4096 8192) (hv : Arr2 4096 128) (he : Arr2 8192 128) (e : Fin 8192) (c : Fin 384)
    (h1 : ¬ c.val < 128) (h2 : c.val < 256) :
    Spec.heOut A1 A2 hv he (ix2 e c) = Spec.mmT A2 hv e ⟨c.val - 128, by omega⟩ := by
  unfold Spec.heOut; exact (dif_neg h1).trans (dif_pos h2)
theorem heOut_hi (A1 A2 : Arr2 4096 8192) (hv : Arr2 4096 128) (he : Arr2 8192 128) (e : Fin 8192) (c : Fin 384)
    (h1 : ¬ c.val < 128) (h2 : ¬ c.val < 256) :
    Spec.heOut A1 A2 hv he (ix2 e c) = he (ix2 e ⟨c.val - 256, by have := c.isLt; omega⟩) := by
  unfold Spec.heOut; exact (dif_neg h1).trans (dif_neg h2)

/-- The second result's function is the specification's edge output. -/
theorem out1_eq (A1 A2 : Arr2 4096 8192) (h : Arr2 8192 128) (a : Arr2 4096 128) :
    out1 (F := Ideal) A1 A2 h a = Spec.heOut A1 A2 a h := by
  funext i
  obtain ⟨e, c, rfl⟩ : ∃ (e : Fin 8192) (c : Fin 384), i = ix2 e c := ⟨i 0, i 1, eq_ix2 i⟩
  unfold out1
  have hi : ∀ (c' : Fin 128) (b : Fin S8192x128.rank), b.cast (rfl : S8192x128.rank = S8192x384.rank) ≠ (1 : Fin 2) →
      ((ix2 e c' : S8192x128.Idx) b).val = ((ix2 e c : S8192x384.Idx) (b.cast rfl)).val :=
    fun c' b hb => match b, hb with
      | ⟨0, _⟩, _ => rfl
      | ⟨1, _⟩, hb => absurd rfl hb
  show concatenate S8192x384 1 (List.ofFn fun n : Fin 3 => (⟨S8192x128, (![
      Host.dotGeneral (F := Ideal) (φ₁ := .f32) (φ₂ := .f32) dot_S8192x4096_S4096x128_S8192x128_1_0_0_1_n_n none (transpose S8192x4096 [1, 0] A1 transposes_S4096x8192_S8192x4096_1_0) a,
      Host.dotGeneral (F := Ideal) (φ₁ := .f32) (φ₂ := .f32) dot_S8192x4096_S4096x128_S8192x128_1_0_0_1_n_n none (transpose S8192x4096 [1, 0] A2 transposes_S4096x8192_S8192x4096_1_0) a,
      h] : Fin 3 → S8192x128.Idx → EReal) n⟩ : (s : Shape) × (s.Idx → EReal)))
    concatenates_S8192x128_S8192x128_S8192x128_S8192x384_d1 (ix2 e c) = _
  by_cases h1 : c.val < 128
  · refine (concatenate_ofFn_apply (t := S8192x384) (s₁ := S8192x128) (1 : Fin 2) _ _ rfl 128 rfl (ix2 e c) (0 : Fin 3) (by show c.val / 128 = 0; omega)
      (ix2 e (⟨c.val, h1⟩ : Fin 128) : S8192x128.Idx) (by show c.val = c.val % 128; omega) (hi _)).trans ?_
    rw [heOut_lo A1 A2 a h e c h1]
    exact dotT_apply A1 a e ⟨c.val, h1⟩
  · by_cases h2 : c.val < 256
    · refine (concatenate_ofFn_apply (t := S8192x384) (s₁ := S8192x128) (1 : Fin 2) _ _ rfl 128 rfl (ix2 e c) (1 : Fin 3) (by show c.val / 128 = 1; omega)
        (ix2 e (⟨c.val - 128, by omega⟩ : Fin 128) : S8192x128.Idx) (by show c.val - 128 = c.val % 128; omega) (hi _)).trans ?_
      rw [heOut_mid A1 A2 a h e c h1 h2]
      exact dotT_apply A2 a e ⟨c.val - 128, by omega⟩
    · have hc := c.isLt
      refine (concatenate_ofFn_apply (t := S8192x384) (s₁ := S8192x128) (1 : Fin 2) _ _ rfl 128 rfl (ix2 e c) (2 : Fin 3) (by show c.val / 128 = 2; omega)
        (ix2 e (⟨c.val - 256, by omega⟩ : Fin 128) : S8192x128.Idx) (by show c.val - 256 = c.val % 128; omega) (hi _)).trans ?_
      rw [heOut_hi A1 A2 a h e c h1 h2]
      rfl

/-! ## The two results -/

/-- The first result: the specification's node features after the four layers, over the two encoders' outputs. -/
theorem ref_hv (V : Valuation τ sig (Elt Ideal)) :
    StableHlo.after ops V (Proc.devRef .tc main_v87)
      = Spec.hvOut (V (Proc.devRef .tc main_arg2)) (V (Proc.devRef .tc main_arg3)) (V (Proc.devRef .tc main_arg12)) (V (Proc.devRef .tc main_arg13))
          (encB (V (Proc.devRef .tc main_arg1)) (V (Proc.devRef .tc main_arg8)) (V (Proc.devRef .tc main_arg9)) (V (Proc.devRef .tc main_arg10)) (V (Proc.devRef .tc main_arg11)))
          (encA (V (Proc.devRef .tc main_arg0)) (V (Proc.devRef .tc main_arg4)) (V (Proc.devRef .tc main_arg5)) (V (Proc.devRef .tc main_arg6)) (V (Proc.devRef .tc main_arg7))) := by
  rw [after_v87]
  unfold st4 st3 st2 st1 st0 hidB Spec.hvOut
  rw [layer_eq 3 (by decide), layer_eq 2 (by decide), layer_eq 1 (by decide), layer_eq 0 (by decide)]
  rfl

/-- The second result: the specification's edge output over the first result and the second encoder's output. -/
theorem ref_he (V : Valuation τ sig (Elt Ideal)) :
    StableHlo.after ops V (Proc.devRef .tc main_v92)
      = Spec.heOut (V (Proc.devRef .tc main_arg2)) (V (Proc.devRef .tc main_arg3))
          (Spec.hvOut (V (Proc.devRef .tc main_arg2)) (V (Proc.devRef .tc main_arg3)) (V (Proc.devRef .tc main_arg12)) (V (Proc.devRef .tc main_arg13))
            (encB (V (Proc.devRef .tc main_arg1)) (V (Proc.devRef .tc main_arg8)) (V (Proc.devRef .tc main_arg9)) (V (Proc.devRef .tc main_arg10)) (V (Proc.devRef .tc main_arg11)))
            (encA (V (Proc.devRef .tc main_arg0)) (V (Proc.devRef .tc main_arg4)) (V (Proc.devRef .tc main_arg5)) (V (Proc.devRef .tc main_arg6)) (V (Proc.devRef .tc main_arg7))))
          (encB (V (Proc.devRef .tc main_arg1)) (V (Proc.devRef .tc main_arg8)) (V (Proc.devRef .tc main_arg9)) (V (Proc.devRef .tc main_arg10)) (V (Proc.devRef .tc main_arg11))) := by
  rw [after_v92, ← ref_hv V, after_v87]
  unfold res1
  rw [out1_eq]
  rfl

end Cert.ReferenceIdeal.Hand

end
-- ==== Proof.Algebraic.lean ====
/-
  The last claim: at the extended reals the two programs end with equal results.

  The kernel program's whole run ends every unscoped buffer at the last of its valuations; its two results there are
  the specification's node features after the four layers and its final edge output, as functions of the fourteen
  arguments (through the two encoders). The reference's run ends its two results at the fold of its operations,
  which is the same two functions of its own arguments (through its own encoders, which are the same functions).
  The two memories agree on the arguments, so the results are equal; the arguments themselves end unchanged on both
  sides.
-/
import proofs.«181597_j77979426226450_2_alg».proof.Defs
import proofs.«181597_j77979426226450_2_alg».proof.Proof.KI.Run
import proofs.«181597_j77979426226450_2_alg».proof.Proof.KI.Chain
import proofs.«181597_j77979426226450_2_alg».proof.Proof.KI.GlueEnc
import proofs.«181597_j77979426226450_2_alg».proof.Proof.Ref.Read
import proofs.«181597_j77979426226450_2_alg».proof.Proof.Ref.Run
import proofs.«181597_j77979426226450_2_alg».proof.Proof.Gen.KernelIdeal
import proofs.«181597_j77979426226450_2_alg».proof.Proof.Gen.ReferenceIdeal
import proofs.«181597_j77979426226450_2_alg».proof.Proof.Gen.Pre_finite_inputs

set_option maxRecDepth 16384

noncomputable section

namespace Cert.Proof.Claims

open Idealize.ShloMosaic Idealize.ShloMosaic.TcCoe Idealize.SL.Sem

/-- The node result is one function of the fourteen arguments on both sides: equal arguments give equal results. -/
theorem hv_agree (b0 : (⟨Cert.ReferenceIdeal.S4096x64, .f32⟩ : BufTy).Contents (Elt Ideal)) (b1 : (⟨Cert.ReferenceIdeal.S8192x32, .f32⟩ : BufTy).Contents (Elt Ideal)) (b2 : (⟨Cert.ReferenceIdeal.S4096x8192, .f32⟩ : BufTy).Contents (Elt Ideal)) (b3 : (⟨Cert.ReferenceIdeal.S4096x8192, .f32⟩ : BufTy).Contents (Elt Ideal)) (b4 : (⟨Cert.ReferenceIdeal.S128x64, .f32⟩ : BufTy).Contents (Elt Ideal)) (b5 : (⟨Cert.ReferenceIdeal.S128, .f32⟩ : BufTy).Contents (Elt Ideal)) (b6 : (⟨Cert.ReferenceIdeal.S128x128, .f32⟩ : BufTy).Contents (Elt Ideal)) (b7 : (⟨Cert.ReferenceIdeal.S128, .f32⟩ : BufTy).Contents (Elt Ideal)) (b8 : (⟨Cert.ReferenceIdeal.S128x32, .f32⟩ : BufTy).Contents (Elt Ideal)) (b9 : (⟨Cert.ReferenceIdeal.S128, .f32⟩ : BufTy).Contents (Elt Ideal)) (b10 : (⟨Cert.ReferenceIdeal.S128x128, .f32⟩ : BufTy).Contents (Elt Ideal)) (b11 : (⟨Cert.ReferenceIdeal.S128, .f32⟩ : BufTy).Contents (Elt Ideal)) (b12 : (⟨Cert.ReferenceIdeal.S4x128x128, .f32⟩ : BufTy).Contents (Elt Ideal)) (b13 : (⟨Cert.ReferenceIdeal.S4x128, .f32⟩ : BufTy).Contents (Elt Ideal))
    (a0 : (⟨Cert.KernelIdeal.S4096x64, .f32⟩ : BufTy).Contents (Elt Ideal)) (a1 : (⟨Cert.KernelIdeal.S8192x32, .f32⟩ : BufTy).Contents (Elt Ideal)) (a2 : (⟨Cert.KernelIdeal.S4096x8192, .f32⟩ : BufTy).Contents (Elt Ideal)) (a3 : (⟨Cert.KernelIdeal.S4096x8192, .f32⟩ : BufTy).Contents (Elt Ideal)) (a4 : (⟨Cert.KernelIdeal.S128x64, .f32⟩ : BufTy).Contents (Elt Ideal)) (a5 : (⟨Cert.KernelIdeal.S128, .f32⟩ : BufTy).Contents (Elt Ideal)) (a6 : (⟨Cert.KernelIdeal.S128x128, .f32⟩ : BufTy).Contents (Elt Ideal)) (a7 : (⟨Cert.KernelIdeal.S128, .f32⟩ : BufTy).Contents (Elt Ideal)) (a8 : (⟨Cert.KernelIdeal.S128x32, .f32⟩ : BufTy).Contents (Elt Ideal)) (a9 : (⟨Cert.KernelIdeal.S128, .f32⟩ : BufTy).Contents (Elt Ideal)) (a10 : (⟨Cert.KernelIdeal.S128x128, .f32⟩ : BufTy).Contents (Elt Ideal)) (a11 : (⟨Cert.KernelIdeal.S128, .f32⟩ : BufTy).Contents (Elt Ideal)) (a12 : (⟨Cert.KernelIdeal.S4x128x128, .f32⟩ : BufTy).Contents (Elt Ideal)) (a13 : (⟨Cert.KernelIdeal.S4x128, .f32⟩ : BufTy).Contents (Elt Ideal))
    (h0 : b0 = a0) (h1 : b1 = a1) (h2 : b2 = a2) (h3 : b3 = a3) (h4 : b4 = a4) (h5 : b5 = a5) (h6 : b6 = a6) (h7 : b7 = a7) (h8 : b8 = a8) (h9 : b9 = a9) (h10 : b10 = a10) (h11 : b11 = a11) (h12 : b12 = a12) (h13 : b13 = a13) :
    Cert.Spec.hvOut b2 b3 b12 b13 (Cert.ReferenceIdeal.Hand.encB b1 b8 b9 b10 b11) (Cert.ReferenceIdeal.Hand.encA b0 b4 b5 b6 b7)
      = Cert.Spec.hvOut a2 a3 a12 a13 (Cert.KernelIdeal.Hand.encB' a1 a8 a9 a10 a11) (Cert.KernelIdeal.Hand.encA' a0 a4 a5 a6 a7) := by
  subst h0 h1 h2 h3 h4 h5 h6 h7 h8 h9 h10 h11 h12 h13
  rw [Cert.KernelIdeal.Hand.encA'_eq_ref, Cert.KernelIdeal.Hand.encB'_eq_ref]

/-- The edge result likewise. -/
theorem he_agree (b0 : (⟨Cert.ReferenceIdeal.S4096x64, .f32⟩ : BufTy).Contents (Elt Ideal)) (b1 : (⟨Cert.ReferenceIdeal.S8192x32, .f32⟩ : BufTy).Contents (Elt Ideal)) (b2 : (⟨Cert.ReferenceIdeal.S4096x8192, .f32⟩ : BufTy).Contents (Elt Ideal)) (b3 : (⟨Cert.ReferenceIdeal.S4096x8192, .f32⟩ : BufTy).Contents (Elt Ideal)) (b4 : (⟨Cert.ReferenceIdeal.S128x64, .f32⟩ : BufTy).Contents (Elt Ideal)) (b5 : (⟨Cert.ReferenceIdeal.S128, .f32⟩ : BufTy).Contents (Elt Ideal)) (b6 : (⟨Cert.ReferenceIdeal.S128x128, .f32⟩ : BufTy).Contents (Elt Ideal)) (b7 : (⟨Cert.ReferenceIdeal.S128, .f32⟩ : BufTy).Contents (Elt Ideal)) (b8 : (⟨Cert.ReferenceIdeal.S128x32, .f32⟩ : BufTy).Contents (Elt Ideal)) (b9 : (⟨Cert.ReferenceIdeal.S128, .f32⟩ : BufTy).Contents (Elt Ideal)) (b10 : (⟨Cert.ReferenceIdeal.S128x128, .f32⟩ : BufTy).Contents (Elt Ideal)) (b11 : (⟨Cert.ReferenceIdeal.S128, .f32⟩ : BufTy).Contents (Elt Ideal)) (b12 : (⟨Cert.ReferenceIdeal.S4x128x128, .f32⟩ : BufTy).Contents (Elt Ideal)) (b13 : (⟨Cert.ReferenceIdeal.S4x128, .f32⟩ : BufTy).Contents (Elt Ideal))
    (a0 : (⟨Cert.KernelIdeal.S4096x64, .f32⟩ : BufTy).Contents (Elt Ideal)) (a1 : (⟨Cert.KernelIdeal.S8192x32, .f32⟩ : BufTy).Contents (Elt Ideal)) (a2 : (⟨Cert.KernelIdeal.S4096x8192, .f32⟩ : BufTy).Contents (Elt Ideal)) (a3 : (⟨Cert.KernelIdeal.S4096x8192, .f32⟩ : BufTy).Contents (Elt Ideal)) (a4 : (⟨Cert.KernelIdeal.S128x64, .f32⟩ : BufTy).Contents (Elt Ideal)) (a5 : (⟨Cert.KernelIdeal.S128, .f32⟩ : BufTy).Contents (Elt Ideal)) (a6 : (⟨Cert.KernelIdeal.S128x128, .f32⟩ : BufTy).Contents (Elt Ideal)) (a7 : (⟨Cert.KernelIdeal.S128, .f32⟩ : BufTy).Contents (Elt Ideal)) (a8 : (⟨Cert.KernelIdeal.S128x32, .f32⟩ : BufTy).Contents (Elt Ideal)) (a9 : (⟨Cert.KernelIdeal.S128, .f32⟩ : BufTy).Contents (Elt Ideal)) (a10 : (⟨Cert.KernelIdeal.S128x128, .f32⟩ : BufTy).Contents (Elt Ideal)) (a11 : (⟨Cert.KernelIdeal.S128, .f32⟩ : BufTy).Contents (Elt Ideal)) (a12 : (⟨Cert.KernelIdeal.S4x128x128, .f32⟩ : BufTy).Contents (Elt Ideal)) (a13 : (⟨Cert.KernelIdeal.S4x128, .f32⟩ : BufTy).Contents (Elt Ideal))
    (h0 : b0 = a0) (h1 : b1 = a1) (h2 : b2 = a2) (h3 : b3 = a3) (h4 : b4 = a4) (h5 : b5 = a5) (h6 : b6 = a6) (h7 : b7 = a7) (h8 : b8 = a8) (h9 : b9 = a9) (h10 : b10 = a10) (h11 : b11 = a11) (h12 : b12 = a12) (h13 : b13 = a13) :
    Cert.Spec.heOut b2 b3 (Cert.Spec.hvOut b2 b3 b12 b13 (Cert.ReferenceIdeal.Hand.encB b1 b8 b9 b10 b11) (Cert.ReferenceIdeal.Hand.encA b0 b4 b5 b6 b7)) (Cert.ReferenceIdeal.Hand.encB b1 b8 b9 b10 b11)
      = Cert.Spec.heOut a2 a3 (Cert.Spec.hvOut a2 a3 a12 a13 (Cert.KernelIdeal.Hand.encB' a1 a8 a9 a10 a11) (Cert.KernelIdeal.Hand.encA' a0 a4 a5 a6 a7)) (Cert.KernelIdeal.Hand.encB' a1 a8 a9 a10 a11) := by
  subst h0 h1 h2 h3 h4 h5 h6 h7 h8 h9 h10 h11 h12 h13
  rw [Cert.KernelIdeal.Hand.encA'_eq_ref, Cert.KernelIdeal.Hand.encB'_eq_ref]

/-- Both programs run; the kernel's results are the last valuation's, the reference's are the same functions of
    arguments that agree; every argument ends as it started on both sides. -/
theorem algebraic : Cert.algebraic_KernelIdeal_ReferenceIdeal := by
  intro m ρ m' ρ' hpre hagree
  refine ⟨fun c => Cert.KernelIdeal.Hand.W18 m c (Proc.devRef .tc Cert.KernelIdeal.main_v54),
    fun c => Cert.KernelIdeal.Hand.W18 m c (Proc.devRef .tc Cert.KernelIdeal.main_v55), ?_, ?_⟩
  · exact (θ_run (Cert.KernelIdeal.defs (F := Ideal)) _ _).mono (fun _ h c =>
      ⟨h c _ (Cert.KernelIdeal.Hand.mem_uc Cert.KernelIdeal.main_v54 (by decide)),
        h c _ (Cert.KernelIdeal.Hand.mem_uc Cert.KernelIdeal.main_v55 (by decide)),
        (h c _ (Cert.KernelIdeal.Hand.mem_uc Cert.KernelIdeal.main_arg0 (by decide))).trans (Cert.KernelIdeal.Hand.W18_main_arg0 m c),
        (h c _ (Cert.KernelIdeal.Hand.mem_uc Cert.KernelIdeal.main_arg1 (by decide))).trans (Cert.KernelIdeal.Hand.W18_main_arg1 m c),
        (h c _ (Cert.KernelIdeal.Hand.mem_uc Cert.KernelIdeal.main_arg2 (by decide))).trans (Cert.KernelIdeal.Hand.W18_main_arg2 m c),
        (h c _ (Cert.KernelIdeal.Hand.mem_uc Cert.KernelIdeal.main_arg3 (by decide))).trans (Cert.KernelIdeal.Hand.W18_main_arg3 m c),
        (h c _ (Cert.KernelIdeal.Hand.mem_uc Cert.KernelIdeal.main_arg4 (by decide))).trans (Cert.KernelIdeal.Hand.W18_main_arg4 m c),
        (h c _ (Cert.KernelIdeal.Hand.mem_uc Cert.KernelIdeal.main_arg5 (by decide))).trans (Cert.KernelIdeal.Hand.W18_main_arg5 m c),
        (h c _ (Cert.KernelIdeal.Hand.mem_uc Cert.KernelIdeal.main_arg6 (by decide))).trans (Cert.KernelIdeal.Hand.W18_main_arg6 m c),
        (h c _ (Cert.KernelIdeal.Hand.mem_uc Cert.KernelIdeal.main_arg7 (by decide))).trans (Cert.KernelIdeal.Hand.W18_main_arg7 m c),
        (h c _ (Cert.KernelIdeal.Hand.mem_uc Cert.KernelIdeal.main_arg8 (by decide))).trans (Cert.KernelIdeal.Hand.W18_main_arg8 m c),
        (h c _ (Cert.KernelIdeal.Hand.mem_uc Cert.KernelIdeal.main_arg9 (by decide))).trans (Cert.KernelIdeal.Hand.W18_main_arg9 m c),
        (h c _ (Cert.KernelIdeal.Hand.mem_uc Cert.KernelIdeal.main_arg10 (by decide))).trans (Cert.KernelIdeal.Hand.W18_main_arg10 m c),
        (h c _ (Cert.KernelIdeal.Hand.mem_uc Cert.KernelIdeal.main_arg11 (by decide))).trans (Cert.KernelIdeal.Hand.W18_main_arg11 m c),
        (h c _ (Cert.KernelIdeal.Hand.mem_uc Cert.KernelIdeal.main_arg12 (by decide))).trans (Cert.KernelIdeal.Hand.W18_main_arg12 m c),
        (h c _ (Cert.KernelIdeal.Hand.mem_uc Cert.KernelIdeal.main_arg13 (by decide))).trans (Cert.KernelIdeal.Hand.W18_main_arg13 m c)⟩)
      (Cert.KernelIdeal.Hand.run_all (F := Ideal) m ρ)
  · refine (θ_run (Cert.ReferenceIdeal.defs (F := Ideal)) _ _).mono
      (fun _ h c => ⟨(h c).1.trans ?_, (h c).2.1.trans ?_, (h c).2.2⟩)
      (Cert.ReferenceIdeal.Hand.run (F := Ideal) m' ρ')
    · rw [Cert.ReferenceIdeal.Hand.ref_hv]
      exact (hv_agree _ _ _ _ _ _ _ _ _ _ _ _ _ _ _ _ _ _ _ _ _ _ _ _ _ _ _ _
        (hagree c).1 (hagree c).2.1 (hagree c).2.2.1 (hagree c).2.2.2.1 (hagree c).2.2.2.2.1 (hagree c).2.2.2.2.2.1 (hagree c).2.2.2.2.2.2.1 (hagree c).2.2.2.2.2.2.2.1 (hagree c).2.2.2.2.2.2.2.2.1 (hagree c).2.2.2.2.2.2.2.2.2.1 (hagree c).2.2.2.2.2.2.2.2.2.2.1 (hagree c).2.2.2.2.2.2.2.2.2.2.2.1 (hagree c).2.2.2.2.2.2.2.2.2.2.2.2.1 (hagree c).2.2.2.2.2.2.2.2.2.2.2.2.2).trans
        (Cert.KernelIdeal.Hand.kernel_hv m hpre c).symm
    · rw [Cert.ReferenceIdeal.Hand.ref_he]
      exact (he_agree _ _ _ _ _ _ _ _ _ _ _ _ _ _ _ _ _ _ _ _ _ _ _ _ _ _ _ _
        (hagree c).1 (hagree c).2.1 (hagree c).2.2.1 (hagree c).2.2.2.1 (hagree c).2.2.2.2.1 (hagree c).2.2.2.2.2.1 (hagree c).2.2.2.2.2.2.1 (hagree c).2.2.2.2.2.2.2.1 (hagree c).2.2.2.2.2.2.2.2.1 (hagree c).2.2.2.2.2.2.2.2.2.1 (hagree c).2.2.2.2.2.2.2.2.2.2.1 (hagree c).2.2.2.2.2.2.2.2.2.2.2.1 (hagree c).2.2.2.2.2.2.2.2.2.2.2.2.1 (hagree c).2.2.2.2.2.2.2.2.2.2.2.2.2).trans
        (Cert.KernelIdeal.Hand.kernel_he m hpre c).symm

end Cert.Proof.Claims

end
-- ==== Proof.lean ====
/-
  A graph network with four message-passing layers: node features hv (4096 by 128), edge features he (8192 by 128), the two
  node-by-edge incidence matrices A1, A2. Each layer forms the edge update X = max(he + A2ᵀ·hv, 0), the node residual
  hv + A1·X, and a dense map with a leaky activation; the results are the last node features and the edge output
  [A1ᵀ·hv | A2ᵀ·hv | he].

  The kernel program computes each product A·B in nine regions, blocked over a grid (i, k) with the contraction split in two
  halves k = 0, 1 accumulated in a scratch buffer, and with the feature operand B fed twice: once rounded to bf16 and once as the
  rounded remainder B − round(B). Over the extended reals rounding is the identity, so the remainder is B − B, which is 0
  exactly when B is a real number: this is where finiteness of the inputs is used — every intermediate array is real when the
  inputs are, since sums, products, maxima, the leaky activation and tanh keep real numbers real. With the remainder gone
  the two halves add up to the whole contraction, and each region's output is, index by index, the reference's formula.

  The frames: each program's whole run leaves every unscoped buffer at a known contents, read at the fourteen arguments.
  The idealization removed one round trip through bf16 per region; each is its rule's statement.
-/
import proofs.«181597_j77979426226450_2_alg».proof.Defs
import proofs.«181597_j77979426226450_2_alg».proof.Proof.Claims
import proofs.«181597_j77979426226450_2_alg».proof.Proof.Algebraic
import proofs.«181597_j77979426226450_2_alg».proof.Proof.Gen.Kernel
import proofs.«181597_j77979426226450_2_alg».proof.Proof.Gen.KernelIdeal
import proofs.«181597_j77979426226450_2_alg».proof.Proof.Gen.ReferenceIdeal
import proofs.«181597_j77979426226450_2_alg».proof.Proof.Gen.Pre_finite_inputs
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
